-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33)) (m ((c.tc : Thread Cert.Kernel.nD Cert.Kernel.τ).loc Cert.Kernel.main_arg34)) (m ((c.tc : Thread Cert.Kernel.nD Cert.Kernel.τ).loc Cert.Kernel.main_arg35)) (m ((c.tc : Thread Cert.Kernel.nD Cert.Kernel.τ).loc Cert.Kernel.main_arg36)) (m ((c.tc : Thread Cert.Kernel.nD Cert.Kernel.τ).loc Cert.Kernel.main_arg37)) (m ((c.tc : Thread Cert.Kernel.nD Cert.Kernel.τ).loc Cert.Kernel.main_arg38)) (m ((c.tc : Thread Cert.Kernel.nD Cert.Kernel.τ).loc Cert.Kernel.main_arg39)) (m ((c.tc : Thread Cert.Kernel.nD Cert.Kernel.τ).loc Cert.Kernel.main_arg40)) (m ((c.tc : Thread Cert.Kernel.nD Cert.Kernel.τ).loc Cert.Kernel.main_arg41))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35)) (m ((c.tc : Thread Cert.KernelIdeal.nD Cert.KernelIdeal.τ).loc Cert.KernelIdeal.main_arg36)) (m ((c.tc : Thread Cert.KernelIdeal.nD Cert.KernelIdeal.τ).loc Cert.KernelIdeal.main_arg37)) (m ((c.tc : Thread Cert.KernelIdeal.nD Cert.KernelIdeal.τ).loc Cert.KernelIdeal.main_arg38)) (m ((c.tc : Thread Cert.KernelIdeal.nD Cert.KernelIdeal.τ).loc Cert.KernelIdeal.main_arg39)) (m ((c.tc : Thread Cert.KernelIdeal.nD Cert.KernelIdeal.τ).loc Cert.KernelIdeal.main_arg40)) (m ((c.tc : Thread Cert.KernelIdeal.nD Cert.KernelIdeal.τ).loc Cert.KernelIdeal.main_arg41))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34)) (m ((c.tc : Thread Cert.ReferenceIdeal.nD Cert.ReferenceIdeal.τ).loc Cert.ReferenceIdeal.main_arg35)) (m ((c.tc : Thread Cert.ReferenceIdeal.nD Cert.ReferenceIdeal.τ).loc Cert.ReferenceIdeal.main_arg36)) (m ((c.tc : Thread Cert.ReferenceIdeal.nD Cert.ReferenceIdeal.τ).loc Cert.ReferenceIdeal.main_arg37)) (m ((c.tc : Thread Cert.ReferenceIdeal.nD Cert.ReferenceIdeal.τ).loc Cert.ReferenceIdeal.main_arg38)) (m ((c.tc : Thread Cert.ReferenceIdeal.nD Cert.ReferenceIdeal.τ).loc Cert.ReferenceIdeal.main_arg39)) (m ((c.tc : Thread Cert.ReferenceIdeal.nD Cert.ReferenceIdeal.τ).loc Cert.ReferenceIdeal.main_arg40)) (m ((c.tc : Thread Cert.ReferenceIdeal.nD Cert.ReferenceIdeal.τ).loc Cert.ReferenceIdeal.main_arg41))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34)
      ∧ r.2.mem ((c.tc : Thread Cert.Kernel.nD Cert.Kernel.τ).loc Cert.Kernel.main_arg35) = m ((c.tc : Thread Cert.Kernel.nD Cert.Kernel.τ).loc Cert.Kernel.main_arg35)
      ∧ r.2.mem ((c.tc : Thread Cert.Kernel.nD Cert.Kernel.τ).loc Cert.Kernel.main_arg36) = m ((c.tc : Thread Cert.Kernel.nD Cert.Kernel.τ).loc Cert.Kernel.main_arg36)
      ∧ r.2.mem ((c.tc : Thread Cert.Kernel.nD Cert.Kernel.τ).loc Cert.Kernel.main_arg37) = m ((c.tc : Thread Cert.Kernel.nD Cert.Kernel.τ).loc Cert.Kernel.main_arg37)
      ∧ r.2.mem ((c.tc : Thread Cert.Kernel.nD Cert.Kernel.τ).loc Cert.Kernel.main_arg38) = m ((c.tc : Thread Cert.Kernel.nD Cert.Kernel.τ).loc Cert.Kernel.main_arg38)
      ∧ r.2.mem ((c.tc : Thread Cert.Kernel.nD Cert.Kernel.τ).loc Cert.Kernel.main_arg39) = m ((c.tc : Thread Cert.Kernel.nD Cert.Kernel.τ).loc Cert.Kernel.main_arg39)
      ∧ r.2.mem ((c.tc : Thread Cert.Kernel.nD Cert.Kernel.τ).loc Cert.Kernel.main_arg40) = m ((c.tc : Thread Cert.Kernel.nD Cert.Kernel.τ).loc Cert.Kernel.main_arg40)
      ∧ r.2.mem ((c.tc : Thread Cert.Kernel.nD Cert.Kernel.τ).loc Cert.Kernel.main_arg41) = m ((c.tc : Thread Cert.Kernel.nD Cert.Kernel.τ).loc Cert.Kernel.main_arg41))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
      ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
      ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
      ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
      ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38)
      ∧ r.2.mem ((c.tc : Thread Cert.KernelIdeal.nD Cert.KernelIdeal.τ).loc Cert.KernelIdeal.main_arg39) = m ((c.tc : Thread Cert.KernelIdeal.nD Cert.KernelIdeal.τ).loc Cert.KernelIdeal.main_arg39)
      ∧ r.2.mem ((c.tc : Thread Cert.KernelIdeal.nD Cert.KernelIdeal.τ).loc Cert.KernelIdeal.main_arg40) = m ((c.tc : Thread Cert.KernelIdeal.nD Cert.KernelIdeal.τ).loc Cert.KernelIdeal.main_arg40)
      ∧ r.2.mem ((c.tc : Thread Cert.KernelIdeal.nD Cert.KernelIdeal.τ).loc Cert.KernelIdeal.main_arg41) = m ((c.tc : Thread Cert.KernelIdeal.nD Cert.KernelIdeal.τ).loc Cert.KernelIdeal.main_arg41))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34)
      ∧ r.2.mem ((c.tc : Thread Cert.ReferenceIdeal.nD Cert.ReferenceIdeal.τ).loc Cert.ReferenceIdeal.main_arg35) = m ((c.tc : Thread Cert.ReferenceIdeal.nD Cert.ReferenceIdeal.τ).loc Cert.ReferenceIdeal.main_arg35)
      ∧ r.2.mem ((c.tc : Thread Cert.ReferenceIdeal.nD Cert.ReferenceIdeal.τ).loc Cert.ReferenceIdeal.main_arg36) = m ((c.tc : Thread Cert.ReferenceIdeal.nD Cert.ReferenceIdeal.τ).loc Cert.ReferenceIdeal.main_arg36)
      ∧ r.2.mem ((c.tc : Thread Cert.ReferenceIdeal.nD Cert.ReferenceIdeal.τ).loc Cert.ReferenceIdeal.main_arg37) = m ((c.tc : Thread Cert.ReferenceIdeal.nD Cert.ReferenceIdeal.τ).loc Cert.ReferenceIdeal.main_arg37)
      ∧ r.2.mem ((c.tc : Thread Cert.ReferenceIdeal.nD Cert.ReferenceIdeal.τ).loc Cert.ReferenceIdeal.main_arg38) = m ((c.tc : Thread Cert.ReferenceIdeal.nD Cert.ReferenceIdeal.τ).loc Cert.ReferenceIdeal.main_arg38)
      ∧ r.2.mem ((c.tc : Thread Cert.ReferenceIdeal.nD Cert.ReferenceIdeal.τ).loc Cert.ReferenceIdeal.main_arg39) = m ((c.tc : Thread Cert.ReferenceIdeal.nD Cert.ReferenceIdeal.τ).loc Cert.ReferenceIdeal.main_arg39)
      ∧ r.2.mem ((c.tc : Thread Cert.ReferenceIdeal.nD Cert.ReferenceIdeal.τ).loc Cert.ReferenceIdeal.main_arg40) = m ((c.tc : Thread Cert.ReferenceIdeal.nD Cert.ReferenceIdeal.τ).loc Cert.ReferenceIdeal.main_arg40)
      ∧ r.2.mem ((c.tc : Thread Cert.ReferenceIdeal.nD Cert.ReferenceIdeal.τ).loc Cert.ReferenceIdeal.main_arg41) = m ((c.tc : Thread Cert.ReferenceIdeal.nD Cert.ReferenceIdeal.τ).loc Cert.ReferenceIdeal.main_arg41))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)
      ∧ m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36)
      ∧ m' ((c.tc : Thread Cert.ReferenceIdeal.nD Cert.ReferenceIdeal.τ).loc Cert.ReferenceIdeal.main_arg37) = m ((c.tc : Thread Cert.KernelIdeal.nD Cert.KernelIdeal.τ).loc Cert.KernelIdeal.main_arg37)
      ∧ m' ((c.tc : Thread Cert.ReferenceIdeal.nD Cert.ReferenceIdeal.τ).loc Cert.ReferenceIdeal.main_arg38) = m ((c.tc : Thread Cert.KernelIdeal.nD Cert.KernelIdeal.τ).loc Cert.KernelIdeal.main_arg38)
      ∧ m' ((c.tc : Thread Cert.ReferenceIdeal.nD Cert.ReferenceIdeal.τ).loc Cert.ReferenceIdeal.main_arg39) = m ((c.tc : Thread Cert.KernelIdeal.nD Cert.KernelIdeal.τ).loc Cert.KernelIdeal.main_arg39)
      ∧ m' ((c.tc : Thread Cert.ReferenceIdeal.nD Cert.ReferenceIdeal.τ).loc Cert.ReferenceIdeal.main_arg40) = m ((c.tc : Thread Cert.KernelIdeal.nD Cert.KernelIdeal.τ).loc Cert.KernelIdeal.main_arg40)
      ∧ m' ((c.tc : Thread Cert.ReferenceIdeal.nD Cert.ReferenceIdeal.τ).loc Cert.ReferenceIdeal.main_arg41) = m ((c.tc : Thread Cert.KernelIdeal.nD Cert.KernelIdeal.τ).loc Cert.KernelIdeal.main_arg41)) →
    ∃ (v0 : (c : Dev Cert.KernelIdeal.nD) → Buf (Elt Ideal) ((c.tc : Thread Cert.KernelIdeal.nD Cert.KernelIdeal.τ).loc Cert.KernelIdeal.main_v266)) (v1 : (c : Dev Cert.KernelIdeal.nD) → Buf (Elt Ideal) ((c.tc : Thread Cert.KernelIdeal.nD Cert.KernelIdeal.τ).loc Cert.KernelIdeal.main_v110)) (v2 : (c : Dev Cert.KernelIdeal.nD) → Buf (Elt Ideal) ((c.tc : Thread Cert.KernelIdeal.nD Cert.KernelIdeal.τ).loc Cert.KernelIdeal.main_v155)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v266) = v0 c
          ∧ r.2.mem ((c.tc : Thread Cert.KernelIdeal.nD Cert.KernelIdeal.τ).loc Cert.KernelIdeal.main_v110) = v1 c
          ∧ r.2.mem ((c.tc : Thread Cert.KernelIdeal.nD Cert.KernelIdeal.τ).loc Cert.KernelIdeal.main_v155) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
          ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
          ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
          ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
          ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38)
          ∧ r.2.mem ((c.tc : Thread Cert.KernelIdeal.nD Cert.KernelIdeal.τ).loc Cert.KernelIdeal.main_arg39) = m ((c.tc : Thread Cert.KernelIdeal.nD Cert.KernelIdeal.τ).loc Cert.KernelIdeal.main_arg39)
          ∧ r.2.mem ((c.tc : Thread Cert.KernelIdeal.nD Cert.KernelIdeal.τ).loc Cert.KernelIdeal.main_arg40) = m ((c.tc : Thread Cert.KernelIdeal.nD Cert.KernelIdeal.τ).loc Cert.KernelIdeal.main_arg40)
          ∧ r.2.mem ((c.tc : Thread Cert.KernelIdeal.nD Cert.KernelIdeal.τ).loc Cert.KernelIdeal.main_arg41) = m ((c.tc : Thread Cert.KernelIdeal.nD Cert.KernelIdeal.τ).loc Cert.KernelIdeal.main_arg41))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v446) = v0 c
          ∧ r.2.mem ((c.tc : Thread Cert.ReferenceIdeal.nD Cert.ReferenceIdeal.τ).loc Cert.ReferenceIdeal.main_v186) = v1 c
          ∧ r.2.mem ((c.tc : Thread Cert.ReferenceIdeal.nD Cert.ReferenceIdeal.τ).loc Cert.ReferenceIdeal.main_v259) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34)
          ∧ r.2.mem ((c.tc : Thread Cert.ReferenceIdeal.nD Cert.ReferenceIdeal.τ).loc Cert.ReferenceIdeal.main_arg35) = m' ((c.tc : Thread Cert.ReferenceIdeal.nD Cert.ReferenceIdeal.τ).loc Cert.ReferenceIdeal.main_arg35)
          ∧ r.2.mem ((c.tc : Thread Cert.ReferenceIdeal.nD Cert.ReferenceIdeal.τ).loc Cert.ReferenceIdeal.main_arg36) = m' ((c.tc : Thread Cert.ReferenceIdeal.nD Cert.ReferenceIdeal.τ).loc Cert.ReferenceIdeal.main_arg36)
          ∧ r.2.mem ((c.tc : Thread Cert.ReferenceIdeal.nD Cert.ReferenceIdeal.τ).loc Cert.ReferenceIdeal.main_arg37) = m' ((c.tc : Thread Cert.ReferenceIdeal.nD Cert.ReferenceIdeal.τ).loc Cert.ReferenceIdeal.main_arg37)
          ∧ r.2.mem ((c.tc : Thread Cert.ReferenceIdeal.nD Cert.ReferenceIdeal.τ).loc Cert.ReferenceIdeal.main_arg38) = m' ((c.tc : Thread Cert.ReferenceIdeal.nD Cert.ReferenceIdeal.τ).loc Cert.ReferenceIdeal.main_arg38)
          ∧ r.2.mem ((c.tc : Thread Cert.ReferenceIdeal.nD Cert.ReferenceIdeal.τ).loc Cert.ReferenceIdeal.main_arg39) = m' ((c.tc : Thread Cert.ReferenceIdeal.nD Cert.ReferenceIdeal.τ).loc Cert.ReferenceIdeal.main_arg39)
          ∧ r.2.mem ((c.tc : Thread Cert.ReferenceIdeal.nD Cert.ReferenceIdeal.τ).loc Cert.ReferenceIdeal.main_arg40) = m' ((c.tc : Thread Cert.ReferenceIdeal.nD Cert.ReferenceIdeal.τ).loc Cert.ReferenceIdeal.main_arg40)
          ∧ r.2.mem ((c.tc : Thread Cert.ReferenceIdeal.nD Cert.ReferenceIdeal.τ).loc Cert.ReferenceIdeal.main_arg41) = m' ((c.tc : Thread Cert.ReferenceIdeal.nD Cert.ReferenceIdeal.τ).loc Cert.ReferenceIdeal.main_arg41))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S100000x64 : Shape := ⟨2, ![100000, 64]⟩
abbrev S2x2000000 : Shape := ⟨2, ![2, 2000000]⟩
abbrev S64x64 : Shape := ⟨2, ![64, 64]⟩
abbrev S64 : Shape := ⟨1, ![64]⟩
abbrev S32x64 : Shape := ⟨2, ![32, 64]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_

variable [Facts]

def fn_part9 {F : FTy → Type} [FloatOps F] (main_arg40 : FVec F S64 .f32) (main_arg41 : FVec F S64 .f32) (main_v153 : IVec S_ 1) : IVec S_ 1 :=
  let main_v154 : FVec F S64 .f32 := Host.absf main_arg40
  let main_cst_60 : FVec F S_ .f32 := constant S_ .f32 0x7F800000#32
  let main_v155 : FVec F S64 .f32 := broadcastInDim S64 ![] bcast_S_S64 main_cst_60
  let main_v156 : IVec S64 1 := cmpf .olt main_v154 main_v155
  let main_c_61 : IVec S_ 1 := constantI S_ 1 1#1
  let main_v157 : IVec S_ 1 := (fun x v => Host.reduce IntOp.andi x v reducesTo_S64_S_d0 h_S_) main_v156 main_c_61
  let main_v158 : IVec S_ 1 := andi main_v153 main_v157
  let main_v159 : FVec F S64 .f32 := Host.absf main_arg41
  let main_cst_62 : FVec F S_ .f32 := constant S_ .f32 0x7F800000#32
  let main_v160 : FVec F S64 .f32 := broadcastInDim S64 ![] bcast_S_S64 main_cst_62
  let main_v161 : IVec S64 1 := cmpf .olt main_v159 main_v160
  let main_c_63 : IVec S_ 1 := constantI S_ 1 1#1
  let main_v162 : IVec S_ 1 := (fun x v => Host.reduce IntOp.andi x v reducesTo_S64_S_d0 h_S_) main_v161 main_c_63
  let main_v163 : IVec S_ 1 := andi main_v158 main_v162
  main_v163

def fn_part8 {F : FTy → Type} [FloatOps F] (main_arg37 : FVec F S64 .f32) (main_arg38 : FVec F S64 .f32) (main_arg39 : FVec F S64 .f32) (main_arg40 : FVec F S64 .f32) (main_arg41 : FVec F S64 .f32) (main_v133 : IVec S_ 1) (main_v136 : IVec S64 1) : IVec S_ 1 :=
  let main_c_53 : IVec S_ 1 := constantI S_ 1 1#1
  let main_v137 : IVec S_ 1 := (fun x v => Host.reduce IntOp.andi x v reducesTo_S64_S_d0 h_S_) main_v136 main_c_53
  let main_v138 : IVec S_ 1 := andi main_v133 main_v137
  let main_v139 : FVec F S64 .f32 := Host.absf main_arg37
  let main_cst_54 : FVec F S_ .f32 := constant S_ .f32 0x7F800000#32
  let main_v140 : FVec F S64 .f32 := broadcastInDim S64 ![] bcast_S_S64 main_cst_54
  let main_v141 : IVec S64 1 := cmpf .olt main_v139 main_v140
  let main_c_55 : IVec S_ 1 := constantI S_ 1 1#1
  let main_v142 : IVec S_ 1 := (fun x v => Host.reduce IntOp.andi x v reducesTo_S64_S_d0 h_S_) main_v141 main_c_55
  let main_v143 : IVec S_ 1 := andi main_v138 main_v142
  let main_v144 : FVec F S64 .f32 := Host.absf main_arg38
  let main_cst_56 : FVec F S_ .f32 := constant S_ .f32 0x7F800000#32
  let main_v145 : FVec F S64 .f32 := broadcastInDim S64 ![] bcast_S_S64 main_cst_56
  let main_v146 : IVec S64 1 := cmpf .olt main_v144 main_v145
  let main_c_57 : IVec S_ 1 := constantI S_ 1 1#1
  let main_v147 : IVec S_ 1 := (fun x v => Host.reduce IntOp.andi x v reducesTo_S64_S_d0 h_S_) main_v146 main_c_57
  let main_v148 : IVec S_ 1 := andi main_v143 main_v147
  let main_v149 : FVec F S64 .f32 := Host.absf main_arg39
  let main_cst_58 : FVec F S_ .f32 := constant S_ .f32 0x7F800000#32
  let main_v150 : FVec F S64 .f32 := broadcastInDim S64 ![] bcast_S_S64 main_cst_58
  let main_v151 : IVec S64 1 := cmpf .olt main_v149 main_v150
  let main_c_59 : IVec S_ 1 := constantI S_ 1 1#1
  let main_v152 : IVec S_ 1 := (fun x v => Host.reduce IntOp.andi x v reducesTo_S64_S_d0 h_S_) main_v151 main_c_59
  let main_v153 : IVec S_ 1 := andi main_v148 main_v152
  fn_part9 (F := F) main_arg40 main_arg41 main_v153

def fn_part7 {F : FTy → Type} [FloatOps F] (main_arg34 : FVec F S64x64 .f32) (main_arg35 : FVec F S64 .f32) (main_arg36 : FVec F S64 .f32) (main_arg37 : FVec F S64 .f32) (main_arg38 : FVec F S64 .f32) (main_arg39 : FVec F S64 .f32) (main_arg40 : FVec F S64 .f32) (main_arg41 : FVec F S64 .f32) (main_v118 : IVec S_ 1) (main_v119 : FVec F S64 .f32) : IVec S_ 1 :=
  let main_cst_46 : FVec F S_ .f32 := constant S_ .f32 0x7F800000#32
  let main_v120 : FVec F S64 .f32 := broadcastInDim S64 ![] bcast_S_S64 main_cst_46
  let main_v121 : IVec S64 1 := cmpf .olt main_v119 main_v120
  let main_c_47 : IVec S_ 1 := constantI S_ 1 1#1
  let main_v122 : IVec S_ 1 := (fun x v => Host.reduce IntOp.andi x v reducesTo_S64_S_d0 h_S_) main_v121 main_c_47
  let main_v123 : IVec S_ 1 := andi main_v118 main_v122
  let main_v124 : FVec F S64x64 .f32 := Host.absf main_arg34
  let main_cst_48 : FVec F S_ .f32 := constant S_ .f32 0x7F800000#32
  let main_v125 : FVec F S64x64 .f32 := broadcastInDim S64x64 ![] bcast_S_S64x64 main_cst_48
  let main_v126 : IVec S64x64 1 := cmpf .olt main_v124 main_v125
  let main_c_49 : IVec S_ 1 := constantI S_ 1 1#1
  let main_v127 : IVec S_ 1 := (fun x v => Host.reduce IntOp.andi x v reducesTo_S64x64_S_d0_1 h_S_) main_v126 main_c_49
  let main_v128 : IVec S_ 1 := andi main_v123 main_v127
  let main_v129 : FVec F S64 .f32 := Host.absf main_arg35
  let main_cst_50 : FVec F S_ .f32 := constant S_ .f32 0x7F800000#32
  let main_v130 : FVec F S64 .f32 := broadcastInDim S64 ![] bcast_S_S64 main_cst_50
  let main_v131 : IVec S64 1 := cmpf .olt main_v129 main_v130
  let main_c_51 : IVec S_ 1 := constantI S_ 1 1#1
  let main_v132 : IVec S_ 1 := (fun x v => Host.reduce IntOp.andi x v reducesTo_S64_S_d0 h_S_) main_v131 main_c_51
  let main_v133 : IVec S_ 1 := andi main_v128 main_v132
  let main_v134 : FVec F S64 .f32 := Host.absf main_arg36
  let main_cst_52 : FVec F S_ .f32 := constant S_ .f32 0x7F800000#32
  let main_v135 : FVec F S64 .f32 := broadcastInDim S64 ![] bcast_S_S64 main_cst_52
  let main_v136 : IVec S64 1 := cmpf .olt main_v134 main_v135
  fn_part8 (F := F) main_arg37 main_arg38 main_arg39 main_arg40 main_arg41 main_v133 main_v136

def fn_part6 {F : FTy → Type} [FloatOps F] (main_arg30 : FVec F S64x64 .f32) (main_arg31 : FVec F S64 .f32) (main_arg32 : FVec F S64x64 .f32) (main_arg33 : FVec F S64 .f32) (main_arg34 : FVec F S64x64 .f32) (main_arg35 : FVec F S64 .f32) (main_arg36 : FVec F S64 .f32) (main_arg37 : FVec F S64 .f32) (main_arg38 : FVec F S64 .f32) (main_arg39 : FVec F S64 .f32) (main_arg40 : FVec F S64 .f32) (main_arg41 : FVec F S64 .f32) (main_v98 : IVec S_ 1) (main_v101 : IVec S64x64 1) (main_c_39 : IVec S_ 1) : IVec S_ 1 :=
  let main_v102 : IVec S_ 1 := (fun x v => Host.reduce IntOp.andi x v reducesTo_S64x64_S_d0_1 h_S_) main_v101 main_c_39
  let main_v103 : IVec S_ 1 := andi main_v98 main_v102
  let main_v104 : FVec F S64x64 .f32 := Host.absf main_arg30
  let main_cst_40 : FVec F S_ .f32 := constant S_ .f32 0x7F800000#32
  let main_v105 : FVec F S64x64 .f32 := broadcastInDim S64x64 ![] bcast_S_S64x64 main_cst_40
  let main_v106 : IVec S64x64 1 := cmpf .olt main_v104 main_v105
  let main_c_41 : IVec S_ 1 := constantI S_ 1 1#1
  let main_v107 : IVec S_ 1 := (fun x v => Host.reduce IntOp.andi x v reducesTo_S64x64_S_d0_1 h_S_) main_v106 main_c_41
  let main_v108 : IVec S_ 1 := andi main_v103 main_v107
  let main_v109 : FVec F S64 .f32 := Host.absf main_arg31
  let main_cst_42 : FVec F S_ .f32 := constant S_ .f32 0x7F800000#32
  let main_v110 : FVec F S64 .f32 := broadcastInDim S64 ![] bcast_S_S64 main_cst_42
  let main_v111 : IVec S64 1 := cmpf .olt main_v109 main_v110
  let main_c_43 : IVec S_ 1 := constantI S_ 1 1#1
  let main_v112 : IVec S_ 1 := (fun x v => Host.reduce IntOp.andi x v reducesTo_S64_S_d0 h_S_) main_v111 main_c_43
  let main_v113 : IVec S_ 1 := andi main_v108 main_v112
  let main_v114 : FVec F S64x64 .f32 := Host.absf main_arg32
  let main_cst_44 : FVec F S_ .f32 := constant S_ .f32 0x7F800000#32
  let main_v115 : FVec F S64x64 .f32 := broadcastInDim S64x64 ![] bcast_S_S64x64 main_cst_44
  let main_v116 : IVec S64x64 1 := cmpf .olt main_v114 main_v115
  let main_c_45 : IVec S_ 1 := constantI S_ 1 1#1
  let main_v117 : IVec S_ 1 := (fun x v => Host.reduce IntOp.andi x v reducesTo_S64x64_S_d0_1 h_S_) main_v116 main_c_45
  let main_v118 : IVec S_ 1 := andi main_v113 main_v117
  let main_v119 : FVec F S64 .f32 := Host.absf main_arg33
  fn_part7 (F := F) main_arg34 main_arg35 main_arg36 main_arg37 main_arg38 main_arg39 main_arg40 main_arg41 main_v118 main_v119

def fn_part5 {F : FTy → Type} [FloatOps F] (main_arg27 : FVec F S64x64 .f32) (main_arg28 : FVec F S64 .f32) (main_arg29 : FVec F S64x64 .f32) (main_arg30 : FVec F S64x64 .f32) (main_arg31 : FVec F S64 .f32) (main_arg32 : FVec F S64x64 .f32) (main_arg33 : FVec F S64 .f32) (main_arg34 : FVec F S64x64 .f32) (main_arg35 : FVec F S64 .f32) (main_arg36 : FVec F S64 .f32) (main_arg37 : FVec F S64 .f32) (main_arg38 : FVec F S64 .f32) (main_arg39 : FVec F S64 .f32) (main_arg40 : FVec F S64 .f32) (main_arg41 : FVec F S64 .f32) (main_v83 : IVec S_ 1) (main_v84 : FVec F S64x64 .f32) (main_cst_32 : FVec F S_ .f32) : IVec S_ 1 :=
  let main_v85 : FVec F S64x64 .f32 := broadcastInDim S64x64 ![] bcast_S_S64x64 main_cst_32
  let main_v86 : IVec S64x64 1 := cmpf .olt main_v84 main_v85
  let main_c_33 : IVec S_ 1 := constantI S_ 1 1#1
  let main_v87 : IVec S_ 1 := (fun x v => Host.reduce IntOp.andi x v reducesTo_S64x64_S_d0_1 h_S_) main_v86 main_c_33
  let main_v88 : IVec S_ 1 := andi main_v83 main_v87
  let main_v89 : FVec F S64x64 .f32 := Host.absf main_arg27
  let main_cst_34 : FVec F S_ .f32 := constant S_ .f32 0x7F800000#32
  let main_v90 : FVec F S64x64 .f32 := broadcastInDim S64x64 ![] bcast_S_S64x64 main_cst_34
  let main_v91 : IVec S64x64 1 := cmpf .olt main_v89 main_v90
  let main_c_35 : IVec S_ 1 := constantI S_ 1 1#1
  let main_v92 : IVec S_ 1 := (fun x v => Host.reduce IntOp.andi x v reducesTo_S64x64_S_d0_1 h_S_) main_v91 main_c_35
  let main_v93 : IVec S_ 1 := andi main_v88 main_v92
  let main_v94 : FVec F S64 .f32 := Host.absf main_arg28
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S64x64 .f32 := Host.absf main_arg29
  let main_cst_38 : FVec F S_ .f32 := constant S_ .f32 0x7F800000#32
  let main_v100 : FVec F S64x64 .f32 := broadcastInDim S64x64 ![] bcast_S_S64x64 main_cst_38
  let main_v101 : IVec S64x64 1 := cmpf .olt main_v99 main_v100
  let main_c_39 : IVec S_ 1 := constantI S_ 1 1#1
  fn_part6 (F := F) main_arg30 main_arg31 main_arg32 main_arg33 main_arg34 main_arg35 main_arg36 main_arg37 main_arg38 main_arg39 main_arg40 main_arg41 main_v98 main_v101 main_c_39

def fn_part4 {F : FTy → Type} [FloatOps F] (main_arg23 : FVec F S64x64 .f32) (main_arg24 : FVec F S64x64 .f32) (main_arg25 : FVec F S64 .f32) (main_arg26 : FVec F S64x64 .f32) (main_arg27 : FVec F S64x64 .f32) (main_arg28 : FVec F S64 .f32) (main_arg29 : FVec F S64x64 .f32) (main_arg30 : FVec F S64x64 .f32) (main_arg31 : FVec F S64 .f32) (main_arg32 : FVec F S64x64 .f32) (main_arg33 : FVec F S64 .f32) (main_arg34 : FVec F S64x64 .f32) (main_arg35 : FVec F S64 .f32) (main_arg36 : FVec F S64 .f32) (main_arg37 : FVec F S64 .f32) (main_arg38 : FVec F S64 .f32) (main_arg39 : FVec F S64 .f32) (main_arg40 : FVec F S64 .f32) (main_arg41 : FVec F S64 .f32) (main_v63 : IVec S_ 1) (main_v67 : IVec S_ 1) : IVec S_ 1 :=
  let main_v68 : IVec S_ 1 := andi main_v63 main_v67
  let main_v69 : FVec F S64x64 .f32 := Host.absf main_arg23
  let main_cst_26 : FVec F S_ .f32 := constant S_ .f32 0x7F800000#32
  let main_v70 : FVec F S64x64 .f32 := broadcastInDim S64x64 ![] bcast_S_S64x64 main_cst_26
  let main_v71 : IVec S64x64 1 := cmpf .olt main_v69 main_v70
  let main_c_27 : IVec S_ 1 := constantI S_ 1 1#1
  let main_v72 : IVec S_ 1 := (fun x v => Host.reduce IntOp.andi x v reducesTo_S64x64_S_d0_1 h_S_) main_v71 main_c_27
  let main_v73 : IVec S_ 1 := andi main_v68 main_v72
  let main_v74 : FVec F S64x64 .f32 := Host.absf main_arg24
  let main_cst_28 : FVec F S_ .f32 := constant S_ .f32 0x7F800000#32
  let main_v75 : FVec F S64x64 .f32 := broadcastInDim S64x64 ![] bcast_S_S64x64 main_cst_28
  let main_v76 : IVec S64x64 1 := cmpf .olt main_v74 main_v75
  let main_c_29 : IVec S_ 1 := constantI S_ 1 1#1
  let main_v77 : IVec S_ 1 := (fun x v => Host.reduce IntOp.andi x v reducesTo_S64x64_S_d0_1 h_S_) main_v76 main_c_29
  let main_v78 : IVec S_ 1 := andi main_v73 main_v77
  let main_v79 : FVec F S64 .f32 := Host.absf main_arg25
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64x64 .f32 := Host.absf main_arg26
  let main_cst_32 : FVec F S_ .f32 := constant S_ .f32 0x7F800000#32
  fn_part5 (F := F) main_arg27 main_arg28 main_arg29 main_arg30 main_arg31 main_arg32 main_arg33 main_arg34 main_arg35 main_arg36 main_arg37 main_arg38 main_arg39 main_arg40 main_arg41 main_v83 main_v84 main_cst_32

def fn_part3 {F : FTy → Type} [FloatOps F] (main_arg20 : FVec F S32x64 .f32) (main_arg21 : FVec F S64x64 .f32) (main_arg22 : FVec F S64 .f32) (main_arg23 : FVec F S64x64 .f32) (main_arg24 : FVec F S64x64 .f32) (main_arg25 : FVec F S64 .f32) (main_arg26 : FVec F S64x64 .f32) (main_arg27 : FVec F S64x64 .f32) (main_arg28 : FVec F S64 .f32) (main_arg29 : FVec F S64x64 .f32) (main_arg30 : FVec F S64x64 .f32) (main_arg31 : FVec F S64 .f32) (main_arg32 : FVec F S64x64 .f32) (main_arg33 : FVec F S64 .f32) (main_arg34 : FVec F S64x64 .f32) (main_arg35 : FVec F S64 .f32) (main_arg36 : FVec F S64 .f32) (main_arg37 : FVec F S64 .f32) (main_arg38 : FVec F S64 .f32) (main_arg39 : FVec F S64 .f32) (main_arg40 : FVec F S64 .f32) (main_arg41 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S32x64 .f32 := Host.absf main_arg20
  let main_cst_20 : FVec F S_ .f32 := constant S_ .f32 0x7F800000#32
  let main_v55 : FVec F S32x64 .f32 := broadcastInDim S32x64 ![] bcast_S_S32x64 main_cst_20
  let main_v56 : IVec S32x64 1 := cmpf .olt main_v54 main_v55
  let main_c_21 : IVec S_ 1 := constantI S_ 1 1#1
  let main_v57 : IVec S_ 1 := (fun x v => Host.reduce IntOp.andi x v reducesTo_S32x64_S_d0_1 h_S_) main_v56 main_c_21
  let main_v58 : IVec S_ 1 := andi main_v53 main_v57
  let main_v59 : FVec F S64x64 .f32 := Host.absf main_arg21
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg22
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg23 main_arg24 main_arg25 main_arg26 main_arg27 main_arg28 main_arg29 main_arg30 main_arg31 main_arg32 main_arg33 main_arg34 main_arg35 main_arg36 main_arg37 main_arg38 main_arg39 main_arg40 main_arg41 main_v63 main_v67

def fn_part2 {F : FTy → Type} [FloatOps F] (main_arg16 : FVec F S64 .f32) (main_arg17 : FVec F S64x64 .f32) (main_arg18 : FVec F S64x64 .f32) (main_arg19 : FVec F S64 .f32) (main_arg20 : FVec F S32x64 .f32) (main_arg21 : FVec F S64x64 .f32) (main_arg22 : FVec F S64 .f32) (main_arg23 : FVec F S64x64 .f32) (main_arg24 : FVec F S64x64 .f32) (main_arg25 : FVec F S64 .f32) (main_arg26 : FVec F S64x64 .f32) (main_arg27 : FVec F S64x64 .f32) (main_arg28 : FVec F S64 .f32) (main_arg29 : FVec F S64x64 .f32) (main_arg30 : FVec F S64x64 .f32) (main_arg31 : FVec F S64 .f32) (main_arg32 : FVec F S64x64 .f32) (main_arg33 : FVec F S64 .f32) (main_arg34 : FVec F S64x64 .f32) (main_arg35 : FVec F S64 .f32) (main_arg36 : FVec F S64 .f32) (main_arg37 : FVec F S64 .f32) (main_arg38 : FVec F S64 .f32) (main_arg39 : FVec F S64 .f32) (main_arg40 : FVec F S64 .f32) (main_arg41 : FVec F S64 .f32) (main_v33 : IVec S_ 1) : IVec S_ 1 :=
  let main_v34 : FVec F S64 .f32 := Host.absf main_arg16
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg17
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64x64 .f32 := Host.absf main_arg18
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg19
  let main_cst_18 : FVec F S_ .f32 := constant S_ .f32 0x7F800000#32
  let main_v50 : FVec F S64 .f32 := broadcastInDim S64 ![] bcast_S_S64 main_cst_18
  fn_part3 (F := F) main_arg20 main_arg21 main_arg22 main_arg23 main_arg24 main_arg25 main_arg26 main_arg27 main_arg28 main_arg29 main_arg30 main_arg31 main_arg32 main_arg33 main_arg34 main_arg35 main_arg36 main_arg37 main_arg38 main_arg39 main_arg40 main_arg41 main_v48 main_v49 main_v50

def fn_part1 {F : FTy → Type} [FloatOps F] (main_arg13 : FVec F S64 .f32) (main_arg14 : FVec F S32x64 .f32) (main_arg15 : FVec F S64x64 .f32) (main_arg16 : FVec F S64 .f32) (main_arg17 : FVec F S64x64 .f32) (main_arg18 : FVec F S64x64 .f32) (main_arg19 : FVec F S64 .f32) (main_arg20 : FVec F S32x64 .f32) (main_arg21 : FVec F S64x64 .f32) (main_arg22 : FVec F S64 .f32) (main_arg23 : FVec F S64x64 .f32) (main_arg24 : FVec F S64x64 .f32) (main_arg25 : FVec F S64 .f32) (main_arg26 : FVec F S64x64 .f32) (main_arg27 : FVec F S64x64 .f32) (main_arg28 : FVec F S64 .f32) (main_arg29 : FVec F S64x64 .f32) (main_arg30 : FVec F S64x64 .f32) (main_arg31 : FVec F S64 .f32) (main_arg32 : FVec F S64x64 .f32) (main_arg33 : FVec F S64 .f32) (main_arg34 : FVec F S64x64 .f32) (main_arg35 : FVec F S64 .f32) (main_arg36 : FVec F S64 .f32) (main_arg37 : FVec F S64 .f32) (main_arg38 : FVec F S64 .f32) (main_arg39 : FVec F S64 .f32) (main_arg40 : FVec F S64 .f32) (main_arg41 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg13
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S32x64 .f32 := Host.absf main_arg14
  let main_cst_8 : FVec F S_ .f32 := constant S_ .f32 0x7F800000#32
  let main_v25 : FVec F S32x64 .f32 := broadcastInDim S32x64 ![] bcast_S_S32x64 main_cst_8
  let main_v26 : IVec S32x64 1 := cmpf .olt main_v24 main_v25
  let main_c_9 : IVec S_ 1 := constantI S_ 1 1#1
  let main_v27 : IVec S_ 1 := (fun x v => Host.reduce IntOp.andi x v reducesTo_S32x64_S_d0_1 h_S_) main_v26 main_c_9
  let main_v28 : IVec S_ 1 := andi main_v23 main_v27
  let main_v29 : FVec F S64x64 .f32 := Host.absf main_arg15
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_arg39 main_arg40 main_arg41 main_v33

def fn {F : FTy → Type} [FloatOps F] (main_arg0 : FVec F S100000x32 .f32) (main_arg1 : FVec F S100000x64 .f32) (main_arg2 : FVec F S100000x32 .f32) (main_arg3 : IVec S2x2000000 32) (main_arg4 : IVec S2x2000000 32) (main_arg5 : IVec S2x2000000 32) (main_arg6 : IVec S2x2000000 32) (main_arg7 : IVec S2x2000000 32) (main_arg8 : IVec S2x2000000 32) (main_arg9 : IVec S2x2000000 32) (main_arg10 : IVec S2x2000000 32) (main_arg11 : IVec S2x2000000 32) (main_arg12 : FVec F S64x64 .f32) (main_arg13 : FVec F S64 .f32) (main_arg14 : FVec F S32x64 .f32) (main_arg15 : FVec F S64x64 .f32) (main_arg16 : FVec F S64 .f32) (main_arg17 : FVec F S64x64 .f32) (main_arg18 : FVec F S64x64 .f32) (main_arg19 : FVec F S64 .f32) (main_arg20 : FVec F S32x64 .f32) (main_arg21 : FVec F S64x64 .f32) (main_arg22 : FVec F S64 .f32) (main_arg23 : FVec F S64x64 .f32) (main_arg24 : FVec F S64x64 .f32) (main_arg25 : FVec F S64 .f32) (main_arg26 : FVec F S64x64 .f32) (main_arg27 : FVec F S64x64 .f32) (main_arg28 : FVec F S64 .f32) (main_arg29 : FVec F S64x64 .f32) (main_arg30 : FVec F S64x64 .f32) (main_arg31 : FVec F S64 .f32) (main_arg32 : FVec F S64x64 .f32) (main_arg33 : FVec F S64 .f32) (main_arg34 : FVec F S64x64 .f32) (main_arg35 : FVec F S64 .f32) (main_arg36 : FVec F S64 .f32) (main_arg37 : FVec F S64 .f32) (main_arg38 : FVec F S64 .f32) (main_arg39 : FVec F S64 .f32) (main_arg40 : FVec F S64 .f32) (main_arg41 : FVec F S64 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S100000x32 .f32 := Host.absf main_arg2
  let main_cst_2 : FVec F S_ .f32 := constant S_ .f32 0x7F800000#32
  let main_v10 : FVec F S100000x32 .f32 := broadcastInDim S100000x32 ![] bcast_S_S100000x32 main_cst_2
  let main_v11 : IVec S100000x32 1 := cmpf .olt main_v9 main_v10
  let main_c_3 : IVec S_ 1 := constantI S_ 1 1#1
  let main_v12 : IVec S_ 1 := (fun x v => Host.reduce IntOp.andi x v reducesTo_S100000x32_S_d0_1 h_S_) main_v11 main_c_3
  let main_v13 : IVec S_ 1 := andi main_v8 main_v12
  let main_v14 : FVec F S64x64 .f32 := Host.absf main_arg12
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_arg39 main_arg40 main_arg41 main_v13 main_v16
-- ==== Kernel.lean ====
abbrev S100000x32 : Shape := ⟨2, ![100000, 32]⟩
abbrev S100000x64 : Shape := ⟨2, ![100000, 64]⟩
abbrev S2x2000000 : Shape := ⟨2, ![2, 2000000]⟩
abbrev S64x64 : Shape := ⟨2, ![64, 64]⟩
abbrev S64 : Shape := ⟨1, ![64]⟩
abbrev S32x64 : Shape := ⟨2, ![32, 64]⟩
abbrev S1x2000000 : Shape := ⟨2, ![1, 2000000]⟩
abbrev S2000000 : Shape := ⟨1, ![2000000]⟩
abbrev S_ : Shape := ⟨0, ![]⟩
abbrev S2000000x1 : Shape := ⟨2, ![2000000, 1]⟩
abbrev S2000000x64 : Shape := ⟨2, ![2000000, 64]⟩
abbrev S100000 : Shape := ⟨1, ![100000]⟩
abbrev S100000x1 : Shape := ⟨2, ![100000, 1]⟩
abbrev S5000x64 : Shape := ⟨2, ![5000, 64]⟩
abbrev S5000x1 : Shape := ⟨2, ![5000, 1]⟩
abbrev S5000x32 : Shape := ⟨2, ![5000, 32]⟩
abbrev S1x64 : Shape := ⟨2, ![1, 64]⟩
abbrev S5000 : Shape := ⟨1, ![5000]⟩
abbrev S50000x128 : Shape := ⟨2, ![50000, 128]⟩
abbrev S1x128 : Shape := ⟨2, ![1, 128]⟩
abbrev S128 : Shape := ⟨1, ![128]⟩
abbrev S5000x128 : Shape := ⟨2, ![5000, 128]⟩

abbrev nBuf : Space → Nat
  | .hbm => 372
  | .vmem => 144
  | .smem => 0
  | _ => 0

abbrev hbmTy0_0 (i : Nat) : BufTy := match i % 128 with
  | 0 => ⟨S100000x32, .f32⟩
  | 1 => ⟨S100000x64, .f32⟩
  | 2 => ⟨S100000x32, .f32⟩
  | 3 => ⟨S2x2000000, .i32⟩
  | 4 => ⟨S2x2000000, .i32⟩
  | 5 => ⟨S2x2000000, .i32⟩
  | 6 => ⟨S2x2000000, .i32⟩
  | 7 => ⟨S2x2000000, .i32⟩
  | 8 => ⟨S2x2000000, .i32⟩
  | 9 => ⟨S2x2000000, .i32⟩
  | 10 => ⟨S2x2000000, .i32⟩
  | 11 => ⟨S2x2000000, .i32⟩
  | 12 => ⟨S64x64, .f32⟩
  | 13 => ⟨S64, .f32⟩
  | 14 => ⟨S32x64, .f32⟩
  | 15 => ⟨S64x64, .f32⟩
  | 16 => ⟨S64, .f32⟩
  | 17 => ⟨S64x64, .f32⟩
  | 18 => ⟨S64x64, .f32⟩
  | 19 => ⟨S64, .f32⟩
  | 20 => ⟨S32x64, .f32⟩
  | 21 => ⟨S64x64, .f32⟩
  | 22 => ⟨S64, .f32⟩
  | 23 => ⟨S64x64, .f32⟩
  | 24 => ⟨S64x64, .f32⟩
  | 25 => ⟨S64, .f32⟩
  | 26 => ⟨S64x64, .f32⟩
  | 27 => ⟨S64x64, .f32⟩
  | 28 => ⟨S64, .f32⟩
  | 29 => ⟨S64x64, .f32⟩
  | 30 => ⟨S64x64, .f32⟩
  | 31 => ⟨S64, .f32⟩
  | 32 => ⟨S64x64, .f32⟩
  | 33 => ⟨S64, .f32⟩
  | 34 => ⟨S64x64, .f32⟩
  | 35 => ⟨S64, .f32⟩
  | 36 => ⟨S64, .f32⟩
  | 37 => ⟨S64, .f32⟩
  | 38 => ⟨S64, .f32⟩
  | 39 => ⟨S64, .f32⟩
  | 40 => ⟨S64, .f32⟩
  | 41 => ⟨S64, .f32⟩
  | 42 => ⟨S1x2000000, .i32⟩
  | 43 => ⟨S2000000, .i32⟩
  | 44 => ⟨S1x2000000, .i32⟩
  | 45 => ⟨S2000000, .i32⟩
  | 46 => ⟨S100000x64, .bf16⟩
  | 47 => ⟨S_, .i32⟩
  | 48 => ⟨S2000000, .i32⟩
  | 49 => ⟨S2000000, .i1⟩
  | 50 => ⟨S_, .i32⟩
  | 51 => ⟨S2000000, .i32⟩
  | 52 => ⟨S2000000, .i32⟩
  | 53 => ⟨S2000000, .i32⟩
  | 54 => ⟨S2000000x1, .i32⟩
  | 55 => ⟨S2000000x64, .bf16⟩
  | 56 => ⟨S2000000x64, .f32⟩
  | 57 => ⟨S_, .f32⟩
  | 58 => ⟨S100000x64, .f32⟩
  | 59 => ⟨S2000000x1, .i32⟩
  | 60 => ⟨S100000x64, .f32⟩
  | 61 => ⟨S_, .f32⟩
  | 62 => ⟨S2000000, .f32⟩
  | 63 => ⟨S_, .f32⟩
  | 64 => ⟨S100000, .f32⟩
  | 65 => ⟨S2000000x1, .i32⟩
  | 66 => ⟨S100000, .f32⟩
  | 67 => ⟨S100000x1, .f32⟩
  | 68 => ⟨S100000x64, .f32⟩
  | 69 => ⟨S1x2000000, .i32⟩
  | 70 => ⟨S2000000, .i32⟩
  | 71 => ⟨S1x2000000, .i32⟩
  | 72 => ⟨S2000000, .i32⟩
  | 73 => ⟨S100000x64, .bf16⟩
  | 74 => ⟨S_, .i32⟩
  | 75 => ⟨S2000000, .i32⟩
  | 76 => ⟨S2000000, .i1⟩
  | 77 => ⟨S_, .i32⟩
  | 78 => ⟨S2000000, .i32⟩
  | 79 => ⟨S2000000, .i32⟩
  | 80 => ⟨S2000000, .i32⟩
  | 81 => ⟨S2000000x1, .i32⟩
  | 82 => ⟨S2000000x64, .bf16⟩
  | 83 => ⟨S2000000x64, .f32⟩
  | 84 => ⟨S_, .f32⟩
  | 85 => ⟨S100000x64, .f32⟩
  | 86 => ⟨S2000000x1, .i32⟩
  | 87 => ⟨S100000x64, .f32⟩
  | 88 => ⟨S_, .f32⟩
  | 89 => ⟨S2000000, .f32⟩
  | 90 => ⟨S_, .f32⟩
  | 91 => ⟨S100000, .f32⟩
  | 92 => ⟨S2000000x1, .i32⟩
  | 93 => ⟨S100000, .f32⟩
  | 94 => ⟨S100000x1, .f32⟩
  | 95 => ⟨S100000x64, .f32⟩
  | 96 => ⟨S1x2000000, .i32⟩
  | 97 => ⟨S2000000, .i32⟩
  | 98 => ⟨S1x2000000, .i32⟩
  | 99 => ⟨S2000000, .i32⟩
  | 100 => ⟨S100000x64, .bf16⟩
  | 101 => ⟨S_, .i32⟩
  | 102 => ⟨S2000000, .i32⟩
  | 103 => ⟨S2000000, .i1⟩
  | 104 => ⟨S_, .i32⟩
  | 105 => ⟨S2000000, .i32⟩
  | 106 => ⟨S2000000, .i32⟩
  | 107 => ⟨S2000000, .i32⟩
  | 108 => ⟨S2000000x1, .i32⟩
  | 109 => ⟨S2000000x64, .bf16⟩
  | 110 => ⟨S2000000x64, .f32⟩
  | 111 => ⟨S_, .f32⟩
  | 112 => ⟨S100000x64, .f32⟩
  | 113 => ⟨S2000000x1, .i32⟩
  | 114 => ⟨S100000x64, .f32⟩
  | 115 => ⟨S_, .f32⟩
  | 116 => ⟨S2000000, .f32⟩
  | 117 => ⟨S_, .f32⟩
  | 118 => ⟨S100000, .f32⟩
  | 119 => ⟨S2000000x1, .i32⟩
  | 120 => ⟨S100000, .f32⟩
  | 121 => ⟨S100000x1, .f32⟩
  | 122 => ⟨S100000x64, .f32⟩
  | 123 => ⟨S100000x64, .f32⟩
  | 124 => ⟨S1x2000000, .i32⟩
  | 125 => ⟨S2000000, .i32⟩
  | 126 => ⟨S1x2000000, .i32⟩
  | 127 => ⟨S2000000, .i32⟩
  | _ => ⟨S100000x32, .f32⟩

abbrev hbmTy0_1 (i : Nat) : BufTy := match i % 128 with
  | 0 => ⟨S_, .f32⟩
  | 1 => ⟨S2000000, .f32⟩
  | 2 => ⟨S_, .f32⟩
  | 3 => ⟨S100000, .f32⟩
  | 4 => ⟨S2000000x1, .i32⟩
  | 5 => ⟨S100000, .f32⟩
  | 6 => ⟨S_, .f32⟩
  | 7 => ⟨S100000, .f32⟩
  | 8 => ⟨S100000, .f32⟩
  | 9 => ⟨S100000, .f32⟩
  | 10 => ⟨S100000x1, .f32⟩
  | 11 => ⟨S100000x64, .f32⟩
  | 12 => ⟨S100000x64, .f32⟩
  | 13 => ⟨S100000x64, .bf16⟩
  | 14 => ⟨S_, .i32⟩
  | 15 => ⟨S2000000, .i32⟩
  | 16 => ⟨S2000000, .i1⟩
  | 17 => ⟨S_, .i32⟩
  | 18 => ⟨S2000000, .i32⟩
  | 19 => ⟨S2000000, .i32⟩
  | 20 => ⟨S2000000, .i32⟩
  | 21 => ⟨S2000000x1, .i32⟩
  | 22 => ⟨S2000000x64, .bf16⟩
  | 23 => ⟨S2000000x64, .f32⟩
  | 24 => ⟨S_, .f32⟩
  | 25 => ⟨S100000x64, .f32⟩
  | 26 => ⟨S2000000x1, .i32⟩
  | 27 => ⟨S100000x64, .f32⟩
  | 28 => ⟨S100000x1, .f32⟩
  | 29 => ⟨S100000x64, .f32⟩
  | 30 => ⟨S1x64, .f32⟩
  | 31 => ⟨S1x64, .f32⟩
  | 32 => ⟨S_, .f32⟩
  | 33 => ⟨S1x64, .f32⟩
  | 34 => ⟨S1x64, .f32⟩
  | 35 => ⟨S_, .f32⟩
  | 36 => ⟨S1x64, .f32⟩
  | 37 => ⟨S1x64, .f32⟩
  | 38 => ⟨S1x64, .f32⟩
  | 39 => ⟨S1x64, .f32⟩
  | 40 => ⟨S_, .f32⟩
  | 41 => ⟨S1x64, .f32⟩
  | 42 => ⟨S1x64, .f32⟩
  | 43 => ⟨S1x64, .f32⟩
  | 44 => ⟨S50000x128, .f32⟩
  | 45 => ⟨S1x128, .f32⟩
  | 46 => ⟨S1x128, .f32⟩
  | 47 => ⟨S128, .f32⟩
  | 48 => ⟨S128, .f32⟩
  | 49 => ⟨S50000x128, .f32⟩
  | 50 => ⟨S100000x64, .f32⟩
  | 51 => ⟨S100000x64, .f32⟩
  | 52 => ⟨S1x2000000, .i32⟩
  | 53 => ⟨S2000000, .i32⟩
  | 54 => ⟨S1x2000000, .i32⟩
  | 55 => ⟨S2000000, .i32⟩
  | 56 => ⟨S_, .f32⟩
  | 57 => ⟨S2000000, .f32⟩
  | 58 => ⟨S_, .f32⟩
  | 59 => ⟨S100000, .f32⟩
  | 60 => ⟨S2000000x1, .i32⟩
  | 61 => ⟨S100000, .f32⟩
  | 62 => ⟨S_, .f32⟩
  | 63 => ⟨S100000, .f32⟩
  | 64 => ⟨S100000, .f32⟩
  | 65 => ⟨S100000, .f32⟩
  | 66 => ⟨S100000x1, .f32⟩
  | 67 => ⟨S100000x64, .f32⟩
  | 68 => ⟨S100000x64, .f32⟩
  | 69 => ⟨S100000x64, .bf16⟩
  | 70 => ⟨S_, .i32⟩
  | 71 => ⟨S2000000, .i32⟩
  | 72 => ⟨S2000000, .i1⟩
  | 73 => ⟨S_, .i32⟩
  | 74 => ⟨S2000000, .i32⟩
  | 75 => ⟨S2000000, .i32⟩
  | 76 => ⟨S2000000, .i32⟩
  | 77 => ⟨S2000000x1, .i32⟩
  | 78 => ⟨S2000000x64, .bf16⟩
  | 79 => ⟨S2000000x64, .f32⟩
  | 80 => ⟨S_, .f32⟩
  | 81 => ⟨S100000x64, .f32⟩
  | 82 => ⟨S2000000x1, .i32⟩
  | 83 => ⟨S100000x64, .f32⟩
  | 84 => ⟨S100000x1, .f32⟩
  | 85 => ⟨S100000x64, .f32⟩
  | 86 => ⟨S1x64, .f32⟩
  | 87 => ⟨S1x64, .f32⟩
  | 88 => ⟨S_, .f32⟩
  | 89 => ⟨S1x64, .f32⟩
  | 90 => ⟨S1x64, .f32⟩
  | 91 => ⟨S_, .f32⟩
  | 92 => ⟨S1x64, .f32⟩
  | 93 => ⟨S1x64, .f32⟩
  | 94 => ⟨S1x64, .f32⟩
  | 95 => ⟨S1x64, .f32⟩
  | 96 => ⟨S_, .f32⟩
  | 97 => ⟨S1x64, .f32⟩
  | 98 => ⟨S1x64, .f32⟩
  | 99 => ⟨S1x64, .f32⟩
  | 100 => ⟨S50000x128, .f32⟩
  | 101 => ⟨S1x128, .f32⟩
  | 102 => ⟨S1x128, .f32⟩
  | 103 => ⟨S128, .f32⟩
  | 104 => ⟨S128, .f32⟩
  | 105 => ⟨S50000x128, .f32⟩
  | 106 => ⟨S100000x64, .f32⟩
  | 107 => ⟨S1x2000000, .i32⟩
  | 108 => ⟨S2000000, .i32⟩
  | 109 => ⟨S1x2000000, .i32⟩
  | 110 => ⟨S2000000, .i32⟩
  | 111 => ⟨S100000x64, .bf16⟩
  | 112 => ⟨S_, .i32⟩
  | 113 => ⟨S2000000, .i32⟩
  | 114 => ⟨S2000000, .i1⟩
  | 115 => ⟨S_, .i32⟩
  | 116 => ⟨S2000000, .i32⟩
  | 117 => ⟨S2000000, .i32⟩
  | 118 => ⟨S2000000, .i32⟩
  | 119 => ⟨S2000000x1, .i32⟩
  | 120 => ⟨S2000000x64, .bf16⟩
  | 121 => ⟨S2000000x64, .f32⟩
  | 122 => ⟨S_, .f32⟩
  | 123 => ⟨S100000x64, .f32⟩
  | 124 => ⟨S2000000x1, .i32⟩
  | 125 => ⟨S100000x64, .f32⟩
  | 126 => ⟨S_, .f32⟩
  | 127 => ⟨S2000000, .f32⟩
  | _ => ⟨S100000x32, .f32⟩

abbrev hbmTy0_2 (i : Nat) : BufTy := match i % 128 with
  | 0 => ⟨S_, .f32⟩
  | 1 => ⟨S100000, .f32⟩
  | 2 => ⟨S2000000x1, .i32⟩
  | 3 => ⟨S100000, .f32⟩
  | 4 => ⟨S100000x1, .f32⟩
  | 5 => ⟨S100000x64, .f32⟩
  | 6 => ⟨S1x2000000, .i32⟩
  | 7 => ⟨S2000000, .i32⟩
  | 8 => ⟨S1x2000000, .i32⟩
  | 9 => ⟨S2000000, .i32⟩
  | 10 => ⟨S100000x64, .bf16⟩
  | 11 => ⟨S_, .i32⟩
  | 12 => ⟨S2000000, .i32⟩
  | 13 => ⟨S2000000, .i1⟩
  | 14 => ⟨S_, .i32⟩
  | 15 => ⟨S2000000, .i32⟩
  | 16 => ⟨S2000000, .i32⟩
  | 17 => ⟨S2000000, .i32⟩
  | 18 => ⟨S2000000x1, .i32⟩
  | 19 => ⟨S2000000x64, .bf16⟩
  | 20 => ⟨S2000000x64, .f32⟩
  | 21 => ⟨S_, .f32⟩
  | 22 => ⟨S100000x64, .f32⟩
  | 23 => ⟨S2000000x1, .i32⟩
  | 24 => ⟨S100000x64, .f32⟩
  | 25 => ⟨S_, .f32⟩
  | 26 => ⟨S2000000, .f32⟩
  | 27 => ⟨S_, .f32⟩
  | 28 => ⟨S100000, .f32⟩
  | 29 => ⟨S2000000x1, .i32⟩
  | 30 => ⟨S100000, .f32⟩
  | 31 => ⟨S100000x1, .f32⟩
  | 32 => ⟨S100000x64, .f32⟩
  | 33 => ⟨S1x2000000, .i32⟩
  | 34 => ⟨S2000000, .i32⟩
  | 35 => ⟨S1x2000000, .i32⟩
  | 36 => ⟨S2000000, .i32⟩
  | 37 => ⟨S100000x64, .bf16⟩
  | 38 => ⟨S_, .i32⟩
  | 39 => ⟨S2000000, .i32⟩
  | 40 => ⟨S2000000, .i1⟩
  | 41 => ⟨S_, .i32⟩
  | 42 => ⟨S2000000, .i32⟩
  | 43 => ⟨S2000000, .i32⟩
  | 44 => ⟨S2000000, .i32⟩
  | 45 => ⟨S2000000x1, .i32⟩
  | 46 => ⟨S2000000x64, .bf16⟩
  | 47 => ⟨S2000000x64, .f32⟩
  | 48 => ⟨S_, .f32⟩
  | 49 => ⟨S100000x64, .f32⟩
  | 50 => ⟨S2000000x1, .i32⟩
  | 51 => ⟨S100000x64, .f32⟩
  | 52 => ⟨S_, .f32⟩
  | 53 => ⟨S2000000, .f32⟩
  | 54 => ⟨S_, .f32⟩
  | 55 => ⟨S100000, .f32⟩
  | 56 => ⟨S2000000x1, .i32⟩
  | 57 => ⟨S100000, .f32⟩
  | 58 => ⟨S100000x1, .f32⟩
  | 59 => ⟨S100000x64, .f32⟩
  | 60 => ⟨S100000x64, .f32⟩
  | 61 => ⟨S1x2000000, .i32⟩
  | 62 => ⟨S2000000, .i32⟩
  | 63 => ⟨S1x2000000, .i32⟩
  | 64 => ⟨S2000000, .i32⟩
  | 65 => ⟨S_, .f32⟩
  | 66 => ⟨S2000000, .f32⟩
  | 67 => ⟨S_, .f32⟩
  | 68 => ⟨S100000, .f32⟩
  | 69 => ⟨S2000000x1, .i32⟩
  | 70 => ⟨S100000, .f32⟩
  | 71 => ⟨S_, .f32⟩
  | 72 => ⟨S100000, .f32⟩
  | 73 => ⟨S100000, .f32⟩
  | 74 => ⟨S100000, .f32⟩
  | 75 => ⟨S100000x1, .f32⟩
  | 76 => ⟨S100000x64, .f32⟩
  | 77 => ⟨S100000x64, .f32⟩
  | 78 => ⟨S100000x64, .bf16⟩
  | 79 => ⟨S_, .i32⟩
  | 80 => ⟨S2000000, .i32⟩
  | 81 => ⟨S2000000, .i1⟩
  | 82 => ⟨S_, .i32⟩
  | 83 => ⟨S2000000, .i32⟩
  | 84 => ⟨S2000000, .i32⟩
  | 85 => ⟨S2000000, .i32⟩
  | 86 => ⟨S2000000x1, .i32⟩
  | 87 => ⟨S2000000x64, .bf16⟩
  | 88 => ⟨S2000000x64, .f32⟩
  | 89 => ⟨S_, .f32⟩
  | 90 => ⟨S100000x64, .f32⟩
  | 91 => ⟨S2000000x1, .i32⟩
  | 92 => ⟨S100000x64, .f32⟩
  | 93 => ⟨S100000x1, .f32⟩
  | 94 => ⟨S100000x64, .f32⟩
  | 95 => ⟨S1x64, .f32⟩
  | 96 => ⟨S1x64, .f32⟩
  | 97 => ⟨S_, .f32⟩
  | 98 => ⟨S1x64, .f32⟩
  | 99 => ⟨S1x64, .f32⟩
  | 100 => ⟨S_, .f32⟩
  | 101 => ⟨S1x64, .f32⟩
  | 102 => ⟨S1x64, .f32⟩
  | 103 => ⟨S1x64, .f32⟩
  | 104 => ⟨S1x64, .f32⟩
  | 105 => ⟨S_, .f32⟩
  | 106 => ⟨S1x64, .f32⟩
  | 107 => ⟨S1x64, .f32⟩
  | 108 => ⟨S1x64, .f32⟩
  | 109 => ⟨S50000x128, .f32⟩
  | 110 => ⟨S1x128, .f32⟩
  | 111 => ⟨S1x128, .f32⟩
  | 112 => ⟨S128, .f32⟩
  | 113 => ⟨S128, .f32⟩
  | 114 => ⟨S50000x128, .f32⟩
  | 115 => ⟨S100000x64, .f32⟩
  | _ => ⟨S100000x32, .f32⟩

abbrev hbmTy (i : Nat) : BufTy := match i / 128 with
  | 0 => hbmTy0_0 i
  | 1 => hbmTy0_1 i
  | 2 => hbmTy0_2 i
  | _ => ⟨S100000x32, .f32⟩

abbrev vmemTy0_0 (i : Nat) : BufTy := match i % 128 with
  | 0 => ⟨S5000x64, .f32⟩
  | 1 => ⟨S5000x64, .f32⟩
  | 2 => ⟨S5000x1, .f32⟩
  | 3 => ⟨S5000x1, .f32⟩
  | 4 => ⟨S5000x32, .f32⟩
  | 5 => ⟨S5000x32, .f32⟩
  | 6 => ⟨S64x64, .f32⟩
  | 7 => ⟨S64, .f32⟩
  | 8 => ⟨S32x64, .f32⟩
  | 9 => ⟨S5000x64, .f32⟩
  | 10 => ⟨S5000x64, .f32⟩
  | 11 => ⟨S5000x64, .f32⟩
  | 12 => ⟨S5000x64, .f32⟩
  | 13 => ⟨S5000x1, .f32⟩
  | 14 => ⟨S5000x1, .f32⟩
  | 15 => ⟨S5000x64, .f32⟩
  | 16 => ⟨S5000x64, .f32⟩
  | 17 => ⟨S64x64, .f32⟩
  | 18 => ⟨S64, .f32⟩
  | 19 => ⟨S64x64, .f32⟩
  | 20 => ⟨S5000x64, .f32⟩
  | 21 => ⟨S5000x64, .f32⟩
  | 22 => ⟨S5000x64, .f32⟩
  | 23 => ⟨S5000x64, .f32⟩
  | 24 => ⟨S5000x1, .f32⟩
  | 25 => ⟨S5000x1, .f32⟩
  | 26 => ⟨S5000x32, .f32⟩
  | 27 => ⟨S5000x32, .f32⟩
  | 28 => ⟨S64x64, .f32⟩
  | 29 => ⟨S64, .f32⟩
  | 30 => ⟨S32x64, .f32⟩
  | 31 => ⟨S5000x64, .f32⟩
  | 32 => ⟨S5000x64, .f32⟩
  | 33 => ⟨S5000x64, .f32⟩
  | 34 => ⟨S5000x64, .f32⟩
  | 35 => ⟨S64x64, .f32⟩
  | 36 => ⟨S5000x64, .f32⟩
  | 37 => ⟨S5000x64, .f32⟩
  | 38 => ⟨S5000x64, .f32⟩
  | 39 => ⟨S5000x64, .f32⟩
  | 40 => ⟨S5000x64, .f32⟩
  | 41 => ⟨S5000x64, .f32⟩
  | 42 => ⟨S5000x1, .f32⟩
  | 43 => ⟨S5000x1, .f32⟩
  | 44 => ⟨S64, .f32⟩
  | 45 => ⟨S5000x64, .f32⟩
  | 46 => ⟨S5000x64, .f32⟩
  | 47 => ⟨S1x64, .f32⟩
  | 48 => ⟨S1x64, .f32⟩
  | 49 => ⟨S1x64, .f32⟩
  | 50 => ⟨S1x64, .f32⟩
  | 51 => ⟨S5000x128, .f32⟩
  | 52 => ⟨S5000x128, .f32⟩
  | 53 => ⟨S1x128, .f32⟩
  | 54 => ⟨S1x128, .f32⟩
  | 55 => ⟨S128, .f32⟩
  | 56 => ⟨S128, .f32⟩
  | 57 => ⟨S5000x128, .f32⟩
  | 58 => ⟨S5000x128, .f32⟩
  | 59 => ⟨S5000x64, .f32⟩
  | 60 => ⟨S5000x64, .f32⟩
  | 61 => ⟨S64x64, .f32⟩
  | 62 => ⟨S5000x64, .f32⟩
  | 63 => ⟨S5000x64, .f32⟩
  | 64 => ⟨S5000x64, .f32⟩
  | 65 => ⟨S5000x64, .f32⟩
  | 66 => ⟨S5000x64, .f32⟩
  | 67 => ⟨S5000x64, .f32⟩
  | 68 => ⟨S5000x1, .f32⟩
  | 69 => ⟨S5000x1, .f32⟩
  | 70 => ⟨S64, .f32⟩
  | 71 => ⟨S5000x64, .f32⟩
  | 72 => ⟨S5000x64, .f32⟩
  | 73 => ⟨S1x64, .f32⟩
  | 74 => ⟨S1x64, .f32⟩
  | 75 => ⟨S1x64, .f32⟩
  | 76 => ⟨S1x64, .f32⟩
  | 77 => ⟨S5000x128, .f32⟩
  | 78 => ⟨S5000x128, .f32⟩
  | 79 => ⟨S1x128, .f32⟩
  | 80 => ⟨S1x128, .f32⟩
  | 81 => ⟨S128, .f32⟩
  | 82 => ⟨S128, .f32⟩
  | 83 => ⟨S5000x128, .f32⟩
  | 84 => ⟨S5000x128, .f32⟩
  | 85 => ⟨S5000x64, .f32⟩
  | 86 => ⟨S5000x64, .f32⟩
  | 87 => ⟨S5000x1, .f32⟩
  | 88 => ⟨S5000x1, .f32⟩
  | 89 => ⟨S5000x64, .f32⟩
  | 90 => ⟨S5000x64, .f32⟩
  | 91 => ⟨S64x64, .f32⟩
  | 92 => ⟨S64, .f32⟩
  | 93 => ⟨S64x64, .f32⟩
  | 94 => ⟨S5000x64, .f32⟩
  | 95 => ⟨S5000x64, .f32⟩
  | 96 => ⟨S5000x64, .f32⟩
  | 97 => ⟨S5000x64, .f32⟩
  | 98 => ⟨S5000x1, .f32⟩
  | 99 => ⟨S5000x1, .f32⟩
  | 100 => ⟨S5000x64, .f32⟩
  | 101 => ⟨S5000x64, .f32⟩
  | 102 => ⟨S64x64, .f32⟩
  | 103 => ⟨S64, .f32⟩
  | 104 => ⟨S64x64, .f32⟩
  | 105 => ⟨S5000x64, .f32⟩
  | 106 => ⟨S5000x64, .f32⟩
  | 107 => ⟨S5000x64, .f32⟩
  | 108 => ⟨S5000x64, .f32⟩
  | 109 => ⟨S5000x1, .f32⟩
  | 110 => ⟨S5000x1, .f32⟩
  | 111 => ⟨S5000x64, .f32⟩
  | 112 => ⟨S5000x64, .f32⟩
  | 113 => ⟨S64x64, .f32⟩
  | 114 => ⟨S64, .f32⟩
  | 115 => ⟨S64x64, .f32⟩
  | 116 => ⟨S5000x64, .f32⟩
  | 117 => ⟨S5000x64, .f32⟩
  | 118 => ⟨S5000x64, .f32⟩
  | 119 => ⟨S5000x64, .f32⟩
  | 120 => ⟨S64x64, .f32⟩
  | 121 => ⟨S5000x64, .f32⟩
  | 122 => ⟨S5000x64, .f32⟩
  | 123 => ⟨S5000x64, .f32⟩
  | 124 => ⟨S5000x64, .f32⟩
  | 125 => ⟨S5000x64, .f32⟩
  | 126 => ⟨S5000x64, .f32⟩
  | 127 => ⟨S5000x1, .f32⟩
  | _ => ⟨S100000x32, .f32⟩

abbrev vmemTy0_1 (i : Nat) : BufTy := match i % 128 with
  | 0 => ⟨S5000x1, .f32⟩
  | 1 => ⟨S64, .f32⟩
  | 2 => ⟨S5000x64, .f32⟩
  | 3 => ⟨S5000x64, .f32⟩
  | 4 => ⟨S1x64, .f32⟩
  | 5 => ⟨S1x64, .f32⟩
  | 6 => ⟨S1x64, .f32⟩
  | 7 => ⟨S1x64, .f32⟩
  | 8 => ⟨S5000x128, .f32⟩
  | 9 => ⟨S5000x128, .f32⟩
  | 10 => ⟨S1x128, .f32⟩
  | 11 => ⟨S1x128, .f32⟩
  | 12 => ⟨S128, .f32⟩
  | 13 => ⟨S128, .f32⟩
  | 14 => ⟨S5000x128, .f32⟩
  | 15 => ⟨S5000x128, .f32⟩
  | _ => ⟨S100000x32, .f32⟩

abbrev vmemTy (i : Nat) : BufTy := match i / 128 with
  | 0 => vmemTy0_0 i
  | 1 => vmemTy0_1 i
  | _ => ⟨S100000x32, .f32⟩

abbrev bufTy : (tb : Table) → Fin (tcTables nBuf tb) → BufTy
  | .hbm, ⟨i, _⟩ => hbmTy i
  | .local _ .vmem, ⟨i, _⟩ => vmemTy i
  | _, _ => ⟨S100000x32, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 138 → Bool
  | ⟨i, _⟩ => dmaSemScopedAt i

abbrev sig : RefSig :=
  ofTc nBuf bufTy 0 138 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_v0 : Ref sig .tc := ⟨.hbm, 42, rfl⟩
abbrev main_v1 : Ref sig .tc := ⟨.hbm, 43, rfl⟩
abbrev main_v2 : Ref sig .tc := ⟨.hbm, 44, rfl⟩
abbrev main_v3 : Ref sig .tc := ⟨.hbm, 45, rfl⟩
abbrev main_v4 : Ref sig .tc := ⟨.hbm, 46, rfl⟩
abbrev main_c : Ref sig .tc := ⟨.hbm, 47, rfl⟩
abbrev main_v5 : Ref sig .tc := ⟨.hbm, 48, rfl⟩
abbrev main_v6 : Ref sig .tc := ⟨.hbm, 49, rfl⟩
abbrev main_c_0 : Ref sig .tc := ⟨.hbm, 50, rfl⟩
abbrev main_v7 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_cst : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_cst_1 : Ref sig .tc := ⟨.hbm, 61, rfl⟩
abbrev main_v16 : Ref sig .tc := ⟨.hbm, 62, rfl⟩
abbrev main_cst_2 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_c_3 : Ref sig .tc := ⟨.hbm, 74, rfl⟩
abbrev main_v27 : Ref sig .tc := ⟨.hbm, 75, rfl⟩
abbrev main_v28 : Ref sig .tc := ⟨.hbm, 76, rfl⟩
abbrev main_c_4 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_cst_5 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_cst_6 : Ref sig .tc := ⟨.hbm, 88, rfl⟩
abbrev main_v38 : Ref sig .tc := ⟨.hbm, 89, rfl⟩
abbrev main_cst_7 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_c_8 : Ref sig .tc := ⟨.hbm, 101, rfl⟩
abbrev main_v49 : Ref sig .tc := ⟨.hbm, 102, rfl⟩
abbrev main_v50 : Ref sig .tc := ⟨.hbm, 103, rfl⟩
abbrev main_c_9 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_cst_10 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_cst_11 : Ref sig .tc := ⟨.hbm, 115, rfl⟩
abbrev main_v60 : Ref sig .tc := ⟨.hbm, 116, rfl⟩
abbrev main_cst_12 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_cst_13 : Ref sig .tc := ⟨.hbm, 128, rfl⟩
abbrev main_v71 : Ref sig .tc := ⟨.hbm, 129, rfl⟩
abbrev main_cst_14 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_cst_15 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_c_16 : Ref sig .tc := ⟨.hbm, 142, rfl⟩
abbrev main_v82 : Ref sig .tc := ⟨.hbm, 143, rfl⟩
abbrev main_v83 : Ref sig .tc := ⟨.hbm, 144, rfl⟩
abbrev main_c_17 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩
abbrev main_cst_18 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_v94_0 : Ref sig .tc := ⟨.hbm, 157, rfl⟩
abbrev main_v94_1 : Ref sig .tc := ⟨.hbm, 158, rfl⟩
abbrev main_v94_2 : Ref sig .tc := ⟨.hbm, 159, rfl⟩
abbrev main_cst_19 : Ref sig .tc := ⟨.hbm, 160, rfl⟩
abbrev main_v95 : Ref sig .tc := ⟨.hbm, 161, rfl⟩
abbrev main_v96 : Ref sig .tc := ⟨.hbm, 162, rfl⟩
abbrev main_cst_20 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_cst_21 : Ref sig .tc := ⟨.hbm, 168, rfl⟩
abbrev main_v101 : Ref sig .tc := ⟨.hbm, 169, rfl⟩
abbrev main_v102 : Ref sig .tc := ⟨.hbm, 170, rfl⟩
abbrev main_v103 : Ref sig .tc := ⟨.hbm, 171, rfl⟩
abbrev main_v104 : Ref sig .tc := ⟨.hbm, 172, rfl⟩
abbrev main_v105 : Ref sig .tc := ⟨.hbm, 173, rfl⟩
abbrev main_v106 : Ref sig .tc := ⟨.hbm, 174, rfl⟩
abbrev main_v107 : Ref sig .tc := ⟨.hbm, 175, rfl⟩
abbrev main_v108 : Ref sig .tc := ⟨.hbm, 176, rfl⟩
abbrev main_v109 : Ref sig .tc := ⟨.hbm, 177, rfl⟩
abbrev main_v110 : Ref sig .tc := ⟨.hbm, 178, rfl⟩
abbrev main_v111 : Ref sig .tc := ⟨.hbm, 179, rfl⟩
abbrev main_v112 : Ref sig .tc := ⟨.hbm, 180, rfl⟩
abbrev main_v113 : Ref sig .tc := ⟨.hbm, 181, rfl⟩
abbrev main_v114 : Ref sig .tc := ⟨.hbm, 182, rfl⟩
abbrev main_v115 : Ref sig .tc := ⟨.hbm, 183, rfl⟩
abbrev main_cst_22 : Ref sig .tc := ⟨.hbm, 184, rfl⟩
abbrev main_v116 : Ref sig .tc := ⟨.hbm, 185, rfl⟩
abbrev main_cst_23 : Ref sig .tc := ⟨.hbm, 186, rfl⟩
abbrev main_v117 : Ref sig .tc := ⟨.hbm, 187, rfl⟩
abbrev main_v118 : Ref sig .tc := ⟨.hbm, 188, rfl⟩
abbrev main_v119 : Ref sig .tc := ⟨.hbm, 189, rfl⟩
abbrev main_cst_24 : Ref sig .tc := ⟨.hbm, 190, rfl⟩
abbrev main_v120 : Ref sig .tc := ⟨.hbm, 191, rfl⟩
abbrev main_v121 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_v125 : Ref sig .tc := ⟨.hbm, 196, rfl⟩
abbrev main_v126 : Ref sig .tc := ⟨.hbm, 197, rfl⟩
abbrev main_c_25 : Ref sig .tc := ⟨.hbm, 198, rfl⟩
abbrev main_v127 : Ref sig .tc := ⟨.hbm, 199, rfl⟩
abbrev main_v128 : Ref sig .tc := ⟨.hbm, 200, rfl⟩
abbrev main_c_26 : Ref sig .tc := ⟨.hbm, 201, rfl⟩
abbrev main_v129 : Ref sig .tc := ⟨.hbm, 202, rfl⟩
abbrev main_v130 : Ref sig .tc := ⟨.hbm, 203, rfl⟩
abbrev main_v131 : Ref sig .tc := ⟨.hbm, 204, rfl⟩
abbrev main_v132 : Ref sig .tc := ⟨.hbm, 205, rfl⟩
abbrev main_v133 : Ref sig .tc := ⟨.hbm, 206, rfl⟩
abbrev main_v134 : Ref sig .tc := ⟨.hbm, 207, rfl⟩
abbrev main_cst_27 : Ref sig .tc := ⟨.hbm, 208, rfl⟩
abbrev main_v135 : Ref sig .tc := ⟨.hbm, 209, rfl⟩
abbrev main_v136 : Ref sig .tc := ⟨.hbm, 210, rfl⟩
abbrev main_v137 : Ref sig .tc := ⟨.hbm, 211, rfl⟩
abbrev main_v138 : Ref sig .tc := ⟨.hbm, 212, rfl⟩
abbrev main_v139_0 : Ref sig .tc := ⟨.hbm, 213, rfl⟩
abbrev main_v139_1 : Ref sig .tc := ⟨.hbm, 214, rfl⟩
abbrev main_v139_2 : Ref sig .tc := ⟨.hbm, 215, rfl⟩
abbrev main_cst_28 : Ref sig .tc := ⟨.hbm, 216, rfl⟩
abbrev main_v140 : Ref sig .tc := ⟨.hbm, 217, rfl⟩
abbrev main_v141 : Ref sig .tc := ⟨.hbm, 218, rfl⟩
abbrev main_cst_29 : Ref sig .tc := ⟨.hbm, 219, rfl⟩
abbrev main_v142 : Ref sig .tc := ⟨.hbm, 220, rfl⟩
abbrev main_v143 : Ref sig .tc := ⟨.hbm, 221, rfl⟩
abbrev main_v144 : Ref sig .tc := ⟨.hbm, 222, rfl⟩
abbrev main_v145 : Ref sig .tc := ⟨.hbm, 223, rfl⟩
abbrev main_cst_30 : Ref sig .tc := ⟨.hbm, 224, rfl⟩
abbrev main_v146 : Ref sig .tc := ⟨.hbm, 225, rfl⟩
abbrev main_v147 : Ref sig .tc := ⟨.hbm, 226, rfl⟩
abbrev main_v148 : Ref sig .tc := ⟨.hbm, 227, rfl⟩
abbrev main_v149 : Ref sig .tc := ⟨.hbm, 228, rfl⟩
abbrev main_v150 : Ref sig .tc := ⟨.hbm, 229, rfl⟩
abbrev main_v151 : Ref sig .tc := ⟨.hbm, 230, rfl⟩
abbrev main_v152 : Ref sig .tc := ⟨.hbm, 231, rfl⟩
abbrev main_v153 : Ref sig .tc := ⟨.hbm, 232, rfl⟩
abbrev main_v154 : Ref sig .tc := ⟨.hbm, 233, rfl⟩
abbrev main_v155 : Ref sig .tc := ⟨.hbm, 234, rfl⟩
abbrev main_v156 : Ref sig .tc := ⟨.hbm, 235, rfl⟩
abbrev main_v157 : Ref sig .tc := ⟨.hbm, 236, rfl⟩
abbrev main_v158 : Ref sig .tc := ⟨.hbm, 237, rfl⟩
abbrev main_v159 : Ref sig .tc := ⟨.hbm, 238, rfl⟩
abbrev main_v160 : Ref sig .tc := ⟨.hbm, 239, rfl⟩
abbrev main_c_31 : Ref sig .tc := ⟨.hbm, 240, rfl⟩
abbrev main_v161 : Ref sig .tc := ⟨.hbm, 241, rfl⟩
abbrev main_v162 : Ref sig .tc := ⟨.hbm, 242, rfl⟩
abbrev main_c_32 : Ref sig .tc := ⟨.hbm, 243, rfl⟩
abbrev main_v163 : Ref sig .tc := ⟨.hbm, 244, rfl⟩
abbrev main_v164 : Ref sig .tc := ⟨.hbm, 245, rfl⟩
abbrev main_v165 : Ref sig .tc := ⟨.hbm, 246, rfl⟩
abbrev main_v166 : Ref sig .tc := ⟨.hbm, 247, rfl⟩
abbrev main_v167 : Ref sig .tc := ⟨.hbm, 248, rfl⟩
abbrev main_v168 : Ref sig .tc := ⟨.hbm, 249, rfl⟩
abbrev main_cst_33 : Ref sig .tc := ⟨.hbm, 250, rfl⟩
abbrev main_v169 : Ref sig .tc := ⟨.hbm, 251, rfl⟩
abbrev main_v170 : Ref sig .tc := ⟨.hbm, 252, rfl⟩
abbrev main_v171 : Ref sig .tc := ⟨.hbm, 253, rfl⟩
abbrev main_cst_34 : Ref sig .tc := ⟨.hbm, 254, rfl⟩
abbrev main_v172 : Ref sig .tc := ⟨.hbm, 255, rfl⟩
abbrev main_cst_35 : Ref sig .tc := ⟨.hbm, 256, rfl⟩
abbrev main_v173 : Ref sig .tc := ⟨.hbm, 257, rfl⟩
abbrev main_v174 : Ref sig .tc := ⟨.hbm, 258, rfl⟩
abbrev main_v175 : Ref sig .tc := ⟨.hbm, 259, rfl⟩
abbrev main_v176 : Ref sig .tc := ⟨.hbm, 260, rfl⟩
abbrev main_v177 : Ref sig .tc := ⟨.hbm, 261, rfl⟩
abbrev main_v178 : Ref sig .tc := ⟨.hbm, 262, rfl⟩
abbrev main_v179 : Ref sig .tc := ⟨.hbm, 263, rfl⟩
abbrev main_v180 : Ref sig .tc := ⟨.hbm, 264, rfl⟩
abbrev main_v181 : Ref sig .tc := ⟨.hbm, 265, rfl⟩
abbrev main_v182 : Ref sig .tc := ⟨.hbm, 266, rfl⟩
abbrev main_c_36 : Ref sig .tc := ⟨.hbm, 267, rfl⟩
abbrev main_v183 : Ref sig .tc := ⟨.hbm, 268, rfl⟩
abbrev main_v184 : Ref sig .tc := ⟨.hbm, 269, rfl⟩
abbrev main_c_37 : Ref sig .tc := ⟨.hbm, 270, rfl⟩
abbrev main_v185 : Ref sig .tc := ⟨.hbm, 271, rfl⟩
abbrev main_v186 : Ref sig .tc := ⟨.hbm, 272, rfl⟩
abbrev main_v187 : Ref sig .tc := ⟨.hbm, 273, rfl⟩
abbrev main_v188 : Ref sig .tc := ⟨.hbm, 274, rfl⟩
abbrev main_v189 : Ref sig .tc := ⟨.hbm, 275, rfl⟩
abbrev main_v190 : Ref sig .tc := ⟨.hbm, 276, rfl⟩
abbrev main_cst_38 : Ref sig .tc := ⟨.hbm, 277, rfl⟩
abbrev main_v191 : Ref sig .tc := ⟨.hbm, 278, rfl⟩
abbrev main_v192 : Ref sig .tc := ⟨.hbm, 279, rfl⟩
abbrev main_v193 : Ref sig .tc := ⟨.hbm, 280, rfl⟩
abbrev main_cst_39 : Ref sig .tc := ⟨.hbm, 281, rfl⟩
abbrev main_v194 : Ref sig .tc := ⟨.hbm, 282, rfl⟩
abbrev main_cst_40 : Ref sig .tc := ⟨.hbm, 283, rfl⟩
abbrev main_v195 : Ref sig .tc := ⟨.hbm, 284, rfl⟩
abbrev main_v196 : Ref sig .tc := ⟨.hbm, 285, rfl⟩
abbrev main_v197 : Ref sig .tc := ⟨.hbm, 286, rfl⟩
abbrev main_v198 : Ref sig .tc := ⟨.hbm, 287, rfl⟩
abbrev main_v199 : Ref sig .tc := ⟨.hbm, 288, rfl⟩
abbrev main_v200 : Ref sig .tc := ⟨.hbm, 289, rfl⟩
abbrev main_v201 : Ref sig .tc := ⟨.hbm, 290, rfl⟩
abbrev main_v202 : Ref sig .tc := ⟨.hbm, 291, rfl⟩
abbrev main_v203 : Ref sig .tc := ⟨.hbm, 292, rfl⟩
abbrev main_v204 : Ref sig .tc := ⟨.hbm, 293, rfl⟩
abbrev main_c_41 : Ref sig .tc := ⟨.hbm, 294, rfl⟩
abbrev main_v205 : Ref sig .tc := ⟨.hbm, 295, rfl⟩
abbrev main_v206 : Ref sig .tc := ⟨.hbm, 296, rfl⟩
abbrev main_c_42 : Ref sig .tc := ⟨.hbm, 297, rfl⟩
abbrev main_v207 : Ref sig .tc := ⟨.hbm, 298, rfl⟩
abbrev main_v208 : Ref sig .tc := ⟨.hbm, 299, rfl⟩
abbrev main_v209 : Ref sig .tc := ⟨.hbm, 300, rfl⟩
abbrev main_v210 : Ref sig .tc := ⟨.hbm, 301, rfl⟩
abbrev main_v211 : Ref sig .tc := ⟨.hbm, 302, rfl⟩
abbrev main_v212 : Ref sig .tc := ⟨.hbm, 303, rfl⟩
abbrev main_cst_43 : Ref sig .tc := ⟨.hbm, 304, rfl⟩
abbrev main_v213 : Ref sig .tc := ⟨.hbm, 305, rfl⟩
abbrev main_v214 : Ref sig .tc := ⟨.hbm, 306, rfl⟩
abbrev main_v215 : Ref sig .tc := ⟨.hbm, 307, rfl⟩
abbrev main_cst_44 : Ref sig .tc := ⟨.hbm, 308, rfl⟩
abbrev main_v216 : Ref sig .tc := ⟨.hbm, 309, rfl⟩
abbrev main_cst_45 : Ref sig .tc := ⟨.hbm, 310, rfl⟩
abbrev main_v217 : Ref sig .tc := ⟨.hbm, 311, rfl⟩
abbrev main_v218 : Ref sig .tc := ⟨.hbm, 312, rfl⟩
abbrev main_v219 : Ref sig .tc := ⟨.hbm, 313, rfl⟩
abbrev main_v220 : Ref sig .tc := ⟨.hbm, 314, rfl⟩
abbrev main_v221 : Ref sig .tc := ⟨.hbm, 315, rfl⟩
abbrev main_v222 : Ref sig .tc := ⟨.hbm, 316, rfl⟩
abbrev main_v223 : Ref sig .tc := ⟨.hbm, 317, rfl⟩
abbrev main_v224 : Ref sig .tc := ⟨.hbm, 318, rfl⟩
abbrev main_v225 : Ref sig .tc := ⟨.hbm, 319, rfl⟩
abbrev main_v226 : Ref sig .tc := ⟨.hbm, 320, rfl⟩
abbrev main_cst_46 : Ref sig .tc := ⟨.hbm, 321, rfl⟩
abbrev main_v227 : Ref sig .tc := ⟨.hbm, 322, rfl⟩
abbrev main_cst_47 : Ref sig .tc := ⟨.hbm, 323, rfl⟩
abbrev main_v228 : Ref sig .tc := ⟨.hbm, 324, rfl⟩
abbrev main_v229 : Ref sig .tc := ⟨.hbm, 325, rfl⟩
abbrev main_v230 : Ref sig .tc := ⟨.hbm, 326, rfl⟩
abbrev main_cst_48 : Ref sig .tc := ⟨.hbm, 327, rfl⟩
abbrev main_v231 : Ref sig .tc := ⟨.hbm, 328, rfl⟩
abbrev main_v232 : Ref sig .tc := ⟨.hbm, 329, rfl⟩
abbrev main_v233 : Ref sig .tc := ⟨.hbm, 330, rfl⟩
abbrev main_v234 : Ref sig .tc := ⟨.hbm, 331, rfl⟩
abbrev main_v235 : Ref sig .tc := ⟨.hbm, 332, rfl⟩
abbrev main_v236 : Ref sig .tc := ⟨.hbm, 333, rfl⟩
abbrev main_v237 : Ref sig .tc := ⟨.hbm, 334, rfl⟩
abbrev main_c_49 : Ref sig .tc := ⟨.hbm, 335, rfl⟩
abbrev main_v238 : Ref sig .tc := ⟨.hbm, 336, rfl⟩
abbrev main_v239 : Ref sig .tc := ⟨.hbm, 337, rfl⟩
abbrev main_c_50 : Ref sig .tc := ⟨.hbm, 338, rfl⟩
abbrev main_v240 : Ref sig .tc := ⟨.hbm, 339, rfl⟩
abbrev main_v241 : Ref sig .tc := ⟨.hbm, 340, rfl⟩
abbrev main_v242 : Ref sig .tc := ⟨.hbm, 341, rfl⟩
abbrev main_v243 : Ref sig .tc := ⟨.hbm, 342, rfl⟩
abbrev main_v244 : Ref sig .tc := ⟨.hbm, 343, rfl⟩
abbrev main_v245 : Ref sig .tc := ⟨.hbm, 344, rfl⟩
abbrev main_cst_51 : Ref sig .tc := ⟨.hbm, 345, rfl⟩
abbrev main_v246 : Ref sig .tc := ⟨.hbm, 346, rfl⟩
abbrev main_v247 : Ref sig .tc := ⟨.hbm, 347, rfl⟩
abbrev main_v248 : Ref sig .tc := ⟨.hbm, 348, rfl⟩
abbrev main_v249 : Ref sig .tc := ⟨.hbm, 349, rfl⟩
abbrev main_v250_0 : Ref sig .tc := ⟨.hbm, 350, rfl⟩
abbrev main_v250_1 : Ref sig .tc := ⟨.hbm, 351, rfl⟩
abbrev main_v250_2 : Ref sig .tc := ⟨.hbm, 352, rfl⟩
abbrev main_cst_52 : Ref sig .tc := ⟨.hbm, 353, rfl⟩
abbrev main_v251 : Ref sig .tc := ⟨.hbm, 354, rfl⟩
abbrev main_v252 : Ref sig .tc := ⟨.hbm, 355, rfl⟩
abbrev main_cst_53 : Ref sig .tc := ⟨.hbm, 356, rfl⟩
abbrev main_v253 : Ref sig .tc := ⟨.hbm, 357, rfl⟩
abbrev main_v254 : Ref sig .tc := ⟨.hbm, 358, rfl⟩
abbrev main_v255 : Ref sig .tc := ⟨.hbm, 359, rfl⟩
abbrev main_v256 : Ref sig .tc := ⟨.hbm, 360, rfl⟩
abbrev main_cst_54 : Ref sig .tc := ⟨.hbm, 361, rfl⟩
abbrev main_v257 : Ref sig .tc := ⟨.hbm, 362, rfl⟩
abbrev main_v258 : Ref sig .tc := ⟨.hbm, 363, rfl⟩
abbrev main_v259 : Ref sig .tc := ⟨.hbm, 364, rfl⟩
abbrev main_v260 : Ref sig .tc := ⟨.hbm, 365, rfl⟩
abbrev main_v261 : Ref sig .tc := ⟨.hbm, 366, rfl⟩
abbrev main_v262 : Ref sig .tc := ⟨.hbm, 367, rfl⟩
abbrev main_v263 : Ref sig .tc := ⟨.hbm, 368, rfl⟩
abbrev main_v264 : Ref sig .tc := ⟨.hbm, 369, rfl⟩
abbrev main_v265 : Ref sig .tc := ⟨.hbm, 370, rfl⟩
abbrev main_v266 : Ref sig .tc := ⟨.hbm, 371, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg2_0 : Ref sig .tc := ⟨.vmem, 36, rfl⟩
abbrev cc3_stg2_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg2_1 : Ref sig .tc := ⟨.vmem, 43, rfl⟩
abbrev cc4_stg3_0 : Ref sig .tc := ⟨.vmem, 44, rfl⟩
abbrev cc4_stg4_0 : Ref sig .tc := ⟨.vmem, 45, rfl⟩
abbrev cc4_stg4_1 : Ref sig .tc := ⟨.vmem, 46, rfl⟩
abbrev cc4_stg5_0 : Ref sig .tc := ⟨.vmem, 47, rfl⟩
abbrev cc4_stg6_0 : Ref sig .tc := ⟨.vmem, 48, rfl⟩
abbrev cc4_scratch0 : Ref sig .tc := ⟨.vmem, 49, rfl⟩
abbrev cc4_scratch1 : Ref sig .tc := ⟨.vmem, 50, rfl⟩
abbrev cc5_stg0_0 : Ref sig .tc := ⟨.vmem, 51, rfl⟩
abbrev cc5_stg0_1 : Ref sig .tc := ⟨.vmem, 52, rfl⟩
abbrev cc5_stg1_0 : Ref sig .tc := ⟨.vmem, 53, rfl⟩
abbrev cc5_stg2_0 : Ref sig .tc := ⟨.vmem, 54, rfl⟩
abbrev cc5_stg3_0 : Ref sig .tc := ⟨.vmem, 55, rfl⟩
abbrev cc5_stg4_0 : Ref sig .tc := ⟨.vmem, 56, rfl⟩
abbrev cc5_stg5_0 : Ref sig .tc := ⟨.vmem, 57, rfl⟩
abbrev cc5_stg5_1 : Ref sig .tc := ⟨.vmem, 58, rfl⟩
abbrev cc6_stg0_0 : Ref sig .tc := ⟨.vmem, 59, rfl⟩
abbrev cc6_stg0_1 : Ref sig .tc := ⟨.vmem, 60, rfl⟩
abbrev cc6_stg1_0 : Ref sig .tc := ⟨.vmem, 61, rfl⟩
abbrev cc6_stg2_0 : Ref sig .tc := ⟨.vmem, 62, rfl⟩
abbrev cc6_stg2_1 : Ref sig .tc := ⟨.vmem, 63, rfl⟩
abbrev cc7_stg0_0 : Ref sig .tc := ⟨.vmem, 64, rfl⟩
abbrev cc7_stg0_1 : Ref sig .tc := ⟨.vmem, 65, rfl⟩
abbrev cc7_stg1_0 : Ref sig .tc := ⟨.vmem, 66, rfl⟩
abbrev cc7_stg1_1 : Ref sig .tc := ⟨.vmem, 67, rfl⟩
abbrev cc7_stg2_0 : Ref sig .tc := ⟨.vmem, 68, rfl⟩
abbrev cc7_stg2_1 : Ref sig .tc := ⟨.vmem, 69, rfl⟩
abbrev cc7_stg3_0 : Ref sig .tc := ⟨.vmem, 70, rfl⟩
abbrev cc7_stg4_0 : Ref sig .tc := ⟨.vmem, 71, rfl⟩
abbrev cc7_stg4_1 : Ref sig .tc := ⟨.vmem, 72, rfl⟩
abbrev cc7_stg5_0 : Ref sig .tc := ⟨.vmem, 73, rfl⟩
abbrev cc7_stg6_0 : Ref sig .tc := ⟨.vmem, 74, rfl⟩
abbrev cc7_scratch0 : Ref sig .tc := ⟨.vmem, 75, rfl⟩
abbrev cc7_scratch1 : Ref sig .tc := ⟨.vmem, 76, rfl⟩
abbrev cc8_stg0_0 : Ref sig .tc := ⟨.vmem, 77, rfl⟩
abbrev cc8_stg0_1 : Ref sig .tc := ⟨.vmem, 78, rfl⟩
abbrev cc8_stg1_0 : Ref sig .tc := ⟨.vmem, 79, rfl⟩
abbrev cc8_stg2_0 : Ref sig .tc := ⟨.vmem, 80, rfl⟩
abbrev cc8_stg3_0 : Ref sig .tc := ⟨.vmem, 81, rfl⟩
abbrev cc8_stg4_0 : Ref sig .tc := ⟨.vmem, 82, rfl⟩
abbrev cc8_stg5_0 : Ref sig .tc := ⟨.vmem, 83, rfl⟩
abbrev cc8_stg5_1 : Ref sig .tc := ⟨.vmem, 84, rfl⟩
abbrev cc9_stg0_0 : Ref sig .tc := ⟨.vmem, 85, rfl⟩
abbrev cc9_stg0_1 : Ref sig .tc := ⟨.vmem, 86, rfl⟩
abbrev cc9_stg1_0 : Ref sig .tc := ⟨.vmem, 87, rfl⟩
abbrev cc9_stg1_1 : Ref sig .tc := ⟨.vmem, 88, rfl⟩
abbrev cc9_stg2_0 : Ref sig .tc := ⟨.vmem, 89, rfl⟩
abbrev cc9_stg2_1 : Ref sig .tc := ⟨.vmem, 90, rfl⟩
abbrev cc9_stg3_0 : Ref sig .tc := ⟨.vmem, 91, rfl⟩
abbrev cc9_stg4_0 : Ref sig .tc := ⟨.vmem, 92, rfl⟩
abbrev cc9_stg5_0 : Ref sig .tc := ⟨.vmem, 93, rfl⟩
abbrev cc9_stg6_0 : Ref sig .tc := ⟨.vmem, 94, rfl⟩
abbrev cc9_stg6_1 : Ref sig .tc := ⟨.vmem, 95, rfl⟩
abbrev cc10_stg0_0 : Ref sig .tc := ⟨.vmem, 96, rfl⟩
abbrev cc10_stg0_1 : Ref sig .tc := ⟨.vmem, 97, rfl⟩
abbrev cc10_stg1_0 : Ref sig .tc := ⟨.vmem, 98, rfl⟩
abbrev cc10_stg1_1 : Ref sig .tc := ⟨.vmem, 99, rfl⟩
abbrev cc10_stg2_0 : Ref sig .tc := ⟨.vmem, 100, rfl⟩
abbrev cc10_stg2_1 : Ref sig .tc := ⟨.vmem, 101, rfl⟩
abbrev cc10_stg3_0 : Ref sig .tc := ⟨.vmem, 102, rfl⟩
abbrev cc10_stg4_0 : Ref sig .tc := ⟨.vmem, 103, rfl⟩
abbrev cc10_stg5_0 : Ref sig .tc := ⟨.vmem, 104, rfl⟩
abbrev cc10_stg6_0 : Ref sig .tc := ⟨.vmem, 105, rfl⟩
abbrev cc10_stg6_1 : Ref sig .tc := ⟨.vmem, 106, rfl⟩
abbrev cc11_stg0_0 : Ref sig .tc := ⟨.vmem, 107, rfl⟩
abbrev cc11_stg0_1 : Ref sig .tc := ⟨.vmem, 108, rfl⟩
abbrev cc11_stg1_0 : Ref sig .tc := ⟨.vmem, 109, rfl⟩
abbrev cc11_stg1_1 : Ref sig .tc := ⟨.vmem, 110, rfl⟩
abbrev cc11_stg2_0 : Ref sig .tc := ⟨.vmem, 111, rfl⟩
abbrev cc11_stg2_1 : Ref sig .tc := ⟨.vmem, 112, rfl⟩
abbrev cc11_stg3_0 : Ref sig .tc := ⟨.vmem, 113, rfl⟩
abbrev cc11_stg4_0 : Ref sig .tc := ⟨.vmem, 114, rfl⟩
abbrev cc11_stg5_0 : Ref sig .tc := ⟨.vmem, 115, rfl⟩
abbrev cc11_stg6_0 : Ref sig .tc := ⟨.vmem, 116, rfl⟩
abbrev cc11_stg6_1 : Ref sig .tc := ⟨.vmem, 117, rfl⟩
abbrev cc12_stg0_0 : Ref sig .tc := ⟨.vmem, 118, rfl⟩
abbrev cc12_stg0_1 : Ref sig .tc := ⟨.vmem, 119, rfl⟩
abbrev cc12_stg1_0 : Ref sig .tc := ⟨.vmem, 120, rfl⟩
abbrev cc12_stg2_0 : Ref sig .tc := ⟨.vmem, 121, rfl⟩
abbrev cc12_stg2_1 : Ref sig .tc := ⟨.vmem, 122, rfl⟩
abbrev cc13_stg0_0 : Ref sig .tc := ⟨.vmem, 123, rfl⟩
abbrev cc13_stg0_1 : Ref sig .tc := ⟨.vmem, 124, rfl⟩
abbrev cc13_stg1_0 : Ref sig .tc := ⟨.vmem, 125, rfl⟩
abbrev cc13_stg1_1 : Ref sig .tc := ⟨.vmem, 126, rfl⟩
abbrev cc13_stg2_0 : Ref sig .tc := ⟨.vmem, 127, rfl⟩
abbrev cc13_stg2_1 : Ref sig .tc := ⟨.vmem, 128, rfl⟩
abbrev cc13_stg3_0 : Ref sig .tc := ⟨.vmem, 129, rfl⟩
abbrev cc13_stg4_0 : Ref sig .tc := ⟨.vmem, 130, rfl⟩
abbrev cc13_stg4_1 : Ref sig .tc := ⟨.vmem, 131, rfl⟩
abbrev cc13_stg5_0 : Ref sig .tc := ⟨.vmem, 132, rfl⟩
abbrev cc13_stg6_0 : Ref sig .tc := ⟨.vmem, 133, rfl⟩
abbrev cc13_scratch0 : Ref sig .tc := ⟨.vmem, 134, rfl⟩
abbrev cc13_scratch1 : Ref sig .tc := ⟨.vmem, 135, rfl⟩
abbrev cc14_stg0_0 : Ref sig .tc := ⟨.vmem, 136, rfl⟩
abbrev cc14_stg0_1 : Ref sig .tc := ⟨.vmem, 137, rfl⟩
abbrev cc14_stg1_0 : Ref sig .tc := ⟨.vmem, 138, rfl⟩
abbrev cc14_stg2_0 : Ref sig .tc := ⟨.vmem, 139, rfl⟩
abbrev cc14_stg3_0 : Ref sig .tc := ⟨.vmem, 140, rfl⟩
abbrev cc14_stg4_0 : Ref sig .tc := ⟨.vmem, 141, rfl⟩
abbrev cc14_stg5_0 : Ref sig .tc := ⟨.vmem, 142, rfl⟩
abbrev cc14_stg5_1 : Ref sig .tc := ⟨.vmem, 143, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32
abbrev cc3_sem0_0 : DmaSem sig := 33
abbrev cc3_sem0_1 : DmaSem sig := 34
abbrev cc3_sem1_0 : DmaSem sig := 35
abbrev cc3_sem2_0 : DmaSem sig := 36
abbrev cc3_sem2_1 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem2_1 : DmaSem sig := 43
abbrev cc4_sem3_0 : DmaSem sig := 44
abbrev cc4_sem4_0 : DmaSem sig := 45
abbrev cc4_sem4_1 : DmaSem sig := 46
abbrev cc4_sem5_0 : DmaSem sig := 47
abbrev cc4_sem6_0 : DmaSem sig := 48
abbrev cc5_sem0_0 : DmaSem sig := 49
abbrev cc5_sem0_1 : DmaSem sig := 50
abbrev cc5_sem1_0 : DmaSem sig := 51
abbrev cc5_sem2_0 : DmaSem sig := 52
abbrev cc5_sem3_0 : DmaSem sig := 53
abbrev cc5_sem4_0 : DmaSem sig := 54
abbrev cc5_sem5_0 : DmaSem sig := 55
abbrev cc5_sem5_1 : DmaSem sig := 56
abbrev cc6_sem0_0 : DmaSem sig := 57
abbrev cc6_sem0_1 : DmaSem sig := 58
abbrev cc6_sem1_0 : DmaSem sig := 59
abbrev cc6_sem2_0 : DmaSem sig := 60
abbrev cc6_sem2_1 : DmaSem sig := 61
abbrev cc7_sem0_0 : DmaSem sig := 62
abbrev cc7_sem0_1 : DmaSem sig := 63
abbrev cc7_sem1_0 : DmaSem sig := 64
abbrev cc7_sem1_1 : DmaSem sig := 65
abbrev cc7_sem2_0 : DmaSem sig := 66
abbrev cc7_sem2_1 : DmaSem sig := 67
abbrev cc7_sem3_0 : DmaSem sig := 68
abbrev cc7_sem4_0 : DmaSem sig := 69
abbrev cc7_sem4_1 : DmaSem sig := 70
abbrev cc7_sem5_0 : DmaSem sig := 71
abbrev cc7_sem6_0 : DmaSem sig := 72
abbrev cc8_sem0_0 : DmaSem sig := 73
abbrev cc8_sem0_1 : DmaSem sig := 74
abbrev cc8_sem1_0 : DmaSem sig := 75
abbrev cc8_sem2_0 : DmaSem sig := 76
abbrev cc8_sem3_0 : DmaSem sig := 77
abbrev cc8_sem4_0 : DmaSem sig := 78
abbrev cc8_sem5_0 : DmaSem sig := 79
abbrev cc8_sem5_1 : DmaSem sig := 80
abbrev cc9_sem0_0 : DmaSem sig := 81
abbrev cc9_sem0_1 : DmaSem sig := 82
abbrev cc9_sem1_0 : DmaSem sig := 83
abbrev cc9_sem1_1 : DmaSem sig := 84
abbrev cc9_sem2_0 : DmaSem sig := 85
abbrev cc9_sem2_1 : DmaSem sig := 86
abbrev cc9_sem3_0 : DmaSem sig := 87
abbrev cc9_sem4_0 : DmaSem sig := 88
abbrev cc9_sem5_0 : DmaSem sig := 89
abbrev cc9_sem6_0 : DmaSem sig := 90
abbrev cc9_sem6_1 : DmaSem sig := 91
abbrev cc10_sem0_0 : DmaSem sig := 92
abbrev cc10_sem0_1 : DmaSem sig := 93
abbrev cc10_sem1_0 : DmaSem sig := 94
abbrev cc10_sem1_1 : DmaSem sig := 95
abbrev cc10_sem2_0 : DmaSem sig := 96
abbrev cc10_sem2_1 : DmaSem sig := 97
abbrev cc10_sem3_0 : DmaSem sig := 98
abbrev cc10_sem4_0 : DmaSem sig := 99
abbrev cc10_sem5_0 : DmaSem sig := 100
abbrev cc10_sem6_0 : DmaSem sig := 101
abbrev cc10_sem6_1 : DmaSem sig := 102
abbrev cc11_sem0_0 : DmaSem sig := 103
abbrev cc11_sem0_1 : DmaSem sig := 104
abbrev cc11_sem1_0 : DmaSem sig := 105
abbrev cc11_sem1_1 : DmaSem sig := 106
abbrev cc11_sem2_0 : DmaSem sig := 107
abbrev cc11_sem2_1 : DmaSem sig := 108
abbrev cc11_sem3_0 : DmaSem sig := 109
abbrev cc11_sem4_0 : DmaSem sig := 110
abbrev cc11_sem5_0 : DmaSem sig := 111
abbrev cc11_sem6_0 : DmaSem sig := 112
abbrev cc11_sem6_1 : DmaSem sig := 113
abbrev cc12_sem0_0 : DmaSem sig := 114
abbrev cc12_sem0_1 : DmaSem sig := 115
abbrev cc12_sem1_0 : DmaSem sig := 116
abbrev cc12_sem2_0 : DmaSem sig := 117
abbrev cc12_sem2_1 : DmaSem sig := 118
abbrev cc13_sem0_0 : DmaSem sig := 119
abbrev cc13_sem0_1 : DmaSem sig := 120
abbrev cc13_sem1_0 : DmaSem sig := 121
abbrev cc13_sem1_1 : DmaSem sig := 122
abbrev cc13_sem2_0 : DmaSem sig := 123
abbrev cc13_sem2_1 : DmaSem sig := 124
abbrev cc13_sem3_0 : DmaSem sig := 125
abbrev cc13_sem4_0 : DmaSem sig := 126
abbrev cc13_sem4_1 : DmaSem sig := 127
abbrev cc13_sem5_0 : DmaSem sig := 128
abbrev cc13_sem6_0 : DmaSem sig := 129
abbrev cc14_sem0_0 : DmaSem sig := 130
abbrev cc14_sem0_1 : DmaSem sig := 131
abbrev cc14_sem1_0 : DmaSem sig := 132
abbrev cc14_sem2_0 : DmaSem sig := 133
abbrev cc14_sem3_0 : DmaSem sig := 134
abbrev cc14_sem4_0 : DmaSem sig := 135
abbrev cc14_sem5_0 : DmaSem sig := 136
abbrev cc14_sem5_1 : DmaSem sig := 137

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S32x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def k4_cond2 (i : grid4.Coords) : BitVec 1 :=
  let arg0 : BitVec 32 := BitVec.ofNat 32 (i 0).val
  let c19_i32 : BitVec 32 := 19#32
  let v36 : BitVec 1 := Scalar.cmpi .eq arg0 c19_i32
  let v37 : BitVec 32 := Scalar.extui v36
  let c0_i32_19 : BitVec 32 := 0#32
  let v38 : BitVec 1 := Scalar.cmpi .ne v37 c0_i32_19
  v38

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![20], ![false]⟩

def k7_cond2 (i : grid7.Coords) : BitVec 1 :=
  let arg0 : BitVec 32 := BitVec.ofNat 32 (i 0).val
  let c19_i32 : BitVec 32 := 19#32
  let v36 : BitVec 1 := Scalar.cmpi .eq arg0 c19_i32
  let v37 : BitVec 32 := Scalar.extui v36
  let c0_i32_19 : BitVec 32 := 0#32
  let v38 : BitVec 1 := Scalar.cmpi .ne v37 c0_i32_19
  v38

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S5000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S5000x64 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 1 → Memref sig .tc .vmem S1x64 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x64 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_4 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S5000x128 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x1 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S5000x64 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 1 → Memref sig .tc .vmem S64x64 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S64 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S64x64 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 2 → Memref sig .tc .vmem S5000x64 .f32 := fun | 0 => Memref.whole cc9_stg6_0 | 1 => Memref.whole cc9_stg6_1 | ⟨_ + 2, h⟩ => absurd h (Nat.not_lt.2 (Nat.le_add_left _ _))
abbrev sem9_6 : Fin 2 → DmaSem sig := fun | 0 => cc9_sem6_0 | 1 => cc9_sem6_1 | ⟨_ + 2, h⟩ => absurd h (Nat.not_lt.2 (Nat.le_add_left _ _))
abbrev reads9_6 : Fin grid9.rank → Bool := ![true]

abbrev grid10 : Pipeline.Grid := ⟨1, ![20], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 1 → Nat :=
  let arg0 : BitVec 32 := BitVec.ofNat 32 (i 0).val
  let c0_i32 : BitVec 32 := 0#32
  let c0_i32_0 : BitVec 32 := 0#32
  ![c0_i32.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S5000x1 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S5000x64 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 1 → Memref sig .tc .vmem S64x64 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S64 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S64x64 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 2 → Memref sig .tc .vmem S5000x64 .f32 := fun | 0 => Memref.whole cc10_stg6_0 | 1 => Memref.whole cc10_stg6_1 | ⟨_ + 2, h⟩ => absurd h (Nat.not_lt.2 (Nat.le_add_left _ _))
abbrev sem10_6 : Fin 2 → DmaSem sig := fun | 0 => cc10_sem6_0 | 1 => cc10_sem6_1 | ⟨_ + 2, h⟩ => absurd h (Nat.not_lt.2 (Nat.le_add_left _ _))
abbrev reads10_6 : Fin grid10.rank → Bool := ![true]

abbrev grid11 : Pipeline.Grid := ⟨1, ![20], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 1 → Nat :=
  let arg0 : BitVec 32 := BitVec.ofNat 32 (i 0).val
  let c0_i32 : BitVec 32 := 0#32
  let c0_i32_0 : BitVec 32 := 0#32
  ![c0_i32.toNat]

def cc11_transform_5 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_6 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S5000x1 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 2 → Memref sig .tc .vmem S5000x64 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev stage11_3 : Fin 1 → Memref sig .tc .vmem S64x64 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S64 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 1 → Memref sig .tc .vmem S64x64 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

abbrev stage11_6 : Fin 2 → Memref sig .tc .vmem S5000x64 .f32 := fun | 0 => Memref.whole cc11_stg6_0 | 1 => Memref.whole cc11_stg6_1 | ⟨_ + 2, h⟩ => absurd h (Nat.not_lt.2 (Nat.le_add_left _ _))
abbrev sem11_6 : Fin 2 → DmaSem sig := fun | 0 => cc11_sem6_0 | 1 => cc11_sem6_1 | ⟨_ + 2, h⟩ => absurd h (Nat.not_lt.2 (Nat.le_add_left _ _))
abbrev reads11_6 : Fin grid11.rank → Bool := ![true]

abbrev grid12 : Pipeline.Grid := ⟨1, ![20], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S5000x64 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S64x64 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 2 → Memref sig .tc .vmem S5000x64 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev grid13 : Pipeline.Grid := ⟨1, ![20], ![false]⟩

def k13_cond2 (i : grid13.Coords) : BitVec 1 :=
  let arg0 : BitVec 32 := BitVec.ofNat 32 (i 0).val
  let c19_i32 : BitVec 32 := 19#32
  let v36 : BitVec 1 := Scalar.cmpi .eq arg0 c19_i32
  let v37 : BitVec 32 := Scalar.extui v36
  let c0_i32_19 : BitVec 32 := 0#32
  let v38 : BitVec 1 := Scalar.cmpi .ne v37 c0_i32_19
  v38

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_3 (i : grid13.Coords) : Fin 1 → Nat :=
  let arg0 : BitVec 32 := BitVec.ofNat 32 (i 0).val
  let c0_i32 : BitVec 32 := 0#32
  let c0_i32_0 : BitVec 32 := 0#32
  ![c0_i32.toNat]

def cc13_transform_4 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_5 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_6 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage13_0 : Fin 2 → Memref sig .tc .vmem S5000x64 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S5000x64 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 2 → Memref sig .tc .vmem S5000x1 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

abbrev stage13_3 : Fin 1 → Memref sig .tc .vmem S64 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 2 → Memref sig .tc .vmem S5000x64 .f32 := fun | 0 => Memref.whole cc13_stg4_0 | 1 => Memref.whole cc13_stg4_1 | ⟨_ + 2, h⟩ => absurd h (Nat.not_lt.2 (Nat.le_add_left _ _))
abbrev sem13_4 : Fin 2 → DmaSem sig := fun | 0 => cc13_sem4_0 | 1 => cc13_sem4_1 | ⟨_ + 2, h⟩ => absurd h (Nat.not_lt.2 (Nat.le_add_left _ _))
abbrev reads13_4 : Fin grid13.rank → Bool := ![true]

abbrev stage13_5 : Fin 1 → Memref sig .tc .vmem S1x64 .f32 := fun | 0 => Memref.whole cc13_stg5_0 | ⟨_ + 1, h⟩ => absurd h (Nat.not_lt.2 (Nat.le_add_left _ _))
abbrev sem13_5 : Fin 1 → DmaSem sig := fun | 0 => cc13_sem5_0 | ⟨_ + 1, h⟩ => absurd h (Nat.not_lt.2 (Nat.le_add_left _ _))
abbrev reads13_5 : Fin grid13.rank → Bool := ![false]

abbrev stage13_6 : Fin 1 → Memref sig .tc .vmem S1x64 .f32 := fun | 0 => Memref.whole cc13_stg6_0 | ⟨_ + 1, h⟩ => absurd h (Nat.not_lt.2 (Nat.le_add_left _ _))
abbrev sem13_6 : Fin 1 → DmaSem sig := fun | 0 => cc13_sem6_0 | ⟨_ + 1, h⟩ => absurd h (Nat.not_lt.2 (Nat.le_add_left _ _))
abbrev reads13_6 : Fin grid13.rank → Bool := ![false]

abbrev grid14 : Pipeline.Grid := ⟨1, ![10], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 1 → Nat :=
  let arg0 : BitVec 32 := BitVec.ofNat 32 (i 0).val
  let c0_i32 : BitVec 32 := 0#32
  let c0_i32_0 : BitVec 32 := 0#32
  ![c0_i32.toNat]

def cc14_transform_4 (i : grid14.Coords) : Fin 1 → Nat :=
  let arg0 : BitVec 32 := BitVec.ofNat 32 (i 0).val
  let c0_i32 : BitVec 32 := 0#32
  let c0_i32_0 : BitVec 32 := 0#32
  ![c0_i32.toNat]

def cc14_transform_5 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S5000x128 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S1x128 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S1x128 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 1 → Memref sig .tc .vmem S128 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 1 → Memref sig .tc .vmem S128 .f32 := fun | 0 => Memref.whole cc14_stg4_0 | ⟨_ + 1, h⟩ => absurd h (Nat.not_lt.2 (Nat.le_add_left _ _))
abbrev sem14_4 : Fin 1 → DmaSem sig := fun | 0 => cc14_sem4_0 | ⟨_ + 1, h⟩ => absurd h (Nat.not_lt.2 (Nat.le_add_left _ _))
abbrev reads14_4 : Fin grid14.rank → Bool := ![false]

abbrev stage14_5 : Fin 2 → Memref sig .tc .vmem S5000x128 .f32 := fun | 0 => Memref.whole cc14_stg5_0 | 1 => Memref.whole cc14_stg5_1 | ⟨_ + 2, h⟩ => absurd h (Nat.not_lt.2 (Nat.le_add_left _ _))
abbrev sem14_5 : Fin 2 → DmaSem sig := fun | 0 => cc14_sem5_0 | 1 => cc14_sem5_1 | ⟨_ + 2, h⟩ => absurd h (Nat.not_lt.2 (Nat.le_add_left _ _))
abbrev reads14_5 : Fin grid14.rank → Bool := ![true]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bitsLt_bf16_f32 : FTy.bits .bf16 < FTy.bits .f32
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S100000x64 : S_.BroadcastsInDim S100000x64 (![] : Fin 0 → Fin S100000x64.rank)
  bcast_S_S100000 : S_.BroadcastsInDim S100000 (![] : Fin 0 → Fin S100000.rank)
  shapeCasts_S100000_S100000x1 : S100000.ShapeCasts S100000x1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S5000x32_S5000x32_0_0 : ∀ a, (![0, 0] : Fin 2 → Nat) a + S5000x32.size a ≤ S5000x32.size a
  h_S5000x32 : 0 < S5000x32.numel
  inb_S64x64_S64x64_0_0 : ∀ a, (![0, 0] : Fin 2 → Nat) a + S64x64.size a ≤ S64x64.size a
  h_S64x64 : 0 < S64x64.numel
  inb_S32x64_S32x64_0_0 : ∀ a, (![0, 0] : Fin 2 → Nat) a + S32x64.size a ≤ S32x64.size a
  h_S32x64 : 0 < S32x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  reduces_S5000x64_S5000 : S5000x64.Reduces [1] S5000
  shapeCasts_S5000_S5000x1 : S5000.ShapeCasts S5000x1
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  inb_S1x64_S1x64_0_0 : ∀ a, (![0, 0] : Fin 2 → Nat) a + S1x64.size a ≤ S1x64.size a
  h_S1x64 : 0 < S1x64.numel
  shapeCasts_S1x64_S1x64 : S1x64.ShapeCasts S1x64
  reduces_S5000x64_S64 : S5000x64.Reduces [0] S64
  bcast_S_S1x64 : S_.BroadcastsInDim S1x64 (![] : Fin 0 → Fin S1x64.rank)
  shapeCasts_S100000x64_S50000x128 : S100000x64.ShapeCasts S50000x128
  concatenates_S1x64_S1x64_S1x128_d1 : Shape.Concatenates [S1x64, S1x64] S1x128 1
  concatenates_S64_S64_S128_d0 : Shape.Concatenates [S64, S64] S128 0
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S5000x128 : S1x128.Broadcasts S5000x128
  shapeCasts_S50000x128_S100000x64 : S50000x128.ShapeCasts S100000x64
  gather_S100000x64_S2000000x1_S2000000x64_1_0_n_n_0_1_164_wf : GatherDims.WF S100000x64 S2000000x1 S2000000x64 [1] [0] [] [0] [] 1 ![1, 64]
  scatter_S100000x64_S2000000x1_S2000000x64_1_0_0_1_wf : ScatterDims.WF S100000x64 S2000000x1 S2000000x64 [1] [0] [0] 1
  scatter_S100000_S2000000x1_S2000000_n_0_0_1_wf : ScatterDims.WF S100000 S2000000x1 S2000000 [] [0] [0] 1
  dot_S5000x64_S64x64_S5000x64_1_0_0_1_n_n_wf : DotDims.WF S5000x64 S64x64 S5000x64 [1] [0] [0] [1] [] []
  dot_S5000x32_S32x64_S5000x64_1_0_0_1_n_n_wf : DotDims.WF S5000x32 S32x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S100000x32.size a
  hwx0_2 : ∀ i : grid0.Coords, EltTy.bits .f32 = 32 ∨ (Rect.block (s := S100000x32) S5000x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x64.size a ≤ S32x64.size a
  hwx0_5 : ∀ i : grid0.Coords, EltTy.bits .f32 = 32 ∨ (Rect.block (s := S32x64) S32x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x32.size a ≤ S100000x32.size a
  hwx2_2 : ∀ i : grid2.Coords, EltTy.bits .f32 = 32 ∨ (Rect.block (s := S100000x32) S5000x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64.size a ≤ S64.size a
  hwx2_4 : ∀ i : grid2.Coords, EltTy.bits .f32 = 32 ∨ (Rect.block (s := S64) S64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S32x64.size a ≤ S32x64.size a
  hwx2_5 : ∀ i : grid2.Coords, EltTy.bits .f32 = 32 ∨ (Rect.block (s := S32x64) S32x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S100000x64.size a
  hwx2_6 : ∀ i : grid2.Coords, EltTy.bits .f32 = 32 ∨ (Rect.block (s := S100000x64) S5000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S100000x64.size a
  hwx4_1 : ∀ i : grid4.Coords, EltTy.bits .f32 = 32 ∨ (Rect.block (s := S100000x64) S5000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S100000x1.size a
  hwx4_2 : ∀ i : grid4.Coords, EltTy.bits .f32 = 32 ∨ (Rect.block (s := S100000x1) S5000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64.size a ≤ S64.size a
  hwx4_3 : ∀ i : grid4.Coords, EltTy.bits .f32 = 32 ∨ (Rect.block (s := S64) S64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x64.size a ≤ S100000x64.size a
  hwx4_4 : ∀ i : grid4.Coords, EltTy.bits .f32 = 32 ∨ (Rect.block (s := S100000x64) S5000x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x64.size a ≤ S1x64.size a
  hwx4_6 : ∀ i : grid4.Coords, EltTy.bits .f32 = 32 ∨ (Rect.block (s := S1x64) S1x64.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128.size a ≤ S128.size a
  hwx5_3 : ∀ i : grid5.Coords, EltTy.bits .f32 = 32 ∨ (Rect.block (s := S128) S128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128.size a ≤ S128.size a
  hwx5_4 : ∀ i : grid5.Coords, EltTy.bits .f32 = 32 ∨ (Rect.block (s := S128) S128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S50000x128.size a
  hwx5_5 : ∀ i : grid5.Coords, EltTy.bits .f32 = 32 ∨ (Rect.block (s := S50000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S100000x64.size a
  hwx6_0 : ∀ i : grid6.Coords, EltTy.bits .f32 = 32 ∨ (Rect.block (s := S100000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x64.size a ≤ S100000x64.size a
  hwx6_2 : ∀ i : grid6.Coords, EltTy.bits .f32 = 32 ∨ (Rect.block (s := S100000x64) S5000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S100000x64.size a
  hwx7_0 : ∀ i : grid7.Coords, EltTy.bits .f32 = 32 ∨ (Rect.block (s := S100000x64) S5000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x64.size a ≤ S100000x64.size a
  hwx7_1 : ∀ i : grid7.Coords, EltTy.bits .f32 = 32 ∨ (Rect.block (s := S100000x64) S5000x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x1.size a ≤ S100000x1.size a
  hwx7_2 : ∀ i : grid7.Coords, EltTy.bits .f32 = 32 ∨ (Rect.block (s := S100000x1) S5000x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S64.size a ≤ S64.size a
  hwx7_3 : ∀ i : grid7.Coords, EltTy.bits .f32 = 32 ∨ (Rect.block (s := S64) S64.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S5000x64.size a ≤ S100000x64.size a
  hwx7_4 : ∀ i : grid7.Coords, EltTy.bits .f32 = 32 ∨ (Rect.block (s := S100000x64) S5000x64.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x64.size a ≤ S1x64.size a
  hwx7_5 : ∀ i : grid7.Coords, EltTy.bits .f32 = 32 ∨ (Rect.block (s := S1x64) S1x64.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x64.size a ≤ S1x64.size a
  hwx7_6 : ∀ i : grid7.Coords, EltTy.bits .f32 = 32 ∨ (Rect.block (s := S1x64) S1x64.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S128.size a ≤ S128.size a
  hwx8_3 : ∀ i : grid8.Coords, EltTy.bits .f32 = 32 ∨ (Rect.block (s := S128) S128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S128.size a ≤ S128.size a
  hwx8_4 : ∀ i : grid8.Coords, EltTy.bits .f32 = 32 ∨ (Rect.block (s := S128) S128.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S5000x128.size a ≤ S50000x128.size a
  hwx8_5 : ∀ i : grid8.Coords, EltTy.bits .f32 = 32 ∨ (Rect.block (s := S50000x128) S5000x128.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x64.size a ≤ S100000x64.size a
  hwx9_0 : ∀ i : grid9.Coords, EltTy.bits .f32 = 32 ∨ (Rect.block (s := S100000x64) S5000x64.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x1.size a ≤ S100000x1.size a
  hwx9_1 : ∀ i : grid9.Coords, EltTy.bits .f32 = 32 ∨ (Rect.block (s := S100000x1) S5000x1.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S5000x64.size a ≤ S100000x64.size a
  hwx9_2 : ∀ i : grid9.Coords, EltTy.bits .f32 = 32 ∨ (Rect.block (s := S100000x64) S5000x64.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S64x64.size a ≤ S64x64.size a
  hwx9_3 : ∀ i : grid9.Coords, EltTy.bits .f32 = 32 ∨ (Rect.block (s := S64x64) S64x64.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S64.size a ≤ S64.size a
  hwx9_4 : ∀ i : grid9.Coords, EltTy.bits .f32 = 32 ∨ (Rect.block (s := S64) S64.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S64x64.size a ≤ S64x64.size a
  hwx9_5 : ∀ i : grid9.Coords, EltTy.bits .f32 = 32 ∨ (Rect.block (s := S64x64) S64x64.size (cc9_transform_5 i) (hinb9_5 i)).WholeWords (EltTy.packing .f32)
  hstage9_6 : ∀ j, (stage9_6 j).IsWhole
  nbuf9_6 : grid9.bufCount reads9_6 false = 2
  hreads9_6 : ∀ i i' : grid9.Coords, (∀ a, reads9_6 a = true → i a = i' a) → cc9_transform_6 i = cc9_transform_6 i'
  hinb9_6 : ∀ (i : grid9.Coords) a, (cc9_transform_6 i a + 1) * S5000x64.size a ≤ S100000x64.size a
  hwx9_6 : ∀ i : grid9.Coords, EltTy.bits .f32 = 32 ∨ (Rect.block (s := S100000x64) S5000x64.size (cc9_transform_6 i) (hinb9_6 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x64.size a ≤ S100000x64.size a
  hwx10_0 : ∀ i : grid10.Coords, EltTy.bits .f32 = 32 ∨ (Rect.block (s := S100000x64) S5000x64.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S5000x1.size a ≤ S100000x1.size a
  hwx10_1 : ∀ i : grid10.Coords, EltTy.bits .f32 = 32 ∨ (Rect.block (s := S100000x1) S5000x1.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S5000x64.size a ≤ S100000x64.size a
  hwx10_2 : ∀ i : grid10.Coords, EltTy.bits .f32 = 32 ∨ (Rect.block (s := S100000x64) S5000x64.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S64x64.size a ≤ S64x64.size a
  hwx10_3 : ∀ i : grid10.Coords, EltTy.bits .f32 = 32 ∨ (Rect.block (s := S64x64) S64x64.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S64.size a ≤ S64.size a
  hwx10_4 : ∀ i : grid10.Coords, EltTy.bits .f32 = 32 ∨ (Rect.block (s := S64) S64.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S64x64.size a ≤ S64x64.size a
  hwx10_5 : ∀ i : grid10.Coords, EltTy.bits .f32 = 32 ∨ (Rect.block (s := S64x64) S64x64.size (cc10_transform_5 i) (hinb10_5 i)).WholeWords (EltTy.packing .f32)
  hstage10_6 : ∀ j, (stage10_6 j).IsWhole
  nbuf10_6 : grid10.bufCount reads10_6 false = 2
  hreads10_6 : ∀ i i' : grid10.Coords, (∀ a, reads10_6 a = true → i a = i' a) → cc10_transform_6 i = cc10_transform_6 i'
  hinb10_6 : ∀ (i : grid10.Coords) a, (cc10_transform_6 i a + 1) * S5000x64.size a ≤ S100000x64.size a
  hwx10_6 : ∀ i : grid10.Coords, EltTy.bits .f32 = 32 ∨ (Rect.block (s := S100000x64) S5000x64.size (cc10_transform_6 i) (hinb10_6 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x64.size a ≤ S100000x64.size a
  hwx11_0 : ∀ i : grid11.Coords, EltTy.bits .f32 = 32 ∨ (Rect.block (s := S100000x64) S5000x64.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S5000x1.size a ≤ S100000x1.size a
  hwx11_1 : ∀ i : grid11.Coords, EltTy.bits .f32 = 32 ∨ (Rect.block (s := S100000x1) S5000x1.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S5000x64.size a ≤ S100000x64.size a
  hwx11_2 : ∀ i : grid11.Coords, EltTy.bits .f32 = 32 ∨ (Rect.block (s := S100000x64) S5000x64.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S64x64.size a ≤ S64x64.size a
  hwx11_3 : ∀ i : grid11.Coords, EltTy.bits .f32 = 32 ∨ (Rect.block (s := S64x64) S64x64.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S64.size a ≤ S64.size a
  hwx11_4 : ∀ i : grid11.Coords, EltTy.bits .f32 = 32 ∨ (Rect.block (s := S64) S64.size (cc11_transform_4 i) (hinb11_4 i)).WholeWords (EltTy.packing .f32)
  hstage11_5 : ∀ j, (stage11_5 j).IsWhole
  nbuf11_5 : grid11.bufCount reads11_5 true = 1
  hreads11_5 : ∀ i i' : grid11.Coords, (∀ a, reads11_5 a = true → i a = i' a) → cc11_transform_5 i = cc11_transform_5 i'
  hinb11_5 : ∀ (i : grid11.Coords) a, (cc11_transform_5 i a + 1) * S64x64.size a ≤ S64x64.size a
  hwx11_5 : ∀ i : grid11.Coords, EltTy.bits .f32 = 32 ∨ (Rect.block (s := S64x64) S64x64.size (cc11_transform_5 i) (hinb11_5 i)).WholeWords (EltTy.packing .f32)
  hstage11_6 : ∀ j, (stage11_6 j).IsWhole
  nbuf11_6 : grid11.bufCount reads11_6 false = 2
  hreads11_6 : ∀ i i' : grid11.Coords, (∀ a, reads11_6 a = true → i a = i' a) → cc11_transform_6 i = cc11_transform_6 i'
  hinb11_6 : ∀ (i : grid11.Coords) a, (cc11_transform_6 i a + 1) * S5000x64.size a ≤ S100000x64.size a
  hwx11_6 : ∀ i : grid11.Coords, EltTy.bits .f32 = 32 ∨ (Rect.block (s := S100000x64) S5000x64.size (cc11_transform_6 i) (hinb11_6 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S5000x64.size a ≤ S100000x64.size a
  hwx12_0 : ∀ i : grid12.Coords, EltTy.bits .f32 = 32 ∨ (Rect.block (s := S100000x64) S5000x64.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S64x64.size a ≤ S64x64.size a
  hwx12_1 : ∀ i : grid12.Coords, EltTy.bits .f32 = 32 ∨ (Rect.block (s := S64x64) S64x64.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S5000x64.size a ≤ S100000x64.size a
  hwx12_2 : ∀ i : grid12.Coords, EltTy.bits .f32 = 32 ∨ (Rect.block (s := S100000x64) S5000x64.size (cc12_transform_2 i) (hinb12_2 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S5000x64.size a ≤ S100000x64.size a
  hwx13_0 : ∀ i : grid13.Coords, EltTy.bits .f32 = 32 ∨ (Rect.block (s := S100000x64) S5000x64.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S5000x64.size a ≤ S100000x64.size a
  hwx13_1 : ∀ i : grid13.Coords, EltTy.bits .f32 = 32 ∨ (Rect.block (s := S100000x64) S5000x64.size (cc13_transform_1 i) (hinb13_1 i)).WholeWords (EltTy.packing .f32)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S5000x1.size a ≤ S100000x1.size a
  hwx13_2 : ∀ i : grid13.Coords, EltTy.bits .f32 = 32 ∨ (Rect.block (s := S100000x1) S5000x1.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S64.size a ≤ S64.size a
  hwx13_3 : ∀ i : grid13.Coords, EltTy.bits .f32 = 32 ∨ (Rect.block (s := S64) S64.size (cc13_transform_3 i) (hinb13_3 i)).WholeWords (EltTy.packing .f32)
  hstage13_4 : ∀ j, (stage13_4 j).IsWhole
  nbuf13_4 : grid13.bufCount reads13_4 false = 2
  hreads13_4 : ∀ i i' : grid13.Coords, (∀ a, reads13_4 a = true → i a = i' a) → cc13_transform_4 i = cc13_transform_4 i'
  hinb13_4 : ∀ (i : grid13.Coords) a, (cc13_transform_4 i a + 1) * S5000x64.size a ≤ S100000x64.size a
  hwx13_4 : ∀ i : grid13.Coords, EltTy.bits .f32 = 32 ∨ (Rect.block (s := S100000x64) S5000x64.size (cc13_transform_4 i) (hinb13_4 i)).WholeWords (EltTy.packing .f32)
  hstage13_5 : ∀ j, (stage13_5 j).IsWhole
  nbuf13_5 : grid13.bufCount reads13_5 true = 1
  hreads13_5 : ∀ i i' : grid13.Coords, (∀ a, reads13_5 a = true → i a = i' a) → cc13_transform_5 i = cc13_transform_5 i'
  hinb13_5 : ∀ (i : grid13.Coords) a, (cc13_transform_5 i a + 1) * S1x64.size a ≤ S1x64.size a
  hwx13_5 : ∀ i : grid13.Coords, EltTy.bits .f32 = 32 ∨ (Rect.block (s := S1x64) S1x64.size (cc13_transform_5 i) (hinb13_5 i)).WholeWords (EltTy.packing .f32)
  hstage13_6 : ∀ j, (stage13_6 j).IsWhole
  nbuf13_6 : grid13.bufCount reads13_6 true = 1
  hreads13_6 : ∀ i i' : grid13.Coords, (∀ a, reads13_6 a = true → i a = i' a) → cc13_transform_6 i = cc13_transform_6 i'
  hinb13_6 : ∀ (i : grid13.Coords) a, (cc13_transform_6 i a + 1) * S1x64.size a ≤ S1x64.size a
  hwx13_6 : ∀ i : grid13.Coords, EltTy.bits .f32 = 32 ∨ (Rect.block (s := S1x64) S1x64.size (cc13_transform_6 i) (hinb13_6 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S5000x128.size a ≤ S50000x128.size a
  hwx14_0 : ∀ i : grid14.Coords, EltTy.bits .f32 = 32 ∨ (Rect.block (s := S50000x128) S5000x128.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S1x128.size a ≤ S1x128.size a
  hwx14_1 : ∀ i : grid14.Coords, EltTy.bits .f32 = 32 ∨ (Rect.block (s := S1x128) S1x128.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x128.size a ≤ S1x128.size a
  hwx14_2 : ∀ i : grid14.Coords, EltTy.bits .f32 = 32 ∨ (Rect.block (s := S1x128) S1x128.size (cc14_transform_2 i) (hinb14_2 i)).WholeWords (EltTy.packing .f32)
  hstage14_3 : ∀ j, (stage14_3 j).IsWhole
  nbuf14_3 : grid14.bufCount reads14_3 true = 1
  hreads14_3 : ∀ i i' : grid14.Coords, (∀ a, reads14_3 a = true → i a = i' a) → cc14_transform_3 i = cc14_transform_3 i'
  hinb14_3 : ∀ (i : grid14.Coords) a, (cc14_transform_3 i a + 1) * S128.size a ≤ S128.size a
  hwx14_3 : ∀ i : grid14.Coords, EltTy.bits .f32 = 32 ∨ (Rect.block (s := S128) S128.size (cc14_transform_3 i) (hinb14_3 i)).WholeWords (EltTy.packing .f32)
  hstage14_4 : ∀ j, (stage14_4 j).IsWhole
  nbuf14_4 : grid14.bufCount reads14_4 true = 1
  hreads14_4 : ∀ i i' : grid14.Coords, (∀ a, reads14_4 a = true → i a = i' a) → cc14_transform_4 i = cc14_transform_4 i'
  hinb14_4 : ∀ (i : grid14.Coords) a, (cc14_transform_4 i a + 1) * S128.size a ≤ S128.size a
  hwx14_4 : ∀ i : grid14.Coords, EltTy.bits .f32 = 32 ∨ (Rect.block (s := S128) S128.size (cc14_transform_4 i) (hinb14_4 i)).WholeWords (EltTy.packing .f32)
  hstage14_5 : ∀ j, (stage14_5 j).IsWhole
  nbuf14_5 : grid14.bufCount reads14_5 false = 2
  hreads14_5 : ∀ i i' : grid14.Coords, (∀ a, reads14_5 a = true → i a = i' a) → cc14_transform_5 i = cc14_transform_5 i'
  hinb14_5 : ∀ (i : grid14.Coords) a, (cc14_transform_5 i a + 1) * S5000x128.size a ≤ S50000x128.size a
  hwx14_5 : ∀ i : grid14.Coords, EltTy.bits .f32 = 32 ∨ (Rect.block (s := S50000x128) S5000x128.size (cc14_transform_5 i) (hinb14_5 i)).WholeWords (EltTy.packing .f32)

variable [Facts₀]

def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf

abbrev win0_0 : Pipeline.Window sig grid0 :=
  Pipeline.Window.ofSpec (Memref.whole main_v15) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg12) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg13) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg14) S32x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v37) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg15) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg16) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg17) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v43) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v59) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v64) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg2) S5000x32.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg18) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg19) S64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg20) S32x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v65) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v43) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg30) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v66) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v92) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v80) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v93) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg31) S64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v94_0) S5000x64.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v94_1) S1x64.size cc4_transform_5 reads4_5 true true 1 stage4_5 sem4_5
    hrank4 hreads4_5 hinb4_5 nbuf4_5 (Memref.isWhole_whole _) hwx4_5 hstage4_5

abbrev win4_6 : Pipeline.Window sig grid4 :=
  Pipeline.Window.ofSpec (Memref.whole main_v94_2) S1x64.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev idle4 : Fin 7 → grid4.Coords → Bool := fun | 0 => fun _ => false | 1 => fun _ => false | 2 => fun _ => false | 3 => fun _ => false | 4 => fun _ => false | 5 => fun i => !(k4_cond2 i == 1#1) | 6 => fun i => !(k4_cond2 i == 1#1) | ⟨_ + 7, h⟩ => absurd h (Nat.not_lt.2 (Nat.le_add_left _ _))

abbrev win5_0 : Pipeline.Window sig grid5 :=
  Pipeline.Window.ofSpec (Memref.whole main_v104) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v105) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v106) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v107) S128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v108) S128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v109) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v65) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg32) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v111) S5000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v137) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v125) S5000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v138) S5000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_arg33) S64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v139_0) S5000x64.size cc7_transform_4 reads7_4 true false 2 stage7_4 sem7_4
    hrank7 hreads7_4 hinb7_4 nbuf7_4 (Memref.isWhole_whole _) hwx7_4 hstage7_4

abbrev win7_5 : Pipeline.Window sig grid7 :=
  Pipeline.Window.ofSpec (Memref.whole main_v139_1) S1x64.size cc7_transform_5 reads7_5 true true 1 stage7_5 sem7_5
    hrank7 hreads7_5 hinb7_5 nbuf7_5 (Memref.isWhole_whole _) hwx7_5 hstage7_5

abbrev win7_6 : Pipeline.Window sig grid7 :=
  Pipeline.Window.ofSpec (Memref.whole main_v139_2) S1x64.size cc7_transform_6 reads7_6 true true 1 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev idle7 : Fin 7 → grid7.Coords → Bool := fun | 0 => fun _ => false | 1 => fun _ => false | 2 => fun _ => false | 3 => fun _ => false | 4 => fun _ => false | 5 => fun i => !(k7_cond2 i == 1#1) | 6 => fun i => !(k7_cond2 i == 1#1) | ⟨_ + 7, h⟩ => absurd h (Nat.not_lt.2 (Nat.le_add_left _ _))

abbrev win8_0 : Pipeline.Window sig grid8 :=
  Pipeline.Window.ofSpec (Memref.whole main_v149) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v150) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v151) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v152) S128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v153) S128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v154) S5000x128.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v171) S5000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v176) S5000x1.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_arg1) S5000x64.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_arg21) S64x64.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_arg22) S64.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_arg23) S64x64.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v177) S5000x64.size cc9_transform_6 reads9_6 true false 2 stage9_6 sem9_6
    hrank9 hreads9_6 hinb9_6 nbuf9_6 (Memref.isWhole_whole _) hwx9_6 hstage9_6

abbrev win9 : Fin 7 → Pipeline.Window sig grid9 := fun | 0 => win9_0 | 1 => win9_1 | 2 => win9_2 | 3 => win9_3 | 4 => win9_4 | 5 => win9_5 | 6 => win9_6 | ⟨_ + 7, h⟩ => absurd h (Nat.not_lt.2 (Nat.le_add_left _ _))
abbrev spec9 : Fin 7 → Pipeline.WinSpec sig grid9.rank := fun w => (win9 w).toWinSpec

abbrev win10_0 : Pipeline.Window sig grid10 :=
  Pipeline.Window.ofSpec (Memref.whole main_v193) S5000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v198) S5000x1.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v177) S5000x64.size cc10_transform_2 reads10_2 false false 2 stage10_2 sem10_2
    hrank10 hreads10_2 hinb10_2 nbuf10_2 (Memref.isWhole_whole _) hwx10_2 hstage10_2

abbrev win10_3 : Pipeline.Window sig grid10 :=
  Pipeline.Window.ofSpec (Memref.whole main_arg24) S64x64.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_arg25) S64.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_arg26) S64x64.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_v199) S5000x64.size cc10_transform_6 reads10_6 true false 2 stage10_6 sem10_6
    hrank10 hreads10_6 hinb10_6 nbuf10_6 (Memref.isWhole_whole _) hwx10_6 hstage10_6

abbrev win10 : Fin 7 → Pipeline.Window sig grid10 := fun | 0 => win10_0 | 1 => win10_1 | 2 => win10_2 | 3 => win10_3 | 4 => win10_4 | 5 => win10_5 | 6 => win10_6 | ⟨_ + 7, h⟩ => absurd h (Nat.not_lt.2 (Nat.le_add_left _ _))
abbrev spec10 : Fin 7 → Pipeline.WinSpec sig grid10.rank := fun w => (win10 w).toWinSpec

abbrev win11_0 : Pipeline.Window sig grid11 :=
  Pipeline.Window.ofSpec (Memref.whole main_v215) S5000x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v220) S5000x1.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v199) S5000x64.size cc11_transform_2 reads11_2 false false 2 stage11_2 sem11_2
    hrank11 hreads11_2 hinb11_2 nbuf11_2 (Memref.isWhole_whole _) hwx11_2 hstage11_2

abbrev win11_3 : Pipeline.Window sig grid11 :=
  Pipeline.Window.ofSpec (Memref.whole main_arg27) S64x64.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_arg28) S64.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_arg29) S64x64.size cc11_transform_5 reads11_5 false true 1 stage11_5 sem11_5
    hrank11 hreads11_5 hinb11_5 nbuf11_5 (Memref.isWhole_whole _) hwx11_5 hstage11_5

abbrev win11_6 : Pipeline.Window sig grid11 :=
  Pipeline.Window.ofSpec (Memref.whole main_v221) S5000x64.size cc11_transform_6 reads11_6 true false 2 stage11_6 sem11_6
    hrank11 hreads11_6 hinb11_6 nbuf11_6 (Memref.isWhole_whole _) hwx11_6 hstage11_6

abbrev win11 : Fin 7 → Pipeline.Window sig grid11 := fun | 0 => win11_0 | 1 => win11_1 | 2 => win11_2 | 3 => win11_3 | 4 => win11_4 | 5 => win11_5 | 6 => win11_6 | ⟨_ + 7, h⟩ => absurd h (Nat.not_lt.2 (Nat.le_add_left _ _))
abbrev spec11 : Fin 7 → Pipeline.WinSpec sig grid11.rank := fun w => (win11 w).toWinSpec

abbrev win12_0 : Pipeline.Window sig grid12 :=
  Pipeline.Window.ofSpec (Memref.whole main_v221) S5000x64.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_arg34) S64x64.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v222) S5000x64.size cc12_transform_2 reads12_2 true false 2 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

abbrev win13_0 : Pipeline.Window sig grid13 :=
  Pipeline.Window.ofSpec (Memref.whole main_v248) S5000x64.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v236) S5000x64.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v249) S5000x1.size cc13_transform_2 reads13_2 false false 2 stage13_2 sem13_2
    hrank13 hreads13_2 hinb13_2 nbuf13_2 (Memref.isWhole_whole _) hwx13_2 hstage13_2

abbrev win13_3 : Pipeline.Window sig grid13 :=
  Pipeline.Window.ofSpec (Memref.whole main_arg35) S64.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v250_0) S5000x64.size cc13_transform_4 reads13_4 true false 2 stage13_4 sem13_4
    hrank13 hreads13_4 hinb13_4 nbuf13_4 (Memref.isWhole_whole _) hwx13_4 hstage13_4

abbrev win13_5 : Pipeline.Window sig grid13 :=
  Pipeline.Window.ofSpec (Memref.whole main_v250_1) S1x64.size cc13_transform_5 reads13_5 true true 1 stage13_5 sem13_5
    hrank13 hreads13_5 hinb13_5 nbuf13_5 (Memref.isWhole_whole _) hwx13_5 hstage13_5

abbrev win13_6 : Pipeline.Window sig grid13 :=
  Pipeline.Window.ofSpec (Memref.whole main_v250_2) S1x64.size cc13_transform_6 reads13_6 true true 1 stage13_6 sem13_6
    hrank13 hreads13_6 hinb13_6 nbuf13_6 (Memref.isWhole_whole _) hwx13_6 hstage13_6

abbrev win13 : Fin 7 → Pipeline.Window sig grid13 := fun | 0 => win13_0 | 1 => win13_1 | 2 => win13_2 | 3 => win13_3 | 4 => win13_4 | 5 => win13_5 | 6 => win13_6 | ⟨_ + 7, h⟩ => absurd h (Nat.not_lt.2 (Nat.le_add_left _ _))
abbrev spec13 : Fin 7 → Pipeline.WinSpec sig grid13.rank := fun w => (win13 w).toWinSpec

abbrev idle13 : Fin 7 → grid13.Coords → Bool := fun | 0 => fun _ => false | 1 => fun _ => false | 2 => fun _ => false | 3 => fun _ => false | 4 => fun _ => false | 5 => fun i => !(k13_cond2 i == 1#1) | 6 => fun i => !(k13_cond2 i == 1#1) | ⟨_ + 7, h⟩ => absurd h (Nat.not_lt.2 (Nat.le_add_left _ _))

abbrev win14_0 : Pipeline.Window sig grid14 :=
  Pipeline.Window.ofSpec (Memref.whole main_v260) S5000x128.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v261) S1x128.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v262) S1x128.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v263) S128.size cc14_transform_3 reads14_3 false true 1 stage14_3 sem14_3
    hrank14 hreads14_3 hinb14_3 nbuf14_3 (Memref.isWhole_whole _) hwx14_3 hstage14_3

abbrev win14_4 : Pipeline.Window sig grid14 :=
  Pipeline.Window.ofSpec (Memref.whole main_v264) S128.size cc14_transform_4 reads14_4 false true 1 stage14_4 sem14_4
    hrank14 hreads14_4 hinb14_4 nbuf14_4 (Memref.isWhole_whole _) hwx14_4 hstage14_4

abbrev win14_5 : Pipeline.Window sig grid14 :=
  Pipeline.Window.ofSpec (Memref.whole main_v265) S5000x128.size cc14_transform_5 reads14_5 true false 2 stage14_5 sem14_5
    hrank14 hreads14_5 hinb14_5 nbuf14_5 (Memref.isWhole_whole _) hwx14_5 hstage14_5

abbrev win14 : Fin 6 → Pipeline.Window sig grid14 := fun | 0 => win14_0 | 1 => win14_1 | 2 => win14_2 | 3 => win14_3 | 4 => win14_4 | 5 => win14_5 | ⟨_ + 6, h⟩ => absurd h (Nat.not_lt.2 (Nat.le_add_left _ _))
abbrev spec14 : Fin 6 → Pipeline.WinSpec sig grid14.rank := fun w => (win14 w).toWinSpec

class Facts : Prop extends Facts₀ where

variable [Facts]
-- ==== ReferenceIdeal.lean ====
abbrev S100000x32 : Shape := ⟨2, ![100000, 32]⟩
abbrev S100000x64 : Shape := ⟨2, ![100000, 64]⟩
abbrev S2x2000000 : Shape := ⟨2, ![2, 2000000]⟩
abbrev S64x64 : Shape := ⟨2, ![64, 64]⟩
abbrev S64 : Shape := ⟨1, ![64]⟩
abbrev S32x64 : Shape := ⟨2, ![32, 64]⟩
abbrev S1x2000000 : Shape := ⟨2, ![1, 2000000]⟩
abbrev S2000000 : Shape := ⟨1, ![2000000]⟩
abbrev S_ : Shape := ⟨0, ![]⟩
abbrev S2000000x1 : Shape := ⟨2, ![2000000, 1]⟩
abbrev S2000000x64 : Shape := ⟨2, ![2000000, 64]⟩
abbrev S100000 : Shape := ⟨1, ![100000]⟩
abbrev S100000x1 : Shape := ⟨2, ![100000, 1]⟩
abbrev S1x64 : Shape := ⟨2, ![1, 64]⟩

abbrev nBuf : Space → Nat
  | .hbm => 600
  | .vmem => 0
  | .smem => 0
  | _ => 0

abbrev hbmTy0_0 (i : Nat) : BufTy := match i % 128 with
  | 0 => ⟨S100000x32, .f32⟩
  | 1 => ⟨S100000x64, .f32⟩
  | 2 => ⟨S100000x32, .f32⟩
  | 3 => ⟨S2x2000000, .i32⟩
  | 4 => ⟨S2x2000000, .i32⟩
  | 5 => ⟨S2x2000000, .i32⟩
  | 6 => ⟨S2x2000000, .i32⟩
  | 7 => ⟨S2x2000000, .i32⟩
  | 8 => ⟨S2x2000000, .i32⟩
  | 9 => ⟨S2x2000000, .i32⟩
  | 10 => ⟨S2x2000000, .i32⟩
  | 11 => ⟨S2x2000000, .i32⟩
  | 12 => ⟨S64x64, .f32⟩
  | 13 => ⟨S64, .f32⟩
  | 14 => ⟨S32x64, .f32⟩
  | 15 => ⟨S64x64, .f32⟩
  | 16 => ⟨S64, .f32⟩
  | 17 => ⟨S64x64, .f32⟩
  | 18 => ⟨S64x64, .f32⟩
  | 19 => ⟨S64, .f32⟩
  | 20 => ⟨S32x64, .f32⟩
  | 21 => ⟨S64x64, .f32⟩
  | 22 => ⟨S64, .f32⟩
  | 23 => ⟨S64x64, .f32⟩
  | 24 => ⟨S64x64, .f32⟩
  | 25 => ⟨S64, .f32⟩
  | 26 => ⟨S64x64, .f32⟩
  | 27 => ⟨S64x64, .f32⟩
  | 28 => ⟨S64, .f32⟩
  | 29 => ⟨S64x64, .f32⟩
  | 30 => ⟨S64x64, .f32⟩
  | 31 => ⟨S64, .f32⟩
  | 32 => ⟨S64x64, .f32⟩
  | 33 => ⟨S64, .f32⟩
  | 34 => ⟨S64x64, .f32⟩
  | 35 => ⟨S64, .f32⟩
  | 36 => ⟨S64, .f32⟩
  | 37 => ⟨S64, .f32⟩
  | 38 => ⟨S64, .f32⟩
  | 39 => ⟨S64, .f32⟩
  | 40 => ⟨S64, .f32⟩
  | 41 => ⟨S64, .f32⟩
  | 42 => ⟨S1x2000000, .i32⟩
  | 43 => ⟨S2000000, .i32⟩
  | 44 => ⟨S1x2000000, .i32⟩
  | 45 => ⟨S2000000, .i32⟩
  | 46 => ⟨S_, .i32⟩
  | 47 => ⟨S2000000, .i32⟩
  | 48 => ⟨S2000000, .i1⟩
  | 49 => ⟨S_, .i32⟩
  | 50 => ⟨S2000000, .i32⟩
  | 51 => ⟨S2000000, .i32⟩
  | 52 => ⟨S2000000, .i32⟩
  | 53 => ⟨S2000000x1, .i32⟩
  | 54 => ⟨S2000000x64, .f32⟩
  | 55 => ⟨S_, .f32⟩
  | 56 => ⟨S100000x64, .f32⟩
  | 57 => ⟨S2000000x1, .i32⟩
  | 58 => ⟨S100000x64, .f32⟩
  | 59 => ⟨S_, .f32⟩
  | 60 => ⟨S2000000, .f32⟩
  | 61 => ⟨S_, .f32⟩
  | 62 => ⟨S100000, .f32⟩
  | 63 => ⟨S2000000x1, .i32⟩
  | 64 => ⟨S100000, .f32⟩
  | 65 => ⟨S_, .f32⟩
  | 66 => ⟨S100000, .f32⟩
  | 67 => ⟨S100000, .f32⟩
  | 68 => ⟨S100000x1, .f32⟩
  | 69 => ⟨S100000x64, .f32⟩
  | 70 => ⟨S100000x64, .f32⟩
  | 71 => ⟨S100000x64, .f32⟩
  | 72 => ⟨S1x64, .f32⟩
  | 73 => ⟨S100000x64, .f32⟩
  | 74 => ⟨S100000x64, .f32⟩
  | 75 => ⟨S100000x64, .f32⟩
  | 76 => ⟨S100000x64, .f32⟩
  | 77 => ⟨S100000x64, .f32⟩
  | 78 => ⟨S_, .f32⟩
  | 79 => ⟨S100000, .f32⟩
  | 80 => ⟨S100000x1, .f32⟩
  | 81 => ⟨S100000x1, .f32⟩
  | 82 => ⟨S_, .f32⟩
  | 83 => ⟨S100000x1, .f32⟩
  | 84 => ⟨S100000x1, .f32⟩
  | 85 => ⟨S100000x64, .f32⟩
  | 86 => ⟨S100000x64, .f32⟩
  | 87 => ⟨S_, .f32⟩
  | 88 => ⟨S100000x64, .f32⟩
  | 89 => ⟨S100000x64, .f32⟩
  | 90 => ⟨S1x2000000, .i32⟩
  | 91 => ⟨S2000000, .i32⟩
  | 92 => ⟨S1x2000000, .i32⟩
  | 93 => ⟨S2000000, .i32⟩
  | 94 => ⟨S_, .i32⟩
  | 95 => ⟨S2000000, .i32⟩
  | 96 => ⟨S2000000, .i1⟩
  | 97 => ⟨S_, .i32⟩
  | 98 => ⟨S2000000, .i32⟩
  | 99 => ⟨S2000000, .i32⟩
  | 100 => ⟨S2000000, .i32⟩
  | 101 => ⟨S2000000x1, .i32⟩
  | 102 => ⟨S2000000x64, .f32⟩
  | 103 => ⟨S_, .f32⟩
  | 104 => ⟨S100000x64, .f32⟩
  | 105 => ⟨S2000000x1, .i32⟩
  | 106 => ⟨S100000x64, .f32⟩
  | 107 => ⟨S_, .f32⟩
  | 108 => ⟨S2000000, .f32⟩
  | 109 => ⟨S_, .f32⟩
  | 110 => ⟨S100000, .f32⟩
  | 111 => ⟨S2000000x1, .i32⟩
  | 112 => ⟨S100000, .f32⟩
  | 113 => ⟨S_, .f32⟩
  | 114 => ⟨S100000, .f32⟩
  | 115 => ⟨S100000, .f32⟩
  | 116 => ⟨S100000x1, .f32⟩
  | 117 => ⟨S100000x64, .f32⟩
  | 118 => ⟨S100000x64, .f32⟩
  | 119 => ⟨S100000x64, .f32⟩
  | 120 => ⟨S1x64, .f32⟩
  | 121 => ⟨S100000x64, .f32⟩
  | 122 => ⟨S100000x64, .f32⟩
  | 123 => ⟨S100000x64, .f32⟩
  | 124 => ⟨S100000x64, .f32⟩
  | 125 => ⟨S100000x64, .f32⟩
  | 126 => ⟨S_, .f32⟩
  | 127 => ⟨S100000, .f32⟩
  | _ => ⟨S100000x32, .f32⟩

abbrev hbmTy0_1 (i : Nat) : BufTy := match i % 128 with
  | 0 => ⟨S100000x1, .f32⟩
  | 1 => ⟨S100000x1, .f32⟩
  | 2 => ⟨S_, .f32⟩
  | 3 => ⟨S100000x1, .f32⟩
  | 4 => ⟨S100000x1, .f32⟩
  | 5 => ⟨S100000x64, .f32⟩
  | 6 => ⟨S100000x64, .f32⟩
  | 7 => ⟨S_, .f32⟩
  | 8 => ⟨S100000x64, .f32⟩
  | 9 => ⟨S100000x64, .f32⟩
  | 10 => ⟨S1x2000000, .i32⟩
  | 11 => ⟨S2000000, .i32⟩
  | 12 => ⟨S1x2000000, .i32⟩
  | 13 => ⟨S2000000, .i32⟩
  | 14 => ⟨S_, .i32⟩
  | 15 => ⟨S2000000, .i32⟩
  | 16 => ⟨S2000000, .i1⟩
  | 17 => ⟨S_, .i32⟩
  | 18 => ⟨S2000000, .i32⟩
  | 19 => ⟨S2000000, .i32⟩
  | 20 => ⟨S2000000, .i32⟩
  | 21 => ⟨S2000000x1, .i32⟩
  | 22 => ⟨S2000000x64, .f32⟩
  | 23 => ⟨S_, .f32⟩
  | 24 => ⟨S100000x64, .f32⟩
  | 25 => ⟨S2000000x1, .i32⟩
  | 26 => ⟨S100000x64, .f32⟩
  | 27 => ⟨S_, .f32⟩
  | 28 => ⟨S2000000, .f32⟩
  | 29 => ⟨S_, .f32⟩
  | 30 => ⟨S100000, .f32⟩
  | 31 => ⟨S2000000x1, .i32⟩
  | 32 => ⟨S100000, .f32⟩
  | 33 => ⟨S_, .f32⟩
  | 34 => ⟨S100000, .f32⟩
  | 35 => ⟨S100000, .f32⟩
  | 36 => ⟨S100000x1, .f32⟩
  | 37 => ⟨S100000x64, .f32⟩
  | 38 => ⟨S100000x64, .f32⟩
  | 39 => ⟨S100000x64, .f32⟩
  | 40 => ⟨S1x64, .f32⟩
  | 41 => ⟨S100000x64, .f32⟩
  | 42 => ⟨S100000x64, .f32⟩
  | 43 => ⟨S100000x64, .f32⟩
  | 44 => ⟨S100000x64, .f32⟩
  | 45 => ⟨S100000x64, .f32⟩
  | 46 => ⟨S_, .f32⟩
  | 47 => ⟨S100000, .f32⟩
  | 48 => ⟨S100000x1, .f32⟩
  | 49 => ⟨S100000x1, .f32⟩
  | 50 => ⟨S_, .f32⟩
  | 51 => ⟨S100000x1, .f32⟩
  | 52 => ⟨S100000x1, .f32⟩
  | 53 => ⟨S100000x64, .f32⟩
  | 54 => ⟨S100000x64, .f32⟩
  | 55 => ⟨S_, .f32⟩
  | 56 => ⟨S100000x64, .f32⟩
  | 57 => ⟨S100000x64, .f32⟩
  | 58 => ⟨S1x2000000, .i32⟩
  | 59 => ⟨S2000000, .i32⟩
  | 60 => ⟨S1x2000000, .i32⟩
  | 61 => ⟨S2000000, .i32⟩
  | 62 => ⟨S100000x64, .f32⟩
  | 63 => ⟨S_, .f32⟩
  | 64 => ⟨S2000000, .f32⟩
  | 65 => ⟨S_, .f32⟩
  | 66 => ⟨S100000, .f32⟩
  | 67 => ⟨S2000000x1, .i32⟩
  | 68 => ⟨S100000, .f32⟩
  | 69 => ⟨S_, .f32⟩
  | 70 => ⟨S100000, .f32⟩
  | 71 => ⟨S100000, .f32⟩
  | 72 => ⟨S100000, .f32⟩
  | 73 => ⟨S_, .i32⟩
  | 74 => ⟨S2000000, .i32⟩
  | 75 => ⟨S2000000, .i1⟩
  | 76 => ⟨S_, .i32⟩
  | 77 => ⟨S2000000, .i32⟩
  | 78 => ⟨S2000000, .i32⟩
  | 79 => ⟨S2000000, .i32⟩
  | 80 => ⟨S2000000x1, .i32⟩
  | 81 => ⟨S2000000, .f32⟩
  | 82 => ⟨S_, .i32⟩
  | 83 => ⟨S2000000, .i32⟩
  | 84 => ⟨S2000000, .i1⟩
  | 85 => ⟨S_, .i32⟩
  | 86 => ⟨S2000000, .i32⟩
  | 87 => ⟨S2000000, .i32⟩
  | 88 => ⟨S2000000, .i32⟩
  | 89 => ⟨S2000000x1, .i32⟩
  | 90 => ⟨S2000000, .f32⟩
  | 91 => ⟨S2000000, .f32⟩
  | 92 => ⟨S2000000x1, .f32⟩
  | 93 => ⟨S_, .i32⟩
  | 94 => ⟨S2000000, .i32⟩
  | 95 => ⟨S2000000, .i1⟩
  | 96 => ⟨S_, .i32⟩
  | 97 => ⟨S2000000, .i32⟩
  | 98 => ⟨S2000000, .i32⟩
  | 99 => ⟨S2000000, .i32⟩
  | 100 => ⟨S2000000x1, .i32⟩
  | 101 => ⟨S2000000x64, .f32⟩
  | 102 => ⟨S2000000x64, .f32⟩
  | 103 => ⟨S2000000x64, .f32⟩
  | 104 => ⟨S_, .f32⟩
  | 105 => ⟨S100000x64, .f32⟩
  | 106 => ⟨S2000000x1, .i32⟩
  | 107 => ⟨S100000x64, .f32⟩
  | 108 => ⟨S100000x1, .f32⟩
  | 109 => ⟨S100000x64, .f32⟩
  | 110 => ⟨S100000x64, .f32⟩
  | 111 => ⟨S100000x64, .f32⟩
  | 112 => ⟨S1x64, .f32⟩
  | 113 => ⟨S100000x64, .f32⟩
  | 114 => ⟨S100000x64, .f32⟩
  | 115 => ⟨S_, .f32⟩
  | 116 => ⟨S100000x64, .f32⟩
  | 117 => ⟨S100000x64, .f32⟩
  | 118 => ⟨S_, .f32⟩
  | 119 => ⟨S64, .f32⟩
  | 120 => ⟨S_, .f32⟩
  | 121 => ⟨S64, .f32⟩
  | 122 => ⟨S64, .f32⟩
  | 123 => ⟨S1x64, .f32⟩
  | 124 => ⟨S100000x64, .f32⟩
  | 125 => ⟨S100000x64, .f32⟩
  | 126 => ⟨S100000x64, .f32⟩
  | 127 => ⟨S_, .f32⟩
  | _ => ⟨S100000x32, .f32⟩

abbrev hbmTy0_2 (i : Nat) : BufTy := match i % 128 with
  | 0 => ⟨S64, .f32⟩
  | 1 => ⟨S_, .f32⟩
  | 2 => ⟨S64, .f32⟩
  | 3 => ⟨S64, .f32⟩
  | 4 => ⟨S1x64, .f32⟩
  | 5 => ⟨S100000x64, .f32⟩
  | 6 => ⟨S100000x64, .f32⟩
  | 7 => ⟨S_, .f32⟩
  | 8 => ⟨S64, .f32⟩
  | 9 => ⟨S64, .f32⟩
  | 10 => ⟨S64, .f32⟩
  | 11 => ⟨S1x64, .f32⟩
  | 12 => ⟨S100000x64, .f32⟩
  | 13 => ⟨S100000x64, .f32⟩
  | 14 => ⟨S1x64, .f32⟩
  | 15 => ⟨S100000x64, .f32⟩
  | 16 => ⟨S100000x64, .f32⟩
  | 17 => ⟨S1x64, .f32⟩
  | 18 => ⟨S100000x64, .f32⟩
  | 19 => ⟨S100000x64, .f32⟩
  | 20 => ⟨S1x2000000, .i32⟩
  | 21 => ⟨S2000000, .i32⟩
  | 22 => ⟨S1x2000000, .i32⟩
  | 23 => ⟨S2000000, .i32⟩
  | 24 => ⟨S100000x64, .f32⟩
  | 25 => ⟨S_, .f32⟩
  | 26 => ⟨S2000000, .f32⟩
  | 27 => ⟨S_, .f32⟩
  | 28 => ⟨S100000, .f32⟩
  | 29 => ⟨S2000000x1, .i32⟩
  | 30 => ⟨S100000, .f32⟩
  | 31 => ⟨S_, .f32⟩
  | 32 => ⟨S100000, .f32⟩
  | 33 => ⟨S100000, .f32⟩
  | 34 => ⟨S100000, .f32⟩
  | 35 => ⟨S_, .i32⟩
  | 36 => ⟨S2000000, .i32⟩
  | 37 => ⟨S2000000, .i1⟩
  | 38 => ⟨S_, .i32⟩
  | 39 => ⟨S2000000, .i32⟩
  | 40 => ⟨S2000000, .i32⟩
  | 41 => ⟨S2000000, .i32⟩
  | 42 => ⟨S2000000x1, .i32⟩
  | 43 => ⟨S2000000, .f32⟩
  | 44 => ⟨S_, .i32⟩
  | 45 => ⟨S2000000, .i32⟩
  | 46 => ⟨S2000000, .i1⟩
  | 47 => ⟨S_, .i32⟩
  | 48 => ⟨S2000000, .i32⟩
  | 49 => ⟨S2000000, .i32⟩
  | 50 => ⟨S2000000, .i32⟩
  | 51 => ⟨S2000000x1, .i32⟩
  | 52 => ⟨S2000000, .f32⟩
  | 53 => ⟨S2000000, .f32⟩
  | 54 => ⟨S2000000x1, .f32⟩
  | 55 => ⟨S_, .i32⟩
  | 56 => ⟨S2000000, .i32⟩
  | 57 => ⟨S2000000, .i1⟩
  | 58 => ⟨S_, .i32⟩
  | 59 => ⟨S2000000, .i32⟩
  | 60 => ⟨S2000000, .i32⟩
  | 61 => ⟨S2000000, .i32⟩
  | 62 => ⟨S2000000x1, .i32⟩
  | 63 => ⟨S2000000x64, .f32⟩
  | 64 => ⟨S2000000x64, .f32⟩
  | 65 => ⟨S2000000x64, .f32⟩
  | 66 => ⟨S_, .f32⟩
  | 67 => ⟨S100000x64, .f32⟩
  | 68 => ⟨S2000000x1, .i32⟩
  | 69 => ⟨S100000x64, .f32⟩
  | 70 => ⟨S100000x1, .f32⟩
  | 71 => ⟨S100000x64, .f32⟩
  | 72 => ⟨S100000x64, .f32⟩
  | 73 => ⟨S100000x64, .f32⟩
  | 74 => ⟨S1x64, .f32⟩
  | 75 => ⟨S100000x64, .f32⟩
  | 76 => ⟨S100000x64, .f32⟩
  | 77 => ⟨S_, .f32⟩
  | 78 => ⟨S100000x64, .f32⟩
  | 79 => ⟨S100000x64, .f32⟩
  | 80 => ⟨S_, .f32⟩
  | 81 => ⟨S64, .f32⟩
  | 82 => ⟨S_, .f32⟩
  | 83 => ⟨S64, .f32⟩
  | 84 => ⟨S64, .f32⟩
  | 85 => ⟨S1x64, .f32⟩
  | 86 => ⟨S100000x64, .f32⟩
  | 87 => ⟨S100000x64, .f32⟩
  | 88 => ⟨S100000x64, .f32⟩
  | 89 => ⟨S_, .f32⟩
  | 90 => ⟨S64, .f32⟩
  | 91 => ⟨S_, .f32⟩
  | 92 => ⟨S64, .f32⟩
  | 93 => ⟨S64, .f32⟩
  | 94 => ⟨S1x64, .f32⟩
  | 95 => ⟨S100000x64, .f32⟩
  | 96 => ⟨S100000x64, .f32⟩
  | 97 => ⟨S_, .f32⟩
  | 98 => ⟨S64, .f32⟩
  | 99 => ⟨S64, .f32⟩
  | 100 => ⟨S64, .f32⟩
  | 101 => ⟨S1x64, .f32⟩
  | 102 => ⟨S100000x64, .f32⟩
  | 103 => ⟨S100000x64, .f32⟩
  | 104 => ⟨S1x64, .f32⟩
  | 105 => ⟨S100000x64, .f32⟩
  | 106 => ⟨S100000x64, .f32⟩
  | 107 => ⟨S1x64, .f32⟩
  | 108 => ⟨S100000x64, .f32⟩
  | 109 => ⟨S100000x64, .f32⟩
  | 110 => ⟨S1x2000000, .i32⟩
  | 111 => ⟨S2000000, .i32⟩
  | 112 => ⟨S1x2000000, .i32⟩
  | 113 => ⟨S2000000, .i32⟩
  | 114 => ⟨S_, .i32⟩
  | 115 => ⟨S2000000, .i32⟩
  | 116 => ⟨S2000000, .i1⟩
  | 117 => ⟨S_, .i32⟩
  | 118 => ⟨S2000000, .i32⟩
  | 119 => ⟨S2000000, .i32⟩
  | 120 => ⟨S2000000, .i32⟩
  | 121 => ⟨S2000000x1, .i32⟩
  | 122 => ⟨S2000000x64, .f32⟩
  | 123 => ⟨S_, .f32⟩
  | 124 => ⟨S100000x64, .f32⟩
  | 125 => ⟨S2000000x1, .i32⟩
  | 126 => ⟨S100000x64, .f32⟩
  | 127 => ⟨S_, .f32⟩
  | _ => ⟨S100000x32, .f32⟩

abbrev hbmTy0_3 (i : Nat) : BufTy := match i % 128 with
  | 0 => ⟨S2000000, .f32⟩
  | 1 => ⟨S_, .f32⟩
  | 2 => ⟨S100000, .f32⟩
  | 3 => ⟨S2000000x1, .i32⟩
  | 4 => ⟨S100000, .f32⟩
  | 5 => ⟨S_, .f32⟩
  | 6 => ⟨S100000, .f32⟩
  | 7 => ⟨S100000, .f32⟩
  | 8 => ⟨S100000x1, .f32⟩
  | 9 => ⟨S100000x64, .f32⟩
  | 10 => ⟨S100000x64, .f32⟩
  | 11 => ⟨S100000x64, .f32⟩
  | 12 => ⟨S1x64, .f32⟩
  | 13 => ⟨S100000x64, .f32⟩
  | 14 => ⟨S100000x64, .f32⟩
  | 15 => ⟨S100000x64, .f32⟩
  | 16 => ⟨S100000x64, .f32⟩
  | 17 => ⟨S100000x64, .f32⟩
  | 18 => ⟨S_, .f32⟩
  | 19 => ⟨S100000, .f32⟩
  | 20 => ⟨S100000x1, .f32⟩
  | 21 => ⟨S100000x1, .f32⟩
  | 22 => ⟨S_, .f32⟩
  | 23 => ⟨S100000x1, .f32⟩
  | 24 => ⟨S100000x1, .f32⟩
  | 25 => ⟨S100000x64, .f32⟩
  | 26 => ⟨S100000x64, .f32⟩
  | 27 => ⟨S_, .f32⟩
  | 28 => ⟨S100000x64, .f32⟩
  | 29 => ⟨S100000x64, .f32⟩
  | 30 => ⟨S1x2000000, .i32⟩
  | 31 => ⟨S2000000, .i32⟩
  | 32 => ⟨S1x2000000, .i32⟩
  | 33 => ⟨S2000000, .i32⟩
  | 34 => ⟨S_, .i32⟩
  | 35 => ⟨S2000000, .i32⟩
  | 36 => ⟨S2000000, .i1⟩
  | 37 => ⟨S_, .i32⟩
  | 38 => ⟨S2000000, .i32⟩
  | 39 => ⟨S2000000, .i32⟩
  | 40 => ⟨S2000000, .i32⟩
  | 41 => ⟨S2000000x1, .i32⟩
  | 42 => ⟨S2000000x64, .f32⟩
  | 43 => ⟨S_, .f32⟩
  | 44 => ⟨S100000x64, .f32⟩
  | 45 => ⟨S2000000x1, .i32⟩
  | 46 => ⟨S100000x64, .f32⟩
  | 47 => ⟨S_, .f32⟩
  | 48 => ⟨S2000000, .f32⟩
  | 49 => ⟨S_, .f32⟩
  | 50 => ⟨S100000, .f32⟩
  | 51 => ⟨S2000000x1, .i32⟩
  | 52 => ⟨S100000, .f32⟩
  | 53 => ⟨S_, .f32⟩
  | 54 => ⟨S100000, .f32⟩
  | 55 => ⟨S100000, .f32⟩
  | 56 => ⟨S100000x1, .f32⟩
  | 57 => ⟨S100000x64, .f32⟩
  | 58 => ⟨S100000x64, .f32⟩
  | 59 => ⟨S100000x64, .f32⟩
  | 60 => ⟨S1x64, .f32⟩
  | 61 => ⟨S100000x64, .f32⟩
  | 62 => ⟨S100000x64, .f32⟩
  | 63 => ⟨S100000x64, .f32⟩
  | 64 => ⟨S100000x64, .f32⟩
  | 65 => ⟨S100000x64, .f32⟩
  | 66 => ⟨S_, .f32⟩
  | 67 => ⟨S100000, .f32⟩
  | 68 => ⟨S100000x1, .f32⟩
  | 69 => ⟨S100000x1, .f32⟩
  | 70 => ⟨S_, .f32⟩
  | 71 => ⟨S100000x1, .f32⟩
  | 72 => ⟨S100000x1, .f32⟩
  | 73 => ⟨S100000x64, .f32⟩
  | 74 => ⟨S100000x64, .f32⟩
  | 75 => ⟨S_, .f32⟩
  | 76 => ⟨S100000x64, .f32⟩
  | 77 => ⟨S100000x64, .f32⟩
  | 78 => ⟨S1x2000000, .i32⟩
  | 79 => ⟨S2000000, .i32⟩
  | 80 => ⟨S1x2000000, .i32⟩
  | 81 => ⟨S2000000, .i32⟩
  | 82 => ⟨S_, .i32⟩
  | 83 => ⟨S2000000, .i32⟩
  | 84 => ⟨S2000000, .i1⟩
  | 85 => ⟨S_, .i32⟩
  | 86 => ⟨S2000000, .i32⟩
  | 87 => ⟨S2000000, .i32⟩
  | 88 => ⟨S2000000, .i32⟩
  | 89 => ⟨S2000000x1, .i32⟩
  | 90 => ⟨S2000000x64, .f32⟩
  | 91 => ⟨S_, .f32⟩
  | 92 => ⟨S100000x64, .f32⟩
  | 93 => ⟨S2000000x1, .i32⟩
  | 94 => ⟨S100000x64, .f32⟩
  | 95 => ⟨S_, .f32⟩
  | 96 => ⟨S2000000, .f32⟩
  | 97 => ⟨S_, .f32⟩
  | 98 => ⟨S100000, .f32⟩
  | 99 => ⟨S2000000x1, .i32⟩
  | 100 => ⟨S100000, .f32⟩
  | 101 => ⟨S_, .f32⟩
  | 102 => ⟨S100000, .f32⟩
  | 103 => ⟨S100000, .f32⟩
  | 104 => ⟨S100000x1, .f32⟩
  | 105 => ⟨S100000x64, .f32⟩
  | 106 => ⟨S100000x64, .f32⟩
  | 107 => ⟨S100000x64, .f32⟩
  | 108 => ⟨S1x64, .f32⟩
  | 109 => ⟨S100000x64, .f32⟩
  | 110 => ⟨S100000x64, .f32⟩
  | 111 => ⟨S100000x64, .f32⟩
  | 112 => ⟨S100000x64, .f32⟩
  | 113 => ⟨S100000x64, .f32⟩
  | 114 => ⟨S_, .f32⟩
  | 115 => ⟨S100000, .f32⟩
  | 116 => ⟨S100000x1, .f32⟩
  | 117 => ⟨S100000x1, .f32⟩
  | 118 => ⟨S_, .f32⟩
  | 119 => ⟨S100000x1, .f32⟩
  | 120 => ⟨S100000x1, .f32⟩
  | 121 => ⟨S100000x64, .f32⟩
  | 122 => ⟨S100000x64, .f32⟩
  | 123 => ⟨S_, .f32⟩
  | 124 => ⟨S100000x64, .f32⟩
  | 125 => ⟨S100000x64, .f32⟩
  | 126 => ⟨S1x2000000, .i32⟩
  | 127 => ⟨S2000000, .i32⟩
  | _ => ⟨S100000x32, .f32⟩

abbrev hbmTy0_4 (i : Nat) : BufTy := match i % 128 with
  | 0 => ⟨S1x2000000, .i32⟩
  | 1 => ⟨S2000000, .i32⟩
  | 2 => ⟨S100000x64, .f32⟩
  | 3 => ⟨S_, .f32⟩
  | 4 => ⟨S2000000, .f32⟩
  | 5 => ⟨S_, .f32⟩
  | 6 => ⟨S100000, .f32⟩
  | 7 => ⟨S2000000x1, .i32⟩
  | 8 => ⟨S100000, .f32⟩
  | 9 => ⟨S_, .f32⟩
  | 10 => ⟨S100000, .f32⟩
  | 11 => ⟨S100000, .f32⟩
  | 12 => ⟨S100000, .f32⟩
  | 13 => ⟨S_, .i32⟩
  | 14 => ⟨S2000000, .i32⟩
  | 15 => ⟨S2000000, .i1⟩
  | 16 => ⟨S_, .i32⟩
  | 17 => ⟨S2000000, .i32⟩
  | 18 => ⟨S2000000, .i32⟩
  | 19 => ⟨S2000000, .i32⟩
  | 20 => ⟨S2000000x1, .i32⟩
  | 21 => ⟨S2000000, .f32⟩
  | 22 => ⟨S_, .i32⟩
  | 23 => ⟨S2000000, .i32⟩
  | 24 => ⟨S2000000, .i1⟩
  | 25 => ⟨S_, .i32⟩
  | 26 => ⟨S2000000, .i32⟩
  | 27 => ⟨S2000000, .i32⟩
  | 28 => ⟨S2000000, .i32⟩
  | 29 => ⟨S2000000x1, .i32⟩
  | 30 => ⟨S2000000, .f32⟩
  | 31 => ⟨S2000000, .f32⟩
  | 32 => ⟨S2000000x1, .f32⟩
  | 33 => ⟨S_, .i32⟩
  | 34 => ⟨S2000000, .i32⟩
  | 35 => ⟨S2000000, .i1⟩
  | 36 => ⟨S_, .i32⟩
  | 37 => ⟨S2000000, .i32⟩
  | 38 => ⟨S2000000, .i32⟩
  | 39 => ⟨S2000000, .i32⟩
  | 40 => ⟨S2000000x1, .i32⟩
  | 41 => ⟨S2000000x64, .f32⟩
  | 42 => ⟨S2000000x64, .f32⟩
  | 43 => ⟨S2000000x64, .f32⟩
  | 44 => ⟨S_, .f32⟩
  | 45 => ⟨S100000x64, .f32⟩
  | 46 => ⟨S2000000x1, .i32⟩
  | 47 => ⟨S100000x64, .f32⟩
  | 48 => ⟨S100000x1, .f32⟩
  | 49 => ⟨S100000x64, .f32⟩
  | 50 => ⟨S100000x64, .f32⟩
  | 51 => ⟨S100000x64, .f32⟩
  | 52 => ⟨S1x64, .f32⟩
  | 53 => ⟨S100000x64, .f32⟩
  | 54 => ⟨S100000x64, .f32⟩
  | 55 => ⟨S_, .f32⟩
  | 56 => ⟨S100000x64, .f32⟩
  | 57 => ⟨S100000x64, .f32⟩
  | 58 => ⟨S_, .f32⟩
  | 59 => ⟨S64, .f32⟩
  | 60 => ⟨S_, .f32⟩
  | 61 => ⟨S64, .f32⟩
  | 62 => ⟨S64, .f32⟩
  | 63 => ⟨S1x64, .f32⟩
  | 64 => ⟨S100000x64, .f32⟩
  | 65 => ⟨S100000x64, .f32⟩
  | 66 => ⟨S100000x64, .f32⟩
  | 67 => ⟨S_, .f32⟩
  | 68 => ⟨S64, .f32⟩
  | 69 => ⟨S_, .f32⟩
  | 70 => ⟨S64, .f32⟩
  | 71 => ⟨S64, .f32⟩
  | 72 => ⟨S1x64, .f32⟩
  | 73 => ⟨S100000x64, .f32⟩
  | 74 => ⟨S100000x64, .f32⟩
  | 75 => ⟨S_, .f32⟩
  | 76 => ⟨S64, .f32⟩
  | 77 => ⟨S64, .f32⟩
  | 78 => ⟨S64, .f32⟩
  | 79 => ⟨S1x64, .f32⟩
  | 80 => ⟨S100000x64, .f32⟩
  | 81 => ⟨S100000x64, .f32⟩
  | 82 => ⟨S1x64, .f32⟩
  | 83 => ⟨S100000x64, .f32⟩
  | 84 => ⟨S100000x64, .f32⟩
  | 85 => ⟨S1x64, .f32⟩
  | 86 => ⟨S100000x64, .f32⟩
  | 87 => ⟨S100000x64, .f32⟩
  | _ => ⟨S100000x32, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_v0 : Ref sig .tc := ⟨.hbm, 42, rfl⟩
abbrev main_v1 : Ref sig .tc := ⟨.hbm, 43, rfl⟩
abbrev main_v2 : Ref sig .tc := ⟨.hbm, 44, rfl⟩
abbrev main_v3 : Ref sig .tc := ⟨.hbm, 45, rfl⟩
abbrev main_c : Ref sig .tc := ⟨.hbm, 46, rfl⟩
abbrev main_v4 : Ref sig .tc := ⟨.hbm, 47, rfl⟩
abbrev main_v5 : Ref sig .tc := ⟨.hbm, 48, rfl⟩
abbrev main_c_0 : Ref sig .tc := ⟨.hbm, 49, rfl⟩
abbrev main_v6 : Ref sig .tc := ⟨.hbm, 50, rfl⟩
abbrev main_v7 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_cst : Ref sig .tc := ⟨.hbm, 55, rfl⟩
abbrev main_v11 : Ref sig .tc := ⟨.hbm, 56, rfl⟩
abbrev main_v12 : Ref sig .tc := ⟨.hbm, 57, rfl⟩
abbrev main_v13 : Ref sig .tc := ⟨.hbm, 58, rfl⟩
abbrev main_cst_1 : Ref sig .tc := ⟨.hbm, 59, rfl⟩
abbrev main_v14 : Ref sig .tc := ⟨.hbm, 60, rfl⟩
abbrev main_cst_2 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_cst_3 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_cst_4 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_cst_5 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_call0_cst : Ref sig .tc := ⟨.hbm, 87, rfl⟩
abbrev main_call0_v0 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_c_6 : Ref sig .tc := ⟨.hbm, 94, rfl⟩
abbrev main_v42 : Ref sig .tc := ⟨.hbm, 95, rfl⟩
abbrev main_v43 : Ref sig .tc := ⟨.hbm, 96, rfl⟩
abbrev main_c_7 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_cst_8 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_cst_9 : Ref sig .tc := ⟨.hbm, 107, rfl⟩
abbrev main_v52 : Ref sig .tc := ⟨.hbm, 108, rfl⟩
abbrev main_cst_10 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_cst_11 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩
abbrev main_v63 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_cst_12 : Ref sig .tc := ⟨.hbm, 126, rfl⟩
abbrev main_v68 : Ref sig .tc := ⟨.hbm, 127, rfl⟩
abbrev main_v69 : Ref sig .tc := ⟨.hbm, 128, rfl⟩
abbrev main_v70 : Ref sig .tc := ⟨.hbm, 129, rfl⟩
abbrev main_cst_13 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_call1_cst : Ref sig .tc := ⟨.hbm, 135, rfl⟩
abbrev main_call1_v0 : Ref sig .tc := ⟨.hbm, 136, rfl⟩
abbrev main_v75 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_c_14 : Ref sig .tc := ⟨.hbm, 142, rfl⟩
abbrev main_v80 : Ref sig .tc := ⟨.hbm, 143, rfl⟩
abbrev main_v81 : Ref sig .tc := ⟨.hbm, 144, rfl⟩
abbrev main_c_15 : Ref sig .tc := ⟨.hbm, 145, rfl⟩
abbrev main_v82 : Ref sig .tc := ⟨.hbm, 146, rfl⟩
abbrev main_v83 : Ref sig .tc := ⟨.hbm, 147, rfl⟩
abbrev main_v84 : Ref sig .tc := ⟨.hbm, 148, rfl⟩
abbrev main_v85 : Ref sig .tc := ⟨.hbm, 149, rfl⟩
abbrev main_v86 : Ref sig .tc := ⟨.hbm, 150, rfl⟩
abbrev main_cst_16 : Ref sig .tc := ⟨.hbm, 151, rfl⟩
abbrev main_v87 : Ref sig .tc := ⟨.hbm, 152, rfl⟩
abbrev main_v88 : Ref sig .tc := ⟨.hbm, 153, rfl⟩
abbrev main_v89 : Ref sig .tc := ⟨.hbm, 154, rfl⟩
abbrev main_cst_17 : Ref sig .tc := ⟨.hbm, 155, rfl⟩
abbrev main_v90 : Ref sig .tc := ⟨.hbm, 156, rfl⟩
abbrev main_cst_18 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_cst_19 : Ref sig .tc := ⟨.hbm, 161, rfl⟩
abbrev main_v94 : Ref sig .tc := ⟨.hbm, 162, rfl⟩
abbrev main_v95 : Ref sig .tc := ⟨.hbm, 163, rfl⟩
abbrev main_v96 : Ref sig .tc := ⟨.hbm, 164, rfl⟩
abbrev main_v97 : Ref sig .tc := ⟨.hbm, 165, rfl⟩
abbrev main_v98 : Ref sig .tc := ⟨.hbm, 166, rfl⟩
abbrev main_v99 : Ref sig .tc := ⟨.hbm, 167, rfl⟩
abbrev main_v100 : Ref sig .tc := ⟨.hbm, 168, rfl⟩
abbrev main_v101 : Ref sig .tc := ⟨.hbm, 169, rfl⟩
abbrev main_v102 : Ref sig .tc := ⟨.hbm, 170, rfl⟩
abbrev main_v103 : Ref sig .tc := ⟨.hbm, 171, rfl⟩
abbrev main_v104 : Ref sig .tc := ⟨.hbm, 172, rfl⟩
abbrev main_v105 : Ref sig .tc := ⟨.hbm, 173, rfl⟩
abbrev main_cst_20 : Ref sig .tc := ⟨.hbm, 174, rfl⟩
abbrev main_v106 : Ref sig .tc := ⟨.hbm, 175, rfl⟩
abbrev main_v107 : Ref sig .tc := ⟨.hbm, 176, rfl⟩
abbrev main_v108 : Ref sig .tc := ⟨.hbm, 177, rfl⟩
abbrev main_cst_21 : Ref sig .tc := ⟨.hbm, 178, rfl⟩
abbrev main_v109 : Ref sig .tc := ⟨.hbm, 179, rfl⟩
abbrev main_v110 : Ref sig .tc := ⟨.hbm, 180, rfl⟩
abbrev main_v111 : Ref sig .tc := ⟨.hbm, 181, rfl⟩
abbrev main_v112 : Ref sig .tc := ⟨.hbm, 182, rfl⟩
abbrev main_call2_cst : Ref sig .tc := ⟨.hbm, 183, rfl⟩
abbrev main_call2_v0 : Ref sig .tc := ⟨.hbm, 184, rfl⟩
abbrev main_v113 : Ref sig .tc := ⟨.hbm, 185, rfl⟩
abbrev main_v114 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_v118 : Ref sig .tc := ⟨.hbm, 190, rfl⟩
abbrev main_cst_22 : Ref sig .tc := ⟨.hbm, 191, rfl⟩
abbrev main_v119 : Ref sig .tc := ⟨.hbm, 192, rfl⟩
abbrev main_cst_23 : Ref sig .tc := ⟨.hbm, 193, rfl⟩
abbrev main_v120 : Ref sig .tc := ⟨.hbm, 194, rfl⟩
abbrev main_v121 : Ref sig .tc := ⟨.hbm, 195, rfl⟩
abbrev main_v122 : Ref sig .tc := ⟨.hbm, 196, rfl⟩
abbrev main_cst_24 : Ref sig .tc := ⟨.hbm, 197, rfl⟩
abbrev main_v123 : Ref sig .tc := ⟨.hbm, 198, rfl⟩
abbrev main_v124 : Ref sig .tc := ⟨.hbm, 199, rfl⟩
abbrev main_v125 : Ref sig .tc := ⟨.hbm, 200, rfl⟩
abbrev main_c_25 : Ref sig .tc := ⟨.hbm, 201, rfl⟩
abbrev main_v126 : Ref sig .tc := ⟨.hbm, 202, rfl⟩
abbrev main_v127 : Ref sig .tc := ⟨.hbm, 203, rfl⟩
abbrev main_c_26 : Ref sig .tc := ⟨.hbm, 204, rfl⟩
abbrev main_v128 : Ref sig .tc := ⟨.hbm, 205, rfl⟩
abbrev main_v129 : Ref sig .tc := ⟨.hbm, 206, rfl⟩
abbrev main_v130 : Ref sig .tc := ⟨.hbm, 207, rfl⟩
abbrev main_v131 : Ref sig .tc := ⟨.hbm, 208, rfl⟩
abbrev main_v132 : Ref sig .tc := ⟨.hbm, 209, rfl⟩
abbrev main_c_27 : Ref sig .tc := ⟨.hbm, 210, rfl⟩
abbrev main_v133 : Ref sig .tc := ⟨.hbm, 211, rfl⟩
abbrev main_v134 : Ref sig .tc := ⟨.hbm, 212, rfl⟩
abbrev main_c_28 : Ref sig .tc := ⟨.hbm, 213, rfl⟩
abbrev main_v135 : Ref sig .tc := ⟨.hbm, 214, rfl⟩
abbrev main_v136 : Ref sig .tc := ⟨.hbm, 215, rfl⟩
abbrev main_v137 : Ref sig .tc := ⟨.hbm, 216, rfl⟩
abbrev main_v138 : Ref sig .tc := ⟨.hbm, 217, rfl⟩
abbrev main_v139 : Ref sig .tc := ⟨.hbm, 218, rfl⟩
abbrev main_v140 : Ref sig .tc := ⟨.hbm, 219, rfl⟩
abbrev main_v141 : Ref sig .tc := ⟨.hbm, 220, rfl⟩
abbrev main_c_29 : Ref sig .tc := ⟨.hbm, 221, rfl⟩
abbrev main_v142 : Ref sig .tc := ⟨.hbm, 222, rfl⟩
abbrev main_v143 : Ref sig .tc := ⟨.hbm, 223, rfl⟩
abbrev main_c_30 : Ref sig .tc := ⟨.hbm, 224, rfl⟩
abbrev main_v144 : Ref sig .tc := ⟨.hbm, 225, rfl⟩
abbrev main_v145 : Ref sig .tc := ⟨.hbm, 226, rfl⟩
abbrev main_v146 : Ref sig .tc := ⟨.hbm, 227, rfl⟩
abbrev main_v147 : Ref sig .tc := ⟨.hbm, 228, rfl⟩
abbrev main_v148 : Ref sig .tc := ⟨.hbm, 229, rfl⟩
abbrev main_v149 : Ref sig .tc := ⟨.hbm, 230, rfl⟩
abbrev main_v150 : Ref sig .tc := ⟨.hbm, 231, rfl⟩
abbrev main_cst_31 : Ref sig .tc := ⟨.hbm, 232, rfl⟩
abbrev main_v151 : Ref sig .tc := ⟨.hbm, 233, rfl⟩
abbrev main_v152 : Ref sig .tc := ⟨.hbm, 234, rfl⟩
abbrev main_v153 : Ref sig .tc := ⟨.hbm, 235, rfl⟩
abbrev main_v154 : Ref sig .tc := ⟨.hbm, 236, rfl⟩
abbrev main_v155 : Ref sig .tc := ⟨.hbm, 237, rfl⟩
abbrev main_v156 : Ref sig .tc := ⟨.hbm, 238, rfl⟩
abbrev main_v157 : Ref sig .tc := ⟨.hbm, 239, rfl⟩
abbrev main_v158 : Ref sig .tc := ⟨.hbm, 240, rfl⟩
abbrev main_v159 : Ref sig .tc := ⟨.hbm, 241, rfl⟩
abbrev main_v160 : Ref sig .tc := ⟨.hbm, 242, rfl⟩
abbrev main_call3_cst : Ref sig .tc := ⟨.hbm, 243, rfl⟩
abbrev main_call3_v0 : Ref sig .tc := ⟨.hbm, 244, rfl⟩
abbrev main_v161 : Ref sig .tc := ⟨.hbm, 245, rfl⟩
abbrev main_cst_32 : Ref sig .tc := ⟨.hbm, 246, rfl⟩
abbrev main_v162 : Ref sig .tc := ⟨.hbm, 247, rfl⟩
abbrev main_cst_33 : Ref sig .tc := ⟨.hbm, 248, rfl⟩
abbrev main_v163 : Ref sig .tc := ⟨.hbm, 249, rfl⟩
abbrev main_v164 : Ref sig .tc := ⟨.hbm, 250, rfl⟩
abbrev main_v165 : Ref sig .tc := ⟨.hbm, 251, rfl⟩
abbrev main_v166 : Ref sig .tc := ⟨.hbm, 252, rfl⟩
abbrev main_v167 : Ref sig .tc := ⟨.hbm, 253, rfl⟩
abbrev main_v168 : Ref sig .tc := ⟨.hbm, 254, rfl⟩
abbrev main_cst_34 : Ref sig .tc := ⟨.hbm, 255, rfl⟩
abbrev main_v169 : Ref sig .tc := ⟨.hbm, 256, rfl⟩
abbrev main_cst_35 : Ref sig .tc := ⟨.hbm, 257, rfl⟩
abbrev main_v170 : Ref sig .tc := ⟨.hbm, 258, rfl⟩
abbrev main_v171 : Ref sig .tc := ⟨.hbm, 259, rfl⟩
abbrev main_v172 : Ref sig .tc := ⟨.hbm, 260, rfl⟩
abbrev main_v173 : Ref sig .tc := ⟨.hbm, 261, rfl⟩
abbrev main_v174 : Ref sig .tc := ⟨.hbm, 262, rfl⟩
abbrev main_cst_36 : Ref sig .tc := ⟨.hbm, 263, rfl⟩
abbrev main_v175 : Ref sig .tc := ⟨.hbm, 264, rfl⟩
abbrev main_v176 : Ref sig .tc := ⟨.hbm, 265, rfl⟩
abbrev main_v177 : Ref sig .tc := ⟨.hbm, 266, rfl⟩
abbrev main_v178 : Ref sig .tc := ⟨.hbm, 267, rfl⟩
abbrev main_v179 : Ref sig .tc := ⟨.hbm, 268, rfl⟩
abbrev main_v180 : Ref sig .tc := ⟨.hbm, 269, rfl⟩
abbrev main_v181 : Ref sig .tc := ⟨.hbm, 270, rfl⟩
abbrev main_v182 : Ref sig .tc := ⟨.hbm, 271, rfl⟩
abbrev main_v183 : Ref sig .tc := ⟨.hbm, 272, rfl⟩
abbrev main_v184 : Ref sig .tc := ⟨.hbm, 273, rfl⟩
abbrev main_v185 : Ref sig .tc := ⟨.hbm, 274, rfl⟩
abbrev main_v186 : Ref sig .tc := ⟨.hbm, 275, rfl⟩
abbrev main_v187 : Ref sig .tc := ⟨.hbm, 276, rfl⟩
abbrev main_v188 : Ref sig .tc := ⟨.hbm, 277, rfl⟩
abbrev main_v189 : Ref sig .tc := ⟨.hbm, 278, rfl⟩
abbrev main_v190 : Ref sig .tc := ⟨.hbm, 279, rfl⟩
abbrev main_v191 : Ref sig .tc := ⟨.hbm, 280, rfl⟩
abbrev main_cst_37 : Ref sig .tc := ⟨.hbm, 281, rfl⟩
abbrev main_v192 : Ref sig .tc := ⟨.hbm, 282, rfl⟩
abbrev main_cst_38 : Ref sig .tc := ⟨.hbm, 283, rfl⟩
abbrev main_v193 : Ref sig .tc := ⟨.hbm, 284, rfl⟩
abbrev main_v194 : Ref sig .tc := ⟨.hbm, 285, rfl⟩
abbrev main_v195 : Ref sig .tc := ⟨.hbm, 286, rfl⟩
abbrev main_cst_39 : Ref sig .tc := ⟨.hbm, 287, rfl⟩
abbrev main_v196 : Ref sig .tc := ⟨.hbm, 288, rfl⟩
abbrev main_v197 : Ref sig .tc := ⟨.hbm, 289, rfl⟩
abbrev main_v198 : Ref sig .tc := ⟨.hbm, 290, rfl⟩
abbrev main_c_40 : Ref sig .tc := ⟨.hbm, 291, rfl⟩
abbrev main_v199 : Ref sig .tc := ⟨.hbm, 292, rfl⟩
abbrev main_v200 : Ref sig .tc := ⟨.hbm, 293, rfl⟩
abbrev main_c_41 : Ref sig .tc := ⟨.hbm, 294, rfl⟩
abbrev main_v201 : Ref sig .tc := ⟨.hbm, 295, rfl⟩
abbrev main_v202 : Ref sig .tc := ⟨.hbm, 296, rfl⟩
abbrev main_v203 : Ref sig .tc := ⟨.hbm, 297, rfl⟩
abbrev main_v204 : Ref sig .tc := ⟨.hbm, 298, rfl⟩
abbrev main_v205 : Ref sig .tc := ⟨.hbm, 299, rfl⟩
abbrev main_c_42 : Ref sig .tc := ⟨.hbm, 300, rfl⟩
abbrev main_v206 : Ref sig .tc := ⟨.hbm, 301, rfl⟩
abbrev main_v207 : Ref sig .tc := ⟨.hbm, 302, rfl⟩
abbrev main_c_43 : Ref sig .tc := ⟨.hbm, 303, rfl⟩
abbrev main_v208 : Ref sig .tc := ⟨.hbm, 304, rfl⟩
abbrev main_v209 : Ref sig .tc := ⟨.hbm, 305, rfl⟩
abbrev main_v210 : Ref sig .tc := ⟨.hbm, 306, rfl⟩
abbrev main_v211 : Ref sig .tc := ⟨.hbm, 307, rfl⟩
abbrev main_v212 : Ref sig .tc := ⟨.hbm, 308, rfl⟩
abbrev main_v213 : Ref sig .tc := ⟨.hbm, 309, rfl⟩
abbrev main_v214 : Ref sig .tc := ⟨.hbm, 310, rfl⟩
abbrev main_c_44 : Ref sig .tc := ⟨.hbm, 311, rfl⟩
abbrev main_v215 : Ref sig .tc := ⟨.hbm, 312, rfl⟩
abbrev main_v216 : Ref sig .tc := ⟨.hbm, 313, rfl⟩
abbrev main_c_45 : Ref sig .tc := ⟨.hbm, 314, rfl⟩
abbrev main_v217 : Ref sig .tc := ⟨.hbm, 315, rfl⟩
abbrev main_v218 : Ref sig .tc := ⟨.hbm, 316, rfl⟩
abbrev main_v219 : Ref sig .tc := ⟨.hbm, 317, rfl⟩
abbrev main_v220 : Ref sig .tc := ⟨.hbm, 318, rfl⟩
abbrev main_v221 : Ref sig .tc := ⟨.hbm, 319, rfl⟩
abbrev main_v222 : Ref sig .tc := ⟨.hbm, 320, rfl⟩
abbrev main_v223 : Ref sig .tc := ⟨.hbm, 321, rfl⟩
abbrev main_cst_46 : Ref sig .tc := ⟨.hbm, 322, rfl⟩
abbrev main_v224 : Ref sig .tc := ⟨.hbm, 323, rfl⟩
abbrev main_v225 : Ref sig .tc := ⟨.hbm, 324, rfl⟩
abbrev main_v226 : Ref sig .tc := ⟨.hbm, 325, rfl⟩
abbrev main_v227 : Ref sig .tc := ⟨.hbm, 326, rfl⟩
abbrev main_v228 : Ref sig .tc := ⟨.hbm, 327, rfl⟩
abbrev main_v229 : Ref sig .tc := ⟨.hbm, 328, rfl⟩
abbrev main_v230 : Ref sig .tc := ⟨.hbm, 329, rfl⟩
abbrev main_v231 : Ref sig .tc := ⟨.hbm, 330, rfl⟩
abbrev main_v232 : Ref sig .tc := ⟨.hbm, 331, rfl⟩
abbrev main_v233 : Ref sig .tc := ⟨.hbm, 332, rfl⟩
abbrev main_call4_cst : Ref sig .tc := ⟨.hbm, 333, rfl⟩
abbrev main_call4_v0 : Ref sig .tc := ⟨.hbm, 334, rfl⟩
abbrev main_v234 : Ref sig .tc := ⟨.hbm, 335, rfl⟩
abbrev main_cst_47 : Ref sig .tc := ⟨.hbm, 336, rfl⟩
abbrev main_v235 : Ref sig .tc := ⟨.hbm, 337, rfl⟩
abbrev main_cst_48 : Ref sig .tc := ⟨.hbm, 338, rfl⟩
abbrev main_v236 : Ref sig .tc := ⟨.hbm, 339, rfl⟩
abbrev main_v237 : Ref sig .tc := ⟨.hbm, 340, rfl⟩
abbrev main_v238 : Ref sig .tc := ⟨.hbm, 341, rfl⟩
abbrev main_v239 : Ref sig .tc := ⟨.hbm, 342, rfl⟩
abbrev main_v240 : Ref sig .tc := ⟨.hbm, 343, rfl⟩
abbrev main_v241 : Ref sig .tc := ⟨.hbm, 344, rfl⟩
abbrev main_cst_49 : Ref sig .tc := ⟨.hbm, 345, rfl⟩
abbrev main_v242 : Ref sig .tc := ⟨.hbm, 346, rfl⟩
abbrev main_cst_50 : Ref sig .tc := ⟨.hbm, 347, rfl⟩
abbrev main_v243 : Ref sig .tc := ⟨.hbm, 348, rfl⟩
abbrev main_v244 : Ref sig .tc := ⟨.hbm, 349, rfl⟩
abbrev main_v245 : Ref sig .tc := ⟨.hbm, 350, rfl⟩
abbrev main_v246 : Ref sig .tc := ⟨.hbm, 351, rfl⟩
abbrev main_v247 : Ref sig .tc := ⟨.hbm, 352, rfl⟩
abbrev main_cst_51 : Ref sig .tc := ⟨.hbm, 353, rfl⟩
abbrev main_v248 : Ref sig .tc := ⟨.hbm, 354, rfl⟩
abbrev main_v249 : Ref sig .tc := ⟨.hbm, 355, rfl⟩
abbrev main_v250 : Ref sig .tc := ⟨.hbm, 356, rfl⟩
abbrev main_v251 : Ref sig .tc := ⟨.hbm, 357, rfl⟩
abbrev main_v252 : Ref sig .tc := ⟨.hbm, 358, rfl⟩
abbrev main_v253 : Ref sig .tc := ⟨.hbm, 359, rfl⟩
abbrev main_v254 : Ref sig .tc := ⟨.hbm, 360, rfl⟩
abbrev main_v255 : Ref sig .tc := ⟨.hbm, 361, rfl⟩
abbrev main_v256 : Ref sig .tc := ⟨.hbm, 362, rfl⟩
abbrev main_v257 : Ref sig .tc := ⟨.hbm, 363, rfl⟩
abbrev main_v258 : Ref sig .tc := ⟨.hbm, 364, rfl⟩
abbrev main_v259 : Ref sig .tc := ⟨.hbm, 365, rfl⟩
abbrev main_v260 : Ref sig .tc := ⟨.hbm, 366, rfl⟩
abbrev main_v261 : Ref sig .tc := ⟨.hbm, 367, rfl⟩
abbrev main_v262 : Ref sig .tc := ⟨.hbm, 368, rfl⟩
abbrev main_v263 : Ref sig .tc := ⟨.hbm, 369, rfl⟩
abbrev main_c_52 : Ref sig .tc := ⟨.hbm, 370, rfl⟩
abbrev main_v264 : Ref sig .tc := ⟨.hbm, 371, rfl⟩
abbrev main_v265 : Ref sig .tc := ⟨.hbm, 372, rfl⟩
abbrev main_c_53 : Ref sig .tc := ⟨.hbm, 373, rfl⟩
abbrev main_v266 : Ref sig .tc := ⟨.hbm, 374, rfl⟩
abbrev main_v267 : Ref sig .tc := ⟨.hbm, 375, rfl⟩
abbrev main_v268 : Ref sig .tc := ⟨.hbm, 376, rfl⟩
abbrev main_v269 : Ref sig .tc := ⟨.hbm, 377, rfl⟩
abbrev main_v270 : Ref sig .tc := ⟨.hbm, 378, rfl⟩
abbrev main_cst_54 : Ref sig .tc := ⟨.hbm, 379, rfl⟩
abbrev main_v271 : Ref sig .tc := ⟨.hbm, 380, rfl⟩
abbrev main_v272 : Ref sig .tc := ⟨.hbm, 381, rfl⟩
abbrev main_v273 : Ref sig .tc := ⟨.hbm, 382, rfl⟩
abbrev main_cst_55 : Ref sig .tc := ⟨.hbm, 383, rfl⟩
abbrev main_v274 : Ref sig .tc := ⟨.hbm, 384, rfl⟩
abbrev main_cst_56 : Ref sig .tc := ⟨.hbm, 385, rfl⟩
abbrev main_v275 : Ref sig .tc := ⟨.hbm, 386, rfl⟩
abbrev main_v276 : Ref sig .tc := ⟨.hbm, 387, rfl⟩
abbrev main_v277 : Ref sig .tc := ⟨.hbm, 388, rfl⟩
abbrev main_cst_57 : Ref sig .tc := ⟨.hbm, 389, rfl⟩
abbrev main_v278 : Ref sig .tc := ⟨.hbm, 390, rfl⟩
abbrev main_v279 : Ref sig .tc := ⟨.hbm, 391, rfl⟩
abbrev main_v280 : Ref sig .tc := ⟨.hbm, 392, rfl⟩
abbrev main_v281 : Ref sig .tc := ⟨.hbm, 393, rfl⟩
abbrev main_v282 : Ref sig .tc := ⟨.hbm, 394, rfl⟩
abbrev main_v283 : Ref sig .tc := ⟨.hbm, 395, rfl⟩
abbrev main_v284 : Ref sig .tc := ⟨.hbm, 396, rfl⟩
abbrev main_v285 : Ref sig .tc := ⟨.hbm, 397, rfl⟩
abbrev main_v286 : Ref sig .tc := ⟨.hbm, 398, rfl⟩
abbrev main_v287 : Ref sig .tc := ⟨.hbm, 399, rfl⟩
abbrev main_v288 : Ref sig .tc := ⟨.hbm, 400, rfl⟩
abbrev main_v289 : Ref sig .tc := ⟨.hbm, 401, rfl⟩
abbrev main_cst_58 : Ref sig .tc := ⟨.hbm, 402, rfl⟩
abbrev main_v290 : Ref sig .tc := ⟨.hbm, 403, rfl⟩
abbrev main_v291 : Ref sig .tc := ⟨.hbm, 404, rfl⟩
abbrev main_v292 : Ref sig .tc := ⟨.hbm, 405, rfl⟩
abbrev main_cst_59 : Ref sig .tc := ⟨.hbm, 406, rfl⟩
abbrev main_v293 : Ref sig .tc := ⟨.hbm, 407, rfl⟩
abbrev main_v294 : Ref sig .tc := ⟨.hbm, 408, rfl⟩
abbrev main_v295 : Ref sig .tc := ⟨.hbm, 409, rfl⟩
abbrev main_v296 : Ref sig .tc := ⟨.hbm, 410, rfl⟩
abbrev main_call5_cst : Ref sig .tc := ⟨.hbm, 411, rfl⟩
abbrev main_call5_v0 : Ref sig .tc := ⟨.hbm, 412, rfl⟩
abbrev main_v297 : Ref sig .tc := ⟨.hbm, 413, rfl⟩
abbrev main_v298 : Ref sig .tc := ⟨.hbm, 414, rfl⟩
abbrev main_v299 : Ref sig .tc := ⟨.hbm, 415, rfl⟩
abbrev main_v300 : Ref sig .tc := ⟨.hbm, 416, rfl⟩
abbrev main_v301 : Ref sig .tc := ⟨.hbm, 417, rfl⟩
abbrev main_c_60 : Ref sig .tc := ⟨.hbm, 418, rfl⟩
abbrev main_v302 : Ref sig .tc := ⟨.hbm, 419, rfl⟩
abbrev main_v303 : Ref sig .tc := ⟨.hbm, 420, rfl⟩
abbrev main_c_61 : Ref sig .tc := ⟨.hbm, 421, rfl⟩
abbrev main_v304 : Ref sig .tc := ⟨.hbm, 422, rfl⟩
abbrev main_v305 : Ref sig .tc := ⟨.hbm, 423, rfl⟩
abbrev main_v306 : Ref sig .tc := ⟨.hbm, 424, rfl⟩
abbrev main_v307 : Ref sig .tc := ⟨.hbm, 425, rfl⟩
abbrev main_v308 : Ref sig .tc := ⟨.hbm, 426, rfl⟩
abbrev main_cst_62 : Ref sig .tc := ⟨.hbm, 427, rfl⟩
abbrev main_v309 : Ref sig .tc := ⟨.hbm, 428, rfl⟩
abbrev main_v310 : Ref sig .tc := ⟨.hbm, 429, rfl⟩
abbrev main_v311 : Ref sig .tc := ⟨.hbm, 430, rfl⟩
abbrev main_cst_63 : Ref sig .tc := ⟨.hbm, 431, rfl⟩
abbrev main_v312 : Ref sig .tc := ⟨.hbm, 432, rfl⟩
abbrev main_cst_64 : Ref sig .tc := ⟨.hbm, 433, rfl⟩
abbrev main_v313 : Ref sig .tc := ⟨.hbm, 434, rfl⟩
abbrev main_v314 : Ref sig .tc := ⟨.hbm, 435, rfl⟩
abbrev main_v315 : Ref sig .tc := ⟨.hbm, 436, rfl⟩
abbrev main_cst_65 : Ref sig .tc := ⟨.hbm, 437, rfl⟩
abbrev main_v316 : Ref sig .tc := ⟨.hbm, 438, rfl⟩
abbrev main_v317 : Ref sig .tc := ⟨.hbm, 439, rfl⟩
abbrev main_v318 : Ref sig .tc := ⟨.hbm, 440, rfl⟩
abbrev main_v319 : Ref sig .tc := ⟨.hbm, 441, rfl⟩
abbrev main_v320 : Ref sig .tc := ⟨.hbm, 442, rfl⟩
abbrev main_v321 : Ref sig .tc := ⟨.hbm, 443, rfl⟩
abbrev main_v322 : Ref sig .tc := ⟨.hbm, 444, rfl⟩
abbrev main_v323 : Ref sig .tc := ⟨.hbm, 445, rfl⟩
abbrev main_v324 : Ref sig .tc := ⟨.hbm, 446, rfl⟩
abbrev main_v325 : Ref sig .tc := ⟨.hbm, 447, rfl⟩
abbrev main_v326 : Ref sig .tc := ⟨.hbm, 448, rfl⟩
abbrev main_v327 : Ref sig .tc := ⟨.hbm, 449, rfl⟩
abbrev main_cst_66 : Ref sig .tc := ⟨.hbm, 450, rfl⟩
abbrev main_v328 : Ref sig .tc := ⟨.hbm, 451, rfl⟩
abbrev main_v329 : Ref sig .tc := ⟨.hbm, 452, rfl⟩
abbrev main_v330 : Ref sig .tc := ⟨.hbm, 453, rfl⟩
abbrev main_cst_67 : Ref sig .tc := ⟨.hbm, 454, rfl⟩
abbrev main_v331 : Ref sig .tc := ⟨.hbm, 455, rfl⟩
abbrev main_v332 : Ref sig .tc := ⟨.hbm, 456, rfl⟩
abbrev main_v333 : Ref sig .tc := ⟨.hbm, 457, rfl⟩
abbrev main_v334 : Ref sig .tc := ⟨.hbm, 458, rfl⟩
abbrev main_call6_cst : Ref sig .tc := ⟨.hbm, 459, rfl⟩
abbrev main_call6_v0 : Ref sig .tc := ⟨.hbm, 460, rfl⟩
abbrev main_v335 : Ref sig .tc := ⟨.hbm, 461, rfl⟩
abbrev main_v336 : Ref sig .tc := ⟨.hbm, 462, rfl⟩
abbrev main_v337 : Ref sig .tc := ⟨.hbm, 463, rfl⟩
abbrev main_v338 : Ref sig .tc := ⟨.hbm, 464, rfl⟩
abbrev main_v339 : Ref sig .tc := ⟨.hbm, 465, rfl⟩
abbrev main_c_68 : Ref sig .tc := ⟨.hbm, 466, rfl⟩
abbrev main_v340 : Ref sig .tc := ⟨.hbm, 467, rfl⟩
abbrev main_v341 : Ref sig .tc := ⟨.hbm, 468, rfl⟩
abbrev main_c_69 : Ref sig .tc := ⟨.hbm, 469, rfl⟩
abbrev main_v342 : Ref sig .tc := ⟨.hbm, 470, rfl⟩
abbrev main_v343 : Ref sig .tc := ⟨.hbm, 471, rfl⟩
abbrev main_v344 : Ref sig .tc := ⟨.hbm, 472, rfl⟩
abbrev main_v345 : Ref sig .tc := ⟨.hbm, 473, rfl⟩
abbrev main_v346 : Ref sig .tc := ⟨.hbm, 474, rfl⟩
abbrev main_cst_70 : Ref sig .tc := ⟨.hbm, 475, rfl⟩
abbrev main_v347 : Ref sig .tc := ⟨.hbm, 476, rfl⟩
abbrev main_v348 : Ref sig .tc := ⟨.hbm, 477, rfl⟩
abbrev main_v349 : Ref sig .tc := ⟨.hbm, 478, rfl⟩
abbrev main_cst_71 : Ref sig .tc := ⟨.hbm, 479, rfl⟩
abbrev main_v350 : Ref sig .tc := ⟨.hbm, 480, rfl⟩
abbrev main_cst_72 : Ref sig .tc := ⟨.hbm, 481, rfl⟩
abbrev main_v351 : Ref sig .tc := ⟨.hbm, 482, rfl⟩
abbrev main_v352 : Ref sig .tc := ⟨.hbm, 483, rfl⟩
abbrev main_v353 : Ref sig .tc := ⟨.hbm, 484, rfl⟩
abbrev main_cst_73 : Ref sig .tc := ⟨.hbm, 485, rfl⟩
abbrev main_v354 : Ref sig .tc := ⟨.hbm, 486, rfl⟩
abbrev main_v355 : Ref sig .tc := ⟨.hbm, 487, rfl⟩
abbrev main_v356 : Ref sig .tc := ⟨.hbm, 488, rfl⟩
abbrev main_v357 : Ref sig .tc := ⟨.hbm, 489, rfl⟩
abbrev main_v358 : Ref sig .tc := ⟨.hbm, 490, rfl⟩
abbrev main_v359 : Ref sig .tc := ⟨.hbm, 491, rfl⟩
abbrev main_v360 : Ref sig .tc := ⟨.hbm, 492, rfl⟩
abbrev main_v361 : Ref sig .tc := ⟨.hbm, 493, rfl⟩
abbrev main_v362 : Ref sig .tc := ⟨.hbm, 494, rfl⟩
abbrev main_v363 : Ref sig .tc := ⟨.hbm, 495, rfl⟩
abbrev main_v364 : Ref sig .tc := ⟨.hbm, 496, rfl⟩
abbrev main_v365 : Ref sig .tc := ⟨.hbm, 497, rfl⟩
abbrev main_cst_74 : Ref sig .tc := ⟨.hbm, 498, rfl⟩
abbrev main_v366 : Ref sig .tc := ⟨.hbm, 499, rfl⟩
abbrev main_v367 : Ref sig .tc := ⟨.hbm, 500, rfl⟩
abbrev main_v368 : Ref sig .tc := ⟨.hbm, 501, rfl⟩
abbrev main_cst_75 : Ref sig .tc := ⟨.hbm, 502, rfl⟩
abbrev main_v369 : Ref sig .tc := ⟨.hbm, 503, rfl⟩
abbrev main_v370 : Ref sig .tc := ⟨.hbm, 504, rfl⟩
abbrev main_v371 : Ref sig .tc := ⟨.hbm, 505, rfl⟩
abbrev main_v372 : Ref sig .tc := ⟨.hbm, 506, rfl⟩
abbrev main_call7_cst : Ref sig .tc := ⟨.hbm, 507, rfl⟩
abbrev main_call7_v0 : Ref sig .tc := ⟨.hbm, 508, rfl⟩
abbrev main_v373 : Ref sig .tc := ⟨.hbm, 509, rfl⟩
abbrev main_v374 : Ref sig .tc := ⟨.hbm, 510, rfl⟩
abbrev main_v375 : Ref sig .tc := ⟨.hbm, 511, rfl⟩
abbrev main_v376 : Ref sig .tc := ⟨.hbm, 512, rfl⟩
abbrev main_v377 : Ref sig .tc := ⟨.hbm, 513, rfl⟩
abbrev main_v378 : Ref sig .tc := ⟨.hbm, 514, rfl⟩
abbrev main_cst_76 : Ref sig .tc := ⟨.hbm, 515, rfl⟩
abbrev main_v379 : Ref sig .tc := ⟨.hbm, 516, rfl⟩
abbrev main_cst_77 : Ref sig .tc := ⟨.hbm, 517, rfl⟩
abbrev main_v380 : Ref sig .tc := ⟨.hbm, 518, rfl⟩
abbrev main_v381 : Ref sig .tc := ⟨.hbm, 519, rfl⟩
abbrev main_v382 : Ref sig .tc := ⟨.hbm, 520, rfl⟩
abbrev main_cst_78 : Ref sig .tc := ⟨.hbm, 521, rfl⟩
abbrev main_v383 : Ref sig .tc := ⟨.hbm, 522, rfl⟩
abbrev main_v384 : Ref sig .tc := ⟨.hbm, 523, rfl⟩
abbrev main_v385 : Ref sig .tc := ⟨.hbm, 524, rfl⟩
abbrev main_c_79 : Ref sig .tc := ⟨.hbm, 525, rfl⟩
abbrev main_v386 : Ref sig .tc := ⟨.hbm, 526, rfl⟩
abbrev main_v387 : Ref sig .tc := ⟨.hbm, 527, rfl⟩
abbrev main_c_80 : Ref sig .tc := ⟨.hbm, 528, rfl⟩
abbrev main_v388 : Ref sig .tc := ⟨.hbm, 529, rfl⟩
abbrev main_v389 : Ref sig .tc := ⟨.hbm, 530, rfl⟩
abbrev main_v390 : Ref sig .tc := ⟨.hbm, 531, rfl⟩
abbrev main_v391 : Ref sig .tc := ⟨.hbm, 532, rfl⟩
abbrev main_v392 : Ref sig .tc := ⟨.hbm, 533, rfl⟩
abbrev main_c_81 : Ref sig .tc := ⟨.hbm, 534, rfl⟩
abbrev main_v393 : Ref sig .tc := ⟨.hbm, 535, rfl⟩
abbrev main_v394 : Ref sig .tc := ⟨.hbm, 536, rfl⟩
abbrev main_c_82 : Ref sig .tc := ⟨.hbm, 537, rfl⟩
abbrev main_v395 : Ref sig .tc := ⟨.hbm, 538, rfl⟩
abbrev main_v396 : Ref sig .tc := ⟨.hbm, 539, rfl⟩
abbrev main_v397 : Ref sig .tc := ⟨.hbm, 540, rfl⟩
abbrev main_v398 : Ref sig .tc := ⟨.hbm, 541, rfl⟩
abbrev main_v399 : Ref sig .tc := ⟨.hbm, 542, rfl⟩
abbrev main_v400 : Ref sig .tc := ⟨.hbm, 543, rfl⟩
abbrev main_v401 : Ref sig .tc := ⟨.hbm, 544, rfl⟩
abbrev main_c_83 : Ref sig .tc := ⟨.hbm, 545, rfl⟩
abbrev main_v402 : Ref sig .tc := ⟨.hbm, 546, rfl⟩
abbrev main_v403 : Ref sig .tc := ⟨.hbm, 547, rfl⟩
abbrev main_c_84 : Ref sig .tc := ⟨.hbm, 548, rfl⟩
abbrev main_v404 : Ref sig .tc := ⟨.hbm, 549, rfl⟩
abbrev main_v405 : Ref sig .tc := ⟨.hbm, 550, rfl⟩
abbrev main_v406 : Ref sig .tc := ⟨.hbm, 551, rfl⟩
abbrev main_v407 : Ref sig .tc := ⟨.hbm, 552, rfl⟩
abbrev main_v408 : Ref sig .tc := ⟨.hbm, 553, rfl⟩
abbrev main_v409 : Ref sig .tc := ⟨.hbm, 554, rfl⟩
abbrev main_v410 : Ref sig .tc := ⟨.hbm, 555, rfl⟩
abbrev main_cst_85 : Ref sig .tc := ⟨.hbm, 556, rfl⟩
abbrev main_v411 : Ref sig .tc := ⟨.hbm, 557, rfl⟩
abbrev main_v412 : Ref sig .tc := ⟨.hbm, 558, rfl⟩
abbrev main_v413 : Ref sig .tc := ⟨.hbm, 559, rfl⟩
abbrev main_v414 : Ref sig .tc := ⟨.hbm, 560, rfl⟩
abbrev main_v415 : Ref sig .tc := ⟨.hbm, 561, rfl⟩
abbrev main_v416 : Ref sig .tc := ⟨.hbm, 562, rfl⟩
abbrev main_v417 : Ref sig .tc := ⟨.hbm, 563, rfl⟩
abbrev main_v418 : Ref sig .tc := ⟨.hbm, 564, rfl⟩
abbrev main_v419 : Ref sig .tc := ⟨.hbm, 565, rfl⟩
abbrev main_v420 : Ref sig .tc := ⟨.hbm, 566, rfl⟩
abbrev main_call8_cst : Ref sig .tc := ⟨.hbm, 567, rfl⟩
abbrev main_call8_v0 : Ref sig .tc := ⟨.hbm, 568, rfl⟩
abbrev main_v421 : Ref sig .tc := ⟨.hbm, 569, rfl⟩
abbrev main_cst_86 : Ref sig .tc := ⟨.hbm, 570, rfl⟩
abbrev main_v422 : Ref sig .tc := ⟨.hbm, 571, rfl⟩
abbrev main_cst_87 : Ref sig .tc := ⟨.hbm, 572, rfl⟩
abbrev main_v423 : Ref sig .tc := ⟨.hbm, 573, rfl⟩
abbrev main_v424 : Ref sig .tc := ⟨.hbm, 574, rfl⟩
abbrev main_v425 : Ref sig .tc := ⟨.hbm, 575, rfl⟩
abbrev main_v426 : Ref sig .tc := ⟨.hbm, 576, rfl⟩
abbrev main_v427 : Ref sig .tc := ⟨.hbm, 577, rfl⟩
abbrev main_v428 : Ref sig .tc := ⟨.hbm, 578, rfl⟩
abbrev main_cst_88 : Ref sig .tc := ⟨.hbm, 579, rfl⟩
abbrev main_v429 : Ref sig .tc := ⟨.hbm, 580, rfl⟩
abbrev main_cst_89 : Ref sig .tc := ⟨.hbm, 581, rfl⟩
abbrev main_v430 : Ref sig .tc := ⟨.hbm, 582, rfl⟩
abbrev main_v431 : Ref sig .tc := ⟨.hbm, 583, rfl⟩
abbrev main_v432 : Ref sig .tc := ⟨.hbm, 584, rfl⟩
abbrev main_v433 : Ref sig .tc := ⟨.hbm, 585, rfl⟩
abbrev main_v434 : Ref sig .tc := ⟨.hbm, 586, rfl⟩
abbrev main_cst_90 : Ref sig .tc := ⟨.hbm, 587, rfl⟩
abbrev main_v435 : Ref sig .tc := ⟨.hbm, 588, rfl⟩
abbrev main_v436 : Ref sig .tc := ⟨.hbm, 589, rfl⟩
abbrev main_v437 : Ref sig .tc := ⟨.hbm, 590, rfl⟩
abbrev main_v438 : Ref sig .tc := ⟨.hbm, 591, rfl⟩
abbrev main_v439 : Ref sig .tc := ⟨.hbm, 592, rfl⟩
abbrev main_v440 : Ref sig .tc := ⟨.hbm, 593, rfl⟩
abbrev main_v441 : Ref sig .tc := ⟨.hbm, 594, rfl⟩
abbrev main_v442 : Ref sig .tc := ⟨.hbm, 595, rfl⟩
abbrev main_v443 : Ref sig .tc := ⟨.hbm, 596, rfl⟩
abbrev main_v444 : Ref sig .tc := ⟨.hbm, 597, rfl⟩
abbrev main_v445 : Ref sig .tc := ⟨.hbm, 598, rfl⟩
abbrev main_v446 : Ref sig .tc := ⟨.hbm, 599, rfl⟩

abbrev nD : Nat := 1
abbrev τ : Topo := Topo.v7x

variable {F : FTy → Type} [FloatOps F]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S_S100000x1 : S_.BroadcastsInDim S100000x1 (![] : Fin 0 → Fin S100000x1.rank)
  bcast_S2000000x1_S2000000x64_0_1 : S2000000x1.BroadcastsInDim S2000000x64 (![0, 1] : Fin 2 → Fin S2000000x64.rank)
  reducesTo_S100000x64_S64_d0 : S100000x64.ReducesTo [0] S64
  bcast_S_S64 : S_.BroadcastsInDim S64 (![] : Fin 0 → Fin S64.rank)
  gather_S100000x64_S2000000x1_S2000000x64_1_0_n_n_0_1_164_wf : GatherDims.WF S100000x64 S2000000x1 S2000000x64 [1] [0] [] [0] [] 1 ![1, 64]
  scatter_S100000x64_S2000000x1_S2000000x64_1_0_0_1_wf : ScatterDims.WF S100000x64 S2000000x1 S2000000x64 [1] [0] [0] 1
  scatter_S100000_S2000000x1_S2000000_n_0_0_1_wf : ScatterDims.WF S100000 S2000000x1 S2000000 [] [0] [0] 1
  dot_S100000x64_S64x64_S100000x64_1_0_0_1_n_n_wf : DotDims.WF S100000x64 S64x64 S100000x64 [1] [0] [0] [1] [] []
  dot_S100000x32_S32x64_S100000x64_1_0_0_1_n_n_wf : DotDims.WF S100000x32 S32x64 S100000x64 [1] [0] [0] [1] [] []
  gather_S100000_S2000000x1_S2000000_n_0_n_n_0_1_1_wf : GatherDims.WF S100000 S2000000x1 S2000000 [] [0] [] [0] [] 1 ![1]

variable [Facts₀]

def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000_S2000000x1_S2000000_n_0_n_n_0_1_1 : GatherDims S100000 S2000000x1 S2000000 where
  offsetDims := []
  collapsedSliceDims := [0]
  operandBatchingDims := []
  startIndicesBatchingDims := []
  startIndexMap := [0]
  indexVectorDim := 1
  sliceSizes := ![1]
  wf := gather_S100000_S2000000x1_S2000000_n_0_n_n_0_1_1_wf

class Facts : Prop extends Facts₀ where

variable [Facts]
-- ==== Proof.K.R0.lean ====
/- The frame of REGION 0 of @main — custom_call 0, the SAGE combine kernel `cc0__sage_combine_kernel` (pipeline 0) —
   at a PARAMETER `V`, the TensorCore's buffer contents when the region is entered: each window's block at a grid
   point (`iblk0`), what the body leaves in the output window's staging buffer (`out0_6`: the one store of the
   whole block, its payload the normalised, rectified sum of the two products and the bias, over the six blocks read
   whole), the body's triple (`sound_kernel0`), the proof data (`dat0`) and the body obligation
   (`body_obligation0`). One control case: the body reads each input's staging buffer whole and writes the output's
   whole. -/
import proofs.«173191_j73083163508880_2_alg».proof.Proof.Gen.Kernel.Launch
import proofs.«173191_j73083163508880_2_alg».proof.Proof.Gen.Kernel.Skeleton
import proofs.«173191_j73083163508880_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 0 of @main: custom_call 0, `cc0__sage_combine_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): unfetched, the block index
    has not moved, so the block kept from the point before is this point's; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for ANY proof
    data whose array is `V`'s (`hA`) and whose body leaves the block in place (`hafter`): unfetched, the block index
    has not moved, so the block kept from the point before is this point's; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for ANY proof
    data whose array is `V`'s (`hA`) and whose body leaves the block in place (`hafter`): unfetched, the block index
    has not moved, so the block kept from the point before is this point's; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for ANY proof
    data whose array is `V`'s (`hA`) and whose body leaves the block in place (`hafter`): unfetched, the block index
    has not moved, so the block kept from the point before is this point's; the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for ANY proof
    data whose array is `V`'s (`hA`) and whose body leaves the block in place (`hafter`): unfetched, the block index
    has not moved, so the block kept from the point before is this point's; the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for ANY proof
    data whose array is `V`'s (`hA`) and whose body leaves the block in place (`hafter`): unfetched, the block index
    has not moved, so the block kept from the point before is this point's; the window is uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S5000x64 := Rect.unit (s := S5000x64) ![0, 0] S5000x64.size inb_S5000x64_S5000x64_0_0
abbrev r0_1 : Rect S5000x1 := Rect.unit (s := S5000x1) ![0, 0] S5000x1.size inb_S5000x1_S5000x1_0_0
abbrev r0_2 : Rect S5000x32 := Rect.unit (s := S5000x32) ![0, 0] S5000x32.size inb_S5000x32_S5000x32_0_0
abbrev r0_3 : Rect S64x64 := Rect.unit (s := S64x64) ![0, 0] S64x64.size inb_S64x64_S64x64_0_0
abbrev r0_4 : Rect S32x64 := Rect.unit (s := S32x64) ![0, 0] S32x64.size inb_S32x64_S32x64_0_0
abbrev r0_5 : Rect S64 := Rect.unit (s := S64) ![0] S64.size inb_S64_S64_0

/-! ## What the body leaves in the output window's buffer -/

/-- Window 6's staging buffer after the body, from the input windows' blocks: its 1 store as pieces, LAST
    FIRST; the payload is the skeleton's, applied to the six blocks read whole. -/
def out0_6 (x0 : Vec F S5000x64 .f32) (x1 : Vec F S5000x1 .f32) (x2 : Vec F S5000x32 .f32) (x3 : Vec F S64x64 .f32) (x4 : Vec F S64 .f32) (x5 : Vec F S32x64 .f32) : Vec F S5000x64 .f32 :=
  View.canon [⟨r0_0, k0_pay1 (View.ld x0 r0_0) (View.ld x1 r0_1) (View.ld x2 r0_2) (View.ld x3 r0_3) (View.ld x5 r0_4) (View.ld x4 r0_5)⟩]

/-- Its store is of the whole block, so it covers the buffer (checked by evaluation). -/
theorem cover0_6 (p0 : Vec F S5000x64 .f32) (y : S5000x64.Idx) :
    ∃ pc ∈ ([⟨r0_0, p0⟩] : List (View.Piece (Elt F) S5000x64 .f32)), y ∈ pc.1.set :=
  View.cover_of_tiled [⟨r0_0, p0⟩] S5000x64.size (by rfl) y

/-! ## The body's triple -/

set_option maxHeartbeats 1000000 in
/-- The kernel body on whole staging memrefs, the inputs' at read contents `xW` and the output's at anything, runs to
    the continuation holding the inputs' as they were and the output's at `out0_6` of the inputs': the printed function
    is its skeleton, run one memory operation at a time. -/
theorem sound_kernel0 (c : Dev nD) (E : Set ℕ) (i : grid0.Coords) (arg1 : Memref sig .tc .vmem S5000x64 .f32) (harg1 : arg1.IsWhole) (arg2 : Memref sig .tc .vmem S5000x1 .f32) (harg2 : arg2.IsWhole) (arg3 : Memref sig .tc .vmem S5000x32 .f32) (harg3 : arg3.IsWhole) (arg4 : Memref sig .tc .vmem S64x64 .f32) (harg4 : arg4.IsWhole) (arg5 : Memref sig .tc .vmem S64 .f32) (harg5 : arg5.IsWhole) (arg6 : Memref sig .tc .vmem S32x64 .f32) (harg6 : arg6.IsWhole) (arg7 : Memref sig .tc .vmem S5000x64 .f32) (harg7 : arg7.IsWhole)
    (x0 : Vec F S5000x64 .f32) (x1 : Vec F S5000x1 .f32) (x2 : Vec F S5000x32 .f32) (x3 : Vec F S64x64 .f32) (x4 : Vec F S64 .f32) (x5 : Vec F S32x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5)) -∗ K ⟨⟩))
      ⊢ wp frame (wpE (defs₀ (F := F)) Variants.none c none) E (cc0__sage_combine_kernel i arg1 harg1 arg2 harg2 arg3 harg3 arg4 harg4 arg5 harg5 arg6 harg6 arg7 harg7) K := by
  simp only [cc0__sage_combine_kernel_eq_skeleton]; unfold cc0__sage_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The pipeline's proof data -/

/-- The proof data of pipeline 0 on core `c`: the arrays as the region finds them (`V`); after the body at
    point `t` each input's buffer at its block and the output's at `out0_6` of the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents (the proof data's definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t` (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr
-- ==== Proof.K.R1.lean ====
/- The frame of REGION 1 of @main — custom_call 1, the SAGE combine kernel `cc1__sage_combine_kernel` (pipeline 1) —
   at a PARAMETER `V`, the TensorCore's buffer contents when the region is entered: each window's block at a grid
   point (`iblk1`), what the body leaves in the output window's staging buffer (`out1_6`: the one store of the
   whole block, its payload the normalised, rectified sum of the two products and the bias, over the six blocks read
   whole), the body's triple (`sound_kernel1`), the proof data (`dat1`) and the body obligation
   (`body_obligation1`). One control case: the body reads each input's staging buffer whole and writes the output's
   whole. -/
import proofs.«173191_j73083163508880_2_alg».proof.Proof.Gen.Kernel.Launch
import proofs.«173191_j73083163508880_2_alg».proof.Proof.Gen.Kernel.Skeleton
import proofs.«173191_j73083163508880_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 1 of @main: custom_call 1, `cc1__sage_combine_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): unfetched, the block index
    has not moved, so the block kept from the point before is this point's; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for ANY proof
    data whose array is `V`'s (`hA`) and whose body leaves the block in place (`hafter`): unfetched, the block index
    has not moved, so the block kept from the point before is this point's; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for ANY proof
    data whose array is `V`'s (`hA`) and whose body leaves the block in place (`hafter`): unfetched, the block index
    has not moved, so the block kept from the point before is this point's; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for ANY proof
    data whose array is `V`'s (`hA`) and whose body leaves the block in place (`hafter`): unfetched, the block index
    has not moved, so the block kept from the point before is this point's; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for ANY proof
    data whose array is `V`'s (`hA`) and whose body leaves the block in place (`hafter`): unfetched, the block index
    has not moved, so the block kept from the point before is this point's; the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for ANY proof
    data whose array is `V`'s (`hA`) and whose body leaves the block in place (`hafter`): unfetched, the block index
    has not moved, so the block kept from the point before is this point's; the window is uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S5000x64 := Rect.unit (s := S5000x64) ![0, 0] S5000x64.size inb_S5000x64_S5000x64_0_0
abbrev r1_1 : Rect S5000x1 := Rect.unit (s := S5000x1) ![0, 0] S5000x1.size inb_S5000x1_S5000x1_0_0
abbrev r1_2 : Rect S64x64 := Rect.unit (s := S64x64) ![0, 0] S64x64.size inb_S64x64_S64x64_0_0
abbrev r1_3 : Rect S64 := Rect.unit (s := S64) ![0] S64.size inb_S64_S64_0

/-! ## What the body leaves in the output window's buffer -/

/-- Window 6's staging buffer after the body, from the input windows' blocks: its 1 store as pieces, LAST
    FIRST; the payload is the skeleton's, applied to the six blocks read whole. -/
def out1_6 (x0 : Vec F S5000x64 .f32) (x1 : Vec F S5000x1 .f32) (x2 : Vec F S5000x64 .f32) (x3 : Vec F S64x64 .f32) (x4 : Vec F S64 .f32) (x5 : Vec F S64x64 .f32) : Vec F S5000x64 .f32 :=
  View.canon [⟨r1_0, k1_pay1 (View.ld x0 r1_0) (View.ld x1 r1_1) (View.ld x2 r1_0) (View.ld x3 r1_2) (View.ld x5 r1_2) (View.ld x4 r1_3)⟩]

/-- Its store is of the whole block, so it covers the buffer (checked by evaluation). -/
theorem cover1_6 (p0 : Vec F S5000x64 .f32) (y : S5000x64.Idx) :
    ∃ pc ∈ ([⟨r1_0, p0⟩] : List (View.Piece (Elt F) S5000x64 .f32)), y ∈ pc.1.set :=
  View.cover_of_tiled [⟨r1_0, p0⟩] S5000x64.size (by rfl) y

/-! ## The body's triple -/

set_option maxHeartbeats 1000000 in
/-- The kernel body on whole staging memrefs, the inputs' at read contents `xW` and the output's at anything, runs to
    the continuation holding the inputs' as they were and the output's at `out1_6` of the inputs': the printed function
    is its skeleton, run one memory operation at a time. -/
theorem sound_kernel1 (c : Dev nD) (E : Set ℕ) (i : grid1.Coords) (arg1 : Memref sig .tc .vmem S5000x64 .f32) (harg1 : arg1.IsWhole) (arg2 : Memref sig .tc .vmem S5000x1 .f32) (harg2 : arg2.IsWhole) (arg3 : Memref sig .tc .vmem S5000x64 .f32) (harg3 : arg3.IsWhole) (arg4 : Memref sig .tc .vmem S64x64 .f32) (harg4 : arg4.IsWhole) (arg5 : Memref sig .tc .vmem S64 .f32) (harg5 : arg5.IsWhole) (arg6 : Memref sig .tc .vmem S64x64 .f32) (harg6 : arg6.IsWhole) (arg7 : Memref sig .tc .vmem S5000x64 .f32) (harg7 : arg7.IsWhole)
    (x0 : Vec F S5000x64 .f32) (x1 : Vec F S5000x1 .f32) (x2 : Vec F S5000x64 .f32) (x3 : Vec F S64x64 .f32) (x4 : Vec F S64 .f32) (x5 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1__sage_combine_kernel i arg1 harg1 arg2 harg2 arg3 harg3 arg4 harg4 arg5 harg5 arg6 harg6 arg7 harg7) K := by
  simp only [cc1__sage_combine_kernel_eq_skeleton]; unfold cc1__sage_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- The proof data of pipeline 1 on core `c`: the arrays as the region finds them (`V`); after the body at
    point `t` each input's buffer at its block and the output's at `out1_6` of the input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents (the proof data's definition projected). -/
theorem A_eq1 (c : Dev nD) (w : Fin cfg1.W) : (dat1 V c).A w = V c (Pipeline.arrRef spec1 w) := by
  dsimp only [dat1]

/-- What the body leaves, window by window (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t` (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr
-- ==== Proof.K.R2.lean ====
/- The frame of REGION 2 of @main — custom_call 2, the SAGE combine kernel `cc2__sage_combine_kernel` (pipeline 2) —
   at a PARAMETER `V`, the TensorCore's buffer contents when the region is entered: each window's block at a grid
   point (`iblk2`), what the body leaves in the output window's staging buffer (`out2_6`: the one store of the
   whole block, its payload the normalised, rectified sum of the two products and the bias, over the six blocks read
   whole), the body's triple (`sound_kernel2`), the proof data (`dat2`) and the body obligation
   (`body_obligation2`). One control case: the body reads each input's staging buffer whole and writes the output's
   whole. -/
import proofs.«173191_j73083163508880_2_alg».proof.Proof.Gen.Kernel.Launch
import proofs.«173191_j73083163508880_2_alg».proof.Proof.Gen.Kernel.Skeleton
import proofs.«173191_j73083163508880_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 2 of @main: custom_call 2, `cc2__sage_combine_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): unfetched, the block index
    has not moved, so the block kept from the point before is this point's; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for ANY proof
    data whose array is `V`'s (`hA`) and whose body leaves the block in place (`hafter`): unfetched, the block index
    has not moved, so the block kept from the point before is this point's; the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for ANY proof
    data whose array is `V`'s (`hA`) and whose body leaves the block in place (`hafter`): unfetched, the block index
    has not moved, so the block kept from the point before is this point's; the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for ANY proof
    data whose array is `V`'s (`hA`) and whose body leaves the block in place (`hafter`): unfetched, the block index
    has not moved, so the block kept from the point before is this point's; the window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for ANY proof
    data whose array is `V`'s (`hA`) and whose body leaves the block in place (`hafter`): unfetched, the block index
    has not moved, so the block kept from the point before is this point's; the window is uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not, for ANY proof
    data whose array is `V`'s (`hA`) and whose body leaves the block in place (`hafter`): unfetched, the block index
    has not moved, so the block kept from the point before is this point's; the window is uncut and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S5000x64 := Rect.unit (s := S5000x64) ![0, 0] S5000x64.size inb_S5000x64_S5000x64_0_0
abbrev r2_1 : Rect S5000x1 := Rect.unit (s := S5000x1) ![0, 0] S5000x1.size inb_S5000x1_S5000x1_0_0
abbrev r2_2 : Rect S5000x32 := Rect.unit (s := S5000x32) ![0, 0] S5000x32.size inb_S5000x32_S5000x32_0_0
abbrev r2_3 : Rect S64x64 := Rect.unit (s := S64x64) ![0, 0] S64x64.size inb_S64x64_S64x64_0_0
abbrev r2_4 : Rect S32x64 := Rect.unit (s := S32x64) ![0, 0] S32x64.size inb_S32x64_S32x64_0_0
abbrev r2_5 : Rect S64 := Rect.unit (s := S64) ![0] S64.size inb_S64_S64_0

/-! ## What the body leaves in the output window's buffer -/

/-- Window 6's staging buffer after the body, from the input windows' blocks: its 1 store as pieces, LAST
    FIRST; the payload is the skeleton's, applied to the six blocks read whole. -/
def out2_6 (x0 : Vec F S5000x64 .f32) (x1 : Vec F S5000x1 .f32) (x2 : Vec F S5000x32 .f32) (x3 : Vec F S64x64 .f32) (x4 : Vec F S64 .f32) (x5 : Vec F S32x64 .f32) : Vec F S5000x64 .f32 :=
  View.canon [⟨r2_0, k2_pay1 (View.ld x0 r2_0) (View.ld x1 r2_1) (View.ld x2 r2_2) (View.ld x3 r2_3) (View.ld x5 r2_4) (View.ld x4 r2_5)⟩]

/-- Its store is of the whole block, so it covers the buffer (checked by evaluation). -/
theorem cover2_6 (p0 : Vec F S5000x64 .f32) (y : S5000x64.Idx) :
    ∃ pc ∈ ([⟨r2_0, p0⟩] : List (View.Piece (Elt F) S5000x64 .f32)), y ∈ pc.1.set :=
  View.cover_of_tiled [⟨r2_0, p0⟩] S5000x64.size (by rfl) y

/-! ## The body's triple -/

set_option maxHeartbeats 1000000 in
/-- The kernel body on whole staging memrefs, the inputs' at read contents `xW` and the output's at anything, runs to
    the continuation holding the inputs' as they were and the output's at `out2_6` of the inputs': the printed function
    is its skeleton, run one memory operation at a time. -/
theorem sound_kernel2 (c : Dev nD) (E : Set ℕ) (i : grid2.Coords) (arg1 : Memref sig .tc .vmem S5000x64 .f32) (harg1 : arg1.IsWhole) (arg2 : Memref sig .tc .vmem S5000x1 .f32) (harg2 : arg2.IsWhole) (arg3 : Memref sig .tc .vmem S5000x32 .f32) (harg3 : arg3.IsWhole) (arg4 : Memref sig .tc .vmem S64x64 .f32) (harg4 : arg4.IsWhole) (arg5 : Memref sig .tc .vmem S64 .f32) (harg5 : arg5.IsWhole) (arg6 : Memref sig .tc .vmem S32x64 .f32) (harg6 : arg6.IsWhole) (arg7 : Memref sig .tc .vmem S5000x64 .f32) (harg7 : arg7.IsWhole)
    (x0 : Vec F S5000x64 .f32) (x1 : Vec F S5000x1 .f32) (x2 : Vec F S5000x32 .f32) (x3 : Vec F S64x64 .f32) (x4 : Vec F S64 .f32) (x5 : Vec F S32x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2__sage_combine_kernel i arg1 harg1 arg2 harg2 arg3 harg3 arg4 harg4 arg5 harg5 arg6 harg6 arg7 harg7) K := by
  simp only [cc2__sage_combine_kernel_eq_skeleton]; unfold cc2__sage_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The pipeline's proof data -/

/-- The proof data of pipeline 2 on core `c`: the arrays as the region finds them (`V`); after the body at
    point `t` each input's buffer at its block and the output's at `out2_6` of the input blocks; the invariant the
    scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the region-entry contents (the proof data's definition projected). -/
theorem A_eq2 (c : Dev nD) (w : Fin cfg2.W) : (dat2 V c).A w = V c (Pipeline.arrRef spec2 w) := by
  dsimp only [dat2]

/-- What the body leaves, window by window (the proof data's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t` (the obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ (grid2.coords t) _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr
-- ==== Proof.K.R3.lean ====
import proofs.«173191_j73083163508880_2_alg».proof.Proof.Gen.Kernel.Launch
import proofs.«173191_j73083163508880_2_alg».proof.Proof.Gen.Kernel.Skeleton
import proofs.«173191_j73083163508880_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the elaborator's structural look recurses once per coordinate
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # The tiled matrix product `cc3__matmul_kernel` (pipeline 3), at the entry contents `V`

Each of the 20 grid points reads a [5000,64] block of the left factor and the whole [64,64] right factor, rounds both
to bf16, and stores their product (accumulated in f32 from zero) over the whole [5000,64] output block. -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0 (the left factor's row block) holds its block at every point, for any proof data whose array is
    `V`'s and whose body leaves the block in place: the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1 (the right factor, one constant block fetched at the first point only) holds its block at every
    point: where it is not fetched its block index has not moved. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- The whole [5000,64] block. -/
abbrev r3_0 : Rect S5000x64 := Rect.unit (s := S5000x64) ![0, 0] S5000x64.size inb_S5000x64_S5000x64_0_0
/-- The whole [64,64] right factor. -/
abbrev r3_1 : Rect S64x64 := Rect.unit (s := S64x64) ![0, 0] S64x64.size inb_S64x64_S64x64_0_0

/-! ## What the body leaves in the output window's buffer -/

/-- Window 2's staging buffer after the body, from the input windows' blocks: its one store, of the product of the
    two blocks as the skeleton's payload computes it, over the whole block. -/
def out3_2 (x0 : Vec F S5000x64 .f32) (x1 : Vec F S64x64 .f32) : Vec F S5000x64 .f32 :=
  View.canon [⟨r3_0, k3_pay1 (View.ld x0 r3_0) (View.ld x1 r3_1)⟩]

/-- The store's rectangle is the whole buffer, so it covers it. -/
theorem cover3_2 (p0 : Vec F S5000x64 .f32) (y : S5000x64.Idx) :
    ∃ pc ∈ ([⟨r3_0, p0⟩] : List (View.Piece (Elt F) S5000x64 .f32)), y ∈ pc.1.set :=
  View.cover_of_tiled [⟨r3_0, p0⟩] S5000x64.size (by rfl) y

/-! ## The body's triple -/

set_option maxHeartbeats 1000000 in
/-- The kernel body on whole staging memrefs, the inputs' at read contents `x0`, `x1` and the output's at anything,
    runs to the continuation holding the inputs' as they were and the output's at `out3_2` of the inputs'. -/
theorem sound_kernel3 (c : Dev nD) (E : Set ℕ) (i : grid3.Coords) (arg1 : Memref sig .tc .vmem S5000x64 .f32) (harg1 : arg1.IsWhole) (arg2 : Memref sig .tc .vmem S64x64 .f32) (harg2 : arg2.IsWhole) (arg3 : Memref sig .tc .vmem S5000x64 .f32) (harg3 : arg3.IsWhole)
    (x0 : Vec F S5000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of pipeline 3 on core `c`: the arrays as the region finds them (`V`); after the body at point
    `t` each input's buffer at its block and the output's at `out3_2` of the input blocks; the invariant the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so `sound_kernel3` applies; the invariant and the
    core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Fr

end
-- ==== Proof.K.R4Base.lean ====
import proofs.«173191_j73083163508880_2_alg».proof.Proof.Gen.Kernel.Launch
import proofs.«173191_j73083163508880_2_alg».proof.Proof.Gen.Kernel.Skeleton
import proofs.«173191_j73083163508880_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the blocks' extents recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 4: the GCN combine with column statistics, at the entry contents `V`

The body has three control cases over the 20 grid points: the first point zeroes the two accumulators
before accumulating, the middle points only accumulate, the last point also copies the accumulators
to the two statistics outputs. -/

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof
    data whose array is the entry contents and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not, for any proof
    data whose array is the entry contents and whose body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not, for any proof
    data whose array is the entry contents and whose body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not, for any proof
    data whose array is the entry contents and whose body leaves the block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## The body's two conditions, in closed form -/

/-- "This is the first grid point": the condition of the zeroing branch, from the grid coordinates. -/
abbrev cond4_0 (i : grid4.Coords) : Prop := (Scalar.cmpi .ne (Scalar.extui (Scalar.cmpi .eq (BitVec.ofNat 32 (i 0).val) 0#32)) 0#32) = 1#1
/-- It holds at the first point only. -/
theorem hcond4_0 : ∀ t : Fin cfg4.N, cond4_0 (grid4.coords t) ↔ t.val % 20 = 0 :=
  (by decide +kernel : ∀ t : Fin grid4.N, cond4_0 (grid4.coords t) ↔ t.val % 20 = 0)

/-- "This is the last grid point": the condition of the branch that writes the statistics out. -/
abbrev cond4_1 (i : grid4.Coords) : Prop := k4_cond2 i = 1#1
/-- It holds at the last point only. -/
theorem hcond4_1 : ∀ t : Fin cfg4.N, cond4_1 (grid4.coords t) ↔ t.val % 20 = 19 :=
  (by decide +kernel : ∀ t : Fin grid4.N, cond4_1 (grid4.coords t) ↔ t.val % 20 = 19)

/-! ## Where the windows are idle -/

/-- Window 0 is never idle. -/
theorem liveAt4_0 : ∀ t : Fin cfg4.N, cfg4.idle 0 (grid4.coords t) = false := by decide +kernel
/-- Window 1 is never idle. -/
theorem liveAt4_1 : ∀ t : Fin cfg4.N, cfg4.idle 1 (grid4.coords t) = false := by decide +kernel
/-- Window 2 is never idle. -/
theorem liveAt4_2 : ∀ t : Fin cfg4.N, cfg4.idle 2 (grid4.coords t) = false := by decide +kernel
/-- Window 3 is never idle. -/
theorem liveAt4_3 : ∀ t : Fin cfg4.N, cfg4.idle 3 (grid4.coords t) = false := by decide +kernel
/-- Window 4 is never idle. -/
theorem liveAt4_4 : ∀ t : Fin cfg4.N, cfg4.idle 4 (grid4.coords t) = false := by decide +kernel
/-- Away from the last point nothing is stored into output 5: the window is idle there, -/
theorem idleAt4_5 : ∀ t : Fin cfg4.N, ¬cond4_1 (grid4.coords t) → cfg4.idle 5 (grid4.coords t) = true := by decide +kernel
/-- and its block is not written back there. -/
theorem noFlush4_5 : ∀ t : Fin cfg4.N, ¬cond4_1 (grid4.coords t) → (cfg4.win 5).flush t = false := by decide +kernel
/-- At the last point output 5 is live. -/
theorem liveAt4_5 : ∀ t : Fin cfg4.N, cond4_1 (grid4.coords t) → cfg4.idle 5 (grid4.coords t) = false := by decide +kernel
/-- Away from the last point nothing is stored into output 6: the window is idle there, -/
theorem idleAt4_6 : ∀ t : Fin cfg4.N, ¬cond4_1 (grid4.coords t) → cfg4.idle 6 (grid4.coords t) = true := by decide +kernel
/-- and its block is not written back there. -/
theorem noFlush4_6 : ∀ t : Fin cfg4.N, ¬cond4_1 (grid4.coords t) → (cfg4.win 6).flush t = false := by decide +kernel
/-- At the last point output 6 is live. -/
theorem liveAt4_6 : ∀ t : Fin cfg4.N, cond4_1 (grid4.coords t) → cfg4.idle 6 (grid4.coords t) = false := by decide +kernel

/-! ## The memrefs the body is called with -/

/-- One staging buffer of each output window, through which its contents are stated (the choice does not matter). -/
abbrev VO4_4 : View sig .tc .vmem S5000x64 .f32 := (Memref.whole cc4_stg4_0 : Memref sig .tc .vmem S5000x64 .f32).view
abbrev VO4_5 : View sig .tc .vmem S1x64 .f32 := (Memref.whole cc4_stg5_0 : Memref sig .tc .vmem S1x64 .f32).view
abbrev VO4_6 : View sig .tc .vmem S1x64 .f32 := (Memref.whole cc4_stg6_0 : Memref sig .tc .vmem S1x64 .f32).view
/-- Each window's current staging memref at point `t`, as the pipeline passes it, and its wholeness. -/
abbrev ms4_0 (t : Fin cfg4.N) : Memref sig .tc .vmem S5000x64 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S5000x64 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S5000x1 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S64 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S5000x64 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x64 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S1x64 .f32 := win4_6.stage (cfg4.slots t 6)
abbrev hs4_6 (t : Fin cfg4.N) : (ms4_6 t).IsWhole := hstage4_6 ((cfg4.slots t 6).cast nbuf4_6)
/-- The two accumulators: whole scoped buffers of the kernel's own, passed beside the windows, -/
abbrev scM4_0 : Memref sig .tc .vmem S1x64 .f32 := Memref.whole cc4_scratch0
abbrev scM4_1 : Memref sig .tc .vmem S1x64 .f32 := Memref.whole cc4_scratch1
/-- and as views, through which what they hold is stated. -/
abbrev VS4_0 : View sig .tc .vmem S1x64 .f32 := scM4_0.view
abbrev VS4_1 : View sig .tc .vmem S1x64 .f32 := scM4_1.view

/-- The class's invariant with the two accumulators as memrefs owned at some contents, every other scoped buffer
    unopened, and the generator register at some state. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

end Cert.Kernel.Fr

end
-- ==== Proof.K.R4Runs.lean ====
import proofs.«173191_j73083163508880_2_alg».proof.Proof.K.R4Base

-- membership in a rectangle of the blocks' extents recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 4: the body's run in each of its three control cases -/

-- (the run's proof term is large: the definition's epilogue walks it past the default budget)
set_option maxHeartbeats 4000000 in
/-- What the body's stores leave in each output's staging memref and in the two accumulators, as pieces (last first),
    AT the first grid point (the accumulators are zeroed, then accumulated into; the statistics outputs untouched), WITH the proof that on whole memrefs — the inputs' at their contents, a
    statistics output the case leaves alone at contents handed back untouched, the other outputs' at anything, the
    accumulators at what the point before left (at anything at the first point) — the body runs to the continuation
    holding the inputs' as they were and each stored buffer with its pieces written. The pieces are the witness the
    run finds. -/
noncomputable def kernelRun4_A (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond4_0 i) (hc1 : ¬cond4_1 i)
    (x0 : Vec F S5000x64 .f32) (x1 : Vec F S5000x64 .f32) (x2 : Vec F S5000x1 .f32) (x3 : Vec F S64 .f32) :
    Σ' (L4 : List (View.Piece (Elt F) S5000x64 .f32)) (L5 : List (View.Piece (Elt F) S1x64 .f32)) (L6 : List (View.Piece (Elt F) S1x64 .f32)) (LS0 : List (View.Piece (Elt F) S1x64 .f32)), { LS1 : List (View.Piece (Elt F) S1x64 .f32) //
      ∀ (xi5 : Vec F S1x64 .f32) (xi6 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc4__gcn_combine_stats_kernel i arg1 harg1 arg2 harg2 arg3 harg3 arg4 harg4 arg5 harg5 arg6 harg6 arg7 harg7 arg8 harg8 arg9 harg9) K } := by
  refine ⟨?_, [], [], ?_, ?_, fun xi5 xi6 E K => ?run⟩
  case run =>
    simp only [cc4__gcn_combine_stats_kernel_eq_skeleton]; unfold cc4__gcn_combine_stats_kernel_skel
    simp only [k4_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

-- (the run's proof term is large: the definition's epilogue walks it past the default budget)
set_option maxHeartbeats 4000000 in
/-- What the body's stores leave in each output's staging memref and in the two accumulators, as pieces (last first),
    AT a middle grid point (the accumulators, at what the point before left, are accumulated into; the statistics outputs untouched), WITH the proof that on whole memrefs — the inputs' at their contents, a
    statistics output the case leaves alone at contents handed back untouched, the other outputs' at anything, the
    accumulators at what the point before left (at anything at the first point) — the body runs to the continuation
    holding the inputs' as they were and each stored buffer with its pieces written. The pieces are the witness the
    run finds. -/
noncomputable def kernelRun4_B (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : ¬cond4_1 i)
    (x0 : Vec F S5000x64 .f32) (x1 : Vec F S5000x64 .f32) (x2 : Vec F S5000x1 .f32) (x3 : Vec F S64 .f32) (xs0 : Vec F S1x64 .f32) (xs1 : Vec F S1x64 .f32) :
    Σ' (L4 : List (View.Piece (Elt F) S5000x64 .f32)) (L5 : List (View.Piece (Elt F) S1x64 .f32)) (L6 : List (View.Piece (Elt F) S1x64 .f32)) (LS0 : List (View.Piece (Elt F) S1x64 .f32)), { LS1 : List (View.Piece (Elt F) S1x64 .f32) //
      ∀ (xi5 : Vec F S1x64 .f32) (xi6 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc4__gcn_combine_stats_kernel i arg1 harg1 arg2 harg2 arg3 harg3 arg4 harg4 arg5 harg5 arg6 harg6 arg7 harg7 arg8 harg8 arg9 harg9) K } := by
  refine ⟨?_, [], [], ?_, ?_, fun xi5 xi6 E K => ?run⟩
  case run =>
    simp only [cc4__gcn_combine_stats_kernel_eq_skeleton]; unfold cc4__gcn_combine_stats_kernel_skel
    simp only [k4_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hf6; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

-- (the run's proof term is large: the definition's epilogue walks it past the default budget)
set_option maxHeartbeats 4000000 in
/-- What the body's stores leave in each output's staging memref and in the two accumulators, as pieces (last first),
    AT the last grid point (the accumulators are accumulated into and then copied to the two statistics outputs), WITH the proof that on whole memrefs — the inputs' at their contents, a
    statistics output the case leaves alone at contents handed back untouched, the other outputs' at anything, the
    accumulators at what the point before left (at anything at the first point) — the body runs to the continuation
    holding the inputs' as they were and each stored buffer with its pieces written. The pieces are the witness the
    run finds. -/
noncomputable def kernelRun4_C (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : cond4_1 i)
    (x0 : Vec F S5000x64 .f32) (x1 : Vec F S5000x64 .f32) (x2 : Vec F S5000x1 .f32) (x3 : Vec F S64 .f32) (xs0 : Vec F S1x64 .f32) (xs1 : Vec F S1x64 .f32) :
    Σ' (L4 : List (View.Piece (Elt F) S5000x64 .f32)) (L5 : List (View.Piece (Elt F) S1x64 .f32)) (L6 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc4__gcn_combine_stats_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc4__gcn_combine_stats_kernel_eq_skeleton]; unfold cc4__gcn_combine_stats_kernel_skel
    simp only [k4_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

end Cert.Kernel.Fr

end
-- ==== Proof.K.R4.lean ====
import proofs.«173191_j73083163508880_2_alg».proof.Proof.K.R4Runs

-- membership in a rectangle of the blocks' extents recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 4: what the outputs and the accumulators hold point by point, the proof data, the body obligation -/

/-! ## What the body leaves at the first point -/

/-- At the first point the stores into output 4 tile its block, so they cover it. -/
theorem cover4_A_4 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond4_0 i) (hc1 : ¬cond4_1 i)
    (x0 : Vec F S5000x64 .f32) (x1 : Vec F S5000x64 .f32) (x2 : Vec F S5000x1 .f32) (x3 : Vec F S64 .f32) (y : S5000x64.Idx) :
    ∃ pc ∈ (kernelRun4_A c i arg1 harg1 arg2 harg2 arg3 harg3 arg4 harg4 arg5 harg5 arg6 harg6 arg7 harg7 arg8 harg8 arg9 harg9 hc0 hc1 x0 x1 x2 x3).1, y ∈ pc.1.set :=
  View.cover_of_tiledL (kernelRun4_A c i arg1 harg1 arg2 harg2 arg3 harg3 arg4 harg4 arg5 harg5 arg6 harg6 arg7 harg7 arg8 harg8 arg9 harg9 hc0 hc1 x0 x1 x2 x3).1 S5000x64.size (by sl_kernel_rfl) y

/-- What the first point leaves in output 4's staging buffer: its pieces read back over junk. -/
def out4_A_4 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond4_0 i) (hc1 : ¬cond4_1 i)
    (x0 : Vec F S5000x64 .f32) (x1 : Vec F S5000x64 .f32) (x2 : Vec F S5000x1 .f32) (x3 : Vec F S64 .f32) : Vec F S5000x64 .f32 :=
  VO4_4.read (Elt F) (VO4_4.writes (Elt F) VO4_4.junk (kernelRun4_A c i arg1 harg1 arg2 harg2 arg3 harg3 arg4 harg4 arg5 harg5 arg6 harg6 arg7 harg7 arg8 harg8 arg9 harg9 hc0 hc1 x0 x1 x2 x3).1)

/-- At the first point nothing is stored into output 5 (idle there, not written back): no pieces — a placeholder
    nothing consults. -/
def out4_A_5 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond4_0 i) (hc1 : ¬cond4_1 i)
    (x0 : Vec F S5000x64 .f32) (x1 : Vec F S5000x64 .f32) (x2 : Vec F S5000x1 .f32) (x3 : Vec F S64 .f32) : Vec F S1x64 .f32 :=
  VO4_5.read (Elt F) (VO4_5.writes (Elt F) VO4_5.junk (kernelRun4_A c i arg1 harg1 arg2 harg2 arg3 harg3 arg4 harg4 arg5 harg5 arg6 harg6 arg7 harg7 arg8 harg8 arg9 harg9 hc0 hc1 x0 x1 x2 x3).2.1)

/-- At the first point nothing is stored into output 6 (idle there, not written back): no pieces — a placeholder
    nothing consults. -/
def out4_A_6 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond4_0 i) (hc1 : ¬cond4_1 i)
    (x0 : Vec F S5000x64 .f32) (x1 : Vec F S5000x64 .f32) (x2 : Vec F S5000x1 .f32) (x3 : Vec F S64 .f32) : Vec F S1x64 .f32 :=
  VO4_6.read (Elt F) (VO4_6.writes (Elt F) VO4_6.junk (kernelRun4_A c i arg1 harg1 arg2 harg2 arg3 harg3 arg4 harg4 arg5 harg5 arg6 harg6 arg7 harg7 arg8 harg8 arg9 harg9 hc0 hc1 x0 x1 x2 x3).2.2.1)

/-- At the first point the stores into accumulator 0 cover it. -/
theorem scover4_A_0 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond4_0 i) (hc1 : ¬cond4_1 i)
    (x0 : Vec F S5000x64 .f32) (x1 : Vec F S5000x64 .f32) (x2 : Vec F S5000x1 .f32) (x3 : Vec F S64 .f32) (y : S1x64.Idx) :
    ∃ pc ∈ (kernelRun4_A c i arg1 harg1 arg2 harg2 arg3 harg3 arg4 harg4 arg5 harg5 arg6 harg6 arg7 harg7 arg8 harg8 arg9 harg9 hc0 hc1 x0 x1 x2 x3).2.2.2.1, y ∈ pc.1.set :=
  View.cover_of_tiledL (kernelRun4_A c i arg1 harg1 arg2 harg2 arg3 harg3 arg4 harg4 arg5 harg5 arg6 harg6 arg7 harg7 arg8 harg8 arg9 harg9 hc0 hc1 x0 x1 x2 x3).2.2.2.1 S1x64.size (by sl_kernel_rfl) y

/-- What the first point leaves in accumulator 0: its pieces read back over junk. -/
def sout4_A_0 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond4_0 i) (hc1 : ¬cond4_1 i)
    (x0 : Vec F S5000x64 .f32) (x1 : Vec F S5000x64 .f32) (x2 : Vec F S5000x1 .f32) (x3 : Vec F S64 .f32) : Vec F S1x64 .f32 :=
  VS4_0.read (Elt F) (VS4_0.writes (Elt F) VS4_0.junk (kernelRun4_A c i arg1 harg1 arg2 harg2 arg3 harg3 arg4 harg4 arg5 harg5 arg6 harg6 arg7 harg7 arg8 harg8 arg9 harg9 hc0 hc1 x0 x1 x2 x3).2.2.2.1)

/-- At the first point the stores into accumulator 1 cover it. -/
theorem scover4_A_1 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond4_0 i) (hc1 : ¬cond4_1 i)
    (x0 : Vec F S5000x64 .f32) (x1 : Vec F S5000x64 .f32) (x2 : Vec F S5000x1 .f32) (x3 : Vec F S64 .f32) (y : S1x64.Idx) :
    ∃ pc ∈ (kernelRun4_A c i arg1 harg1 arg2 harg2 arg3 harg3 arg4 harg4 arg5 harg5 arg6 harg6 arg7 harg7 arg8 harg8 arg9 harg9 hc0 hc1 x0 x1 x2 x3).2.2.2.2.1, y ∈ pc.1.set :=
  View.cover_of_tiledL (kernelRun4_A c i arg1 harg1 arg2 harg2 arg3 harg3 arg4 harg4 arg5 harg5 arg6 harg6 arg7 harg7 arg8 harg8 arg9 harg9 hc0 hc1 x0 x1 x2 x3).2.2.2.2.1 S1x64.size (by sl_kernel_rfl) y

/-- What the first point leaves in accumulator 1: its pieces read back over junk. -/
def sout4_A_1 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond4_0 i) (hc1 : ¬cond4_1 i)
    (x0 : Vec F S5000x64 .f32) (x1 : Vec F S5000x64 .f32) (x2 : Vec F S5000x1 .f32) (x3 : Vec F S64 .f32) : Vec F S1x64 .f32 :=
  VS4_1.read (Elt F) (VS4_1.writes (Elt F) VS4_1.junk (kernelRun4_A c i arg1 harg1 arg2 harg2 arg3 harg3 arg4 harg4 arg5 harg5 arg6 harg6 arg7 harg7 arg8 harg8 arg9 harg9 hc0 hc1 x0 x1 x2 x3).2.2.2.2.1)

/-! ## What the body leaves at a middle point -/

/-- At a middle point the stores into output 4 tile its block, so they cover it. -/
theorem cover4_B_4 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : ¬cond4_1 i)
    (x0 : Vec F S5000x64 .f32) (x1 : Vec F S5000x64 .f32) (x2 : Vec F S5000x1 .f32) (x3 : Vec F S64 .f32) (xs0 : Vec F S1x64 .f32) (xs1 : Vec F S1x64 .f32) (y : S5000x64.Idx) :
    ∃ pc ∈ (kernelRun4_B c i arg1 harg1 arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun4_B c i arg1 harg1 arg2 harg2 arg3 harg3 arg4 harg4 arg5 harg5 arg6 harg6 arg7 harg7 arg8 harg8 arg9 harg9 hc0 hc1 x0 x1 x2 x3 xs0 xs1).1 S5000x64.size (by sl_kernel_rfl) y

/-- What a middle point leaves in output 4's staging buffer: its pieces read back over junk. -/
def out4_B_4 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : ¬cond4_1 i)
    (x0 : Vec F S5000x64 .f32) (x1 : Vec F S5000x64 .f32) (x2 : Vec F S5000x1 .f32) (x3 : Vec F S64 .f32) (xs0 : Vec F S1x64 .f32) (xs1 : Vec F S1x64 .f32) : Vec F S5000x64 .f32 :=
  VO4_4.read (Elt F) (VO4_4.writes (Elt F) VO4_4.junk (kernelRun4_B c i arg1 harg1 arg2 harg2 arg3 harg3 arg4 harg4 arg5 harg5 arg6 harg6 arg7 harg7 arg8 harg8 arg9 harg9 hc0 hc1 x0 x1 x2 x3 xs0 xs1).1)

/-- At a middle point nothing is stored into output 5 (idle there, not written back): no pieces — a placeholder
    nothing consults. -/
def out4_B_5 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : ¬cond4_1 i)
    (x0 : Vec F S5000x64 .f32) (x1 : Vec F S5000x64 .f32) (x2 : Vec F S5000x1 .f32) (x3 : Vec F S64 .f32) (xs0 : Vec F S1x64 .f32) (xs1 : Vec F S1x64 .f32) : Vec F S1x64 .f32 :=
  VO4_5.read (Elt F) (VO4_5.writes (Elt F) VO4_5.junk (kernelRun4_B c i arg1 harg1 arg2 harg2 arg3 harg3 arg4 harg4 arg5 harg5 arg6 harg6 arg7 harg7 arg8 harg8 arg9 harg9 hc0 hc1 x0 x1 x2 x3 xs0 xs1).2.1)

/-- At a middle point nothing is stored into output 6 (idle there, not written back): no pieces — a placeholder
    nothing consults. -/
def out4_B_6 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : ¬cond4_1 i)
    (x0 : Vec F S5000x64 .f32) (x1 : Vec F S5000x64 .f32) (x2 : Vec F S5000x1 .f32) (x3 : Vec F S64 .f32) (xs0 : Vec F S1x64 .f32) (xs1 : Vec F S1x64 .f32) : Vec F S1x64 .f32 :=
  VO4_6.read (Elt F) (VO4_6.writes (Elt F) VO4_6.junk (kernelRun4_B c i arg1 harg1 arg2 harg2 arg3 harg3 arg4 harg4 arg5 harg5 arg6 harg6 arg7 harg7 arg8 harg8 arg9 harg9 hc0 hc1 x0 x1 x2 x3 xs0 xs1).2.2.1)

/-- At a middle point the stores into accumulator 0 cover it. -/
theorem scover4_B_0 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : ¬cond4_1 i)
    (x0 : Vec F S5000x64 .f32) (x1 : Vec F S5000x64 .f32) (x2 : Vec F S5000x1 .f32) (x3 : Vec F S64 .f32) (xs0 : Vec F S1x64 .f32) (xs1 : Vec F S1x64 .f32) (y : S1x64.Idx) :
    ∃ pc ∈ (kernelRun4_B c i arg1 harg1 arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun4_B c i arg1 harg1 arg2 harg2 arg3 harg3 arg4 harg4 arg5 harg5 arg6 harg6 arg7 harg7 arg8 harg8 arg9 harg9 hc0 hc1 x0 x1 x2 x3 xs0 xs1).2.2.2.1 S1x64.size (by sl_kernel_rfl) y

/-- What a middle point leaves in accumulator 0: its pieces read back over junk. -/
def sout4_B_0 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : ¬cond4_1 i)
    (x0 : Vec F S5000x64 .f32) (x1 : Vec F S5000x64 .f32) (x2 : Vec F S5000x1 .f32) (x3 : Vec F S64 .f32) (xs0 : Vec F S1x64 .f32) (xs1 : Vec F S1x64 .f32) : Vec F S1x64 .f32 :=
  VS4_0.read (Elt F) (VS4_0.writes (Elt F) VS4_0.junk (kernelRun4_B c i arg1 harg1 arg2 harg2 arg3 harg3 arg4 harg4 arg5 harg5 arg6 harg6 arg7 harg7 arg8 harg8 arg9 harg9 hc0 hc1 x0 x1 x2 x3 xs0 xs1).2.2.2.1)

/-- At a middle point the stores into accumulator 1 cover it. -/
theorem scover4_B_1 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : ¬cond4_1 i)
    (x0 : Vec F S5000x64 .f32) (x1 : Vec F S5000x64 .f32) (x2 : Vec F S5000x1 .f32) (x3 : Vec F S64 .f32) (xs0 : Vec F S1x64 .f32) (xs1 : Vec F S1x64 .f32) (y : S1x64.Idx) :
    ∃ pc ∈ (kernelRun4_B c i arg1 harg1 arg2 harg2 arg3 harg3 arg4 harg4 arg5 harg5 arg6 harg6 arg7 harg7 arg8 harg8 arg9 harg9 hc0 hc1 x0 x1 x2 x3 xs0 xs1).2.2.2.2.1, y ∈ pc.1.set :=
  View.cover_of_tiledL (kernelRun4_B c i arg1 harg1 arg2 harg2 arg3 harg3 arg4 harg4 arg5 harg5 arg6 harg6 arg7 harg7 arg8 harg8 arg9 harg9 hc0 hc1 x0 x1 x2 x3 xs0 xs1).2.2.2.2.1 S1x64.size (by sl_kernel_rfl) y

/-- What a middle point leaves in accumulator 1: its pieces read back over junk. -/
def sout4_B_1 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : ¬cond4_1 i)
    (x0 : Vec F S5000x64 .f32) (x1 : Vec F S5000x64 .f32) (x2 : Vec F S5000x1 .f32) (x3 : Vec F S64 .f32) (xs0 : Vec F S1x64 .f32) (xs1 : Vec F S1x64 .f32) : Vec F S1x64 .f32 :=
  VS4_1.read (Elt F) (VS4_1.writes (Elt F) VS4_1.junk (kernelRun4_B c i arg1 harg1 arg2 harg2 arg3 harg3 arg4 harg4 arg5 harg5 arg6 harg6 arg7 harg7 arg8 harg8 arg9 harg9 hc0 hc1 x0 x1 x2 x3 xs0 xs1).2.2.2.2.1)

/-! ## What the body leaves at the last point -/

/-- At the last point the stores into output 4 tile its block, so they cover it. -/
theorem cover4_C_4 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : cond4_1 i)
    (x0 : Vec F S5000x64 .f32) (x1 : Vec F S5000x64 .f32) (x2 : Vec F S5000x1 .f32) (x3 : Vec F S64 .f32) (xs0 : Vec F S1x64 .f32) (xs1 : Vec F S1x64 .f32) (y : S5000x64.Idx) :
    ∃ pc ∈ (kernelRun4_C c i arg1 harg1 arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun4_C c i arg1 harg1 arg2 harg2 arg3 harg3 arg4 harg4 arg5 harg5 arg6 harg6 arg7 harg7 arg8 harg8 arg9 harg9 hc0 hc1 x0 x1 x2 x3 xs0 xs1).1 S5000x64.size (by sl_kernel_rfl) y

/-- What the last point leaves in output 4's staging buffer: its pieces read back over junk. -/
def out4_C_4 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : cond4_1 i)
    (x0 : Vec F S5000x64 .f32) (x1 : Vec F S5000x64 .f32) (x2 : Vec F S5000x1 .f32) (x3 : Vec F S64 .f32) (xs0 : Vec F S1x64 .f32) (xs1 : Vec F S1x64 .f32) : Vec F S5000x64 .f32 :=
  VO4_4.read (Elt F) (VO4_4.writes (Elt F) VO4_4.junk (kernelRun4_C c i arg1 harg1 arg2 harg2 arg3 harg3 arg4 harg4 arg5 harg5 arg6 harg6 arg7 harg7 arg8 harg8 arg9 harg9 hc0 hc1 x0 x1 x2 x3 xs0 xs1).1)

/-- At the last point the stores into output 5 tile its block, so they cover it. -/
theorem cover4_C_5 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : cond4_1 i)
    (x0 : Vec F S5000x64 .f32) (x1 : Vec F S5000x64 .f32) (x2 : Vec F S5000x1 .f32) (x3 : Vec F S64 .f32) (xs0 : Vec F S1x64 .f32) (xs1 : Vec F S1x64 .f32) (y : S1x64.Idx) :
    ∃ pc ∈ (kernelRun4_C c i arg1 harg1 arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun4_C c i arg1 harg1 arg2 harg2 arg3 harg3 arg4 harg4 arg5 harg5 arg6 harg6 arg7 harg7 arg8 harg8 arg9 harg9 hc0 hc1 x0 x1 x2 x3 xs0 xs1).2.1 S1x64.size (by sl_kernel_rfl) y

/-- What the last point leaves in output 5's staging buffer: its pieces read back over junk. -/
def out4_C_5 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : cond4_1 i)
    (x0 : Vec F S5000x64 .f32) (x1 : Vec F S5000x64 .f32) (x2 : Vec F S5000x1 .f32) (x3 : Vec F S64 .f32) (xs0 : Vec F S1x64 .f32) (xs1 : Vec F S1x64 .f32) : Vec F S1x64 .f32 :=
  VO4_5.read (Elt F) (VO4_5.writes (Elt F) VO4_5.junk (kernelRun4_C c i arg1 harg1 arg2 harg2 arg3 harg3 arg4 harg4 arg5 harg5 arg6 harg6 arg7 harg7 arg8 harg8 arg9 harg9 hc0 hc1 x0 x1 x2 x3 xs0 xs1).2.1)

/-- At the last point the stores into output 6 tile its block, so they cover it. -/
theorem cover4_C_6 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : cond4_1 i)
    (x0 : Vec F S5000x64 .f32) (x1 : Vec F S5000x64 .f32) (x2 : Vec F S5000x1 .f32) (x3 : Vec F S64 .f32) (xs0 : Vec F S1x64 .f32) (xs1 : Vec F S1x64 .f32) (y : S1x64.Idx) :
    ∃ pc ∈ (kernelRun4_C c i arg1 harg1 arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun4_C c i arg1 harg1 arg2 harg2 arg3 harg3 arg4 harg4 arg5 harg5 arg6 harg6 arg7 harg7 arg8 harg8 arg9 harg9 hc0 hc1 x0 x1 x2 x3 xs0 xs1).2.2.1 S1x64.size (by sl_kernel_rfl) y

/-- What the last point leaves in output 6's staging buffer: its pieces read back over junk. -/
def out4_C_6 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : cond4_1 i)
    (x0 : Vec F S5000x64 .f32) (x1 : Vec F S5000x64 .f32) (x2 : Vec F S5000x1 .f32) (x3 : Vec F S64 .f32) (xs0 : Vec F S1x64 .f32) (xs1 : Vec F S1x64 .f32) : Vec F S1x64 .f32 :=
  VO4_6.read (Elt F) (VO4_6.writes (Elt F) VO4_6.junk (kernelRun4_C c i arg1 harg1 arg2 harg2 arg3 harg3 arg4 harg4 arg5 harg5 arg6 harg6 arg7 harg7 arg8 harg8 arg9 harg9 hc0 hc1 x0 x1 x2 x3 xs0 xs1).2.2.1)

/-- At the last point the stores into accumulator 0 cover it. -/
theorem scover4_C_0 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : cond4_1 i)
    (x0 : Vec F S5000x64 .f32) (x1 : Vec F S5000x64 .f32) (x2 : Vec F S5000x1 .f32) (x3 : Vec F S64 .f32) (xs0 : Vec F S1x64 .f32) (xs1 : Vec F S1x64 .f32) (y : S1x64.Idx) :
    ∃ pc ∈ (kernelRun4_C c i arg1 harg1 arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun4_C c i arg1 harg1 arg2 harg2 arg3 harg3 arg4 harg4 arg5 harg5 arg6 harg6 arg7 harg7 arg8 harg8 arg9 harg9 hc0 hc1 x0 x1 x2 x3 xs0 xs1).2.2.2.1 S1x64.size (by sl_kernel_rfl) y

/-- What the last point leaves in accumulator 0: its pieces read back over junk. -/
def sout4_C_0 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : cond4_1 i)
    (x0 : Vec F S5000x64 .f32) (x1 : Vec F S5000x64 .f32) (x2 : Vec F S5000x1 .f32) (x3 : Vec F S64 .f32) (xs0 : Vec F S1x64 .f32) (xs1 : Vec F S1x64 .f32) : Vec F S1x64 .f32 :=
  VS4_0.read (Elt F) (VS4_0.writes (Elt F) VS4_0.junk (kernelRun4_C c i arg1 harg1 arg2 harg2 arg3 harg3 arg4 harg4 arg5 harg5 arg6 harg6 arg7 harg7 arg8 harg8 arg9 harg9 hc0 hc1 x0 x1 x2 x3 xs0 xs1).2.2.2.1)

/-- At the last point the stores into accumulator 1 cover it. -/
theorem scover4_C_1 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : cond4_1 i)
    (x0 : Vec F S5000x64 .f32) (x1 : Vec F S5000x64 .f32) (x2 : Vec F S5000x1 .f32) (x3 : Vec F S64 .f32) (xs0 : Vec F S1x64 .f32) (xs1 : Vec F S1x64 .f32) (y : S1x64.Idx) :
    ∃ pc ∈ (kernelRun4_C c i arg1 harg1 arg2 harg2 arg3 harg3 arg4 harg4 arg5 harg5 arg6 harg6 arg7 harg7 arg8 harg8 arg9 harg9 hc0 hc1 x0 x1 x2 x3 xs0 xs1).2.2.2.2.1, y ∈ pc.1.set :=
  View.cover_of_tiledL (kernelRun4_C c i arg1 harg1 arg2 harg2 arg3 harg3 arg4 harg4 arg5 harg5 arg6 harg6 arg7 harg7 arg8 harg8 arg9 harg9 hc0 hc1 x0 x1 x2 x3 xs0 xs1).2.2.2.2.1 S1x64.size (by sl_kernel_rfl) y

/-- What the last point leaves in accumulator 1: its pieces read back over junk. -/
def sout4_C_1 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : cond4_1 i)
    (x0 : Vec F S5000x64 .f32) (x1 : Vec F S5000x64 .f32) (x2 : Vec F S5000x1 .f32) (x3 : Vec F S64 .f32) (xs0 : Vec F S1x64 .f32) (xs1 : Vec F S1x64 .f32) : Vec F S1x64 .f32 :=
  VS4_1.read (Elt F) (VS4_1.writes (Elt F) VS4_1.junk (kernelRun4_C c i arg1 harg1 arg2 harg2 arg3 harg3 arg4 harg4 arg5 harg5 arg6 harg6 arg7 harg7 arg8 harg8 arg9 harg9 hc0 hc1 x0 x1 x2 x3 xs0 xs1).2.2.2.2.1)

/-! ## What the outputs and the accumulators hold after each point -/

/-- No point after the first is ≡ 0 (mod 20): the grid has 20 points. -/
theorem succ_mod4 (n : ℕ) (hn : n + 1 < cfg4.N) : ¬(n + 1) % 20 = 0 := by
  have hN : n + 1 < 20 := lt_of_lt_of_eq hn (show cfg4.N = 20 from N_4); omega

/-- THE ACCUMULATION. What the three outputs' staging buffers and the two accumulators hold after the body at position
    `n` (a tuple: outputs 4, 5, 6, then accumulators 0, 1): the case the closed forms select at `n`, run at the point's
    memrefs and input blocks, the accumulators at what this leaves at `n - 1`. -/
def outsAt4 (c : Dev nD) : (n : ℕ) → n < cfg4.N → Vec F S5000x64 .f32 × Vec F S1x64 .f32 × Vec F S1x64 .f32 × Vec F S1x64 .f32 × Vec F S1x64 .f32
  | 0, hn => (out4_A_4 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩), out4_A_5 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩), out4_A_6 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩), sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩))
  | n + 1, hn =>
    if h1 : (n + 1) % 20 = 19 then
      (out4_C_4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => succ_mod4 n hn ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2, out4_C_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => succ_mod4 n hn ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2, out4_C_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => succ_mod4 n hn ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => succ_mod4 n hn ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2, sout4_C_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => succ_mod4 n hn ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2)
    else
      (out4_B_4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => succ_mod4 n hn ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2, out4_B_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => succ_mod4 n hn ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2, out4_B_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => succ_mod4 n hn ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => succ_mod4 n hn ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2, sout4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => succ_mod4 n hn ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2)

/-- `outsAt4` at the first point. -/
theorem outsAt4_A (c : Dev nD) (t : Fin cfg4.N) (h0 : t.val % 20 = 0) (h1 : ¬t.val % 20 = 19) :
    outsAt4 V c t.val t.isLt = (out4_A_4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t), out4_A_5 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t), out4_A_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t), sout4_A_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t), sout4_A_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t)) := by
  obtain ⟨n, hn⟩ := t
  cases n with
  | zero => exact rfl
  | succ n => exact absurd h0 (succ_mod4 n hn)

/-- `outsAt4` at a middle point: over what the point before left in the accumulators. -/
theorem outsAt4_B (c : Dev nD) (t : Fin cfg4.N) (h0 : ¬t.val % 20 = 0) (h1 : ¬t.val % 20 = 19) :
    outsAt4 V c t.val t.isLt = (out4_B_4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, out4_B_5 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, out4_B_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_B_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_B_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h1).trans rfl

/-- `outsAt4` at the last point: over what the point before left in the accumulators. -/
theorem outsAt4_C (c : Dev nD) (t : Fin cfg4.N) (h0 : ¬t.val % 20 = 0) (h1 : t.val % 20 = 19) :
    outsAt4 V c t.val t.isLt = (out4_C_4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, out4_C_5 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, out4_C_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_C_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_C_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_pos h1).trans rfl

/-! ## The region invariant -/

/-- The invariant before position `n`: before the first point the class's (every scoped buffer that is no staging
    buffer at anything, the generator register at some state); afterwards the same with the two accumulators at what the
    point before left in them. -/
def PhiS4 (c : Dev nD) : (n : ℕ) → n ≤ cfg4.N → sProp 𝕄
  | 0, _ => Pipeline.ΦA spec4 c
  | n + 1, hn => iprop(iprop(iprop(owns (c : Thread nD τ) scM4_0 fullShare ((outsAt4 V c n hn).2.2.2.1) ∗ owns (c : Thread nD τ) scM4_1 fullShare ((outsAt4 V c n hn).2.2.2.2)) ∗ Pipeline.scopedRestBut (Ix := Unit) (Name := ℕ) (U := UR sig nD τ) (Lvl := ℕ) (Val := Elt F) spec4 c [cc4_scratch0, cc4_scratch1]) ∗ (∃ r, prngReg c r))

theorem PhiS4_zero (c : Dev nD) (n : ℕ) (h : n ≤ cfg4.N) (hz : n = 0) : PhiS4 V c n h = Pipeline.ΦA spec4 c := by
  subst hz; rfl

/-- After point `n`: the accumulators at that point's contents. -/
theorem PhiS4_succ (c : Dev nD) (n : ℕ) (hn : n < cfg4.N) :
    PhiS4 V c (n + 1) hn = iprop(iprop(iprop(owns (c : Thread nD τ) scM4_0 fullShare ((outsAt4 V c n hn).2.2.2.1) ∗ owns (c : Thread nD τ) scM4_1 fullShare ((outsAt4 V c n hn).2.2.2.2)) ∗ Pipeline.scopedRestBut (Ix := Unit) (Name := ℕ) (U := UR sig nD τ) (Lvl := ℕ) (Val := Elt F) spec4 c [cc4_scratch0, cc4_scratch1]) ∗ (∃ r, prngReg c r)) := rfl

/-- Before a point that is not the first: the accumulators at what the point before left. -/
theorem PhiS4_pos (c : Dev nD) (n : ℕ) (h : n ≤ cfg4.N) (hz : n ≠ 0) :
    PhiS4 V c n h = iprop(iprop(iprop(owns (c : Thread nD τ) scM4_0 fullShare ((outsAt4 V c (n - 1) (by omega)).2.2.2.1) ∗ owns (c : Thread nD τ) scM4_1 fullShare ((outsAt4 V c (n - 1) (by omega)).2.2.2.2)) ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

/-! ## The pipeline's proof data -/

/-- The proof data of pipeline 4 on core `c`: the arrays as the region finds them; after the body at point `t` each
    input's buffer at its block and the outputs' at `outsAt4`; the invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => (outsAt4 V c t.val t.isLt).1
    | ⟨5, _⟩ => (outsAt4 V c t.val t.isLt).2.1
    | ⟨6, _⟩ => (outsAt4 V c t.val t.isLt).2.2.1
  Φ t := PhiS4 V c t.val (Nat.le_of_lt_succ t.isLt)
  q _ := fullShare
  owed _ := 0

/-- The proof data's arrays are the region-entry contents. -/
theorem A_eq4 (c : Dev nD) (w : Fin cfg4.W) : (dat4 V c).A w = V c (Pipeline.arrRef spec4 w) := by
  dsimp only [dat4]

/-- The invariant at a point's start, restated at `t.val`. -/
theorem PhiS4_castSucc (c : Dev nD) (t : Fin cfg4.N) :
    (dat4 V c).Φ t.castSucc = PhiS4 V c t.val (Nat.le_of_lt t.isLt) := by
  dsimp only [dat4]; simp only [Fin.coe_castSucc]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = (outsAt4 V c t.val t.isLt).1 := by dsimp only [dat4]
theorem after4_5 (c : Dev nD) (t : Fin cfg4.N) : (dat4 V c).after 5 t = (outsAt4 V c t.val t.isLt).2.1 := by dsimp only [dat4]
theorem after4_6 (c : Dev nD) (t : Fin cfg4.N) : (dat4 V c).after 6 t = (outsAt4 V c t.val t.isLt).2.2.1 := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t)

set_option maxHeartbeats 8000000 in
/-- The body at any point: the inputs' memrefs hold their blocks; the closed forms say which case the point is in; the
    invariant hands the body the accumulators at what the point before left (at anything at the first point) and takes
    them back at this point's contents; away from the last point the statistics outputs are handed back untouched; the
    core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl]
  rw [show (dat4 V c).Φ t.succ = PhiS4 V c (t.val + 1) t.isLt from rfl, PhiS4_succ]
  have hN : t.val < 20 := lt_of_lt_of_eq t.isLt (show cfg4.N = 20 from N_4)
  by_cases h0 : t.val % 20 = 0
  · have h1 : ¬t.val % 20 = 19 := by omega
    rw [show (dat4 V c).leavesExact 0 t = owns (c : Thread nD τ) (ms4_0 t) fullShare ((dat4 V c).after 0 t) from by
      unfold Dat.leavesExact; rw [liveAt4_0 t], after4_0]
    rw [show (dat4 V c).leavesExact 1 t = owns (c : Thread nD τ) (ms4_1 t) fullShare ((dat4 V c).after 1 t) from by
      unfold Dat.leavesExact; rw [liveAt4_1 t], after4_1]
    rw [show (dat4 V c).leavesExact 2 t = owns (c : Thread nD τ) (ms4_2 t) fullShare ((dat4 V c).after 2 t) from by
      unfold Dat.leavesExact; rw [liveAt4_2 t], after4_2]
    rw [show (dat4 V c).leavesExact 3 t = owns (c : Thread nD τ) (ms4_3 t) fullShare ((dat4 V c).after 3 t) from by
      unfold Dat.leavesExact; rw [liveAt4_3 t], after4_3]
    rw [show (dat4 V c).leavesExact 4 t = owns (c : Thread nD τ) (ms4_4 t) fullShare ((dat4 V c).after 4 t) from by
      unfold Dat.leavesExact; rw [liveAt4_4 t], after4_4]
    rw [Dat.leavesExact_idle (dat4 V c) 5 t (idleAt4_5 t (fun h => h1 ((hcond4_1 t).mp h))) (noFlush4_5 t (fun h => h1 ((hcond4_1 t).mp h)))]
    rw [Dat.leavesExact_idle (dat4 V c) 6 t (idleAt4_6 t (fun h => h1 ((hcond4_1 t).mp h))) (noFlush4_6 t (fun h => h1 ((hcond4_1 t).mp h)))]
    rw [outsAt4_A V c t h0 h1]
    unfold out4_A_4 sout4_A_0 sout4_A_1; (try dsimp only)
    have hz : t.val = 0 := by omega
    rw [PhiS4_castSucc V c t, PhiS4_zero V c _ _ hz, PhiA4_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun4_A c (grid4.coords t) _ _ _ _ _ _ _ _ _ _ _ _ _ _ _ _ _ _ ((hcond4_0 t).mpr h0) (fun h => h1 ((hcond4_1 t).mp h)) (iblk4 V c 0 t) (iblk4 V c 1 t) (iblk4 V c 2 t) (iblk4 V c 3 t)).2.2.2.2.2 _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, ⟨%e4, H4⟩, H5, H6, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover4_A_0 c _ _ _ _ _ _ _ _ _ _ _ _ _ _ _ _ _ _ _ _ _ _ _ _ _)
          · unfold owns; iexists _; isplitr
            swap; · iexact HS1
            ipureintro; exact View.read_writes_of_cover _ _ _ _ _ (scover4_A_1 c _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover4_A_4 c _ _ _ _ _ _ _ _ _ _ _ _ _ _ _ _ _ _ _ _ _ _ _ _ _)
    isplitl [H5]; · iexists _; iexact H5
    iexists _; iexact H6
  · by_cases h1 : t.val % 20 = 19
    · rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [show (dat4 V c).leavesExact 3 t = owns (c : Thread nD τ) (ms4_3 t) fullShare ((dat4 V c).after 3 t) from by
        unfold Dat.leavesExact; rw [liveAt4_3 t], after4_3]
      rw [show (dat4 V c).leavesExact 4 t = owns (c : Thread nD τ) (ms4_4 t) fullShare ((dat4 V c).after 4 t) from by
        unfold Dat.leavesExact; rw [liveAt4_4 t], after4_4]
      rw [show (dat4 V c).leavesExact 5 t = owns (c : Thread nD τ) (ms4_5 t) fullShare ((dat4 V c).after 5 t) from by
        unfold Dat.leavesExact; rw [liveAt4_5 t ((hcond4_1 t).mpr h1)], after4_5]
      rw [show (dat4 V c).leavesExact 6 t = owns (c : Thread nD τ) (ms4_6 t) fullShare ((dat4 V c).after 6 t) from by
        unfold Dat.leavesExact; rw [liveAt4_6 t ((hcond4_1 t).mpr h1)], after4_6]
      rw [outsAt4_C V c t h0 h1]
      unfold out4_C_4 out4_C_5 out4_C_6 sout4_C_0 sout4_C_1; (try dsimp only)
      have hz : t.val ≠ 0 := by omega
      rw [PhiS4_castSucc V c t, PhiS4_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun4_C c (grid4.coords t) _ _ _ _ _ _ _ _ _ _ _ _ _ _ _ _ _ _ (fun h => h0 ((hcond4_0 t).mp h)) ((hcond4_1 t).mpr h1) (iblk4 V c 0 t) (iblk4 V c 1 t) (iblk4 V c 2 t) (iblk4 V c 3 t) _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, ⟨%e4, H4⟩, ⟨%e5, H5⟩, ⟨%e6, H6⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover4_C_0 c _ _ _ _ _ _ _ _ _ _ _ _ _ _ _ _ _ _ _ _ _ _ _ _ _ _ _)
            · unfold owns; iexists _; isplitr
              swap; · iexact HS1
              ipureintro; exact View.read_writes_of_cover _ _ _ _ _ (scover4_C_1 c _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover4_C_4 c _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover4_C_5 c _ _ _ _ _ _ _ _ _ _ _ _ _ _ _ _ _ _ _ _ _ _ _ _ _ _ _)
      unfold owns; iexists _; isplitr
      swap; · iexact H6
      ipureintro; exact View.read_writes_of_cover _ _ _ _ _ (cover4_C_6 c _ _ _ _ _ _ _ _ _ _ _ _ _ _ _ _ _ _ _ _ _ _ _ _ _ _ _)
    · rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [show (dat4 V c).leavesExact 3 t = owns (c : Thread nD τ) (ms4_3 t) fullShare ((dat4 V c).after 3 t) from by
        unfold Dat.leavesExact; rw [liveAt4_3 t], after4_3]
      rw [show (dat4 V c).leavesExact 4 t = owns (c : Thread nD τ) (ms4_4 t) fullShare ((dat4 V c).after 4 t) from by
        unfold Dat.leavesExact; rw [liveAt4_4 t], after4_4]
      rw [Dat.leavesExact_idle (dat4 V c) 5 t (idleAt4_5 t (fun h => h1 ((hcond4_1 t).mp h))) (noFlush4_5 t (fun h => h1 ((hcond4_1 t).mp h)))]
      rw [Dat.leavesExact_idle (dat4 V c) 6 t (idleAt4_6 t (fun h => h1 ((hcond4_1 t).mp h))) (noFlush4_6 t (fun h => h1 ((hcond4_1 t).mp h)))]
      rw [outsAt4_B V c t h0 h1]
      unfold out4_B_4 sout4_B_0 sout4_B_1; (try dsimp only)
      have hz : t.val ≠ 0 := by omega
      rw [PhiS4_castSucc V c t, PhiS4_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun4_B c (grid4.coords t) _ _ _ _ _ _ _ _ _ _ _ _ _ _ _ _ _ _ (fun h => h0 ((hcond4_0 t).mp h)) (fun h => h1 ((hcond4_1 t).mp h)) (iblk4 V c 0 t) (iblk4 V c 1 t) (iblk4 V c 2 t) (iblk4 V c 3 t) _ _).2.2.2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%e4, H4⟩, H5, H6, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover4_B_0 c _ _ _ _ _ _ _ _ _ _ _ _ _ _ _ _ _ _ _ _ _ _ _ _ _ _ _)
            · unfold owns; iexists _; isplitr
              swap; · iexact HS1
              ipureintro; exact View.read_writes_of_cover _ _ _ _ _ (scover4_B_1 c _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover4_B_4 c _ _ _ _ _ _ _ _ _ _ _ _ _ _ _ _ _ _ _ _ _ _ _ _ _ _ _)
      isplitl [H5]; · iexists _; iexact H5
      iexists _; iexact H6

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## Entering and leaving the region -/

/-- What the launch hands the region is the invariant before the first point. -/
theorem Φ4_in (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives the class's back: what the accumulators hold is forgotten. -/
theorem Phi4_out (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1⟩, HR⟩, Hg⟩
  isplitl [HS0 HS1 HR]
  · isplitl [HS0 HS1]
    · isplitl [HS0]
      · iexists _; iexact HS0
      · iexists _; iexact HS1
    iexact HR
  iexact Hg

/-- The same after the last point. -/
theorem Φ4_out (c : Dev nD) : (dat4 V c).Φ (Fin.last cfg4.N) ⊢ Pipeline.ΦA spec4 c :=
  Phi4_out V c _ (by rw [Fin.val_last]; have : cfg4.N = 20 := N_4; omega)

end Cert.Kernel.Fr

end
-- ==== Proof.K.R5.lean ====
import proofs.«173191_j73083163508880_2_alg».proof.Proof.Gen.Kernel.Launch
import proofs.«173191_j73083163508880_2_alg».proof.Proof.Gen.Kernel.Skeleton
import proofs.«173191_j73083163508880_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the elaborator's structural look recurses once per coordinate
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # The batch-norm application `cc5__bn_apply_kernel` (pipeline 5), at the entry contents `V`

Each of the 10 grid points reads a [5000,128] block of the activations and the four per-column parameter rows (mean,
inverse standard deviation, scale, shift), and stores `(x - mean) * invstd * g + b`, the rows broadcast down the
block, over the whole [5000,128] output block. -/

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0 (the row block of the activations) holds its block at every point, for any proof data whose array is `V`'s and whose
    body leaves the block in place: the window is uncut and never idle, and where it is not fetched its block index
    has not moved. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1 (the per-column mean, one constant block fetched at the first point only) holds its block at every point, for any proof data whose array is `V`'s and whose
    body leaves the block in place: the window is uncut and never idle, and where it is not fetched its block index
    has not moved. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2 (the per-column inverse standard deviation, one constant block fetched at the first point only) holds its block at every point, for any proof data whose array is `V`'s and whose
    body leaves the block in place: the window is uncut and never idle, and where it is not fetched its block index
    has not moved. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3 (the scale vector, one constant block fetched at the first point only) holds its block at every point, for any proof data whose array is `V`'s and whose
    body leaves the block in place: the window is uncut and never idle, and where it is not fetched its block index
    has not moved. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4 (the shift vector, one constant block fetched at the first point only) holds its block at every point, for any proof data whose array is `V`'s and whose
    body leaves the block in place: the window is uncut and never idle, and where it is not fetched its block index
    has not moved. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

/-- The whole [5000,128] block. -/
abbrev r5_0 : Rect S5000x128 := Rect.unit (s := S5000x128) ![0, 0] S5000x128.size inb_S5000x128_S5000x128_0_0
/-- The whole [1,128] row. -/
abbrev r5_1 : Rect S1x128 := Rect.unit (s := S1x128) ![0, 0] S1x128.size inb_S1x128_S1x128_0_0
/-- The whole [128] vector. -/
abbrev r5_2 : Rect S128 := Rect.unit (s := S128) ![0] S128.size inb_S128_S128_0

/-! ## What the body leaves in the output window's buffer -/

/-- Window 5's staging buffer after the body, from the input windows' blocks: its one store, of the normalised block
    as the skeleton's payload computes it, over the whole block. -/
def out5_5 (x0 : Vec F S5000x128 .f32) (x1 : Vec F S1x128 .f32) (x2 : Vec F S1x128 .f32) (x3 : Vec F S128 .f32) (x4 : Vec F S128 .f32) : Vec F S5000x128 .f32 :=
  View.canon [⟨r5_0, k5_pay1 (View.ld x0 r5_0) (View.ld x1 r5_1) (View.ld x2 r5_1) (View.ld x3 r5_2) (View.ld x4 r5_2)⟩]

/-- The store's rectangle is the whole buffer, so it covers it. -/
theorem cover5_5 (p0 : Vec F S5000x128 .f32) (y : S5000x128.Idx) :
    ∃ pc ∈ ([⟨r5_0, p0⟩] : List (View.Piece (Elt F) S5000x128 .f32)), y ∈ pc.1.set :=
  View.cover_of_tiled [⟨r5_0, p0⟩] S5000x128.size (by rfl) y

/-! ## The body's triple -/

set_option maxHeartbeats 1000000 in
/-- The kernel body on whole staging memrefs, the inputs' at read contents `x0`…`x4` and the output's at anything,
    runs to the continuation holding the inputs' as they were and the output's at `out5_5` of the inputs'. -/
theorem sound_kernel5 (c : Dev nD) (E : Set ℕ) (i : grid5.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128 .f32) (harg4 : arg4.IsWhole) (arg5 : Memref sig .tc .vmem S128 .f32) (harg5 : arg5.IsWhole) (arg6 : Memref sig .tc .vmem S5000x128 .f32) (harg6 : arg6.IsWhole)
    (x0 : Vec F S5000x128 .f32) (x1 : Vec F S1x128 .f32) (x2 : Vec F S1x128 .f32) (x3 : Vec F S128 .f32) (x4 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2 x3 x4)) -∗ K ⟨⟩))
      ⊢ wp frame (wpE (defs₀ (F := F)) Variants.none c none) E (cc5__bn_apply_kernel i arg1 harg1 arg2 harg2 arg3 harg3 arg4 harg4 arg5 harg5 arg6 harg6) K := by
  simp only [cc5__bn_apply_kernel_eq_skeleton]; unfold cc5__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The pipeline's proof data -/

/-- The proof data of pipeline 5 on core `c`: the arrays as the region finds them (`V`); after the body at point
    `t` each input's buffer at its block and the output's at `out5_5` of the input blocks; the invariant the scoped
    rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' memrefs hold their blocks, so `sound_kernel5` applies; the invariant and the
    core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Fr

end
-- ==== Proof.K.R6.lean ====
import proofs.«173191_j73083163508880_2_alg».proof.Proof.Gen.Kernel.Launch
import proofs.«173191_j73083163508880_2_alg».proof.Proof.Gen.Kernel.Skeleton
import proofs.«173191_j73083163508880_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the elaborator's structural look recurses once per coordinate
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # The tiled matrix product `cc6__matmul_kernel` (pipeline 6), at the entry contents `V`

Each of the 20 grid points reads a [5000,64] block of the left factor and the whole [64,64] right factor, rounds both
to bf16, and stores their product (accumulated in f32 from zero) over the whole [5000,64] output block. -/

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0 (the left factor's row block) holds its block at every point, for any proof data whose array is
    `V`'s and whose body leaves the block in place: the window is uncut and never idle. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1 (the right factor, one constant block fetched at the first point only) holds its block at every
    point: where it is not fetched its block index has not moved. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses -/

/-- The whole [5000,64] block. -/
abbrev r6_0 : Rect S5000x64 := Rect.unit (s := S5000x64) ![0, 0] S5000x64.size inb_S5000x64_S5000x64_0_0
/-- The whole [64,64] right factor. -/
abbrev r6_1 : Rect S64x64 := Rect.unit (s := S64x64) ![0, 0] S64x64.size inb_S64x64_S64x64_0_0

/-! ## What the body leaves in the output window's buffer -/

/-- Window 2's staging buffer after the body, from the input windows' blocks: its one store, of the product of the
    two blocks as the skeleton's payload computes it, over the whole block. -/
def out6_2 (x0 : Vec F S5000x64 .f32) (x1 : Vec F S64x64 .f32) : Vec F S5000x64 .f32 :=
  View.canon [⟨r6_0, k6_pay1 (View.ld x0 r6_0) (View.ld x1 r6_1)⟩]

/-- The store's rectangle is the whole buffer, so it covers it. -/
theorem cover6_2 (p0 : Vec F S5000x64 .f32) (y : S5000x64.Idx) :
    ∃ pc ∈ ([⟨r6_0, p0⟩] : List (View.Piece (Elt F) S5000x64 .f32)), y ∈ pc.1.set :=
  View.cover_of_tiled [⟨r6_0, p0⟩] S5000x64.size (by rfl) y

/-! ## The body's triple -/

set_option maxHeartbeats 1000000 in
/-- The kernel body on whole staging memrefs, the inputs' at read contents `x0`, `x1` and the output's at anything,
    runs to the continuation holding the inputs' as they were and the output's at `out6_2` of the inputs'. -/
theorem sound_kernel6 (c : Dev nD) (E : Set ℕ) (i : grid6.Coords) (arg1 : Memref sig .tc .vmem S5000x64 .f32) (harg1 : arg1.IsWhole) (arg2 : Memref sig .tc .vmem S64x64 .f32) (harg2 : arg2.IsWhole) (arg3 : Memref sig .tc .vmem S5000x64 .f32) (harg3 : arg3.IsWhole)
    (x0 : Vec F S5000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out6_2 x0 x1)) -∗ K ⟨⟩))
      ⊢ wp frame (wpE (defs₀ (F := F)) Variants.none c none) E (cc6__matmul_kernel i arg1 harg1 arg2 harg2 arg3 harg3) K := by
  simp only [cc6__matmul_kernel_eq_skeleton]; unfold cc6__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-! ## The pipeline's proof data -/

/-- The proof data of pipeline 6 on core `c`: the arrays as the region finds them (`V`); after the body at point
    `t` each input's buffer at its block and the output's at `out6_2` of the input blocks; the invariant the scoped
    rest and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the inputs' memrefs hold their blocks, so `sound_kernel6` applies; the invariant and the
    core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Fr

end
-- ==== Proof.K.R7.lean ====
import proofs.«173191_j73083163508880_2_alg».proof.Proof.Gen.Kernel.Launch
import proofs.«173191_j73083163508880_2_alg».proof.Proof.Gen.Kernel.Skeleton
import proofs.«173191_j73083163508880_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the blocks' extents recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 7: the GCN combine with column statistics, at the entry contents `V`

The body has three control cases over the 20 grid points: the first point zeroes the two accumulators
before accumulating, the middle points only accumulate, the last point also copies the accumulators
to the two statistics outputs. -/

/-! ## The windows' blocks -/

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not, for any proof
    data whose array is the entry contents and whose body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not, for any proof
    data whose array is the entry contents and whose body leaves the block in place. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, fetched there or not, for any proof
    data whose array is the entry contents and whose body leaves the block in place. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's current staging buffer holds its block at every point, fetched there or not, for any proof
    data whose array is the entry contents and whose body leaves the block in place. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-! ## The body's two conditions, in closed form -/

/-- "This is the first grid point": the condition of the zeroing branch, from the grid coordinates. -/
abbrev cond7_0 (i : grid7.Coords) : Prop := (Scalar.cmpi .ne (Scalar.extui (Scalar.cmpi .eq (BitVec.ofNat 32 (i 0).val) 0#32)) 0#32) = 1#1
/-- It holds at the first point only. -/
theorem hcond7_0 : ∀ t : Fin cfg7.N, cond7_0 (grid7.coords t) ↔ t.val % 20 = 0 :=
  (by decide +kernel : ∀ t : Fin grid7.N, cond7_0 (grid7.coords t) ↔ t.val % 20 = 0)

/-- "This is the last grid point": the condition of the branch that writes the statistics out. -/
abbrev cond7_1 (i : grid7.Coords) : Prop := k7_cond2 i = 1#1
/-- It holds at the last point only. -/
theorem hcond7_1 : ∀ t : Fin cfg7.N, cond7_1 (grid7.coords t) ↔ t.val % 20 = 19 :=
  (by decide +kernel : ∀ t : Fin grid7.N, cond7_1 (grid7.coords t) ↔ t.val % 20 = 19)

/-! ## Where the windows are idle -/

/-- Window 0 is never idle. -/
theorem liveAt7_0 : ∀ t : Fin cfg7.N, cfg7.idle 0 (grid7.coords t) = false := by decide +kernel
/-- Window 1 is never idle. -/
theorem liveAt7_1 : ∀ t : Fin cfg7.N, cfg7.idle 1 (grid7.coords t) = false := by decide +kernel
/-- Window 2 is never idle. -/
theorem liveAt7_2 : ∀ t : Fin cfg7.N, cfg7.idle 2 (grid7.coords t) = false := by decide +kernel
/-- Window 3 is never idle. -/
theorem liveAt7_3 : ∀ t : Fin cfg7.N, cfg7.idle 3 (grid7.coords t) = false := by decide +kernel
/-- Window 4 is never idle. -/
theorem liveAt7_4 : ∀ t : Fin cfg7.N, cfg7.idle 4 (grid7.coords t) = false := by decide +kernel
/-- Away from the last point nothing is stored into output 5: the window is idle there, -/
theorem idleAt7_5 : ∀ t : Fin cfg7.N, ¬cond7_1 (grid7.coords t) → cfg7.idle 5 (grid7.coords t) = true := by decide +kernel
/-- and its block is not written back there. -/
theorem noFlush7_5 : ∀ t : Fin cfg7.N, ¬cond7_1 (grid7.coords t) → (cfg7.win 5).flush t = false := by decide +kernel
/-- At the last point output 5 is live. -/
theorem liveAt7_5 : ∀ t : Fin cfg7.N, cond7_1 (grid7.coords t) → cfg7.idle 5 (grid7.coords t) = false := by decide +kernel
/-- Away from the last point nothing is stored into output 6: the window is idle there, -/
theorem idleAt7_6 : ∀ t : Fin cfg7.N, ¬cond7_1 (grid7.coords t) → cfg7.idle 6 (grid7.coords t) = true := by decide +kernel
/-- and its block is not written back there. -/
theorem noFlush7_6 : ∀ t : Fin cfg7.N, ¬cond7_1 (grid7.coords t) → (cfg7.win 6).flush t = false := by decide +kernel
/-- At the last point output 6 is live. -/
theorem liveAt7_6 : ∀ t : Fin cfg7.N, cond7_1 (grid7.coords t) → cfg7.idle 6 (grid7.coords t) = false := by decide +kernel

/-! ## The memrefs the body is called with -/

/-- One staging buffer of each output window, through which its contents are stated (the choice does not matter). -/
abbrev VO7_4 : View sig .tc .vmem S5000x64 .f32 := (Memref.whole cc7_stg4_0 : Memref sig .tc .vmem S5000x64 .f32).view
abbrev VO7_5 : View sig .tc .vmem S1x64 .f32 := (Memref.whole cc7_stg5_0 : Memref sig .tc .vmem S1x64 .f32).view
abbrev VO7_6 : View sig .tc .vmem S1x64 .f32 := (Memref.whole cc7_stg6_0 : Memref sig .tc .vmem S1x64 .f32).view
/-- Each window's current staging memref at point `t`, as the pipeline passes it, and its wholeness. -/
abbrev ms7_0 (t : Fin cfg7.N) : Memref sig .tc .vmem S5000x64 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S5000x64 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S5000x1 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S64 .f32 := win7_3.stage (cfg7.slots t 3)
abbrev hs7_3 (t : Fin cfg7.N) : (ms7_3 t).IsWhole := hstage7_3 ((cfg7.slots t 3).cast nbuf7_3)
abbrev ms7_4 (t : Fin cfg7.N) : Memref sig .tc .vmem S5000x64 .f32 := win7_4.stage (cfg7.slots t 4)
abbrev hs7_4 (t : Fin cfg7.N) : (ms7_4 t).IsWhole := hstage7_4 ((cfg7.slots t 4).cast nbuf7_4)
abbrev ms7_5 (t : Fin cfg7.N) : Memref sig .tc .vmem S1x64 .f32 := win7_5.stage (cfg7.slots t 5)
abbrev hs7_5 (t : Fin cfg7.N) : (ms7_5 t).IsWhole := hstage7_5 ((cfg7.slots t 5).cast nbuf7_5)
abbrev ms7_6 (t : Fin cfg7.N) : Memref sig .tc .vmem S1x64 .f32 := win7_6.stage (cfg7.slots t 6)
abbrev hs7_6 (t : Fin cfg7.N) : (ms7_6 t).IsWhole := hstage7_6 ((cfg7.slots t 6).cast nbuf7_6)
/-- The two accumulators: whole scoped buffers of the kernel's own, passed beside the windows, -/
abbrev scM7_0 : Memref sig .tc .vmem S1x64 .f32 := Memref.whole cc7_scratch0
abbrev scM7_1 : Memref sig .tc .vmem S1x64 .f32 := Memref.whole cc7_scratch1
/-- and as views, through which what they hold is stated. -/
abbrev VS7_0 : View sig .tc .vmem S1x64 .f32 := scM7_0.view
abbrev VS7_1 : View sig .tc .vmem S1x64 .f32 := scM7_1.view

/-- The class's invariant with the two accumulators as memrefs owned at some contents, every other scoped buffer
    unopened, and the generator register at some state. -/
theorem PhiA7_eq (c : Dev nD) :
    (Pipeline.ΦA spec7 c : sProp 𝕄)
      = iprop(iprop(iprop((∃ d, owns (c : Thread nD τ) scM7_0 fullShare d) ∗ (∃ d, owns (c : Thread nD τ) scM7_1 fullShare d))
          ∗ Pipeline.scopedRestBut (Ix := Unit) (Name := ℕ) (U := UR sig nD τ) (Lvl := ℕ) (Val := Elt F) spec7 c [cc7_scratch0, cc7_scratch1]) ∗ (∃ r, prngReg c r)) := by
  unfold Pipeline.ΦA; rw [scopedRest7_split]; simp only [scM7_0, scM7_1, owns_whole]; try rfl

/-! # Region 7: the body's run in each of its three control cases -/

-- (the run's proof term is large: the definition's epilogue walks it past the default budget)
set_option maxHeartbeats 4000000 in
/-- What the body's stores leave in each output's staging memref and in the two accumulators, as pieces (last first),
    AT the first grid point (the accumulators are zeroed, then accumulated into; the statistics outputs untouched), WITH the proof that on whole memrefs — the inputs' at their contents, a
    statistics output the case leaves alone at contents handed back untouched, the other outputs' at anything, the
    accumulators at what the point before left (at anything at the first point) — the body runs to the continuation
    holding the inputs' as they were and each stored buffer with its pieces written. The pieces are the witness the
    run finds. -/
noncomputable def kernelRun7_A (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond7_0 i) (hc1 : ¬cond7_1 i)
    (x0 : Vec F S5000x64 .f32) (x1 : Vec F S5000x64 .f32) (x2 : Vec F S5000x1 .f32) (x3 : Vec F S64 .f32) :
    Σ' (L4 : List (View.Piece (Elt F) S5000x64 .f32)) (L5 : List (View.Piece (Elt F) S1x64 .f32)) (L6 : List (View.Piece (Elt F) S1x64 .f32)) (LS0 : List (View.Piece (Elt F) S1x64 .f32)), { LS1 : List (View.Piece (Elt F) S1x64 .f32) //
      ∀ (xi5 : Vec F S1x64 .f32) (xi6 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc7__gcn_combine_stats_kernel i arg1 harg1 arg2 harg2 arg3 harg3 arg4 harg4 arg5 harg5 arg6 harg6 arg7 harg7 arg8 harg8 arg9 harg9) K } := by
  refine ⟨?_, [], [], ?_, ?_, fun xi5 xi6 E K => ?run⟩
  case run =>
    simp only [cc7__gcn_combine_stats_kernel_eq_skeleton]; unfold cc7__gcn_combine_stats_kernel_skel
    simp only [k7_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

-- (the run's proof term is large: the definition's epilogue walks it past the default budget)
set_option maxHeartbeats 4000000 in
/-- What the body's stores leave in each output's staging memref and in the two accumulators, as pieces (last first),
    AT a middle grid point (the accumulators, at what the point before left, are accumulated into; the statistics outputs untouched), WITH the proof that on whole memrefs — the inputs' at their contents, a
    statistics output the case leaves alone at contents handed back untouched, the other outputs' at anything, the
    accumulators at what the point before left (at anything at the first point) — the body runs to the continuation
    holding the inputs' as they were and each stored buffer with its pieces written. The pieces are the witness the
    run finds. -/
noncomputable def kernelRun7_B (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond7_0 i) (hc1 : ¬cond7_1 i)
    (x0 : Vec F S5000x64 .f32) (x1 : Vec F S5000x64 .f32) (x2 : Vec F S5000x1 .f32) (x3 : Vec F S64 .f32) (xs0 : Vec F S1x64 .f32) (xs1 : Vec F S1x64 .f32) :
    Σ' (L4 : List (View.Piece (Elt F) S5000x64 .f32)) (L5 : List (View.Piece (Elt F) S1x64 .f32)) (L6 : List (View.Piece (Elt F) S1x64 .f32)) (LS0 : List (View.Piece (Elt F) S1x64 .f32)), { LS1 : List (View.Piece (Elt F) S1x64 .f32) //
      ∀ (xi5 : Vec F S1x64 .f32) (xi6 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc7__gcn_combine_stats_kernel i arg1 harg1 arg2 harg2 arg3 harg3 arg4 harg4 arg5 harg5 arg6 harg6 arg7 harg7 arg8 harg8 arg9 harg9) K } := by
  refine ⟨?_, [], [], ?_, ?_, fun xi5 xi6 E K => ?run⟩
  case run =>
    simp only [cc7__gcn_combine_stats_kernel_eq_skeleton]; unfold cc7__gcn_combine_stats_kernel_skel
    simp only [k7_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hf6; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

-- (the run's proof term is large: the definition's epilogue walks it past the default budget)
set_option maxHeartbeats 4000000 in
/-- What the body's stores leave in each output's staging memref and in the two accumulators, as pieces (last first),
    AT the last grid point (the accumulators are accumulated into and then copied to the two statistics outputs), WITH the proof that on whole memrefs — the inputs' at their contents, a
    statistics output the case leaves alone at contents handed back untouched, the other outputs' at anything, the
    accumulators at what the point before left (at anything at the first point) — the body runs to the continuation
    holding the inputs' as they were and each stored buffer with its pieces written. The pieces are the witness the
    run finds. -/
noncomputable def kernelRun7_C (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond7_0 i) (hc1 : cond7_1 i)
    (x0 : Vec F S5000x64 .f32) (x1 : Vec F S5000x64 .f32) (x2 : Vec F S5000x1 .f32) (x3 : Vec F S64 .f32) (xs0 : Vec F S1x64 .f32) (xs1 : Vec F S1x64 .f32) :
    Σ' (L4 : List (View.Piece (Elt F) S5000x64 .f32)) (L5 : List (View.Piece (Elt F) S1x64 .f32)) (L6 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc7__gcn_combine_stats_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc7__gcn_combine_stats_kernel_eq_skeleton]; unfold cc7__gcn_combine_stats_kernel_skel
    simp only [k7_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

/-! # Region 7: what the outputs and the accumulators hold point by point, the proof data, the body obligation -/

/-! ## What the body leaves at the first point -/

/-- At the first point the stores into output 4 tile its block, so they cover it. -/
theorem cover7_A_4 (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond7_0 i) (hc1 : ¬cond7_1 i)
    (x0 : Vec F S5000x64 .f32) (x1 : Vec F S5000x64 .f32) (x2 : Vec F S5000x1 .f32) (x3 : Vec F S64 .f32) (y : S5000x64.Idx) :
    ∃ pc ∈ (kernelRun7_A c i arg1 harg1 arg2 harg2 arg3 harg3 arg4 harg4 arg5 harg5 arg6 harg6 arg7 harg7 arg8 harg8 arg9 harg9 hc0 hc1 x0 x1 x2 x3).1, y ∈ pc.1.set :=
  View.cover_of_tiledL (kernelRun7_A c i arg1 harg1 arg2 harg2 arg3 harg3 arg4 harg4 arg5 harg5 arg6 harg6 arg7 harg7 arg8 harg8 arg9 harg9 hc0 hc1 x0 x1 x2 x3).1 S5000x64.size (by sl_kernel_rfl) y

/-- What the first point leaves in output 4's staging buffer: its pieces read back over junk. -/
def out7_A_4 (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond7_0 i) (hc1 : ¬cond7_1 i)
    (x0 : Vec F S5000x64 .f32) (x1 : Vec F S5000x64 .f32) (x2 : Vec F S5000x1 .f32) (x3 : Vec F S64 .f32) : Vec F S5000x64 .f32 :=
  VO7_4.read (Elt F) (VO7_4.writes (Elt F) VO7_4.junk (kernelRun7_A c i arg1 harg1 arg2 harg2 arg3 harg3 arg4 harg4 arg5 harg5 arg6 harg6 arg7 harg7 arg8 harg8 arg9 harg9 hc0 hc1 x0 x1 x2 x3).1)

/-- At the first point nothing is stored into output 5 (idle there, not written back): no pieces — a placeholder
    nothing consults. -/
def out7_A_5 (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond7_0 i) (hc1 : ¬cond7_1 i)
    (x0 : Vec F S5000x64 .f32) (x1 : Vec F S5000x64 .f32) (x2 : Vec F S5000x1 .f32) (x3 : Vec F S64 .f32) : Vec F S1x64 .f32 :=
  VO7_5.read (Elt F) (VO7_5.writes (Elt F) VO7_5.junk (kernelRun7_A c i arg1 harg1 arg2 harg2 arg3 harg3 arg4 harg4 arg5 harg5 arg6 harg6 arg7 harg7 arg8 harg8 arg9 harg9 hc0 hc1 x0 x1 x2 x3).2.1)

/-- At the first point nothing is stored into output 6 (idle there, not written back): no pieces — a placeholder
    nothing consults. -/
def out7_A_6 (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond7_0 i) (hc1 : ¬cond7_1 i)
    (x0 : Vec F S5000x64 .f32) (x1 : Vec F S5000x64 .f32) (x2 : Vec F S5000x1 .f32) (x3 : Vec F S64 .f32) : Vec F S1x64 .f32 :=
  VO7_6.read (Elt F) (VO7_6.writes (Elt F) VO7_6.junk (kernelRun7_A c i arg1 harg1 arg2 harg2 arg3 harg3 arg4 harg4 arg5 harg5 arg6 harg6 arg7 harg7 arg8 harg8 arg9 harg9 hc0 hc1 x0 x1 x2 x3).2.2.1)

/-- At the first point the stores into accumulator 0 cover it. -/
theorem scover7_A_0 (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond7_0 i) (hc1 : ¬cond7_1 i)
    (x0 : Vec F S5000x64 .f32) (x1 : Vec F S5000x64 .f32) (x2 : Vec F S5000x1 .f32) (x3 : Vec F S64 .f32) (y : S1x64.Idx) :
    ∃ pc ∈ (kernelRun7_A c i arg1 harg1 arg2 harg2 arg3 harg3 arg4 harg4 arg5 harg5 arg6 harg6 arg7 harg7 arg8 harg8 arg9 harg9 hc0 hc1 x0 x1 x2 x3).2.2.2.1, y ∈ pc.1.set :=
  View.cover_of_tiledL (kernelRun7_A c i arg1 harg1 arg2 harg2 arg3 harg3 arg4 harg4 arg5 harg5 arg6 harg6 arg7 harg7 arg8 harg8 arg9 harg9 hc0 hc1 x0 x1 x2 x3).2.2.2.1 S1x64.size (by sl_kernel_rfl) y

/-- What the first point leaves in accumulator 0: its pieces read back over junk. -/
def sout7_A_0 (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond7_0 i) (hc1 : ¬cond7_1 i)
    (x0 : Vec F S5000x64 .f32) (x1 : Vec F S5000x64 .f32) (x2 : Vec F S5000x1 .f32) (x3 : Vec F S64 .f32) : Vec F S1x64 .f32 :=
  VS7_0.read (Elt F) (VS7_0.writes (Elt F) VS7_0.junk (kernelRun7_A c i arg1 harg1 arg2 harg2 arg3 harg3 arg4 harg4 arg5 harg5 arg6 harg6 arg7 harg7 arg8 harg8 arg9 harg9 hc0 hc1 x0 x1 x2 x3).2.2.2.1)

/-- At the first point the stores into accumulator 1 cover it. -/
theorem scover7_A_1 (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond7_0 i) (hc1 : ¬cond7_1 i)
    (x0 : Vec F S5000x64 .f32) (x1 : Vec F S5000x64 .f32) (x2 : Vec F S5000x1 .f32) (x3 : Vec F S64 .f32) (y : S1x64.Idx) :
    ∃ pc ∈ (kernelRun7_A c i arg1 harg1 arg2 harg2 arg3 harg3 arg4 harg4 arg5 harg5 arg6 harg6 arg7 harg7 arg8 harg8 arg9 harg9 hc0 hc1 x0 x1 x2 x3).2.2.2.2.1, y ∈ pc.1.set :=
  View.cover_of_tiledL (kernelRun7_A c i arg1 harg1 arg2 harg2 arg3 harg3 arg4 harg4 arg5 harg5 arg6 harg6 arg7 harg7 arg8 harg8 arg9 harg9 hc0 hc1 x0 x1 x2 x3).2.2.2.2.1 S1x64.size (by sl_kernel_rfl) y

/-- What the first point leaves in accumulator 1: its pieces read back over junk. -/
def sout7_A_1 (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond7_0 i) (hc1 : ¬cond7_1 i)
    (x0 : Vec F S5000x64 .f32) (x1 : Vec F S5000x64 .f32) (x2 : Vec F S5000x1 .f32) (x3 : Vec F S64 .f32) : Vec F S1x64 .f32 :=
  VS7_1.read (Elt F) (VS7_1.writes (Elt F) VS7_1.junk (kernelRun7_A c i arg1 harg1 arg2 harg2 arg3 harg3 arg4 harg4 arg5 harg5 arg6 harg6 arg7 harg7 arg8 harg8 arg9 harg9 hc0 hc1 x0 x1 x2 x3).2.2.2.2.1)

/-! ## What the body leaves at a middle point -/

/-- At a middle point the stores into output 4 tile its block, so they cover it. -/
theorem cover7_B_4 (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond7_0 i) (hc1 : ¬cond7_1 i)
    (x0 : Vec F S5000x64 .f32) (x1 : Vec F S5000x64 .f32) (x2 : Vec F S5000x1 .f32) (x3 : Vec F S64 .f32) (xs0 : Vec F S1x64 .f32) (xs1 : Vec F S1x64 .f32) (y : S5000x64.Idx) :
    ∃ pc ∈ (kernelRun7_B c i arg1 harg1 arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun7_B c i arg1 harg1 arg2 harg2 arg3 harg3 arg4 harg4 arg5 harg5 arg6 harg6 arg7 harg7 arg8 harg8 arg9 harg9 hc0 hc1 x0 x1 x2 x3 xs0 xs1).1 S5000x64.size (by sl_kernel_rfl) y

/-- What a middle point leaves in output 4's staging buffer: its pieces read back over junk. -/
def out7_B_4 (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond7_0 i) (hc1 : ¬cond7_1 i)
    (x0 : Vec F S5000x64 .f32) (x1 : Vec F S5000x64 .f32) (x2 : Vec F S5000x1 .f32) (x3 : Vec F S64 .f32) (xs0 : Vec F S1x64 .f32) (xs1 : Vec F S1x64 .f32) : Vec F S5000x64 .f32 :=
  VO7_4.read (Elt F) (VO7_4.writes (Elt F) VO7_4.junk (kernelRun7_B c i arg1 harg1 arg2 harg2 arg3 harg3 arg4 harg4 arg5 harg5 arg6 harg6 arg7 harg7 arg8 harg8 arg9 harg9 hc0 hc1 x0 x1 x2 x3 xs0 xs1).1)

/-- At a middle point nothing is stored into output 5 (idle there, not written back): no pieces — a placeholder
    nothing consults. -/
def out7_B_5 (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond7_0 i) (hc1 : ¬cond7_1 i)
    (x0 : Vec F S5000x64 .f32) (x1 : Vec F S5000x64 .f32) (x2 : Vec F S5000x1 .f32) (x3 : Vec F S64 .f32) (xs0 : Vec F S1x64 .f32) (xs1 : Vec F S1x64 .f32) : Vec F S1x64 .f32 :=
  VO7_5.read (Elt F) (VO7_5.writes (Elt F) VO7_5.junk (kernelRun7_B c i arg1 harg1 arg2 harg2 arg3 harg3 arg4 harg4 arg5 harg5 arg6 harg6 arg7 harg7 arg8 harg8 arg9 harg9 hc0 hc1 x0 x1 x2 x3 xs0 xs1).2.1)

/-- At a middle point nothing is stored into output 6 (idle there, not written back): no pieces — a placeholder
    nothing consults. -/
def out7_B_6 (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond7_0 i) (hc1 : ¬cond7_1 i)
    (x0 : Vec F S5000x64 .f32) (x1 : Vec F S5000x64 .f32) (x2 : Vec F S5000x1 .f32) (x3 : Vec F S64 .f32) (xs0 : Vec F S1x64 .f32) (xs1 : Vec F S1x64 .f32) : Vec F S1x64 .f32 :=
  VO7_6.read (Elt F) (VO7_6.writes (Elt F) VO7_6.junk (kernelRun7_B c i arg1 harg1 arg2 harg2 arg3 harg3 arg4 harg4 arg5 harg5 arg6 harg6 arg7 harg7 arg8 harg8 arg9 harg9 hc0 hc1 x0 x1 x2 x3 xs0 xs1).2.2.1)

/-- At a middle point the stores into accumulator 0 cover it. -/
theorem scover7_B_0 (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond7_0 i) (hc1 : ¬cond7_1 i)
    (x0 : Vec F S5000x64 .f32) (x1 : Vec F S5000x64 .f32) (x2 : Vec F S5000x1 .f32) (x3 : Vec F S64 .f32) (xs0 : Vec F S1x64 .f32) (xs1 : Vec F S1x64 .f32) (y : S1x64.Idx) :
    ∃ pc ∈ (kernelRun7_B c i arg1 harg1 arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun7_B c i arg1 harg1 arg2 harg2 arg3 harg3 arg4 harg4 arg5 harg5 arg6 harg6 arg7 harg7 arg8 harg8 arg9 harg9 hc0 hc1 x0 x1 x2 x3 xs0 xs1).2.2.2.1 S1x64.size (by sl_kernel_rfl) y

/-- What a middle point leaves in accumulator 0: its pieces read back over junk. -/
def sout7_B_0 (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond7_0 i) (hc1 : ¬cond7_1 i)
    (x0 : Vec F S5000x64 .f32) (x1 : Vec F S5000x64 .f32) (x2 : Vec F S5000x1 .f32) (x3 : Vec F S64 .f32) (xs0 : Vec F S1x64 .f32) (xs1 : Vec F S1x64 .f32) : Vec F S1x64 .f32 :=
  VS7_0.read (Elt F) (VS7_0.writes (Elt F) VS7_0.junk (kernelRun7_B c i arg1 harg1 arg2 harg2 arg3 harg3 arg4 harg4 arg5 harg5 arg6 harg6 arg7 harg7 arg8 harg8 arg9 harg9 hc0 hc1 x0 x1 x2 x3 xs0 xs1).2.2.2.1)

/-- At a middle point the stores into accumulator 1 cover it. -/
theorem scover7_B_1 (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond7_0 i) (hc1 : ¬cond7_1 i)
    (x0 : Vec F S5000x64 .f32) (x1 : Vec F S5000x64 .f32) (x2 : Vec F S5000x1 .f32) (x3 : Vec F S64 .f32) (xs0 : Vec F S1x64 .f32) (xs1 : Vec F S1x64 .f32) (y : S1x64.Idx) :
    ∃ pc ∈ (kernelRun7_B c i arg1 harg1 arg2 harg2 arg3 harg3 arg4 harg4 arg5 harg5 arg6 harg6 arg7 harg7 arg8 harg8 arg9 harg9 hc0 hc1 x0 x1 x2 x3 xs0 xs1).2.2.2.2.1, y ∈ pc.1.set :=
  View.cover_of_tiledL (kernelRun7_B c i arg1 harg1 arg2 harg2 arg3 harg3 arg4 harg4 arg5 harg5 arg6 harg6 arg7 harg7 arg8 harg8 arg9 harg9 hc0 hc1 x0 x1 x2 x3 xs0 xs1).2.2.2.2.1 S1x64.size (by sl_kernel_rfl) y

/-- What a middle point leaves in accumulator 1: its pieces read back over junk. -/
def sout7_B_1 (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond7_0 i) (hc1 : ¬cond7_1 i)
    (x0 : Vec F S5000x64 .f32) (x1 : Vec F S5000x64 .f32) (x2 : Vec F S5000x1 .f32) (x3 : Vec F S64 .f32) (xs0 : Vec F S1x64 .f32) (xs1 : Vec F S1x64 .f32) : Vec F S1x64 .f32 :=
  VS7_1.read (Elt F) (VS7_1.writes (Elt F) VS7_1.junk (kernelRun7_B c i arg1 harg1 arg2 harg2 arg3 harg3 arg4 harg4 arg5 harg5 arg6 harg6 arg7 harg7 arg8 harg8 arg9 harg9 hc0 hc1 x0 x1 x2 x3 xs0 xs1).2.2.2.2.1)

/-! ## What the body leaves at the last point -/

/-- At the last point the stores into output 4 tile its block, so they cover it. -/
theorem cover7_C_4 (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond7_0 i) (hc1 : cond7_1 i)
    (x0 : Vec F S5000x64 .f32) (x1 : Vec F S5000x64 .f32) (x2 : Vec F S5000x1 .f32) (x3 : Vec F S64 .f32) (xs0 : Vec F S1x64 .f32) (xs1 : Vec F S1x64 .f32) (y : S5000x64.Idx) :
    ∃ pc ∈ (kernelRun7_C c i arg1 harg1 arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun7_C c i arg1 harg1 arg2 harg2 arg3 harg3 arg4 harg4 arg5 harg5 arg6 harg6 arg7 harg7 arg8 harg8 arg9 harg9 hc0 hc1 x0 x1 x2 x3 xs0 xs1).1 S5000x64.size (by sl_kernel_rfl) y

/-- What the last point leaves in output 4's staging buffer: its pieces read back over junk. -/
def out7_C_4 (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond7_0 i) (hc1 : cond7_1 i)
    (x0 : Vec F S5000x64 .f32) (x1 : Vec F S5000x64 .f32) (x2 : Vec F S5000x1 .f32) (x3 : Vec F S64 .f32) (xs0 : Vec F S1x64 .f32) (xs1 : Vec F S1x64 .f32) : Vec F S5000x64 .f32 :=
  VO7_4.read (Elt F) (VO7_4.writes (Elt F) VO7_4.junk (kernelRun7_C c i arg1 harg1 arg2 harg2 arg3 harg3 arg4 harg4 arg5 harg5 arg6 harg6 arg7 harg7 arg8 harg8 arg9 harg9 hc0 hc1 x0 x1 x2 x3 xs0 xs1).1)

/-- At the last point the stores into output 5 tile its block, so they cover it. -/
theorem cover7_C_5 (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond7_0 i) (hc1 : cond7_1 i)
    (x0 : Vec F S5000x64 .f32) (x1 : Vec F S5000x64 .f32) (x2 : Vec F S5000x1 .f32) (x3 : Vec F S64 .f32) (xs0 : Vec F S1x64 .f32) (xs1 : Vec F S1x64 .f32) (y : S1x64.Idx) :
    ∃ pc ∈ (kernelRun7_C c i arg1 harg1 arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun7_C c i arg1 harg1 arg2 harg2 arg3 harg3 arg4 harg4 arg5 harg5 arg6 harg6 arg7 harg7 arg8 harg8 arg9 harg9 hc0 hc1 x0 x1 x2 x3 xs0 xs1).2.1 S1x64.size (by sl_kernel_rfl) y

/-- What the last point leaves in output 5's staging buffer: its pieces read back over junk. -/
def out7_C_5 (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond7_0 i) (hc1 : cond7_1 i)
    (x0 : Vec F S5000x64 .f32) (x1 : Vec F S5000x64 .f32) (x2 : Vec F S5000x1 .f32) (x3 : Vec F S64 .f32) (xs0 : Vec F S1x64 .f32) (xs1 : Vec F S1x64 .f32) : Vec F S1x64 .f32 :=
  VO7_5.read (Elt F) (VO7_5.writes (Elt F) VO7_5.junk (kernelRun7_C c i arg1 harg1 arg2 harg2 arg3 harg3 arg4 harg4 arg5 harg5 arg6 harg6 arg7 harg7 arg8 harg8 arg9 harg9 hc0 hc1 x0 x1 x2 x3 xs0 xs1).2.1)

/-- At the last point the stores into output 6 tile its block, so they cover it. -/
theorem cover7_C_6 (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond7_0 i) (hc1 : cond7_1 i)
    (x0 : Vec F S5000x64 .f32) (x1 : Vec F S5000x64 .f32) (x2 : Vec F S5000x1 .f32) (x3 : Vec F S64 .f32) (xs0 : Vec F S1x64 .f32) (xs1 : Vec F S1x64 .f32) (y : S1x64.Idx) :
    ∃ pc ∈ (kernelRun7_C c i arg1 harg1 arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun7_C c i arg1 harg1 arg2 harg2 arg3 harg3 arg4 harg4 arg5 harg5 arg6 harg6 arg7 harg7 arg8 harg8 arg9 harg9 hc0 hc1 x0 x1 x2 x3 xs0 xs1).2.2.1 S1x64.size (by sl_kernel_rfl) y

/-- What the last point leaves in output 6's staging buffer: its pieces read back over junk. -/
def out7_C_6 (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond7_0 i) (hc1 : cond7_1 i)
    (x0 : Vec F S5000x64 .f32) (x1 : Vec F S5000x64 .f32) (x2 : Vec F S5000x1 .f32) (x3 : Vec F S64 .f32) (xs0 : Vec F S1x64 .f32) (xs1 : Vec F S1x64 .f32) : Vec F S1x64 .f32 :=
  VO7_6.read (Elt F) (VO7_6.writes (Elt F) VO7_6.junk (kernelRun7_C c i arg1 harg1 arg2 harg2 arg3 harg3 arg4 harg4 arg5 harg5 arg6 harg6 arg7 harg7 arg8 harg8 arg9 harg9 hc0 hc1 x0 x1 x2 x3 xs0 xs1).2.2.1)

/-- At the last point the stores into accumulator 0 cover it. -/
theorem scover7_C_0 (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond7_0 i) (hc1 : cond7_1 i)
    (x0 : Vec F S5000x64 .f32) (x1 : Vec F S5000x64 .f32) (x2 : Vec F S5000x1 .f32) (x3 : Vec F S64 .f32) (xs0 : Vec F S1x64 .f32) (xs1 : Vec F S1x64 .f32) (y : S1x64.Idx) :
    ∃ pc ∈ (kernelRun7_C c i arg1 harg1 arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun7_C c i arg1 harg1 arg2 harg2 arg3 harg3 arg4 harg4 arg5 harg5 arg6 harg6 arg7 harg7 arg8 harg8 arg9 harg9 hc0 hc1 x0 x1 x2 x3 xs0 xs1).2.2.2.1 S1x64.size (by sl_kernel_rfl) y

/-- What the last point leaves in accumulator 0: its pieces read back over junk. -/
def sout7_C_0 (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond7_0 i) (hc1 : cond7_1 i)
    (x0 : Vec F S5000x64 .f32) (x1 : Vec F S5000x64 .f32) (x2 : Vec F S5000x1 .f32) (x3 : Vec F S64 .f32) (xs0 : Vec F S1x64 .f32) (xs1 : Vec F S1x64 .f32) : Vec F S1x64 .f32 :=
  VS7_0.read (Elt F) (VS7_0.writes (Elt F) VS7_0.junk (kernelRun7_C c i arg1 harg1 arg2 harg2 arg3 harg3 arg4 harg4 arg5 harg5 arg6 harg6 arg7 harg7 arg8 harg8 arg9 harg9 hc0 hc1 x0 x1 x2 x3 xs0 xs1).2.2.2.1)

/-- At the last point the stores into accumulator 1 cover it. -/
theorem scover7_C_1 (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond7_0 i) (hc1 : cond7_1 i)
    (x0 : Vec F S5000x64 .f32) (x1 : Vec F S5000x64 .f32) (x2 : Vec F S5000x1 .f32) (x3 : Vec F S64 .f32) (xs0 : Vec F S1x64 .f32) (xs1 : Vec F S1x64 .f32) (y : S1x64.Idx) :
    ∃ pc ∈ (kernelRun7_C c i arg1 harg1 arg2 harg2 arg3 harg3 arg4 harg4 arg5 harg5 arg6 harg6 arg7 harg7 arg8 harg8 arg9 harg9 hc0 hc1 x0 x1 x2 x3 xs0 xs1).2.2.2.2.1, y ∈ pc.1.set :=
  View.cover_of_tiledL (kernelRun7_C c i arg1 harg1 arg2 harg2 arg3 harg3 arg4 harg4 arg5 harg5 arg6 harg6 arg7 harg7 arg8 harg8 arg9 harg9 hc0 hc1 x0 x1 x2 x3 xs0 xs1).2.2.2.2.1 S1x64.size (by sl_kernel_rfl) y

/-- What the last point leaves in accumulator 1: its pieces read back over junk. -/
def sout7_C_1 (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond7_0 i) (hc1 : cond7_1 i)
    (x0 : Vec F S5000x64 .f32) (x1 : Vec F S5000x64 .f32) (x2 : Vec F S5000x1 .f32) (x3 : Vec F S64 .f32) (xs0 : Vec F S1x64 .f32) (xs1 : Vec F S1x64 .f32) : Vec F S1x64 .f32 :=
  VS7_1.read (Elt F) (VS7_1.writes (Elt F) VS7_1.junk (kernelRun7_C c i arg1 harg1 arg2 harg2 arg3 harg3 arg4 harg4 arg5 harg5 arg6 harg6 arg7 harg7 arg8 harg8 arg9 harg9 hc0 hc1 x0 x1 x2 x3 xs0 xs1).2.2.2.2.1)

/-! ## What the outputs and the accumulators hold after each point -/

/-- No point after the first is ≡ 0 (mod 20): the grid has 20 points. -/
theorem succ_mod7 (n : ℕ) (hn : n + 1 < cfg7.N) : ¬(n + 1) % 20 = 0 := by
  have hN : n + 1 < 20 := lt_of_lt_of_eq hn (show cfg7.N = 20 from N_7); omega

/-- THE ACCUMULATION. What the three outputs' staging buffers and the two accumulators hold after the body at position
    `n` (a tuple: outputs 4, 5, 6, then accumulators 0, 1): the case the closed forms select at `n`, run at the point's
    memrefs and input blocks, the accumulators at what this leaves at `n - 1`. -/
def outsAt7 (c : Dev nD) : (n : ℕ) → n < cfg7.N → Vec F S5000x64 .f32 × Vec F S1x64 .f32 × Vec F S1x64 .f32 × Vec F S1x64 .f32 × Vec F S1x64 .f32
  | 0, hn => (out7_A_4 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) (ms7_6 ⟨0, hn⟩) (hs7_6 ⟨0, hn⟩) scM7_0 (Memref.isWhole_whole _) scM7_1 (Memref.isWhole_whole _) ((hcond7_0 ⟨0, hn⟩).mpr (Nat.zero_mod _)) (fun h => (fun h => by (try dsimp only at h); omega) ((hcond7_1 ⟨0, hn⟩).mp h)) (iblk7 V c 0 ⟨0, hn⟩) (iblk7 V c 1 ⟨0, hn⟩) (iblk7 V c 2 ⟨0, hn⟩) (iblk7 V c 3 ⟨0, hn⟩), out7_A_5 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) (ms7_6 ⟨0, hn⟩) (hs7_6 ⟨0, hn⟩) scM7_0 (Memref.isWhole_whole _) scM7_1 (Memref.isWhole_whole _) ((hcond7_0 ⟨0, hn⟩).mpr (Nat.zero_mod _)) (fun h => (fun h => by (try dsimp only at h); omega) ((hcond7_1 ⟨0, hn⟩).mp h)) (iblk7 V c 0 ⟨0, hn⟩) (iblk7 V c 1 ⟨0, hn⟩) (iblk7 V c 2 ⟨0, hn⟩) (iblk7 V c 3 ⟨0, hn⟩), out7_A_6 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) (ms7_6 ⟨0, hn⟩) (hs7_6 ⟨0, hn⟩) scM7_0 (Memref.isWhole_whole _) scM7_1 (Memref.isWhole_whole _) ((hcond7_0 ⟨0, hn⟩).mpr (Nat.zero_mod _)) (fun h => (fun h => by (try dsimp only at h); omega) ((hcond7_1 ⟨0, hn⟩).mp h)) (iblk7 V c 0 ⟨0, hn⟩) (iblk7 V c 1 ⟨0, hn⟩) (iblk7 V c 2 ⟨0, hn⟩) (iblk7 V c 3 ⟨0, hn⟩), sout7_A_0 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) (ms7_6 ⟨0, hn⟩) (hs7_6 ⟨0, hn⟩) scM7_0 (Memref.isWhole_whole _) scM7_1 (Memref.isWhole_whole _) ((hcond7_0 ⟨0, hn⟩).mpr (Nat.zero_mod _)) (fun h => (fun h => by (try dsimp only at h); omega) ((hcond7_1 ⟨0, hn⟩).mp h)) (iblk7 V c 0 ⟨0, hn⟩) (iblk7 V c 1 ⟨0, hn⟩) (iblk7 V c 2 ⟨0, hn⟩) (iblk7 V c 3 ⟨0, hn⟩), sout7_A_1 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) (ms7_6 ⟨0, hn⟩) (hs7_6 ⟨0, hn⟩) scM7_0 (Memref.isWhole_whole _) scM7_1 (Memref.isWhole_whole _) ((hcond7_0 ⟨0, hn⟩).mpr (Nat.zero_mod _)) (fun h => (fun h => by (try dsimp only at h); omega) ((hcond7_1 ⟨0, hn⟩).mp h)) (iblk7 V c 0 ⟨0, hn⟩) (iblk7 V c 1 ⟨0, hn⟩) (iblk7 V c 2 ⟨0, hn⟩) (iblk7 V c 3 ⟨0, hn⟩))
  | n + 1, hn =>
    if h1 : (n + 1) % 20 = 19 then
      (out7_C_4 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => succ_mod7 n hn ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (iblk7 V c 3 ⟨n + 1, hn⟩) (outsAt7 c n (Nat.lt_of_succ_lt hn)).2.2.2.1 (outsAt7 c n (Nat.lt_of_succ_lt hn)).2.2.2.2, out7_C_5 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => succ_mod7 n hn ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (iblk7 V c 3 ⟨n + 1, hn⟩) (outsAt7 c n (Nat.lt_of_succ_lt hn)).2.2.2.1 (outsAt7 c n (Nat.lt_of_succ_lt hn)).2.2.2.2, out7_C_6 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => succ_mod7 n hn ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (iblk7 V c 3 ⟨n + 1, hn⟩) (outsAt7 c n (Nat.lt_of_succ_lt hn)).2.2.2.1 (outsAt7 c n (Nat.lt_of_succ_lt hn)).2.2.2.2, sout7_C_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => succ_mod7 n hn ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (iblk7 V c 3 ⟨n + 1, hn⟩) (outsAt7 c n (Nat.lt_of_succ_lt hn)).2.2.2.1 (outsAt7 c n (Nat.lt_of_succ_lt hn)).2.2.2.2, sout7_C_1 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => succ_mod7 n hn ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (iblk7 V c 3 ⟨n + 1, hn⟩) (outsAt7 c n (Nat.lt_of_succ_lt hn)).2.2.2.1 (outsAt7 c n (Nat.lt_of_succ_lt hn)).2.2.2.2)
    else
      (out7_B_4 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => succ_mod7 n hn ((hcond7_0 ⟨n + 1, hn⟩).mp h)) (fun h => h1 ((hcond7_1 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (outsAt7 c n (Nat.lt_of_succ_lt hn)).2.2.2.1 (outsAt7 c n (Nat.lt_of_succ_lt hn)).2.2.2.2, out7_B_5 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => succ_mod7 n hn ((hcond7_0 ⟨n + 1, hn⟩).mp h)) (fun h => h1 ((hcond7_1 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (outsAt7 c n (Nat.lt_of_succ_lt hn)).2.2.2.1 (outsAt7 c n (Nat.lt_of_succ_lt hn)).2.2.2.2, out7_B_6 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => succ_mod7 n hn ((hcond7_0 ⟨n + 1, hn⟩).mp h)) (fun h => h1 ((hcond7_1 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (outsAt7 c n (Nat.lt_of_succ_lt hn)).2.2.2.1 (outsAt7 c n (Nat.lt_of_succ_lt hn)).2.2.2.2, sout7_B_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => succ_mod7 n hn ((hcond7_0 ⟨n + 1, hn⟩).mp h)) (fun h => h1 ((hcond7_1 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (outsAt7 c n (Nat.lt_of_succ_lt hn)).2.2.2.1 (outsAt7 c n (Nat.lt_of_succ_lt hn)).2.2.2.2, sout7_B_1 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => succ_mod7 n hn ((hcond7_0 ⟨n + 1, hn⟩).mp h)) (fun h => h1 ((hcond7_1 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (outsAt7 c n (Nat.lt_of_succ_lt hn)).2.2.2.1 (outsAt7 c n (Nat.lt_of_succ_lt hn)).2.2.2.2)

/-- `outsAt7` at the first point. -/
theorem outsAt7_A (c : Dev nD) (t : Fin cfg7.N) (h0 : t.val % 20 = 0) (h1 : ¬t.val % 20 = 19) :
    outsAt7 V c t.val t.isLt = (out7_A_4 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) ((hcond7_0 t).mpr h0) (fun h => h1 ((hcond7_1 t).mp h)) (iblk7 V c 0 t) (iblk7 V c 1 t) (iblk7 V c 2 t) (iblk7 V c 3 t), out7_A_5 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) ((hcond7_0 t).mpr h0) (fun h => h1 ((hcond7_1 t).mp h)) (iblk7 V c 0 t) (iblk7 V c 1 t) (iblk7 V c 2 t) (iblk7 V c 3 t), out7_A_6 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) ((hcond7_0 t).mpr h0) (fun h => h1 ((hcond7_1 t).mp h)) (iblk7 V c 0 t) (iblk7 V c 1 t) (iblk7 V c 2 t) (iblk7 V c 3 t), sout7_A_0 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) ((hcond7_0 t).mpr h0) (fun h => h1 ((hcond7_1 t).mp h)) (iblk7 V c 0 t) (iblk7 V c 1 t) (iblk7 V c 2 t) (iblk7 V c 3 t), sout7_A_1 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) ((hcond7_0 t).mpr h0) (fun h => h1 ((hcond7_1 t).mp h)) (iblk7 V c 0 t) (iblk7 V c 1 t) (iblk7 V c 2 t) (iblk7 V c 3 t)) := by
  obtain ⟨n, hn⟩ := t
  cases n with
  | zero => exact rfl
  | succ n => exact absurd h0 (succ_mod7 n hn)

/-- `outsAt7` at a middle point: over what the point before left in the accumulators. -/
theorem outsAt7_B (c : Dev nD) (t : Fin cfg7.N) (h0 : ¬t.val % 20 = 0) (h1 : ¬t.val % 20 = 19) :
    outsAt7 V c t.val t.isLt = (out7_B_4 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => h0 ((hcond7_0 t).mp h)) (fun h => h1 ((hcond7_1 t).mp h)) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2, out7_B_5 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => h0 ((hcond7_0 t).mp h)) (fun h => h1 ((hcond7_1 t).mp h)) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2, out7_B_6 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => h0 ((hcond7_0 t).mp h)) (fun h => h1 ((hcond7_1 t).mp h)) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2, sout7_B_0 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => h0 ((hcond7_0 t).mp h)) (fun h => h1 ((hcond7_1 t).mp h)) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2, sout7_B_1 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => h0 ((hcond7_0 t).mp h)) (fun h => h1 ((hcond7_1 t).mp h)) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h1).trans rfl

/-- `outsAt7` at the last point: over what the point before left in the accumulators. -/
theorem outsAt7_C (c : Dev nD) (t : Fin cfg7.N) (h0 : ¬t.val % 20 = 0) (h1 : t.val % 20 = 19) :
    outsAt7 V c t.val t.isLt = (out7_C_4 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => h0 ((hcond7_0 t).mp h)) ((hcond7_1 t).mpr h1) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2, out7_C_5 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => h0 ((hcond7_0 t).mp h)) ((hcond7_1 t).mpr h1) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2, out7_C_6 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => h0 ((hcond7_0 t).mp h)) ((hcond7_1 t).mpr h1) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2, sout7_C_0 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => h0 ((hcond7_0 t).mp h)) ((hcond7_1 t).mpr h1) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2, sout7_C_1 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => h0 ((hcond7_0 t).mp h)) ((hcond7_1 t).mpr h1) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_pos h1).trans rfl

/-! ## The region invariant -/

/-- The invariant before position `n`: before the first point the class's (every scoped buffer that is no staging
    buffer at anything, the generator register at some state); afterwards the same with the two accumulators at what the
    point before left in them. -/
def PhiS7 (c : Dev nD) : (n : ℕ) → n ≤ cfg7.N → sProp 𝕄
  | 0, _ => Pipeline.ΦA spec7 c
  | n + 1, hn => iprop(iprop(iprop(owns (c : Thread nD τ) scM7_0 fullShare ((outsAt7 V c n hn).2.2.2.1) ∗ owns (c : Thread nD τ) scM7_1 fullShare ((outsAt7 V c n hn).2.2.2.2)) ∗ Pipeline.scopedRestBut (Ix := Unit) (Name := ℕ) (U := UR sig nD τ) (Lvl := ℕ) (Val := Elt F) spec7 c [cc7_scratch0, cc7_scratch1]) ∗ (∃ r, prngReg c r))

theorem PhiS7_zero (c : Dev nD) (n : ℕ) (h : n ≤ cfg7.N) (hz : n = 0) : PhiS7 V c n h = Pipeline.ΦA spec7 c := by
  subst hz; rfl

/-- After point `n`: the accumulators at that point's contents. -/
theorem PhiS7_succ (c : Dev nD) (n : ℕ) (hn : n < cfg7.N) :
    PhiS7 V c (n + 1) hn = iprop(iprop(iprop(owns (c : Thread nD τ) scM7_0 fullShare ((outsAt7 V c n hn).2.2.2.1) ∗ owns (c : Thread nD τ) scM7_1 fullShare ((outsAt7 V c n hn).2.2.2.2)) ∗ Pipeline.scopedRestBut (Ix := Unit) (Name := ℕ) (U := UR sig nD τ) (Lvl := ℕ) (Val := Elt F) spec7 c [cc7_scratch0, cc7_scratch1]) ∗ (∃ r, prngReg c r)) := rfl

/-- Before a point that is not the first: the accumulators at what the point before left. -/
theorem PhiS7_pos (c : Dev nD) (n : ℕ) (h : n ≤ cfg7.N) (hz : n ≠ 0) :
    PhiS7 V c n h = iprop(iprop(iprop(owns (c : Thread nD τ) scM7_0 fullShare ((outsAt7 V c (n - 1) (by omega)).2.2.2.1) ∗ owns (c : Thread nD τ) scM7_1 fullShare ((outsAt7 V c (n - 1) (by omega)).2.2.2.2)) ∗ Pipeline.scopedRestBut (Ix := Unit) (Name := ℕ) (U := UR sig nD τ) (Lvl := ℕ) (Val := Elt F) spec7 c [cc7_scratch0, cc7_scratch1]) ∗ (∃ r, prngReg c r)) := by
  cases n with
  | zero => exact absurd rfl hz
  | succ n => rfl

/-! ## The pipeline's proof data -/

/-- The proof data of pipeline 7 on core `c`: the arrays as the region finds them; after the body at point `t` each
    input's buffer at its block and the outputs' at `outsAt7`; the invariant `PhiS7`; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => (outsAt7 V c t.val t.isLt).1
    | ⟨5, _⟩ => (outsAt7 V c t.val t.isLt).2.1
    | ⟨6, _⟩ => (outsAt7 V c t.val t.isLt).2.2.1
  Φ t := PhiS7 V c t.val (Nat.le_of_lt_succ t.isLt)
  q _ := fullShare
  owed _ := 0

/-- The proof data's arrays are the region-entry contents. -/
theorem A_eq7 (c : Dev nD) (w : Fin cfg7.W) : (dat7 V c).A w = V c (Pipeline.arrRef spec7 w) := by
  dsimp only [dat7]

/-- The invariant at a point's start, restated at `t.val`. -/
theorem PhiS7_castSucc (c : Dev nD) (t : Fin cfg7.N) :
    (dat7 V c).Φ t.castSucc = PhiS7 V c t.val (Nat.le_of_lt t.isLt) := by
  dsimp only [dat7]; simp only [Fin.coe_castSucc]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = (outsAt7 V c t.val t.isLt).1 := by dsimp only [dat7]
theorem after7_5 (c : Dev nD) (t : Fin cfg7.N) : (dat7 V c).after 5 t = (outsAt7 V c t.val t.isLt).2.1 := by dsimp only [dat7]
theorem after7_6 (c : Dev nD) (t : Fin cfg7.N) : (dat7 V c).after 6 t = (outsAt7 V c t.val t.isLt).2.2.1 := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d))
    ∗ (∃ d, owns (c : Thread nD τ) (ms7_4 t) fullShare ((dat7 V c).before 4 t d))
    ∗ (∃ d, owns (c : Thread nD τ) (ms7_5 t) fullShare ((dat7 V c).before 5 t d))
    ∗ (∃ d, owns (c : Thread nD τ) (ms7_6 t) fullShare ((dat7 V c).before 6 t d)))

/-- and what it returns. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t
    ∗ (dat7 V c).leavesExact 4 t
    ∗ (dat7 V c).leavesExact 5 t
    ∗ (dat7 V c).leavesExact 6 t)

set_option maxHeartbeats 8000000 in
/-- The body at any point: the inputs' memrefs hold their blocks; the closed forms say which case the point is in; the
    invariant hands the body the accumulators at what the point before left (at anything at the first point) and takes
    them back at this point's contents; away from the last point the statistics outputs are handed back untouched; the
    core owes nothing throughout. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3]
  rw [show (dat7 V c).owesAt () t.succ = (dat7 V c).owesAt () t.castSucc from rfl]
  rw [show (dat7 V c).Φ t.succ = PhiS7 V c (t.val + 1) t.isLt from rfl, PhiS7_succ]
  have hN : t.val < 20 := lt_of_lt_of_eq t.isLt (show cfg7.N = 20 from N_7)
  by_cases h0 : t.val % 20 = 0
  · have h1 : ¬t.val % 20 = 19 := by omega
    rw [show (dat7 V c).leavesExact 0 t = owns (c : Thread nD τ) (ms7_0 t) fullShare ((dat7 V c).after 0 t) from by
      unfold Dat.leavesExact; rw [liveAt7_0 t], after7_0]
    rw [show (dat7 V c).leavesExact 1 t = owns (c : Thread nD τ) (ms7_1 t) fullShare ((dat7 V c).after 1 t) from by
      unfold Dat.leavesExact; rw [liveAt7_1 t], after7_1]
    rw [show (dat7 V c).leavesExact 2 t = owns (c : Thread nD τ) (ms7_2 t) fullShare ((dat7 V c).after 2 t) from by
      unfold Dat.leavesExact; rw [liveAt7_2 t], after7_2]
    rw [show (dat7 V c).leavesExact 3 t = owns (c : Thread nD τ) (ms7_3 t) fullShare ((dat7 V c).after 3 t) from by
      unfold Dat.leavesExact; rw [liveAt7_3 t], after7_3]
    rw [show (dat7 V c).leavesExact 4 t = owns (c : Thread nD τ) (ms7_4 t) fullShare ((dat7 V c).after 4 t) from by
      unfold Dat.leavesExact; rw [liveAt7_4 t], after7_4]
    rw [Dat.leavesExact_idle (dat7 V c) 5 t (idleAt7_5 t (fun h => h1 ((hcond7_1 t).mp h))) (noFlush7_5 t (fun h => h1 ((hcond7_1 t).mp h)))]
    rw [Dat.leavesExact_idle (dat7 V c) 6 t (idleAt7_6 t (fun h => h1 ((hcond7_1 t).mp h))) (noFlush7_6 t (fun h => h1 ((hcond7_1 t).mp h)))]
    rw [outsAt7_A V c t h0 h1]
    unfold out7_A_4 sout7_A_0 sout7_A_1; (try dsimp only)
    have hz : t.val = 0 := by omega
    rw [PhiS7_castSucc V c t, PhiS7_zero V c _ _ hz, PhiA7_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun7_A c (grid7.coords t) _ _ _ _ _ _ _ _ _ _ _ _ _ _ _ _ _ _ ((hcond7_0 t).mpr h0) (fun h => h1 ((hcond7_1 t).mp h)) (iblk7 V c 0 t) (iblk7 V c 1 t) (iblk7 V c 2 t) (iblk7 V c 3 t)).2.2.2.2.2 _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, ⟨%e4, H4⟩, H5, H6, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover7_A_0 c _ _ _ _ _ _ _ _ _ _ _ _ _ _ _ _ _ _ _ _ _ _ _ _ _)
          · unfold owns; iexists _; isplitr
            swap; · iexact HS1
            ipureintro; exact View.read_writes_of_cover _ _ _ _ _ (scover7_A_1 c _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover7_A_4 c _ _ _ _ _ _ _ _ _ _ _ _ _ _ _ _ _ _ _ _ _ _ _ _ _)
    isplitl [H5]; · iexists _; iexact H5
    iexists _; iexact H6
  · by_cases h1 : t.val % 20 = 19
    · rw [show (dat7 V c).leavesExact 0 t = owns (c : Thread nD τ) (ms7_0 t) fullShare ((dat7 V c).after 0 t) from by
        unfold Dat.leavesExact; rw [liveAt7_0 t], after7_0]
      rw [show (dat7 V c).leavesExact 1 t = owns (c : Thread nD τ) (ms7_1 t) fullShare ((dat7 V c).after 1 t) from by
        unfold Dat.leavesExact; rw [liveAt7_1 t], after7_1]
      rw [show (dat7 V c).leavesExact 2 t = owns (c : Thread nD τ) (ms7_2 t) fullShare ((dat7 V c).after 2 t) from by
        unfold Dat.leavesExact; rw [liveAt7_2 t], after7_2]
      rw [show (dat7 V c).leavesExact 3 t = owns (c : Thread nD τ) (ms7_3 t) fullShare ((dat7 V c).after 3 t) from by
        unfold Dat.leavesExact; rw [liveAt7_3 t], after7_3]
      rw [show (dat7 V c).leavesExact 4 t = owns (c : Thread nD τ) (ms7_4 t) fullShare ((dat7 V c).after 4 t) from by
        unfold Dat.leavesExact; rw [liveAt7_4 t], after7_4]
      rw [show (dat7 V c).leavesExact 5 t = owns (c : Thread nD τ) (ms7_5 t) fullShare ((dat7 V c).after 5 t) from by
        unfold Dat.leavesExact; rw [liveAt7_5 t ((hcond7_1 t).mpr h1)], after7_5]
      rw [show (dat7 V c).leavesExact 6 t = owns (c : Thread nD τ) (ms7_6 t) fullShare ((dat7 V c).after 6 t) from by
        unfold Dat.leavesExact; rw [liveAt7_6 t ((hcond7_1 t).mpr h1)], after7_6]
      rw [outsAt7_C V c t h0 h1]
      unfold out7_C_4 out7_C_5 out7_C_6 sout7_C_0 sout7_C_1; (try dsimp only)
      have hz : t.val ≠ 0 := by omega
      rw [PhiS7_castSucc V c t, PhiS7_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun7_C c (grid7.coords t) _ _ _ _ _ _ _ _ _ _ _ _ _ _ _ _ _ _ (fun h => h0 ((hcond7_0 t).mp h)) ((hcond7_1 t).mpr h1) (iblk7 V c 0 t) (iblk7 V c 1 t) (iblk7 V c 2 t) (iblk7 V c 3 t) _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, ⟨%e4, H4⟩, ⟨%e5, H5⟩, ⟨%e6, H6⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover7_C_0 c _ _ _ _ _ _ _ _ _ _ _ _ _ _ _ _ _ _ _ _ _ _ _ _ _ _ _)
            · unfold owns; iexists _; isplitr
              swap; · iexact HS1
              ipureintro; exact View.read_writes_of_cover _ _ _ _ _ (scover7_C_1 c _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover7_C_4 c _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover7_C_5 c _ _ _ _ _ _ _ _ _ _ _ _ _ _ _ _ _ _ _ _ _ _ _ _ _ _ _)
      unfold owns; iexists _; isplitr
      swap; · iexact H6
      ipureintro; exact View.read_writes_of_cover _ _ _ _ _ (cover7_C_6 c _ _ _ _ _ _ _ _ _ _ _ _ _ _ _ _ _ _ _ _ _ _ _ _ _ _ _)
    · rw [show (dat7 V c).leavesExact 0 t = owns (c : Thread nD τ) (ms7_0 t) fullShare ((dat7 V c).after 0 t) from by
        unfold Dat.leavesExact; rw [liveAt7_0 t], after7_0]
      rw [show (dat7 V c).leavesExact 1 t = owns (c : Thread nD τ) (ms7_1 t) fullShare ((dat7 V c).after 1 t) from by
        unfold Dat.leavesExact; rw [liveAt7_1 t], after7_1]
      rw [show (dat7 V c).leavesExact 2 t = owns (c : Thread nD τ) (ms7_2 t) fullShare ((dat7 V c).after 2 t) from by
        unfold Dat.leavesExact; rw [liveAt7_2 t], after7_2]
      rw [show (dat7 V c).leavesExact 3 t = owns (c : Thread nD τ) (ms7_3 t) fullShare ((dat7 V c).after 3 t) from by
        unfold Dat.leavesExact; rw [liveAt7_3 t], after7_3]
      rw [show (dat7 V c).leavesExact 4 t = owns (c : Thread nD τ) (ms7_4 t) fullShare ((dat7 V c).after 4 t) from by
        unfold Dat.leavesExact; rw [liveAt7_4 t], after7_4]
      rw [Dat.leavesExact_idle (dat7 V c) 5 t (idleAt7_5 t (fun h => h1 ((hcond7_1 t).mp h))) (noFlush7_5 t (fun h => h1 ((hcond7_1 t).mp h)))]
      rw [Dat.leavesExact_idle (dat7 V c) 6 t (idleAt7_6 t (fun h => h1 ((hcond7_1 t).mp h))) (noFlush7_6 t (fun h => h1 ((hcond7_1 t).mp h)))]
      rw [outsAt7_B V c t h0 h1]
      unfold out7_B_4 sout7_B_0 sout7_B_1; (try dsimp only)
      have hz : t.val ≠ 0 := by omega
      rw [PhiS7_castSucc V c t, PhiS7_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun7_B c (grid7.coords t) _ _ _ _ _ _ _ _ _ _ _ _ _ _ _ _ _ _ (fun h => h0 ((hcond7_0 t).mp h)) (fun h => h1 ((hcond7_1 t).mp h)) (iblk7 V c 0 t) (iblk7 V c 1 t) (iblk7 V c 2 t) (iblk7 V c 3 t) _ _).2.2.2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%e4, H4⟩, H5, H6, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover7_B_0 c _ _ _ _ _ _ _ _ _ _ _ _ _ _ _ _ _ _ _ _ _ _ _ _ _ _ _)
            · unfold owns; iexists _; isplitr
              swap; · iexact HS1
              ipureintro; exact View.read_writes_of_cover _ _ _ _ _ (scover7_B_1 c _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover7_B_4 c _ _ _ _ _ _ _ _ _ _ _ _ _ _ _ _ _ _ _ _ _ _ _ _ _ _ _)
      isplitl [H5]; · iexists _; iexact H5
      iexists _; iexact H6

/-- The library's body obligation, at every point. -/
theorem body_obligation7 (c : Dev nD) : BodyObligation (dat7 (F := F) V c) (defs₀ (F := F)) Variants.none () Set.univ := fun t => by
  rw [bigSep_W7, bigSep_W7]
  exact sound_body7 V c t

/-! ## Entering and leaving the region -/

/-- What the launch hands the region is the invariant before the first point. -/
theorem Φ7_in (c : Dev nD) : Pipeline.ΦA spec7 c ⊢ (dat7 V c).Φ 0 := by
  rw [show (dat7 V c).Φ 0 = PhiS7 V c 0 (Nat.zero_le _) from rfl, PhiS7_zero V c 0 _ rfl]
  try exact Idealize.SL.BI.Entails.refl _

/-- After any point but the first the invariant gives the class's back: what the accumulators hold is forgotten. -/
theorem Phi7_out (c : Dev nD) (t : Fin (cfg7.N + 1)) (ht : t.val ≠ 0) : (dat7 V c).Φ t ⊢ Pipeline.ΦA spec7 c := by
  rw [show (dat7 V c).Φ t = PhiS7 V c t.val (Nat.le_of_lt_succ t.isLt) from rfl, PhiS7_pos V c _ _ ht, PhiA7_eq]
  iintro ⟨⟨⟨HS0, HS1⟩, HR⟩, Hg⟩
  isplitl [HS0 HS1 HR]
  · isplitl [HS0 HS1]
    · isplitl [HS0]
      · iexists _; iexact HS0
      · iexists _; iexact HS1
    iexact HR
  iexact Hg

/-- The same after the last point. -/
theorem Φ7_out (c : Dev nD) : (dat7 V c).Φ (Fin.last cfg7.N) ⊢ Pipeline.ΦA spec7 c :=
  Phi7_out V c _ (by rw [Fin.val_last]; have : cfg7.N = 20 := N_7; omega)

end Cert.Kernel.Fr

end
-- ==== Proof.K.R8.lean ====
import proofs.«173191_j73083163508880_2_alg».proof.Proof.Gen.Kernel.Launch
import proofs.«173191_j73083163508880_2_alg».proof.Proof.Gen.Kernel.Skeleton
import proofs.«173191_j73083163508880_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the elaborator's structural look recurses once per coordinate
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # The batch-norm application `cc8__bn_apply_kernel` (pipeline 8), at the entry contents `V`

Each of the 10 grid points reads a [5000,128] block of the activations and the four per-column parameter rows (mean,
inverse standard deviation, scale, shift), and stores `(x - mean) * invstd * g + b`, the rows broadcast down the
block, over the whole [5000,128] output block. -/

/-! ## The windows' blocks -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0 (the row block of the activations) holds its block at every point, for any proof data whose array is `V`'s and whose
    body leaves the block in place: the window is uncut and never idle, and where it is not fetched its block index
    has not moved. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1 (the per-column mean, one constant block fetched at the first point only) holds its block at every point, for any proof data whose array is `V`'s and whose
    body leaves the block in place: the window is uncut and never idle, and where it is not fetched its block index
    has not moved. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2 (the per-column inverse standard deviation, one constant block fetched at the first point only) holds its block at every point, for any proof data whose array is `V`'s and whose
    body leaves the block in place: the window is uncut and never idle, and where it is not fetched its block index
    has not moved. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3 (the scale vector, one constant block fetched at the first point only) holds its block at every point, for any proof data whose array is `V`'s and whose
    body leaves the block in place: the window is uncut and never idle, and where it is not fetched its block index
    has not moved. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- Input window 4 (the shift vector, one constant block fetched at the first point only) holds its block at every point, for any proof data whose array is `V`'s and whose
    body leaves the block in place: the window is uncut and never idle, and where it is not fetched its block index
    has not moved. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses -/

/-- The whole [5000,128] block. -/
abbrev r8_0 : Rect S5000x128 := Rect.unit (s := S5000x128) ![0, 0] S5000x128.size inb_S5000x128_S5000x128_0_0
/-- The whole [1,128] row. -/
abbrev r8_1 : Rect S1x128 := Rect.unit (s := S1x128) ![0, 0] S1x128.size inb_S1x128_S1x128_0_0
/-- The whole [128] vector. -/
abbrev r8_2 : Rect S128 := Rect.unit (s := S128) ![0] S128.size inb_S128_S128_0

/-! ## What the body leaves in the output window's buffer -/

/-- Window 5's staging buffer after the body, from the input windows' blocks: its one store, of the normalised block
    as the skeleton's payload computes it, over the whole block. -/
def out8_5 (x0 : Vec F S5000x128 .f32) (x1 : Vec F S1x128 .f32) (x2 : Vec F S1x128 .f32) (x3 : Vec F S128 .f32) (x4 : Vec F S128 .f32) : Vec F S5000x128 .f32 :=
  View.canon [⟨r8_0, k8_pay1 (View.ld x0 r8_0) (View.ld x1 r8_1) (View.ld x2 r8_1) (View.ld x3 r8_2) (View.ld x4 r8_2)⟩]

/-- The store's rectangle is the whole buffer, so it covers it. -/
theorem cover8_5 (p0 : Vec F S5000x128 .f32) (y : S5000x128.Idx) :
    ∃ pc ∈ ([⟨r8_0, p0⟩] : List (View.Piece (Elt F) S5000x128 .f32)), y ∈ pc.1.set :=
  View.cover_of_tiled [⟨r8_0, p0⟩] S5000x128.size (by rfl) y

/-! ## The body's triple -/

set_option maxHeartbeats 1000000 in
/-- The kernel body on whole staging memrefs, the inputs' at read contents `x0`…`x4` and the output's at anything,
    runs to the continuation holding the inputs' as they were and the output's at `out8_5` of the inputs'. -/
theorem sound_kernel8 (c : Dev nD) (E : Set ℕ) (i : grid8.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128 .f32) (harg4 : arg4.IsWhole) (arg5 : Memref sig .tc .vmem S128 .f32) (harg5 : arg5.IsWhole) (arg6 : Memref sig .tc .vmem S5000x128 .f32) (harg6 : arg6.IsWhole)
    (x0 : Vec F S5000x128 .f32) (x1 : Vec F S1x128 .f32) (x2 : Vec F S1x128 .f32) (x3 : Vec F S128 .f32) (x4 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out8_5 x0 x1 x2 x3 x4)) -∗ K ⟨⟩))
      ⊢ wp frame (wpE (defs₀ (F := F)) Variants.none c none) E (cc8__bn_apply_kernel i arg1 harg1 arg2 harg2 arg3 harg3 arg4 harg4 arg5 harg5 arg6 harg6) K := by
  simp only [cc8__bn_apply_kernel_eq_skeleton]; unfold cc8__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8_5 _)

/-! ## The pipeline's proof data -/

/-- The proof data of pipeline 8 on core `c`: the arrays as the region finds them (`V`); after the body at point
    `t` each input's buffer at its block and the output's at `out8_5` of the input blocks; the invariant the scoped
    rest and the generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t) (iblk8 V c 3 t) (iblk8 V c 4 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = out8_5 (iblk8 V c 0 t) (iblk8 V c 1 t) (iblk8 V c 2 t) (iblk8 V c 3 t) (iblk8 V c 4 t) := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t))

/-- The body at any point: the inputs' memrefs hold their blocks, so `sound_kernel8` applies; the invariant and the
    core's `owes` pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5]
  iintro ⟨HΦ, Ho, ⟨%d0, H0⟩, ⟨%d1, H1⟩, ⟨%d2, H2⟩, ⟨%d3, H3⟩, ⟨%d4, H4⟩, ⟨%d5, H5⟩⟩
  iapply (sound_kernel8 c Set.univ _ _ _ _ _ _ _ _ _ _ _ _ _ (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.Kernel.Fr

end
-- ==== Proof.K.R9.lean ====
/- The frame of REGION 9 of @main — custom_call 9, the SAGE combine kernel `cc9__sage_combine_kernel` (pipeline 9) —
   at a PARAMETER `V`, the TensorCore's buffer contents when the region is entered: each window's block at a grid
   point (`iblk9`), what the body leaves in the output window's staging buffer (`out9_6`: the one store of the
   whole block, its payload the normalised, rectified sum of the two products and the bias, over the six blocks read
   whole), the body's triple (`sound_kernel9`), the proof data (`dat9`) and the body obligation
   (`body_obligation9`). One control case: the body reads each input's staging buffer whole and writes the output's
   whole. -/
import proofs.«173191_j73083163508880_2_alg».proof.Proof.Gen.Kernel.Launch
import proofs.«173191_j73083163508880_2_alg».proof.Proof.Gen.Kernel.Skeleton
import proofs.«173191_j73083163508880_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 9 of @main: custom_call 9, `cc9__sage_combine_kernel` (pipeline 9), at the entry contents `V` -/

/-! ## The windows' blocks -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current staging buffer holds its block at every point, fetched there or not, for ANY proof
    data whose array is `V`'s (`hA`) and whose body leaves the block in place (`hafter`): unfetched, the block index
    has not moved, so the block kept from the point before is this point's; the window is uncut and never idle. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's current staging buffer holds its block at every point, fetched there or not, for ANY proof
    data whose array is `V`'s (`hA`) and whose body leaves the block in place (`hafter`): unfetched, the block index
    has not moved, so the block kept from the point before is this point's; the window is uncut and never idle. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's current staging buffer holds its block at every point, fetched there or not, for ANY proof
    data whose array is `V`'s (`hA`) and whose body leaves the block in place (`hafter`): unfetched, the block index
    has not moved, so the block kept from the point before is this point's; the window is uncut and never idle. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- Input window 3's current staging buffer holds its block at every point, fetched there or not, for ANY proof
    data whose array is `V`'s (`hA`) and whose body leaves the block in place (`hafter`): unfetched, the block index
    has not moved, so the block kept from the point before is this point's; the window is uncut and never idle. -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

/-- Input window 4's current staging buffer holds its block at every point, fetched there or not, for ANY proof
    data whose array is `V`'s (`hA`) and whose body leaves the block in place (`hafter`): unfetched, the block index
    has not moved, so the block kept from the point before is this point's; the window is uncut and never idle. -/
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

/-- Input window 5's current staging buffer holds its block at every point, fetched there or not, for ANY proof
    data whose array is `V`'s (`hA`) and whose body leaves the block in place (`hafter`): unfetched, the block index
    has not moved, so the block kept from the point before is this point's; the window is uncut and never idle. -/
theorem before9_5_of {c : Dev nD} (dat : Dat τ (Elt F) Unit ℕ (UR sig nD τ) ℕ cfg9 c) (hA : dat.A 5 = V c (Pipeline.arrRef spec9 5))
    (hafter : ∀ t, dat.after 5 t = iblk9 V c 5 t) (t : Fin cfg9.N) (d) : dat.before 5 t d = iblk9 V c 5 t :=
  (dat.before_in_eq_fetched 5 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses -/

abbrev r9_0 : Rect S5000x64 := Rect.unit (s := S5000x64) ![0, 0] S5000x64.size inb_S5000x64_S5000x64_0_0
abbrev r9_1 : Rect S5000x1 := Rect.unit (s := S5000x1) ![0, 0] S5000x1.size inb_S5000x1_S5000x1_0_0
abbrev r9_2 : Rect S64x64 := Rect.unit (s := S64x64) ![0, 0] S64x64.size inb_S64x64_S64x64_0_0
abbrev r9_3 : Rect S64 := Rect.unit (s := S64) ![0] S64.size inb_S64_S64_0

/-! ## What the body leaves in the output window's buffer -/

/-- Window 6's staging buffer after the body, from the input windows' blocks: its 1 store as pieces, LAST
    FIRST; the payload is the skeleton's, applied to the six blocks read whole. -/
def out9_6 (x0 : Vec F S5000x64 .f32) (x1 : Vec F S5000x1 .f32) (x2 : Vec F S5000x64 .f32) (x3 : Vec F S64x64 .f32) (x4 : Vec F S64 .f32) (x5 : Vec F S64x64 .f32) : Vec F S5000x64 .f32 :=
  View.canon [⟨r9_0, k9_pay1 (View.ld x0 r9_0) (View.ld x1 r9_1) (View.ld x2 r9_0) (View.ld x3 r9_2) (View.ld x5 r9_2) (View.ld x4 r9_3)⟩]

/-- Its store is of the whole block, so it covers the buffer (checked by evaluation). -/
theorem cover9_6 (p0 : Vec F S5000x64 .f32) (y : S5000x64.Idx) :
    ∃ pc ∈ ([⟨r9_0, p0⟩] : List (View.Piece (Elt F) S5000x64 .f32)), y ∈ pc.1.set :=
  View.cover_of_tiled [⟨r9_0, p0⟩] S5000x64.size (by rfl) y

/-! ## The body's triple -/

set_option maxHeartbeats 1000000 in
/-- The kernel body on whole staging memrefs, the inputs' at read contents `xW` and the output's at anything, runs to
    the continuation holding the inputs' as they were and the output's at `out9_6` of the inputs': the printed function
    is its skeleton, run one memory operation at a time. -/
theorem sound_kernel9 (c : Dev nD) (E : Set ℕ) (i : grid9.Coords) (arg1 : Memref sig .tc .vmem S5000x64 .f32) (harg1 : arg1.IsWhole) (arg2 : Memref sig .tc .vmem S5000x1 .f32) (harg2 : arg2.IsWhole) (arg3 : Memref sig .tc .vmem S5000x64 .f32) (harg3 : arg3.IsWhole) (arg4 : Memref sig .tc .vmem S64x64 .f32) (harg4 : arg4.IsWhole) (arg5 : Memref sig .tc .vmem S64 .f32) (harg5 : arg5.IsWhole) (arg6 : Memref sig .tc .vmem S64x64 .f32) (harg6 : arg6.IsWhole) (arg7 : Memref sig .tc .vmem S5000x64 .f32) (harg7 : arg7.IsWhole)
    (x0 : Vec F S5000x64 .f32) (x1 : Vec F S5000x1 .f32) (x2 : Vec F S5000x64 .f32) (x3 : Vec F S64x64 .f32) (x4 : Vec F S64 .f32) (x5 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out9_6 x0 x1 x2 x3 x4 x5)) -∗ K ⟨⟩))
      ⊢ wp frame (wpE (defs₀ (F := F)) Variants.none c none) E (cc9__sage_combine_kernel i arg1 harg1 arg2 harg2 arg3 harg3 arg4 harg4 arg5 harg5 arg6 harg6 arg7 harg7) K := by
  simp only [cc9__sage_combine_kernel_eq_skeleton]; unfold cc9__sage_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover9_6 _)

/-! ## The pipeline's proof data -/

/-- The proof data of pipeline 9 on core `c`: the arrays as the region finds them (`V`); after the body at
    point `t` each input's buffer at its block and the output's at `out9_6` of the input blocks; the invariant the
    scoped rest and the generator register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => iblk9 V c 5 t
    | ⟨6, _⟩ => out9_6 (iblk9 V c 0 t) (iblk9 V c 1 t) (iblk9 V c 2 t) (iblk9 V c 3 t) (iblk9 V c 4 t) (iblk9 V c 5 t)
  Φ _ := Pipeline.ΦA spec9 c
  q _ := fullShare
  owed _ := 0

/-- The proof data's arrays are the region-entry contents (the proof data's definition projected). -/
theorem A_eq9 (c : Dev nD) (w : Fin cfg9.W) : (dat9 V c).A w = V c (Pipeline.arrRef spec9 w) := by
  dsimp only [dat9]

/-- What the body leaves, window by window (the proof data's `match` reduced). -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = iblk9 V c 5 t := by dsimp only [dat9]
theorem after9_6 (c : Dev nD) (t : Fin cfg9.N) : (dat9 V c).after 6 t = out9_6 (iblk9 V c 0 t) (iblk9 V c 1 t) (iblk9 V c 2 t) (iblk9 V c 3 t) (iblk9 V c 4 t) (iblk9 V c 5 t) := by dsimp only [dat9]

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d
theorem before9_5 (c : Dev nD) (t : Fin cfg9.N) (d) : (dat9 V c).before 5 t d = iblk9 V c 5 t :=
  before9_5_of V (dat9 V c) (A_eq9 V c 5) (after9_5 V c) t d

/-! ## The body obligation, at a generic point -/

/-- What the body is called with at point `t` (the obligation's precondition, the windows one by one), -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d))
    ∗ (∃ d, owns (c : Thread nD τ) (st9_6 t) fullShare ((dat9 V c).before 6 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t)
    ∗ owns (c : Thread nD τ) (st9_6 t) fullShare ((dat9 V c).after 6 t))

/-- The body at any point: the inputs' memrefs hold their blocks (`before9_W`), so `sound_kernel9` applies; the
    invariant and the core's `owes` pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4, before9_5]
  rw [show (dat9 V c).Φ t.succ = (dat9 V c).Φ t.castSucc from rfl,
    show (dat9 V c).owesAt () t.succ = (dat9 V c).owesAt () t.castSucc from rfl,
    after9_0, after9_1, after9_2, after9_3, after9_4, after9_5, after9_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel9 c Set.univ (grid9.coords t) _ _ _ _ _ _ _ _ _ _ _ _ _ _ (iblk9 V c 0 t) (iblk9 V c 1 t) (iblk9 V c 2 t) (iblk9 V c 3 t) (iblk9 V c 4 t) (iblk9 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.Kernel.Fr
-- ==== Proof.K.R10.lean ====
/- The frame of REGION 10 of @main — custom_call 10, the SAGE combine kernel `cc10__sage_combine_kernel` (pipeline 10) —
   at a PARAMETER `V`, the TensorCore's buffer contents when the region is entered: each window's block at a grid
   point (`iblk10`), what the body leaves in the output window's staging buffer (`out10_6`: the one store of the
   whole block, its payload the normalised, rectified sum of the two products and the bias, over the six blocks read
   whole), the body's triple (`sound_kernel10`), the proof data (`dat10`) and the body obligation
   (`body_obligation10`). One control case: the body reads each input's staging buffer whole and writes the output's
   whole. -/
import proofs.«173191_j73083163508880_2_alg».proof.Proof.Gen.Kernel.Launch
import proofs.«173191_j73083163508880_2_alg».proof.Proof.Gen.Kernel.Skeleton
import proofs.«173191_j73083163508880_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 10 of @main: custom_call 10, `cc10__sage_combine_kernel` (pipeline 10), at the entry contents `V` -/

/-! ## The windows' blocks -/

/-- Window `w`'s block at point `t`, read off its array as the region finds it (`V`). -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's current staging buffer holds its block at every point, fetched there or not, for ANY proof
    data whose array is `V`'s (`hA`) and whose body leaves the block in place (`hafter`): unfetched, the block index
    has not moved, so the block kept from the point before is this point's; the window is uncut and never idle. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Input window 1's current staging buffer holds its block at every point, fetched there or not, for ANY proof
    data whose array is `V`'s (`hA`) and whose body leaves the block in place (`hafter`): unfetched, the block index
    has not moved, so the block kept from the point before is this point's; the window is uncut and never idle. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- Input window 2's current staging buffer holds its block at every point, fetched there or not, for ANY proof
    data whose array is `V`'s (`hA`) and whose body leaves the block in place (`hafter`): unfetched, the block index
    has not moved, so the block kept from the point before is this point's; the window is uncut and never idle. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-- Input window 3's current staging buffer holds its block at every point, fetched there or not, for ANY proof
    data whose array is `V`'s (`hA`) and whose body leaves the block in place (`hafter`): unfetched, the block index
    has not moved, so the block kept from the point before is this point's; the window is uncut and never idle. -/
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)

/-- Input window 4's current staging buffer holds its block at every point, fetched there or not, for ANY proof
    data whose array is `V`'s (`hA`) and whose body leaves the block in place (`hafter`): unfetched, the block index
    has not moved, so the block kept from the point before is this point's; the window is uncut and never idle. -/
theorem before10_4_of {c : Dev nD} (dat : Dat τ (Elt F) Unit ℕ (UR sig nD τ) ℕ cfg10 c) (hA : dat.A 4 = V c (Pipeline.arrRef spec10 4))
    (hafter : ∀ t, dat.after 4 t = iblk10 V c 4 t) (t : Fin cfg10.N) (d) : dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)

/-- Input window 5's current staging buffer holds its block at every point, fetched there or not, for ANY proof
    data whose array is `V`'s (`hA`) and whose body leaves the block in place (`hafter`): unfetched, the block index
    has not moved, so the block kept from the point before is this point's; the window is uncut and never idle. -/
theorem before10_5_of {c : Dev nD} (dat : Dat τ (Elt F) Unit ℕ (UR sig nD τ) ℕ cfg10 c) (hA : dat.A 5 = V c (Pipeline.arrRef spec10 5))
    (hafter : ∀ t, dat.after 5 t = iblk10 V c 5 t) (t : Fin cfg10.N) (d) : dat.before 5 t d = iblk10 V c 5 t :=
  (dat.before_in_eq_fetched 5 rfl (fun _ => rfl) (fun _ _ _ => rfl) (fun t => by rw [hafter]; unfold Dat.blockOf iblk10; rw [hA]; try rfl) t d).trans
    (by unfold Dat.fetched Dat.blockOf iblk10; rw [hA]; try rfl)

/-! ## The body's accesses -/

abbrev r10_0 : Rect S5000x64 := Rect.unit (s := S5000x64) ![0, 0] S5000x64.size inb_S5000x64_S5000x64_0_0
abbrev r10_1 : Rect S5000x1 := Rect.unit (s := S5000x1) ![0, 0] S5000x1.size inb_S5000x1_S5000x1_0_0
abbrev r10_2 : Rect S64x64 := Rect.unit (s := S64x64) ![0, 0] S64x64.size inb_S64x64_S64x64_0_0
abbrev r10_3 : Rect S64 := Rect.unit (s := S64) ![0] S64.size inb_S64_S64_0

/-! ## What the body leaves in the output window's buffer -/

/-- Window 6's staging buffer after the body, from the input windows' blocks: its 1 store as pieces, LAST
    FIRST; the payload is the skeleton's, applied to the six blocks read whole. -/
def out10_6 (x0 : Vec F S5000x64 .f32) (x1 : Vec F S5000x1 .f32) (x2 : Vec F S5000x64 .f32) (x3 : Vec F S64x64 .f32) (x4 : Vec F S64 .f32) (x5 : Vec F S64x64 .f32) : Vec F S5000x64 .f32 :=
  View.canon [⟨r10_0, k10_pay1 (View.ld x0 r10_0) (View.ld x1 r10_1) (View.ld x2 r10_0) (View.ld x3 r10_2) (View.ld x5 r10_2) (View.ld x4 r10_3)⟩]

/-- Its store is of the whole block, so it covers the buffer (checked by evaluation). -/
theorem cover10_6 (p0 : Vec F S5000x64 .f32) (y : S5000x64.Idx) :
    ∃ pc ∈ ([⟨r10_0, p0⟩] : List (View.Piece (Elt F) S5000x64 .f32)), y ∈ pc.1.set :=
  View.cover_of_tiled [⟨r10_0, p0⟩] S5000x64.size (by rfl) y

/-! ## The body's triple -/

set_option maxHeartbeats 1000000 in
/-- The kernel body on whole staging memrefs, the inputs' at read contents `xW` and the output's at anything, runs to
    the continuation holding the inputs' as they were and the output's at `out10_6` of the inputs': the printed function
    is its skeleton, run one memory operation at a time. -/
theorem sound_kernel10 (c : Dev nD) (E : Set ℕ) (i : grid10.Coords) (arg1 : Memref sig .tc .vmem S5000x64 .f32) (harg1 : arg1.IsWhole) (arg2 : Memref sig .tc .vmem S5000x1 .f32) (harg2 : arg2.IsWhole) (arg3 : Memref sig .tc .vmem S5000x64 .f32) (harg3 : arg3.IsWhole) (arg4 : Memref sig .tc .vmem S64x64 .f32) (harg4 : arg4.IsWhole) (arg5 : Memref sig .tc .vmem S64 .f32) (harg5 : arg5.IsWhole) (arg6 : Memref sig .tc .vmem S64x64 .f32) (harg6 : arg6.IsWhole) (arg7 : Memref sig .tc .vmem S5000x64 .f32) (harg7 : arg7.IsWhole)
    (x0 : Vec F S5000x64 .f32) (x1 : Vec F S5000x1 .f32) (x2 : Vec F S5000x64 .f32) (x3 : Vec F S64x64 .f32) (x4 : Vec F S64 .f32) (x5 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out10_6 x0 x1 x2 x3 x4 x5)) -∗ K ⟨⟩))
      ⊢ wp frame (wpE (defs₀ (F := F)) Variants.none c none) E (cc10__sage_combine_kernel i arg1 harg1 arg2 harg2 arg3 harg3 arg4 harg4 arg5 harg5 arg6 harg6 arg7 harg7) K := by
  simp only [cc10__sage_combine_kernel_eq_skeleton]; unfold cc10__sage_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover10_6 _)

/-! ## The pipeline's proof data -/

/-- The proof data of pipeline 10 on core `c`: the arrays as the region finds them (`V`); after the body at
    point `t` each input's buffer at its block and the output's at `out10_6` of the input blocks; the invariant the
    scoped rest and the generator register, untouched; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => iblk10 V c 5 t
    | ⟨6, _⟩ => out10_6 (iblk10 V c 0 t) (iblk10 V c 1 t) (iblk10 V c 2 t) (iblk10 V c 3 t) (iblk10 V c 4 t) (iblk10 V c 5 t)
  Φ _ := Pipeline.ΦA spec10 c
  q _ := fullShare
  owed _ := 0

/-- The proof data's arrays are the region-entry contents (the proof data's definition projected). -/
theorem A_eq10 (c : Dev nD) (w : Fin cfg10.W) : (dat10 V c).A w = V c (Pipeline.arrRef spec10 w) := by
  dsimp only [dat10]

/-- What the body leaves, window by window (the proof data's `match` reduced). -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) : (dat10 V c).after 5 t = iblk10 V c 5 t := by dsimp only [dat10]
theorem after10_6 (c : Dev nD) (t : Fin cfg10.N) : (dat10 V c).after 6 t = out10_6 (iblk10 V c 0 t) (iblk10 V c 1 t) (iblk10 V c 2 t) (iblk10 V c 3 t) (iblk10 V c 4 t) (iblk10 V c 5 t) := by dsimp only [dat10]

/-- Each input's current staging buffer holds its block at every point, fetched there or not. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d
theorem before10_4 (c : Dev nD) (t : Fin cfg10.N) (d) : (dat10 V c).before 4 t d = iblk10 V c 4 t :=
  before10_4_of V (dat10 V c) (A_eq10 V c 4) (after10_4 V c) t d
theorem before10_5 (c : Dev nD) (t : Fin cfg10.N) (d) : (dat10 V c).before 5 t d = iblk10 V c 5 t :=
  before10_5_of V (dat10 V c) (A_eq10 V c 5) (after10_5 V c) t d

/-! ## The body obligation, at a generic point -/

/-- What the body is called with at point `t` (the obligation's precondition, the windows one by one), -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d))
    ∗ (∃ d, owns (c : Thread nD τ) (st10_6 t) fullShare ((dat10 V c).before 6 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t)
    ∗ owns (c : Thread nD τ) (st10_5 t) fullShare ((dat10 V c).after 5 t)
    ∗ owns (c : Thread nD τ) (st10_6 t) fullShare ((dat10 V c).after 6 t))

/-- The body at any point: the inputs' memrefs hold their blocks (`before10_W`), so `sound_kernel10` applies; the
    invariant and the core's `owes` pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4, before10_5]
  rw [show (dat10 V c).Φ t.succ = (dat10 V c).Φ t.castSucc from rfl,
    show (dat10 V c).owesAt () t.succ = (dat10 V c).owesAt () t.castSucc from rfl,
    after10_0, after10_1, after10_2, after10_3, after10_4, after10_5, after10_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel10 c Set.univ (grid10.coords t) _ _ _ _ _ _ _ _ _ _ _ _ _ _ (iblk10 V c 0 t) (iblk10 V c 1 t) (iblk10 V c 2 t) (iblk10 V c 3 t) (iblk10 V c 4 t) (iblk10 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.Kernel.Fr
-- ==== Proof.K.R11.lean ====
/- The frame of REGION 11 of @main — custom_call 11, the SAGE combine kernel `cc11__sage_combine_kernel` (pipeline 11) —
   at a PARAMETER `V`, the TensorCore's buffer contents when the region is entered: each window's block at a grid
   point (`iblk11`), what the body leaves in the output window's staging buffer (`out11_6`: the one store of the
   whole block, its payload the normalised, rectified sum of the two products and the bias, over the six blocks read
   whole), the body's triple (`sound_kernel11`), the proof data (`dat11`) and the body obligation
   (`body_obligation11`). One control case: the body reads each input's staging buffer whole and writes the output's
   whole. -/
import proofs.«173191_j73083163508880_2_alg».proof.Proof.Gen.Kernel.Launch
import proofs.«173191_j73083163508880_2_alg».proof.Proof.Gen.Kernel.Skeleton
import proofs.«173191_j73083163508880_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 11 of @main: custom_call 11, `cc11__sage_combine_kernel` (pipeline 11), at the entry contents `V` -/

/-! ## The windows' blocks -/

/-- Window `w`'s block at point `t`, read off its array as the region finds it (`V`). -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0's current staging buffer holds its block at every point, fetched there or not, for ANY proof
    data whose array is `V`'s (`hA`) and whose body leaves the block in place (`hafter`): unfetched, the block index
    has not moved, so the block kept from the point before is this point's; the window is uncut and never idle. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

/-- Input window 1's current staging buffer holds its block at every point, fetched there or not, for ANY proof
    data whose array is `V`'s (`hA`) and whose body leaves the block in place (`hafter`): unfetched, the block index
    has not moved, so the block kept from the point before is this point's; the window is uncut and never idle. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-- Input window 2's current staging buffer holds its block at every point, fetched there or not, for ANY proof
    data whose array is `V`'s (`hA`) and whose body leaves the block in place (`hafter`): unfetched, the block index
    has not moved, so the block kept from the point before is this point's; the window is uncut and never idle. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

/-- Input window 3's current staging buffer holds its block at every point, fetched there or not, for ANY proof
    data whose array is `V`'s (`hA`) and whose body leaves the block in place (`hafter`): unfetched, the block index
    has not moved, so the block kept from the point before is this point's; the window is uncut and never idle. -/
theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)

/-- Input window 4's current staging buffer holds its block at every point, fetched there or not, for ANY proof
    data whose array is `V`'s (`hA`) and whose body leaves the block in place (`hafter`): unfetched, the block index
    has not moved, so the block kept from the point before is this point's; the window is uncut and never idle. -/
theorem before11_4_of {c : Dev nD} (dat : Dat τ (Elt F) Unit ℕ (UR sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)

/-- Input window 5's current staging buffer holds its block at every point, fetched there or not, for ANY proof
    data whose array is `V`'s (`hA`) and whose body leaves the block in place (`hafter`): unfetched, the block index
    has not moved, so the block kept from the point before is this point's; the window is uncut and never idle. -/
theorem before11_5_of {c : Dev nD} (dat : Dat τ (Elt F) Unit ℕ (UR sig nD τ) ℕ cfg11 c) (hA : dat.A 5 = V c (Pipeline.arrRef spec11 5))
    (hafter : ∀ t, dat.after 5 t = iblk11 V c 5 t) (t : Fin cfg11.N) (d) : dat.before 5 t d = iblk11 V c 5 t :=
  (dat.before_in_eq_fetched 5 rfl (fun _ => rfl) (fun _ _ _ => rfl) (fun t => by rw [hafter]; unfold Dat.blockOf iblk11; rw [hA]; try rfl) t d).trans
    (by unfold Dat.fetched Dat.blockOf iblk11; rw [hA]; try rfl)

/-! ## The body's accesses -/

abbrev r11_0 : Rect S5000x64 := Rect.unit (s := S5000x64) ![0, 0] S5000x64.size inb_S5000x64_S5000x64_0_0
abbrev r11_1 : Rect S5000x1 := Rect.unit (s := S5000x1) ![0, 0] S5000x1.size inb_S5000x1_S5000x1_0_0
abbrev r11_2 : Rect S64x64 := Rect.unit (s := S64x64) ![0, 0] S64x64.size inb_S64x64_S64x64_0_0
abbrev r11_3 : Rect S64 := Rect.unit (s := S64) ![0] S64.size inb_S64_S64_0

/-! ## What the body leaves in the output window's buffer -/

/-- Window 6's staging buffer after the body, from the input windows' blocks: its 1 store as pieces, LAST
    FIRST; the payload is the skeleton's, applied to the six blocks read whole. -/
def out11_6 (x0 : Vec F S5000x64 .f32) (x1 : Vec F S5000x1 .f32) (x2 : Vec F S5000x64 .f32) (x3 : Vec F S64x64 .f32) (x4 : Vec F S64 .f32) (x5 : Vec F S64x64 .f32) : Vec F S5000x64 .f32 :=
  View.canon [⟨r11_0, k11_pay1 (View.ld x0 r11_0) (View.ld x1 r11_1) (View.ld x2 r11_0) (View.ld x3 r11_2) (View.ld x5 r11_2) (View.ld x4 r11_3)⟩]

/-- Its store is of the whole block, so it covers the buffer (checked by evaluation). -/
theorem cover11_6 (p0 : Vec F S5000x64 .f32) (y : S5000x64.Idx) :
    ∃ pc ∈ ([⟨r11_0, p0⟩] : List (View.Piece (Elt F) S5000x64 .f32)), y ∈ pc.1.set :=
  View.cover_of_tiled [⟨r11_0, p0⟩] S5000x64.size (by rfl) y

/-! ## The body's triple -/

set_option maxHeartbeats 1000000 in
/-- The kernel body on whole staging memrefs, the inputs' at read contents `xW` and the output's at anything, runs to
    the continuation holding the inputs' as they were and the output's at `out11_6` of the inputs': the printed function
    is its skeleton, run one memory operation at a time. -/
theorem sound_kernel11 (c : Dev nD) (E : Set ℕ) (i : grid11.Coords) (arg1 : Memref sig .tc .vmem S5000x64 .f32) (harg1 : arg1.IsWhole) (arg2 : Memref sig .tc .vmem S5000x1 .f32) (harg2 : arg2.IsWhole) (arg3 : Memref sig .tc .vmem S5000x64 .f32) (harg3 : arg3.IsWhole) (arg4 : Memref sig .tc .vmem S64x64 .f32) (harg4 : arg4.IsWhole) (arg5 : Memref sig .tc .vmem S64 .f32) (harg5 : arg5.IsWhole) (arg6 : Memref sig .tc .vmem S64x64 .f32) (harg6 : arg6.IsWhole) (arg7 : Memref sig .tc .vmem S5000x64 .f32) (harg7 : arg7.IsWhole)
    (x0 : Vec F S5000x64 .f32) (x1 : Vec F S5000x1 .f32) (x2 : Vec F S5000x64 .f32) (x3 : Vec F S64x64 .f32) (x4 : Vec F S64 .f32) (x5 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out11_6 x0 x1 x2 x3 x4 x5)) -∗ K ⟨⟩))
      ⊢ wp frame (wpE (defs₀ (F := F)) Variants.none c none) E (cc11__sage_combine_kernel i arg1 harg1 arg2 harg2 arg3 harg3 arg4 harg4 arg5 harg5 arg6 harg6 arg7 harg7) K := by
  simp only [cc11__sage_combine_kernel_eq_skeleton]; unfold cc11__sage_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover11_6 _)

/-! ## The pipeline's proof data -/

/-- The proof data of pipeline 11 on core `c`: the arrays as the region finds them (`V`); after the body at
    point `t` each input's buffer at its block and the output's at `out11_6` of the input blocks; the invariant the
    scoped rest and the generator register, untouched; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => iblk11 V c 5 t
    | ⟨6, _⟩ => out11_6 (iblk11 V c 0 t) (iblk11 V c 1 t) (iblk11 V c 2 t) (iblk11 V c 3 t) (iblk11 V c 4 t) (iblk11 V c 5 t)
  Φ _ := Pipeline.ΦA spec11 c
  q _ := fullShare
  owed _ := 0

/-- The proof data's arrays are the region-entry contents (the proof data's definition projected). -/
theorem A_eq11 (c : Dev nD) (w : Fin cfg11.W) : (dat11 V c).A w = V c (Pipeline.arrRef spec11 w) := by
  dsimp only [dat11]

/-- What the body leaves, window by window (the proof data's `match` reduced). -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t = iblk11 V c 5 t := by dsimp only [dat11]
theorem after11_6 (c : Dev nD) (t : Fin cfg11.N) : (dat11 V c).after 6 t = out11_6 (iblk11 V c 0 t) (iblk11 V c 1 t) (iblk11 V c 2 t) (iblk11 V c 3 t) (iblk11 V c 4 t) (iblk11 V c 5 t) := by dsimp only [dat11]

/-- Each input's current staging buffer holds its block at every point, fetched there or not. -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d
theorem before11_4 (c : Dev nD) (t : Fin cfg11.N) (d) : (dat11 V c).before 4 t d = iblk11 V c 4 t :=
  before11_4_of V (dat11 V c) (A_eq11 V c 4) (after11_4 V c) t d
theorem before11_5 (c : Dev nD) (t : Fin cfg11.N) (d) : (dat11 V c).before 5 t d = iblk11 V c 5 t :=
  before11_5_of V (dat11 V c) (A_eq11 V c 5) (after11_5 V c) t d

/-! ## The body obligation, at a generic point -/

/-- What the body is called with at point `t` (the obligation's precondition, the windows one by one), -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d))
    ∗ (∃ d, owns (c : Thread nD τ) (st11_6 t) fullShare ((dat11 V c).before 6 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t)
    ∗ owns (c : Thread nD τ) (st11_6 t) fullShare ((dat11 V c).after 6 t))

/-- The body at any point: the inputs' memrefs hold their blocks (`before11_W`), so `sound_kernel11` applies; the
    invariant and the core's `owes` pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4, before11_5]
  rw [show (dat11 V c).Φ t.succ = (dat11 V c).Φ t.castSucc from rfl,
    show (dat11 V c).owesAt () t.succ = (dat11 V c).owesAt () t.castSucc from rfl,
    after11_0, after11_1, after11_2, after11_3, after11_4, after11_5, after11_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel11 c Set.univ (grid11.coords t) _ _ _ _ _ _ _ _ _ _ _ _ _ _ (iblk11 V c 0 t) (iblk11 V c 1 t) (iblk11 V c 2 t) (iblk11 V c 3 t) (iblk11 V c 4 t) (iblk11 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation11 (c : Dev nD) : BodyObligation (dat11 (F := F) V c) (defs₀ (F := F)) Variants.none () Set.univ := fun t => by
  rw [bigSep_W11, bigSep_W11]
  exact sound_body11 V c t

end Cert.Kernel.Fr
-- ==== Proof.K.R12.lean ====
import proofs.«173191_j73083163508880_2_alg».proof.Proof.Gen.Kernel.Launch
import proofs.«173191_j73083163508880_2_alg».proof.Proof.Gen.Kernel.Skeleton
import proofs.«173191_j73083163508880_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the elaborator's structural look recurses once per coordinate
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # The tiled matrix product `cc12__matmul_kernel` (pipeline 12), at the entry contents `V`

Each of the 20 grid points reads a [5000,64] block of the left factor and the whole [64,64] right factor, rounds both
to bf16, and stores their product (accumulated in f32 from zero) over the whole [5000,64] output block. -/

/-! ## The windows' blocks -/

/-- Window `w`'s block at point `t`, read off its array as the region finds it (`V`). -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- Input window 0 (the left factor's row block) holds its block at every point, for any proof data whose array is
    `V`'s and whose body leaves the block in place: the window is uncut and never idle. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

/-- Input window 1 (the right factor, one constant block fetched at the first point only) holds its block at every
    point: where it is not fetched its block index has not moved. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-! ## The body's accesses -/

/-- The whole [5000,64] block. -/
abbrev r12_0 : Rect S5000x64 := Rect.unit (s := S5000x64) ![0, 0] S5000x64.size inb_S5000x64_S5000x64_0_0
/-- The whole [64,64] right factor. -/
abbrev r12_1 : Rect S64x64 := Rect.unit (s := S64x64) ![0, 0] S64x64.size inb_S64x64_S64x64_0_0

/-! ## What the body leaves in the output window's buffer -/

/-- Window 2's staging buffer after the body, from the input windows' blocks: its one store, of the product of the
    two blocks as the skeleton's payload computes it, over the whole block. -/
def out12_2 (x0 : Vec F S5000x64 .f32) (x1 : Vec F S64x64 .f32) : Vec F S5000x64 .f32 :=
  View.canon [⟨r12_0, k12_pay1 (View.ld x0 r12_0) (View.ld x1 r12_1)⟩]

/-- The store's rectangle is the whole buffer, so it covers it. -/
theorem cover12_2 (p0 : Vec F S5000x64 .f32) (y : S5000x64.Idx) :
    ∃ pc ∈ ([⟨r12_0, p0⟩] : List (View.Piece (Elt F) S5000x64 .f32)), y ∈ pc.1.set :=
  View.cover_of_tiled [⟨r12_0, p0⟩] S5000x64.size (by rfl) y

/-! ## The body's triple -/

set_option maxHeartbeats 1000000 in
/-- The kernel body on whole staging memrefs, the inputs' at read contents `x0`, `x1` and the output's at anything,
    runs to the continuation holding the inputs' as they were and the output's at `out12_2` of the inputs'. -/
theorem sound_kernel12 (c : Dev nD) (E : Set ℕ) (i : grid12.Coords) (arg1 : Memref sig .tc .vmem S5000x64 .f32) (harg1 : arg1.IsWhole) (arg2 : Memref sig .tc .vmem S64x64 .f32) (harg2 : arg2.IsWhole) (arg3 : Memref sig .tc .vmem S5000x64 .f32) (harg3 : arg3.IsWhole)
    (x0 : Vec F S5000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out12_2 x0 x1)) -∗ K ⟨⟩))
      ⊢ wp frame (wpE (defs₀ (F := F)) Variants.none c none) E (cc12__matmul_kernel i arg1 harg1 arg2 harg2 arg3 harg3) K := by
  simp only [cc12__matmul_kernel_eq_skeleton]; unfold cc12__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover12_2 _)

/-! ## The pipeline's proof data -/

/-- The proof data of pipeline 12 on core `c`: the arrays as the region finds them (`V`); after the body at point
    `t` each input's buffer at its block and the output's at `out12_2` of the input blocks; the invariant the scoped
    rest and the generator register, untouched; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => out12_2 (iblk12 V c 0 t) (iblk12 V c 1 t)
  Φ _ := Pipeline.ΦA spec12 c
  q _ := fullShare
  owed _ := 0

/-- The proof data's arrays are the region-entry contents. -/
theorem A_eq12 (c : Dev nD) (w : Fin cfg12.W) : (dat12 V c).A w = V c (Pipeline.arrRef spec12 w) := by
  dsimp only [dat12]

/-- What the body leaves, window by window. -/
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = out12_2 (iblk12 V c 0 t) (iblk12 V c 1 t) := by dsimp only [dat12]

/-- Each input's current staging buffer holds its block at every point, fetched there or not. -/
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d

/-! ## The body obligation, at a generic point -/

/-- What the body is called with at point `t`, the windows one by one, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t))

/-- The body at any point: the inputs' memrefs hold their blocks, so `sound_kernel12` applies; the invariant and the
    core's `owes` pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1]
  rw [show (dat12 V c).Φ t.succ = (dat12 V c).Φ t.castSucc from rfl,
    show (dat12 V c).owesAt () t.succ = (dat12 V c).owesAt () t.castSucc from rfl,
    after12_0, after12_1, after12_2]
  iintro ⟨HΦ, Ho, ⟨%d0, H0⟩, ⟨%d1, H1⟩, ⟨%d2, H2⟩⟩
  iapply (sound_kernel12 c Set.univ _ _ _ _ _ _ _ (iblk12 V c 0 t) (iblk12 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation12 (c : Dev nD) : BodyObligation (dat12 (F := F) V c) (defs₀ (F := F)) Variants.none () Set.univ := fun t => by
  rw [bigSep_W12, bigSep_W12]
  exact sound_body12 V c t

end Cert.Kernel.Fr

end
-- ==== Proof.K.R13.lean ====
import proofs.«173191_j73083163508880_2_alg».proof.Proof.Gen.Kernel.Launch
import proofs.«173191_j73083163508880_2_alg».proof.Proof.Gen.Kernel.Skeleton
import proofs.«173191_j73083163508880_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the blocks' extents recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 13: the GCN combine with column statistics, at the entry contents `V`

The body has three control cases over the 20 grid points: the first point zeroes the two accumulators
before accumulating, the middle points only accumulate, the last point also copies the accumulators
to the two statistics outputs. -/

/-! ## The windows' blocks -/

/-- Window `w`'s block at point `t`, read off its array as the region finds it. -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- Input window 0's current staging buffer holds its block at every point, fetched there or not, for any proof
    data whose array is the entry contents and whose body leaves the block in place. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

/-- Input window 1's current staging buffer holds its block at every point, fetched there or not, for any proof
    data whose array is the entry contents and whose body leaves the block in place. -/
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

/-- Input window 2's current staging buffer holds its block at every point, fetched there or not, for any proof
    data whose array is the entry contents and whose body leaves the block in place. -/
theorem before13_2_of {c : Dev nD} (dat : Dat τ (Elt F) Unit ℕ (UR sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)

/-- Input window 3's current staging buffer holds its block at every point, fetched there or not, for any proof
    data whose array is the entry contents and whose body leaves the block in place. -/
theorem before13_3_of {c : Dev nD} (dat : Dat τ (Elt F) Unit ℕ (UR sig nD τ) ℕ cfg13 c) (hA : dat.A 3 = V c (Pipeline.arrRef spec13 3))
    (hafter : ∀ t, dat.after 3 t = iblk13 V c 3 t) (t : Fin cfg13.N) (d) : dat.before 3 t d = iblk13 V c 3 t :=
  (dat.before_in_eq_fetched 3 rfl (fun _ => rfl) (fun _ _ _ => rfl) (fun t => by rw [hafter]; unfold Dat.blockOf iblk13; rw [hA]; try rfl) t d).trans
    (by unfold Dat.fetched Dat.blockOf iblk13; rw [hA]; try rfl)

/-! ## The body's two conditions, in closed form -/

/-- "This is the first grid point": the condition of the zeroing branch, from the grid coordinates. -/
abbrev cond13_0 (i : grid13.Coords) : Prop := (Scalar.cmpi .ne (Scalar.extui (Scalar.cmpi .eq (BitVec.ofNat 32 (i 0).val) 0#32)) 0#32) = 1#1
/-- It holds at the first point only. -/
theorem hcond13_0 : ∀ t : Fin cfg13.N, cond13_0 (grid13.coords t) ↔ t.val % 20 = 0 :=
  (by decide +kernel : ∀ t : Fin grid13.N, cond13_0 (grid13.coords t) ↔ t.val % 20 = 0)

/-- "This is the last grid point": the condition of the branch that writes the statistics out. -/
abbrev cond13_1 (i : grid13.Coords) : Prop := k13_cond2 i = 1#1
/-- It holds at the last point only. -/
theorem hcond13_1 : ∀ t : Fin cfg13.N, cond13_1 (grid13.coords t) ↔ t.val % 20 = 19 :=
  (by decide +kernel : ∀ t : Fin grid13.N, cond13_1 (grid13.coords t) ↔ t.val % 20 = 19)

/-! ## Where the windows are idle -/

/-- Window 0 is never idle. -/
theorem liveAt13_0 : ∀ t : Fin cfg13.N, cfg13.idle 0 (grid13.coords t) = false := by decide +kernel
/-- Window 1 is never idle. -/
theorem liveAt13_1 : ∀ t : Fin cfg13.N, cfg13.idle 1 (grid13.coords t) = false := by decide +kernel
/-- Window 2 is never idle. -/
theorem liveAt13_2 : ∀ t : Fin cfg13.N, cfg13.idle 2 (grid13.coords t) = false := by decide +kernel
/-- Window 3 is never idle. -/
theorem liveAt13_3 : ∀ t : Fin cfg13.N, cfg13.idle 3 (grid13.coords t) = false := by decide +kernel
/-- Window 4 is never idle. -/
theorem liveAt13_4 : ∀ t : Fin cfg13.N, cfg13.idle 4 (grid13.coords t) = false := by decide +kernel
/-- Away from the last point nothing is stored into output 5: the window is idle there, -/
theorem idleAt13_5 : ∀ t : Fin cfg13.N, ¬cond13_1 (grid13.coords t) → cfg13.idle 5 (grid13.coords t) = true := by decide +kernel
/-- and its block is not written back there. -/
theorem noFlush13_5 : ∀ t : Fin cfg13.N, ¬cond13_1 (grid13.coords t) → (cfg13.win 5).flush t = false := by decide +kernel
/-- At the last point output 5 is live. -/
theorem liveAt13_5 : ∀ t : Fin cfg13.N, cond13_1 (grid13.coords t) → cfg13.idle 5 (grid13.coords t) = false := by decide +kernel
/-- Away from the last point nothing is stored into output 6: the window is idle there, -/
theorem idleAt13_6 : ∀ t : Fin cfg13.N, ¬cond13_1 (grid13.coords t) → cfg13.idle 6 (grid13.coords t) = true := by decide +kernel
/-- and its block is not written back there. -/
theorem noFlush13_6 : ∀ t : Fin cfg13.N, ¬cond13_1 (grid13.coords t) → (cfg13.win 6).flush t = false := by decide +kernel
/-- At the last point output 6 is live. -/
theorem liveAt13_6 : ∀ t : Fin cfg13.N, cond13_1 (grid13.coords t) → cfg13.idle 6 (grid13.coords t) = false := by decide +kernel

/-! ## The memrefs the body is called with -/

/-- One staging buffer of each output window, through which its contents are stated (the choice does not matter). -/
abbrev VO13_4 : View sig .tc .vmem S5000x64 .f32 := (Memref.whole cc13_stg4_0 : Memref sig .tc .vmem S5000x64 .f32).view
abbrev VO13_5 : View sig .tc .vmem S1x64 .f32 := (Memref.whole cc13_stg5_0 : Memref sig .tc .vmem S1x64 .f32).view
abbrev VO13_6 : View sig .tc .vmem S1x64 .f32 := (Memref.whole cc13_stg6_0 : Memref sig .tc .vmem S1x64 .f32).view
/-- Each window's current staging memref at point `t`, as the pipeline passes it, and its wholeness. -/
abbrev ms13_0 (t : Fin cfg13.N) : Memref sig .tc .vmem S5000x64 .f32 := win13_0.stage (cfg13.slots t 0)
abbrev hs13_0 (t : Fin cfg13.N) : (ms13_0 t).IsWhole := hstage13_0 ((cfg13.slots t 0).cast nbuf13_0)
abbrev ms13_1 (t : Fin cfg13.N) : Memref sig .tc .vmem S5000x64 .f32 := win13_1.stage (cfg13.slots t 1)
abbrev hs13_1 (t : Fin cfg13.N) : (ms13_1 t).IsWhole := hstage13_1 ((cfg13.slots t 1).cast nbuf13_1)
abbrev ms13_2 (t : Fin cfg13.N) : Memref sig .tc .vmem S5000x1 .f32 := win13_2.stage (cfg13.slots t 2)
abbrev hs13_2 (t : Fin cfg13.N) : (ms13_2 t).IsWhole := hstage13_2 ((cfg13.slots t 2).cast nbuf13_2)
abbrev ms13_3 (t : Fin cfg13.N) : Memref sig .tc .vmem S64 .f32 := win13_3.stage (cfg13.slots t 3)
abbrev hs13_3 (t : Fin cfg13.N) : (ms13_3 t).IsWhole := hstage13_3 ((cfg13.slots t 3).cast nbuf13_3)
abbrev ms13_4 (t : Fin cfg13.N) : Memref sig .tc .vmem S5000x64 .f32 := win13_4.stage (cfg13.slots t 4)
abbrev hs13_4 (t : Fin cfg13.N) : (ms13_4 t).IsWhole := hstage13_4 ((cfg13.slots t 4).cast nbuf13_4)
abbrev ms13_5 (t : Fin cfg13.N) : Memref sig .tc .vmem S1x64 .f32 := win13_5.stage (cfg13.slots t 5)
abbrev hs13_5 (t : Fin cfg13.N) : (ms13_5 t).IsWhole := hstage13_5 ((cfg13.slots t 5).cast nbuf13_5)
abbrev ms13_6 (t : Fin cfg13.N) : Memref sig .tc .vmem S1x64 .f32 := win13_6.stage (cfg13.slots t 6)
abbrev hs13_6 (t : Fin cfg13.N) : (ms13_6 t).IsWhole := hstage13_6 ((cfg13.slots t 6).cast nbuf13_6)
/-- The two accumulators: whole scoped buffers of the kernel's own, passed beside the windows, -/
abbrev scM13_0 : Memref sig .tc .vmem S1x64 .f32 := Memref.whole cc13_scratch0
abbrev scM13_1 : Memref sig .tc .vmem S1x64 .f32 := Memref.whole cc13_scratch1
/-- and as views, through which what they hold is stated. -/
abbrev VS13_0 : View sig .tc .vmem S1x64 .f32 := scM13_0.view
abbrev VS13_1 : View sig .tc .vmem S1x64 .f32 := scM13_1.view

/-- The class's invariant with the two accumulators as memrefs owned at some contents, every other scoped buffer
    unopened, and the generator register at some state. -/
theorem PhiA13_eq (c : Dev nD) :
    (Pipeline.ΦA spec13 c : sProp 𝕄)
      = iprop(iprop(iprop((∃ d, owns (c : Thread nD τ) scM13_0 fullShare d) ∗ (∃ d, owns (c : Thread nD τ) scM13_1 fullShare d))
          ∗ Pipeline.scopedRestBut (Ix := Unit) (Name := ℕ) (U := UR sig nD τ) (Lvl := ℕ) (Val := Elt F) spec13 c [cc13_scratch0, cc13_scratch1]) ∗ (∃ r, prngReg c r)) := by
  unfold Pipeline.ΦA; rw [scopedRest13_split]; simp only [scM13_0, scM13_1, owns_whole]; try rfl

/-! # Region 13: the body's run in each of its three control cases -/

-- (the run's proof term is large: the definition's epilogue walks it past the default budget)
set_option maxHeartbeats 4000000 in
/-- What the body's stores leave in each output's staging memref and in the two accumulators, as pieces (last first),
    AT the first grid point (the accumulators are zeroed, then accumulated into; the statistics outputs untouched), WITH the proof that on whole memrefs — the inputs' at their contents, a
    statistics output the case leaves alone at contents handed back untouched, the other outputs' at anything, the
    accumulators at what the point before left (at anything at the first point) — the body runs to the continuation
    holding the inputs' as they were and each stored buffer with its pieces written. The pieces are the witness the
    run finds. -/
noncomputable def kernelRun13_A (c : Dev nD) (i : grid13.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond13_0 i) (hc1 : ¬cond13_1 i)
    (x0 : Vec F S5000x64 .f32) (x1 : Vec F S5000x64 .f32) (x2 : Vec F S5000x1 .f32) (x3 : Vec F S64 .f32) :
    Σ' (L4 : List (View.Piece (Elt F) S5000x64 .f32)) (L5 : List (View.Piece (Elt F) S1x64 .f32)) (L6 : List (View.Piece (Elt F) S1x64 .f32)) (LS0 : List (View.Piece (Elt F) S1x64 .f32)), { LS1 : List (View.Piece (Elt F) S1x64 .f32) //
      ∀ (xi5 : Vec F S1x64 .f32) (xi6 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc13__gcn_combine_stats_kernel i arg1 harg1 arg2 harg2 arg3 harg3 arg4 harg4 arg5 harg5 arg6 harg6 arg7 harg7 arg8 harg8 arg9 harg9) K } := by
  refine ⟨?_, [], [], ?_, ?_, fun xi5 xi6 E K => ?run⟩
  case run =>
    simp only [cc13__gcn_combine_stats_kernel_eq_skeleton]; unfold cc13__gcn_combine_stats_kernel_skel
    simp only [k13_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

-- (the run's proof term is large: the definition's epilogue walks it past the default budget)
set_option maxHeartbeats 4000000 in
/-- What the body's stores leave in each output's staging memref and in the two accumulators, as pieces (last first),
    AT a middle grid point (the accumulators, at what the point before left, are accumulated into; the statistics outputs untouched), WITH the proof that on whole memrefs — the inputs' at their contents, a
    statistics output the case leaves alone at contents handed back untouched, the other outputs' at anything, the
    accumulators at what the point before left (at anything at the first point) — the body runs to the continuation
    holding the inputs' as they were and each stored buffer with its pieces written. The pieces are the witness the
    run finds. -/
noncomputable def kernelRun13_B (c : Dev nD) (i : grid13.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond13_0 i) (hc1 : ¬cond13_1 i)
    (x0 : Vec F S5000x64 .f32) (x1 : Vec F S5000x64 .f32) (x2 : Vec F S5000x1 .f32) (x3 : Vec F S64 .f32) (xs0 : Vec F S1x64 .f32) (xs1 : Vec F S1x64 .f32) :
    Σ' (L4 : List (View.Piece (Elt F) S5000x64 .f32)) (L5 : List (View.Piece (Elt F) S1x64 .f32)) (L6 : List (View.Piece (Elt F) S1x64 .f32)) (LS0 : List (View.Piece (Elt F) S1x64 .f32)), { LS1 : List (View.Piece (Elt F) S1x64 .f32) //
      ∀ (xi5 : Vec F S1x64 .f32) (xi6 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc13__gcn_combine_stats_kernel i arg1 harg1 arg2 harg2 arg3 harg3 arg4 harg4 arg5 harg5 arg6 harg6 arg7 harg7 arg8 harg8 arg9 harg9) K } := by
  refine ⟨?_, [], [], ?_, ?_, fun xi5 xi6 E K => ?run⟩
  case run =>
    simp only [cc13__gcn_combine_stats_kernel_eq_skeleton]; unfold cc13__gcn_combine_stats_kernel_skel
    simp only [k13_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hf6; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

-- (the run's proof term is large: the definition's epilogue walks it past the default budget)
set_option maxHeartbeats 4000000 in
/-- What the body's stores leave in each output's staging memref and in the two accumulators, as pieces (last first),
    AT the last grid point (the accumulators are accumulated into and then copied to the two statistics outputs), WITH the proof that on whole memrefs — the inputs' at their contents, a
    statistics output the case leaves alone at contents handed back untouched, the other outputs' at anything, the
    accumulators at what the point before left (at anything at the first point) — the body runs to the continuation
    holding the inputs' as they were and each stored buffer with its pieces written. The pieces are the witness the
    run finds. -/
noncomputable def kernelRun13_C (c : Dev nD) (i : grid13.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond13_0 i) (hc1 : cond13_1 i)
    (x0 : Vec F S5000x64 .f32) (x1 : Vec F S5000x64 .f32) (x2 : Vec F S5000x1 .f32) (x3 : Vec F S64 .f32) (xs0 : Vec F S1x64 .f32) (xs1 : Vec F S1x64 .f32) :
    Σ' (L4 : List (View.Piece (Elt F) S5000x64 .f32)) (L5 : List (View.Piece (Elt F) S1x64 .f32)) (L6 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc13__gcn_combine_stats_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc13__gcn_combine_stats_kernel_eq_skeleton]; unfold cc13__gcn_combine_stats_kernel_skel
    simp only [k13_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

/-! # Region 13: what the outputs and the accumulators hold point by point, the proof data, the body obligation -/

/-! ## What the body leaves at the first point -/

/-- At the first point the stores into output 4 tile its block, so they cover it. -/
theorem cover13_A_4 (c : Dev nD) (i : grid13.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond13_0 i) (hc1 : ¬cond13_1 i)
    (x0 : Vec F S5000x64 .f32) (x1 : Vec F S5000x64 .f32) (x2 : Vec F S5000x1 .f32) (x3 : Vec F S64 .f32) (y : S5000x64.Idx) :
    ∃ pc ∈ (kernelRun13_A c i arg1 harg1 arg2 harg2 arg3 harg3 arg4 harg4 arg5 harg5 arg6 harg6 arg7 harg7 arg8 harg8 arg9 harg9 hc0 hc1 x0 x1 x2 x3).1, y ∈ pc.1.set :=
  View.cover_of_tiledL (kernelRun13_A c i arg1 harg1 arg2 harg2 arg3 harg3 arg4 harg4 arg5 harg5 arg6 harg6 arg7 harg7 arg8 harg8 arg9 harg9 hc0 hc1 x0 x1 x2 x3).1 S5000x64.size (by sl_kernel_rfl) y

/-- What the first point leaves in output 4's staging buffer: its pieces read back over junk. -/
def out13_A_4 (c : Dev nD) (i : grid13.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond13_0 i) (hc1 : ¬cond13_1 i)
    (x0 : Vec F S5000x64 .f32) (x1 : Vec F S5000x64 .f32) (x2 : Vec F S5000x1 .f32) (x3 : Vec F S64 .f32) : Vec F S5000x64 .f32 :=
  VO13_4.read (Elt F) (VO13_4.writes (Elt F) VO13_4.junk (kernelRun13_A c i arg1 harg1 arg2 harg2 arg3 harg3 arg4 harg4 arg5 harg5 arg6 harg6 arg7 harg7 arg8 harg8 arg9 harg9 hc0 hc1 x0 x1 x2 x3).1)

/-- At the first point nothing is stored into output 5 (idle there, not written back): no pieces — a placeholder
    nothing consults. -/
def out13_A_5 (c : Dev nD) (i : grid13.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond13_0 i) (hc1 : ¬cond13_1 i)
    (x0 : Vec F S5000x64 .f32) (x1 : Vec F S5000x64 .f32) (x2 : Vec F S5000x1 .f32) (x3 : Vec F S64 .f32) : Vec F S1x64 .f32 :=
  VO13_5.read (Elt F) (VO13_5.writes (Elt F) VO13_5.junk (kernelRun13_A c i arg1 harg1 arg2 harg2 arg3 harg3 arg4 harg4 arg5 harg5 arg6 harg6 arg7 harg7 arg8 harg8 arg9 harg9 hc0 hc1 x0 x1 x2 x3).2.1)

/-- At the first point nothing is stored into output 6 (idle there, not written back): no pieces — a placeholder
    nothing consults. -/
def out13_A_6 (c : Dev nD) (i : grid13.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond13_0 i) (hc1 : ¬cond13_1 i)
    (x0 : Vec F S5000x64 .f32) (x1 : Vec F S5000x64 .f32) (x2 : Vec F S5000x1 .f32) (x3 : Vec F S64 .f32) : Vec F S1x64 .f32 :=
  VO13_6.read (Elt F) (VO13_6.writes (Elt F) VO13_6.junk (kernelRun13_A c i arg1 harg1 arg2 harg2 arg3 harg3 arg4 harg4 arg5 harg5 arg6 harg6 arg7 harg7 arg8 harg8 arg9 harg9 hc0 hc1 x0 x1 x2 x3).2.2.1)

/-- At the first point the stores into accumulator 0 cover it. -/
theorem scover13_A_0 (c : Dev nD) (i : grid13.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond13_0 i) (hc1 : ¬cond13_1 i)
    (x0 : Vec F S5000x64 .f32) (x1 : Vec F S5000x64 .f32) (x2 : Vec F S5000x1 .f32) (x3 : Vec F S64 .f32) (y : S1x64.Idx) :
    ∃ pc ∈ (kernelRun13_A c i arg1 harg1 arg2 harg2 arg3 harg3 arg4 harg4 arg5 harg5 arg6 harg6 arg7 harg7 arg8 harg8 arg9 harg9 hc0 hc1 x0 x1 x2 x3).2.2.2.1, y ∈ pc.1.set :=
  View.cover_of_tiledL (kernelRun13_A c i arg1 harg1 arg2 harg2 arg3 harg3 arg4 harg4 arg5 harg5 arg6 harg6 arg7 harg7 arg8 harg8 arg9 harg9 hc0 hc1 x0 x1 x2 x3).2.2.2.1 S1x64.size (by sl_kernel_rfl) y

/-- What the first point leaves in accumulator 0: its pieces read back over junk. -/
def sout13_A_0 (c : Dev nD) (i : grid13.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond13_0 i) (hc1 : ¬cond13_1 i)
    (x0 : Vec F S5000x64 .f32) (x1 : Vec F S5000x64 .f32) (x2 : Vec F S5000x1 .f32) (x3 : Vec F S64 .f32) : Vec F S1x64 .f32 :=
  VS13_0.read (Elt F) (VS13_0.writes (Elt F) VS13_0.junk (kernelRun13_A c i arg1 harg1 arg2 harg2 arg3 harg3 arg4 harg4 arg5 harg5 arg6 harg6 arg7 harg7 arg8 harg8 arg9 harg9 hc0 hc1 x0 x1 x2 x3).2.2.2.1)

/-- At the first point the stores into accumulator 1 cover it. -/
theorem scover13_A_1 (c : Dev nD) (i : grid13.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond13_0 i) (hc1 : ¬cond13_1 i)
    (x0 : Vec F S5000x64 .f32) (x1 : Vec F S5000x64 .f32) (x2 : Vec F S5000x1 .f32) (x3 : Vec F S64 .f32) (y : S1x64.Idx) :
    ∃ pc ∈ (kernelRun13_A c i arg1 harg1 arg2 harg2 arg3 harg3 arg4 harg4 arg5 harg5 arg6 harg6 arg7 harg7 arg8 harg8 arg9 harg9 hc0 hc1 x0 x1 x2 x3).2.2.2.2.1, y ∈ pc.1.set :=
  View.cover_of_tiledL (kernelRun13_A c i arg1 harg1 arg2 harg2 arg3 harg3 arg4 harg4 arg5 harg5 arg6 harg6 arg7 harg7 arg8 harg8 arg9 harg9 hc0 hc1 x0 x1 x2 x3).2.2.2.2.1 S1x64.size (by sl_kernel_rfl) y

/-- What the first point leaves in accumulator 1: its pieces read back over junk. -/
def sout13_A_1 (c : Dev nD) (i : grid13.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond13_0 i) (hc1 : ¬cond13_1 i)
    (x0 : Vec F S5000x64 .f32) (x1 : Vec F S5000x64 .f32) (x2 : Vec F S5000x1 .f32) (x3 : Vec F S64 .f32) : Vec F S1x64 .f32 :=
  VS13_1.read (Elt F) (VS13_1.writes (Elt F) VS13_1.junk (kernelRun13_A c i arg1 harg1 arg2 harg2 arg3 harg3 arg4 harg4 arg5 harg5 arg6 harg6 arg7 harg7 arg8 harg8 arg9 harg9 hc0 hc1 x0 x1 x2 x3).2.2.2.2.1)

/-! ## What the body leaves at a middle point -/

/-- At a middle point the stores into output 4 tile its block, so they cover it. -/
theorem cover13_B_4 (c : Dev nD) (i : grid13.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond13_0 i) (hc1 : ¬cond13_1 i)
    (x0 : Vec F S5000x64 .f32) (x1 : Vec F S5000x64 .f32) (x2 : Vec F S5000x1 .f32) (x3 : Vec F S64 .f32) (xs0 : Vec F S1x64 .f32) (xs1 : Vec F S1x64 .f32) (y : S5000x64.Idx) :
    ∃ pc ∈ (kernelRun13_B c i arg1 harg1 arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun13_B c i arg1 harg1 arg2 harg2 arg3 harg3 arg4 harg4 arg5 harg5 arg6 harg6 arg7 harg7 arg8 harg8 arg9 harg9 hc0 hc1 x0 x1 x2 x3 xs0 xs1).1 S5000x64.size (by sl_kernel_rfl) y

/-- What a middle point leaves in output 4's staging buffer: its pieces read back over junk. -/
def out13_B_4 (c : Dev nD) (i : grid13.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond13_0 i) (hc1 : ¬cond13_1 i)
    (x0 : Vec F S5000x64 .f32) (x1 : Vec F S5000x64 .f32) (x2 : Vec F S5000x1 .f32) (x3 : Vec F S64 .f32) (xs0 : Vec F S1x64 .f32) (xs1 : Vec F S1x64 .f32) : Vec F S5000x64 .f32 :=
  VO13_4.read (Elt F) (VO13_4.writes (Elt F) VO13_4.junk (kernelRun13_B c i arg1 harg1 arg2 harg2 arg3 harg3 arg4 harg4 arg5 harg5 arg6 harg6 arg7 harg7 arg8 harg8 arg9 harg9 hc0 hc1 x0 x1 x2 x3 xs0 xs1).1)

/-- At a middle point nothing is stored into output 5 (idle there, not written back): no pieces — a placeholder
    nothing consults. -/
def out13_B_5 (c : Dev nD) (i : grid13.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond13_0 i) (hc1 : ¬cond13_1 i)
    (x0 : Vec F S5000x64 .f32) (x1 : Vec F S5000x64 .f32) (x2 : Vec F S5000x1 .f32) (x3 : Vec F S64 .f32) (xs0 : Vec F S1x64 .f32) (xs1 : Vec F S1x64 .f32) : Vec F S1x64 .f32 :=
  VO13_5.read (Elt F) (VO13_5.writes (Elt F) VO13_5.junk (kernelRun13_B c i arg1 harg1 arg2 harg2 arg3 harg3 arg4 harg4 arg5 harg5 arg6 harg6 arg7 harg7 arg8 harg8 arg9 harg9 hc0 hc1 x0 x1 x2 x3 xs0 xs1).2.1)

/-- At a middle point nothing is stored into output 6 (idle there, not written back): no pieces — a placeholder
    nothing consults. -/
def out13_B_6 (c : Dev nD) (i : grid13.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond13_0 i) (hc1 : ¬cond13_1 i)
    (x0 : Vec F S5000x64 .f32) (x1 : Vec F S5000x64 .f32) (x2 : Vec F S5000x1 .f32) (x3 : Vec F S64 .f32) (xs0 : Vec F S1x64 .f32) (xs1 : Vec F S1x64 .f32) : Vec F S1x64 .f32 :=
  VO13_6.read (Elt F) (VO13_6.writes (Elt F) VO13_6.junk (kernelRun13_B c i arg1 harg1 arg2 harg2 arg3 harg3 arg4 harg4 arg5 harg5 arg6 harg6 arg7 harg7 arg8 harg8 arg9 harg9 hc0 hc1 x0 x1 x2 x3 xs0 xs1).2.2.1)

/-- At a middle point the stores into accumulator 0 cover it. -/
theorem scover13_B_0 (c : Dev nD) (i : grid13.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond13_0 i) (hc1 : ¬cond13_1 i)
    (x0 : Vec F S5000x64 .f32) (x1 : Vec F S5000x64 .f32) (x2 : Vec F S5000x1 .f32) (x3 : Vec F S64 .f32) (xs0 : Vec F S1x64 .f32) (xs1 : Vec F S1x64 .f32) (y : S1x64.Idx) :
    ∃ pc ∈ (kernelRun13_B c i arg1 harg1 arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun13_B c i arg1 harg1 arg2 harg2 arg3 harg3 arg4 harg4 arg5 harg5 arg6 harg6 arg7 harg7 arg8 harg8 arg9 harg9 hc0 hc1 x0 x1 x2 x3 xs0 xs1).2.2.2.1 S1x64.size (by sl_kernel_rfl) y

/-- What a middle point leaves in accumulator 0: its pieces read back over junk. -/
def sout13_B_0 (c : Dev nD) (i : grid13.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond13_0 i) (hc1 : ¬cond13_1 i)
    (x0 : Vec F S5000x64 .f32) (x1 : Vec F S5000x64 .f32) (x2 : Vec F S5000x1 .f32) (x3 : Vec F S64 .f32) (xs0 : Vec F S1x64 .f32) (xs1 : Vec F S1x64 .f32) : Vec F S1x64 .f32 :=
  VS13_0.read (Elt F) (VS13_0.writes (Elt F) VS13_0.junk (kernelRun13_B c i arg1 harg1 arg2 harg2 arg3 harg3 arg4 harg4 arg5 harg5 arg6 harg6 arg7 harg7 arg8 harg8 arg9 harg9 hc0 hc1 x0 x1 x2 x3 xs0 xs1).2.2.2.1)

/-- At a middle point the stores into accumulator 1 cover it. -/
theorem scover13_B_1 (c : Dev nD) (i : grid13.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond13_0 i) (hc1 : ¬cond13_1 i)
    (x0 : Vec F S5000x64 .f32) (x1 : Vec F S5000x64 .f32) (x2 : Vec F S5000x1 .f32) (x3 : Vec F S64 .f32) (xs0 : Vec F S1x64 .f32) (xs1 : Vec F S1x64 .f32) (y : S1x64.Idx) :
    ∃ pc ∈ (kernelRun13_B c i arg1 harg1 arg2 harg2 arg3 harg3 arg4 harg4 arg5 harg5 arg6 harg6 arg7 harg7 arg8 harg8 arg9 harg9 hc0 hc1 x0 x1 x2 x3 xs0 xs1).2.2.2.2.1, y ∈ pc.1.set :=
  View.cover_of_tiledL (kernelRun13_B c i arg1 harg1 arg2 harg2 arg3 harg3 arg4 harg4 arg5 harg5 arg6 harg6 arg7 harg7 arg8 harg8 arg9 harg9 hc0 hc1 x0 x1 x2 x3 xs0 xs1).2.2.2.2.1 S1x64.size (by sl_kernel_rfl) y

/-- What a middle point leaves in accumulator 1: its pieces read back over junk. -/
def sout13_B_1 (c : Dev nD) (i : grid13.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond13_0 i) (hc1 : ¬cond13_1 i)
    (x0 : Vec F S5000x64 .f32) (x1 : Vec F S5000x64 .f32) (x2 : Vec F S5000x1 .f32) (x3 : Vec F S64 .f32) (xs0 : Vec F S1x64 .f32) (xs1 : Vec F S1x64 .f32) : Vec F S1x64 .f32 :=
  VS13_1.read (Elt F) (VS13_1.writes (Elt F) VS13_1.junk (kernelRun13_B c i arg1 harg1 arg2 harg2 arg3 harg3 arg4 harg4 arg5 harg5 arg6 harg6 arg7 harg7 arg8 harg8 arg9 harg9 hc0 hc1 x0 x1 x2 x3 xs0 xs1).2.2.2.2.1)

/-! ## What the body leaves at the last point -/

/-- At the last point the stores into output 4 tile its block, so they cover it. -/
theorem cover13_C_4 (c : Dev nD) (i : grid13.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond13_0 i) (hc1 : cond13_1 i)
    (x0 : Vec F S5000x64 .f32) (x1 : Vec F S5000x64 .f32) (x2 : Vec F S5000x1 .f32) (x3 : Vec F S64 .f32) (xs0 : Vec F S1x64 .f32) (xs1 : Vec F S1x64 .f32) (y : S5000x64.Idx) :
    ∃ pc ∈ (kernelRun13_C c i arg1 harg1 arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun13_C c i arg1 harg1 arg2 harg2 arg3 harg3 arg4 harg4 arg5 harg5 arg6 harg6 arg7 harg7 arg8 harg8 arg9 harg9 hc0 hc1 x0 x1 x2 x3 xs0 xs1).1 S5000x64.size (by sl_kernel_rfl) y

/-- What the last point leaves in output 4's staging buffer: its pieces read back over junk. -/
def out13_C_4 (c : Dev nD) (i : grid13.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond13_0 i) (hc1 : cond13_1 i)
    (x0 : Vec F S5000x64 .f32) (x1 : Vec F S5000x64 .f32) (x2 : Vec F S5000x1 .f32) (x3 : Vec F S64 .f32) (xs0 : Vec F S1x64 .f32) (xs1 : Vec F S1x64 .f32) : Vec F S5000x64 .f32 :=
  VO13_4.read (Elt F) (VO13_4.writes (Elt F) VO13_4.junk (kernelRun13_C c i arg1 harg1 arg2 harg2 arg3 harg3 arg4 harg4 arg5 harg5 arg6 harg6 arg7 harg7 arg8 harg8 arg9 harg9 hc0 hc1 x0 x1 x2 x3 xs0 xs1).1)

/-- At the last point the stores into output 5 tile its block, so they cover it. -/
theorem cover13_C_5 (c : Dev nD) (i : grid13.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond13_0 i) (hc1 : cond13_1 i)
    (x0 : Vec F S5000x64 .f32) (x1 : Vec F S5000x64 .f32) (x2 : Vec F S5000x1 .f32) (x3 : Vec F S64 .f32) (xs0 : Vec F S1x64 .f32) (xs1 : Vec F S1x64 .f32) (y : S1x64.Idx) :
    ∃ pc ∈ (kernelRun13_C c i arg1 harg1 arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun13_C c i arg1 harg1 arg2 harg2 arg3 harg3 arg4 harg4 arg5 harg5 arg6 harg6 arg7 harg7 arg8 harg8 arg9 harg9 hc0 hc1 x0 x1 x2 x3 xs0 xs1).2.1 S1x64.size (by sl_kernel_rfl) y

/-- What the last point leaves in output 5's staging buffer: its pieces read back over junk. -/
def out13_C_5 (c : Dev nD) (i : grid13.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond13_0 i) (hc1 : cond13_1 i)
    (x0 : Vec F S5000x64 .f32) (x1 : Vec F S5000x64 .f32) (x2 : Vec F S5000x1 .f32) (x3 : Vec F S64 .f32) (xs0 : Vec F S1x64 .f32) (xs1 : Vec F S1x64 .f32) : Vec F S1x64 .f32 :=
  VO13_5.read (Elt F) (VO13_5.writes (Elt F) VO13_5.junk (kernelRun13_C c i arg1 harg1 arg2 harg2 arg3 harg3 arg4 harg4 arg5 harg5 arg6 harg6 arg7 harg7 arg8 harg8 arg9 harg9 hc0 hc1 x0 x1 x2 x3 xs0 xs1).2.1)

/-- At the last point the stores into output 6 tile its block, so they cover it. -/
theorem cover13_C_6 (c : Dev nD) (i : grid13.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond13_0 i) (hc1 : cond13_1 i)
    (x0 : Vec F S5000x64 .f32) (x1 : Vec F S5000x64 .f32) (x2 : Vec F S5000x1 .f32) (x3 : Vec F S64 .f32) (xs0 : Vec F S1x64 .f32) (xs1 : Vec F S1x64 .f32) (y : S1x64.Idx) :
    ∃ pc ∈ (kernelRun13_C c i arg1 harg1 arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun13_C c i arg1 harg1 arg2 harg2 arg3 harg3 arg4 harg4 arg5 harg5 arg6 harg6 arg7 harg7 arg8 harg8 arg9 harg9 hc0 hc1 x0 x1 x2 x3 xs0 xs1).2.2.1 S1x64.size (by sl_kernel_rfl) y

/-- What the last point leaves in output 6's staging buffer: its pieces read back over junk. -/
def out13_C_6 (c : Dev nD) (i : grid13.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond13_0 i) (hc1 : cond13_1 i)
    (x0 : Vec F S5000x64 .f32) (x1 : Vec F S5000x64 .f32) (x2 : Vec F S5000x1 .f32) (x3 : Vec F S64 .f32) (xs0 : Vec F S1x64 .f32) (xs1 : Vec F S1x64 .f32) : Vec F S1x64 .f32 :=
  VO13_6.read (Elt F) (VO13_6.writes (Elt F) VO13_6.junk (kernelRun13_C c i arg1 harg1 arg2 harg2 arg3 harg3 arg4 harg4 arg5 harg5 arg6 harg6 arg7 harg7 arg8 harg8 arg9 harg9 hc0 hc1 x0 x1 x2 x3 xs0 xs1).2.2.1)

/-- At the last point the stores into accumulator 0 cover it. -/
theorem scover13_C_0 (c : Dev nD) (i : grid13.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond13_0 i) (hc1 : cond13_1 i)
    (x0 : Vec F S5000x64 .f32) (x1 : Vec F S5000x64 .f32) (x2 : Vec F S5000x1 .f32) (x3 : Vec F S64 .f32) (xs0 : Vec F S1x64 .f32) (xs1 : Vec F S1x64 .f32) (y : S1x64.Idx) :
    ∃ pc ∈ (kernelRun13_C c i arg1 harg1 arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun13_C c i arg1 harg1 arg2 harg2 arg3 harg3 arg4 harg4 arg5 harg5 arg6 harg6 arg7 harg7 arg8 harg8 arg9 harg9 hc0 hc1 x0 x1 x2 x3 xs0 xs1).2.2.2.1 S1x64.size (by sl_kernel_rfl) y

/-- What the last point leaves in accumulator 0: its pieces read back over junk. -/
def sout13_C_0 (c : Dev nD) (i : grid13.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond13_0 i) (hc1 : cond13_1 i)
    (x0 : Vec F S5000x64 .f32) (x1 : Vec F S5000x64 .f32) (x2 : Vec F S5000x1 .f32) (x3 : Vec F S64 .f32) (xs0 : Vec F S1x64 .f32) (xs1 : Vec F S1x64 .f32) : Vec F S1x64 .f32 :=
  VS13_0.read (Elt F) (VS13_0.writes (Elt F) VS13_0.junk (kernelRun13_C c i arg1 harg1 arg2 harg2 arg3 harg3 arg4 harg4 arg5 harg5 arg6 harg6 arg7 harg7 arg8 harg8 arg9 harg9 hc0 hc1 x0 x1 x2 x3 xs0 xs1).2.2.2.1)

/-- At the last point the stores into accumulator 1 cover it. -/
theorem scover13_C_1 (c : Dev nD) (i : grid13.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond13_0 i) (hc1 : cond13_1 i)
    (x0 : Vec F S5000x64 .f32) (x1 : Vec F S5000x64 .f32) (x2 : Vec F S5000x1 .f32) (x3 : Vec F S64 .f32) (xs0 : Vec F S1x64 .f32) (xs1 : Vec F S1x64 .f32) (y : S1x64.Idx) :
    ∃ pc ∈ (kernelRun13_C c i arg1 harg1 arg2 harg2 arg3 harg3 arg4 harg4 arg5 harg5 arg6 harg6 arg7 harg7 arg8 harg8 arg9 harg9 hc0 hc1 x0 x1 x2 x3 xs0 xs1).2.2.2.2.1, y ∈ pc.1.set :=
  View.cover_of_tiledL (kernelRun13_C c i arg1 harg1 arg2 harg2 arg3 harg3 arg4 harg4 arg5 harg5 arg6 harg6 arg7 harg7 arg8 harg8 arg9 harg9 hc0 hc1 x0 x1 x2 x3 xs0 xs1).2.2.2.2.1 S1x64.size (by sl_kernel_rfl) y

/-- What the last point leaves in accumulator 1: its pieces read back over junk. -/
def sout13_C_1 (c : Dev nD) (i : grid13.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond13_0 i) (hc1 : cond13_1 i)
    (x0 : Vec F S5000x64 .f32) (x1 : Vec F S5000x64 .f32) (x2 : Vec F S5000x1 .f32) (x3 : Vec F S64 .f32) (xs0 : Vec F S1x64 .f32) (xs1 : Vec F S1x64 .f32) : Vec F S1x64 .f32 :=
  VS13_1.read (Elt F) (VS13_1.writes (Elt F) VS13_1.junk (kernelRun13_C c i arg1 harg1 arg2 harg2 arg3 harg3 arg4 harg4 arg5 harg5 arg6 harg6 arg7 harg7 arg8 harg8 arg9 harg9 hc0 hc1 x0 x1 x2 x3 xs0 xs1).2.2.2.2.1)

/-! ## What the outputs and the accumulators hold after each point -/

/-- No point after the first is ≡ 0 (mod 20): the grid has 20 points. -/
theorem succ_mod13 (n : ℕ) (hn : n + 1 < cfg13.N) : ¬(n + 1) % 20 = 0 := by
  have hN : n + 1 < 20 := lt_of_lt_of_eq hn (show cfg13.N = 20 from N_13); omega

/-- THE ACCUMULATION. What the three outputs' staging buffers and the two accumulators hold after the body at position
    `n` (a tuple: outputs 4, 5, 6, then accumulators 0, 1): the case the closed forms select at `n`, run at the point's
    memrefs and input blocks, the accumulators at what this leaves at `n - 1`. -/
def outsAt13 (c : Dev nD) : (n : ℕ) → n < cfg13.N → Vec F S5000x64 .f32 × Vec F S1x64 .f32 × Vec F S1x64 .f32 × Vec F S1x64 .f32 × Vec F S1x64 .f32
  | 0, hn => (out13_A_4 c (grid13.coords ⟨0, hn⟩) (ms13_0 ⟨0, hn⟩) (hs13_0 ⟨0, hn⟩) (ms13_1 ⟨0, hn⟩) (hs13_1 ⟨0, hn⟩) (ms13_2 ⟨0, hn⟩) (hs13_2 ⟨0, hn⟩) (ms13_3 ⟨0, hn⟩) (hs13_3 ⟨0, hn⟩) (ms13_4 ⟨0, hn⟩) (hs13_4 ⟨0, hn⟩) (ms13_5 ⟨0, hn⟩) (hs13_5 ⟨0, hn⟩) (ms13_6 ⟨0, hn⟩) (hs13_6 ⟨0, hn⟩) scM13_0 (Memref.isWhole_whole _) scM13_1 (Memref.isWhole_whole _) ((hcond13_0 ⟨0, hn⟩).mpr (Nat.zero_mod _)) (fun h => (fun h => by (try dsimp only at h); omega) ((hcond13_1 ⟨0, hn⟩).mp h)) (iblk13 V c 0 ⟨0, hn⟩) (iblk13 V c 1 ⟨0, hn⟩) (iblk13 V c 2 ⟨0, hn⟩) (iblk13 V c 3 ⟨0, hn⟩), out13_A_5 c (grid13.coords ⟨0, hn⟩) (ms13_0 ⟨0, hn⟩) (hs13_0 ⟨0, hn⟩) (ms13_1 ⟨0, hn⟩) (hs13_1 ⟨0, hn⟩) (ms13_2 ⟨0, hn⟩) (hs13_2 ⟨0, hn⟩) (ms13_3 ⟨0, hn⟩) (hs13_3 ⟨0, hn⟩) (ms13_4 ⟨0, hn⟩) (hs13_4 ⟨0, hn⟩) (ms13_5 ⟨0, hn⟩) (hs13_5 ⟨0, hn⟩) (ms13_6 ⟨0, hn⟩) (hs13_6 ⟨0, hn⟩) scM13_0 (Memref.isWhole_whole _) scM13_1 (Memref.isWhole_whole _) ((hcond13_0 ⟨0, hn⟩).mpr (Nat.zero_mod _)) (fun h => (fun h => by (try dsimp only at h); omega) ((hcond13_1 ⟨0, hn⟩).mp h)) (iblk13 V c 0 ⟨0, hn⟩) (iblk13 V c 1 ⟨0, hn⟩) (iblk13 V c 2 ⟨0, hn⟩) (iblk13 V c 3 ⟨0, hn⟩), out13_A_6 c (grid13.coords ⟨0, hn⟩) (ms13_0 ⟨0, hn⟩) (hs13_0 ⟨0, hn⟩) (ms13_1 ⟨0, hn⟩) (hs13_1 ⟨0, hn⟩) (ms13_2 ⟨0, hn⟩) (hs13_2 ⟨0, hn⟩) (ms13_3 ⟨0, hn⟩) (hs13_3 ⟨0, hn⟩) (ms13_4 ⟨0, hn⟩) (hs13_4 ⟨0, hn⟩) (ms13_5 ⟨0, hn⟩) (hs13_5 ⟨0, hn⟩) (ms13_6 ⟨0, hn⟩) (hs13_6 ⟨0, hn⟩) scM13_0 (Memref.isWhole_whole _) scM13_1 (Memref.isWhole_whole _) ((hcond13_0 ⟨0, hn⟩).mpr (Nat.zero_mod _)) (fun h => (fun h => by (try dsimp only at h); omega) ((hcond13_1 ⟨0, hn⟩).mp h)) (iblk13 V c 0 ⟨0, hn⟩) (iblk13 V c 1 ⟨0, hn⟩) (iblk13 V c 2 ⟨0, hn⟩) (iblk13 V c 3 ⟨0, hn⟩), sout13_A_0 c (grid13.coords ⟨0, hn⟩) (ms13_0 ⟨0, hn⟩) (hs13_0 ⟨0, hn⟩) (ms13_1 ⟨0, hn⟩) (hs13_1 ⟨0, hn⟩) (ms13_2 ⟨0, hn⟩) (hs13_2 ⟨0, hn⟩) (ms13_3 ⟨0, hn⟩) (hs13_3 ⟨0, hn⟩) (ms13_4 ⟨0, hn⟩) (hs13_4 ⟨0, hn⟩) (ms13_5 ⟨0, hn⟩) (hs13_5 ⟨0, hn⟩) (ms13_6 ⟨0, hn⟩) (hs13_6 ⟨0, hn⟩) scM13_0 (Memref.isWhole_whole _) scM13_1 (Memref.isWhole_whole _) ((hcond13_0 ⟨0, hn⟩).mpr (Nat.zero_mod _)) (fun h => (fun h => by (try dsimp only at h); omega) ((hcond13_1 ⟨0, hn⟩).mp h)) (iblk13 V c 0 ⟨0, hn⟩) (iblk13 V c 1 ⟨0, hn⟩) (iblk13 V c 2 ⟨0, hn⟩) (iblk13 V c 3 ⟨0, hn⟩), sout13_A_1 c (grid13.coords ⟨0, hn⟩) (ms13_0 ⟨0, hn⟩) (hs13_0 ⟨0, hn⟩) (ms13_1 ⟨0, hn⟩) (hs13_1 ⟨0, hn⟩) (ms13_2 ⟨0, hn⟩) (hs13_2 ⟨0, hn⟩) (ms13_3 ⟨0, hn⟩) (hs13_3 ⟨0, hn⟩) (ms13_4 ⟨0, hn⟩) (hs13_4 ⟨0, hn⟩) (ms13_5 ⟨0, hn⟩) (hs13_5 ⟨0, hn⟩) (ms13_6 ⟨0, hn⟩) (hs13_6 ⟨0, hn⟩) scM13_0 (Memref.isWhole_whole _) scM13_1 (Memref.isWhole_whole _) ((hcond13_0 ⟨0, hn⟩).mpr (Nat.zero_mod _)) (fun h => (fun h => by (try dsimp only at h); omega) ((hcond13_1 ⟨0, hn⟩).mp h)) (iblk13 V c 0 ⟨0, hn⟩) (iblk13 V c 1 ⟨0, hn⟩) (iblk13 V c 2 ⟨0, hn⟩) (iblk13 V c 3 ⟨0, hn⟩))
  | n + 1, hn =>
    if h1 : (n + 1) % 20 = 19 then
      (out13_C_4 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) (ms13_3 ⟨n + 1, hn⟩) (hs13_3 ⟨n + 1, hn⟩) (ms13_4 ⟨n + 1, hn⟩) (hs13_4 ⟨n + 1, hn⟩) (ms13_5 ⟨n + 1, hn⟩) (hs13_5 ⟨n + 1, hn⟩) (ms13_6 ⟨n + 1, hn⟩) (hs13_6 ⟨n + 1, hn⟩) scM13_0 (Memref.isWhole_whole _) scM13_1 (Memref.isWhole_whole _) (fun h => succ_mod13 n hn ((hcond13_0 ⟨n + 1, hn⟩).mp h)) ((hcond13_1 ⟨n + 1, hn⟩).mpr h1) (iblk13 V c 0 ⟨n + 1, hn⟩) (iblk13 V c 1 ⟨n + 1, hn⟩) (iblk13 V c 2 ⟨n + 1, hn⟩) (iblk13 V c 3 ⟨n + 1, hn⟩) (outsAt13 c n (Nat.lt_of_succ_lt hn)).2.2.2.1 (outsAt13 c n (Nat.lt_of_succ_lt hn)).2.2.2.2, out13_C_5 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) (ms13_3 ⟨n + 1, hn⟩) (hs13_3 ⟨n + 1, hn⟩) (ms13_4 ⟨n + 1, hn⟩) (hs13_4 ⟨n + 1, hn⟩) (ms13_5 ⟨n + 1, hn⟩) (hs13_5 ⟨n + 1, hn⟩) (ms13_6 ⟨n + 1, hn⟩) (hs13_6 ⟨n + 1, hn⟩) scM13_0 (Memref.isWhole_whole _) scM13_1 (Memref.isWhole_whole _) (fun h => succ_mod13 n hn ((hcond13_0 ⟨n + 1, hn⟩).mp h)) ((hcond13_1 ⟨n + 1, hn⟩).mpr h1) (iblk13 V c 0 ⟨n + 1, hn⟩) (iblk13 V c 1 ⟨n + 1, hn⟩) (iblk13 V c 2 ⟨n + 1, hn⟩) (iblk13 V c 3 ⟨n + 1, hn⟩) (outsAt13 c n (Nat.lt_of_succ_lt hn)).2.2.2.1 (outsAt13 c n (Nat.lt_of_succ_lt hn)).2.2.2.2, out13_C_6 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) (ms13_3 ⟨n + 1, hn⟩) (hs13_3 ⟨n + 1, hn⟩) (ms13_4 ⟨n + 1, hn⟩) (hs13_4 ⟨n + 1, hn⟩) (ms13_5 ⟨n + 1, hn⟩) (hs13_5 ⟨n + 1, hn⟩) (ms13_6 ⟨n + 1, hn⟩) (hs13_6 ⟨n + 1, hn⟩) scM13_0 (Memref.isWhole_whole _) scM13_1 (Memref.isWhole_whole _) (fun h => succ_mod13 n hn ((hcond13_0 ⟨n + 1, hn⟩).mp h)) ((hcond13_1 ⟨n + 1, hn⟩).mpr h1) (iblk13 V c 0 ⟨n + 1, hn⟩) (iblk13 V c 1 ⟨n + 1, hn⟩) (iblk13 V c 2 ⟨n + 1, hn⟩) (iblk13 V c 3 ⟨n + 1, hn⟩) (outsAt13 c n (Nat.lt_of_succ_lt hn)).2.2.2.1 (outsAt13 c n (Nat.lt_of_succ_lt hn)).2.2.2.2, sout13_C_0 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) (ms13_3 ⟨n + 1, hn⟩) (hs13_3 ⟨n + 1, hn⟩) (ms13_4 ⟨n + 1, hn⟩) (hs13_4 ⟨n + 1, hn⟩) (ms13_5 ⟨n + 1, hn⟩) (hs13_5 ⟨n + 1, hn⟩) (ms13_6 ⟨n + 1, hn⟩) (hs13_6 ⟨n + 1, hn⟩) scM13_0 (Memref.isWhole_whole _) scM13_1 (Memref.isWhole_whole _) (fun h => succ_mod13 n hn ((hcond13_0 ⟨n + 1, hn⟩).mp h)) ((hcond13_1 ⟨n + 1, hn⟩).mpr h1) (iblk13 V c 0 ⟨n + 1, hn⟩) (iblk13 V c 1 ⟨n + 1, hn⟩) (iblk13 V c 2 ⟨n + 1, hn⟩) (iblk13 V c 3 ⟨n + 1, hn⟩) (outsAt13 c n (Nat.lt_of_succ_lt hn)).2.2.2.1 (outsAt13 c n (Nat.lt_of_succ_lt hn)).2.2.2.2, sout13_C_1 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) (ms13_3 ⟨n + 1, hn⟩) (hs13_3 ⟨n + 1, hn⟩) (ms13_4 ⟨n + 1, hn⟩) (hs13_4 ⟨n + 1, hn⟩) (ms13_5 ⟨n + 1, hn⟩) (hs13_5 ⟨n + 1, hn⟩) (ms13_6 ⟨n + 1, hn⟩) (hs13_6 ⟨n + 1, hn⟩) scM13_0 (Memref.isWhole_whole _) scM13_1 (Memref.isWhole_whole _) (fun h => succ_mod13 n hn ((hcond13_0 ⟨n + 1, hn⟩).mp h)) ((hcond13_1 ⟨n + 1, hn⟩).mpr h1) (iblk13 V c 0 ⟨n + 1, hn⟩) (iblk13 V c 1 ⟨n + 1, hn⟩) (iblk13 V c 2 ⟨n + 1, hn⟩) (iblk13 V c 3 ⟨n + 1, hn⟩) (outsAt13 c n (Nat.lt_of_succ_lt hn)).2.2.2.1 (outsAt13 c n (Nat.lt_of_succ_lt hn)).2.2.2.2)
    else
      (out13_B_4 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) (ms13_3 ⟨n + 1, hn⟩) (hs13_3 ⟨n + 1, hn⟩) (ms13_4 ⟨n + 1, hn⟩) (hs13_4 ⟨n + 1, hn⟩) (ms13_5 ⟨n + 1, hn⟩) (hs13_5 ⟨n + 1, hn⟩) (ms13_6 ⟨n + 1, hn⟩) (hs13_6 ⟨n + 1, hn⟩) scM13_0 (Memref.isWhole_whole _) scM13_1 (Memref.isWhole_whole _) (fun h => succ_mod13 n hn ((hcond13_0 ⟨n + 1, hn⟩).mp h)) (fun h => h1 ((hcond13_1 ⟨n + 1, hn⟩).mp h)) (iblk13 V c 0 ⟨n + 1, hn⟩) (iblk13 V c 1 ⟨n + 1, hn⟩) (iblk13 V c 2 ⟨n + 1, hn⟩) (iblk13 V c 3 ⟨n + 1, hn⟩) (outsAt13 c n (Nat.lt_of_succ_lt hn)).2.2.2.1 (outsAt13 c n (Nat.lt_of_succ_lt hn)).2.2.2.2, out13_B_5 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) (ms13_3 ⟨n + 1, hn⟩) (hs13_3 ⟨n + 1, hn⟩) (ms13_4 ⟨n + 1, hn⟩) (hs13_4 ⟨n + 1, hn⟩) (ms13_5 ⟨n + 1, hn⟩) (hs13_5 ⟨n + 1, hn⟩) (ms13_6 ⟨n + 1, hn⟩) (hs13_6 ⟨n + 1, hn⟩) scM13_0 (Memref.isWhole_whole _) scM13_1 (Memref.isWhole_whole _) (fun h => succ_mod13 n hn ((hcond13_0 ⟨n + 1, hn⟩).mp h)) (fun h => h1 ((hcond13_1 ⟨n + 1, hn⟩).mp h)) (iblk13 V c 0 ⟨n + 1, hn⟩) (iblk13 V c 1 ⟨n + 1, hn⟩) (iblk13 V c 2 ⟨n + 1, hn⟩) (iblk13 V c 3 ⟨n + 1, hn⟩) (outsAt13 c n (Nat.lt_of_succ_lt hn)).2.2.2.1 (outsAt13 c n (Nat.lt_of_succ_lt hn)).2.2.2.2, out13_B_6 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) (ms13_3 ⟨n + 1, hn⟩) (hs13_3 ⟨n + 1, hn⟩) (ms13_4 ⟨n + 1, hn⟩) (hs13_4 ⟨n + 1, hn⟩) (ms13_5 ⟨n + 1, hn⟩) (hs13_5 ⟨n + 1, hn⟩) (ms13_6 ⟨n + 1, hn⟩) (hs13_6 ⟨n + 1, hn⟩) scM13_0 (Memref.isWhole_whole _) scM13_1 (Memref.isWhole_whole _) (fun h => succ_mod13 n hn ((hcond13_0 ⟨n + 1, hn⟩).mp h)) (fun h => h1 ((hcond13_1 ⟨n + 1, hn⟩).mp h)) (iblk13 V c 0 ⟨n + 1, hn⟩) (iblk13 V c 1 ⟨n + 1, hn⟩) (iblk13 V c 2 ⟨n + 1, hn⟩) (iblk13 V c 3 ⟨n + 1, hn⟩) (outsAt13 c n (Nat.lt_of_succ_lt hn)).2.2.2.1 (outsAt13 c n (Nat.lt_of_succ_lt hn)).2.2.2.2, sout13_B_0 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) (ms13_3 ⟨n + 1, hn⟩) (hs13_3 ⟨n + 1, hn⟩) (ms13_4 ⟨n + 1, hn⟩) (hs13_4 ⟨n + 1, hn⟩) (ms13_5 ⟨n + 1, hn⟩) (hs13_5 ⟨n + 1, hn⟩) (ms13_6 ⟨n + 1, hn⟩) (hs13_6 ⟨n + 1, hn⟩) scM13_0 (Memref.isWhole_whole _) scM13_1 (Memref.isWhole_whole _) (fun h => succ_mod13 n hn ((hcond13_0 ⟨n + 1, hn⟩).mp h)) (fun h => h1 ((hcond13_1 ⟨n + 1, hn⟩).mp h)) (iblk13 V c 0 ⟨n + 1, hn⟩) (iblk13 V c 1 ⟨n + 1, hn⟩) (iblk13 V c 2 ⟨n + 1, hn⟩) (iblk13 V c 3 ⟨n + 1, hn⟩) (outsAt13 c n (Nat.lt_of_succ_lt hn)).2.2.2.1 (outsAt13 c n (Nat.lt_of_succ_lt hn)).2.2.2.2, sout13_B_1 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) (ms13_3 ⟨n + 1, hn⟩) (hs13_3 ⟨n + 1, hn⟩) (ms13_4 ⟨n + 1, hn⟩) (hs13_4 ⟨n + 1, hn⟩) (ms13_5 ⟨n + 1, hn⟩) (hs13_5 ⟨n + 1, hn⟩) (ms13_6 ⟨n + 1, hn⟩) (hs13_6 ⟨n + 1, hn⟩) scM13_0 (Memref.isWhole_whole _) scM13_1 (Memref.isWhole_whole _) (fun h => succ_mod13 n hn ((hcond13_0 ⟨n + 1, hn⟩).mp h)) (fun h => h1 ((hcond13_1 ⟨n + 1, hn⟩).mp h)) (iblk13 V c 0 ⟨n + 1, hn⟩) (iblk13 V c 1 ⟨n + 1, hn⟩) (iblk13 V c 2 ⟨n + 1, hn⟩) (iblk13 V c 3 ⟨n + 1, hn⟩) (outsAt13 c n (Nat.lt_of_succ_lt hn)).2.2.2.1 (outsAt13 c n (Nat.lt_of_succ_lt hn)).2.2.2.2)

/-- `outsAt13` at the first point. -/
theorem outsAt13_A (c : Dev nD) (t : Fin cfg13.N) (h0 : t.val % 20 = 0) (h1 : ¬t.val % 20 = 19) :
    outsAt13 V c t.val t.isLt = (out13_A_4 c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) scM13_0 (Memref.isWhole_whole _) scM13_1 (Memref.isWhole_whole _) ((hcond13_0 t).mpr h0) (fun h => h1 ((hcond13_1 t).mp h)) (iblk13 V c 0 t) (iblk13 V c 1 t) (iblk13 V c 2 t) (iblk13 V c 3 t), out13_A_5 c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) scM13_0 (Memref.isWhole_whole _) scM13_1 (Memref.isWhole_whole _) ((hcond13_0 t).mpr h0) (fun h => h1 ((hcond13_1 t).mp h)) (iblk13 V c 0 t) (iblk13 V c 1 t) (iblk13 V c 2 t) (iblk13 V c 3 t), out13_A_6 c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) scM13_0 (Memref.isWhole_whole _) scM13_1 (Memref.isWhole_whole _) ((hcond13_0 t).mpr h0) (fun h => h1 ((hcond13_1 t).mp h)) (iblk13 V c 0 t) (iblk13 V c 1 t) (iblk13 V c 2 t) (iblk13 V c 3 t), sout13_A_0 c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) scM13_0 (Memref.isWhole_whole _) scM13_1 (Memref.isWhole_whole _) ((hcond13_0 t).mpr h0) (fun h => h1 ((hcond13_1 t).mp h)) (iblk13 V c 0 t) (iblk13 V c 1 t) (iblk13 V c 2 t) (iblk13 V c 3 t), sout13_A_1 c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) scM13_0 (Memref.isWhole_whole _) scM13_1 (Memref.isWhole_whole _) ((hcond13_0 t).mpr h0) (fun h => h1 ((hcond13_1 t).mp h)) (iblk13 V c 0 t) (iblk13 V c 1 t) (iblk13 V c 2 t) (iblk13 V c 3 t)) := by
  obtain ⟨n, hn⟩ := t
  cases n with
  | zero => exact rfl
  | succ n => exact absurd h0 (succ_mod13 n hn)

/-- `outsAt13` at a middle point: over what the point before left in the accumulators. -/
theorem outsAt13_B (c : Dev nD) (t : Fin cfg13.N) (h0 : ¬t.val % 20 = 0) (h1 : ¬t.val % 20 = 19) :
    outsAt13 V c t.val t.isLt = (out13_B_4 c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) scM13_0 (Memref.isWhole_whole _) scM13_1 (Memref.isWhole_whole _) (fun h => h0 ((hcond13_0 t).mp h)) (fun h => h1 ((hcond13_1 t).mp h)) (iblk13 V c 0 t) (iblk13 V c 1 t) (iblk13 V c 2 t) (iblk13 V c 3 t) (outsAt13 V c (t.val - 1) (Nat.lt_of_le_of_lt (Nat.sub_le _ _) t.isLt)).2.2.2.1 (outsAt13 V c (t.val - 1) (Nat.lt_of_le_of_lt (Nat.sub_le _ _) t.isLt)).2.2.2.2, out13_B_5 c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) scM13_0 (Memref.isWhole_whole _) scM13_1 (Memref.isWhole_whole _) (fun h => h0 ((hcond13_0 t).mp h)) (fun h => h1 ((hcond13_1 t).mp h)) (iblk13 V c 0 t) (iblk13 V c 1 t) (iblk13 V c 2 t) (iblk13 V c 3 t) (outsAt13 V c (t.val - 1) (Nat.lt_of_le_of_lt (Nat.sub_le _ _) t.isLt)).2.2.2.1 (outsAt13 V c (t.val - 1) (Nat.lt_of_le_of_lt (Nat.sub_le _ _) t.isLt)).2.2.2.2, out13_B_6 c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) scM13_0 (Memref.isWhole_whole _) scM13_1 (Memref.isWhole_whole _) (fun h => h0 ((hcond13_0 t).mp h)) (fun h => h1 ((hcond13_1 t).mp h)) (iblk13 V c 0 t) (iblk13 V c 1 t) (iblk13 V c 2 t) (iblk13 V c 3 t) (outsAt13 V c (t.val - 1) (Nat.lt_of_le_of_lt (Nat.sub_le _ _) t.isLt)).2.2.2.1 (outsAt13 V c (t.val - 1) (Nat.lt_of_le_of_lt (Nat.sub_le _ _) t.isLt)).2.2.2.2, sout13_B_0 c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) scM13_0 (Memref.isWhole_whole _) scM13_1 (Memref.isWhole_whole _) (fun h => h0 ((hcond13_0 t).mp h)) (fun h => h1 ((hcond13_1 t).mp h)) (iblk13 V c 0 t) (iblk13 V c 1 t) (iblk13 V c 2 t) (iblk13 V c 3 t) (outsAt13 V c (t.val - 1) (Nat.lt_of_le_of_lt (Nat.sub_le _ _) t.isLt)).2.2.2.1 (outsAt13 V c (t.val - 1) (Nat.lt_of_le_of_lt (Nat.sub_le _ _) t.isLt)).2.2.2.2, sout13_B_1 c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) scM13_0 (Memref.isWhole_whole _) scM13_1 (Memref.isWhole_whole _) (fun h => h0 ((hcond13_0 t).mp h)) (fun h => h1 ((hcond13_1 t).mp h)) (iblk13 V c 0 t) (iblk13 V c 1 t) (iblk13 V c 2 t) (iblk13 V c 3 t) (outsAt13 V c (t.val - 1) (Nat.lt_of_le_of_lt (Nat.sub_le _ _) t.isLt)).2.2.2.1 (outsAt13 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h1).trans rfl

/-- `outsAt13` at the last point: over what the point before left in the accumulators. -/
theorem outsAt13_C (c : Dev nD) (t : Fin cfg13.N) (h0 : ¬t.val % 20 = 0) (h1 : t.val % 20 = 19) :
    outsAt13 V c t.val t.isLt = (out13_C_4 c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) scM13_0 (Memref.isWhole_whole _) scM13_1 (Memref.isWhole_whole _) (fun h => h0 ((hcond13_0 t).mp h)) ((hcond13_1 t).mpr h1) (iblk13 V c 0 t) (iblk13 V c 1 t) (iblk13 V c 2 t) (iblk13 V c 3 t) (outsAt13 V c (t.val - 1) (Nat.lt_of_le_of_lt (Nat.sub_le _ _) t.isLt)).2.2.2.1 (outsAt13 V c (t.val - 1) (Nat.lt_of_le_of_lt (Nat.sub_le _ _) t.isLt)).2.2.2.2, out13_C_5 c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) scM13_0 (Memref.isWhole_whole _) scM13_1 (Memref.isWhole_whole _) (fun h => h0 ((hcond13_0 t).mp h)) ((hcond13_1 t).mpr h1) (iblk13 V c 0 t) (iblk13 V c 1 t) (iblk13 V c 2 t) (iblk13 V c 3 t) (outsAt13 V c (t.val - 1) (Nat.lt_of_le_of_lt (Nat.sub_le _ _) t.isLt)).2.2.2.1 (outsAt13 V c (t.val - 1) (Nat.lt_of_le_of_lt (Nat.sub_le _ _) t.isLt)).2.2.2.2, out13_C_6 c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) scM13_0 (Memref.isWhole_whole _) scM13_1 (Memref.isWhole_whole _) (fun h => h0 ((hcond13_0 t).mp h)) ((hcond13_1 t).mpr h1) (iblk13 V c 0 t) (iblk13 V c 1 t) (iblk13 V c 2 t) (iblk13 V c 3 t) (outsAt13 V c (t.val - 1) (Nat.lt_of_le_of_lt (Nat.sub_le _ _) t.isLt)).2.2.2.1 (outsAt13 V c (t.val - 1) (Nat.lt_of_le_of_lt (Nat.sub_le _ _) t.isLt)).2.2.2.2, sout13_C_0 c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) scM13_0 (Memref.isWhole_whole _) scM13_1 (Memref.isWhole_whole _) (fun h => h0 ((hcond13_0 t).mp h)) ((hcond13_1 t).mpr h1) (iblk13 V c 0 t) (iblk13 V c 1 t) (iblk13 V c 2 t) (iblk13 V c 3 t) (outsAt13 V c (t.val - 1) (Nat.lt_of_le_of_lt (Nat.sub_le _ _) t.isLt)).2.2.2.1 (outsAt13 V c (t.val - 1) (Nat.lt_of_le_of_lt (Nat.sub_le _ _) t.isLt)).2.2.2.2, sout13_C_1 c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) scM13_0 (Memref.isWhole_whole _) scM13_1 (Memref.isWhole_whole _) (fun h => h0 ((hcond13_0 t).mp h)) ((hcond13_1 t).mpr h1) (iblk13 V c 0 t) (iblk13 V c 1 t) (iblk13 V c 2 t) (iblk13 V c 3 t) (outsAt13 V c (t.val - 1) (Nat.lt_of_le_of_lt (Nat.sub_le _ _) t.isLt)).2.2.2.1 (outsAt13 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_pos h1).trans rfl

/-! ## The region invariant -/

/-- The invariant before position `n`: before the first point the class's (every scoped buffer that is no staging
    buffer at anything, the generator register at some state); afterwards the same with the two accumulators at what the
    point before left in them. -/
def PhiS13 (c : Dev nD) : (n : ℕ) → n ≤ cfg13.N → sProp 𝕄
  | 0, _ => Pipeline.ΦA spec13 c
  | n + 1, hn => iprop(iprop(iprop(owns (c : Thread nD τ) scM13_0 fullShare ((outsAt13 V c n hn).2.2.2.1) ∗ owns (c : Thread nD τ) scM13_1 fullShare ((outsAt13 V c n hn).2.2.2.2)) ∗ Pipeline.scopedRestBut (Ix := Unit) (Name := ℕ) (U := UR sig nD τ) (Lvl := ℕ) (Val := Elt F) spec13 c [cc13_scratch0, cc13_scratch1]) ∗ (∃ r, prngReg c r))

theorem PhiS13_zero (c : Dev nD) (n : ℕ) (h : n ≤ cfg13.N) (hz : n = 0) : PhiS13 V c n h = Pipeline.ΦA spec13 c := by
  subst hz; rfl

/-- After point `n`: the accumulators at that point's contents. -/
theorem PhiS13_succ (c : Dev nD) (n : ℕ) (hn : n < cfg13.N) :
    PhiS13 V c (n + 1) hn = iprop(iprop(iprop(owns (c : Thread nD τ) scM13_0 fullShare ((outsAt13 V c n hn).2.2.2.1) ∗ owns (c : Thread nD τ) scM13_1 fullShare ((outsAt13 V c n hn).2.2.2.2)) ∗ Pipeline.scopedRestBut (Ix := Unit) (Name := ℕ) (U := UR sig nD τ) (Lvl := ℕ) (Val := Elt F) spec13 c [cc13_scratch0, cc13_scratch1]) ∗ (∃ r, prngReg c r)) := rfl

/-- Before a point that is not the first: the accumulators at what the point before left. -/
theorem PhiS13_pos (c : Dev nD) (n : ℕ) (h : n ≤ cfg13.N) (hz : n ≠ 0) :
    PhiS13 V c n h = iprop(iprop(iprop(owns (c : Thread nD τ) scM13_0 fullShare ((outsAt13 V c (n - 1) (by omega)).2.2.2.1) ∗ owns (c : Thread nD τ) scM13_1 fullShare ((outsAt13 V c (n - 1) (by omega)).2.2.2.2)) ∗ Pipeline.scopedRestBut (Ix := Unit) (Name := ℕ) (U := UR sig nD τ) (Lvl := ℕ) (Val := Elt F) spec13 c [cc13_scratch0, cc13_scratch1]) ∗ (∃ r, prngReg c r)) := by
  cases n with
  | zero => exact absurd rfl hz
  | succ n => rfl

/-! ## The pipeline's proof data -/

/-- The proof data of pipeline 13 on core `c`: the arrays as the region finds them; after the body at point `t` each
    input's buffer at its block and the outputs' at `outsAt13`; the invariant `PhiS13`; nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => iblk13 V c 3 t
    | ⟨4, _⟩ => (outsAt13 V c t.val t.isLt).1
    | ⟨5, _⟩ => (outsAt13 V c t.val t.isLt).2.1
    | ⟨6, _⟩ => (outsAt13 V c t.val t.isLt).2.2.1
  Φ t := PhiS13 V c t.val (Nat.le_of_lt_succ t.isLt)
  q _ := fullShare
  owed _ := 0

/-- The proof data's arrays are the region-entry contents. -/
theorem A_eq13 (c : Dev nD) (w : Fin cfg13.W) : (dat13 V c).A w = V c (Pipeline.arrRef spec13 w) := by
  dsimp only [dat13]

/-- The invariant at a point's start, restated at `t.val`. -/
theorem PhiS13_castSucc (c : Dev nD) (t : Fin cfg13.N) :
    (dat13 V c).Φ t.castSucc = PhiS13 V c t.val (Nat.le_of_lt t.isLt) := by
  dsimp only [dat13]; simp only [Fin.coe_castSucc]

/-- What the body leaves, window by window. -/
theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) : (dat13 V c).after 3 t = iblk13 V c 3 t := by dsimp only [dat13]
theorem after13_4 (c : Dev nD) (t : Fin cfg13.N) : (dat13 V c).after 4 t = (outsAt13 V c t.val t.isLt).1 := by dsimp only [dat13]
theorem after13_5 (c : Dev nD) (t : Fin cfg13.N) : (dat13 V c).after 5 t = (outsAt13 V c t.val t.isLt).2.1 := by dsimp only [dat13]
theorem after13_6 (c : Dev nD) (t : Fin cfg13.N) : (dat13 V c).after 6 t = (outsAt13 V c t.val t.isLt).2.2.1 := by dsimp only [dat13]

/-- Each input's current staging buffer holds its block at every point, fetched there or not. -/
theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d
theorem before13_3 (c : Dev nD) (t : Fin cfg13.N) (d) : (dat13 V c).before 3 t d = iblk13 V c 3 t :=
  before13_3_of V (dat13 V c) (A_eq13 V c 3) (after13_3 V c) t d

/-! ## The body obligation, at a generic point -/

/-- What the body is called with at point `t`, the windows one by one, -/
def bodyPre13 (c : Dev nD) (t : Fin cfg13.N) : sProp 𝕄 :=
  iprop((dat13 V c).Φ t.castSucc ∗ (dat13 V c).owesAt () t.castSucc
    ∗ (∃ d, owns (c : Thread nD τ) (ms13_0 t) fullShare ((dat13 V c).before 0 t d))
    ∗ (∃ d, owns (c : Thread nD τ) (ms13_1 t) fullShare ((dat13 V c).before 1 t d))
    ∗ (∃ d, owns (c : Thread nD τ) (ms13_2 t) fullShare ((dat13 V c).before 2 t d))
    ∗ (∃ d, owns (c : Thread nD τ) (ms13_3 t) fullShare ((dat13 V c).before 3 t d))
    ∗ (∃ d, owns (c : Thread nD τ) (ms13_4 t) fullShare ((dat13 V c).before 4 t d))
    ∗ (∃ d, owns (c : Thread nD τ) (ms13_5 t) fullShare ((dat13 V c).before 5 t d))
    ∗ (∃ d, owns (c : Thread nD τ) (ms13_6 t) fullShare ((dat13 V c).before 6 t d)))

/-- and what it returns. -/
def bodyPost13 (c : Dev nD) (t : Fin cfg13.N) : sProp 𝕄 :=
  iprop((dat13 V c).Φ t.succ ∗ (dat13 V c).owesAt () t.succ
    ∗ (dat13 V c).leavesExact 0 t
    ∗ (dat13 V c).leavesExact 1 t
    ∗ (dat13 V c).leavesExact 2 t
    ∗ (dat13 V c).leavesExact 3 t
    ∗ (dat13 V c).leavesExact 4 t
    ∗ (dat13 V c).leavesExact 5 t
    ∗ (dat13 V c).leavesExact 6 t)

set_option maxHeartbeats 8000000 in
/-- The body at any point: the inputs' memrefs hold their blocks; the closed forms say which case the point is in; the
    invariant hands the body the accumulators at what the point before left (at anything at the first point) and takes
    them back at this point's contents; away from the last point the statistics outputs are handed back untouched; the
    core owes nothing throughout. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2, before13_3]
  rw [show (dat13 V c).owesAt () t.succ = (dat13 V c).owesAt () t.castSucc from rfl]
  rw [show (dat13 V c).Φ t.succ = PhiS13 V c (t.val + 1) t.isLt from rfl, PhiS13_succ]
  have hN : t.val < 20 := lt_of_lt_of_eq t.isLt (show cfg13.N = 20 from N_13)
  by_cases h0 : t.val % 20 = 0
  · have h1 : ¬t.val % 20 = 19 := by omega
    rw [show (dat13 V c).leavesExact 0 t = owns (c : Thread nD τ) (ms13_0 t) fullShare ((dat13 V c).after 0 t) from by
      unfold Dat.leavesExact; rw [liveAt13_0 t], after13_0]
    rw [show (dat13 V c).leavesExact 1 t = owns (c : Thread nD τ) (ms13_1 t) fullShare ((dat13 V c).after 1 t) from by
      unfold Dat.leavesExact; rw [liveAt13_1 t], after13_1]
    rw [show (dat13 V c).leavesExact 2 t = owns (c : Thread nD τ) (ms13_2 t) fullShare ((dat13 V c).after 2 t) from by
      unfold Dat.leavesExact; rw [liveAt13_2 t], after13_2]
    rw [show (dat13 V c).leavesExact 3 t = owns (c : Thread nD τ) (ms13_3 t) fullShare ((dat13 V c).after 3 t) from by
      unfold Dat.leavesExact; rw [liveAt13_3 t], after13_3]
    rw [show (dat13 V c).leavesExact 4 t = owns (c : Thread nD τ) (ms13_4 t) fullShare ((dat13 V c).after 4 t) from by
      unfold Dat.leavesExact; rw [liveAt13_4 t], after13_4]
    rw [Dat.leavesExact_idle (dat13 V c) 5 t (idleAt13_5 t (fun h => h1 ((hcond13_1 t).mp h))) (noFlush13_5 t (fun h => h1 ((hcond13_1 t).mp h)))]
    rw [Dat.leavesExact_idle (dat13 V c) 6 t (idleAt13_6 t (fun h => h1 ((hcond13_1 t).mp h))) (noFlush13_6 t (fun h => h1 ((hcond13_1 t).mp h)))]
    rw [outsAt13_A V c t h0 h1]
    unfold out13_A_4 sout13_A_0 sout13_A_1; (try dsimp only)
    have hz : t.val = 0 := by omega
    rw [PhiS13_castSucc V c t, PhiS13_zero V c _ _ hz, PhiA13_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun13_A c (grid13.coords t) _ _ _ _ _ _ _ _ _ _ _ _ _ _ _ _ _ _ ((hcond13_0 t).mpr h0) (fun h => h1 ((hcond13_1 t).mp h)) (iblk13 V c 0 t) (iblk13 V c 1 t) (iblk13 V c 2 t) (iblk13 V c 3 t)).2.2.2.2.2 _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, ⟨%e4, H4⟩, H5, H6, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover13_A_0 c _ _ _ _ _ _ _ _ _ _ _ _ _ _ _ _ _ _ _ _ _ _ _ _ _)
          · unfold owns; iexists _; isplitr
            swap; · iexact HS1
            ipureintro; exact View.read_writes_of_cover _ _ _ _ _ (scover13_A_1 c _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover13_A_4 c _ _ _ _ _ _ _ _ _ _ _ _ _ _ _ _ _ _ _ _ _ _ _ _ _)
    isplitl [H5]; · iexists _; iexact H5
    iexists _; iexact H6
  · by_cases h1 : t.val % 20 = 19
    · rw [show (dat13 V c).leavesExact 0 t = owns (c : Thread nD τ) (ms13_0 t) fullShare ((dat13 V c).after 0 t) from by
        unfold Dat.leavesExact; rw [liveAt13_0 t], after13_0]
      rw [show (dat13 V c).leavesExact 1 t = owns (c : Thread nD τ) (ms13_1 t) fullShare ((dat13 V c).after 1 t) from by
        unfold Dat.leavesExact; rw [liveAt13_1 t], after13_1]
      rw [show (dat13 V c).leavesExact 2 t = owns (c : Thread nD τ) (ms13_2 t) fullShare ((dat13 V c).after 2 t) from by
        unfold Dat.leavesExact; rw [liveAt13_2 t], after13_2]
      rw [show (dat13 V c).leavesExact 3 t = owns (c : Thread nD τ) (ms13_3 t) fullShare ((dat13 V c).after 3 t) from by
        unfold Dat.leavesExact; rw [liveAt13_3 t], after13_3]
      rw [show (dat13 V c).leavesExact 4 t = owns (c : Thread nD τ) (ms13_4 t) fullShare ((dat13 V c).after 4 t) from by
        unfold Dat.leavesExact; rw [liveAt13_4 t], after13_4]
      rw [show (dat13 V c).leavesExact 5 t = owns (c : Thread nD τ) (ms13_5 t) fullShare ((dat13 V c).after 5 t) from by
        unfold Dat.leavesExact; rw [liveAt13_5 t ((hcond13_1 t).mpr h1)], after13_5]
      rw [show (dat13 V c).leavesExact 6 t = owns (c : Thread nD τ) (ms13_6 t) fullShare ((dat13 V c).after 6 t) from by
        unfold Dat.leavesExact; rw [liveAt13_6 t ((hcond13_1 t).mpr h1)], after13_6]
      rw [outsAt13_C V c t h0 h1]
      unfold out13_C_4 out13_C_5 out13_C_6 sout13_C_0 sout13_C_1; (try dsimp only)
      have hz : t.val ≠ 0 := by omega
      rw [PhiS13_castSucc V c t, PhiS13_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun13_C c (grid13.coords t) _ _ _ _ _ _ _ _ _ _ _ _ _ _ _ _ _ _ (fun h => h0 ((hcond13_0 t).mp h)) ((hcond13_1 t).mpr h1) (iblk13 V c 0 t) (iblk13 V c 1 t) (iblk13 V c 2 t) (iblk13 V c 3 t) _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, ⟨%e4, H4⟩, ⟨%e5, H5⟩, ⟨%e6, H6⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover13_C_0 c _ _ _ _ _ _ _ _ _ _ _ _ _ _ _ _ _ _ _ _ _ _ _ _ _ _ _)
            · unfold owns; iexists _; isplitr
              swap; · iexact HS1
              ipureintro; exact View.read_writes_of_cover _ _ _ _ _ (scover13_C_1 c _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover13_C_4 c _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover13_C_5 c _ _ _ _ _ _ _ _ _ _ _ _ _ _ _ _ _ _ _ _ _ _ _ _ _ _ _)
      unfold owns; iexists _; isplitr
      swap; · iexact H6
      ipureintro; exact View.read_writes_of_cover _ _ _ _ _ (cover13_C_6 c _ _ _ _ _ _ _ _ _ _ _ _ _ _ _ _ _ _ _ _ _ _ _ _ _ _ _)
    · rw [show (dat13 V c).leavesExact 0 t = owns (c : Thread nD τ) (ms13_0 t) fullShare ((dat13 V c).after 0 t) from by
        unfold Dat.leavesExact; rw [liveAt13_0 t], after13_0]
      rw [show (dat13 V c).leavesExact 1 t = owns (c : Thread nD τ) (ms13_1 t) fullShare ((dat13 V c).after 1 t) from by
        unfold Dat.leavesExact; rw [liveAt13_1 t], after13_1]
      rw [show (dat13 V c).leavesExact 2 t = owns (c : Thread nD τ) (ms13_2 t) fullShare ((dat13 V c).after 2 t) from by
        unfold Dat.leavesExact; rw [liveAt13_2 t], after13_2]
      rw [show (dat13 V c).leavesExact 3 t = owns (c : Thread nD τ) (ms13_3 t) fullShare ((dat13 V c).after 3 t) from by
        unfold Dat.leavesExact; rw [liveAt13_3 t], after13_3]
      rw [show (dat13 V c).leavesExact 4 t = owns (c : Thread nD τ) (ms13_4 t) fullShare ((dat13 V c).after 4 t) from by
        unfold Dat.leavesExact; rw [liveAt13_4 t], after13_4]
      rw [Dat.leavesExact_idle (dat13 V c) 5 t (idleAt13_5 t (fun h => h1 ((hcond13_1 t).mp h))) (noFlush13_5 t (fun h => h1 ((hcond13_1 t).mp h)))]
      rw [Dat.leavesExact_idle (dat13 V c) 6 t (idleAt13_6 t (fun h => h1 ((hcond13_1 t).mp h))) (noFlush13_6 t (fun h => h1 ((hcond13_1 t).mp h)))]
      rw [outsAt13_B V c t h0 h1]
      unfold out13_B_4 sout13_B_0 sout13_B_1; (try dsimp only)
      have hz : t.val ≠ 0 := by omega
      rw [PhiS13_castSucc V c t, PhiS13_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun13_B c (grid13.coords t) _ _ _ _ _ _ _ _ _ _ _ _ _ _ _ _ _ _ (fun h => h0 ((hcond13_0 t).mp h)) (fun h => h1 ((hcond13_1 t).mp h)) (iblk13 V c 0 t) (iblk13 V c 1 t) (iblk13 V c 2 t) (iblk13 V c 3 t) _ _).2.2.2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%e4, H4⟩, H5, H6, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover13_B_0 c _ _ _ _ _ _ _ _ _ _ _ _ _ _ _ _ _ _ _ _ _ _ _ _ _ _ _)
            · unfold owns; iexists _; isplitr
              swap; · iexact HS1
              ipureintro; exact View.read_writes_of_cover _ _ _ _ _ (scover13_B_1 c _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover13_B_4 c _ _ _ _ _ _ _ _ _ _ _ _ _ _ _ _ _ _ _ _ _ _ _ _ _ _ _)
      isplitl [H5]; · iexists _; iexact H5
      iexists _; iexact H6

/-- The library's body obligation, at every point. -/
theorem body_obligation13 (c : Dev nD) : BodyObligation (dat13 (F := F) V c) (defs₀ (F := F)) Variants.none () Set.univ := fun t => by
  rw [bigSep_W13, bigSep_W13]
  exact sound_body13 V c t

/-! ## Entering and leaving the region -/

/-- What the launch hands the region is the invariant before the first point. -/
theorem Φ13_in (c : Dev nD) : Pipeline.ΦA spec13 c ⊢ (dat13 V c).Φ 0 := by
  rw [show (dat13 V c).Φ 0 = PhiS13 V c 0 (Nat.zero_le _) from rfl, PhiS13_zero V c 0 _ rfl]
  try exact Idealize.SL.BI.Entails.refl _

/-- After any point but the first the invariant gives the class's back: what the accumulators hold is forgotten. -/
theorem Phi13_out (c : Dev nD) (t : Fin (cfg13.N + 1)) (ht : t.val ≠ 0) : (dat13 V c).Φ t ⊢ Pipeline.ΦA spec13 c := by
  rw [show (dat13 V c).Φ t = PhiS13 V c t.val (Nat.le_of_lt_succ t.isLt) from rfl, PhiS13_pos V c _ _ ht, PhiA13_eq]
  iintro ⟨⟨⟨HS0, HS1⟩, HR⟩, Hg⟩
  isplitl [HS0 HS1 HR]
  · isplitl [HS0 HS1]
    · isplitl [HS0]
      · iexists _; iexact HS0
      · iexists _; iexact HS1
    iexact HR
  iexact Hg

/-- The same after the last point. -/
theorem Φ13_out (c : Dev nD) : (dat13 V c).Φ (Fin.last cfg13.N) ⊢ Pipeline.ΦA spec13 c :=
  Phi13_out V c _ (by rw [Fin.val_last]; have : cfg13.N = 20 := N_13; omega)

end Cert.Kernel.Fr

end
-- ==== Proof.K.R14.lean ====
import proofs.«173191_j73083163508880_2_alg».proof.Proof.Gen.Kernel.Launch
import proofs.«173191_j73083163508880_2_alg».proof.Proof.Gen.Kernel.Skeleton
import proofs.«173191_j73083163508880_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the elaborator's structural look recurses once per coordinate
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # The batch-norm application `cc14__bn_apply_kernel` (pipeline 14), at the entry contents `V`

Each of the 10 grid points reads a [5000,128] block of the activations and the four per-column parameter rows (mean,
inverse standard deviation, scale, shift), and stores `(x - mean) * invstd * g + b`, the rows broadcast down the
block, over the whole [5000,128] output block. -/

/-! ## The windows' blocks -/

/-- Window `w`'s block at point `t`, read off its array as the region finds it (`V`). -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- Input window 0 (the row block of the activations) holds its block at every point, for any proof data whose array is `V`'s and whose
    body leaves the block in place: the window is uncut and never idle, and where it is not fetched its block index
    has not moved. -/
theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)

/-- Input window 1 (the per-column mean, one constant block fetched at the first point only) holds its block at every point, for any proof data whose array is `V`'s and whose
    body leaves the block in place: the window is uncut and never idle, and where it is not fetched its block index
    has not moved. -/
theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)

/-- Input window 2 (the per-column inverse standard deviation, one constant block fetched at the first point only) holds its block at every point, for any proof data whose array is `V`'s and whose
    body leaves the block in place: the window is uncut and never idle, and where it is not fetched its block index
    has not moved. -/
theorem before14_2_of {c : Dev nD} (dat : Dat τ (Elt F) Unit ℕ (UR sig nD τ) ℕ cfg14 c) (hA : dat.A 2 = V c (Pipeline.arrRef spec14 2))
    (hafter : ∀ t, dat.after 2 t = iblk14 V c 2 t) (t : Fin cfg14.N) (d) : dat.before 2 t d = iblk14 V c 2 t :=
  (dat.before_in_eq_fetched 2 rfl (fun _ => rfl) (fun _ _ _ => rfl) (fun t => by rw [hafter]; unfold Dat.blockOf iblk14; rw [hA]; try rfl) t d).trans
    (by unfold Dat.fetched Dat.blockOf iblk14; rw [hA]; try rfl)

/-- Input window 3 (the scale vector, one constant block fetched at the first point only) holds its block at every point, for any proof data whose array is `V`'s and whose
    body leaves the block in place: the window is uncut and never idle, and where it is not fetched its block index
    has not moved. -/
theorem before14_3_of {c : Dev nD} (dat : Dat τ (Elt F) Unit ℕ (UR sig nD τ) ℕ cfg14 c) (hA : dat.A 3 = V c (Pipeline.arrRef spec14 3))
    (hafter : ∀ t, dat.after 3 t = iblk14 V c 3 t) (t : Fin cfg14.N) (d) : dat.before 3 t d = iblk14 V c 3 t :=
  (dat.before_in_eq_fetched 3 rfl (fun _ => rfl) (fun _ _ _ => rfl) (fun t => by rw [hafter]; unfold Dat.blockOf iblk14; rw [hA]; try rfl) t d).trans
    (by unfold Dat.fetched Dat.blockOf iblk14; rw [hA]; try rfl)

/-- Input window 4 (the shift vector, one constant block fetched at the first point only) holds its block at every point, for any proof data whose array is `V`'s and whose
    body leaves the block in place: the window is uncut and never idle, and where it is not fetched its block index
    has not moved. -/
theorem before14_4_of {c : Dev nD} (dat : Dat τ (Elt F) Unit ℕ (UR sig nD τ) ℕ cfg14 c) (hA : dat.A 4 = V c (Pipeline.arrRef spec14 4))
    (hafter : ∀ t, dat.after 4 t = iblk14 V c 4 t) (t : Fin cfg14.N) (d) : dat.before 4 t d = iblk14 V c 4 t :=
  (dat.before_in_eq_fetched 4 rfl (fun _ => rfl) (fun _ _ _ => rfl) (fun t => by rw [hafter]; unfold Dat.blockOf iblk14; rw [hA]; try rfl) t d).trans
    (by unfold Dat.fetched Dat.blockOf iblk14; rw [hA]; try rfl)

/-! ## The body's accesses -/

/-- The whole [5000,128] block. -/
abbrev r14_0 : Rect S5000x128 := Rect.unit (s := S5000x128) ![0, 0] S5000x128.size inb_S5000x128_S5000x128_0_0
/-- The whole [1,128] row. -/
abbrev r14_1 : Rect S1x128 := Rect.unit (s := S1x128) ![0, 0] S1x128.size inb_S1x128_S1x128_0_0
/-- The whole [128] vector. -/
abbrev r14_2 : Rect S128 := Rect.unit (s := S128) ![0] S128.size inb_S128_S128_0

/-! ## What the body leaves in the output window's buffer -/

/-- Window 5's staging buffer after the body, from the input windows' blocks: its one store, of the normalised block
    as the skeleton's payload computes it, over the whole block. -/
def out14_5 (x0 : Vec F S5000x128 .f32) (x1 : Vec F S1x128 .f32) (x2 : Vec F S1x128 .f32) (x3 : Vec F S128 .f32) (x4 : Vec F S128 .f32) : Vec F S5000x128 .f32 :=
  View.canon [⟨r14_0, k14_pay1 (View.ld x0 r14_0) (View.ld x1 r14_1) (View.ld x2 r14_1) (View.ld x3 r14_2) (View.ld x4 r14_2)⟩]

/-- The store's rectangle is the whole buffer, so it covers it. -/
theorem cover14_5 (p0 : Vec F S5000x128 .f32) (y : S5000x128.Idx) :
    ∃ pc ∈ ([⟨r14_0, p0⟩] : List (View.Piece (Elt F) S5000x128 .f32)), y ∈ pc.1.set :=
  View.cover_of_tiled [⟨r14_0, p0⟩] S5000x128.size (by rfl) y

/-! ## The body's triple -/

set_option maxHeartbeats 1000000 in
/-- The kernel body on whole staging memrefs, the inputs' at read contents `x0`…`x4` and the output's at anything,
    runs to the continuation holding the inputs' as they were and the output's at `out14_5` of the inputs'. -/
theorem sound_kernel14 (c : Dev nD) (E : Set ℕ) (i : grid14.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128 .f32) (harg4 : arg4.IsWhole) (arg5 : Memref sig .tc .vmem S128 .f32) (harg5 : arg5.IsWhole) (arg6 : Memref sig .tc .vmem S5000x128 .f32) (harg6 : arg6.IsWhole)
    (x0 : Vec F S5000x128 .f32) (x1 : Vec F S1x128 .f32) (x2 : Vec F S1x128 .f32) (x3 : Vec F S128 .f32) (x4 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out14_5 x0 x1 x2 x3 x4)) -∗ K ⟨⟩))
      ⊢ wp frame (wpE (defs₀ (F := F)) Variants.none c none) E (cc14__bn_apply_kernel i arg1 harg1 arg2 harg2 arg3 harg3 arg4 harg4 arg5 harg5 arg6 harg6) K := by
  simp only [cc14__bn_apply_kernel_eq_skeleton]; unfold cc14__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover14_5 _)

/-! ## The pipeline's proof data -/

/-- The proof data of pipeline 14 on core `c`: the arrays as the region finds them (`V`); after the body at point
    `t` each input's buffer at its block and the output's at `out14_5` of the input blocks; the invariant the scoped
    rest and the generator register, untouched; nothing owed; full shares. -/
def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => iblk14 V c 3 t
    | ⟨4, _⟩ => iblk14 V c 4 t
    | ⟨5, _⟩ => out14_5 (iblk14 V c 0 t) (iblk14 V c 1 t) (iblk14 V c 2 t) (iblk14 V c 3 t) (iblk14 V c 4 t)
  Φ _ := Pipeline.ΦA spec14 c
  q _ := fullShare
  owed _ := 0

/-- The proof data's arrays are the region-entry contents. -/
theorem A_eq14 (c : Dev nD) (w : Fin cfg14.W) : (dat14 V c).A w = V c (Pipeline.arrRef spec14 w) := by
  dsimp only [dat14]

/-- What the body leaves, window by window. -/
theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = iblk14 V c 2 t := by dsimp only [dat14]
theorem after14_3 (c : Dev nD) (t : Fin cfg14.N) : (dat14 V c).after 3 t = iblk14 V c 3 t := by dsimp only [dat14]
theorem after14_4 (c : Dev nD) (t : Fin cfg14.N) : (dat14 V c).after 4 t = iblk14 V c 4 t := by dsimp only [dat14]
theorem after14_5 (c : Dev nD) (t : Fin cfg14.N) : (dat14 V c).after 5 t = out14_5 (iblk14 V c 0 t) (iblk14 V c 1 t) (iblk14 V c 2 t) (iblk14 V c 3 t) (iblk14 V c 4 t) := by dsimp only [dat14]

/-- Each input's current staging buffer holds its block at every point, fetched there or not. -/
theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d
theorem before14_2 (c : Dev nD) (t : Fin cfg14.N) (d) : (dat14 V c).before 2 t d = iblk14 V c 2 t :=
  before14_2_of V (dat14 V c) (A_eq14 V c 2) (after14_2 V c) t d
theorem before14_3 (c : Dev nD) (t : Fin cfg14.N) (d) : (dat14 V c).before 3 t d = iblk14 V c 3 t :=
  before14_3_of V (dat14 V c) (A_eq14 V c 3) (after14_3 V c) t d
theorem before14_4 (c : Dev nD) (t : Fin cfg14.N) (d) : (dat14 V c).before 4 t d = iblk14 V c 4 t :=
  before14_4_of V (dat14 V c) (A_eq14 V c 4) (after14_4 V c) t d

/-! ## The body obligation, at a generic point -/

/-- What the body is called with at point `t`, the windows one by one, -/
def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d))
    ∗ (∃ d, owns (c : Thread nD τ) (st14_3 t) fullShare ((dat14 V c).before 3 t d))
    ∗ (∃ d, owns (c : Thread nD τ) (st14_4 t) fullShare ((dat14 V c).before 4 t d))
    ∗ (∃ d, owns (c : Thread nD τ) (st14_5 t) fullShare ((dat14 V c).before 5 t d)))

/-- and what it returns. -/
def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t)
    ∗ owns (c : Thread nD τ) (st14_3 t) fullShare ((dat14 V c).after 3 t)
    ∗ owns (c : Thread nD τ) (st14_4 t) fullShare ((dat14 V c).after 4 t)
    ∗ owns (c : Thread nD τ) (st14_5 t) fullShare ((dat14 V c).after 5 t))

/-- The body at any point: the inputs' memrefs hold their blocks, so `sound_kernel14` applies; the invariant and the
    core's `owes` pass through unread. -/
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1, before14_2, before14_3, before14_4]
  rw [show (dat14 V c).Φ t.succ = (dat14 V c).Φ t.castSucc from rfl,
    show (dat14 V c).owesAt () t.succ = (dat14 V c).owesAt () t.castSucc from rfl,
    after14_0, after14_1, after14_2, after14_3, after14_4, after14_5]
  iintro ⟨HΦ, Ho, ⟨%d0, H0⟩, ⟨%d1, H1⟩, ⟨%d2, H2⟩, ⟨%d3, H3⟩, ⟨%d4, H4⟩, ⟨%d5, H5⟩⟩
  iapply (sound_kernel14 c Set.univ _ _ _ _ _ _ _ _ _ _ _ _ _ (iblk14 V c 0 t) (iblk14 V c 1 t) (iblk14 V c 2 t) (iblk14 V c 3 t) (iblk14 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation14 (c : Dev nD) : BodyObligation (dat14 (F := F) V c) (defs₀ (F := F)) Variants.none () Set.univ := fun t => by
  rw [bigSep_W14, bigSep_W14]
  exact sound_body14 V c t

end Cert.Kernel.Fr

end
-- ==== Proof.K.Chain.lean ====
/- The contents of every TensorCore buffer between the items of @main, as a fold from the launch memory: a stretch of
   host operations applies its operations' functions; a kernel region leaves each of its output arrays at what its
   grid's write-backs leave there and every other buffer as it was. No item writes an argument array, so each of
   the 42 arguments is read back at the end as launched. -/
import proofs.«173191_j73083163508880_2_alg».proof.Proof.K.R0
import proofs.«173191_j73083163508880_2_alg».proof.Proof.K.R1
import proofs.«173191_j73083163508880_2_alg».proof.Proof.K.R2
import proofs.«173191_j73083163508880_2_alg».proof.Proof.K.R3
import proofs.«173191_j73083163508880_2_alg».proof.Proof.K.R4
import proofs.«173191_j73083163508880_2_alg».proof.Proof.K.R5
import proofs.«173191_j73083163508880_2_alg».proof.Proof.K.R6
import proofs.«173191_j73083163508880_2_alg».proof.Proof.K.R7
import proofs.«173191_j73083163508880_2_alg».proof.Proof.K.R8
import proofs.«173191_j73083163508880_2_alg».proof.Proof.K.R9
import proofs.«173191_j73083163508880_2_alg».proof.Proof.K.R10
import proofs.«173191_j73083163508880_2_alg».proof.Proof.K.R11
import proofs.«173191_j73083163508880_2_alg».proof.Proof.K.R12
import proofs.«173191_j73083163508880_2_alg».proof.Proof.K.R13
import proofs.«173191_j73083163508880_2_alg».proof.Proof.K.R14
import proofs.«173191_j73083163508880_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host stretch `hostOps0`. -/
abbrev W1 : Dev nD → Valuation τ sig (Elt F) := fun c => StableHlo.after hostOps0 (W0 m ρ c)
/-- A buffer the stretch does not write keeps its contents. -/
theorem W1_keep (c : Dev nD) (r : Ref sig .tc) (h : r ∉ hostOps0_W) :
    W1 m ρ c (Proc.devRef .tc r) = W0 m ρ c (Proc.devRef .tc r) :=
  StableHlo.after_of_writes_sub hostOps0 _ hostOps0_writes h
/-- The same contents read at the TensorCore's references. -/
abbrev B1 : (c : Dev nD) → (b : Ref sig .tc) → Buf (Elt F) ((c : Thread nD τ).loc b) := fun c b => W1 m ρ c b
/-- After region 0: its arrays at what the pipeline leaves (an input's as entered, an output's at its write-backs
    folded over the grid), every other buffer as entered. -/
def W2 (c : Dev nD) : Valuation τ sig (Elt F) :=
  Pipeline.withArrays spec0 c (W1 m ρ c) fun w => (dat0 (B1 m ρ) c).arrAt w cfg0.N
theorem W2_arr (c : Dev nD) (w : Fin cfg0.W) :
    W2 m ρ c (Proc.devRef .tc (Pipeline.arrRef spec0 w)) = (dat0 (B1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same contents read at the TensorCore's references. -/
abbrev B2 : (c : Dev nD) → (b : Ref sig .tc) → Buf (Elt F) ((c : Thread nD τ).loc b) := fun c b => W2 m ρ c b
theorem hF0 (c : Dev nD) (w : Fin cfg0.W) : (dat0 (B1 m ρ) c).arrAt w cfg0.N = B2 m ρ c (Pipeline.arrRef spec0 w) :=
  (W2_arr m ρ c w).symm
theorem hrest0 (c : Dev nD) : ∀ b, b ∉ Finset.univ.image (Pipeline.arrRef spec0) → B2 m ρ c b = B1 m ρ c b :=
  fun b hb => W2_of_ne m ρ c b fun w e => hb (Finset.mem_image.mpr ⟨w, Finset.mem_univ _, e⟩)
/-- Input window 0's array is left as entered. -/
theorem W2_in0 (c : Dev nD) : W2 m ρ c (Proc.devRef .tc main_v15) = W1 m ρ c (Proc.devRef .tc main_v15) :=
  (W2_arr m ρ c 0).trans (((dat0 (B1 m ρ) c).arrAt_in 0 rfl _).trans (A_eq0 (B1 m ρ) c 0))
/-- Input window 1's array is left as entered. -/
theorem W2_in1 (c : Dev nD) : W2 m ρ c (Proc.devRef .tc main_v20) = W1 m ρ c (Proc.devRef .tc main_v20) :=
  (W2_arr m ρ c 1).trans (((dat0 (B1 m ρ) c).arrAt_in 1 rfl _).trans (A_eq0 (B1 m ρ) c 1))
/-- Input window 2's array is left as entered. -/
theorem W2_in2 (c : Dev nD) : W2 m ρ c (Proc.devRef .tc main_arg0) = W1 m ρ c (Proc.devRef .tc main_arg0) :=
  (W2_arr m ρ c 2).trans (((dat0 (B1 m ρ) c).arrAt_in 2 rfl _).trans (A_eq0 (B1 m ρ) c 2))
/-- Input window 3's array is left as entered. -/
theorem W2_in3 (c : Dev nD) : W2 m ρ c (Proc.devRef .tc main_arg12) = W1 m ρ c (Proc.devRef .tc main_arg12) :=
  (W2_arr m ρ c 3).trans (((dat0 (B1 m ρ) c).arrAt_in 3 rfl _).trans (A_eq0 (B1 m ρ) c 3))
/-- Input window 4's array is left as entered. -/
theorem W2_in4 (c : Dev nD) : W2 m ρ c (Proc.devRef .tc main_arg13) = W1 m ρ c (Proc.devRef .tc main_arg13) :=
  (W2_arr m ρ c 4).trans (((dat0 (B1 m ρ) c).arrAt_in 4 rfl _).trans (A_eq0 (B1 m ρ) c 4))
/-- Input window 5's array is left as entered. -/
theorem W2_in5 (c : Dev nD) : W2 m ρ c (Proc.devRef .tc main_arg14) = W1 m ρ c (Proc.devRef .tc main_arg14) :=
  (W2_arr m ρ c 5).trans (((dat0 (B1 m ρ) c).arrAt_in 5 rfl _).trans (A_eq0 (B1 m ρ) c 5))
/-- After the host stretch `hostOps1`. -/
abbrev W3 : Dev nD → Valuation τ sig (Elt F) := fun c => StableHlo.after hostOps1 (W2 m ρ c)
/-- A buffer the stretch does not write keeps its contents. -/
theorem W3_keep (c : Dev nD) (r : Ref sig .tc) (h : r ∉ hostOps1_W) :
    W3 m ρ c (Proc.devRef .tc r) = W2 m ρ c (Proc.devRef .tc r) :=
  StableHlo.after_of_writes_sub hostOps1 _ hostOps1_writes h
/-- The same contents read at the TensorCore's references. -/
abbrev B3 : (c : Dev nD) → (b : Ref sig .tc) → Buf (Elt F) ((c : Thread nD τ).loc b) := fun c b => W3 m ρ c b
/-- After region 1: its arrays at what the pipeline leaves (an input's as entered, an output's at its write-backs
    folded over the grid), every other buffer as entered. -/
def W4 (c : Dev nD) : Valuation τ sig (Elt F) :=
  Pipeline.withArrays spec1 c (W3 m ρ c) fun w => (dat1 (B3 m ρ) c).arrAt w cfg1.N
theorem W4_arr (c : Dev nD) (w : Fin cfg1.W) :
    W4 m ρ c (Proc.devRef .tc (Pipeline.arrRef spec1 w)) = (dat1 (B3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same contents read at the TensorCore's references. -/
abbrev B4 : (c : Dev nD) → (b : Ref sig .tc) → Buf (Elt F) ((c : Thread nD τ).loc b) := fun c b => W4 m ρ c b
theorem hF1 (c : Dev nD) (w : Fin cfg1.W) : (dat1 (B3 m ρ) c).arrAt w cfg1.N = B4 m ρ c (Pipeline.arrRef spec1 w) :=
  (W4_arr m ρ c w).symm
theorem hrest1 (c : Dev nD) : ∀ b, b ∉ Finset.univ.image (Pipeline.arrRef spec1) → B4 m ρ c b = B3 m ρ c b :=
  fun b hb => W4_of_ne m ρ c b fun w e => hb (Finset.mem_image.mpr ⟨w, Finset.mem_univ _, e⟩)
/-- Input window 0's array is left as entered. -/
theorem W4_in0 (c : Dev nD) : W4 m ρ c (Proc.devRef .tc main_v37) = W3 m ρ c (Proc.devRef .tc main_v37) :=
  (W4_arr m ρ c 0).trans (((dat1 (B3 m ρ) c).arrAt_in 0 rfl _).trans (A_eq1 (B3 m ρ) c 0))
/-- Input window 1's array is left as entered. -/
theorem W4_in1 (c : Dev nD) : W4 m ρ c (Proc.devRef .tc main_v42) = W3 m ρ c (Proc.devRef .tc main_v42) :=
  (W4_arr m ρ c 1).trans (((dat1 (B3 m ρ) c).arrAt_in 1 rfl _).trans (A_eq1 (B3 m ρ) c 1))
/-- Input window 2's array is left as entered. -/
theorem W4_in2 (c : Dev nD) : W4 m ρ c (Proc.devRef .tc main_v21) = W3 m ρ c (Proc.devRef .tc main_v21) :=
  (W4_arr m ρ c 2).trans (((dat1 (B3 m ρ) c).arrAt_in 2 rfl _).trans (A_eq1 (B3 m ρ) c 2))
/-- Input window 3's array is left as entered. -/
theorem W4_in3 (c : Dev nD) : W4 m ρ c (Proc.devRef .tc main_arg15) = W3 m ρ c (Proc.devRef .tc main_arg15) :=
  (W4_arr m ρ c 3).trans (((dat1 (B3 m ρ) c).arrAt_in 3 rfl _).trans (A_eq1 (B3 m ρ) c 3))
/-- Input window 4's array is left as entered. -/
theorem W4_in4 (c : Dev nD) : W4 m ρ c (Proc.devRef .tc main_arg16) = W3 m ρ c (Proc.devRef .tc main_arg16) :=
  (W4_arr m ρ c 4).trans (((dat1 (B3 m ρ) c).arrAt_in 4 rfl _).trans (A_eq1 (B3 m ρ) c 4))
/-- Input window 5's array is left as entered. -/
theorem W4_in5 (c : Dev nD) : W4 m ρ c (Proc.devRef .tc main_arg17) = W3 m ρ c (Proc.devRef .tc main_arg17) :=
  (W4_arr m ρ c 5).trans (((dat1 (B3 m ρ) c).arrAt_in 5 rfl _).trans (A_eq1 (B3 m ρ) c 5))
/-- After the host stretch `hostOps2`. -/
abbrev W5 : Dev nD → Valuation τ sig (Elt F) := fun c => StableHlo.after hostOps2 (W4 m ρ c)
/-- A buffer the stretch does not write keeps its contents. -/
theorem W5_keep (c : Dev nD) (r : Ref sig .tc) (h : r ∉ hostOps2_W) :
    W5 m ρ c (Proc.devRef .tc r) = W4 m ρ c (Proc.devRef .tc r) :=
  StableHlo.after_of_writes_sub hostOps2 _ hostOps2_writes h
/-- The same contents read at the TensorCore's references. -/
abbrev B5 : (c : Dev nD) → (b : Ref sig .tc) → Buf (Elt F) ((c : Thread nD τ).loc b) := fun c b => W5 m ρ c b
/-- After region 2: its arrays at what the pipeline leaves (an input's as entered, an output's at its write-backs
    folded over the grid), every other buffer as entered. -/
def W6 (c : Dev nD) : Valuation τ sig (Elt F) :=
  Pipeline.withArrays spec2 c (W5 m ρ c) fun w => (dat2 (B5 m ρ) c).arrAt w cfg2.N
theorem W6_arr (c : Dev nD) (w : Fin cfg2.W) :
    W6 m ρ c (Proc.devRef .tc (Pipeline.arrRef spec2 w)) = (dat2 (B5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same contents read at the TensorCore's references. -/
abbrev B6 : (c : Dev nD) → (b : Ref sig .tc) → Buf (Elt F) ((c : Thread nD τ).loc b) := fun c b => W6 m ρ c b
theorem hF2 (c : Dev nD) (w : Fin cfg2.W) : (dat2 (B5 m ρ) c).arrAt w cfg2.N = B6 m ρ c (Pipeline.arrRef spec2 w) :=
  (W6_arr m ρ c w).symm
theorem hrest2 (c : Dev nD) : ∀ b, b ∉ Finset.univ.image (Pipeline.arrRef spec2) → B6 m ρ c b = B5 m ρ c b :=
  fun b hb => W6_of_ne m ρ c b fun w e => hb (Finset.mem_image.mpr ⟨w, Finset.mem_univ _, e⟩)
/-- Input window 0's array is left as entered. -/
theorem W6_in0 (c : Dev nD) : W6 m ρ c (Proc.devRef .tc main_v59) = W5 m ρ c (Proc.devRef .tc main_v59) :=
  (W6_arr m ρ c 0).trans (((dat2 (B5 m ρ) c).arrAt_in 0 rfl _).trans (A_eq2 (B5 m ρ) c 0))
/-- Input window 1's array is left as entered. -/
theorem W6_in1 (c : Dev nD) : W6 m ρ c (Proc.devRef .tc main_v64) = W5 m ρ c (Proc.devRef .tc main_v64) :=
  (W6_arr m ρ c 1).trans (((dat2 (B5 m ρ) c).arrAt_in 1 rfl _).trans (A_eq2 (B5 m ρ) c 1))
/-- Input window 2's array is left as entered. -/
theorem W6_in2 (c : Dev nD) : W6 m ρ c (Proc.devRef .tc main_arg2) = W5 m ρ c (Proc.devRef .tc main_arg2) :=
  (W6_arr m ρ c 2).trans (((dat2 (B5 m ρ) c).arrAt_in 2 rfl _).trans (A_eq2 (B5 m ρ) c 2))
/-- Input window 3's array is left as entered. -/
theorem W6_in3 (c : Dev nD) : W6 m ρ c (Proc.devRef .tc main_arg18) = W5 m ρ c (Proc.devRef .tc main_arg18) :=
  (W6_arr m ρ c 3).trans (((dat2 (B5 m ρ) c).arrAt_in 3 rfl _).trans (A_eq2 (B5 m ρ) c 3))
/-- Input window 4's array is left as entered. -/
theorem W6_in4 (c : Dev nD) : W6 m ρ c (Proc.devRef .tc main_arg19) = W5 m ρ c (Proc.devRef .tc main_arg19) :=
  (W6_arr m ρ c 4).trans (((dat2 (B5 m ρ) c).arrAt_in 4 rfl _).trans (A_eq2 (B5 m ρ) c 4))
/-- Input window 5's array is left as entered. -/
theorem W6_in5 (c : Dev nD) : W6 m ρ c (Proc.devRef .tc main_arg20) = W5 m ρ c (Proc.devRef .tc main_arg20) :=
  (W6_arr m ρ c 5).trans (((dat2 (B5 m ρ) c).arrAt_in 5 rfl _).trans (A_eq2 (B5 m ρ) c 5))
/-- After region 3: its arrays at what the pipeline leaves (an input's as entered, an output's at its write-backs
    folded over the grid), every other buffer as entered. -/
def W7 (c : Dev nD) : Valuation τ sig (Elt F) :=
  Pipeline.withArrays spec3 c (W6 m ρ c) fun w => (dat3 (B6 m ρ) c).arrAt w cfg3.N
theorem W7_arr (c : Dev nD) (w : Fin cfg3.W) :
    W7 m ρ c (Proc.devRef .tc (Pipeline.arrRef spec3 w)) = (dat3 (B6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
/-- The same contents read at the TensorCore's references. -/
abbrev B7 : (c : Dev nD) → (b : Ref sig .tc) → Buf (Elt F) ((c : Thread nD τ).loc b) := fun c b => W7 m ρ c b
theorem hF3 (c : Dev nD) (w : Fin cfg3.W) : (dat3 (B6 m ρ) c).arrAt w cfg3.N = B7 m ρ c (Pipeline.arrRef spec3 w) :=
  (W7_arr m ρ c w).symm
theorem hrest3 (c : Dev nD) : ∀ b, b ∉ Finset.univ.image (Pipeline.arrRef spec3) → B7 m ρ c b = B6 m ρ c b :=
  fun b hb => W7_of_ne m ρ c b fun w e => hb (Finset.mem_image.mpr ⟨w, Finset.mem_univ _, e⟩)
/-- Input window 0's array is left as entered. -/
theorem W7_in0 (c : Dev nD) : W7 m ρ c (Proc.devRef .tc main_v43) = W6 m ρ c (Proc.devRef .tc main_v43) :=
  (W7_arr m ρ c 0).trans (((dat3 (B6 m ρ) c).arrAt_in 0 rfl _).trans (A_eq3 (B6 m ρ) c 0))
/-- Input window 1's array is left as entered. -/
theorem W7_in1 (c : Dev nD) : W7 m ρ c (Proc.devRef .tc main_arg30) = W6 m ρ c (Proc.devRef .tc main_arg30) :=
  (W7_arr m ρ c 1).trans (((dat3 (B6 m ρ) c).arrAt_in 1 rfl _).trans (A_eq3 (B6 m ρ) c 1))
/-- After the host stretch `hostOps4`. -/
abbrev W8 : Dev nD → Valuation τ sig (Elt F) := fun c => StableHlo.after hostOps4 (W7 m ρ c)
/-- A buffer the stretch does not write keeps its contents. -/
theorem W8_keep (c : Dev nD) (r : Ref sig .tc) (h : r ∉ hostOps4_W) :
    W8 m ρ c (Proc.devRef .tc r) = W7 m ρ c (Proc.devRef .tc r) :=
  StableHlo.after_of_writes_sub hostOps4 _ hostOps4_writes h
/-- The same contents read at the TensorCore's references. -/
abbrev B8 : (c : Dev nD) → (b : Ref sig .tc) → Buf (Elt F) ((c : Thread nD τ).loc b) := fun c b => W8 m ρ c b
/-- After region 4: its arrays at what the pipeline leaves (an input's as entered, an output's at its write-backs
    folded over the grid), every other buffer as entered. -/
def W9 (c : Dev nD) : Valuation τ sig (Elt F) :=
  Pipeline.withArrays spec4 c (W8 m ρ c) fun w => (dat4 (B8 m ρ) c).arrAt w cfg4.N
theorem W9_arr (c : Dev nD) (w : Fin cfg4.W) :
    W9 m ρ c (Proc.devRef .tc (Pipeline.arrRef spec4 w)) = (dat4 (B8 m ρ) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m ρ c (Proc.devRef .tc b) = W8 m ρ c (Proc.devRef .tc b) := by
  unfold W9; exact Pipeline.withArrays_of_ne spec4 c _ _ b hb
/-- The same contents read at the TensorCore's references. -/
abbrev B9 : (c : Dev nD) → (b : Ref sig .tc) → Buf (Elt F) ((c : Thread nD τ).loc b) := fun c b => W9 m ρ c b
theorem hF4 (c : Dev nD) (w : Fin cfg4.W) : (dat4 (B8 m ρ) c).arrAt w cfg4.N = B9 m ρ c (Pipeline.arrRef spec4 w) :=
  (W9_arr m ρ c w).symm
theorem hrest4 (c : Dev nD) : ∀ b, b ∉ Finset.univ.image (Pipeline.arrRef spec4) → B9 m ρ c b = B8 m ρ c b :=
  fun b hb => W9_of_ne m ρ c b fun w e => hb (Finset.mem_image.mpr ⟨w, Finset.mem_univ _, e⟩)
/-- Input window 0's array is left as entered. -/
theorem W9_in0 (c : Dev nD) : W9 m ρ c (Proc.devRef .tc main_v92) = W8 m ρ c (Proc.devRef .tc main_v92) :=
  (W9_arr m ρ c 0).trans (((dat4 (B8 m ρ) c).arrAt_in 0 rfl _).trans (A_eq4 (B8 m ρ) c 0))
/-- Input window 1's array is left as entered. -/
theorem W9_in1 (c : Dev nD) : W9 m ρ c (Proc.devRef .tc main_v80) = W8 m ρ c (Proc.devRef .tc main_v80) :=
  (W9_arr m ρ c 1).trans (((dat4 (B8 m ρ) c).arrAt_in 1 rfl _).trans (A_eq4 (B8 m ρ) c 1))
/-- Input window 2's array is left as entered. -/
theorem W9_in2 (c : Dev nD) : W9 m ρ c (Proc.devRef .tc main_v93) = W8 m ρ c (Proc.devRef .tc main_v93) :=
  (W9_arr m ρ c 2).trans (((dat4 (B8 m ρ) c).arrAt_in 2 rfl _).trans (A_eq4 (B8 m ρ) c 2))
/-- Input window 3's array is left as entered. -/
theorem W9_in3 (c : Dev nD) : W9 m ρ c (Proc.devRef .tc main_arg31) = W8 m ρ c (Proc.devRef .tc main_arg31) :=
  (W9_arr m ρ c 3).trans (((dat4 (B8 m ρ) c).arrAt_in 3 rfl _).trans (A_eq4 (B8 m ρ) c 3))
/-- After the host stretch `hostOps5`. -/
abbrev W10 : Dev nD → Valuation τ sig (Elt F) := fun c => StableHlo.after hostOps5 (W9 m ρ c)
/-- A buffer the stretch does not write keeps its contents. -/
theorem W10_keep (c : Dev nD) (r : Ref sig .tc) (h : r ∉ hostOps5_W) :
    W10 m ρ c (Proc.devRef .tc r) = W9 m ρ c (Proc.devRef .tc r) :=
  StableHlo.after_of_writes_sub hostOps5 _ hostOps5_writes h
/-- The same contents read at the TensorCore's references. -/
abbrev B10 : (c : Dev nD) → (b : Ref sig .tc) → Buf (Elt F) ((c : Thread nD τ).loc b) := fun c b => W10 m ρ c b
/-- After region 5: its arrays at what the pipeline leaves (an input's as entered, an output's at its write-backs
    folded over the grid), every other buffer as entered. -/
def W11 (c : Dev nD) : Valuation τ sig (Elt F) :=
  Pipeline.withArrays spec5 c (W10 m ρ c) fun w => (dat5 (B10 m ρ) c).arrAt w cfg5.N
theorem W11_arr (c : Dev nD) (w : Fin cfg5.W) :
    W11 m ρ c (Proc.devRef .tc (Pipeline.arrRef spec5 w)) = (dat5 (B10 m ρ) c).arrAt w cfg5.N := by
  unfold W11; exact Pipeline.withArrays_arr spec5 launch5.win.arr_inj c _ _ w
theorem W11_of_ne (c : Dev nD) (b : Ref sig .tc) (hb : ∀ w, Pipeline.arrRef spec5 w ≠ b) :
    W11 m ρ c (Proc.devRef .tc b) = W10 m ρ c (Proc.devRef .tc b) := by
  unfold W11; exact Pipeline.withArrays_of_ne spec5 c _ _ b hb
/-- The same contents read at the TensorCore's references. -/
abbrev B11 : (c : Dev nD) → (b : Ref sig .tc) → Buf (Elt F) ((c : Thread nD τ).loc b) := fun c b => W11 m ρ c b
theorem hF5 (c : Dev nD) (w : Fin cfg5.W) : (dat5 (B10 m ρ) c).arrAt w cfg5.N = B11 m ρ c (Pipeline.arrRef spec5 w) :=
  (W11_arr m ρ c w).symm
theorem hrest5 (c : Dev nD) : ∀ b, b ∉ Finset.univ.image (Pipeline.arrRef spec5) → B11 m ρ c b = B10 m ρ c b :=
  fun b hb => W11_of_ne m ρ c b fun w e => hb (Finset.mem_image.mpr ⟨w, Finset.mem_univ _, e⟩)
/-- Input window 0's array is left as entered. -/
theorem W11_in0 (c : Dev nD) : W11 m ρ c (Proc.devRef .tc main_v104) = W10 m ρ c (Proc.devRef .tc main_v104) :=
  (W11_arr m ρ c 0).trans (((dat5 (B10 m ρ) c).arrAt_in 0 rfl _).trans (A_eq5 (B10 m ρ) c 0))
/-- Input window 1's array is left as entered. -/
theorem W11_in1 (c : Dev nD) : W11 m ρ c (Proc.devRef .tc main_v105) = W10 m ρ c (Proc.devRef .tc main_v105) :=
  (W11_arr m ρ c 1).trans (((dat5 (B10 m ρ) c).arrAt_in 1 rfl _).trans (A_eq5 (B10 m ρ) c 1))
/-- Input window 2's array is left as entered. -/
theorem W11_in2 (c : Dev nD) : W11 m ρ c (Proc.devRef .tc main_v106) = W10 m ρ c (Proc.devRef .tc main_v106) :=
  (W11_arr m ρ c 2).trans (((dat5 (B10 m ρ) c).arrAt_in 2 rfl _).trans (A_eq5 (B10 m ρ) c 2))
/-- Input window 3's array is left as entered. -/
theorem W11_in3 (c : Dev nD) : W11 m ρ c (Proc.devRef .tc main_v107) = W10 m ρ c (Proc.devRef .tc main_v107) :=
  (W11_arr m ρ c 3).trans (((dat5 (B10 m ρ) c).arrAt_in 3 rfl _).trans (A_eq5 (B10 m ρ) c 3))
/-- Input window 4's array is left as entered. -/
theorem W11_in4 (c : Dev nD) : W11 m ρ c (Proc.devRef .tc main_v108) = W10 m ρ c (Proc.devRef .tc main_v108) :=
  (W11_arr m ρ c 4).trans (((dat5 (B10 m ρ) c).arrAt_in 4 rfl _).trans (A_eq5 (B10 m ρ) c 4))
/-- After the host stretch `hostOps6`. -/
abbrev W12 : Dev nD → Valuation τ sig (Elt F) := fun c => StableHlo.after hostOps6 (W11 m ρ c)
/-- A buffer the stretch does not write keeps its contents. -/
theorem W12_keep (c : Dev nD) (r : Ref sig .tc) (h : r ∉ hostOps6_W) :
    W12 m ρ c (Proc.devRef .tc r) = W11 m ρ c (Proc.devRef .tc r) :=
  StableHlo.after_of_writes_sub hostOps6 _ hostOps6_writes h
/-- The same contents read at the TensorCore's references. -/
abbrev B12 : (c : Dev nD) → (b : Ref sig .tc) → Buf (Elt F) ((c : Thread nD τ).loc b) := fun c b => W12 m ρ c b
/-- After region 6: its arrays at what the pipeline leaves (an input's as entered, an output's at its write-backs
    folded over the grid), every other buffer as entered. -/
def W13 (c : Dev nD) : Valuation τ sig (Elt F) :=
  Pipeline.withArrays spec6 c (W12 m ρ c) fun w => (dat6 (B12 m ρ) c).arrAt w cfg6.N
theorem W13_arr (c : Dev nD) (w : Fin cfg6.W) :
    W13 m ρ c (Proc.devRef .tc (Pipeline.arrRef spec6 w)) = (dat6 (B12 m ρ) c).arrAt w cfg6.N := by
  unfold W13; exact Pipeline.withArrays_arr spec6 launch6.win.arr_inj c _ _ w
theorem W13_of_ne (c : Dev nD) (b : Ref sig .tc) (hb : ∀ w, Pipeline.arrRef spec6 w ≠ b) :
    W13 m ρ c (Proc.devRef .tc b) = W12 m ρ c (Proc.devRef .tc b) := by
  unfold W13; exact Pipeline.withArrays_of_ne spec6 c _ _ b hb
/-- The same contents read at the TensorCore's references. -/
abbrev B13 : (c : Dev nD) → (b : Ref sig .tc) → Buf (Elt F) ((c : Thread nD τ).loc b) := fun c b => W13 m ρ c b
theorem hF6 (c : Dev nD) (w : Fin cfg6.W) : (dat6 (B12 m ρ) c).arrAt w cfg6.N = B13 m ρ c (Pipeline.arrRef spec6 w) :=
  (W13_arr m ρ c w).symm
theorem hrest6 (c : Dev nD) : ∀ b, b ∉ Finset.univ.image (Pipeline.arrRef spec6) → B13 m ρ c b = B12 m ρ c b :=
  fun b hb => W13_of_ne m ρ c b fun w e => hb (Finset.mem_image.mpr ⟨w, Finset.mem_univ _, e⟩)
/-- Input window 0's array is left as entered. -/
theorem W13_in0 (c : Dev nD) : W13 m ρ c (Proc.devRef .tc main_v65) = W12 m ρ c (Proc.devRef .tc main_v65) :=
  (W13_arr m ρ c 0).trans (((dat6 (B12 m ρ) c).arrAt_in 0 rfl _).trans (A_eq6 (B12 m ρ) c 0))
/-- Input window 1's array is left as entered. -/
theorem W13_in1 (c : Dev nD) : W13 m ρ c (Proc.devRef .tc main_arg32) = W12 m ρ c (Proc.devRef .tc main_arg32) :=
  (W13_arr m ρ c 1).trans (((dat6 (B12 m ρ) c).arrAt_in 1 rfl _).trans (A_eq6 (B12 m ρ) c 1))
/-- After the host stretch `hostOps7`. -/
abbrev W14 : Dev nD → Valuation τ sig (Elt F) := fun c => StableHlo.after hostOps7 (W13 m ρ c)
/-- A buffer the stretch does not write keeps its contents. -/
theorem W14_keep (c : Dev nD) (r : Ref sig .tc) (h : r ∉ hostOps7_W) :
    W14 m ρ c (Proc.devRef .tc r) = W13 m ρ c (Proc.devRef .tc r) :=
  StableHlo.after_of_writes_sub hostOps7 _ hostOps7_writes h
/-- The same contents read at the TensorCore's references. -/
abbrev B14 : (c : Dev nD) → (b : Ref sig .tc) → Buf (Elt F) ((c : Thread nD τ).loc b) := fun c b => W14 m ρ c b
/-- After region 7: its arrays at what the pipeline leaves (an input's as entered, an output's at its write-backs
    folded over the grid), every other buffer as entered. -/
def W15 (c : Dev nD) : Valuation τ sig (Elt F) :=
  Pipeline.withArrays spec7 c (W14 m ρ c) fun w => (dat7 (B14 m ρ) c).arrAt w cfg7.N
theorem W15_arr (c : Dev nD) (w : Fin cfg7.W) :
    W15 m ρ c (Proc.devRef .tc (Pipeline.arrRef spec7 w)) = (dat7 (B14 m ρ) c).arrAt w cfg7.N := by
  unfold W15; exact Pipeline.withArrays_arr spec7 launch7.win.arr_inj c _ _ w
theorem W15_of_ne (c : Dev nD) (b : Ref sig .tc) (hb : ∀ w, Pipeline.arrRef spec7 w ≠ b) :
    W15 m ρ c (Proc.devRef .tc b) = W14 m ρ c (Proc.devRef .tc b) := by
  unfold W15; exact Pipeline.withArrays_of_ne spec7 c _ _ b hb
/-- The same contents read at the TensorCore's references. -/
abbrev B15 : (c : Dev nD) → (b : Ref sig .tc) → Buf (Elt F) ((c : Thread nD τ).loc b) := fun c b => W15 m ρ c b
theorem hF7 (c : Dev nD) (w : Fin cfg7.W) : (dat7 (B14 m ρ) c).arrAt w cfg7.N = B15 m ρ c (Pipeline.arrRef spec7 w) :=
  (W15_arr m ρ c w).symm
theorem hrest7 (c : Dev nD) : ∀ b, b ∉ Finset.univ.image (Pipeline.arrRef spec7) → B15 m ρ c b = B14 m ρ c b :=
  fun b hb => W15_of_ne m ρ c b fun w e => hb (Finset.mem_image.mpr ⟨w, Finset.mem_univ _, e⟩)
/-- Input window 0's array is left as entered. -/
theorem W15_in0 (c : Dev nD) : W15 m ρ c (Proc.devRef .tc main_v137) = W14 m ρ c (Proc.devRef .tc main_v137) :=
  (W15_arr m ρ c 0).trans (((dat7 (B14 m ρ) c).arrAt_in 0 rfl _).trans (A_eq7 (B14 m ρ) c 0))
/-- Input window 1's array is left as entered. -/
theorem W15_in1 (c : Dev nD) : W15 m ρ c (Proc.devRef .tc main_v125) = W14 m ρ c (Proc.devRef .tc main_v125) :=
  (W15_arr m ρ c 1).trans (((dat7 (B14 m ρ) c).arrAt_in 1 rfl _).trans (A_eq7 (B14 m ρ) c 1))
/-- Input window 2's array is left as entered. -/
theorem W15_in2 (c : Dev nD) : W15 m ρ c (Proc.devRef .tc main_v138) = W14 m ρ c (Proc.devRef .tc main_v138) :=
  (W15_arr m ρ c 2).trans (((dat7 (B14 m ρ) c).arrAt_in 2 rfl _).trans (A_eq7 (B14 m ρ) c 2))
/-- Input window 3's array is left as entered. -/
theorem W15_in3 (c : Dev nD) : W15 m ρ c (Proc.devRef .tc main_arg33) = W14 m ρ c (Proc.devRef .tc main_arg33) :=
  (W15_arr m ρ c 3).trans (((dat7 (B14 m ρ) c).arrAt_in 3 rfl _).trans (A_eq7 (B14 m ρ) c 3))
/-- After the host stretch `hostOps8`. -/
abbrev W16 : Dev nD → Valuation τ sig (Elt F) := fun c => StableHlo.after hostOps8 (W15 m ρ c)
/-- A buffer the stretch does not write keeps its contents. -/
theorem W16_keep (c : Dev nD) (r : Ref sig .tc) (h : r ∉ hostOps8_W) :
    W16 m ρ c (Proc.devRef .tc r) = W15 m ρ c (Proc.devRef .tc r) :=
  StableHlo.after_of_writes_sub hostOps8 _ hostOps8_writes h
/-- The same contents read at the TensorCore's references. -/
abbrev B16 : (c : Dev nD) → (b : Ref sig .tc) → Buf (Elt F) ((c : Thread nD τ).loc b) := fun c b => W16 m ρ c b
/-- After region 8: its arrays at what the pipeline leaves (an input's as entered, an output's at its write-backs
    folded over the grid), every other buffer as entered. -/
def W17 (c : Dev nD) : Valuation τ sig (Elt F) :=
  Pipeline.withArrays spec8 c (W16 m ρ c) fun w => (dat8 (B16 m ρ) c).arrAt w cfg8.N
theorem W17_arr (c : Dev nD) (w : Fin cfg8.W) :
    W17 m ρ c (Proc.devRef .tc (Pipeline.arrRef spec8 w)) = (dat8 (B16 m ρ) c).arrAt w cfg8.N := by
  unfold W17; exact Pipeline.withArrays_arr spec8 launch8.win.arr_inj c _ _ w
theorem W17_of_ne (c : Dev nD) (b : Ref sig .tc) (hb : ∀ w, Pipeline.arrRef spec8 w ≠ b) :
    W17 m ρ c (Proc.devRef .tc b) = W16 m ρ c (Proc.devRef .tc b) := by
  unfold W17; exact Pipeline.withArrays_of_ne spec8 c _ _ b hb
/-- The same contents read at the TensorCore's references. -/
abbrev B17 : (c : Dev nD) → (b : Ref sig .tc) → Buf (Elt F) ((c : Thread nD τ).loc b) := fun c b => W17 m ρ c b
theorem hF8 (c : Dev nD) (w : Fin cfg8.W) : (dat8 (B16 m ρ) c).arrAt w cfg8.N = B17 m ρ c (Pipeline.arrRef spec8 w) :=
  (W17_arr m ρ c w).symm
theorem hrest8 (c : Dev nD) : ∀ b, b ∉ Finset.univ.image (Pipeline.arrRef spec8) → B17 m ρ c b = B16 m ρ c b :=
  fun b hb => W17_of_ne m ρ c b fun w e => hb (Finset.mem_image.mpr ⟨w, Finset.mem_univ _, e⟩)
/-- Input window 0's array is left as entered. -/
theorem W17_in0 (c : Dev nD) : W17 m ρ c (Proc.devRef .tc main_v149) = W16 m ρ c (Proc.devRef .tc main_v149) :=
  (W17_arr m ρ c 0).trans (((dat8 (B16 m ρ) c).arrAt_in 0 rfl _).trans (A_eq8 (B16 m ρ) c 0))
/-- Input window 1's array is left as entered. -/
theorem W17_in1 (c : Dev nD) : W17 m ρ c (Proc.devRef .tc main_v150) = W16 m ρ c (Proc.devRef .tc main_v150) :=
  (W17_arr m ρ c 1).trans (((dat8 (B16 m ρ) c).arrAt_in 1 rfl _).trans (A_eq8 (B16 m ρ) c 1))
/-- Input window 2's array is left as entered. -/
theorem W17_in2 (c : Dev nD) : W17 m ρ c (Proc.devRef .tc main_v151) = W16 m ρ c (Proc.devRef .tc main_v151) :=
  (W17_arr m ρ c 2).trans (((dat8 (B16 m ρ) c).arrAt_in 2 rfl _).trans (A_eq8 (B16 m ρ) c 2))
/-- Input window 3's array is left as entered. -/
theorem W17_in3 (c : Dev nD) : W17 m ρ c (Proc.devRef .tc main_v152) = W16 m ρ c (Proc.devRef .tc main_v152) :=
  (W17_arr m ρ c 3).trans (((dat8 (B16 m ρ) c).arrAt_in 3 rfl _).trans (A_eq8 (B16 m ρ) c 3))
/-- Input window 4's array is left as entered. -/
theorem W17_in4 (c : Dev nD) : W17 m ρ c (Proc.devRef .tc main_v153) = W16 m ρ c (Proc.devRef .tc main_v153) :=
  (W17_arr m ρ c 4).trans (((dat8 (B16 m ρ) c).arrAt_in 4 rfl _).trans (A_eq8 (B16 m ρ) c 4))
/-- After the host stretch `hostOps9`. -/
abbrev W18 : Dev nD → Valuation τ sig (Elt F) := fun c => StableHlo.after hostOps9 (W17 m ρ c)
/-- A buffer the stretch does not write keeps its contents. -/
theorem W18_keep (c : Dev nD) (r : Ref sig .tc) (h : r ∉ hostOps9_W) :
    W18 m ρ c (Proc.devRef .tc r) = W17 m ρ c (Proc.devRef .tc r) :=
  StableHlo.after_of_writes_sub hostOps9 _ hostOps9_writes h
/-- The same contents read at the TensorCore's references. -/
abbrev B18 : (c : Dev nD) → (b : Ref sig .tc) → Buf (Elt F) ((c : Thread nD τ).loc b) := fun c b => W18 m ρ c b
/-- After region 9: its arrays at what the pipeline leaves (an input's as entered, an output's at its write-backs
    folded over the grid), every other buffer as entered. -/
def W19 (c : Dev nD) : Valuation τ sig (Elt F) :=
  Pipeline.withArrays spec9 c (W18 m ρ c) fun w => (dat9 (B18 m ρ) c).arrAt w cfg9.N
theorem W19_arr (c : Dev nD) (w : Fin cfg9.W) :
    W19 m ρ c (Proc.devRef .tc (Pipeline.arrRef spec9 w)) = (dat9 (B18 m ρ) c).arrAt w cfg9.N := by
  unfold W19; exact Pipeline.withArrays_arr spec9 launch9.win.arr_inj c _ _ w
theorem W19_of_ne (c : Dev nD) (b : Ref sig .tc) (hb : ∀ w, Pipeline.arrRef spec9 w ≠ b) :
    W19 m ρ c (Proc.devRef .tc b) = W18 m ρ c (Proc.devRef .tc b) := by
  unfold W19; exact Pipeline.withArrays_of_ne spec9 c _ _ b hb
/-- The same contents read at the TensorCore's references. -/
abbrev B19 : (c : Dev nD) → (b : Ref sig .tc) → Buf (Elt F) ((c : Thread nD τ).loc b) := fun c b => W19 m ρ c b
theorem hF9 (c : Dev nD) (w : Fin cfg9.W) : (dat9 (B18 m ρ) c).arrAt w cfg9.N = B19 m ρ c (Pipeline.arrRef spec9 w) :=
  (W19_arr m ρ c w).symm
theorem hrest9 (c : Dev nD) : ∀ b, b ∉ Finset.univ.image (Pipeline.arrRef spec9) → B19 m ρ c b = B18 m ρ c b :=
  fun b hb => W19_of_ne m ρ c b fun w e => hb (Finset.mem_image.mpr ⟨w, Finset.mem_univ _, e⟩)
/-- Input window 0's array is left as entered. -/
theorem W19_in0 (c : Dev nD) : W19 m ρ c (Proc.devRef .tc main_v171) = W18 m ρ c (Proc.devRef .tc main_v171) :=
  (W19_arr m ρ c 0).trans (((dat9 (B18 m ρ) c).arrAt_in 0 rfl _).trans (A_eq9 (B18 m ρ) c 0))
/-- Input window 1's array is left as entered. -/
theorem W19_in1 (c : Dev nD) : W19 m ρ c (Proc.devRef .tc main_v176) = W18 m ρ c (Proc.devRef .tc main_v176) :=
  (W19_arr m ρ c 1).trans (((dat9 (B18 m ρ) c).arrAt_in 1 rfl _).trans (A_eq9 (B18 m ρ) c 1))
/-- Input window 2's array is left as entered. -/
theorem W19_in2 (c : Dev nD) : W19 m ρ c (Proc.devRef .tc main_arg1) = W18 m ρ c (Proc.devRef .tc main_arg1) :=
  (W19_arr m ρ c 2).trans (((dat9 (B18 m ρ) c).arrAt_in 2 rfl _).trans (A_eq9 (B18 m ρ) c 2))
/-- Input window 3's array is left as entered. -/
theorem W19_in3 (c : Dev nD) : W19 m ρ c (Proc.devRef .tc main_arg21) = W18 m ρ c (Proc.devRef .tc main_arg21) :=
  (W19_arr m ρ c 3).trans (((dat9 (B18 m ρ) c).arrAt_in 3 rfl _).trans (A_eq9 (B18 m ρ) c 3))
/-- Input window 4's array is left as entered. -/
theorem W19_in4 (c : Dev nD) : W19 m ρ c (Proc.devRef .tc main_arg22) = W18 m ρ c (Proc.devRef .tc main_arg22) :=
  (W19_arr m ρ c 4).trans (((dat9 (B18 m ρ) c).arrAt_in 4 rfl _).trans (A_eq9 (B18 m ρ) c 4))
/-- Input window 5's array is left as entered. -/
theorem W19_in5 (c : Dev nD) : W19 m ρ c (Proc.devRef .tc main_arg23) = W18 m ρ c (Proc.devRef .tc main_arg23) :=
  (W19_arr m ρ c 5).trans (((dat9 (B18 m ρ) c).arrAt_in 5 rfl _).trans (A_eq9 (B18 m ρ) c 5))
/-- After the host stretch `hostOps10`. -/
abbrev W20 : Dev nD → Valuation τ sig (Elt F) := fun c => StableHlo.after hostOps10 (W19 m ρ c)
/-- A buffer the stretch does not write keeps its contents. -/
theorem W20_keep (c : Dev nD) (r : Ref sig .tc) (h : r ∉ hostOps10_W) :
    W20 m ρ c (Proc.devRef .tc r) = W19 m ρ c (Proc.devRef .tc r) :=
  StableHlo.after_of_writes_sub hostOps10 _ hostOps10_writes h
/-- The same contents read at the TensorCore's references. -/
abbrev B20 : (c : Dev nD) → (b : Ref sig .tc) → Buf (Elt F) ((c : Thread nD τ).loc b) := fun c b => W20 m ρ c b
/-- After region 10: its arrays at what the pipeline leaves (an input's as entered, an output's at its write-backs
    folded over the grid), every other buffer as entered. -/
def W21 (c : Dev nD) : Valuation τ sig (Elt F) :=
  Pipeline.withArrays spec10 c (W20 m ρ c) fun w => (dat10 (B20 m ρ) c).arrAt w cfg10.N
theorem W21_arr (c : Dev nD) (w : Fin cfg10.W) :
    W21 m ρ c (Proc.devRef .tc (Pipeline.arrRef spec10 w)) = (dat10 (B20 m ρ) c).arrAt w cfg10.N := by
  unfold W21; exact Pipeline.withArrays_arr spec10 launch10.win.arr_inj c _ _ w
theorem W21_of_ne (c : Dev nD) (b : Ref sig .tc) (hb : ∀ w, Pipeline.arrRef spec10 w ≠ b) :
    W21 m ρ c (Proc.devRef .tc b) = W20 m ρ c (Proc.devRef .tc b) := by
  unfold W21; exact Pipeline.withArrays_of_ne spec10 c _ _ b hb
/-- The same contents read at the TensorCore's references. -/
abbrev B21 : (c : Dev nD) → (b : Ref sig .tc) → Buf (Elt F) ((c : Thread nD τ).loc b) := fun c b => W21 m ρ c b
theorem hF10 (c : Dev nD) (w : Fin cfg10.W) : (dat10 (B20 m ρ) c).arrAt w cfg10.N = B21 m ρ c (Pipeline.arrRef spec10 w) :=
  (W21_arr m ρ c w).symm
theorem hrest10 (c : Dev nD) : ∀ b, b ∉ Finset.univ.image (Pipeline.arrRef spec10) → B21 m ρ c b = B20 m ρ c b :=
  fun b hb => W21_of_ne m ρ c b fun w e => hb (Finset.mem_image.mpr ⟨w, Finset.mem_univ _, e⟩)
/-- Input window 0's array is left as entered. -/
theorem W21_in0 (c : Dev nD) : W21 m ρ c (Proc.devRef .tc main_v193) = W20 m ρ c (Proc.devRef .tc main_v193) :=
  (W21_arr m ρ c 0).trans (((dat10 (B20 m ρ) c).arrAt_in 0 rfl _).trans (A_eq10 (B20 m ρ) c 0))
/-- Input window 1's array is left as entered. -/
theorem W21_in1 (c : Dev nD) : W21 m ρ c (Proc.devRef .tc main_v198) = W20 m ρ c (Proc.devRef .tc main_v198) :=
  (W21_arr m ρ c 1).trans (((dat10 (B20 m ρ) c).arrAt_in 1 rfl _).trans (A_eq10 (B20 m ρ) c 1))
/-- Input window 2's array is left as entered. -/
theorem W21_in2 (c : Dev nD) : W21 m ρ c (Proc.devRef .tc main_v177) = W20 m ρ c (Proc.devRef .tc main_v177) :=
  (W21_arr m ρ c 2).trans (((dat10 (B20 m ρ) c).arrAt_in 2 rfl _).trans (A_eq10 (B20 m ρ) c 2))
/-- Input window 3's array is left as entered. -/
theorem W21_in3 (c : Dev nD) : W21 m ρ c (Proc.devRef .tc main_arg24) = W20 m ρ c (Proc.devRef .tc main_arg24) :=
  (W21_arr m ρ c 3).trans (((dat10 (B20 m ρ) c).arrAt_in 3 rfl _).trans (A_eq10 (B20 m ρ) c 3))
/-- Input window 4's array is left as entered. -/
theorem W21_in4 (c : Dev nD) : W21 m ρ c (Proc.devRef .tc main_arg25) = W20 m ρ c (Proc.devRef .tc main_arg25) :=
  (W21_arr m ρ c 4).trans (((dat10 (B20 m ρ) c).arrAt_in 4 rfl _).trans (A_eq10 (B20 m ρ) c 4))
/-- Input window 5's array is left as entered. -/
theorem W21_in5 (c : Dev nD) : W21 m ρ c (Proc.devRef .tc main_arg26) = W20 m ρ c (Proc.devRef .tc main_arg26) :=
  (W21_arr m ρ c 5).trans (((dat10 (B20 m ρ) c).arrAt_in 5 rfl _).trans (A_eq10 (B20 m ρ) c 5))
/-- After the host stretch `hostOps11`. -/
abbrev W22 : Dev nD → Valuation τ sig (Elt F) := fun c => StableHlo.after hostOps11 (W21 m ρ c)
/-- A buffer the stretch does not write keeps its contents. -/
theorem W22_keep (c : Dev nD) (r : Ref sig .tc) (h : r ∉ hostOps11_W) :
    W22 m ρ c (Proc.devRef .tc r) = W21 m ρ c (Proc.devRef .tc r) :=
  StableHlo.after_of_writes_sub hostOps11 _ hostOps11_writes h
/-- The same contents read at the TensorCore's references. -/
abbrev B22 : (c : Dev nD) → (b : Ref sig .tc) → Buf (Elt F) ((c : Thread nD τ).loc b) := fun c b => W22 m ρ c b
/-- After region 11: its arrays at what the pipeline leaves (an input's as entered, an output's at its write-backs
    folded over the grid), every other buffer as entered. -/
def W23 (c : Dev nD) : Valuation τ sig (Elt F) :=
  Pipeline.withArrays spec11 c (W22 m ρ c) fun w => (dat11 (B22 m ρ) c).arrAt w cfg11.N
theorem W23_arr (c : Dev nD) (w : Fin cfg11.W) :
    W23 m ρ c (Proc.devRef .tc (Pipeline.arrRef spec11 w)) = (dat11 (B22 m ρ) c).arrAt w cfg11.N := by
  unfold W23; exact Pipeline.withArrays_arr spec11 launch11.win.arr_inj c _ _ w
theorem W23_of_ne (c : Dev nD) (b : Ref sig .tc) (hb : ∀ w, Pipeline.arrRef spec11 w ≠ b) :
    W23 m ρ c (Proc.devRef .tc b) = W22 m ρ c (Proc.devRef .tc b) := by
  unfold W23; exact Pipeline.withArrays_of_ne spec11 c _ _ b hb
/-- The same contents read at the TensorCore's references. -/
abbrev B23 : (c : Dev nD) → (b : Ref sig .tc) → Buf (Elt F) ((c : Thread nD τ).loc b) := fun c b => W23 m ρ c b
theorem hF11 (c : Dev nD) (w : Fin cfg11.W) : (dat11 (B22 m ρ) c).arrAt w cfg11.N = B23 m ρ c (Pipeline.arrRef spec11 w) :=
  (W23_arr m ρ c w).symm
theorem hrest11 (c : Dev nD) : ∀ b, b ∉ Finset.univ.image (Pipeline.arrRef spec11) → B23 m ρ c b = B22 m ρ c b :=
  fun b hb => W23_of_ne m ρ c b fun w e => hb (Finset.mem_image.mpr ⟨w, Finset.mem_univ _, e⟩)
/-- Input window 0's array is left as entered. -/
theorem W23_in0 (c : Dev nD) : W23 m ρ c (Proc.devRef .tc main_v215) = W22 m ρ c (Proc.devRef .tc main_v215) :=
  (W23_arr m ρ c 0).trans (((dat11 (B22 m ρ) c).arrAt_in 0 rfl _).trans (A_eq11 (B22 m ρ) c 0))
/-- Input window 1's array is left as entered. -/
theorem W23_in1 (c : Dev nD) : W23 m ρ c (Proc.devRef .tc main_v220) = W22 m ρ c (Proc.devRef .tc main_v220) :=
  (W23_arr m ρ c 1).trans (((dat11 (B22 m ρ) c).arrAt_in 1 rfl _).trans (A_eq11 (B22 m ρ) c 1))
/-- Input window 2's array is left as entered. -/
theorem W23_in2 (c : Dev nD) : W23 m ρ c (Proc.devRef .tc main_v199) = W22 m ρ c (Proc.devRef .tc main_v199) :=
  (W23_arr m ρ c 2).trans (((dat11 (B22 m ρ) c).arrAt_in 2 rfl _).trans (A_eq11 (B22 m ρ) c 2))
/-- Input window 3's array is left as entered. -/
theorem W23_in3 (c : Dev nD) : W23 m ρ c (Proc.devRef .tc main_arg27) = W22 m ρ c (Proc.devRef .tc main_arg27) :=
  (W23_arr m ρ c 3).trans (((dat11 (B22 m ρ) c).arrAt_in 3 rfl _).trans (A_eq11 (B22 m ρ) c 3))
/-- Input window 4's array is left as entered. -/
theorem W23_in4 (c : Dev nD) : W23 m ρ c (Proc.devRef .tc main_arg28) = W22 m ρ c (Proc.devRef .tc main_arg28) :=
  (W23_arr m ρ c 4).trans (((dat11 (B22 m ρ) c).arrAt_in 4 rfl _).trans (A_eq11 (B22 m ρ) c 4))
/-- Input window 5's array is left as entered. -/
theorem W23_in5 (c : Dev nD) : W23 m ρ c (Proc.devRef .tc main_arg29) = W22 m ρ c (Proc.devRef .tc main_arg29) :=
  (W23_arr m ρ c 5).trans (((dat11 (B22 m ρ) c).arrAt_in 5 rfl _).trans (A_eq11 (B22 m ρ) c 5))
/-- After region 12: its arrays at what the pipeline leaves (an input's as entered, an output's at its write-backs
    folded over the grid), every other buffer as entered. -/
def W24 (c : Dev nD) : Valuation τ sig (Elt F) :=
  Pipeline.withArrays spec12 c (W23 m ρ c) fun w => (dat12 (B23 m ρ) c).arrAt w cfg12.N
theorem W24_arr (c : Dev nD) (w : Fin cfg12.W) :
    W24 m ρ c (Proc.devRef .tc (Pipeline.arrRef spec12 w)) = (dat12 (B23 m ρ) c).arrAt w cfg12.N := by
  unfold W24; exact Pipeline.withArrays_arr spec12 launch12.win.arr_inj c _ _ w
theorem W24_of_ne (c : Dev nD) (b : Ref sig .tc) (hb : ∀ w, Pipeline.arrRef spec12 w ≠ b) :
    W24 m ρ c (Proc.devRef .tc b) = W23 m ρ c (Proc.devRef .tc b) := by
  unfold W24; exact Pipeline.withArrays_of_ne spec12 c _ _ b hb
/-- The same contents read at the TensorCore's references. -/
abbrev B24 : (c : Dev nD) → (b : Ref sig .tc) → Buf (Elt F) ((c : Thread nD τ).loc b) := fun c b => W24 m ρ c b
theorem hF12 (c : Dev nD) (w : Fin cfg12.W) : (dat12 (B23 m ρ) c).arrAt w cfg12.N = B24 m ρ c (Pipeline.arrRef spec12 w) :=
  (W24_arr m ρ c w).symm
theorem hrest12 (c : Dev nD) : ∀ b, b ∉ Finset.univ.image (Pipeline.arrRef spec12) → B24 m ρ c b = B23 m ρ c b :=
  fun b hb => W24_of_ne m ρ c b fun w e => hb (Finset.mem_image.mpr ⟨w, Finset.mem_univ _, e⟩)
/-- Input window 0's array is left as entered. -/
theorem W24_in0 (c : Dev nD) : W24 m ρ c (Proc.devRef .tc main_v221) = W23 m ρ c (Proc.devRef .tc main_v221) :=
  (W24_arr m ρ c 0).trans (((dat12 (B23 m ρ) c).arrAt_in 0 rfl _).trans (A_eq12 (B23 m ρ) c 0))
/-- Input window 1's array is left as entered. -/
theorem W24_in1 (c : Dev nD) : W24 m ρ c (Proc.devRef .tc main_arg34) = W23 m ρ c (Proc.devRef .tc main_arg34) :=
  (W24_arr m ρ c 1).trans (((dat12 (B23 m ρ) c).arrAt_in 1 rfl _).trans (A_eq12 (B23 m ρ) c 1))
/-- After the host stretch `hostOps13`. -/
abbrev W25 : Dev nD → Valuation τ sig (Elt F) := fun c => StableHlo.after hostOps13 (W24 m ρ c)
/-- A buffer the stretch does not write keeps its contents. -/
theorem W25_keep (c : Dev nD) (r : Ref sig .tc) (h : r ∉ hostOps13_W) :
    W25 m ρ c (Proc.devRef .tc r) = W24 m ρ c (Proc.devRef .tc r) :=
  StableHlo.after_of_writes_sub hostOps13 _ hostOps13_writes h
/-- The same contents read at the TensorCore's references. -/
abbrev B25 : (c : Dev nD) → (b : Ref sig .tc) → Buf (Elt F) ((c : Thread nD τ).loc b) := fun c b => W25 m ρ c b
/-- After region 13: its arrays at what the pipeline leaves (an input's as entered, an output's at its write-backs
    folded over the grid), every other buffer as entered. -/
def W26 (c : Dev nD) : Valuation τ sig (Elt F) :=
  Pipeline.withArrays spec13 c (W25 m ρ c) fun w => (dat13 (B25 m ρ) c).arrAt w cfg13.N
theorem W26_arr (c : Dev nD) (w : Fin cfg13.W) :
    W26 m ρ c (Proc.devRef .tc (Pipeline.arrRef spec13 w)) = (dat13 (B25 m ρ) c).arrAt w cfg13.N := by
  unfold W26; exact Pipeline.withArrays_arr spec13 launch13.win.arr_inj c _ _ w
theorem W26_of_ne (c : Dev nD) (b : Ref sig .tc) (hb : ∀ w, Pipeline.arrRef spec13 w ≠ b) :
    W26 m ρ c (Proc.devRef .tc b) = W25 m ρ c (Proc.devRef .tc b) := by
  unfold W26; exact Pipeline.withArrays_of_ne spec13 c _ _ b hb
/-- The same contents read at the TensorCore's references. -/
abbrev B26 : (c : Dev nD) → (b : Ref sig .tc) → Buf (Elt F) ((c : Thread nD τ).loc b) := fun c b => W26 m ρ c b
theorem hF13 (c : Dev nD) (w : Fin cfg13.W) : (dat13 (B25 m ρ) c).arrAt w cfg13.N = B26 m ρ c (Pipeline.arrRef spec13 w) :=
  (W26_arr m ρ c w).symm
theorem hrest13 (c : Dev nD) : ∀ b, b ∉ Finset.univ.image (Pipeline.arrRef spec13) → B26 m ρ c b = B25 m ρ c b :=
  fun b hb => W26_of_ne m ρ c b fun w e => hb (Finset.mem_image.mpr ⟨w, Finset.mem_univ _, e⟩)
/-- Input window 0's array is left as entered. -/
theorem W26_in0 (c : Dev nD) : W26 m ρ c (Proc.devRef .tc main_v248) = W25 m ρ c (Proc.devRef .tc main_v248) :=
  (W26_arr m ρ c 0).trans (((dat13 (B25 m ρ) c).arrAt_in 0 rfl _).trans (A_eq13 (B25 m ρ) c 0))
/-- Input window 1's array is left as entered. -/
theorem W26_in1 (c : Dev nD) : W26 m ρ c (Proc.devRef .tc main_v236) = W25 m ρ c (Proc.devRef .tc main_v236) :=
  (W26_arr m ρ c 1).trans (((dat13 (B25 m ρ) c).arrAt_in 1 rfl _).trans (A_eq13 (B25 m ρ) c 1))
/-- Input window 2's array is left as entered. -/
theorem W26_in2 (c : Dev nD) : W26 m ρ c (Proc.devRef .tc main_v249) = W25 m ρ c (Proc.devRef .tc main_v249) :=
  (W26_arr m ρ c 2).trans (((dat13 (B25 m ρ) c).arrAt_in 2 rfl _).trans (A_eq13 (B25 m ρ) c 2))
/-- Input window 3's array is left as entered. -/
theorem W26_in3 (c : Dev nD) : W26 m ρ c (Proc.devRef .tc main_arg35) = W25 m ρ c (Proc.devRef .tc main_arg35) :=
  (W26_arr m ρ c 3).trans (((dat13 (B25 m ρ) c).arrAt_in 3 rfl _).trans (A_eq13 (B25 m ρ) c 3))
/-- After the host stretch `hostOps14`. -/
abbrev W27 : Dev nD → Valuation τ sig (Elt F) := fun c => StableHlo.after hostOps14 (W26 m ρ c)
/-- A buffer the stretch does not write keeps its contents. -/
theorem W27_keep (c : Dev nD) (r : Ref sig .tc) (h : r ∉ hostOps14_W) :
    W27 m ρ c (Proc.devRef .tc r) = W26 m ρ c (Proc.devRef .tc r) :=
  StableHlo.after_of_writes_sub hostOps14 _ hostOps14_writes h
/-- The same contents read at the TensorCore's references. -/
abbrev B27 : (c : Dev nD) → (b : Ref sig .tc) → Buf (Elt F) ((c : Thread nD τ).loc b) := fun c b => W27 m ρ c b
/-- After region 14: its arrays at what the pipeline leaves (an input's as entered, an output's at its write-backs
    folded over the grid), every other buffer as entered. -/
def W28 (c : Dev nD) : Valuation τ sig (Elt F) :=
  Pipeline.withArrays spec14 c (W27 m ρ c) fun w => (dat14 (B27 m ρ) c).arrAt w cfg14.N
theorem W28_arr (c : Dev nD) (w : Fin cfg14.W) :
    W28 m ρ c (Proc.devRef .tc (Pipeline.arrRef spec14 w)) = (dat14 (B27 m ρ) c).arrAt w cfg14.N := by
  unfold W28; exact Pipeline.withArrays_arr spec14 launch14.win.arr_inj c _ _ w
theorem W28_of_ne (c : Dev nD) (b : Ref sig .tc) (hb : ∀ w, Pipeline.arrRef spec14 w ≠ b) :
    W28 m ρ c (Proc.devRef .tc b) = W27 m ρ c (Proc.devRef .tc b) := by
  unfold W28; exact Pipeline.withArrays_of_ne spec14 c _ _ b hb
/-- The same contents read at the TensorCore's references. -/
abbrev B28 : (c : Dev nD) → (b : Ref sig .tc) → Buf (Elt F) ((c : Thread nD τ).loc b) := fun c b => W28 m ρ c b
theorem hF14 (c : Dev nD) (w : Fin cfg14.W) : (dat14 (B27 m ρ) c).arrAt w cfg14.N = B28 m ρ c (Pipeline.arrRef spec14 w) :=
  (W28_arr m ρ c w).symm
theorem hrest14 (c : Dev nD) : ∀ b, b ∉ Finset.univ.image (Pipeline.arrRef spec14) → B28 m ρ c b = B27 m ρ c b :=
  fun b hb => W28_of_ne m ρ c b fun w e => hb (Finset.mem_image.mpr ⟨w, Finset.mem_univ _, e⟩)
/-- Input window 0's array is left as entered. -/
theorem W28_in0 (c : Dev nD) : W28 m ρ c (Proc.devRef .tc main_v260) = W27 m ρ c (Proc.devRef .tc main_v260) :=
  (W28_arr m ρ c 0).trans (((dat14 (B27 m ρ) c).arrAt_in 0 rfl _).trans (A_eq14 (B27 m ρ) c 0))
/-- Input window 1's array is left as entered. -/
theorem W28_in1 (c : Dev nD) : W28 m ρ c (Proc.devRef .tc main_v261) = W27 m ρ c (Proc.devRef .tc main_v261) :=
  (W28_arr m ρ c 1).trans (((dat14 (B27 m ρ) c).arrAt_in 1 rfl _).trans (A_eq14 (B27 m ρ) c 1))
/-- Input window 2's array is left as entered. -/
theorem W28_in2 (c : Dev nD) : W28 m ρ c (Proc.devRef .tc main_v262) = W27 m ρ c (Proc.devRef .tc main_v262) :=
  (W28_arr m ρ c 2).trans (((dat14 (B27 m ρ) c).arrAt_in 2 rfl _).trans (A_eq14 (B27 m ρ) c 2))
/-- Input window 3's array is left as entered. -/
theorem W28_in3 (c : Dev nD) : W28 m ρ c (Proc.devRef .tc main_v263) = W27 m ρ c (Proc.devRef .tc main_v263) :=
  (W28_arr m ρ c 3).trans (((dat14 (B27 m ρ) c).arrAt_in 3 rfl _).trans (A_eq14 (B27 m ρ) c 3))
/-- Input window 4's array is left as entered. -/
theorem W28_in4 (c : Dev nD) : W28 m ρ c (Proc.devRef .tc main_v264) = W27 m ρ c (Proc.devRef .tc main_v264) :=
  (W28_arr m ρ c 4).trans (((dat14 (B27 m ρ) c).arrAt_in 4 rfl _).trans (A_eq14 (B27 m ρ) c 4))
/-- After the host stretch `hostOps15`. -/
abbrev W29 : Dev nD → Valuation τ sig (Elt F) := fun c => StableHlo.after hostOps15 (W28 m ρ c)
/-- A buffer the stretch does not write keeps its contents. -/
theorem W29_keep (c : Dev nD) (r : Ref sig .tc) (h : r ∉ hostOps15_W) :
    W29 m ρ c (Proc.devRef .tc r) = W28 m ρ c (Proc.devRef .tc r) :=
  StableHlo.after_of_writes_sub hostOps15 _ hostOps15_writes h

/-! ## The arguments end as launched -/
theorem W29_main_arg0 (c : Dev nD) : W29 m ρ c (Proc.devRef .tc main_arg0) = m ((c : Thread nD τ).loc main_arg0) :=
  (W29_keep m ρ c main_arg0 (by decide)).trans <| (W28_of_ne m ρ c main_arg0 (by decide)).trans <| (W27_keep m ρ c main_arg0 (by decide)).trans <| (W26_of_ne m ρ c main_arg0 (by decide)).trans <| (W25_keep m ρ c main_arg0 (by decide)).trans <| (W24_of_ne m ρ c main_arg0 (by decide)).trans <| (W23_of_ne m ρ c main_arg0 (by decide)).trans <| (W22_keep m ρ c main_arg0 (by decide)).trans <| (W21_of_ne m ρ c main_arg0 (by decide)).trans <| (W20_keep m ρ c main_arg0 (by decide)).trans <| (W19_of_ne m ρ c main_arg0 (by decide)).trans <| (W18_keep m ρ c main_arg0 (by decide)).trans <| (W17_of_ne m ρ c main_arg0 (by decide)).trans <| (W16_keep m ρ c main_arg0 (by decide)).trans <| (W15_of_ne m ρ c main_arg0 (by decide)).trans <| (W14_keep m ρ c main_arg0 (by decide)).trans <| (W13_of_ne m ρ c main_arg0 (by decide)).trans <| (W12_keep m ρ c main_arg0 (by decide)).trans <| (W11_of_ne m ρ c main_arg0 (by decide)).trans <| (W10_keep m ρ c main_arg0 (by decide)).trans <| (W9_of_ne m ρ c main_arg0 (by decide)).trans <| (W8_keep m ρ c main_arg0 (by decide)).trans <| (W7_of_ne m ρ c main_arg0 (by decide)).trans <| (W6_of_ne m ρ c main_arg0 (by decide)).trans <| (W5_keep m ρ c main_arg0 (by decide)).trans <| (W4_of_ne m ρ c main_arg0 (by decide)).trans <| (W3_keep m ρ c main_arg0 (by decide)).trans <| (W2_in2 m ρ c).trans <| (W1_keep m ρ c main_arg0 (by decide)).trans <| rfl
theorem W29_main_arg1 (c : Dev nD) : W29 m ρ c (Proc.devRef .tc main_arg1) = m ((c : Thread nD τ).loc main_arg1) :=
  (W29_keep m ρ c main_arg1 (by decide)).trans <| (W28_of_ne m ρ c main_arg1 (by decide)).trans <| (W27_keep m ρ c main_arg1 (by decide)).trans <| (W26_of_ne m ρ c main_arg1 (by decide)).trans <| (W25_keep m ρ c main_arg1 (by decide)).trans <| (W24_of_ne m ρ c main_arg1 (by decide)).trans <| (W23_of_ne m ρ c main_arg1 (by decide)).trans <| (W22_keep m ρ c main_arg1 (by decide)).trans <| (W21_of_ne m ρ c main_arg1 (by decide)).trans <| (W20_keep m ρ c main_arg1 (by decide)).trans <| (W19_in2 m ρ c).trans <| (W18_keep m ρ c main_arg1 (by decide)).trans <| (W17_of_ne m ρ c main_arg1 (by decide)).trans <| (W16_keep m ρ c main_arg1 (by decide)).trans <| (W15_of_ne m ρ c main_arg1 (by decide)).trans <| (W14_keep m ρ c main_arg1 (by decide)).trans <| (W13_of_ne m ρ c main_arg1 (by decide)).trans <| (W12_keep m ρ c main_arg1 (by decide)).trans <| (W11_of_ne m ρ c main_arg1 (by decide)).trans <| (W10_keep m ρ c main_arg1 (by decide)).trans <| (W9_of_ne m ρ c main_arg1 (by decide)).trans <| (W8_keep m ρ c main_arg1 (by decide)).trans <| (W7_of_ne m ρ c main_arg1 (by decide)).trans <| (W6_of_ne m ρ c main_arg1 (by decide)).trans <| (W5_keep m ρ c main_arg1 (by decide)).trans <| (W4_of_ne m ρ c main_arg1 (by decide)).trans <| (W3_keep m ρ c main_arg1 (by decide)).trans <| (W2_of_ne m ρ c main_arg1 (by decide)).trans <| (W1_keep m ρ c main_arg1 (by decide)).trans <| rfl
theorem W29_main_arg2 (c : Dev nD) : W29 m ρ c (Proc.devRef .tc main_arg2) = m ((c : Thread nD τ).loc main_arg2) :=
  (W29_keep m ρ c main_arg2 (by decide)).trans <| (W28_of_ne m ρ c main_arg2 (by decide)).trans <| (W27_keep m ρ c main_arg2 (by decide)).trans <| (W26_of_ne m ρ c main_arg2 (by decide)).trans <| (W25_keep m ρ c main_arg2 (by decide)).trans <| (W24_of_ne m ρ c main_arg2 (by decide)).trans <| (W23_of_ne m ρ c main_arg2 (by decide)).trans <| (W22_keep m ρ c main_arg2 (by decide)).trans <| (W21_of_ne m ρ c main_arg2 (by decide)).trans <| (W20_keep m ρ c main_arg2 (by decide)).trans <| (W19_of_ne m ρ c main_arg2 (by decide)).trans <| (W18_keep m ρ c main_arg2 (by decide)).trans <| (W17_of_ne m ρ c main_arg2 (by decide)).trans <| (W16_keep m ρ c main_arg2 (by decide)).trans <| (W15_of_ne m ρ c main_arg2 (by decide)).trans <| (W14_keep m ρ c main_arg2 (by decide)).trans <| (W13_of_ne m ρ c main_arg2 (by decide)).trans <| (W12_keep m ρ c main_arg2 (by decide)).trans <| (W11_of_ne m ρ c main_arg2 (by decide)).trans <| (W10_keep m ρ c main_arg2 (by decide)).trans <| (W9_of_ne m ρ c main_arg2 (by decide)).trans <| (W8_keep m ρ c main_arg2 (by decide)).trans <| (W7_of_ne m ρ c main_arg2 (by decide)).trans <| (W6_in2 m ρ c).trans <| (W5_keep m ρ c main_arg2 (by decide)).trans <| (W4_of_ne m ρ c main_arg2 (by decide)).trans <| (W3_keep m ρ c main_arg2 (by decide)).trans <| (W2_of_ne m ρ c main_arg2 (by decide)).trans <| (W1_keep m ρ c main_arg2 (by decide)).trans <| rfl
theorem W29_main_arg3 (c : Dev nD) : W29 m ρ c (Proc.devRef .tc main_arg3) = m ((c : Thread nD τ).loc main_arg3) :=
  (W29_keep m ρ c main_arg3 (by decide)).trans <| (W28_of_ne m ρ c main_arg3 (by decide)).trans <| (W27_keep m ρ c main_arg3 (by decide)).trans <| (W26_of_ne m ρ c main_arg3 (by decide)).trans <| (W25_keep m ρ c main_arg3 (by decide)).trans <| (W24_of_ne m ρ c main_arg3 (by decide)).trans <| (W23_of_ne m ρ c main_arg3 (by decide)).trans <| (W22_keep m ρ c main_arg3 (by decide)).trans <| (W21_of_ne m ρ c main_arg3 (by decide)).trans <| (W20_keep m ρ c main_arg3 (by decide)).trans <| (W19_of_ne m ρ c main_arg3 (by decide)).trans <| (W18_keep m ρ c main_arg3 (by decide)).trans <| (W17_of_ne m ρ c main_arg3 (by decide)).trans <| (W16_keep m ρ c main_arg3 (by decide)).trans <| (W15_of_ne m ρ c main_arg3 (by decide)).trans <| (W14_keep m ρ c main_arg3 (by decide)).trans <| (W13_of_ne m ρ c main_arg3 (by decide)).trans <| (W12_keep m ρ c main_arg3 (by decide)).trans <| (W11_of_ne m ρ c main_arg3 (by decide)).trans <| (W10_keep m ρ c main_arg3 (by decide)).trans <| (W9_of_ne m ρ c main_arg3 (by decide)).trans <| (W8_keep m ρ c main_arg3 (by decide)).trans <| (W7_of_ne m ρ c main_arg3 (by decide)).trans <| (W6_of_ne m ρ c main_arg3 (by decide)).trans <| (W5_keep m ρ c main_arg3 (by decide)).trans <| (W4_of_ne m ρ c main_arg3 (by decide)).trans <| (W3_keep m ρ c main_arg3 (by decide)).trans <| (W2_of_ne m ρ c main_arg3 (by decide)).trans <| (W1_keep m ρ c main_arg3 (by decide)).trans <| rfl
theorem W29_main_arg4 (c : Dev nD) : W29 m ρ c (Proc.devRef .tc main_arg4) = m ((c : Thread nD τ).loc main_arg4) :=
  (W29_keep m ρ c main_arg4 (by decide)).trans <| (W28_of_ne m ρ c main_arg4 (by decide)).trans <| (W27_keep m ρ c main_arg4 (by decide)).trans <| (W26_of_ne m ρ c main_arg4 (by decide)).trans <| (W25_keep m ρ c main_arg4 (by decide)).trans <| (W24_of_ne m ρ c main_arg4 (by decide)).trans <| (W23_of_ne m ρ c main_arg4 (by decide)).trans <| (W22_keep m ρ c main_arg4 (by decide)).trans <| (W21_of_ne m ρ c main_arg4 (by decide)).trans <| (W20_keep m ρ c main_arg4 (by decide)).trans <| (W19_of_ne m ρ c main_arg4 (by decide)).trans <| (W18_keep m ρ c main_arg4 (by decide)).trans <| (W17_of_ne m ρ c main_arg4 (by decide)).trans <| (W16_keep m ρ c main_arg4 (by decide)).trans <| (W15_of_ne m ρ c main_arg4 (by decide)).trans <| (W14_keep m ρ c main_arg4 (by decide)).trans <| (W13_of_ne m ρ c main_arg4 (by decide)).trans <| (W12_keep m ρ c main_arg4 (by decide)).trans <| (W11_of_ne m ρ c main_arg4 (by decide)).trans <| (W10_keep m ρ c main_arg4 (by decide)).trans <| (W9_of_ne m ρ c main_arg4 (by decide)).trans <| (W8_keep m ρ c main_arg4 (by decide)).trans <| (W7_of_ne m ρ c main_arg4 (by decide)).trans <| (W6_of_ne m ρ c main_arg4 (by decide)).trans <| (W5_keep m ρ c main_arg4 (by decide)).trans <| (W4_of_ne m ρ c main_arg4 (by decide)).trans <| (W3_keep m ρ c main_arg4 (by decide)).trans <| (W2_of_ne m ρ c main_arg4 (by decide)).trans <| (W1_keep m ρ c main_arg4 (by decide)).trans <| rfl
theorem W29_main_arg5 (c : Dev nD) : W29 m ρ c (Proc.devRef .tc main_arg5) = m ((c : Thread nD τ).loc main_arg5) :=
  (W29_keep m ρ c main_arg5 (by decide)).trans <| (W28_of_ne m ρ c main_arg5 (by decide)).trans <| (W27_keep m ρ c main_arg5 (by decide)).trans <| (W26_of_ne m ρ c main_arg5 (by decide)).trans <| (W25_keep m ρ c main_arg5 (by decide)).trans <| (W24_of_ne m ρ c main_arg5 (by decide)).trans <| (W23_of_ne m ρ c main_arg5 (by decide)).trans <| (W22_keep m ρ c main_arg5 (by decide)).trans <| (W21_of_ne m ρ c main_arg5 (by decide)).trans <| (W20_keep m ρ c main_arg5 (by decide)).trans <| (W19_of_ne m ρ c main_arg5 (by decide)).trans <| (W18_keep m ρ c main_arg5 (by decide)).trans <| (W17_of_ne m ρ c main_arg5 (by decide)).trans <| (W16_keep m ρ c main_arg5 (by decide)).trans <| (W15_of_ne m ρ c main_arg5 (by decide)).trans <| (W14_keep m ρ c main_arg5 (by decide)).trans <| (W13_of_ne m ρ c main_arg5 (by decide)).trans <| (W12_keep m ρ c main_arg5 (by decide)).trans <| (W11_of_ne m ρ c main_arg5 (by decide)).trans <| (W10_keep m ρ c main_arg5 (by decide)).trans <| (W9_of_ne m ρ c main_arg5 (by decide)).trans <| (W8_keep m ρ c main_arg5 (by decide)).trans <| (W7_of_ne m ρ c main_arg5 (by decide)).trans <| (W6_of_ne m ρ c main_arg5 (by decide)).trans <| (W5_keep m ρ c main_arg5 (by decide)).trans <| (W4_of_ne m ρ c main_arg5 (by decide)).trans <| (W3_keep m ρ c main_arg5 (by decide)).trans <| (W2_of_ne m ρ c main_arg5 (by decide)).trans <| (W1_keep m ρ c main_arg5 (by decide)).trans <| rfl
theorem W29_main_arg6 (c : Dev nD) : W29 m ρ c (Proc.devRef .tc main_arg6) = m ((c : Thread nD τ).loc main_arg6) :=
  (W29_keep m ρ c main_arg6 (by decide)).trans <| (W28_of_ne m ρ c main_arg6 (by decide)).trans <| (W27_keep m ρ c main_arg6 (by decide)).trans <| (W26_of_ne m ρ c main_arg6 (by decide)).trans <| (W25_keep m ρ c main_arg6 (by decide)).trans <| (W24_of_ne m ρ c main_arg6 (by decide)).trans <| (W23_of_ne m ρ c main_arg6 (by decide)).trans <| (W22_keep m ρ c main_arg6 (by decide)).trans <| (W21_of_ne m ρ c main_arg6 (by decide)).trans <| (W20_keep m ρ c main_arg6 (by decide)).trans <| (W19_of_ne m ρ c main_arg6 (by decide)).trans <| (W18_keep m ρ c main_arg6 (by decide)).trans <| (W17_of_ne m ρ c main_arg6 (by decide)).trans <| (W16_keep m ρ c main_arg6 (by decide)).trans <| (W15_of_ne m ρ c main_arg6 (by decide)).trans <| (W14_keep m ρ c main_arg6 (by decide)).trans <| (W13_of_ne m ρ c main_arg6 (by decide)).trans <| (W12_keep m ρ c main_arg6 (by decide)).trans <| (W11_of_ne m ρ c main_arg6 (by decide)).trans <| (W10_keep m ρ c main_arg6 (by decide)).trans <| (W9_of_ne m ρ c main_arg6 (by decide)).trans <| (W8_keep m ρ c main_arg6 (by decide)).trans <| (W7_of_ne m ρ c main_arg6 (by decide)).trans <| (W6_of_ne m ρ c main_arg6 (by decide)).trans <| (W5_keep m ρ c main_arg6 (by decide)).trans <| (W4_of_ne m ρ c main_arg6 (by decide)).trans <| (W3_keep m ρ c main_arg6 (by decide)).trans <| (W2_of_ne m ρ c main_arg6 (by decide)).trans <| (W1_keep m ρ c main_arg6 (by decide)).trans <| rfl
theorem W29_main_arg7 (c : Dev nD) : W29 m ρ c (Proc.devRef .tc main_arg7) = m ((c : Thread nD τ).loc main_arg7) :=
  (W29_keep m ρ c main_arg7 (by decide)).trans <| (W28_of_ne m ρ c main_arg7 (by decide)).trans <| (W27_keep m ρ c main_arg7 (by decide)).trans <| (W26_of_ne m ρ c main_arg7 (by decide)).trans <| (W25_keep m ρ c main_arg7 (by decide)).trans <| (W24_of_ne m ρ c main_arg7 (by decide)).trans <| (W23_of_ne m ρ c main_arg7 (by decide)).trans <| (W22_keep m ρ c main_arg7 (by decide)).trans <| (W21_of_ne m ρ c main_arg7 (by decide)).trans <| (W20_keep m ρ c main_arg7 (by decide)).trans <| (W19_of_ne m ρ c main_arg7 (by decide)).trans <| (W18_keep m ρ c main_arg7 (by decide)).trans <| (W17_of_ne m ρ c main_arg7 (by decide)).trans <| (W16_keep m ρ c main_arg7 (by decide)).trans <| (W15_of_ne m ρ c main_arg7 (by decide)).trans <| (W14_keep m ρ c main_arg7 (by decide)).trans <| (W13_of_ne m ρ c main_arg7 (by decide)).trans <| (W12_keep m ρ c main_arg7 (by decide)).trans <| (W11_of_ne m ρ c main_arg7 (by decide)).trans <| (W10_keep m ρ c main_arg7 (by decide)).trans <| (W9_of_ne m ρ c main_arg7 (by decide)).trans <| (W8_keep m ρ c main_arg7 (by decide)).trans <| (W7_of_ne m ρ c main_arg7 (by decide)).trans <| (W6_of_ne m ρ c main_arg7 (by decide)).trans <| (W5_keep m ρ c main_arg7 (by decide)).trans <| (W4_of_ne m ρ c main_arg7 (by decide)).trans <| (W3_keep m ρ c main_arg7 (by decide)).trans <| (W2_of_ne m ρ c main_arg7 (by decide)).trans <| (W1_keep m ρ c main_arg7 (by decide)).trans <| rfl
theorem W29_main_arg8 (c : Dev nD) : W29 m ρ c (Proc.devRef .tc main_arg8) = m ((c : Thread nD τ).loc main_arg8) :=
  (W29_keep m ρ c main_arg8 (by decide)).trans <| (W28_of_ne m ρ c main_arg8 (by decide)).trans <| (W27_keep m ρ c main_arg8 (by decide)).trans <| (W26_of_ne m ρ c main_arg8 (by decide)).trans <| (W25_keep m ρ c main_arg8 (by decide)).trans <| (W24_of_ne m ρ c main_arg8 (by decide)).trans <| (W23_of_ne m ρ c main_arg8 (by decide)).trans <| (W22_keep m ρ c main_arg8 (by decide)).trans <| (W21_of_ne m ρ c main_arg8 (by decide)).trans <| (W20_keep m ρ c main_arg8 (by decide)).trans <| (W19_of_ne m ρ c main_arg8 (by decide)).trans <| (W18_keep m ρ c main_arg8 (by decide)).trans <| (W17_of_ne m ρ c main_arg8 (by decide)).trans <| (W16_keep m ρ c main_arg8 (by decide)).trans <| (W15_of_ne m ρ c main_arg8 (by decide)).trans <| (W14_keep m ρ c main_arg8 (by decide)).trans <| (W13_of_ne m ρ c main_arg8 (by decide)).trans <| (W12_keep m ρ c main_arg8 (by decide)).trans <| (W11_of_ne m ρ c main_arg8 (by decide)).trans <| (W10_keep m ρ c main_arg8 (by decide)).trans <| (W9_of_ne m ρ c main_arg8 (by decide)).trans <| (W8_keep m ρ c main_arg8 (by decide)).trans <| (W7_of_ne m ρ c main_arg8 (by decide)).trans <| (W6_of_ne m ρ c main_arg8 (by decide)).trans <| (W5_keep m ρ c main_arg8 (by decide)).trans <| (W4_of_ne m ρ c main_arg8 (by decide)).trans <| (W3_keep m ρ c main_arg8 (by decide)).trans <| (W2_of_ne m ρ c main_arg8 (by decide)).trans <| (W1_keep m ρ c main_arg8 (by decide)).trans <| rfl
theorem W29_main_arg9 (c : Dev nD) : W29 m ρ c (Proc.devRef .tc main_arg9) = m ((c : Thread nD τ).loc main_arg9) :=
  (W29_keep m ρ c main_arg9 (by decide)).trans <| (W28_of_ne m ρ c main_arg9 (by decide)).trans <| (W27_keep m ρ c main_arg9 (by decide)).trans <| (W26_of_ne m ρ c main_arg9 (by decide)).trans <| (W25_keep m ρ c main_arg9 (by decide)).trans <| (W24_of_ne m ρ c main_arg9 (by decide)).trans <| (W23_of_ne m ρ c main_arg9 (by decide)).trans <| (W22_keep m ρ c main_arg9 (by decide)).trans <| (W21_of_ne m ρ c main_arg9 (by decide)).trans <| (W20_keep m ρ c main_arg9 (by decide)).trans <| (W19_of_ne m ρ c main_arg9 (by decide)).trans <| (W18_keep m ρ c main_arg9 (by decide)).trans <| (W17_of_ne m ρ c main_arg9 (by decide)).trans <| (W16_keep m ρ c main_arg9 (by decide)).trans <| (W15_of_ne m ρ c main_arg9 (by decide)).trans <| (W14_keep m ρ c main_arg9 (by decide)).trans <| (W13_of_ne m ρ c main_arg9 (by decide)).trans <| (W12_keep m ρ c main_arg9 (by decide)).trans <| (W11_of_ne m ρ c main_arg9 (by decide)).trans <| (W10_keep m ρ c main_arg9 (by decide)).trans <| (W9_of_ne m ρ c main_arg9 (by decide)).trans <| (W8_keep m ρ c main_arg9 (by decide)).trans <| (W7_of_ne m ρ c main_arg9 (by decide)).trans <| (W6_of_ne m ρ c main_arg9 (by decide)).trans <| (W5_keep m ρ c main_arg9 (by decide)).trans <| (W4_of_ne m ρ c main_arg9 (by decide)).trans <| (W3_keep m ρ c main_arg9 (by decide)).trans <| (W2_of_ne m ρ c main_arg9 (by decide)).trans <| (W1_keep m ρ c main_arg9 (by decide)).trans <| rfl
theorem W29_main_arg10 (c : Dev nD) : W29 m ρ c (Proc.devRef .tc main_arg10) = m ((c : Thread nD τ).loc main_arg10) :=
  (W29_keep m ρ c main_arg10 (by decide)).trans <| (W28_of_ne m ρ c main_arg10 (by decide)).trans <| (W27_keep m ρ c main_arg10 (by decide)).trans <| (W26_of_ne m ρ c main_arg10 (by decide)).trans <| (W25_keep m ρ c main_arg10 (by decide)).trans <| (W24_of_ne m ρ c main_arg10 (by decide)).trans <| (W23_of_ne m ρ c main_arg10 (by decide)).trans <| (W22_keep m ρ c main_arg10 (by decide)).trans <| (W21_of_ne m ρ c main_arg10 (by decide)).trans <| (W20_keep m ρ c main_arg10 (by decide)).trans <| (W19_of_ne m ρ c main_arg10 (by decide)).trans <| (W18_keep m ρ c main_arg10 (by decide)).trans <| (W17_of_ne m ρ c main_arg10 (by decide)).trans <| (W16_keep m ρ c main_arg10 (by decide)).trans <| (W15_of_ne m ρ c main_arg10 (by decide)).trans <| (W14_keep m ρ c main_arg10 (by decide)).trans <| (W13_of_ne m ρ c main_arg10 (by decide)).trans <| (W12_keep m ρ c main_arg10 (by decide)).trans <| (W11_of_ne m ρ c main_arg10 (by decide)).trans <| (W10_keep m ρ c main_arg10 (by decide)).trans <| (W9_of_ne m ρ c main_arg10 (by decide)).trans <| (W8_keep m ρ c main_arg10 (by decide)).trans <| (W7_of_ne m ρ c main_arg10 (by decide)).trans <| (W6_of_ne m ρ c main_arg10 (by decide)).trans <| (W5_keep m ρ c main_arg10 (by decide)).trans <| (W4_of_ne m ρ c main_arg10 (by decide)).trans <| (W3_keep m ρ c main_arg10 (by decide)).trans <| (W2_of_ne m ρ c main_arg10 (by decide)).trans <| (W1_keep m ρ c main_arg10 (by decide)).trans <| rfl
theorem W29_main_arg11 (c : Dev nD) : W29 m ρ c (Proc.devRef .tc main_arg11) = m ((c : Thread nD τ).loc main_arg11) :=
  (W29_keep m ρ c main_arg11 (by decide)).trans <| (W28_of_ne m ρ c main_arg11 (by decide)).trans <| (W27_keep m ρ c main_arg11 (by decide)).trans <| (W26_of_ne m ρ c main_arg11 (by decide)).trans <| (W25_keep m ρ c main_arg11 (by decide)).trans <| (W24_of_ne m ρ c main_arg11 (by decide)).trans <| (W23_of_ne m ρ c main_arg11 (by decide)).trans <| (W22_keep m ρ c main_arg11 (by decide)).trans <| (W21_of_ne m ρ c main_arg11 (by decide)).trans <| (W20_keep m ρ c main_arg11 (by decide)).trans <| (W19_of_ne m ρ c main_arg11 (by decide)).trans <| (W18_keep m ρ c main_arg11 (by decide)).trans <| (W17_of_ne m ρ c main_arg11 (by decide)).trans <| (W16_keep m ρ c main_arg11 (by decide)).trans <| (W15_of_ne m ρ c main_arg11 (by decide)).trans <| (W14_keep m ρ c main_arg11 (by decide)).trans <| (W13_of_ne m ρ c main_arg11 (by decide)).trans <| (W12_keep m ρ c main_arg11 (by decide)).trans <| (W11_of_ne m ρ c main_arg11 (by decide)).trans <| (W10_keep m ρ c main_arg11 (by decide)).trans <| (W9_of_ne m ρ c main_arg11 (by decide)).trans <| (W8_keep m ρ c main_arg11 (by decide)).trans <| (W7_of_ne m ρ c main_arg11 (by decide)).trans <| (W6_of_ne m ρ c main_arg11 (by decide)).trans <| (W5_keep m ρ c main_arg11 (by decide)).trans <| (W4_of_ne m ρ c main_arg11 (by decide)).trans <| (W3_keep m ρ c main_arg11 (by decide)).trans <| (W2_of_ne m ρ c main_arg11 (by decide)).trans <| (W1_keep m ρ c main_arg11 (by decide)).trans <| rfl
theorem W29_main_arg12 (c : Dev nD) : W29 m ρ c (Proc.devRef .tc main_arg12) = m ((c : Thread nD τ).loc main_arg12) :=
  (W29_keep m ρ c main_arg12 (by decide)).trans <| (W28_of_ne m ρ c main_arg12 (by decide)).trans <| (W27_keep m ρ c main_arg12 (by decide)).trans <| (W26_of_ne m ρ c main_arg12 (by decide)).trans <| (W25_keep m ρ c main_arg12 (by decide)).trans <| (W24_of_ne m ρ c main_arg12 (by decide)).trans <| (W23_of_ne m ρ c main_arg12 (by decide)).trans <| (W22_keep m ρ c main_arg12 (by decide)).trans <| (W21_of_ne m ρ c main_arg12 (by decide)).trans <| (W20_keep m ρ c main_arg12 (by decide)).trans <| (W19_of_ne m ρ c main_arg12 (by decide)).trans <| (W18_keep m ρ c main_arg12 (by decide)).trans <| (W17_of_ne m ρ c main_arg12 (by decide)).trans <| (W16_keep m ρ c main_arg12 (by decide)).trans <| (W15_of_ne m ρ c main_arg12 (by decide)).trans <| (W14_keep m ρ c main_arg12 (by decide)).trans <| (W13_of_ne m ρ c main_arg12 (by decide)).trans <| (W12_keep m ρ c main_arg12 (by decide)).trans <| (W11_of_ne m ρ c main_arg12 (by decide)).trans <| (W10_keep m ρ c main_arg12 (by decide)).trans <| (W9_of_ne m ρ c main_arg12 (by decide)).trans <| (W8_keep m ρ c main_arg12 (by decide)).trans <| (W7_of_ne m ρ c main_arg12 (by decide)).trans <| (W6_of_ne m ρ c main_arg12 (by decide)).trans <| (W5_keep m ρ c main_arg12 (by decide)).trans <| (W4_of_ne m ρ c main_arg12 (by decide)).trans <| (W3_keep m ρ c main_arg12 (by decide)).trans <| (W2_in3 m ρ c).trans <| (W1_keep m ρ c main_arg12 (by decide)).trans <| rfl
theorem W29_main_arg13 (c : Dev nD) : W29 m ρ c (Proc.devRef .tc main_arg13) = m ((c : Thread nD τ).loc main_arg13) :=
  (W29_keep m ρ c main_arg13 (by decide)).trans <| (W28_of_ne m ρ c main_arg13 (by decide)).trans <| (W27_keep m ρ c main_arg13 (by decide)).trans <| (W26_of_ne m ρ c main_arg13 (by decide)).trans <| (W25_keep m ρ c main_arg13 (by decide)).trans <| (W24_of_ne m ρ c main_arg13 (by decide)).trans <| (W23_of_ne m ρ c main_arg13 (by decide)).trans <| (W22_keep m ρ c main_arg13 (by decide)).trans <| (W21_of_ne m ρ c main_arg13 (by decide)).trans <| (W20_keep m ρ c main_arg13 (by decide)).trans <| (W19_of_ne m ρ c main_arg13 (by decide)).trans <| (W18_keep m ρ c main_arg13 (by decide)).trans <| (W17_of_ne m ρ c main_arg13 (by decide)).trans <| (W16_keep m ρ c main_arg13 (by decide)).trans <| (W15_of_ne m ρ c main_arg13 (by decide)).trans <| (W14_keep m ρ c main_arg13 (by decide)).trans <| (W13_of_ne m ρ c main_arg13 (by decide)).trans <| (W12_keep m ρ c main_arg13 (by decide)).trans <| (W11_of_ne m ρ c main_arg13 (by decide)).trans <| (W10_keep m ρ c main_arg13 (by decide)).trans <| (W9_of_ne m ρ c main_arg13 (by decide)).trans <| (W8_keep m ρ c main_arg13 (by decide)).trans <| (W7_of_ne m ρ c main_arg13 (by decide)).trans <| (W6_of_ne m ρ c main_arg13 (by decide)).trans <| (W5_keep m ρ c main_arg13 (by decide)).trans <| (W4_of_ne m ρ c main_arg13 (by decide)).trans <| (W3_keep m ρ c main_arg13 (by decide)).trans <| (W2_in4 m ρ c).trans <| (W1_keep m ρ c main_arg13 (by decide)).trans <| rfl
theorem W29_main_arg14 (c : Dev nD) : W29 m ρ c (Proc.devRef .tc main_arg14) = m ((c : Thread nD τ).loc main_arg14) :=
  (W29_keep m ρ c main_arg14 (by decide)).trans <| (W28_of_ne m ρ c main_arg14 (by decide)).trans <| (W27_keep m ρ c main_arg14 (by decide)).trans <| (W26_of_ne m ρ c main_arg14 (by decide)).trans <| (W25_keep m ρ c main_arg14 (by decide)).trans <| (W24_of_ne m ρ c main_arg14 (by decide)).trans <| (W23_of_ne m ρ c main_arg14 (by decide)).trans <| (W22_keep m ρ c main_arg14 (by decide)).trans <| (W21_of_ne m ρ c main_arg14 (by decide)).trans <| (W20_keep m ρ c main_arg14 (by decide)).trans <| (W19_of_ne m ρ c main_arg14 (by decide)).trans <| (W18_keep m ρ c main_arg14 (by decide)).trans <| (W17_of_ne m ρ c main_arg14 (by decide)).trans <| (W16_keep m ρ c main_arg14 (by decide)).trans <| (W15_of_ne m ρ c main_arg14 (by decide)).trans <| (W14_keep m ρ c main_arg14 (by decide)).trans <| (W13_of_ne m ρ c main_arg14 (by decide)).trans <| (W12_keep m ρ c main_arg14 (by decide)).trans <| (W11_of_ne m ρ c main_arg14 (by decide)).trans <| (W10_keep m ρ c main_arg14 (by decide)).trans <| (W9_of_ne m ρ c main_arg14 (by decide)).trans <| (W8_keep m ρ c main_arg14 (by decide)).trans <| (W7_of_ne m ρ c main_arg14 (by decide)).trans <| (W6_of_ne m ρ c main_arg14 (by decide)).trans <| (W5_keep m ρ c main_arg14 (by decide)).trans <| (W4_of_ne m ρ c main_arg14 (by decide)).trans <| (W3_keep m ρ c main_arg14 (by decide)).trans <| (W2_in5 m ρ c).trans <| (W1_keep m ρ c main_arg14 (by decide)).trans <| rfl
theorem W29_main_arg15 (c : Dev nD) : W29 m ρ c (Proc.devRef .tc main_arg15) = m ((c : Thread nD τ).loc main_arg15) :=
  (W29_keep m ρ c main_arg15 (by decide)).trans <| (W28_of_ne m ρ c main_arg15 (by decide)).trans <| (W27_keep m ρ c main_arg15 (by decide)).trans <| (W26_of_ne m ρ c main_arg15 (by decide)).trans <| (W25_keep m ρ c main_arg15 (by decide)).trans <| (W24_of_ne m ρ c main_arg15 (by decide)).trans <| (W23_of_ne m ρ c main_arg15 (by decide)).trans <| (W22_keep m ρ c main_arg15 (by decide)).trans <| (W21_of_ne m ρ c main_arg15 (by decide)).trans <| (W20_keep m ρ c main_arg15 (by decide)).trans <| (W19_of_ne m ρ c main_arg15 (by decide)).trans <| (W18_keep m ρ c main_arg15 (by decide)).trans <| (W17_of_ne m ρ c main_arg15 (by decide)).trans <| (W16_keep m ρ c main_arg15 (by decide)).trans <| (W15_of_ne m ρ c main_arg15 (by decide)).trans <| (W14_keep m ρ c main_arg15 (by decide)).trans <| (W13_of_ne m ρ c main_arg15 (by decide)).trans <| (W12_keep m ρ c main_arg15 (by decide)).trans <| (W11_of_ne m ρ c main_arg15 (by decide)).trans <| (W10_keep m ρ c main_arg15 (by decide)).trans <| (W9_of_ne m ρ c main_arg15 (by decide)).trans <| (W8_keep m ρ c main_arg15 (by decide)).trans <| (W7_of_ne m ρ c main_arg15 (by decide)).trans <| (W6_of_ne m ρ c main_arg15 (by decide)).trans <| (W5_keep m ρ c main_arg15 (by decide)).trans <| (W4_in3 m ρ c).trans <| (W3_keep m ρ c main_arg15 (by decide)).trans <| (W2_of_ne m ρ c main_arg15 (by decide)).trans <| (W1_keep m ρ c main_arg15 (by decide)).trans <| rfl
theorem W29_main_arg16 (c : Dev nD) : W29 m ρ c (Proc.devRef .tc main_arg16) = m ((c : Thread nD τ).loc main_arg16) :=
  (W29_keep m ρ c main_arg16 (by decide)).trans <| (W28_of_ne m ρ c main_arg16 (by decide)).trans <| (W27_keep m ρ c main_arg16 (by decide)).trans <| (W26_of_ne m ρ c main_arg16 (by decide)).trans <| (W25_keep m ρ c main_arg16 (by decide)).trans <| (W24_of_ne m ρ c main_arg16 (by decide)).trans <| (W23_of_ne m ρ c main_arg16 (by decide)).trans <| (W22_keep m ρ c main_arg16 (by decide)).trans <| (W21_of_ne m ρ c main_arg16 (by decide)).trans <| (W20_keep m ρ c main_arg16 (by decide)).trans <| (W19_of_ne m ρ c main_arg16 (by decide)).trans <| (W18_keep m ρ c main_arg16 (by decide)).trans <| (W17_of_ne m ρ c main_arg16 (by decide)).trans <| (W16_keep m ρ c main_arg16 (by decide)).trans <| (W15_of_ne m ρ c main_arg16 (by decide)).trans <| (W14_keep m ρ c main_arg16 (by decide)).trans <| (W13_of_ne m ρ c main_arg16 (by decide)).trans <| (W12_keep m ρ c main_arg16 (by decide)).trans <| (W11_of_ne m ρ c main_arg16 (by decide)).trans <| (W10_keep m ρ c main_arg16 (by decide)).trans <| (W9_of_ne m ρ c main_arg16 (by decide)).trans <| (W8_keep m ρ c main_arg16 (by decide)).trans <| (W7_of_ne m ρ c main_arg16 (by decide)).trans <| (W6_of_ne m ρ c main_arg16 (by decide)).trans <| (W5_keep m ρ c main_arg16 (by decide)).trans <| (W4_in4 m ρ c).trans <| (W3_keep m ρ c main_arg16 (by decide)).trans <| (W2_of_ne m ρ c main_arg16 (by decide)).trans <| (W1_keep m ρ c main_arg16 (by decide)).trans <| rfl
theorem W29_main_arg17 (c : Dev nD) : W29 m ρ c (Proc.devRef .tc main_arg17) = m ((c : Thread nD τ).loc main_arg17) :=
  (W29_keep m ρ c main_arg17 (by decide)).trans <| (W28_of_ne m ρ c main_arg17 (by decide)).trans <| (W27_keep m ρ c main_arg17 (by decide)).trans <| (W26_of_ne m ρ c main_arg17 (by decide)).trans <| (W25_keep m ρ c main_arg17 (by decide)).trans <| (W24_of_ne m ρ c main_arg17 (by decide)).trans <| (W23_of_ne m ρ c main_arg17 (by decide)).trans <| (W22_keep m ρ c main_arg17 (by decide)).trans <| (W21_of_ne m ρ c main_arg17 (by decide)).trans <| (W20_keep m ρ c main_arg17 (by decide)).trans <| (W19_of_ne m ρ c main_arg17 (by decide)).trans <| (W18_keep m ρ c main_arg17 (by decide)).trans <| (W17_of_ne m ρ c main_arg17 (by decide)).trans <| (W16_keep m ρ c main_arg17 (by decide)).trans <| (W15_of_ne m ρ c main_arg17 (by decide)).trans <| (W14_keep m ρ c main_arg17 (by decide)).trans <| (W13_of_ne m ρ c main_arg17 (by decide)).trans <| (W12_keep m ρ c main_arg17 (by decide)).trans <| (W11_of_ne m ρ c main_arg17 (by decide)).trans <| (W10_keep m ρ c main_arg17 (by decide)).trans <| (W9_of_ne m ρ c main_arg17 (by decide)).trans <| (W8_keep m ρ c main_arg17 (by decide)).trans <| (W7_of_ne m ρ c main_arg17 (by decide)).trans <| (W6_of_ne m ρ c main_arg17 (by decide)).trans <| (W5_keep m ρ c main_arg17 (by decide)).trans <| (W4_in5 m ρ c).trans <| (W3_keep m ρ c main_arg17 (by decide)).trans <| (W2_of_ne m ρ c main_arg17 (by decide)).trans <| (W1_keep m ρ c main_arg17 (by decide)).trans <| rfl
theorem W29_main_arg18 (c : Dev nD) : W29 m ρ c (Proc.devRef .tc main_arg18) = m ((c : Thread nD τ).loc main_arg18) :=
  (W29_keep m ρ c main_arg18 (by decide)).trans <| (W28_of_ne m ρ c main_arg18 (by decide)).trans <| (W27_keep m ρ c main_arg18 (by decide)).trans <| (W26_of_ne m ρ c main_arg18 (by decide)).trans <| (W25_keep m ρ c main_arg18 (by decide)).trans <| (W24_of_ne m ρ c main_arg18 (by decide)).trans <| (W23_of_ne m ρ c main_arg18 (by decide)).trans <| (W22_keep m ρ c main_arg18 (by decide)).trans <| (W21_of_ne m ρ c main_arg18 (by decide)).trans <| (W20_keep m ρ c main_arg18 (by decide)).trans <| (W19_of_ne m ρ c main_arg18 (by decide)).trans <| (W18_keep m ρ c main_arg18 (by decide)).trans <| (W17_of_ne m ρ c main_arg18 (by decide)).trans <| (W16_keep m ρ c main_arg18 (by decide)).trans <| (W15_of_ne m ρ c main_arg18 (by decide)).trans <| (W14_keep m ρ c main_arg18 (by decide)).trans <| (W13_of_ne m ρ c main_arg18 (by decide)).trans <| (W12_keep m ρ c main_arg18 (by decide)).trans <| (W11_of_ne m ρ c main_arg18 (by decide)).trans <| (W10_keep m ρ c main_arg18 (by decide)).trans <| (W9_of_ne m ρ c main_arg18 (by decide)).trans <| (W8_keep m ρ c main_arg18 (by decide)).trans <| (W7_of_ne m ρ c main_arg18 (by decide)).trans <| (W6_in3 m ρ c).trans <| (W5_keep m ρ c main_arg18 (by decide)).trans <| (W4_of_ne m ρ c main_arg18 (by decide)).trans <| (W3_keep m ρ c main_arg18 (by decide)).trans <| (W2_of_ne m ρ c main_arg18 (by decide)).trans <| (W1_keep m ρ c main_arg18 (by decide)).trans <| rfl
theorem W29_main_arg19 (c : Dev nD) : W29 m ρ c (Proc.devRef .tc main_arg19) = m ((c : Thread nD τ).loc main_arg19) :=
  (W29_keep m ρ c main_arg19 (by decide)).trans <| (W28_of_ne m ρ c main_arg19 (by decide)).trans <| (W27_keep m ρ c main_arg19 (by decide)).trans <| (W26_of_ne m ρ c main_arg19 (by decide)).trans <| (W25_keep m ρ c main_arg19 (by decide)).trans <| (W24_of_ne m ρ c main_arg19 (by decide)).trans <| (W23_of_ne m ρ c main_arg19 (by decide)).trans <| (W22_keep m ρ c main_arg19 (by decide)).trans <| (W21_of_ne m ρ c main_arg19 (by decide)).trans <| (W20_keep m ρ c main_arg19 (by decide)).trans <| (W19_of_ne m ρ c main_arg19 (by decide)).trans <| (W18_keep m ρ c main_arg19 (by decide)).trans <| (W17_of_ne m ρ c main_arg19 (by decide)).trans <| (W16_keep m ρ c main_arg19 (by decide)).trans <| (W15_of_ne m ρ c main_arg19 (by decide)).trans <| (W14_keep m ρ c main_arg19 (by decide)).trans <| (W13_of_ne m ρ c main_arg19 (by decide)).trans <| (W12_keep m ρ c main_arg19 (by decide)).trans <| (W11_of_ne m ρ c main_arg19 (by decide)).trans <| (W10_keep m ρ c main_arg19 (by decide)).trans <| (W9_of_ne m ρ c main_arg19 (by decide)).trans <| (W8_keep m ρ c main_arg19 (by decide)).trans <| (W7_of_ne m ρ c main_arg19 (by decide)).trans <| (W6_in4 m ρ c).trans <| (W5_keep m ρ c main_arg19 (by decide)).trans <| (W4_of_ne m ρ c main_arg19 (by decide)).trans <| (W3_keep m ρ c main_arg19 (by decide)).trans <| (W2_of_ne m ρ c main_arg19 (by decide)).trans <| (W1_keep m ρ c main_arg19 (by decide)).trans <| rfl
theorem W29_main_arg20 (c : Dev nD) : W29 m ρ c (Proc.devRef .tc main_arg20) = m ((c : Thread nD τ).loc main_arg20) :=
  (W29_keep m ρ c main_arg20 (by decide)).trans <| (W28_of_ne m ρ c main_arg20 (by decide)).trans <| (W27_keep m ρ c main_arg20 (by decide)).trans <| (W26_of_ne m ρ c main_arg20 (by decide)).trans <| (W25_keep m ρ c main_arg20 (by decide)).trans <| (W24_of_ne m ρ c main_arg20 (by decide)).trans <| (W23_of_ne m ρ c main_arg20 (by decide)).trans <| (W22_keep m ρ c main_arg20 (by decide)).trans <| (W21_of_ne m ρ c main_arg20 (by decide)).trans <| (W20_keep m ρ c main_arg20 (by decide)).trans <| (W19_of_ne m ρ c main_arg20 (by decide)).trans <| (W18_keep m ρ c main_arg20 (by decide)).trans <| (W17_of_ne m ρ c main_arg20 (by decide)).trans <| (W16_keep m ρ c main_arg20 (by decide)).trans <| (W15_of_ne m ρ c main_arg20 (by decide)).trans <| (W14_keep m ρ c main_arg20 (by decide)).trans <| (W13_of_ne m ρ c main_arg20 (by decide)).trans <| (W12_keep m ρ c main_arg20 (by decide)).trans <| (W11_of_ne m ρ c main_arg20 (by decide)).trans <| (W10_keep m ρ c main_arg20 (by decide)).trans <| (W9_of_ne m ρ c main_arg20 (by decide)).trans <| (W8_keep m ρ c main_arg20 (by decide)).trans <| (W7_of_ne m ρ c main_arg20 (by decide)).trans <| (W6_in5 m ρ c).trans <| (W5_keep m ρ c main_arg20 (by decide)).trans <| (W4_of_ne m ρ c main_arg20 (by decide)).trans <| (W3_keep m ρ c main_arg20 (by decide)).trans <| (W2_of_ne m ρ c main_arg20 (by decide)).trans <| (W1_keep m ρ c main_arg20 (by decide)).trans <| rfl
theorem W29_main_arg21 (c : Dev nD) : W29 m ρ c (Proc.devRef .tc main_arg21) = m ((c : Thread nD τ).loc main_arg21) :=
  (W29_keep m ρ c main_arg21 (by decide)).trans <| (W28_of_ne m ρ c main_arg21 (by decide)).trans <| (W27_keep m ρ c main_arg21 (by decide)).trans <| (W26_of_ne m ρ c main_arg21 (by decide)).trans <| (W25_keep m ρ c main_arg21 (by decide)).trans <| (W24_of_ne m ρ c main_arg21 (by decide)).trans <| (W23_of_ne m ρ c main_arg21 (by decide)).trans <| (W22_keep m ρ c main_arg21 (by decide)).trans <| (W21_of_ne m ρ c main_arg21 (by decide)).trans <| (W20_keep m ρ c main_arg21 (by decide)).trans <| (W19_in3 m ρ c).trans <| (W18_keep m ρ c main_arg21 (by decide)).trans <| (W17_of_ne m ρ c main_arg21 (by decide)).trans <| (W16_keep m ρ c main_arg21 (by decide)).trans <| (W15_of_ne m ρ c main_arg21 (by decide)).trans <| (W14_keep m ρ c main_arg21 (by decide)).trans <| (W13_of_ne m ρ c main_arg21 (by decide)).trans <| (W12_keep m ρ c main_arg21 (by decide)).trans <| (W11_of_ne m ρ c main_arg21 (by decide)).trans <| (W10_keep m ρ c main_arg21 (by decide)).trans <| (W9_of_ne m ρ c main_arg21 (by decide)).trans <| (W8_keep m ρ c main_arg21 (by decide)).trans <| (W7_of_ne m ρ c main_arg21 (by decide)).trans <| (W6_of_ne m ρ c main_arg21 (by decide)).trans <| (W5_keep m ρ c main_arg21 (by decide)).trans <| (W4_of_ne m ρ c main_arg21 (by decide)).trans <| (W3_keep m ρ c main_arg21 (by decide)).trans <| (W2_of_ne m ρ c main_arg21 (by decide)).trans <| (W1_keep m ρ c main_arg21 (by decide)).trans <| rfl
theorem W29_main_arg22 (c : Dev nD) : W29 m ρ c (Proc.devRef .tc main_arg22) = m ((c : Thread nD τ).loc main_arg22) :=
  (W29_keep m ρ c main_arg22 (by decide)).trans <| (W28_of_ne m ρ c main_arg22 (by decide)).trans <| (W27_keep m ρ c main_arg22 (by decide)).trans <| (W26_of_ne m ρ c main_arg22 (by decide)).trans <| (W25_keep m ρ c main_arg22 (by decide)).trans <| (W24_of_ne m ρ c main_arg22 (by decide)).trans <| (W23_of_ne m ρ c main_arg22 (by decide)).trans <| (W22_keep m ρ c main_arg22 (by decide)).trans <| (W21_of_ne m ρ c main_arg22 (by decide)).trans <| (W20_keep m ρ c main_arg22 (by decide)).trans <| (W19_in4 m ρ c).trans <| (W18_keep m ρ c main_arg22 (by decide)).trans <| (W17_of_ne m ρ c main_arg22 (by decide)).trans <| (W16_keep m ρ c main_arg22 (by decide)).trans <| (W15_of_ne m ρ c main_arg22 (by decide)).trans <| (W14_keep m ρ c main_arg22 (by decide)).trans <| (W13_of_ne m ρ c main_arg22 (by decide)).trans <| (W12_keep m ρ c main_arg22 (by decide)).trans <| (W11_of_ne m ρ c main_arg22 (by decide)).trans <| (W10_keep m ρ c main_arg22 (by decide)).trans <| (W9_of_ne m ρ c main_arg22 (by decide)).trans <| (W8_keep m ρ c main_arg22 (by decide)).trans <| (W7_of_ne m ρ c main_arg22 (by decide)).trans <| (W6_of_ne m ρ c main_arg22 (by decide)).trans <| (W5_keep m ρ c main_arg22 (by decide)).trans <| (W4_of_ne m ρ c main_arg22 (by decide)).trans <| (W3_keep m ρ c main_arg22 (by decide)).trans <| (W2_of_ne m ρ c main_arg22 (by decide)).trans <| (W1_keep m ρ c main_arg22 (by decide)).trans <| rfl
theorem W29_main_arg23 (c : Dev nD) : W29 m ρ c (Proc.devRef .tc main_arg23) = m ((c : Thread nD τ).loc main_arg23) :=
  (W29_keep m ρ c main_arg23 (by decide)).trans <| (W28_of_ne m ρ c main_arg23 (by decide)).trans <| (W27_keep m ρ c main_arg23 (by decide)).trans <| (W26_of_ne m ρ c main_arg23 (by decide)).trans <| (W25_keep m ρ c main_arg23 (by decide)).trans <| (W24_of_ne m ρ c main_arg23 (by decide)).trans <| (W23_of_ne m ρ c main_arg23 (by decide)).trans <| (W22_keep m ρ c main_arg23 (by decide)).trans <| (W21_of_ne m ρ c main_arg23 (by decide)).trans <| (W20_keep m ρ c main_arg23 (by decide)).trans <| (W19_in5 m ρ c).trans <| (W18_keep m ρ c main_arg23 (by decide)).trans <| (W17_of_ne m ρ c main_arg23 (by decide)).trans <| (W16_keep m ρ c main_arg23 (by decide)).trans <| (W15_of_ne m ρ c main_arg23 (by decide)).trans <| (W14_keep m ρ c main_arg23 (by decide)).trans <| (W13_of_ne m ρ c main_arg23 (by decide)).trans <| (W12_keep m ρ c main_arg23 (by decide)).trans <| (W11_of_ne m ρ c main_arg23 (by decide)).trans <| (W10_keep m ρ c main_arg23 (by decide)).trans <| (W9_of_ne m ρ c main_arg23 (by decide)).trans <| (W8_keep m ρ c main_arg23 (by decide)).trans <| (W7_of_ne m ρ c main_arg23 (by decide)).trans <| (W6_of_ne m ρ c main_arg23 (by decide)).trans <| (W5_keep m ρ c main_arg23 (by decide)).trans <| (W4_of_ne m ρ c main_arg23 (by decide)).trans <| (W3_keep m ρ c main_arg23 (by decide)).trans <| (W2_of_ne m ρ c main_arg23 (by decide)).trans <| (W1_keep m ρ c main_arg23 (by decide)).trans <| rfl
theorem W29_main_arg24 (c : Dev nD) : W29 m ρ c (Proc.devRef .tc main_arg24) = m ((c : Thread nD τ).loc main_arg24) :=
  (W29_keep m ρ c main_arg24 (by decide)).trans <| (W28_of_ne m ρ c main_arg24 (by decide)).trans <| (W27_keep m ρ c main_arg24 (by decide)).trans <| (W26_of_ne m ρ c main_arg24 (by decide)).trans <| (W25_keep m ρ c main_arg24 (by decide)).trans <| (W24_of_ne m ρ c main_arg24 (by decide)).trans <| (W23_of_ne m ρ c main_arg24 (by decide)).trans <| (W22_keep m ρ c main_arg24 (by decide)).trans <| (W21_in3 m ρ c).trans <| (W20_keep m ρ c main_arg24 (by decide)).trans <| (W19_of_ne m ρ c main_arg24 (by decide)).trans <| (W18_keep m ρ c main_arg24 (by decide)).trans <| (W17_of_ne m ρ c main_arg24 (by decide)).trans <| (W16_keep m ρ c main_arg24 (by decide)).trans <| (W15_of_ne m ρ c main_arg24 (by decide)).trans <| (W14_keep m ρ c main_arg24 (by decide)).trans <| (W13_of_ne m ρ c main_arg24 (by decide)).trans <| (W12_keep m ρ c main_arg24 (by decide)).trans <| (W11_of_ne m ρ c main_arg24 (by decide)).trans <| (W10_keep m ρ c main_arg24 (by decide)).trans <| (W9_of_ne m ρ c main_arg24 (by decide)).trans <| (W8_keep m ρ c main_arg24 (by decide)).trans <| (W7_of_ne m ρ c main_arg24 (by decide)).trans <| (W6_of_ne m ρ c main_arg24 (by decide)).trans <| (W5_keep m ρ c main_arg24 (by decide)).trans <| (W4_of_ne m ρ c main_arg24 (by decide)).trans <| (W3_keep m ρ c main_arg24 (by decide)).trans <| (W2_of_ne m ρ c main_arg24 (by decide)).trans <| (W1_keep m ρ c main_arg24 (by decide)).trans <| rfl
theorem W29_main_arg25 (c : Dev nD) : W29 m ρ c (Proc.devRef .tc main_arg25) = m ((c : Thread nD τ).loc main_arg25) :=
  (W29_keep m ρ c main_arg25 (by decide)).trans <| (W28_of_ne m ρ c main_arg25 (by decide)).trans <| (W27_keep m ρ c main_arg25 (by decide)).trans <| (W26_of_ne m ρ c main_arg25 (by decide)).trans <| (W25_keep m ρ c main_arg25 (by decide)).trans <| (W24_of_ne m ρ c main_arg25 (by decide)).trans <| (W23_of_ne m ρ c main_arg25 (by decide)).trans <| (W22_keep m ρ c main_arg25 (by decide)).trans <| (W21_in4 m ρ c).trans <| (W20_keep m ρ c main_arg25 (by decide)).trans <| (W19_of_ne m ρ c main_arg25 (by decide)).trans <| (W18_keep m ρ c main_arg25 (by decide)).trans <| (W17_of_ne m ρ c main_arg25 (by decide)).trans <| (W16_keep m ρ c main_arg25 (by decide)).trans <| (W15_of_ne m ρ c main_arg25 (by decide)).trans <| (W14_keep m ρ c main_arg25 (by decide)).trans <| (W13_of_ne m ρ c main_arg25 (by decide)).trans <| (W12_keep m ρ c main_arg25 (by decide)).trans <| (W11_of_ne m ρ c main_arg25 (by decide)).trans <| (W10_keep m ρ c main_arg25 (by decide)).trans <| (W9_of_ne m ρ c main_arg25 (by decide)).trans <| (W8_keep m ρ c main_arg25 (by decide)).trans <| (W7_of_ne m ρ c main_arg25 (by decide)).trans <| (W6_of_ne m ρ c main_arg25 (by decide)).trans <| (W5_keep m ρ c main_arg25 (by decide)).trans <| (W4_of_ne m ρ c main_arg25 (by decide)).trans <| (W3_keep m ρ c main_arg25 (by decide)).trans <| (W2_of_ne m ρ c main_arg25 (by decide)).trans <| (W1_keep m ρ c main_arg25 (by decide)).trans <| rfl
theorem W29_main_arg26 (c : Dev nD) : W29 m ρ c (Proc.devRef .tc main_arg26) = m ((c : Thread nD τ).loc main_arg26) :=
  (W29_keep m ρ c main_arg26 (by decide)).trans <| (W28_of_ne m ρ c main_arg26 (by decide)).trans <| (W27_keep m ρ c main_arg26 (by decide)).trans <| (W26_of_ne m ρ c main_arg26 (by decide)).trans <| (W25_keep m ρ c main_arg26 (by decide)).trans <| (W24_of_ne m ρ c main_arg26 (by decide)).trans <| (W23_of_ne m ρ c main_arg26 (by decide)).trans <| (W22_keep m ρ c main_arg26 (by decide)).trans <| (W21_in5 m ρ c).trans <| (W20_keep m ρ c main_arg26 (by decide)).trans <| (W19_of_ne m ρ c main_arg26 (by decide)).trans <| (W18_keep m ρ c main_arg26 (by decide)).trans <| (W17_of_ne m ρ c main_arg26 (by decide)).trans <| (W16_keep m ρ c main_arg26 (by decide)).trans <| (W15_of_ne m ρ c main_arg26 (by decide)).trans <| (W14_keep m ρ c main_arg26 (by decide)).trans <| (W13_of_ne m ρ c main_arg26 (by decide)).trans <| (W12_keep m ρ c main_arg26 (by decide)).trans <| (W11_of_ne m ρ c main_arg26 (by decide)).trans <| (W10_keep m ρ c main_arg26 (by decide)).trans <| (W9_of_ne m ρ c main_arg26 (by decide)).trans <| (W8_keep m ρ c main_arg26 (by decide)).trans <| (W7_of_ne m ρ c main_arg26 (by decide)).trans <| (W6_of_ne m ρ c main_arg26 (by decide)).trans <| (W5_keep m ρ c main_arg26 (by decide)).trans <| (W4_of_ne m ρ c main_arg26 (by decide)).trans <| (W3_keep m ρ c main_arg26 (by decide)).trans <| (W2_of_ne m ρ c main_arg26 (by decide)).trans <| (W1_keep m ρ c main_arg26 (by decide)).trans <| rfl
theorem W29_main_arg27 (c : Dev nD) : W29 m ρ c (Proc.devRef .tc main_arg27) = m ((c : Thread nD τ).loc main_arg27) :=
  (W29_keep m ρ c main_arg27 (by decide)).trans <| (W28_of_ne m ρ c main_arg27 (by decide)).trans <| (W27_keep m ρ c main_arg27 (by decide)).trans <| (W26_of_ne m ρ c main_arg27 (by decide)).trans <| (W25_keep m ρ c main_arg27 (by decide)).trans <| (W24_of_ne m ρ c main_arg27 (by decide)).trans <| (W23_in3 m ρ c).trans <| (W22_keep m ρ c main_arg27 (by decide)).trans <| (W21_of_ne m ρ c main_arg27 (by decide)).trans <| (W20_keep m ρ c main_arg27 (by decide)).trans <| (W19_of_ne m ρ c main_arg27 (by decide)).trans <| (W18_keep m ρ c main_arg27 (by decide)).trans <| (W17_of_ne m ρ c main_arg27 (by decide)).trans <| (W16_keep m ρ c main_arg27 (by decide)).trans <| (W15_of_ne m ρ c main_arg27 (by decide)).trans <| (W14_keep m ρ c main_arg27 (by decide)).trans <| (W13_of_ne m ρ c main_arg27 (by decide)).trans <| (W12_keep m ρ c main_arg27 (by decide)).trans <| (W11_of_ne m ρ c main_arg27 (by decide)).trans <| (W10_keep m ρ c main_arg27 (by decide)).trans <| (W9_of_ne m ρ c main_arg27 (by decide)).trans <| (W8_keep m ρ c main_arg27 (by decide)).trans <| (W7_of_ne m ρ c main_arg27 (by decide)).trans <| (W6_of_ne m ρ c main_arg27 (by decide)).trans <| (W5_keep m ρ c main_arg27 (by decide)).trans <| (W4_of_ne m ρ c main_arg27 (by decide)).trans <| (W3_keep m ρ c main_arg27 (by decide)).trans <| (W2_of_ne m ρ c main_arg27 (by decide)).trans <| (W1_keep m ρ c main_arg27 (by decide)).trans <| rfl
theorem W29_main_arg28 (c : Dev nD) : W29 m ρ c (Proc.devRef .tc main_arg28) = m ((c : Thread nD τ).loc main_arg28) :=
  (W29_keep m ρ c main_arg28 (by decide)).trans <| (W28_of_ne m ρ c main_arg28 (by decide)).trans <| (W27_keep m ρ c main_arg28 (by decide)).trans <| (W26_of_ne m ρ c main_arg28 (by decide)).trans <| (W25_keep m ρ c main_arg28 (by decide)).trans <| (W24_of_ne m ρ c main_arg28 (by decide)).trans <| (W23_in4 m ρ c).trans <| (W22_keep m ρ c main_arg28 (by decide)).trans <| (W21_of_ne m ρ c main_arg28 (by decide)).trans <| (W20_keep m ρ c main_arg28 (by decide)).trans <| (W19_of_ne m ρ c main_arg28 (by decide)).trans <| (W18_keep m ρ c main_arg28 (by decide)).trans <| (W17_of_ne m ρ c main_arg28 (by decide)).trans <| (W16_keep m ρ c main_arg28 (by decide)).trans <| (W15_of_ne m ρ c main_arg28 (by decide)).trans <| (W14_keep m ρ c main_arg28 (by decide)).trans <| (W13_of_ne m ρ c main_arg28 (by decide)).trans <| (W12_keep m ρ c main_arg28 (by decide)).trans <| (W11_of_ne m ρ c main_arg28 (by decide)).trans <| (W10_keep m ρ c main_arg28 (by decide)).trans <| (W9_of_ne m ρ c main_arg28 (by decide)).trans <| (W8_keep m ρ c main_arg28 (by decide)).trans <| (W7_of_ne m ρ c main_arg28 (by decide)).trans <| (W6_of_ne m ρ c main_arg28 (by decide)).trans <| (W5_keep m ρ c main_arg28 (by decide)).trans <| (W4_of_ne m ρ c main_arg28 (by decide)).trans <| (W3_keep m ρ c main_arg28 (by decide)).trans <| (W2_of_ne m ρ c main_arg28 (by decide)).trans <| (W1_keep m ρ c main_arg28 (by decide)).trans <| rfl
theorem W29_main_arg29 (c : Dev nD) : W29 m ρ c (Proc.devRef .tc main_arg29) = m ((c : Thread nD τ).loc main_arg29) :=
  (W29_keep m ρ c main_arg29 (by decide)).trans <| (W28_of_ne m ρ c main_arg29 (by decide)).trans <| (W27_keep m ρ c main_arg29 (by decide)).trans <| (W26_of_ne m ρ c main_arg29 (by decide)).trans <| (W25_keep m ρ c main_arg29 (by decide)).trans <| (W24_of_ne m ρ c main_arg29 (by decide)).trans <| (W23_in5 m ρ c).trans <| (W22_keep m ρ c main_arg29 (by decide)).trans <| (W21_of_ne m ρ c main_arg29 (by decide)).trans <| (W20_keep m ρ c main_arg29 (by decide)).trans <| (W19_of_ne m ρ c main_arg29 (by decide)).trans <| (W18_keep m ρ c main_arg29 (by decide)).trans <| (W17_of_ne m ρ c main_arg29 (by decide)).trans <| (W16_keep m ρ c main_arg29 (by decide)).trans <| (W15_of_ne m ρ c main_arg29 (by decide)).trans <| (W14_keep m ρ c main_arg29 (by decide)).trans <| (W13_of_ne m ρ c main_arg29 (by decide)).trans <| (W12_keep m ρ c main_arg29 (by decide)).trans <| (W11_of_ne m ρ c main_arg29 (by decide)).trans <| (W10_keep m ρ c main_arg29 (by decide)).trans <| (W9_of_ne m ρ c main_arg29 (by decide)).trans <| (W8_keep m ρ c main_arg29 (by decide)).trans <| (W7_of_ne m ρ c main_arg29 (by decide)).trans <| (W6_of_ne m ρ c main_arg29 (by decide)).trans <| (W5_keep m ρ c main_arg29 (by decide)).trans <| (W4_of_ne m ρ c main_arg29 (by decide)).trans <| (W3_keep m ρ c main_arg29 (by decide)).trans <| (W2_of_ne m ρ c main_arg29 (by decide)).trans <| (W1_keep m ρ c main_arg29 (by decide)).trans <| rfl
theorem W29_main_arg30 (c : Dev nD) : W29 m ρ c (Proc.devRef .tc main_arg30) = m ((c : Thread nD τ).loc main_arg30) :=
  (W29_keep m ρ c main_arg30 (by decide)).trans <| (W28_of_ne m ρ c main_arg30 (by decide)).trans <| (W27_keep m ρ c main_arg30 (by decide)).trans <| (W26_of_ne m ρ c main_arg30 (by decide)).trans <| (W25_keep m ρ c main_arg30 (by decide)).trans <| (W24_of_ne m ρ c main_arg30 (by decide)).trans <| (W23_of_ne m ρ c main_arg30 (by decide)).trans <| (W22_keep m ρ c main_arg30 (by decide)).trans <| (W21_of_ne m ρ c main_arg30 (by decide)).trans <| (W20_keep m ρ c main_arg30 (by decide)).trans <| (W19_of_ne m ρ c main_arg30 (by decide)).trans <| (W18_keep m ρ c main_arg30 (by decide)).trans <| (W17_of_ne m ρ c main_arg30 (by decide)).trans <| (W16_keep m ρ c main_arg30 (by decide)).trans <| (W15_of_ne m ρ c main_arg30 (by decide)).trans <| (W14_keep m ρ c main_arg30 (by decide)).trans <| (W13_of_ne m ρ c main_arg30 (by decide)).trans <| (W12_keep m ρ c main_arg30 (by decide)).trans <| (W11_of_ne m ρ c main_arg30 (by decide)).trans <| (W10_keep m ρ c main_arg30 (by decide)).trans <| (W9_of_ne m ρ c main_arg30 (by decide)).trans <| (W8_keep m ρ c main_arg30 (by decide)).trans <| (W7_in1 m ρ c).trans <| (W6_of_ne m ρ c main_arg30 (by decide)).trans <| (W5_keep m ρ c main_arg30 (by decide)).trans <| (W4_of_ne m ρ c main_arg30 (by decide)).trans <| (W3_keep m ρ c main_arg30 (by decide)).trans <| (W2_of_ne m ρ c main_arg30 (by decide)).trans <| (W1_keep m ρ c main_arg30 (by decide)).trans <| rfl
theorem W29_main_arg31 (c : Dev nD) : W29 m ρ c (Proc.devRef .tc main_arg31) = m ((c : Thread nD τ).loc main_arg31) :=
  (W29_keep m ρ c main_arg31 (by decide)).trans <| (W28_of_ne m ρ c main_arg31 (by decide)).trans <| (W27_keep m ρ c main_arg31 (by decide)).trans <| (W26_of_ne m ρ c main_arg31 (by decide)).trans <| (W25_keep m ρ c main_arg31 (by decide)).trans <| (W24_of_ne m ρ c main_arg31 (by decide)).trans <| (W23_of_ne m ρ c main_arg31 (by decide)).trans <| (W22_keep m ρ c main_arg31 (by decide)).trans <| (W21_of_ne m ρ c main_arg31 (by decide)).trans <| (W20_keep m ρ c main_arg31 (by decide)).trans <| (W19_of_ne m ρ c main_arg31 (by decide)).trans <| (W18_keep m ρ c main_arg31 (by decide)).trans <| (W17_of_ne m ρ c main_arg31 (by decide)).trans <| (W16_keep m ρ c main_arg31 (by decide)).trans <| (W15_of_ne m ρ c main_arg31 (by decide)).trans <| (W14_keep m ρ c main_arg31 (by decide)).trans <| (W13_of_ne m ρ c main_arg31 (by decide)).trans <| (W12_keep m ρ c main_arg31 (by decide)).trans <| (W11_of_ne m ρ c main_arg31 (by decide)).trans <| (W10_keep m ρ c main_arg31 (by decide)).trans <| (W9_in3 m ρ c).trans <| (W8_keep m ρ c main_arg31 (by decide)).trans <| (W7_of_ne m ρ c main_arg31 (by decide)).trans <| (W6_of_ne m ρ c main_arg31 (by decide)).trans <| (W5_keep m ρ c main_arg31 (by decide)).trans <| (W4_of_ne m ρ c main_arg31 (by decide)).trans <| (W3_keep m ρ c main_arg31 (by decide)).trans <| (W2_of_ne m ρ c main_arg31 (by decide)).trans <| (W1_keep m ρ c main_arg31 (by decide)).trans <| rfl
theorem W29_main_arg32 (c : Dev nD) : W29 m ρ c (Proc.devRef .tc main_arg32) = m ((c : Thread nD τ).loc main_arg32) :=
  (W29_keep m ρ c main_arg32 (by decide)).trans <| (W28_of_ne m ρ c main_arg32 (by decide)).trans <| (W27_keep m ρ c main_arg32 (by decide)).trans <| (W26_of_ne m ρ c main_arg32 (by decide)).trans <| (W25_keep m ρ c main_arg32 (by decide)).trans <| (W24_of_ne m ρ c main_arg32 (by decide)).trans <| (W23_of_ne m ρ c main_arg32 (by decide)).trans <| (W22_keep m ρ c main_arg32 (by decide)).trans <| (W21_of_ne m ρ c main_arg32 (by decide)).trans <| (W20_keep m ρ c main_arg32 (by decide)).trans <| (W19_of_ne m ρ c main_arg32 (by decide)).trans <| (W18_keep m ρ c main_arg32 (by decide)).trans <| (W17_of_ne m ρ c main_arg32 (by decide)).trans <| (W16_keep m ρ c main_arg32 (by decide)).trans <| (W15_of_ne m ρ c main_arg32 (by decide)).trans <| (W14_keep m ρ c main_arg32 (by decide)).trans <| (W13_in1 m ρ c).trans <| (W12_keep m ρ c main_arg32 (by decide)).trans <| (W11_of_ne m ρ c main_arg32 (by decide)).trans <| (W10_keep m ρ c main_arg32 (by decide)).trans <| (W9_of_ne m ρ c main_arg32 (by decide)).trans <| (W8_keep m ρ c main_arg32 (by decide)).trans <| (W7_of_ne m ρ c main_arg32 (by decide)).trans <| (W6_of_ne m ρ c main_arg32 (by decide)).trans <| (W5_keep m ρ c main_arg32 (by decide)).trans <| (W4_of_ne m ρ c main_arg32 (by decide)).trans <| (W3_keep m ρ c main_arg32 (by decide)).trans <| (W2_of_ne m ρ c main_arg32 (by decide)).trans <| (W1_keep m ρ c main_arg32 (by decide)).trans <| rfl
theorem W29_main_arg33 (c : Dev nD) : W29 m ρ c (Proc.devRef .tc main_arg33) = m ((c : Thread nD τ).loc main_arg33) :=
  (W29_keep m ρ c main_arg33 (by decide)).trans <| (W28_of_ne m ρ c main_arg33 (by decide)).trans <| (W27_keep m ρ c main_arg33 (by decide)).trans <| (W26_of_ne m ρ c main_arg33 (by decide)).trans <| (W25_keep m ρ c main_arg33 (by decide)).trans <| (W24_of_ne m ρ c main_arg33 (by decide)).trans <| (W23_of_ne m ρ c main_arg33 (by decide)).trans <| (W22_keep m ρ c main_arg33 (by decide)).trans <| (W21_of_ne m ρ c main_arg33 (by decide)).trans <| (W20_keep m ρ c main_arg33 (by decide)).trans <| (W19_of_ne m ρ c main_arg33 (by decide)).trans <| (W18_keep m ρ c main_arg33 (by decide)).trans <| (W17_of_ne m ρ c main_arg33 (by decide)).trans <| (W16_keep m ρ c main_arg33 (by decide)).trans <| (W15_in3 m ρ c).trans <| (W14_keep m ρ c main_arg33 (by decide)).trans <| (W13_of_ne m ρ c main_arg33 (by decide)).trans <| (W12_keep m ρ c main_arg33 (by decide)).trans <| (W11_of_ne m ρ c main_arg33 (by decide)).trans <| (W10_keep m ρ c main_arg33 (by decide)).trans <| (W9_of_ne m ρ c main_arg33 (by decide)).trans <| (W8_keep m ρ c main_arg33 (by decide)).trans <| (W7_of_ne m ρ c main_arg33 (by decide)).trans <| (W6_of_ne m ρ c main_arg33 (by decide)).trans <| (W5_keep m ρ c main_arg33 (by decide)).trans <| (W4_of_ne m ρ c main_arg33 (by decide)).trans <| (W3_keep m ρ c main_arg33 (by decide)).trans <| (W2_of_ne m ρ c main_arg33 (by decide)).trans <| (W1_keep m ρ c main_arg33 (by decide)).trans <| rfl
theorem W29_main_arg34 (c : Dev nD) : W29 m ρ c (Proc.devRef .tc main_arg34) = m ((c : Thread nD τ).loc main_arg34) :=
  (W29_keep m ρ c main_arg34 (by decide)).trans <| (W28_of_ne m ρ c main_arg34 (by decide)).trans <| (W27_keep m ρ c main_arg34 (by decide)).trans <| (W26_of_ne m ρ c main_arg34 (by decide)).trans <| (W25_keep m ρ c main_arg34 (by decide)).trans <| (W24_in1 m ρ c).trans <| (W23_of_ne m ρ c main_arg34 (by decide)).trans <| (W22_keep m ρ c main_arg34 (by decide)).trans <| (W21_of_ne m ρ c main_arg34 (by decide)).trans <| (W20_keep m ρ c main_arg34 (by decide)).trans <| (W19_of_ne m ρ c main_arg34 (by decide)).trans <| (W18_keep m ρ c main_arg34 (by decide)).trans <| (W17_of_ne m ρ c main_arg34 (by decide)).trans <| (W16_keep m ρ c main_arg34 (by decide)).trans <| (W15_of_ne m ρ c main_arg34 (by decide)).trans <| (W14_keep m ρ c main_arg34 (by decide)).trans <| (W13_of_ne m ρ c main_arg34 (by decide)).trans <| (W12_keep m ρ c main_arg34 (by decide)).trans <| (W11_of_ne m ρ c main_arg34 (by decide)).trans <| (W10_keep m ρ c main_arg34 (by decide)).trans <| (W9_of_ne m ρ c main_arg34 (by decide)).trans <| (W8_keep m ρ c main_arg34 (by decide)).trans <| (W7_of_ne m ρ c main_arg34 (by decide)).trans <| (W6_of_ne m ρ c main_arg34 (by decide)).trans <| (W5_keep m ρ c main_arg34 (by decide)).trans <| (W4_of_ne m ρ c main_arg34 (by decide)).trans <| (W3_keep m ρ c main_arg34 (by decide)).trans <| (W2_of_ne m ρ c main_arg34 (by decide)).trans <| (W1_keep m ρ c main_arg34 (by decide)).trans <| rfl
theorem W29_main_arg35 (c : Dev nD) : W29 m ρ c (Proc.devRef .tc main_arg35) = m ((c : Thread nD τ).loc main_arg35) :=
  (W29_keep m ρ c main_arg35 (by decide)).trans <| (W28_of_ne m ρ c main_arg35 (by decide)).trans <| (W27_keep m ρ c main_arg35 (by decide)).trans <| (W26_in3 m ρ c).trans <| (W25_keep m ρ c main_arg35 (by decide)).trans <| (W24_of_ne m ρ c main_arg35 (by decide)).trans <| (W23_of_ne m ρ c main_arg35 (by decide)).trans <| (W22_keep m ρ c main_arg35 (by decide)).trans <| (W21_of_ne m ρ c main_arg35 (by decide)).trans <| (W20_keep m ρ c main_arg35 (by decide)).trans <| (W19_of_ne m ρ c main_arg35 (by decide)).trans <| (W18_keep m ρ c main_arg35 (by decide)).trans <| (W17_of_ne m ρ c main_arg35 (by decide)).trans <| (W16_keep m ρ c main_arg35 (by decide)).trans <| (W15_of_ne m ρ c main_arg35 (by decide)).trans <| (W14_keep m ρ c main_arg35 (by decide)).trans <| (W13_of_ne m ρ c main_arg35 (by decide)).trans <| (W12_keep m ρ c main_arg35 (by decide)).trans <| (W11_of_ne m ρ c main_arg35 (by decide)).trans <| (W10_keep m ρ c main_arg35 (by decide)).trans <| (W9_of_ne m ρ c main_arg35 (by decide)).trans <| (W8_keep m ρ c main_arg35 (by decide)).trans <| (W7_of_ne m ρ c main_arg35 (by decide)).trans <| (W6_of_ne m ρ c main_arg35 (by decide)).trans <| (W5_keep m ρ c main_arg35 (by decide)).trans <| (W4_of_ne m ρ c main_arg35 (by decide)).trans <| (W3_keep m ρ c main_arg35 (by decide)).trans <| (W2_of_ne m ρ c main_arg35 (by decide)).trans <| (W1_keep m ρ c main_arg35 (by decide)).trans <| rfl
theorem W29_main_arg36 (c : Dev nD) : W29 m ρ c (Proc.devRef .tc main_arg36) = m ((c : Thread nD τ).loc main_arg36) :=
  (W29_keep m ρ c main_arg36 (by decide)).trans <| (W28_of_ne m ρ c main_arg36 (by decide)).trans <| (W27_keep m ρ c main_arg36 (by decide)).trans <| (W26_of_ne m ρ c main_arg36 (by decide)).trans <| (W25_keep m ρ c main_arg36 (by decide)).trans <| (W24_of_ne m ρ c main_arg36 (by decide)).trans <| (W23_of_ne m ρ c main_arg36 (by decide)).trans <| (W22_keep m ρ c main_arg36 (by decide)).trans <| (W21_of_ne m ρ c main_arg36 (by decide)).trans <| (W20_keep m ρ c main_arg36 (by decide)).trans <| (W19_of_ne m ρ c main_arg36 (by decide)).trans <| (W18_keep m ρ c main_arg36 (by decide)).trans <| (W17_of_ne m ρ c main_arg36 (by decide)).trans <| (W16_keep m ρ c main_arg36 (by decide)).trans <| (W15_of_ne m ρ c main_arg36 (by decide)).trans <| (W14_keep m ρ c main_arg36 (by decide)).trans <| (W13_of_ne m ρ c main_arg36 (by decide)).trans <| (W12_keep m ρ c main_arg36 (by decide)).trans <| (W11_of_ne m ρ c main_arg36 (by decide)).trans <| (W10_keep m ρ c main_arg36 (by decide)).trans <| (W9_of_ne m ρ c main_arg36 (by decide)).trans <| (W8_keep m ρ c main_arg36 (by decide)).trans <| (W7_of_ne m ρ c main_arg36 (by decide)).trans <| (W6_of_ne m ρ c main_arg36 (by decide)).trans <| (W5_keep m ρ c main_arg36 (by decide)).trans <| (W4_of_ne m ρ c main_arg36 (by decide)).trans <| (W3_keep m ρ c main_arg36 (by decide)).trans <| (W2_of_ne m ρ c main_arg36 (by decide)).trans <| (W1_keep m ρ c main_arg36 (by decide)).trans <| rfl
theorem W29_main_arg37 (c : Dev nD) : W29 m ρ c (Proc.devRef .tc main_arg37) = m ((c : Thread nD τ).loc main_arg37) :=
  (W29_keep m ρ c main_arg37 (by decide)).trans <| (W28_of_ne m ρ c main_arg37 (by decide)).trans <| (W27_keep m ρ c main_arg37 (by decide)).trans <| (W26_of_ne m ρ c main_arg37 (by decide)).trans <| (W25_keep m ρ c main_arg37 (by decide)).trans <| (W24_of_ne m ρ c main_arg37 (by decide)).trans <| (W23_of_ne m ρ c main_arg37 (by decide)).trans <| (W22_keep m ρ c main_arg37 (by decide)).trans <| (W21_of_ne m ρ c main_arg37 (by decide)).trans <| (W20_keep m ρ c main_arg37 (by decide)).trans <| (W19_of_ne m ρ c main_arg37 (by decide)).trans <| (W18_keep m ρ c main_arg37 (by decide)).trans <| (W17_of_ne m ρ c main_arg37 (by decide)).trans <| (W16_keep m ρ c main_arg37 (by decide)).trans <| (W15_of_ne m ρ c main_arg37 (by decide)).trans <| (W14_keep m ρ c main_arg37 (by decide)).trans <| (W13_of_ne m ρ c main_arg37 (by decide)).trans <| (W12_keep m ρ c main_arg37 (by decide)).trans <| (W11_of_ne m ρ c main_arg37 (by decide)).trans <| (W10_keep m ρ c main_arg37 (by decide)).trans <| (W9_of_ne m ρ c main_arg37 (by decide)).trans <| (W8_keep m ρ c main_arg37 (by decide)).trans <| (W7_of_ne m ρ c main_arg37 (by decide)).trans <| (W6_of_ne m ρ c main_arg37 (by decide)).trans <| (W5_keep m ρ c main_arg37 (by decide)).trans <| (W4_of_ne m ρ c main_arg37 (by decide)).trans <| (W3_keep m ρ c main_arg37 (by decide)).trans <| (W2_of_ne m ρ c main_arg37 (by decide)).trans <| (W1_keep m ρ c main_arg37 (by decide)).trans <| rfl
theorem W29_main_arg38 (c : Dev nD) : W29 m ρ c (Proc.devRef .tc main_arg38) = m ((c : Thread nD τ).loc main_arg38) :=
  (W29_keep m ρ c main_arg38 (by decide)).trans <| (W28_of_ne m ρ c main_arg38 (by decide)).trans <| (W27_keep m ρ c main_arg38 (by decide)).trans <| (W26_of_ne m ρ c main_arg38 (by decide)).trans <| (W25_keep m ρ c main_arg38 (by decide)).trans <| (W24_of_ne m ρ c main_arg38 (by decide)).trans <| (W23_of_ne m ρ c main_arg38 (by decide)).trans <| (W22_keep m ρ c main_arg38 (by decide)).trans <| (W21_of_ne m ρ c main_arg38 (by decide)).trans <| (W20_keep m ρ c main_arg38 (by decide)).trans <| (W19_of_ne m ρ c main_arg38 (by decide)).trans <| (W18_keep m ρ c main_arg38 (by decide)).trans <| (W17_of_ne m ρ c main_arg38 (by decide)).trans <| (W16_keep m ρ c main_arg38 (by decide)).trans <| (W15_of_ne m ρ c main_arg38 (by decide)).trans <| (W14_keep m ρ c main_arg38 (by decide)).trans <| (W13_of_ne m ρ c main_arg38 (by decide)).trans <| (W12_keep m ρ c main_arg38 (by decide)).trans <| (W11_of_ne m ρ c main_arg38 (by decide)).trans <| (W10_keep m ρ c main_arg38 (by decide)).trans <| (W9_of_ne m ρ c main_arg38 (by decide)).trans <| (W8_keep m ρ c main_arg38 (by decide)).trans <| (W7_of_ne m ρ c main_arg38 (by decide)).trans <| (W6_of_ne m ρ c main_arg38 (by decide)).trans <| (W5_keep m ρ c main_arg38 (by decide)).trans <| (W4_of_ne m ρ c main_arg38 (by decide)).trans <| (W3_keep m ρ c main_arg38 (by decide)).trans <| (W2_of_ne m ρ c main_arg38 (by decide)).trans <| (W1_keep m ρ c main_arg38 (by decide)).trans <| rfl
theorem W29_main_arg39 (c : Dev nD) : W29 m ρ c (Proc.devRef .tc main_arg39) = m ((c : Thread nD τ).loc main_arg39) :=
  (W29_keep m ρ c main_arg39 (by decide)).trans <| (W28_of_ne m ρ c main_arg39 (by decide)).trans <| (W27_keep m ρ c main_arg39 (by decide)).trans <| (W26_of_ne m ρ c main_arg39 (by decide)).trans <| (W25_keep m ρ c main_arg39 (by decide)).trans <| (W24_of_ne m ρ c main_arg39 (by decide)).trans <| (W23_of_ne m ρ c main_arg39 (by decide)).trans <| (W22_keep m ρ c main_arg39 (by decide)).trans <| (W21_of_ne m ρ c main_arg39 (by decide)).trans <| (W20_keep m ρ c main_arg39 (by decide)).trans <| (W19_of_ne m ρ c main_arg39 (by decide)).trans <| (W18_keep m ρ c main_arg39 (by decide)).trans <| (W17_of_ne m ρ c main_arg39 (by decide)).trans <| (W16_keep m ρ c main_arg39 (by decide)).trans <| (W15_of_ne m ρ c main_arg39 (by decide)).trans <| (W14_keep m ρ c main_arg39 (by decide)).trans <| (W13_of_ne m ρ c main_arg39 (by decide)).trans <| (W12_keep m ρ c main_arg39 (by decide)).trans <| (W11_of_ne m ρ c main_arg39 (by decide)).trans <| (W10_keep m ρ c main_arg39 (by decide)).trans <| (W9_of_ne m ρ c main_arg39 (by decide)).trans <| (W8_keep m ρ c main_arg39 (by decide)).trans <| (W7_of_ne m ρ c main_arg39 (by decide)).trans <| (W6_of_ne m ρ c main_arg39 (by decide)).trans <| (W5_keep m ρ c main_arg39 (by decide)).trans <| (W4_of_ne m ρ c main_arg39 (by decide)).trans <| (W3_keep m ρ c main_arg39 (by decide)).trans <| (W2_of_ne m ρ c main_arg39 (by decide)).trans <| (W1_keep m ρ c main_arg39 (by decide)).trans <| rfl
theorem W29_main_arg40 (c : Dev nD) : W29 m ρ c (Proc.devRef .tc main_arg40) = m ((c : Thread nD τ).loc main_arg40) :=
  (W29_keep m ρ c main_arg40 (by decide)).trans <| (W28_of_ne m ρ c main_arg40 (by decide)).trans <| (W27_keep m ρ c main_arg40 (by decide)).trans <| (W26_of_ne m ρ c main_arg40 (by decide)).trans <| (W25_keep m ρ c main_arg40 (by decide)).trans <| (W24_of_ne m ρ c main_arg40 (by decide)).trans <| (W23_of_ne m ρ c main_arg40 (by decide)).trans <| (W22_keep m ρ c main_arg40 (by decide)).trans <| (W21_of_ne m ρ c main_arg40 (by decide)).trans <| (W20_keep m ρ c main_arg40 (by decide)).trans <| (W19_of_ne m ρ c main_arg40 (by decide)).trans <| (W18_keep m ρ c main_arg40 (by decide)).trans <| (W17_of_ne m ρ c main_arg40 (by decide)).trans <| (W16_keep m ρ c main_arg40 (by decide)).trans <| (W15_of_ne m ρ c main_arg40 (by decide)).trans <| (W14_keep m ρ c main_arg40 (by decide)).trans <| (W13_of_ne m ρ c main_arg40 (by decide)).trans <| (W12_keep m ρ c main_arg40 (by decide)).trans <| (W11_of_ne m ρ c main_arg40 (by decide)).trans <| (W10_keep m ρ c main_arg40 (by decide)).trans <| (W9_of_ne m ρ c main_arg40 (by decide)).trans <| (W8_keep m ρ c main_arg40 (by decide)).trans <| (W7_of_ne m ρ c main_arg40 (by decide)).trans <| (W6_of_ne m ρ c main_arg40 (by decide)).trans <| (W5_keep m ρ c main_arg40 (by decide)).trans <| (W4_of_ne m ρ c main_arg40 (by decide)).trans <| (W3_keep m ρ c main_arg40 (by decide)).trans <| (W2_of_ne m ρ c main_arg40 (by decide)).trans <| (W1_keep m ρ c main_arg40 (by decide)).trans <| rfl
theorem W29_main_arg41 (c : Dev nD) : W29 m ρ c (Proc.devRef .tc main_arg41) = m ((c : Thread nD τ).loc main_arg41) :=
  (W29_keep m ρ c main_arg41 (by decide)).trans <| (W28_of_ne m ρ c main_arg41 (by decide)).trans <| (W27_keep m ρ c main_arg41 (by decide)).trans <| (W26_of_ne m ρ c main_arg41 (by decide)).trans <| (W25_keep m ρ c main_arg41 (by decide)).trans <| (W24_of_ne m ρ c main_arg41 (by decide)).trans <| (W23_of_ne m ρ c main_arg41 (by decide)).trans <| (W22_keep m ρ c main_arg41 (by decide)).trans <| (W21_of_ne m ρ c main_arg41 (by decide)).trans <| (W20_keep m ρ c main_arg41 (by decide)).trans <| (W19_of_ne m ρ c main_arg41 (by decide)).trans <| (W18_keep m ρ c main_arg41 (by decide)).trans <| (W17_of_ne m ρ c main_arg41 (by decide)).trans <| (W16_keep m ρ c main_arg41 (by decide)).trans <| (W15_of_ne m ρ c main_arg41 (by decide)).trans <| (W14_keep m ρ c main_arg41 (by decide)).trans <| (W13_of_ne m ρ c main_arg41 (by decide)).trans <| (W12_keep m ρ c main_arg41 (by decide)).trans <| (W11_of_ne m ρ c main_arg41 (by decide)).trans <| (W10_keep m ρ c main_arg41 (by decide)).trans <| (W9_of_ne m ρ c main_arg41 (by decide)).trans <| (W8_keep m ρ c main_arg41 (by decide)).trans <| (W7_of_ne m ρ c main_arg41 (by decide)).trans <| (W6_of_ne m ρ c main_arg41 (by decide)).trans <| (W5_keep m ρ c main_arg41 (by decide)).trans <| (W4_of_ne m ρ c main_arg41 (by decide)).trans <| (W3_keep m ρ c main_arg41 (by decide)).trans <| (W2_of_ne m ρ c main_arg41 (by decide)).trans <| (W1_keep m ρ c main_arg41 (by decide)).trans <| rfl

end Cert.Kernel.Fr

end
-- ==== Proof.K.Regs.lean ====
/- Every pipeline's proof data at its region's entry contents, and each kernel region as a segment of @main over the thread
   state "every unscoped buffer at the boundary's contents, the generator register at some state, nothing owed": the
   region's arrays are split out of the unscoped buffers at entry and put back at what the grid leaves at exit. -/
import proofs.«173191_j73083163508880_2_alg».proof.Proof.K.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The prefetched tables' admissible contents: no pipeline has a table. -/
abbrev admF : (p : Fin 15) → (pcfgs (F := F) p).Adm := fun p => (cfgs p).toPCfg_adm
/-- Every pipeline's proof data, each at its region's entry contents. -/
def pdatsF : (p : Fin 15) → (c : Dev nD) → Dat τ (Elt F) Unit ℕ (UR sig nD τ) ℕ (Pipeline.pin (pcfgs (F := F)) admF p) c
  | ⟨0, _⟩ => fun c => dat0 (B1 m ρ) c
  | ⟨1, _⟩ => fun c => dat1 (B3 m ρ) c
  | ⟨2, _⟩ => fun c => dat2 (B5 m ρ) c
  | ⟨3, _⟩ => fun c => dat3 (B6 m ρ) c
  | ⟨4, _⟩ => fun c => dat4 (B8 m ρ) c
  | ⟨5, _⟩ => fun c => dat5 (B10 m ρ) c
  | ⟨6, _⟩ => fun c => dat6 (B12 m ρ) c
  | ⟨7, _⟩ => fun c => dat7 (B14 m ρ) c
  | ⟨8, _⟩ => fun c => dat8 (B16 m ρ) c
  | ⟨9, _⟩ => fun c => dat9 (B18 m ρ) c
  | ⟨10, _⟩ => fun c => dat10 (B20 m ρ) c
  | ⟨11, _⟩ => fun c => dat11 (B22 m ρ) c
  | ⟨12, _⟩ => fun c => dat12 (B23 m ρ) c
  | ⟨13, _⟩ => fun c => dat13 (B25 m ρ) c
  | ⟨14, _⟩ => fun c => dat14 (B27 m ρ) c
abbrev 𝒱F : Variants := Variants.none
/-- No core owes another anything: no level is assigned. -/
abbrev LF : GSem nD τ sig → Finset Unit := fun _ => ∅
abbrev lvF : GSem nD τ sig → Unit → ℕ := fun _ _ => 0
/-- What rides beside the buffers through every segment: the core's generator register at some state and its dues, none. -/
abbrev Rst (c : Dev nD) : sProp 𝕄 := iprop((∃ r, prngReg c r) ∗ ∃ W, owes (c : Thread nD τ) (0 : CellTallies nD τ sig Unit) W)

set_option backward.isDefEq.respectTransparency.types false in
/-- Region 0 over the thread state: entered from every unscoped buffer at `W1`, left at `W2`. -/
def reg0 : Pipeline.RegionSeg (pcfgs (F := F)) admF (pdatsF m ρ) () defs₀ 𝒱F LF lvF 0 where
  win := launch0.win.to₀
  block_pos := launch0.block_pos
  stage_whole := launch0.stage_whole
  K := PEmpty
  osem k := k.elim
  ho := Pipeline.OwnSemFacts.none _
  hbody c := (body_obligation0 (B1 m ρ) c).loose
  hwaits := Pipeline.hwaits_of_owed_zero _ _ _ _ LF lvF 0 fun _ _ => rfl
  pre c := iprop(StableHlo.held (c : Thread nD τ) (Pipeline.ucRefs τ sig) (W1 m ρ c) ∗ Rst c)
  post c := iprop(StableHlo.held (c : Thread nD τ) (Pipeline.ucRefs τ sig) (W2 m ρ c) ∗ Rst c)
  X c := iprop(∃ r, prngReg c r)
  Y c := iprop(∃ r, prngReg c r)
  Z c := Pipeline.unscopedRest (Ix := Unit) (Name := ℕ) (U := UR sig nD τ) (Lvl := ℕ) spec0 c (B1 m ρ c)
  hentry c := by
    rw [Pipeline.ownSems0_none]
    have hsplit := Pipeline.arrays_of_unscopedBufs (p := 0) (pcfgs (F := F)) admF (pdatsF m ρ) launch0.win launch0.arr_whole c
      ((pdatsF m ρ 0 c).share_full fun _ => rfl) (B1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsF m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admF (Ix := Unit) (Name := ℕ) (U := UR sig nD τ) (Lvl := ℕ)
      launch0.win launch0.arr_whole c (pdatsF m ρ) ((pdatsF m ρ 0 c).share_full fun _ => rfl)
      (B1 m ρ c) (B2 m ρ c) ((pdatsF m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. -/
def reg1 : Pipeline.RegionSeg (pcfgs (F := F)) admF (pdatsF m ρ) () defs₀ 𝒱F LF lvF 1 where
  win := launch1.win.to₀
  block_pos := launch1.block_pos
  stage_whole := launch1.stage_whole
  K := PEmpty
  osem k := k.elim
  ho := Pipeline.OwnSemFacts.none _
  hbody c := (body_obligation1 (B3 m ρ) c).loose
  hwaits := Pipeline.hwaits_of_owed_zero _ _ _ _ LF lvF 1 fun _ _ => rfl
  pre c := iprop(StableHlo.held (c : Thread nD τ) (Pipeline.ucRefs τ sig) (W3 m ρ c) ∗ Rst c)
  post c := iprop(StableHlo.held (c : Thread nD τ) (Pipeline.ucRefs τ sig) (W4 m ρ c) ∗ Rst c)
  X c := iprop(∃ r, prngReg c r)
  Y c := iprop(∃ r, prngReg c r)
  Z c := Pipeline.unscopedRest (Ix := Unit) (Name := ℕ) (U := UR sig nD τ) (Lvl := ℕ) spec1 c (B3 m ρ c)
  hentry c := by
    rw [Pipeline.ownSems0_none]
    have hsplit := Pipeline.arrays_of_unscopedBufs (p := 1) (pcfgs (F := F)) admF (pdatsF m ρ) launch1.win launch1.arr_whole c
      ((pdatsF m ρ 1 c).share_full fun _ => rfl) (B3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsF m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admF (Ix := Unit) (Name := ℕ) (U := UR sig nD τ) (Lvl := ℕ)
      launch1.win launch1.arr_whole c (pdatsF m ρ) ((pdatsF m ρ 1 c).share_full fun _ => rfl)
      (B3 m ρ c) (B4 m ρ c) ((pdatsF m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. -/
def reg2 : Pipeline.RegionSeg (pcfgs (F := F)) admF (pdatsF m ρ) () defs₀ 𝒱F LF lvF 2 where
  win := launch2.win.to₀
  block_pos := launch2.block_pos
  stage_whole := launch2.stage_whole
  K := PEmpty
  osem k := k.elim
  ho := Pipeline.OwnSemFacts.none _
  hbody c := (body_obligation2 (B5 m ρ) c).loose
  hwaits := Pipeline.hwaits_of_owed_zero _ _ _ _ LF lvF 2 fun _ _ => rfl
  pre c := iprop(StableHlo.held (c : Thread nD τ) (Pipeline.ucRefs τ sig) (W5 m ρ c) ∗ Rst c)
  post c := iprop(StableHlo.held (c : Thread nD τ) (Pipeline.ucRefs τ sig) (W6 m ρ c) ∗ Rst c)
  X c := iprop(∃ r, prngReg c r)
  Y c := iprop(∃ r, prngReg c r)
  Z c := Pipeline.unscopedRest (Ix := Unit) (Name := ℕ) (U := UR sig nD τ) (Lvl := ℕ) spec2 c (B5 m ρ c)
  hentry c := by
    rw [Pipeline.ownSems0_none]
    have hsplit := Pipeline.arrays_of_unscopedBufs (p := 2) (pcfgs (F := F)) admF (pdatsF m ρ) launch2.win launch2.arr_whole c
      ((pdatsF m ρ 2 c).share_full fun _ => rfl) (B5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsF m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admF (Ix := Unit) (Name := ℕ) (U := UR sig nD τ) (Lvl := ℕ)
      launch2.win launch2.arr_whole c (pdatsF m ρ) ((pdatsF m ρ 2 c).share_full fun _ => rfl)
      (B5 m ρ c) (B6 m ρ c) ((pdatsF m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W6`, left at `W7`. -/
def reg3 : Pipeline.RegionSeg (pcfgs (F := F)) admF (pdatsF m ρ) () defs₀ 𝒱F LF lvF 3 where
  win := launch3.win.to₀
  block_pos := launch3.block_pos
  stage_whole := launch3.stage_whole
  K := PEmpty
  osem k := k.elim
  ho := Pipeline.OwnSemFacts.none _
  hbody c := (body_obligation3 (B6 m ρ) c).loose
  hwaits := Pipeline.hwaits_of_owed_zero _ _ _ _ LF lvF 3 fun _ _ => rfl
  pre c := iprop(StableHlo.held (c : Thread nD τ) (Pipeline.ucRefs τ sig) (W6 m ρ c) ∗ Rst c)
  post c := iprop(StableHlo.held (c : Thread nD τ) (Pipeline.ucRefs τ sig) (W7 m ρ c) ∗ Rst c)
  X c := iprop(∃ r, prngReg c r)
  Y c := iprop(∃ r, prngReg c r)
  Z c := Pipeline.unscopedRest (Ix := Unit) (Name := ℕ) (U := UR sig nD τ) (Lvl := ℕ) spec3 c (B6 m ρ c)
  hentry c := by
    rw [Pipeline.ownSems0_none]
    have hsplit := Pipeline.arrays_of_unscopedBufs (p := 3) (pcfgs (F := F)) admF (pdatsF m ρ) launch3.win launch3.arr_whole c
      ((pdatsF m ρ 3 c).share_full fun _ => rfl) (B6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdatsF m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admF (Ix := Unit) (Name := ℕ) (U := UR sig nD τ) (Lvl := ℕ)
      launch3.win launch3.arr_whole c (pdatsF m ρ) ((pdatsF m ρ 3 c).share_full fun _ => rfl)
      (B6 m ρ c) (B7 m ρ c) ((pdatsF m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W8`, left at `W9`. -/
def reg4 : Pipeline.RegionSeg (pcfgs (F := F)) admF (pdatsF m ρ) () defs₀ 𝒱F LF lvF 4 where
  win := launch4.win.to₀
  block_pos := launch4.block_pos
  stage_whole := launch4.stage_whole
  K := PEmpty
  osem k := k.elim
  ho := Pipeline.OwnSemFacts.none _
  hbody c := (body_obligation4 (B8 m ρ) c).loose
  hwaits := Pipeline.hwaits_of_owed_zero _ _ _ _ LF lvF 4 fun _ _ => rfl
  pre c := iprop(StableHlo.held (c : Thread nD τ) (Pipeline.ucRefs τ sig) (W8 m ρ c) ∗ Rst c)
  post c := iprop(StableHlo.held (c : Thread nD τ) (Pipeline.ucRefs τ sig) (W9 m ρ c) ∗ Rst c)
  X c := iprop(∃ r, prngReg c r)
  Y c := iprop(∃ r, prngReg c r)
  Z c := Pipeline.unscopedRest (Ix := Unit) (Name := ℕ) (U := UR sig nD τ) (Lvl := ℕ) spec4 c (B8 m ρ c)
  hentry c := by
    rw [Pipeline.ownSems0_none]
    have hsplit := Pipeline.arrays_of_unscopedBufs (p := 4) (pcfgs (F := F)) admF (pdatsF m ρ) launch4.win launch4.arr_whole c
      ((pdatsF m ρ 4 c).share_full fun _ => rfl) (B8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m ρ 4 c).Φ 0 = (dat4 (B8 m ρ) c).Φ 0 from rfl]
    refine .trans ?_ (Φ4_in (B8 m ρ) c)
    unfold Pipeline.ΦA
    iintro ⟨Hp, -, Hr⟩
    isplitl [Hr]; · iexact Hr
    iexact Hp
  hout c := by
    rw [Pipeline.ownSems0_none, show (pdatsF m ρ 4 c).Φ (Fin.last _) = (dat4 (B8 m ρ) c).Φ (Fin.last _) from rfl]
    refine (Φ4_out (B8 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) admF (Ix := Unit) (Name := ℕ) (U := UR sig nD τ) (Lvl := ℕ)
      launch4.win launch4.arr_whole c (pdatsF m ρ) ((pdatsF m ρ 4 c).share_full fun _ => rfl)
      (B8 m ρ c) (B9 m ρ c) ((pdatsF m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `W10`, left at `W11`. -/
def reg5 : Pipeline.RegionSeg (pcfgs (F := F)) admF (pdatsF m ρ) () defs₀ 𝒱F LF lvF 5 where
  win := launch5.win.to₀
  block_pos := launch5.block_pos
  stage_whole := launch5.stage_whole
  K := PEmpty
  osem k := k.elim
  ho := Pipeline.OwnSemFacts.none _
  hbody c := (body_obligation5 (B10 m ρ) c).loose
  hwaits := Pipeline.hwaits_of_owed_zero _ _ _ _ LF lvF 5 fun _ _ => rfl
  pre c := iprop(StableHlo.held (c : Thread nD τ) (Pipeline.ucRefs τ sig) (W10 m ρ c) ∗ Rst c)
  post c := iprop(StableHlo.held (c : Thread nD τ) (Pipeline.ucRefs τ sig) (W11 m ρ c) ∗ Rst c)
  X c := iprop(∃ r, prngReg c r)
  Y c := iprop(∃ r, prngReg c r)
  Z c := Pipeline.unscopedRest (Ix := Unit) (Name := ℕ) (U := UR sig nD τ) (Lvl := ℕ) spec5 c (B10 m ρ c)
  hentry c := by
    rw [Pipeline.ownSems0_none]
    have hsplit := Pipeline.arrays_of_unscopedBufs (p := 5) (pcfgs (F := F)) admF (pdatsF m ρ) launch5.win launch5.arr_whole c
      ((pdatsF m ρ 5 c).share_full fun _ => rfl) (B10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdatsF m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) admF (Ix := Unit) (Name := ℕ) (U := UR sig nD τ) (Lvl := ℕ)
      launch5.win launch5.arr_whole c (pdatsF m ρ) ((pdatsF m ρ 5 c).share_full fun _ => rfl)
      (B10 m ρ c) (B11 m ρ c) ((pdatsF m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at `W12`, left at `W13`. -/
def reg6 : Pipeline.RegionSeg (pcfgs (F := F)) admF (pdatsF m ρ) () defs₀ 𝒱F LF lvF 6 where
  win := launch6.win.to₀
  block_pos := launch6.block_pos
  stage_whole := launch6.stage_whole
  K := PEmpty
  osem k := k.elim
  ho := Pipeline.OwnSemFacts.none _
  hbody c := (body_obligation6 (B12 m ρ) c).loose
  hwaits := Pipeline.hwaits_of_owed_zero _ _ _ _ LF lvF 6 fun _ _ => rfl
  pre c := iprop(StableHlo.held (c : Thread nD τ) (Pipeline.ucRefs τ sig) (W12 m ρ c) ∗ Rst c)
  post c := iprop(StableHlo.held (c : Thread nD τ) (Pipeline.ucRefs τ sig) (W13 m ρ c) ∗ Rst c)
  X c := iprop(∃ r, prngReg c r)
  Y c := iprop(∃ r, prngReg c r)
  Z c := Pipeline.unscopedRest (Ix := Unit) (Name := ℕ) (U := UR sig nD τ) (Lvl := ℕ) spec6 c (B12 m ρ c)
  hentry c := by
    rw [Pipeline.ownSems0_none]
    have hsplit := Pipeline.arrays_of_unscopedBufs (p := 6) (pcfgs (F := F)) admF (pdatsF m ρ) launch6.win launch6.arr_whole c
      ((pdatsF m ρ 6 c).share_full fun _ => rfl) (B12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdatsF m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) admF (Ix := Unit) (Name := ℕ) (U := UR sig nD τ) (Lvl := ℕ)
      launch6.win launch6.arr_whole c (pdatsF m ρ) ((pdatsF m ρ 6 c).share_full fun _ => rfl)
      (B12 m ρ c) (B13 m ρ c) ((pdatsF m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 over the thread state: entered from every unscoped buffer at `W14`, left at `W15`. -/
def reg7 : Pipeline.RegionSeg (pcfgs (F := F)) admF (pdatsF m ρ) () defs₀ 𝒱F LF lvF 7 where
  win := launch7.win.to₀
  block_pos := launch7.block_pos
  stage_whole := launch7.stage_whole
  K := PEmpty
  osem k := k.elim
  ho := Pipeline.OwnSemFacts.none _
  hbody c := (body_obligation7 (B14 m ρ) c).loose
  hwaits := Pipeline.hwaits_of_owed_zero _ _ _ _ LF lvF 7 fun _ _ => rfl
  pre c := iprop(StableHlo.held (c : Thread nD τ) (Pipeline.ucRefs τ sig) (W14 m ρ c) ∗ Rst c)
  post c := iprop(StableHlo.held (c : Thread nD τ) (Pipeline.ucRefs τ sig) (W15 m ρ c) ∗ Rst c)
  X c := iprop(∃ r, prngReg c r)
  Y c := iprop(∃ r, prngReg c r)
  Z c := Pipeline.unscopedRest (Ix := Unit) (Name := ℕ) (U := UR sig nD τ) (Lvl := ℕ) spec7 c (B14 m ρ c)
  hentry c := by
    rw [Pipeline.ownSems0_none]
    have hsplit := Pipeline.arrays_of_unscopedBufs (p := 7) (pcfgs (F := F)) admF (pdatsF m ρ) launch7.win launch7.arr_whole c
      ((pdatsF m ρ 7 c).share_full fun _ => rfl) (B14 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m ρ 7 c).Φ 0 = (dat7 (B14 m ρ) c).Φ 0 from rfl]
    refine .trans ?_ (Φ7_in (B14 m ρ) c)
    unfold Pipeline.ΦA
    iintro ⟨Hp, -, Hr⟩
    isplitl [Hr]; · iexact Hr
    iexact Hp
  hout c := by
    rw [Pipeline.ownSems0_none, show (pdatsF m ρ 7 c).Φ (Fin.last _) = (dat7 (B14 m ρ) c).Φ (Fin.last _) from rfl]
    refine (Φ7_out (B14 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) admF (Ix := Unit) (Name := ℕ) (U := UR sig nD τ) (Lvl := ℕ)
      launch7.win launch7.arr_whole c (pdatsF m ρ) ((pdatsF m ρ 7 c).share_full fun _ => rfl)
      (B14 m ρ c) (B15 m ρ c) ((pdatsF m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8 over the thread state: entered from every unscoped buffer at `W16`, left at `W17`. -/
def reg8 : Pipeline.RegionSeg (pcfgs (F := F)) admF (pdatsF m ρ) () defs₀ 𝒱F LF lvF 8 where
  win := launch8.win.to₀
  block_pos := launch8.block_pos
  stage_whole := launch8.stage_whole
  K := PEmpty
  osem k := k.elim
  ho := Pipeline.OwnSemFacts.none _
  hbody c := (body_obligation8 (B16 m ρ) c).loose
  hwaits := Pipeline.hwaits_of_owed_zero _ _ _ _ LF lvF 8 fun _ _ => rfl
  pre c := iprop(StableHlo.held (c : Thread nD τ) (Pipeline.ucRefs τ sig) (W16 m ρ c) ∗ Rst c)
  post c := iprop(StableHlo.held (c : Thread nD τ) (Pipeline.ucRefs τ sig) (W17 m ρ c) ∗ Rst c)
  X c := iprop(∃ r, prngReg c r)
  Y c := iprop(∃ r, prngReg c r)
  Z c := Pipeline.unscopedRest (Ix := Unit) (Name := ℕ) (U := UR sig nD τ) (Lvl := ℕ) spec8 c (B16 m ρ c)
  hentry c := by
    rw [Pipeline.ownSems0_none]
    have hsplit := Pipeline.arrays_of_unscopedBufs (p := 8) (pcfgs (F := F)) admF (pdatsF m ρ) launch8.win launch8.arr_whole c
      ((pdatsF m ρ 8 c).share_full fun _ => rfl) (B16 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdatsF m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) admF (Ix := Unit) (Name := ℕ) (U := UR sig nD τ) (Lvl := ℕ)
      launch8.win launch8.arr_whole c (pdatsF m ρ) ((pdatsF m ρ 8 c).share_full fun _ => rfl)
      (B16 m ρ c) (B17 m ρ c) ((pdatsF m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 9 over the thread state: entered from every unscoped buffer at `W18`, left at `W19`. -/
def reg9 : Pipeline.RegionSeg (pcfgs (F := F)) admF (pdatsF m ρ) () defs₀ 𝒱F LF lvF 9 where
  win := launch9.win.to₀
  block_pos := launch9.block_pos
  stage_whole := launch9.stage_whole
  K := PEmpty
  osem k := k.elim
  ho := Pipeline.OwnSemFacts.none _
  hbody c := (body_obligation9 (B18 m ρ) c).loose
  hwaits := Pipeline.hwaits_of_owed_zero _ _ _ _ LF lvF 9 fun _ _ => rfl
  pre c := iprop(StableHlo.held (c : Thread nD τ) (Pipeline.ucRefs τ sig) (W18 m ρ c) ∗ Rst c)
  post c := iprop(StableHlo.held (c : Thread nD τ) (Pipeline.ucRefs τ sig) (W19 m ρ c) ∗ Rst c)
  X c := iprop(∃ r, prngReg c r)
  Y c := iprop(∃ r, prngReg c r)
  Z c := Pipeline.unscopedRest (Ix := Unit) (Name := ℕ) (U := UR sig nD τ) (Lvl := ℕ) spec9 c (B18 m ρ c)
  hentry c := by
    rw [Pipeline.ownSems0_none]
    have hsplit := Pipeline.arrays_of_unscopedBufs (p := 9) (pcfgs (F := F)) admF (pdatsF m ρ) launch9.win launch9.arr_whole c
      ((pdatsF m ρ 9 c).share_full fun _ => rfl) (B18 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m ρ 9 c).Φ 0 = Pipeline.ΦA spec9 c from rfl]; unfold Pipeline.ΦA
    iintro ⟨Hp, -, Hr⟩
    isplitl [Hr]; · iexact Hr
    iexact Hp
  hout c := by
    rw [Pipeline.ownSems0_none, show (pdatsF m ρ 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) admF (Ix := Unit) (Name := ℕ) (U := UR sig nD τ) (Lvl := ℕ)
      launch9.win launch9.arr_whole c (pdatsF m ρ) ((pdatsF m ρ 9 c).share_full fun _ => rfl)
      (B18 m ρ c) (B19 m ρ c) ((pdatsF m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 10 over the thread state: entered from every unscoped buffer at `W20`, left at `W21`. -/
def reg10 : Pipeline.RegionSeg (pcfgs (F := F)) admF (pdatsF m ρ) () defs₀ 𝒱F LF lvF 10 where
  win := launch10.win.to₀
  block_pos := launch10.block_pos
  stage_whole := launch10.stage_whole
  K := PEmpty
  osem k := k.elim
  ho := Pipeline.OwnSemFacts.none _
  hbody c := (body_obligation10 (B20 m ρ) c).loose
  hwaits := Pipeline.hwaits_of_owed_zero _ _ _ _ LF lvF 10 fun _ _ => rfl
  pre c := iprop(StableHlo.held (c : Thread nD τ) (Pipeline.ucRefs τ sig) (W20 m ρ c) ∗ Rst c)
  post c := iprop(StableHlo.held (c : Thread nD τ) (Pipeline.ucRefs τ sig) (W21 m ρ c) ∗ Rst c)
  X c := iprop(∃ r, prngReg c r)
  Y c := iprop(∃ r, prngReg c r)
  Z c := Pipeline.unscopedRest (Ix := Unit) (Name := ℕ) (U := UR sig nD τ) (Lvl := ℕ) spec10 c (B20 m ρ c)
  hentry c := by
    rw [Pipeline.ownSems0_none]
    have hsplit := Pipeline.arrays_of_unscopedBufs (p := 10) (pcfgs (F := F)) admF (pdatsF m ρ) launch10.win launch10.arr_whole c
      ((pdatsF m ρ 10 c).share_full fun _ => rfl) (B20 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m ρ 10 c).Φ 0 = Pipeline.ΦA spec10 c from rfl]; unfold Pipeline.ΦA
    iintro ⟨Hp, -, Hr⟩
    isplitl [Hr]; · iexact Hr
    iexact Hp
  hout c := by
    rw [Pipeline.ownSems0_none, show (pdatsF m ρ 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) admF (Ix := Unit) (Name := ℕ) (U := UR sig nD τ) (Lvl := ℕ)
      launch10.win launch10.arr_whole c (pdatsF m ρ) ((pdatsF m ρ 10 c).share_full fun _ => rfl)
      (B20 m ρ c) (B21 m ρ c) ((pdatsF m ρ 10 c).arrAt · cfg10.N) (hF10 m ρ c) (hrest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 11 over the thread state: entered from every unscoped buffer at `W22`, left at `W23`. -/
def reg11 : Pipeline.RegionSeg (pcfgs (F := F)) admF (pdatsF m ρ) () defs₀ 𝒱F LF lvF 11 where
  win := launch11.win.to₀
  block_pos := launch11.block_pos
  stage_whole := launch11.stage_whole
  K := PEmpty
  osem k := k.elim
  ho := Pipeline.OwnSemFacts.none _
  hbody c := (body_obligation11 (B22 m ρ) c).loose
  hwaits := Pipeline.hwaits_of_owed_zero _ _ _ _ LF lvF 11 fun _ _ => rfl
  pre c := iprop(StableHlo.held (c : Thread nD τ) (Pipeline.ucRefs τ sig) (W22 m ρ c) ∗ Rst c)
  post c := iprop(StableHlo.held (c : Thread nD τ) (Pipeline.ucRefs τ sig) (W23 m ρ c) ∗ Rst c)
  X c := iprop(∃ r, prngReg c r)
  Y c := iprop(∃ r, prngReg c r)
  Z c := Pipeline.unscopedRest (Ix := Unit) (Name := ℕ) (U := UR sig nD τ) (Lvl := ℕ) spec11 c (B22 m ρ c)
  hentry c := by
    rw [Pipeline.ownSems0_none]
    have hsplit := Pipeline.arrays_of_unscopedBufs (p := 11) (pcfgs (F := F)) admF (pdatsF m ρ) launch11.win launch11.arr_whole c
      ((pdatsF m ρ 11 c).share_full fun _ => rfl) (B22 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m ρ 11 c).Φ 0 = Pipeline.ΦA spec11 c from rfl]; unfold Pipeline.ΦA
    iintro ⟨Hp, -, Hr⟩
    isplitl [Hr]; · iexact Hr
    iexact Hp
  hout c := by
    rw [Pipeline.ownSems0_none, show (pdatsF m ρ 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) admF (Ix := Unit) (Name := ℕ) (U := UR sig nD τ) (Lvl := ℕ)
      launch11.win launch11.arr_whole c (pdatsF m ρ) ((pdatsF m ρ 11 c).share_full fun _ => rfl)
      (B22 m ρ c) (B23 m ρ c) ((pdatsF m ρ 11 c).arrAt · cfg11.N) (hF11 m ρ c) (hrest11 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 12 over the thread state: entered from every unscoped buffer at `W23`, left at `W24`. -/
def reg12 : Pipeline.RegionSeg (pcfgs (F := F)) admF (pdatsF m ρ) () defs₀ 𝒱F LF lvF 12 where
  win := launch12.win.to₀
  block_pos := launch12.block_pos
  stage_whole := launch12.stage_whole
  K := PEmpty
  osem k := k.elim
  ho := Pipeline.OwnSemFacts.none _
  hbody c := (body_obligation12 (B23 m ρ) c).loose
  hwaits := Pipeline.hwaits_of_owed_zero _ _ _ _ LF lvF 12 fun _ _ => rfl
  pre c := iprop(StableHlo.held (c : Thread nD τ) (Pipeline.ucRefs τ sig) (W23 m ρ c) ∗ Rst c)
  post c := iprop(StableHlo.held (c : Thread nD τ) (Pipeline.ucRefs τ sig) (W24 m ρ c) ∗ Rst c)
  X c := iprop(∃ r, prngReg c r)
  Y c := iprop(∃ r, prngReg c r)
  Z c := Pipeline.unscopedRest (Ix := Unit) (Name := ℕ) (U := UR sig nD τ) (Lvl := ℕ) spec12 c (B23 m ρ c)
  hentry c := by
    rw [Pipeline.ownSems0_none]
    have hsplit := Pipeline.arrays_of_unscopedBufs (p := 12) (pcfgs (F := F)) admF (pdatsF m ρ) launch12.win launch12.arr_whole c
      ((pdatsF m ρ 12 c).share_full fun _ => rfl) (B23 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m ρ 12 c).Φ 0 = Pipeline.ΦA spec12 c from rfl]; unfold Pipeline.ΦA
    iintro ⟨Hp, -, Hr⟩
    isplitl [Hr]; · iexact Hr
    iexact Hp
  hout c := by
    rw [Pipeline.ownSems0_none, show (pdatsF m ρ 12 c).Φ (Fin.last _) = Pipeline.ΦA spec12 c from rfl]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) admF (Ix := Unit) (Name := ℕ) (U := UR sig nD τ) (Lvl := ℕ)
      launch12.win launch12.arr_whole c (pdatsF m ρ) ((pdatsF m ρ 12 c).share_full fun _ => rfl)
      (B23 m ρ c) (B24 m ρ c) ((pdatsF m ρ 12 c).arrAt · cfg12.N) (hF12 m ρ c) (hrest12 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 13 over the thread state: entered from every unscoped buffer at `W25`, left at `W26`. -/
def reg13 : Pipeline.RegionSeg (pcfgs (F := F)) admF (pdatsF m ρ) () defs₀ 𝒱F LF lvF 13 where
  win := launch13.win.to₀
  block_pos := launch13.block_pos
  stage_whole := launch13.stage_whole
  K := PEmpty
  osem k := k.elim
  ho := Pipeline.OwnSemFacts.none _
  hbody c := (body_obligation13 (B25 m ρ) c).loose
  hwaits := Pipeline.hwaits_of_owed_zero _ _ _ _ LF lvF 13 fun _ _ => rfl
  pre c := iprop(StableHlo.held (c : Thread nD τ) (Pipeline.ucRefs τ sig) (W25 m ρ c) ∗ Rst c)
  post c := iprop(StableHlo.held (c : Thread nD τ) (Pipeline.ucRefs τ sig) (W26 m ρ c) ∗ Rst c)
  X c := iprop(∃ r, prngReg c r)
  Y c := iprop(∃ r, prngReg c r)
  Z c := Pipeline.unscopedRest (Ix := Unit) (Name := ℕ) (U := UR sig nD τ) (Lvl := ℕ) spec13 c (B25 m ρ c)
  hentry c := by
    rw [Pipeline.ownSems0_none]
    have hsplit := Pipeline.arrays_of_unscopedBufs (p := 13) (pcfgs (F := F)) admF (pdatsF m ρ) launch13.win launch13.arr_whole c
      ((pdatsF m ρ 13 c).share_full fun _ => rfl) (B25 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m ρ 13 c).Φ 0 = (dat13 (B25 m ρ) c).Φ 0 from rfl]
    refine .trans ?_ (Φ13_in (B25 m ρ) c)
    unfold Pipeline.ΦA
    iintro ⟨Hp, -, Hr⟩
    isplitl [Hr]; · iexact Hr
    iexact Hp
  hout c := by
    rw [Pipeline.ownSems0_none, show (pdatsF m ρ 13 c).Φ (Fin.last _) = (dat13 (B25 m ρ) c).Φ (Fin.last _) from rfl]
    refine (Φ13_out (B25 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 13) (pcfgs (F := F)) admF (Ix := Unit) (Name := ℕ) (U := UR sig nD τ) (Lvl := ℕ)
      launch13.win launch13.arr_whole c (pdatsF m ρ) ((pdatsF m ρ 13 c).share_full fun _ => rfl)
      (B25 m ρ c) (B26 m ρ c) ((pdatsF m ρ 13 c).arrAt · cfg13.N) (hF13 m ρ c) (hrest13 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 14 over the thread state: entered from every unscoped buffer at `W27`, left at `W28`. -/
def reg14 : Pipeline.RegionSeg (pcfgs (F := F)) admF (pdatsF m ρ) () defs₀ 𝒱F LF lvF 14 where
  win := launch14.win.to₀
  block_pos := launch14.block_pos
  stage_whole := launch14.stage_whole
  K := PEmpty
  osem k := k.elim
  ho := Pipeline.OwnSemFacts.none _
  hbody c := (body_obligation14 (B27 m ρ) c).loose
  hwaits := Pipeline.hwaits_of_owed_zero _ _ _ _ LF lvF 14 fun _ _ => rfl
  pre c := iprop(StableHlo.held (c : Thread nD τ) (Pipeline.ucRefs τ sig) (W27 m ρ c) ∗ Rst c)
  post c := iprop(StableHlo.held (c : Thread nD τ) (Pipeline.ucRefs τ sig) (W28 m ρ c) ∗ Rst c)
  X c := iprop(∃ r, prngReg c r)
  Y c := iprop(∃ r, prngReg c r)
  Z c := Pipeline.unscopedRest (Ix := Unit) (Name := ℕ) (U := UR sig nD τ) (Lvl := ℕ) spec14 c (B27 m ρ c)
  hentry c := by
    rw [Pipeline.ownSems0_none]
    have hsplit := Pipeline.arrays_of_unscopedBufs (p := 14) (pcfgs (F := F)) admF (pdatsF m ρ) launch14.win launch14.arr_whole c
      ((pdatsF m ρ 14 c).share_full fun _ => rfl) (B27 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m ρ 14 c).Φ 0 = Pipeline.ΦA spec14 c from rfl]; unfold Pipeline.ΦA
    iintro ⟨Hp, -, Hr⟩
    isplitl [Hr]; · iexact Hr
    iexact Hp
  hout c := by
    rw [Pipeline.ownSems0_none, show (pdatsF m ρ 14 c).Φ (Fin.last _) = Pipeline.ΦA spec14 c from rfl]; unfold Pipeline.ΦA
    iintro ⟨Hr, Hp⟩
    isplitl [Hp]; · iexact Hp
    isplitr; · iempintro
    iexact Hr
  hexit c := by
    have hjoin := Pipeline.unscopedBufs_of_arrays (p := 14) (pcfgs (F := F)) admF (Ix := Unit) (Name := ℕ) (U := UR sig nD τ) (Lvl := ℕ)
      launch14.win launch14.arr_whole c (pdatsF m ρ) ((pdatsF m ρ 14 c).share_full fun _ => rfl)
      (B27 m ρ c) (B28 m ρ c) ((pdatsF m ρ 14 c).arrAt · cfg14.N) (hF14 m ρ c) (hrest14 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.K.Run.lean ====
/- The run of @main: its 29 items in order — a segment per stretch of host operations and per kernel region — from the
   launch memory to the return. Every weakly fair execution terminates, nothing faulting, and in every final state each
   unscoped TensorCore buffer holds the last boundary's contents; in particular every argument array is as launched. -/
import proofs.«173191_j73083163508880_2_alg».proof.Proof.K.Regs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱F LF lvF :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register
    at some state. -/
abbrev Tlast (c : Dev nD) : sProp 𝕄 := iprop(StableHlo.held (c : Thread nD τ) (Pipeline.ucRefs τ sig) (W29 m ρ c) ∗ ∃ r, prngReg c r)

/-- @main's 29 segments in order. -/
abbrev segsF : List (Pipeline.Seg (pcfgs (F := F)) admF (pdatsF m ρ) () defs₀ 𝒱F LF lvF) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .region (reg3 m ρ),
    .host (hseg hostOps4 hostOps4_sub hostOps4_fresh (W7 m ρ)),
    .region (reg4 m ρ),
    .host (hseg hostOps5 hostOps5_sub hostOps5_fresh (W9 m ρ)),
    .region (reg5 m ρ),
    .host (hseg hostOps6 hostOps6_sub hostOps6_fresh (W11 m ρ)),
    .region (reg6 m ρ),
    .host (hseg hostOps7 hostOps7_sub hostOps7_fresh (W13 m ρ)),
    .region (reg7 m ρ),
    .host (hseg hostOps8 hostOps8_sub hostOps8_fresh (W15 m ρ)),
    .region (reg8 m ρ),
    .host (hseg hostOps9 hostOps9_sub hostOps9_fresh (W17 m ρ)),
    .region (reg9 m ρ),
    .host (hseg hostOps10 hostOps10_sub hostOps10_fresh (W19 m ρ)),
    .region (reg10 m ρ),
    .host (hseg hostOps11 hostOps11_sub hostOps11_fresh (W21 m ρ)),
    .region (reg11 m ρ),
    .region (reg12 m ρ),
    .host (hseg hostOps13 hostOps13_sub hostOps13_fresh (W24 m ρ)),
    .region (reg13 m ρ),
    .host (hseg hostOps14 hostOps14_sub hostOps14_fresh (W26 m ρ)),
    .region (reg14 m ρ),
    .host (hseg hostOps15 hostOps15_sub hostOps15_fresh (W28 m ρ)) ]

set_option backward.isDefEq.respectTransparency.types false in
/-- Every weakly fair execution of @main from memory `m` with zero counters terminates, nothing faulting, and every final
    memory holds each unscoped TensorCore buffer at the last boundary's contents `W29`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W29 m ρ c b) :=
  Pipeline.θ_run_regions_kit (pcfgs (F := F)) admF (pdatsF m ρ) () cellOf_inj emb₁ defs₀ 𝒱F LF lvF m ρ main (segsF m ρ)
    (fun c Q => by
      rewrite [main_chain c, Pipeline.Seg.run_eq_chain,
        show (segsF m ρ).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          Prog.lift (.customCall (Pipeline.entry 10) ()),
          StableHlo.seq hostOps11,
          Prog.lift (.customCall (Pipeline.entry 11) ()),
          Prog.lift (.customCall (Pipeline.entry 12) ()),
          StableHlo.seq hostOps13,
          Prog.lift (.customCall (Pipeline.entry 13) ()),
          StableHlo.seq hostOps14,
          Prog.lift (.customCall (Pipeline.entry 14) ()),
          StableHlo.seq hostOps15 ] from rfl]
      exact .rfl)
    (by simp only [segsF, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rst c)) (Tₙ := Tlast m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W29 m ρ c) ∗ Rst c) ⊢ _
      iintro ⟨Hh, Hp, HO⟩
      isplitl [Hh Hp]
      · isplitl [Hh]; · iexact Hh
        iexact Hp
      iexact HO⟩)
    (hinit := by
      refine Pipeline.initEach LF lvF fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W29 m ρ c b)
    (hfin := fun c s' => by
      iintro ⟨⟨Hh, -⟩, HSI⟩
      unfold StableHlo.held
      imodintro
      iapply (pointsTo_read_all (Pipeline.ucRefs τ sig) (fun b => (((c : Thread nD τ)).1, b)) (W29 m ρ c) s')
      isplitl [Hh] <;> iassumption)
    (hQ := fun s h => h)

/-- THE FRAME, at any float instance: every weakly fair execution of @main terminates, nothing faulting, and every final
    state has the 42 argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39)
      ∧ r.2.mem ((c.tc : Thread nD τ).loc main_arg40) = m ((c.tc : Thread nD τ).loc main_arg40)
      ∧ r.2.mem ((c.tc : Thread nD τ).loc main_arg41) = m ((c.tc : Thread nD τ).loc main_arg41)) :=
  (θ_run defs _ _).mono (fun r h c =>
    ⟨(h c _ (mem_uc main_arg0 (by decide))).trans (W29_main_arg0 m ρ c),
     (h c _ (mem_uc main_arg1 (by decide))).trans (W29_main_arg1 m ρ c),
     (h c _ (mem_uc main_arg2 (by decide))).trans (W29_main_arg2 m ρ c),
     (h c _ (mem_uc main_arg3 (by decide))).trans (W29_main_arg3 m ρ c),
     (h c _ (mem_uc main_arg4 (by decide))).trans (W29_main_arg4 m ρ c),
     (h c _ (mem_uc main_arg5 (by decide))).trans (W29_main_arg5 m ρ c),
     (h c _ (mem_uc main_arg6 (by decide))).trans (W29_main_arg6 m ρ c),
     (h c _ (mem_uc main_arg7 (by decide))).trans (W29_main_arg7 m ρ c),
     (h c _ (mem_uc main_arg8 (by decide))).trans (W29_main_arg8 m ρ c),
     (h c _ (mem_uc main_arg9 (by decide))).trans (W29_main_arg9 m ρ c),
     (h c _ (mem_uc main_arg10 (by decide))).trans (W29_main_arg10 m ρ c),
     (h c _ (mem_uc main_arg11 (by decide))).trans (W29_main_arg11 m ρ c),
     (h c _ (mem_uc main_arg12 (by decide))).trans (W29_main_arg12 m ρ c),
     (h c _ (mem_uc main_arg13 (by decide))).trans (W29_main_arg13 m ρ c),
     (h c _ (mem_uc main_arg14 (by decide))).trans (W29_main_arg14 m ρ c),
     (h c _ (mem_uc main_arg15 (by decide))).trans (W29_main_arg15 m ρ c),
     (h c _ (mem_uc main_arg16 (by decide))).trans (W29_main_arg16 m ρ c),
     (h c _ (mem_uc main_arg17 (by decide))).trans (W29_main_arg17 m ρ c),
     (h c _ (mem_uc main_arg18 (by decide))).trans (W29_main_arg18 m ρ c),
     (h c _ (mem_uc main_arg19 (by decide))).trans (W29_main_arg19 m ρ c),
     (h c _ (mem_uc main_arg20 (by decide))).trans (W29_main_arg20 m ρ c),
     (h c _ (mem_uc main_arg21 (by decide))).trans (W29_main_arg21 m ρ c),
     (h c _ (mem_uc main_arg22 (by decide))).trans (W29_main_arg22 m ρ c),
     (h c _ (mem_uc main_arg23 (by decide))).trans (W29_main_arg23 m ρ c),
     (h c _ (mem_uc main_arg24 (by decide))).trans (W29_main_arg24 m ρ c),
     (h c _ (mem_uc main_arg25 (by decide))).trans (W29_main_arg25 m ρ c),
     (h c _ (mem_uc main_arg26 (by decide))).trans (W29_main_arg26 m ρ c),
     (h c _ (mem_uc main_arg27 (by decide))).trans (W29_main_arg27 m ρ c),
     (h c _ (mem_uc main_arg28 (by decide))).trans (W29_main_arg28 m ρ c),
     (h c _ (mem_uc main_arg29 (by decide))).trans (W29_main_arg29 m ρ c),
     (h c _ (mem_uc main_arg30 (by decide))).trans (W29_main_arg30 m ρ c),
     (h c _ (mem_uc main_arg31 (by decide))).trans (W29_main_arg31 m ρ c),
     (h c _ (mem_uc main_arg32 (by decide))).trans (W29_main_arg32 m ρ c),
     (h c _ (mem_uc main_arg33 (by decide))).trans (W29_main_arg33 m ρ c),
     (h c _ (mem_uc main_arg34 (by decide))).trans (W29_main_arg34 m ρ c),
     (h c _ (mem_uc main_arg35 (by decide))).trans (W29_main_arg35 m ρ c),
     (h c _ (mem_uc main_arg36 (by decide))).trans (W29_main_arg36 m ρ c),
     (h c _ (mem_uc main_arg37 (by decide))).trans (W29_main_arg37 m ρ c),
     (h c _ (mem_uc main_arg38 (by decide))).trans (W29_main_arg38 m ρ c),
     (h c _ (mem_uc main_arg39 (by decide))).trans (W29_main_arg39 m ρ c),
     (h c _ (mem_uc main_arg40 (by decide))).trans (W29_main_arg40 m ρ c),
     (h c _ (mem_uc main_arg41 (by decide))).trans (W29_main_arg41 m ρ c)⟩)
    (run_all m ρ)

end Cert.Kernel.Fr

end
-- ==== Proof.KI.R0.lean ====
/- The frame of REGION 0 of @main — custom_call 0, the SAGE combine kernel `cc0__sage_combine_kernel` (pipeline 0) —
   at a PARAMETER `V`, the TensorCore's buffer contents when the region is entered: each window's block at a grid
   point (`iblk0`), what the body leaves in the output window's staging buffer (`out0_6`: the one store of the
   whole block, its payload the normalised, rectified sum of the two products and the bias, over the six blocks read
   whole), the body's triple (`sound_kernel0`), the proof data (`dat0`) and the body obligation
   (`body_obligation0`). One control case: the body reads each input's staging buffer whole and writes the output's
   whole. -/
import proofs.«173191_j73083163508880_2_alg».proof.Proof.Gen.KernelIdeal.Launch
import proofs.«173191_j73083163508880_2_alg».proof.Proof.Gen.KernelIdeal.Skeleton
import proofs.«173191_j73083163508880_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 0 of @main: custom_call 0, `cc0__sage_combine_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): unfetched, the block index
    has not moved, so the block kept from the point before is this point's; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for ANY proof
    data whose array is `V`'s (`hA`) and whose body leaves the block in place (`hafter`): unfetched, the block index
    has not moved, so the block kept from the point before is this point's; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for ANY proof
    data whose array is `V`'s (`hA`) and whose body leaves the block in place (`hafter`): unfetched, the block index
    has not moved, so the block kept from the point before is this point's; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for ANY proof
    data whose array is `V`'s (`hA`) and whose body leaves the block in place (`hafter`): unfetched, the block index
    has not moved, so the block kept from the point before is this point's; the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for ANY proof
    data whose array is `V`'s (`hA`) and whose body leaves the block in place (`hafter`): unfetched, the block index
    has not moved, so the block kept from the point before is this point's; the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for ANY proof
    data whose array is `V`'s (`hA`) and whose body leaves the block in place (`hafter`): unfetched, the block index
    has not moved, so the block kept from the point before is this point's; the window is uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S5000x64 := Rect.unit (s := S5000x64) ![0, 0] S5000x64.size inb_S5000x64_S5000x64_0_0
abbrev r0_1 : Rect S5000x1 := Rect.unit (s := S5000x1) ![0, 0] S5000x1.size inb_S5000x1_S5000x1_0_0
abbrev r0_2 : Rect S5000x32 := Rect.unit (s := S5000x32) ![0, 0] S5000x32.size inb_S5000x32_S5000x32_0_0
abbrev r0_3 : Rect S64x64 := Rect.unit (s := S64x64) ![0, 0] S64x64.size inb_S64x64_S64x64_0_0
abbrev r0_4 : Rect S32x64 := Rect.unit (s := S32x64) ![0, 0] S32x64.size inb_S32x64_S32x64_0_0
abbrev r0_5 : Rect S64 := Rect.unit (s := S64) ![0] S64.size inb_S64_S64_0

/-! ## What the body leaves in the output window's buffer -/

/-- Window 6's staging buffer after the body, from the input windows' blocks: its 1 store as pieces, LAST
    FIRST; the payload is the skeleton's, applied to the six blocks read whole. -/
def out0_6 (x0 : Vec F S5000x64 .f32) (x1 : Vec F S5000x1 .f32) (x2 : Vec F S5000x32 .f32) (x3 : Vec F S64x64 .f32) (x4 : Vec F S64 .f32) (x5 : Vec F S32x64 .f32) : Vec F S5000x64 .f32 :=
  View.canon [⟨r0_0, k0_pay1 (View.ld x0 r0_0) (View.ld x1 r0_1) (View.ld x2 r0_2) (View.ld x3 r0_3) (View.ld x5 r0_4) (View.ld x4 r0_5)⟩]

/-- Its store is of the whole block, so it covers the buffer (checked by evaluation). -/
theorem cover0_6 (p0 : Vec F S5000x64 .f32) (y : S5000x64.Idx) :
    ∃ pc ∈ ([⟨r0_0, p0⟩] : List (View.Piece (Elt F) S5000x64 .f32)), y ∈ pc.1.set :=
  View.cover_of_tiled [⟨r0_0, p0⟩] S5000x64.size (by rfl) y

/-! ## The body's triple -/

set_option maxHeartbeats 1000000 in
/-- The kernel body on whole staging memrefs, the inputs' at read contents `xW` and the output's at anything, runs to
    the continuation holding the inputs' as they were and the output's at `out0_6` of the inputs': the printed function
    is its skeleton, run one memory operation at a time. -/
theorem sound_kernel0 (c : Dev nD) (E : Set ℕ) (i : grid0.Coords) (arg1 : Memref sig .tc .vmem S5000x64 .f32) (harg1 : arg1.IsWhole) (arg2 : Memref sig .tc .vmem S5000x1 .f32) (harg2 : arg2.IsWhole) (arg3 : Memref sig .tc .vmem S5000x32 .f32) (harg3 : arg3.IsWhole) (arg4 : Memref sig .tc .vmem S64x64 .f32) (harg4 : arg4.IsWhole) (arg5 : Memref sig .tc .vmem S64 .f32) (harg5 : arg5.IsWhole) (arg6 : Memref sig .tc .vmem S32x64 .f32) (harg6 : arg6.IsWhole) (arg7 : Memref sig .tc .vmem S5000x64 .f32) (harg7 : arg7.IsWhole)
    (x0 : Vec F S5000x64 .f32) (x1 : Vec F S5000x1 .f32) (x2 : Vec F S5000x32 .f32) (x3 : Vec F S64x64 .f32) (x4 : Vec F S64 .f32) (x5 : Vec F S32x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5)) -∗ K ⟨⟩))
      ⊢ wp frame (wpE (defs₀ (F := F)) Variants.none c none) E (cc0__sage_combine_kernel i arg1 harg1 arg2 harg2 arg3 harg3 arg4 harg4 arg5 harg5 arg6 harg6 arg7 harg7) K := by
  simp only [cc0__sage_combine_kernel_eq_skeleton]; unfold cc0__sage_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The pipeline's proof data -/

/-- The proof data of pipeline 0 on core `c`: the arrays as the region finds them (`V`); after the body at
    point `t` each input's buffer at its block and the output's at `out0_6` of the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents (the proof data's definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t` (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr
-- ==== Proof.KI.R1.lean ====
/- The frame of REGION 1 of @main — custom_call 1, the SAGE combine kernel `cc1__sage_combine_kernel` (pipeline 1) —
   at a PARAMETER `V`, the TensorCore's buffer contents when the region is entered: each window's block at a grid
   point (`iblk1`), what the body leaves in the output window's staging buffer (`out1_6`: the one store of the
   whole block, its payload the normalised, rectified sum of the two products and the bias, over the six blocks read
   whole), the body's triple (`sound_kernel1`), the proof data (`dat1`) and the body obligation
   (`body_obligation1`). One control case: the body reads each input's staging buffer whole and writes the output's
   whole. -/
import proofs.«173191_j73083163508880_2_alg».proof.Proof.Gen.KernelIdeal.Launch
import proofs.«173191_j73083163508880_2_alg».proof.Proof.Gen.KernelIdeal.Skeleton
import proofs.«173191_j73083163508880_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 1 of @main: custom_call 1, `cc1__sage_combine_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): unfetched, the block index
    has not moved, so the block kept from the point before is this point's; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for ANY proof
    data whose array is `V`'s (`hA`) and whose body leaves the block in place (`hafter`): unfetched, the block index
    has not moved, so the block kept from the point before is this point's; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for ANY proof
    data whose array is `V`'s (`hA`) and whose body leaves the block in place (`hafter`): unfetched, the block index
    has not moved, so the block kept from the point before is this point's; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for ANY proof
    data whose array is `V`'s (`hA`) and whose body leaves the block in place (`hafter`): unfetched, the block index
    has not moved, so the block kept from the point before is this point's; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for ANY proof
    data whose array is `V`'s (`hA`) and whose body leaves the block in place (`hafter`): unfetched, the block index
    has not moved, so the block kept from the point before is this point's; the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for ANY proof
    data whose array is `V`'s (`hA`) and whose body leaves the block in place (`hafter`): unfetched, the block index
    has not moved, so the block kept from the point before is this point's; the window is uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S5000x64 := Rect.unit (s := S5000x64) ![0, 0] S5000x64.size inb_S5000x64_S5000x64_0_0
abbrev r1_1 : Rect S5000x1 := Rect.unit (s := S5000x1) ![0, 0] S5000x1.size inb_S5000x1_S5000x1_0_0
abbrev r1_2 : Rect S64x64 := Rect.unit (s := S64x64) ![0, 0] S64x64.size inb_S64x64_S64x64_0_0
abbrev r1_3 : Rect S64 := Rect.unit (s := S64) ![0] S64.size inb_S64_S64_0

/-! ## What the body leaves in the output window's buffer -/

/-- Window 6's staging buffer after the body, from the input windows' blocks: its 1 store as pieces, LAST
    FIRST; the payload is the skeleton's, applied to the six blocks read whole. -/
def out1_6 (x0 : Vec F S5000x64 .f32) (x1 : Vec F S5000x1 .f32) (x2 : Vec F S5000x64 .f32) (x3 : Vec F S64x64 .f32) (x4 : Vec F S64 .f32) (x5 : Vec F S64x64 .f32) : Vec F S5000x64 .f32 :=
  View.canon [⟨r1_0, k1_pay1 (View.ld x0 r1_0) (View.ld x1 r1_1) (View.ld x2 r1_0) (View.ld x3 r1_2) (View.ld x5 r1_2) (View.ld x4 r1_3)⟩]

/-- Its store is of the whole block, so it covers the buffer (checked by evaluation). -/
theorem cover1_6 (p0 : Vec F S5000x64 .f32) (y : S5000x64.Idx) :
    ∃ pc ∈ ([⟨r1_0, p0⟩] : List (View.Piece (Elt F) S5000x64 .f32)), y ∈ pc.1.set :=
  View.cover_of_tiled [⟨r1_0, p0⟩] S5000x64.size (by rfl) y

/-! ## The body's triple -/

set_option maxHeartbeats 1000000 in
/-- The kernel body on whole staging memrefs, the inputs' at read contents `xW` and the output's at anything, runs to
    the continuation holding the inputs' as they were and the output's at `out1_6` of the inputs': the printed function
    is its skeleton, run one memory operation at a time. -/
theorem sound_kernel1 (c : Dev nD) (E : Set ℕ) (i : grid1.Coords) (arg1 : Memref sig .tc .vmem S5000x64 .f32) (harg1 : arg1.IsWhole) (arg2 : Memref sig .tc .vmem S5000x1 .f32) (harg2 : arg2.IsWhole) (arg3 : Memref sig .tc .vmem S5000x64 .f32) (harg3 : arg3.IsWhole) (arg4 : Memref sig .tc .vmem S64x64 .f32) (harg4 : arg4.IsWhole) (arg5 : Memref sig .tc .vmem S64 .f32) (harg5 : arg5.IsWhole) (arg6 : Memref sig .tc .vmem S64x64 .f32) (harg6 : arg6.IsWhole) (arg7 : Memref sig .tc .vmem S5000x64 .f32) (harg7 : arg7.IsWhole)
    (x0 : Vec F S5000x64 .f32) (x1 : Vec F S5000x1 .f32) (x2 : Vec F S5000x64 .f32) (x3 : Vec F S64x64 .f32) (x4 : Vec F S64 .f32) (x5 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1__sage_combine_kernel i arg1 harg1 arg2 harg2 arg3 harg3 arg4 harg4 arg5 harg5 arg6 harg6 arg7 harg7) K := by
  simp only [cc1__sage_combine_kernel_eq_skeleton]; unfold cc1__sage_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- The proof data of pipeline 1 on core `c`: the arrays as the region finds them (`V`); after the body at
    point `t` each input's buffer at its block and the output's at `out1_6` of the input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents (the proof data's definition projected). -/
theorem A_eq1 (c : Dev nD) (w : Fin cfg1.W) : (dat1 V c).A w = V c (Pipeline.arrRef spec1 w) := by
  dsimp only [dat1]

/-- What the body leaves, window by window (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t` (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr
-- ==== Proof.KI.R2.lean ====
/- The frame of REGION 2 of @main — custom_call 2, the SAGE combine kernel `cc2__sage_combine_kernel` (pipeline 2) —
   at a PARAMETER `V`, the TensorCore's buffer contents when the region is entered: each window's block at a grid
   point (`iblk2`), what the body leaves in the output window's staging buffer (`out2_6`: the one store of the
   whole block, its payload the normalised, rectified sum of the two products and the bias, over the six blocks read
   whole), the body's triple (`sound_kernel2`), the proof data (`dat2`) and the body obligation
   (`body_obligation2`). One control case: the body reads each input's staging buffer whole and writes the output's
   whole. -/
import proofs.«173191_j73083163508880_2_alg».proof.Proof.Gen.KernelIdeal.Launch
import proofs.«173191_j73083163508880_2_alg».proof.Proof.Gen.KernelIdeal.Skeleton
import proofs.«173191_j73083163508880_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 2 of @main: custom_call 2, `cc2__sage_combine_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): unfetched, the block index
    has not moved, so the block kept from the point before is this point's; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for ANY proof
    data whose array is `V`'s (`hA`) and whose body leaves the block in place (`hafter`): unfetched, the block index
    has not moved, so the block kept from the point before is this point's; the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for ANY proof
    data whose array is `V`'s (`hA`) and whose body leaves the block in place (`hafter`): unfetched, the block index
    has not moved, so the block kept from the point before is this point's; the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for ANY proof
    data whose array is `V`'s (`hA`) and whose body leaves the block in place (`hafter`): unfetched, the block index
    has not moved, so the block kept from the point before is this point's; the window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for ANY proof
    data whose array is `V`'s (`hA`) and whose body leaves the block in place (`hafter`): unfetched, the block index
    has not moved, so the block kept from the point before is this point's; the window is uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not, for ANY proof
    data whose array is `V`'s (`hA`) and whose body leaves the block in place (`hafter`): unfetched, the block index
    has not moved, so the block kept from the point before is this point's; the window is uncut and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S5000x64 := Rect.unit (s := S5000x64) ![0, 0] S5000x64.size inb_S5000x64_S5000x64_0_0
abbrev r2_1 : Rect S5000x1 := Rect.unit (s := S5000x1) ![0, 0] S5000x1.size inb_S5000x1_S5000x1_0_0
abbrev r2_2 : Rect S5000x32 := Rect.unit (s := S5000x32) ![0, 0] S5000x32.size inb_S5000x32_S5000x32_0_0
abbrev r2_3 : Rect S64x64 := Rect.unit (s := S64x64) ![0, 0] S64x64.size inb_S64x64_S64x64_0_0
abbrev r2_4 : Rect S32x64 := Rect.unit (s := S32x64) ![0, 0] S32x64.size inb_S32x64_S32x64_0_0
abbrev r2_5 : Rect S64 := Rect.unit (s := S64) ![0] S64.size inb_S64_S64_0

/-! ## What the body leaves in the output window's buffer -/

/-- Window 6's staging buffer after the body, from the input windows' blocks: its 1 store as pieces, LAST
    FIRST; the payload is the skeleton's, applied to the six blocks read whole. -/
def out2_6 (x0 : Vec F S5000x64 .f32) (x1 : Vec F S5000x1 .f32) (x2 : Vec F S5000x32 .f32) (x3 : Vec F S64x64 .f32) (x4 : Vec F S64 .f32) (x5 : Vec F S32x64 .f32) : Vec F S5000x64 .f32 :=
  View.canon [⟨r2_0, k2_pay1 (View.ld x0 r2_0) (View.ld x1 r2_1) (View.ld x2 r2_2) (View.ld x3 r2_3) (View.ld x5 r2_4) (View.ld x4 r2_5)⟩]

/-- Its store is of the whole block, so it covers the buffer (checked by evaluation). -/
theorem cover2_6 (p0 : Vec F S5000x64 .f32) (y : S5000x64.Idx) :
    ∃ pc ∈ ([⟨r2_0, p0⟩] : List (View.Piece (Elt F) S5000x64 .f32)), y ∈ pc.1.set :=
  View.cover_of_tiled [⟨r2_0, p0⟩] S5000x64.size (by rfl) y

/-! ## The body's triple -/

set_option maxHeartbeats 1000000 in
/-- The kernel body on whole staging memrefs, the inputs' at read contents `xW` and the output's at anything, runs to
    the continuation holding the inputs' as they were and the output's at `out2_6` of the inputs': the printed function
    is its skeleton, run one memory operation at a time. -/
theorem sound_kernel2 (c : Dev nD) (E : Set ℕ) (i : grid2.Coords) (arg1 : Memref sig .tc .vmem S5000x64 .f32) (harg1 : arg1.IsWhole) (arg2 : Memref sig .tc .vmem S5000x1 .f32) (harg2 : arg2.IsWhole) (arg3 : Memref sig .tc .vmem S5000x32 .f32) (harg3 : arg3.IsWhole) (arg4 : Memref sig .tc .vmem S64x64 .f32) (harg4 : arg4.IsWhole) (arg5 : Memref sig .tc .vmem S64 .f32) (harg5 : arg5.IsWhole) (arg6 : Memref sig .tc .vmem S32x64 .f32) (harg6 : arg6.IsWhole) (arg7 : Memref sig .tc .vmem S5000x64 .f32) (harg7 : arg7.IsWhole)
    (x0 : Vec F S5000x64 .f32) (x1 : Vec F S5000x1 .f32) (x2 : Vec F S5000x32 .f32) (x3 : Vec F S64x64 .f32) (x4 : Vec F S64 .f32) (x5 : Vec F S32x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2__sage_combine_kernel i arg1 harg1 arg2 harg2 arg3 harg3 arg4 harg4 arg5 harg5 arg6 harg6 arg7 harg7) K := by
  simp only [cc2__sage_combine_kernel_eq_skeleton]; unfold cc2__sage_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The pipeline's proof data -/

/-- The proof data of pipeline 2 on core `c`: the arrays as the region finds them (`V`); after the body at
    point `t` each input's buffer at its block and the output's at `out2_6` of the input blocks; the invariant the
    scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the region-entry contents (the proof data's definition projected). -/
theorem A_eq2 (c : Dev nD) (w : Fin cfg2.W) : (dat2 V c).A w = V c (Pipeline.arrRef spec2 w) := by
  dsimp only [dat2]

/-- What the body leaves, window by window (the proof data's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t` (the obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ (grid2.coords t) _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr
-- ==== Proof.KI.R3.lean ====
import proofs.«173191_j73083163508880_2_alg».proof.Proof.Gen.KernelIdeal.Launch
import proofs.«173191_j73083163508880_2_alg».proof.Proof.Gen.KernelIdeal.Skeleton
import proofs.«173191_j73083163508880_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the elaborator's structural look recurses once per coordinate
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # The tiled matrix product `cc3__matmul_kernel` (pipeline 3), at the entry contents `V`

Each of the 20 grid points reads a [5000,64] block of the left factor and the whole [64,64] right factor, rounds both
to bf16, and stores their product (accumulated in f32 from zero) over the whole [5000,64] output block. -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0 (the left factor's row block) holds its block at every point, for any proof data whose array is
    `V`'s and whose body leaves the block in place: the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1 (the right factor, one constant block fetched at the first point only) holds its block at every
    point: where it is not fetched its block index has not moved. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- The whole [5000,64] block. -/
abbrev r3_0 : Rect S5000x64 := Rect.unit (s := S5000x64) ![0, 0] S5000x64.size inb_S5000x64_S5000x64_0_0
/-- The whole [64,64] right factor. -/
abbrev r3_1 : Rect S64x64 := Rect.unit (s := S64x64) ![0, 0] S64x64.size inb_S64x64_S64x64_0_0

/-! ## What the body leaves in the output window's buffer -/

/-- Window 2's staging buffer after the body, from the input windows' blocks: its one store, of the product of the
    two blocks as the skeleton's payload computes it, over the whole block. -/
def out3_2 (x0 : Vec F S5000x64 .f32) (x1 : Vec F S64x64 .f32) : Vec F S5000x64 .f32 :=
  View.canon [⟨r3_0, k3_pay1 (View.ld x0 r3_0) (View.ld x1 r3_1)⟩]

/-- The store's rectangle is the whole buffer, so it covers it. -/
theorem cover3_2 (p0 : Vec F S5000x64 .f32) (y : S5000x64.Idx) :
    ∃ pc ∈ ([⟨r3_0, p0⟩] : List (View.Piece (Elt F) S5000x64 .f32)), y ∈ pc.1.set :=
  View.cover_of_tiled [⟨r3_0, p0⟩] S5000x64.size (by rfl) y

/-! ## The body's triple -/

set_option maxHeartbeats 1000000 in
/-- The kernel body on whole staging memrefs, the inputs' at read contents `x0`, `x1` and the output's at anything,
    runs to the continuation holding the inputs' as they were and the output's at `out3_2` of the inputs'. -/
theorem sound_kernel3 (c : Dev nD) (E : Set ℕ) (i : grid3.Coords) (arg1 : Memref sig .tc .vmem S5000x64 .f32) (harg1 : arg1.IsWhole) (arg2 : Memref sig .tc .vmem S64x64 .f32) (harg2 : arg2.IsWhole) (arg3 : Memref sig .tc .vmem S5000x64 .f32) (harg3 : arg3.IsWhole)
    (x0 : Vec F S5000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of pipeline 3 on core `c`: the arrays as the region finds them (`V`); after the body at point
    `t` each input's buffer at its block and the output's at `out3_2` of the input blocks; the invariant the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so `sound_kernel3` applies; the invariant and the
    core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Fr

end
-- ==== Proof.KI.R4.lean ====
import proofs.«173191_j73083163508880_2_alg».proof.Proof.Gen.KernelIdeal.Launch
import proofs.«173191_j73083163508880_2_alg».proof.Proof.Gen.KernelIdeal.Skeleton
import proofs.«173191_j73083163508880_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the blocks' extents recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 4: the GCN combine with column statistics, at the entry contents `V`

The body has three control cases over the 20 grid points: the first point zeroes the two accumulators
before accumulating, the middle points only accumulate, the last point also copies the accumulators
to the two statistics outputs. -/

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof
    data whose array is the entry contents and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not, for any proof
    data whose array is the entry contents and whose body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not, for any proof
    data whose array is the entry contents and whose body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not, for any proof
    data whose array is the entry contents and whose body leaves the block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## The body's two conditions, in closed form -/

/-- "This is the first grid point": the condition of the zeroing branch, from the grid coordinates. -/
abbrev cond4_0 (i : grid4.Coords) : Prop := (Scalar.cmpi .ne (Scalar.extui (Scalar.cmpi .eq (BitVec.ofNat 32 (i 0).val) 0#32)) 0#32) = 1#1
/-- It holds at the first point only. -/
theorem hcond4_0 : ∀ t : Fin cfg4.N, cond4_0 (grid4.coords t) ↔ t.val % 20 = 0 :=
  (by decide +kernel : ∀ t : Fin grid4.N, cond4_0 (grid4.coords t) ↔ t.val % 20 = 0)

/-- "This is the last grid point": the condition of the branch that writes the statistics out. -/
abbrev cond4_1 (i : grid4.Coords) : Prop := k4_cond2 i = 1#1
/-- It holds at the last point only. -/
theorem hcond4_1 : ∀ t : Fin cfg4.N, cond4_1 (grid4.coords t) ↔ t.val % 20 = 19 :=
  (by decide +kernel : ∀ t : Fin grid4.N, cond4_1 (grid4.coords t) ↔ t.val % 20 = 19)

/-! ## Where the windows are idle -/

/-- Window 0 is never idle. -/
theorem liveAt4_0 : ∀ t : Fin cfg4.N, cfg4.idle 0 (grid4.coords t) = false := by decide +kernel
/-- Window 1 is never idle. -/
theorem liveAt4_1 : ∀ t : Fin cfg4.N, cfg4.idle 1 (grid4.coords t) = false := by decide +kernel
/-- Window 2 is never idle. -/
theorem liveAt4_2 : ∀ t : Fin cfg4.N, cfg4.idle 2 (grid4.coords t) = false := by decide +kernel
/-- Window 3 is never idle. -/
theorem liveAt4_3 : ∀ t : Fin cfg4.N, cfg4.idle 3 (grid4.coords t) = false := by decide +kernel
/-- Window 4 is never idle. -/
theorem liveAt4_4 : ∀ t : Fin cfg4.N, cfg4.idle 4 (grid4.coords t) = false := by decide +kernel
/-- Away from the last point nothing is stored into output 5: the window is idle there, -/
theorem idleAt4_5 : ∀ t : Fin cfg4.N, ¬cond4_1 (grid4.coords t) → cfg4.idle 5 (grid4.coords t) = true := by decide +kernel
/-- and its block is not written back there. -/
theorem noFlush4_5 : ∀ t : Fin cfg4.N, ¬cond4_1 (grid4.coords t) → (cfg4.win 5).flush t = false := by decide +kernel
/-- At the last point output 5 is live. -/
theorem liveAt4_5 : ∀ t : Fin cfg4.N, cond4_1 (grid4.coords t) → cfg4.idle 5 (grid4.coords t) = false := by decide +kernel
/-- Away from the last point nothing is stored into output 6: the window is idle there, -/
theorem idleAt4_6 : ∀ t : Fin cfg4.N, ¬cond4_1 (grid4.coords t) → cfg4.idle 6 (grid4.coords t) = true := by decide +kernel
/-- and its block is not written back there. -/
theorem noFlush4_6 : ∀ t : Fin cfg4.N, ¬cond4_1 (grid4.coords t) → (cfg4.win 6).flush t = false := by decide +kernel
/-- At the last point output 6 is live. -/
theorem liveAt4_6 : ∀ t : Fin cfg4.N, cond4_1 (grid4.coords t) → cfg4.idle 6 (grid4.coords t) = false := by decide +kernel

/-! ## The memrefs the body is called with -/

/-- One staging buffer of each output window, through which its contents are stated (the choice does not matter). -/
abbrev VO4_4 : View sig .tc .vmem S5000x64 .f32 := (Memref.whole cc4_stg4_0 : Memref sig .tc .vmem S5000x64 .f32).view
abbrev VO4_5 : View sig .tc .vmem S1x64 .f32 := (Memref.whole cc4_stg5_0 : Memref sig .tc .vmem S1x64 .f32).view
abbrev VO4_6 : View sig .tc .vmem S1x64 .f32 := (Memref.whole cc4_stg6_0 : Memref sig .tc .vmem S1x64 .f32).view
/-- Each window's current staging memref at point `t`, as the pipeline passes it, and its wholeness. -/
abbrev ms4_0 (t : Fin cfg4.N) : Memref sig .tc .vmem S5000x64 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S5000x64 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S5000x1 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S64 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S5000x64 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x64 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S1x64 .f32 := win4_6.stage (cfg4.slots t 6)
abbrev hs4_6 (t : Fin cfg4.N) : (ms4_6 t).IsWhole := hstage4_6 ((cfg4.slots t 6).cast nbuf4_6)
/-- The two accumulators: whole scoped buffers of the kernel's own, passed beside the windows, -/
abbrev scM4_0 : Memref sig .tc .vmem S1x64 .f32 := Memref.whole cc4_scratch0
abbrev scM4_1 : Memref sig .tc .vmem S1x64 .f32 := Memref.whole cc4_scratch1
/-- and as views, through which what they hold is stated. -/
abbrev VS4_0 : View sig .tc .vmem S1x64 .f32 := scM4_0.view
abbrev VS4_1 : View sig .tc .vmem S1x64 .f32 := scM4_1.view

/-- The class's invariant with the two accumulators as memrefs owned at some contents, every other scoped buffer
    unopened, and the generator register at some state. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

/-! # Region 4: the body's run in each of its three control cases -/

-- (the run's proof term is large: the definition's epilogue walks it past the default budget)
set_option maxHeartbeats 4000000 in
/-- What the body's stores leave in each output's staging memref and in the two accumulators, as pieces (last first),
    AT the first grid point (the accumulators are zeroed, then accumulated into; the statistics outputs untouched), WITH the proof that on whole memrefs — the inputs' at their contents, a
    statistics output the case leaves alone at contents handed back untouched, the other outputs' at anything, the
    accumulators at what the point before left (at anything at the first point) — the body runs to the continuation
    holding the inputs' as they were and each stored buffer with its pieces written. The pieces are the witness the
    run finds. -/
noncomputable def kernelRun4_A (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond4_0 i) (hc1 : ¬cond4_1 i)
    (x0 : Vec F S5000x64 .f32) (x1 : Vec F S5000x64 .f32) (x2 : Vec F S5000x1 .f32) (x3 : Vec F S64 .f32) :
    Σ' (L4 : List (View.Piece (Elt F) S5000x64 .f32)) (L5 : List (View.Piece (Elt F) S1x64 .f32)) (L6 : List (View.Piece (Elt F) S1x64 .f32)) (LS0 : List (View.Piece (Elt F) S1x64 .f32)), { LS1 : List (View.Piece (Elt F) S1x64 .f32) //
      ∀ (xi5 : Vec F S1x64 .f32) (xi6 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc4__gcn_combine_stats_kernel i arg1 harg1 arg2 harg2 arg3 harg3 arg4 harg4 arg5 harg5 arg6 harg6 arg7 harg7 arg8 harg8 arg9 harg9) K } := by
  refine ⟨?_, [], [], ?_, ?_, fun xi5 xi6 E K => ?run⟩
  case run =>
    simp only [cc4__gcn_combine_stats_kernel_eq_skeleton]; unfold cc4__gcn_combine_stats_kernel_skel
    simp only [k4_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

-- (the run's proof term is large: the definition's epilogue walks it past the default budget)
set_option maxHeartbeats 4000000 in
/-- What the body's stores leave in each output's staging memref and in the two accumulators, as pieces (last first),
    AT a middle grid point (the accumulators, at what the point before left, are accumulated into; the statistics outputs untouched), WITH the proof that on whole memrefs — the inputs' at their contents, a
    statistics output the case leaves alone at contents handed back untouched, the other outputs' at anything, the
    accumulators at what the point before left (at anything at the first point) — the body runs to the continuation
    holding the inputs' as they were and each stored buffer with its pieces written. The pieces are the witness the
    run finds. -/
noncomputable def kernelRun4_B (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : ¬cond4_1 i)
    (x0 : Vec F S5000x64 .f32) (x1 : Vec F S5000x64 .f32) (x2 : Vec F S5000x1 .f32) (x3 : Vec F S64 .f32) (xs0 : Vec F S1x64 .f32) (xs1 : Vec F S1x64 .f32) :
    Σ' (L4 : List (View.Piece (Elt F) S5000x64 .f32)) (L5 : List (View.Piece (Elt F) S1x64 .f32)) (L6 : List (View.Piece (Elt F) S1x64 .f32)) (LS0 : List (View.Piece (Elt F) S1x64 .f32)), { LS1 : List (View.Piece (Elt F) S1x64 .f32) //
      ∀ (xi5 : Vec F S1x64 .f32) (xi6 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc4__gcn_combine_stats_kernel i arg1 harg1 arg2 harg2 arg3 harg3 arg4 harg4 arg5 harg5 arg6 harg6 arg7 harg7 arg8 harg8 arg9 harg9) K } := by
  refine ⟨?_, [], [], ?_, ?_, fun xi5 xi6 E K => ?run⟩
  case run =>
    simp only [cc4__gcn_combine_stats_kernel_eq_skeleton]; unfold cc4__gcn_combine_stats_kernel_skel
    simp only [k4_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hf6; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

-- (the run's proof term is large: the definition's epilogue walks it past the default budget)
set_option maxHeartbeats 4000000 in
/-- What the body's stores leave in each output's staging memref and in the two accumulators, as pieces (last first),
    AT the last grid point (the accumulators are accumulated into and then copied to the two statistics outputs), WITH the proof that on whole memrefs — the inputs' at their contents, a
    statistics output the case leaves alone at contents handed back untouched, the other outputs' at anything, the
    accumulators at what the point before left (at anything at the first point) — the body runs to the continuation
    holding the inputs' as they were and each stored buffer with its pieces written. The pieces are the witness the
    run finds. -/
noncomputable def kernelRun4_C (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : cond4_1 i)
    (x0 : Vec F S5000x64 .f32) (x1 : Vec F S5000x64 .f32) (x2 : Vec F S5000x1 .f32) (x3 : Vec F S64 .f32) (xs0 : Vec F S1x64 .f32) (xs1 : Vec F S1x64 .f32) :
    Σ' (L4 : List (View.Piece (Elt F) S5000x64 .f32)) (L5 : List (View.Piece (Elt F) S1x64 .f32)) (L6 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc4__gcn_combine_stats_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc4__gcn_combine_stats_kernel_eq_skeleton]; unfold cc4__gcn_combine_stats_kernel_skel
    simp only [k4_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

/-! # Region 4: what the outputs and the accumulators hold point by point, the proof data, the body obligation -/

/-! ## What the body leaves at the first point -/

/-- At the first point the stores into output 4 tile its block, so they cover it. -/
theorem cover4_A_4 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond4_0 i) (hc1 : ¬cond4_1 i)
    (x0 : Vec F S5000x64 .f32) (x1 : Vec F S5000x64 .f32) (x2 : Vec F S5000x1 .f32) (x3 : Vec F S64 .f32) (y : S5000x64.Idx) :
    ∃ pc ∈ (kernelRun4_A c i arg1 harg1 arg2 harg2 arg3 harg3 arg4 harg4 arg5 harg5 arg6 harg6 arg7 harg7 arg8 harg8 arg9 harg9 hc0 hc1 x0 x1 x2 x3).1, y ∈ pc.1.set :=
  View.cover_of_tiledL (kernelRun4_A c i arg1 harg1 arg2 harg2 arg3 harg3 arg4 harg4 arg5 harg5 arg6 harg6 arg7 harg7 arg8 harg8 arg9 harg9 hc0 hc1 x0 x1 x2 x3).1 S5000x64.size (by sl_kernel_rfl) y

/-- What the first point leaves in output 4's staging buffer: its pieces read back over junk. -/
def out4_A_4 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond4_0 i) (hc1 : ¬cond4_1 i)
    (x0 : Vec F S5000x64 .f32) (x1 : Vec F S5000x64 .f32) (x2 : Vec F S5000x1 .f32) (x3 : Vec F S64 .f32) : Vec F S5000x64 .f32 :=
  VO4_4.read (Elt F) (VO4_4.writes (Elt F) VO4_4.junk (kernelRun4_A c i arg1 harg1 arg2 harg2 arg3 harg3 arg4 harg4 arg5 harg5 arg6 harg6 arg7 harg7 arg8 harg8 arg9 harg9 hc0 hc1 x0 x1 x2 x3).1)

/-- At the first point nothing is stored into output 5 (idle there, not written back): no pieces — a placeholder
    nothing consults. -/
def out4_A_5 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond4_0 i) (hc1 : ¬cond4_1 i)
    (x0 : Vec F S5000x64 .f32) (x1 : Vec F S5000x64 .f32) (x2 : Vec F S5000x1 .f32) (x3 : Vec F S64 .f32) : Vec F S1x64 .f32 :=
  VO4_5.read (Elt F) (VO4_5.writes (Elt F) VO4_5.junk (kernelRun4_A c i arg1 harg1 arg2 harg2 arg3 harg3 arg4 harg4 arg5 harg5 arg6 harg6 arg7 harg7 arg8 harg8 arg9 harg9 hc0 hc1 x0 x1 x2 x3).2.1)

/-- At the first point nothing is stored into output 6 (idle there, not written back): no pieces — a placeholder
    nothing consults. -/
def out4_A_6 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond4_0 i) (hc1 : ¬cond4_1 i)
    (x0 : Vec F S5000x64 .f32) (x1 : Vec F S5000x64 .f32) (x2 : Vec F S5000x1 .f32) (x3 : Vec F S64 .f32) : Vec F S1x64 .f32 :=
  VO4_6.read (Elt F) (VO4_6.writes (Elt F) VO4_6.junk (kernelRun4_A c i arg1 harg1 arg2 harg2 arg3 harg3 arg4 harg4 arg5 harg5 arg6 harg6 arg7 harg7 arg8 harg8 arg9 harg9 hc0 hc1 x0 x1 x2 x3).2.2.1)

/-- At the first point the stores into accumulator 0 cover it. -/
theorem scover4_A_0 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond4_0 i) (hc1 : ¬cond4_1 i)
    (x0 : Vec F S5000x64 .f32) (x1 : Vec F S5000x64 .f32) (x2 : Vec F S5000x1 .f32) (x3 : Vec F S64 .f32) (y : S1x64.Idx) :
    ∃ pc ∈ (kernelRun4_A c i arg1 harg1 arg2 harg2 arg3 harg3 arg4 harg4 arg5 harg5 arg6 harg6 arg7 harg7 arg8 harg8 arg9 harg9 hc0 hc1 x0 x1 x2 x3).2.2.2.1, y ∈ pc.1.set :=
  View.cover_of_tiledL (kernelRun4_A c i arg1 harg1 arg2 harg2 arg3 harg3 arg4 harg4 arg5 harg5 arg6 harg6 arg7 harg7 arg8 harg8 arg9 harg9 hc0 hc1 x0 x1 x2 x3).2.2.2.1 S1x64.size (by sl_kernel_rfl) y

/-- What the first point leaves in accumulator 0: its pieces read back over junk. -/
def sout4_A_0 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond4_0 i) (hc1 : ¬cond4_1 i)
    (x0 : Vec F S5000x64 .f32) (x1 : Vec F S5000x64 .f32) (x2 : Vec F S5000x1 .f32) (x3 : Vec F S64 .f32) : Vec F S1x64 .f32 :=
  VS4_0.read (Elt F) (VS4_0.writes (Elt F) VS4_0.junk (kernelRun4_A c i arg1 harg1 arg2 harg2 arg3 harg3 arg4 harg4 arg5 harg5 arg6 harg6 arg7 harg7 arg8 harg8 arg9 harg9 hc0 hc1 x0 x1 x2 x3).2.2.2.1)

/-- At the first point the stores into accumulator 1 cover it. -/
theorem scover4_A_1 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond4_0 i) (hc1 : ¬cond4_1 i)
    (x0 : Vec F S5000x64 .f32) (x1 : Vec F S5000x64 .f32) (x2 : Vec F S5000x1 .f32) (x3 : Vec F S64 .f32) (y : S1x64.Idx) :
    ∃ pc ∈ (kernelRun4_A c i arg1 harg1 arg2 harg2 arg3 harg3 arg4 harg4 arg5 harg5 arg6 harg6 arg7 harg7 arg8 harg8 arg9 harg9 hc0 hc1 x0 x1 x2 x3).2.2.2.2.1, y ∈ pc.1.set :=
  View.cover_of_tiledL (kernelRun4_A c i arg1 harg1 arg2 harg2 arg3 harg3 arg4 harg4 arg5 harg5 arg6 harg6 arg7 harg7 arg8 harg8 arg9 harg9 hc0 hc1 x0 x1 x2 x3).2.2.2.2.1 S1x64.size (by sl_kernel_rfl) y

/-- What the first point leaves in accumulator 1: its pieces read back over junk. -/
def sout4_A_1 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond4_0 i) (hc1 : ¬cond4_1 i)
    (x0 : Vec F S5000x64 .f32) (x1 : Vec F S5000x64 .f32) (x2 : Vec F S5000x1 .f32) (x3 : Vec F S64 .f32) : Vec F S1x64 .f32 :=
  VS4_1.read (Elt F) (VS4_1.writes (Elt F) VS4_1.junk (kernelRun4_A c i arg1 harg1 arg2 harg2 arg3 harg3 arg4 harg4 arg5 harg5 arg6 harg6 arg7 harg7 arg8 harg8 arg9 harg9 hc0 hc1 x0 x1 x2 x3).2.2.2.2.1)

/-! ## What the body leaves at a middle point -/

/-- At a middle point the stores into output 4 tile its block, so they cover it. -/
theorem cover4_B_4 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : ¬cond4_1 i)
    (x0 : Vec F S5000x64 .f32) (x1 : Vec F S5000x64 .f32) (x2 : Vec F S5000x1 .f32) (x3 : Vec F S64 .f32) (xs0 : Vec F S1x64 .f32) (xs1 : Vec F S1x64 .f32) (y : S5000x64.Idx) :
    ∃ pc ∈ (kernelRun4_B c i arg1 harg1 arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun4_B c i arg1 harg1 arg2 harg2 arg3 harg3 arg4 harg4 arg5 harg5 arg6 harg6 arg7 harg7 arg8 harg8 arg9 harg9 hc0 hc1 x0 x1 x2 x3 xs0 xs1).1 S5000x64.size (by sl_kernel_rfl) y

/-- What a middle point leaves in output 4's staging buffer: its pieces read back over junk. -/
def out4_B_4 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : ¬cond4_1 i)
    (x0 : Vec F S5000x64 .f32) (x1 : Vec F S5000x64 .f32) (x2 : Vec F S5000x1 .f32) (x3 : Vec F S64 .f32) (xs0 : Vec F S1x64 .f32) (xs1 : Vec F S1x64 .f32) : Vec F S5000x64 .f32 :=
  VO4_4.read (Elt F) (VO4_4.writes (Elt F) VO4_4.junk (kernelRun4_B c i arg1 harg1 arg2 harg2 arg3 harg3 arg4 harg4 arg5 harg5 arg6 harg6 arg7 harg7 arg8 harg8 arg9 harg9 hc0 hc1 x0 x1 x2 x3 xs0 xs1).1)

/-- At a middle point nothing is stored into output 5 (idle there, not written back): no pieces — a placeholder
    nothing consults. -/
def out4_B_5 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : ¬cond4_1 i)
    (x0 : Vec F S5000x64 .f32) (x1 : Vec F S5000x64 .f32) (x2 : Vec F S5000x1 .f32) (x3 : Vec F S64 .f32) (xs0 : Vec F S1x64 .f32) (xs1 : Vec F S1x64 .f32) : Vec F S1x64 .f32 :=
  VO4_5.read (Elt F) (VO4_5.writes (Elt F) VO4_5.junk (kernelRun4_B c i arg1 harg1 arg2 harg2 arg3 harg3 arg4 harg4 arg5 harg5 arg6 harg6 arg7 harg7 arg8 harg8 arg9 harg9 hc0 hc1 x0 x1 x2 x3 xs0 xs1).2.1)

/-- At a middle point nothing is stored into output 6 (idle there, not written back): no pieces — a placeholder
    nothing consults. -/
def out4_B_6 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : ¬cond4_1 i)
    (x0 : Vec F S5000x64 .f32) (x1 : Vec F S5000x64 .f32) (x2 : Vec F S5000x1 .f32) (x3 : Vec F S64 .f32) (xs0 : Vec F S1x64 .f32) (xs1 : Vec F S1x64 .f32) : Vec F S1x64 .f32 :=
  VO4_6.read (Elt F) (VO4_6.writes (Elt F) VO4_6.junk (kernelRun4_B c i arg1 harg1 arg2 harg2 arg3 harg3 arg4 harg4 arg5 harg5 arg6 harg6 arg7 harg7 arg8 harg8 arg9 harg9 hc0 hc1 x0 x1 x2 x3 xs0 xs1).2.2.1)

/-- At a middle point the stores into accumulator 0 cover it. -/
theorem scover4_B_0 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : ¬cond4_1 i)
    (x0 : Vec F S5000x64 .f32) (x1 : Vec F S5000x64 .f32) (x2 : Vec F S5000x1 .f32) (x3 : Vec F S64 .f32) (xs0 : Vec F S1x64 .f32) (xs1 : Vec F S1x64 .f32) (y : S1x64.Idx) :
    ∃ pc ∈ (kernelRun4_B c i arg1 harg1 arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun4_B c i arg1 harg1 arg2 harg2 arg3 harg3 arg4 harg4 arg5 harg5 arg6 harg6 arg7 harg7 arg8 harg8 arg9 harg9 hc0 hc1 x0 x1 x2 x3 xs0 xs1).2.2.2.1 S1x64.size (by sl_kernel_rfl) y

/-- What a middle point leaves in accumulator 0: its pieces read back over junk. -/
def sout4_B_0 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : ¬cond4_1 i)
    (x0 : Vec F S5000x64 .f32) (x1 : Vec F S5000x64 .f32) (x2 : Vec F S5000x1 .f32) (x3 : Vec F S64 .f32) (xs0 : Vec F S1x64 .f32) (xs1 : Vec F S1x64 .f32) : Vec F S1x64 .f32 :=
  VS4_0.read (Elt F) (VS4_0.writes (Elt F) VS4_0.junk (kernelRun4_B c i arg1 harg1 arg2 harg2 arg3 harg3 arg4 harg4 arg5 harg5 arg6 harg6 arg7 harg7 arg8 harg8 arg9 harg9 hc0 hc1 x0 x1 x2 x3 xs0 xs1).2.2.2.1)

/-- At a middle point the stores into accumulator 1 cover it. -/
theorem scover4_B_1 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : ¬cond4_1 i)
    (x0 : Vec F S5000x64 .f32) (x1 : Vec F S5000x64 .f32) (x2 : Vec F S5000x1 .f32) (x3 : Vec F S64 .f32) (xs0 : Vec F S1x64 .f32) (xs1 : Vec F S1x64 .f32) (y : S1x64.Idx) :
    ∃ pc ∈ (kernelRun4_B c i arg1 harg1 arg2 harg2 arg3 harg3 arg4 harg4 arg5 harg5 arg6 harg6 arg7 harg7 arg8 harg8 arg9 harg9 hc0 hc1 x0 x1 x2 x3 xs0 xs1).2.2.2.2.1, y ∈ pc.1.set :=
  View.cover_of_tiledL (kernelRun4_B c i arg1 harg1 arg2 harg2 arg3 harg3 arg4 harg4 arg5 harg5 arg6 harg6 arg7 harg7 arg8 harg8 arg9 harg9 hc0 hc1 x0 x1 x2 x3 xs0 xs1).2.2.2.2.1 S1x64.size (by sl_kernel_rfl) y

/-- What a middle point leaves in accumulator 1: its pieces read back over junk. -/
def sout4_B_1 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : ¬cond4_1 i)
    (x0 : Vec F S5000x64 .f32) (x1 : Vec F S5000x64 .f32) (x2 : Vec F S5000x1 .f32) (x3 : Vec F S64 .f32) (xs0 : Vec F S1x64 .f32) (xs1 : Vec F S1x64 .f32) : Vec F S1x64 .f32 :=
  VS4_1.read (Elt F) (VS4_1.writes (Elt F) VS4_1.junk (kernelRun4_B c i arg1 harg1 arg2 harg2 arg3 harg3 arg4 harg4 arg5 harg5 arg6 harg6 arg7 harg7 arg8 harg8 arg9 harg9 hc0 hc1 x0 x1 x2 x3 xs0 xs1).2.2.2.2.1)

/-! ## What the body leaves at the last point -/

/-- At the last point the stores into output 4 tile its block, so they cover it. -/
theorem cover4_C_4 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : cond4_1 i)
    (x0 : Vec F S5000x64 .f32) (x1 : Vec F S5000x64 .f32) (x2 : Vec F S5000x1 .f32) (x3 : Vec F S64 .f32) (xs0 : Vec F S1x64 .f32) (xs1 : Vec F S1x64 .f32) (y : S5000x64.Idx) :
    ∃ pc ∈ (kernelRun4_C c i arg1 harg1 arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun4_C c i arg1 harg1 arg2 harg2 arg3 harg3 arg4 harg4 arg5 harg5 arg6 harg6 arg7 harg7 arg8 harg8 arg9 harg9 hc0 hc1 x0 x1 x2 x3 xs0 xs1).1 S5000x64.size (by sl_kernel_rfl) y

/-- What the last point leaves in output 4's staging buffer: its pieces read back over junk. -/
def out4_C_4 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : cond4_1 i)
    (x0 : Vec F S5000x64 .f32) (x1 : Vec F S5000x64 .f32) (x2 : Vec F S5000x1 .f32) (x3 : Vec F S64 .f32) (xs0 : Vec F S1x64 .f32) (xs1 : Vec F S1x64 .f32) : Vec F S5000x64 .f32 :=
  VO4_4.read (Elt F) (VO4_4.writes (Elt F) VO4_4.junk (kernelRun4_C c i arg1 harg1 arg2 harg2 arg3 harg3 arg4 harg4 arg5 harg5 arg6 harg6 arg7 harg7 arg8 harg8 arg9 harg9 hc0 hc1 x0 x1 x2 x3 xs0 xs1).1)

/-- At the last point the stores into output 5 tile its block, so they cover it. -/
theorem cover4_C_5 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : cond4_1 i)
    (x0 : Vec F S5000x64 .f32) (x1 : Vec F S5000x64 .f32) (x2 : Vec F S5000x1 .f32) (x3 : Vec F S64 .f32) (xs0 : Vec F S1x64 .f32) (xs1 : Vec F S1x64 .f32) (y : S1x64.Idx) :
    ∃ pc ∈ (kernelRun4_C c i arg1 harg1 arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun4_C c i arg1 harg1 arg2 harg2 arg3 harg3 arg4 harg4 arg5 harg5 arg6 harg6 arg7 harg7 arg8 harg8 arg9 harg9 hc0 hc1 x0 x1 x2 x3 xs0 xs1).2.1 S1x64.size (by sl_kernel_rfl) y

/-- What the last point leaves in output 5's staging buffer: its pieces read back over junk. -/
def out4_C_5 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : cond4_1 i)
    (x0 : Vec F S5000x64 .f32) (x1 : Vec F S5000x64 .f32) (x2 : Vec F S5000x1 .f32) (x3 : Vec F S64 .f32) (xs0 : Vec F S1x64 .f32) (xs1 : Vec F S1x64 .f32) : Vec F S1x64 .f32 :=
  VO4_5.read (Elt F) (VO4_5.writes (Elt F) VO4_5.junk (kernelRun4_C c i arg1 harg1 arg2 harg2 arg3 harg3 arg4 harg4 arg5 harg5 arg6 harg6 arg7 harg7 arg8 harg8 arg9 harg9 hc0 hc1 x0 x1 x2 x3 xs0 xs1).2.1)

/-- At the last point the stores into output 6 tile its block, so they cover it. -/
theorem cover4_C_6 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : cond4_1 i)
    (x0 : Vec F S5000x64 .f32) (x1 : Vec F S5000x64 .f32) (x2 : Vec F S5000x1 .f32) (x3 : Vec F S64 .f32) (xs0 : Vec F S1x64 .f32) (xs1 : Vec F S1x64 .f32) (y : S1x64.Idx) :
    ∃ pc ∈ (kernelRun4_C c i arg1 harg1 arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun4_C c i arg1 harg1 arg2 harg2 arg3 harg3 arg4 harg4 arg5 harg5 arg6 harg6 arg7 harg7 arg8 harg8 arg9 harg9 hc0 hc1 x0 x1 x2 x3 xs0 xs1).2.2.1 S1x64.size (by sl_kernel_rfl) y

/-- What the last point leaves in output 6's staging buffer: its pieces read back over junk. -/
def out4_C_6 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : cond4_1 i)
    (x0 : Vec F S5000x64 .f32) (x1 : Vec F S5000x64 .f32) (x2 : Vec F S5000x1 .f32) (x3 : Vec F S64 .f32) (xs0 : Vec F S1x64 .f32) (xs1 : Vec F S1x64 .f32) : Vec F S1x64 .f32 :=
  VO4_6.read (Elt F) (VO4_6.writes (Elt F) VO4_6.junk (kernelRun4_C c i arg1 harg1 arg2 harg2 arg3 harg3 arg4 harg4 arg5 harg5 arg6 harg6 arg7 harg7 arg8 harg8 arg9 harg9 hc0 hc1 x0 x1 x2 x3 xs0 xs1).2.2.1)

/-- At the last point the stores into accumulator 0 cover it. -/
theorem scover4_C_0 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : cond4_1 i)
    (x0 : Vec F S5000x64 .f32) (x1 : Vec F S5000x64 .f32) (x2 : Vec F S5000x1 .f32) (x3 : Vec F S64 .f32) (xs0 : Vec F S1x64 .f32) (xs1 : Vec F S1x64 .f32) (y : S1x64.Idx) :
    ∃ pc ∈ (kernelRun4_C c i arg1 harg1 arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun4_C c i arg1 harg1 arg2 harg2 arg3 harg3 arg4 harg4 arg5 harg5 arg6 harg6 arg7 harg7 arg8 harg8 arg9 harg9 hc0 hc1 x0 x1 x2 x3 xs0 xs1).2.2.2.1 S1x64.size (by sl_kernel_rfl) y

/-- What the last point leaves in accumulator 0: its pieces read back over junk. -/
def sout4_C_0 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : cond4_1 i)
    (x0 : Vec F S5000x64 .f32) (x1 : Vec F S5000x64 .f32) (x2 : Vec F S5000x1 .f32) (x3 : Vec F S64 .f32) (xs0 : Vec F S1x64 .f32) (xs1 : Vec F S1x64 .f32) : Vec F S1x64 .f32 :=
  VS4_0.read (Elt F) (VS4_0.writes (Elt F) VS4_0.junk (kernelRun4_C c i arg1 harg1 arg2 harg2 arg3 harg3 arg4 harg4 arg5 harg5 arg6 harg6 arg7 harg7 arg8 harg8 arg9 harg9 hc0 hc1 x0 x1 x2 x3 xs0 xs1).2.2.2.1)

/-- At the last point the stores into accumulator 1 cover it. -/
theorem scover4_C_1 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : cond4_1 i)
    (x0 : Vec F S5000x64 .f32) (x1 : Vec F S5000x64 .f32) (x2 : Vec F S5000x1 .f32) (x3 : Vec F S64 .f32) (xs0 : Vec F S1x64 .f32) (xs1 : Vec F S1x64 .f32) (y : S1x64.Idx) :
    ∃ pc ∈ (kernelRun4_C c i arg1 harg1 arg2 harg2 arg3 harg3 arg4 harg4 arg5 harg5 arg6 harg6 arg7 harg7 arg8 harg8 arg9 harg9 hc0 hc1 x0 x1 x2 x3 xs0 xs1).2.2.2.2.1, y ∈ pc.1.set :=
  View.cover_of_tiledL (kernelRun4_C c i arg1 harg1 arg2 harg2 arg3 harg3 arg4 harg4 arg5 harg5 arg6 harg6 arg7 harg7 arg8 harg8 arg9 harg9 hc0 hc1 x0 x1 x2 x3 xs0 xs1).2.2.2.2.1 S1x64.size (by sl_kernel_rfl) y

/-- What the last point leaves in accumulator 1: its pieces read back over junk. -/
def sout4_C_1 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : cond4_1 i)
    (x0 : Vec F S5000x64 .f32) (x1 : Vec F S5000x64 .f32) (x2 : Vec F S5000x1 .f32) (x3 : Vec F S64 .f32) (xs0 : Vec F S1x64 .f32) (xs1 : Vec F S1x64 .f32) : Vec F S1x64 .f32 :=
  VS4_1.read (Elt F) (VS4_1.writes (Elt F) VS4_1.junk (kernelRun4_C c i arg1 harg1 arg2 harg2 arg3 harg3 arg4 harg4 arg5 harg5 arg6 harg6 arg7 harg7 arg8 harg8 arg9 harg9 hc0 hc1 x0 x1 x2 x3 xs0 xs1).2.2.2.2.1)

/-! ## What the outputs and the accumulators hold after each point -/

/-- No point after the first is ≡ 0 (mod 20): the grid has 20 points. -/
theorem succ_mod4 (n : ℕ) (hn : n + 1 < cfg4.N) : ¬(n + 1) % 20 = 0 := by
  have hN : n + 1 < 20 := lt_of_lt_of_eq hn (show cfg4.N = 20 from N_4); omega

/-- THE ACCUMULATION. What the three outputs' staging buffers and the two accumulators hold after the body at position
    `n` (a tuple: outputs 4, 5, 6, then accumulators 0, 1): the case the closed forms select at `n`, run at the point's
    memrefs and input blocks, the accumulators at what this leaves at `n - 1`. -/
def outsAt4 (c : Dev nD) : (n : ℕ) → n < cfg4.N → Vec F S5000x64 .f32 × Vec F S1x64 .f32 × Vec F S1x64 .f32 × Vec F S1x64 .f32 × Vec F S1x64 .f32
  | 0, hn => (out4_A_4 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩), out4_A_5 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩), out4_A_6 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩), sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩))
  | n + 1, hn =>
    if h1 : (n + 1) % 20 = 19 then
      (out4_C_4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => succ_mod4 n hn ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2, out4_C_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => succ_mod4 n hn ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2, out4_C_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => succ_mod4 n hn ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => succ_mod4 n hn ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2, sout4_C_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => succ_mod4 n hn ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2)
    else
      (out4_B_4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => succ_mod4 n hn ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2, out4_B_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => succ_mod4 n hn ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2, out4_B_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => succ_mod4 n hn ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => succ_mod4 n hn ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2, sout4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => succ_mod4 n hn ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2)

/-- `outsAt4` at the first point. -/
theorem outsAt4_A (c : Dev nD) (t : Fin cfg4.N) (h0 : t.val % 20 = 0) (h1 : ¬t.val % 20 = 19) :
    outsAt4 V c t.val t.isLt = (out4_A_4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t), out4_A_5 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t), out4_A_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t), sout4_A_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t), sout4_A_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t)) := by
  obtain ⟨n, hn⟩ := t
  cases n with
  | zero => exact rfl
  | succ n => exact absurd h0 (succ_mod4 n hn)

/-- `outsAt4` at a middle point: over what the point before left in the accumulators. -/
theorem outsAt4_B (c : Dev nD) (t : Fin cfg4.N) (h0 : ¬t.val % 20 = 0) (h1 : ¬t.val % 20 = 19) :
    outsAt4 V c t.val t.isLt = (out4_B_4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, out4_B_5 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, out4_B_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_B_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_B_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h1).trans rfl

/-- `outsAt4` at the last point: over what the point before left in the accumulators. -/
theorem outsAt4_C (c : Dev nD) (t : Fin cfg4.N) (h0 : ¬t.val % 20 = 0) (h1 : t.val % 20 = 19) :
    outsAt4 V c t.val t.isLt = (out4_C_4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, out4_C_5 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, out4_C_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_C_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_C_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_pos h1).trans rfl

/-! ## The region invariant -/

/-- The invariant before position `n`: before the first point the class's (every scoped buffer that is no staging
    buffer at anything, the generator register at some state); afterwards the same with the two accumulators at what the
    point before left in them. -/
def PhiS4 (c : Dev nD) : (n : ℕ) → n ≤ cfg4.N → sProp 𝕄
  | 0, _ => Pipeline.ΦA spec4 c
  | n + 1, hn => iprop(iprop(iprop(owns (c : Thread nD τ) scM4_0 fullShare ((outsAt4 V c n hn).2.2.2.1) ∗ owns (c : Thread nD τ) scM4_1 fullShare ((outsAt4 V c n hn).2.2.2.2)) ∗ Pipeline.scopedRestBut (Ix := Unit) (Name := ℕ) (U := UR sig nD τ) (Lvl := ℕ) (Val := Elt F) spec4 c [cc4_scratch0, cc4_scratch1]) ∗ (∃ r, prngReg c r))

theorem PhiS4_zero (c : Dev nD) (n : ℕ) (h : n ≤ cfg4.N) (hz : n = 0) : PhiS4 V c n h = Pipeline.ΦA spec4 c := by
  subst hz; rfl

/-- After point `n`: the accumulators at that point's contents. -/
theorem PhiS4_succ (c : Dev nD) (n : ℕ) (hn : n < cfg4.N) :
    PhiS4 V c (n + 1) hn = iprop(iprop(iprop(owns (c : Thread nD τ) scM4_0 fullShare ((outsAt4 V c n hn).2.2.2.1) ∗ owns (c : Thread nD τ) scM4_1 fullShare ((outsAt4 V c n hn).2.2.2.2)) ∗ Pipeline.scopedRestBut (Ix := Unit) (Name := ℕ) (U := UR sig nD τ) (Lvl := ℕ) (Val := Elt F) spec4 c [cc4_scratch0, cc4_scratch1]) ∗ (∃ r, prngReg c r)) := rfl

/-- Before a point that is not the first: the accumulators at what the point before left. -/
theorem PhiS4_pos (c : Dev nD) (n : ℕ) (h : n ≤ cfg4.N) (hz : n ≠ 0) :
    PhiS4 V c n h = iprop(iprop(iprop(owns (c : Thread nD τ) scM4_0 fullShare ((outsAt4 V c (n - 1) (by omega)).2.2.2.1) ∗ owns (c : Thread nD τ) scM4_1 fullShare ((outsAt4 V c (n - 1) (by omega)).2.2.2.2)) ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

/-! ## The pipeline's proof data -/

/-- The proof data of pipeline 4 on core `c`: the arrays as the region finds them; after the body at point `t` each
    input's buffer at its block and the outputs' at `outsAt4`; the invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => (outsAt4 V c t.val t.isLt).1
    | ⟨5, _⟩ => (outsAt4 V c t.val t.isLt).2.1
    | ⟨6, _⟩ => (outsAt4 V c t.val t.isLt).2.2.1
  Φ t := PhiS4 V c t.val (Nat.le_of_lt_succ t.isLt)
  q _ := fullShare
  owed _ := 0

/-- The proof data's arrays are the region-entry contents. -/
theorem A_eq4 (c : Dev nD) (w : Fin cfg4.W) : (dat4 V c).A w = V c (Pipeline.arrRef spec4 w) := by
  dsimp only [dat4]

/-- The invariant at a point's start, restated at `t.val`. -/
theorem PhiS4_castSucc (c : Dev nD) (t : Fin cfg4.N) :
    (dat4 V c).Φ t.castSucc = PhiS4 V c t.val (Nat.le_of_lt t.isLt) := by
  dsimp only [dat4]; simp only [Fin.coe_castSucc]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = (outsAt4 V c t.val t.isLt).1 := by dsimp only [dat4]
theorem after4_5 (c : Dev nD) (t : Fin cfg4.N) : (dat4 V c).after 5 t = (outsAt4 V c t.val t.isLt).2.1 := by dsimp only [dat4]
theorem after4_6 (c : Dev nD) (t : Fin cfg4.N) : (dat4 V c).after 6 t = (outsAt4 V c t.val t.isLt).2.2.1 := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t)

set_option maxHeartbeats 8000000 in
/-- The body at any point: the inputs' memrefs hold their blocks; the closed forms say which case the point is in; the
    invariant hands the body the accumulators at what the point before left (at anything at the first point) and takes
    them back at this point's contents; away from the last point the statistics outputs are handed back untouched; the
    core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl]
  rw [show (dat4 V c).Φ t.succ = PhiS4 V c (t.val + 1) t.isLt from rfl, PhiS4_succ]
  have hN : t.val < 20 := lt_of_lt_of_eq t.isLt (show cfg4.N = 20 from N_4)
  by_cases h0 : t.val % 20 = 0
  · have h1 : ¬t.val % 20 = 19 := by omega
    rw [show (dat4 V c).leavesExact 0 t = owns (c : Thread nD τ) (ms4_0 t) fullShare ((dat4 V c).after 0 t) from by
      unfold Dat.leavesExact; rw [liveAt4_0 t], after4_0]
    rw [show (dat4 V c).leavesExact 1 t = owns (c : Thread nD τ) (ms4_1 t) fullShare ((dat4 V c).after 1 t) from by
      unfold Dat.leavesExact; rw [liveAt4_1 t], after4_1]
    rw [show (dat4 V c).leavesExact 2 t = owns (c : Thread nD τ) (ms4_2 t) fullShare ((dat4 V c).after 2 t) from by
      unfold Dat.leavesExact; rw [liveAt4_2 t], after4_2]
    rw [show (dat4 V c).leavesExact 3 t = owns (c : Thread nD τ) (ms4_3 t) fullShare ((dat4 V c).after 3 t) from by
      unfold Dat.leavesExact; rw [liveAt4_3 t], after4_3]
    rw [show (dat4 V c).leavesExact 4 t = owns (c : Thread nD τ) (ms4_4 t) fullShare ((dat4 V c).after 4 t) from by
      unfold Dat.leavesExact; rw [liveAt4_4 t], after4_4]
    rw [Dat.leavesExact_idle (dat4 V c) 5 t (idleAt4_5 t (fun h => h1 ((hcond4_1 t).mp h))) (noFlush4_5 t (fun h => h1 ((hcond4_1 t).mp h)))]
    rw [Dat.leavesExact_idle (dat4 V c) 6 t (idleAt4_6 t (fun h => h1 ((hcond4_1 t).mp h))) (noFlush4_6 t (fun h => h1 ((hcond4_1 t).mp h)))]
    rw [outsAt4_A V c t h0 h1]
    unfold out4_A_4 sout4_A_0 sout4_A_1; (try dsimp only)
    have hz : t.val = 0 := by omega
    rw [PhiS4_castSucc V c t, PhiS4_zero V c _ _ hz, PhiA4_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun4_A c (grid4.coords t) _ _ _ _ _ _ _ _ _ _ _ _ _ _ _ _ _ _ ((hcond4_0 t).mpr h0) (fun h => h1 ((hcond4_1 t).mp h)) (iblk4 V c 0 t) (iblk4 V c 1 t) (iblk4 V c 2 t) (iblk4 V c 3 t)).2.2.2.2.2 _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, ⟨%e4, H4⟩, H5, H6, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover4_A_0 c _ _ _ _ _ _ _ _ _ _ _ _ _ _ _ _ _ _ _ _ _ _ _ _ _)
          · unfold owns; iexists _; isplitr
            swap; · iexact HS1
            ipureintro; exact View.read_writes_of_cover _ _ _ _ _ (scover4_A_1 c _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover4_A_4 c _ _ _ _ _ _ _ _ _ _ _ _ _ _ _ _ _ _ _ _ _ _ _ _ _)
    isplitl [H5]; · iexists _; iexact H5
    iexists _; iexact H6
  · by_cases h1 : t.val % 20 = 19
    · rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [show (dat4 V c).leavesExact 3 t = owns (c : Thread nD τ) (ms4_3 t) fullShare ((dat4 V c).after 3 t) from by
        unfold Dat.leavesExact; rw [liveAt4_3 t], after4_3]
      rw [show (dat4 V c).leavesExact 4 t = owns (c : Thread nD τ) (ms4_4 t) fullShare ((dat4 V c).after 4 t) from by
        unfold Dat.leavesExact; rw [liveAt4_4 t], after4_4]
      rw [show (dat4 V c).leavesExact 5 t = owns (c : Thread nD τ) (ms4_5 t) fullShare ((dat4 V c).after 5 t) from by
        unfold Dat.leavesExact; rw [liveAt4_5 t ((hcond4_1 t).mpr h1)], after4_5]
      rw [show (dat4 V c).leavesExact 6 t = owns (c : Thread nD τ) (ms4_6 t) fullShare ((dat4 V c).after 6 t) from by
        unfold Dat.leavesExact; rw [liveAt4_6 t ((hcond4_1 t).mpr h1)], after4_6]
      rw [outsAt4_C V c t h0 h1]
      unfold out4_C_4 out4_C_5 out4_C_6 sout4_C_0 sout4_C_1; (try dsimp only)
      have hz : t.val ≠ 0 := by omega
      rw [PhiS4_castSucc V c t, PhiS4_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun4_C c (grid4.coords t) _ _ _ _ _ _ _ _ _ _ _ _ _ _ _ _ _ _ (fun h => h0 ((hcond4_0 t).mp h)) ((hcond4_1 t).mpr h1) (iblk4 V c 0 t) (iblk4 V c 1 t) (iblk4 V c 2 t) (iblk4 V c 3 t) _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, ⟨%e4, H4⟩, ⟨%e5, H5⟩, ⟨%e6, H6⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover4_C_0 c _ _ _ _ _ _ _ _ _ _ _ _ _ _ _ _ _ _ _ _ _ _ _ _ _ _ _)
            · unfold owns; iexists _; isplitr
              swap; · iexact HS1
              ipureintro; exact View.read_writes_of_cover _ _ _ _ _ (scover4_C_1 c _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover4_C_4 c _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover4_C_5 c _ _ _ _ _ _ _ _ _ _ _ _ _ _ _ _ _ _ _ _ _ _ _ _ _ _ _)
      unfold owns; iexists _; isplitr
      swap; · iexact H6
      ipureintro; exact View.read_writes_of_cover _ _ _ _ _ (cover4_C_6 c _ _ _ _ _ _ _ _ _ _ _ _ _ _ _ _ _ _ _ _ _ _ _ _ _ _ _)
    · rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [show (dat4 V c).leavesExact 3 t = owns (c : Thread nD τ) (ms4_3 t) fullShare ((dat4 V c).after 3 t) from by
        unfold Dat.leavesExact; rw [liveAt4_3 t], after4_3]
      rw [show (dat4 V c).leavesExact 4 t = owns (c : Thread nD τ) (ms4_4 t) fullShare ((dat4 V c).after 4 t) from by
        unfold Dat.leavesExact; rw [liveAt4_4 t], after4_4]
      rw [Dat.leavesExact_idle (dat4 V c) 5 t (idleAt4_5 t (fun h => h1 ((hcond4_1 t).mp h))) (noFlush4_5 t (fun h => h1 ((hcond4_1 t).mp h)))]
      rw [Dat.leavesExact_idle (dat4 V c) 6 t (idleAt4_6 t (fun h => h1 ((hcond4_1 t).mp h))) (noFlush4_6 t (fun h => h1 ((hcond4_1 t).mp h)))]
      rw [outsAt4_B V c t h0 h1]
      unfold out4_B_4 sout4_B_0 sout4_B_1; (try dsimp only)
      have hz : t.val ≠ 0 := by omega
      rw [PhiS4_castSucc V c t, PhiS4_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun4_B c (grid4.coords t) _ _ _ _ _ _ _ _ _ _ _ _ _ _ _ _ _ _ (fun h => h0 ((hcond4_0 t).mp h)) (fun h => h1 ((hcond4_1 t).mp h)) (iblk4 V c 0 t) (iblk4 V c 1 t) (iblk4 V c 2 t) (iblk4 V c 3 t) _ _).2.2.2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%e4, H4⟩, H5, H6, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover4_B_0 c _ _ _ _ _ _ _ _ _ _ _ _ _ _ _ _ _ _ _ _ _ _ _ _ _ _ _)
            · unfold owns; iexists _; isplitr
              swap; · iexact HS1
              ipureintro; exact View.read_writes_of_cover _ _ _ _ _ (scover4_B_1 c _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover4_B_4 c _ _ _ _ _ _ _ _ _ _ _ _ _ _ _ _ _ _ _ _ _ _ _ _ _ _ _)
      isplitl [H5]; · iexists _; iexact H5
      iexists _; iexact H6

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## Entering and leaving the region -/

/-- What the launch hands the region is the invariant before the first point. -/
theorem Φ4_in (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives the class's back: what the accumulators hold is forgotten. -/
theorem Phi4_out (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1⟩, HR⟩, Hg⟩
  isplitl [HS0 HS1 HR]
  · isplitl [HS0 HS1]
    · isplitl [HS0]
      · iexists _; iexact HS0
      · iexists _; iexact HS1
    iexact HR
  iexact Hg

/-- The same after the last point. -/
theorem Φ4_out (c : Dev nD) : (dat4 V c).Φ (Fin.last cfg4.N) ⊢ Pipeline.ΦA spec4 c :=
  Phi4_out V c _ (by rw [Fin.val_last]; have : cfg4.N = 20 := N_4; omega)

end Cert.KernelIdeal.Fr

end
-- ==== Proof.KI.R5.lean ====
import proofs.«173191_j73083163508880_2_alg».proof.Proof.Gen.KernelIdeal.Launch
import proofs.«173191_j73083163508880_2_alg».proof.Proof.Gen.KernelIdeal.Skeleton
import proofs.«173191_j73083163508880_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the elaborator's structural look recurses once per coordinate
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # The batch-norm application `cc5__bn_apply_kernel` (pipeline 5), at the entry contents `V`

Each of the 10 grid points reads a [5000,128] block of the activations and the four per-column parameter rows (mean,
inverse standard deviation, scale, shift), and stores `(x - mean) * invstd * g + b`, the rows broadcast down the
block, over the whole [5000,128] output block. -/

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0 (the row block of the activations) holds its block at every point, for any proof data whose array is `V`'s and whose
    body leaves the block in place: the window is uncut and never idle, and where it is not fetched its block index
    has not moved. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1 (the per-column mean, one constant block fetched at the first point only) holds its block at every point, for any proof data whose array is `V`'s and whose
    body leaves the block in place: the window is uncut and never idle, and where it is not fetched its block index
    has not moved. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2 (the per-column inverse standard deviation, one constant block fetched at the first point only) holds its block at every point, for any proof data whose array is `V`'s and whose
    body leaves the block in place: the window is uncut and never idle, and where it is not fetched its block index
    has not moved. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3 (the scale vector, one constant block fetched at the first point only) holds its block at every point, for any proof data whose array is `V`'s and whose
    body leaves the block in place: the window is uncut and never idle, and where it is not fetched its block index
    has not moved. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4 (the shift vector, one constant block fetched at the first point only) holds its block at every point, for any proof data whose array is `V`'s and whose
    body leaves the block in place: the window is uncut and never idle, and where it is not fetched its block index
    has not moved. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

/-- The whole [5000,128] block. -/
abbrev r5_0 : Rect S5000x128 := Rect.unit (s := S5000x128) ![0, 0] S5000x128.size inb_S5000x128_S5000x128_0_0
/-- The whole [1,128] row. -/
abbrev r5_1 : Rect S1x128 := Rect.unit (s := S1x128) ![0, 0] S1x128.size inb_S1x128_S1x128_0_0
/-- The whole [128] vector. -/
abbrev r5_2 : Rect S128 := Rect.unit (s := S128) ![0] S128.size inb_S128_S128_0

/-! ## What the body leaves in the output window's buffer -/

/-- Window 5's staging buffer after the body, from the input windows' blocks: its one store, of the normalised block
    as the skeleton's payload computes it, over the whole block. -/
def out5_5 (x0 : Vec F S5000x128 .f32) (x1 : Vec F S1x128 .f32) (x2 : Vec F S1x128 .f32) (x3 : Vec F S128 .f32) (x4 : Vec F S128 .f32) : Vec F S5000x128 .f32 :=
  View.canon [⟨r5_0, k5_pay1 (View.ld x0 r5_0) (View.ld x1 r5_1) (View.ld x2 r5_1) (View.ld x3 r5_2) (View.ld x4 r5_2)⟩]

/-- The store's rectangle is the whole buffer, so it covers it. -/
theorem cover5_5 (p0 : Vec F S5000x128 .f32) (y : S5000x128.Idx) :
    ∃ pc ∈ ([⟨r5_0, p0⟩] : List (View.Piece (Elt F) S5000x128 .f32)), y ∈ pc.1.set :=
  View.cover_of_tiled [⟨r5_0, p0⟩] S5000x128.size (by rfl) y

/-! ## The body's triple -/

set_option maxHeartbeats 1000000 in
/-- The kernel body on whole staging memrefs, the inputs' at read contents `x0`…`x4` and the output's at anything,
    runs to the continuation holding the inputs' as they were and the output's at `out5_5` of the inputs'. -/
theorem sound_kernel5 (c : Dev nD) (E : Set ℕ) (i : grid5.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128 .f32) (harg4 : arg4.IsWhole) (arg5 : Memref sig .tc .vmem S128 .f32) (harg5 : arg5.IsWhole) (arg6 : Memref sig .tc .vmem S5000x128 .f32) (harg6 : arg6.IsWhole)
    (x0 : Vec F S5000x128 .f32) (x1 : Vec F S1x128 .f32) (x2 : Vec F S1x128 .f32) (x3 : Vec F S128 .f32) (x4 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2 x3 x4)) -∗ K ⟨⟩))
      ⊢ wp frame (wpE (defs₀ (F := F)) Variants.none c none) E (cc5__bn_apply_kernel i arg1 harg1 arg2 harg2 arg3 harg3 arg4 harg4 arg5 harg5 arg6 harg6) K := by
  simp only [cc5__bn_apply_kernel_eq_skeleton]; unfold cc5__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The pipeline's proof data -/

/-- The proof data of pipeline 5 on core `c`: the arrays as the region finds them (`V`); after the body at point
    `t` each input's buffer at its block and the output's at `out5_5` of the input blocks; the invariant the scoped
    rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' memrefs hold their blocks, so `sound_kernel5` applies; the invariant and the
    core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Fr

end
-- ==== Proof.KI.R6.lean ====
import proofs.«173191_j73083163508880_2_alg».proof.Proof.Gen.KernelIdeal.Launch
import proofs.«173191_j73083163508880_2_alg».proof.Proof.Gen.KernelIdeal.Skeleton
import proofs.«173191_j73083163508880_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the elaborator's structural look recurses once per coordinate
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # The tiled matrix product `cc6__matmul_kernel` (pipeline 6), at the entry contents `V`

Each of the 20 grid points reads a [5000,64] block of the left factor and the whole [64,64] right factor, rounds both
to bf16, and stores their product (accumulated in f32 from zero) over the whole [5000,64] output block. -/

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0 (the left factor's row block) holds its block at every point, for any proof data whose array is
    `V`'s and whose body leaves the block in place: the window is uncut and never idle. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1 (the right factor, one constant block fetched at the first point only) holds its block at every
    point: where it is not fetched its block index has not moved. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses -/

/-- The whole [5000,64] block. -/
abbrev r6_0 : Rect S5000x64 := Rect.unit (s := S5000x64) ![0, 0] S5000x64.size inb_S5000x64_S5000x64_0_0
/-- The whole [64,64] right factor. -/
abbrev r6_1 : Rect S64x64 := Rect.unit (s := S64x64) ![0, 0] S64x64.size inb_S64x64_S64x64_0_0

/-! ## What the body leaves in the output window's buffer -/

/-- Window 2's staging buffer after the body, from the input windows' blocks: its one store, of the product of the
    two blocks as the skeleton's payload computes it, over the whole block. -/
def out6_2 (x0 : Vec F S5000x64 .f32) (x1 : Vec F S64x64 .f32) : Vec F S5000x64 .f32 :=
  View.canon [⟨r6_0, k6_pay1 (View.ld x0 r6_0) (View.ld x1 r6_1)⟩]

/-- The store's rectangle is the whole buffer, so it covers it. -/
theorem cover6_2 (p0 : Vec F S5000x64 .f32) (y : S5000x64.Idx) :
    ∃ pc ∈ ([⟨r6_0, p0⟩] : List (View.Piece (Elt F) S5000x64 .f32)), y ∈ pc.1.set :=
  View.cover_of_tiled [⟨r6_0, p0⟩] S5000x64.size (by rfl) y

/-! ## The body's triple -/

set_option maxHeartbeats 1000000 in
/-- The kernel body on whole staging memrefs, the inputs' at read contents `x0`, `x1` and the output's at anything,
    runs to the continuation holding the inputs' as they were and the output's at `out6_2` of the inputs'. -/
theorem sound_kernel6 (c : Dev nD) (E : Set ℕ) (i : grid6.Coords) (arg1 : Memref sig .tc .vmem S5000x64 .f32) (harg1 : arg1.IsWhole) (arg2 : Memref sig .tc .vmem S64x64 .f32) (harg2 : arg2.IsWhole) (arg3 : Memref sig .tc .vmem S5000x64 .f32) (harg3 : arg3.IsWhole)
    (x0 : Vec F S5000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out6_2 x0 x1)) -∗ K ⟨⟩))
      ⊢ wp frame (wpE (defs₀ (F := F)) Variants.none c none) E (cc6__matmul_kernel i arg1 harg1 arg2 harg2 arg3 harg3) K := by
  simp only [cc6__matmul_kernel_eq_skeleton]; unfold cc6__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-! ## The pipeline's proof data -/

/-- The proof data of pipeline 6 on core `c`: the arrays as the region finds them (`V`); after the body at point
    `t` each input's buffer at its block and the output's at `out6_2` of the input blocks; the invariant the scoped
    rest and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the inputs' memrefs hold their blocks, so `sound_kernel6` applies; the invariant and the
    core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Fr

end
-- ==== Proof.KI.R7.lean ====
import proofs.«173191_j73083163508880_2_alg».proof.Proof.Gen.KernelIdeal.Launch
import proofs.«173191_j73083163508880_2_alg».proof.Proof.Gen.KernelIdeal.Skeleton
import proofs.«173191_j73083163508880_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the blocks' extents recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 7: the GCN combine with column statistics, at the entry contents `V`

The body has three control cases over the 20 grid points: the first point zeroes the two accumulators
before accumulating, the middle points only accumulate, the last point also copies the accumulators
to the two statistics outputs. -/

/-! ## The windows' blocks -/

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not, for any proof
    data whose array is the entry contents and whose body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not, for any proof
    data whose array is the entry contents and whose body leaves the block in place. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, fetched there or not, for any proof
    data whose array is the entry contents and whose body leaves the block in place. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's current staging buffer holds its block at every point, fetched there or not, for any proof
    data whose array is the entry contents and whose body leaves the block in place. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-! ## The body's two conditions, in closed form -/

/-- "This is the first grid point": the condition of the zeroing branch, from the grid coordinates. -/
abbrev cond7_0 (i : grid7.Coords) : Prop := (Scalar.cmpi .ne (Scalar.extui (Scalar.cmpi .eq (BitVec.ofNat 32 (i 0).val) 0#32)) 0#32) = 1#1
/-- It holds at the first point only. -/
theorem hcond7_0 : ∀ t : Fin cfg7.N, cond7_0 (grid7.coords t) ↔ t.val % 20 = 0 :=
  (by decide +kernel : ∀ t : Fin grid7.N, cond7_0 (grid7.coords t) ↔ t.val % 20 = 0)

/-- "This is the last grid point": the condition of the branch that writes the statistics out. -/
abbrev cond7_1 (i : grid7.Coords) : Prop := k7_cond2 i = 1#1
/-- It holds at the last point only. -/
theorem hcond7_1 : ∀ t : Fin cfg7.N, cond7_1 (grid7.coords t) ↔ t.val % 20 = 19 :=
  (by decide +kernel : ∀ t : Fin grid7.N, cond7_1 (grid7.coords t) ↔ t.val % 20 = 19)

/-! ## Where the windows are idle -/

/-- Window 0 is never idle. -/
theorem liveAt7_0 : ∀ t : Fin cfg7.N, cfg7.idle 0 (grid7.coords t) = false := by decide +kernel
/-- Window 1 is never idle. -/
theorem liveAt7_1 : ∀ t : Fin cfg7.N, cfg7.idle 1 (grid7.coords t) = false := by decide +kernel
/-- Window 2 is never idle. -/
theorem liveAt7_2 : ∀ t : Fin cfg7.N, cfg7.idle 2 (grid7.coords t) = false := by decide +kernel
/-- Window 3 is never idle. -/
theorem liveAt7_3 : ∀ t : Fin cfg7.N, cfg7.idle 3 (grid7.coords t) = false := by decide +kernel
/-- Window 4 is never idle. -/
theorem liveAt7_4 : ∀ t : Fin cfg7.N, cfg7.idle 4 (grid7.coords t) = false := by decide +kernel
/-- Away from the last point nothing is stored into output 5: the window is idle there, -/
theorem idleAt7_5 : ∀ t : Fin cfg7.N, ¬cond7_1 (grid7.coords t) → cfg7.idle 5 (grid7.coords t) = true := by decide +kernel
/-- and its block is not written back there. -/
theorem noFlush7_5 : ∀ t : Fin cfg7.N, ¬cond7_1 (grid7.coords t) → (cfg7.win 5).flush t = false := by decide +kernel
/-- At the last point output 5 is live. -/
theorem liveAt7_5 : ∀ t : Fin cfg7.N, cond7_1 (grid7.coords t) → cfg7.idle 5 (grid7.coords t) = false := by decide +kernel
/-- Away from the last point nothing is stored into output 6: the window is idle there, -/
theorem idleAt7_6 : ∀ t : Fin cfg7.N, ¬cond7_1 (grid7.coords t) → cfg7.idle 6 (grid7.coords t) = true := by decide +kernel
/-- and its block is not written back there. -/
theorem noFlush7_6 : ∀ t : Fin cfg7.N, ¬cond7_1 (grid7.coords t) → (cfg7.win 6).flush t = false := by decide +kernel
/-- At the last point output 6 is live. -/
theorem liveAt7_6 : ∀ t : Fin cfg7.N, cond7_1 (grid7.coords t) → cfg7.idle 6 (grid7.coords t) = false := by decide +kernel

/-! ## The memrefs the body is called with -/

/-- One staging buffer of each output window, through which its contents are stated (the choice does not matter). -/
abbrev VO7_4 : View sig .tc .vmem S5000x64 .f32 := (Memref.whole cc7_stg4_0 : Memref sig .tc .vmem S5000x64 .f32).view
abbrev VO7_5 : View sig .tc .vmem S1x64 .f32 := (Memref.whole cc7_stg5_0 : Memref sig .tc .vmem S1x64 .f32).view
abbrev VO7_6 : View sig .tc .vmem S1x64 .f32 := (Memref.whole cc7_stg6_0 : Memref sig .tc .vmem S1x64 .f32).view
/-- Each window's current staging memref at point `t`, as the pipeline passes it, and its wholeness. -/
abbrev ms7_0 (t : Fin cfg7.N) : Memref sig .tc .vmem S5000x64 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S5000x64 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S5000x1 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S64 .f32 := win7_3.stage (cfg7.slots t 3)
abbrev hs7_3 (t : Fin cfg7.N) : (ms7_3 t).IsWhole := hstage7_3 ((cfg7.slots t 3).cast nbuf7_3)
abbrev ms7_4 (t : Fin cfg7.N) : Memref sig .tc .vmem S5000x64 .f32 := win7_4.stage (cfg7.slots t 4)
abbrev hs7_4 (t : Fin cfg7.N) : (ms7_4 t).IsWhole := hstage7_4 ((cfg7.slots t 4).cast nbuf7_4)
abbrev ms7_5 (t : Fin cfg7.N) : Memref sig .tc .vmem S1x64 .f32 := win7_5.stage (cfg7.slots t 5)
abbrev hs7_5 (t : Fin cfg7.N) : (ms7_5 t).IsWhole := hstage7_5 ((cfg7.slots t 5).cast nbuf7_5)
abbrev ms7_6 (t : Fin cfg7.N) : Memref sig .tc .vmem S1x64 .f32 := win7_6.stage (cfg7.slots t 6)
abbrev hs7_6 (t : Fin cfg7.N) : (ms7_6 t).IsWhole := hstage7_6 ((cfg7.slots t 6).cast nbuf7_6)
/-- The two accumulators: whole scoped buffers of the kernel's own, passed beside the windows, -/
abbrev scM7_0 : Memref sig .tc .vmem S1x64 .f32 := Memref.whole cc7_scratch0
abbrev scM7_1 : Memref sig .tc .vmem S1x64 .f32 := Memref.whole cc7_scratch1
/-- and as views, through which what they hold is stated. -/
abbrev VS7_0 : View sig .tc .vmem S1x64 .f32 := scM7_0.view
abbrev VS7_1 : View sig .tc .vmem S1x64 .f32 := scM7_1.view

/-- The class's invariant with the two accumulators as memrefs owned at some contents, every other scoped buffer
    unopened, and the generator register at some state. -/
theorem PhiA7_eq (c : Dev nD) :
    (Pipeline.ΦA spec7 c : sProp 𝕄)
      = iprop(iprop(iprop((∃ d, owns (c : Thread nD τ) scM7_0 fullShare d) ∗ (∃ d, owns (c : Thread nD τ) scM7_1 fullShare d))
          ∗ Pipeline.scopedRestBut (Ix := Unit) (Name := ℕ) (U := UR sig nD τ) (Lvl := ℕ) (Val := Elt F) spec7 c [cc7_scratch0, cc7_scratch1]) ∗ (∃ r, prngReg c r)) := by
  unfold Pipeline.ΦA; rw [scopedRest7_split]; simp only [scM7_0, scM7_1, owns_whole]; try rfl

/-! # Region 7: the body's run in each of its three control cases -/

-- (the run's proof term is large: the definition's epilogue walks it past the default budget)
set_option maxHeartbeats 4000000 in
/-- What the body's stores leave in each output's staging memref and in the two accumulators, as pieces (last first),
    AT the first grid point (the accumulators are zeroed, then accumulated into; the statistics outputs untouched), WITH the proof that on whole memrefs — the inputs' at their contents, a
    statistics output the case leaves alone at contents handed back untouched, the other outputs' at anything, the
    accumulators at what the point before left (at anything at the first point) — the body runs to the continuation
    holding the inputs' as they were and each stored buffer with its pieces written. The pieces are the witness the
    run finds. -/
noncomputable def kernelRun7_A (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond7_0 i) (hc1 : ¬cond7_1 i)
    (x0 : Vec F S5000x64 .f32) (x1 : Vec F S5000x64 .f32) (x2 : Vec F S5000x1 .f32) (x3 : Vec F S64 .f32) :
    Σ' (L4 : List (View.Piece (Elt F) S5000x64 .f32)) (L5 : List (View.Piece (Elt F) S1x64 .f32)) (L6 : List (View.Piece (Elt F) S1x64 .f32)) (LS0 : List (View.Piece (Elt F) S1x64 .f32)), { LS1 : List (View.Piece (Elt F) S1x64 .f32) //
      ∀ (xi5 : Vec F S1x64 .f32) (xi6 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc7__gcn_combine_stats_kernel i arg1 harg1 arg2 harg2 arg3 harg3 arg4 harg4 arg5 harg5 arg6 harg6 arg7 harg7 arg8 harg8 arg9 harg9) K } := by
  refine ⟨?_, [], [], ?_, ?_, fun xi5 xi6 E K => ?run⟩
  case run =>
    simp only [cc7__gcn_combine_stats_kernel_eq_skeleton]; unfold cc7__gcn_combine_stats_kernel_skel
    simp only [k7_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

-- (the run's proof term is large: the definition's epilogue walks it past the default budget)
set_option maxHeartbeats 4000000 in
/-- What the body's stores leave in each output's staging memref and in the two accumulators, as pieces (last first),
    AT a middle grid point (the accumulators, at what the point before left, are accumulated into; the statistics outputs untouched), WITH the proof that on whole memrefs — the inputs' at their contents, a
    statistics output the case leaves alone at contents handed back untouched, the other outputs' at anything, the
    accumulators at what the point before left (at anything at the first point) — the body runs to the continuation
    holding the inputs' as they were and each stored buffer with its pieces written. The pieces are the witness the
    run finds. -/
noncomputable def kernelRun7_B (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond7_0 i) (hc1 : ¬cond7_1 i)
    (x0 : Vec F S5000x64 .f32) (x1 : Vec F S5000x64 .f32) (x2 : Vec F S5000x1 .f32) (x3 : Vec F S64 .f32) (xs0 : Vec F S1x64 .f32) (xs1 : Vec F S1x64 .f32) :
    Σ' (L4 : List (View.Piece (Elt F) S5000x64 .f32)) (L5 : List (View.Piece (Elt F) S1x64 .f32)) (L6 : List (View.Piece (Elt F) S1x64 .f32)) (LS0 : List (View.Piece (Elt F) S1x64 .f32)), { LS1 : List (View.Piece (Elt F) S1x64 .f32) //
      ∀ (xi5 : Vec F S1x64 .f32) (xi6 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc7__gcn_combine_stats_kernel i arg1 harg1 arg2 harg2 arg3 harg3 arg4 harg4 arg5 harg5 arg6 harg6 arg7 harg7 arg8 harg8 arg9 harg9) K } := by
  refine ⟨?_, [], [], ?_, ?_, fun xi5 xi6 E K => ?run⟩
  case run =>
    simp only [cc7__gcn_combine_stats_kernel_eq_skeleton]; unfold cc7__gcn_combine_stats_kernel_skel
    simp only [k7_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hf6; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

-- (the run's proof term is large: the definition's epilogue walks it past the default budget)
set_option maxHeartbeats 4000000 in
/-- What the body's stores leave in each output's staging memref and in the two accumulators, as pieces (last first),
    AT the last grid point (the accumulators are accumulated into and then copied to the two statistics outputs), WITH the proof that on whole memrefs — the inputs' at their contents, a
    statistics output the case leaves alone at contents handed back untouched, the other outputs' at anything, the
    accumulators at what the point before left (at anything at the first point) — the body runs to the continuation
    holding the inputs' as they were and each stored buffer with its pieces written. The pieces are the witness the
    run finds. -/
noncomputable def kernelRun7_C (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond7_0 i) (hc1 : cond7_1 i)
    (x0 : Vec F S5000x64 .f32) (x1 : Vec F S5000x64 .f32) (x2 : Vec F S5000x1 .f32) (x3 : Vec F S64 .f32) (xs0 : Vec F S1x64 .f32) (xs1 : Vec F S1x64 .f32) :
    Σ' (L4 : List (View.Piece (Elt F) S5000x64 .f32)) (L5 : List (View.Piece (Elt F) S1x64 .f32)) (L6 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc7__gcn_combine_stats_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc7__gcn_combine_stats_kernel_eq_skeleton]; unfold cc7__gcn_combine_stats_kernel_skel
    simp only [k7_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

/-! # Region 7: what the outputs and the accumulators hold point by point, the proof data, the body obligation -/

/-! ## What the body leaves at the first point -/

/-- At the first point the stores into output 4 tile its block, so they cover it. -/
theorem cover7_A_4 (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond7_0 i) (hc1 : ¬cond7_1 i)
    (x0 : Vec F S5000x64 .f32) (x1 : Vec F S5000x64 .f32) (x2 : Vec F S5000x1 .f32) (x3 : Vec F S64 .f32) (y : S5000x64.Idx) :
    ∃ pc ∈ (kernelRun7_A c i arg1 harg1 arg2 harg2 arg3 harg3 arg4 harg4 arg5 harg5 arg6 harg6 arg7 harg7 arg8 harg8 arg9 harg9 hc0 hc1 x0 x1 x2 x3).1, y ∈ pc.1.set :=
  View.cover_of_tiledL (kernelRun7_A c i arg1 harg1 arg2 harg2 arg3 harg3 arg4 harg4 arg5 harg5 arg6 harg6 arg7 harg7 arg8 harg8 arg9 harg9 hc0 hc1 x0 x1 x2 x3).1 S5000x64.size (by sl_kernel_rfl) y

/-- What the first point leaves in output 4's staging buffer: its pieces read back over junk. -/
def out7_A_4 (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond7_0 i) (hc1 : ¬cond7_1 i)
    (x0 : Vec F S5000x64 .f32) (x1 : Vec F S5000x64 .f32) (x2 : Vec F S5000x1 .f32) (x3 : Vec F S64 .f32) : Vec F S5000x64 .f32 :=
  VO7_4.read (Elt F) (VO7_4.writes (Elt F) VO7_4.junk (kernelRun7_A c i arg1 harg1 arg2 harg2 arg3 harg3 arg4 harg4 arg5 harg5 arg6 harg6 arg7 harg7 arg8 harg8 arg9 harg9 hc0 hc1 x0 x1 x2 x3).1)

/-- At the first point nothing is stored into output 5 (idle there, not written back): no pieces — a placeholder
    nothing consults. -/
def out7_A_5 (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond7_0 i) (hc1 : ¬cond7_1 i)
    (x0 : Vec F S5000x64 .f32) (x1 : Vec F S5000x64 .f32) (x2 : Vec F S5000x1 .f32) (x3 : Vec F S64 .f32) : Vec F S1x64 .f32 :=
  VO7_5.read (Elt F) (VO7_5.writes (Elt F) VO7_5.junk (kernelRun7_A c i arg1 harg1 arg2 harg2 arg3 harg3 arg4 harg4 arg5 harg5 arg6 harg6 arg7 harg7 arg8 harg8 arg9 harg9 hc0 hc1 x0 x1 x2 x3).2.1)

/-- At the first point nothing is stored into output 6 (idle there, not written back): no pieces — a placeholder
    nothing consults. -/
def out7_A_6 (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond7_0 i) (hc1 : ¬cond7_1 i)
    (x0 : Vec F S5000x64 .f32) (x1 : Vec F S5000x64 .f32) (x2 : Vec F S5000x1 .f32) (x3 : Vec F S64 .f32) : Vec F S1x64 .f32 :=
  VO7_6.read (Elt F) (VO7_6.writes (Elt F) VO7_6.junk (kernelRun7_A c i arg1 harg1 arg2 harg2 arg3 harg3 arg4 harg4 arg5 harg5 arg6 harg6 arg7 harg7 arg8 harg8 arg9 harg9 hc0 hc1 x0 x1 x2 x3).2.2.1)

/-- At the first point the stores into accumulator 0 cover it. -/
theorem scover7_A_0 (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond7_0 i) (hc1 : ¬cond7_1 i)
    (x0 : Vec F S5000x64 .f32) (x1 : Vec F S5000x64 .f32) (x2 : Vec F S5000x1 .f32) (x3 : Vec F S64 .f32) (y : S1x64.Idx) :
    ∃ pc ∈ (kernelRun7_A c i arg1 harg1 arg2 harg2 arg3 harg3 arg4 harg4 arg5 harg5 arg6 harg6 arg7 harg7 arg8 harg8 arg9 harg9 hc0 hc1 x0 x1 x2 x3).2.2.2.1, y ∈ pc.1.set :=
  View.cover_of_tiledL (kernelRun7_A c i arg1 harg1 arg2 harg2 arg3 harg3 arg4 harg4 arg5 harg5 arg6 harg6 arg7 harg7 arg8 harg8 arg9 harg9 hc0 hc1 x0 x1 x2 x3).2.2.2.1 S1x64.size (by sl_kernel_rfl) y

/-- What the first point leaves in accumulator 0: its pieces read back over junk. -/
def sout7_A_0 (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond7_0 i) (hc1 : ¬cond7_1 i)
    (x0 : Vec F S5000x64 .f32) (x1 : Vec F S5000x64 .f32) (x2 : Vec F S5000x1 .f32) (x3 : Vec F S64 .f32) : Vec F S1x64 .f32 :=
  VS7_0.read (Elt F) (VS7_0.writes (Elt F) VS7_0.junk (kernelRun7_A c i arg1 harg1 arg2 harg2 arg3 harg3 arg4 harg4 arg5 harg5 arg6 harg6 arg7 harg7 arg8 harg8 arg9 harg9 hc0 hc1 x0 x1 x2 x3).2.2.2.1)

/-- At the first point the stores into accumulator 1 cover it. -/
theorem scover7_A_1 (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond7_0 i) (hc1 : ¬cond7_1 i)
    (x0 : Vec F S5000x64 .f32) (x1 : Vec F S5000x64 .f32) (x2 : Vec F S5000x1 .f32) (x3 : Vec F S64 .f32) (y : S1x64.Idx) :
    ∃ pc ∈ (kernelRun7_A c i arg1 harg1 arg2 harg2 arg3 harg3 arg4 harg4 arg5 harg5 arg6 harg6 arg7 harg7 arg8 harg8 arg9 harg9 hc0 hc1 x0 x1 x2 x3).2.2.2.2.1, y ∈ pc.1.set :=
  View.cover_of_tiledL (kernelRun7_A c i arg1 harg1 arg2 harg2 arg3 harg3 arg4 harg4 arg5 harg5 arg6 harg6 arg7 harg7 arg8 harg8 arg9 harg9 hc0 hc1 x0 x1 x2 x3).2.2.2.2.1 S1x64.size (by sl_kernel_rfl) y

/-- What the first point leaves in accumulator 1: its pieces read back over junk. -/
def sout7_A_1 (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond7_0 i) (hc1 : ¬cond7_1 i)
    (x0 : Vec F S5000x64 .f32) (x1 : Vec F S5000x64 .f32) (x2 : Vec F S5000x1 .f32) (x3 : Vec F S64 .f32) : Vec F S1x64 .f32 :=
  VS7_1.read (Elt F) (VS7_1.writes (Elt F) VS7_1.junk (kernelRun7_A c i arg1 harg1 arg2 harg2 arg3 harg3 arg4 harg4 arg5 harg5 arg6 harg6 arg7 harg7 arg8 harg8 arg9 harg9 hc0 hc1 x0 x1 x2 x3).2.2.2.2.1)

/-! ## What the body leaves at a middle point -/

/-- At a middle point the stores into output 4 tile its block, so they cover it. -/
theorem cover7_B_4 (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond7_0 i) (hc1 : ¬cond7_1 i)
    (x0 : Vec F S5000x64 .f32) (x1 : Vec F S5000x64 .f32) (x2 : Vec F S5000x1 .f32) (x3 : Vec F S64 .f32) (xs0 : Vec F S1x64 .f32) (xs1 : Vec F S1x64 .f32) (y : S5000x64.Idx) :
    ∃ pc ∈ (kernelRun7_B c i arg1 harg1 arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun7_B c i arg1 harg1 arg2 harg2 arg3 harg3 arg4 harg4 arg5 harg5 arg6 harg6 arg7 harg7 arg8 harg8 arg9 harg9 hc0 hc1 x0 x1 x2 x3 xs0 xs1).1 S5000x64.size (by sl_kernel_rfl) y

/-- What a middle point leaves in output 4's staging buffer: its pieces read back over junk. -/
def out7_B_4 (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond7_0 i) (hc1 : ¬cond7_1 i)
    (x0 : Vec F S5000x64 .f32) (x1 : Vec F S5000x64 .f32) (x2 : Vec F S5000x1 .f32) (x3 : Vec F S64 .f32) (xs0 : Vec F S1x64 .f32) (xs1 : Vec F S1x64 .f32) : Vec F S5000x64 .f32 :=
  VO7_4.read (Elt F) (VO7_4.writes (Elt F) VO7_4.junk (kernelRun7_B c i arg1 harg1 arg2 harg2 arg3 harg3 arg4 harg4 arg5 harg5 arg6 harg6 arg7 harg7 arg8 harg8 arg9 harg9 hc0 hc1 x0 x1 x2 x3 xs0 xs1).1)

/-- At a middle point nothing is stored into output 5 (idle there, not written back): no pieces — a placeholder
    nothing consults. -/
def out7_B_5 (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond7_0 i) (hc1 : ¬cond7_1 i)
    (x0 : Vec F S5000x64 .f32) (x1 : Vec F S5000x64 .f32) (x2 : Vec F S5000x1 .f32) (x3 : Vec F S64 .f32) (xs0 : Vec F S1x64 .f32) (xs1 : Vec F S1x64 .f32) : Vec F S1x64 .f32 :=
  VO7_5.read (Elt F) (VO7_5.writes (Elt F) VO7_5.junk (kernelRun7_B c i arg1 harg1 arg2 harg2 arg3 harg3 arg4 harg4 arg5 harg5 arg6 harg6 arg7 harg7 arg8 harg8 arg9 harg9 hc0 hc1 x0 x1 x2 x3 xs0 xs1).2.1)

/-- At a middle point nothing is stored into output 6 (idle there, not written back): no pieces — a placeholder
    nothing consults. -/
def out7_B_6 (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond7_0 i) (hc1 : ¬cond7_1 i)
    (x0 : Vec F S5000x64 .f32) (x1 : Vec F S5000x64 .f32) (x2 : Vec F S5000x1 .f32) (x3 : Vec F S64 .f32) (xs0 : Vec F S1x64 .f32) (xs1 : Vec F S1x64 .f32) : Vec F S1x64 .f32 :=
  VO7_6.read (Elt F) (VO7_6.writes (Elt F) VO7_6.junk (kernelRun7_B c i arg1 harg1 arg2 harg2 arg3 harg3 arg4 harg4 arg5 harg5 arg6 harg6 arg7 harg7 arg8 harg8 arg9 harg9 hc0 hc1 x0 x1 x2 x3 xs0 xs1).2.2.1)

/-- At a middle point the stores into accumulator 0 cover it. -/
theorem scover7_B_0 (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond7_0 i) (hc1 : ¬cond7_1 i)
    (x0 : Vec F S5000x64 .f32) (x1 : Vec F S5000x64 .f32) (x2 : Vec F S5000x1 .f32) (x3 : Vec F S64 .f32) (xs0 : Vec F S1x64 .f32) (xs1 : Vec F S1x64 .f32) (y : S1x64.Idx) :
    ∃ pc ∈ (kernelRun7_B c i arg1 harg1 arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun7_B c i arg1 harg1 arg2 harg2 arg3 harg3 arg4 harg4 arg5 harg5 arg6 harg6 arg7 harg7 arg8 harg8 arg9 harg9 hc0 hc1 x0 x1 x2 x3 xs0 xs1).2.2.2.1 S1x64.size (by sl_kernel_rfl) y

/-- What a middle point leaves in accumulator 0: its pieces read back over junk. -/
def sout7_B_0 (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond7_0 i) (hc1 : ¬cond7_1 i)
    (x0 : Vec F S5000x64 .f32) (x1 : Vec F S5000x64 .f32) (x2 : Vec F S5000x1 .f32) (x3 : Vec F S64 .f32) (xs0 : Vec F S1x64 .f32) (xs1 : Vec F S1x64 .f32) : Vec F S1x64 .f32 :=
  VS7_0.read (Elt F) (VS7_0.writes (Elt F) VS7_0.junk (kernelRun7_B c i arg1 harg1 arg2 harg2 arg3 harg3 arg4 harg4 arg5 harg5 arg6 harg6 arg7 harg7 arg8 harg8 arg9 harg9 hc0 hc1 x0 x1 x2 x3 xs0 xs1).2.2.2.1)

/-- At a middle point the stores into accumulator 1 cover it. -/
theorem scover7_B_1 (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond7_0 i) (hc1 : ¬cond7_1 i)
    (x0 : Vec F S5000x64 .f32) (x1 : Vec F S5000x64 .f32) (x2 : Vec F S5000x1 .f32) (x3 : Vec F S64 .f32) (xs0 : Vec F S1x64 .f32) (xs1 : Vec F S1x64 .f32) (y : S1x64.Idx) :
    ∃ pc ∈ (kernelRun7_B c i arg1 harg1 arg2 harg2 arg3 harg3 arg4 harg4 arg5 harg5 arg6 harg6 arg7 harg7 arg8 harg8 arg9 harg9 hc0 hc1 x0 x1 x2 x3 xs0 xs1).2.2.2.2.1, y ∈ pc.1.set :=
  View.cover_of_tiledL (kernelRun7_B c i arg1 harg1 arg2 harg2 arg3 harg3 arg4 harg4 arg5 harg5 arg6 harg6 arg7 harg7 arg8 harg8 arg9 harg9 hc0 hc1 x0 x1 x2 x3 xs0 xs1).2.2.2.2.1 S1x64.size (by sl_kernel_rfl) y

/-- What a middle point leaves in accumulator 1: its pieces read back over junk. -/
def sout7_B_1 (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond7_0 i) (hc1 : ¬cond7_1 i)
    (x0 : Vec F S5000x64 .f32) (x1 : Vec F S5000x64 .f32) (x2 : Vec F S5000x1 .f32) (x3 : Vec F S64 .f32) (xs0 : Vec F S1x64 .f32) (xs1 : Vec F S1x64 .f32) : Vec F S1x64 .f32 :=
  VS7_1.read (Elt F) (VS7_1.writes (Elt F) VS7_1.junk (kernelRun7_B c i arg1 harg1 arg2 harg2 arg3 harg3 arg4 harg4 arg5 harg5 arg6 harg6 arg7 harg7 arg8 harg8 arg9 harg9 hc0 hc1 x0 x1 x2 x3 xs0 xs1).2.2.2.2.1)

/-! ## What the body leaves at the last point -/

/-- At the last point the stores into output 4 tile its block, so they cover it. -/
theorem cover7_C_4 (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond7_0 i) (hc1 : cond7_1 i)
    (x0 : Vec F S5000x64 .f32) (x1 : Vec F S5000x64 .f32) (x2 : Vec F S5000x1 .f32) (x3 : Vec F S64 .f32) (xs0 : Vec F S1x64 .f32) (xs1 : Vec F S1x64 .f32) (y : S5000x64.Idx) :
    ∃ pc ∈ (kernelRun7_C c i arg1 harg1 arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun7_C c i arg1 harg1 arg2 harg2 arg3 harg3 arg4 harg4 arg5 harg5 arg6 harg6 arg7 harg7 arg8 harg8 arg9 harg9 hc0 hc1 x0 x1 x2 x3 xs0 xs1).1 S5000x64.size (by sl_kernel_rfl) y

/-- What the last point leaves in output 4's staging buffer: its pieces read back over junk. -/
def out7_C_4 (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond7_0 i) (hc1 : cond7_1 i)
    (x0 : Vec F S5000x64 .f32) (x1 : Vec F S5000x64 .f32) (x2 : Vec F S5000x1 .f32) (x3 : Vec F S64 .f32) (xs0 : Vec F S1x64 .f32) (xs1 : Vec F S1x64 .f32) : Vec F S5000x64 .f32 :=
  VO7_4.read (Elt F) (VO7_4.writes (Elt F) VO7_4.junk (kernelRun7_C c i arg1 harg1 arg2 harg2 arg3 harg3 arg4 harg4 arg5 harg5 arg6 harg6 arg7 harg7 arg8 harg8 arg9 harg9 hc0 hc1 x0 x1 x2 x3 xs0 xs1).1)

/-- At the last point the stores into output 5 tile its block, so they cover it. -/
theorem cover7_C_5 (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond7_0 i) (hc1 : cond7_1 i)
    (x0 : Vec F S5000x64 .f32) (x1 : Vec F S5000x64 .f32) (x2 : Vec F S5000x1 .f32) (x3 : Vec F S64 .f32) (xs0 : Vec F S1x64 .f32) (xs1 : Vec F S1x64 .f32) (y : S1x64.Idx) :
    ∃ pc ∈ (kernelRun7_C c i arg1 harg1 arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun7_C c i arg1 harg1 arg2 harg2 arg3 harg3 arg4 harg4 arg5 harg5 arg6 harg6 arg7 harg7 arg8 harg8 arg9 harg9 hc0 hc1 x0 x1 x2 x3 xs0 xs1).2.1 S1x64.size (by sl_kernel_rfl) y

/-- What the last point leaves in output 5's staging buffer: its pieces read back over junk. -/
def out7_C_5 (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond7_0 i) (hc1 : cond7_1 i)
    (x0 : Vec F S5000x64 .f32) (x1 : Vec F S5000x64 .f32) (x2 : Vec F S5000x1 .f32) (x3 : Vec F S64 .f32) (xs0 : Vec F S1x64 .f32) (xs1 : Vec F S1x64 .f32) : Vec F S1x64 .f32 :=
  VO7_5.read (Elt F) (VO7_5.writes (Elt F) VO7_5.junk (kernelRun7_C c i arg1 harg1 arg2 harg2 arg3 harg3 arg4 harg4 arg5 harg5 arg6 harg6 arg7 harg7 arg8 harg8 arg9 harg9 hc0 hc1 x0 x1 x2 x3 xs0 xs1).2.1)

/-- At the last point the stores into output 6 tile its block, so they cover it. -/
theorem cover7_C_6 (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond7_0 i) (hc1 : cond7_1 i)
    (x0 : Vec F S5000x64 .f32) (x1 : Vec F S5000x64 .f32) (x2 : Vec F S5000x1 .f32) (x3 : Vec F S64 .f32) (xs0 : Vec F S1x64 .f32) (xs1 : Vec F S1x64 .f32) (y : S1x64.Idx) :
    ∃ pc ∈ (kernelRun7_C c i arg1 harg1 arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun7_C c i arg1 harg1 arg2 harg2 arg3 harg3 arg4 harg4 arg5 harg5 arg6 harg6 arg7 harg7 arg8 harg8 arg9 harg9 hc0 hc1 x0 x1 x2 x3 xs0 xs1).2.2.1 S1x64.size (by sl_kernel_rfl) y

/-- What the last point leaves in output 6's staging buffer: its pieces read back over junk. -/
def out7_C_6 (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond7_0 i) (hc1 : cond7_1 i)
    (x0 : Vec F S5000x64 .f32) (x1 : Vec F S5000x64 .f32) (x2 : Vec F S5000x1 .f32) (x3 : Vec F S64 .f32) (xs0 : Vec F S1x64 .f32) (xs1 : Vec F S1x64 .f32) : Vec F S1x64 .f32 :=
  VO7_6.read (Elt F) (VO7_6.writes (Elt F) VO7_6.junk (kernelRun7_C c i arg1 harg1 arg2 harg2 arg3 harg3 arg4 harg4 arg5 harg5 arg6 harg6 arg7 harg7 arg8 harg8 arg9 harg9 hc0 hc1 x0 x1 x2 x3 xs0 xs1).2.2.1)

/-- At the last point the stores into accumulator 0 cover it. -/
theorem scover7_C_0 (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond7_0 i) (hc1 : cond7_1 i)
    (x0 : Vec F S5000x64 .f32) (x1 : Vec F S5000x64 .f32) (x2 : Vec F S5000x1 .f32) (x3 : Vec F S64 .f32) (xs0 : Vec F S1x64 .f32) (xs1 : Vec F S1x64 .f32) (y : S1x64.Idx) :
    ∃ pc ∈ (kernelRun7_C c i arg1 harg1 arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun7_C c i arg1 harg1 arg2 harg2 arg3 harg3 arg4 harg4 arg5 harg5 arg6 harg6 arg7 harg7 arg8 harg8 arg9 harg9 hc0 hc1 x0 x1 x2 x3 xs0 xs1).2.2.2.1 S1x64.size (by sl_kernel_rfl) y

/-- What the last point leaves in accumulator 0: its pieces read back over junk. -/
def sout7_C_0 (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond7_0 i) (hc1 : cond7_1 i)
    (x0 : Vec F S5000x64 .f32) (x1 : Vec F S5000x64 .f32) (x2 : Vec F S5000x1 .f32) (x3 : Vec F S64 .f32) (xs0 : Vec F S1x64 .f32) (xs1 : Vec F S1x64 .f32) : Vec F S1x64 .f32 :=
  VS7_0.read (Elt F) (VS7_0.writes (Elt F) VS7_0.junk (kernelRun7_C c i arg1 harg1 arg2 harg2 arg3 harg3 arg4 harg4 arg5 harg5 arg6 harg6 arg7 harg7 arg8 harg8 arg9 harg9 hc0 hc1 x0 x1 x2 x3 xs0 xs1).2.2.2.1)

/-- At the last point the stores into accumulator 1 cover it. -/
theorem scover7_C_1 (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond7_0 i) (hc1 : cond7_1 i)
    (x0 : Vec F S5000x64 .f32) (x1 : Vec F S5000x64 .f32) (x2 : Vec F S5000x1 .f32) (x3 : Vec F S64 .f32) (xs0 : Vec F S1x64 .f32) (xs1 : Vec F S1x64 .f32) (y : S1x64.Idx) :
    ∃ pc ∈ (kernelRun7_C c i arg1 harg1 arg2 harg2 arg3 harg3 arg4 harg4 arg5 harg5 arg6 harg6 arg7 harg7 arg8 harg8 arg9 harg9 hc0 hc1 x0 x1 x2 x3 xs0 xs1).2.2.2.2.1, y ∈ pc.1.set :=
  View.cover_of_tiledL (kernelRun7_C c i arg1 harg1 arg2 harg2 arg3 harg3 arg4 harg4 arg5 harg5 arg6 harg6 arg7 harg7 arg8 harg8 arg9 harg9 hc0 hc1 x0 x1 x2 x3 xs0 xs1).2.2.2.2.1 S1x64.size (by sl_kernel_rfl) y

/-- What the last point leaves in accumulator 1: its pieces read back over junk. -/
def sout7_C_1 (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond7_0 i) (hc1 : cond7_1 i)
    (x0 : Vec F S5000x64 .f32) (x1 : Vec F S5000x64 .f32) (x2 : Vec F S5000x1 .f32) (x3 : Vec F S64 .f32) (xs0 : Vec F S1x64 .f32) (xs1 : Vec F S1x64 .f32) : Vec F S1x64 .f32 :=
  VS7_1.read (Elt F) (VS7_1.writes (Elt F) VS7_1.junk (kernelRun7_C c i arg1 harg1 arg2 harg2 arg3 harg3 arg4 harg4 arg5 harg5 arg6 harg6 arg7 harg7 arg8 harg8 arg9 harg9 hc0 hc1 x0 x1 x2 x3 xs0 xs1).2.2.2.2.1)

/-! ## What the outputs and the accumulators hold after each point -/

/-- No point after the first is ≡ 0 (mod 20): the grid has 20 points. -/
theorem succ_mod7 (n : ℕ) (hn : n + 1 < cfg7.N) : ¬(n + 1) % 20 = 0 := by
  have hN : n + 1 < 20 := lt_of_lt_of_eq hn (show cfg7.N = 20 from N_7); omega

/-- THE ACCUMULATION. What the three outputs' staging buffers and the two accumulators hold after the body at position
    `n` (a tuple: outputs 4, 5, 6, then accumulators 0, 1): the case the closed forms select at `n`, run at the point's
    memrefs and input blocks, the accumulators at what this leaves at `n - 1`. -/
def outsAt7 (c : Dev nD) : (n : ℕ) → n < cfg7.N → Vec F S5000x64 .f32 × Vec F S1x64 .f32 × Vec F S1x64 .f32 × Vec F S1x64 .f32 × Vec F S1x64 .f32
  | 0, hn => (out7_A_4 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) (ms7_6 ⟨0, hn⟩) (hs7_6 ⟨0, hn⟩) scM7_0 (Memref.isWhole_whole _) scM7_1 (Memref.isWhole_whole _) ((hcond7_0 ⟨0, hn⟩).mpr (Nat.zero_mod _)) (fun h => (fun h => by (try dsimp only at h); omega) ((hcond7_1 ⟨0, hn⟩).mp h)) (iblk7 V c 0 ⟨0, hn⟩) (iblk7 V c 1 ⟨0, hn⟩) (iblk7 V c 2 ⟨0, hn⟩) (iblk7 V c 3 ⟨0, hn⟩), out7_A_5 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) (ms7_6 ⟨0, hn⟩) (hs7_6 ⟨0, hn⟩) scM7_0 (Memref.isWhole_whole _) scM7_1 (Memref.isWhole_whole _) ((hcond7_0 ⟨0, hn⟩).mpr (Nat.zero_mod _)) (fun h => (fun h => by (try dsimp only at h); omega) ((hcond7_1 ⟨0, hn⟩).mp h)) (iblk7 V c 0 ⟨0, hn⟩) (iblk7 V c 1 ⟨0, hn⟩) (iblk7 V c 2 ⟨0, hn⟩) (iblk7 V c 3 ⟨0, hn⟩), out7_A_6 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) (ms7_6 ⟨0, hn⟩) (hs7_6 ⟨0, hn⟩) scM7_0 (Memref.isWhole_whole _) scM7_1 (Memref.isWhole_whole _) ((hcond7_0 ⟨0, hn⟩).mpr (Nat.zero_mod _)) (fun h => (fun h => by (try dsimp only at h); omega) ((hcond7_1 ⟨0, hn⟩).mp h)) (iblk7 V c 0 ⟨0, hn⟩) (iblk7 V c 1 ⟨0, hn⟩) (iblk7 V c 2 ⟨0, hn⟩) (iblk7 V c 3 ⟨0, hn⟩), sout7_A_0 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) (ms7_6 ⟨0, hn⟩) (hs7_6 ⟨0, hn⟩) scM7_0 (Memref.isWhole_whole _) scM7_1 (Memref.isWhole_whole _) ((hcond7_0 ⟨0, hn⟩).mpr (Nat.zero_mod _)) (fun h => (fun h => by (try dsimp only at h); omega) ((hcond7_1 ⟨0, hn⟩).mp h)) (iblk7 V c 0 ⟨0, hn⟩) (iblk7 V c 1 ⟨0, hn⟩) (iblk7 V c 2 ⟨0, hn⟩) (iblk7 V c 3 ⟨0, hn⟩), sout7_A_1 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) (ms7_6 ⟨0, hn⟩) (hs7_6 ⟨0, hn⟩) scM7_0 (Memref.isWhole_whole _) scM7_1 (Memref.isWhole_whole _) ((hcond7_0 ⟨0, hn⟩).mpr (Nat.zero_mod _)) (fun h => (fun h => by (try dsimp only at h); omega) ((hcond7_1 ⟨0, hn⟩).mp h)) (iblk7 V c 0 ⟨0, hn⟩) (iblk7 V c 1 ⟨0, hn⟩) (iblk7 V c 2 ⟨0, hn⟩) (iblk7 V c 3 ⟨0, hn⟩))
  | n + 1, hn =>
    if h1 : (n + 1) % 20 = 19 then
      (out7_C_4 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => succ_mod7 n hn ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (iblk7 V c 3 ⟨n + 1, hn⟩) (outsAt7 c n (Nat.lt_of_succ_lt hn)).2.2.2.1 (outsAt7 c n (Nat.lt_of_succ_lt hn)).2.2.2.2, out7_C_5 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => succ_mod7 n hn ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (iblk7 V c 3 ⟨n + 1, hn⟩) (outsAt7 c n (Nat.lt_of_succ_lt hn)).2.2.2.1 (outsAt7 c n (Nat.lt_of_succ_lt hn)).2.2.2.2, out7_C_6 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => succ_mod7 n hn ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (iblk7 V c 3 ⟨n + 1, hn⟩) (outsAt7 c n (Nat.lt_of_succ_lt hn)).2.2.2.1 (outsAt7 c n (Nat.lt_of_succ_lt hn)).2.2.2.2, sout7_C_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => succ_mod7 n hn ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (iblk7 V c 3 ⟨n + 1, hn⟩) (outsAt7 c n (Nat.lt_of_succ_lt hn)).2.2.2.1 (outsAt7 c n (Nat.lt_of_succ_lt hn)).2.2.2.2, sout7_C_1 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => succ_mod7 n hn ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (iblk7 V c 3 ⟨n + 1, hn⟩) (outsAt7 c n (Nat.lt_of_succ_lt hn)).2.2.2.1 (outsAt7 c n (Nat.lt_of_succ_lt hn)).2.2.2.2)
    else
      (out7_B_4 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => succ_mod7 n hn ((hcond7_0 ⟨n + 1, hn⟩).mp h)) (fun h => h1 ((hcond7_1 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (outsAt7 c n (Nat.lt_of_succ_lt hn)).2.2.2.1 (outsAt7 c n (Nat.lt_of_succ_lt hn)).2.2.2.2, out7_B_5 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => succ_mod7 n hn ((hcond7_0 ⟨n + 1, hn⟩).mp h)) (fun h => h1 ((hcond7_1 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (outsAt7 c n (Nat.lt_of_succ_lt hn)).2.2.2.1 (outsAt7 c n (Nat.lt_of_succ_lt hn)).2.2.2.2, out7_B_6 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => succ_mod7 n hn ((hcond7_0 ⟨n + 1, hn⟩).mp h)) (fun h => h1 ((hcond7_1 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (outsAt7 c n (Nat.lt_of_succ_lt hn)).2.2.2.1 (outsAt7 c n (Nat.lt_of_succ_lt hn)).2.2.2.2, sout7_B_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => succ_mod7 n hn ((hcond7_0 ⟨n + 1, hn⟩).mp h)) (fun h => h1 ((hcond7_1 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (outsAt7 c n (Nat.lt_of_succ_lt hn)).2.2.2.1 (outsAt7 c n (Nat.lt_of_succ_lt hn)).2.2.2.2, sout7_B_1 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => succ_mod7 n hn ((hcond7_0 ⟨n + 1, hn⟩).mp h)) (fun h => h1 ((hcond7_1 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (outsAt7 c n (Nat.lt_of_succ_lt hn)).2.2.2.1 (outsAt7 c n (Nat.lt_of_succ_lt hn)).2.2.2.2)

/-- `outsAt7` at the first point. -/
theorem outsAt7_A (c : Dev nD) (t : Fin cfg7.N) (h0 : t.val % 20 = 0) (h1 : ¬t.val % 20 = 19) :
    outsAt7 V c t.val t.isLt = (out7_A_4 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) ((hcond7_0 t).mpr h0) (fun h => h1 ((hcond7_1 t).mp h)) (iblk7 V c 0 t) (iblk7 V c 1 t) (iblk7 V c 2 t) (iblk7 V c 3 t), out7_A_5 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) ((hcond7_0 t).mpr h0) (fun h => h1 ((hcond7_1 t).mp h)) (iblk7 V c 0 t) (iblk7 V c 1 t) (iblk7 V c 2 t) (iblk7 V c 3 t), out7_A_6 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) ((hcond7_0 t).mpr h0) (fun h => h1 ((hcond7_1 t).mp h)) (iblk7 V c 0 t) (iblk7 V c 1 t) (iblk7 V c 2 t) (iblk7 V c 3 t), sout7_A_0 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) ((hcond7_0 t).mpr h0) (fun h => h1 ((hcond7_1 t).mp h)) (iblk7 V c 0 t) (iblk7 V c 1 t) (iblk7 V c 2 t) (iblk7 V c 3 t), sout7_A_1 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) ((hcond7_0 t).mpr h0) (fun h => h1 ((hcond7_1 t).mp h)) (iblk7 V c 0 t) (iblk7 V c 1 t) (iblk7 V c 2 t) (iblk7 V c 3 t)) := by
  obtain ⟨n, hn⟩ := t
  cases n with
  | zero => exact rfl
  | succ n => exact absurd h0 (succ_mod7 n hn)

/-- `outsAt7` at a middle point: over what the point before left in the accumulators. -/
theorem outsAt7_B (c : Dev nD) (t : Fin cfg7.N) (h0 : ¬t.val % 20 = 0) (h1 : ¬t.val % 20 = 19) :
    outsAt7 V c t.val t.isLt = (out7_B_4 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => h0 ((hcond7_0 t).mp h)) (fun h => h1 ((hcond7_1 t).mp h)) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2, out7_B_5 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => h0 ((hcond7_0 t).mp h)) (fun h => h1 ((hcond7_1 t).mp h)) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2, out7_B_6 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => h0 ((hcond7_0 t).mp h)) (fun h => h1 ((hcond7_1 t).mp h)) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2, sout7_B_0 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => h0 ((hcond7_0 t).mp h)) (fun h => h1 ((hcond7_1 t).mp h)) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2, sout7_B_1 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => h0 ((hcond7_0 t).mp h)) (fun h => h1 ((hcond7_1 t).mp h)) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h1).trans rfl

/-- `outsAt7` at the last point: over what the point before left in the accumulators. -/
theorem outsAt7_C (c : Dev nD) (t : Fin cfg7.N) (h0 : ¬t.val % 20 = 0) (h1 : t.val % 20 = 19) :
    outsAt7 V c t.val t.isLt = (out7_C_4 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => h0 ((hcond7_0 t).mp h)) ((hcond7_1 t).mpr h1) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2, out7_C_5 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => h0 ((hcond7_0 t).mp h)) ((hcond7_1 t).mpr h1) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2, out7_C_6 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => h0 ((hcond7_0 t).mp h)) ((hcond7_1 t).mpr h1) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2, sout7_C_0 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => h0 ((hcond7_0 t).mp h)) ((hcond7_1 t).mpr h1) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2, sout7_C_1 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => h0 ((hcond7_0 t).mp h)) ((hcond7_1 t).mpr h1) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_pos h1).trans rfl

/-! ## The region invariant -/

/-- The invariant before position `n`: before the first point the class's (every scoped buffer that is no staging
    buffer at anything, the generator register at some state); afterwards the same with the two accumulators at what the
    point before left in them. -/
def PhiS7 (c : Dev nD) : (n : ℕ) → n ≤ cfg7.N → sProp 𝕄
  | 0, _ => Pipeline.ΦA spec7 c
  | n + 1, hn => iprop(iprop(iprop(owns (c : Thread nD τ) scM7_0 fullShare ((outsAt7 V c n hn).2.2.2.1) ∗ owns (c : Thread nD τ) scM7_1 fullShare ((outsAt7 V c n hn).2.2.2.2)) ∗ Pipeline.scopedRestBut (Ix := Unit) (Name := ℕ) (U := UR sig nD τ) (Lvl := ℕ) (Val := Elt F) spec7 c [cc7_scratch0, cc7_scratch1]) ∗ (∃ r, prngReg c r))

theorem PhiS7_zero (c : Dev nD) (n : ℕ) (h : n ≤ cfg7.N) (hz : n = 0) : PhiS7 V c n h = Pipeline.ΦA spec7 c := by
  subst hz; rfl

/-- After point `n`: the accumulators at that point's contents. -/
theorem PhiS7_succ (c : Dev nD) (n : ℕ) (hn : n < cfg7.N) :
    PhiS7 V c (n + 1) hn = iprop(iprop(iprop(owns (c : Thread nD τ) scM7_0 fullShare ((outsAt7 V c n hn).2.2.2.1) ∗ owns (c : Thread nD τ) scM7_1 fullShare ((outsAt7 V c n hn).2.2.2.2)) ∗ Pipeline.scopedRestBut (Ix := Unit) (Name := ℕ) (U := UR sig nD τ) (Lvl := ℕ) (Val := Elt F) spec7 c [cc7_scratch0, cc7_scratch1]) ∗ (∃ r, prngReg c r)) := rfl

/-- Before a point that is not the first: the accumulators at what the point before left. -/
theorem PhiS7_pos (c : Dev nD) (n : ℕ) (h : n ≤ cfg7.N) (hz : n ≠ 0) :
    PhiS7 V c n h = iprop(iprop(iprop(owns (c : Thread nD τ) scM7_0 fullShare ((outsAt7 V c (n - 1) (by omega)).2.2.2.1) ∗ owns (c : Thread nD τ) scM7_1 fullShare ((outsAt7 V c (n - 1) (by omega)).2.2.2.2)) ∗ Pipeline.scopedRestBut (Ix := Unit) (Name := ℕ) (U := UR sig nD τ) (Lvl := ℕ) (Val := Elt F) spec7 c [cc7_scratch0, cc7_scratch1]) ∗ (∃ r, prngReg c r)) := by
  cases n with
  | zero => exact absurd rfl hz
  | succ n => rfl

/-! ## The pipeline's proof data -/

/-- The proof data of pipeline 7 on core `c`: the arrays as the region finds them; after the body at point `t` each
    input's buffer at its block and the outputs' at `outsAt7`; the invariant `PhiS7`; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => (outsAt7 V c t.val t.isLt).1
    | ⟨5, _⟩ => (outsAt7 V c t.val t.isLt).2.1
    | ⟨6, _⟩ => (outsAt7 V c t.val t.isLt).2.2.1
  Φ t := PhiS7 V c t.val (Nat.le_of_lt_succ t.isLt)
  q _ := fullShare
  owed _ := 0

/-- The proof data's arrays are the region-entry contents. -/
theorem A_eq7 (c : Dev nD) (w : Fin cfg7.W) : (dat7 V c).A w = V c (Pipeline.arrRef spec7 w) := by
  dsimp only [dat7]

/-- The invariant at a point's start, restated at `t.val`. -/
theorem PhiS7_castSucc (c : Dev nD) (t : Fin cfg7.N) :
    (dat7 V c).Φ t.castSucc = PhiS7 V c t.val (Nat.le_of_lt t.isLt) := by
  dsimp only [dat7]; simp only [Fin.coe_castSucc]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = (outsAt7 V c t.val t.isLt).1 := by dsimp only [dat7]
theorem after7_5 (c : Dev nD) (t : Fin cfg7.N) : (dat7 V c).after 5 t = (outsAt7 V c t.val t.isLt).2.1 := by dsimp only [dat7]
theorem after7_6 (c : Dev nD) (t : Fin cfg7.N) : (dat7 V c).after 6 t = (outsAt7 V c t.val t.isLt).2.2.1 := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d))
    ∗ (∃ d, owns (c : Thread nD τ) (ms7_4 t) fullShare ((dat7 V c).before 4 t d))
    ∗ (∃ d, owns (c : Thread nD τ) (ms7_5 t) fullShare ((dat7 V c).before 5 t d))
    ∗ (∃ d, owns (c : Thread nD τ) (ms7_6 t) fullShare ((dat7 V c).before 6 t d)))

/-- and what it returns. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t
    ∗ (dat7 V c).leavesExact 4 t
    ∗ (dat7 V c).leavesExact 5 t
    ∗ (dat7 V c).leavesExact 6 t)

set_option maxHeartbeats 8000000 in
/-- The body at any point: the inputs' memrefs hold their blocks; the closed forms say which case the point is in; the
    invariant hands the body the accumulators at what the point before left (at anything at the first point) and takes
    them back at this point's contents; away from the last point the statistics outputs are handed back untouched; the
    core owes nothing throughout. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3]
  rw [show (dat7 V c).owesAt () t.succ = (dat7 V c).owesAt () t.castSucc from rfl]
  rw [show (dat7 V c).Φ t.succ = PhiS7 V c (t.val + 1) t.isLt from rfl, PhiS7_succ]
  have hN : t.val < 20 := lt_of_lt_of_eq t.isLt (show cfg7.N = 20 from N_7)
  by_cases h0 : t.val % 20 = 0
  · have h1 : ¬t.val % 20 = 19 := by omega
    rw [show (dat7 V c).leavesExact 0 t = owns (c : Thread nD τ) (ms7_0 t) fullShare ((dat7 V c).after 0 t) from by
      unfold Dat.leavesExact; rw [liveAt7_0 t], after7_0]
    rw [show (dat7 V c).leavesExact 1 t = owns (c : Thread nD τ) (ms7_1 t) fullShare ((dat7 V c).after 1 t) from by
      unfold Dat.leavesExact; rw [liveAt7_1 t], after7_1]
    rw [show (dat7 V c).leavesExact 2 t = owns (c : Thread nD τ) (ms7_2 t) fullShare ((dat7 V c).after 2 t) from by
      unfold Dat.leavesExact; rw [liveAt7_2 t], after7_2]
    rw [show (dat7 V c).leavesExact 3 t = owns (c : Thread nD τ) (ms7_3 t) fullShare ((dat7 V c).after 3 t) from by
      unfold Dat.leavesExact; rw [liveAt7_3 t], after7_3]
    rw [show (dat7 V c).leavesExact 4 t = owns (c : Thread nD τ) (ms7_4 t) fullShare ((dat7 V c).after 4 t) from by
      unfold Dat.leavesExact; rw [liveAt7_4 t], after7_4]
    rw [Dat.leavesExact_idle (dat7 V c) 5 t (idleAt7_5 t (fun h => h1 ((hcond7_1 t).mp h))) (noFlush7_5 t (fun h => h1 ((hcond7_1 t).mp h)))]
    rw [Dat.leavesExact_idle (dat7 V c) 6 t (idleAt7_6 t (fun h => h1 ((hcond7_1 t).mp h))) (noFlush7_6 t (fun h => h1 ((hcond7_1 t).mp h)))]
    rw [outsAt7_A V c t h0 h1]
    unfold out7_A_4 sout7_A_0 sout7_A_1; (try dsimp only)
    have hz : t.val = 0 := by omega
    rw [PhiS7_castSucc V c t, PhiS7_zero V c _ _ hz, PhiA7_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun7_A c (grid7.coords t) _ _ _ _ _ _ _ _ _ _ _ _ _ _ _ _ _ _ ((hcond7_0 t).mpr h0) (fun h => h1 ((hcond7_1 t).mp h)) (iblk7 V c 0 t) (iblk7 V c 1 t) (iblk7 V c 2 t) (iblk7 V c 3 t)).2.2.2.2.2 _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, ⟨%e4, H4⟩, H5, H6, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover7_A_0 c _ _ _ _ _ _ _ _ _ _ _ _ _ _ _ _ _ _ _ _ _ _ _ _ _)
          · unfold owns; iexists _; isplitr
            swap; · iexact HS1
            ipureintro; exact View.read_writes_of_cover _ _ _ _ _ (scover7_A_1 c _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover7_A_4 c _ _ _ _ _ _ _ _ _ _ _ _ _ _ _ _ _ _ _ _ _ _ _ _ _)
    isplitl [H5]; · iexists _; iexact H5
    iexists _; iexact H6
  · by_cases h1 : t.val % 20 = 19
    · rw [show (dat7 V c).leavesExact 0 t = owns (c : Thread nD τ) (ms7_0 t) fullShare ((dat7 V c).after 0 t) from by
        unfold Dat.leavesExact; rw [liveAt7_0 t], after7_0]
      rw [show (dat7 V c).leavesExact 1 t = owns (c : Thread nD τ) (ms7_1 t) fullShare ((dat7 V c).after 1 t) from by
        unfold Dat.leavesExact; rw [liveAt7_1 t], after7_1]
      rw [show (dat7 V c).leavesExact 2 t = owns (c : Thread nD τ) (ms7_2 t) fullShare ((dat7 V c).after 2 t) from by
        unfold Dat.leavesExact; rw [liveAt7_2 t], after7_2]
      rw [show (dat7 V c).leavesExact 3 t = owns (c : Thread nD τ) (ms7_3 t) fullShare ((dat7 V c).after 3 t) from by
        unfold Dat.leavesExact; rw [liveAt7_3 t], after7_3]
      rw [show (dat7 V c).leavesExact 4 t = owns (c : Thread nD τ) (ms7_4 t) fullShare ((dat7 V c).after 4 t) from by
        unfold Dat.leavesExact; rw [liveAt7_4 t], after7_4]
      rw [show (dat7 V c).leavesExact 5 t = owns (c : Thread nD τ) (ms7_5 t) fullShare ((dat7 V c).after 5 t) from by
        unfold Dat.leavesExact; rw [liveAt7_5 t ((hcond7_1 t).mpr h1)], after7_5]
      rw [show (dat7 V c).leavesExact 6 t = owns (c : Thread nD τ) (ms7_6 t) fullShare ((dat7 V c).after 6 t) from by
        unfold Dat.leavesExact; rw [liveAt7_6 t ((hcond7_1 t).mpr h1)], after7_6]
      rw [outsAt7_C V c t h0 h1]
      unfold out7_C_4 out7_C_5 out7_C_6 sout7_C_0 sout7_C_1; (try dsimp only)
      have hz : t.val ≠ 0 := by omega
      rw [PhiS7_castSucc V c t, PhiS7_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun7_C c (grid7.coords t) _ _ _ _ _ _ _ _ _ _ _ _ _ _ _ _ _ _ (fun h => h0 ((hcond7_0 t).mp h)) ((hcond7_1 t).mpr h1) (iblk7 V c 0 t) (iblk7 V c 1 t) (iblk7 V c 2 t) (iblk7 V c 3 t) _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, ⟨%e4, H4⟩, ⟨%e5, H5⟩, ⟨%e6, H6⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover7_C_0 c _ _ _ _ _ _ _ _ _ _ _ _ _ _ _ _ _ _ _ _ _ _ _ _ _ _ _)
            · unfold owns; iexists _; isplitr
              swap; · iexact HS1
              ipureintro; exact View.read_writes_of_cover _ _ _ _ _ (scover7_C_1 c _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover7_C_4 c _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover7_C_5 c _ _ _ _ _ _ _ _ _ _ _ _ _ _ _ _ _ _ _ _ _ _ _ _ _ _ _)
      unfold owns; iexists _; isplitr
      swap; · iexact H6
      ipureintro; exact View.read_writes_of_cover _ _ _ _ _ (cover7_C_6 c _ _ _ _ _ _ _ _ _ _ _ _ _ _ _ _ _ _ _ _ _ _ _ _ _ _ _)
    · rw [show (dat7 V c).leavesExact 0 t = owns (c : Thread nD τ) (ms7_0 t) fullShare ((dat7 V c).after 0 t) from by
        unfold Dat.leavesExact; rw [liveAt7_0 t], after7_0]
      rw [show (dat7 V c).leavesExact 1 t = owns (c : Thread nD τ) (ms7_1 t) fullShare ((dat7 V c).after 1 t) from by
        unfold Dat.leavesExact; rw [liveAt7_1 t], after7_1]
      rw [show (dat7 V c).leavesExact 2 t = owns (c : Thread nD τ) (ms7_2 t) fullShare ((dat7 V c).after 2 t) from by
        unfold Dat.leavesExact; rw [liveAt7_2 t], after7_2]
      rw [show (dat7 V c).leavesExact 3 t = owns (c : Thread nD τ) (ms7_3 t) fullShare ((dat7 V c).after 3 t) from by
        unfold Dat.leavesExact; rw [liveAt7_3 t], after7_3]
      rw [show (dat7 V c).leavesExact 4 t = owns (c : Thread nD τ) (ms7_4 t) fullShare ((dat7 V c).after 4 t) from by
        unfold Dat.leavesExact; rw [liveAt7_4 t], after7_4]
      rw [Dat.leavesExact_idle (dat7 V c) 5 t (idleAt7_5 t (fun h => h1 ((hcond7_1 t).mp h))) (noFlush7_5 t (fun h => h1 ((hcond7_1 t).mp h)))]
      rw [Dat.leavesExact_idle (dat7 V c) 6 t (idleAt7_6 t (fun h => h1 ((hcond7_1 t).mp h))) (noFlush7_6 t (fun h => h1 ((hcond7_1 t).mp h)))]
      rw [outsAt7_B V c t h0 h1]
      unfold out7_B_4 sout7_B_0 sout7_B_1; (try dsimp only)
      have hz : t.val ≠ 0 := by omega
      rw [PhiS7_castSucc V c t, PhiS7_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun7_B c (grid7.coords t) _ _ _ _ _ _ _ _ _ _ _ _ _ _ _ _ _ _ (fun h => h0 ((hcond7_0 t).mp h)) (fun h => h1 ((hcond7_1 t).mp h)) (iblk7 V c 0 t) (iblk7 V c 1 t) (iblk7 V c 2 t) (iblk7 V c 3 t) _ _).2.2.2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%e4, H4⟩, H5, H6, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover7_B_0 c _ _ _ _ _ _ _ _ _ _ _ _ _ _ _ _ _ _ _ _ _ _ _ _ _ _ _)
            · unfold owns; iexists _; isplitr
              swap; · iexact HS1
              ipureintro; exact View.read_writes_of_cover _ _ _ _ _ (scover7_B_1 c _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover7_B_4 c _ _ _ _ _ _ _ _ _ _ _ _ _ _ _ _ _ _ _ _ _ _ _ _ _ _ _)
      isplitl [H5]; · iexists _; iexact H5
      iexists _; iexact H6

/-- The library's body obligation, at every point. -/
theorem body_obligation7 (c : Dev nD) : BodyObligation (dat7 (F := F) V c) (defs₀ (F := F)) Variants.none () Set.univ := fun t => by
  rw [bigSep_W7, bigSep_W7]
  exact sound_body7 V c t

/-! ## Entering and leaving the region -/

/-- What the launch hands the region is the invariant before the first point. -/
theorem Φ7_in (c : Dev nD) : Pipeline.ΦA spec7 c ⊢ (dat7 V c).Φ 0 := by
  rw [show (dat7 V c).Φ 0 = PhiS7 V c 0 (Nat.zero_le _) from rfl, PhiS7_zero V c 0 _ rfl]
  try exact Idealize.SL.BI.Entails.refl _

/-- After any point but the first the invariant gives the class's back: what the accumulators hold is forgotten. -/
theorem Phi7_out (c : Dev nD) (t : Fin (cfg7.N + 1)) (ht : t.val ≠ 0) : (dat7 V c).Φ t ⊢ Pipeline.ΦA spec7 c := by
  rw [show (dat7 V c).Φ t = PhiS7 V c t.val (Nat.le_of_lt_succ t.isLt) from rfl, PhiS7_pos V c _ _ ht, PhiA7_eq]
  iintro ⟨⟨⟨HS0, HS1⟩, HR⟩, Hg⟩
  isplitl [HS0 HS1 HR]
  · isplitl [HS0 HS1]
    · isplitl [HS0]
      · iexists _; iexact HS0
      · iexists _; iexact HS1
    iexact HR
  iexact Hg

/-- The same after the last point. -/
theorem Φ7_out (c : Dev nD) : (dat7 V c).Φ (Fin.last cfg7.N) ⊢ Pipeline.ΦA spec7 c :=
  Phi7_out V c _ (by rw [Fin.val_last]; have : cfg7.N = 20 := N_7; omega)

end Cert.KernelIdeal.Fr

end
-- ==== Proof.KI.R8.lean ====
import proofs.«173191_j73083163508880_2_alg».proof.Proof.Gen.KernelIdeal.Launch
import proofs.«173191_j73083163508880_2_alg».proof.Proof.Gen.KernelIdeal.Skeleton
import proofs.«173191_j73083163508880_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the elaborator's structural look recurses once per coordinate
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # The batch-norm application `cc8__bn_apply_kernel` (pipeline 8), at the entry contents `V`

Each of the 10 grid points reads a [5000,128] block of the activations and the four per-column parameter rows (mean,
inverse standard deviation, scale, shift), and stores `(x - mean) * invstd * g + b`, the rows broadcast down the
block, over the whole [5000,128] output block. -/

/-! ## The windows' blocks -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0 (the row block of the activations) holds its block at every point, for any proof data whose array is `V`'s and whose
    body leaves the block in place: the window is uncut and never idle, and where it is not fetched its block index
    has not moved. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1 (the per-column mean, one constant block fetched at the first point only) holds its block at every point, for any proof data whose array is `V`'s and whose
    body leaves the block in place: the window is uncut and never idle, and where it is not fetched its block index
    has not moved. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2 (the per-column inverse standard deviation, one constant block fetched at the first point only) holds its block at every point, for any proof data whose array is `V`'s and whose
    body leaves the block in place: the window is uncut and never idle, and where it is not fetched its block index
    has not moved. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3 (the scale vector, one constant block fetched at the first point only) holds its block at every point, for any proof data whose array is `V`'s and whose
    body leaves the block in place: the window is uncut and never idle, and where it is not fetched its block index
    has not moved. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- Input window 4 (the shift vector, one constant block fetched at the first point only) holds its block at every point, for any proof data whose array is `V`'s and whose
    body leaves the block in place: the window is uncut and never idle, and where it is not fetched its block index
    has not moved. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses -/

/-- The whole [5000,128] block. -/
abbrev r8_0 : Rect S5000x128 := Rect.unit (s := S5000x128) ![0, 0] S5000x128.size inb_S5000x128_S5000x128_0_0
/-- The whole [1,128] row. -/
abbrev r8_1 : Rect S1x128 := Rect.unit (s := S1x128) ![0, 0] S1x128.size inb_S1x128_S1x128_0_0
/-- The whole [128] vector. -/
abbrev r8_2 : Rect S128 := Rect.unit (s := S128) ![0] S128.size inb_S128_S128_0

/-! ## What the body leaves in the output window's buffer -/

/-- Window 5's staging buffer after the body, from the input windows' blocks: its one store, of the normalised block
    as the skeleton's payload computes it, over the whole block. -/
def out8_5 (x0 : Vec F S5000x128 .f32) (x1 : Vec F S1x128 .f32) (x2 : Vec F S1x128 .f32) (x3 : Vec F S128 .f32) (x4 : Vec F S128 .f32) : Vec F S5000x128 .f32 :=
  View.canon [⟨r8_0, k8_pay1 (View.ld x0 r8_0) (View.ld x1 r8_1) (View.ld x2 r8_1) (View.ld x3 r8_2) (View.ld x4 r8_2)⟩]

/-- The store's rectangle is the whole buffer, so it covers it. -/
theorem cover8_5 (p0 : Vec F S5000x128 .f32) (y : S5000x128.Idx) :
    ∃ pc ∈ ([⟨r8_0, p0⟩] : List (View.Piece (Elt F) S5000x128 .f32)), y ∈ pc.1.set :=
  View.cover_of_tiled [⟨r8_0, p0⟩] S5000x128.size (by rfl) y

/-! ## The body's triple -/

set_option maxHeartbeats 1000000 in
/-- The kernel body on whole staging memrefs, the inputs' at read contents `x0`…`x4` and the output's at anything,
    runs to the continuation holding the inputs' as they were and the output's at `out8_5` of the inputs'. -/
theorem sound_kernel8 (c : Dev nD) (E : Set ℕ) (i : grid8.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128 .f32) (harg4 : arg4.IsWhole) (arg5 : Memref sig .tc .vmem S128 .f32) (harg5 : arg5.IsWhole) (arg6 : Memref sig .tc .vmem S5000x128 .f32) (harg6 : arg6.IsWhole)
    (x0 : Vec F S5000x128 .f32) (x1 : Vec F S1x128 .f32) (x2 : Vec F S1x128 .f32) (x3 : Vec F S128 .f32) (x4 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out8_5 x0 x1 x2 x3 x4)) -∗ K ⟨⟩))
      ⊢ wp frame (wpE (defs₀ (F := F)) Variants.none c none) E (cc8__bn_apply_kernel i arg1 harg1 arg2 harg2 arg3 harg3 arg4 harg4 arg5 harg5 arg6 harg6) K := by
  simp only [cc8__bn_apply_kernel_eq_skeleton]; unfold cc8__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8_5 _)

/-! ## The pipeline's proof data -/

/-- The proof data of pipeline 8 on core `c`: the arrays as the region finds them (`V`); after the body at point
    `t` each input's buffer at its block and the output's at `out8_5` of the input blocks; the invariant the scoped
    rest and the generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t) (iblk8 V c 3 t) (iblk8 V c 4 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = out8_5 (iblk8 V c 0 t) (iblk8 V c 1 t) (iblk8 V c 2 t) (iblk8 V c 3 t) (iblk8 V c 4 t) := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t))

/-- The body at any point: the inputs' memrefs hold their blocks, so `sound_kernel8` applies; the invariant and the
    core's `owes` pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5]
  iintro ⟨HΦ, Ho, ⟨%d0, H0⟩, ⟨%d1, H1⟩, ⟨%d2, H2⟩, ⟨%d3, H3⟩, ⟨%d4, H4⟩, ⟨%d5, H5⟩⟩
  iapply (sound_kernel8 c Set.univ _ _ _ _ _ _ _ _ _ _ _ _ _ (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Fr

end
-- ==== Proof.KI.R9.lean ====
/- The frame of REGION 9 of @main — custom_call 9, the SAGE combine kernel `cc9__sage_combine_kernel` (pipeline 9) —
   at a PARAMETER `V`, the TensorCore's buffer contents when the region is entered: each window's block at a grid
   point (`iblk9`), what the body leaves in the output window's staging buffer (`out9_6`: the one store of the
   whole block, its payload the normalised, rectified sum of the two products and the bias, over the six blocks read
   whole), the body's triple (`sound_kernel9`), the proof data (`dat9`) and the body obligation
   (`body_obligation9`). One control case: the body reads each input's staging buffer whole and writes the output's
   whole. -/
import proofs.«173191_j73083163508880_2_alg».proof.Proof.Gen.KernelIdeal.Launch
import proofs.«173191_j73083163508880_2_alg».proof.Proof.Gen.KernelIdeal.Skeleton
import proofs.«173191_j73083163508880_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 9 of @main: custom_call 9, `cc9__sage_combine_kernel` (pipeline 9), at the entry contents `V` -/

/-! ## The windows' blocks -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current staging buffer holds its block at every point, fetched there or not, for ANY proof
    data whose array is `V`'s (`hA`) and whose body leaves the block in place (`hafter`): unfetched, the block index
    has not moved, so the block kept from the point before is this point's; the window is uncut and never idle. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's current staging buffer holds its block at every point, fetched there or not, for ANY proof
    data whose array is `V`'s (`hA`) and whose body leaves the block in place (`hafter`): unfetched, the block index
    has not moved, so the block kept from the point before is this point's; the window is uncut and never idle. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's current staging buffer holds its block at every point, fetched there or not, for ANY proof
    data whose array is `V`'s (`hA`) and whose body leaves the block in place (`hafter`): unfetched, the block index
    has not moved, so the block kept from the point before is this point's; the window is uncut and never idle. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- Input window 3's current staging buffer holds its block at every point, fetched there or not, for ANY proof
    data whose array is `V`'s (`hA`) and whose body leaves the block in place (`hafter`): unfetched, the block index
    has not moved, so the block kept from the point before is this point's; the window is uncut and never idle. -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

/-- Input window 4's current staging buffer holds its block at every point, fetched there or not, for ANY proof
    data whose array is `V`'s (`hA`) and whose body leaves the block in place (`hafter`): unfetched, the block index
    has not moved, so the block kept from the point before is this point's; the window is uncut and never idle. -/
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

/-- Input window 5's current staging buffer holds its block at every point, fetched there or not, for ANY proof
    data whose array is `V`'s (`hA`) and whose body leaves the block in place (`hafter`): unfetched, the block index
    has not moved, so the block kept from the point before is this point's; the window is uncut and never idle. -/
theorem before9_5_of {c : Dev nD} (dat : Dat τ (Elt F) Unit ℕ (UR sig nD τ) ℕ cfg9 c) (hA : dat.A 5 = V c (Pipeline.arrRef spec9 5))
    (hafter : ∀ t, dat.after 5 t = iblk9 V c 5 t) (t : Fin cfg9.N) (d) : dat.before 5 t d = iblk9 V c 5 t :=
  (dat.before_in_eq_fetched 5 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses -/

abbrev r9_0 : Rect S5000x64 := Rect.unit (s := S5000x64) ![0, 0] S5000x64.size inb_S5000x64_S5000x64_0_0
abbrev r9_1 : Rect S5000x1 := Rect.unit (s := S5000x1) ![0, 0] S5000x1.size inb_S5000x1_S5000x1_0_0
abbrev r9_2 : Rect S64x64 := Rect.unit (s := S64x64) ![0, 0] S64x64.size inb_S64x64_S64x64_0_0
abbrev r9_3 : Rect S64 := Rect.unit (s := S64) ![0] S64.size inb_S64_S64_0

/-! ## What the body leaves in the output window's buffer -/

/-- Window 6's staging buffer after the body, from the input windows' blocks: its 1 store as pieces, LAST
    FIRST; the payload is the skeleton's, applied to the six blocks read whole. -/
def out9_6 (x0 : Vec F S5000x64 .f32) (x1 : Vec F S5000x1 .f32) (x2 : Vec F S5000x64 .f32) (x3 : Vec F S64x64 .f32) (x4 : Vec F S64 .f32) (x5 : Vec F S64x64 .f32) : Vec F S5000x64 .f32 :=
  View.canon [⟨r9_0, k9_pay1 (View.ld x0 r9_0) (View.ld x1 r9_1) (View.ld x2 r9_0) (View.ld x3 r9_2) (View.ld x5 r9_2) (View.ld x4 r9_3)⟩]

/-- Its store is of the whole block, so it covers the buffer (checked by evaluation). -/
theorem cover9_6 (p0 : Vec F S5000x64 .f32) (y : S5000x64.Idx) :
    ∃ pc ∈ ([⟨r9_0, p0⟩] : List (View.Piece (Elt F) S5000x64 .f32)), y ∈ pc.1.set :=
  View.cover_of_tiled [⟨r9_0, p0⟩] S5000x64.size (by rfl) y

/-! ## The body's triple -/

set_option maxHeartbeats 1000000 in
/-- The kernel body on whole staging memrefs, the inputs' at read contents `xW` and the output's at anything, runs to
    the continuation holding the inputs' as they were and the output's at `out9_6` of the inputs': the printed function
    is its skeleton, run one memory operation at a time. -/
theorem sound_kernel9 (c : Dev nD) (E : Set ℕ) (i : grid9.Coords) (arg1 : Memref sig .tc .vmem S5000x64 .f32) (harg1 : arg1.IsWhole) (arg2 : Memref sig .tc .vmem S5000x1 .f32) (harg2 : arg2.IsWhole) (arg3 : Memref sig .tc .vmem S5000x64 .f32) (harg3 : arg3.IsWhole) (arg4 : Memref sig .tc .vmem S64x64 .f32) (harg4 : arg4.IsWhole) (arg5 : Memref sig .tc .vmem S64 .f32) (harg5 : arg5.IsWhole) (arg6 : Memref sig .tc .vmem S64x64 .f32) (harg6 : arg6.IsWhole) (arg7 : Memref sig .tc .vmem S5000x64 .f32) (harg7 : arg7.IsWhole)
    (x0 : Vec F S5000x64 .f32) (x1 : Vec F S5000x1 .f32) (x2 : Vec F S5000x64 .f32) (x3 : Vec F S64x64 .f32) (x4 : Vec F S64 .f32) (x5 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out9_6 x0 x1 x2 x3 x4 x5)) -∗ K ⟨⟩))
      ⊢ wp frame (wpE (defs₀ (F := F)) Variants.none c none) E (cc9__sage_combine_kernel i arg1 harg1 arg2 harg2 arg3 harg3 arg4 harg4 arg5 harg5 arg6 harg6 arg7 harg7) K := by
  simp only [cc9__sage_combine_kernel_eq_skeleton]; unfold cc9__sage_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover9_6 _)

/-! ## The pipeline's proof data -/

/-- The proof data of pipeline 9 on core `c`: the arrays as the region finds them (`V`); after the body at
    point `t` each input's buffer at its block and the output's at `out9_6` of the input blocks; the invariant the
    scoped rest and the generator register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => iblk9 V c 5 t
    | ⟨6, _⟩ => out9_6 (iblk9 V c 0 t) (iblk9 V c 1 t) (iblk9 V c 2 t) (iblk9 V c 3 t) (iblk9 V c 4 t) (iblk9 V c 5 t)
  Φ _ := Pipeline.ΦA spec9 c
  q _ := fullShare
  owed _ := 0

/-- The proof data's arrays are the region-entry contents (the proof data's definition projected). -/
theorem A_eq9 (c : Dev nD) (w : Fin cfg9.W) : (dat9 V c).A w = V c (Pipeline.arrRef spec9 w) := by
  dsimp only [dat9]

/-- What the body leaves, window by window (the proof data's `match` reduced). -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = iblk9 V c 5 t := by dsimp only [dat9]
theorem after9_6 (c : Dev nD) (t : Fin cfg9.N) : (dat9 V c).after 6 t = out9_6 (iblk9 V c 0 t) (iblk9 V c 1 t) (iblk9 V c 2 t) (iblk9 V c 3 t) (iblk9 V c 4 t) (iblk9 V c 5 t) := by dsimp only [dat9]

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d
theorem before9_5 (c : Dev nD) (t : Fin cfg9.N) (d) : (dat9 V c).before 5 t d = iblk9 V c 5 t :=
  before9_5_of V (dat9 V c) (A_eq9 V c 5) (after9_5 V c) t d

/-! ## The body obligation, at a generic point -/

/-- What the body is called with at point `t` (the obligation's precondition, the windows one by one), -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d))
    ∗ (∃ d, owns (c : Thread nD τ) (st9_6 t) fullShare ((dat9 V c).before 6 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t)
    ∗ owns (c : Thread nD τ) (st9_6 t) fullShare ((dat9 V c).after 6 t))

/-- The body at any point: the inputs' memrefs hold their blocks (`before9_W`), so `sound_kernel9` applies; the
    invariant and the core's `owes` pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4, before9_5]
  rw [show (dat9 V c).Φ t.succ = (dat9 V c).Φ t.castSucc from rfl,
    show (dat9 V c).owesAt () t.succ = (dat9 V c).owesAt () t.castSucc from rfl,
    after9_0, after9_1, after9_2, after9_3, after9_4, after9_5, after9_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel9 c Set.univ (grid9.coords t) _ _ _ _ _ _ _ _ _ _ _ _ _ _ (iblk9 V c 0 t) (iblk9 V c 1 t) (iblk9 V c 2 t) (iblk9 V c 3 t) (iblk9 V c 4 t) (iblk9 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.KernelIdeal.Fr
-- ==== Proof.KI.R10.lean ====
/- The frame of REGION 10 of @main — custom_call 10, the SAGE combine kernel `cc10__sage_combine_kernel` (pipeline 10) —
   at a PARAMETER `V`, the TensorCore's buffer contents when the region is entered: each window's block at a grid
   point (`iblk10`), what the body leaves in the output window's staging buffer (`out10_6`: the one store of the
   whole block, its payload the normalised, rectified sum of the two products and the bias, over the six blocks read
   whole), the body's triple (`sound_kernel10`), the proof data (`dat10`) and the body obligation
   (`body_obligation10`). One control case: the body reads each input's staging buffer whole and writes the output's
   whole. -/
import proofs.«173191_j73083163508880_2_alg».proof.Proof.Gen.KernelIdeal.Launch
import proofs.«173191_j73083163508880_2_alg».proof.Proof.Gen.KernelIdeal.Skeleton
import proofs.«173191_j73083163508880_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 10 of @main: custom_call 10, `cc10__sage_combine_kernel` (pipeline 10), at the entry contents `V` -/

/-! ## The windows' blocks -/

/-- Window `w`'s block at point `t`, read off its array as the region finds it (`V`). -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's current staging buffer holds its block at every point, fetched there or not, for ANY proof
    data whose array is `V`'s (`hA`) and whose body leaves the block in place (`hafter`): unfetched, the block index
    has not moved, so the block kept from the point before is this point's; the window is uncut and never idle. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Input window 1's current staging buffer holds its block at every point, fetched there or not, for ANY proof
    data whose array is `V`'s (`hA`) and whose body leaves the block in place (`hafter`): unfetched, the block index
    has not moved, so the block kept from the point before is this point's; the window is uncut and never idle. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- Input window 2's current staging buffer holds its block at every point, fetched there or not, for ANY proof
    data whose array is `V`'s (`hA`) and whose body leaves the block in place (`hafter`): unfetched, the block index
    has not moved, so the block kept from the point before is this point's; the window is uncut and never idle. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-- Input window 3's current staging buffer holds its block at every point, fetched there or not, for ANY proof
    data whose array is `V`'s (`hA`) and whose body leaves the block in place (`hafter`): unfetched, the block index
    has not moved, so the block kept from the point before is this point's; the window is uncut and never idle. -/
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)

/-- Input window 4's current staging buffer holds its block at every point, fetched there or not, for ANY proof
    data whose array is `V`'s (`hA`) and whose body leaves the block in place (`hafter`): unfetched, the block index
    has not moved, so the block kept from the point before is this point's; the window is uncut and never idle. -/
theorem before10_4_of {c : Dev nD} (dat : Dat τ (Elt F) Unit ℕ (UR sig nD τ) ℕ cfg10 c) (hA : dat.A 4 = V c (Pipeline.arrRef spec10 4))
    (hafter : ∀ t, dat.after 4 t = iblk10 V c 4 t) (t : Fin cfg10.N) (d) : dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)

/-- Input window 5's current staging buffer holds its block at every point, fetched there or not, for ANY proof
    data whose array is `V`'s (`hA`) and whose body leaves the block in place (`hafter`): unfetched, the block index
    has not moved, so the block kept from the point before is this point's; the window is uncut and never idle. -/
theorem before10_5_of {c : Dev nD} (dat : Dat τ (Elt F) Unit ℕ (UR sig nD τ) ℕ cfg10 c) (hA : dat.A 5 = V c (Pipeline.arrRef spec10 5))
    (hafter : ∀ t, dat.after 5 t = iblk10 V c 5 t) (t : Fin cfg10.N) (d) : dat.before 5 t d = iblk10 V c 5 t :=
  (dat.before_in_eq_fetched 5 rfl (fun _ => rfl) (fun _ _ _ => rfl) (fun t => by rw [hafter]; unfold Dat.blockOf iblk10; rw [hA]; try rfl) t d).trans
    (by unfold Dat.fetched Dat.blockOf iblk10; rw [hA]; try rfl)

/-! ## The body's accesses -/

abbrev r10_0 : Rect S5000x64 := Rect.unit (s := S5000x64) ![0, 0] S5000x64.size inb_S5000x64_S5000x64_0_0
abbrev r10_1 : Rect S5000x1 := Rect.unit (s := S5000x1) ![0, 0] S5000x1.size inb_S5000x1_S5000x1_0_0
abbrev r10_2 : Rect S64x64 := Rect.unit (s := S64x64) ![0, 0] S64x64.size inb_S64x64_S64x64_0_0
abbrev r10_3 : Rect S64 := Rect.unit (s := S64) ![0] S64.size inb_S64_S64_0

/-! ## What the body leaves in the output window's buffer -/

/-- Window 6's staging buffer after the body, from the input windows' blocks: its 1 store as pieces, LAST
    FIRST; the payload is the skeleton's, applied to the six blocks read whole. -/
def out10_6 (x0 : Vec F S5000x64 .f32) (x1 : Vec F S5000x1 .f32) (x2 : Vec F S5000x64 .f32) (x3 : Vec F S64x64 .f32) (x4 : Vec F S64 .f32) (x5 : Vec F S64x64 .f32) : Vec F S5000x64 .f32 :=
  View.canon [⟨r10_0, k10_pay1 (View.ld x0 r10_0) (View.ld x1 r10_1) (View.ld x2 r10_0) (View.ld x3 r10_2) (View.ld x5 r10_2) (View.ld x4 r10_3)⟩]

/-- Its store is of the whole block, so it covers the buffer (checked by evaluation). -/
theorem cover10_6 (p0 : Vec F S5000x64 .f32) (y : S5000x64.Idx) :
    ∃ pc ∈ ([⟨r10_0, p0⟩] : List (View.Piece (Elt F) S5000x64 .f32)), y ∈ pc.1.set :=
  View.cover_of_tiled [⟨r10_0, p0⟩] S5000x64.size (by rfl) y

/-! ## The body's triple -/

set_option maxHeartbeats 1000000 in
/-- The kernel body on whole staging memrefs, the inputs' at read contents `xW` and the output's at anything, runs to
    the continuation holding the inputs' as they were and the output's at `out10_6` of the inputs': the printed function
    is its skeleton, run one memory operation at a time. -/
theorem sound_kernel10 (c : Dev nD) (E : Set ℕ) (i : grid10.Coords) (arg1 : Memref sig .tc .vmem S5000x64 .f32) (harg1 : arg1.IsWhole) (arg2 : Memref sig .tc .vmem S5000x1 .f32) (harg2 : arg2.IsWhole) (arg3 : Memref sig .tc .vmem S5000x64 .f32) (harg3 : arg3.IsWhole) (arg4 : Memref sig .tc .vmem S64x64 .f32) (harg4 : arg4.IsWhole) (arg5 : Memref sig .tc .vmem S64 .f32) (harg5 : arg5.IsWhole) (arg6 : Memref sig .tc .vmem S64x64 .f32) (harg6 : arg6.IsWhole) (arg7 : Memref sig .tc .vmem S5000x64 .f32) (harg7 : arg7.IsWhole)
    (x0 : Vec F S5000x64 .f32) (x1 : Vec F S5000x1 .f32) (x2 : Vec F S5000x64 .f32) (x3 : Vec F S64x64 .f32) (x4 : Vec F S64 .f32) (x5 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out10_6 x0 x1 x2 x3 x4 x5)) -∗ K ⟨⟩))
      ⊢ wp frame (wpE (defs₀ (F := F)) Variants.none c none) E (cc10__sage_combine_kernel i arg1 harg1 arg2 harg2 arg3 harg3 arg4 harg4 arg5 harg5 arg6 harg6 arg7 harg7) K := by
  simp only [cc10__sage_combine_kernel_eq_skeleton]; unfold cc10__sage_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover10_6 _)

/-! ## The pipeline's proof data -/

/-- The proof data of pipeline 10 on core `c`: the arrays as the region finds them (`V`); after the body at
    point `t` each input's buffer at its block and the output's at `out10_6` of the input blocks; the invariant the
    scoped rest and the generator register, untouched; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => iblk10 V c 5 t
    | ⟨6, _⟩ => out10_6 (iblk10 V c 0 t) (iblk10 V c 1 t) (iblk10 V c 2 t) (iblk10 V c 3 t) (iblk10 V c 4 t) (iblk10 V c 5 t)
  Φ _ := Pipeline.ΦA spec10 c
  q _ := fullShare
  owed _ := 0

/-- The proof data's arrays are the region-entry contents (the proof data's definition projected). -/
theorem A_eq10 (c : Dev nD) (w : Fin cfg10.W) : (dat10 V c).A w = V c (Pipeline.arrRef spec10 w) := by
  dsimp only [dat10]

/-- What the body leaves, window by window (the proof data's `match` reduced). -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) : (dat10 V c).after 5 t = iblk10 V c 5 t := by dsimp only [dat10]
theorem after10_6 (c : Dev nD) (t : Fin cfg10.N) : (dat10 V c).after 6 t = out10_6 (iblk10 V c 0 t) (iblk10 V c 1 t) (iblk10 V c 2 t) (iblk10 V c 3 t) (iblk10 V c 4 t) (iblk10 V c 5 t) := by dsimp only [dat10]

/-- Each input's current staging buffer holds its block at every point, fetched there or not. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d
theorem before10_4 (c : Dev nD) (t : Fin cfg10.N) (d) : (dat10 V c).before 4 t d = iblk10 V c 4 t :=
  before10_4_of V (dat10 V c) (A_eq10 V c 4) (after10_4 V c) t d
theorem before10_5 (c : Dev nD) (t : Fin cfg10.N) (d) : (dat10 V c).before 5 t d = iblk10 V c 5 t :=
  before10_5_of V (dat10 V c) (A_eq10 V c 5) (after10_5 V c) t d

/-! ## The body obligation, at a generic point -/

/-- What the body is called with at point `t` (the obligation's precondition, the windows one by one), -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d))
    ∗ (∃ d, owns (c : Thread nD τ) (st10_6 t) fullShare ((dat10 V c).before 6 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t)
    ∗ owns (c : Thread nD τ) (st10_5 t) fullShare ((dat10 V c).after 5 t)
    ∗ owns (c : Thread nD τ) (st10_6 t) fullShare ((dat10 V c).after 6 t))

/-- The body at any point: the inputs' memrefs hold their blocks (`before10_W`), so `sound_kernel10` applies; the
    invariant and the core's `owes` pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4, before10_5]
  rw [show (dat10 V c).Φ t.succ = (dat10 V c).Φ t.castSucc from rfl,
    show (dat10 V c).owesAt () t.succ = (dat10 V c).owesAt () t.castSucc from rfl,
    after10_0, after10_1, after10_2, after10_3, after10_4, after10_5, after10_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel10 c Set.univ (grid10.coords t) _ _ _ _ _ _ _ _ _ _ _ _ _ _ (iblk10 V c 0 t) (iblk10 V c 1 t) (iblk10 V c 2 t) (iblk10 V c 3 t) (iblk10 V c 4 t) (iblk10 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.KernelIdeal.Fr
-- ==== Proof.KI.R11.lean ====
/- The frame of REGION 11 of @main — custom_call 11, the SAGE combine kernel `cc11__sage_combine_kernel` (pipeline 11) —
   at a PARAMETER `V`, the TensorCore's buffer contents when the region is entered: each window's block at a grid
   point (`iblk11`), what the body leaves in the output window's staging buffer (`out11_6`: the one store of the
   whole block, its payload the normalised, rectified sum of the two products and the bias, over the six blocks read
   whole), the body's triple (`sound_kernel11`), the proof data (`dat11`) and the body obligation
   (`body_obligation11`). One control case: the body reads each input's staging buffer whole and writes the output's
   whole. -/
import proofs.«173191_j73083163508880_2_alg».proof.Proof.Gen.KernelIdeal.Launch
import proofs.«173191_j73083163508880_2_alg».proof.Proof.Gen.KernelIdeal.Skeleton
import proofs.«173191_j73083163508880_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 11 of @main: custom_call 11, `cc11__sage_combine_kernel` (pipeline 11), at the entry contents `V` -/

/-! ## The windows' blocks -/

/-- Window `w`'s block at point `t`, read off its array as the region finds it (`V`). -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0's current staging buffer holds its block at every point, fetched there or not, for ANY proof
    data whose array is `V`'s (`hA`) and whose body leaves the block in place (`hafter`): unfetched, the block index
    has not moved, so the block kept from the point before is this point's; the window is uncut and never idle. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

/-- Input window 1's current staging buffer holds its block at every point, fetched there or not, for ANY proof
    data whose array is `V`'s (`hA`) and whose body leaves the block in place (`hafter`): unfetched, the block index
    has not moved, so the block kept from the point before is this point's; the window is uncut and never idle. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-- Input window 2's current staging buffer holds its block at every point, fetched there or not, for ANY proof
    data whose array is `V`'s (`hA`) and whose body leaves the block in place (`hafter`): unfetched, the block index
    has not moved, so the block kept from the point before is this point's; the window is uncut and never idle. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

/-- Input window 3's current staging buffer holds its block at every point, fetched there or not, for ANY proof
    data whose array is `V`'s (`hA`) and whose body leaves the block in place (`hafter`): unfetched, the block index
    has not moved, so the block kept from the point before is this point's; the window is uncut and never idle. -/
theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)

/-- Input window 4's current staging buffer holds its block at every point, fetched there or not, for ANY proof
    data whose array is `V`'s (`hA`) and whose body leaves the block in place (`hafter`): unfetched, the block index
    has not moved, so the block kept from the point before is this point's; the window is uncut and never idle. -/
theorem before11_4_of {c : Dev nD} (dat : Dat τ (Elt F) Unit ℕ (UR sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)

/-- Input window 5's current staging buffer holds its block at every point, fetched there or not, for ANY proof
    data whose array is `V`'s (`hA`) and whose body leaves the block in place (`hafter`): unfetched, the block index
    has not moved, so the block kept from the point before is this point's; the window is uncut and never idle. -/
theorem before11_5_of {c : Dev nD} (dat : Dat τ (Elt F) Unit ℕ (UR sig nD τ) ℕ cfg11 c) (hA : dat.A 5 = V c (Pipeline.arrRef spec11 5))
    (hafter : ∀ t, dat.after 5 t = iblk11 V c 5 t) (t : Fin cfg11.N) (d) : dat.before 5 t d = iblk11 V c 5 t :=
  (dat.before_in_eq_fetched 5 rfl (fun _ => rfl) (fun _ _ _ => rfl) (fun t => by rw [hafter]; unfold Dat.blockOf iblk11; rw [hA]; try rfl) t d).trans
    (by unfold Dat.fetched Dat.blockOf iblk11; rw [hA]; try rfl)

/-! ## The body's accesses -/

abbrev r11_0 : Rect S5000x64 := Rect.unit (s := S5000x64) ![0, 0] S5000x64.size inb_S5000x64_S5000x64_0_0
abbrev r11_1 : Rect S5000x1 := Rect.unit (s := S5000x1) ![0, 0] S5000x1.size inb_S5000x1_S5000x1_0_0
abbrev r11_2 : Rect S64x64 := Rect.unit (s := S64x64) ![0, 0] S64x64.size inb_S64x64_S64x64_0_0
abbrev r11_3 : Rect S64 := Rect.unit (s := S64) ![0] S64.size inb_S64_S64_0

/-! ## What the body leaves in the output window's buffer -/

/-- Window 6's staging buffer after the body, from the input windows' blocks: its 1 store as pieces, LAST
    FIRST; the payload is the skeleton's, applied to the six blocks read whole. -/
def out11_6 (x0 : Vec F S5000x64 .f32) (x1 : Vec F S5000x1 .f32) (x2 : Vec F S5000x64 .f32) (x3 : Vec F S64x64 .f32) (x4 : Vec F S64 .f32) (x5 : Vec F S64x64 .f32) : Vec F S5000x64 .f32 :=
  View.canon [⟨r11_0, k11_pay1 (View.ld x0 r11_0) (View.ld x1 r11_1) (View.ld x2 r11_0) (View.ld x3 r11_2) (View.ld x5 r11_2) (View.ld x4 r11_3)⟩]

/-- Its store is of the whole block, so it covers the buffer (checked by evaluation). -/
theorem cover11_6 (p0 : Vec F S5000x64 .f32) (y : S5000x64.Idx) :
    ∃ pc ∈ ([⟨r11_0, p0⟩] : List (View.Piece (Elt F) S5000x64 .f32)), y ∈ pc.1.set :=
  View.cover_of_tiled [⟨r11_0, p0⟩] S5000x64.size (by rfl) y

/-! ## The body's triple -/

set_option maxHeartbeats 1000000 in
/-- The kernel body on whole staging memrefs, the inputs' at read contents `xW` and the output's at anything, runs to
    the continuation holding the inputs' as they were and the output's at `out11_6` of the inputs': the printed function
    is its skeleton, run one memory operation at a time. -/
theorem sound_kernel11 (c : Dev nD) (E : Set ℕ) (i : grid11.Coords) (arg1 : Memref sig .tc .vmem S5000x64 .f32) (harg1 : arg1.IsWhole) (arg2 : Memref sig .tc .vmem S5000x1 .f32) (harg2 : arg2.IsWhole) (arg3 : Memref sig .tc .vmem S5000x64 .f32) (harg3 : arg3.IsWhole) (arg4 : Memref sig .tc .vmem S64x64 .f32) (harg4 : arg4.IsWhole) (arg5 : Memref sig .tc .vmem S64 .f32) (harg5 : arg5.IsWhole) (arg6 : Memref sig .tc .vmem S64x64 .f32) (harg6 : arg6.IsWhole) (arg7 : Memref sig .tc .vmem S5000x64 .f32) (harg7 : arg7.IsWhole)
    (x0 : Vec F S5000x64 .f32) (x1 : Vec F S5000x1 .f32) (x2 : Vec F S5000x64 .f32) (x3 : Vec F S64x64 .f32) (x4 : Vec F S64 .f32) (x5 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out11_6 x0 x1 x2 x3 x4 x5)) -∗ K ⟨⟩))
      ⊢ wp frame (wpE (defs₀ (F := F)) Variants.none c none) E (cc11__sage_combine_kernel i arg1 harg1 arg2 harg2 arg3 harg3 arg4 harg4 arg5 harg5 arg6 harg6 arg7 harg7) K := by
  simp only [cc11__sage_combine_kernel_eq_skeleton]; unfold cc11__sage_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover11_6 _)

/-! ## The pipeline's proof data -/

/-- The proof data of pipeline 11 on core `c`: the arrays as the region finds them (`V`); after the body at
    point `t` each input's buffer at its block and the output's at `out11_6` of the input blocks; the invariant the
    scoped rest and the generator register, untouched; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => iblk11 V c 5 t
    | ⟨6, _⟩ => out11_6 (iblk11 V c 0 t) (iblk11 V c 1 t) (iblk11 V c 2 t) (iblk11 V c 3 t) (iblk11 V c 4 t) (iblk11 V c 5 t)
  Φ _ := Pipeline.ΦA spec11 c
  q _ := fullShare
  owed _ := 0

/-- The proof data's arrays are the region-entry contents (the proof data's definition projected). -/
theorem A_eq11 (c : Dev nD) (w : Fin cfg11.W) : (dat11 V c).A w = V c (Pipeline.arrRef spec11 w) := by
  dsimp only [dat11]

/-- What the body leaves, window by window (the proof data's `match` reduced). -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t = iblk11 V c 5 t := by dsimp only [dat11]
theorem after11_6 (c : Dev nD) (t : Fin cfg11.N) : (dat11 V c).after 6 t = out11_6 (iblk11 V c 0 t) (iblk11 V c 1 t) (iblk11 V c 2 t) (iblk11 V c 3 t) (iblk11 V c 4 t) (iblk11 V c 5 t) := by dsimp only [dat11]

/-- Each input's current staging buffer holds its block at every point, fetched there or not. -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d
theorem before11_4 (c : Dev nD) (t : Fin cfg11.N) (d) : (dat11 V c).before 4 t d = iblk11 V c 4 t :=
  before11_4_of V (dat11 V c) (A_eq11 V c 4) (after11_4 V c) t d
theorem before11_5 (c : Dev nD) (t : Fin cfg11.N) (d) : (dat11 V c).before 5 t d = iblk11 V c 5 t :=
  before11_5_of V (dat11 V c) (A_eq11 V c 5) (after11_5 V c) t d

/-! ## The body obligation, at a generic point -/

/-- What the body is called with at point `t` (the obligation's precondition, the windows one by one), -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d))
    ∗ (∃ d, owns (c : Thread nD τ) (st11_6 t) fullShare ((dat11 V c).before 6 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t)
    ∗ owns (c : Thread nD τ) (st11_6 t) fullShare ((dat11 V c).after 6 t))

/-- The body at any point: the inputs' memrefs hold their blocks (`before11_W`), so `sound_kernel11` applies; the
    invariant and the core's `owes` pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4, before11_5]
  rw [show (dat11 V c).Φ t.succ = (dat11 V c).Φ t.castSucc from rfl,
    show (dat11 V c).owesAt () t.succ = (dat11 V c).owesAt () t.castSucc from rfl,
    after11_0, after11_1, after11_2, after11_3, after11_4, after11_5, after11_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel11 c Set.univ (grid11.coords t) _ _ _ _ _ _ _ _ _ _ _ _ _ _ (iblk11 V c 0 t) (iblk11 V c 1 t) (iblk11 V c 2 t) (iblk11 V c 3 t) (iblk11 V c 4 t) (iblk11 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation11 (c : Dev nD) : BodyObligation (dat11 (F := F) V c) (defs₀ (F := F)) Variants.none () Set.univ := fun t => by
  rw [bigSep_W11, bigSep_W11]
  exact sound_body11 V c t

end Cert.KernelIdeal.Fr
-- ==== Proof.KI.R12.lean ====
import proofs.«173191_j73083163508880_2_alg».proof.Proof.Gen.KernelIdeal.Launch
import proofs.«173191_j73083163508880_2_alg».proof.Proof.Gen.KernelIdeal.Skeleton
import proofs.«173191_j73083163508880_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the elaborator's structural look recurses once per coordinate
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # The tiled matrix product `cc12__matmul_kernel` (pipeline 12), at the entry contents `V`

Each of the 20 grid points reads a [5000,64] block of the left factor and the whole [64,64] right factor, rounds both
to bf16, and stores their product (accumulated in f32 from zero) over the whole [5000,64] output block. -/

/-! ## The windows' blocks -/

/-- Window `w`'s block at point `t`, read off its array as the region finds it (`V`). -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- Input window 0 (the left factor's row block) holds its block at every point, for any proof data whose array is
    `V`'s and whose body leaves the block in place: the window is uncut and never idle. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

/-- Input window 1 (the right factor, one constant block fetched at the first point only) holds its block at every
    point: where it is not fetched its block index has not moved. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-! ## The body's accesses -/

/-- The whole [5000,64] block. -/
abbrev r12_0 : Rect S5000x64 := Rect.unit (s := S5000x64) ![0, 0] S5000x64.size inb_S5000x64_S5000x64_0_0
/-- The whole [64,64] right factor. -/
abbrev r12_1 : Rect S64x64 := Rect.unit (s := S64x64) ![0, 0] S64x64.size inb_S64x64_S64x64_0_0

/-! ## What the body leaves in the output window's buffer -/

/-- Window 2's staging buffer after the body, from the input windows' blocks: its one store, of the product of the
    two blocks as the skeleton's payload computes it, over the whole block. -/
def out12_2 (x0 : Vec F S5000x64 .f32) (x1 : Vec F S64x64 .f32) : Vec F S5000x64 .f32 :=
  View.canon [⟨r12_0, k12_pay1 (View.ld x0 r12_0) (View.ld x1 r12_1)⟩]

/-- The store's rectangle is the whole buffer, so it covers it. -/
theorem cover12_2 (p0 : Vec F S5000x64 .f32) (y : S5000x64.Idx) :
    ∃ pc ∈ ([⟨r12_0, p0⟩] : List (View.Piece (Elt F) S5000x64 .f32)), y ∈ pc.1.set :=
  View.cover_of_tiled [⟨r12_0, p0⟩] S5000x64.size (by rfl) y

/-! ## The body's triple -/

set_option maxHeartbeats 1000000 in
/-- The kernel body on whole staging memrefs, the inputs' at read contents `x0`, `x1` and the output's at anything,
    runs to the continuation holding the inputs' as they were and the output's at `out12_2` of the inputs'. -/
theorem sound_kernel12 (c : Dev nD) (E : Set ℕ) (i : grid12.Coords) (arg1 : Memref sig .tc .vmem S5000x64 .f32) (harg1 : arg1.IsWhole) (arg2 : Memref sig .tc .vmem S64x64 .f32) (harg2 : arg2.IsWhole) (arg3 : Memref sig .tc .vmem S5000x64 .f32) (harg3 : arg3.IsWhole)
    (x0 : Vec F S5000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out12_2 x0 x1)) -∗ K ⟨⟩))
      ⊢ wp frame (wpE (defs₀ (F := F)) Variants.none c none) E (cc12__matmul_kernel i arg1 harg1 arg2 harg2 arg3 harg3) K := by
  simp only [cc12__matmul_kernel_eq_skeleton]; unfold cc12__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover12_2 _)

/-! ## The pipeline's proof data -/

/-- The proof data of pipeline 12 on core `c`: the arrays as the region finds them (`V`); after the body at point
    `t` each input's buffer at its block and the output's at `out12_2` of the input blocks; the invariant the scoped
    rest and the generator register, untouched; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => out12_2 (iblk12 V c 0 t) (iblk12 V c 1 t)
  Φ _ := Pipeline.ΦA spec12 c
  q _ := fullShare
  owed _ := 0

/-- The proof data's arrays are the region-entry contents. -/
theorem A_eq12 (c : Dev nD) (w : Fin cfg12.W) : (dat12 V c).A w = V c (Pipeline.arrRef spec12 w) := by
  dsimp only [dat12]

/-- What the body leaves, window by window. -/
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = out12_2 (iblk12 V c 0 t) (iblk12 V c 1 t) := by dsimp only [dat12]

/-- Each input's current staging buffer holds its block at every point, fetched there or not. -/
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d

/-! ## The body obligation, at a generic point -/

/-- What the body is called with at point `t`, the windows one by one, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t))

/-- The body at any point: the inputs' memrefs hold their blocks, so `sound_kernel12` applies; the invariant and the
    core's `owes` pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1]
  rw [show (dat12 V c).Φ t.succ = (dat12 V c).Φ t.castSucc from rfl,
    show (dat12 V c).owesAt () t.succ = (dat12 V c).owesAt () t.castSucc from rfl,
    after12_0, after12_1, after12_2]
  iintro ⟨HΦ, Ho, ⟨%d0, H0⟩, ⟨%d1, H1⟩, ⟨%d2, H2⟩⟩
  iapply (sound_kernel12 c Set.univ _ _ _ _ _ _ _ (iblk12 V c 0 t) (iblk12 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation12 (c : Dev nD) : BodyObligation (dat12 (F := F) V c) (defs₀ (F := F)) Variants.none () Set.univ := fun t => by
  rw [bigSep_W12, bigSep_W12]
  exact sound_body12 V c t

end Cert.KernelIdeal.Fr

end
-- ==== Proof.KI.R13.lean ====
import proofs.«173191_j73083163508880_2_alg».proof.Proof.Gen.KernelIdeal.Launch
import proofs.«173191_j73083163508880_2_alg».proof.Proof.Gen.KernelIdeal.Skeleton
import proofs.«173191_j73083163508880_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the blocks' extents recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 13: the GCN combine with column statistics, at the entry contents `V`

The body has three control cases over the 20 grid points: the first point zeroes the two accumulators
before accumulating, the middle points only accumulate, the last point also copies the accumulators
to the two statistics outputs. -/

/-! ## The windows' blocks -/

/-- Window `w`'s block at point `t`, read off its array as the region finds it. -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- Input window 0's current staging buffer holds its block at every point, fetched there or not, for any proof
    data whose array is the entry contents and whose body leaves the block in place. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

/-- Input window 1's current staging buffer holds its block at every point, fetched there or not, for any proof
    data whose array is the entry contents and whose body leaves the block in place. -/
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

/-- Input window 2's current staging buffer holds its block at every point, fetched there or not, for any proof
    data whose array is the entry contents and whose body leaves the block in place. -/
theorem before13_2_of {c : Dev nD} (dat : Dat τ (Elt F) Unit ℕ (UR sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)

/-- Input window 3's current staging buffer holds its block at every point, fetched there or not, for any proof
    data whose array is the entry contents and whose body leaves the block in place. -/
theorem before13_3_of {c : Dev nD} (dat : Dat τ (Elt F) Unit ℕ (UR sig nD τ) ℕ cfg13 c) (hA : dat.A 3 = V c (Pipeline.arrRef spec13 3))
    (hafter : ∀ t, dat.after 3 t = iblk13 V c 3 t) (t : Fin cfg13.N) (d) : dat.before 3 t d = iblk13 V c 3 t :=
  (dat.before_in_eq_fetched 3 rfl (fun _ => rfl) (fun _ _ _ => rfl) (fun t => by rw [hafter]; unfold Dat.blockOf iblk13; rw [hA]; try rfl) t d).trans
    (by unfold Dat.fetched Dat.blockOf iblk13; rw [hA]; try rfl)

/-! ## The body's two conditions, in closed form -/

/-- "This is the first grid point": the condition of the zeroing branch, from the grid coordinates. -/
abbrev cond13_0 (i : grid13.Coords) : Prop := (Scalar.cmpi .ne (Scalar.extui (Scalar.cmpi .eq (BitVec.ofNat 32 (i 0).val) 0#32)) 0#32) = 1#1
/-- It holds at the first point only. -/
theorem hcond13_0 : ∀ t : Fin cfg13.N, cond13_0 (grid13.coords t) ↔ t.val % 20 = 0 :=
  (by decide +kernel : ∀ t : Fin grid13.N, cond13_0 (grid13.coords t) ↔ t.val % 20 = 0)

/-- "This is the last grid point": the condition of the branch that writes the statistics out. -/
abbrev cond13_1 (i : grid13.Coords) : Prop := k13_cond2 i = 1#1
/-- It holds at the last point only. -/
theorem hcond13_1 : ∀ t : Fin cfg13.N, cond13_1 (grid13.coords t) ↔ t.val % 20 = 19 :=
  (by decide +kernel : ∀ t : Fin grid13.N, cond13_1 (grid13.coords t) ↔ t.val % 20 = 19)

/-! ## Where the windows are idle -/

/-- Window 0 is never idle. -/
theorem liveAt13_0 : ∀ t : Fin cfg13.N, cfg13.idle 0 (grid13.coords t) = false := by decide +kernel
/-- Window 1 is never idle. -/
theorem liveAt13_1 : ∀ t : Fin cfg13.N, cfg13.idle 1 (grid13.coords t) = false := by decide +kernel
/-- Window 2 is never idle. -/
theorem liveAt13_2 : ∀ t : Fin cfg13.N, cfg13.idle 2 (grid13.coords t) = false := by decide +kernel
/-- Window 3 is never idle. -/
theorem liveAt13_3 : ∀ t : Fin cfg13.N, cfg13.idle 3 (grid13.coords t) = false := by decide +kernel
/-- Window 4 is never idle. -/
theorem liveAt13_4 : ∀ t : Fin cfg13.N, cfg13.idle 4 (grid13.coords t) = false := by decide +kernel
/-- Away from the last point nothing is stored into output 5: the window is idle there, -/
theorem idleAt13_5 : ∀ t : Fin cfg13.N, ¬cond13_1 (grid13.coords t) → cfg13.idle 5 (grid13.coords t) = true := by decide +kernel
/-- and its block is not written back there. -/
theorem noFlush13_5 : ∀ t : Fin cfg13.N, ¬cond13_1 (grid13.coords t) → (cfg13.win 5).flush t = false := by decide +kernel
/-- At the last point output 5 is live. -/
theorem liveAt13_5 : ∀ t : Fin cfg13.N, cond13_1 (grid13.coords t) → cfg13.idle 5 (grid13.coords t) = false := by decide +kernel
/-- Away from the last point nothing is stored into output 6: the window is idle there, -/
theorem idleAt13_6 : ∀ t : Fin cfg13.N, ¬cond13_1 (grid13.coords t) → cfg13.idle 6 (grid13.coords t) = true := by decide +kernel
/-- and its block is not written back there. -/
theorem noFlush13_6 : ∀ t : Fin cfg13.N, ¬cond13_1 (grid13.coords t) → (cfg13.win 6).flush t = false := by decide +kernel
/-- At the last point output 6 is live. -/
theorem liveAt13_6 : ∀ t : Fin cfg13.N, cond13_1 (grid13.coords t) → cfg13.idle 6 (grid13.coords t) = false := by decide +kernel

/-! ## The memrefs the body is called with -/

/-- One staging buffer of each output window, through which its contents are stated (the choice does not matter). -/
abbrev VO13_4 : View sig .tc .vmem S5000x64 .f32 := (Memref.whole cc13_stg4_0 : Memref sig .tc .vmem S5000x64 .f32).view
abbrev VO13_5 : View sig .tc .vmem S1x64 .f32 := (Memref.whole cc13_stg5_0 : Memref sig .tc .vmem S1x64 .f32).view
abbrev VO13_6 : View sig .tc .vmem S1x64 .f32 := (Memref.whole cc13_stg6_0 : Memref sig .tc .vmem S1x64 .f32).view
/-- Each window's current staging memref at point `t`, as the pipeline passes it, and its wholeness. -/
abbrev ms13_0 (t : Fin cfg13.N) : Memref sig .tc .vmem S5000x64 .f32 := win13_0.stage (cfg13.slots t 0)
abbrev hs13_0 (t : Fin cfg13.N) : (ms13_0 t).IsWhole := hstage13_0 ((cfg13.slots t 0).cast nbuf13_0)
abbrev ms13_1 (t : Fin cfg13.N) : Memref sig .tc .vmem S5000x64 .f32 := win13_1.stage (cfg13.slots t 1)
abbrev hs13_1 (t : Fin cfg13.N) : (ms13_1 t).IsWhole := hstage13_1 ((cfg13.slots t 1).cast nbuf13_1)
abbrev ms13_2 (t : Fin cfg13.N) : Memref sig .tc .vmem S5000x1 .f32 := win13_2.stage (cfg13.slots t 2)
abbrev hs13_2 (t : Fin cfg13.N) : (ms13_2 t).IsWhole := hstage13_2 ((cfg13.slots t 2).cast nbuf13_2)
abbrev ms13_3 (t : Fin cfg13.N) : Memref sig .tc .vmem S64 .f32 := win13_3.stage (cfg13.slots t 3)
abbrev hs13_3 (t : Fin cfg13.N) : (ms13_3 t).IsWhole := hstage13_3 ((cfg13.slots t 3).cast nbuf13_3)
abbrev ms13_4 (t : Fin cfg13.N) : Memref sig .tc .vmem S5000x64 .f32 := win13_4.stage (cfg13.slots t 4)
abbrev hs13_4 (t : Fin cfg13.N) : (ms13_4 t).IsWhole := hstage13_4 ((cfg13.slots t 4).cast nbuf13_4)
abbrev ms13_5 (t : Fin cfg13.N) : Memref sig .tc .vmem S1x64 .f32 := win13_5.stage (cfg13.slots t 5)
abbrev hs13_5 (t : Fin cfg13.N) : (ms13_5 t).IsWhole := hstage13_5 ((cfg13.slots t 5).cast nbuf13_5)
abbrev ms13_6 (t : Fin cfg13.N) : Memref sig .tc .vmem S1x64 .f32 := win13_6.stage (cfg13.slots t 6)
abbrev hs13_6 (t : Fin cfg13.N) : (ms13_6 t).IsWhole := hstage13_6 ((cfg13.slots t 6).cast nbuf13_6)
/-- The two accumulators: whole scoped buffers of the kernel's own, passed beside the windows, -/
abbrev scM13_0 : Memref sig .tc .vmem S1x64 .f32 := Memref.whole cc13_scratch0
abbrev scM13_1 : Memref sig .tc .vmem S1x64 .f32 := Memref.whole cc13_scratch1
/-- and as views, through which what they hold is stated. -/
abbrev VS13_0 : View sig .tc .vmem S1x64 .f32 := scM13_0.view
abbrev VS13_1 : View sig .tc .vmem S1x64 .f32 := scM13_1.view

/-- The class's invariant with the two accumulators as memrefs owned at some contents, every other scoped buffer
    unopened, and the generator register at some state. -/
theorem PhiA13_eq (c : Dev nD) :
    (Pipeline.ΦA spec13 c : sProp 𝕄)
      = iprop(iprop(iprop((∃ d, owns (c : Thread nD τ) scM13_0 fullShare d) ∗ (∃ d, owns (c : Thread nD τ) scM13_1 fullShare d))
          ∗ Pipeline.scopedRestBut (Ix := Unit) (Name := ℕ) (U := UR sig nD τ) (Lvl := ℕ) (Val := Elt F) spec13 c [cc13_scratch0, cc13_scratch1]) ∗ (∃ r, prngReg c r)) := by
  unfold Pipeline.ΦA; rw [scopedRest13_split]; simp only [scM13_0, scM13_1, owns_whole]; try rfl

/-! # Region 13: the body's run in each of its three control cases -/

-- (the run's proof term is large: the definition's epilogue walks it past the default budget)
set_option maxHeartbeats 4000000 in
/-- What the body's stores leave in each output's staging memref and in the two accumulators, as pieces (last first),
    AT the first grid point (the accumulators are zeroed, then accumulated into; the statistics outputs untouched), WITH the proof that on whole memrefs — the inputs' at their contents, a
    statistics output the case leaves alone at contents handed back untouched, the other outputs' at anything, the
    accumulators at what the point before left (at anything at the first point) — the body runs to the continuation
    holding the inputs' as they were and each stored buffer with its pieces written. The pieces are the witness the
    run finds. -/
noncomputable def kernelRun13_A (c : Dev nD) (i : grid13.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond13_0 i) (hc1 : ¬cond13_1 i)
    (x0 : Vec F S5000x64 .f32) (x1 : Vec F S5000x64 .f32) (x2 : Vec F S5000x1 .f32) (x3 : Vec F S64 .f32) :
    Σ' (L4 : List (View.Piece (Elt F) S5000x64 .f32)) (L5 : List (View.Piece (Elt F) S1x64 .f32)) (L6 : List (View.Piece (Elt F) S1x64 .f32)) (LS0 : List (View.Piece (Elt F) S1x64 .f32)), { LS1 : List (View.Piece (Elt F) S1x64 .f32) //
      ∀ (xi5 : Vec F S1x64 .f32) (xi6 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc13__gcn_combine_stats_kernel i arg1 harg1 arg2 harg2 arg3 harg3 arg4 harg4 arg5 harg5 arg6 harg6 arg7 harg7 arg8 harg8 arg9 harg9) K } := by
  refine ⟨?_, [], [], ?_, ?_, fun xi5 xi6 E K => ?run⟩
  case run =>
    simp only [cc13__gcn_combine_stats_kernel_eq_skeleton]; unfold cc13__gcn_combine_stats_kernel_skel
    simp only [k13_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

-- (the run's proof term is large: the definition's epilogue walks it past the default budget)
set_option maxHeartbeats 4000000 in
/-- What the body's stores leave in each output's staging memref and in the two accumulators, as pieces (last first),
    AT a middle grid point (the accumulators, at what the point before left, are accumulated into; the statistics outputs untouched), WITH the proof that on whole memrefs — the inputs' at their contents, a
    statistics output the case leaves alone at contents handed back untouched, the other outputs' at anything, the
    accumulators at what the point before left (at anything at the first point) — the body runs to the continuation
    holding the inputs' as they were and each stored buffer with its pieces written. The pieces are the witness the
    run finds. -/
noncomputable def kernelRun13_B (c : Dev nD) (i : grid13.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond13_0 i) (hc1 : ¬cond13_1 i)
    (x0 : Vec F S5000x64 .f32) (x1 : Vec F S5000x64 .f32) (x2 : Vec F S5000x1 .f32) (x3 : Vec F S64 .f32) (xs0 : Vec F S1x64 .f32) (xs1 : Vec F S1x64 .f32) :
    Σ' (L4 : List (View.Piece (Elt F) S5000x64 .f32)) (L5 : List (View.Piece (Elt F) S1x64 .f32)) (L6 : List (View.Piece (Elt F) S1x64 .f32)) (LS0 : List (View.Piece (Elt F) S1x64 .f32)), { LS1 : List (View.Piece (Elt F) S1x64 .f32) //
      ∀ (xi5 : Vec F S1x64 .f32) (xi6 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc13__gcn_combine_stats_kernel i arg1 harg1 arg2 harg2 arg3 harg3 arg4 harg4 arg5 harg5 arg6 harg6 arg7 harg7 arg8 harg8 arg9 harg9) K } := by
  refine ⟨?_, [], [], ?_, ?_, fun xi5 xi6 E K => ?run⟩
  case run =>
    simp only [cc13__gcn_combine_stats_kernel_eq_skeleton]; unfold cc13__gcn_combine_stats_kernel_skel
    simp only [k13_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hf6; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

-- (the run's proof term is large: the definition's epilogue walks it past the default budget)
set_option maxHeartbeats 4000000 in
/-- What the body's stores leave in each output's staging memref and in the two accumulators, as pieces (last first),
    AT the last grid point (the accumulators are accumulated into and then copied to the two statistics outputs), WITH the proof that on whole memrefs — the inputs' at their contents, a
    statistics output the case leaves alone at contents handed back untouched, the other outputs' at anything, the
    accumulators at what the point before left (at anything at the first point) — the body runs to the continuation
    holding the inputs' as they were and each stored buffer with its pieces written. The pieces are the witness the
    run finds. -/
noncomputable def kernelRun13_C (c : Dev nD) (i : grid13.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond13_0 i) (hc1 : cond13_1 i)
    (x0 : Vec F S5000x64 .f32) (x1 : Vec F S5000x64 .f32) (x2 : Vec F S5000x1 .f32) (x3 : Vec F S64 .f32) (xs0 : Vec F S1x64 .f32) (xs1 : Vec F S1x64 .f32) :
    Σ' (L4 : List (View.Piece (Elt F) S5000x64 .f32)) (L5 : List (View.Piece (Elt F) S1x64 .f32)) (L6 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc13__gcn_combine_stats_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc13__gcn_combine_stats_kernel_eq_skeleton]; unfold cc13__gcn_combine_stats_kernel_skel
    simp only [k13_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

/-! # Region 13: what the outputs and the accumulators hold point by point, the proof data, the body obligation -/

/-! ## What the body leaves at the first point -/

/-- At the first point the stores into output 4 tile its block, so they cover it. -/
theorem cover13_A_4 (c : Dev nD) (i : grid13.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond13_0 i) (hc1 : ¬cond13_1 i)
    (x0 : Vec F S5000x64 .f32) (x1 : Vec F S5000x64 .f32) (x2 : Vec F S5000x1 .f32) (x3 : Vec F S64 .f32) (y : S5000x64.Idx) :
    ∃ pc ∈ (kernelRun13_A c i arg1 harg1 arg2 harg2 arg3 harg3 arg4 harg4 arg5 harg5 arg6 harg6 arg7 harg7 arg8 harg8 arg9 harg9 hc0 hc1 x0 x1 x2 x3).1, y ∈ pc.1.set :=
  View.cover_of_tiledL (kernelRun13_A c i arg1 harg1 arg2 harg2 arg3 harg3 arg4 harg4 arg5 harg5 arg6 harg6 arg7 harg7 arg8 harg8 arg9 harg9 hc0 hc1 x0 x1 x2 x3).1 S5000x64.size (by sl_kernel_rfl) y

/-- What the first point leaves in output 4's staging buffer: its pieces read back over junk. -/
def out13_A_4 (c : Dev nD) (i : grid13.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond13_0 i) (hc1 : ¬cond13_1 i)
    (x0 : Vec F S5000x64 .f32) (x1 : Vec F S5000x64 .f32) (x2 : Vec F S5000x1 .f32) (x3 : Vec F S64 .f32) : Vec F S5000x64 .f32 :=
  VO13_4.read (Elt F) (VO13_4.writes (Elt F) VO13_4.junk (kernelRun13_A c i arg1 harg1 arg2 harg2 arg3 harg3 arg4 harg4 arg5 harg5 arg6 harg6 arg7 harg7 arg8 harg8 arg9 harg9 hc0 hc1 x0 x1 x2 x3).1)

/-- At the first point nothing is stored into output 5 (idle there, not written back): no pieces — a placeholder
    nothing consults. -/
def out13_A_5 (c : Dev nD) (i : grid13.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond13_0 i) (hc1 : ¬cond13_1 i)
    (x0 : Vec F S5000x64 .f32) (x1 : Vec F S5000x64 .f32) (x2 : Vec F S5000x1 .f32) (x3 : Vec F S64 .f32) : Vec F S1x64 .f32 :=
  VO13_5.read (Elt F) (VO13_5.writes (Elt F) VO13_5.junk (kernelRun13_A c i arg1 harg1 arg2 harg2 arg3 harg3 arg4 harg4 arg5 harg5 arg6 harg6 arg7 harg7 arg8 harg8 arg9 harg9 hc0 hc1 x0 x1 x2 x3).2.1)

/-- At the first point nothing is stored into output 6 (idle there, not written back): no pieces — a placeholder
    nothing consults. -/
def out13_A_6 (c : Dev nD) (i : grid13.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond13_0 i) (hc1 : ¬cond13_1 i)
    (x0 : Vec F S5000x64 .f32) (x1 : Vec F S5000x64 .f32) (x2 : Vec F S5000x1 .f32) (x3 : Vec F S64 .f32) : Vec F S1x64 .f32 :=
  VO13_6.read (Elt F) (VO13_6.writes (Elt F) VO13_6.junk (kernelRun13_A c i arg1 harg1 arg2 harg2 arg3 harg3 arg4 harg4 arg5 harg5 arg6 harg6 arg7 harg7 arg8 harg8 arg9 harg9 hc0 hc1 x0 x1 x2 x3).2.2.1)

/-- At the first point the stores into accumulator 0 cover it. -/
theorem scover13_A_0 (c : Dev nD) (i : grid13.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond13_0 i) (hc1 : ¬cond13_1 i)
    (x0 : Vec F S5000x64 .f32) (x1 : Vec F S5000x64 .f32) (x2 : Vec F S5000x1 .f32) (x3 : Vec F S64 .f32) (y : S1x64.Idx) :
    ∃ pc ∈ (kernelRun13_A c i arg1 harg1 arg2 harg2 arg3 harg3 arg4 harg4 arg5 harg5 arg6 harg6 arg7 harg7 arg8 harg8 arg9 harg9 hc0 hc1 x0 x1 x2 x3).2.2.2.1, y ∈ pc.1.set :=
  View.cover_of_tiledL (kernelRun13_A c i arg1 harg1 arg2 harg2 arg3 harg3 arg4 harg4 arg5 harg5 arg6 harg6 arg7 harg7 arg8 harg8 arg9 harg9 hc0 hc1 x0 x1 x2 x3).2.2.2.1 S1x64.size (by sl_kernel_rfl) y

/-- What the first point leaves in accumulator 0: its pieces read back over junk. -/
def sout13_A_0 (c : Dev nD) (i : grid13.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond13_0 i) (hc1 : ¬cond13_1 i)
    (x0 : Vec F S5000x64 .f32) (x1 : Vec F S5000x64 .f32) (x2 : Vec F S5000x1 .f32) (x3 : Vec F S64 .f32) : Vec F S1x64 .f32 :=
  VS13_0.read (Elt F) (VS13_0.writes (Elt F) VS13_0.junk (kernelRun13_A c i arg1 harg1 arg2 harg2 arg3 harg3 arg4 harg4 arg5 harg5 arg6 harg6 arg7 harg7 arg8 harg8 arg9 harg9 hc0 hc1 x0 x1 x2 x3).2.2.2.1)

/-- At the first point the stores into accumulator 1 cover it. -/
theorem scover13_A_1 (c : Dev nD) (i : grid13.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond13_0 i) (hc1 : ¬cond13_1 i)
    (x0 : Vec F S5000x64 .f32) (x1 : Vec F S5000x64 .f32) (x2 : Vec F S5000x1 .f32) (x3 : Vec F S64 .f32) (y : S1x64.Idx) :
    ∃ pc ∈ (kernelRun13_A c i arg1 harg1 arg2 harg2 arg3 harg3 arg4 harg4 arg5 harg5 arg6 harg6 arg7 harg7 arg8 harg8 arg9 harg9 hc0 hc1 x0 x1 x2 x3).2.2.2.2.1, y ∈ pc.1.set :=
  View.cover_of_tiledL (kernelRun13_A c i arg1 harg1 arg2 harg2 arg3 harg3 arg4 harg4 arg5 harg5 arg6 harg6 arg7 harg7 arg8 harg8 arg9 harg9 hc0 hc1 x0 x1 x2 x3).2.2.2.2.1 S1x64.size (by sl_kernel_rfl) y

/-- What the first point leaves in accumulator 1: its pieces read back over junk. -/
def sout13_A_1 (c : Dev nD) (i : grid13.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond13_0 i) (hc1 : ¬cond13_1 i)
    (x0 : Vec F S5000x64 .f32) (x1 : Vec F S5000x64 .f32) (x2 : Vec F S5000x1 .f32) (x3 : Vec F S64 .f32) : Vec F S1x64 .f32 :=
  VS13_1.read (Elt F) (VS13_1.writes (Elt F) VS13_1.junk (kernelRun13_A c i arg1 harg1 arg2 harg2 arg3 harg3 arg4 harg4 arg5 harg5 arg6 harg6 arg7 harg7 arg8 harg8 arg9 harg9 hc0 hc1 x0 x1 x2 x3).2.2.2.2.1)

/-! ## What the body leaves at a middle point -/

/-- At a middle point the stores into output 4 tile its block, so they cover it. -/
theorem cover13_B_4 (c : Dev nD) (i : grid13.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond13_0 i) (hc1 : ¬cond13_1 i)
    (x0 : Vec F S5000x64 .f32) (x1 : Vec F S5000x64 .f32) (x2 : Vec F S5000x1 .f32) (x3 : Vec F S64 .f32) (xs0 : Vec F S1x64 .f32) (xs1 : Vec F S1x64 .f32) (y : S5000x64.Idx) :
    ∃ pc ∈ (kernelRun13_B c i arg1 harg1 arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun13_B c i arg1 harg1 arg2 harg2 arg3 harg3 arg4 harg4 arg5 harg5 arg6 harg6 arg7 harg7 arg8 harg8 arg9 harg9 hc0 hc1 x0 x1 x2 x3 xs0 xs1).1 S5000x64.size (by sl_kernel_rfl) y

/-- What a middle point leaves in output 4's staging buffer: its pieces read back over junk. -/
def out13_B_4 (c : Dev nD) (i : grid13.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond13_0 i) (hc1 : ¬cond13_1 i)
    (x0 : Vec F S5000x64 .f32) (x1 : Vec F S5000x64 .f32) (x2 : Vec F S5000x1 .f32) (x3 : Vec F S64 .f32) (xs0 : Vec F S1x64 .f32) (xs1 : Vec F S1x64 .f32) : Vec F S5000x64 .f32 :=
  VO13_4.read (Elt F) (VO13_4.writes (Elt F) VO13_4.junk (kernelRun13_B c i arg1 harg1 arg2 harg2 arg3 harg3 arg4 harg4 arg5 harg5 arg6 harg6 arg7 harg7 arg8 harg8 arg9 harg9 hc0 hc1 x0 x1 x2 x3 xs0 xs1).1)

/-- At a middle point nothing is stored into output 5 (idle there, not written back): no pieces — a placeholder
    nothing consults. -/
def out13_B_5 (c : Dev nD) (i : grid13.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond13_0 i) (hc1 : ¬cond13_1 i)
    (x0 : Vec F S5000x64 .f32) (x1 : Vec F S5000x64 .f32) (x2 : Vec F S5000x1 .f32) (x3 : Vec F S64 .f32) (xs0 : Vec F S1x64 .f32) (xs1 : Vec F S1x64 .f32) : Vec F S1x64 .f32 :=
  VO13_5.read (Elt F) (VO13_5.writes (Elt F) VO13_5.junk (kernelRun13_B c i arg1 harg1 arg2 harg2 arg3 harg3 arg4 harg4 arg5 harg5 arg6 harg6 arg7 harg7 arg8 harg8 arg9 harg9 hc0 hc1 x0 x1 x2 x3 xs0 xs1).2.1)

/-- At a middle point nothing is stored into output 6 (idle there, not written back): no pieces — a placeholder
    nothing consults. -/
def out13_B_6 (c : Dev nD) (i : grid13.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond13_0 i) (hc1 : ¬cond13_1 i)
    (x0 : Vec F S5000x64 .f32) (x1 : Vec F S5000x64 .f32) (x2 : Vec F S5000x1 .f32) (x3 : Vec F S64 .f32) (xs0 : Vec F S1x64 .f32) (xs1 : Vec F S1x64 .f32) : Vec F S1x64 .f32 :=
  VO13_6.read (Elt F) (VO13_6.writes (Elt F) VO13_6.junk (kernelRun13_B c i arg1 harg1 arg2 harg2 arg3 harg3 arg4 harg4 arg5 harg5 arg6 harg6 arg7 harg7 arg8 harg8 arg9 harg9 hc0 hc1 x0 x1 x2 x3 xs0 xs1).2.2.1)

/-- At a middle point the stores into accumulator 0 cover it. -/
theorem scover13_B_0 (c : Dev nD) (i : grid13.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond13_0 i) (hc1 : ¬cond13_1 i)
    (x0 : Vec F S5000x64 .f32) (x1 : Vec F S5000x64 .f32) (x2 : Vec F S5000x1 .f32) (x3 : Vec F S64 .f32) (xs0 : Vec F S1x64 .f32) (xs1 : Vec F S1x64 .f32) (y : S1x64.Idx) :
    ∃ pc ∈ (kernelRun13_B c i arg1 harg1 arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun13_B c i arg1 harg1 arg2 harg2 arg3 harg3 arg4 harg4 arg5 harg5 arg6 harg6 arg7 harg7 arg8 harg8 arg9 harg9 hc0 hc1 x0 x1 x2 x3 xs0 xs1).2.2.2.1 S1x64.size (by sl_kernel_rfl) y

/-- What a middle point leaves in accumulator 0: its pieces read back over junk. -/
def sout13_B_0 (c : Dev nD) (i : grid13.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond13_0 i) (hc1 : ¬cond13_1 i)
    (x0 : Vec F S5000x64 .f32) (x1 : Vec F S5000x64 .f32) (x2 : Vec F S5000x1 .f32) (x3 : Vec F S64 .f32) (xs0 : Vec F S1x64 .f32) (xs1 : Vec F S1x64 .f32) : Vec F S1x64 .f32 :=
  VS13_0.read (Elt F) (VS13_0.writes (Elt F) VS13_0.junk (kernelRun13_B c i arg1 harg1 arg2 harg2 arg3 harg3 arg4 harg4 arg5 harg5 arg6 harg6 arg7 harg7 arg8 harg8 arg9 harg9 hc0 hc1 x0 x1 x2 x3 xs0 xs1).2.2.2.1)

/-- At a middle point the stores into accumulator 1 cover it. -/
theorem scover13_B_1 (c : Dev nD) (i : grid13.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond13_0 i) (hc1 : ¬cond13_1 i)
    (x0 : Vec F S5000x64 .f32) (x1 : Vec F S5000x64 .f32) (x2 : Vec F S5000x1 .f32) (x3 : Vec F S64 .f32) (xs0 : Vec F S1x64 .f32) (xs1 : Vec F S1x64 .f32) (y : S1x64.Idx) :
    ∃ pc ∈ (kernelRun13_B c i arg1 harg1 arg2 harg2 arg3 harg3 arg4 harg4 arg5 harg5 arg6 harg6 arg7 harg7 arg8 harg8 arg9 harg9 hc0 hc1 x0 x1 x2 x3 xs0 xs1).2.2.2.2.1, y ∈ pc.1.set :=
  View.cover_of_tiledL (kernelRun13_B c i arg1 harg1 arg2 harg2 arg3 harg3 arg4 harg4 arg5 harg5 arg6 harg6 arg7 harg7 arg8 harg8 arg9 harg9 hc0 hc1 x0 x1 x2 x3 xs0 xs1).2.2.2.2.1 S1x64.size (by sl_kernel_rfl) y

/-- What a middle point leaves in accumulator 1: its pieces read back over junk. -/
def sout13_B_1 (c : Dev nD) (i : grid13.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond13_0 i) (hc1 : ¬cond13_1 i)
    (x0 : Vec F S5000x64 .f32) (x1 : Vec F S5000x64 .f32) (x2 : Vec F S5000x1 .f32) (x3 : Vec F S64 .f32) (xs0 : Vec F S1x64 .f32) (xs1 : Vec F S1x64 .f32) : Vec F S1x64 .f32 :=
  VS13_1.read (Elt F) (VS13_1.writes (Elt F) VS13_1.junk (kernelRun13_B c i arg1 harg1 arg2 harg2 arg3 harg3 arg4 harg4 arg5 harg5 arg6 harg6 arg7 harg7 arg8 harg8 arg9 harg9 hc0 hc1 x0 x1 x2 x3 xs0 xs1).2.2.2.2.1)

/-! ## What the body leaves at the last point -/

/-- At the last point the stores into output 4 tile its block, so they cover it. -/
theorem cover13_C_4 (c : Dev nD) (i : grid13.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond13_0 i) (hc1 : cond13_1 i)
    (x0 : Vec F S5000x64 .f32) (x1 : Vec F S5000x64 .f32) (x2 : Vec F S5000x1 .f32) (x3 : Vec F S64 .f32) (xs0 : Vec F S1x64 .f32) (xs1 : Vec F S1x64 .f32) (y : S5000x64.Idx) :
    ∃ pc ∈ (kernelRun13_C c i arg1 harg1 arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun13_C c i arg1 harg1 arg2 harg2 arg3 harg3 arg4 harg4 arg5 harg5 arg6 harg6 arg7 harg7 arg8 harg8 arg9 harg9 hc0 hc1 x0 x1 x2 x3 xs0 xs1).1 S5000x64.size (by sl_kernel_rfl) y

/-- What the last point leaves in output 4's staging buffer: its pieces read back over junk. -/
def out13_C_4 (c : Dev nD) (i : grid13.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond13_0 i) (hc1 : cond13_1 i)
    (x0 : Vec F S5000x64 .f32) (x1 : Vec F S5000x64 .f32) (x2 : Vec F S5000x1 .f32) (x3 : Vec F S64 .f32) (xs0 : Vec F S1x64 .f32) (xs1 : Vec F S1x64 .f32) : Vec F S5000x64 .f32 :=
  VO13_4.read (Elt F) (VO13_4.writes (Elt F) VO13_4.junk (kernelRun13_C c i arg1 harg1 arg2 harg2 arg3 harg3 arg4 harg4 arg5 harg5 arg6 harg6 arg7 harg7 arg8 harg8 arg9 harg9 hc0 hc1 x0 x1 x2 x3 xs0 xs1).1)

/-- At the last point the stores into output 5 tile its block, so they cover it. -/
theorem cover13_C_5 (c : Dev nD) (i : grid13.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond13_0 i) (hc1 : cond13_1 i)
    (x0 : Vec F S5000x64 .f32) (x1 : Vec F S5000x64 .f32) (x2 : Vec F S5000x1 .f32) (x3 : Vec F S64 .f32) (xs0 : Vec F S1x64 .f32) (xs1 : Vec F S1x64 .f32) (y : S1x64.Idx) :
    ∃ pc ∈ (kernelRun13_C c i arg1 harg1 arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun13_C c i arg1 harg1 arg2 harg2 arg3 harg3 arg4 harg4 arg5 harg5 arg6 harg6 arg7 harg7 arg8 harg8 arg9 harg9 hc0 hc1 x0 x1 x2 x3 xs0 xs1).2.1 S1x64.size (by sl_kernel_rfl) y

/-- What the last point leaves in output 5's staging buffer: its pieces read back over junk. -/
def out13_C_5 (c : Dev nD) (i : grid13.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond13_0 i) (hc1 : cond13_1 i)
    (x0 : Vec F S5000x64 .f32) (x1 : Vec F S5000x64 .f32) (x2 : Vec F S5000x1 .f32) (x3 : Vec F S64 .f32) (xs0 : Vec F S1x64 .f32) (xs1 : Vec F S1x64 .f32) : Vec F S1x64 .f32 :=
  VO13_5.read (Elt F) (VO13_5.writes (Elt F) VO13_5.junk (kernelRun13_C c i arg1 harg1 arg2 harg2 arg3 harg3 arg4 harg4 arg5 harg5 arg6 harg6 arg7 harg7 arg8 harg8 arg9 harg9 hc0 hc1 x0 x1 x2 x3 xs0 xs1).2.1)

/-- At the last point the stores into output 6 tile its block, so they cover it. -/
theorem cover13_C_6 (c : Dev nD) (i : grid13.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond13_0 i) (hc1 : cond13_1 i)
    (x0 : Vec F S5000x64 .f32) (x1 : Vec F S5000x64 .f32) (x2 : Vec F S5000x1 .f32) (x3 : Vec F S64 .f32) (xs0 : Vec F S1x64 .f32) (xs1 : Vec F S1x64 .f32) (y : S1x64.Idx) :
    ∃ pc ∈ (kernelRun13_C c i arg1 harg1 arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun13_C c i arg1 harg1 arg2 harg2 arg3 harg3 arg4 harg4 arg5 harg5 arg6 harg6 arg7 harg7 arg8 harg8 arg9 harg9 hc0 hc1 x0 x1 x2 x3 xs0 xs1).2.2.1 S1x64.size (by sl_kernel_rfl) y

/-- What the last point leaves in output 6's staging buffer: its pieces read back over junk. -/
def out13_C_6 (c : Dev nD) (i : grid13.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond13_0 i) (hc1 : cond13_1 i)
    (x0 : Vec F S5000x64 .f32) (x1 : Vec F S5000x64 .f32) (x2 : Vec F S5000x1 .f32) (x3 : Vec F S64 .f32) (xs0 : Vec F S1x64 .f32) (xs1 : Vec F S1x64 .f32) : Vec F S1x64 .f32 :=
  VO13_6.read (Elt F) (VO13_6.writes (Elt F) VO13_6.junk (kernelRun13_C c i arg1 harg1 arg2 harg2 arg3 harg3 arg4 harg4 arg5 harg5 arg6 harg6 arg7 harg7 arg8 harg8 arg9 harg9 hc0 hc1 x0 x1 x2 x3 xs0 xs1).2.2.1)

/-- At the last point the stores into accumulator 0 cover it. -/
theorem scover13_C_0 (c : Dev nD) (i : grid13.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond13_0 i) (hc1 : cond13_1 i)
    (x0 : Vec F S5000x64 .f32) (x1 : Vec F S5000x64 .f32) (x2 : Vec F S5000x1 .f32) (x3 : Vec F S64 .f32) (xs0 : Vec F S1x64 .f32) (xs1 : Vec F S1x64 .f32) (y : S1x64.Idx) :
    ∃ pc ∈ (kernelRun13_C c i arg1 harg1 arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun13_C c i arg1 harg1 arg2 harg2 arg3 harg3 arg4 harg4 arg5 harg5 arg6 harg6 arg7 harg7 arg8 harg8 arg9 harg9 hc0 hc1 x0 x1 x2 x3 xs0 xs1).2.2.2.1 S1x64.size (by sl_kernel_rfl) y

/-- What the last point leaves in accumulator 0: its pieces read back over junk. -/
def sout13_C_0 (c : Dev nD) (i : grid13.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond13_0 i) (hc1 : cond13_1 i)
    (x0 : Vec F S5000x64 .f32) (x1 : Vec F S5000x64 .f32) (x2 : Vec F S5000x1 .f32) (x3 : Vec F S64 .f32) (xs0 : Vec F S1x64 .f32) (xs1 : Vec F S1x64 .f32) : Vec F S1x64 .f32 :=
  VS13_0.read (Elt F) (VS13_0.writes (Elt F) VS13_0.junk (kernelRun13_C c i arg1 harg1 arg2 harg2 arg3 harg3 arg4 harg4 arg5 harg5 arg6 harg6 arg7 harg7 arg8 harg8 arg9 harg9 hc0 hc1 x0 x1 x2 x3 xs0 xs1).2.2.2.1)

/-- At the last point the stores into accumulator 1 cover it. -/
theorem scover13_C_1 (c : Dev nD) (i : grid13.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond13_0 i) (hc1 : cond13_1 i)
    (x0 : Vec F S5000x64 .f32) (x1 : Vec F S5000x64 .f32) (x2 : Vec F S5000x1 .f32) (x3 : Vec F S64 .f32) (xs0 : Vec F S1x64 .f32) (xs1 : Vec F S1x64 .f32) (y : S1x64.Idx) :
    ∃ pc ∈ (kernelRun13_C c i arg1 harg1 arg2 harg2 arg3 harg3 arg4 harg4 arg5 harg5 arg6 harg6 arg7 harg7 arg8 harg8 arg9 harg9 hc0 hc1 x0 x1 x2 x3 xs0 xs1).2.2.2.2.1, y ∈ pc.1.set :=
  View.cover_of_tiledL (kernelRun13_C c i arg1 harg1 arg2 harg2 arg3 harg3 arg4 harg4 arg5 harg5 arg6 harg6 arg7 harg7 arg8 harg8 arg9 harg9 hc0 hc1 x0 x1 x2 x3 xs0 xs1).2.2.2.2.1 S1x64.size (by sl_kernel_rfl) y

/-- What the last point leaves in accumulator 1: its pieces read back over junk. -/
def sout13_C_1 (c : Dev nD) (i : grid13.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond13_0 i) (hc1 : cond13_1 i)
    (x0 : Vec F S5000x64 .f32) (x1 : Vec F S5000x64 .f32) (x2 : Vec F S5000x1 .f32) (x3 : Vec F S64 .f32) (xs0 : Vec F S1x64 .f32) (xs1 : Vec F S1x64 .f32) : Vec F S1x64 .f32 :=
  VS13_1.read (Elt F) (VS13_1.writes (Elt F) VS13_1.junk (kernelRun13_C c i arg1 harg1 arg2 harg2 arg3 harg3 arg4 harg4 arg5 harg5 arg6 harg6 arg7 harg7 arg8 harg8 arg9 harg9 hc0 hc1 x0 x1 x2 x3 xs0 xs1).2.2.2.2.1)

/-! ## What the outputs and the accumulators hold after each point -/

/-- No point after the first is ≡ 0 (mod 20): the grid has 20 points. -/
theorem succ_mod13 (n : ℕ) (hn : n + 1 < cfg13.N) : ¬(n + 1) % 20 = 0 := by
  have hN : n + 1 < 20 := lt_of_lt_of_eq hn (show cfg13.N = 20 from N_13); omega

/-- THE ACCUMULATION. What the three outputs' staging buffers and the two accumulators hold after the body at position
    `n` (a tuple: outputs 4, 5, 6, then accumulators 0, 1): the case the closed forms select at `n`, run at the point's
    memrefs and input blocks, the accumulators at what this leaves at `n - 1`. -/
def outsAt13 (c : Dev nD) : (n : ℕ) → n < cfg13.N → Vec F S5000x64 .f32 × Vec F S1x64 .f32 × Vec F S1x64 .f32 × Vec F S1x64 .f32 × Vec F S1x64 .f32
  | 0, hn => (out13_A_4 c (grid13.coords ⟨0, hn⟩) (ms13_0 ⟨0, hn⟩) (hs13_0 ⟨0, hn⟩) (ms13_1 ⟨0, hn⟩) (hs13_1 ⟨0, hn⟩) (ms13_2 ⟨0, hn⟩) (hs13_2 ⟨0, hn⟩) (ms13_3 ⟨0, hn⟩) (hs13_3 ⟨0, hn⟩) (ms13_4 ⟨0, hn⟩) (hs13_4 ⟨0, hn⟩) (ms13_5 ⟨0, hn⟩) (hs13_5 ⟨0, hn⟩) (ms13_6 ⟨0, hn⟩) (hs13_6 ⟨0, hn⟩) scM13_0 (Memref.isWhole_whole _) scM13_1 (Memref.isWhole_whole _) ((hcond13_0 ⟨0, hn⟩).mpr (Nat.zero_mod _)) (fun h => (fun h => by (try dsimp only at h); omega) ((hcond13_1 ⟨0, hn⟩).mp h)) (iblk13 V c 0 ⟨0, hn⟩) (iblk13 V c 1 ⟨0, hn⟩) (iblk13 V c 2 ⟨0, hn⟩) (iblk13 V c 3 ⟨0, hn⟩), out13_A_5 c (grid13.coords ⟨0, hn⟩) (ms13_0 ⟨0, hn⟩) (hs13_0 ⟨0, hn⟩) (ms13_1 ⟨0, hn⟩) (hs13_1 ⟨0, hn⟩) (ms13_2 ⟨0, hn⟩) (hs13_2 ⟨0, hn⟩) (ms13_3 ⟨0, hn⟩) (hs13_3 ⟨0, hn⟩) (ms13_4 ⟨0, hn⟩) (hs13_4 ⟨0, hn⟩) (ms13_5 ⟨0, hn⟩) (hs13_5 ⟨0, hn⟩) (ms13_6 ⟨0, hn⟩) (hs13_6 ⟨0, hn⟩) scM13_0 (Memref.isWhole_whole _) scM13_1 (Memref.isWhole_whole _) ((hcond13_0 ⟨0, hn⟩).mpr (Nat.zero_mod _)) (fun h => (fun h => by (try dsimp only at h); omega) ((hcond13_1 ⟨0, hn⟩).mp h)) (iblk13 V c 0 ⟨0, hn⟩) (iblk13 V c 1 ⟨0, hn⟩) (iblk13 V c 2 ⟨0, hn⟩) (iblk13 V c 3 ⟨0, hn⟩), out13_A_6 c (grid13.coords ⟨0, hn⟩) (ms13_0 ⟨0, hn⟩) (hs13_0 ⟨0, hn⟩) (ms13_1 ⟨0, hn⟩) (hs13_1 ⟨0, hn⟩) (ms13_2 ⟨0, hn⟩) (hs13_2 ⟨0, hn⟩) (ms13_3 ⟨0, hn⟩) (hs13_3 ⟨0, hn⟩) (ms13_4 ⟨0, hn⟩) (hs13_4 ⟨0, hn⟩) (ms13_5 ⟨0, hn⟩) (hs13_5 ⟨0, hn⟩) (ms13_6 ⟨0, hn⟩) (hs13_6 ⟨0, hn⟩) scM13_0 (Memref.isWhole_whole _) scM13_1 (Memref.isWhole_whole _) ((hcond13_0 ⟨0, hn⟩).mpr (Nat.zero_mod _)) (fun h => (fun h => by (try dsimp only at h); omega) ((hcond13_1 ⟨0, hn⟩).mp h)) (iblk13 V c 0 ⟨0, hn⟩) (iblk13 V c 1 ⟨0, hn⟩) (iblk13 V c 2 ⟨0, hn⟩) (iblk13 V c 3 ⟨0, hn⟩), sout13_A_0 c (grid13.coords ⟨0, hn⟩) (ms13_0 ⟨0, hn⟩) (hs13_0 ⟨0, hn⟩) (ms13_1 ⟨0, hn⟩) (hs13_1 ⟨0, hn⟩) (ms13_2 ⟨0, hn⟩) (hs13_2 ⟨0, hn⟩) (ms13_3 ⟨0, hn⟩) (hs13_3 ⟨0, hn⟩) (ms13_4 ⟨0, hn⟩) (hs13_4 ⟨0, hn⟩) (ms13_5 ⟨0, hn⟩) (hs13_5 ⟨0, hn⟩) (ms13_6 ⟨0, hn⟩) (hs13_6 ⟨0, hn⟩) scM13_0 (Memref.isWhole_whole _) scM13_1 (Memref.isWhole_whole _) ((hcond13_0 ⟨0, hn⟩).mpr (Nat.zero_mod _)) (fun h => (fun h => by (try dsimp only at h); omega) ((hcond13_1 ⟨0, hn⟩).mp h)) (iblk13 V c 0 ⟨0, hn⟩) (iblk13 V c 1 ⟨0, hn⟩) (iblk13 V c 2 ⟨0, hn⟩) (iblk13 V c 3 ⟨0, hn⟩), sout13_A_1 c (grid13.coords ⟨0, hn⟩) (ms13_0 ⟨0, hn⟩) (hs13_0 ⟨0, hn⟩) (ms13_1 ⟨0, hn⟩) (hs13_1 ⟨0, hn⟩) (ms13_2 ⟨0, hn⟩) (hs13_2 ⟨0, hn⟩) (ms13_3 ⟨0, hn⟩) (hs13_3 ⟨0, hn⟩) (ms13_4 ⟨0, hn⟩) (hs13_4 ⟨0, hn⟩) (ms13_5 ⟨0, hn⟩) (hs13_5 ⟨0, hn⟩) (ms13_6 ⟨0, hn⟩) (hs13_6 ⟨0, hn⟩) scM13_0 (Memref.isWhole_whole _) scM13_1 (Memref.isWhole_whole _) ((hcond13_0 ⟨0, hn⟩).mpr (Nat.zero_mod _)) (fun h => (fun h => by (try dsimp only at h); omega) ((hcond13_1 ⟨0, hn⟩).mp h)) (iblk13 V c 0 ⟨0, hn⟩) (iblk13 V c 1 ⟨0, hn⟩) (iblk13 V c 2 ⟨0, hn⟩) (iblk13 V c 3 ⟨0, hn⟩))
  | n + 1, hn =>
    if h1 : (n + 1) % 20 = 19 then
      (out13_C_4 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) (ms13_3 ⟨n + 1, hn⟩) (hs13_3 ⟨n + 1, hn⟩) (ms13_4 ⟨n + 1, hn⟩) (hs13_4 ⟨n + 1, hn⟩) (ms13_5 ⟨n + 1, hn⟩) (hs13_5 ⟨n + 1, hn⟩) (ms13_6 ⟨n + 1, hn⟩) (hs13_6 ⟨n + 1, hn⟩) scM13_0 (Memref.isWhole_whole _) scM13_1 (Memref.isWhole_whole _) (fun h => succ_mod13 n hn ((hcond13_0 ⟨n + 1, hn⟩).mp h)) ((hcond13_1 ⟨n + 1, hn⟩).mpr h1) (iblk13 V c 0 ⟨n + 1, hn⟩) (iblk13 V c 1 ⟨n + 1, hn⟩) (iblk13 V c 2 ⟨n + 1, hn⟩) (iblk13 V c 3 ⟨n + 1, hn⟩) (outsAt13 c n (Nat.lt_of_succ_lt hn)).2.2.2.1 (outsAt13 c n (Nat.lt_of_succ_lt hn)).2.2.2.2, out13_C_5 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) (ms13_3 ⟨n + 1, hn⟩) (hs13_3 ⟨n + 1, hn⟩) (ms13_4 ⟨n + 1, hn⟩) (hs13_4 ⟨n + 1, hn⟩) (ms13_5 ⟨n + 1, hn⟩) (hs13_5 ⟨n + 1, hn⟩) (ms13_6 ⟨n + 1, hn⟩) (hs13_6 ⟨n + 1, hn⟩) scM13_0 (Memref.isWhole_whole _) scM13_1 (Memref.isWhole_whole _) (fun h => succ_mod13 n hn ((hcond13_0 ⟨n + 1, hn⟩).mp h)) ((hcond13_1 ⟨n + 1, hn⟩).mpr h1) (iblk13 V c 0 ⟨n + 1, hn⟩) (iblk13 V c 1 ⟨n + 1, hn⟩) (iblk13 V c 2 ⟨n + 1, hn⟩) (iblk13 V c 3 ⟨n + 1, hn⟩) (outsAt13 c n (Nat.lt_of_succ_lt hn)).2.2.2.1 (outsAt13 c n (Nat.lt_of_succ_lt hn)).2.2.2.2, out13_C_6 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) (ms13_3 ⟨n + 1, hn⟩) (hs13_3 ⟨n + 1, hn⟩) (ms13_4 ⟨n + 1, hn⟩) (hs13_4 ⟨n + 1, hn⟩) (ms13_5 ⟨n + 1, hn⟩) (hs13_5 ⟨n + 1, hn⟩) (ms13_6 ⟨n + 1, hn⟩) (hs13_6 ⟨n + 1, hn⟩) scM13_0 (Memref.isWhole_whole _) scM13_1 (Memref.isWhole_whole _) (fun h => succ_mod13 n hn ((hcond13_0 ⟨n + 1, hn⟩).mp h)) ((hcond13_1 ⟨n + 1, hn⟩).mpr h1) (iblk13 V c 0 ⟨n + 1, hn⟩) (iblk13 V c 1 ⟨n + 1, hn⟩) (iblk13 V c 2 ⟨n + 1, hn⟩) (iblk13 V c 3 ⟨n + 1, hn⟩) (outsAt13 c n (Nat.lt_of_succ_lt hn)).2.2.2.1 (outsAt13 c n (Nat.lt_of_succ_lt hn)).2.2.2.2, sout13_C_0 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) (ms13_3 ⟨n + 1, hn⟩) (hs13_3 ⟨n + 1, hn⟩) (ms13_4 ⟨n + 1, hn⟩) (hs13_4 ⟨n + 1, hn⟩) (ms13_5 ⟨n + 1, hn⟩) (hs13_5 ⟨n + 1, hn⟩) (ms13_6 ⟨n + 1, hn⟩) (hs13_6 ⟨n + 1, hn⟩) scM13_0 (Memref.isWhole_whole _) scM13_1 (Memref.isWhole_whole _) (fun h => succ_mod13 n hn ((hcond13_0 ⟨n + 1, hn⟩).mp h)) ((hcond13_1 ⟨n + 1, hn⟩).mpr h1) (iblk13 V c 0 ⟨n + 1, hn⟩) (iblk13 V c 1 ⟨n + 1, hn⟩) (iblk13 V c 2 ⟨n + 1, hn⟩) (iblk13 V c 3 ⟨n + 1, hn⟩) (outsAt13 c n (Nat.lt_of_succ_lt hn)).2.2.2.1 (outsAt13 c n (Nat.lt_of_succ_lt hn)).2.2.2.2, sout13_C_1 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) (ms13_3 ⟨n + 1, hn⟩) (hs13_3 ⟨n + 1, hn⟩) (ms13_4 ⟨n + 1, hn⟩) (hs13_4 ⟨n + 1, hn⟩) (ms13_5 ⟨n + 1, hn⟩) (hs13_5 ⟨n + 1, hn⟩) (ms13_6 ⟨n + 1, hn⟩) (hs13_6 ⟨n + 1, hn⟩) scM13_0 (Memref.isWhole_whole _) scM13_1 (Memref.isWhole_whole _) (fun h => succ_mod13 n hn ((hcond13_0 ⟨n + 1, hn⟩).mp h)) ((hcond13_1 ⟨n + 1, hn⟩).mpr h1) (iblk13 V c 0 ⟨n + 1, hn⟩) (iblk13 V c 1 ⟨n + 1, hn⟩) (iblk13 V c 2 ⟨n + 1, hn⟩) (iblk13 V c 3 ⟨n + 1, hn⟩) (outsAt13 c n (Nat.lt_of_succ_lt hn)).2.2.2.1 (outsAt13 c n (Nat.lt_of_succ_lt hn)).2.2.2.2)
    else
      (out13_B_4 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) (ms13_3 ⟨n + 1, hn⟩) (hs13_3 ⟨n + 1, hn⟩) (ms13_4 ⟨n + 1, hn⟩) (hs13_4 ⟨n + 1, hn⟩) (ms13_5 ⟨n + 1, hn⟩) (hs13_5 ⟨n + 1, hn⟩) (ms13_6 ⟨n + 1, hn⟩) (hs13_6 ⟨n + 1, hn⟩) scM13_0 (Memref.isWhole_whole _) scM13_1 (Memref.isWhole_whole _) (fun h => succ_mod13 n hn ((hcond13_0 ⟨n + 1, hn⟩).mp h)) (fun h => h1 ((hcond13_1 ⟨n + 1, hn⟩).mp h)) (iblk13 V c 0 ⟨n + 1, hn⟩) (iblk13 V c 1 ⟨n + 1, hn⟩) (iblk13 V c 2 ⟨n + 1, hn⟩) (iblk13 V c 3 ⟨n + 1, hn⟩) (outsAt13 c n (Nat.lt_of_succ_lt hn)).2.2.2.1 (outsAt13 c n (Nat.lt_of_succ_lt hn)).2.2.2.2, out13_B_5 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) (ms13_3 ⟨n + 1, hn⟩) (hs13_3 ⟨n + 1, hn⟩) (ms13_4 ⟨n + 1, hn⟩) (hs13_4 ⟨n + 1, hn⟩) (ms13_5 ⟨n + 1, hn⟩) (hs13_5 ⟨n + 1, hn⟩) (ms13_6 ⟨n + 1, hn⟩) (hs13_6 ⟨n + 1, hn⟩) scM13_0 (Memref.isWhole_whole _) scM13_1 (Memref.isWhole_whole _) (fun h => succ_mod13 n hn ((hcond13_0 ⟨n + 1, hn⟩).mp h)) (fun h => h1 ((hcond13_1 ⟨n + 1, hn⟩).mp h)) (iblk13 V c 0 ⟨n + 1, hn⟩) (iblk13 V c 1 ⟨n + 1, hn⟩) (iblk13 V c 2 ⟨n + 1, hn⟩) (iblk13 V c 3 ⟨n + 1, hn⟩) (outsAt13 c n (Nat.lt_of_succ_lt hn)).2.2.2.1 (outsAt13 c n (Nat.lt_of_succ_lt hn)).2.2.2.2, out13_B_6 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) (ms13_3 ⟨n + 1, hn⟩) (hs13_3 ⟨n + 1, hn⟩) (ms13_4 ⟨n + 1, hn⟩) (hs13_4 ⟨n + 1, hn⟩) (ms13_5 ⟨n + 1, hn⟩) (hs13_5 ⟨n + 1, hn⟩) (ms13_6 ⟨n + 1, hn⟩) (hs13_6 ⟨n + 1, hn⟩) scM13_0 (Memref.isWhole_whole _) scM13_1 (Memref.isWhole_whole _) (fun h => succ_mod13 n hn ((hcond13_0 ⟨n + 1, hn⟩).mp h)) (fun h => h1 ((hcond13_1 ⟨n + 1, hn⟩).mp h)) (iblk13 V c 0 ⟨n + 1, hn⟩) (iblk13 V c 1 ⟨n + 1, hn⟩) (iblk13 V c 2 ⟨n + 1, hn⟩) (iblk13 V c 3 ⟨n + 1, hn⟩) (outsAt13 c n (Nat.lt_of_succ_lt hn)).2.2.2.1 (outsAt13 c n (Nat.lt_of_succ_lt hn)).2.2.2.2, sout13_B_0 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) (ms13_3 ⟨n + 1, hn⟩) (hs13_3 ⟨n + 1, hn⟩) (ms13_4 ⟨n + 1, hn⟩) (hs13_4 ⟨n + 1, hn⟩) (ms13_5 ⟨n + 1, hn⟩) (hs13_5 ⟨n + 1, hn⟩) (ms13_6 ⟨n + 1, hn⟩) (hs13_6 ⟨n + 1, hn⟩) scM13_0 (Memref.isWhole_whole _) scM13_1 (Memref.isWhole_whole _) (fun h => succ_mod13 n hn ((hcond13_0 ⟨n + 1, hn⟩).mp h)) (fun h => h1 ((hcond13_1 ⟨n + 1, hn⟩).mp h)) (iblk13 V c 0 ⟨n + 1, hn⟩) (iblk13 V c 1 ⟨n + 1, hn⟩) (iblk13 V c 2 ⟨n + 1, hn⟩) (iblk13 V c 3 ⟨n + 1, hn⟩) (outsAt13 c n (Nat.lt_of_succ_lt hn)).2.2.2.1 (outsAt13 c n (Nat.lt_of_succ_lt hn)).2.2.2.2, sout13_B_1 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) (ms13_3 ⟨n + 1, hn⟩) (hs13_3 ⟨n + 1, hn⟩) (ms13_4 ⟨n + 1, hn⟩) (hs13_4 ⟨n + 1, hn⟩) (ms13_5 ⟨n + 1, hn⟩) (hs13_5 ⟨n + 1, hn⟩) (ms13_6 ⟨n + 1, hn⟩) (hs13_6 ⟨n + 1, hn⟩) scM13_0 (Memref.isWhole_whole _) scM13_1 (Memref.isWhole_whole _) (fun h => succ_mod13 n hn ((hcond13_0 ⟨n + 1, hn⟩).mp h)) (fun h => h1 ((hcond13_1 ⟨n + 1, hn⟩).mp h)) (iblk13 V c 0 ⟨n + 1, hn⟩) (iblk13 V c 1 ⟨n + 1, hn⟩) (iblk13 V c 2 ⟨n + 1, hn⟩) (iblk13 V c 3 ⟨n + 1, hn⟩) (outsAt13 c n (Nat.lt_of_succ_lt hn)).2.2.2.1 (outsAt13 c n (Nat.lt_of_succ_lt hn)).2.2.2.2)

/-- `outsAt13` at the first point. -/
theorem outsAt13_A (c : Dev nD) (t : Fin cfg13.N) (h0 : t.val % 20 = 0) (h1 : ¬t.val % 20 = 19) :
    outsAt13 V c t.val t.isLt = (out13_A_4 c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) scM13_0 (Memref.isWhole_whole _) scM13_1 (Memref.isWhole_whole _) ((hcond13_0 t).mpr h0) (fun h => h1 ((hcond13_1 t).mp h)) (iblk13 V c 0 t) (iblk13 V c 1 t) (iblk13 V c 2 t) (iblk13 V c 3 t), out13_A_5 c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) scM13_0 (Memref.isWhole_whole _) scM13_1 (Memref.isWhole_whole _) ((hcond13_0 t).mpr h0) (fun h => h1 ((hcond13_1 t).mp h)) (iblk13 V c 0 t) (iblk13 V c 1 t) (iblk13 V c 2 t) (iblk13 V c 3 t), out13_A_6 c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) scM13_0 (Memref.isWhole_whole _) scM13_1 (Memref.isWhole_whole _) ((hcond13_0 t).mpr h0) (fun h => h1 ((hcond13_1 t).mp h)) (iblk13 V c 0 t) (iblk13 V c 1 t) (iblk13 V c 2 t) (iblk13 V c 3 t), sout13_A_0 c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) scM13_0 (Memref.isWhole_whole _) scM13_1 (Memref.isWhole_whole _) ((hcond13_0 t).mpr h0) (fun h => h1 ((hcond13_1 t).mp h)) (iblk13 V c 0 t) (iblk13 V c 1 t) (iblk13 V c 2 t) (iblk13 V c 3 t), sout13_A_1 c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) scM13_0 (Memref.isWhole_whole _) scM13_1 (Memref.isWhole_whole _) ((hcond13_0 t).mpr h0) (fun h => h1 ((hcond13_1 t).mp h)) (iblk13 V c 0 t) (iblk13 V c 1 t) (iblk13 V c 2 t) (iblk13 V c 3 t)) := by
  obtain ⟨n, hn⟩ := t
  cases n with
  | zero => exact rfl
  | succ n => exact absurd h0 (succ_mod13 n hn)

/-- `outsAt13` at a middle point: over what the point before left in the accumulators. -/
theorem outsAt13_B (c : Dev nD) (t : Fin cfg13.N) (h0 : ¬t.val % 20 = 0) (h1 : ¬t.val % 20 = 19) :
    outsAt13 V c t.val t.isLt = (out13_B_4 c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) scM13_0 (Memref.isWhole_whole _) scM13_1 (Memref.isWhole_whole _) (fun h => h0 ((hcond13_0 t).mp h)) (fun h => h1 ((hcond13_1 t).mp h)) (iblk13 V c 0 t) (iblk13 V c 1 t) (iblk13 V c 2 t) (iblk13 V c 3 t) (outsAt13 V c (t.val - 1) (Nat.lt_of_le_of_lt (Nat.sub_le _ _) t.isLt)).2.2.2.1 (outsAt13 V c (t.val - 1) (Nat.lt_of_le_of_lt (Nat.sub_le _ _) t.isLt)).2.2.2.2, out13_B_5 c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) scM13_0 (Memref.isWhole_whole _) scM13_1 (Memref.isWhole_whole _) (fun h => h0 ((hcond13_0 t).mp h)) (fun h => h1 ((hcond13_1 t).mp h)) (iblk13 V c 0 t) (iblk13 V c 1 t) (iblk13 V c 2 t) (iblk13 V c 3 t) (outsAt13 V c (t.val - 1) (Nat.lt_of_le_of_lt (Nat.sub_le _ _) t.isLt)).2.2.2.1 (outsAt13 V c (t.val - 1) (Nat.lt_of_le_of_lt (Nat.sub_le _ _) t.isLt)).2.2.2.2, out13_B_6 c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) scM13_0 (Memref.isWhole_whole _) scM13_1 (Memref.isWhole_whole _) (fun h => h0 ((hcond13_0 t).mp h)) (fun h => h1 ((hcond13_1 t).mp h)) (iblk13 V c 0 t) (iblk13 V c 1 t) (iblk13 V c 2 t) (iblk13 V c 3 t) (outsAt13 V c (t.val - 1) (Nat.lt_of_le_of_lt (Nat.sub_le _ _) t.isLt)).2.2.2.1 (outsAt13 V c (t.val - 1) (Nat.lt_of_le_of_lt (Nat.sub_le _ _) t.isLt)).2.2.2.2, sout13_B_0 c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) scM13_0 (Memref.isWhole_whole _) scM13_1 (Memref.isWhole_whole _) (fun h => h0 ((hcond13_0 t).mp h)) (fun h => h1 ((hcond13_1 t).mp h)) (iblk13 V c 0 t) (iblk13 V c 1 t) (iblk13 V c 2 t) (iblk13 V c 3 t) (outsAt13 V c (t.val - 1) (Nat.lt_of_le_of_lt (Nat.sub_le _ _) t.isLt)).2.2.2.1 (outsAt13 V c (t.val - 1) (Nat.lt_of_le_of_lt (Nat.sub_le _ _) t.isLt)).2.2.2.2, sout13_B_1 c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) scM13_0 (Memref.isWhole_whole _) scM13_1 (Memref.isWhole_whole _) (fun h => h0 ((hcond13_0 t).mp h)) (fun h => h1 ((hcond13_1 t).mp h)) (iblk13 V c 0 t) (iblk13 V c 1 t) (iblk13 V c 2 t) (iblk13 V c 3 t) (outsAt13 V c (t.val - 1) (Nat.lt_of_le_of_lt (Nat.sub_le _ _) t.isLt)).2.2.2.1 (outsAt13 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h1).trans rfl

/-- `outsAt13` at the last point: over what the point before left in the accumulators. -/
theorem outsAt13_C (c : Dev nD) (t : Fin cfg13.N) (h0 : ¬t.val % 20 = 0) (h1 : t.val % 20 = 19) :
    outsAt13 V c t.val t.isLt = (out13_C_4 c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) scM13_0 (Memref.isWhole_whole _) scM13_1 (Memref.isWhole_whole _) (fun h => h0 ((hcond13_0 t).mp h)) ((hcond13_1 t).mpr h1) (iblk13 V c 0 t) (iblk13 V c 1 t) (iblk13 V c 2 t) (iblk13 V c 3 t) (outsAt13 V c (t.val - 1) (Nat.lt_of_le_of_lt (Nat.sub_le _ _) t.isLt)).2.2.2.1 (outsAt13 V c (t.val - 1) (Nat.lt_of_le_of_lt (Nat.sub_le _ _) t.isLt)).2.2.2.2, out13_C_5 c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) scM13_0 (Memref.isWhole_whole _) scM13_1 (Memref.isWhole_whole _) (fun h => h0 ((hcond13_0 t).mp h)) ((hcond13_1 t).mpr h1) (iblk13 V c 0 t) (iblk13 V c 1 t) (iblk13 V c 2 t) (iblk13 V c 3 t) (outsAt13 V c (t.val - 1) (Nat.lt_of_le_of_lt (Nat.sub_le _ _) t.isLt)).2.2.2.1 (outsAt13 V c (t.val - 1) (Nat.lt_of_le_of_lt (Nat.sub_le _ _) t.isLt)).2.2.2.2, out13_C_6 c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) scM13_0 (Memref.isWhole_whole _) scM13_1 (Memref.isWhole_whole _) (fun h => h0 ((hcond13_0 t).mp h)) ((hcond13_1 t).mpr h1) (iblk13 V c 0 t) (iblk13 V c 1 t) (iblk13 V c 2 t) (iblk13 V c 3 t) (outsAt13 V c (t.val - 1) (Nat.lt_of_le_of_lt (Nat.sub_le _ _) t.isLt)).2.2.2.1 (outsAt13 V c (t.val - 1) (Nat.lt_of_le_of_lt (Nat.sub_le _ _) t.isLt)).2.2.2.2, sout13_C_0 c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) scM13_0 (Memref.isWhole_whole _) scM13_1 (Memref.isWhole_whole _) (fun h => h0 ((hcond13_0 t).mp h)) ((hcond13_1 t).mpr h1) (iblk13 V c 0 t) (iblk13 V c 1 t) (iblk13 V c 2 t) (iblk13 V c 3 t) (outsAt13 V c (t.val - 1) (Nat.lt_of_le_of_lt (Nat.sub_le _ _) t.isLt)).2.2.2.1 (outsAt13 V c (t.val - 1) (Nat.lt_of_le_of_lt (Nat.sub_le _ _) t.isLt)).2.2.2.2, sout13_C_1 c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) scM13_0 (Memref.isWhole_whole _) scM13_1 (Memref.isWhole_whole _) (fun h => h0 ((hcond13_0 t).mp h)) ((hcond13_1 t).mpr h1) (iblk13 V c 0 t) (iblk13 V c 1 t) (iblk13 V c 2 t) (iblk13 V c 3 t) (outsAt13 V c (t.val - 1) (Nat.lt_of_le_of_lt (Nat.sub_le _ _) t.isLt)).2.2.2.1 (outsAt13 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_pos h1).trans rfl

/-! ## The region invariant -/

/-- The invariant before position `n`: before the first point the class's (every scoped buffer that is no staging
    buffer at anything, the generator register at some state); afterwards the same with the two accumulators at what the
    point before left in them. -/
def PhiS13 (c : Dev nD) : (n : ℕ) → n ≤ cfg13.N → sProp 𝕄
  | 0, _ => Pipeline.ΦA spec13 c
  | n + 1, hn => iprop(iprop(iprop(owns (c : Thread nD τ) scM13_0 fullShare ((outsAt13 V c n hn).2.2.2.1) ∗ owns (c : Thread nD τ) scM13_1 fullShare ((outsAt13 V c n hn).2.2.2.2)) ∗ Pipeline.scopedRestBut (Ix := Unit) (Name := ℕ) (U := UR sig nD τ) (Lvl := ℕ) (Val := Elt F) spec13 c [cc13_scratch0, cc13_scratch1]) ∗ (∃ r, prngReg c r))

theorem PhiS13_zero (c : Dev nD) (n : ℕ) (h : n ≤ cfg13.N) (hz : n = 0) : PhiS13 V c n h = Pipeline.ΦA spec13 c := by
  subst hz; rfl

/-- After point `n`: the accumulators at that point's contents. -/
theorem PhiS13_succ (c : Dev nD) (n : ℕ) (hn : n < cfg13.N) :
    PhiS13 V c (n + 1) hn = iprop(iprop(iprop(owns (c : Thread nD τ) scM13_0 fullShare ((outsAt13 V c n hn).2.2.2.1) ∗ owns (c : Thread nD τ) scM13_1 fullShare ((outsAt13 V c n hn).2.2.2.2)) ∗ Pipeline.scopedRestBut (Ix := Unit) (Name := ℕ) (U := UR sig nD τ) (Lvl := ℕ) (Val := Elt F) spec13 c [cc13_scratch0, cc13_scratch1]) ∗ (∃ r, prngReg c r)) := rfl

/-- Before a point that is not the first: the accumulators at what the point before left. -/
theorem PhiS13_pos (c : Dev nD) (n : ℕ) (h : n ≤ cfg13.N) (hz : n ≠ 0) :
    PhiS13 V c n h = iprop(iprop(iprop(owns (c : Thread nD τ) scM13_0 fullShare ((outsAt13 V c (n - 1) (by omega)).2.2.2.1) ∗ owns (c : Thread nD τ) scM13_1 fullShare ((outsAt13 V c (n - 1) (by omega)).2.2.2.2)) ∗ Pipeline.scopedRestBut (Ix := Unit) (Name := ℕ) (U := UR sig nD τ) (Lvl := ℕ) (Val := Elt F) spec13 c [cc13_scratch0, cc13_scratch1]) ∗ (∃ r, prngReg c r)) := by
  cases n with
  | zero => exact absurd rfl hz
  | succ n => rfl

/-! ## The pipeline's proof data -/

/-- The proof data of pipeline 13 on core `c`: the arrays as the region finds them; after the body at point `t` each
    input's buffer at its block and the outputs' at `outsAt13`; the invariant `PhiS13`; nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => iblk13 V c 3 t
    | ⟨4, _⟩ => (outsAt13 V c t.val t.isLt).1
    | ⟨5, _⟩ => (outsAt13 V c t.val t.isLt).2.1
    | ⟨6, _⟩ => (outsAt13 V c t.val t.isLt).2.2.1
  Φ t := PhiS13 V c t.val (Nat.le_of_lt_succ t.isLt)
  q _ := fullShare
  owed _ := 0

/-- The proof data's arrays are the region-entry contents. -/
theorem A_eq13 (c : Dev nD) (w : Fin cfg13.W) : (dat13 V c).A w = V c (Pipeline.arrRef spec13 w) := by
  dsimp only [dat13]

/-- The invariant at a point's start, restated at `t.val`. -/
theorem PhiS13_castSucc (c : Dev nD) (t : Fin cfg13.N) :
    (dat13 V c).Φ t.castSucc = PhiS13 V c t.val (Nat.le_of_lt t.isLt) := by
  dsimp only [dat13]; simp only [Fin.coe_castSucc]

/-- What the body leaves, window by window. -/
theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) : (dat13 V c).after 3 t = iblk13 V c 3 t := by dsimp only [dat13]
theorem after13_4 (c : Dev nD) (t : Fin cfg13.N) : (dat13 V c).after 4 t = (outsAt13 V c t.val t.isLt).1 := by dsimp only [dat13]
theorem after13_5 (c : Dev nD) (t : Fin cfg13.N) : (dat13 V c).after 5 t = (outsAt13 V c t.val t.isLt).2.1 := by dsimp only [dat13]
theorem after13_6 (c : Dev nD) (t : Fin cfg13.N) : (dat13 V c).after 6 t = (outsAt13 V c t.val t.isLt).2.2.1 := by dsimp only [dat13]

/-- Each input's current staging buffer holds its block at every point, fetched there or not. -/
theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d
theorem before13_3 (c : Dev nD) (t : Fin cfg13.N) (d) : (dat13 V c).before 3 t d = iblk13 V c 3 t :=
  before13_3_of V (dat13 V c) (A_eq13 V c 3) (after13_3 V c) t d

/-! ## The body obligation, at a generic point -/

/-- What the body is called with at point `t`, the windows one by one, -/
def bodyPre13 (c : Dev nD) (t : Fin cfg13.N) : sProp 𝕄 :=
  iprop((dat13 V c).Φ t.castSucc ∗ (dat13 V c).owesAt () t.castSucc
    ∗ (∃ d, owns (c : Thread nD τ) (ms13_0 t) fullShare ((dat13 V c).before 0 t d))
    ∗ (∃ d, owns (c : Thread nD τ) (ms13_1 t) fullShare ((dat13 V c).before 1 t d))
    ∗ (∃ d, owns (c : Thread nD τ) (ms13_2 t) fullShare ((dat13 V c).before 2 t d))
    ∗ (∃ d, owns (c : Thread nD τ) (ms13_3 t) fullShare ((dat13 V c).before 3 t d))
    ∗ (∃ d, owns (c : Thread nD τ) (ms13_4 t) fullShare ((dat13 V c).before 4 t d))
    ∗ (∃ d, owns (c : Thread nD τ) (ms13_5 t) fullShare ((dat13 V c).before 5 t d))
    ∗ (∃ d, owns (c : Thread nD τ) (ms13_6 t) fullShare ((dat13 V c).before 6 t d)))

/-- and what it returns. -/
def bodyPost13 (c : Dev nD) (t : Fin cfg13.N) : sProp 𝕄 :=
  iprop((dat13 V c).Φ t.succ ∗ (dat13 V c).owesAt () t.succ
    ∗ (dat13 V c).leavesExact 0 t
    ∗ (dat13 V c).leavesExact 1 t
    ∗ (dat13 V c).leavesExact 2 t
    ∗ (dat13 V c).leavesExact 3 t
    ∗ (dat13 V c).leavesExact 4 t
    ∗ (dat13 V c).leavesExact 5 t
    ∗ (dat13 V c).leavesExact 6 t)

set_option maxHeartbeats 8000000 in
/-- The body at any point: the inputs' memrefs hold their blocks; the closed forms say which case the point is in; the
    invariant hands the body the accumulators at what the point before left (at anything at the first point) and takes
    them back at this point's contents; away from the last point the statistics outputs are handed back untouched; the
    core owes nothing throughout. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2, before13_3]
  rw [show (dat13 V c).owesAt () t.succ = (dat13 V c).owesAt () t.castSucc from rfl]
  rw [show (dat13 V c).Φ t.succ = PhiS13 V c (t.val + 1) t.isLt from rfl, PhiS13_succ]
  have hN : t.val < 20 := lt_of_lt_of_eq t.isLt (show cfg13.N = 20 from N_13)
  by_cases h0 : t.val % 20 = 0
  · have h1 : ¬t.val % 20 = 19 := by omega
    rw [show (dat13 V c).leavesExact 0 t = owns (c : Thread nD τ) (ms13_0 t) fullShare ((dat13 V c).after 0 t) from by
      unfold Dat.leavesExact; rw [liveAt13_0 t], after13_0]
    rw [show (dat13 V c).leavesExact 1 t = owns (c : Thread nD τ) (ms13_1 t) fullShare ((dat13 V c).after 1 t) from by
      unfold Dat.leavesExact; rw [liveAt13_1 t], after13_1]
    rw [show (dat13 V c).leavesExact 2 t = owns (c : Thread nD τ) (ms13_2 t) fullShare ((dat13 V c).after 2 t) from by
      unfold Dat.leavesExact; rw [liveAt13_2 t], after13_2]
    rw [show (dat13 V c).leavesExact 3 t = owns (c : Thread nD τ) (ms13_3 t) fullShare ((dat13 V c).after 3 t) from by
      unfold Dat.leavesExact; rw [liveAt13_3 t], after13_3]
    rw [show (dat13 V c).leavesExact 4 t = owns (c : Thread nD τ) (ms13_4 t) fullShare ((dat13 V c).after 4 t) from by
      unfold Dat.leavesExact; rw [liveAt13_4 t], after13_4]
    rw [Dat.leavesExact_idle (dat13 V c) 5 t (idleAt13_5 t (fun h => h1 ((hcond13_1 t).mp h))) (noFlush13_5 t (fun h => h1 ((hcond13_1 t).mp h)))]
    rw [Dat.leavesExact_idle (dat13 V c) 6 t (idleAt13_6 t (fun h => h1 ((hcond13_1 t).mp h))) (noFlush13_6 t (fun h => h1 ((hcond13_1 t).mp h)))]
    rw [outsAt13_A V c t h0 h1]
    unfold out13_A_4 sout13_A_0 sout13_A_1; (try dsimp only)
    have hz : t.val = 0 := by omega
    rw [PhiS13_castSucc V c t, PhiS13_zero V c _ _ hz, PhiA13_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun13_A c (grid13.coords t) _ _ _ _ _ _ _ _ _ _ _ _ _ _ _ _ _ _ ((hcond13_0 t).mpr h0) (fun h => h1 ((hcond13_1 t).mp h)) (iblk13 V c 0 t) (iblk13 V c 1 t) (iblk13 V c 2 t) (iblk13 V c 3 t)).2.2.2.2.2 _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, ⟨%e4, H4⟩, H5, H6, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover13_A_0 c _ _ _ _ _ _ _ _ _ _ _ _ _ _ _ _ _ _ _ _ _ _ _ _ _)
          · unfold owns; iexists _; isplitr
            swap; · iexact HS1
            ipureintro; exact View.read_writes_of_cover _ _ _ _ _ (scover13_A_1 c _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover13_A_4 c _ _ _ _ _ _ _ _ _ _ _ _ _ _ _ _ _ _ _ _ _ _ _ _ _)
    isplitl [H5]; · iexists _; iexact H5
    iexists _; iexact H6
  · by_cases h1 : t.val % 20 = 19
    · rw [show (dat13 V c).leavesExact 0 t = owns (c : Thread nD τ) (ms13_0 t) fullShare ((dat13 V c).after 0 t) from by
        unfold Dat.leavesExact; rw [liveAt13_0 t], after13_0]
      rw [show (dat13 V c).leavesExact 1 t = owns (c : Thread nD τ) (ms13_1 t) fullShare ((dat13 V c).after 1 t) from by
        unfold Dat.leavesExact; rw [liveAt13_1 t], after13_1]
      rw [show (dat13 V c).leavesExact 2 t = owns (c : Thread nD τ) (ms13_2 t) fullShare ((dat13 V c).after 2 t) from by
        unfold Dat.leavesExact; rw [liveAt13_2 t], after13_2]
      rw [show (dat13 V c).leavesExact 3 t = owns (c : Thread nD τ) (ms13_3 t) fullShare ((dat13 V c).after 3 t) from by
        unfold Dat.leavesExact; rw [liveAt13_3 t], after13_3]
      rw [show (dat13 V c).leavesExact 4 t = owns (c : Thread nD τ) (ms13_4 t) fullShare ((dat13 V c).after 4 t) from by
        unfold Dat.leavesExact; rw [liveAt13_4 t], after13_4]
      rw [show (dat13 V c).leavesExact 5 t = owns (c : Thread nD τ) (ms13_5 t) fullShare ((dat13 V c).after 5 t) from by
        unfold Dat.leavesExact; rw [liveAt13_5 t ((hcond13_1 t).mpr h1)], after13_5]
      rw [show (dat13 V c).leavesExact 6 t = owns (c : Thread nD τ) (ms13_6 t) fullShare ((dat13 V c).after 6 t) from by
        unfold Dat.leavesExact; rw [liveAt13_6 t ((hcond13_1 t).mpr h1)], after13_6]
      rw [outsAt13_C V c t h0 h1]
      unfold out13_C_4 out13_C_5 out13_C_6 sout13_C_0 sout13_C_1; (try dsimp only)
      have hz : t.val ≠ 0 := by omega
      rw [PhiS13_castSucc V c t, PhiS13_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun13_C c (grid13.coords t) _ _ _ _ _ _ _ _ _ _ _ _ _ _ _ _ _ _ (fun h => h0 ((hcond13_0 t).mp h)) ((hcond13_1 t).mpr h1) (iblk13 V c 0 t) (iblk13 V c 1 t) (iblk13 V c 2 t) (iblk13 V c 3 t) _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, ⟨%e4, H4⟩, ⟨%e5, H5⟩, ⟨%e6, H6⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover13_C_0 c _ _ _ _ _ _ _ _ _ _ _ _ _ _ _ _ _ _ _ _ _ _ _ _ _ _ _)
            · unfold owns; iexists _; isplitr
              swap; · iexact HS1
              ipureintro; exact View.read_writes_of_cover _ _ _ _ _ (scover13_C_1 c _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover13_C_4 c _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover13_C_5 c _ _ _ _ _ _ _ _ _ _ _ _ _ _ _ _ _ _ _ _ _ _ _ _ _ _ _)
      unfold owns; iexists _; isplitr
      swap; · iexact H6
      ipureintro; exact View.read_writes_of_cover _ _ _ _ _ (cover13_C_6 c _ _ _ _ _ _ _ _ _ _ _ _ _ _ _ _ _ _ _ _ _ _ _ _ _ _ _)
    · rw [show (dat13 V c).leavesExact 0 t = owns (c : Thread nD τ) (ms13_0 t) fullShare ((dat13 V c).after 0 t) from by
        unfold Dat.leavesExact; rw [liveAt13_0 t], after13_0]
      rw [show (dat13 V c).leavesExact 1 t = owns (c : Thread nD τ) (ms13_1 t) fullShare ((dat13 V c).after 1 t) from by
        unfold Dat.leavesExact; rw [liveAt13_1 t], after13_1]
      rw [show (dat13 V c).leavesExact 2 t = owns (c : Thread nD τ) (ms13_2 t) fullShare ((dat13 V c).after 2 t) from by
        unfold Dat.leavesExact; rw [liveAt13_2 t], after13_2]
      rw [show (dat13 V c).leavesExact 3 t = owns (c : Thread nD τ) (ms13_3 t) fullShare ((dat13 V c).after 3 t) from by
        unfold Dat.leavesExact; rw [liveAt13_3 t], after13_3]
      rw [show (dat13 V c).leavesExact 4 t = owns (c : Thread nD τ) (ms13_4 t) fullShare ((dat13 V c).after 4 t) from by
        unfold Dat.leavesExact; rw [liveAt13_4 t], after13_4]
      rw [Dat.leavesExact_idle (dat13 V c) 5 t (idleAt13_5 t (fun h => h1 ((hcond13_1 t).mp h))) (noFlush13_5 t (fun h => h1 ((hcond13_1 t).mp h)))]
      rw [Dat.leavesExact_idle (dat13 V c) 6 t (idleAt13_6 t (fun h => h1 ((hcond13_1 t).mp h))) (noFlush13_6 t (fun h => h1 ((hcond13_1 t).mp h)))]
      rw [outsAt13_B V c t h0 h1]
      unfold out13_B_4 sout13_B_0 sout13_B_1; (try dsimp only)
      have hz : t.val ≠ 0 := by omega
      rw [PhiS13_castSucc V c t, PhiS13_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun13_B c (grid13.coords t) _ _ _ _ _ _ _ _ _ _ _ _ _ _ _ _ _ _ (fun h => h0 ((hcond13_0 t).mp h)) (fun h => h1 ((hcond13_1 t).mp h)) (iblk13 V c 0 t) (iblk13 V c 1 t) (iblk13 V c 2 t) (iblk13 V c 3 t) _ _).2.2.2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%e4, H4⟩, H5, H6, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover13_B_0 c _ _ _ _ _ _ _ _ _ _ _ _ _ _ _ _ _ _ _ _ _ _ _ _ _ _ _)
            · unfold owns; iexists _; isplitr
              swap; · iexact HS1
              ipureintro; exact View.read_writes_of_cover _ _ _ _ _ (scover13_B_1 c _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover13_B_4 c _ _ _ _ _ _ _ _ _ _ _ _ _ _ _ _ _ _ _ _ _ _ _ _ _ _ _)
      isplitl [H5]; · iexists _; iexact H5
      iexists _; iexact H6

/-- The library's body obligation, at every point. -/
theorem body_obligation13 (c : Dev nD) : BodyObligation (dat13 (F := F) V c) (defs₀ (F := F)) Variants.none () Set.univ := fun t => by
  rw [bigSep_W13, bigSep_W13]
  exact sound_body13 V c t

/-! ## Entering and leaving the region -/

/-- What the launch hands the region is the invariant before the first point. -/
theorem Φ13_in (c : Dev nD) : Pipeline.ΦA spec13 c ⊢ (dat13 V c).Φ 0 := by
  rw [show (dat13 V c).Φ 0 = PhiS13 V c 0 (Nat.zero_le _) from rfl, PhiS13_zero V c 0 _ rfl]
  try exact Idealize.SL.BI.Entails.refl _

/-- After any point but the first the invariant gives the class's back: what the accumulators hold is forgotten. -/
theorem Phi13_out (c : Dev nD) (t : Fin (cfg13.N + 1)) (ht : t.val ≠ 0) : (dat13 V c).Φ t ⊢ Pipeline.ΦA spec13 c := by
  rw [show (dat13 V c).Φ t = PhiS13 V c t.val (Nat.le_of_lt_succ t.isLt) from rfl, PhiS13_pos V c _ _ ht, PhiA13_eq]
  iintro ⟨⟨⟨HS0, HS1⟩, HR⟩, Hg⟩
  isplitl [HS0 HS1 HR]
  · isplitl [HS0 HS1]
    · isplitl [HS0]
      · iexists _; iexact HS0
      · iexists _; iexact HS1
    iexact HR
  iexact Hg

/-- The same after the last point. -/
theorem Φ13_out (c : Dev nD) : (dat13 V c).Φ (Fin.last cfg13.N) ⊢ Pipeline.ΦA spec13 c :=
  Phi13_out V c _ (by rw [Fin.val_last]; have : cfg13.N = 20 := N_13; omega)

end Cert.KernelIdeal.Fr

end
-- ==== Proof.KI.R14.lean ====
import proofs.«173191_j73083163508880_2_alg».proof.Proof.Gen.KernelIdeal.Launch
import proofs.«173191_j73083163508880_2_alg».proof.Proof.Gen.KernelIdeal.Skeleton
import proofs.«173191_j73083163508880_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the elaborator's structural look recurses once per coordinate
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # The batch-norm application `cc14__bn_apply_kernel` (pipeline 14), at the entry contents `V`

Each of the 10 grid points reads a [5000,128] block of the activations and the four per-column parameter rows (mean,
inverse standard deviation, scale, shift), and stores `(x - mean) * invstd * g + b`, the rows broadcast down the
block, over the whole [5000,128] output block. -/

/-! ## The windows' blocks -/

/-- Window `w`'s block at point `t`, read off its array as the region finds it (`V`). -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- Input window 0 (the row block of the activations) holds its block at every point, for any proof data whose array is `V`'s and whose
    body leaves the block in place: the window is uncut and never idle, and where it is not fetched its block index
    has not moved. -/
theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)

/-- Input window 1 (the per-column mean, one constant block fetched at the first point only) holds its block at every point, for any proof data whose array is `V`'s and whose
    body leaves the block in place: the window is uncut and never idle, and where it is not fetched its block index
    has not moved. -/
theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)

/-- Input window 2 (the per-column inverse standard deviation, one constant block fetched at the first point only) holds its block at every point, for any proof data whose array is `V`'s and whose
    body leaves the block in place: the window is uncut and never idle, and where it is not fetched its block index
    has not moved. -/
theorem before14_2_of {c : Dev nD} (dat : Dat τ (Elt F) Unit ℕ (UR sig nD τ) ℕ cfg14 c) (hA : dat.A 2 = V c (Pipeline.arrRef spec14 2))
    (hafter : ∀ t, dat.after 2 t = iblk14 V c 2 t) (t : Fin cfg14.N) (d) : dat.before 2 t d = iblk14 V c 2 t :=
  (dat.before_in_eq_fetched 2 rfl (fun _ => rfl) (fun _ _ _ => rfl) (fun t => by rw [hafter]; unfold Dat.blockOf iblk14; rw [hA]; try rfl) t d).trans
    (by unfold Dat.fetched Dat.blockOf iblk14; rw [hA]; try rfl)

/-- Input window 3 (the scale vector, one constant block fetched at the first point only) holds its block at every point, for any proof data whose array is `V`'s and whose
    body leaves the block in place: the window is uncut and never idle, and where it is not fetched its block index
    has not moved. -/
theorem before14_3_of {c : Dev nD} (dat : Dat τ (Elt F) Unit ℕ (UR sig nD τ) ℕ cfg14 c) (hA : dat.A 3 = V c (Pipeline.arrRef spec14 3))
    (hafter : ∀ t, dat.after 3 t = iblk14 V c 3 t) (t : Fin cfg14.N) (d) : dat.before 3 t d = iblk14 V c 3 t :=
  (dat.before_in_eq_fetched 3 rfl (fun _ => rfl) (fun _ _ _ => rfl) (fun t => by rw [hafter]; unfold Dat.blockOf iblk14; rw [hA]; try rfl) t d).trans
    (by unfold Dat.fetched Dat.blockOf iblk14; rw [hA]; try rfl)

/-- Input window 4 (the shift vector, one constant block fetched at the first point only) holds its block at every point, for any proof data whose array is `V`'s and whose
    body leaves the block in place: the window is uncut and never idle, and where it is not fetched its block index
    has not moved. -/
theorem before14_4_of {c : Dev nD} (dat : Dat τ (Elt F) Unit ℕ (UR sig nD τ) ℕ cfg14 c) (hA : dat.A 4 = V c (Pipeline.arrRef spec14 4))
    (hafter : ∀ t, dat.after 4 t = iblk14 V c 4 t) (t : Fin cfg14.N) (d) : dat.before 4 t d = iblk14 V c 4 t :=
  (dat.before_in_eq_fetched 4 rfl (fun _ => rfl) (fun _ _ _ => rfl) (fun t => by rw [hafter]; unfold Dat.blockOf iblk14; rw [hA]; try rfl) t d).trans
    (by unfold Dat.fetched Dat.blockOf iblk14; rw [hA]; try rfl)

/-! ## The body's accesses -/

/-- The whole [5000,128] block. -/
abbrev r14_0 : Rect S5000x128 := Rect.unit (s := S5000x128) ![0, 0] S5000x128.size inb_S5000x128_S5000x128_0_0
/-- The whole [1,128] row. -/
abbrev r14_1 : Rect S1x128 := Rect.unit (s := S1x128) ![0, 0] S1x128.size inb_S1x128_S1x128_0_0
/-- The whole [128] vector. -/
abbrev r14_2 : Rect S128 := Rect.unit (s := S128) ![0] S128.size inb_S128_S128_0

/-! ## What the body leaves in the output window's buffer -/

/-- Window 5's staging buffer after the body, from the input windows' blocks: its one store, of the normalised block
    as the skeleton's payload computes it, over the whole block. -/
def out14_5 (x0 : Vec F S5000x128 .f32) (x1 : Vec F S1x128 .f32) (x2 : Vec F S1x128 .f32) (x3 : Vec F S128 .f32) (x4 : Vec F S128 .f32) : Vec F S5000x128 .f32 :=
  View.canon [⟨r14_0, k14_pay1 (View.ld x0 r14_0) (View.ld x1 r14_1) (View.ld x2 r14_1) (View.ld x3 r14_2) (View.ld x4 r14_2)⟩]

/-- The store's rectangle is the whole buffer, so it covers it. -/
theorem cover14_5 (p0 : Vec F S5000x128 .f32) (y : S5000x128.Idx) :
    ∃ pc ∈ ([⟨r14_0, p0⟩] : List (View.Piece (Elt F) S5000x128 .f32)), y ∈ pc.1.set :=
  View.cover_of_tiled [⟨r14_0, p0⟩] S5000x128.size (by rfl) y

/-! ## The body's triple -/

set_option maxHeartbeats 1000000 in
/-- The kernel body on whole staging memrefs, the inputs' at read contents `x0`…`x4` and the output's at anything,
    runs to the continuation holding the inputs' as they were and the output's at `out14_5` of the inputs'. -/
theorem sound_kernel14 (c : Dev nD) (E : Set ℕ) (i : grid14.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128 .f32) (harg4 : arg4.IsWhole) (arg5 : Memref sig .tc .vmem S128 .f32) (harg5 : arg5.IsWhole) (arg6 : Memref sig .tc .vmem S5000x128 .f32) (harg6 : arg6.IsWhole)
    (x0 : Vec F S5000x128 .f32) (x1 : Vec F S1x128 .f32) (x2 : Vec F S1x128 .f32) (x3 : Vec F S128 .f32) (x4 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out14_5 x0 x1 x2 x3 x4)) -∗ K ⟨⟩))
      ⊢ wp frame (wpE (defs₀ (F := F)) Variants.none c none) E (cc14__bn_apply_kernel i arg1 harg1 arg2 harg2 arg3 harg3 arg4 harg4 arg5 harg5 arg6 harg6) K := by
  simp only [cc14__bn_apply_kernel_eq_skeleton]; unfold cc14__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover14_5 _)

/-! ## The pipeline's proof data -/

/-- The proof data of pipeline 14 on core `c`: the arrays as the region finds them (`V`); after the body at point
    `t` each input's buffer at its block and the output's at `out14_5` of the input blocks; the invariant the scoped
    rest and the generator register, untouched; nothing owed; full shares. -/
def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => iblk14 V c 3 t
    | ⟨4, _⟩ => iblk14 V c 4 t
    | ⟨5, _⟩ => out14_5 (iblk14 V c 0 t) (iblk14 V c 1 t) (iblk14 V c 2 t) (iblk14 V c 3 t) (iblk14 V c 4 t)
  Φ _ := Pipeline.ΦA spec14 c
  q _ := fullShare
  owed _ := 0

/-- The proof data's arrays are the region-entry contents. -/
theorem A_eq14 (c : Dev nD) (w : Fin cfg14.W) : (dat14 V c).A w = V c (Pipeline.arrRef spec14 w) := by
  dsimp only [dat14]

/-- What the body leaves, window by window. -/
theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = iblk14 V c 2 t := by dsimp only [dat14]
theorem after14_3 (c : Dev nD) (t : Fin cfg14.N) : (dat14 V c).after 3 t = iblk14 V c 3 t := by dsimp only [dat14]
theorem after14_4 (c : Dev nD) (t : Fin cfg14.N) : (dat14 V c).after 4 t = iblk14 V c 4 t := by dsimp only [dat14]
theorem after14_5 (c : Dev nD) (t : Fin cfg14.N) : (dat14 V c).after 5 t = out14_5 (iblk14 V c 0 t) (iblk14 V c 1 t) (iblk14 V c 2 t) (iblk14 V c 3 t) (iblk14 V c 4 t) := by dsimp only [dat14]

/-- Each input's current staging buffer holds its block at every point, fetched there or not. -/
theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d
theorem before14_2 (c : Dev nD) (t : Fin cfg14.N) (d) : (dat14 V c).before 2 t d = iblk14 V c 2 t :=
  before14_2_of V (dat14 V c) (A_eq14 V c 2) (after14_2 V c) t d
theorem before14_3 (c : Dev nD) (t : Fin cfg14.N) (d) : (dat14 V c).before 3 t d = iblk14 V c 3 t :=
  before14_3_of V (dat14 V c) (A_eq14 V c 3) (after14_3 V c) t d
theorem before14_4 (c : Dev nD) (t : Fin cfg14.N) (d) : (dat14 V c).before 4 t d = iblk14 V c 4 t :=
  before14_4_of V (dat14 V c) (A_eq14 V c 4) (after14_4 V c) t d

/-! ## The body obligation, at a generic point -/

/-- What the body is called with at point `t`, the windows one by one, -/
def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d))
    ∗ (∃ d, owns (c : Thread nD τ) (st14_3 t) fullShare ((dat14 V c).before 3 t d))
    ∗ (∃ d, owns (c : Thread nD τ) (st14_4 t) fullShare ((dat14 V c).before 4 t d))
    ∗ (∃ d, owns (c : Thread nD τ) (st14_5 t) fullShare ((dat14 V c).before 5 t d)))

/-- and what it returns. -/
def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t)
    ∗ owns (c : Thread nD τ) (st14_3 t) fullShare ((dat14 V c).after 3 t)
    ∗ owns (c : Thread nD τ) (st14_4 t) fullShare ((dat14 V c).after 4 t)
    ∗ owns (c : Thread nD τ) (st14_5 t) fullShare ((dat14 V c).after 5 t))

/-- The body at any point: the inputs' memrefs hold their blocks, so `sound_kernel14` applies; the invariant and the
    core's `owes` pass through unread. -/
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1, before14_2, before14_3, before14_4]
  rw [show (dat14 V c).Φ t.succ = (dat14 V c).Φ t.castSucc from rfl,
    show (dat14 V c).owesAt () t.succ = (dat14 V c).owesAt () t.castSucc from rfl,
    after14_0, after14_1, after14_2, after14_3, after14_4, after14_5]
  iintro ⟨HΦ, Ho, ⟨%d0, H0⟩, ⟨%d1, H1⟩, ⟨%d2, H2⟩, ⟨%d3, H3⟩, ⟨%d4, H4⟩, ⟨%d5, H5⟩⟩
  iapply (sound_kernel14 c Set.univ _ _ _ _ _ _ _ _ _ _ _ _ _ (iblk14 V c 0 t) (iblk14 V c 1 t) (iblk14 V c 2 t) (iblk14 V c 3 t) (iblk14 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation14 (c : Dev nD) : BodyObligation (dat14 (F := F) V c) (defs₀ (F := F)) Variants.none () Set.univ := fun t => by
  rw [bigSep_W14, bigSep_W14]
  exact sound_body14 V c t

end Cert.KernelIdeal.Fr

end
-- ==== Proof.KI.Chain.lean ====
/- The contents of every TensorCore buffer between the items of @main, as a fold from the launch memory: a stretch of
   host operations applies its operations' functions; a kernel region leaves each of its output arrays at what its
   grid's write-backs leave there and every other buffer as it was. No item writes an argument array, so each of
   the 42 arguments is read back at the end as launched. -/
import proofs.«173191_j73083163508880_2_alg».proof.Proof.KI.R0
import proofs.«173191_j73083163508880_2_alg».proof.Proof.KI.R1
import proofs.«173191_j73083163508880_2_alg».proof.Proof.KI.R2
import proofs.«173191_j73083163508880_2_alg».proof.Proof.KI.R3
import proofs.«173191_j73083163508880_2_alg».proof.Proof.KI.R4
import proofs.«173191_j73083163508880_2_alg».proof.Proof.KI.R5
import proofs.«173191_j73083163508880_2_alg».proof.Proof.KI.R6
import proofs.«173191_j73083163508880_2_alg».proof.Proof.KI.R7
import proofs.«173191_j73083163508880_2_alg».proof.Proof.KI.R8
import proofs.«173191_j73083163508880_2_alg».proof.Proof.KI.R9
import proofs.«173191_j73083163508880_2_alg».proof.Proof.KI.R10
import proofs.«173191_j73083163508880_2_alg».proof.Proof.KI.R11
import proofs.«173191_j73083163508880_2_alg».proof.Proof.KI.R12
import proofs.«173191_j73083163508880_2_alg».proof.Proof.KI.R13
import proofs.«173191_j73083163508880_2_alg».proof.Proof.KI.R14
import proofs.«173191_j73083163508880_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host stretch `hostOps0`. -/
abbrev W1 : Dev nD → Valuation τ sig (Elt F) := fun c => StableHlo.after hostOps0 (W0 m ρ c)
/-- A buffer the stretch does not write keeps its contents. -/
theorem W1_keep (c : Dev nD) (r : Ref sig .tc) (h : r ∉ hostOps0_W) :
    W1 m ρ c (Proc.devRef .tc r) = W0 m ρ c (Proc.devRef .tc r) :=
  StableHlo.after_of_writes_sub hostOps0 _ hostOps0_writes h
/-- The same contents read at the TensorCore's references. -/
abbrev B1 : (c : Dev nD) → (b : Ref sig .tc) → Buf (Elt F) ((c : Thread nD τ).loc b) := fun c b => W1 m ρ c b
/-- After region 0: its arrays at what the pipeline leaves (an input's as entered, an output's at its write-backs
    folded over the grid), every other buffer as entered. -/
def W2 (c : Dev nD) : Valuation τ sig (Elt F) :=
  Pipeline.withArrays spec0 c (W1 m ρ c) fun w => (dat0 (B1 m ρ) c).arrAt w cfg0.N
theorem W2_arr (c : Dev nD) (w : Fin cfg0.W) :
    W2 m ρ c (Proc.devRef .tc (Pipeline.arrRef spec0 w)) = (dat0 (B1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same contents read at the TensorCore's references. -/
abbrev B2 : (c : Dev nD) → (b : Ref sig .tc) → Buf (Elt F) ((c : Thread nD τ).loc b) := fun c b => W2 m ρ c b
theorem hF0 (c : Dev nD) (w : Fin cfg0.W) : (dat0 (B1 m ρ) c).arrAt w cfg0.N = B2 m ρ c (Pipeline.arrRef spec0 w) :=
  (W2_arr m ρ c w).symm
theorem hrest0 (c : Dev nD) : ∀ b, b ∉ Finset.univ.image (Pipeline.arrRef spec0) → B2 m ρ c b = B1 m ρ c b :=
  fun b hb => W2_of_ne m ρ c b fun w e => hb (Finset.mem_image.mpr ⟨w, Finset.mem_univ _, e⟩)
/-- Input window 0's array is left as entered. -/
theorem W2_in0 (c : Dev nD) : W2 m ρ c (Proc.devRef .tc main_v15) = W1 m ρ c (Proc.devRef .tc main_v15) :=
  (W2_arr m ρ c 0).trans (((dat0 (B1 m ρ) c).arrAt_in 0 rfl _).trans (A_eq0 (B1 m ρ) c 0))
/-- Input window 1's array is left as entered. -/
theorem W2_in1 (c : Dev nD) : W2 m ρ c (Proc.devRef .tc main_v20) = W1 m ρ c (Proc.devRef .tc main_v20) :=
  (W2_arr m ρ c 1).trans (((dat0 (B1 m ρ) c).arrAt_in 1 rfl _).trans (A_eq0 (B1 m ρ) c 1))
/-- Input window 2's array is left as entered. -/
theorem W2_in2 (c : Dev nD) : W2 m ρ c (Proc.devRef .tc main_arg0) = W1 m ρ c (Proc.devRef .tc main_arg0) :=
  (W2_arr m ρ c 2).trans (((dat0 (B1 m ρ) c).arrAt_in 2 rfl _).trans (A_eq0 (B1 m ρ) c 2))
/-- Input window 3's array is left as entered. -/
theorem W2_in3 (c : Dev nD) : W2 m ρ c (Proc.devRef .tc main_arg12) = W1 m ρ c (Proc.devRef .tc main_arg12) :=
  (W2_arr m ρ c 3).trans (((dat0 (B1 m ρ) c).arrAt_in 3 rfl _).trans (A_eq0 (B1 m ρ) c 3))
/-- Input window 4's array is left as entered. -/
theorem W2_in4 (c : Dev nD) : W2 m ρ c (Proc.devRef .tc main_arg13) = W1 m ρ c (Proc.devRef .tc main_arg13) :=
  (W2_arr m ρ c 4).trans (((dat0 (B1 m ρ) c).arrAt_in 4 rfl _).trans (A_eq0 (B1 m ρ) c 4))
/-- Input window 5's array is left as entered. -/
theorem W2_in5 (c : Dev nD) : W2 m ρ c (Proc.devRef .tc main_arg14) = W1 m ρ c (Proc.devRef .tc main_arg14) :=
  (W2_arr m ρ c 5).trans (((dat0 (B1 m ρ) c).arrAt_in 5 rfl _).trans (A_eq0 (B1 m ρ) c 5))
/-- After the host stretch `hostOps1`. -/
abbrev W3 : Dev nD → Valuation τ sig (Elt F) := fun c => StableHlo.after hostOps1 (W2 m ρ c)
/-- A buffer the stretch does not write keeps its contents. -/
theorem W3_keep (c : Dev nD) (r : Ref sig .tc) (h : r ∉ hostOps1_W) :
    W3 m ρ c (Proc.devRef .tc r) = W2 m ρ c (Proc.devRef .tc r) :=
  StableHlo.after_of_writes_sub hostOps1 _ hostOps1_writes h
/-- The same contents read at the TensorCore's references. -/
abbrev B3 : (c : Dev nD) → (b : Ref sig .tc) → Buf (Elt F) ((c : Thread nD τ).loc b) := fun c b => W3 m ρ c b
/-- After region 1: its arrays at what the pipeline leaves (an input's as entered, an output's at its write-backs
    folded over the grid), every other buffer as entered. -/
def W4 (c : Dev nD) : Valuation τ sig (Elt F) :=
  Pipeline.withArrays spec1 c (W3 m ρ c) fun w => (dat1 (B3 m ρ) c).arrAt w cfg1.N
theorem W4_arr (c : Dev nD) (w : Fin cfg1.W) :
    W4 m ρ c (Proc.devRef .tc (Pipeline.arrRef spec1 w)) = (dat1 (B3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same contents read at the TensorCore's references. -/
abbrev B4 : (c : Dev nD) → (b : Ref sig .tc) → Buf (Elt F) ((c : Thread nD τ).loc b) := fun c b => W4 m ρ c b
theorem hF1 (c : Dev nD) (w : Fin cfg1.W) : (dat1 (B3 m ρ) c).arrAt w cfg1.N = B4 m ρ c (Pipeline.arrRef spec1 w) :=
  (W4_arr m ρ c w).symm
theorem hrest1 (c : Dev nD) : ∀ b, b ∉ Finset.univ.image (Pipeline.arrRef spec1) → B4 m ρ c b = B3 m ρ c b :=
  fun b hb => W4_of_ne m ρ c b fun w e => hb (Finset.mem_image.mpr ⟨w, Finset.mem_univ _, e⟩)
/-- Input window 0's array is left as entered. -/
theorem W4_in0 (c : Dev nD) : W4 m ρ c (Proc.devRef .tc main_v37) = W3 m ρ c (Proc.devRef .tc main_v37) :=
  (W4_arr m ρ c 0).trans (((dat1 (B3 m ρ) c).arrAt_in 0 rfl _).trans (A_eq1 (B3 m ρ) c 0))
/-- Input window 1's array is left as entered. -/
theorem W4_in1 (c : Dev nD) : W4 m ρ c (Proc.devRef .tc main_v42) = W3 m ρ c (Proc.devRef .tc main_v42) :=
  (W4_arr m ρ c 1).trans (((dat1 (B3 m ρ) c).arrAt_in 1 rfl _).trans (A_eq1 (B3 m ρ) c 1))
/-- Input window 2's array is left as entered. -/
theorem W4_in2 (c : Dev nD) : W4 m ρ c (Proc.devRef .tc main_v21) = W3 m ρ c (Proc.devRef .tc main_v21) :=
  (W4_arr m ρ c 2).trans (((dat1 (B3 m ρ) c).arrAt_in 2 rfl _).trans (A_eq1 (B3 m ρ) c 2))
/-- Input window 3's array is left as entered. -/
theorem W4_in3 (c : Dev nD) : W4 m ρ c (Proc.devRef .tc main_arg15) = W3 m ρ c (Proc.devRef .tc main_arg15) :=
  (W4_arr m ρ c 3).trans (((dat1 (B3 m ρ) c).arrAt_in 3 rfl _).trans (A_eq1 (B3 m ρ) c 3))
/-- Input window 4's array is left as entered. -/
theorem W4_in4 (c : Dev nD) : W4 m ρ c (Proc.devRef .tc main_arg16) = W3 m ρ c (Proc.devRef .tc main_arg16) :=
  (W4_arr m ρ c 4).trans (((dat1 (B3 m ρ) c).arrAt_in 4 rfl _).trans (A_eq1 (B3 m ρ) c 4))
/-- Input window 5's array is left as entered. -/
theorem W4_in5 (c : Dev nD) : W4 m ρ c (Proc.devRef .tc main_arg17) = W3 m ρ c (Proc.devRef .tc main_arg17) :=
  (W4_arr m ρ c 5).trans (((dat1 (B3 m ρ) c).arrAt_in 5 rfl _).trans (A_eq1 (B3 m ρ) c 5))
/-- After the host stretch `hostOps2`. -/
abbrev W5 : Dev nD → Valuation τ sig (Elt F) := fun c => StableHlo.after hostOps2 (W4 m ρ c)
/-- A buffer the stretch does not write keeps its contents. -/
theorem W5_keep (c : Dev nD) (r : Ref sig .tc) (h : r ∉ hostOps2_W) :
    W5 m ρ c (Proc.devRef .tc r) = W4 m ρ c (Proc.devRef .tc r) :=
  StableHlo.after_of_writes_sub hostOps2 _ hostOps2_writes h
/-- The same contents read at the TensorCore's references. -/
abbrev B5 : (c : Dev nD) → (b : Ref sig .tc) → Buf (Elt F) ((c : Thread nD τ).loc b) := fun c b => W5 m ρ c b
/-- After region 2: its arrays at what the pipeline leaves (an input's as entered, an output's at its write-backs
    folded over the grid), every other buffer as entered. -/
def W6 (c : Dev nD) : Valuation τ sig (Elt F) :=
  Pipeline.withArrays spec2 c (W5 m ρ c) fun w => (dat2 (B5 m ρ) c).arrAt w cfg2.N
theorem W6_arr (c : Dev nD) (w : Fin cfg2.W) :
    W6 m ρ c (Proc.devRef .tc (Pipeline.arrRef spec2 w)) = (dat2 (B5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same contents read at the TensorCore's references. -/
abbrev B6 : (c : Dev nD) → (b : Ref sig .tc) → Buf (Elt F) ((c : Thread nD τ).loc b) := fun c b => W6 m ρ c b
theorem hF2 (c : Dev nD) (w : Fin cfg2.W) : (dat2 (B5 m ρ) c).arrAt w cfg2.N = B6 m ρ c (Pipeline.arrRef spec2 w) :=
  (W6_arr m ρ c w).symm
theorem hrest2 (c : Dev nD) : ∀ b, b ∉ Finset.univ.image (Pipeline.arrRef spec2) → B6 m ρ c b = B5 m ρ c b :=
  fun b hb => W6_of_ne m ρ c b fun w e => hb (Finset.mem_image.mpr ⟨w, Finset.mem_univ _, e⟩)
/-- Input window 0's array is left as entered. -/
theorem W6_in0 (c : Dev nD) : W6 m ρ c (Proc.devRef .tc main_v59) = W5 m ρ c (Proc.devRef .tc main_v59) :=
  (W6_arr m ρ c 0).trans (((dat2 (B5 m ρ) c).arrAt_in 0 rfl _).trans (A_eq2 (B5 m ρ) c 0))
/-- Input window 1's array is left as entered. -/
theorem W6_in1 (c : Dev nD) : W6 m ρ c (Proc.devRef .tc main_v64) = W5 m ρ c (Proc.devRef .tc main_v64) :=
  (W6_arr m ρ c 1).trans (((dat2 (B5 m ρ) c).arrAt_in 1 rfl _).trans (A_eq2 (B5 m ρ) c 1))
/-- Input window 2's array is left as entered. -/
theorem W6_in2 (c : Dev nD) : W6 m ρ c (Proc.devRef .tc main_arg2) = W5 m ρ c (Proc.devRef .tc main_arg2) :=
  (W6_arr m ρ c 2).trans (((dat2 (B5 m ρ) c).arrAt_in 2 rfl _).trans (A_eq2 (B5 m ρ) c 2))
/-- Input window 3's array is left as entered. -/
theorem W6_in3 (c : Dev nD) : W6 m ρ c (Proc.devRef .tc main_arg18) = W5 m ρ c (Proc.devRef .tc main_arg18) :=
  (W6_arr m ρ c 3).trans (((dat2 (B5 m ρ) c).arrAt_in 3 rfl _).trans (A_eq2 (B5 m ρ) c 3))
/-- Input window 4's array is left as entered. -/
theorem W6_in4 (c : Dev nD) : W6 m ρ c (Proc.devRef .tc main_arg19) = W5 m ρ c (Proc.devRef .tc main_arg19) :=
  (W6_arr m ρ c 4).trans (((dat2 (B5 m ρ) c).arrAt_in 4 rfl _).trans (A_eq2 (B5 m ρ) c 4))
/-- Input window 5's array is left as entered. -/
theorem W6_in5 (c : Dev nD) : W6 m ρ c (Proc.devRef .tc main_arg20) = W5 m ρ c (Proc.devRef .tc main_arg20) :=
  (W6_arr m ρ c 5).trans (((dat2 (B5 m ρ) c).arrAt_in 5 rfl _).trans (A_eq2 (B5 m ρ) c 5))
/-- After region 3: its arrays at what the pipeline leaves (an input's as entered, an output's at its write-backs
    folded over the grid), every other buffer as entered. -/
def W7 (c : Dev nD) : Valuation τ sig (Elt F) :=
  Pipeline.withArrays spec3 c (W6 m ρ c) fun w => (dat3 (B6 m ρ) c).arrAt w cfg3.N
theorem W7_arr (c : Dev nD) (w : Fin cfg3.W) :
    W7 m ρ c (Proc.devRef .tc (Pipeline.arrRef spec3 w)) = (dat3 (B6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
/-- The same contents read at the TensorCore's references. -/
abbrev B7 : (c : Dev nD) → (b : Ref sig .tc) → Buf (Elt F) ((c : Thread nD τ).loc b) := fun c b => W7 m ρ c b
theorem hF3 (c : Dev nD) (w : Fin cfg3.W) : (dat3 (B6 m ρ) c).arrAt w cfg3.N = B7 m ρ c (Pipeline.arrRef spec3 w) :=
  (W7_arr m ρ c w).symm
theorem hrest3 (c : Dev nD) : ∀ b, b ∉ Finset.univ.image (Pipeline.arrRef spec3) → B7 m ρ c b = B6 m ρ c b :=
  fun b hb => W7_of_ne m ρ c b fun w e => hb (Finset.mem_image.mpr ⟨w, Finset.mem_univ _, e⟩)
/-- Input window 0's array is left as entered. -/
theorem W7_in0 (c : Dev nD) : W7 m ρ c (Proc.devRef .tc main_v43) = W6 m ρ c (Proc.devRef .tc main_v43) :=
  (W7_arr m ρ c 0).trans (((dat3 (B6 m ρ) c).arrAt_in 0 rfl _).trans (A_eq3 (B6 m ρ) c 0))
/-- Input window 1's array is left as entered. -/
theorem W7_in1 (c : Dev nD) : W7 m ρ c (Proc.devRef .tc main_arg30) = W6 m ρ c (Proc.devRef .tc main_arg30) :=
  (W7_arr m ρ c 1).trans (((dat3 (B6 m ρ) c).arrAt_in 1 rfl _).trans (A_eq3 (B6 m ρ) c 1))
/-- After the host stretch `hostOps4`. -/
abbrev W8 : Dev nD → Valuation τ sig (Elt F) := fun c => StableHlo.after hostOps4 (W7 m ρ c)
/-- A buffer the stretch does not write keeps its contents. -/
theorem W8_keep (c : Dev nD) (r : Ref sig .tc) (h : r ∉ hostOps4_W) :
    W8 m ρ c (Proc.devRef .tc r) = W7 m ρ c (Proc.devRef .tc r) :=
  StableHlo.after_of_writes_sub hostOps4 _ hostOps4_writes h
/-- The same contents read at the TensorCore's references. -/
abbrev B8 : (c : Dev nD) → (b : Ref sig .tc) → Buf (Elt F) ((c : Thread nD τ).loc b) := fun c b => W8 m ρ c b
/-- After region 4: its arrays at what the pipeline leaves (an input's as entered, an output's at its write-backs
    folded over the grid), every other buffer as entered. -/
def W9 (c : Dev nD) : Valuation τ sig (Elt F) :=
  Pipeline.withArrays spec4 c (W8 m ρ c) fun w => (dat4 (B8 m ρ) c).arrAt w cfg4.N
theorem W9_arr (c : Dev nD) (w : Fin cfg4.W) :
    W9 m ρ c (Proc.devRef .tc (Pipeline.arrRef spec4 w)) = (dat4 (B8 m ρ) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m ρ c (Proc.devRef .tc b) = W8 m ρ c (Proc.devRef .tc b) := by
  unfold W9; exact Pipeline.withArrays_of_ne spec4 c _ _ b hb
/-- The same contents read at the TensorCore's references. -/
abbrev B9 : (c : Dev nD) → (b : Ref sig .tc) → Buf (Elt F) ((c : Thread nD τ).loc b) := fun c b => W9 m ρ c b
theorem hF4 (c : Dev nD) (w : Fin cfg4.W) : (dat4 (B8 m ρ) c).arrAt w cfg4.N = B9 m ρ c (Pipeline.arrRef spec4 w) :=
  (W9_arr m ρ c w).symm
theorem hrest4 (c : Dev nD) : ∀ b, b ∉ Finset.univ.image (Pipeline.arrRef spec4) → B9 m ρ c b = B8 m ρ c b :=
  fun b hb => W9_of_ne m ρ c b fun w e => hb (Finset.mem_image.mpr ⟨w, Finset.mem_univ _, e⟩)
/-- Input window 0's array is left as entered. -/
theorem W9_in0 (c : Dev nD) : W9 m ρ c (Proc.devRef .tc main_v92) = W8 m ρ c (Proc.devRef .tc main_v92) :=
  (W9_arr m ρ c 0).trans (((dat4 (B8 m ρ) c).arrAt_in 0 rfl _).trans (A_eq4 (B8 m ρ) c 0))
/-- Input window 1's array is left as entered. -/
theorem W9_in1 (c : Dev nD) : W9 m ρ c (Proc.devRef .tc main_v80) = W8 m ρ c (Proc.devRef .tc main_v80) :=
  (W9_arr m ρ c 1).trans (((dat4 (B8 m ρ) c).arrAt_in 1 rfl _).trans (A_eq4 (B8 m ρ) c 1))
/-- Input window 2's array is left as entered. -/
theorem W9_in2 (c : Dev nD) : W9 m ρ c (Proc.devRef .tc main_v93) = W8 m ρ c (Proc.devRef .tc main_v93) :=
  (W9_arr m ρ c 2).trans (((dat4 (B8 m ρ) c).arrAt_in 2 rfl _).trans (A_eq4 (B8 m ρ) c 2))
/-- Input window 3's array is left as entered. -/
theorem W9_in3 (c : Dev nD) : W9 m ρ c (Proc.devRef .tc main_arg31) = W8 m ρ c (Proc.devRef .tc main_arg31) :=
  (W9_arr m ρ c 3).trans (((dat4 (B8 m ρ) c).arrAt_in 3 rfl _).trans (A_eq4 (B8 m ρ) c 3))
/-- After the host stretch `hostOps5`. -/
abbrev W10 : Dev nD → Valuation τ sig (Elt F) := fun c => StableHlo.after hostOps5 (W9 m ρ c)
/-- A buffer the stretch does not write keeps its contents. -/
theorem W10_keep (c : Dev nD) (r : Ref sig .tc) (h : r ∉ hostOps5_W) :
    W10 m ρ c (Proc.devRef .tc r) = W9 m ρ c (Proc.devRef .tc r) :=
  StableHlo.after_of_writes_sub hostOps5 _ hostOps5_writes h
/-- The same contents read at the TensorCore's references. -/
abbrev B10 : (c : Dev nD) → (b : Ref sig .tc) → Buf (Elt F) ((c : Thread nD τ).loc b) := fun c b => W10 m ρ c b
/-- After region 5: its arrays at what the pipeline leaves (an input's as entered, an output's at its write-backs
    folded over the grid), every other buffer as entered. -/
def W11 (c : Dev nD) : Valuation τ sig (Elt F) :=
  Pipeline.withArrays spec5 c (W10 m ρ c) fun w => (dat5 (B10 m ρ) c).arrAt w cfg5.N
theorem W11_arr (c : Dev nD) (w : Fin cfg5.W) :
    W11 m ρ c (Proc.devRef .tc (Pipeline.arrRef spec5 w)) = (dat5 (B10 m ρ) c).arrAt w cfg5.N := by
  unfold W11; exact Pipeline.withArrays_arr spec5 launch5.win.arr_inj c _ _ w
theorem W11_of_ne (c : Dev nD) (b : Ref sig .tc) (hb : ∀ w, Pipeline.arrRef spec5 w ≠ b) :
    W11 m ρ c (Proc.devRef .tc b) = W10 m ρ c (Proc.devRef .tc b) := by
  unfold W11; exact Pipeline.withArrays_of_ne spec5 c _ _ b hb
/-- The same contents read at the TensorCore's references. -/
abbrev B11 : (c : Dev nD) → (b : Ref sig .tc) → Buf (Elt F) ((c : Thread nD τ).loc b) := fun c b => W11 m ρ c b
theorem hF5 (c : Dev nD) (w : Fin cfg5.W) : (dat5 (B10 m ρ) c).arrAt w cfg5.N = B11 m ρ c (Pipeline.arrRef spec5 w) :=
  (W11_arr m ρ c w).symm
theorem hrest5 (c : Dev nD) : ∀ b, b ∉ Finset.univ.image (Pipeline.arrRef spec5) → B11 m ρ c b = B10 m ρ c b :=
  fun b hb => W11_of_ne m ρ c b fun w e => hb (Finset.mem_image.mpr ⟨w, Finset.mem_univ _, e⟩)
/-- Input window 0's array is left as entered. -/
theorem W11_in0 (c : Dev nD) : W11 m ρ c (Proc.devRef .tc main_v104) = W10 m ρ c (Proc.devRef .tc main_v104) :=
  (W11_arr m ρ c 0).trans (((dat5 (B10 m ρ) c).arrAt_in 0 rfl _).trans (A_eq5 (B10 m ρ) c 0))
/-- Input window 1's array is left as entered. -/
theorem W11_in1 (c : Dev nD) : W11 m ρ c (Proc.devRef .tc main_v105) = W10 m ρ c (Proc.devRef .tc main_v105) :=
  (W11_arr m ρ c 1).trans (((dat5 (B10 m ρ) c).arrAt_in 1 rfl _).trans (A_eq5 (B10 m ρ) c 1))
/-- Input window 2's array is left as entered. -/
theorem W11_in2 (c : Dev nD) : W11 m ρ c (Proc.devRef .tc main_v106) = W10 m ρ c (Proc.devRef .tc main_v106) :=
  (W11_arr m ρ c 2).trans (((dat5 (B10 m ρ) c).arrAt_in 2 rfl _).trans (A_eq5 (B10 m ρ) c 2))
/-- Input window 3's array is left as entered. -/
theorem W11_in3 (c : Dev nD) : W11 m ρ c (Proc.devRef .tc main_v107) = W10 m ρ c (Proc.devRef .tc main_v107) :=
  (W11_arr m ρ c 3).trans (((dat5 (B10 m ρ) c).arrAt_in 3 rfl _).trans (A_eq5 (B10 m ρ) c 3))
/-- Input window 4's array is left as entered. -/
theorem W11_in4 (c : Dev nD) : W11 m ρ c (Proc.devRef .tc main_v108) = W10 m ρ c (Proc.devRef .tc main_v108) :=
  (W11_arr m ρ c 4).trans (((dat5 (B10 m ρ) c).arrAt_in 4 rfl _).trans (A_eq5 (B10 m ρ) c 4))
/-- After the host stretch `hostOps6`. -/
abbrev W12 : Dev nD → Valuation τ sig (Elt F) := fun c => StableHlo.after hostOps6 (W11 m ρ c)
/-- A buffer the stretch does not write keeps its contents. -/
theorem W12_keep (c : Dev nD) (r : Ref sig .tc) (h : r ∉ hostOps6_W) :
    W12 m ρ c (Proc.devRef .tc r) = W11 m ρ c (Proc.devRef .tc r) :=
  StableHlo.after_of_writes_sub hostOps6 _ hostOps6_writes h
/-- The same contents read at the TensorCore's references. -/
abbrev B12 : (c : Dev nD) → (b : Ref sig .tc) → Buf (Elt F) ((c : Thread nD τ).loc b) := fun c b => W12 m ρ c b
/-- After region 6: its arrays at what the pipeline leaves (an input's as entered, an output's at its write-backs
    folded over the grid), every other buffer as entered. -/
def W13 (c : Dev nD) : Valuation τ sig (Elt F) :=
  Pipeline.withArrays spec6 c (W12 m ρ c) fun w => (dat6 (B12 m ρ) c).arrAt w cfg6.N
theorem W13_arr (c : Dev nD) (w : Fin cfg6.W) :
    W13 m ρ c (Proc.devRef .tc (Pipeline.arrRef spec6 w)) = (dat6 (B12 m ρ) c).arrAt w cfg6.N := by
  unfold W13; exact Pipeline.withArrays_arr spec6 launch6.win.arr_inj c _ _ w
theorem W13_of_ne (c : Dev nD) (b : Ref sig .tc) (hb : ∀ w, Pipeline.arrRef spec6 w ≠ b) :
    W13 m ρ c (Proc.devRef .tc b) = W12 m ρ c (Proc.devRef .tc b) := by
  unfold W13; exact Pipeline.withArrays_of_ne spec6 c _ _ b hb
/-- The same contents read at the TensorCore's references. -/
abbrev B13 : (c : Dev nD) → (b : Ref sig .tc) → Buf (Elt F) ((c : Thread nD τ).loc b) := fun c b => W13 m ρ c b
theorem hF6 (c : Dev nD) (w : Fin cfg6.W) : (dat6 (B12 m ρ) c).arrAt w cfg6.N = B13 m ρ c (Pipeline.arrRef spec6 w) :=
  (W13_arr m ρ c w).symm
theorem hrest6 (c : Dev nD) : ∀ b, b ∉ Finset.univ.image (Pipeline.arrRef spec6) → B13 m ρ c b = B12 m ρ c b :=
  fun b hb => W13_of_ne m ρ c b fun w e => hb (Finset.mem_image.mpr ⟨w, Finset.mem_univ _, e⟩)
/-- Input window 0's array is left as entered. -/
theorem W13_in0 (c : Dev nD) : W13 m ρ c (Proc.devRef .tc main_v65) = W12 m ρ c (Proc.devRef .tc main_v65) :=
  (W13_arr m ρ c 0).trans (((dat6 (B12 m ρ) c).arrAt_in 0 rfl _).trans (A_eq6 (B12 m ρ) c 0))
/-- Input window 1's array is left as entered. -/
theorem W13_in1 (c : Dev nD) : W13 m ρ c (Proc.devRef .tc main_arg32) = W12 m ρ c (Proc.devRef .tc main_arg32) :=
  (W13_arr m ρ c 1).trans (((dat6 (B12 m ρ) c).arrAt_in 1 rfl _).trans (A_eq6 (B12 m ρ) c 1))
/-- After the host stretch `hostOps7`. -/
abbrev W14 : Dev nD → Valuation τ sig (Elt F) := fun c => StableHlo.after hostOps7 (W13 m ρ c)
/-- A buffer the stretch does not write keeps its contents. -/
theorem W14_keep (c : Dev nD) (r : Ref sig .tc) (h : r ∉ hostOps7_W) :
    W14 m ρ c (Proc.devRef .tc r) = W13 m ρ c (Proc.devRef .tc r) :=
  StableHlo.after_of_writes_sub hostOps7 _ hostOps7_writes h
/-- The same contents read at the TensorCore's references. -/
abbrev B14 : (c : Dev nD) → (b : Ref sig .tc) → Buf (Elt F) ((c : Thread nD τ).loc b) := fun c b => W14 m ρ c b
/-- After region 7: its arrays at what the pipeline leaves (an input's as entered, an output's at its write-backs
    folded over the grid), every other buffer as entered. -/
def W15 (c : Dev nD) : Valuation τ sig (Elt F) :=
  Pipeline.withArrays spec7 c (W14 m ρ c) fun w => (dat7 (B14 m ρ) c).arrAt w cfg7.N
theorem W15_arr (c : Dev nD) (w : Fin cfg7.W) :
    W15 m ρ c (Proc.devRef .tc (Pipeline.arrRef spec7 w)) = (dat7 (B14 m ρ) c).arrAt w cfg7.N := by
  unfold W15; exact Pipeline.withArrays_arr spec7 launch7.win.arr_inj c _ _ w
theorem W15_of_ne (c : Dev nD) (b : Ref sig .tc) (hb : ∀ w, Pipeline.arrRef spec7 w ≠ b) :
    W15 m ρ c (Proc.devRef .tc b) = W14 m ρ c (Proc.devRef .tc b) := by
  unfold W15; exact Pipeline.withArrays_of_ne spec7 c _ _ b hb
/-- The same contents read at the TensorCore's references. -/
abbrev B15 : (c : Dev nD) → (b : Ref sig .tc) → Buf (Elt F) ((c : Thread nD τ).loc b) := fun c b => W15 m ρ c b
theorem hF7 (c : Dev nD) (w : Fin cfg7.W) : (dat7 (B14 m ρ) c).arrAt w cfg7.N = B15 m ρ c (Pipeline.arrRef spec7 w) :=
  (W15_arr m ρ c w).symm
theorem hrest7 (c : Dev nD) : ∀ b, b ∉ Finset.univ.image (Pipeline.arrRef spec7) → B15 m ρ c b = B14 m ρ c b :=
  fun b hb => W15_of_ne m ρ c b fun w e => hb (Finset.mem_image.mpr ⟨w, Finset.mem_univ _, e⟩)
/-- Input window 0's array is left as entered. -/
theorem W15_in0 (c : Dev nD) : W15 m ρ c (Proc.devRef .tc main_v137) = W14 m ρ c (Proc.devRef .tc main_v137) :=
  (W15_arr m ρ c 0).trans (((dat7 (B14 m ρ) c).arrAt_in 0 rfl _).trans (A_eq7 (B14 m ρ) c 0))
/-- Input window 1's array is left as entered. -/
theorem W15_in1 (c : Dev nD) : W15 m ρ c (Proc.devRef .tc main_v125) = W14 m ρ c (Proc.devRef .tc main_v125) :=
  (W15_arr m ρ c 1).trans (((dat7 (B14 m ρ) c).arrAt_in 1 rfl _).trans (A_eq7 (B14 m ρ) c 1))
/-- Input window 2's array is left as entered. -/
theorem W15_in2 (c : Dev nD) : W15 m ρ c (Proc.devRef .tc main_v138) = W14 m ρ c (Proc.devRef .tc main_v138) :=
  (W15_arr m ρ c 2).trans (((dat7 (B14 m ρ) c).arrAt_in 2 rfl _).trans (A_eq7 (B14 m ρ) c 2))
/-- Input window 3's array is left as entered. -/
theorem W15_in3 (c : Dev nD) : W15 m ρ c (Proc.devRef .tc main_arg33) = W14 m ρ c (Proc.devRef .tc main_arg33) :=
  (W15_arr m ρ c 3).trans (((dat7 (B14 m ρ) c).arrAt_in 3 rfl _).trans (A_eq7 (B14 m ρ) c 3))
/-- After the host stretch `hostOps8`. -/
abbrev W16 : Dev nD → Valuation τ sig (Elt F) := fun c => StableHlo.after hostOps8 (W15 m ρ c)
/-- A buffer the stretch does not write keeps its contents. -/
theorem W16_keep (c : Dev nD) (r : Ref sig .tc) (h : r ∉ hostOps8_W) :
    W16 m ρ c (Proc.devRef .tc r) = W15 m ρ c (Proc.devRef .tc r) :=
  StableHlo.after_of_writes_sub hostOps8 _ hostOps8_writes h
/-- The same contents read at the TensorCore's references. -/
abbrev B16 : (c : Dev nD) → (b : Ref sig .tc) → Buf (Elt F) ((c : Thread nD τ).loc b) := fun c b => W16 m ρ c b
/-- After region 8: its arrays at what the pipeline leaves (an input's as entered, an output's at its write-backs
    folded over the grid), every other buffer as entered. -/
def W17 (c : Dev nD) : Valuation τ sig (Elt F) :=
  Pipeline.withArrays spec8 c (W16 m ρ c) fun w => (dat8 (B16 m ρ) c).arrAt w cfg8.N
theorem W17_arr (c : Dev nD) (w : Fin cfg8.W) :
    W17 m ρ c (Proc.devRef .tc (Pipeline.arrRef spec8 w)) = (dat8 (B16 m ρ) c).arrAt w cfg8.N := by
  unfold W17; exact Pipeline.withArrays_arr spec8 launch8.win.arr_inj c _ _ w
theorem W17_of_ne (c : Dev nD) (b : Ref sig .tc) (hb : ∀ w, Pipeline.arrRef spec8 w ≠ b) :
    W17 m ρ c (Proc.devRef .tc b) = W16 m ρ c (Proc.devRef .tc b) := by
  unfold W17; exact Pipeline.withArrays_of_ne spec8 c _ _ b hb
/-- The same contents read at the TensorCore's references. -/
abbrev B17 : (c : Dev nD) → (b : Ref sig .tc) → Buf (Elt F) ((c : Thread nD τ).loc b) := fun c b => W17 m ρ c b
theorem hF8 (c : Dev nD) (w : Fin cfg8.W) : (dat8 (B16 m ρ) c).arrAt w cfg8.N = B17 m ρ c (Pipeline.arrRef spec8 w) :=
  (W17_arr m ρ c w).symm
theorem hrest8 (c : Dev nD) : ∀ b, b ∉ Finset.univ.image (Pipeline.arrRef spec8) → B17 m ρ c b = B16 m ρ c b :=
  fun b hb => W17_of_ne m ρ c b fun w e => hb (Finset.mem_image.mpr ⟨w, Finset.mem_univ _, e⟩)
/-- Input window 0's array is left as entered. -/
theorem W17_in0 (c : Dev nD) : W17 m ρ c (Proc.devRef .tc main_v149) = W16 m ρ c (Proc.devRef .tc main_v149) :=
  (W17_arr m ρ c 0).trans (((dat8 (B16 m ρ) c).arrAt_in 0 rfl _).trans (A_eq8 (B16 m ρ) c 0))
/-- Input window 1's array is left as entered. -/
theorem W17_in1 (c : Dev nD) : W17 m ρ c (Proc.devRef .tc main_v150) = W16 m ρ c (Proc.devRef .tc main_v150) :=
  (W17_arr m ρ c 1).trans (((dat8 (B16 m ρ) c).arrAt_in 1 rfl _).trans (A_eq8 (B16 m ρ) c 1))
/-- Input window 2's array is left as entered. -/
theorem W17_in2 (c : Dev nD) : W17 m ρ c (Proc.devRef .tc main_v151) = W16 m ρ c (Proc.devRef .tc main_v151) :=
  (W17_arr m ρ c 2).trans (((dat8 (B16 m ρ) c).arrAt_in 2 rfl _).trans (A_eq8 (B16 m ρ) c 2))
/-- Input window 3's array is left as entered. -/
theorem W17_in3 (c : Dev nD) : W17 m ρ c (Proc.devRef .tc main_v152) = W16 m ρ c (Proc.devRef .tc main_v152) :=
  (W17_arr m ρ c 3).trans (((dat8 (B16 m ρ) c).arrAt_in 3 rfl _).trans (A_eq8 (B16 m ρ) c 3))
/-- Input window 4's array is left as entered. -/
theorem W17_in4 (c : Dev nD) : W17 m ρ c (Proc.devRef .tc main_v153) = W16 m ρ c (Proc.devRef .tc main_v153) :=
  (W17_arr m ρ c 4).trans (((dat8 (B16 m ρ) c).arrAt_in 4 rfl _).trans (A_eq8 (B16 m ρ) c 4))
/-- After the host stretch `hostOps9`. -/
abbrev W18 : Dev nD → Valuation τ sig (Elt F) := fun c => StableHlo.after hostOps9 (W17 m ρ c)
/-- A buffer the stretch does not write keeps its contents. -/
theorem W18_keep (c : Dev nD) (r : Ref sig .tc) (h : r ∉ hostOps9_W) :
    W18 m ρ c (Proc.devRef .tc r) = W17 m ρ c (Proc.devRef .tc r) :=
  StableHlo.after_of_writes_sub hostOps9 _ hostOps9_writes h
/-- The same contents read at the TensorCore's references. -/
abbrev B18 : (c : Dev nD) → (b : Ref sig .tc) → Buf (Elt F) ((c : Thread nD τ).loc b) := fun c b => W18 m ρ c b
/-- After region 9: its arrays at what the pipeline leaves (an input's as entered, an output's at its write-backs
    folded over the grid), every other buffer as entered. -/
def W19 (c : Dev nD) : Valuation τ sig (Elt F) :=
  Pipeline.withArrays spec9 c (W18 m ρ c) fun w => (dat9 (B18 m ρ) c).arrAt w cfg9.N
theorem W19_arr (c : Dev nD) (w : Fin cfg9.W) :
    W19 m ρ c (Proc.devRef .tc (Pipeline.arrRef spec9 w)) = (dat9 (B18 m ρ) c).arrAt w cfg9.N := by
  unfold W19; exact Pipeline.withArrays_arr spec9 launch9.win.arr_inj c _ _ w
theorem W19_of_ne (c : Dev nD) (b : Ref sig .tc) (hb : ∀ w, Pipeline.arrRef spec9 w ≠ b) :
    W19 m ρ c (Proc.devRef .tc b) = W18 m ρ c (Proc.devRef .tc b) := by
  unfold W19; exact Pipeline.withArrays_of_ne spec9 c _ _ b hb
/-- The same contents read at the TensorCore's references. -/
abbrev B19 : (c : Dev nD) → (b : Ref sig .tc) → Buf (Elt F) ((c : Thread nD τ).loc b) := fun c b => W19 m ρ c b
theorem hF9 (c : Dev nD) (w : Fin cfg9.W) : (dat9 (B18 m ρ) c).arrAt w cfg9.N = B19 m ρ c (Pipeline.arrRef spec9 w) :=
  (W19_arr m ρ c w).symm
theorem hrest9 (c : Dev nD) : ∀ b, b ∉ Finset.univ.image (Pipeline.arrRef spec9) → B19 m ρ c b = B18 m ρ c b :=
  fun b hb => W19_of_ne m ρ c b fun w e => hb (Finset.mem_image.mpr ⟨w, Finset.mem_univ _, e⟩)
/-- Input window 0's array is left as entered. -/
theorem W19_in0 (c : Dev nD) : W19 m ρ c (Proc.devRef .tc main_v171) = W18 m ρ c (Proc.devRef .tc main_v171) :=
  (W19_arr m ρ c 0).trans (((dat9 (B18 m ρ) c).arrAt_in 0 rfl _).trans (A_eq9 (B18 m ρ) c 0))
/-- Input window 1's array is left as entered. -/
theorem W19_in1 (c : Dev nD) : W19 m ρ c (Proc.devRef .tc main_v176) = W18 m ρ c (Proc.devRef .tc main_v176) :=
  (W19_arr m ρ c 1).trans (((dat9 (B18 m ρ) c).arrAt_in 1 rfl _).trans (A_eq9 (B18 m ρ) c 1))
/-- Input window 2's array is left as entered. -/
theorem W19_in2 (c : Dev nD) : W19 m ρ c (Proc.devRef .tc main_arg1) = W18 m ρ c (Proc.devRef .tc main_arg1) :=
  (W19_arr m ρ c 2).trans (((dat9 (B18 m ρ) c).arrAt_in 2 rfl _).trans (A_eq9 (B18 m ρ) c 2))
/-- Input window 3's array is left as entered. -/
theorem W19_in3 (c : Dev nD) : W19 m ρ c (Proc.devRef .tc main_arg21) = W18 m ρ c (Proc.devRef .tc main_arg21) :=
  (W19_arr m ρ c 3).trans (((dat9 (B18 m ρ) c).arrAt_in 3 rfl _).trans (A_eq9 (B18 m ρ) c 3))
/-- Input window 4's array is left as entered. -/
theorem W19_in4 (c : Dev nD) : W19 m ρ c (Proc.devRef .tc main_arg22) = W18 m ρ c (Proc.devRef .tc main_arg22) :=
  (W19_arr m ρ c 4).trans (((dat9 (B18 m ρ) c).arrAt_in 4 rfl _).trans (A_eq9 (B18 m ρ) c 4))
/-- Input window 5's array is left as entered. -/
theorem W19_in5 (c : Dev nD) : W19 m ρ c (Proc.devRef .tc main_arg23) = W18 m ρ c (Proc.devRef .tc main_arg23) :=
  (W19_arr m ρ c 5).trans (((dat9 (B18 m ρ) c).arrAt_in 5 rfl _).trans (A_eq9 (B18 m ρ) c 5))
/-- After the host stretch `hostOps10`. -/
abbrev W20 : Dev nD → Valuation τ sig (Elt F) := fun c => StableHlo.after hostOps10 (W19 m ρ c)
/-- A buffer the stretch does not write keeps its contents. -/
theorem W20_keep (c : Dev nD) (r : Ref sig .tc) (h : r ∉ hostOps10_W) :
    W20 m ρ c (Proc.devRef .tc r) = W19 m ρ c (Proc.devRef .tc r) :=
  StableHlo.after_of_writes_sub hostOps10 _ hostOps10_writes h
/-- The same contents read at the TensorCore's references. -/
abbrev B20 : (c : Dev nD) → (b : Ref sig .tc) → Buf (Elt F) ((c : Thread nD τ).loc b) := fun c b => W20 m ρ c b
/-- After region 10: its arrays at what the pipeline leaves (an input's as entered, an output's at its write-backs
    folded over the grid), every other buffer as entered. -/
def W21 (c : Dev nD) : Valuation τ sig (Elt F) :=
  Pipeline.withArrays spec10 c (W20 m ρ c) fun w => (dat10 (B20 m ρ) c).arrAt w cfg10.N
theorem W21_arr (c : Dev nD) (w : Fin cfg10.W) :
    W21 m ρ c (Proc.devRef .tc (Pipeline.arrRef spec10 w)) = (dat10 (B20 m ρ) c).arrAt w cfg10.N := by
  unfold W21; exact Pipeline.withArrays_arr spec10 launch10.win.arr_inj c _ _ w
theorem W21_of_ne (c : Dev nD) (b : Ref sig .tc) (hb : ∀ w, Pipeline.arrRef spec10 w ≠ b) :
    W21 m ρ c (Proc.devRef .tc b) = W20 m ρ c (Proc.devRef .tc b) := by
  unfold W21; exact Pipeline.withArrays_of_ne spec10 c _ _ b hb
/-- The same contents read at the TensorCore's references. -/
abbrev B21 : (c : Dev nD) → (b : Ref sig .tc) → Buf (Elt F) ((c : Thread nD τ).loc b) := fun c b => W21 m ρ c b
theorem hF10 (c : Dev nD) (w : Fin cfg10.W) : (dat10 (B20 m ρ) c).arrAt w cfg10.N = B21 m ρ c (Pipeline.arrRef spec10 w) :=
  (W21_arr m ρ c w).symm
theorem hrest10 (c : Dev nD) : ∀ b, b ∉ Finset.univ.image (Pipeline.arrRef spec10) → B21 m ρ c b = B20 m ρ c b :=
  fun b hb => W21_of_ne m ρ c b fun w e => hb (Finset.mem_image.mpr ⟨w, Finset.mem_univ _, e⟩)
/-- Input window 0's array is left as entered. -/
theorem W21_in0 (c : Dev nD) : W21 m ρ c (Proc.devRef .tc main_v193) = W20 m ρ c (Proc.devRef .tc main_v193) :=
  (W21_arr m ρ c 0).trans (((dat10 (B20 m ρ) c).arrAt_in 0 rfl _).trans (A_eq10 (B20 m ρ) c 0))
/-- Input window 1's array is left as entered. -/
theorem W21_in1 (c : Dev nD) : W21 m ρ c (Proc.devRef .tc main_v198) = W20 m ρ c (Proc.devRef .tc main_v198) :=
  (W21_arr m ρ c 1).trans (((dat10 (B20 m ρ) c).arrAt_in 1 rfl _).trans (A_eq10 (B20 m ρ) c 1))
/-- Input window 2's array is left as entered. -/
theorem W21_in2 (c : Dev nD) : W21 m ρ c (Proc.devRef .tc main_v177) = W20 m ρ c (Proc.devRef .tc main_v177) :=
  (W21_arr m ρ c 2).trans (((dat10 (B20 m ρ) c).arrAt_in 2 rfl _).trans (A_eq10 (B20 m ρ) c 2))
/-- Input window 3's array is left as entered. -/
theorem W21_in3 (c : Dev nD) : W21 m ρ c (Proc.devRef .tc main_arg24) = W20 m ρ c (Proc.devRef .tc main_arg24) :=
  (W21_arr m ρ c 3).trans (((dat10 (B20 m ρ) c).arrAt_in 3 rfl _).trans (A_eq10 (B20 m ρ) c 3))
/-- Input window 4's array is left as entered. -/
theorem W21_in4 (c : Dev nD) : W21 m ρ c (Proc.devRef .tc main_arg25) = W20 m ρ c (Proc.devRef .tc main_arg25) :=
  (W21_arr m ρ c 4).trans (((dat10 (B20 m ρ) c).arrAt_in 4 rfl _).trans (A_eq10 (B20 m ρ) c 4))
/-- Input window 5's array is left as entered. -/
theorem W21_in5 (c : Dev nD) : W21 m ρ c (Proc.devRef .tc main_arg26) = W20 m ρ c (Proc.devRef .tc main_arg26) :=
  (W21_arr m ρ c 5).trans (((dat10 (B20 m ρ) c).arrAt_in 5 rfl _).trans (A_eq10 (B20 m ρ) c 5))
/-- After the host stretch `hostOps11`. -/
abbrev W22 : Dev nD → Valuation τ sig (Elt F) := fun c => StableHlo.after hostOps11 (W21 m ρ c)
/-- A buffer the stretch does not write keeps its contents. -/
theorem W22_keep (c : Dev nD) (r : Ref sig .tc) (h : r ∉ hostOps11_W) :
    W22 m ρ c (Proc.devRef .tc r) = W21 m ρ c (Proc.devRef .tc r) :=
  StableHlo.after_of_writes_sub hostOps11 _ hostOps11_writes h
/-- The same contents read at the TensorCore's references. -/
abbrev B22 : (c : Dev nD) → (b : Ref sig .tc) → Buf (Elt F) ((c : Thread nD τ).loc b) := fun c b => W22 m ρ c b
/-- After region 11: its arrays at what the pipeline leaves (an input's as entered, an output's at its write-backs
    folded over the grid), every other buffer as entered. -/
def W23 (c : Dev nD) : Valuation τ sig (Elt F) :=
  Pipeline.withArrays spec11 c (W22 m ρ c) fun w => (dat11 (B22 m ρ) c).arrAt w cfg11.N
theorem W23_arr (c : Dev nD) (w : Fin cfg11.W) :
    W23 m ρ c (Proc.devRef .tc (Pipeline.arrRef spec11 w)) = (dat11 (B22 m ρ) c).arrAt w cfg11.N := by
  unfold W23; exact Pipeline.withArrays_arr spec11 launch11.win.arr_inj c _ _ w
theorem W23_of_ne (c : Dev nD) (b : Ref sig .tc) (hb : ∀ w, Pipeline.arrRef spec11 w ≠ b) :
    W23 m ρ c (Proc.devRef .tc b) = W22 m ρ c (Proc.devRef .tc b) := by
  unfold W23; exact Pipeline.withArrays_of_ne spec11 c _ _ b hb
/-- The same contents read at the TensorCore's references. -/
abbrev B23 : (c : Dev nD) → (b : Ref sig .tc) → Buf (Elt F) ((c : Thread nD τ).loc b) := fun c b => W23 m ρ c b
theorem hF11 (c : Dev nD) (w : Fin cfg11.W) : (dat11 (B22 m ρ) c).arrAt w cfg11.N = B23 m ρ c (Pipeline.arrRef spec11 w) :=
  (W23_arr m ρ c w).symm
theorem hrest11 (c : Dev nD) : ∀ b, b ∉ Finset.univ.image (Pipeline.arrRef spec11) → B23 m ρ c b = B22 m ρ c b :=
  fun b hb => W23_of_ne m ρ c b fun w e => hb (Finset.mem_image.mpr ⟨w, Finset.mem_univ _, e⟩)
/-- Input window 0's array is left as entered. -/
theorem W23_in0 (c : Dev nD) : W23 m ρ c (Proc.devRef .tc main_v215) = W22 m ρ c (Proc.devRef .tc main_v215) :=
  (W23_arr m ρ c 0).trans (((dat11 (B22 m ρ) c).arrAt_in 0 rfl _).trans (A_eq11 (B22 m ρ) c 0))
/-- Input window 1's array is left as entered. -/
theorem W23_in1 (c : Dev nD) : W23 m ρ c (Proc.devRef .tc main_v220) = W22 m ρ c (Proc.devRef .tc main_v220) :=
  (W23_arr m ρ c 1).trans (((dat11 (B22 m ρ) c).arrAt_in 1 rfl _).trans (A_eq11 (B22 m ρ) c 1))
/-- Input window 2's array is left as entered. -/
theorem W23_in2 (c : Dev nD) : W23 m ρ c (Proc.devRef .tc main_v199) = W22 m ρ c (Proc.devRef .tc main_v199) :=
  (W23_arr m ρ c 2).trans (((dat11 (B22 m ρ) c).arrAt_in 2 rfl _).trans (A_eq11 (B22 m ρ) c 2))
/-- Input window 3's array is left as entered. -/
theorem W23_in3 (c : Dev nD) : W23 m ρ c (Proc.devRef .tc main_arg27) = W22 m ρ c (Proc.devRef .tc main_arg27) :=
  (W23_arr m ρ c 3).trans (((dat11 (B22 m ρ) c).arrAt_in 3 rfl _).trans (A_eq11 (B22 m ρ) c 3))
/-- Input window 4's array is left as entered. -/
theorem W23_in4 (c : Dev nD) : W23 m ρ c (Proc.devRef .tc main_arg28) = W22 m ρ c (Proc.devRef .tc main_arg28) :=
  (W23_arr m ρ c 4).trans (((dat11 (B22 m ρ) c).arrAt_in 4 rfl _).trans (A_eq11 (B22 m ρ) c 4))
/-- Input window 5's array is left as entered. -/
theorem W23_in5 (c : Dev nD) : W23 m ρ c (Proc.devRef .tc main_arg29) = W22 m ρ c (Proc.devRef .tc main_arg29) :=
  (W23_arr m ρ c 5).trans (((dat11 (B22 m ρ) c).arrAt_in 5 rfl _).trans (A_eq11 (B22 m ρ) c 5))
/-- After region 12: its arrays at what the pipeline leaves (an input's as entered, an output's at its write-backs
    folded over the grid), every other buffer as entered. -/
def W24 (c : Dev nD) : Valuation τ sig (Elt F) :=
  Pipeline.withArrays spec12 c (W23 m ρ c) fun w => (dat12 (B23 m ρ) c).arrAt w cfg12.N
theorem W24_arr (c : Dev nD) (w : Fin cfg12.W) :
    W24 m ρ c (Proc.devRef .tc (Pipeline.arrRef spec12 w)) = (dat12 (B23 m ρ) c).arrAt w cfg12.N := by
  unfold W24; exact Pipeline.withArrays_arr spec12 launch12.win.arr_inj c _ _ w
theorem W24_of_ne (c : Dev nD) (b : Ref sig .tc) (hb : ∀ w, Pipeline.arrRef spec12 w ≠ b) :
    W24 m ρ c (Proc.devRef .tc b) = W23 m ρ c (Proc.devRef .tc b) := by
  unfold W24; exact Pipeline.withArrays_of_ne spec12 c _ _ b hb
/-- The same contents read at the TensorCore's references. -/
abbrev B24 : (c : Dev nD) → (b : Ref sig .tc) → Buf (Elt F) ((c : Thread nD τ).loc b) := fun c b => W24 m ρ c b
theorem hF12 (c : Dev nD) (w : Fin cfg12.W) : (dat12 (B23 m ρ) c).arrAt w cfg12.N = B24 m ρ c (Pipeline.arrRef spec12 w) :=
  (W24_arr m ρ c w).symm
theorem hrest12 (c : Dev nD) : ∀ b, b ∉ Finset.univ.image (Pipeline.arrRef spec12) → B24 m ρ c b = B23 m ρ c b :=
  fun b hb => W24_of_ne m ρ c b fun w e => hb (Finset.mem_image.mpr ⟨w, Finset.mem_univ _, e⟩)
/-- Input window 0's array is left as entered. -/
theorem W24_in0 (c : Dev nD) : W24 m ρ c (Proc.devRef .tc main_v221) = W23 m ρ c (Proc.devRef .tc main_v221) :=
  (W24_arr m ρ c 0).trans (((dat12 (B23 m ρ) c).arrAt_in 0 rfl _).trans (A_eq12 (B23 m ρ) c 0))
/-- Input window 1's array is left as entered. -/
theorem W24_in1 (c : Dev nD) : W24 m ρ c (Proc.devRef .tc main_arg34) = W23 m ρ c (Proc.devRef .tc main_arg34) :=
  (W24_arr m ρ c 1).trans (((dat12 (B23 m ρ) c).arrAt_in 1 rfl _).trans (A_eq12 (B23 m ρ) c 1))
/-- After the host stretch `hostOps13`. -/
abbrev W25 : Dev nD → Valuation τ sig (Elt F) := fun c => StableHlo.after hostOps13 (W24 m ρ c)
/-- A buffer the stretch does not write keeps its contents. -/
theorem W25_keep (c : Dev nD) (r : Ref sig .tc) (h : r ∉ hostOps13_W) :
    W25 m ρ c (Proc.devRef .tc r) = W24 m ρ c (Proc.devRef .tc r) :=
  StableHlo.after_of_writes_sub hostOps13 _ hostOps13_writes h
/-- The same contents read at the TensorCore's references. -/
abbrev B25 : (c : Dev nD) → (b : Ref sig .tc) → Buf (Elt F) ((c : Thread nD τ).loc b) := fun c b => W25 m ρ c b
/-- After region 13: its arrays at what the pipeline leaves (an input's as entered, an output's at its write-backs
    folded over the grid), every other buffer as entered. -/
def W26 (c : Dev nD) : Valuation τ sig (Elt F) :=
  Pipeline.withArrays spec13 c (W25 m ρ c) fun w => (dat13 (B25 m ρ) c).arrAt w cfg13.N
theorem W26_arr (c : Dev nD) (w : Fin cfg13.W) :
    W26 m ρ c (Proc.devRef .tc (Pipeline.arrRef spec13 w)) = (dat13 (B25 m ρ) c).arrAt w cfg13.N := by
  unfold W26; exact Pipeline.withArrays_arr spec13 launch13.win.arr_inj c _ _ w
theorem W26_of_ne (c : Dev nD) (b : Ref sig .tc) (hb : ∀ w, Pipeline.arrRef spec13 w ≠ b) :
    W26 m ρ c (Proc.devRef .tc b) = W25 m ρ c (Proc.devRef .tc b) := by
  unfold W26; exact Pipeline.withArrays_of_ne spec13 c _ _ b hb
/-- The same contents read at the TensorCore's references. -/
abbrev B26 : (c : Dev nD) → (b : Ref sig .tc) → Buf (Elt F) ((c : Thread nD τ).loc b) := fun c b => W26 m ρ c b
theorem hF13 (c : Dev nD) (w : Fin cfg13.W) : (dat13 (B25 m ρ) c).arrAt w cfg13.N = B26 m ρ c (Pipeline.arrRef spec13 w) :=
  (W26_arr m ρ c w).symm
theorem hrest13 (c : Dev nD) : ∀ b, b ∉ Finset.univ.image (Pipeline.arrRef spec13) → B26 m ρ c b = B25 m ρ c b :=
  fun b hb => W26_of_ne m ρ c b fun w e => hb (Finset.mem_image.mpr ⟨w, Finset.mem_univ _, e⟩)
/-- Input window 0's array is left as entered. -/
theorem W26_in0 (c : Dev nD) : W26 m ρ c (Proc.devRef .tc main_v248) = W25 m ρ c (Proc.devRef .tc main_v248) :=
  (W26_arr m ρ c 0).trans (((dat13 (B25 m ρ) c).arrAt_in 0 rfl _).trans (A_eq13 (B25 m ρ) c 0))
/-- Input window 1's array is left as entered. -/
theorem W26_in1 (c : Dev nD) : W26 m ρ c (Proc.devRef .tc main_v236) = W25 m ρ c (Proc.devRef .tc main_v236) :=
  (W26_arr m ρ c 1).trans (((dat13 (B25 m ρ) c).arrAt_in 1 rfl _).trans (A_eq13 (B25 m ρ) c 1))
/-- Input window 2's array is left as entered. -/
theorem W26_in2 (c : Dev nD) : W26 m ρ c (Proc.devRef .tc main_v249) = W25 m ρ c (Proc.devRef .tc main_v249) :=
  (W26_arr m ρ c 2).trans (((dat13 (B25 m ρ) c).arrAt_in 2 rfl _).trans (A_eq13 (B25 m ρ) c 2))
/-- Input window 3's array is left as entered. -/
theorem W26_in3 (c : Dev nD) : W26 m ρ c (Proc.devRef .tc main_arg35) = W25 m ρ c (Proc.devRef .tc main_arg35) :=
  (W26_arr m ρ c 3).trans (((dat13 (B25 m ρ) c).arrAt_in 3 rfl _).trans (A_eq13 (B25 m ρ) c 3))
/-- After the host stretch `hostOps14`. -/
abbrev W27 : Dev nD → Valuation τ sig (Elt F) := fun c => StableHlo.after hostOps14 (W26 m ρ c)
/-- A buffer the stretch does not write keeps its contents. -/
theorem W27_keep (c : Dev nD) (r : Ref sig .tc) (h : r ∉ hostOps14_W) :
    W27 m ρ c (Proc.devRef .tc r) = W26 m ρ c (Proc.devRef .tc r) :=
  StableHlo.after_of_writes_sub hostOps14 _ hostOps14_writes h
/-- The same contents read at the TensorCore's references. -/
abbrev B27 : (c : Dev nD) → (b : Ref sig .tc) → Buf (Elt F) ((c : Thread nD τ).loc b) := fun c b => W27 m ρ c b
/-- After region 14: its arrays at what the pipeline leaves (an input's as entered, an output's at its write-backs
    folded over the grid), every other buffer as entered. -/
def W28 (c : Dev nD) : Valuation τ sig (Elt F) :=
  Pipeline.withArrays spec14 c (W27 m ρ c) fun w => (dat14 (B27 m ρ) c).arrAt w cfg14.N
theorem W28_arr (c : Dev nD) (w : Fin cfg14.W) :
    W28 m ρ c (Proc.devRef .tc (Pipeline.arrRef spec14 w)) = (dat14 (B27 m ρ) c).arrAt w cfg14.N := by
  unfold W28; exact Pipeline.withArrays_arr spec14 launch14.win.arr_inj c _ _ w
theorem W28_of_ne (c : Dev nD) (b : Ref sig .tc) (hb : ∀ w, Pipeline.arrRef spec14 w ≠ b) :
    W28 m ρ c (Proc.devRef .tc b) = W27 m ρ c (Proc.devRef .tc b) := by
  unfold W28; exact Pipeline.withArrays_of_ne spec14 c _ _ b hb
/-- The same contents read at the TensorCore's references. -/
abbrev B28 : (c : Dev nD) → (b : Ref sig .tc) → Buf (Elt F) ((c : Thread nD τ).loc b) := fun c b => W28 m ρ c b
theorem hF14 (c : Dev nD) (w : Fin cfg14.W) : (dat14 (B27 m ρ) c).arrAt w cfg14.N = B28 m ρ c (Pipeline.arrRef spec14 w) :=
  (W28_arr m ρ c w).symm
theorem hrest14 (c : Dev nD) : ∀ b, b ∉ Finset.univ.image (Pipeline.arrRef spec14) → B28 m ρ c b = B27 m ρ c b :=
  fun b hb => W28_of_ne m ρ c b fun w e => hb (Finset.mem_image.mpr ⟨w, Finset.mem_univ _, e⟩)
/-- Input window 0's array is left as entered. -/
theorem W28_in0 (c : Dev nD) : W28 m ρ c (Proc.devRef .tc main_v260) = W27 m ρ c (Proc.devRef .tc main_v260) :=
  (W28_arr m ρ c 0).trans (((dat14 (B27 m ρ) c).arrAt_in 0 rfl _).trans (A_eq14 (B27 m ρ) c 0))
/-- Input window 1's array is left as entered. -/
theorem W28_in1 (c : Dev nD) : W28 m ρ c (Proc.devRef .tc main_v261) = W27 m ρ c (Proc.devRef .tc main_v261) :=
  (W28_arr m ρ c 1).trans (((dat14 (B27 m ρ) c).arrAt_in 1 rfl _).trans (A_eq14 (B27 m ρ) c 1))
/-- Input window 2's array is left as entered. -/
theorem W28_in2 (c : Dev nD) : W28 m ρ c (Proc.devRef .tc main_v262) = W27 m ρ c (Proc.devRef .tc main_v262) :=
  (W28_arr m ρ c 2).trans (((dat14 (B27 m ρ) c).arrAt_in 2 rfl _).trans (A_eq14 (B27 m ρ) c 2))
/-- Input window 3's array is left as entered. -/
theorem W28_in3 (c : Dev nD) : W28 m ρ c (Proc.devRef .tc main_v263) = W27 m ρ c (Proc.devRef .tc main_v263) :=
  (W28_arr m ρ c 3).trans (((dat14 (B27 m ρ) c).arrAt_in 3 rfl _).trans (A_eq14 (B27 m ρ) c 3))
/-- Input window 4's array is left as entered. -/
theorem W28_in4 (c : Dev nD) : W28 m ρ c (Proc.devRef .tc main_v264) = W27 m ρ c (Proc.devRef .tc main_v264) :=
  (W28_arr m ρ c 4).trans (((dat14 (B27 m ρ) c).arrAt_in 4 rfl _).trans (A_eq14 (B27 m ρ) c 4))
/-- After the host stretch `hostOps15`. -/
abbrev W29 : Dev nD → Valuation τ sig (Elt F) := fun c => StableHlo.after hostOps15 (W28 m ρ c)
/-- A buffer the stretch does not write keeps its contents. -/
theorem W29_keep (c : Dev nD) (r : Ref sig .tc) (h : r ∉ hostOps15_W) :
    W29 m ρ c (Proc.devRef .tc r) = W28 m ρ c (Proc.devRef .tc r) :=
  StableHlo.after_of_writes_sub hostOps15 _ hostOps15_writes h

/-! ## The arguments end as launched -/
theorem W29_main_arg0 (c : Dev nD) : W29 m ρ c (Proc.devRef .tc main_arg0) = m ((c : Thread nD τ).loc main_arg0) :=
  (W29_keep m ρ c main_arg0 (by decide)).trans <| (W28_of_ne m ρ c main_arg0 (by decide)).trans <| (W27_keep m ρ c main_arg0 (by decide)).trans <| (W26_of_ne m ρ c main_arg0 (by decide)).trans <| (W25_keep m ρ c main_arg0 (by decide)).trans <| (W24_of_ne m ρ c main_arg0 (by decide)).trans <| (W23_of_ne m ρ c main_arg0 (by decide)).trans <| (W22_keep m ρ c main_arg0 (by decide)).trans <| (W21_of_ne m ρ c main_arg0 (by decide)).trans <| (W20_keep m ρ c main_arg0 (by decide)).trans <| (W19_of_ne m ρ c main_arg0 (by decide)).trans <| (W18_keep m ρ c main_arg0 (by decide)).trans <| (W17_of_ne m ρ c main_arg0 (by decide)).trans <| (W16_keep m ρ c main_arg0 (by decide)).trans <| (W15_of_ne m ρ c main_arg0 (by decide)).trans <| (W14_keep m ρ c main_arg0 (by decide)).trans <| (W13_of_ne m ρ c main_arg0 (by decide)).trans <| (W12_keep m ρ c main_arg0 (by decide)).trans <| (W11_of_ne m ρ c main_arg0 (by decide)).trans <| (W10_keep m ρ c main_arg0 (by decide)).trans <| (W9_of_ne m ρ c main_arg0 (by decide)).trans <| (W8_keep m ρ c main_arg0 (by decide)).trans <| (W7_of_ne m ρ c main_arg0 (by decide)).trans <| (W6_of_ne m ρ c main_arg0 (by decide)).trans <| (W5_keep m ρ c main_arg0 (by decide)).trans <| (W4_of_ne m ρ c main_arg0 (by decide)).trans <| (W3_keep m ρ c main_arg0 (by decide)).trans <| (W2_in2 m ρ c).trans <| (W1_keep m ρ c main_arg0 (by decide)).trans <| rfl
theorem W29_main_arg1 (c : Dev nD) : W29 m ρ c (Proc.devRef .tc main_arg1) = m ((c : Thread nD τ).loc main_arg1) :=
  (W29_keep m ρ c main_arg1 (by decide)).trans <| (W28_of_ne m ρ c main_arg1 (by decide)).trans <| (W27_keep m ρ c main_arg1 (by decide)).trans <| (W26_of_ne m ρ c main_arg1 (by decide)).trans <| (W25_keep m ρ c main_arg1 (by decide)).trans <| (W24_of_ne m ρ c main_arg1 (by decide)).trans <| (W23_of_ne m ρ c main_arg1 (by decide)).trans <| (W22_keep m ρ c main_arg1 (by decide)).trans <| (W21_of_ne m ρ c main_arg1 (by decide)).trans <| (W20_keep m ρ c main_arg1 (by decide)).trans <| (W19_in2 m ρ c).trans <| (W18_keep m ρ c main_arg1 (by decide)).trans <| (W17_of_ne m ρ c main_arg1 (by decide)).trans <| (W16_keep m ρ c main_arg1 (by decide)).trans <| (W15_of_ne m ρ c main_arg1 (by decide)).trans <| (W14_keep m ρ c main_arg1 (by decide)).trans <| (W13_of_ne m ρ c main_arg1 (by decide)).trans <| (W12_keep m ρ c main_arg1 (by decide)).trans <| (W11_of_ne m ρ c main_arg1 (by decide)).trans <| (W10_keep m ρ c main_arg1 (by decide)).trans <| (W9_of_ne m ρ c main_arg1 (by decide)).trans <| (W8_keep m ρ c main_arg1 (by decide)).trans <| (W7_of_ne m ρ c main_arg1 (by decide)).trans <| (W6_of_ne m ρ c main_arg1 (by decide)).trans <| (W5_keep m ρ c main_arg1 (by decide)).trans <| (W4_of_ne m ρ c main_arg1 (by decide)).trans <| (W3_keep m ρ c main_arg1 (by decide)).trans <| (W2_of_ne m ρ c main_arg1 (by decide)).trans <| (W1_keep m ρ c main_arg1 (by decide)).trans <| rfl
theorem W29_main_arg2 (c : Dev nD) : W29 m ρ c (Proc.devRef .tc main_arg2) = m ((c : Thread nD τ).loc main_arg2) :=
  (W29_keep m ρ c main_arg2 (by decide)).trans <| (W28_of_ne m ρ c main_arg2 (by decide)).trans <| (W27_keep m ρ c main_arg2 (by decide)).trans <| (W26_of_ne m ρ c main_arg2 (by decide)).trans <| (W25_keep m ρ c main_arg2 (by decide)).trans <| (W24_of_ne m ρ c main_arg2 (by decide)).trans <| (W23_of_ne m ρ c main_arg2 (by decide)).trans <| (W22_keep m ρ c main_arg2 (by decide)).trans <| (W21_of_ne m ρ c main_arg2 (by decide)).trans <| (W20_keep m ρ c main_arg2 (by decide)).trans <| (W19_of_ne m ρ c main_arg2 (by decide)).trans <| (W18_keep m ρ c main_arg2 (by decide)).trans <| (W17_of_ne m ρ c main_arg2 (by decide)).trans <| (W16_keep m ρ c main_arg2 (by decide)).trans <| (W15_of_ne m ρ c main_arg2 (by decide)).trans <| (W14_keep m ρ c main_arg2 (by decide)).trans <| (W13_of_ne m ρ c main_arg2 (by decide)).trans <| (W12_keep m ρ c main_arg2 (by decide)).trans <| (W11_of_ne m ρ c main_arg2 (by decide)).trans <| (W10_keep m ρ c main_arg2 (by decide)).trans <| (W9_of_ne m ρ c main_arg2 (by decide)).trans <| (W8_keep m ρ c main_arg2 (by decide)).trans <| (W7_of_ne m ρ c main_arg2 (by decide)).trans <| (W6_in2 m ρ c).trans <| (W5_keep m ρ c main_arg2 (by decide)).trans <| (W4_of_ne m ρ c main_arg2 (by decide)).trans <| (W3_keep m ρ c main_arg2 (by decide)).trans <| (W2_of_ne m ρ c main_arg2 (by decide)).trans <| (W1_keep m ρ c main_arg2 (by decide)).trans <| rfl
theorem W29_main_arg3 (c : Dev nD) : W29 m ρ c (Proc.devRef .tc main_arg3) = m ((c : Thread nD τ).loc main_arg3) :=
  (W29_keep m ρ c main_arg3 (by decide)).trans <| (W28_of_ne m ρ c main_arg3 (by decide)).trans <| (W27_keep m ρ c main_arg3 (by decide)).trans <| (W26_of_ne m ρ c main_arg3 (by decide)).trans <| (W25_keep m ρ c main_arg3 (by decide)).trans <| (W24_of_ne m ρ c main_arg3 (by decide)).trans <| (W23_of_ne m ρ c main_arg3 (by decide)).trans <| (W22_keep m ρ c main_arg3 (by decide)).trans <| (W21_of_ne m ρ c main_arg3 (by decide)).trans <| (W20_keep m ρ c main_arg3 (by decide)).trans <| (W19_of_ne m ρ c main_arg3 (by decide)).trans <| (W18_keep m ρ c main_arg3 (by decide)).trans <| (W17_of_ne m ρ c main_arg3 (by decide)).trans <| (W16_keep m ρ c main_arg3 (by decide)).trans <| (W15_of_ne m ρ c main_arg3 (by decide)).trans <| (W14_keep m ρ c main_arg3 (by decide)).trans <| (W13_of_ne m ρ c main_arg3 (by decide)).trans <| (W12_keep m ρ c main_arg3 (by decide)).trans <| (W11_of_ne m ρ c main_arg3 (by decide)).trans <| (W10_keep m ρ c main_arg3 (by decide)).trans <| (W9_of_ne m ρ c main_arg3 (by decide)).trans <| (W8_keep m ρ c main_arg3 (by decide)).trans <| (W7_of_ne m ρ c main_arg3 (by decide)).trans <| (W6_of_ne m ρ c main_arg3 (by decide)).trans <| (W5_keep m ρ c main_arg3 (by decide)).trans <| (W4_of_ne m ρ c main_arg3 (by decide)).trans <| (W3_keep m ρ c main_arg3 (by decide)).trans <| (W2_of_ne m ρ c main_arg3 (by decide)).trans <| (W1_keep m ρ c main_arg3 (by decide)).trans <| rfl
theorem W29_main_arg4 (c : Dev nD) : W29 m ρ c (Proc.devRef .tc main_arg4) = m ((c : Thread nD τ).loc main_arg4) :=
  (W29_keep m ρ c main_arg4 (by decide)).trans <| (W28_of_ne m ρ c main_arg4 (by decide)).trans <| (W27_keep m ρ c main_arg4 (by decide)).trans <| (W26_of_ne m ρ c main_arg4 (by decide)).trans <| (W25_keep m ρ c main_arg4 (by decide)).trans <| (W24_of_ne m ρ c main_arg4 (by decide)).trans <| (W23_of_ne m ρ c main_arg4 (by decide)).trans <| (W22_keep m ρ c main_arg4 (by decide)).trans <| (W21_of_ne m ρ c main_arg4 (by decide)).trans <| (W20_keep m ρ c main_arg4 (by decide)).trans <| (W19_of_ne m ρ c main_arg4 (by decide)).trans <| (W18_keep m ρ c main_arg4 (by decide)).trans <| (W17_of_ne m ρ c main_arg4 (by decide)).trans <| (W16_keep m ρ c main_arg4 (by decide)).trans <| (W15_of_ne m ρ c main_arg4 (by decide)).trans <| (W14_keep m ρ c main_arg4 (by decide)).trans <| (W13_of_ne m ρ c main_arg4 (by decide)).trans <| (W12_keep m ρ c main_arg4 (by decide)).trans <| (W11_of_ne m ρ c main_arg4 (by decide)).trans <| (W10_keep m ρ c main_arg4 (by decide)).trans <| (W9_of_ne m ρ c main_arg4 (by decide)).trans <| (W8_keep m ρ c main_arg4 (by decide)).trans <| (W7_of_ne m ρ c main_arg4 (by decide)).trans <| (W6_of_ne m ρ c main_arg4 (by decide)).trans <| (W5_keep m ρ c main_arg4 (by decide)).trans <| (W4_of_ne m ρ c main_arg4 (by decide)).trans <| (W3_keep m ρ c main_arg4 (by decide)).trans <| (W2_of_ne m ρ c main_arg4 (by decide)).trans <| (W1_keep m ρ c main_arg4 (by decide)).trans <| rfl
theorem W29_main_arg5 (c : Dev nD) : W29 m ρ c (Proc.devRef .tc main_arg5) = m ((c : Thread nD τ).loc main_arg5) :=
  (W29_keep m ρ c main_arg5 (by decide)).trans <| (W28_of_ne m ρ c main_arg5 (by decide)).trans <| (W27_keep m ρ c main_arg5 (by decide)).trans <| (W26_of_ne m ρ c main_arg5 (by decide)).trans <| (W25_keep m ρ c main_arg5 (by decide)).trans <| (W24_of_ne m ρ c main_arg5 (by decide)).trans <| (W23_of_ne m ρ c main_arg5 (by decide)).trans <| (W22_keep m ρ c main_arg5 (by decide)).trans <| (W21_of_ne m ρ c main_arg5 (by decide)).trans <| (W20_keep m ρ c main_arg5 (by decide)).trans <| (W19_of_ne m ρ c main_arg5 (by decide)).trans <| (W18_keep m ρ c main_arg5 (by decide)).trans <| (W17_of_ne m ρ c main_arg5 (by decide)).trans <| (W16_keep m ρ c main_arg5 (by decide)).trans <| (W15_of_ne m ρ c main_arg5 (by decide)).trans <| (W14_keep m ρ c main_arg5 (by decide)).trans <| (W13_of_ne m ρ c main_arg5 (by decide)).trans <| (W12_keep m ρ c main_arg5 (by decide)).trans <| (W11_of_ne m ρ c main_arg5 (by decide)).trans <| (W10_keep m ρ c main_arg5 (by decide)).trans <| (W9_of_ne m ρ c main_arg5 (by decide)).trans <| (W8_keep m ρ c main_arg5 (by decide)).trans <| (W7_of_ne m ρ c main_arg5 (by decide)).trans <| (W6_of_ne m ρ c main_arg5 (by decide)).trans <| (W5_keep m ρ c main_arg5 (by decide)).trans <| (W4_of_ne m ρ c main_arg5 (by decide)).trans <| (W3_keep m ρ c main_arg5 (by decide)).trans <| (W2_of_ne m ρ c main_arg5 (by decide)).trans <| (W1_keep m ρ c main_arg5 (by decide)).trans <| rfl
theorem W29_main_arg6 (c : Dev nD) : W29 m ρ c (Proc.devRef .tc main_arg6) = m ((c : Thread nD τ).loc main_arg6) :=
  (W29_keep m ρ c main_arg6 (by decide)).trans <| (W28_of_ne m ρ c main_arg6 (by decide)).trans <| (W27_keep m ρ c main_arg6 (by decide)).trans <| (W26_of_ne m ρ c main_arg6 (by decide)).trans <| (W25_keep m ρ c main_arg6 (by decide)).trans <| (W24_of_ne m ρ c main_arg6 (by decide)).trans <| (W23_of_ne m ρ c main_arg6 (by decide)).trans <| (W22_keep m ρ c main_arg6 (by decide)).trans <| (W21_of_ne m ρ c main_arg6 (by decide)).trans <| (W20_keep m ρ c main_arg6 (by decide)).trans <| (W19_of_ne m ρ c main_arg6 (by decide)).trans <| (W18_keep m ρ c main_arg6 (by decide)).trans <| (W17_of_ne m ρ c main_arg6 (by decide)).trans <| (W16_keep m ρ c main_arg6 (by decide)).trans <| (W15_of_ne m ρ c main_arg6 (by decide)).trans <| (W14_keep m ρ c main_arg6 (by decide)).trans <| (W13_of_ne m ρ c main_arg6 (by decide)).trans <| (W12_keep m ρ c main_arg6 (by decide)).trans <| (W11_of_ne m ρ c main_arg6 (by decide)).trans <| (W10_keep m ρ c main_arg6 (by decide)).trans <| (W9_of_ne m ρ c main_arg6 (by decide)).trans <| (W8_keep m ρ c main_arg6 (by decide)).trans <| (W7_of_ne m ρ c main_arg6 (by decide)).trans <| (W6_of_ne m ρ c main_arg6 (by decide)).trans <| (W5_keep m ρ c main_arg6 (by decide)).trans <| (W4_of_ne m ρ c main_arg6 (by decide)).trans <| (W3_keep m ρ c main_arg6 (by decide)).trans <| (W2_of_ne m ρ c main_arg6 (by decide)).trans <| (W1_keep m ρ c main_arg6 (by decide)).trans <| rfl
theorem W29_main_arg7 (c : Dev nD) : W29 m ρ c (Proc.devRef .tc main_arg7) = m ((c : Thread nD τ).loc main_arg7) :=
  (W29_keep m ρ c main_arg7 (by decide)).trans <| (W28_of_ne m ρ c main_arg7 (by decide)).trans <| (W27_keep m ρ c main_arg7 (by decide)).trans <| (W26_of_ne m ρ c main_arg7 (by decide)).trans <| (W25_keep m ρ c main_arg7 (by decide)).trans <| (W24_of_ne m ρ c main_arg7 (by decide)).trans <| (W23_of_ne m ρ c main_arg7 (by decide)).trans <| (W22_keep m ρ c main_arg7 (by decide)).trans <| (W21_of_ne m ρ c main_arg7 (by decide)).trans <| (W20_keep m ρ c main_arg7 (by decide)).trans <| (W19_of_ne m ρ c main_arg7 (by decide)).trans <| (W18_keep m ρ c main_arg7 (by decide)).trans <| (W17_of_ne m ρ c main_arg7 (by decide)).trans <| (W16_keep m ρ c main_arg7 (by decide)).trans <| (W15_of_ne m ρ c main_arg7 (by decide)).trans <| (W14_keep m ρ c main_arg7 (by decide)).trans <| (W13_of_ne m ρ c main_arg7 (by decide)).trans <| (W12_keep m ρ c main_arg7 (by decide)).trans <| (W11_of_ne m ρ c main_arg7 (by decide)).trans <| (W10_keep m ρ c main_arg7 (by decide)).trans <| (W9_of_ne m ρ c main_arg7 (by decide)).trans <| (W8_keep m ρ c main_arg7 (by decide)).trans <| (W7_of_ne m ρ c main_arg7 (by decide)).trans <| (W6_of_ne m ρ c main_arg7 (by decide)).trans <| (W5_keep m ρ c main_arg7 (by decide)).trans <| (W4_of_ne m ρ c main_arg7 (by decide)).trans <| (W3_keep m ρ c main_arg7 (by decide)).trans <| (W2_of_ne m ρ c main_arg7 (by decide)).trans <| (W1_keep m ρ c main_arg7 (by decide)).trans <| rfl
theorem W29_main_arg8 (c : Dev nD) : W29 m ρ c (Proc.devRef .tc main_arg8) = m ((c : Thread nD τ).loc main_arg8) :=
  (W29_keep m ρ c main_arg8 (by decide)).trans <| (W28_of_ne m ρ c main_arg8 (by decide)).trans <| (W27_keep m ρ c main_arg8 (by decide)).trans <| (W26_of_ne m ρ c main_arg8 (by decide)).trans <| (W25_keep m ρ c main_arg8 (by decide)).trans <| (W24_of_ne m ρ c main_arg8 (by decide)).trans <| (W23_of_ne m ρ c main_arg8 (by decide)).trans <| (W22_keep m ρ c main_arg8 (by decide)).trans <| (W21_of_ne m ρ c main_arg8 (by decide)).trans <| (W20_keep m ρ c main_arg8 (by decide)).trans <| (W19_of_ne m ρ c main_arg8 (by decide)).trans <| (W18_keep m ρ c main_arg8 (by decide)).trans <| (W17_of_ne m ρ c main_arg8 (by decide)).trans <| (W16_keep m ρ c main_arg8 (by decide)).trans <| (W15_of_ne m ρ c main_arg8 (by decide)).trans <| (W14_keep m ρ c main_arg8 (by decide)).trans <| (W13_of_ne m ρ c main_arg8 (by decide)).trans <| (W12_keep m ρ c main_arg8 (by decide)).trans <| (W11_of_ne m ρ c main_arg8 (by decide)).trans <| (W10_keep m ρ c main_arg8 (by decide)).trans <| (W9_of_ne m ρ c main_arg8 (by decide)).trans <| (W8_keep m ρ c main_arg8 (by decide)).trans <| (W7_of_ne m ρ c main_arg8 (by decide)).trans <| (W6_of_ne m ρ c main_arg8 (by decide)).trans <| (W5_keep m ρ c main_arg8 (by decide)).trans <| (W4_of_ne m ρ c main_arg8 (by decide)).trans <| (W3_keep m ρ c main_arg8 (by decide)).trans <| (W2_of_ne m ρ c main_arg8 (by decide)).trans <| (W1_keep m ρ c main_arg8 (by decide)).trans <| rfl
theorem W29_main_arg9 (c : Dev nD) : W29 m ρ c (Proc.devRef .tc main_arg9) = m ((c : Thread nD τ).loc main_arg9) :=
  (W29_keep m ρ c main_arg9 (by decide)).trans <| (W28_of_ne m ρ c main_arg9 (by decide)).trans <| (W27_keep m ρ c main_arg9 (by decide)).trans <| (W26_of_ne m ρ c main_arg9 (by decide)).trans <| (W25_keep m ρ c main_arg9 (by decide)).trans <| (W24_of_ne m ρ c main_arg9 (by decide)).trans <| (W23_of_ne m ρ c main_arg9 (by decide)).trans <| (W22_keep m ρ c main_arg9 (by decide)).trans <| (W21_of_ne m ρ c main_arg9 (by decide)).trans <| (W20_keep m ρ c main_arg9 (by decide)).trans <| (W19_of_ne m ρ c main_arg9 (by decide)).trans <| (W18_keep m ρ c main_arg9 (by decide)).trans <| (W17_of_ne m ρ c main_arg9 (by decide)).trans <| (W16_keep m ρ c main_arg9 (by decide)).trans <| (W15_of_ne m ρ c main_arg9 (by decide)).trans <| (W14_keep m ρ c main_arg9 (by decide)).trans <| (W13_of_ne m ρ c main_arg9 (by decide)).trans <| (W12_keep m ρ c main_arg9 (by decide)).trans <| (W11_of_ne m ρ c main_arg9 (by decide)).trans <| (W10_keep m ρ c main_arg9 (by decide)).trans <| (W9_of_ne m ρ c main_arg9 (by decide)).trans <| (W8_keep m ρ c main_arg9 (by decide)).trans <| (W7_of_ne m ρ c main_arg9 (by decide)).trans <| (W6_of_ne m ρ c main_arg9 (by decide)).trans <| (W5_keep m ρ c main_arg9 (by decide)).trans <| (W4_of_ne m ρ c main_arg9 (by decide)).trans <| (W3_keep m ρ c main_arg9 (by decide)).trans <| (W2_of_ne m ρ c main_arg9 (by decide)).trans <| (W1_keep m ρ c main_arg9 (by decide)).trans <| rfl
theorem W29_main_arg10 (c : Dev nD) : W29 m ρ c (Proc.devRef .tc main_arg10) = m ((c : Thread nD τ).loc main_arg10) :=
  (W29_keep m ρ c main_arg10 (by decide)).trans <| (W28_of_ne m ρ c main_arg10 (by decide)).trans <| (W27_keep m ρ c main_arg10 (by decide)).trans <| (W26_of_ne m ρ c main_arg10 (by decide)).trans <| (W25_keep m ρ c main_arg10 (by decide)).trans <| (W24_of_ne m ρ c main_arg10 (by decide)).trans <| (W23_of_ne m ρ c main_arg10 (by decide)).trans <| (W22_keep m ρ c main_arg10 (by decide)).trans <| (W21_of_ne m ρ c main_arg10 (by decide)).trans <| (W20_keep m ρ c main_arg10 (by decide)).trans <| (W19_of_ne m ρ c main_arg10 (by decide)).trans <| (W18_keep m ρ c main_arg10 (by decide)).trans <| (W17_of_ne m ρ c main_arg10 (by decide)).trans <| (W16_keep m ρ c main_arg10 (by decide)).trans <| (W15_of_ne m ρ c main_arg10 (by decide)).trans <| (W14_keep m ρ c main_arg10 (by decide)).trans <| (W13_of_ne m ρ c main_arg10 (by decide)).trans <| (W12_keep m ρ c main_arg10 (by decide)).trans <| (W11_of_ne m ρ c main_arg10 (by decide)).trans <| (W10_keep m ρ c main_arg10 (by decide)).trans <| (W9_of_ne m ρ c main_arg10 (by decide)).trans <| (W8_keep m ρ c main_arg10 (by decide)).trans <| (W7_of_ne m ρ c main_arg10 (by decide)).trans <| (W6_of_ne m ρ c main_arg10 (by decide)).trans <| (W5_keep m ρ c main_arg10 (by decide)).trans <| (W4_of_ne m ρ c main_arg10 (by decide)).trans <| (W3_keep m ρ c main_arg10 (by decide)).trans <| (W2_of_ne m ρ c main_arg10 (by decide)).trans <| (W1_keep m ρ c main_arg10 (by decide)).trans <| rfl
theorem W29_main_arg11 (c : Dev nD) : W29 m ρ c (Proc.devRef .tc main_arg11) = m ((c : Thread nD τ).loc main_arg11) :=
  (W29_keep m ρ c main_arg11 (by decide)).trans <| (W28_of_ne m ρ c main_arg11 (by decide)).trans <| (W27_keep m ρ c main_arg11 (by decide)).trans <| (W26_of_ne m ρ c main_arg11 (by decide)).trans <| (W25_keep m ρ c main_arg11 (by decide)).trans <| (W24_of_ne m ρ c main_arg11 (by decide)).trans <| (W23_of_ne m ρ c main_arg11 (by decide)).trans <| (W22_keep m ρ c main_arg11 (by decide)).trans <| (W21_of_ne m ρ c main_arg11 (by decide)).trans <| (W20_keep m ρ c main_arg11 (by decide)).trans <| (W19_of_ne m ρ c main_arg11 (by decide)).trans <| (W18_keep m ρ c main_arg11 (by decide)).trans <| (W17_of_ne m ρ c main_arg11 (by decide)).trans <| (W16_keep m ρ c main_arg11 (by decide)).trans <| (W15_of_ne m ρ c main_arg11 (by decide)).trans <| (W14_keep m ρ c main_arg11 (by decide)).trans <| (W13_of_ne m ρ c main_arg11 (by decide)).trans <| (W12_keep m ρ c main_arg11 (by decide)).trans <| (W11_of_ne m ρ c main_arg11 (by decide)).trans <| (W10_keep m ρ c main_arg11 (by decide)).trans <| (W9_of_ne m ρ c main_arg11 (by decide)).trans <| (W8_keep m ρ c main_arg11 (by decide)).trans <| (W7_of_ne m ρ c main_arg11 (by decide)).trans <| (W6_of_ne m ρ c main_arg11 (by decide)).trans <| (W5_keep m ρ c main_arg11 (by decide)).trans <| (W4_of_ne m ρ c main_arg11 (by decide)).trans <| (W3_keep m ρ c main_arg11 (by decide)).trans <| (W2_of_ne m ρ c main_arg11 (by decide)).trans <| (W1_keep m ρ c main_arg11 (by decide)).trans <| rfl
theorem W29_main_arg12 (c : Dev nD) : W29 m ρ c (Proc.devRef .tc main_arg12) = m ((c : Thread nD τ).loc main_arg12) :=
  (W29_keep m ρ c main_arg12 (by decide)).trans <| (W28_of_ne m ρ c main_arg12 (by decide)).trans <| (W27_keep m ρ c main_arg12 (by decide)).trans <| (W26_of_ne m ρ c main_arg12 (by decide)).trans <| (W25_keep m ρ c main_arg12 (by decide)).trans <| (W24_of_ne m ρ c main_arg12 (by decide)).trans <| (W23_of_ne m ρ c main_arg12 (by decide)).trans <| (W22_keep m ρ c main_arg12 (by decide)).trans <| (W21_of_ne m ρ c main_arg12 (by decide)).trans <| (W20_keep m ρ c main_arg12 (by decide)).trans <| (W19_of_ne m ρ c main_arg12 (by decide)).trans <| (W18_keep m ρ c main_arg12 (by decide)).trans <| (W17_of_ne m ρ c main_arg12 (by decide)).trans <| (W16_keep m ρ c main_arg12 (by decide)).trans <| (W15_of_ne m ρ c main_arg12 (by decide)).trans <| (W14_keep m ρ c main_arg12 (by decide)).trans <| (W13_of_ne m ρ c main_arg12 (by decide)).trans <| (W12_keep m ρ c main_arg12 (by decide)).trans <| (W11_of_ne m ρ c main_arg12 (by decide)).trans <| (W10_keep m ρ c main_arg12 (by decide)).trans <| (W9_of_ne m ρ c main_arg12 (by decide)).trans <| (W8_keep m ρ c main_arg12 (by decide)).trans <| (W7_of_ne m ρ c main_arg12 (by decide)).trans <| (W6_of_ne m ρ c main_arg12 (by decide)).trans <| (W5_keep m ρ c main_arg12 (by decide)).trans <| (W4_of_ne m ρ c main_arg12 (by decide)).trans <| (W3_keep m ρ c main_arg12 (by decide)).trans <| (W2_in3 m ρ c).trans <| (W1_keep m ρ c main_arg12 (by decide)).trans <| rfl
theorem W29_main_arg13 (c : Dev nD) : W29 m ρ c (Proc.devRef .tc main_arg13) = m ((c : Thread nD τ).loc main_arg13) :=
  (W29_keep m ρ c main_arg13 (by decide)).trans <| (W28_of_ne m ρ c main_arg13 (by decide)).trans <| (W27_keep m ρ c main_arg13 (by decide)).trans <| (W26_of_ne m ρ c main_arg13 (by decide)).trans <| (W25_keep m ρ c main_arg13 (by decide)).trans <| (W24_of_ne m ρ c main_arg13 (by decide)).trans <| (W23_of_ne m ρ c main_arg13 (by decide)).trans <| (W22_keep m ρ c main_arg13 (by decide)).trans <| (W21_of_ne m ρ c main_arg13 (by decide)).trans <| (W20_keep m ρ c main_arg13 (by decide)).trans <| (W19_of_ne m ρ c main_arg13 (by decide)).trans <| (W18_keep m ρ c main_arg13 (by decide)).trans <| (W17_of_ne m ρ c main_arg13 (by decide)).trans <| (W16_keep m ρ c main_arg13 (by decide)).trans <| (W15_of_ne m ρ c main_arg13 (by decide)).trans <| (W14_keep m ρ c main_arg13 (by decide)).trans <| (W13_of_ne m ρ c main_arg13 (by decide)).trans <| (W12_keep m ρ c main_arg13 (by decide)).trans <| (W11_of_ne m ρ c main_arg13 (by decide)).trans <| (W10_keep m ρ c main_arg13 (by decide)).trans <| (W9_of_ne m ρ c main_arg13 (by decide)).trans <| (W8_keep m ρ c main_arg13 (by decide)).trans <| (W7_of_ne m ρ c main_arg13 (by decide)).trans <| (W6_of_ne m ρ c main_arg13 (by decide)).trans <| (W5_keep m ρ c main_arg13 (by decide)).trans <| (W4_of_ne m ρ c main_arg13 (by decide)).trans <| (W3_keep m ρ c main_arg13 (by decide)).trans <| (W2_in4 m ρ c).trans <| (W1_keep m ρ c main_arg13 (by decide)).trans <| rfl
theorem W29_main_arg14 (c : Dev nD) : W29 m ρ c (Proc.devRef .tc main_arg14) = m ((c : Thread nD τ).loc main_arg14) :=
  (W29_keep m ρ c main_arg14 (by decide)).trans <| (W28_of_ne m ρ c main_arg14 (by decide)).trans <| (W27_keep m ρ c main_arg14 (by decide)).trans <| (W26_of_ne m ρ c main_arg14 (by decide)).trans <| (W25_keep m ρ c main_arg14 (by decide)).trans <| (W24_of_ne m ρ c main_arg14 (by decide)).trans <| (W23_of_ne m ρ c main_arg14 (by decide)).trans <| (W22_keep m ρ c main_arg14 (by decide)).trans <| (W21_of_ne m ρ c main_arg14 (by decide)).trans <| (W20_keep m ρ c main_arg14 (by decide)).trans <| (W19_of_ne m ρ c main_arg14 (by decide)).trans <| (W18_keep m ρ c main_arg14 (by decide)).trans <| (W17_of_ne m ρ c main_arg14 (by decide)).trans <| (W16_keep m ρ c main_arg14 (by decide)).trans <| (W15_of_ne m ρ c main_arg14 (by decide)).trans <| (W14_keep m ρ c main_arg14 (by decide)).trans <| (W13_of_ne m ρ c main_arg14 (by decide)).trans <| (W12_keep m ρ c main_arg14 (by decide)).trans <| (W11_of_ne m ρ c main_arg14 (by decide)).trans <| (W10_keep m ρ c main_arg14 (by decide)).trans <| (W9_of_ne m ρ c main_arg14 (by decide)).trans <| (W8_keep m ρ c main_arg14 (by decide)).trans <| (W7_of_ne m ρ c main_arg14 (by decide)).trans <| (W6_of_ne m ρ c main_arg14 (by decide)).trans <| (W5_keep m ρ c main_arg14 (by decide)).trans <| (W4_of_ne m ρ c main_arg14 (by decide)).trans <| (W3_keep m ρ c main_arg14 (by decide)).trans <| (W2_in5 m ρ c).trans <| (W1_keep m ρ c main_arg14 (by decide)).trans <| rfl
theorem W29_main_arg15 (c : Dev nD) : W29 m ρ c (Proc.devRef .tc main_arg15) = m ((c : Thread nD τ).loc main_arg15) :=
  (W29_keep m ρ c main_arg15 (by decide)).trans <| (W28_of_ne m ρ c main_arg15 (by decide)).trans <| (W27_keep m ρ c main_arg15 (by decide)).trans <| (W26_of_ne m ρ c main_arg15 (by decide)).trans <| (W25_keep m ρ c main_arg15 (by decide)).trans <| (W24_of_ne m ρ c main_arg15 (by decide)).trans <| (W23_of_ne m ρ c main_arg15 (by decide)).trans <| (W22_keep m ρ c main_arg15 (by decide)).trans <| (W21_of_ne m ρ c main_arg15 (by decide)).trans <| (W20_keep m ρ c main_arg15 (by decide)).trans <| (W19_of_ne m ρ c main_arg15 (by decide)).trans <| (W18_keep m ρ c main_arg15 (by decide)).trans <| (W17_of_ne m ρ c main_arg15 (by decide)).trans <| (W16_keep m ρ c main_arg15 (by decide)).trans <| (W15_of_ne m ρ c main_arg15 (by decide)).trans <| (W14_keep m ρ c main_arg15 (by decide)).trans <| (W13_of_ne m ρ c main_arg15 (by decide)).trans <| (W12_keep m ρ c main_arg15 (by decide)).trans <| (W11_of_ne m ρ c main_arg15 (by decide)).trans <| (W10_keep m ρ c main_arg15 (by decide)).trans <| (W9_of_ne m ρ c main_arg15 (by decide)).trans <| (W8_keep m ρ c main_arg15 (by decide)).trans <| (W7_of_ne m ρ c main_arg15 (by decide)).trans <| (W6_of_ne m ρ c main_arg15 (by decide)).trans <| (W5_keep m ρ c main_arg15 (by decide)).trans <| (W4_in3 m ρ c).trans <| (W3_keep m ρ c main_arg15 (by decide)).trans <| (W2_of_ne m ρ c main_arg15 (by decide)).trans <| (W1_keep m ρ c main_arg15 (by decide)).trans <| rfl
theorem W29_main_arg16 (c : Dev nD) : W29 m ρ c (Proc.devRef .tc main_arg16) = m ((c : Thread nD τ).loc main_arg16) :=
  (W29_keep m ρ c main_arg16 (by decide)).trans <| (W28_of_ne m ρ c main_arg16 (by decide)).trans <| (W27_keep m ρ c main_arg16 (by decide)).trans <| (W26_of_ne m ρ c main_arg16 (by decide)).trans <| (W25_keep m ρ c main_arg16 (by decide)).trans <| (W24_of_ne m ρ c main_arg16 (by decide)).trans <| (W23_of_ne m ρ c main_arg16 (by decide)).trans <| (W22_keep m ρ c main_arg16 (by decide)).trans <| (W21_of_ne m ρ c main_arg16 (by decide)).trans <| (W20_keep m ρ c main_arg16 (by decide)).trans <| (W19_of_ne m ρ c main_arg16 (by decide)).trans <| (W18_keep m ρ c main_arg16 (by decide)).trans <| (W17_of_ne m ρ c main_arg16 (by decide)).trans <| (W16_keep m ρ c main_arg16 (by decide)).trans <| (W15_of_ne m ρ c main_arg16 (by decide)).trans <| (W14_keep m ρ c main_arg16 (by decide)).trans <| (W13_of_ne m ρ c main_arg16 (by decide)).trans <| (W12_keep m ρ c main_arg16 (by decide)).trans <| (W11_of_ne m ρ c main_arg16 (by decide)).trans <| (W10_keep m ρ c main_arg16 (by decide)).trans <| (W9_of_ne m ρ c main_arg16 (by decide)).trans <| (W8_keep m ρ c main_arg16 (by decide)).trans <| (W7_of_ne m ρ c main_arg16 (by decide)).trans <| (W6_of_ne m ρ c main_arg16 (by decide)).trans <| (W5_keep m ρ c main_arg16 (by decide)).trans <| (W4_in4 m ρ c).trans <| (W3_keep m ρ c main_arg16 (by decide)).trans <| (W2_of_ne m ρ c main_arg16 (by decide)).trans <| (W1_keep m ρ c main_arg16 (by decide)).trans <| rfl
theorem W29_main_arg17 (c : Dev nD) : W29 m ρ c (Proc.devRef .tc main_arg17) = m ((c : Thread nD τ).loc main_arg17) :=
  (W29_keep m ρ c main_arg17 (by decide)).trans <| (W28_of_ne m ρ c main_arg17 (by decide)).trans <| (W27_keep m ρ c main_arg17 (by decide)).trans <| (W26_of_ne m ρ c main_arg17 (by decide)).trans <| (W25_keep m ρ c main_arg17 (by decide)).trans <| (W24_of_ne m ρ c main_arg17 (by decide)).trans <| (W23_of_ne m ρ c main_arg17 (by decide)).trans <| (W22_keep m ρ c main_arg17 (by decide)).trans <| (W21_of_ne m ρ c main_arg17 (by decide)).trans <| (W20_keep m ρ c main_arg17 (by decide)).trans <| (W19_of_ne m ρ c main_arg17 (by decide)).trans <| (W18_keep m ρ c main_arg17 (by decide)).trans <| (W17_of_ne m ρ c main_arg17 (by decide)).trans <| (W16_keep m ρ c main_arg17 (by decide)).trans <| (W15_of_ne m ρ c main_arg17 (by decide)).trans <| (W14_keep m ρ c main_arg17 (by decide)).trans <| (W13_of_ne m ρ c main_arg17 (by decide)).trans <| (W12_keep m ρ c main_arg17 (by decide)).trans <| (W11_of_ne m ρ c main_arg17 (by decide)).trans <| (W10_keep m ρ c main_arg17 (by decide)).trans <| (W9_of_ne m ρ c main_arg17 (by decide)).trans <| (W8_keep m ρ c main_arg17 (by decide)).trans <| (W7_of_ne m ρ c main_arg17 (by decide)).trans <| (W6_of_ne m ρ c main_arg17 (by decide)).trans <| (W5_keep m ρ c main_arg17 (by decide)).trans <| (W4_in5 m ρ c).trans <| (W3_keep m ρ c main_arg17 (by decide)).trans <| (W2_of_ne m ρ c main_arg17 (by decide)).trans <| (W1_keep m ρ c main_arg17 (by decide)).trans <| rfl
theorem W29_main_arg18 (c : Dev nD) : W29 m ρ c (Proc.devRef .tc main_arg18) = m ((c : Thread nD τ).loc main_arg18) :=
  (W29_keep m ρ c main_arg18 (by decide)).trans <| (W28_of_ne m ρ c main_arg18 (by decide)).trans <| (W27_keep m ρ c main_arg18 (by decide)).trans <| (W26_of_ne m ρ c main_arg18 (by decide)).trans <| (W25_keep m ρ c main_arg18 (by decide)).trans <| (W24_of_ne m ρ c main_arg18 (by decide)).trans <| (W23_of_ne m ρ c main_arg18 (by decide)).trans <| (W22_keep m ρ c main_arg18 (by decide)).trans <| (W21_of_ne m ρ c main_arg18 (by decide)).trans <| (W20_keep m ρ c main_arg18 (by decide)).trans <| (W19_of_ne m ρ c main_arg18 (by decide)).trans <| (W18_keep m ρ c main_arg18 (by decide)).trans <| (W17_of_ne m ρ c main_arg18 (by decide)).trans <| (W16_keep m ρ c main_arg18 (by decide)).trans <| (W15_of_ne m ρ c main_arg18 (by decide)).trans <| (W14_keep m ρ c main_arg18 (by decide)).trans <| (W13_of_ne m ρ c main_arg18 (by decide)).trans <| (W12_keep m ρ c main_arg18 (by decide)).trans <| (W11_of_ne m ρ c main_arg18 (by decide)).trans <| (W10_keep m ρ c main_arg18 (by decide)).trans <| (W9_of_ne m ρ c main_arg18 (by decide)).trans <| (W8_keep m ρ c main_arg18 (by decide)).trans <| (W7_of_ne m ρ c main_arg18 (by decide)).trans <| (W6_in3 m ρ c).trans <| (W5_keep m ρ c main_arg18 (by decide)).trans <| (W4_of_ne m ρ c main_arg18 (by decide)).trans <| (W3_keep m ρ c main_arg18 (by decide)).trans <| (W2_of_ne m ρ c main_arg18 (by decide)).trans <| (W1_keep m ρ c main_arg18 (by decide)).trans <| rfl
theorem W29_main_arg19 (c : Dev nD) : W29 m ρ c (Proc.devRef .tc main_arg19) = m ((c : Thread nD τ).loc main_arg19) :=
  (W29_keep m ρ c main_arg19 (by decide)).trans <| (W28_of_ne m ρ c main_arg19 (by decide)).trans <| (W27_keep m ρ c main_arg19 (by decide)).trans <| (W26_of_ne m ρ c main_arg19 (by decide)).trans <| (W25_keep m ρ c main_arg19 (by decide)).trans <| (W24_of_ne m ρ c main_arg19 (by decide)).trans <| (W23_of_ne m ρ c main_arg19 (by decide)).trans <| (W22_keep m ρ c main_arg19 (by decide)).trans <| (W21_of_ne m ρ c main_arg19 (by decide)).trans <| (W20_keep m ρ c main_arg19 (by decide)).trans <| (W19_of_ne m ρ c main_arg19 (by decide)).trans <| (W18_keep m ρ c main_arg19 (by decide)).trans <| (W17_of_ne m ρ c main_arg19 (by decide)).trans <| (W16_keep m ρ c main_arg19 (by decide)).trans <| (W15_of_ne m ρ c main_arg19 (by decide)).trans <| (W14_keep m ρ c main_arg19 (by decide)).trans <| (W13_of_ne m ρ c main_arg19 (by decide)).trans <| (W12_keep m ρ c main_arg19 (by decide)).trans <| (W11_of_ne m ρ c main_arg19 (by decide)).trans <| (W10_keep m ρ c main_arg19 (by decide)).trans <| (W9_of_ne m ρ c main_arg19 (by decide)).trans <| (W8_keep m ρ c main_arg19 (by decide)).trans <| (W7_of_ne m ρ c main_arg19 (by decide)).trans <| (W6_in4 m ρ c).trans <| (W5_keep m ρ c main_arg19 (by decide)).trans <| (W4_of_ne m ρ c main_arg19 (by decide)).trans <| (W3_keep m ρ c main_arg19 (by decide)).trans <| (W2_of_ne m ρ c main_arg19 (by decide)).trans <| (W1_keep m ρ c main_arg19 (by decide)).trans <| rfl
theorem W29_main_arg20 (c : Dev nD) : W29 m ρ c (Proc.devRef .tc main_arg20) = m ((c : Thread nD τ).loc main_arg20) :=
  (W29_keep m ρ c main_arg20 (by decide)).trans <| (W28_of_ne m ρ c main_arg20 (by decide)).trans <| (W27_keep m ρ c main_arg20 (by decide)).trans <| (W26_of_ne m ρ c main_arg20 (by decide)).trans <| (W25_keep m ρ c main_arg20 (by decide)).trans <| (W24_of_ne m ρ c main_arg20 (by decide)).trans <| (W23_of_ne m ρ c main_arg20 (by decide)).trans <| (W22_keep m ρ c main_arg20 (by decide)).trans <| (W21_of_ne m ρ c main_arg20 (by decide)).trans <| (W20_keep m ρ c main_arg20 (by decide)).trans <| (W19_of_ne m ρ c main_arg20 (by decide)).trans <| (W18_keep m ρ c main_arg20 (by decide)).trans <| (W17_of_ne m ρ c main_arg20 (by decide)).trans <| (W16_keep m ρ c main_arg20 (by decide)).trans <| (W15_of_ne m ρ c main_arg20 (by decide)).trans <| (W14_keep m ρ c main_arg20 (by decide)).trans <| (W13_of_ne m ρ c main_arg20 (by decide)).trans <| (W12_keep m ρ c main_arg20 (by decide)).trans <| (W11_of_ne m ρ c main_arg20 (by decide)).trans <| (W10_keep m ρ c main_arg20 (by decide)).trans <| (W9_of_ne m ρ c main_arg20 (by decide)).trans <| (W8_keep m ρ c main_arg20 (by decide)).trans <| (W7_of_ne m ρ c main_arg20 (by decide)).trans <| (W6_in5 m ρ c).trans <| (W5_keep m ρ c main_arg20 (by decide)).trans <| (W4_of_ne m ρ c main_arg20 (by decide)).trans <| (W3_keep m ρ c main_arg20 (by decide)).trans <| (W2_of_ne m ρ c main_arg20 (by decide)).trans <| (W1_keep m ρ c main_arg20 (by decide)).trans <| rfl
theorem W29_main_arg21 (c : Dev nD) : W29 m ρ c (Proc.devRef .tc main_arg21) = m ((c : Thread nD τ).loc main_arg21) :=
  (W29_keep m ρ c main_arg21 (by decide)).trans <| (W28_of_ne m ρ c main_arg21 (by decide)).trans <| (W27_keep m ρ c main_arg21 (by decide)).trans <| (W26_of_ne m ρ c main_arg21 (by decide)).trans <| (W25_keep m ρ c main_arg21 (by decide)).trans <| (W24_of_ne m ρ c main_arg21 (by decide)).trans <| (W23_of_ne m ρ c main_arg21 (by decide)).trans <| (W22_keep m ρ c main_arg21 (by decide)).trans <| (W21_of_ne m ρ c main_arg21 (by decide)).trans <| (W20_keep m ρ c main_arg21 (by decide)).trans <| (W19_in3 m ρ c).trans <| (W18_keep m ρ c main_arg21 (by decide)).trans <| (W17_of_ne m ρ c main_arg21 (by decide)).trans <| (W16_keep m ρ c main_arg21 (by decide)).trans <| (W15_of_ne m ρ c main_arg21 (by decide)).trans <| (W14_keep m ρ c main_arg21 (by decide)).trans <| (W13_of_ne m ρ c main_arg21 (by decide)).trans <| (W12_keep m ρ c main_arg21 (by decide)).trans <| (W11_of_ne m ρ c main_arg21 (by decide)).trans <| (W10_keep m ρ c main_arg21 (by decide)).trans <| (W9_of_ne m ρ c main_arg21 (by decide)).trans <| (W8_keep m ρ c main_arg21 (by decide)).trans <| (W7_of_ne m ρ c main_arg21 (by decide)).trans <| (W6_of_ne m ρ c main_arg21 (by decide)).trans <| (W5_keep m ρ c main_arg21 (by decide)).trans <| (W4_of_ne m ρ c main_arg21 (by decide)).trans <| (W3_keep m ρ c main_arg21 (by decide)).trans <| (W2_of_ne m ρ c main_arg21 (by decide)).trans <| (W1_keep m ρ c main_arg21 (by decide)).trans <| rfl
theorem W29_main_arg22 (c : Dev nD) : W29 m ρ c (Proc.devRef .tc main_arg22) = m ((c : Thread nD τ).loc main_arg22) :=
  (W29_keep m ρ c main_arg22 (by decide)).trans <| (W28_of_ne m ρ c main_arg22 (by decide)).trans <| (W27_keep m ρ c main_arg22 (by decide)).trans <| (W26_of_ne m ρ c main_arg22 (by decide)).trans <| (W25_keep m ρ c main_arg22 (by decide)).trans <| (W24_of_ne m ρ c main_arg22 (by decide)).trans <| (W23_of_ne m ρ c main_arg22 (by decide)).trans <| (W22_keep m ρ c main_arg22 (by decide)).trans <| (W21_of_ne m ρ c main_arg22 (by decide)).trans <| (W20_keep m ρ c main_arg22 (by decide)).trans <| (W19_in4 m ρ c).trans <| (W18_keep m ρ c main_arg22 (by decide)).trans <| (W17_of_ne m ρ c main_arg22 (by decide)).trans <| (W16_keep m ρ c main_arg22 (by decide)).trans <| (W15_of_ne m ρ c main_arg22 (by decide)).trans <| (W14_keep m ρ c main_arg22 (by decide)).trans <| (W13_of_ne m ρ c main_arg22 (by decide)).trans <| (W12_keep m ρ c main_arg22 (by decide)).trans <| (W11_of_ne m ρ c main_arg22 (by decide)).trans <| (W10_keep m ρ c main_arg22 (by decide)).trans <| (W9_of_ne m ρ c main_arg22 (by decide)).trans <| (W8_keep m ρ c main_arg22 (by decide)).trans <| (W7_of_ne m ρ c main_arg22 (by decide)).trans <| (W6_of_ne m ρ c main_arg22 (by decide)).trans <| (W5_keep m ρ c main_arg22 (by decide)).trans <| (W4_of_ne m ρ c main_arg22 (by decide)).trans <| (W3_keep m ρ c main_arg22 (by decide)).trans <| (W2_of_ne m ρ c main_arg22 (by decide)).trans <| (W1_keep m ρ c main_arg22 (by decide)).trans <| rfl
theorem W29_main_arg23 (c : Dev nD) : W29 m ρ c (Proc.devRef .tc main_arg23) = m ((c : Thread nD τ).loc main_arg23) :=
  (W29_keep m ρ c main_arg23 (by decide)).trans <| (W28_of_ne m ρ c main_arg23 (by decide)).trans <| (W27_keep m ρ c main_arg23 (by decide)).trans <| (W26_of_ne m ρ c main_arg23 (by decide)).trans <| (W25_keep m ρ c main_arg23 (by decide)).trans <| (W24_of_ne m ρ c main_arg23 (by decide)).trans <| (W23_of_ne m ρ c main_arg23 (by decide)).trans <| (W22_keep m ρ c main_arg23 (by decide)).trans <| (W21_of_ne m ρ c main_arg23 (by decide)).trans <| (W20_keep m ρ c main_arg23 (by decide)).trans <| (W19_in5 m ρ c).trans <| (W18_keep m ρ c main_arg23 (by decide)).trans <| (W17_of_ne m ρ c main_arg23 (by decide)).trans <| (W16_keep m ρ c main_arg23 (by decide)).trans <| (W15_of_ne m ρ c main_arg23 (by decide)).trans <| (W14_keep m ρ c main_arg23 (by decide)).trans <| (W13_of_ne m ρ c main_arg23 (by decide)).trans <| (W12_keep m ρ c main_arg23 (by decide)).trans <| (W11_of_ne m ρ c main_arg23 (by decide)).trans <| (W10_keep m ρ c main_arg23 (by decide)).trans <| (W9_of_ne m ρ c main_arg23 (by decide)).trans <| (W8_keep m ρ c main_arg23 (by decide)).trans <| (W7_of_ne m ρ c main_arg23 (by decide)).trans <| (W6_of_ne m ρ c main_arg23 (by decide)).trans <| (W5_keep m ρ c main_arg23 (by decide)).trans <| (W4_of_ne m ρ c main_arg23 (by decide)).trans <| (W3_keep m ρ c main_arg23 (by decide)).trans <| (W2_of_ne m ρ c main_arg23 (by decide)).trans <| (W1_keep m ρ c main_arg23 (by decide)).trans <| rfl
theorem W29_main_arg24 (c : Dev nD) : W29 m ρ c (Proc.devRef .tc main_arg24) = m ((c : Thread nD τ).loc main_arg24) :=
  (W29_keep m ρ c main_arg24 (by decide)).trans <| (W28_of_ne m ρ c main_arg24 (by decide)).trans <| (W27_keep m ρ c main_arg24 (by decide)).trans <| (W26_of_ne m ρ c main_arg24 (by decide)).trans <| (W25_keep m ρ c main_arg24 (by decide)).trans <| (W24_of_ne m ρ c main_arg24 (by decide)).trans <| (W23_of_ne m ρ c main_arg24 (by decide)).trans <| (W22_keep m ρ c main_arg24 (by decide)).trans <| (W21_in3 m ρ c).trans <| (W20_keep m ρ c main_arg24 (by decide)).trans <| (W19_of_ne m ρ c main_arg24 (by decide)).trans <| (W18_keep m ρ c main_arg24 (by decide)).trans <| (W17_of_ne m ρ c main_arg24 (by decide)).trans <| (W16_keep m ρ c main_arg24 (by decide)).trans <| (W15_of_ne m ρ c main_arg24 (by decide)).trans <| (W14_keep m ρ c main_arg24 (by decide)).trans <| (W13_of_ne m ρ c main_arg24 (by decide)).trans <| (W12_keep m ρ c main_arg24 (by decide)).trans <| (W11_of_ne m ρ c main_arg24 (by decide)).trans <| (W10_keep m ρ c main_arg24 (by decide)).trans <| (W9_of_ne m ρ c main_arg24 (by decide)).trans <| (W8_keep m ρ c main_arg24 (by decide)).trans <| (W7_of_ne m ρ c main_arg24 (by decide)).trans <| (W6_of_ne m ρ c main_arg24 (by decide)).trans <| (W5_keep m ρ c main_arg24 (by decide)).trans <| (W4_of_ne m ρ c main_arg24 (by decide)).trans <| (W3_keep m ρ c main_arg24 (by decide)).trans <| (W2_of_ne m ρ c main_arg24 (by decide)).trans <| (W1_keep m ρ c main_arg24 (by decide)).trans <| rfl
theorem W29_main_arg25 (c : Dev nD) : W29 m ρ c (Proc.devRef .tc main_arg25) = m ((c : Thread nD τ).loc main_arg25) :=
  (W29_keep m ρ c main_arg25 (by decide)).trans <| (W28_of_ne m ρ c main_arg25 (by decide)).trans <| (W27_keep m ρ c main_arg25 (by decide)).trans <| (W26_of_ne m ρ c main_arg25 (by decide)).trans <| (W25_keep m ρ c main_arg25 (by decide)).trans <| (W24_of_ne m ρ c main_arg25 (by decide)).trans <| (W23_of_ne m ρ c main_arg25 (by decide)).trans <| (W22_keep m ρ c main_arg25 (by decide)).trans <| (W21_in4 m ρ c).trans <| (W20_keep m ρ c main_arg25 (by decide)).trans <| (W19_of_ne m ρ c main_arg25 (by decide)).trans <| (W18_keep m ρ c main_arg25 (by decide)).trans <| (W17_of_ne m ρ c main_arg25 (by decide)).trans <| (W16_keep m ρ c main_arg25 (by decide)).trans <| (W15_of_ne m ρ c main_arg25 (by decide)).trans <| (W14_keep m ρ c main_arg25 (by decide)).trans <| (W13_of_ne m ρ c main_arg25 (by decide)).trans <| (W12_keep m ρ c main_arg25 (by decide)).trans <| (W11_of_ne m ρ c main_arg25 (by decide)).trans <| (W10_keep m ρ c main_arg25 (by decide)).trans <| (W9_of_ne m ρ c main_arg25 (by decide)).trans <| (W8_keep m ρ c main_arg25 (by decide)).trans <| (W7_of_ne m ρ c main_arg25 (by decide)).trans <| (W6_of_ne m ρ c main_arg25 (by decide)).trans <| (W5_keep m ρ c main_arg25 (by decide)).trans <| (W4_of_ne m ρ c main_arg25 (by decide)).trans <| (W3_keep m ρ c main_arg25 (by decide)).trans <| (W2_of_ne m ρ c main_arg25 (by decide)).trans <| (W1_keep m ρ c main_arg25 (by decide)).trans <| rfl
theorem W29_main_arg26 (c : Dev nD) : W29 m ρ c (Proc.devRef .tc main_arg26) = m ((c : Thread nD τ).loc main_arg26) :=
  (W29_keep m ρ c main_arg26 (by decide)).trans <| (W28_of_ne m ρ c main_arg26 (by decide)).trans <| (W27_keep m ρ c main_arg26 (by decide)).trans <| (W26_of_ne m ρ c main_arg26 (by decide)).trans <| (W25_keep m ρ c main_arg26 (by decide)).trans <| (W24_of_ne m ρ c main_arg26 (by decide)).trans <| (W23_of_ne m ρ c main_arg26 (by decide)).trans <| (W22_keep m ρ c main_arg26 (by decide)).trans <| (W21_in5 m ρ c).trans <| (W20_keep m ρ c main_arg26 (by decide)).trans <| (W19_of_ne m ρ c main_arg26 (by decide)).trans <| (W18_keep m ρ c main_arg26 (by decide)).trans <| (W17_of_ne m ρ c main_arg26 (by decide)).trans <| (W16_keep m ρ c main_arg26 (by decide)).trans <| (W15_of_ne m ρ c main_arg26 (by decide)).trans <| (W14_keep m ρ c main_arg26 (by decide)).trans <| (W13_of_ne m ρ c main_arg26 (by decide)).trans <| (W12_keep m ρ c main_arg26 (by decide)).trans <| (W11_of_ne m ρ c main_arg26 (by decide)).trans <| (W10_keep m ρ c main_arg26 (by decide)).trans <| (W9_of_ne m ρ c main_arg26 (by decide)).trans <| (W8_keep m ρ c main_arg26 (by decide)).trans <| (W7_of_ne m ρ c main_arg26 (by decide)).trans <| (W6_of_ne m ρ c main_arg26 (by decide)).trans <| (W5_keep m ρ c main_arg26 (by decide)).trans <| (W4_of_ne m ρ c main_arg26 (by decide)).trans <| (W3_keep m ρ c main_arg26 (by decide)).trans <| (W2_of_ne m ρ c main_arg26 (by decide)).trans <| (W1_keep m ρ c main_arg26 (by decide)).trans <| rfl
theorem W29_main_arg27 (c : Dev nD) : W29 m ρ c (Proc.devRef .tc main_arg27) = m ((c : Thread nD τ).loc main_arg27) :=
  (W29_keep m ρ c main_arg27 (by decide)).trans <| (W28_of_ne m ρ c main_arg27 (by decide)).trans <| (W27_keep m ρ c main_arg27 (by decide)).trans <| (W26_of_ne m ρ c main_arg27 (by decide)).trans <| (W25_keep m ρ c main_arg27 (by decide)).trans <| (W24_of_ne m ρ c main_arg27 (by decide)).trans <| (W23_in3 m ρ c).trans <| (W22_keep m ρ c main_arg27 (by decide)).trans <| (W21_of_ne m ρ c main_arg27 (by decide)).trans <| (W20_keep m ρ c main_arg27 (by decide)).trans <| (W19_of_ne m ρ c main_arg27 (by decide)).trans <| (W18_keep m ρ c main_arg27 (by decide)).trans <| (W17_of_ne m ρ c main_arg27 (by decide)).trans <| (W16_keep m ρ c main_arg27 (by decide)).trans <| (W15_of_ne m ρ c main_arg27 (by decide)).trans <| (W14_keep m ρ c main_arg27 (by decide)).trans <| (W13_of_ne m ρ c main_arg27 (by decide)).trans <| (W12_keep m ρ c main_arg27 (by decide)).trans <| (W11_of_ne m ρ c main_arg27 (by decide)).trans <| (W10_keep m ρ c main_arg27 (by decide)).trans <| (W9_of_ne m ρ c main_arg27 (by decide)).trans <| (W8_keep m ρ c main_arg27 (by decide)).trans <| (W7_of_ne m ρ c main_arg27 (by decide)).trans <| (W6_of_ne m ρ c main_arg27 (by decide)).trans <| (W5_keep m ρ c main_arg27 (by decide)).trans <| (W4_of_ne m ρ c main_arg27 (by decide)).trans <| (W3_keep m ρ c main_arg27 (by decide)).trans <| (W2_of_ne m ρ c main_arg27 (by decide)).trans <| (W1_keep m ρ c main_arg27 (by decide)).trans <| rfl
theorem W29_main_arg28 (c : Dev nD) : W29 m ρ c (Proc.devRef .tc main_arg28) = m ((c : Thread nD τ).loc main_arg28) :=
  (W29_keep m ρ c main_arg28 (by decide)).trans <| (W28_of_ne m ρ c main_arg28 (by decide)).trans <| (W27_keep m ρ c main_arg28 (by decide)).trans <| (W26_of_ne m ρ c main_arg28 (by decide)).trans <| (W25_keep m ρ c main_arg28 (by decide)).trans <| (W24_of_ne m ρ c main_arg28 (by decide)).trans <| (W23_in4 m ρ c).trans <| (W22_keep m ρ c main_arg28 (by decide)).trans <| (W21_of_ne m ρ c main_arg28 (by decide)).trans <| (W20_keep m ρ c main_arg28 (by decide)).trans <| (W19_of_ne m ρ c main_arg28 (by decide)).trans <| (W18_keep m ρ c main_arg28 (by decide)).trans <| (W17_of_ne m ρ c main_arg28 (by decide)).trans <| (W16_keep m ρ c main_arg28 (by decide)).trans <| (W15_of_ne m ρ c main_arg28 (by decide)).trans <| (W14_keep m ρ c main_arg28 (by decide)).trans <| (W13_of_ne m ρ c main_arg28 (by decide)).trans <| (W12_keep m ρ c main_arg28 (by decide)).trans <| (W11_of_ne m ρ c main_arg28 (by decide)).trans <| (W10_keep m ρ c main_arg28 (by decide)).trans <| (W9_of_ne m ρ c main_arg28 (by decide)).trans <| (W8_keep m ρ c main_arg28 (by decide)).trans <| (W7_of_ne m ρ c main_arg28 (by decide)).trans <| (W6_of_ne m ρ c main_arg28 (by decide)).trans <| (W5_keep m ρ c main_arg28 (by decide)).trans <| (W4_of_ne m ρ c main_arg28 (by decide)).trans <| (W3_keep m ρ c main_arg28 (by decide)).trans <| (W2_of_ne m ρ c main_arg28 (by decide)).trans <| (W1_keep m ρ c main_arg28 (by decide)).trans <| rfl
theorem W29_main_arg29 (c : Dev nD) : W29 m ρ c (Proc.devRef .tc main_arg29) = m ((c : Thread nD τ).loc main_arg29) :=
  (W29_keep m ρ c main_arg29 (by decide)).trans <| (W28_of_ne m ρ c main_arg29 (by decide)).trans <| (W27_keep m ρ c main_arg29 (by decide)).trans <| (W26_of_ne m ρ c main_arg29 (by decide)).trans <| (W25_keep m ρ c main_arg29 (by decide)).trans <| (W24_of_ne m ρ c main_arg29 (by decide)).trans <| (W23_in5 m ρ c).trans <| (W22_keep m ρ c main_arg29 (by decide)).trans <| (W21_of_ne m ρ c main_arg29 (by decide)).trans <| (W20_keep m ρ c main_arg29 (by decide)).trans <| (W19_of_ne m ρ c main_arg29 (by decide)).trans <| (W18_keep m ρ c main_arg29 (by decide)).trans <| (W17_of_ne m ρ c main_arg29 (by decide)).trans <| (W16_keep m ρ c main_arg29 (by decide)).trans <| (W15_of_ne m ρ c main_arg29 (by decide)).trans <| (W14_keep m ρ c main_arg29 (by decide)).trans <| (W13_of_ne m ρ c main_arg29 (by decide)).trans <| (W12_keep m ρ c main_arg29 (by decide)).trans <| (W11_of_ne m ρ c main_arg29 (by decide)).trans <| (W10_keep m ρ c main_arg29 (by decide)).trans <| (W9_of_ne m ρ c main_arg29 (by decide)).trans <| (W8_keep m ρ c main_arg29 (by decide)).trans <| (W7_of_ne m ρ c main_arg29 (by decide)).trans <| (W6_of_ne m ρ c main_arg29 (by decide)).trans <| (W5_keep m ρ c main_arg29 (by decide)).trans <| (W4_of_ne m ρ c main_arg29 (by decide)).trans <| (W3_keep m ρ c main_arg29 (by decide)).trans <| (W2_of_ne m ρ c main_arg29 (by decide)).trans <| (W1_keep m ρ c main_arg29 (by decide)).trans <| rfl
theorem W29_main_arg30 (c : Dev nD) : W29 m ρ c (Proc.devRef .tc main_arg30) = m ((c : Thread nD τ).loc main_arg30) :=
  (W29_keep m ρ c main_arg30 (by decide)).trans <| (W28_of_ne m ρ c main_arg30 (by decide)).trans <| (W27_keep m ρ c main_arg30 (by decide)).trans <| (W26_of_ne m ρ c main_arg30 (by decide)).trans <| (W25_keep m ρ c main_arg30 (by decide)).trans <| (W24_of_ne m ρ c main_arg30 (by decide)).trans <| (W23_of_ne m ρ c main_arg30 (by decide)).trans <| (W22_keep m ρ c main_arg30 (by decide)).trans <| (W21_of_ne m ρ c main_arg30 (by decide)).trans <| (W20_keep m ρ c main_arg30 (by decide)).trans <| (W19_of_ne m ρ c main_arg30 (by decide)).trans <| (W18_keep m ρ c main_arg30 (by decide)).trans <| (W17_of_ne m ρ c main_arg30 (by decide)).trans <| (W16_keep m ρ c main_arg30 (by decide)).trans <| (W15_of_ne m ρ c main_arg30 (by decide)).trans <| (W14_keep m ρ c main_arg30 (by decide)).trans <| (W13_of_ne m ρ c main_arg30 (by decide)).trans <| (W12_keep m ρ c main_arg30 (by decide)).trans <| (W11_of_ne m ρ c main_arg30 (by decide)).trans <| (W10_keep m ρ c main_arg30 (by decide)).trans <| (W9_of_ne m ρ c main_arg30 (by decide)).trans <| (W8_keep m ρ c main_arg30 (by decide)).trans <| (W7_in1 m ρ c).trans <| (W6_of_ne m ρ c main_arg30 (by decide)).trans <| (W5_keep m ρ c main_arg30 (by decide)).trans <| (W4_of_ne m ρ c main_arg30 (by decide)).trans <| (W3_keep m ρ c main_arg30 (by decide)).trans <| (W2_of_ne m ρ c main_arg30 (by decide)).trans <| (W1_keep m ρ c main_arg30 (by decide)).trans <| rfl
theorem W29_main_arg31 (c : Dev nD) : W29 m ρ c (Proc.devRef .tc main_arg31) = m ((c : Thread nD τ).loc main_arg31) :=
  (W29_keep m ρ c main_arg31 (by decide)).trans <| (W28_of_ne m ρ c main_arg31 (by decide)).trans <| (W27_keep m ρ c main_arg31 (by decide)).trans <| (W26_of_ne m ρ c main_arg31 (by decide)).trans <| (W25_keep m ρ c main_arg31 (by decide)).trans <| (W24_of_ne m ρ c main_arg31 (by decide)).trans <| (W23_of_ne m ρ c main_arg31 (by decide)).trans <| (W22_keep m ρ c main_arg31 (by decide)).trans <| (W21_of_ne m ρ c main_arg31 (by decide)).trans <| (W20_keep m ρ c main_arg31 (by decide)).trans <| (W19_of_ne m ρ c main_arg31 (by decide)).trans <| (W18_keep m ρ c main_arg31 (by decide)).trans <| (W17_of_ne m ρ c main_arg31 (by decide)).trans <| (W16_keep m ρ c main_arg31 (by decide)).trans <| (W15_of_ne m ρ c main_arg31 (by decide)).trans <| (W14_keep m ρ c main_arg31 (by decide)).trans <| (W13_of_ne m ρ c main_arg31 (by decide)).trans <| (W12_keep m ρ c main_arg31 (by decide)).trans <| (W11_of_ne m ρ c main_arg31 (by decide)).trans <| (W10_keep m ρ c main_arg31 (by decide)).trans <| (W9_in3 m ρ c).trans <| (W8_keep m ρ c main_arg31 (by decide)).trans <| (W7_of_ne m ρ c main_arg31 (by decide)).trans <| (W6_of_ne m ρ c main_arg31 (by decide)).trans <| (W5_keep m ρ c main_arg31 (by decide)).trans <| (W4_of_ne m ρ c main_arg31 (by decide)).trans <| (W3_keep m ρ c main_arg31 (by decide)).trans <| (W2_of_ne m ρ c main_arg31 (by decide)).trans <| (W1_keep m ρ c main_arg31 (by decide)).trans <| rfl
theorem W29_main_arg32 (c : Dev nD) : W29 m ρ c (Proc.devRef .tc main_arg32) = m ((c : Thread nD τ).loc main_arg32) :=
  (W29_keep m ρ c main_arg32 (by decide)).trans <| (W28_of_ne m ρ c main_arg32 (by decide)).trans <| (W27_keep m ρ c main_arg32 (by decide)).trans <| (W26_of_ne m ρ c main_arg32 (by decide)).trans <| (W25_keep m ρ c main_arg32 (by decide)).trans <| (W24_of_ne m ρ c main_arg32 (by decide)).trans <| (W23_of_ne m ρ c main_arg32 (by decide)).trans <| (W22_keep m ρ c main_arg32 (by decide)).trans <| (W21_of_ne m ρ c main_arg32 (by decide)).trans <| (W20_keep m ρ c main_arg32 (by decide)).trans <| (W19_of_ne m ρ c main_arg32 (by decide)).trans <| (W18_keep m ρ c main_arg32 (by decide)).trans <| (W17_of_ne m ρ c main_arg32 (by decide)).trans <| (W16_keep m ρ c main_arg32 (by decide)).trans <| (W15_of_ne m ρ c main_arg32 (by decide)).trans <| (W14_keep m ρ c main_arg32 (by decide)).trans <| (W13_in1 m ρ c).trans <| (W12_keep m ρ c main_arg32 (by decide)).trans <| (W11_of_ne m ρ c main_arg32 (by decide)).trans <| (W10_keep m ρ c main_arg32 (by decide)).trans <| (W9_of_ne m ρ c main_arg32 (by decide)).trans <| (W8_keep m ρ c main_arg32 (by decide)).trans <| (W7_of_ne m ρ c main_arg32 (by decide)).trans <| (W6_of_ne m ρ c main_arg32 (by decide)).trans <| (W5_keep m ρ c main_arg32 (by decide)).trans <| (W4_of_ne m ρ c main_arg32 (by decide)).trans <| (W3_keep m ρ c main_arg32 (by decide)).trans <| (W2_of_ne m ρ c main_arg32 (by decide)).trans <| (W1_keep m ρ c main_arg32 (by decide)).trans <| rfl
theorem W29_main_arg33 (c : Dev nD) : W29 m ρ c (Proc.devRef .tc main_arg33) = m ((c : Thread nD τ).loc main_arg33) :=
  (W29_keep m ρ c main_arg33 (by decide)).trans <| (W28_of_ne m ρ c main_arg33 (by decide)).trans <| (W27_keep m ρ c main_arg33 (by decide)).trans <| (W26_of_ne m ρ c main_arg33 (by decide)).trans <| (W25_keep m ρ c main_arg33 (by decide)).trans <| (W24_of_ne m ρ c main_arg33 (by decide)).trans <| (W23_of_ne m ρ c main_arg33 (by decide)).trans <| (W22_keep m ρ c main_arg33 (by decide)).trans <| (W21_of_ne m ρ c main_arg33 (by decide)).trans <| (W20_keep m ρ c main_arg33 (by decide)).trans <| (W19_of_ne m ρ c main_arg33 (by decide)).trans <| (W18_keep m ρ c main_arg33 (by decide)).trans <| (W17_of_ne m ρ c main_arg33 (by decide)).trans <| (W16_keep m ρ c main_arg33 (by decide)).trans <| (W15_in3 m ρ c).trans <| (W14_keep m ρ c main_arg33 (by decide)).trans <| (W13_of_ne m ρ c main_arg33 (by decide)).trans <| (W12_keep m ρ c main_arg33 (by decide)).trans <| (W11_of_ne m ρ c main_arg33 (by decide)).trans <| (W10_keep m ρ c main_arg33 (by decide)).trans <| (W9_of_ne m ρ c main_arg33 (by decide)).trans <| (W8_keep m ρ c main_arg33 (by decide)).trans <| (W7_of_ne m ρ c main_arg33 (by decide)).trans <| (W6_of_ne m ρ c main_arg33 (by decide)).trans <| (W5_keep m ρ c main_arg33 (by decide)).trans <| (W4_of_ne m ρ c main_arg33 (by decide)).trans <| (W3_keep m ρ c main_arg33 (by decide)).trans <| (W2_of_ne m ρ c main_arg33 (by decide)).trans <| (W1_keep m ρ c main_arg33 (by decide)).trans <| rfl
theorem W29_main_arg34 (c : Dev nD) : W29 m ρ c (Proc.devRef .tc main_arg34) = m ((c : Thread nD τ).loc main_arg34) :=
  (W29_keep m ρ c main_arg34 (by decide)).trans <| (W28_of_ne m ρ c main_arg34 (by decide)).trans <| (W27_keep m ρ c main_arg34 (by decide)).trans <| (W26_of_ne m ρ c main_arg34 (by decide)).trans <| (W25_keep m ρ c main_arg34 (by decide)).trans <| (W24_in1 m ρ c).trans <| (W23_of_ne m ρ c main_arg34 (by decide)).trans <| (W22_keep m ρ c main_arg34 (by decide)).trans <| (W21_of_ne m ρ c main_arg34 (by decide)).trans <| (W20_keep m ρ c main_arg34 (by decide)).trans <| (W19_of_ne m ρ c main_arg34 (by decide)).trans <| (W18_keep m ρ c main_arg34 (by decide)).trans <| (W17_of_ne m ρ c main_arg34 (by decide)).trans <| (W16_keep m ρ c main_arg34 (by decide)).trans <| (W15_of_ne m ρ c main_arg34 (by decide)).trans <| (W14_keep m ρ c main_arg34 (by decide)).trans <| (W13_of_ne m ρ c main_arg34 (by decide)).trans <| (W12_keep m ρ c main_arg34 (by decide)).trans <| (W11_of_ne m ρ c main_arg34 (by decide)).trans <| (W10_keep m ρ c main_arg34 (by decide)).trans <| (W9_of_ne m ρ c main_arg34 (by decide)).trans <| (W8_keep m ρ c main_arg34 (by decide)).trans <| (W7_of_ne m ρ c main_arg34 (by decide)).trans <| (W6_of_ne m ρ c main_arg34 (by decide)).trans <| (W5_keep m ρ c main_arg34 (by decide)).trans <| (W4_of_ne m ρ c main_arg34 (by decide)).trans <| (W3_keep m ρ c main_arg34 (by decide)).trans <| (W2_of_ne m ρ c main_arg34 (by decide)).trans <| (W1_keep m ρ c main_arg34 (by decide)).trans <| rfl
theorem W29_main_arg35 (c : Dev nD) : W29 m ρ c (Proc.devRef .tc main_arg35) = m ((c : Thread nD τ).loc main_arg35) :=
  (W29_keep m ρ c main_arg35 (by decide)).trans <| (W28_of_ne m ρ c main_arg35 (by decide)).trans <| (W27_keep m ρ c main_arg35 (by decide)).trans <| (W26_in3 m ρ c).trans <| (W25_keep m ρ c main_arg35 (by decide)).trans <| (W24_of_ne m ρ c main_arg35 (by decide)).trans <| (W23_of_ne m ρ c main_arg35 (by decide)).trans <| (W22_keep m ρ c main_arg35 (by decide)).trans <| (W21_of_ne m ρ c main_arg35 (by decide)).trans <| (W20_keep m ρ c main_arg35 (by decide)).trans <| (W19_of_ne m ρ c main_arg35 (by decide)).trans <| (W18_keep m ρ c main_arg35 (by decide)).trans <| (W17_of_ne m ρ c main_arg35 (by decide)).trans <| (W16_keep m ρ c main_arg35 (by decide)).trans <| (W15_of_ne m ρ c main_arg35 (by decide)).trans <| (W14_keep m ρ c main_arg35 (by decide)).trans <| (W13_of_ne m ρ c main_arg35 (by decide)).trans <| (W12_keep m ρ c main_arg35 (by decide)).trans <| (W11_of_ne m ρ c main_arg35 (by decide)).trans <| (W10_keep m ρ c main_arg35 (by decide)).trans <| (W9_of_ne m ρ c main_arg35 (by decide)).trans <| (W8_keep m ρ c main_arg35 (by decide)).trans <| (W7_of_ne m ρ c main_arg35 (by decide)).trans <| (W6_of_ne m ρ c main_arg35 (by decide)).trans <| (W5_keep m ρ c main_arg35 (by decide)).trans <| (W4_of_ne m ρ c main_arg35 (by decide)).trans <| (W3_keep m ρ c main_arg35 (by decide)).trans <| (W2_of_ne m ρ c main_arg35 (by decide)).trans <| (W1_keep m ρ c main_arg35 (by decide)).trans <| rfl
theorem W29_main_arg36 (c : Dev nD) : W29 m ρ c (Proc.devRef .tc main_arg36) = m ((c : Thread nD τ).loc main_arg36) :=
  (W29_keep m ρ c main_arg36 (by decide)).trans <| (W28_of_ne m ρ c main_arg36 (by decide)).trans <| (W27_keep m ρ c main_arg36 (by decide)).trans <| (W26_of_ne m ρ c main_arg36 (by decide)).trans <| (W25_keep m ρ c main_arg36 (by decide)).trans <| (W24_of_ne m ρ c main_arg36 (by decide)).trans <| (W23_of_ne m ρ c main_arg36 (by decide)).trans <| (W22_keep m ρ c main_arg36 (by decide)).trans <| (W21_of_ne m ρ c main_arg36 (by decide)).trans <| (W20_keep m ρ c main_arg36 (by decide)).trans <| (W19_of_ne m ρ c main_arg36 (by decide)).trans <| (W18_keep m ρ c main_arg36 (by decide)).trans <| (W17_of_ne m ρ c main_arg36 (by decide)).trans <| (W16_keep m ρ c main_arg36 (by decide)).trans <| (W15_of_ne m ρ c main_arg36 (by decide)).trans <| (W14_keep m ρ c main_arg36 (by decide)).trans <| (W13_of_ne m ρ c main_arg36 (by decide)).trans <| (W12_keep m ρ c main_arg36 (by decide)).trans <| (W11_of_ne m ρ c main_arg36 (by decide)).trans <| (W10_keep m ρ c main_arg36 (by decide)).trans <| (W9_of_ne m ρ c main_arg36 (by decide)).trans <| (W8_keep m ρ c main_arg36 (by decide)).trans <| (W7_of_ne m ρ c main_arg36 (by decide)).trans <| (W6_of_ne m ρ c main_arg36 (by decide)).trans <| (W5_keep m ρ c main_arg36 (by decide)).trans <| (W4_of_ne m ρ c main_arg36 (by decide)).trans <| (W3_keep m ρ c main_arg36 (by decide)).trans <| (W2_of_ne m ρ c main_arg36 (by decide)).trans <| (W1_keep m ρ c main_arg36 (by decide)).trans <| rfl
theorem W29_main_arg37 (c : Dev nD) : W29 m ρ c (Proc.devRef .tc main_arg37) = m ((c : Thread nD τ).loc main_arg37) :=
  (W29_keep m ρ c main_arg37 (by decide)).trans <| (W28_of_ne m ρ c main_arg37 (by decide)).trans <| (W27_keep m ρ c main_arg37 (by decide)).trans <| (W26_of_ne m ρ c main_arg37 (by decide)).trans <| (W25_keep m ρ c main_arg37 (by decide)).trans <| (W24_of_ne m ρ c main_arg37 (by decide)).trans <| (W23_of_ne m ρ c main_arg37 (by decide)).trans <| (W22_keep m ρ c main_arg37 (by decide)).trans <| (W21_of_ne m ρ c main_arg37 (by decide)).trans <| (W20_keep m ρ c main_arg37 (by decide)).trans <| (W19_of_ne m ρ c main_arg37 (by decide)).trans <| (W18_keep m ρ c main_arg37 (by decide)).trans <| (W17_of_ne m ρ c main_arg37 (by decide)).trans <| (W16_keep m ρ c main_arg37 (by decide)).trans <| (W15_of_ne m ρ c main_arg37 (by decide)).trans <| (W14_keep m ρ c main_arg37 (by decide)).trans <| (W13_of_ne m ρ c main_arg37 (by decide)).trans <| (W12_keep m ρ c main_arg37 (by decide)).trans <| (W11_of_ne m ρ c main_arg37 (by decide)).trans <| (W10_keep m ρ c main_arg37 (by decide)).trans <| (W9_of_ne m ρ c main_arg37 (by decide)).trans <| (W8_keep m ρ c main_arg37 (by decide)).trans <| (W7_of_ne m ρ c main_arg37 (by decide)).trans <| (W6_of_ne m ρ c main_arg37 (by decide)).trans <| (W5_keep m ρ c main_arg37 (by decide)).trans <| (W4_of_ne m ρ c main_arg37 (by decide)).trans <| (W3_keep m ρ c main_arg37 (by decide)).trans <| (W2_of_ne m ρ c main_arg37 (by decide)).trans <| (W1_keep m ρ c main_arg37 (by decide)).trans <| rfl
theorem W29_main_arg38 (c : Dev nD) : W29 m ρ c (Proc.devRef .tc main_arg38) = m ((c : Thread nD τ).loc main_arg38) :=
  (W29_keep m ρ c main_arg38 (by decide)).trans <| (W28_of_ne m ρ c main_arg38 (by decide)).trans <| (W27_keep m ρ c main_arg38 (by decide)).trans <| (W26_of_ne m ρ c main_arg38 (by decide)).trans <| (W25_keep m ρ c main_arg38 (by decide)).trans <| (W24_of_ne m ρ c main_arg38 (by decide)).trans <| (W23_of_ne m ρ c main_arg38 (by decide)).trans <| (W22_keep m ρ c main_arg38 (by decide)).trans <| (W21_of_ne m ρ c main_arg38 (by decide)).trans <| (W20_keep m ρ c main_arg38 (by decide)).trans <| (W19_of_ne m ρ c main_arg38 (by decide)).trans <| (W18_keep m ρ c main_arg38 (by decide)).trans <| (W17_of_ne m ρ c main_arg38 (by decide)).trans <| (W16_keep m ρ c main_arg38 (by decide)).trans <| (W15_of_ne m ρ c main_arg38 (by decide)).trans <| (W14_keep m ρ c main_arg38 (by decide)).trans <| (W13_of_ne m ρ c main_arg38 (by decide)).trans <| (W12_keep m ρ c main_arg38 (by decide)).trans <| (W11_of_ne m ρ c main_arg38 (by decide)).trans <| (W10_keep m ρ c main_arg38 (by decide)).trans <| (W9_of_ne m ρ c main_arg38 (by decide)).trans <| (W8_keep m ρ c main_arg38 (by decide)).trans <| (W7_of_ne m ρ c main_arg38 (by decide)).trans <| (W6_of_ne m ρ c main_arg38 (by decide)).trans <| (W5_keep m ρ c main_arg38 (by decide)).trans <| (W4_of_ne m ρ c main_arg38 (by decide)).trans <| (W3_keep m ρ c main_arg38 (by decide)).trans <| (W2_of_ne m ρ c main_arg38 (by decide)).trans <| (W1_keep m ρ c main_arg38 (by decide)).trans <| rfl
theorem W29_main_arg39 (c : Dev nD) : W29 m ρ c (Proc.devRef .tc main_arg39) = m ((c : Thread nD τ).loc main_arg39) :=
  (W29_keep m ρ c main_arg39 (by decide)).trans <| (W28_of_ne m ρ c main_arg39 (by decide)).trans <| (W27_keep m ρ c main_arg39 (by decide)).trans <| (W26_of_ne m ρ c main_arg39 (by decide)).trans <| (W25_keep m ρ c main_arg39 (by decide)).trans <| (W24_of_ne m ρ c main_arg39 (by decide)).trans <| (W23_of_ne m ρ c main_arg39 (by decide)).trans <| (W22_keep m ρ c main_arg39 (by decide)).trans <| (W21_of_ne m ρ c main_arg39 (by decide)).trans <| (W20_keep m ρ c main_arg39 (by decide)).trans <| (W19_of_ne m ρ c main_arg39 (by decide)).trans <| (W18_keep m ρ c main_arg39 (by decide)).trans <| (W17_of_ne m ρ c main_arg39 (by decide)).trans <| (W16_keep m ρ c main_arg39 (by decide)).trans <| (W15_of_ne m ρ c main_arg39 (by decide)).trans <| (W14_keep m ρ c main_arg39 (by decide)).trans <| (W13_of_ne m ρ c main_arg39 (by decide)).trans <| (W12_keep m ρ c main_arg39 (by decide)).trans <| (W11_of_ne m ρ c main_arg39 (by decide)).trans <| (W10_keep m ρ c main_arg39 (by decide)).trans <| (W9_of_ne m ρ c main_arg39 (by decide)).trans <| (W8_keep m ρ c main_arg39 (by decide)).trans <| (W7_of_ne m ρ c main_arg39 (by decide)).trans <| (W6_of_ne m ρ c main_arg39 (by decide)).trans <| (W5_keep m ρ c main_arg39 (by decide)).trans <| (W4_of_ne m ρ c main_arg39 (by decide)).trans <| (W3_keep m ρ c main_arg39 (by decide)).trans <| (W2_of_ne m ρ c main_arg39 (by decide)).trans <| (W1_keep m ρ c main_arg39 (by decide)).trans <| rfl
theorem W29_main_arg40 (c : Dev nD) : W29 m ρ c (Proc.devRef .tc main_arg40) = m ((c : Thread nD τ).loc main_arg40) :=
  (W29_keep m ρ c main_arg40 (by decide)).trans <| (W28_of_ne m ρ c main_arg40 (by decide)).trans <| (W27_keep m ρ c main_arg40 (by decide)).trans <| (W26_of_ne m ρ c main_arg40 (by decide)).trans <| (W25_keep m ρ c main_arg40 (by decide)).trans <| (W24_of_ne m ρ c main_arg40 (by decide)).trans <| (W23_of_ne m ρ c main_arg40 (by decide)).trans <| (W22_keep m ρ c main_arg40 (by decide)).trans <| (W21_of_ne m ρ c main_arg40 (by decide)).trans <| (W20_keep m ρ c main_arg40 (by decide)).trans <| (W19_of_ne m ρ c main_arg40 (by decide)).trans <| (W18_keep m ρ c main_arg40 (by decide)).trans <| (W17_of_ne m ρ c main_arg40 (by decide)).trans <| (W16_keep m ρ c main_arg40 (by decide)).trans <| (W15_of_ne m ρ c main_arg40 (by decide)).trans <| (W14_keep m ρ c main_arg40 (by decide)).trans <| (W13_of_ne m ρ c main_arg40 (by decide)).trans <| (W12_keep m ρ c main_arg40 (by decide)).trans <| (W11_of_ne m ρ c main_arg40 (by decide)).trans <| (W10_keep m ρ c main_arg40 (by decide)).trans <| (W9_of_ne m ρ c main_arg40 (by decide)).trans <| (W8_keep m ρ c main_arg40 (by decide)).trans <| (W7_of_ne m ρ c main_arg40 (by decide)).trans <| (W6_of_ne m ρ c main_arg40 (by decide)).trans <| (W5_keep m ρ c main_arg40 (by decide)).trans <| (W4_of_ne m ρ c main_arg40 (by decide)).trans <| (W3_keep m ρ c main_arg40 (by decide)).trans <| (W2_of_ne m ρ c main_arg40 (by decide)).trans <| (W1_keep m ρ c main_arg40 (by decide)).trans <| rfl
theorem W29_main_arg41 (c : Dev nD) : W29 m ρ c (Proc.devRef .tc main_arg41) = m ((c : Thread nD τ).loc main_arg41) :=
  (W29_keep m ρ c main_arg41 (by decide)).trans <| (W28_of_ne m ρ c main_arg41 (by decide)).trans <| (W27_keep m ρ c main_arg41 (by decide)).trans <| (W26_of_ne m ρ c main_arg41 (by decide)).trans <| (W25_keep m ρ c main_arg41 (by decide)).trans <| (W24_of_ne m ρ c main_arg41 (by decide)).trans <| (W23_of_ne m ρ c main_arg41 (by decide)).trans <| (W22_keep m ρ c main_arg41 (by decide)).trans <| (W21_of_ne m ρ c main_arg41 (by decide)).trans <| (W20_keep m ρ c main_arg41 (by decide)).trans <| (W19_of_ne m ρ c main_arg41 (by decide)).trans <| (W18_keep m ρ c main_arg41 (by decide)).trans <| (W17_of_ne m ρ c main_arg41 (by decide)).trans <| (W16_keep m ρ c main_arg41 (by decide)).trans <| (W15_of_ne m ρ c main_arg41 (by decide)).trans <| (W14_keep m ρ c main_arg41 (by decide)).trans <| (W13_of_ne m ρ c main_arg41 (by decide)).trans <| (W12_keep m ρ c main_arg41 (by decide)).trans <| (W11_of_ne m ρ c main_arg41 (by decide)).trans <| (W10_keep m ρ c main_arg41 (by decide)).trans <| (W9_of_ne m ρ c main_arg41 (by decide)).trans <| (W8_keep m ρ c main_arg41 (by decide)).trans <| (W7_of_ne m ρ c main_arg41 (by decide)).trans <| (W6_of_ne m ρ c main_arg41 (by decide)).trans <| (W5_keep m ρ c main_arg41 (by decide)).trans <| (W4_of_ne m ρ c main_arg41 (by decide)).trans <| (W3_keep m ρ c main_arg41 (by decide)).trans <| (W2_of_ne m ρ c main_arg41 (by decide)).trans <| (W1_keep m ρ c main_arg41 (by decide)).trans <| rfl

end Cert.KernelIdeal.Fr

end
-- ==== Proof.KI.Regs.lean ====
/- Every pipeline's proof data at its region's entry contents, and each kernel region as a segment of @main over the thread
   state "every unscoped buffer at the boundary's contents, the generator register at some state, nothing owed": the
   region's arrays are split out of the unscoped buffers at entry and put back at what the grid leaves at exit. -/
import proofs.«173191_j73083163508880_2_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The prefetched tables' admissible contents: no pipeline has a table. -/
abbrev admF : (p : Fin 15) → (pcfgs (F := F) p).Adm := fun p => (cfgs p).toPCfg_adm
/-- Every pipeline's proof data, each at its region's entry contents. -/
def pdatsF : (p : Fin 15) → (c : Dev nD) → Dat τ (Elt F) Unit ℕ (UR sig nD τ) ℕ (Pipeline.pin (pcfgs (F := F)) admF p) c
  | ⟨0, _⟩ => fun c => dat0 (B1 m ρ) c
  | ⟨1, _⟩ => fun c => dat1 (B3 m ρ) c
  | ⟨2, _⟩ => fun c => dat2 (B5 m ρ) c
  | ⟨3, _⟩ => fun c => dat3 (B6 m ρ) c
  | ⟨4, _⟩ => fun c => dat4 (B8 m ρ) c
  | ⟨5, _⟩ => fun c => dat5 (B10 m ρ) c
  | ⟨6, _⟩ => fun c => dat6 (B12 m ρ) c
  | ⟨7, _⟩ => fun c => dat7 (B14 m ρ) c
  | ⟨8, _⟩ => fun c => dat8 (B16 m ρ) c
  | ⟨9, _⟩ => fun c => dat9 (B18 m ρ) c
  | ⟨10, _⟩ => fun c => dat10 (B20 m ρ) c
  | ⟨11, _⟩ => fun c => dat11 (B22 m ρ) c
  | ⟨12, _⟩ => fun c => dat12 (B23 m ρ) c
  | ⟨13, _⟩ => fun c => dat13 (B25 m ρ) c
  | ⟨14, _⟩ => fun c => dat14 (B27 m ρ) c
abbrev 𝒱F : Variants := Variants.none
/-- No core owes another anything: no level is assigned. -/
abbrev LF : GSem nD τ sig → Finset Unit := fun _ => ∅
abbrev lvF : GSem nD τ sig → Unit → ℕ := fun _ _ => 0
/-- What rides beside the buffers through every segment: the core's generator register at some state and its dues, none. -/
abbrev Rst (c : Dev nD) : sProp 𝕄 := iprop((∃ r, prngReg c r) ∗ ∃ W, owes (c : Thread nD τ) (0 : CellTallies nD τ sig Unit) W)

set_option backward.isDefEq.respectTransparency.types false in
/-- Region 0 over the thread state: entered from every unscoped buffer at `W1`, left at `W2`. -/
def reg0 : Pipeline.RegionSeg (pcfgs (F := F)) admF (pdatsF m ρ) () defs₀ 𝒱F LF lvF 0 where
  win := launch0.win.to₀
  block_pos := launch0.block_pos
  stage_whole := launch0.stage_whole
  K := PEmpty
  osem k := k.elim
  ho := Pipeline.OwnSemFacts.none _
  hbody c := (body_obligation0 (B1 m ρ) c).loose
  hwaits := Pipeline.hwaits_of_owed_zero _ _ _ _ LF lvF 0 fun _ _ => rfl
  pre c := iprop(StableHlo.held (c : Thread nD τ) (Pipeline.ucRefs τ sig) (W1 m ρ c) ∗ Rst c)
  post c := iprop(StableHlo.held (c : Thread nD τ) (Pipeline.ucRefs τ sig) (W2 m ρ c) ∗ Rst c)
  X c := iprop(∃ r, prngReg c r)
  Y c := iprop(∃ r, prngReg c r)
  Z c := Pipeline.unscopedRest (Ix := Unit) (Name := ℕ) (U := UR sig nD τ) (Lvl := ℕ) spec0 c (B1 m ρ c)
  hentry c := by
    rw [Pipeline.ownSems0_none]
    have hsplit := Pipeline.arrays_of_unscopedBufs (p := 0) (pcfgs (F := F)) admF (pdatsF m ρ) launch0.win launch0.arr_whole c
      ((pdatsF m ρ 0 c).share_full fun _ => rfl) (B1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsF m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admF (Ix := Unit) (Name := ℕ) (U := UR sig nD τ) (Lvl := ℕ)
      launch0.win launch0.arr_whole c (pdatsF m ρ) ((pdatsF m ρ 0 c).share_full fun _ => rfl)
      (B1 m ρ c) (B2 m ρ c) ((pdatsF m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. -/
def reg1 : Pipeline.RegionSeg (pcfgs (F := F)) admF (pdatsF m ρ) () defs₀ 𝒱F LF lvF 1 where
  win := launch1.win.to₀
  block_pos := launch1.block_pos
  stage_whole := launch1.stage_whole
  K := PEmpty
  osem k := k.elim
  ho := Pipeline.OwnSemFacts.none _
  hbody c := (body_obligation1 (B3 m ρ) c).loose
  hwaits := Pipeline.hwaits_of_owed_zero _ _ _ _ LF lvF 1 fun _ _ => rfl
  pre c := iprop(StableHlo.held (c : Thread nD τ) (Pipeline.ucRefs τ sig) (W3 m ρ c) ∗ Rst c)
  post c := iprop(StableHlo.held (c : Thread nD τ) (Pipeline.ucRefs τ sig) (W4 m ρ c) ∗ Rst c)
  X c := iprop(∃ r, prngReg c r)
  Y c := iprop(∃ r, prngReg c r)
  Z c := Pipeline.unscopedRest (Ix := Unit) (Name := ℕ) (U := UR sig nD τ) (Lvl := ℕ) spec1 c (B3 m ρ c)
  hentry c := by
    rw [Pipeline.ownSems0_none]
    have hsplit := Pipeline.arrays_of_unscopedBufs (p := 1) (pcfgs (F := F)) admF (pdatsF m ρ) launch1.win launch1.arr_whole c
      ((pdatsF m ρ 1 c).share_full fun _ => rfl) (B3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsF m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admF (Ix := Unit) (Name := ℕ) (U := UR sig nD τ) (Lvl := ℕ)
      launch1.win launch1.arr_whole c (pdatsF m ρ) ((pdatsF m ρ 1 c).share_full fun _ => rfl)
      (B3 m ρ c) (B4 m ρ c) ((pdatsF m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. -/
def reg2 : Pipeline.RegionSeg (pcfgs (F := F)) admF (pdatsF m ρ) () defs₀ 𝒱F LF lvF 2 where
  win := launch2.win.to₀
  block_pos := launch2.block_pos
  stage_whole := launch2.stage_whole
  K := PEmpty
  osem k := k.elim
  ho := Pipeline.OwnSemFacts.none _
  hbody c := (body_obligation2 (B5 m ρ) c).loose
  hwaits := Pipeline.hwaits_of_owed_zero _ _ _ _ LF lvF 2 fun _ _ => rfl
  pre c := iprop(StableHlo.held (c : Thread nD τ) (Pipeline.ucRefs τ sig) (W5 m ρ c) ∗ Rst c)
  post c := iprop(StableHlo.held (c : Thread nD τ) (Pipeline.ucRefs τ sig) (W6 m ρ c) ∗ Rst c)
  X c := iprop(∃ r, prngReg c r)
  Y c := iprop(∃ r, prngReg c r)
  Z c := Pipeline.unscopedRest (Ix := Unit) (Name := ℕ) (U := UR sig nD τ) (Lvl := ℕ) spec2 c (B5 m ρ c)
  hentry c := by
    rw [Pipeline.ownSems0_none]
    have hsplit := Pipeline.arrays_of_unscopedBufs (p := 2) (pcfgs (F := F)) admF (pdatsF m ρ) launch2.win launch2.arr_whole c
      ((pdatsF m ρ 2 c).share_full fun _ => rfl) (B5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsF m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admF (Ix := Unit) (Name := ℕ) (U := UR sig nD τ) (Lvl := ℕ)
      launch2.win launch2.arr_whole c (pdatsF m ρ) ((pdatsF m ρ 2 c).share_full fun _ => rfl)
      (B5 m ρ c) (B6 m ρ c) ((pdatsF m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W6`, left at `W7`. -/
def reg3 : Pipeline.RegionSeg (pcfgs (F := F)) admF (pdatsF m ρ) () defs₀ 𝒱F LF lvF 3 where
  win := launch3.win.to₀
  block_pos := launch3.block_pos
  stage_whole := launch3.stage_whole
  K := PEmpty
  osem k := k.elim
  ho := Pipeline.OwnSemFacts.none _
  hbody c := (body_obligation3 (B6 m ρ) c).loose
  hwaits := Pipeline.hwaits_of_owed_zero _ _ _ _ LF lvF 3 fun _ _ => rfl
  pre c := iprop(StableHlo.held (c : Thread nD τ) (Pipeline.ucRefs τ sig) (W6 m ρ c) ∗ Rst c)
  post c := iprop(StableHlo.held (c : Thread nD τ) (Pipeline.ucRefs τ sig) (W7 m ρ c) ∗ Rst c)
  X c := iprop(∃ r, prngReg c r)
  Y c := iprop(∃ r, prngReg c r)
  Z c := Pipeline.unscopedRest (Ix := Unit) (Name := ℕ) (U := UR sig nD τ) (Lvl := ℕ) spec3 c (B6 m ρ c)
  hentry c := by
    rw [Pipeline.ownSems0_none]
    have hsplit := Pipeline.arrays_of_unscopedBufs (p := 3) (pcfgs (F := F)) admF (pdatsF m ρ) launch3.win launch3.arr_whole c
      ((pdatsF m ρ 3 c).share_full fun _ => rfl) (B6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdatsF m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admF (Ix := Unit) (Name := ℕ) (U := UR sig nD τ) (Lvl := ℕ)
      launch3.win launch3.arr_whole c (pdatsF m ρ) ((pdatsF m ρ 3 c).share_full fun _ => rfl)
      (B6 m ρ c) (B7 m ρ c) ((pdatsF m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W8`, left at `W9`. -/
def reg4 : Pipeline.RegionSeg (pcfgs (F := F)) admF (pdatsF m ρ) () defs₀ 𝒱F LF lvF 4 where
  win := launch4.win.to₀
  block_pos := launch4.block_pos
  stage_whole := launch4.stage_whole
  K := PEmpty
  osem k := k.elim
  ho := Pipeline.OwnSemFacts.none _
  hbody c := (body_obligation4 (B8 m ρ) c).loose
  hwaits := Pipeline.hwaits_of_owed_zero _ _ _ _ LF lvF 4 fun _ _ => rfl
  pre c := iprop(StableHlo.held (c : Thread nD τ) (Pipeline.ucRefs τ sig) (W8 m ρ c) ∗ Rst c)
  post c := iprop(StableHlo.held (c : Thread nD τ) (Pipeline.ucRefs τ sig) (W9 m ρ c) ∗ Rst c)
  X c := iprop(∃ r, prngReg c r)
  Y c := iprop(∃ r, prngReg c r)
  Z c := Pipeline.unscopedRest (Ix := Unit) (Name := ℕ) (U := UR sig nD τ) (Lvl := ℕ) spec4 c (B8 m ρ c)
  hentry c := by
    rw [Pipeline.ownSems0_none]
    have hsplit := Pipeline.arrays_of_unscopedBufs (p := 4) (pcfgs (F := F)) admF (pdatsF m ρ) launch4.win launch4.arr_whole c
      ((pdatsF m ρ 4 c).share_full fun _ => rfl) (B8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m ρ 4 c).Φ 0 = (dat4 (B8 m ρ) c).Φ 0 from rfl]
    refine .trans ?_ (Φ4_in (B8 m ρ) c)
    unfold Pipeline.ΦA
    iintro ⟨Hp, -, Hr⟩
    isplitl [Hr]; · iexact Hr
    iexact Hp
  hout c := by
    rw [Pipeline.ownSems0_none, show (pdatsF m ρ 4 c).Φ (Fin.last _) = (dat4 (B8 m ρ) c).Φ (Fin.last _) from rfl]
    refine (Φ4_out (B8 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) admF (Ix := Unit) (Name := ℕ) (U := UR sig nD τ) (Lvl := ℕ)
      launch4.win launch4.arr_whole c (pdatsF m ρ) ((pdatsF m ρ 4 c).share_full fun _ => rfl)
      (B8 m ρ c) (B9 m ρ c) ((pdatsF m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `W10`, left at `W11`. -/
def reg5 : Pipeline.RegionSeg (pcfgs (F := F)) admF (pdatsF m ρ) () defs₀ 𝒱F LF lvF 5 where
  win := launch5.win.to₀
  block_pos := launch5.block_pos
  stage_whole := launch5.stage_whole
  K := PEmpty
  osem k := k.elim
  ho := Pipeline.OwnSemFacts.none _
  hbody c := (body_obligation5 (B10 m ρ) c).loose
  hwaits := Pipeline.hwaits_of_owed_zero _ _ _ _ LF lvF 5 fun _ _ => rfl
  pre c := iprop(StableHlo.held (c : Thread nD τ) (Pipeline.ucRefs τ sig) (W10 m ρ c) ∗ Rst c)
  post c := iprop(StableHlo.held (c : Thread nD τ) (Pipeline.ucRefs τ sig) (W11 m ρ c) ∗ Rst c)
  X c := iprop(∃ r, prngReg c r)
  Y c := iprop(∃ r, prngReg c r)
  Z c := Pipeline.unscopedRest (Ix := Unit) (Name := ℕ) (U := UR sig nD τ) (Lvl := ℕ) spec5 c (B10 m ρ c)
  hentry c := by
    rw [Pipeline.ownSems0_none]
    have hsplit := Pipeline.arrays_of_unscopedBufs (p := 5) (pcfgs (F := F)) admF (pdatsF m ρ) launch5.win launch5.arr_whole c
      ((pdatsF m ρ 5 c).share_full fun _ => rfl) (B10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdatsF m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) admF (Ix := Unit) (Name := ℕ) (U := UR sig nD τ) (Lvl := ℕ)
      launch5.win launch5.arr_whole c (pdatsF m ρ) ((pdatsF m ρ 5 c).share_full fun _ => rfl)
      (B10 m ρ c) (B11 m ρ c) ((pdatsF m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at `W12`, left at `W13`. -/
def reg6 : Pipeline.RegionSeg (pcfgs (F := F)) admF (pdatsF m ρ) () defs₀ 𝒱F LF lvF 6 where
  win := launch6.win.to₀
  block_pos := launch6.block_pos
  stage_whole := launch6.stage_whole
  K := PEmpty
  osem k := k.elim
  ho := Pipeline.OwnSemFacts.none _
  hbody c := (body_obligation6 (B12 m ρ) c).loose
  hwaits := Pipeline.hwaits_of_owed_zero _ _ _ _ LF lvF 6 fun _ _ => rfl
  pre c := iprop(StableHlo.held (c : Thread nD τ) (Pipeline.ucRefs τ sig) (W12 m ρ c) ∗ Rst c)
  post c := iprop(StableHlo.held (c : Thread nD τ) (Pipeline.ucRefs τ sig) (W13 m ρ c) ∗ Rst c)
  X c := iprop(∃ r, prngReg c r)
  Y c := iprop(∃ r, prngReg c r)
  Z c := Pipeline.unscopedRest (Ix := Unit) (Name := ℕ) (U := UR sig nD τ) (Lvl := ℕ) spec6 c (B12 m ρ c)
  hentry c := by
    rw [Pipeline.ownSems0_none]
    have hsplit := Pipeline.arrays_of_unscopedBufs (p := 6) (pcfgs (F := F)) admF (pdatsF m ρ) launch6.win launch6.arr_whole c
      ((pdatsF m ρ 6 c).share_full fun _ => rfl) (B12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdatsF m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) admF (Ix := Unit) (Name := ℕ) (U := UR sig nD τ) (Lvl := ℕ)
      launch6.win launch6.arr_whole c (pdatsF m ρ) ((pdatsF m ρ 6 c).share_full fun _ => rfl)
      (B12 m ρ c) (B13 m ρ c) ((pdatsF m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 over the thread state: entered from every unscoped buffer at `W14`, left at `W15`. -/
def reg7 : Pipeline.RegionSeg (pcfgs (F := F)) admF (pdatsF m ρ) () defs₀ 𝒱F LF lvF 7 where
  win := launch7.win.to₀
  block_pos := launch7.block_pos
  stage_whole := launch7.stage_whole
  K := PEmpty
  osem k := k.elim
  ho := Pipeline.OwnSemFacts.none _
  hbody c := (body_obligation7 (B14 m ρ) c).loose
  hwaits := Pipeline.hwaits_of_owed_zero _ _ _ _ LF lvF 7 fun _ _ => rfl
  pre c := iprop(StableHlo.held (c : Thread nD τ) (Pipeline.ucRefs τ sig) (W14 m ρ c) ∗ Rst c)
  post c := iprop(StableHlo.held (c : Thread nD τ) (Pipeline.ucRefs τ sig) (W15 m ρ c) ∗ Rst c)
  X c := iprop(∃ r, prngReg c r)
  Y c := iprop(∃ r, prngReg c r)
  Z c := Pipeline.unscopedRest (Ix := Unit) (Name := ℕ) (U := UR sig nD τ) (Lvl := ℕ) spec7 c (B14 m ρ c)
  hentry c := by
    rw [Pipeline.ownSems0_none]
    have hsplit := Pipeline.arrays_of_unscopedBufs (p := 7) (pcfgs (F := F)) admF (pdatsF m ρ) launch7.win launch7.arr_whole c
      ((pdatsF m ρ 7 c).share_full fun _ => rfl) (B14 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m ρ 7 c).Φ 0 = (dat7 (B14 m ρ) c).Φ 0 from rfl]
    refine .trans ?_ (Φ7_in (B14 m ρ) c)
    unfold Pipeline.ΦA
    iintro ⟨Hp, -, Hr⟩
    isplitl [Hr]; · iexact Hr
    iexact Hp
  hout c := by
    rw [Pipeline.ownSems0_none, show (pdatsF m ρ 7 c).Φ (Fin.last _) = (dat7 (B14 m ρ) c).Φ (Fin.last _) from rfl]
    refine (Φ7_out (B14 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) admF (Ix := Unit) (Name := ℕ) (U := UR sig nD τ) (Lvl := ℕ)
      launch7.win launch7.arr_whole c (pdatsF m ρ) ((pdatsF m ρ 7 c).share_full fun _ => rfl)
      (B14 m ρ c) (B15 m ρ c) ((pdatsF m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8 over the thread state: entered from every unscoped buffer at `W16`, left at `W17`. -/
def reg8 : Pipeline.RegionSeg (pcfgs (F := F)) admF (pdatsF m ρ) () defs₀ 𝒱F LF lvF 8 where
  win := launch8.win.to₀
  block_pos := launch8.block_pos
  stage_whole := launch8.stage_whole
  K := PEmpty
  osem k := k.elim
  ho := Pipeline.OwnSemFacts.none _
  hbody c := (body_obligation8 (B16 m ρ) c).loose
  hwaits := Pipeline.hwaits_of_owed_zero _ _ _ _ LF lvF 8 fun _ _ => rfl
  pre c := iprop(StableHlo.held (c : Thread nD τ) (Pipeline.ucRefs τ sig) (W16 m ρ c) ∗ Rst c)
  post c := iprop(StableHlo.held (c : Thread nD τ) (Pipeline.ucRefs τ sig) (W17 m ρ c) ∗ Rst c)
  X c := iprop(∃ r, prngReg c r)
  Y c := iprop(∃ r, prngReg c r)
  Z c := Pipeline.unscopedRest (Ix := Unit) (Name := ℕ) (U := UR sig nD τ) (Lvl := ℕ) spec8 c (B16 m ρ c)
  hentry c := by
    rw [Pipeline.ownSems0_none]
    have hsplit := Pipeline.arrays_of_unscopedBufs (p := 8) (pcfgs (F := F)) admF (pdatsF m ρ) launch8.win launch8.arr_whole c
      ((pdatsF m ρ 8 c).share_full fun _ => rfl) (B16 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdatsF m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) admF (Ix := Unit) (Name := ℕ) (U := UR sig nD τ) (Lvl := ℕ)
      launch8.win launch8.arr_whole c (pdatsF m ρ) ((pdatsF m ρ 8 c).share_full fun _ => rfl)
      (B16 m ρ c) (B17 m ρ c) ((pdatsF m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 9 over the thread state: entered from every unscoped buffer at `W18`, left at `W19`. -/
def reg9 : Pipeline.RegionSeg (pcfgs (F := F)) admF (pdatsF m ρ) () defs₀ 𝒱F LF lvF 9 where
  win := launch9.win.to₀
  block_pos := launch9.block_pos
  stage_whole := launch9.stage_whole
  K := PEmpty
  osem k := k.elim
  ho := Pipeline.OwnSemFacts.none _
  hbody c := (body_obligation9 (B18 m ρ) c).loose
  hwaits := Pipeline.hwaits_of_owed_zero _ _ _ _ LF lvF 9 fun _ _ => rfl
  pre c := iprop(StableHlo.held (c : Thread nD τ) (Pipeline.ucRefs τ sig) (W18 m ρ c) ∗ Rst c)
  post c := iprop(StableHlo.held (c : Thread nD τ) (Pipeline.ucRefs τ sig) (W19 m ρ c) ∗ Rst c)
  X c := iprop(∃ r, prngReg c r)
  Y c := iprop(∃ r, prngReg c r)
  Z c := Pipeline.unscopedRest (Ix := Unit) (Name := ℕ) (U := UR sig nD τ) (Lvl := ℕ) spec9 c (B18 m ρ c)
  hentry c := by
    rw [Pipeline.ownSems0_none]
    have hsplit := Pipeline.arrays_of_unscopedBufs (p := 9) (pcfgs (F := F)) admF (pdatsF m ρ) launch9.win launch9.arr_whole c
      ((pdatsF m ρ 9 c).share_full fun _ => rfl) (B18 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m ρ 9 c).Φ 0 = Pipeline.ΦA spec9 c from rfl]; unfold Pipeline.ΦA
    iintro ⟨Hp, -, Hr⟩
    isplitl [Hr]; · iexact Hr
    iexact Hp
  hout c := by
    rw [Pipeline.ownSems0_none, show (pdatsF m ρ 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) admF (Ix := Unit) (Name := ℕ) (U := UR sig nD τ) (Lvl := ℕ)
      launch9.win launch9.arr_whole c (pdatsF m ρ) ((pdatsF m ρ 9 c).share_full fun _ => rfl)
      (B18 m ρ c) (B19 m ρ c) ((pdatsF m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 10 over the thread state: entered from every unscoped buffer at `W20`, left at `W21`. -/
def reg10 : Pipeline.RegionSeg (pcfgs (F := F)) admF (pdatsF m ρ) () defs₀ 𝒱F LF lvF 10 where
  win := launch10.win.to₀
  block_pos := launch10.block_pos
  stage_whole := launch10.stage_whole
  K := PEmpty
  osem k := k.elim
  ho := Pipeline.OwnSemFacts.none _
  hbody c := (body_obligation10 (B20 m ρ) c).loose
  hwaits := Pipeline.hwaits_of_owed_zero _ _ _ _ LF lvF 10 fun _ _ => rfl
  pre c := iprop(StableHlo.held (c : Thread nD τ) (Pipeline.ucRefs τ sig) (W20 m ρ c) ∗ Rst c)
  post c := iprop(StableHlo.held (c : Thread nD τ) (Pipeline.ucRefs τ sig) (W21 m ρ c) ∗ Rst c)
  X c := iprop(∃ r, prngReg c r)
  Y c := iprop(∃ r, prngReg c r)
  Z c := Pipeline.unscopedRest (Ix := Unit) (Name := ℕ) (U := UR sig nD τ) (Lvl := ℕ) spec10 c (B20 m ρ c)
  hentry c := by
    rw [Pipeline.ownSems0_none]
    have hsplit := Pipeline.arrays_of_unscopedBufs (p := 10) (pcfgs (F := F)) admF (pdatsF m ρ) launch10.win launch10.arr_whole c
      ((pdatsF m ρ 10 c).share_full fun _ => rfl) (B20 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m ρ 10 c).Φ 0 = Pipeline.ΦA spec10 c from rfl]; unfold Pipeline.ΦA
    iintro ⟨Hp, -, Hr⟩
    isplitl [Hr]; · iexact Hr
    iexact Hp
  hout c := by
    rw [Pipeline.ownSems0_none, show (pdatsF m ρ 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) admF (Ix := Unit) (Name := ℕ) (U := UR sig nD τ) (Lvl := ℕ)
      launch10.win launch10.arr_whole c (pdatsF m ρ) ((pdatsF m ρ 10 c).share_full fun _ => rfl)
      (B20 m ρ c) (B21 m ρ c) ((pdatsF m ρ 10 c).arrAt · cfg10.N) (hF10 m ρ c) (hrest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 11 over the thread state: entered from every unscoped buffer at `W22`, left at `W23`. -/
def reg11 : Pipeline.RegionSeg (pcfgs (F := F)) admF (pdatsF m ρ) () defs₀ 𝒱F LF lvF 11 where
  win := launch11.win.to₀
  block_pos := launch11.block_pos
  stage_whole := launch11.stage_whole
  K := PEmpty
  osem k := k.elim
  ho := Pipeline.OwnSemFacts.none _
  hbody c := (body_obligation11 (B22 m ρ) c).loose
  hwaits := Pipeline.hwaits_of_owed_zero _ _ _ _ LF lvF 11 fun _ _ => rfl
  pre c := iprop(StableHlo.held (c : Thread nD τ) (Pipeline.ucRefs τ sig) (W22 m ρ c) ∗ Rst c)
  post c := iprop(StableHlo.held (c : Thread nD τ) (Pipeline.ucRefs τ sig) (W23 m ρ c) ∗ Rst c)
  X c := iprop(∃ r, prngReg c r)
  Y c := iprop(∃ r, prngReg c r)
  Z c := Pipeline.unscopedRest (Ix := Unit) (Name := ℕ) (U := UR sig nD τ) (Lvl := ℕ) spec11 c (B22 m ρ c)
  hentry c := by
    rw [Pipeline.ownSems0_none]
    have hsplit := Pipeline.arrays_of_unscopedBufs (p := 11) (pcfgs (F := F)) admF (pdatsF m ρ) launch11.win launch11.arr_whole c
      ((pdatsF m ρ 11 c).share_full fun _ => rfl) (B22 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m ρ 11 c).Φ 0 = Pipeline.ΦA spec11 c from rfl]; unfold Pipeline.ΦA
    iintro ⟨Hp, -, Hr⟩
    isplitl [Hr]; · iexact Hr
    iexact Hp
  hout c := by
    rw [Pipeline.ownSems0_none, show (pdatsF m ρ 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) admF (Ix := Unit) (Name := ℕ) (U := UR sig nD τ) (Lvl := ℕ)
      launch11.win launch11.arr_whole c (pdatsF m ρ) ((pdatsF m ρ 11 c).share_full fun _ => rfl)
      (B22 m ρ c) (B23 m ρ c) ((pdatsF m ρ 11 c).arrAt · cfg11.N) (hF11 m ρ c) (hrest11 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 12 over the thread state: entered from every unscoped buffer at `W23`, left at `W24`. -/
def reg12 : Pipeline.RegionSeg (pcfgs (F := F)) admF (pdatsF m ρ) () defs₀ 𝒱F LF lvF 12 where
  win := launch12.win.to₀
  block_pos := launch12.block_pos
  stage_whole := launch12.stage_whole
  K := PEmpty
  osem k := k.elim
  ho := Pipeline.OwnSemFacts.none _
  hbody c := (body_obligation12 (B23 m ρ) c).loose
  hwaits := Pipeline.hwaits_of_owed_zero _ _ _ _ LF lvF 12 fun _ _ => rfl
  pre c := iprop(StableHlo.held (c : Thread nD τ) (Pipeline.ucRefs τ sig) (W23 m ρ c) ∗ Rst c)
  post c := iprop(StableHlo.held (c : Thread nD τ) (Pipeline.ucRefs τ sig) (W24 m ρ c) ∗ Rst c)
  X c := iprop(∃ r, prngReg c r)
  Y c := iprop(∃ r, prngReg c r)
  Z c := Pipeline.unscopedRest (Ix := Unit) (Name := ℕ) (U := UR sig nD τ) (Lvl := ℕ) spec12 c (B23 m ρ c)
  hentry c := by
    rw [Pipeline.ownSems0_none]
    have hsplit := Pipeline.arrays_of_unscopedBufs (p := 12) (pcfgs (F := F)) admF (pdatsF m ρ) launch12.win launch12.arr_whole c
      ((pdatsF m ρ 12 c).share_full fun _ => rfl) (B23 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m ρ 12 c).Φ 0 = Pipeline.ΦA spec12 c from rfl]; unfold Pipeline.ΦA
    iintro ⟨Hp, -, Hr⟩
    isplitl [Hr]; · iexact Hr
    iexact Hp
  hout c := by
    rw [Pipeline.ownSems0_none, show (pdatsF m ρ 12 c).Φ (Fin.last _) = Pipeline.ΦA spec12 c from rfl]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) admF (Ix := Unit) (Name := ℕ) (U := UR sig nD τ) (Lvl := ℕ)
      launch12.win launch12.arr_whole c (pdatsF m ρ) ((pdatsF m ρ 12 c).share_full fun _ => rfl)
      (B23 m ρ c) (B24 m ρ c) ((pdatsF m ρ 12 c).arrAt · cfg12.N) (hF12 m ρ c) (hrest12 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 13 over the thread state: entered from every unscoped buffer at `W25`, left at `W26`. -/
def reg13 : Pipeline.RegionSeg (pcfgs (F := F)) admF (pdatsF m ρ) () defs₀ 𝒱F LF lvF 13 where
  win := launch13.win.to₀
  block_pos := launch13.block_pos
  stage_whole := launch13.stage_whole
  K := PEmpty
  osem k := k.elim
  ho := Pipeline.OwnSemFacts.none _
  hbody c := (body_obligation13 (B25 m ρ) c).loose
  hwaits := Pipeline.hwaits_of_owed_zero _ _ _ _ LF lvF 13 fun _ _ => rfl
  pre c := iprop(StableHlo.held (c : Thread nD τ) (Pipeline.ucRefs τ sig) (W25 m ρ c) ∗ Rst c)
  post c := iprop(StableHlo.held (c : Thread nD τ) (Pipeline.ucRefs τ sig) (W26 m ρ c) ∗ Rst c)
  X c := iprop(∃ r, prngReg c r)
  Y c := iprop(∃ r, prngReg c r)
  Z c := Pipeline.unscopedRest (Ix := Unit) (Name := ℕ) (U := UR sig nD τ) (Lvl := ℕ) spec13 c (B25 m ρ c)
  hentry c := by
    rw [Pipeline.ownSems0_none]
    have hsplit := Pipeline.arrays_of_unscopedBufs (p := 13) (pcfgs (F := F)) admF (pdatsF m ρ) launch13.win launch13.arr_whole c
      ((pdatsF m ρ 13 c).share_full fun _ => rfl) (B25 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m ρ 13 c).Φ 0 = (dat13 (B25 m ρ) c).Φ 0 from rfl]
    refine .trans ?_ (Φ13_in (B25 m ρ) c)
    unfold Pipeline.ΦA
    iintro ⟨Hp, -, Hr⟩
    isplitl [Hr]; · iexact Hr
    iexact Hp
  hout c := by
    rw [Pipeline.ownSems0_none, show (pdatsF m ρ 13 c).Φ (Fin.last _) = (dat13 (B25 m ρ) c).Φ (Fin.last _) from rfl]
    refine (Φ13_out (B25 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 13) (pcfgs (F := F)) admF (Ix := Unit) (Name := ℕ) (U := UR sig nD τ) (Lvl := ℕ)
      launch13.win launch13.arr_whole c (pdatsF m ρ) ((pdatsF m ρ 13 c).share_full fun _ => rfl)
      (B25 m ρ c) (B26 m ρ c) ((pdatsF m ρ 13 c).arrAt · cfg13.N) (hF13 m ρ c) (hrest13 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 14 over the thread state: entered from every unscoped buffer at `W27`, left at `W28`. -/
def reg14 : Pipeline.RegionSeg (pcfgs (F := F)) admF (pdatsF m ρ) () defs₀ 𝒱F LF lvF 14 where
  win := launch14.win.to₀
  block_pos := launch14.block_pos
  stage_whole := launch14.stage_whole
  K := PEmpty
  osem k := k.elim
  ho := Pipeline.OwnSemFacts.none _
  hbody c := (body_obligation14 (B27 m ρ) c).loose
  hwaits := Pipeline.hwaits_of_owed_zero _ _ _ _ LF lvF 14 fun _ _ => rfl
  pre c := iprop(StableHlo.held (c : Thread nD τ) (Pipeline.ucRefs τ sig) (W27 m ρ c) ∗ Rst c)
  post c := iprop(StableHlo.held (c : Thread nD τ) (Pipeline.ucRefs τ sig) (W28 m ρ c) ∗ Rst c)
  X c := iprop(∃ r, prngReg c r)
  Y c := iprop(∃ r, prngReg c r)
  Z c := Pipeline.unscopedRest (Ix := Unit) (Name := ℕ) (U := UR sig nD τ) (Lvl := ℕ) spec14 c (B27 m ρ c)
  hentry c := by
    rw [Pipeline.ownSems0_none]
    have hsplit := Pipeline.arrays_of_unscopedBufs (p := 14) (pcfgs (F := F)) admF (pdatsF m ρ) launch14.win launch14.arr_whole c
      ((pdatsF m ρ 14 c).share_full fun _ => rfl) (B27 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m ρ 14 c).Φ 0 = Pipeline.ΦA spec14 c from rfl]; unfold Pipeline.ΦA
    iintro ⟨Hp, -, Hr⟩
    isplitl [Hr]; · iexact Hr
    iexact Hp
  hout c := by
    rw [Pipeline.ownSems0_none, show (pdatsF m ρ 14 c).Φ (Fin.last _) = Pipeline.ΦA spec14 c from rfl]; unfold Pipeline.ΦA
    iintro ⟨Hr, Hp⟩
    isplitl [Hp]; · iexact Hp
    isplitr; · iempintro
    iexact Hr
  hexit c := by
    have hjoin := Pipeline.unscopedBufs_of_arrays (p := 14) (pcfgs (F := F)) admF (Ix := Unit) (Name := ℕ) (U := UR sig nD τ) (Lvl := ℕ)
      launch14.win launch14.arr_whole c (pdatsF m ρ) ((pdatsF m ρ 14 c).share_full fun _ => rfl)
      (B27 m ρ c) (B28 m ρ c) ((pdatsF m ρ 14 c).arrAt · cfg14.N) (hF14 m ρ c) (hrest14 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Run.lean ====
/- The run of @main: its 29 items in order — a segment per stretch of host operations and per kernel region — from the
   launch memory to the return. Every weakly fair execution terminates, nothing faulting, and in every final state each
   unscoped TensorCore buffer holds the last boundary's contents; in particular every argument array is as launched. -/
import proofs.«173191_j73083163508880_2_alg».proof.Proof.KI.Regs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱F LF lvF :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register
    at some state. -/
abbrev Tlast (c : Dev nD) : sProp 𝕄 := iprop(StableHlo.held (c : Thread nD τ) (Pipeline.ucRefs τ sig) (W29 m ρ c) ∗ ∃ r, prngReg c r)

/-- @main's 29 segments in order. -/
abbrev segsF : List (Pipeline.Seg (pcfgs (F := F)) admF (pdatsF m ρ) () defs₀ 𝒱F LF lvF) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .region (reg3 m ρ),
    .host (hseg hostOps4 hostOps4_sub hostOps4_fresh (W7 m ρ)),
    .region (reg4 m ρ),
    .host (hseg hostOps5 hostOps5_sub hostOps5_fresh (W9 m ρ)),
    .region (reg5 m ρ),
    .host (hseg hostOps6 hostOps6_sub hostOps6_fresh (W11 m ρ)),
    .region (reg6 m ρ),
    .host (hseg hostOps7 hostOps7_sub hostOps7_fresh (W13 m ρ)),
    .region (reg7 m ρ),
    .host (hseg hostOps8 hostOps8_sub hostOps8_fresh (W15 m ρ)),
    .region (reg8 m ρ),
    .host (hseg hostOps9 hostOps9_sub hostOps9_fresh (W17 m ρ)),
    .region (reg9 m ρ),
    .host (hseg hostOps10 hostOps10_sub hostOps10_fresh (W19 m ρ)),
    .region (reg10 m ρ),
    .host (hseg hostOps11 hostOps11_sub hostOps11_fresh (W21 m ρ)),
    .region (reg11 m ρ),
    .region (reg12 m ρ),
    .host (hseg hostOps13 hostOps13_sub hostOps13_fresh (W24 m ρ)),
    .region (reg13 m ρ),
    .host (hseg hostOps14 hostOps14_sub hostOps14_fresh (W26 m ρ)),
    .region (reg14 m ρ),
    .host (hseg hostOps15 hostOps15_sub hostOps15_fresh (W28 m ρ)) ]

set_option backward.isDefEq.respectTransparency.types false in
/-- Every weakly fair execution of @main from memory `m` with zero counters terminates, nothing faulting, and every final
    memory holds each unscoped TensorCore buffer at the last boundary's contents `W29`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W29 m ρ c b) :=
  Pipeline.θ_run_regions_kit (pcfgs (F := F)) admF (pdatsF m ρ) () cellOf_inj emb₁ defs₀ 𝒱F LF lvF m ρ main (segsF m ρ)
    (fun c Q => by
      rewrite [main_chain c, Pipeline.Seg.run_eq_chain,
        show (segsF m ρ).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          Prog.lift (.customCall (Pipeline.entry 10) ()),
          StableHlo.seq hostOps11,
          Prog.lift (.customCall (Pipeline.entry 11) ()),
          Prog.lift (.customCall (Pipeline.entry 12) ()),
          StableHlo.seq hostOps13,
          Prog.lift (.customCall (Pipeline.entry 13) ()),
          StableHlo.seq hostOps14,
          Prog.lift (.customCall (Pipeline.entry 14) ()),
          StableHlo.seq hostOps15 ] from rfl]
      exact .rfl)
    (by simp only [segsF, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rst c)) (Tₙ := Tlast m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W29 m ρ c) ∗ Rst c) ⊢ _
      iintro ⟨Hh, Hp, HO⟩
      isplitl [Hh Hp]
      · isplitl [Hh]; · iexact Hh
        iexact Hp
      iexact HO⟩)
    (hinit := by
      refine Pipeline.initEach LF lvF fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W29 m ρ c b)
    (hfin := fun c s' => by
      iintro ⟨⟨Hh, -⟩, HSI⟩
      unfold StableHlo.held
      imodintro
      iapply (pointsTo_read_all (Pipeline.ucRefs τ sig) (fun b => (((c : Thread nD τ)).1, b)) (W29 m ρ c) s')
      isplitl [Hh] <;> iassumption)
    (hQ := fun s h => h)

/-- THE FRAME, at any float instance: every weakly fair execution of @main terminates, nothing faulting, and every final
    state has the 42 argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39)
      ∧ r.2.mem ((c.tc : Thread nD τ).loc main_arg40) = m ((c.tc : Thread nD τ).loc main_arg40)
      ∧ r.2.mem ((c.tc : Thread nD τ).loc main_arg41) = m ((c.tc : Thread nD τ).loc main_arg41)) :=
  (θ_run defs _ _).mono (fun r h c =>
    ⟨(h c _ (mem_uc main_arg0 (by decide))).trans (W29_main_arg0 m ρ c),
     (h c _ (mem_uc main_arg1 (by decide))).trans (W29_main_arg1 m ρ c),
     (h c _ (mem_uc main_arg2 (by decide))).trans (W29_main_arg2 m ρ c),
     (h c _ (mem_uc main_arg3 (by decide))).trans (W29_main_arg3 m ρ c),
     (h c _ (mem_uc main_arg4 (by decide))).trans (W29_main_arg4 m ρ c),
     (h c _ (mem_uc main_arg5 (by decide))).trans (W29_main_arg5 m ρ c),
     (h c _ (mem_uc main_arg6 (by decide))).trans (W29_main_arg6 m ρ c),
     (h c _ (mem_uc main_arg7 (by decide))).trans (W29_main_arg7 m ρ c),
     (h c _ (mem_uc main_arg8 (by decide))).trans (W29_main_arg8 m ρ c),
     (h c _ (mem_uc main_arg9 (by decide))).trans (W29_main_arg9 m ρ c),
     (h c _ (mem_uc main_arg10 (by decide))).trans (W29_main_arg10 m ρ c),
     (h c _ (mem_uc main_arg11 (by decide))).trans (W29_main_arg11 m ρ c),
     (h c _ (mem_uc main_arg12 (by decide))).trans (W29_main_arg12 m ρ c),
     (h c _ (mem_uc main_arg13 (by decide))).trans (W29_main_arg13 m ρ c),
     (h c _ (mem_uc main_arg14 (by decide))).trans (W29_main_arg14 m ρ c),
     (h c _ (mem_uc main_arg15 (by decide))).trans (W29_main_arg15 m ρ c),
     (h c _ (mem_uc main_arg16 (by decide))).trans (W29_main_arg16 m ρ c),
     (h c _ (mem_uc main_arg17 (by decide))).trans (W29_main_arg17 m ρ c),
     (h c _ (mem_uc main_arg18 (by decide))).trans (W29_main_arg18 m ρ c),
     (h c _ (mem_uc main_arg19 (by decide))).trans (W29_main_arg19 m ρ c),
     (h c _ (mem_uc main_arg20 (by decide))).trans (W29_main_arg20 m ρ c),
     (h c _ (mem_uc main_arg21 (by decide))).trans (W29_main_arg21 m ρ c),
     (h c _ (mem_uc main_arg22 (by decide))).trans (W29_main_arg22 m ρ c),
     (h c _ (mem_uc main_arg23 (by decide))).trans (W29_main_arg23 m ρ c),
     (h c _ (mem_uc main_arg24 (by decide))).trans (W29_main_arg24 m ρ c),
     (h c _ (mem_uc main_arg25 (by decide))).trans (W29_main_arg25 m ρ c),
     (h c _ (mem_uc main_arg26 (by decide))).trans (W29_main_arg26 m ρ c),
     (h c _ (mem_uc main_arg27 (by decide))).trans (W29_main_arg27 m ρ c),
     (h c _ (mem_uc main_arg28 (by decide))).trans (W29_main_arg28 m ρ c),
     (h c _ (mem_uc main_arg29 (by decide))).trans (W29_main_arg29 m ρ c),
     (h c _ (mem_uc main_arg30 (by decide))).trans (W29_main_arg30 m ρ c),
     (h c _ (mem_uc main_arg31 (by decide))).trans (W29_main_arg31 m ρ c),
     (h c _ (mem_uc main_arg32 (by decide))).trans (W29_main_arg32 m ρ c),
     (h c _ (mem_uc main_arg33 (by decide))).trans (W29_main_arg33 m ρ c),
     (h c _ (mem_uc main_arg34 (by decide))).trans (W29_main_arg34 m ρ c),
     (h c _ (mem_uc main_arg35 (by decide))).trans (W29_main_arg35 m ρ c),
     (h c _ (mem_uc main_arg36 (by decide))).trans (W29_main_arg36 m ρ c),
     (h c _ (mem_uc main_arg37 (by decide))).trans (W29_main_arg37 m ρ c),
     (h c _ (mem_uc main_arg38 (by decide))).trans (W29_main_arg38 m ρ c),
     (h c _ (mem_uc main_arg39 (by decide))).trans (W29_main_arg39 m ρ c),
     (h c _ (mem_uc main_arg40 (by decide))).trans (W29_main_arg40 m ρ c),
     (h c _ (mem_uc main_arg41 (by decide))).trans (W29_main_arg41 m ρ c)⟩)
    (run_all m ρ)

end Cert.KernelIdeal.Fr

end
-- ==== Proof.RefOps.lean ====
/- The reference program's @main as the list of its 558 host operations, and the same list cut into the twelve
   layers of the network: three neighbour-mean layers (each with its rectifier), a normalised-adjacency layer with
   rectifier, a batch normalisation, the same pair again, three more neighbour-mean layers, and a last pair.
   `main_eq` ties the list to the printed program by computation; `after_ops` reads the contents after the whole
   list as the twelve layers applied one after another; each layer's list of written buffers gives the buffers it
   leaves unchanged. -/
import proofs.«173191_j73083163508880_2_alg».proof.Proof.Gen.ReferenceIdeal
import Idealize.ShloMosaic.Lib.StableHlo.Run

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 8000000 in
/-- @main's 558 operations, in order. -/
abbrev ops : List (HloOp τ sig (Elt F)) :=
  [ unary main_arg5 main_v0 ((extractStridedSlice S1x2000000 ![0, 0] · slices_S2x2000000_S1x2000000_0_0) : (⟨S2x2000000, .i32⟩ : BufTy).Contents (Elt F) → (⟨S1x2000000, .i32⟩ : BufTy).Contents (Elt F)),
    reshape main_v0 main_v1 rfl shapeCasts_S1x2000000_S2000000,
    unary main_arg5 main_v2 ((extractStridedSlice S1x2000000 ![1, 0] · slices_S2x2000000_S1x2000000_1_0) : (⟨S2x2000000, .i32⟩ : BufTy).Contents (Elt F) → (⟨S1x2000000, .i32⟩ : BufTy).Contents (Elt F)),
    reshape main_v2 main_v3 rfl shapeCasts_S1x2000000_S2000000,
    nullary main_c (constantI S_ 32 0#32),
    unary main_c main_v4 (broadcastInDim S2000000 ![] bcast_S_S2000000 : (⟨S_, .i32⟩ : BufTy).Contents (Elt F) → (⟨S2000000, .i32⟩ : BufTy).Contents (Elt F)),
    binary main_v1 main_v4 main_v5 (cmpi .slt : (⟨S2000000, .i32⟩ : BufTy).Contents (Elt F) → (⟨S2000000, .i32⟩ : BufTy).Contents (Elt F) → (⟨S2000000, .i1⟩ : BufTy).Contents (Elt F)),
    nullary main_c_0 (constantI S_ 32 100000#32),
    unary main_c_0 main_v6 (broadcastInDim S2000000 ![] bcast_S_S2000000 : (⟨S_, .i32⟩ : BufTy).Contents (Elt F) → (⟨S2000000, .i32⟩ : BufTy).Contents (Elt F)),
    binary main_v1 main_v6 main_v7 (addi : (⟨S2000000, .i32⟩ : BufTy).Contents (Elt F) → (⟨S2000000, .i32⟩ : BufTy).Contents (Elt F) → (⟨S2000000, .i32⟩ : BufTy).Contents (Elt F)),
    ternary main_v5 main_v7 main_v1 main_v8 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v8 main_v9 (broadcastInDim S2000000x1 ![0] bcast_S2000000_S2000000x1_0 : (⟨S2000000, .i32⟩ : BufTy).Contents (Elt F) → (⟨S2000000x1, .i32⟩ : BufTy).Contents (Elt F)),
    binary main_arg1 main_v9 main_v10 ((fun x i => Host.gather gather_S100000x64_S2000000x1_S2000000x64_1_0_n_n_0_1_164 x i) : (⟨S100000x64, .f32⟩ : BufTy).Contents (Elt F) → (⟨S2000000x1, .i32⟩ : BufTy).Contents (Elt F) → (⟨S2000000x64, .f32⟩ : BufTy).Contents (Elt F)),
    nullary main_cst (constant S_ .f32 0x00000000#32),
    unary main_cst main_v11 (broadcastInDim S100000x64 ![] bcast_S_S100000x64 : (⟨S_, .f32⟩ : BufTy).Contents (Elt F) → (⟨S100000x64, .f32⟩ : BufTy).Contents (Elt F)),
    unary main_v3 main_v12 (broadcastInDim S2000000x1 ![0] bcast_S2000000_S2000000x1_0 : (⟨S2000000, .i32⟩ : BufTy).Contents (Elt F) → (⟨S2000000x1, .i32⟩ : BufTy).Contents (Elt F)),
    ternary main_v11 main_v12 main_v10 main_v13 ((fun x i u => Host.scatterAdd scatter_S100000x64_S2000000x1_S2000000x64_1_0_0_1 x i u) : (⟨S100000x64, .f32⟩ : BufTy).Contents (Elt F) → (⟨S2000000x1, .i32⟩ : BufTy).Contents (Elt F) → (⟨S2000000x64, .f32⟩ : BufTy).Contents (Elt F) → (⟨S100000x64, .f32⟩ : BufTy).Contents (Elt F)),
    nullary main_cst_1 (constant S_ .f32 0x3F800000#32),
    unary main_cst_1 main_v14 (broadcastInDim S2000000 ![] bcast_S_S2000000 : (⟨S_, .f32⟩ : BufTy).Contents (Elt F) → (⟨S2000000, .f32⟩ : BufTy).Contents (Elt F)),
    nullary main_cst_2 (constant S_ .f32 0x00000000#32),
    unary main_cst_2 main_v15 (broadcastInDim S100000 ![] bcast_S_S100000 : (⟨S_, .f32⟩ : BufTy).Contents (Elt F) → (⟨S100000, .f32⟩ : BufTy).Contents (Elt F)),
    unary main_v3 main_v16 (broadcastInDim S2000000x1 ![0] bcast_S2000000_S2000000x1_0 : (⟨S2000000, .i32⟩ : BufTy).Contents (Elt F) → (⟨S2000000x1, .i32⟩ : BufTy).Contents (Elt F)),
    ternary main_v15 main_v16 main_v14 main_v17 ((fun x i u => Host.scatterAdd scatter_S100000_S2000000x1_S2000000_n_0_0_1 x i u) : (⟨S100000, .f32⟩ : BufTy).Contents (Elt F) → (⟨S2000000x1, .i32⟩ : BufTy).Contents (Elt F) → (⟨S2000000, .f32⟩ : BufTy).Contents (Elt F) → (⟨S100000, .f32⟩ : BufTy).Contents (Elt F)),
    nullary main_cst_3 (constant S_ .f32 0x3F800000#32),
    unary main_cst_3 main_v18 (broadcastInDim S100000 ![] bcast_S_S100000 : (⟨S_, .f32⟩ : BufTy).Contents (Elt F) → (⟨S100000, .f32⟩ : BufTy).Contents (Elt F)),
    binary main_v17 main_v18 main_v19 (maximumf : (⟨S100000, .f32⟩ : BufTy).Contents (Elt F) → (⟨S100000, .f32⟩ : BufTy).Contents (Elt F) → (⟨S100000, .f32⟩ : BufTy).Contents (Elt F)),
    unary main_v19 main_v20 (broadcastInDim S100000x1 ![0] bcast_S100000_S100000x1_0 : (⟨S100000, .f32⟩ : BufTy).Contents (Elt F) → (⟨S100000x1, .f32⟩ : BufTy).Contents (Elt F)),
    unary main_v20 main_v21 (broadcastInDim S100000x64 ![0, 1] bcast_S100000x1_S100000x64_0_1 : (⟨S100000x1, .f32⟩ : BufTy).Contents (Elt F) → (⟨S100000x64, .f32⟩ : BufTy).Contents (Elt F)),
    binary main_v13 main_v21 main_v22 (Host.divf : (⟨S100000x64, .f32⟩ : BufTy).Contents (Elt F) → (⟨S100000x64, .f32⟩ : BufTy).Contents (Elt F) → (⟨S100000x64, .f32⟩ : BufTy).Contents (Elt F)),
    binary main_v22 main_arg12 main_v23 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg13 main_v24 (broadcastInDim S1x64 ![1] bcast_S64_S1x64_1 : (⟨S64, .f32⟩ : BufTy).Contents (Elt F) → (⟨S1x64, .f32⟩ : BufTy).Contents (Elt F)),
    unary main_v24 main_v25 (broadcastInDim S100000x64 ![0, 1] bcast_S1x64_S100000x64_0_1 : (⟨S1x64, .f32⟩ : BufTy).Contents (Elt F) → (⟨S100000x64, .f32⟩ : BufTy).Contents (Elt F)),
    binary main_v23 main_v25 main_v26 (addf : (⟨S100000x64, .f32⟩ : BufTy).Contents (Elt F) → (⟨S100000x64, .f32⟩ : BufTy).Contents (Elt F) → (⟨S100000x64, .f32⟩ : BufTy).Contents (Elt F)),
    binary main_arg0 main_arg14 main_v27 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    binary main_v26 main_v27 main_v28 (addf : (⟨S100000x64, .f32⟩ : BufTy).Contents (Elt F) → (⟨S100000x64, .f32⟩ : BufTy).Contents (Elt F) → (⟨S100000x64, .f32⟩ : BufTy).Contents (Elt F)),
    binary main_v28 main_v28 main_v29 (mulf : (⟨S100000x64, .f32⟩ : BufTy).Contents (Elt F) → (⟨S100000x64, .f32⟩ : BufTy).Contents (Elt F) → (⟨S100000x64, .f32⟩ : BufTy).Contents (Elt F)),
    nullary main_cst_4 (constant S_ .f32 0x00000000#32),
    binary main_v29 main_cst_4 main_v30 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_v30 main_v31 (broadcastInDim S100000x1 ![0] bcast_S100000_S100000x1_0 : (⟨S100000, .f32⟩ : BufTy).Contents (Elt F) → (⟨S100000x1, .f32⟩ : BufTy).Contents (Elt F)),
    unary main_v31 main_v32 (Host.sqrt : (⟨S100000x1, .f32⟩ : BufTy).Contents (Elt F) → (⟨S100000x1, .f32⟩ : BufTy).Contents (Elt F)),
    nullary main_cst_5 (constant S_ .f32 0x2B8CBCCC#32),
    unary main_cst_5 main_v33 (broadcastInDim S100000x1 ![] bcast_S_S100000x1 : (⟨S_, .f32⟩ : BufTy).Contents (Elt F) → (⟨S100000x1, .f32⟩ : BufTy).Contents (Elt F)),
    binary main_v32 main_v33 main_v34 (maximumf : (⟨S100000x1, .f32⟩ : BufTy).Contents (Elt F) → (⟨S100000x1, .f32⟩ : BufTy).Contents (Elt F) → (⟨S100000x1, .f32⟩ : BufTy).Contents (Elt F)),
    unary main_v34 main_v35 (broadcastInDim S100000x64 ![0, 1] bcast_S100000x1_S100000x64_0_1 : (⟨S100000x1, .f32⟩ : BufTy).Contents (Elt F) → (⟨S100000x64, .f32⟩ : BufTy).Contents (Elt F)),
    binary main_v28 main_v35 main_v36 (Host.divf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x64, .f32⟩) main_call0_v0) (broadcastInDim S100000x64 ![] bcast_S_S100000x64),
    TRef.binary (TRef.of (T := ⟨S100000x64, .f32⟩) main_v36) (TRef.of (T := ⟨S100000x64, .f32⟩) main_call0_v0) (TRef.of (T := ⟨S100000x64, .f32⟩) main_v37) maximumf,
    unary main_arg7 main_v38 ((extractStridedSlice S1x2000000 ![0, 0] · slices_S2x2000000_S1x2000000_0_0) : (⟨S2x2000000, .i32⟩ : BufTy).Contents (Elt F) → (⟨S1x2000000, .i32⟩ : BufTy).Contents (Elt F)),
    reshape main_v38 main_v39 rfl shapeCasts_S1x2000000_S2000000,
    unary main_arg7 main_v40 ((extractStridedSlice S1x2000000 ![1, 0] · slices_S2x2000000_S1x2000000_1_0) : (⟨S2x2000000, .i32⟩ : BufTy).Contents (Elt F) → (⟨S1x2000000, .i32⟩ : BufTy).Contents (Elt F)),
    reshape main_v40 main_v41 rfl shapeCasts_S1x2000000_S2000000,
    nullary main_c_6 (constantI S_ 32 0#32),
    unary main_c_6 main_v42 (broadcastInDim S2000000 ![] bcast_S_S2000000 : (⟨S_, .i32⟩ : BufTy).Contents (Elt F) → (⟨S2000000, .i32⟩ : BufTy).Contents (Elt F)),
    binary main_v39 main_v42 main_v43 (cmpi .slt : (⟨S2000000, .i32⟩ : BufTy).Contents (Elt F) → (⟨S2000000, .i32⟩ : BufTy).Contents (Elt F) → (⟨S2000000, .i1⟩ : BufTy).Contents (Elt F)),
    nullary main_c_7 (constantI S_ 32 100000#32),
    unary main_c_7 main_v44 (broadcastInDim S2000000 ![] bcast_S_S2000000 : (⟨S_, .i32⟩ : BufTy).Contents (Elt F) → (⟨S2000000, .i32⟩ : BufTy).Contents (Elt F)),
    binary main_v39 main_v44 main_v45 (addi : (⟨S2000000, .i32⟩ : BufTy).Contents (Elt F) → (⟨S2000000, .i32⟩ : BufTy).Contents (Elt F) → (⟨S2000000, .i32⟩ : BufTy).Contents (Elt F)),
    ternary main_v43 main_v45 main_v39 main_v46 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v46 main_v47 (broadcastInDim S2000000x1 ![0] bcast_S2000000_S2000000x1_0 : (⟨S2000000, .i32⟩ : BufTy).Contents (Elt F) → (⟨S2000000x1, .i32⟩ : BufTy).Contents (Elt F)),
    binary main_arg1 main_v47 main_v48 ((fun x i => Host.gather gather_S100000x64_S2000000x1_S2000000x64_1_0_n_n_0_1_164 x i) : (⟨S100000x64, .f32⟩ : BufTy).Contents (Elt F) → (⟨S2000000x1, .i32⟩ : BufTy).Contents (Elt F) → (⟨S2000000x64, .f32⟩ : BufTy).Contents (Elt F)),
    nullary main_cst_8 (constant S_ .f32 0x00000000#32),
    unary main_cst_8 main_v49 (broadcastInDim S100000x64 ![] bcast_S_S100000x64 : (⟨S_, .f32⟩ : BufTy).Contents (Elt F) → (⟨S100000x64, .f32⟩ : BufTy).Contents (Elt F)),
    unary main_v41 main_v50 (broadcastInDim S2000000x1 ![0] bcast_S2000000_S2000000x1_0 : (⟨S2000000, .i32⟩ : BufTy).Contents (Elt F) → (⟨S2000000x1, .i32⟩ : BufTy).Contents (Elt F)),
    ternary main_v49 main_v50 main_v48 main_v51 ((fun x i u => Host.scatterAdd scatter_S100000x64_S2000000x1_S2000000x64_1_0_0_1 x i u) : (⟨S100000x64, .f32⟩ : BufTy).Contents (Elt F) → (⟨S2000000x1, .i32⟩ : BufTy).Contents (Elt F) → (⟨S2000000x64, .f32⟩ : BufTy).Contents (Elt F) → (⟨S100000x64, .f32⟩ : BufTy).Contents (Elt F)),
    nullary main_cst_9 (constant S_ .f32 0x3F800000#32),
    unary main_cst_9 main_v52 (broadcastInDim S2000000 ![] bcast_S_S2000000 : (⟨S_, .f32⟩ : BufTy).Contents (Elt F) → (⟨S2000000, .f32⟩ : BufTy).Contents (Elt F)),
    nullary main_cst_10 (constant S_ .f32 0x00000000#32),
    unary main_cst_10 main_v53 (broadcastInDim S100000 ![] bcast_S_S100000 : (⟨S_, .f32⟩ : BufTy).Contents (Elt F) → (⟨S100000, .f32⟩ : BufTy).Contents (Elt F)),
    unary main_v41 main_v54 (broadcastInDim S2000000x1 ![0] bcast_S2000000_S2000000x1_0 : (⟨S2000000, .i32⟩ : BufTy).Contents (Elt F) → (⟨S2000000x1, .i32⟩ : BufTy).Contents (Elt F)),
    ternary main_v53 main_v54 main_v52 main_v55 ((fun x i u => Host.scatterAdd scatter_S100000_S2000000x1_S2000000_n_0_0_1 x i u) : (⟨S100000, .f32⟩ : BufTy).Contents (Elt F) → (⟨S2000000x1, .i32⟩ : BufTy).Contents (Elt F) → (⟨S2000000, .f32⟩ : BufTy).Contents (Elt F) → (⟨S100000, .f32⟩ : BufTy).Contents (Elt F)),
    nullary main_cst_11 (constant S_ .f32 0x3F800000#32),
    unary main_cst_11 main_v56 (broadcastInDim S100000 ![] bcast_S_S100000 : (⟨S_, .f32⟩ : BufTy).Contents (Elt F) → (⟨S100000, .f32⟩ : BufTy).Contents (Elt F)),
    binary main_v55 main_v56 main_v57 (maximumf : (⟨S100000, .f32⟩ : BufTy).Contents (Elt F) → (⟨S100000, .f32⟩ : BufTy).Contents (Elt F) → (⟨S100000, .f32⟩ : BufTy).Contents (Elt F)),
    unary main_v57 main_v58 (broadcastInDim S100000x1 ![0] bcast_S100000_S100000x1_0 : (⟨S100000, .f32⟩ : BufTy).Contents (Elt F) → (⟨S100000x1, .f32⟩ : BufTy).Contents (Elt F)),
    unary main_v58 main_v59 (broadcastInDim S100000x64 ![0, 1] bcast_S100000x1_S100000x64_0_1 : (⟨S100000x1, .f32⟩ : BufTy).Contents (Elt F) → (⟨S100000x64, .f32⟩ : BufTy).Contents (Elt F)),
    binary main_v51 main_v59 main_v60 (Host.divf : (⟨S100000x64, .f32⟩ : BufTy).Contents (Elt F) → (⟨S100000x64, .f32⟩ : BufTy).Contents (Elt F) → (⟨S100000x64, .f32⟩ : BufTy).Contents (Elt F)),
    binary main_v60 main_arg15 main_v61 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg16 main_v62 (broadcastInDim S1x64 ![1] bcast_S64_S1x64_1 : (⟨S64, .f32⟩ : BufTy).Contents (Elt F) → (⟨S1x64, .f32⟩ : BufTy).Contents (Elt F)),
    unary main_v62 main_v63 (broadcastInDim S100000x64 ![0, 1] bcast_S1x64_S100000x64_0_1 : (⟨S1x64, .f32⟩ : BufTy).Contents (Elt F) → (⟨S100000x64, .f32⟩ : BufTy).Contents (Elt F)),
    binary main_v61 main_v63 main_v64 (addf : (⟨S100000x64, .f32⟩ : BufTy).Contents (Elt F) → (⟨S100000x64, .f32⟩ : BufTy).Contents (Elt F) → (⟨S100000x64, .f32⟩ : BufTy).Contents (Elt F)),
    binary main_v37 main_arg17 main_v65 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v64 main_v65 main_v66 (addf : (⟨S100000x64, .f32⟩ : BufTy).Contents (Elt F) → (⟨S100000x64, .f32⟩ : BufTy).Contents (Elt F) → (⟨S100000x64, .f32⟩ : BufTy).Contents (Elt F)),
    binary main_v66 main_v66 main_v67 (mulf : (⟨S100000x64, .f32⟩ : BufTy).Contents (Elt F) → (⟨S100000x64, .f32⟩ : BufTy).Contents (Elt F) → (⟨S100000x64, .f32⟩ : BufTy).Contents (Elt F)),
    nullary main_cst_12 (constant S_ .f32 0x00000000#32),
    binary main_v67 main_cst_12 main_v68 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_v68 main_v69 (broadcastInDim S100000x1 ![0] bcast_S100000_S100000x1_0 : (⟨S100000, .f32⟩ : BufTy).Contents (Elt F) → (⟨S100000x1, .f32⟩ : BufTy).Contents (Elt F)),
    unary main_v69 main_v70 (Host.sqrt : (⟨S100000x1, .f32⟩ : BufTy).Contents (Elt F) → (⟨S100000x1, .f32⟩ : BufTy).Contents (Elt F)),
    nullary main_cst_13 (constant S_ .f32 0x2B8CBCCC#32),
    unary main_cst_13 main_v71 (broadcastInDim S100000x1 ![] bcast_S_S100000x1 : (⟨S_, .f32⟩ : BufTy).Contents (Elt F) → (⟨S100000x1, .f32⟩ : BufTy).Contents (Elt F)),
    binary main_v70 main_v71 main_v72 (maximumf : (⟨S100000x1, .f32⟩ : BufTy).Contents (Elt F) → (⟨S100000x1, .f32⟩ : BufTy).Contents (Elt F) → (⟨S100000x1, .f32⟩ : BufTy).Contents (Elt F)),
    unary main_v72 main_v73 (broadcastInDim S100000x64 ![0, 1] bcast_S100000x1_S100000x64_0_1 : (⟨S100000x1, .f32⟩ : BufTy).Contents (Elt F) → (⟨S100000x64, .f32⟩ : BufTy).Contents (Elt F)),
    binary main_v66 main_v73 main_v74 (Host.divf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v74) (TRef.of (T := ⟨S100000x64, .f32⟩) main_call1_v0) (TRef.of (T := ⟨S100000x64, .f32⟩) main_v75) maximumf,
    unary main_arg11 main_v76 ((extractStridedSlice S1x2000000 ![0, 0] · slices_S2x2000000_S1x2000000_0_0) : (⟨S2x2000000, .i32⟩ : BufTy).Contents (Elt F) → (⟨S1x2000000, .i32⟩ : BufTy).Contents (Elt F)),
    reshape main_v76 main_v77 rfl shapeCasts_S1x2000000_S2000000,
    unary main_arg11 main_v78 ((extractStridedSlice S1x2000000 ![1, 0] · slices_S2x2000000_S1x2000000_1_0) : (⟨S2x2000000, .i32⟩ : BufTy).Contents (Elt F) → (⟨S1x2000000, .i32⟩ : BufTy).Contents (Elt F)),
    reshape main_v78 main_v79 rfl shapeCasts_S1x2000000_S2000000,
    nullary main_c_14 (constantI S_ 32 0#32),
    unary main_c_14 main_v80 (broadcastInDim S2000000 ![] bcast_S_S2000000 : (⟨S_, .i32⟩ : BufTy).Contents (Elt F) → (⟨S2000000, .i32⟩ : BufTy).Contents (Elt F)),
    binary main_v77 main_v80 main_v81 (cmpi .slt : (⟨S2000000, .i32⟩ : BufTy).Contents (Elt F) → (⟨S2000000, .i32⟩ : BufTy).Contents (Elt F) → (⟨S2000000, .i1⟩ : BufTy).Contents (Elt F)),
    nullary main_c_15 (constantI S_ 32 100000#32),
    unary main_c_15 main_v82 (broadcastInDim S2000000 ![] bcast_S_S2000000 : (⟨S_, .i32⟩ : BufTy).Contents (Elt F) → (⟨S2000000, .i32⟩ : BufTy).Contents (Elt F)),
    binary main_v77 main_v82 main_v83 (addi : (⟨S2000000, .i32⟩ : BufTy).Contents (Elt F) → (⟨S2000000, .i32⟩ : BufTy).Contents (Elt F) → (⟨S2000000, .i32⟩ : BufTy).Contents (Elt F)),
    ternary main_v81 main_v83 main_v77 main_v84 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v84 main_v85 (broadcastInDim S2000000x1 ![0] bcast_S2000000_S2000000x1_0 : (⟨S2000000, .i32⟩ : BufTy).Contents (Elt F) → (⟨S2000000x1, .i32⟩ : BufTy).Contents (Elt F)),
    binary main_arg1 main_v85 main_v86 ((fun x i => Host.gather gather_S100000x64_S2000000x1_S2000000x64_1_0_n_n_0_1_164 x i) : (⟨S100000x64, .f32⟩ : BufTy).Contents (Elt F) → (⟨S2000000x1, .i32⟩ : BufTy).Contents (Elt F) → (⟨S2000000x64, .f32⟩ : BufTy).Contents (Elt F)),
    nullary main_cst_16 (constant S_ .f32 0x00000000#32),
    unary main_cst_16 main_v87 (broadcastInDim S100000x64 ![] bcast_S_S100000x64 : (⟨S_, .f32⟩ : BufTy).Contents (Elt F) → (⟨S100000x64, .f32⟩ : BufTy).Contents (Elt F)),
    unary main_v79 main_v88 (broadcastInDim S2000000x1 ![0] bcast_S2000000_S2000000x1_0 : (⟨S2000000, .i32⟩ : BufTy).Contents (Elt F) → (⟨S2000000x1, .i32⟩ : BufTy).Contents (Elt F)),
    ternary main_v87 main_v88 main_v86 main_v89 ((fun x i u => Host.scatterAdd scatter_S100000x64_S2000000x1_S2000000x64_1_0_0_1 x i u) : (⟨S100000x64, .f32⟩ : BufTy).Contents (Elt F) → (⟨S2000000x1, .i32⟩ : BufTy).Contents (Elt F) → (⟨S2000000x64, .f32⟩ : BufTy).Contents (Elt F) → (⟨S100000x64, .f32⟩ : BufTy).Contents (Elt F)),
    nullary main_cst_17 (constant S_ .f32 0x3F800000#32),
    unary main_cst_17 main_v90 (broadcastInDim S2000000 ![] bcast_S_S2000000 : (⟨S_, .f32⟩ : BufTy).Contents (Elt F) → (⟨S2000000, .f32⟩ : BufTy).Contents (Elt F)),
    nullary main_cst_18 (constant S_ .f32 0x00000000#32),
    unary main_cst_18 main_v91 (broadcastInDim S100000 ![] bcast_S_S100000 : (⟨S_, .f32⟩ : BufTy).Contents (Elt F) → (⟨S100000, .f32⟩ : BufTy).Contents (Elt F)),
    unary main_v79 main_v92 (broadcastInDim S2000000x1 ![0] bcast_S2000000_S2000000x1_0 : (⟨S2000000, .i32⟩ : BufTy).Contents (Elt F) → (⟨S2000000x1, .i32⟩ : BufTy).Contents (Elt F)),
    ternary main_v91 main_v92 main_v90 main_v93 ((fun x i u => Host.scatterAdd scatter_S100000_S2000000x1_S2000000_n_0_0_1 x i u) : (⟨S100000, .f32⟩ : BufTy).Contents (Elt F) → (⟨S2000000x1, .i32⟩ : BufTy).Contents (Elt F) → (⟨S2000000, .f32⟩ : BufTy).Contents (Elt F) → (⟨S100000, .f32⟩ : BufTy).Contents (Elt F)),
    nullary main_cst_19 (constant S_ .f32 0x3F800000#32),
    unary main_cst_19 main_v94 (broadcastInDim S100000 ![] bcast_S_S100000 : (⟨S_, .f32⟩ : BufTy).Contents (Elt F) → (⟨S100000, .f32⟩ : BufTy).Contents (Elt F)),
    binary main_v93 main_v94 main_v95 (maximumf : (⟨S100000, .f32⟩ : BufTy).Contents (Elt F) → (⟨S100000, .f32⟩ : BufTy).Contents (Elt F) → (⟨S100000, .f32⟩ : BufTy).Contents (Elt F)),
    unary main_v95 main_v96 (broadcastInDim S100000x1 ![0] bcast_S100000_S100000x1_0 : (⟨S100000, .f32⟩ : BufTy).Contents (Elt F) → (⟨S100000x1, .f32⟩ : BufTy).Contents (Elt F)),
    unary main_v96 main_v97 (broadcastInDim S100000x64 ![0, 1] bcast_S100000x1_S100000x64_0_1 : (⟨S100000x1, .f32⟩ : BufTy).Contents (Elt F) → (⟨S100000x64, .f32⟩ : BufTy).Contents (Elt F)),
    binary main_v89 main_v97 main_v98 (Host.divf : (⟨S100000x64, .f32⟩ : BufTy).Contents (Elt F) → (⟨S100000x64, .f32⟩ : BufTy).Contents (Elt F) → (⟨S100000x64, .f32⟩ : BufTy).Contents (Elt F)),
    binary main_v98 main_arg18 main_v99 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg19 main_v100 (broadcastInDim S1x64 ![1] bcast_S64_S1x64_1 : (⟨S64, .f32⟩ : BufTy).Contents (Elt F) → (⟨S1x64, .f32⟩ : BufTy).Contents (Elt F)),
    unary main_v100 main_v101 (broadcastInDim S100000x64 ![0, 1] bcast_S1x64_S100000x64_0_1 : (⟨S1x64, .f32⟩ : BufTy).Contents (Elt F) → (⟨S100000x64, .f32⟩ : BufTy).Contents (Elt F)),
    binary main_v99 main_v101 main_v102 (addf : (⟨S100000x64, .f32⟩ : BufTy).Contents (Elt F) → (⟨S100000x64, .f32⟩ : BufTy).Contents (Elt F) → (⟨S100000x64, .f32⟩ : BufTy).Contents (Elt F)),
    binary main_arg2 main_arg20 main_v103 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    binary main_v102 main_v103 main_v104 (addf : (⟨S100000x64, .f32⟩ : BufTy).Contents (Elt F) → (⟨S100000x64, .f32⟩ : BufTy).Contents (Elt F) → (⟨S100000x64, .f32⟩ : BufTy).Contents (Elt F)),
    binary main_v104 main_v104 main_v105 (mulf : (⟨S100000x64, .f32⟩ : BufTy).Contents (Elt F) → (⟨S100000x64, .f32⟩ : BufTy).Contents (Elt F) → (⟨S100000x64, .f32⟩ : BufTy).Contents (Elt F)),
    nullary main_cst_20 (constant S_ .f32 0x00000000#32),
    binary main_v105 main_cst_20 main_v106 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_v106 main_v107 (broadcastInDim S100000x1 ![0] bcast_S100000_S100000x1_0 : (⟨S100000, .f32⟩ : BufTy).Contents (Elt F) → (⟨S100000x1, .f32⟩ : BufTy).Contents (Elt F)),
    unary main_v107 main_v108 (Host.sqrt : (⟨S100000x1, .f32⟩ : BufTy).Contents (Elt F) → (⟨S100000x1, .f32⟩ : BufTy).Contents (Elt F)),
    nullary main_cst_21 (constant S_ .f32 0x2B8CBCCC#32),
    unary main_cst_21 main_v109 (broadcastInDim S100000x1 ![] bcast_S_S100000x1 : (⟨S_, .f32⟩ : BufTy).Contents (Elt F) → (⟨S100000x1, .f32⟩ : BufTy).Contents (Elt F)),
    binary main_v108 main_v109 main_v110 (maximumf : (⟨S100000x1, .f32⟩ : BufTy).Contents (Elt F) → (⟨S100000x1, .f32⟩ : BufTy).Contents (Elt F) → (⟨S100000x1, .f32⟩ : BufTy).Contents (Elt F)),
    unary main_v110 main_v111 (broadcastInDim S100000x64 ![0, 1] bcast_S100000x1_S100000x64_0_1 : (⟨S100000x1, .f32⟩ : BufTy).Contents (Elt F) → (⟨S100000x64, .f32⟩ : BufTy).Contents (Elt F)),
    binary main_v104 main_v111 main_v112 (Host.divf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v112) (TRef.of (T := ⟨S100000x64, .f32⟩) main_call2_v0) (TRef.of (T := ⟨S100000x64, .f32⟩) main_v113) maximumf,
    unary main_arg3 main_v114 ((extractStridedSlice S1x2000000 ![0, 0] · slices_S2x2000000_S1x2000000_0_0) : (⟨S2x2000000, .i32⟩ : BufTy).Contents (Elt F) → (⟨S1x2000000, .i32⟩ : BufTy).Contents (Elt F)),
    reshape main_v114 main_v115 rfl shapeCasts_S1x2000000_S2000000,
    unary main_arg3 main_v116 ((extractStridedSlice S1x2000000 ![1, 0] · slices_S2x2000000_S1x2000000_1_0) : (⟨S2x2000000, .i32⟩ : BufTy).Contents (Elt F) → (⟨S1x2000000, .i32⟩ : BufTy).Contents (Elt F)),
    reshape main_v116 main_v117 rfl shapeCasts_S1x2000000_S2000000,
    binary main_v75 main_arg30 main_v118 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_cst_22 (constant S_ .f32 0x3F800000#32),
    unary main_cst_22 main_v119 (broadcastInDim S2000000 ![] bcast_S_S2000000 : (⟨S_, .f32⟩ : BufTy).Contents (Elt F) → (⟨S2000000, .f32⟩ : BufTy).Contents (Elt F)),
    nullary main_cst_23 (constant S_ .f32 0x00000000#32),
    unary main_cst_23 main_v120 (broadcastInDim S100000 ![] bcast_S_S100000 : (⟨S_, .f32⟩ : BufTy).Contents (Elt F) → (⟨S100000, .f32⟩ : BufTy).Contents (Elt F)),
    unary main_v117 main_v121 (broadcastInDim S2000000x1 ![0] bcast_S2000000_S2000000x1_0 : (⟨S2000000, .i32⟩ : BufTy).Contents (Elt F) → (⟨S2000000x1, .i32⟩ : BufTy).Contents (Elt F)),
    ternary main_v120 main_v121 main_v119 main_v122 ((fun x i u => Host.scatterAdd scatter_S100000_S2000000x1_S2000000_n_0_0_1 x i u) : (⟨S100000, .f32⟩ : BufTy).Contents (Elt F) → (⟨S2000000x1, .i32⟩ : BufTy).Contents (Elt F) → (⟨S2000000, .f32⟩ : BufTy).Contents (Elt F) → (⟨S100000, .f32⟩ : BufTy).Contents (Elt F)),
    nullary main_cst_24 (constant S_ .f32 0x3F800000#32),
    unary main_cst_24 main_v123 (broadcastInDim S100000 ![] bcast_S_S100000 : (⟨S_, .f32⟩ : BufTy).Contents (Elt F) → (⟨S100000, .f32⟩ : BufTy).Contents (Elt F)),
    binary main_v122 main_v123 main_v124 (addf : (⟨S100000, .f32⟩ : BufTy).Contents (Elt F) → (⟨S100000, .f32⟩ : BufTy).Contents (Elt F) → (⟨S100000, .f32⟩ : BufTy).Contents (Elt F)),
    unary main_v124 main_v125 (Host.rsqrt : (⟨S100000, .f32⟩ : BufTy).Contents (Elt F) → (⟨S100000, .f32⟩ : BufTy).Contents (Elt F)),
    nullary main_c_25 (constantI S_ 32 0#32),
    unary main_c_25 main_v126 (broadcastInDim S2000000 ![] bcast_S_S2000000 : (⟨S_, .i32⟩ : BufTy).Contents (Elt F) → (⟨S2000000, .i32⟩ : BufTy).Contents (Elt F)),
    binary main_v115 main_v126 main_v127 (cmpi .slt : (⟨S2000000, .i32⟩ : BufTy).Contents (Elt F) → (⟨S2000000, .i32⟩ : BufTy).Contents (Elt F) → (⟨S2000000, .i1⟩ : BufTy).Contents (Elt F)),
    nullary main_c_26 (constantI S_ 32 100000#32),
    unary main_c_26 main_v128 (broadcastInDim S2000000 ![] bcast_S_S2000000 : (⟨S_, .i32⟩ : BufTy).Contents (Elt F) → (⟨S2000000, .i32⟩ : BufTy).Contents (Elt F)),
    binary main_v115 main_v128 main_v129 (addi : (⟨S2000000, .i32⟩ : BufTy).Contents (Elt F) → (⟨S2000000, .i32⟩ : BufTy).Contents (Elt F) → (⟨S2000000, .i32⟩ : BufTy).Contents (Elt F)),
    ternary main_v127 main_v129 main_v115 main_v130 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v130 main_v131 (broadcastInDim S2000000x1 ![0] bcast_S2000000_S2000000x1_0 : (⟨S2000000, .i32⟩ : BufTy).Contents (Elt F) → (⟨S2000000x1, .i32⟩ : BufTy).Contents (Elt F)),
    binary main_v125 main_v131 main_v132 ((fun x i => Host.gather gather_S100000_S2000000x1_S2000000_n_0_n_n_0_1_1 x i) : (⟨S100000, .f32⟩ : BufTy).Contents (Elt F) → (⟨S2000000x1, .i32⟩ : BufTy).Contents (Elt F) → (⟨S2000000, .f32⟩ : BufTy).Contents (Elt F)),
    nullary main_c_27 (constantI S_ 32 0#32),
    unary main_c_27 main_v133 (broadcastInDim S2000000 ![] bcast_S_S2000000 : (⟨S_, .i32⟩ : BufTy).Contents (Elt F) → (⟨S2000000, .i32⟩ : BufTy).Contents (Elt F)),
    binary main_v117 main_v133 main_v134 (cmpi .slt : (⟨S2000000, .i32⟩ : BufTy).Contents (Elt F) → (⟨S2000000, .i32⟩ : BufTy).Contents (Elt F) → (⟨S2000000, .i1⟩ : BufTy).Contents (Elt F)),
    nullary main_c_28 (constantI S_ 32 100000#32),
    unary main_c_28 main_v135 (broadcastInDim S2000000 ![] bcast_S_S2000000 : (⟨S_, .i32⟩ : BufTy).Contents (Elt F) → (⟨S2000000, .i32⟩ : BufTy).Contents (Elt F)),
    binary main_v117 main_v135 main_v136 (addi : (⟨S2000000, .i32⟩ : BufTy).Contents (Elt F) → (⟨S2000000, .i32⟩ : BufTy).Contents (Elt F) → (⟨S2000000, .i32⟩ : BufTy).Contents (Elt F)),
    ternary main_v134 main_v136 main_v117 main_v137 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v137 main_v138 (broadcastInDim S2000000x1 ![0] bcast_S2000000_S2000000x1_0 : (⟨S2000000, .i32⟩ : BufTy).Contents (Elt F) → (⟨S2000000x1, .i32⟩ : BufTy).Contents (Elt F)),
    binary main_v125 main_v138 main_v139 ((fun x i => Host.gather gather_S100000_S2000000x1_S2000000_n_0_n_n_0_1_1 x i) : (⟨S100000, .f32⟩ : BufTy).Contents (Elt F) → (⟨S2000000x1, .i32⟩ : BufTy).Contents (Elt F) → (⟨S2000000, .f32⟩ : BufTy).Contents (Elt F)),
    binary main_v132 main_v139 main_v140 (mulf : (⟨S2000000, .f32⟩ : BufTy).Contents (Elt F) → (⟨S2000000, .f32⟩ : BufTy).Contents (Elt F) → (⟨S2000000, .f32⟩ : BufTy).Contents (Elt F)),
    unary main_v140 main_v141 (broadcastInDim S2000000x1 ![0] bcast_S2000000_S2000000x1_0 : (⟨S2000000, .f32⟩ : BufTy).Contents (Elt F) → (⟨S2000000x1, .f32⟩ : BufTy).Contents (Elt F)),
    nullary main_c_29 (constantI S_ 32 0#32),
    unary main_c_29 main_v142 (broadcastInDim S2000000 ![] bcast_S_S2000000 : (⟨S_, .i32⟩ : BufTy).Contents (Elt F) → (⟨S2000000, .i32⟩ : BufTy).Contents (Elt F)),
    binary main_v115 main_v142 main_v143 (cmpi .slt : (⟨S2000000, .i32⟩ : BufTy).Contents (Elt F) → (⟨S2000000, .i32⟩ : BufTy).Contents (Elt F) → (⟨S2000000, .i1⟩ : BufTy).Contents (Elt F)),
    nullary main_c_30 (constantI S_ 32 100000#32),
    unary main_c_30 main_v144 (broadcastInDim S2000000 ![] bcast_S_S2000000 : (⟨S_, .i32⟩ : BufTy).Contents (Elt F) → (⟨S2000000, .i32⟩ : BufTy).Contents (Elt F)),
    binary main_v115 main_v144 main_v145 (addi : (⟨S2000000, .i32⟩ : BufTy).Contents (Elt F) → (⟨S2000000, .i32⟩ : BufTy).Contents (Elt F) → (⟨S2000000, .i32⟩ : BufTy).Contents (Elt F)),
    ternary main_v143 main_v145 main_v115 main_v146 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v146 main_v147 (broadcastInDim S2000000x1 ![0] bcast_S2000000_S2000000x1_0 : (⟨S2000000, .i32⟩ : BufTy).Contents (Elt F) → (⟨S2000000x1, .i32⟩ : BufTy).Contents (Elt F)),
    binary main_v118 main_v147 main_v148 ((fun x i => Host.gather gather_S100000x64_S2000000x1_S2000000x64_1_0_n_n_0_1_164 x i) : (⟨S100000x64, .f32⟩ : BufTy).Contents (Elt F) → (⟨S2000000x1, .i32⟩ : BufTy).Contents (Elt F) → (⟨S2000000x64, .f32⟩ : BufTy).Contents (Elt F)),
    unary main_v141 main_v149 (broadcastInDim S2000000x64 ![0, 1] bcast_S2000000x1_S2000000x64_0_1 : (⟨S2000000x1, .f32⟩ : BufTy).Contents (Elt F) → (⟨S2000000x64, .f32⟩ : BufTy).Contents (Elt F)),
    binary main_v148 main_v149 main_v150 (mulf : (⟨S2000000x64, .f32⟩ : BufTy).Contents (Elt F) → (⟨S2000000x64, .f32⟩ : BufTy).Contents (Elt F) → (⟨S2000000x64, .f32⟩ : BufTy).Contents (Elt F)),
    nullary main_cst_31 (constant S_ .f32 0x00000000#32),
    unary main_cst_31 main_v151 (broadcastInDim S100000x64 ![] bcast_S_S100000x64 : (⟨S_, .f32⟩ : BufTy).Contents (Elt F) → (⟨S100000x64, .f32⟩ : BufTy).Contents (Elt F)),
    unary main_v117 main_v152 (broadcastInDim S2000000x1 ![0] bcast_S2000000_S2000000x1_0 : (⟨S2000000, .i32⟩ : BufTy).Contents (Elt F) → (⟨S2000000x1, .i32⟩ : BufTy).Contents (Elt F)),
    ternary main_v151 main_v152 main_v150 main_v153 ((fun x i u => Host.scatterAdd scatter_S100000x64_S2000000x1_S2000000x64_1_0_0_1 x i u) : (⟨S100000x64, .f32⟩ : BufTy).Contents (Elt F) → (⟨S2000000x1, .i32⟩ : BufTy).Contents (Elt F) → (⟨S2000000x64, .f32⟩ : BufTy).Contents (Elt F) → (⟨S100000x64, .f32⟩ : BufTy).Contents (Elt F)),
    unary main_v124 main_v154 (broadcastInDim S100000x1 ![0] bcast_S100000_S100000x1_0 : (⟨S100000, .f32⟩ : BufTy).Contents (Elt F) → (⟨S100000x1, .f32⟩ : BufTy).Contents (Elt F)),
    unary main_v154 main_v155 (broadcastInDim S100000x64 ![0, 1] bcast_S100000x1_S100000x64_0_1 : (⟨S100000x1, .f32⟩ : BufTy).Contents (Elt F) → (⟨S100000x64, .f32⟩ : BufTy).Contents (Elt F)),
    binary main_v118 main_v155 main_v156 (Host.divf : (⟨S100000x64, .f32⟩ : BufTy).Contents (Elt F) → (⟨S100000x64, .f32⟩ : BufTy).Contents (Elt F) → (⟨S100000x64, .f32⟩ : BufTy).Contents (Elt F)),
    binary main_v153 main_v156 main_v157 (addf : (⟨S100000x64, .f32⟩ : BufTy).Contents (Elt F) → (⟨S100000x64, .f32⟩ : BufTy).Contents (Elt F) → (⟨S100000x64, .f32⟩ : BufTy).Contents (Elt F)),
    unary main_arg31 main_v158 (broadcastInDim S1x64 ![1] bcast_S64_S1x64_1 : (⟨S64, .f32⟩ : BufTy).Contents (Elt F) → (⟨S1x64, .f32⟩ : BufTy).Contents (Elt F)),
    unary main_v158 main_v159 (broadcastInDim S100000x64 ![0, 1] bcast_S1x64_S100000x64_0_1 : (⟨S1x64, .f32⟩ : BufTy).Contents (Elt F) → (⟨S100000x64, .f32⟩ : BufTy).Contents (Elt F)),
    binary main_v157 main_v159 main_v160 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x64, .f32⟩) main_call3_v0) (broadcastInDim S100000x64 ![] bcast_S_S100000x64),
    TRef.binary (TRef.of (T := ⟨S100000x64, .f32⟩) main_v160) (TRef.of (T := ⟨S100000x64, .f32⟩) main_call3_v0) (TRef.of (T := ⟨S100000x64, .f32⟩) main_v161) maximumf,
    nullary main_cst_32 (constant S_ .f32 0x00000000#32),
    binary main_v161 main_cst_32 main_v162 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_33 (constant S_ .f32 0x47C35000#32),
    unary main_cst_33 main_v163 (broadcastInDim S64 ![] bcast_S_S64 : (⟨S_, .f32⟩ : BufTy).Contents (Elt F) → (⟨S64, .f32⟩ : BufTy).Contents (Elt F)),
    binary main_v162 main_v163 main_v164 (Host.divf : (⟨S64, .f32⟩ : BufTy).Contents (Elt F) → (⟨S64, .f32⟩ : BufTy).Contents (Elt F) → (⟨S64, .f32⟩ : BufTy).Contents (Elt F)),
    unary main_v164 main_v165 (broadcastInDim S1x64 ![1] bcast_S64_S1x64_1 : (⟨S64, .f32⟩ : BufTy).Contents (Elt F) → (⟨S1x64, .f32⟩ : BufTy).Contents (Elt F)),
    unary main_v165 main_v166 (broadcastInDim S100000x64 ![0, 1] bcast_S1x64_S100000x64_0_1 : (⟨S1x64, .f32⟩ : BufTy).Contents (Elt F) → (⟨S100000x64, .f32⟩ : BufTy).Contents (Elt F)),
    binary main_v161 main_v166 main_v167 (subf : (⟨S100000x64, .f32⟩ : BufTy).Contents (Elt F) → (⟨S100000x64, .f32⟩ : BufTy).Contents (Elt F) → (⟨S100000x64, .f32⟩ : BufTy).Contents (Elt F)),
    binary main_v167 main_v167 main_v168 (mulf : (⟨S100000x64, .f32⟩ : BufTy).Contents (Elt F) → (⟨S100000x64, .f32⟩ : BufTy).Contents (Elt F) → (⟨S100000x64, .f32⟩ : BufTy).Contents (Elt F)),
    nullary main_cst_34 (constant S_ .f32 0x00000000#32),
    binary main_v168 main_cst_34 main_v169 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_35 (constant S_ .f32 0x47C35000#32),
    unary main_cst_35 main_v170 (broadcastInDim S64 ![] bcast_S_S64 : (⟨S_, .f32⟩ : BufTy).Contents (Elt F) → (⟨S64, .f32⟩ : BufTy).Contents (Elt F)),
    binary main_v169 main_v170 main_v171 (Host.divf : (⟨S64, .f32⟩ : BufTy).Contents (Elt F) → (⟨S64, .f32⟩ : BufTy).Contents (Elt F) → (⟨S64, .f32⟩ : BufTy).Contents (Elt F)),
    unary main_v164 main_v172 (broadcastInDim S1x64 ![1] bcast_S64_S1x64_1 : (⟨S64, .f32⟩ : BufTy).Contents (Elt F) → (⟨S1x64, .f32⟩ : BufTy).Contents (Elt F)),
    unary main_v172 main_v173 (broadcastInDim S100000x64 ![0, 1] bcast_S1x64_S100000x64_0_1 : (⟨S1x64, .f32⟩ : BufTy).Contents (Elt F) → (⟨S100000x64, .f32⟩ : BufTy).Contents (Elt F)),
    binary main_v161 main_v173 main_v174 (subf : (⟨S100000x64, .f32⟩ : BufTy).Contents (Elt F) → (⟨S100000x64, .f32⟩ : BufTy).Contents (Elt F) → (⟨S100000x64, .f32⟩ : BufTy).Contents (Elt F)),
    nullary main_cst_36 (constant S_ .f32 0x3727C5AC#32),
    unary main_cst_36 main_v175 (broadcastInDim S64 ![] bcast_S_S64 : (⟨S_, .f32⟩ : BufTy).Contents (Elt F) → (⟨S64, .f32⟩ : BufTy).Contents (Elt F)),
    binary main_v171 main_v175 main_v176 (addf : (⟨S64, .f32⟩ : BufTy).Contents (Elt F) → (⟨S64, .f32⟩ : BufTy).Contents (Elt F) → (⟨S64, .f32⟩ : BufTy).Contents (Elt F)),
    unary main_v176 main_v177 (Host.rsqrt : (⟨S64, .f32⟩ : BufTy).Contents (Elt F) → (⟨S64, .f32⟩ : BufTy).Contents (Elt F)),
    unary main_v177 main_v178 (broadcastInDim S1x64 ![1] bcast_S64_S1x64_1 : (⟨S64, .f32⟩ : BufTy).Contents (Elt F) → (⟨S1x64, .f32⟩ : BufTy).Contents (Elt F)),
    unary main_v178 main_v179 (broadcastInDim S100000x64 ![0, 1] bcast_S1x64_S100000x64_0_1 : (⟨S1x64, .f32⟩ : BufTy).Contents (Elt F) → (⟨S100000x64, .f32⟩ : BufTy).Contents (Elt F)),
    binary main_v174 main_v179 main_v180 (mulf : (⟨S100000x64, .f32⟩ : BufTy).Contents (Elt F) → (⟨S100000x64, .f32⟩ : BufTy).Contents (Elt F) → (⟨S100000x64, .f32⟩ : BufTy).Contents (Elt F)),
    unary main_arg36 main_v181 (broadcastInDim S1x64 ![1] bcast_S64_S1x64_1 : (⟨S64, .f32⟩ : BufTy).Contents (Elt F) → (⟨S1x64, .f32⟩ : BufTy).Contents (Elt F)),
    unary main_v181 main_v182 (broadcastInDim S100000x64 ![0, 1] bcast_S1x64_S100000x64_0_1 : (⟨S1x64, .f32⟩ : BufTy).Contents (Elt F) → (⟨S100000x64, .f32⟩ : BufTy).Contents (Elt F)),
    binary main_v180 main_v182 main_v183 (mulf : (⟨S100000x64, .f32⟩ : BufTy).Contents (Elt F) → (⟨S100000x64, .f32⟩ : BufTy).Contents (Elt F) → (⟨S100000x64, .f32⟩ : BufTy).Contents (Elt F)),
    unary main_arg37 main_v184 (broadcastInDim S1x64 ![1] bcast_S64_S1x64_1 : (⟨S64, .f32⟩ : BufTy).Contents (Elt F) → (⟨S1x64, .f32⟩ : BufTy).Contents (Elt F)),
    unary main_v184 main_v185 (broadcastInDim S100000x64 ![0, 1] bcast_S1x64_S100000x64_0_1 : (⟨S1x64, .f32⟩ : BufTy).Contents (Elt F) → (⟨S100000x64, .f32⟩ : BufTy).Contents (Elt F)),
    binary main_v183 main_v185 main_v186 (addf : (⟨S100000x64, .f32⟩ : BufTy).Contents (Elt F) → (⟨S100000x64, .f32⟩ : BufTy).Contents (Elt F) → (⟨S100000x64, .f32⟩ : BufTy).Contents (Elt F)),
    unary main_arg9 main_v187 ((extractStridedSlice S1x2000000 ![0, 0] · slices_S2x2000000_S1x2000000_0_0) : (⟨S2x2000000, .i32⟩ : BufTy).Contents (Elt F) → (⟨S1x2000000, .i32⟩ : BufTy).Contents (Elt F)),
    reshape main_v187 main_v188 rfl shapeCasts_S1x2000000_S2000000,
    unary main_arg9 main_v189 ((extractStridedSlice S1x2000000 ![1, 0] · slices_S2x2000000_S1x2000000_1_0) : (⟨S2x2000000, .i32⟩ : BufTy).Contents (Elt F) → (⟨S1x2000000, .i32⟩ : BufTy).Contents (Elt F)),
    reshape main_v189 main_v190 rfl shapeCasts_S1x2000000_S2000000,
    binary main_v113 main_arg32 main_v191 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_cst_37 (constant S_ .f32 0x3F800000#32),
    unary main_cst_37 main_v192 (broadcastInDim S2000000 ![] bcast_S_S2000000 : (⟨S_, .f32⟩ : BufTy).Contents (Elt F) → (⟨S2000000, .f32⟩ : BufTy).Contents (Elt F)),
    nullary main_cst_38 (constant S_ .f32 0x00000000#32),
    unary main_cst_38 main_v193 (broadcastInDim S100000 ![] bcast_S_S100000 : (⟨S_, .f32⟩ : BufTy).Contents (Elt F) → (⟨S100000, .f32⟩ : BufTy).Contents (Elt F)),
    unary main_v190 main_v194 (broadcastInDim S2000000x1 ![0] bcast_S2000000_S2000000x1_0 : (⟨S2000000, .i32⟩ : BufTy).Contents (Elt F) → (⟨S2000000x1, .i32⟩ : BufTy).Contents (Elt F)),
    ternary main_v193 main_v194 main_v192 main_v195 ((fun x i u => Host.scatterAdd scatter_S100000_S2000000x1_S2000000_n_0_0_1 x i u) : (⟨S100000, .f32⟩ : BufTy).Contents (Elt F) → (⟨S2000000x1, .i32⟩ : BufTy).Contents (Elt F) → (⟨S2000000, .f32⟩ : BufTy).Contents (Elt F) → (⟨S100000, .f32⟩ : BufTy).Contents (Elt F)),
    nullary main_cst_39 (constant S_ .f32 0x3F800000#32),
    unary main_cst_39 main_v196 (broadcastInDim S100000 ![] bcast_S_S100000 : (⟨S_, .f32⟩ : BufTy).Contents (Elt F) → (⟨S100000, .f32⟩ : BufTy).Contents (Elt F)),
    binary main_v195 main_v196 main_v197 (addf : (⟨S100000, .f32⟩ : BufTy).Contents (Elt F) → (⟨S100000, .f32⟩ : BufTy).Contents (Elt F) → (⟨S100000, .f32⟩ : BufTy).Contents (Elt F)),
    unary main_v197 main_v198 (Host.rsqrt : (⟨S100000, .f32⟩ : BufTy).Contents (Elt F) → (⟨S100000, .f32⟩ : BufTy).Contents (Elt F)),
    nullary main_c_40 (constantI S_ 32 0#32),
    unary main_c_40 main_v199 (broadcastInDim S2000000 ![] bcast_S_S2000000 : (⟨S_, .i32⟩ : BufTy).Contents (Elt F) → (⟨S2000000, .i32⟩ : BufTy).Contents (Elt F)),
    binary main_v188 main_v199 main_v200 (cmpi .slt : (⟨S2000000, .i32⟩ : BufTy).Contents (Elt F) → (⟨S2000000, .i32⟩ : BufTy).Contents (Elt F) → (⟨S2000000, .i1⟩ : BufTy).Contents (Elt F)),
    nullary main_c_41 (constantI S_ 32 100000#32),
    unary main_c_41 main_v201 (broadcastInDim S2000000 ![] bcast_S_S2000000 : (⟨S_, .i32⟩ : BufTy).Contents (Elt F) → (⟨S2000000, .i32⟩ : BufTy).Contents (Elt F)),
    binary main_v188 main_v201 main_v202 (addi : (⟨S2000000, .i32⟩ : BufTy).Contents (Elt F) → (⟨S2000000, .i32⟩ : BufTy).Contents (Elt F) → (⟨S2000000, .i32⟩ : BufTy).Contents (Elt F)),
    ternary main_v200 main_v202 main_v188 main_v203 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v203 main_v204 (broadcastInDim S2000000x1 ![0] bcast_S2000000_S2000000x1_0 : (⟨S2000000, .i32⟩ : BufTy).Contents (Elt F) → (⟨S2000000x1, .i32⟩ : BufTy).Contents (Elt F)),
    binary main_v198 main_v204 main_v205 ((fun x i => Host.gather gather_S100000_S2000000x1_S2000000_n_0_n_n_0_1_1 x i) : (⟨S100000, .f32⟩ : BufTy).Contents (Elt F) → (⟨S2000000x1, .i32⟩ : BufTy).Contents (Elt F) → (⟨S2000000, .f32⟩ : BufTy).Contents (Elt F)),
    nullary main_c_42 (constantI S_ 32 0#32),
    unary main_c_42 main_v206 (broadcastInDim S2000000 ![] bcast_S_S2000000 : (⟨S_, .i32⟩ : BufTy).Contents (Elt F) → (⟨S2000000, .i32⟩ : BufTy).Contents (Elt F)),
    binary main_v190 main_v206 main_v207 (cmpi .slt : (⟨S2000000, .i32⟩ : BufTy).Contents (Elt F) → (⟨S2000000, .i32⟩ : BufTy).Contents (Elt F) → (⟨S2000000, .i1⟩ : BufTy).Contents (Elt F)),
    nullary main_c_43 (constantI S_ 32 100000#32),
    unary main_c_43 main_v208 (broadcastInDim S2000000 ![] bcast_S_S2000000 : (⟨S_, .i32⟩ : BufTy).Contents (Elt F) → (⟨S2000000, .i32⟩ : BufTy).Contents (Elt F)),
    binary main_v190 main_v208 main_v209 (addi : (⟨S2000000, .i32⟩ : BufTy).Contents (Elt F) → (⟨S2000000, .i32⟩ : BufTy).Contents (Elt F) → (⟨S2000000, .i32⟩ : BufTy).Contents (Elt F)),
    ternary main_v207 main_v209 main_v190 main_v210 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v210 main_v211 (broadcastInDim S2000000x1 ![0] bcast_S2000000_S2000000x1_0 : (⟨S2000000, .i32⟩ : BufTy).Contents (Elt F) → (⟨S2000000x1, .i32⟩ : BufTy).Contents (Elt F)),
    binary main_v198 main_v211 main_v212 ((fun x i => Host.gather gather_S100000_S2000000x1_S2000000_n_0_n_n_0_1_1 x i) : (⟨S100000, .f32⟩ : BufTy).Contents (Elt F) → (⟨S2000000x1, .i32⟩ : BufTy).Contents (Elt F) → (⟨S2000000, .f32⟩ : BufTy).Contents (Elt F)),
    binary main_v205 main_v212 main_v213 (mulf : (⟨S2000000, .f32⟩ : BufTy).Contents (Elt F) → (⟨S2000000, .f32⟩ : BufTy).Contents (Elt F) → (⟨S2000000, .f32⟩ : BufTy).Contents (Elt F)),
    unary main_v213 main_v214 (broadcastInDim S2000000x1 ![0] bcast_S2000000_S2000000x1_0 : (⟨S2000000, .f32⟩ : BufTy).Contents (Elt F) → (⟨S2000000x1, .f32⟩ : BufTy).Contents (Elt F)),
    nullary main_c_44 (constantI S_ 32 0#32),
    unary main_c_44 main_v215 (broadcastInDim S2000000 ![] bcast_S_S2000000 : (⟨S_, .i32⟩ : BufTy).Contents (Elt F) → (⟨S2000000, .i32⟩ : BufTy).Contents (Elt F)),
    binary main_v188 main_v215 main_v216 (cmpi .slt : (⟨S2000000, .i32⟩ : BufTy).Contents (Elt F) → (⟨S2000000, .i32⟩ : BufTy).Contents (Elt F) → (⟨S2000000, .i1⟩ : BufTy).Contents (Elt F)),
    nullary main_c_45 (constantI S_ 32 100000#32),
    unary main_c_45 main_v217 (broadcastInDim S2000000 ![] bcast_S_S2000000 : (⟨S_, .i32⟩ : BufTy).Contents (Elt F) → (⟨S2000000, .i32⟩ : BufTy).Contents (Elt F)),
    binary main_v188 main_v217 main_v218 (addi : (⟨S2000000, .i32⟩ : BufTy).Contents (Elt F) → (⟨S2000000, .i32⟩ : BufTy).Contents (Elt F) → (⟨S2000000, .i32⟩ : BufTy).Contents (Elt F)),
    ternary main_v216 main_v218 main_v188 main_v219 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v219 main_v220 (broadcastInDim S2000000x1 ![0] bcast_S2000000_S2000000x1_0 : (⟨S2000000, .i32⟩ : BufTy).Contents (Elt F) → (⟨S2000000x1, .i32⟩ : BufTy).Contents (Elt F)),
    binary main_v191 main_v220 main_v221 ((fun x i => Host.gather gather_S100000x64_S2000000x1_S2000000x64_1_0_n_n_0_1_164 x i) : (⟨S100000x64, .f32⟩ : BufTy).Contents (Elt F) → (⟨S2000000x1, .i32⟩ : BufTy).Contents (Elt F) → (⟨S2000000x64, .f32⟩ : BufTy).Contents (Elt F)),
    unary main_v214 main_v222 (broadcastInDim S2000000x64 ![0, 1] bcast_S2000000x1_S2000000x64_0_1 : (⟨S2000000x1, .f32⟩ : BufTy).Contents (Elt F) → (⟨S2000000x64, .f32⟩ : BufTy).Contents (Elt F)),
    binary main_v221 main_v222 main_v223 (mulf : (⟨S2000000x64, .f32⟩ : BufTy).Contents (Elt F) → (⟨S2000000x64, .f32⟩ : BufTy).Contents (Elt F) → (⟨S2000000x64, .f32⟩ : BufTy).Contents (Elt F)),
    nullary main_cst_46 (constant S_ .f32 0x00000000#32),
    unary main_cst_46 main_v224 (broadcastInDim S100000x64 ![] bcast_S_S100000x64 : (⟨S_, .f32⟩ : BufTy).Contents (Elt F) → (⟨S100000x64, .f32⟩ : BufTy).Contents (Elt F)),
    unary main_v190 main_v225 (broadcastInDim S2000000x1 ![0] bcast_S2000000_S2000000x1_0 : (⟨S2000000, .i32⟩ : BufTy).Contents (Elt F) → (⟨S2000000x1, .i32⟩ : BufTy).Contents (Elt F)),
    ternary main_v224 main_v225 main_v223 main_v226 ((fun x i u => Host.scatterAdd scatter_S100000x64_S2000000x1_S2000000x64_1_0_0_1 x i u) : (⟨S100000x64, .f32⟩ : BufTy).Contents (Elt F) → (⟨S2000000x1, .i32⟩ : BufTy).Contents (Elt F) → (⟨S2000000x64, .f32⟩ : BufTy).Contents (Elt F) → (⟨S100000x64, .f32⟩ : BufTy).Contents (Elt F)),
    unary main_v197 main_v227 (broadcastInDim S100000x1 ![0] bcast_S100000_S100000x1_0 : (⟨S100000, .f32⟩ : BufTy).Contents (Elt F) → (⟨S100000x1, .f32⟩ : BufTy).Contents (Elt F)),
    unary main_v227 main_v228 (broadcastInDim S100000x64 ![0, 1] bcast_S100000x1_S100000x64_0_1 : (⟨S100000x1, .f32⟩ : BufTy).Contents (Elt F) → (⟨S100000x64, .f32⟩ : BufTy).Contents (Elt F)),
    binary main_v191 main_v228 main_v229 (Host.divf : (⟨S100000x64, .f32⟩ : BufTy).Contents (Elt F) → (⟨S100000x64, .f32⟩ : BufTy).Contents (Elt F) → (⟨S100000x64, .f32⟩ : BufTy).Contents (Elt F)),
    binary main_v226 main_v229 main_v230 (addf : (⟨S100000x64, .f32⟩ : BufTy).Contents (Elt F) → (⟨S100000x64, .f32⟩ : BufTy).Contents (Elt F) → (⟨S100000x64, .f32⟩ : BufTy).Contents (Elt F)),
    unary main_arg33 main_v231 (broadcastInDim S1x64 ![1] bcast_S64_S1x64_1 : (⟨S64, .f32⟩ : BufTy).Contents (Elt F) → (⟨S1x64, .f32⟩ : BufTy).Contents (Elt F)),
    unary main_v231 main_v232 (broadcastInDim S100000x64 ![0, 1] bcast_S1x64_S100000x64_0_1 : (⟨S1x64, .f32⟩ : BufTy).Contents (Elt F) → (⟨S100000x64, .f32⟩ : BufTy).Contents (Elt F)),
    binary main_v230 main_v232 main_v233 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S100000x64, .f32⟩) main_call4_v0) (broadcastInDim S100000x64 ![] bcast_S_S100000x64),
    TRef.binary (TRef.of (T := ⟨S100000x64, .f32⟩) main_v233) (TRef.of (T := ⟨S100000x64, .f32⟩) main_call4_v0) (TRef.of (T := ⟨S100000x64, .f32⟩) main_v234) maximumf,
    nullary main_cst_47 (constant S_ .f32 0x00000000#32),
    binary main_v234 main_cst_47 main_v235 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_48 (constant S_ .f32 0x47C35000#32),
    unary main_cst_48 main_v236 (broadcastInDim S64 ![] bcast_S_S64 : (⟨S_, .f32⟩ : BufTy).Contents (Elt F) → (⟨S64, .f32⟩ : BufTy).Contents (Elt F)),
    binary main_v235 main_v236 main_v237 (Host.divf : (⟨S64, .f32⟩ : BufTy).Contents (Elt F) → (⟨S64, .f32⟩ : BufTy).Contents (Elt F) → (⟨S64, .f32⟩ : BufTy).Contents (Elt F)),
    unary main_v237 main_v238 (broadcastInDim S1x64 ![1] bcast_S64_S1x64_1 : (⟨S64, .f32⟩ : BufTy).Contents (Elt F) → (⟨S1x64, .f32⟩ : BufTy).Contents (Elt F)),
    unary main_v238 main_v239 (broadcastInDim S100000x64 ![0, 1] bcast_S1x64_S100000x64_0_1 : (⟨S1x64, .f32⟩ : BufTy).Contents (Elt F) → (⟨S100000x64, .f32⟩ : BufTy).Contents (Elt F)),
    binary main_v234 main_v239 main_v240 (subf : (⟨S100000x64, .f32⟩ : BufTy).Contents (Elt F) → (⟨S100000x64, .f32⟩ : BufTy).Contents (Elt F) → (⟨S100000x64, .f32⟩ : BufTy).Contents (Elt F)),
    binary main_v240 main_v240 main_v241 (mulf : (⟨S100000x64, .f32⟩ : BufTy).Contents (Elt F) → (⟨S100000x64, .f32⟩ : BufTy).Contents (Elt F) → (⟨S100000x64, .f32⟩ : BufTy).Contents (Elt F)),
    nullary main_cst_49 (constant S_ .f32 0x00000000#32),
    binary main_v241 main_cst_49 main_v242 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_50 (constant S_ .f32 0x47C35000#32),
    unary main_cst_50 main_v243 (broadcastInDim S64 ![] bcast_S_S64 : (⟨S_, .f32⟩ : BufTy).Contents (Elt F) → (⟨S64, .f32⟩ : BufTy).Contents (Elt F)),
    binary main_v242 main_v243 main_v244 (Host.divf : (⟨S64, .f32⟩ : BufTy).Contents (Elt F) → (⟨S64, .f32⟩ : BufTy).Contents (Elt F) → (⟨S64, .f32⟩ : BufTy).Contents (Elt F)),
    unary main_v237 main_v245 (broadcastInDim S1x64 ![1] bcast_S64_S1x64_1 : (⟨S64, .f32⟩ : BufTy).Contents (Elt F) → (⟨S1x64, .f32⟩ : BufTy).Contents (Elt F)),
    unary main_v245 main_v246 (broadcastInDim S100000x64 ![0, 1] bcast_S1x64_S100000x64_0_1 : (⟨S1x64, .f32⟩ : BufTy).Contents (Elt F) → (⟨S100000x64, .f32⟩ : BufTy).Contents (Elt F)),
    binary main_v234 main_v246 main_v247 (subf : (⟨S100000x64, .f32⟩ : BufTy).Contents (Elt F) → (⟨S100000x64, .f32⟩ : BufTy).Contents (Elt F) → (⟨S100000x64, .f32⟩ : BufTy).Contents (Elt F)),
    nullary main_cst_51 (constant S_ .f32 0x3727C5AC#32),
    unary main_cst_51 main_v248 (broadcastInDim S64 ![] bcast_S_S64 : (⟨S_, .f32⟩ : BufTy).Contents (Elt F) → (⟨S64, .f32⟩ : BufTy).Contents (Elt F)),
    binary main_v244 main_v248 main_v249 (addf : (⟨S64, .f32⟩ : BufTy).Contents (Elt F) → (⟨S64, .f32⟩ : BufTy).Contents (Elt F) → (⟨S64, .f32⟩ : BufTy).Contents (Elt F)),
    unary main_v249 main_v250 (Host.rsqrt : (⟨S64, .f32⟩ : BufTy).Contents (Elt F) → (⟨S64, .f32⟩ : BufTy).Contents (Elt F)),
    unary main_v250 main_v251 (broadcastInDim S1x64 ![1] bcast_S64_S1x64_1 : (⟨S64, .f32⟩ : BufTy).Contents (Elt F) → (⟨S1x64, .f32⟩ : BufTy).Contents (Elt F)),
    unary main_v251 main_v252 (broadcastInDim S100000x64 ![0, 1] bcast_S1x64_S100000x64_0_1 : (⟨S1x64, .f32⟩ : BufTy).Contents (Elt F) → (⟨S100000x64, .f32⟩ : BufTy).Contents (Elt F)),
    binary main_v247 main_v252 main_v253 (mulf : (⟨S100000x64, .f32⟩ : BufTy).Contents (Elt F) → (⟨S100000x64, .f32⟩ : BufTy).Contents (Elt F) → (⟨S100000x64, .f32⟩ : BufTy).Contents (Elt F)),
    unary main_arg38 main_v254 (broadcastInDim S1x64 ![1] bcast_S64_S1x64_1 : (⟨S64, .f32⟩ : BufTy).Contents (Elt F) → (⟨S1x64, .f32⟩ : BufTy).Contents (Elt F)),
    unary main_v254 main_v255 (broadcastInDim S100000x64 ![0, 1] bcast_S1x64_S100000x64_0_1 : (⟨S1x64, .f32⟩ : BufTy).Contents (Elt F) → (⟨S100000x64, .f32⟩ : BufTy).Contents (Elt F)),
    binary main_v253 main_v255 main_v256 (mulf : (⟨S100000x64, .f32⟩ : BufTy).Contents (Elt F) → (⟨S100000x64, .f32⟩ : BufTy).Contents (Elt F) → (⟨S100000x64, .f32⟩ : BufTy).Contents (Elt F)),
    unary main_arg39 main_v257 (broadcastInDim S1x64 ![1] bcast_S64_S1x64_1 : (⟨S64, .f32⟩ : BufTy).Contents (Elt F) → (⟨S1x64, .f32⟩ : BufTy).Contents (Elt F)),
    unary main_v257 main_v258 (broadcastInDim S100000x64 ![0, 1] bcast_S1x64_S100000x64_0_1 : (⟨S1x64, .f32⟩ : BufTy).Contents (Elt F) → (⟨S100000x64, .f32⟩ : BufTy).Contents (Elt F)),
    binary main_v256 main_v258 main_v259 (addf : (⟨S100000x64, .f32⟩ : BufTy).Contents (Elt F) → (⟨S100000x64, .f32⟩ : BufTy).Contents (Elt F) → (⟨S100000x64, .f32⟩ : BufTy).Contents (Elt F)),
    unary main_arg4 main_v260 ((extractStridedSlice S1x2000000 ![0, 0] · slices_S2x2000000_S1x2000000_0_0) : (⟨S2x2000000, .i32⟩ : BufTy).Contents (Elt F) → (⟨S1x2000000, .i32⟩ : BufTy).Contents (Elt F)),
    reshape main_v260 main_v261 rfl shapeCasts_S1x2000000_S2000000,
    unary main_arg4 main_v262 ((extractStridedSlice S1x2000000 ![1, 0] · slices_S2x2000000_S1x2000000_1_0) : (⟨S2x2000000, .i32⟩ : BufTy).Contents (Elt F) → (⟨S1x2000000, .i32⟩ : BufTy).Contents (Elt F)),
    reshape main_v262 main_v263 rfl shapeCasts_S1x2000000_S2000000,
    nullary main_c_52 (constantI S_ 32 0#32),
    unary main_c_52 main_v264 (broadcastInDim S2000000 ![] bcast_S_S2000000 : (⟨S_, .i32⟩ : BufTy).Contents (Elt F) → (⟨S2000000, .i32⟩ : BufTy).Contents (Elt F)),
    binary main_v261 main_v264 main_v265 (cmpi .slt : (⟨S2000000, .i32⟩ : BufTy).Contents (Elt F) → (⟨S2000000, .i32⟩ : BufTy).Contents (Elt F) → (⟨S2000000, .i1⟩ : BufTy).Contents (Elt F)),
    nullary main_c_53 (constantI S_ 32 100000#32),
    unary main_c_53 main_v266 (broadcastInDim S2000000 ![] bcast_S_S2000000 : (⟨S_, .i32⟩ : BufTy).Contents (Elt F) → (⟨S2000000, .i32⟩ : BufTy).Contents (Elt F)),
    binary main_v261 main_v266 main_v267 (addi : (⟨S2000000, .i32⟩ : BufTy).Contents (Elt F) → (⟨S2000000, .i32⟩ : BufTy).Contents (Elt F) → (⟨S2000000, .i32⟩ : BufTy).Contents (Elt F)),
    ternary main_v265 main_v267 main_v261 main_v268 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v268 main_v269 (broadcastInDim S2000000x1 ![0] bcast_S2000000_S2000000x1_0 : (⟨S2000000, .i32⟩ : BufTy).Contents (Elt F) → (⟨S2000000x1, .i32⟩ : BufTy).Contents (Elt F)),
    binary main_v186 main_v269 main_v270 ((fun x i => Host.gather gather_S100000x64_S2000000x1_S2000000x64_1_0_n_n_0_1_164 x i) : (⟨S100000x64, .f32⟩ : BufTy).Contents (Elt F) → (⟨S2000000x1, .i32⟩ : BufTy).Contents (Elt F) → (⟨S2000000x64, .f32⟩ : BufTy).Contents (Elt F)),
    nullary main_cst_54 (constant S_ .f32 0x00000000#32),
    unary main_cst_54 main_v271 (broadcastInDim S100000x64 ![] bcast_S_S100000x64 : (⟨S_, .f32⟩ : BufTy).Contents (Elt F) → (⟨S100000x64, .f32⟩ : BufTy).Contents (Elt F)),
    unary main_v263 main_v272 (broadcastInDim S2000000x1 ![0] bcast_S2000000_S2000000x1_0 : (⟨S2000000, .i32⟩ : BufTy).Contents (Elt F) → (⟨S2000000x1, .i32⟩ : BufTy).Contents (Elt F)),
    ternary main_v271 main_v272 main_v270 main_v273 ((fun x i u => Host.scatterAdd scatter_S100000x64_S2000000x1_S2000000x64_1_0_0_1 x i u) : (⟨S100000x64, .f32⟩ : BufTy).Contents (Elt F) → (⟨S2000000x1, .i32⟩ : BufTy).Contents (Elt F) → (⟨S2000000x64, .f32⟩ : BufTy).Contents (Elt F) → (⟨S100000x64, .f32⟩ : BufTy).Contents (Elt F)),
    nullary main_cst_55 (constant S_ .f32 0x3F800000#32),
    unary main_cst_55 main_v274 (broadcastInDim S2000000 ![] bcast_S_S2000000 : (⟨S_, .f32⟩ : BufTy).Contents (Elt F) → (⟨S2000000, .f32⟩ : BufTy).Contents (Elt F)),
    nullary main_cst_56 (constant S_ .f32 0x00000000#32),
    unary main_cst_56 main_v275 (broadcastInDim S100000 ![] bcast_S_S100000 : (⟨S_, .f32⟩ : BufTy).Contents (Elt F) → (⟨S100000, .f32⟩ : BufTy).Contents (Elt F)),
    unary main_v263 main_v276 (broadcastInDim S2000000x1 ![0] bcast_S2000000_S2000000x1_0 : (⟨S2000000, .i32⟩ : BufTy).Contents (Elt F) → (⟨S2000000x1, .i32⟩ : BufTy).Contents (Elt F)),
    ternary main_v275 main_v276 main_v274 main_v277 ((fun x i u => Host.scatterAdd scatter_S100000_S2000000x1_S2000000_n_0_0_1 x i u) : (⟨S100000, .f32⟩ : BufTy).Contents (Elt F) → (⟨S2000000x1, .i32⟩ : BufTy).Contents (Elt F) → (⟨S2000000, .f32⟩ : BufTy).Contents (Elt F) → (⟨S100000, .f32⟩ : BufTy).Contents (Elt F)),
    nullary main_cst_57 (constant S_ .f32 0x3F800000#32),
    unary main_cst_57 main_v278 (broadcastInDim S100000 ![] bcast_S_S100000 : (⟨S_, .f32⟩ : BufTy).Contents (Elt F) → (⟨S100000, .f32⟩ : BufTy).Contents (Elt F)),
    binary main_v277 main_v278 main_v279 (maximumf : (⟨S100000, .f32⟩ : BufTy).Contents (Elt F) → (⟨S100000, .f32⟩ : BufTy).Contents (Elt F) → (⟨S100000, .f32⟩ : BufTy).Contents (Elt F)),
    unary main_v279 main_v280 (broadcastInDim S100000x1 ![0] bcast_S100000_S100000x1_0 : (⟨S100000, .f32⟩ : BufTy).Contents (Elt F) → (⟨S100000x1, .f32⟩ : BufTy).Contents (Elt F)),
    unary main_v280 main_v281 (broadcastInDim S100000x64 ![0, 1] bcast_S100000x1_S100000x64_0_1 : (⟨S100000x1, .f32⟩ : BufTy).Contents (Elt F) → (⟨S100000x64, .f32⟩ : BufTy).Contents (Elt F)),
    binary main_v273 main_v281 main_v282 (Host.divf : (⟨S100000x64, .f32⟩ : BufTy).Contents (Elt F) → (⟨S100000x64, .f32⟩ : BufTy).Contents (Elt F) → (⟨S100000x64, .f32⟩ : BufTy).Contents (Elt F)),
    binary main_v282 main_arg21 main_v283 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg22 main_v284 (broadcastInDim S1x64 ![1] bcast_S64_S1x64_1 : (⟨S64, .f32⟩ : BufTy).Contents (Elt F) → (⟨S1x64, .f32⟩ : BufTy).Contents (Elt F)),
    unary main_v284 main_v285 (broadcastInDim S100000x64 ![0, 1] bcast_S1x64_S100000x64_0_1 : (⟨S1x64, .f32⟩ : BufTy).Contents (Elt F) → (⟨S100000x64, .f32⟩ : BufTy).Contents (Elt F)),
    binary main_v283 main_v285 main_v286 (addf : (⟨S100000x64, .f32⟩ : BufTy).Contents (Elt F) → (⟨S100000x64, .f32⟩ : BufTy).Contents (Elt F) → (⟨S100000x64, .f32⟩ : BufTy).Contents (Elt F)),
    binary main_arg1 main_arg23 main_v287 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v286 main_v287 main_v288 (addf : (⟨S100000x64, .f32⟩ : BufTy).Contents (Elt F) → (⟨S100000x64, .f32⟩ : BufTy).Contents (Elt F) → (⟨S100000x64, .f32⟩ : BufTy).Contents (Elt F)),
    binary main_v288 main_v288 main_v289 (mulf : (⟨S100000x64, .f32⟩ : BufTy).Contents (Elt F) → (⟨S100000x64, .f32⟩ : BufTy).Contents (Elt F) → (⟨S100000x64, .f32⟩ : BufTy).Contents (Elt F)),
    nullary main_cst_58 (constant S_ .f32 0x00000000#32),
    binary main_v289 main_cst_58 main_v290 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_v290 main_v291 (broadcastInDim S100000x1 ![0] bcast_S100000_S100000x1_0 : (⟨S100000, .f32⟩ : BufTy).Contents (Elt F) → (⟨S100000x1, .f32⟩ : BufTy).Contents (Elt F)),
    unary main_v291 main_v292 (Host.sqrt : (⟨S100000x1, .f32⟩ : BufTy).Contents (Elt F) → (⟨S100000x1, .f32⟩ : BufTy).Contents (Elt F)),
    nullary main_cst_59 (constant S_ .f32 0x2B8CBCCC#32),
    unary main_cst_59 main_v293 (broadcastInDim S100000x1 ![] bcast_S_S100000x1 : (⟨S_, .f32⟩ : BufTy).Contents (Elt F) → (⟨S100000x1, .f32⟩ : BufTy).Contents (Elt F)),
    binary main_v292 main_v293 main_v294 (maximumf : (⟨S100000x1, .f32⟩ : BufTy).Contents (Elt F) → (⟨S100000x1, .f32⟩ : BufTy).Contents (Elt F) → (⟨S100000x1, .f32⟩ : BufTy).Contents (Elt F)),
    unary main_v294 main_v295 (broadcastInDim S100000x64 ![0, 1] bcast_S100000x1_S100000x64_0_1 : (⟨S100000x1, .f32⟩ : BufTy).Contents (Elt F) → (⟨S100000x64, .f32⟩ : BufTy).Contents (Elt F)),
    binary main_v288 main_v295 main_v296 (Host.divf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S100000x64, .f32⟩) main_call5_v0) (broadcastInDim S100000x64 ![] bcast_S_S100000x64),
    TRef.binary (TRef.of (T := ⟨S100000x64, .f32⟩) main_v296) (TRef.of (T := ⟨S100000x64, .f32⟩) main_call5_v0) (TRef.of (T := ⟨S100000x64, .f32⟩) main_v297) maximumf,
    unary main_arg6 main_v298 ((extractStridedSlice S1x2000000 ![0, 0] · slices_S2x2000000_S1x2000000_0_0) : (⟨S2x2000000, .i32⟩ : BufTy).Contents (Elt F) → (⟨S1x2000000, .i32⟩ : BufTy).Contents (Elt F)),
    reshape main_v298 main_v299 rfl shapeCasts_S1x2000000_S2000000,
    unary main_arg6 main_v300 ((extractStridedSlice S1x2000000 ![1, 0] · slices_S2x2000000_S1x2000000_1_0) : (⟨S2x2000000, .i32⟩ : BufTy).Contents (Elt F) → (⟨S1x2000000, .i32⟩ : BufTy).Contents (Elt F)),
    reshape main_v300 main_v301 rfl shapeCasts_S1x2000000_S2000000,
    nullary main_c_60 (constantI S_ 32 0#32),
    unary main_c_60 main_v302 (broadcastInDim S2000000 ![] bcast_S_S2000000 : (⟨S_, .i32⟩ : BufTy).Contents (Elt F) → (⟨S2000000, .i32⟩ : BufTy).Contents (Elt F)),
    binary main_v299 main_v302 main_v303 (cmpi .slt : (⟨S2000000, .i32⟩ : BufTy).Contents (Elt F) → (⟨S2000000, .i32⟩ : BufTy).Contents (Elt F) → (⟨S2000000, .i1⟩ : BufTy).Contents (Elt F)),
    nullary main_c_61 (constantI S_ 32 100000#32),
    unary main_c_61 main_v304 (broadcastInDim S2000000 ![] bcast_S_S2000000 : (⟨S_, .i32⟩ : BufTy).Contents (Elt F) → (⟨S2000000, .i32⟩ : BufTy).Contents (Elt F)),
    binary main_v299 main_v304 main_v305 (addi : (⟨S2000000, .i32⟩ : BufTy).Contents (Elt F) → (⟨S2000000, .i32⟩ : BufTy).Contents (Elt F) → (⟨S2000000, .i32⟩ : BufTy).Contents (Elt F)),
    ternary main_v303 main_v305 main_v299 main_v306 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v306 main_v307 (broadcastInDim S2000000x1 ![0] bcast_S2000000_S2000000x1_0 : (⟨S2000000, .i32⟩ : BufTy).Contents (Elt F) → (⟨S2000000x1, .i32⟩ : BufTy).Contents (Elt F)),
    binary main_v186 main_v307 main_v308 ((fun x i => Host.gather gather_S100000x64_S2000000x1_S2000000x64_1_0_n_n_0_1_164 x i) : (⟨S100000x64, .f32⟩ : BufTy).Contents (Elt F) → (⟨S2000000x1, .i32⟩ : BufTy).Contents (Elt F) → (⟨S2000000x64, .f32⟩ : BufTy).Contents (Elt F)),
    nullary main_cst_62 (constant S_ .f32 0x00000000#32),
    unary main_cst_62 main_v309 (broadcastInDim S100000x64 ![] bcast_S_S100000x64 : (⟨S_, .f32⟩ : BufTy).Contents (Elt F) → (⟨S100000x64, .f32⟩ : BufTy).Contents (Elt F)),
    unary main_v301 main_v310 (broadcastInDim S2000000x1 ![0] bcast_S2000000_S2000000x1_0 : (⟨S2000000, .i32⟩ : BufTy).Contents (Elt F) → (⟨S2000000x1, .i32⟩ : BufTy).Contents (Elt F)),
    ternary main_v309 main_v310 main_v308 main_v311 ((fun x i u => Host.scatterAdd scatter_S100000x64_S2000000x1_S2000000x64_1_0_0_1 x i u) : (⟨S100000x64, .f32⟩ : BufTy).Contents (Elt F) → (⟨S2000000x1, .i32⟩ : BufTy).Contents (Elt F) → (⟨S2000000x64, .f32⟩ : BufTy).Contents (Elt F) → (⟨S100000x64, .f32⟩ : BufTy).Contents (Elt F)),
    nullary main_cst_63 (constant S_ .f32 0x3F800000#32),
    unary main_cst_63 main_v312 (broadcastInDim S2000000 ![] bcast_S_S2000000 : (⟨S_, .f32⟩ : BufTy).Contents (Elt F) → (⟨S2000000, .f32⟩ : BufTy).Contents (Elt F)),
    nullary main_cst_64 (constant S_ .f32 0x00000000#32),
    unary main_cst_64 main_v313 (broadcastInDim S100000 ![] bcast_S_S100000 : (⟨S_, .f32⟩ : BufTy).Contents (Elt F) → (⟨S100000, .f32⟩ : BufTy).Contents (Elt F)),
    unary main_v301 main_v314 (broadcastInDim S2000000x1 ![0] bcast_S2000000_S2000000x1_0 : (⟨S2000000, .i32⟩ : BufTy).Contents (Elt F) → (⟨S2000000x1, .i32⟩ : BufTy).Contents (Elt F)),
    ternary main_v313 main_v314 main_v312 main_v315 ((fun x i u => Host.scatterAdd scatter_S100000_S2000000x1_S2000000_n_0_0_1 x i u) : (⟨S100000, .f32⟩ : BufTy).Contents (Elt F) → (⟨S2000000x1, .i32⟩ : BufTy).Contents (Elt F) → (⟨S2000000, .f32⟩ : BufTy).Contents (Elt F) → (⟨S100000, .f32⟩ : BufTy).Contents (Elt F)),
    nullary main_cst_65 (constant S_ .f32 0x3F800000#32),
    unary main_cst_65 main_v316 (broadcastInDim S100000 ![] bcast_S_S100000 : (⟨S_, .f32⟩ : BufTy).Contents (Elt F) → (⟨S100000, .f32⟩ : BufTy).Contents (Elt F)),
    binary main_v315 main_v316 main_v317 (maximumf : (⟨S100000, .f32⟩ : BufTy).Contents (Elt F) → (⟨S100000, .f32⟩ : BufTy).Contents (Elt F) → (⟨S100000, .f32⟩ : BufTy).Contents (Elt F)),
    unary main_v317 main_v318 (broadcastInDim S100000x1 ![0] bcast_S100000_S100000x1_0 : (⟨S100000, .f32⟩ : BufTy).Contents (Elt F) → (⟨S100000x1, .f32⟩ : BufTy).Contents (Elt F)),
    unary main_v318 main_v319 (broadcastInDim S100000x64 ![0, 1] bcast_S100000x1_S100000x64_0_1 : (⟨S100000x1, .f32⟩ : BufTy).Contents (Elt F) → (⟨S100000x64, .f32⟩ : BufTy).Contents (Elt F)),
    binary main_v311 main_v319 main_v320 (Host.divf : (⟨S100000x64, .f32⟩ : BufTy).Contents (Elt F) → (⟨S100000x64, .f32⟩ : BufTy).Contents (Elt F) → (⟨S100000x64, .f32⟩ : BufTy).Contents (Elt F)),
    binary main_v320 main_arg24 main_v321 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg25 main_v322 (broadcastInDim S1x64 ![1] bcast_S64_S1x64_1 : (⟨S64, .f32⟩ : BufTy).Contents (Elt F) → (⟨S1x64, .f32⟩ : BufTy).Contents (Elt F)),
    unary main_v322 main_v323 (broadcastInDim S100000x64 ![0, 1] bcast_S1x64_S100000x64_0_1 : (⟨S1x64, .f32⟩ : BufTy).Contents (Elt F) → (⟨S100000x64, .f32⟩ : BufTy).Contents (Elt F)),
    binary main_v321 main_v323 main_v324 (addf : (⟨S100000x64, .f32⟩ : BufTy).Contents (Elt F) → (⟨S100000x64, .f32⟩ : BufTy).Contents (Elt F) → (⟨S100000x64, .f32⟩ : BufTy).Contents (Elt F)),
    binary main_v297 main_arg26 main_v325 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v324 main_v325 main_v326 (addf : (⟨S100000x64, .f32⟩ : BufTy).Contents (Elt F) → (⟨S100000x64, .f32⟩ : BufTy).Contents (Elt F) → (⟨S100000x64, .f32⟩ : BufTy).Contents (Elt F)),
    binary main_v326 main_v326 main_v327 (mulf : (⟨S100000x64, .f32⟩ : BufTy).Contents (Elt F) → (⟨S100000x64, .f32⟩ : BufTy).Contents (Elt F) → (⟨S100000x64, .f32⟩ : BufTy).Contents (Elt F)),
    nullary main_cst_66 (constant S_ .f32 0x00000000#32),
    binary main_v327 main_cst_66 main_v328 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_v328 main_v329 (broadcastInDim S100000x1 ![0] bcast_S100000_S100000x1_0 : (⟨S100000, .f32⟩ : BufTy).Contents (Elt F) → (⟨S100000x1, .f32⟩ : BufTy).Contents (Elt F)),
    unary main_v329 main_v330 (Host.sqrt : (⟨S100000x1, .f32⟩ : BufTy).Contents (Elt F) → (⟨S100000x1, .f32⟩ : BufTy).Contents (Elt F)),
    nullary main_cst_67 (constant S_ .f32 0x2B8CBCCC#32),
    unary main_cst_67 main_v331 (broadcastInDim S100000x1 ![] bcast_S_S100000x1 : (⟨S_, .f32⟩ : BufTy).Contents (Elt F) → (⟨S100000x1, .f32⟩ : BufTy).Contents (Elt F)),
    binary main_v330 main_v331 main_v332 (maximumf : (⟨S100000x1, .f32⟩ : BufTy).Contents (Elt F) → (⟨S100000x1, .f32⟩ : BufTy).Contents (Elt F) → (⟨S100000x1, .f32⟩ : BufTy).Contents (Elt F)),
    unary main_v332 main_v333 (broadcastInDim S100000x64 ![0, 1] bcast_S100000x1_S100000x64_0_1 : (⟨S100000x1, .f32⟩ : BufTy).Contents (Elt F) → (⟨S100000x64, .f32⟩ : BufTy).Contents (Elt F)),
    binary main_v326 main_v333 main_v334 (Host.divf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S100000x64, .f32⟩) main_call6_v0) (broadcastInDim S100000x64 ![] bcast_S_S100000x64),
    TRef.binary (TRef.of (T := ⟨S100000x64, .f32⟩) main_v334) (TRef.of (T := ⟨S100000x64, .f32⟩) main_call6_v0) (TRef.of (T := ⟨S100000x64, .f32⟩) main_v335) maximumf,
    unary main_arg10 main_v336 ((extractStridedSlice S1x2000000 ![0, 0] · slices_S2x2000000_S1x2000000_0_0) : (⟨S2x2000000, .i32⟩ : BufTy).Contents (Elt F) → (⟨S1x2000000, .i32⟩ : BufTy).Contents (Elt F)),
    reshape main_v336 main_v337 rfl shapeCasts_S1x2000000_S2000000,
    unary main_arg10 main_v338 ((extractStridedSlice S1x2000000 ![1, 0] · slices_S2x2000000_S1x2000000_1_0) : (⟨S2x2000000, .i32⟩ : BufTy).Contents (Elt F) → (⟨S1x2000000, .i32⟩ : BufTy).Contents (Elt F)),
    reshape main_v338 main_v339 rfl shapeCasts_S1x2000000_S2000000,
    nullary main_c_68 (constantI S_ 32 0#32),
    unary main_c_68 main_v340 (broadcastInDim S2000000 ![] bcast_S_S2000000 : (⟨S_, .i32⟩ : BufTy).Contents (Elt F) → (⟨S2000000, .i32⟩ : BufTy).Contents (Elt F)),
    binary main_v337 main_v340 main_v341 (cmpi .slt : (⟨S2000000, .i32⟩ : BufTy).Contents (Elt F) → (⟨S2000000, .i32⟩ : BufTy).Contents (Elt F) → (⟨S2000000, .i1⟩ : BufTy).Contents (Elt F)),
    nullary main_c_69 (constantI S_ 32 100000#32),
    unary main_c_69 main_v342 (broadcastInDim S2000000 ![] bcast_S_S2000000 : (⟨S_, .i32⟩ : BufTy).Contents (Elt F) → (⟨S2000000, .i32⟩ : BufTy).Contents (Elt F)),
    binary main_v337 main_v342 main_v343 (addi : (⟨S2000000, .i32⟩ : BufTy).Contents (Elt F) → (⟨S2000000, .i32⟩ : BufTy).Contents (Elt F) → (⟨S2000000, .i32⟩ : BufTy).Contents (Elt F)),
    ternary main_v341 main_v343 main_v337 main_v344 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v344 main_v345 (broadcastInDim S2000000x1 ![0] bcast_S2000000_S2000000x1_0 : (⟨S2000000, .i32⟩ : BufTy).Contents (Elt F) → (⟨S2000000x1, .i32⟩ : BufTy).Contents (Elt F)),
    binary main_v259 main_v345 main_v346 ((fun x i => Host.gather gather_S100000x64_S2000000x1_S2000000x64_1_0_n_n_0_1_164 x i) : (⟨S100000x64, .f32⟩ : BufTy).Contents (Elt F) → (⟨S2000000x1, .i32⟩ : BufTy).Contents (Elt F) → (⟨S2000000x64, .f32⟩ : BufTy).Contents (Elt F)),
    nullary main_cst_70 (constant S_ .f32 0x00000000#32),
    unary main_cst_70 main_v347 (broadcastInDim S100000x64 ![] bcast_S_S100000x64 : (⟨S_, .f32⟩ : BufTy).Contents (Elt F) → (⟨S100000x64, .f32⟩ : BufTy).Contents (Elt F)),
    unary main_v339 main_v348 (broadcastInDim S2000000x1 ![0] bcast_S2000000_S2000000x1_0 : (⟨S2000000, .i32⟩ : BufTy).Contents (Elt F) → (⟨S2000000x1, .i32⟩ : BufTy).Contents (Elt F)),
    ternary main_v347 main_v348 main_v346 main_v349 ((fun x i u => Host.scatterAdd scatter_S100000x64_S2000000x1_S2000000x64_1_0_0_1 x i u) : (⟨S100000x64, .f32⟩ : BufTy).Contents (Elt F) → (⟨S2000000x1, .i32⟩ : BufTy).Contents (Elt F) → (⟨S2000000x64, .f32⟩ : BufTy).Contents (Elt F) → (⟨S100000x64, .f32⟩ : BufTy).Contents (Elt F)),
    nullary main_cst_71 (constant S_ .f32 0x3F800000#32),
    unary main_cst_71 main_v350 (broadcastInDim S2000000 ![] bcast_S_S2000000 : (⟨S_, .f32⟩ : BufTy).Contents (Elt F) → (⟨S2000000, .f32⟩ : BufTy).Contents (Elt F)),
    nullary main_cst_72 (constant S_ .f32 0x00000000#32),
    unary main_cst_72 main_v351 (broadcastInDim S100000 ![] bcast_S_S100000 : (⟨S_, .f32⟩ : BufTy).Contents (Elt F) → (⟨S100000, .f32⟩ : BufTy).Contents (Elt F)),
    unary main_v339 main_v352 (broadcastInDim S2000000x1 ![0] bcast_S2000000_S2000000x1_0 : (⟨S2000000, .i32⟩ : BufTy).Contents (Elt F) → (⟨S2000000x1, .i32⟩ : BufTy).Contents (Elt F)),
    ternary main_v351 main_v352 main_v350 main_v353 ((fun x i u => Host.scatterAdd scatter_S100000_S2000000x1_S2000000_n_0_0_1 x i u) : (⟨S100000, .f32⟩ : BufTy).Contents (Elt F) → (⟨S2000000x1, .i32⟩ : BufTy).Contents (Elt F) → (⟨S2000000, .f32⟩ : BufTy).Contents (Elt F) → (⟨S100000, .f32⟩ : BufTy).Contents (Elt F)),
    nullary main_cst_73 (constant S_ .f32 0x3F800000#32),
    unary main_cst_73 main_v354 (broadcastInDim S100000 ![] bcast_S_S100000 : (⟨S_, .f32⟩ : BufTy).Contents (Elt F) → (⟨S100000, .f32⟩ : BufTy).Contents (Elt F)),
    binary main_v353 main_v354 main_v355 (maximumf : (⟨S100000, .f32⟩ : BufTy).Contents (Elt F) → (⟨S100000, .f32⟩ : BufTy).Contents (Elt F) → (⟨S100000, .f32⟩ : BufTy).Contents (Elt F)),
    unary main_v355 main_v356 (broadcastInDim S100000x1 ![0] bcast_S100000_S100000x1_0 : (⟨S100000, .f32⟩ : BufTy).Contents (Elt F) → (⟨S100000x1, .f32⟩ : BufTy).Contents (Elt F)),
    unary main_v356 main_v357 (broadcastInDim S100000x64 ![0, 1] bcast_S100000x1_S100000x64_0_1 : (⟨S100000x1, .f32⟩ : BufTy).Contents (Elt F) → (⟨S100000x64, .f32⟩ : BufTy).Contents (Elt F)),
    binary main_v349 main_v357 main_v358 (Host.divf : (⟨S100000x64, .f32⟩ : BufTy).Contents (Elt F) → (⟨S100000x64, .f32⟩ : BufTy).Contents (Elt F) → (⟨S100000x64, .f32⟩ : BufTy).Contents (Elt F)),
    binary main_v358 main_arg27 main_v359 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg28 main_v360 (broadcastInDim S1x64 ![1] bcast_S64_S1x64_1 : (⟨S64, .f32⟩ : BufTy).Contents (Elt F) → (⟨S1x64, .f32⟩ : BufTy).Contents (Elt F)),
    unary main_v360 main_v361 (broadcastInDim S100000x64 ![0, 1] bcast_S1x64_S100000x64_0_1 : (⟨S1x64, .f32⟩ : BufTy).Contents (Elt F) → (⟨S100000x64, .f32⟩ : BufTy).Contents (Elt F)),
    binary main_v359 main_v361 main_v362 (addf : (⟨S100000x64, .f32⟩ : BufTy).Contents (Elt F) → (⟨S100000x64, .f32⟩ : BufTy).Contents (Elt F) → (⟨S100000x64, .f32⟩ : BufTy).Contents (Elt F)),
    binary main_v335 main_arg29 main_v363 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v362 main_v363 main_v364 (addf : (⟨S100000x64, .f32⟩ : BufTy).Contents (Elt F) → (⟨S100000x64, .f32⟩ : BufTy).Contents (Elt F) → (⟨S100000x64, .f32⟩ : BufTy).Contents (Elt F)),
    binary main_v364 main_v364 main_v365 (mulf : (⟨S100000x64, .f32⟩ : BufTy).Contents (Elt F) → (⟨S100000x64, .f32⟩ : BufTy).Contents (Elt F) → (⟨S100000x64, .f32⟩ : BufTy).Contents (Elt F)),
    nullary main_cst_74 (constant S_ .f32 0x00000000#32),
    binary main_v365 main_cst_74 main_v366 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_v366 main_v367 (broadcastInDim S100000x1 ![0] bcast_S100000_S100000x1_0 : (⟨S100000, .f32⟩ : BufTy).Contents (Elt F) → (⟨S100000x1, .f32⟩ : BufTy).Contents (Elt F)),
    unary main_v367 main_v368 (Host.sqrt : (⟨S100000x1, .f32⟩ : BufTy).Contents (Elt F) → (⟨S100000x1, .f32⟩ : BufTy).Contents (Elt F)),
    nullary main_cst_75 (constant S_ .f32 0x2B8CBCCC#32),
    unary main_cst_75 main_v369 (broadcastInDim S100000x1 ![] bcast_S_S100000x1 : (⟨S_, .f32⟩ : BufTy).Contents (Elt F) → (⟨S100000x1, .f32⟩ : BufTy).Contents (Elt F)),
    binary main_v368 main_v369 main_v370 (maximumf : (⟨S100000x1, .f32⟩ : BufTy).Contents (Elt F) → (⟨S100000x1, .f32⟩ : BufTy).Contents (Elt F) → (⟨S100000x1, .f32⟩ : BufTy).Contents (Elt F)),
    unary main_v370 main_v371 (broadcastInDim S100000x64 ![0, 1] bcast_S100000x1_S100000x64_0_1 : (⟨S100000x1, .f32⟩ : BufTy).Contents (Elt F) → (⟨S100000x64, .f32⟩ : BufTy).Contents (Elt F)),
    binary main_v364 main_v371 main_v372 (Host.divf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S100000x64, .f32⟩) main_call7_v0) (broadcastInDim S100000x64 ![] bcast_S_S100000x64),
    TRef.binary (TRef.of (T := ⟨S100000x64, .f32⟩) main_v372) (TRef.of (T := ⟨S100000x64, .f32⟩) main_call7_v0) (TRef.of (T := ⟨S100000x64, .f32⟩) main_v373) maximumf,
    unary main_arg8 main_v374 ((extractStridedSlice S1x2000000 ![0, 0] · slices_S2x2000000_S1x2000000_0_0) : (⟨S2x2000000, .i32⟩ : BufTy).Contents (Elt F) → (⟨S1x2000000, .i32⟩ : BufTy).Contents (Elt F)),
    reshape main_v374 main_v375 rfl shapeCasts_S1x2000000_S2000000,
    unary main_arg8 main_v376 ((extractStridedSlice S1x2000000 ![1, 0] · slices_S2x2000000_S1x2000000_1_0) : (⟨S2x2000000, .i32⟩ : BufTy).Contents (Elt F) → (⟨S1x2000000, .i32⟩ : BufTy).Contents (Elt F)),
    reshape main_v376 main_v377 rfl shapeCasts_S1x2000000_S2000000,
    binary main_v373 main_arg34 main_v378 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_cst_76 (constant S_ .f32 0x3F800000#32),
    unary main_cst_76 main_v379 (broadcastInDim S2000000 ![] bcast_S_S2000000 : (⟨S_, .f32⟩ : BufTy).Contents (Elt F) → (⟨S2000000, .f32⟩ : BufTy).Contents (Elt F)),
    nullary main_cst_77 (constant S_ .f32 0x00000000#32),
    unary main_cst_77 main_v380 (broadcastInDim S100000 ![] bcast_S_S100000 : (⟨S_, .f32⟩ : BufTy).Contents (Elt F) → (⟨S100000, .f32⟩ : BufTy).Contents (Elt F)),
    unary main_v377 main_v381 (broadcastInDim S2000000x1 ![0] bcast_S2000000_S2000000x1_0 : (⟨S2000000, .i32⟩ : BufTy).Contents (Elt F) → (⟨S2000000x1, .i32⟩ : BufTy).Contents (Elt F)),
    ternary main_v380 main_v381 main_v379 main_v382 ((fun x i u => Host.scatterAdd scatter_S100000_S2000000x1_S2000000_n_0_0_1 x i u) : (⟨S100000, .f32⟩ : BufTy).Contents (Elt F) → (⟨S2000000x1, .i32⟩ : BufTy).Contents (Elt F) → (⟨S2000000, .f32⟩ : BufTy).Contents (Elt F) → (⟨S100000, .f32⟩ : BufTy).Contents (Elt F)),
    nullary main_cst_78 (constant S_ .f32 0x3F800000#32),
    unary main_cst_78 main_v383 (broadcastInDim S100000 ![] bcast_S_S100000 : (⟨S_, .f32⟩ : BufTy).Contents (Elt F) → (⟨S100000, .f32⟩ : BufTy).Contents (Elt F)),
    binary main_v382 main_v383 main_v384 (addf : (⟨S100000, .f32⟩ : BufTy).Contents (Elt F) → (⟨S100000, .f32⟩ : BufTy).Contents (Elt F) → (⟨S100000, .f32⟩ : BufTy).Contents (Elt F)),
    unary main_v384 main_v385 (Host.rsqrt : (⟨S100000, .f32⟩ : BufTy).Contents (Elt F) → (⟨S100000, .f32⟩ : BufTy).Contents (Elt F)),
    nullary main_c_79 (constantI S_ 32 0#32),
    unary main_c_79 main_v386 (broadcastInDim S2000000 ![] bcast_S_S2000000 : (⟨S_, .i32⟩ : BufTy).Contents (Elt F) → (⟨S2000000, .i32⟩ : BufTy).Contents (Elt F)),
    binary main_v375 main_v386 main_v387 (cmpi .slt : (⟨S2000000, .i32⟩ : BufTy).Contents (Elt F) → (⟨S2000000, .i32⟩ : BufTy).Contents (Elt F) → (⟨S2000000, .i1⟩ : BufTy).Contents (Elt F)),
    nullary main_c_80 (constantI S_ 32 100000#32),
    unary main_c_80 main_v388 (broadcastInDim S2000000 ![] bcast_S_S2000000 : (⟨S_, .i32⟩ : BufTy).Contents (Elt F) → (⟨S2000000, .i32⟩ : BufTy).Contents (Elt F)),
    binary main_v375 main_v388 main_v389 (addi : (⟨S2000000, .i32⟩ : BufTy).Contents (Elt F) → (⟨S2000000, .i32⟩ : BufTy).Contents (Elt F) → (⟨S2000000, .i32⟩ : BufTy).Contents (Elt F)),
    ternary main_v387 main_v389 main_v375 main_v390 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v390 main_v391 (broadcastInDim S2000000x1 ![0] bcast_S2000000_S2000000x1_0 : (⟨S2000000, .i32⟩ : BufTy).Contents (Elt F) → (⟨S2000000x1, .i32⟩ : BufTy).Contents (Elt F)),
    binary main_v385 main_v391 main_v392 ((fun x i => Host.gather gather_S100000_S2000000x1_S2000000_n_0_n_n_0_1_1 x i) : (⟨S100000, .f32⟩ : BufTy).Contents (Elt F) → (⟨S2000000x1, .i32⟩ : BufTy).Contents (Elt F) → (⟨S2000000, .f32⟩ : BufTy).Contents (Elt F)),
    nullary main_c_81 (constantI S_ 32 0#32),
    unary main_c_81 main_v393 (broadcastInDim S2000000 ![] bcast_S_S2000000 : (⟨S_, .i32⟩ : BufTy).Contents (Elt F) → (⟨S2000000, .i32⟩ : BufTy).Contents (Elt F)),
    binary main_v377 main_v393 main_v394 (cmpi .slt : (⟨S2000000, .i32⟩ : BufTy).Contents (Elt F) → (⟨S2000000, .i32⟩ : BufTy).Contents (Elt F) → (⟨S2000000, .i1⟩ : BufTy).Contents (Elt F)),
    nullary main_c_82 (constantI S_ 32 100000#32),
    unary main_c_82 main_v395 (broadcastInDim S2000000 ![] bcast_S_S2000000 : (⟨S_, .i32⟩ : BufTy).Contents (Elt F) → (⟨S2000000, .i32⟩ : BufTy).Contents (Elt F)),
    binary main_v377 main_v395 main_v396 (addi : (⟨S2000000, .i32⟩ : BufTy).Contents (Elt F) → (⟨S2000000, .i32⟩ : BufTy).Contents (Elt F) → (⟨S2000000, .i32⟩ : BufTy).Contents (Elt F)),
    ternary main_v394 main_v396 main_v377 main_v397 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v397 main_v398 (broadcastInDim S2000000x1 ![0] bcast_S2000000_S2000000x1_0 : (⟨S2000000, .i32⟩ : BufTy).Contents (Elt F) → (⟨S2000000x1, .i32⟩ : BufTy).Contents (Elt F)),
    binary main_v385 main_v398 main_v399 ((fun x i => Host.gather gather_S100000_S2000000x1_S2000000_n_0_n_n_0_1_1 x i) : (⟨S100000, .f32⟩ : BufTy).Contents (Elt F) → (⟨S2000000x1, .i32⟩ : BufTy).Contents (Elt F) → (⟨S2000000, .f32⟩ : BufTy).Contents (Elt F)),
    binary main_v392 main_v399 main_v400 (mulf : (⟨S2000000, .f32⟩ : BufTy).Contents (Elt F) → (⟨S2000000, .f32⟩ : BufTy).Contents (Elt F) → (⟨S2000000, .f32⟩ : BufTy).Contents (Elt F)),
    unary main_v400 main_v401 (broadcastInDim S2000000x1 ![0] bcast_S2000000_S2000000x1_0 : (⟨S2000000, .f32⟩ : BufTy).Contents (Elt F) → (⟨S2000000x1, .f32⟩ : BufTy).Contents (Elt F)),
    nullary main_c_83 (constantI S_ 32 0#32),
    unary main_c_83 main_v402 (broadcastInDim S2000000 ![] bcast_S_S2000000 : (⟨S_, .i32⟩ : BufTy).Contents (Elt F) → (⟨S2000000, .i32⟩ : BufTy).Contents (Elt F)),
    binary main_v375 main_v402 main_v403 (cmpi .slt : (⟨S2000000, .i32⟩ : BufTy).Contents (Elt F) → (⟨S2000000, .i32⟩ : BufTy).Contents (Elt F) → (⟨S2000000, .i1⟩ : BufTy).Contents (Elt F)),
    nullary main_c_84 (constantI S_ 32 100000#32),
    unary main_c_84 main_v404 (broadcastInDim S2000000 ![] bcast_S_S2000000 : (⟨S_, .i32⟩ : BufTy).Contents (Elt F) → (⟨S2000000, .i32⟩ : BufTy).Contents (Elt F)),
    binary main_v375 main_v404 main_v405 (addi : (⟨S2000000, .i32⟩ : BufTy).Contents (Elt F) → (⟨S2000000, .i32⟩ : BufTy).Contents (Elt F) → (⟨S2000000, .i32⟩ : BufTy).Contents (Elt F)),
    ternary main_v403 main_v405 main_v375 main_v406 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v406 main_v407 (broadcastInDim S2000000x1 ![0] bcast_S2000000_S2000000x1_0 : (⟨S2000000, .i32⟩ : BufTy).Contents (Elt F) → (⟨S2000000x1, .i32⟩ : BufTy).Contents (Elt F)),
    binary main_v378 main_v407 main_v408 ((fun x i => Host.gather gather_S100000x64_S2000000x1_S2000000x64_1_0_n_n_0_1_164 x i) : (⟨S100000x64, .f32⟩ : BufTy).Contents (Elt F) → (⟨S2000000x1, .i32⟩ : BufTy).Contents (Elt F) → (⟨S2000000x64, .f32⟩ : BufTy).Contents (Elt F)),
    unary main_v401 main_v409 (broadcastInDim S2000000x64 ![0, 1] bcast_S2000000x1_S2000000x64_0_1 : (⟨S2000000x1, .f32⟩ : BufTy).Contents (Elt F) → (⟨S2000000x64, .f32⟩ : BufTy).Contents (Elt F)),
    binary main_v408 main_v409 main_v410 (mulf : (⟨S2000000x64, .f32⟩ : BufTy).Contents (Elt F) → (⟨S2000000x64, .f32⟩ : BufTy).Contents (Elt F) → (⟨S2000000x64, .f32⟩ : BufTy).Contents (Elt F)),
    nullary main_cst_85 (constant S_ .f32 0x00000000#32),
    unary main_cst_85 main_v411 (broadcastInDim S100000x64 ![] bcast_S_S100000x64 : (⟨S_, .f32⟩ : BufTy).Contents (Elt F) → (⟨S100000x64, .f32⟩ : BufTy).Contents (Elt F)),
    unary main_v377 main_v412 (broadcastInDim S2000000x1 ![0] bcast_S2000000_S2000000x1_0 : (⟨S2000000, .i32⟩ : BufTy).Contents (Elt F) → (⟨S2000000x1, .i32⟩ : BufTy).Contents (Elt F)),
    ternary main_v411 main_v412 main_v410 main_v413 ((fun x i u => Host.scatterAdd scatter_S100000x64_S2000000x1_S2000000x64_1_0_0_1 x i u) : (⟨S100000x64, .f32⟩ : BufTy).Contents (Elt F) → (⟨S2000000x1, .i32⟩ : BufTy).Contents (Elt F) → (⟨S2000000x64, .f32⟩ : BufTy).Contents (Elt F) → (⟨S100000x64, .f32⟩ : BufTy).Contents (Elt F)),
    unary main_v384 main_v414 (broadcastInDim S100000x1 ![0] bcast_S100000_S100000x1_0 : (⟨S100000, .f32⟩ : BufTy).Contents (Elt F) → (⟨S100000x1, .f32⟩ : BufTy).Contents (Elt F)),
    unary main_v414 main_v415 (broadcastInDim S100000x64 ![0, 1] bcast_S100000x1_S100000x64_0_1 : (⟨S100000x1, .f32⟩ : BufTy).Contents (Elt F) → (⟨S100000x64, .f32⟩ : BufTy).Contents (Elt F)),
    binary main_v378 main_v415 main_v416 (Host.divf : (⟨S100000x64, .f32⟩ : BufTy).Contents (Elt F) → (⟨S100000x64, .f32⟩ : BufTy).Contents (Elt F) → (⟨S100000x64, .f32⟩ : BufTy).Contents (Elt F)),
    binary main_v413 main_v416 main_v417 (addf : (⟨S100000x64, .f32⟩ : BufTy).Contents (Elt F) → (⟨S100000x64, .f32⟩ : BufTy).Contents (Elt F) → (⟨S100000x64, .f32⟩ : BufTy).Contents (Elt F)),
    unary main_arg35 main_v418 (broadcastInDim S1x64 ![1] bcast_S64_S1x64_1 : (⟨S64, .f32⟩ : BufTy).Contents (Elt F) → (⟨S1x64, .f32⟩ : BufTy).Contents (Elt F)),
    unary main_v418 main_v419 (broadcastInDim S100000x64 ![0, 1] bcast_S1x64_S100000x64_0_1 : (⟨S1x64, .f32⟩ : BufTy).Contents (Elt F) → (⟨S100000x64, .f32⟩ : BufTy).Contents (Elt F)),
    binary main_v417 main_v419 main_v420 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S100000x64, .f32⟩) main_call8_v0) (broadcastInDim S100000x64 ![] bcast_S_S100000x64),
    TRef.binary (TRef.of (T := ⟨S100000x64, .f32⟩) main_v420) (TRef.of (T := ⟨S100000x64, .f32⟩) main_call8_v0) (TRef.of (T := ⟨S100000x64, .f32⟩) main_v421) maximumf,
    nullary main_cst_86 (constant S_ .f32 0x00000000#32),
    binary main_v421 main_cst_86 main_v422 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_87 (constant S_ .f32 0x47C35000#32),
    unary main_cst_87 main_v423 (broadcastInDim S64 ![] bcast_S_S64 : (⟨S_, .f32⟩ : BufTy).Contents (Elt F) → (⟨S64, .f32⟩ : BufTy).Contents (Elt F)),
    binary main_v422 main_v423 main_v424 (Host.divf : (⟨S64, .f32⟩ : BufTy).Contents (Elt F) → (⟨S64, .f32⟩ : BufTy).Contents (Elt F) → (⟨S64, .f32⟩ : BufTy).Contents (Elt F)),
    unary main_v424 main_v425 (broadcastInDim S1x64 ![1] bcast_S64_S1x64_1 : (⟨S64, .f32⟩ : BufTy).Contents (Elt F) → (⟨S1x64, .f32⟩ : BufTy).Contents (Elt F)),
    unary main_v425 main_v426 (broadcastInDim S100000x64 ![0, 1] bcast_S1x64_S100000x64_0_1 : (⟨S1x64, .f32⟩ : BufTy).Contents (Elt F) → (⟨S100000x64, .f32⟩ : BufTy).Contents (Elt F)),
    binary main_v421 main_v426 main_v427 (subf : (⟨S100000x64, .f32⟩ : BufTy).Contents (Elt F) → (⟨S100000x64, .f32⟩ : BufTy).Contents (Elt F) → (⟨S100000x64, .f32⟩ : BufTy).Contents (Elt F)),
    binary main_v427 main_v427 main_v428 (mulf : (⟨S100000x64, .f32⟩ : BufTy).Contents (Elt F) → (⟨S100000x64, .f32⟩ : BufTy).Contents (Elt F) → (⟨S100000x64, .f32⟩ : BufTy).Contents (Elt F)),
    nullary main_cst_88 (constant S_ .f32 0x00000000#32),
    binary main_v428 main_cst_88 main_v429 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_89 (constant S_ .f32 0x47C35000#32),
    unary main_cst_89 main_v430 (broadcastInDim S64 ![] bcast_S_S64 : (⟨S_, .f32⟩ : BufTy).Contents (Elt F) → (⟨S64, .f32⟩ : BufTy).Contents (Elt F)),
    binary main_v429 main_v430 main_v431 (Host.divf : (⟨S64, .f32⟩ : BufTy).Contents (Elt F) → (⟨S64, .f32⟩ : BufTy).Contents (Elt F) → (⟨S64, .f32⟩ : BufTy).Contents (Elt F)),
    unary main_v424 main_v432 (broadcastInDim S1x64 ![1] bcast_S64_S1x64_1 : (⟨S64, .f32⟩ : BufTy).Contents (Elt F) → (⟨S1x64, .f32⟩ : BufTy).Contents (Elt F)),
    unary main_v432 main_v433 (broadcastInDim S100000x64 ![0, 1] bcast_S1x64_S100000x64_0_1 : (⟨S1x64, .f32⟩ : BufTy).Contents (Elt F) → (⟨S100000x64, .f32⟩ : BufTy).Contents (Elt F)),
    binary main_v421 main_v433 main_v434 (subf : (⟨S100000x64, .f32⟩ : BufTy).Contents (Elt F) → (⟨S100000x64, .f32⟩ : BufTy).Contents (Elt F) → (⟨S100000x64, .f32⟩ : BufTy).Contents (Elt F)),
    nullary main_cst_90 (constant S_ .f32 0x3727C5AC#32),
    unary main_cst_90 main_v435 (broadcastInDim S64 ![] bcast_S_S64 : (⟨S_, .f32⟩ : BufTy).Contents (Elt F) → (⟨S64, .f32⟩ : BufTy).Contents (Elt F)),
    binary main_v431 main_v435 main_v436 (addf : (⟨S64, .f32⟩ : BufTy).Contents (Elt F) → (⟨S64, .f32⟩ : BufTy).Contents (Elt F) → (⟨S64, .f32⟩ : BufTy).Contents (Elt F)),
    unary main_v436 main_v437 (Host.rsqrt : (⟨S64, .f32⟩ : BufTy).Contents (Elt F) → (⟨S64, .f32⟩ : BufTy).Contents (Elt F)),
    unary main_v437 main_v438 (broadcastInDim S1x64 ![1] bcast_S64_S1x64_1 : (⟨S64, .f32⟩ : BufTy).Contents (Elt F) → (⟨S1x64, .f32⟩ : BufTy).Contents (Elt F)),
    unary main_v438 main_v439 (broadcastInDim S100000x64 ![0, 1] bcast_S1x64_S100000x64_0_1 : (⟨S1x64, .f32⟩ : BufTy).Contents (Elt F) → (⟨S100000x64, .f32⟩ : BufTy).Contents (Elt F)),
    binary main_v434 main_v439 main_v440 (mulf : (⟨S100000x64, .f32⟩ : BufTy).Contents (Elt F) → (⟨S100000x64, .f32⟩ : BufTy).Contents (Elt F) → (⟨S100000x64, .f32⟩ : BufTy).Contents (Elt F)),
    unary main_arg40 main_v441 (broadcastInDim S1x64 ![1] bcast_S64_S1x64_1 : (⟨S64, .f32⟩ : BufTy).Contents (Elt F) → (⟨S1x64, .f32⟩ : BufTy).Contents (Elt F)),
    unary main_v441 main_v442 (broadcastInDim S100000x64 ![0, 1] bcast_S1x64_S100000x64_0_1 : (⟨S1x64, .f32⟩ : BufTy).Contents (Elt F) → (⟨S100000x64, .f32⟩ : BufTy).Contents (Elt F)),
    binary main_v440 main_v442 main_v443 (mulf : (⟨S100000x64, .f32⟩ : BufTy).Contents (Elt F) → (⟨S100000x64, .f32⟩ : BufTy).Contents (Elt F) → (⟨S100000x64, .f32⟩ : BufTy).Contents (Elt F)),
    unary main_arg41 main_v444 (broadcastInDim S1x64 ![1] bcast_S64_S1x64_1 : (⟨S64, .f32⟩ : BufTy).Contents (Elt F) → (⟨S1x64, .f32⟩ : BufTy).Contents (Elt F)),
    unary main_v444 main_v445 (broadcastInDim S100000x64 ![0, 1] bcast_S1x64_S100000x64_0_1 : (⟨S1x64, .f32⟩ : BufTy).Contents (Elt F) → (⟨S100000x64, .f32⟩ : BufTy).Contents (Elt F)),
    binary main_v443 main_v445 main_v446 (addf : (⟨S100000x64, .f32⟩ : BufTy).Contents (Elt F) → (⟨S100000x64, .f32⟩ : BufTy).Contents (Elt F) → (⟨S100000x64, .f32⟩ : BufTy).Contents (Elt F)) ]

set_option maxRecDepth 100000 in
set_option maxHeartbeats 40000000 in
/-- The printed program is that list, run in order. -/
theorem main_eq (c : Dev nD) : main (F := F) c = seq ops := rfl
/-- The signature scopes no buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide
set_option maxRecDepth 8192 in
/-- Every operation touches TensorCore buffers only. -/
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., nullary_bufs_sub .., unary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., nullary_bufs_sub .., unary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., nullary_bufs_sub .., unary_bufs_sub .., binary_bufs_sub .., unary_bufs_sub .., reshape_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., unary_bufs_sub .., reshape_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., nullary_bufs_sub .., unary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., nullary_bufs_sub .., unary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., nullary_bufs_sub .., unary_bufs_sub .., binary_bufs_sub .., unary_bufs_sub .., reshape_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩

/-- Layer 1: operations 0 to 47. -/
abbrev P1 : List (HloOp τ sig (Elt F)) :=
  [ unary main_arg5 main_v0 ((extractStridedSlice S1x2000000 ![0, 0] · slices_S2x2000000_S1x2000000_0_0) : (⟨S2x2000000, .i32⟩ : BufTy).Contents (Elt F) → (⟨S1x2000000, .i32⟩ : BufTy).Contents (Elt F)),
    reshape main_v0 main_v1 rfl shapeCasts_S1x2000000_S2000000,
    unary main_arg5 main_v2 ((extractStridedSlice S1x2000000 ![1, 0] · slices_S2x2000000_S1x2000000_1_0) : (⟨S2x2000000, .i32⟩ : BufTy).Contents (Elt F) → (⟨S1x2000000, .i32⟩ : BufTy).Contents (Elt F)),
    reshape main_v2 main_v3 rfl shapeCasts_S1x2000000_S2000000,
    nullary main_c (constantI S_ 32 0#32),
    unary main_c main_v4 (broadcastInDim S2000000 ![] bcast_S_S2000000 : (⟨S_, .i32⟩ : BufTy).Contents (Elt F) → (⟨S2000000, .i32⟩ : BufTy).Contents (Elt F)),
    binary main_v1 main_v4 main_v5 (cmpi .slt : (⟨S2000000, .i32⟩ : BufTy).Contents (Elt F) → (⟨S2000000, .i32⟩ : BufTy).Contents (Elt F) → (⟨S2000000, .i1⟩ : BufTy).Contents (Elt F)),
    nullary main_c_0 (constantI S_ 32 100000#32),
    unary main_c_0 main_v6 (broadcastInDim S2000000 ![] bcast_S_S2000000 : (⟨S_, .i32⟩ : BufTy).Contents (Elt F) → (⟨S2000000, .i32⟩ : BufTy).Contents (Elt F)),
    binary main_v1 main_v6 main_v7 (addi : (⟨S2000000, .i32⟩ : BufTy).Contents (Elt F) → (⟨S2000000, .i32⟩ : BufTy).Contents (Elt F) → (⟨S2000000, .i32⟩ : BufTy).Contents (Elt F)),
    ternary main_v5 main_v7 main_v1 main_v8 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v8 main_v9 (broadcastInDim S2000000x1 ![0] bcast_S2000000_S2000000x1_0 : (⟨S2000000, .i32⟩ : BufTy).Contents (Elt F) → (⟨S2000000x1, .i32⟩ : BufTy).Contents (Elt F)),
    binary main_arg1 main_v9 main_v10 ((fun x i => Host.gather gather_S100000x64_S2000000x1_S2000000x64_1_0_n_n_0_1_164 x i) : (⟨S100000x64, .f32⟩ : BufTy).Contents (Elt F) → (⟨S2000000x1, .i32⟩ : BufTy).Contents (Elt F) → (⟨S2000000x64, .f32⟩ : BufTy).Contents (Elt F)),
    nullary main_cst (constant S_ .f32 0x00000000#32),
    unary main_cst main_v11 (broadcastInDim S100000x64 ![] bcast_S_S100000x64 : (⟨S_, .f32⟩ : BufTy).Contents (Elt F) → (⟨S100000x64, .f32⟩ : BufTy).Contents (Elt F)),
    unary main_v3 main_v12 (broadcastInDim S2000000x1 ![0] bcast_S2000000_S2000000x1_0 : (⟨S2000000, .i32⟩ : BufTy).Contents (Elt F) → (⟨S2000000x1, .i32⟩ : BufTy).Contents (Elt F)),
    ternary main_v11 main_v12 main_v10 main_v13 ((fun x i u => Host.scatterAdd scatter_S100000x64_S2000000x1_S2000000x64_1_0_0_1 x i u) : (⟨S100000x64, .f32⟩ : BufTy).Contents (Elt F) → (⟨S2000000x1, .i32⟩ : BufTy).Contents (Elt F) → (⟨S2000000x64, .f32⟩ : BufTy).Contents (Elt F) → (⟨S100000x64, .f32⟩ : BufTy).Contents (Elt F)),
    nullary main_cst_1 (constant S_ .f32 0x3F800000#32),
    unary main_cst_1 main_v14 (broadcastInDim S2000000 ![] bcast_S_S2000000 : (⟨S_, .f32⟩ : BufTy).Contents (Elt F) → (⟨S2000000, .f32⟩ : BufTy).Contents (Elt F)),
    nullary main_cst_2 (constant S_ .f32 0x00000000#32),
    unary main_cst_2 main_v15 (broadcastInDim S100000 ![] bcast_S_S100000 : (⟨S_, .f32⟩ : BufTy).Contents (Elt F) → (⟨S100000, .f32⟩ : BufTy).Contents (Elt F)),
    unary main_v3 main_v16 (broadcastInDim S2000000x1 ![0] bcast_S2000000_S2000000x1_0 : (⟨S2000000, .i32⟩ : BufTy).Contents (Elt F) → (⟨S2000000x1, .i32⟩ : BufTy).Contents (Elt F)),
    ternary main_v15 main_v16 main_v14 main_v17 ((fun x i u => Host.scatterAdd scatter_S100000_S2000000x1_S2000000_n_0_0_1 x i u) : (⟨S100000, .f32⟩ : BufTy).Contents (Elt F) → (⟨S2000000x1, .i32⟩ : BufTy).Contents (Elt F) → (⟨S2000000, .f32⟩ : BufTy).Contents (Elt F) → (⟨S100000, .f32⟩ : BufTy).Contents (Elt F)),
    nullary main_cst_3 (constant S_ .f32 0x3F800000#32),
    unary main_cst_3 main_v18 (broadcastInDim S100000 ![] bcast_S_S100000 : (⟨S_, .f32⟩ : BufTy).Contents (Elt F) → (⟨S100000, .f32⟩ : BufTy).Contents (Elt F)),
    binary main_v17 main_v18 main_v19 (maximumf : (⟨S100000, .f32⟩ : BufTy).Contents (Elt F) → (⟨S100000, .f32⟩ : BufTy).Contents (Elt F) → (⟨S100000, .f32⟩ : BufTy).Contents (Elt F)),
    unary main_v19 main_v20 (broadcastInDim S100000x1 ![0] bcast_S100000_S100000x1_0 : (⟨S100000, .f32⟩ : BufTy).Contents (Elt F) → (⟨S100000x1, .f32⟩ : BufTy).Contents (Elt F)),
    unary main_v20 main_v21 (broadcastInDim S100000x64 ![0, 1] bcast_S100000x1_S100000x64_0_1 : (⟨S100000x1, .f32⟩ : BufTy).Contents (Elt F) → (⟨S100000x64, .f32⟩ : BufTy).Contents (Elt F)),
    binary main_v13 main_v21 main_v22 (Host.divf : (⟨S100000x64, .f32⟩ : BufTy).Contents (Elt F) → (⟨S100000x64, .f32⟩ : BufTy).Contents (Elt F) → (⟨S100000x64, .f32⟩ : BufTy).Contents (Elt F)),
    binary main_v22 main_arg12 main_v23 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg13 main_v24 (broadcastInDim S1x64 ![1] bcast_S64_S1x64_1 : (⟨S64, .f32⟩ : BufTy).Contents (Elt F) → (⟨S1x64, .f32⟩ : BufTy).Contents (Elt F)),
    unary main_v24 main_v25 (broadcastInDim S100000x64 ![0, 1] bcast_S1x64_S100000x64_0_1 : (⟨S1x64, .f32⟩ : BufTy).Contents (Elt F) → (⟨S100000x64, .f32⟩ : BufTy).Contents (Elt F)),
    binary main_v23 main_v25 main_v26 (addf : (⟨S100000x64, .f32⟩ : BufTy).Contents (Elt F) → (⟨S100000x64, .f32⟩ : BufTy).Contents (Elt F) → (⟨S100000x64, .f32⟩ : BufTy).Contents (Elt F)),
    binary main_arg0 main_arg14 main_v27 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    binary main_v26 main_v27 main_v28 (addf : (⟨S100000x64, .f32⟩ : BufTy).Contents (Elt F) → (⟨S100000x64, .f32⟩ : BufTy).Contents (Elt F) → (⟨S100000x64, .f32⟩ : BufTy).Contents (Elt F)),
    binary main_v28 main_v28 main_v29 (mulf : (⟨S100000x64, .f32⟩ : BufTy).Contents (Elt F) → (⟨S100000x64, .f32⟩ : BufTy).Contents (Elt F) → (⟨S100000x64, .f32⟩ : BufTy).Contents (Elt F)),
    nullary main_cst_4 (constant S_ .f32 0x00000000#32),
    binary main_v29 main_cst_4 main_v30 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_v30 main_v31 (broadcastInDim S100000x1 ![0] bcast_S100000_S100000x1_0 : (⟨S100000, .f32⟩ : BufTy).Contents (Elt F) → (⟨S100000x1, .f32⟩ : BufTy).Contents (Elt F)),
    unary main_v31 main_v32 (Host.sqrt : (⟨S100000x1, .f32⟩ : BufTy).Contents (Elt F) → (⟨S100000x1, .f32⟩ : BufTy).Contents (Elt F)),
    nullary main_cst_5 (constant S_ .f32 0x2B8CBCCC#32),
    unary main_cst_5 main_v33 (broadcastInDim S100000x1 ![] bcast_S_S100000x1 : (⟨S_, .f32⟩ : BufTy).Contents (Elt F) → (⟨S100000x1, .f32⟩ : BufTy).Contents (Elt F)),
    binary main_v32 main_v33 main_v34 (maximumf : (⟨S100000x1, .f32⟩ : BufTy).Contents (Elt F) → (⟨S100000x1, .f32⟩ : BufTy).Contents (Elt F) → (⟨S100000x1, .f32⟩ : BufTy).Contents (Elt F)),
    unary main_v34 main_v35 (broadcastInDim S100000x64 ![0, 1] bcast_S100000x1_S100000x64_0_1 : (⟨S100000x1, .f32⟩ : BufTy).Contents (Elt F) → (⟨S100000x64, .f32⟩ : BufTy).Contents (Elt F)),
    binary main_v28 main_v35 main_v36 (Host.divf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x64, .f32⟩) main_call0_v0) (broadcastInDim S100000x64 ![] bcast_S_S100000x64),
    TRef.binary (TRef.of (T := ⟨S100000x64, .f32⟩) main_v36) (TRef.of (T := ⟨S100000x64, .f32⟩) main_call0_v0) (TRef.of (T := ⟨S100000x64, .f32⟩) main_v37) maximumf ]

/-- Layer 2: operations 48 to 95. -/
abbrev P2 : List (HloOp τ sig (Elt F)) :=
  [ unary main_arg7 main_v38 ((extractStridedSlice S1x2000000 ![0, 0] · slices_S2x2000000_S1x2000000_0_0) : (⟨S2x2000000, .i32⟩ : BufTy).Contents (Elt F) → (⟨S1x2000000, .i32⟩ : BufTy).Contents (Elt F)),
    reshape main_v38 main_v39 rfl shapeCasts_S1x2000000_S2000000,
    unary main_arg7 main_v40 ((extractStridedSlice S1x2000000 ![1, 0] · slices_S2x2000000_S1x2000000_1_0) : (⟨S2x2000000, .i32⟩ : BufTy).Contents (Elt F) → (⟨S1x2000000, .i32⟩ : BufTy).Contents (Elt F)),
    reshape main_v40 main_v41 rfl shapeCasts_S1x2000000_S2000000,
    nullary main_c_6 (constantI S_ 32 0#32),
    unary main_c_6 main_v42 (broadcastInDim S2000000 ![] bcast_S_S2000000 : (⟨S_, .i32⟩ : BufTy).Contents (Elt F) → (⟨S2000000, .i32⟩ : BufTy).Contents (Elt F)),
    binary main_v39 main_v42 main_v43 (cmpi .slt : (⟨S2000000, .i32⟩ : BufTy).Contents (Elt F) → (⟨S2000000, .i32⟩ : BufTy).Contents (Elt F) → (⟨S2000000, .i1⟩ : BufTy).Contents (Elt F)),
    nullary main_c_7 (constantI S_ 32 100000#32),
    unary main_c_7 main_v44 (broadcastInDim S2000000 ![] bcast_S_S2000000 : (⟨S_, .i32⟩ : BufTy).Contents (Elt F) → (⟨S2000000, .i32⟩ : BufTy).Contents (Elt F)),
    binary main_v39 main_v44 main_v45 (addi : (⟨S2000000, .i32⟩ : BufTy).Contents (Elt F) → (⟨S2000000, .i32⟩ : BufTy).Contents (Elt F) → (⟨S2000000, .i32⟩ : BufTy).Contents (Elt F)),
    ternary main_v43 main_v45 main_v39 main_v46 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v46 main_v47 (broadcastInDim S2000000x1 ![0] bcast_S2000000_S2000000x1_0 : (⟨S2000000, .i32⟩ : BufTy).Contents (Elt F) → (⟨S2000000x1, .i32⟩ : BufTy).Contents (Elt F)),
    binary main_arg1 main_v47 main_v48 ((fun x i => Host.gather gather_S100000x64_S2000000x1_S2000000x64_1_0_n_n_0_1_164 x i) : (⟨S100000x64, .f32⟩ : BufTy).Contents (Elt F) → (⟨S2000000x1, .i32⟩ : BufTy).Contents (Elt F) → (⟨S2000000x64, .f32⟩ : BufTy).Contents (Elt F)),
    nullary main_cst_8 (constant S_ .f32 0x00000000#32),
    unary main_cst_8 main_v49 (broadcastInDim S100000x64 ![] bcast_S_S100000x64 : (⟨S_, .f32⟩ : BufTy).Contents (Elt F) → (⟨S100000x64, .f32⟩ : BufTy).Contents (Elt F)),
    unary main_v41 main_v50 (broadcastInDim S2000000x1 ![0] bcast_S2000000_S2000000x1_0 : (⟨S2000000, .i32⟩ : BufTy).Contents (Elt F) → (⟨S2000000x1, .i32⟩ : BufTy).Contents (Elt F)),
    ternary main_v49 main_v50 main_v48 main_v51 ((fun x i u => Host.scatterAdd scatter_S100000x64_S2000000x1_S2000000x64_1_0_0_1 x i u) : (⟨S100000x64, .f32⟩ : BufTy).Contents (Elt F) → (⟨S2000000x1, .i32⟩ : BufTy).Contents (Elt F) → (⟨S2000000x64, .f32⟩ : BufTy).Contents (Elt F) → (⟨S100000x64, .f32⟩ : BufTy).Contents (Elt F)),
    nullary main_cst_9 (constant S_ .f32 0x3F800000#32),
    unary main_cst_9 main_v52 (broadcastInDim S2000000 ![] bcast_S_S2000000 : (⟨S_, .f32⟩ : BufTy).Contents (Elt F) → (⟨S2000000, .f32⟩ : BufTy).Contents (Elt F)),
    nullary main_cst_10 (constant S_ .f32 0x00000000#32),
    unary main_cst_10 main_v53 (broadcastInDim S100000 ![] bcast_S_S100000 : (⟨S_, .f32⟩ : BufTy).Contents (Elt F) → (⟨S100000, .f32⟩ : BufTy).Contents (Elt F)),
    unary main_v41 main_v54 (broadcastInDim S2000000x1 ![0] bcast_S2000000_S2000000x1_0 : (⟨S2000000, .i32⟩ : BufTy).Contents (Elt F) → (⟨S2000000x1, .i32⟩ : BufTy).Contents (Elt F)),
    ternary main_v53 main_v54 main_v52 main_v55 ((fun x i u => Host.scatterAdd scatter_S100000_S2000000x1_S2000000_n_0_0_1 x i u) : (⟨S100000, .f32⟩ : BufTy).Contents (Elt F) → (⟨S2000000x1, .i32⟩ : BufTy).Contents (Elt F) → (⟨S2000000, .f32⟩ : BufTy).Contents (Elt F) → (⟨S100000, .f32⟩ : BufTy).Contents (Elt F)),
    nullary main_cst_11 (constant S_ .f32 0x3F800000#32),
    unary main_cst_11 main_v56 (broadcastInDim S100000 ![] bcast_S_S100000 : (⟨S_, .f32⟩ : BufTy).Contents (Elt F) → (⟨S100000, .f32⟩ : BufTy).Contents (Elt F)),
    binary main_v55 main_v56 main_v57 (maximumf : (⟨S100000, .f32⟩ : BufTy).Contents (Elt F) → (⟨S100000, .f32⟩ : BufTy).Contents (Elt F) → (⟨S100000, .f32⟩ : BufTy).Contents (Elt F)),
    unary main_v57 main_v58 (broadcastInDim S100000x1 ![0] bcast_S100000_S100000x1_0 : (⟨S100000, .f32⟩ : BufTy).Contents (Elt F) → (⟨S100000x1, .f32⟩ : BufTy).Contents (Elt F)),
    unary main_v58 main_v59 (broadcastInDim S100000x64 ![0, 1] bcast_S100000x1_S100000x64_0_1 : (⟨S100000x1, .f32⟩ : BufTy).Contents (Elt F) → (⟨S100000x64, .f32⟩ : BufTy).Contents (Elt F)),
    binary main_v51 main_v59 main_v60 (Host.divf : (⟨S100000x64, .f32⟩ : BufTy).Contents (Elt F) → (⟨S100000x64, .f32⟩ : BufTy).Contents (Elt F) → (⟨S100000x64, .f32⟩ : BufTy).Contents (Elt F)),
    binary main_v60 main_arg15 main_v61 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg16 main_v62 (broadcastInDim S1x64 ![1] bcast_S64_S1x64_1 : (⟨S64, .f32⟩ : BufTy).Contents (Elt F) → (⟨S1x64, .f32⟩ : BufTy).Contents (Elt F)),
    unary main_v62 main_v63 (broadcastInDim S100000x64 ![0, 1] bcast_S1x64_S100000x64_0_1 : (⟨S1x64, .f32⟩ : BufTy).Contents (Elt F) → (⟨S100000x64, .f32⟩ : BufTy).Contents (Elt F)),
    binary main_v61 main_v63 main_v64 (addf : (⟨S100000x64, .f32⟩ : BufTy).Contents (Elt F) → (⟨S100000x64, .f32⟩ : BufTy).Contents (Elt F) → (⟨S100000x64, .f32⟩ : BufTy).Contents (Elt F)),
    binary main_v37 main_arg17 main_v65 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v64 main_v65 main_v66 (addf : (⟨S100000x64, .f32⟩ : BufTy).Contents (Elt F) → (⟨S100000x64, .f32⟩ : BufTy).Contents (Elt F) → (⟨S100000x64, .f32⟩ : BufTy).Contents (Elt F)),
    binary main_v66 main_v66 main_v67 (mulf : (⟨S100000x64, .f32⟩ : BufTy).Contents (Elt F) → (⟨S100000x64, .f32⟩ : BufTy).Contents (Elt F) → (⟨S100000x64, .f32⟩ : BufTy).Contents (Elt F)),
    nullary main_cst_12 (constant S_ .f32 0x00000000#32),
    binary main_v67 main_cst_12 main_v68 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_v68 main_v69 (broadcastInDim S100000x1 ![0] bcast_S100000_S100000x1_0 : (⟨S100000, .f32⟩ : BufTy).Contents (Elt F) → (⟨S100000x1, .f32⟩ : BufTy).Contents (Elt F)),
    unary main_v69 main_v70 (Host.sqrt : (⟨S100000x1, .f32⟩ : BufTy).Contents (Elt F) → (⟨S100000x1, .f32⟩ : BufTy).Contents (Elt F)),
    nullary main_cst_13 (constant S_ .f32 0x2B8CBCCC#32),
    unary main_cst_13 main_v71 (broadcastInDim S100000x1 ![] bcast_S_S100000x1 : (⟨S_, .f32⟩ : BufTy).Contents (Elt F) → (⟨S100000x1, .f32⟩ : BufTy).Contents (Elt F)),
    binary main_v70 main_v71 main_v72 (maximumf : (⟨S100000x1, .f32⟩ : BufTy).Contents (Elt F) → (⟨S100000x1, .f32⟩ : BufTy).Contents (Elt F) → (⟨S100000x1, .f32⟩ : BufTy).Contents (Elt F)),
    unary main_v72 main_v73 (broadcastInDim S100000x64 ![0, 1] bcast_S100000x1_S100000x64_0_1 : (⟨S100000x1, .f32⟩ : BufTy).Contents (Elt F) → (⟨S100000x64, .f32⟩ : BufTy).Contents (Elt F)),
    binary main_v66 main_v73 main_v74 (Host.divf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v74) (TRef.of (T := ⟨S100000x64, .f32⟩) main_call1_v0) (TRef.of (T := ⟨S100000x64, .f32⟩) main_v75) maximumf ]

/-- Layer 3: operations 96 to 143. -/
abbrev P3 : List (HloOp τ sig (Elt F)) :=
  [ unary main_arg11 main_v76 ((extractStridedSlice S1x2000000 ![0, 0] · slices_S2x2000000_S1x2000000_0_0) : (⟨S2x2000000, .i32⟩ : BufTy).Contents (Elt F) → (⟨S1x2000000, .i32⟩ : BufTy).Contents (Elt F)),
    reshape main_v76 main_v77 rfl shapeCasts_S1x2000000_S2000000,
    unary main_arg11 main_v78 ((extractStridedSlice S1x2000000 ![1, 0] · slices_S2x2000000_S1x2000000_1_0) : (⟨S2x2000000, .i32⟩ : BufTy).Contents (Elt F) → (⟨S1x2000000, .i32⟩ : BufTy).Contents (Elt F)),
    reshape main_v78 main_v79 rfl shapeCasts_S1x2000000_S2000000,
    nullary main_c_14 (constantI S_ 32 0#32),
    unary main_c_14 main_v80 (broadcastInDim S2000000 ![] bcast_S_S2000000 : (⟨S_, .i32⟩ : BufTy).Contents (Elt F) → (⟨S2000000, .i32⟩ : BufTy).Contents (Elt F)),
    binary main_v77 main_v80 main_v81 (cmpi .slt : (⟨S2000000, .i32⟩ : BufTy).Contents (Elt F) → (⟨S2000000, .i32⟩ : BufTy).Contents (Elt F) → (⟨S2000000, .i1⟩ : BufTy).Contents (Elt F)),
    nullary main_c_15 (constantI S_ 32 100000#32),
    unary main_c_15 main_v82 (broadcastInDim S2000000 ![] bcast_S_S2000000 : (⟨S_, .i32⟩ : BufTy).Contents (Elt F) → (⟨S2000000, .i32⟩ : BufTy).Contents (Elt F)),
    binary main_v77 main_v82 main_v83 (addi : (⟨S2000000, .i32⟩ : BufTy).Contents (Elt F) → (⟨S2000000, .i32⟩ : BufTy).Contents (Elt F) → (⟨S2000000, .i32⟩ : BufTy).Contents (Elt F)),
    ternary main_v81 main_v83 main_v77 main_v84 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v84 main_v85 (broadcastInDim S2000000x1 ![0] bcast_S2000000_S2000000x1_0 : (⟨S2000000, .i32⟩ : BufTy).Contents (Elt F) → (⟨S2000000x1, .i32⟩ : BufTy).Contents (Elt F)),
    binary main_arg1 main_v85 main_v86 ((fun x i => Host.gather gather_S100000x64_S2000000x1_S2000000x64_1_0_n_n_0_1_164 x i) : (⟨S100000x64, .f32⟩ : BufTy).Contents (Elt F) → (⟨S2000000x1, .i32⟩ : BufTy).Contents (Elt F) → (⟨S2000000x64, .f32⟩ : BufTy).Contents (Elt F)),
    nullary main_cst_16 (constant S_ .f32 0x00000000#32),
    unary main_cst_16 main_v87 (broadcastInDim S100000x64 ![] bcast_S_S100000x64 : (⟨S_, .f32⟩ : BufTy).Contents (Elt F) → (⟨S100000x64, .f32⟩ : BufTy).Contents (Elt F)),
    unary main_v79 main_v88 (broadcastInDim S2000000x1 ![0] bcast_S2000000_S2000000x1_0 : (⟨S2000000, .i32⟩ : BufTy).Contents (Elt F) → (⟨S2000000x1, .i32⟩ : BufTy).Contents (Elt F)),
    ternary main_v87 main_v88 main_v86 main_v89 ((fun x i u => Host.scatterAdd scatter_S100000x64_S2000000x1_S2000000x64_1_0_0_1 x i u) : (⟨S100000x64, .f32⟩ : BufTy).Contents (Elt F) → (⟨S2000000x1, .i32⟩ : BufTy).Contents (Elt F) → (⟨S2000000x64, .f32⟩ : BufTy).Contents (Elt F) → (⟨S100000x64, .f32⟩ : BufTy).Contents (Elt F)),
    nullary main_cst_17 (constant S_ .f32 0x3F800000#32),
    unary main_cst_17 main_v90 (broadcastInDim S2000000 ![] bcast_S_S2000000 : (⟨S_, .f32⟩ : BufTy).Contents (Elt F) → (⟨S2000000, .f32⟩ : BufTy).Contents (Elt F)),
    nullary main_cst_18 (constant S_ .f32 0x00000000#32),
    unary main_cst_18 main_v91 (broadcastInDim S100000 ![] bcast_S_S100000 : (⟨S_, .f32⟩ : BufTy).Contents (Elt F) → (⟨S100000, .f32⟩ : BufTy).Contents (Elt F)),
    unary main_v79 main_v92 (broadcastInDim S2000000x1 ![0] bcast_S2000000_S2000000x1_0 : (⟨S2000000, .i32⟩ : BufTy).Contents (Elt F) → (⟨S2000000x1, .i32⟩ : BufTy).Contents (Elt F)),
    ternary main_v91 main_v92 main_v90 main_v93 ((fun x i u => Host.scatterAdd scatter_S100000_S2000000x1_S2000000_n_0_0_1 x i u) : (⟨S100000, .f32⟩ : BufTy).Contents (Elt F) → (⟨S2000000x1, .i32⟩ : BufTy).Contents (Elt F) → (⟨S2000000, .f32⟩ : BufTy).Contents (Elt F) → (⟨S100000, .f32⟩ : BufTy).Contents (Elt F)),
    nullary main_cst_19 (constant S_ .f32 0x3F800000#32),
    unary main_cst_19 main_v94 (broadcastInDim S100000 ![] bcast_S_S100000 : (⟨S_, .f32⟩ : BufTy).Contents (Elt F) → (⟨S100000, .f32⟩ : BufTy).Contents (Elt F)),
    binary main_v93 main_v94 main_v95 (maximumf : (⟨S100000, .f32⟩ : BufTy).Contents (Elt F) → (⟨S100000, .f32⟩ : BufTy).Contents (Elt F) → (⟨S100000, .f32⟩ : BufTy).Contents (Elt F)),
    unary main_v95 main_v96 (broadcastInDim S100000x1 ![0] bcast_S100000_S100000x1_0 : (⟨S100000, .f32⟩ : BufTy).Contents (Elt F) → (⟨S100000x1, .f32⟩ : BufTy).Contents (Elt F)),
    unary main_v96 main_v97 (broadcastInDim S100000x64 ![0, 1] bcast_S100000x1_S100000x64_0_1 : (⟨S100000x1, .f32⟩ : BufTy).Contents (Elt F) → (⟨S100000x64, .f32⟩ : BufTy).Contents (Elt F)),
    binary main_v89 main_v97 main_v98 (Host.divf : (⟨S100000x64, .f32⟩ : BufTy).Contents (Elt F) → (⟨S100000x64, .f32⟩ : BufTy).Contents (Elt F) → (⟨S100000x64, .f32⟩ : BufTy).Contents (Elt F)),
    binary main_v98 main_arg18 main_v99 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg19 main_v100 (broadcastInDim S1x64 ![1] bcast_S64_S1x64_1 : (⟨S64, .f32⟩ : BufTy).Contents (Elt F) → (⟨S1x64, .f32⟩ : BufTy).Contents (Elt F)),
    unary main_v100 main_v101 (broadcastInDim S100000x64 ![0, 1] bcast_S1x64_S100000x64_0_1 : (⟨S1x64, .f32⟩ : BufTy).Contents (Elt F) → (⟨S100000x64, .f32⟩ : BufTy).Contents (Elt F)),
    binary main_v99 main_v101 main_v102 (addf : (⟨S100000x64, .f32⟩ : BufTy).Contents (Elt F) → (⟨S100000x64, .f32⟩ : BufTy).Contents (Elt F) → (⟨S100000x64, .f32⟩ : BufTy).Contents (Elt F)),
    binary main_arg2 main_arg20 main_v103 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    binary main_v102 main_v103 main_v104 (addf : (⟨S100000x64, .f32⟩ : BufTy).Contents (Elt F) → (⟨S100000x64, .f32⟩ : BufTy).Contents (Elt F) → (⟨S100000x64, .f32⟩ : BufTy).Contents (Elt F)),
    binary main_v104 main_v104 main_v105 (mulf : (⟨S100000x64, .f32⟩ : BufTy).Contents (Elt F) → (⟨S100000x64, .f32⟩ : BufTy).Contents (Elt F) → (⟨S100000x64, .f32⟩ : BufTy).Contents (Elt F)),
    nullary main_cst_20 (constant S_ .f32 0x00000000#32),
    binary main_v105 main_cst_20 main_v106 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_v106 main_v107 (broadcastInDim S100000x1 ![0] bcast_S100000_S100000x1_0 : (⟨S100000, .f32⟩ : BufTy).Contents (Elt F) → (⟨S100000x1, .f32⟩ : BufTy).Contents (Elt F)),
    unary main_v107 main_v108 (Host.sqrt : (⟨S100000x1, .f32⟩ : BufTy).Contents (Elt F) → (⟨S100000x1, .f32⟩ : BufTy).Contents (Elt F)),
    nullary main_cst_21 (constant S_ .f32 0x2B8CBCCC#32),
    unary main_cst_21 main_v109 (broadcastInDim S100000x1 ![] bcast_S_S100000x1 : (⟨S_, .f32⟩ : BufTy).Contents (Elt F) → (⟨S100000x1, .f32⟩ : BufTy).Contents (Elt F)),
    binary main_v108 main_v109 main_v110 (maximumf : (⟨S100000x1, .f32⟩ : BufTy).Contents (Elt F) → (⟨S100000x1, .f32⟩ : BufTy).Contents (Elt F) → (⟨S100000x1, .f32⟩ : BufTy).Contents (Elt F)),
    unary main_v110 main_v111 (broadcastInDim S100000x64 ![0, 1] bcast_S100000x1_S100000x64_0_1 : (⟨S100000x1, .f32⟩ : BufTy).Contents (Elt F) → (⟨S100000x64, .f32⟩ : BufTy).Contents (Elt F)),
    binary main_v104 main_v111 main_v112 (Host.divf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v112) (TRef.of (T := ⟨S100000x64, .f32⟩) main_call2_v0) (TRef.of (T := ⟨S100000x64, .f32⟩) main_v113) maximumf ]

/-- Layer 4: operations 144 to 203. -/
abbrev P4 : List (HloOp τ sig (Elt F)) :=
  [ unary main_arg3 main_v114 ((extractStridedSlice S1x2000000 ![0, 0] · slices_S2x2000000_S1x2000000_0_0) : (⟨S2x2000000, .i32⟩ : BufTy).Contents (Elt F) → (⟨S1x2000000, .i32⟩ : BufTy).Contents (Elt F)),
    reshape main_v114 main_v115 rfl shapeCasts_S1x2000000_S2000000,
    unary main_arg3 main_v116 ((extractStridedSlice S1x2000000 ![1, 0] · slices_S2x2000000_S1x2000000_1_0) : (⟨S2x2000000, .i32⟩ : BufTy).Contents (Elt F) → (⟨S1x2000000, .i32⟩ : BufTy).Contents (Elt F)),
    reshape main_v116 main_v117 rfl shapeCasts_S1x2000000_S2000000,
    binary main_v75 main_arg30 main_v118 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_cst_22 (constant S_ .f32 0x3F800000#32),
    unary main_cst_22 main_v119 (broadcastInDim S2000000 ![] bcast_S_S2000000 : (⟨S_, .f32⟩ : BufTy).Contents (Elt F) → (⟨S2000000, .f32⟩ : BufTy).Contents (Elt F)),
    nullary main_cst_23 (constant S_ .f32 0x00000000#32),
    unary main_cst_23 main_v120 (broadcastInDim S100000 ![] bcast_S_S100000 : (⟨S_, .f32⟩ : BufTy).Contents (Elt F) → (⟨S100000, .f32⟩ : BufTy).Contents (Elt F)),
    unary main_v117 main_v121 (broadcastInDim S2000000x1 ![0] bcast_S2000000_S2000000x1_0 : (⟨S2000000, .i32⟩ : BufTy).Contents (Elt F) → (⟨S2000000x1, .i32⟩ : BufTy).Contents (Elt F)),
    ternary main_v120 main_v121 main_v119 main_v122 ((fun x i u => Host.scatterAdd scatter_S100000_S2000000x1_S2000000_n_0_0_1 x i u) : (⟨S100000, .f32⟩ : BufTy).Contents (Elt F) → (⟨S2000000x1, .i32⟩ : BufTy).Contents (Elt F) → (⟨S2000000, .f32⟩ : BufTy).Contents (Elt F) → (⟨S100000, .f32⟩ : BufTy).Contents (Elt F)),
    nullary main_cst_24 (constant S_ .f32 0x3F800000#32),
    unary main_cst_24 main_v123 (broadcastInDim S100000 ![] bcast_S_S100000 : (⟨S_, .f32⟩ : BufTy).Contents (Elt F) → (⟨S100000, .f32⟩ : BufTy).Contents (Elt F)),
    binary main_v122 main_v123 main_v124 (addf : (⟨S100000, .f32⟩ : BufTy).Contents (Elt F) → (⟨S100000, .f32⟩ : BufTy).Contents (Elt F) → (⟨S100000, .f32⟩ : BufTy).Contents (Elt F)),
    unary main_v124 main_v125 (Host.rsqrt : (⟨S100000, .f32⟩ : BufTy).Contents (Elt F) → (⟨S100000, .f32⟩ : BufTy).Contents (Elt F)),
    nullary main_c_25 (constantI S_ 32 0#32),
    unary main_c_25 main_v126 (broadcastInDim S2000000 ![] bcast_S_S2000000 : (⟨S_, .i32⟩ : BufTy).Contents (Elt F) → (⟨S2000000, .i32⟩ : BufTy).Contents (Elt F)),
    binary main_v115 main_v126 main_v127 (cmpi .slt : (⟨S2000000, .i32⟩ : BufTy).Contents (Elt F) → (⟨S2000000, .i32⟩ : BufTy).Contents (Elt F) → (⟨S2000000, .i1⟩ : BufTy).Contents (Elt F)),
    nullary main_c_26 (constantI S_ 32 100000#32),
    unary main_c_26 main_v128 (broadcastInDim S2000000 ![] bcast_S_S2000000 : (⟨S_, .i32⟩ : BufTy).Contents (Elt F) → (⟨S2000000, .i32⟩ : BufTy).Contents (Elt F)),
    binary main_v115 main_v128 main_v129 (addi : (⟨S2000000, .i32⟩ : BufTy).Contents (Elt F) → (⟨S2000000, .i32⟩ : BufTy).Contents (Elt F) → (⟨S2000000, .i32⟩ : BufTy).Contents (Elt F)),
    ternary main_v127 main_v129 main_v115 main_v130 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v130 main_v131 (broadcastInDim S2000000x1 ![0] bcast_S2000000_S2000000x1_0 : (⟨S2000000, .i32⟩ : BufTy).Contents (Elt F) → (⟨S2000000x1, .i32⟩ : BufTy).Contents (Elt F)),
    binary main_v125 main_v131 main_v132 ((fun x i => Host.gather gather_S100000_S2000000x1_S2000000_n_0_n_n_0_1_1 x i) : (⟨S100000, .f32⟩ : BufTy).Contents (Elt F) → (⟨S2000000x1, .i32⟩ : BufTy).Contents (Elt F) → (⟨S2000000, .f32⟩ : BufTy).Contents (Elt F)),
    nullary main_c_27 (constantI S_ 32 0#32),
    unary main_c_27 main_v133 (broadcastInDim S2000000 ![] bcast_S_S2000000 : (⟨S_, .i32⟩ : BufTy).Contents (Elt F) → (⟨S2000000, .i32⟩ : BufTy).Contents (Elt F)),
    binary main_v117 main_v133 main_v134 (cmpi .slt : (⟨S2000000, .i32⟩ : BufTy).Contents (Elt F) → (⟨S2000000, .i32⟩ : BufTy).Contents (Elt F) → (⟨S2000000, .i1⟩ : BufTy).Contents (Elt F)),
    nullary main_c_28 (constantI S_ 32 100000#32),
    unary main_c_28 main_v135 (broadcastInDim S2000000 ![] bcast_S_S2000000 : (⟨S_, .i32⟩ : BufTy).Contents (Elt F) → (⟨S2000000, .i32⟩ : BufTy).Contents (Elt F)),
    binary main_v117 main_v135 main_v136 (addi : (⟨S2000000, .i32⟩ : BufTy).Contents (Elt F) → (⟨S2000000, .i32⟩ : BufTy).Contents (Elt F) → (⟨S2000000, .i32⟩ : BufTy).Contents (Elt F)),
    ternary main_v134 main_v136 main_v117 main_v137 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v137 main_v138 (broadcastInDim S2000000x1 ![0] bcast_S2000000_S2000000x1_0 : (⟨S2000000, .i32⟩ : BufTy).Contents (Elt F) → (⟨S2000000x1, .i32⟩ : BufTy).Contents (Elt F)),
    binary main_v125 main_v138 main_v139 ((fun x i => Host.gather gather_S100000_S2000000x1_S2000000_n_0_n_n_0_1_1 x i) : (⟨S100000, .f32⟩ : BufTy).Contents (Elt F) → (⟨S2000000x1, .i32⟩ : BufTy).Contents (Elt F) → (⟨S2000000, .f32⟩ : BufTy).Contents (Elt F)),
    binary main_v132 main_v139 main_v140 (mulf : (⟨S2000000, .f32⟩ : BufTy).Contents (Elt F) → (⟨S2000000, .f32⟩ : BufTy).Contents (Elt F) → (⟨S2000000, .f32⟩ : BufTy).Contents (Elt F)),
    unary main_v140 main_v141 (broadcastInDim S2000000x1 ![0] bcast_S2000000_S2000000x1_0 : (⟨S2000000, .f32⟩ : BufTy).Contents (Elt F) → (⟨S2000000x1, .f32⟩ : BufTy).Contents (Elt F)),
    nullary main_c_29 (constantI S_ 32 0#32),
    unary main_c_29 main_v142 (broadcastInDim S2000000 ![] bcast_S_S2000000 : (⟨S_, .i32⟩ : BufTy).Contents (Elt F) → (⟨S2000000, .i32⟩ : BufTy).Contents (Elt F)),
    binary main_v115 main_v142 main_v143 (cmpi .slt : (⟨S2000000, .i32⟩ : BufTy).Contents (Elt F) → (⟨S2000000, .i32⟩ : BufTy).Contents (Elt F) → (⟨S2000000, .i1⟩ : BufTy).Contents (Elt F)),
    nullary main_c_30 (constantI S_ 32 100000#32),
    unary main_c_30 main_v144 (broadcastInDim S2000000 ![] bcast_S_S2000000 : (⟨S_, .i32⟩ : BufTy).Contents (Elt F) → (⟨S2000000, .i32⟩ : BufTy).Contents (Elt F)),
    binary main_v115 main_v144 main_v145 (addi : (⟨S2000000, .i32⟩ : BufTy).Contents (Elt F) → (⟨S2000000, .i32⟩ : BufTy).Contents (Elt F) → (⟨S2000000, .i32⟩ : BufTy).Contents (Elt F)),
    ternary main_v143 main_v145 main_v115 main_v146 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v146 main_v147 (broadcastInDim S2000000x1 ![0] bcast_S2000000_S2000000x1_0 : (⟨S2000000, .i32⟩ : BufTy).Contents (Elt F) → (⟨S2000000x1, .i32⟩ : BufTy).Contents (Elt F)),
    binary main_v118 main_v147 main_v148 ((fun x i => Host.gather gather_S100000x64_S2000000x1_S2000000x64_1_0_n_n_0_1_164 x i) : (⟨S100000x64, .f32⟩ : BufTy).Contents (Elt F) → (⟨S2000000x1, .i32⟩ : BufTy).Contents (Elt F) → (⟨S2000000x64, .f32⟩ : BufTy).Contents (Elt F)),
    unary main_v141 main_v149 (broadcastInDim S2000000x64 ![0, 1] bcast_S2000000x1_S2000000x64_0_1 : (⟨S2000000x1, .f32⟩ : BufTy).Contents (Elt F) → (⟨S2000000x64, .f32⟩ : BufTy).Contents (Elt F)),
    binary main_v148 main_v149 main_v150 (mulf : (⟨S2000000x64, .f32⟩ : BufTy).Contents (Elt F) → (⟨S2000000x64, .f32⟩ : BufTy).Contents (Elt F) → (⟨S2000000x64, .f32⟩ : BufTy).Contents (Elt F)),
    nullary main_cst_31 (constant S_ .f32 0x00000000#32),
    unary main_cst_31 main_v151 (broadcastInDim S100000x64 ![] bcast_S_S100000x64 : (⟨S_, .f32⟩ : BufTy).Contents (Elt F) → (⟨S100000x64, .f32⟩ : BufTy).Contents (Elt F)),
    unary main_v117 main_v152 (broadcastInDim S2000000x1 ![0] bcast_S2000000_S2000000x1_0 : (⟨S2000000, .i32⟩ : BufTy).Contents (Elt F) → (⟨S2000000x1, .i32⟩ : BufTy).Contents (Elt F)),
    ternary main_v151 main_v152 main_v150 main_v153 ((fun x i u => Host.scatterAdd scatter_S100000x64_S2000000x1_S2000000x64_1_0_0_1 x i u) : (⟨S100000x64, .f32⟩ : BufTy).Contents (Elt F) → (⟨S2000000x1, .i32⟩ : BufTy).Contents (Elt F) → (⟨S2000000x64, .f32⟩ : BufTy).Contents (Elt F) → (⟨S100000x64, .f32⟩ : BufTy).Contents (Elt F)),
    unary main_v124 main_v154 (broadcastInDim S100000x1 ![0] bcast_S100000_S100000x1_0 : (⟨S100000, .f32⟩ : BufTy).Contents (Elt F) → (⟨S100000x1, .f32⟩ : BufTy).Contents (Elt F)),
    unary main_v154 main_v155 (broadcastInDim S100000x64 ![0, 1] bcast_S100000x1_S100000x64_0_1 : (⟨S100000x1, .f32⟩ : BufTy).Contents (Elt F) → (⟨S100000x64, .f32⟩ : BufTy).Contents (Elt F)),
    binary main_v118 main_v155 main_v156 (Host.divf : (⟨S100000x64, .f32⟩ : BufTy).Contents (Elt F) → (⟨S100000x64, .f32⟩ : BufTy).Contents (Elt F) → (⟨S100000x64, .f32⟩ : BufTy).Contents (Elt F)),
    binary main_v153 main_v156 main_v157 (addf : (⟨S100000x64, .f32⟩ : BufTy).Contents (Elt F) → (⟨S100000x64, .f32⟩ : BufTy).Contents (Elt F) → (⟨S100000x64, .f32⟩ : BufTy).Contents (Elt F)),
    unary main_arg31 main_v158 (broadcastInDim S1x64 ![1] bcast_S64_S1x64_1 : (⟨S64, .f32⟩ : BufTy).Contents (Elt F) → (⟨S1x64, .f32⟩ : BufTy).Contents (Elt F)),
    unary main_v158 main_v159 (broadcastInDim S100000x64 ![0, 1] bcast_S1x64_S100000x64_0_1 : (⟨S1x64, .f32⟩ : BufTy).Contents (Elt F) → (⟨S100000x64, .f32⟩ : BufTy).Contents (Elt F)),
    binary main_v157 main_v159 main_v160 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x64, .f32⟩) main_call3_v0) (broadcastInDim S100000x64 ![] bcast_S_S100000x64),
    TRef.binary (TRef.of (T := ⟨S100000x64, .f32⟩) main_v160) (TRef.of (T := ⟨S100000x64, .f32⟩) main_call3_v0) (TRef.of (T := ⟨S100000x64, .f32⟩) main_v161) maximumf ]

/-- Layer 5: operations 204 to 233. -/
abbrev P5 : List (HloOp τ sig (Elt F)) :=
  [ nullary main_cst_32 (constant S_ .f32 0x00000000#32),
    binary main_v161 main_cst_32 main_v162 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_33 (constant S_ .f32 0x47C35000#32),
    unary main_cst_33 main_v163 (broadcastInDim S64 ![] bcast_S_S64 : (⟨S_, .f32⟩ : BufTy).Contents (Elt F) → (⟨S64, .f32⟩ : BufTy).Contents (Elt F)),
    binary main_v162 main_v163 main_v164 (Host.divf : (⟨S64, .f32⟩ : BufTy).Contents (Elt F) → (⟨S64, .f32⟩ : BufTy).Contents (Elt F) → (⟨S64, .f32⟩ : BufTy).Contents (Elt F)),
    unary main_v164 main_v165 (broadcastInDim S1x64 ![1] bcast_S64_S1x64_1 : (⟨S64, .f32⟩ : BufTy).Contents (Elt F) → (⟨S1x64, .f32⟩ : BufTy).Contents (Elt F)),
    unary main_v165 main_v166 (broadcastInDim S100000x64 ![0, 1] bcast_S1x64_S100000x64_0_1 : (⟨S1x64, .f32⟩ : BufTy).Contents (Elt F) → (⟨S100000x64, .f32⟩ : BufTy).Contents (Elt F)),
    binary main_v161 main_v166 main_v167 (subf : (⟨S100000x64, .f32⟩ : BufTy).Contents (Elt F) → (⟨S100000x64, .f32⟩ : BufTy).Contents (Elt F) → (⟨S100000x64, .f32⟩ : BufTy).Contents (Elt F)),
    binary main_v167 main_v167 main_v168 (mulf : (⟨S100000x64, .f32⟩ : BufTy).Contents (Elt F) → (⟨S100000x64, .f32⟩ : BufTy).Contents (Elt F) → (⟨S100000x64, .f32⟩ : BufTy).Contents (Elt F)),
    nullary main_cst_34 (constant S_ .f32 0x00000000#32),
    binary main_v168 main_cst_34 main_v169 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_35 (constant S_ .f32 0x47C35000#32),
    unary main_cst_35 main_v170 (broadcastInDim S64 ![] bcast_S_S64 : (⟨S_, .f32⟩ : BufTy).Contents (Elt F) → (⟨S64, .f32⟩ : BufTy).Contents (Elt F)),
    binary main_v169 main_v170 main_v171 (Host.divf : (⟨S64, .f32⟩ : BufTy).Contents (Elt F) → (⟨S64, .f32⟩ : BufTy).Contents (Elt F) → (⟨S64, .f32⟩ : BufTy).Contents (Elt F)),
    unary main_v164 main_v172 (broadcastInDim S1x64 ![1] bcast_S64_S1x64_1 : (⟨S64, .f32⟩ : BufTy).Contents (Elt F) → (⟨S1x64, .f32⟩ : BufTy).Contents (Elt F)),
    unary main_v172 main_v173 (broadcastInDim S100000x64 ![0, 1] bcast_S1x64_S100000x64_0_1 : (⟨S1x64, .f32⟩ : BufTy).Contents (Elt F) → (⟨S100000x64, .f32⟩ : BufTy).Contents (Elt F)),
    binary main_v161 main_v173 main_v174 (subf : (⟨S100000x64, .f32⟩ : BufTy).Contents (Elt F) → (⟨S100000x64, .f32⟩ : BufTy).Contents (Elt F) → (⟨S100000x64, .f32⟩ : BufTy).Contents (Elt F)),
    nullary main_cst_36 (constant S_ .f32 0x3727C5AC#32),
    unary main_cst_36 main_v175 (broadcastInDim S64 ![] bcast_S_S64 : (⟨S_, .f32⟩ : BufTy).Contents (Elt F) → (⟨S64, .f32⟩ : BufTy).Contents (Elt F)),
    binary main_v171 main_v175 main_v176 (addf : (⟨S64, .f32⟩ : BufTy).Contents (Elt F) → (⟨S64, .f32⟩ : BufTy).Contents (Elt F) → (⟨S64, .f32⟩ : BufTy).Contents (Elt F)),
    unary main_v176 main_v177 (Host.rsqrt : (⟨S64, .f32⟩ : BufTy).Contents (Elt F) → (⟨S64, .f32⟩ : BufTy).Contents (Elt F)),
    unary main_v177 main_v178 (broadcastInDim S1x64 ![1] bcast_S64_S1x64_1 : (⟨S64, .f32⟩ : BufTy).Contents (Elt F) → (⟨S1x64, .f32⟩ : BufTy).Contents (Elt F)),
    unary main_v178 main_v179 (broadcastInDim S100000x64 ![0, 1] bcast_S1x64_S100000x64_0_1 : (⟨S1x64, .f32⟩ : BufTy).Contents (Elt F) → (⟨S100000x64, .f32⟩ : BufTy).Contents (Elt F)),
    binary main_v174 main_v179 main_v180 (mulf : (⟨S100000x64, .f32⟩ : BufTy).Contents (Elt F) → (⟨S100000x64, .f32⟩ : BufTy).Contents (Elt F) → (⟨S100000x64, .f32⟩ : BufTy).Contents (Elt F)),
    unary main_arg36 main_v181 (broadcastInDim S1x64 ![1] bcast_S64_S1x64_1 : (⟨S64, .f32⟩ : BufTy).Contents (Elt F) → (⟨S1x64, .f32⟩ : BufTy).Contents (Elt F)),
    unary main_v181 main_v182 (broadcastInDim S100000x64 ![0, 1] bcast_S1x64_S100000x64_0_1 : (⟨S1x64, .f32⟩ : BufTy).Contents (Elt F) → (⟨S100000x64, .f32⟩ : BufTy).Contents (Elt F)),
    binary main_v180 main_v182 main_v183 (mulf : (⟨S100000x64, .f32⟩ : BufTy).Contents (Elt F) → (⟨S100000x64, .f32⟩ : BufTy).Contents (Elt F) → (⟨S100000x64, .f32⟩ : BufTy).Contents (Elt F)),
    unary main_arg37 main_v184 (broadcastInDim S1x64 ![1] bcast_S64_S1x64_1 : (⟨S64, .f32⟩ : BufTy).Contents (Elt F) → (⟨S1x64, .f32⟩ : BufTy).Contents (Elt F)),
    unary main_v184 main_v185 (broadcastInDim S100000x64 ![0, 1] bcast_S1x64_S100000x64_0_1 : (⟨S1x64, .f32⟩ : BufTy).Contents (Elt F) → (⟨S100000x64, .f32⟩ : BufTy).Contents (Elt F)),
    binary main_v183 main_v185 main_v186 (addf : (⟨S100000x64, .f32⟩ : BufTy).Contents (Elt F) → (⟨S100000x64, .f32⟩ : BufTy).Contents (Elt F) → (⟨S100000x64, .f32⟩ : BufTy).Contents (Elt F)) ]

/-- Layer 6: operations 234 to 293. -/
abbrev P6 : List (HloOp τ sig (Elt F)) :=
  [ unary main_arg9 main_v187 ((extractStridedSlice S1x2000000 ![0, 0] · slices_S2x2000000_S1x2000000_0_0) : (⟨S2x2000000, .i32⟩ : BufTy).Contents (Elt F) → (⟨S1x2000000, .i32⟩ : BufTy).Contents (Elt F)),
    reshape main_v187 main_v188 rfl shapeCasts_S1x2000000_S2000000,
    unary main_arg9 main_v189 ((extractStridedSlice S1x2000000 ![1, 0] · slices_S2x2000000_S1x2000000_1_0) : (⟨S2x2000000, .i32⟩ : BufTy).Contents (Elt F) → (⟨S1x2000000, .i32⟩ : BufTy).Contents (Elt F)),
    reshape main_v189 main_v190 rfl shapeCasts_S1x2000000_S2000000,
    binary main_v113 main_arg32 main_v191 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_cst_37 (constant S_ .f32 0x3F800000#32),
    unary main_cst_37 main_v192 (broadcastInDim S2000000 ![] bcast_S_S2000000 : (⟨S_, .f32⟩ : BufTy).Contents (Elt F) → (⟨S2000000, .f32⟩ : BufTy).Contents (Elt F)),
    nullary main_cst_38 (constant S_ .f32 0x00000000#32),
    unary main_cst_38 main_v193 (broadcastInDim S100000 ![] bcast_S_S100000 : (⟨S_, .f32⟩ : BufTy).Contents (Elt F) → (⟨S100000, .f32⟩ : BufTy).Contents (Elt F)),
    unary main_v190 main_v194 (broadcastInDim S2000000x1 ![0] bcast_S2000000_S2000000x1_0 : (⟨S2000000, .i32⟩ : BufTy).Contents (Elt F) → (⟨S2000000x1, .i32⟩ : BufTy).Contents (Elt F)),
    ternary main_v193 main_v194 main_v192 main_v195 ((fun x i u => Host.scatterAdd scatter_S100000_S2000000x1_S2000000_n_0_0_1 x i u) : (⟨S100000, .f32⟩ : BufTy).Contents (Elt F) → (⟨S2000000x1, .i32⟩ : BufTy).Contents (Elt F) → (⟨S2000000, .f32⟩ : BufTy).Contents (Elt F) → (⟨S100000, .f32⟩ : BufTy).Contents (Elt F)),
    nullary main_cst_39 (constant S_ .f32 0x3F800000#32),
    unary main_cst_39 main_v196 (broadcastInDim S100000 ![] bcast_S_S100000 : (⟨S_, .f32⟩ : BufTy).Contents (Elt F) → (⟨S100000, .f32⟩ : BufTy).Contents (Elt F)),
    binary main_v195 main_v196 main_v197 (addf : (⟨S100000, .f32⟩ : BufTy).Contents (Elt F) → (⟨S100000, .f32⟩ : BufTy).Contents (Elt F) → (⟨S100000, .f32⟩ : BufTy).Contents (Elt F)),
    unary main_v197 main_v198 (Host.rsqrt : (⟨S100000, .f32⟩ : BufTy).Contents (Elt F) → (⟨S100000, .f32⟩ : BufTy).Contents (Elt F)),
    nullary main_c_40 (constantI S_ 32 0#32),
    unary main_c_40 main_v199 (broadcastInDim S2000000 ![] bcast_S_S2000000 : (⟨S_, .i32⟩ : BufTy).Contents (Elt F) → (⟨S2000000, .i32⟩ : BufTy).Contents (Elt F)),
    binary main_v188 main_v199 main_v200 (cmpi .slt : (⟨S2000000, .i32⟩ : BufTy).Contents (Elt F) → (⟨S2000000, .i32⟩ : BufTy).Contents (Elt F) → (⟨S2000000, .i1⟩ : BufTy).Contents (Elt F)),
    nullary main_c_41 (constantI S_ 32 100000#32),
    unary main_c_41 main_v201 (broadcastInDim S2000000 ![] bcast_S_S2000000 : (⟨S_, .i32⟩ : BufTy).Contents (Elt F) → (⟨S2000000, .i32⟩ : BufTy).Contents (Elt F)),
    binary main_v188 main_v201 main_v202 (addi : (⟨S2000000, .i32⟩ : BufTy).Contents (Elt F) → (⟨S2000000, .i32⟩ : BufTy).Contents (Elt F) → (⟨S2000000, .i32⟩ : BufTy).Contents (Elt F)),
    ternary main_v200 main_v202 main_v188 main_v203 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v203 main_v204 (broadcastInDim S2000000x1 ![0] bcast_S2000000_S2000000x1_0 : (⟨S2000000, .i32⟩ : BufTy).Contents (Elt F) → (⟨S2000000x1, .i32⟩ : BufTy).Contents (Elt F)),
    binary main_v198 main_v204 main_v205 ((fun x i => Host.gather gather_S100000_S2000000x1_S2000000_n_0_n_n_0_1_1 x i) : (⟨S100000, .f32⟩ : BufTy).Contents (Elt F) → (⟨S2000000x1, .i32⟩ : BufTy).Contents (Elt F) → (⟨S2000000, .f32⟩ : BufTy).Contents (Elt F)),
    nullary main_c_42 (constantI S_ 32 0#32),
    unary main_c_42 main_v206 (broadcastInDim S2000000 ![] bcast_S_S2000000 : (⟨S_, .i32⟩ : BufTy).Contents (Elt F) → (⟨S2000000, .i32⟩ : BufTy).Contents (Elt F)),
    binary main_v190 main_v206 main_v207 (cmpi .slt : (⟨S2000000, .i32⟩ : BufTy).Contents (Elt F) → (⟨S2000000, .i32⟩ : BufTy).Contents (Elt F) → (⟨S2000000, .i1⟩ : BufTy).Contents (Elt F)),
    nullary main_c_43 (constantI S_ 32 100000#32),
    unary main_c_43 main_v208 (broadcastInDim S2000000 ![] bcast_S_S2000000 : (⟨S_, .i32⟩ : BufTy).Contents (Elt F) → (⟨S2000000, .i32⟩ : BufTy).Contents (Elt F)),
    binary main_v190 main_v208 main_v209 (addi : (⟨S2000000, .i32⟩ : BufTy).Contents (Elt F) → (⟨S2000000, .i32⟩ : BufTy).Contents (Elt F) → (⟨S2000000, .i32⟩ : BufTy).Contents (Elt F)),
    ternary main_v207 main_v209 main_v190 main_v210 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v210 main_v211 (broadcastInDim S2000000x1 ![0] bcast_S2000000_S2000000x1_0 : (⟨S2000000, .i32⟩ : BufTy).Contents (Elt F) → (⟨S2000000x1, .i32⟩ : BufTy).Contents (Elt F)),
    binary main_v198 main_v211 main_v212 ((fun x i => Host.gather gather_S100000_S2000000x1_S2000000_n_0_n_n_0_1_1 x i) : (⟨S100000, .f32⟩ : BufTy).Contents (Elt F) → (⟨S2000000x1, .i32⟩ : BufTy).Contents (Elt F) → (⟨S2000000, .f32⟩ : BufTy).Contents (Elt F)),
    binary main_v205 main_v212 main_v213 (mulf : (⟨S2000000, .f32⟩ : BufTy).Contents (Elt F) → (⟨S2000000, .f32⟩ : BufTy).Contents (Elt F) → (⟨S2000000, .f32⟩ : BufTy).Contents (Elt F)),
    unary main_v213 main_v214 (broadcastInDim S2000000x1 ![0] bcast_S2000000_S2000000x1_0 : (⟨S2000000, .f32⟩ : BufTy).Contents (Elt F) → (⟨S2000000x1, .f32⟩ : BufTy).Contents (Elt F)),
    nullary main_c_44 (constantI S_ 32 0#32),
    unary main_c_44 main_v215 (broadcastInDim S2000000 ![] bcast_S_S2000000 : (⟨S_, .i32⟩ : BufTy).Contents (Elt F) → (⟨S2000000, .i32⟩ : BufTy).Contents (Elt F)),
    binary main_v188 main_v215 main_v216 (cmpi .slt : (⟨S2000000, .i32⟩ : BufTy).Contents (Elt F) → (⟨S2000000, .i32⟩ : BufTy).Contents (Elt F) → (⟨S2000000, .i1⟩ : BufTy).Contents (Elt F)),
    nullary main_c_45 (constantI S_ 32 100000#32),
    unary main_c_45 main_v217 (broadcastInDim S2000000 ![] bcast_S_S2000000 : (⟨S_, .i32⟩ : BufTy).Contents (Elt F) → (⟨S2000000, .i32⟩ : BufTy).Contents (Elt F)),
    binary main_v188 main_v217 main_v218 (addi : (⟨S2000000, .i32⟩ : BufTy).Contents (Elt F) → (⟨S2000000, .i32⟩ : BufTy).Contents (Elt F) → (⟨S2000000, .i32⟩ : BufTy).Contents (Elt F)),
    ternary main_v216 main_v218 main_v188 main_v219 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v219 main_v220 (broadcastInDim S2000000x1 ![0] bcast_S2000000_S2000000x1_0 : (⟨S2000000, .i32⟩ : BufTy).Contents (Elt F) → (⟨S2000000x1, .i32⟩ : BufTy).Contents (Elt F)),
    binary main_v191 main_v220 main_v221 ((fun x i => Host.gather gather_S100000x64_S2000000x1_S2000000x64_1_0_n_n_0_1_164 x i) : (⟨S100000x64, .f32⟩ : BufTy).Contents (Elt F) → (⟨S2000000x1, .i32⟩ : BufTy).Contents (Elt F) → (⟨S2000000x64, .f32⟩ : BufTy).Contents (Elt F)),
    unary main_v214 main_v222 (broadcastInDim S2000000x64 ![0, 1] bcast_S2000000x1_S2000000x64_0_1 : (⟨S2000000x1, .f32⟩ : BufTy).Contents (Elt F) → (⟨S2000000x64, .f32⟩ : BufTy).Contents (Elt F)),
    binary main_v221 main_v222 main_v223 (mulf : (⟨S2000000x64, .f32⟩ : BufTy).Contents (Elt F) → (⟨S2000000x64, .f32⟩ : BufTy).Contents (Elt F) → (⟨S2000000x64, .f32⟩ : BufTy).Contents (Elt F)),
    nullary main_cst_46 (constant S_ .f32 0x00000000#32),
    unary main_cst_46 main_v224 (broadcastInDim S100000x64 ![] bcast_S_S100000x64 : (⟨S_, .f32⟩ : BufTy).Contents (Elt F) → (⟨S100000x64, .f32⟩ : BufTy).Contents (Elt F)),
    unary main_v190 main_v225 (broadcastInDim S2000000x1 ![0] bcast_S2000000_S2000000x1_0 : (⟨S2000000, .i32⟩ : BufTy).Contents (Elt F) → (⟨S2000000x1, .i32⟩ : BufTy).Contents (Elt F)),
    ternary main_v224 main_v225 main_v223 main_v226 ((fun x i u => Host.scatterAdd scatter_S100000x64_S2000000x1_S2000000x64_1_0_0_1 x i u) : (⟨S100000x64, .f32⟩ : BufTy).Contents (Elt F) → (⟨S2000000x1, .i32⟩ : BufTy).Contents (Elt F) → (⟨S2000000x64, .f32⟩ : BufTy).Contents (Elt F) → (⟨S100000x64, .f32⟩ : BufTy).Contents (Elt F)),
    unary main_v197 main_v227 (broadcastInDim S100000x1 ![0] bcast_S100000_S100000x1_0 : (⟨S100000, .f32⟩ : BufTy).Contents (Elt F) → (⟨S100000x1, .f32⟩ : BufTy).Contents (Elt F)),
    unary main_v227 main_v228 (broadcastInDim S100000x64 ![0, 1] bcast_S100000x1_S100000x64_0_1 : (⟨S100000x1, .f32⟩ : BufTy).Contents (Elt F) → (⟨S100000x64, .f32⟩ : BufTy).Contents (Elt F)),
    binary main_v191 main_v228 main_v229 (Host.divf : (⟨S100000x64, .f32⟩ : BufTy).Contents (Elt F) → (⟨S100000x64, .f32⟩ : BufTy).Contents (Elt F) → (⟨S100000x64, .f32⟩ : BufTy).Contents (Elt F)),
    binary main_v226 main_v229 main_v230 (addf : (⟨S100000x64, .f32⟩ : BufTy).Contents (Elt F) → (⟨S100000x64, .f32⟩ : BufTy).Contents (Elt F) → (⟨S100000x64, .f32⟩ : BufTy).Contents (Elt F)),
    unary main_arg33 main_v231 (broadcastInDim S1x64 ![1] bcast_S64_S1x64_1 : (⟨S64, .f32⟩ : BufTy).Contents (Elt F) → (⟨S1x64, .f32⟩ : BufTy).Contents (Elt F)),
    unary main_v231 main_v232 (broadcastInDim S100000x64 ![0, 1] bcast_S1x64_S100000x64_0_1 : (⟨S1x64, .f32⟩ : BufTy).Contents (Elt F) → (⟨S100000x64, .f32⟩ : BufTy).Contents (Elt F)),
    binary main_v230 main_v232 main_v233 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S100000x64, .f32⟩) main_call4_v0) (broadcastInDim S100000x64 ![] bcast_S_S100000x64),
    TRef.binary (TRef.of (T := ⟨S100000x64, .f32⟩) main_v233) (TRef.of (T := ⟨S100000x64, .f32⟩) main_call4_v0) (TRef.of (T := ⟨S100000x64, .f32⟩) main_v234) maximumf ]

/-- Layer 7: operations 294 to 323. -/
abbrev P7 : List (HloOp τ sig (Elt F)) :=
  [ nullary main_cst_47 (constant S_ .f32 0x00000000#32),
    binary main_v234 main_cst_47 main_v235 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_48 (constant S_ .f32 0x47C35000#32),
    unary main_cst_48 main_v236 (broadcastInDim S64 ![] bcast_S_S64 : (⟨S_, .f32⟩ : BufTy).Contents (Elt F) → (⟨S64, .f32⟩ : BufTy).Contents (Elt F)),
    binary main_v235 main_v236 main_v237 (Host.divf : (⟨S64, .f32⟩ : BufTy).Contents (Elt F) → (⟨S64, .f32⟩ : BufTy).Contents (Elt F) → (⟨S64, .f32⟩ : BufTy).Contents (Elt F)),
    unary main_v237 main_v238 (broadcastInDim S1x64 ![1] bcast_S64_S1x64_1 : (⟨S64, .f32⟩ : BufTy).Contents (Elt F) → (⟨S1x64, .f32⟩ : BufTy).Contents (Elt F)),
    unary main_v238 main_v239 (broadcastInDim S100000x64 ![0, 1] bcast_S1x64_S100000x64_0_1 : (⟨S1x64, .f32⟩ : BufTy).Contents (Elt F) → (⟨S100000x64, .f32⟩ : BufTy).Contents (Elt F)),
    binary main_v234 main_v239 main_v240 (subf : (⟨S100000x64, .f32⟩ : BufTy).Contents (Elt F) → (⟨S100000x64, .f32⟩ : BufTy).Contents (Elt F) → (⟨S100000x64, .f32⟩ : BufTy).Contents (Elt F)),
    binary main_v240 main_v240 main_v241 (mulf : (⟨S100000x64, .f32⟩ : BufTy).Contents (Elt F) → (⟨S100000x64, .f32⟩ : BufTy).Contents (Elt F) → (⟨S100000x64, .f32⟩ : BufTy).Contents (Elt F)),
    nullary main_cst_49 (constant S_ .f32 0x00000000#32),
    binary main_v241 main_cst_49 main_v242 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_50 (constant S_ .f32 0x47C35000#32),
    unary main_cst_50 main_v243 (broadcastInDim S64 ![] bcast_S_S64 : (⟨S_, .f32⟩ : BufTy).Contents (Elt F) → (⟨S64, .f32⟩ : BufTy).Contents (Elt F)),
    binary main_v242 main_v243 main_v244 (Host.divf : (⟨S64, .f32⟩ : BufTy).Contents (Elt F) → (⟨S64, .f32⟩ : BufTy).Contents (Elt F) → (⟨S64, .f32⟩ : BufTy).Contents (Elt F)),
    unary main_v237 main_v245 (broadcastInDim S1x64 ![1] bcast_S64_S1x64_1 : (⟨S64, .f32⟩ : BufTy).Contents (Elt F) → (⟨S1x64, .f32⟩ : BufTy).Contents (Elt F)),
    unary main_v245 main_v246 (broadcastInDim S100000x64 ![0, 1] bcast_S1x64_S100000x64_0_1 : (⟨S1x64, .f32⟩ : BufTy).Contents (Elt F) → (⟨S100000x64, .f32⟩ : BufTy).Contents (Elt F)),
    binary main_v234 main_v246 main_v247 (subf : (⟨S100000x64, .f32⟩ : BufTy).Contents (Elt F) → (⟨S100000x64, .f32⟩ : BufTy).Contents (Elt F) → (⟨S100000x64, .f32⟩ : BufTy).Contents (Elt F)),
    nullary main_cst_51 (constant S_ .f32 0x3727C5AC#32),
    unary main_cst_51 main_v248 (broadcastInDim S64 ![] bcast_S_S64 : (⟨S_, .f32⟩ : BufTy).Contents (Elt F) → (⟨S64, .f32⟩ : BufTy).Contents (Elt F)),
    binary main_v244 main_v248 main_v249 (addf : (⟨S64, .f32⟩ : BufTy).Contents (Elt F) → (⟨S64, .f32⟩ : BufTy).Contents (Elt F) → (⟨S64, .f32⟩ : BufTy).Contents (Elt F)),
    unary main_v249 main_v250 (Host.rsqrt : (⟨S64, .f32⟩ : BufTy).Contents (Elt F) → (⟨S64, .f32⟩ : BufTy).Contents (Elt F)),
    unary main_v250 main_v251 (broadcastInDim S1x64 ![1] bcast_S64_S1x64_1 : (⟨S64, .f32⟩ : BufTy).Contents (Elt F) → (⟨S1x64, .f32⟩ : BufTy).Contents (Elt F)),
    unary main_v251 main_v252 (broadcastInDim S100000x64 ![0, 1] bcast_S1x64_S100000x64_0_1 : (⟨S1x64, .f32⟩ : BufTy).Contents (Elt F) → (⟨S100000x64, .f32⟩ : BufTy).Contents (Elt F)),
    binary main_v247 main_v252 main_v253 (mulf : (⟨S100000x64, .f32⟩ : BufTy).Contents (Elt F) → (⟨S100000x64, .f32⟩ : BufTy).Contents (Elt F) → (⟨S100000x64, .f32⟩ : BufTy).Contents (Elt F)),
    unary main_arg38 main_v254 (broadcastInDim S1x64 ![1] bcast_S64_S1x64_1 : (⟨S64, .f32⟩ : BufTy).Contents (Elt F) → (⟨S1x64, .f32⟩ : BufTy).Contents (Elt F)),
    unary main_v254 main_v255 (broadcastInDim S100000x64 ![0, 1] bcast_S1x64_S100000x64_0_1 : (⟨S1x64, .f32⟩ : BufTy).Contents (Elt F) → (⟨S100000x64, .f32⟩ : BufTy).Contents (Elt F)),
    binary main_v253 main_v255 main_v256 (mulf : (⟨S100000x64, .f32⟩ : BufTy).Contents (Elt F) → (⟨S100000x64, .f32⟩ : BufTy).Contents (Elt F) → (⟨S100000x64, .f32⟩ : BufTy).Contents (Elt F)),
    unary main_arg39 main_v257 (broadcastInDim S1x64 ![1] bcast_S64_S1x64_1 : (⟨S64, .f32⟩ : BufTy).Contents (Elt F) → (⟨S1x64, .f32⟩ : BufTy).Contents (Elt F)),
    unary main_v257 main_v258 (broadcastInDim S100000x64 ![0, 1] bcast_S1x64_S100000x64_0_1 : (⟨S1x64, .f32⟩ : BufTy).Contents (Elt F) → (⟨S100000x64, .f32⟩ : BufTy).Contents (Elt F)),
    binary main_v256 main_v258 main_v259 (addf : (⟨S100000x64, .f32⟩ : BufTy).Contents (Elt F) → (⟨S100000x64, .f32⟩ : BufTy).Contents (Elt F) → (⟨S100000x64, .f32⟩ : BufTy).Contents (Elt F)) ]

/-- Layer 8: operations 324 to 371. -/
abbrev P8 : List (HloOp τ sig (Elt F)) :=
  [ unary main_arg4 main_v260 ((extractStridedSlice S1x2000000 ![0, 0] · slices_S2x2000000_S1x2000000_0_0) : (⟨S2x2000000, .i32⟩ : BufTy).Contents (Elt F) → (⟨S1x2000000, .i32⟩ : BufTy).Contents (Elt F)),
    reshape main_v260 main_v261 rfl shapeCasts_S1x2000000_S2000000,
    unary main_arg4 main_v262 ((extractStridedSlice S1x2000000 ![1, 0] · slices_S2x2000000_S1x2000000_1_0) : (⟨S2x2000000, .i32⟩ : BufTy).Contents (Elt F) → (⟨S1x2000000, .i32⟩ : BufTy).Contents (Elt F)),
    reshape main_v262 main_v263 rfl shapeCasts_S1x2000000_S2000000,
    nullary main_c_52 (constantI S_ 32 0#32),
    unary main_c_52 main_v264 (broadcastInDim S2000000 ![] bcast_S_S2000000 : (⟨S_, .i32⟩ : BufTy).Contents (Elt F) → (⟨S2000000, .i32⟩ : BufTy).Contents (Elt F)),
    binary main_v261 main_v264 main_v265 (cmpi .slt : (⟨S2000000, .i32⟩ : BufTy).Contents (Elt F) → (⟨S2000000, .i32⟩ : BufTy).Contents (Elt F) → (⟨S2000000, .i1⟩ : BufTy).Contents (Elt F)),
    nullary main_c_53 (constantI S_ 32 100000#32),
    unary main_c_53 main_v266 (broadcastInDim S2000000 ![] bcast_S_S2000000 : (⟨S_, .i32⟩ : BufTy).Contents (Elt F) → (⟨S2000000, .i32⟩ : BufTy).Contents (Elt F)),
    binary main_v261 main_v266 main_v267 (addi : (⟨S2000000, .i32⟩ : BufTy).Contents (Elt F) → (⟨S2000000, .i32⟩ : BufTy).Contents (Elt F) → (⟨S2000000, .i32⟩ : BufTy).Contents (Elt F)),
    ternary main_v265 main_v267 main_v261 main_v268 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v268 main_v269 (broadcastInDim S2000000x1 ![0] bcast_S2000000_S2000000x1_0 : (⟨S2000000, .i32⟩ : BufTy).Contents (Elt F) → (⟨S2000000x1, .i32⟩ : BufTy).Contents (Elt F)),
    binary main_v186 main_v269 main_v270 ((fun x i => Host.gather gather_S100000x64_S2000000x1_S2000000x64_1_0_n_n_0_1_164 x i) : (⟨S100000x64, .f32⟩ : BufTy).Contents (Elt F) → (⟨S2000000x1, .i32⟩ : BufTy).Contents (Elt F) → (⟨S2000000x64, .f32⟩ : BufTy).Contents (Elt F)),
    nullary main_cst_54 (constant S_ .f32 0x00000000#32),
    unary main_cst_54 main_v271 (broadcastInDim S100000x64 ![] bcast_S_S100000x64 : (⟨S_, .f32⟩ : BufTy).Contents (Elt F) → (⟨S100000x64, .f32⟩ : BufTy).Contents (Elt F)),
    unary main_v263 main_v272 (broadcastInDim S2000000x1 ![0] bcast_S2000000_S2000000x1_0 : (⟨S2000000, .i32⟩ : BufTy).Contents (Elt F) → (⟨S2000000x1, .i32⟩ : BufTy).Contents (Elt F)),
    ternary main_v271 main_v272 main_v270 main_v273 ((fun x i u => Host.scatterAdd scatter_S100000x64_S2000000x1_S2000000x64_1_0_0_1 x i u) : (⟨S100000x64, .f32⟩ : BufTy).Contents (Elt F) → (⟨S2000000x1, .i32⟩ : BufTy).Contents (Elt F) → (⟨S2000000x64, .f32⟩ : BufTy).Contents (Elt F) → (⟨S100000x64, .f32⟩ : BufTy).Contents (Elt F)),
    nullary main_cst_55 (constant S_ .f32 0x3F800000#32),
    unary main_cst_55 main_v274 (broadcastInDim S2000000 ![] bcast_S_S2000000 : (⟨S_, .f32⟩ : BufTy).Contents (Elt F) → (⟨S2000000, .f32⟩ : BufTy).Contents (Elt F)),
    nullary main_cst_56 (constant S_ .f32 0x00000000#32),
    unary main_cst_56 main_v275 (broadcastInDim S100000 ![] bcast_S_S100000 : (⟨S_, .f32⟩ : BufTy).Contents (Elt F) → (⟨S100000, .f32⟩ : BufTy).Contents (Elt F)),
    unary main_v263 main_v276 (broadcastInDim S2000000x1 ![0] bcast_S2000000_S2000000x1_0 : (⟨S2000000, .i32⟩ : BufTy).Contents (Elt F) → (⟨S2000000x1, .i32⟩ : BufTy).Contents (Elt F)),
    ternary main_v275 main_v276 main_v274 main_v277 ((fun x i u => Host.scatterAdd scatter_S100000_S2000000x1_S2000000_n_0_0_1 x i u) : (⟨S100000, .f32⟩ : BufTy).Contents (Elt F) → (⟨S2000000x1, .i32⟩ : BufTy).Contents (Elt F) → (⟨S2000000, .f32⟩ : BufTy).Contents (Elt F) → (⟨S100000, .f32⟩ : BufTy).Contents (Elt F)),
    nullary main_cst_57 (constant S_ .f32 0x3F800000#32),
    unary main_cst_57 main_v278 (broadcastInDim S100000 ![] bcast_S_S100000 : (⟨S_, .f32⟩ : BufTy).Contents (Elt F) → (⟨S100000, .f32⟩ : BufTy).Contents (Elt F)),
    binary main_v277 main_v278 main_v279 (maximumf : (⟨S100000, .f32⟩ : BufTy).Contents (Elt F) → (⟨S100000, .f32⟩ : BufTy).Contents (Elt F) → (⟨S100000, .f32⟩ : BufTy).Contents (Elt F)),
    unary main_v279 main_v280 (broadcastInDim S100000x1 ![0] bcast_S100000_S100000x1_0 : (⟨S100000, .f32⟩ : BufTy).Contents (Elt F) → (⟨S100000x1, .f32⟩ : BufTy).Contents (Elt F)),
    unary main_v280 main_v281 (broadcastInDim S100000x64 ![0, 1] bcast_S100000x1_S100000x64_0_1 : (⟨S100000x1, .f32⟩ : BufTy).Contents (Elt F) → (⟨S100000x64, .f32⟩ : BufTy).Contents (Elt F)),
    binary main_v273 main_v281 main_v282 (Host.divf : (⟨S100000x64, .f32⟩ : BufTy).Contents (Elt F) → (⟨S100000x64, .f32⟩ : BufTy).Contents (Elt F) → (⟨S100000x64, .f32⟩ : BufTy).Contents (Elt F)),
    binary main_v282 main_arg21 main_v283 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg22 main_v284 (broadcastInDim S1x64 ![1] bcast_S64_S1x64_1 : (⟨S64, .f32⟩ : BufTy).Contents (Elt F) → (⟨S1x64, .f32⟩ : BufTy).Contents (Elt F)),
    unary main_v284 main_v285 (broadcastInDim S100000x64 ![0, 1] bcast_S1x64_S100000x64_0_1 : (⟨S1x64, .f32⟩ : BufTy).Contents (Elt F) → (⟨S100000x64, .f32⟩ : BufTy).Contents (Elt F)),
    binary main_v283 main_v285 main_v286 (addf : (⟨S100000x64, .f32⟩ : BufTy).Contents (Elt F) → (⟨S100000x64, .f32⟩ : BufTy).Contents (Elt F) → (⟨S100000x64, .f32⟩ : BufTy).Contents (Elt F)),
    binary main_arg1 main_arg23 main_v287 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v286 main_v287 main_v288 (addf : (⟨S100000x64, .f32⟩ : BufTy).Contents (Elt F) → (⟨S100000x64, .f32⟩ : BufTy).Contents (Elt F) → (⟨S100000x64, .f32⟩ : BufTy).Contents (Elt F)),
    binary main_v288 main_v288 main_v289 (mulf : (⟨S100000x64, .f32⟩ : BufTy).Contents (Elt F) → (⟨S100000x64, .f32⟩ : BufTy).Contents (Elt F) → (⟨S100000x64, .f32⟩ : BufTy).Contents (Elt F)),
    nullary main_cst_58 (constant S_ .f32 0x00000000#32),
    binary main_v289 main_cst_58 main_v290 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_v290 main_v291 (broadcastInDim S100000x1 ![0] bcast_S100000_S100000x1_0 : (⟨S100000, .f32⟩ : BufTy).Contents (Elt F) → (⟨S100000x1, .f32⟩ : BufTy).Contents (Elt F)),
    unary main_v291 main_v292 (Host.sqrt : (⟨S100000x1, .f32⟩ : BufTy).Contents (Elt F) → (⟨S100000x1, .f32⟩ : BufTy).Contents (Elt F)),
    nullary main_cst_59 (constant S_ .f32 0x2B8CBCCC#32),
    unary main_cst_59 main_v293 (broadcastInDim S100000x1 ![] bcast_S_S100000x1 : (⟨S_, .f32⟩ : BufTy).Contents (Elt F) → (⟨S100000x1, .f32⟩ : BufTy).Contents (Elt F)),
    binary main_v292 main_v293 main_v294 (maximumf : (⟨S100000x1, .f32⟩ : BufTy).Contents (Elt F) → (⟨S100000x1, .f32⟩ : BufTy).Contents (Elt F) → (⟨S100000x1, .f32⟩ : BufTy).Contents (Elt F)),
    unary main_v294 main_v295 (broadcastInDim S100000x64 ![0, 1] bcast_S100000x1_S100000x64_0_1 : (⟨S100000x1, .f32⟩ : BufTy).Contents (Elt F) → (⟨S100000x64, .f32⟩ : BufTy).Contents (Elt F)),
    binary main_v288 main_v295 main_v296 (Host.divf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S100000x64, .f32⟩) main_call5_v0) (broadcastInDim S100000x64 ![] bcast_S_S100000x64),
    TRef.binary (TRef.of (T := ⟨S100000x64, .f32⟩) main_v296) (TRef.of (T := ⟨S100000x64, .f32⟩) main_call5_v0) (TRef.of (T := ⟨S100000x64, .f32⟩) main_v297) maximumf ]

/-- Layer 9: operations 372 to 419. -/
abbrev P9 : List (HloOp τ sig (Elt F)) :=
  [ unary main_arg6 main_v298 ((extractStridedSlice S1x2000000 ![0, 0] · slices_S2x2000000_S1x2000000_0_0) : (⟨S2x2000000, .i32⟩ : BufTy).Contents (Elt F) → (⟨S1x2000000, .i32⟩ : BufTy).Contents (Elt F)),
    reshape main_v298 main_v299 rfl shapeCasts_S1x2000000_S2000000,
    unary main_arg6 main_v300 ((extractStridedSlice S1x2000000 ![1, 0] · slices_S2x2000000_S1x2000000_1_0) : (⟨S2x2000000, .i32⟩ : BufTy).Contents (Elt F) → (⟨S1x2000000, .i32⟩ : BufTy).Contents (Elt F)),
    reshape main_v300 main_v301 rfl shapeCasts_S1x2000000_S2000000,
    nullary main_c_60 (constantI S_ 32 0#32),
    unary main_c_60 main_v302 (broadcastInDim S2000000 ![] bcast_S_S2000000 : (⟨S_, .i32⟩ : BufTy).Contents (Elt F) → (⟨S2000000, .i32⟩ : BufTy).Contents (Elt F)),
    binary main_v299 main_v302 main_v303 (cmpi .slt : (⟨S2000000, .i32⟩ : BufTy).Contents (Elt F) → (⟨S2000000, .i32⟩ : BufTy).Contents (Elt F) → (⟨S2000000, .i1⟩ : BufTy).Contents (Elt F)),
    nullary main_c_61 (constantI S_ 32 100000#32),
    unary main_c_61 main_v304 (broadcastInDim S2000000 ![] bcast_S_S2000000 : (⟨S_, .i32⟩ : BufTy).Contents (Elt F) → (⟨S2000000, .i32⟩ : BufTy).Contents (Elt F)),
    binary main_v299 main_v304 main_v305 (addi : (⟨S2000000, .i32⟩ : BufTy).Contents (Elt F) → (⟨S2000000, .i32⟩ : BufTy).Contents (Elt F) → (⟨S2000000, .i32⟩ : BufTy).Contents (Elt F)),
    ternary main_v303 main_v305 main_v299 main_v306 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v306 main_v307 (broadcastInDim S2000000x1 ![0] bcast_S2000000_S2000000x1_0 : (⟨S2000000, .i32⟩ : BufTy).Contents (Elt F) → (⟨S2000000x1, .i32⟩ : BufTy).Contents (Elt F)),
    binary main_v186 main_v307 main_v308 ((fun x i => Host.gather gather_S100000x64_S2000000x1_S2000000x64_1_0_n_n_0_1_164 x i) : (⟨S100000x64, .f32⟩ : BufTy).Contents (Elt F) → (⟨S2000000x1, .i32⟩ : BufTy).Contents (Elt F) → (⟨S2000000x64, .f32⟩ : BufTy).Contents (Elt F)),
    nullary main_cst_62 (constant S_ .f32 0x00000000#32),
    unary main_cst_62 main_v309 (broadcastInDim S100000x64 ![] bcast_S_S100000x64 : (⟨S_, .f32⟩ : BufTy).Contents (Elt F) → (⟨S100000x64, .f32⟩ : BufTy).Contents (Elt F)),
    unary main_v301 main_v310 (broadcastInDim S2000000x1 ![0] bcast_S2000000_S2000000x1_0 : (⟨S2000000, .i32⟩ : BufTy).Contents (Elt F) → (⟨S2000000x1, .i32⟩ : BufTy).Contents (Elt F)),
    ternary main_v309 main_v310 main_v308 main_v311 ((fun x i u => Host.scatterAdd scatter_S100000x64_S2000000x1_S2000000x64_1_0_0_1 x i u) : (⟨S100000x64, .f32⟩ : BufTy).Contents (Elt F) → (⟨S2000000x1, .i32⟩ : BufTy).Contents (Elt F) → (⟨S2000000x64, .f32⟩ : BufTy).Contents (Elt F) → (⟨S100000x64, .f32⟩ : BufTy).Contents (Elt F)),
    nullary main_cst_63 (constant S_ .f32 0x3F800000#32),
    unary main_cst_63 main_v312 (broadcastInDim S2000000 ![] bcast_S_S2000000 : (⟨S_, .f32⟩ : BufTy).Contents (Elt F) → (⟨S2000000, .f32⟩ : BufTy).Contents (Elt F)),
    nullary main_cst_64 (constant S_ .f32 0x00000000#32),
    unary main_cst_64 main_v313 (broadcastInDim S100000 ![] bcast_S_S100000 : (⟨S_, .f32⟩ : BufTy).Contents (Elt F) → (⟨S100000, .f32⟩ : BufTy).Contents (Elt F)),
    unary main_v301 main_v314 (broadcastInDim S2000000x1 ![0] bcast_S2000000_S2000000x1_0 : (⟨S2000000, .i32⟩ : BufTy).Contents (Elt F) → (⟨S2000000x1, .i32⟩ : BufTy).Contents (Elt F)),
    ternary main_v313 main_v314 main_v312 main_v315 ((fun x i u => Host.scatterAdd scatter_S100000_S2000000x1_S2000000_n_0_0_1 x i u) : (⟨S100000, .f32⟩ : BufTy).Contents (Elt F) → (⟨S2000000x1, .i32⟩ : BufTy).Contents (Elt F) → (⟨S2000000, .f32⟩ : BufTy).Contents (Elt F) → (⟨S100000, .f32⟩ : BufTy).Contents (Elt F)),
    nullary main_cst_65 (constant S_ .f32 0x3F800000#32),
    unary main_cst_65 main_v316 (broadcastInDim S100000 ![] bcast_S_S100000 : (⟨S_, .f32⟩ : BufTy).Contents (Elt F) → (⟨S100000, .f32⟩ : BufTy).Contents (Elt F)),
    binary main_v315 main_v316 main_v317 (maximumf : (⟨S100000, .f32⟩ : BufTy).Contents (Elt F) → (⟨S100000, .f32⟩ : BufTy).Contents (Elt F) → (⟨S100000, .f32⟩ : BufTy).Contents (Elt F)),
    unary main_v317 main_v318 (broadcastInDim S100000x1 ![0] bcast_S100000_S100000x1_0 : (⟨S100000, .f32⟩ : BufTy).Contents (Elt F) → (⟨S100000x1, .f32⟩ : BufTy).Contents (Elt F)),
    unary main_v318 main_v319 (broadcastInDim S100000x64 ![0, 1] bcast_S100000x1_S100000x64_0_1 : (⟨S100000x1, .f32⟩ : BufTy).Contents (Elt F) → (⟨S100000x64, .f32⟩ : BufTy).Contents (Elt F)),
    binary main_v311 main_v319 main_v320 (Host.divf : (⟨S100000x64, .f32⟩ : BufTy).Contents (Elt F) → (⟨S100000x64, .f32⟩ : BufTy).Contents (Elt F) → (⟨S100000x64, .f32⟩ : BufTy).Contents (Elt F)),
    binary main_v320 main_arg24 main_v321 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg25 main_v322 (broadcastInDim S1x64 ![1] bcast_S64_S1x64_1 : (⟨S64, .f32⟩ : BufTy).Contents (Elt F) → (⟨S1x64, .f32⟩ : BufTy).Contents (Elt F)),
    unary main_v322 main_v323 (broadcastInDim S100000x64 ![0, 1] bcast_S1x64_S100000x64_0_1 : (⟨S1x64, .f32⟩ : BufTy).Contents (Elt F) → (⟨S100000x64, .f32⟩ : BufTy).Contents (Elt F)),
    binary main_v321 main_v323 main_v324 (addf : (⟨S100000x64, .f32⟩ : BufTy).Contents (Elt F) → (⟨S100000x64, .f32⟩ : BufTy).Contents (Elt F) → (⟨S100000x64, .f32⟩ : BufTy).Contents (Elt F)),
    binary main_v297 main_arg26 main_v325 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v324 main_v325 main_v326 (addf : (⟨S100000x64, .f32⟩ : BufTy).Contents (Elt F) → (⟨S100000x64, .f32⟩ : BufTy).Contents (Elt F) → (⟨S100000x64, .f32⟩ : BufTy).Contents (Elt F)),
    binary main_v326 main_v326 main_v327 (mulf : (⟨S100000x64, .f32⟩ : BufTy).Contents (Elt F) → (⟨S100000x64, .f32⟩ : BufTy).Contents (Elt F) → (⟨S100000x64, .f32⟩ : BufTy).Contents (Elt F)),
    nullary main_cst_66 (constant S_ .f32 0x00000000#32),
    binary main_v327 main_cst_66 main_v328 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_v328 main_v329 (broadcastInDim S100000x1 ![0] bcast_S100000_S100000x1_0 : (⟨S100000, .f32⟩ : BufTy).Contents (Elt F) → (⟨S100000x1, .f32⟩ : BufTy).Contents (Elt F)),
    unary main_v329 main_v330 (Host.sqrt : (⟨S100000x1, .f32⟩ : BufTy).Contents (Elt F) → (⟨S100000x1, .f32⟩ : BufTy).Contents (Elt F)),
    nullary main_cst_67 (constant S_ .f32 0x2B8CBCCC#32),
    unary main_cst_67 main_v331 (broadcastInDim S100000x1 ![] bcast_S_S100000x1 : (⟨S_, .f32⟩ : BufTy).Contents (Elt F) → (⟨S100000x1, .f32⟩ : BufTy).Contents (Elt F)),
    binary main_v330 main_v331 main_v332 (maximumf : (⟨S100000x1, .f32⟩ : BufTy).Contents (Elt F) → (⟨S100000x1, .f32⟩ : BufTy).Contents (Elt F) → (⟨S100000x1, .f32⟩ : BufTy).Contents (Elt F)),
    unary main_v332 main_v333 (broadcastInDim S100000x64 ![0, 1] bcast_S100000x1_S100000x64_0_1 : (⟨S100000x1, .f32⟩ : BufTy).Contents (Elt F) → (⟨S100000x64, .f32⟩ : BufTy).Contents (Elt F)),
    binary main_v326 main_v333 main_v334 (Host.divf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S100000x64, .f32⟩) main_call6_v0) (broadcastInDim S100000x64 ![] bcast_S_S100000x64),
    TRef.binary (TRef.of (T := ⟨S100000x64, .f32⟩) main_v334) (TRef.of (T := ⟨S100000x64, .f32⟩) main_call6_v0) (TRef.of (T := ⟨S100000x64, .f32⟩) main_v335) maximumf ]

/-- Layer 10: operations 420 to 467. -/
abbrev P10 : List (HloOp τ sig (Elt F)) :=
  [ unary main_arg10 main_v336 ((extractStridedSlice S1x2000000 ![0, 0] · slices_S2x2000000_S1x2000000_0_0) : (⟨S2x2000000, .i32⟩ : BufTy).Contents (Elt F) → (⟨S1x2000000, .i32⟩ : BufTy).Contents (Elt F)),
    reshape main_v336 main_v337 rfl shapeCasts_S1x2000000_S2000000,
    unary main_arg10 main_v338 ((extractStridedSlice S1x2000000 ![1, 0] · slices_S2x2000000_S1x2000000_1_0) : (⟨S2x2000000, .i32⟩ : BufTy).Contents (Elt F) → (⟨S1x2000000, .i32⟩ : BufTy).Contents (Elt F)),
    reshape main_v338 main_v339 rfl shapeCasts_S1x2000000_S2000000,
    nullary main_c_68 (constantI S_ 32 0#32),
    unary main_c_68 main_v340 (broadcastInDim S2000000 ![] bcast_S_S2000000 : (⟨S_, .i32⟩ : BufTy).Contents (Elt F) → (⟨S2000000, .i32⟩ : BufTy).Contents (Elt F)),
    binary main_v337 main_v340 main_v341 (cmpi .slt : (⟨S2000000, .i32⟩ : BufTy).Contents (Elt F) → (⟨S2000000, .i32⟩ : BufTy).Contents (Elt F) → (⟨S2000000, .i1⟩ : BufTy).Contents (Elt F)),
    nullary main_c_69 (constantI S_ 32 100000#32),
    unary main_c_69 main_v342 (broadcastInDim S2000000 ![] bcast_S_S2000000 : (⟨S_, .i32⟩ : BufTy).Contents (Elt F) → (⟨S2000000, .i32⟩ : BufTy).Contents (Elt F)),
    binary main_v337 main_v342 main_v343 (addi : (⟨S2000000, .i32⟩ : BufTy).Contents (Elt F) → (⟨S2000000, .i32⟩ : BufTy).Contents (Elt F) → (⟨S2000000, .i32⟩ : BufTy).Contents (Elt F)),
    ternary main_v341 main_v343 main_v337 main_v344 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v344 main_v345 (broadcastInDim S2000000x1 ![0] bcast_S2000000_S2000000x1_0 : (⟨S2000000, .i32⟩ : BufTy).Contents (Elt F) → (⟨S2000000x1, .i32⟩ : BufTy).Contents (Elt F)),
    binary main_v259 main_v345 main_v346 ((fun x i => Host.gather gather_S100000x64_S2000000x1_S2000000x64_1_0_n_n_0_1_164 x i) : (⟨S100000x64, .f32⟩ : BufTy).Contents (Elt F) → (⟨S2000000x1, .i32⟩ : BufTy).Contents (Elt F) → (⟨S2000000x64, .f32⟩ : BufTy).Contents (Elt F)),
    nullary main_cst_70 (constant S_ .f32 0x00000000#32),
    unary main_cst_70 main_v347 (broadcastInDim S100000x64 ![] bcast_S_S100000x64 : (⟨S_, .f32⟩ : BufTy).Contents (Elt F) → (⟨S100000x64, .f32⟩ : BufTy).Contents (Elt F)),
    unary main_v339 main_v348 (broadcastInDim S2000000x1 ![0] bcast_S2000000_S2000000x1_0 : (⟨S2000000, .i32⟩ : BufTy).Contents (Elt F) → (⟨S2000000x1, .i32⟩ : BufTy).Contents (Elt F)),
    ternary main_v347 main_v348 main_v346 main_v349 ((fun x i u => Host.scatterAdd scatter_S100000x64_S2000000x1_S2000000x64_1_0_0_1 x i u) : (⟨S100000x64, .f32⟩ : BufTy).Contents (Elt F) → (⟨S2000000x1, .i32⟩ : BufTy).Contents (Elt F) → (⟨S2000000x64, .f32⟩ : BufTy).Contents (Elt F) → (⟨S100000x64, .f32⟩ : BufTy).Contents (Elt F)),
    nullary main_cst_71 (constant S_ .f32 0x3F800000#32),
    unary main_cst_71 main_v350 (broadcastInDim S2000000 ![] bcast_S_S2000000 : (⟨S_, .f32⟩ : BufTy).Contents (Elt F) → (⟨S2000000, .f32⟩ : BufTy).Contents (Elt F)),
    nullary main_cst_72 (constant S_ .f32 0x00000000#32),
    unary main_cst_72 main_v351 (broadcastInDim S100000 ![] bcast_S_S100000 : (⟨S_, .f32⟩ : BufTy).Contents (Elt F) → (⟨S100000, .f32⟩ : BufTy).Contents (Elt F)),
    unary main_v339 main_v352 (broadcastInDim S2000000x1 ![0] bcast_S2000000_S2000000x1_0 : (⟨S2000000, .i32⟩ : BufTy).Contents (Elt F) → (⟨S2000000x1, .i32⟩ : BufTy).Contents (Elt F)),
    ternary main_v351 main_v352 main_v350 main_v353 ((fun x i u => Host.scatterAdd scatter_S100000_S2000000x1_S2000000_n_0_0_1 x i u) : (⟨S100000, .f32⟩ : BufTy).Contents (Elt F) → (⟨S2000000x1, .i32⟩ : BufTy).Contents (Elt F) → (⟨S2000000, .f32⟩ : BufTy).Contents (Elt F) → (⟨S100000, .f32⟩ : BufTy).Contents (Elt F)),
    nullary main_cst_73 (constant S_ .f32 0x3F800000#32),
    unary main_cst_73 main_v354 (broadcastInDim S100000 ![] bcast_S_S100000 : (⟨S_, .f32⟩ : BufTy).Contents (Elt F) → (⟨S100000, .f32⟩ : BufTy).Contents (Elt F)),
    binary main_v353 main_v354 main_v355 (maximumf : (⟨S100000, .f32⟩ : BufTy).Contents (Elt F) → (⟨S100000, .f32⟩ : BufTy).Contents (Elt F) → (⟨S100000, .f32⟩ : BufTy).Contents (Elt F)),
    unary main_v355 main_v356 (broadcastInDim S100000x1 ![0] bcast_S100000_S100000x1_0 : (⟨S100000, .f32⟩ : BufTy).Contents (Elt F) → (⟨S100000x1, .f32⟩ : BufTy).Contents (Elt F)),
    unary main_v356 main_v357 (broadcastInDim S100000x64 ![0, 1] bcast_S100000x1_S100000x64_0_1 : (⟨S100000x1, .f32⟩ : BufTy).Contents (Elt F) → (⟨S100000x64, .f32⟩ : BufTy).Contents (Elt F)),
    binary main_v349 main_v357 main_v358 (Host.divf : (⟨S100000x64, .f32⟩ : BufTy).Contents (Elt F) → (⟨S100000x64, .f32⟩ : BufTy).Contents (Elt F) → (⟨S100000x64, .f32⟩ : BufTy).Contents (Elt F)),
    binary main_v358 main_arg27 main_v359 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg28 main_v360 (broadcastInDim S1x64 ![1] bcast_S64_S1x64_1 : (⟨S64, .f32⟩ : BufTy).Contents (Elt F) → (⟨S1x64, .f32⟩ : BufTy).Contents (Elt F)),
    unary main_v360 main_v361 (broadcastInDim S100000x64 ![0, 1] bcast_S1x64_S100000x64_0_1 : (⟨S1x64, .f32⟩ : BufTy).Contents (Elt F) → (⟨S100000x64, .f32⟩ : BufTy).Contents (Elt F)),
    binary main_v359 main_v361 main_v362 (addf : (⟨S100000x64, .f32⟩ : BufTy).Contents (Elt F) → (⟨S100000x64, .f32⟩ : BufTy).Contents (Elt F) → (⟨S100000x64, .f32⟩ : BufTy).Contents (Elt F)),
    binary main_v335 main_arg29 main_v363 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v362 main_v363 main_v364 (addf : (⟨S100000x64, .f32⟩ : BufTy).Contents (Elt F) → (⟨S100000x64, .f32⟩ : BufTy).Contents (Elt F) → (⟨S100000x64, .f32⟩ : BufTy).Contents (Elt F)),
    binary main_v364 main_v364 main_v365 (mulf : (⟨S100000x64, .f32⟩ : BufTy).Contents (Elt F) → (⟨S100000x64, .f32⟩ : BufTy).Contents (Elt F) → (⟨S100000x64, .f32⟩ : BufTy).Contents (Elt F)),
    nullary main_cst_74 (constant S_ .f32 0x00000000#32),
    binary main_v365 main_cst_74 main_v366 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_v366 main_v367 (broadcastInDim S100000x1 ![0] bcast_S100000_S100000x1_0 : (⟨S100000, .f32⟩ : BufTy).Contents (Elt F) → (⟨S100000x1, .f32⟩ : BufTy).Contents (Elt F)),
    unary main_v367 main_v368 (Host.sqrt : (⟨S100000x1, .f32⟩ : BufTy).Contents (Elt F) → (⟨S100000x1, .f32⟩ : BufTy).Contents (Elt F)),
    nullary main_cst_75 (constant S_ .f32 0x2B8CBCCC#32),
    unary main_cst_75 main_v369 (broadcastInDim S100000x1 ![] bcast_S_S100000x1 : (⟨S_, .f32⟩ : BufTy).Contents (Elt F) → (⟨S100000x1, .f32⟩ : BufTy).Contents (Elt F)),
    binary main_v368 main_v369 main_v370 (maximumf : (⟨S100000x1, .f32⟩ : BufTy).Contents (Elt F) → (⟨S100000x1, .f32⟩ : BufTy).Contents (Elt F) → (⟨S100000x1, .f32⟩ : BufTy).Contents (Elt F)),
    unary main_v370 main_v371 (broadcastInDim S100000x64 ![0, 1] bcast_S100000x1_S100000x64_0_1 : (⟨S100000x1, .f32⟩ : BufTy).Contents (Elt F) → (⟨S100000x64, .f32⟩ : BufTy).Contents (Elt F)),
    binary main_v364 main_v371 main_v372 (Host.divf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S100000x64, .f32⟩) main_call7_v0) (broadcastInDim S100000x64 ![] bcast_S_S100000x64),
    TRef.binary (TRef.of (T := ⟨S100000x64, .f32⟩) main_v372) (TRef.of (T := ⟨S100000x64, .f32⟩) main_call7_v0) (TRef.of (T := ⟨S100000x64, .f32⟩) main_v373) maximumf ]

/-- Layer 11: operations 468 to 527. -/
abbrev P11 : List (HloOp τ sig (Elt F)) :=
  [ unary main_arg8 main_v374 ((extractStridedSlice S1x2000000 ![0, 0] · slices_S2x2000000_S1x2000000_0_0) : (⟨S2x2000000, .i32⟩ : BufTy).Contents (Elt F) → (⟨S1x2000000, .i32⟩ : BufTy).Contents (Elt F)),
    reshape main_v374 main_v375 rfl shapeCasts_S1x2000000_S2000000,
    unary main_arg8 main_v376 ((extractStridedSlice S1x2000000 ![1, 0] · slices_S2x2000000_S1x2000000_1_0) : (⟨S2x2000000, .i32⟩ : BufTy).Contents (Elt F) → (⟨S1x2000000, .i32⟩ : BufTy).Contents (Elt F)),
    reshape main_v376 main_v377 rfl shapeCasts_S1x2000000_S2000000,
    binary main_v373 main_arg34 main_v378 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_cst_76 (constant S_ .f32 0x3F800000#32),
    unary main_cst_76 main_v379 (broadcastInDim S2000000 ![] bcast_S_S2000000 : (⟨S_, .f32⟩ : BufTy).Contents (Elt F) → (⟨S2000000, .f32⟩ : BufTy).Contents (Elt F)),
    nullary main_cst_77 (constant S_ .f32 0x00000000#32),
    unary main_cst_77 main_v380 (broadcastInDim S100000 ![] bcast_S_S100000 : (⟨S_, .f32⟩ : BufTy).Contents (Elt F) → (⟨S100000, .f32⟩ : BufTy).Contents (Elt F)),
    unary main_v377 main_v381 (broadcastInDim S2000000x1 ![0] bcast_S2000000_S2000000x1_0 : (⟨S2000000, .i32⟩ : BufTy).Contents (Elt F) → (⟨S2000000x1, .i32⟩ : BufTy).Contents (Elt F)),
    ternary main_v380 main_v381 main_v379 main_v382 ((fun x i u => Host.scatterAdd scatter_S100000_S2000000x1_S2000000_n_0_0_1 x i u) : (⟨S100000, .f32⟩ : BufTy).Contents (Elt F) → (⟨S2000000x1, .i32⟩ : BufTy).Contents (Elt F) → (⟨S2000000, .f32⟩ : BufTy).Contents (Elt F) → (⟨S100000, .f32⟩ : BufTy).Contents (Elt F)),
    nullary main_cst_78 (constant S_ .f32 0x3F800000#32),
    unary main_cst_78 main_v383 (broadcastInDim S100000 ![] bcast_S_S100000 : (⟨S_, .f32⟩ : BufTy).Contents (Elt F) → (⟨S100000, .f32⟩ : BufTy).Contents (Elt F)),
    binary main_v382 main_v383 main_v384 (addf : (⟨S100000, .f32⟩ : BufTy).Contents (Elt F) → (⟨S100000, .f32⟩ : BufTy).Contents (Elt F) → (⟨S100000, .f32⟩ : BufTy).Contents (Elt F)),
    unary main_v384 main_v385 (Host.rsqrt : (⟨S100000, .f32⟩ : BufTy).Contents (Elt F) → (⟨S100000, .f32⟩ : BufTy).Contents (Elt F)),
    nullary main_c_79 (constantI S_ 32 0#32),
    unary main_c_79 main_v386 (broadcastInDim S2000000 ![] bcast_S_S2000000 : (⟨S_, .i32⟩ : BufTy).Contents (Elt F) → (⟨S2000000, .i32⟩ : BufTy).Contents (Elt F)),
    binary main_v375 main_v386 main_v387 (cmpi .slt : (⟨S2000000, .i32⟩ : BufTy).Contents (Elt F) → (⟨S2000000, .i32⟩ : BufTy).Contents (Elt F) → (⟨S2000000, .i1⟩ : BufTy).Contents (Elt F)),
    nullary main_c_80 (constantI S_ 32 100000#32),
    unary main_c_80 main_v388 (broadcastInDim S2000000 ![] bcast_S_S2000000 : (⟨S_, .i32⟩ : BufTy).Contents (Elt F) → (⟨S2000000, .i32⟩ : BufTy).Contents (Elt F)),
    binary main_v375 main_v388 main_v389 (addi : (⟨S2000000, .i32⟩ : BufTy).Contents (Elt F) → (⟨S2000000, .i32⟩ : BufTy).Contents (Elt F) → (⟨S2000000, .i32⟩ : BufTy).Contents (Elt F)),
    ternary main_v387 main_v389 main_v375 main_v390 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v390 main_v391 (broadcastInDim S2000000x1 ![0] bcast_S2000000_S2000000x1_0 : (⟨S2000000, .i32⟩ : BufTy).Contents (Elt F) → (⟨S2000000x1, .i32⟩ : BufTy).Contents (Elt F)),
    binary main_v385 main_v391 main_v392 ((fun x i => Host.gather gather_S100000_S2000000x1_S2000000_n_0_n_n_0_1_1 x i) : (⟨S100000, .f32⟩ : BufTy).Contents (Elt F) → (⟨S2000000x1, .i32⟩ : BufTy).Contents (Elt F) → (⟨S2000000, .f32⟩ : BufTy).Contents (Elt F)),
    nullary main_c_81 (constantI S_ 32 0#32),
    unary main_c_81 main_v393 (broadcastInDim S2000000 ![] bcast_S_S2000000 : (⟨S_, .i32⟩ : BufTy).Contents (Elt F) → (⟨S2000000, .i32⟩ : BufTy).Contents (Elt F)),
    binary main_v377 main_v393 main_v394 (cmpi .slt : (⟨S2000000, .i32⟩ : BufTy).Contents (Elt F) → (⟨S2000000, .i32⟩ : BufTy).Contents (Elt F) → (⟨S2000000, .i1⟩ : BufTy).Contents (Elt F)),
    nullary main_c_82 (constantI S_ 32 100000#32),
    unary main_c_82 main_v395 (broadcastInDim S2000000 ![] bcast_S_S2000000 : (⟨S_, .i32⟩ : BufTy).Contents (Elt F) → (⟨S2000000, .i32⟩ : BufTy).Contents (Elt F)),
    binary main_v377 main_v395 main_v396 (addi : (⟨S2000000, .i32⟩ : BufTy).Contents (Elt F) → (⟨S2000000, .i32⟩ : BufTy).Contents (Elt F) → (⟨S2000000, .i32⟩ : BufTy).Contents (Elt F)),
    ternary main_v394 main_v396 main_v377 main_v397 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v397 main_v398 (broadcastInDim S2000000x1 ![0] bcast_S2000000_S2000000x1_0 : (⟨S2000000, .i32⟩ : BufTy).Contents (Elt F) → (⟨S2000000x1, .i32⟩ : BufTy).Contents (Elt F)),
    binary main_v385 main_v398 main_v399 ((fun x i => Host.gather gather_S100000_S2000000x1_S2000000_n_0_n_n_0_1_1 x i) : (⟨S100000, .f32⟩ : BufTy).Contents (Elt F) → (⟨S2000000x1, .i32⟩ : BufTy).Contents (Elt F) → (⟨S2000000, .f32⟩ : BufTy).Contents (Elt F)),
    binary main_v392 main_v399 main_v400 (mulf : (⟨S2000000, .f32⟩ : BufTy).Contents (Elt F) → (⟨S2000000, .f32⟩ : BufTy).Contents (Elt F) → (⟨S2000000, .f32⟩ : BufTy).Contents (Elt F)),
    unary main_v400 main_v401 (broadcastInDim S2000000x1 ![0] bcast_S2000000_S2000000x1_0 : (⟨S2000000, .f32⟩ : BufTy).Contents (Elt F) → (⟨S2000000x1, .f32⟩ : BufTy).Contents (Elt F)),
    nullary main_c_83 (constantI S_ 32 0#32),
    unary main_c_83 main_v402 (broadcastInDim S2000000 ![] bcast_S_S2000000 : (⟨S_, .i32⟩ : BufTy).Contents (Elt F) → (⟨S2000000, .i32⟩ : BufTy).Contents (Elt F)),
    binary main_v375 main_v402 main_v403 (cmpi .slt : (⟨S2000000, .i32⟩ : BufTy).Contents (Elt F) → (⟨S2000000, .i32⟩ : BufTy).Contents (Elt F) → (⟨S2000000, .i1⟩ : BufTy).Contents (Elt F)),
    nullary main_c_84 (constantI S_ 32 100000#32),
    unary main_c_84 main_v404 (broadcastInDim S2000000 ![] bcast_S_S2000000 : (⟨S_, .i32⟩ : BufTy).Contents (Elt F) → (⟨S2000000, .i32⟩ : BufTy).Contents (Elt F)),
    binary main_v375 main_v404 main_v405 (addi : (⟨S2000000, .i32⟩ : BufTy).Contents (Elt F) → (⟨S2000000, .i32⟩ : BufTy).Contents (Elt F) → (⟨S2000000, .i32⟩ : BufTy).Contents (Elt F)),
    ternary main_v403 main_v405 main_v375 main_v406 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v406 main_v407 (broadcastInDim S2000000x1 ![0] bcast_S2000000_S2000000x1_0 : (⟨S2000000, .i32⟩ : BufTy).Contents (Elt F) → (⟨S2000000x1, .i32⟩ : BufTy).Contents (Elt F)),
    binary main_v378 main_v407 main_v408 ((fun x i => Host.gather gather_S100000x64_S2000000x1_S2000000x64_1_0_n_n_0_1_164 x i) : (⟨S100000x64, .f32⟩ : BufTy).Contents (Elt F) → (⟨S2000000x1, .i32⟩ : BufTy).Contents (Elt F) → (⟨S2000000x64, .f32⟩ : BufTy).Contents (Elt F)),
    unary main_v401 main_v409 (broadcastInDim S2000000x64 ![0, 1] bcast_S2000000x1_S2000000x64_0_1 : (⟨S2000000x1, .f32⟩ : BufTy).Contents (Elt F) → (⟨S2000000x64, .f32⟩ : BufTy).Contents (Elt F)),
    binary main_v408 main_v409 main_v410 (mulf : (⟨S2000000x64, .f32⟩ : BufTy).Contents (Elt F) → (⟨S2000000x64, .f32⟩ : BufTy).Contents (Elt F) → (⟨S2000000x64, .f32⟩ : BufTy).Contents (Elt F)),
    nullary main_cst_85 (constant S_ .f32 0x00000000#32),
    unary main_cst_85 main_v411 (broadcastInDim S100000x64 ![] bcast_S_S100000x64 : (⟨S_, .f32⟩ : BufTy).Contents (Elt F) → (⟨S100000x64, .f32⟩ : BufTy).Contents (Elt F)),
    unary main_v377 main_v412 (broadcastInDim S2000000x1 ![0] bcast_S2000000_S2000000x1_0 : (⟨S2000000, .i32⟩ : BufTy).Contents (Elt F) → (⟨S2000000x1, .i32⟩ : BufTy).Contents (Elt F)),
    ternary main_v411 main_v412 main_v410 main_v413 ((fun x i u => Host.scatterAdd scatter_S100000x64_S2000000x1_S2000000x64_1_0_0_1 x i u) : (⟨S100000x64, .f32⟩ : BufTy).Contents (Elt F) → (⟨S2000000x1, .i32⟩ : BufTy).Contents (Elt F) → (⟨S2000000x64, .f32⟩ : BufTy).Contents (Elt F) → (⟨S100000x64, .f32⟩ : BufTy).Contents (Elt F)),
    unary main_v384 main_v414 (broadcastInDim S100000x1 ![0] bcast_S100000_S100000x1_0 : (⟨S100000, .f32⟩ : BufTy).Contents (Elt F) → (⟨S100000x1, .f32⟩ : BufTy).Contents (Elt F)),
    unary main_v414 main_v415 (broadcastInDim S100000x64 ![0, 1] bcast_S100000x1_S100000x64_0_1 : (⟨S100000x1, .f32⟩ : BufTy).Contents (Elt F) → (⟨S100000x64, .f32⟩ : BufTy).Contents (Elt F)),
    binary main_v378 main_v415 main_v416 (Host.divf : (⟨S100000x64, .f32⟩ : BufTy).Contents (Elt F) → (⟨S100000x64, .f32⟩ : BufTy).Contents (Elt F) → (⟨S100000x64, .f32⟩ : BufTy).Contents (Elt F)),
    binary main_v413 main_v416 main_v417 (addf : (⟨S100000x64, .f32⟩ : BufTy).Contents (Elt F) → (⟨S100000x64, .f32⟩ : BufTy).Contents (Elt F) → (⟨S100000x64, .f32⟩ : BufTy).Contents (Elt F)),
    unary main_arg35 main_v418 (broadcastInDim S1x64 ![1] bcast_S64_S1x64_1 : (⟨S64, .f32⟩ : BufTy).Contents (Elt F) → (⟨S1x64, .f32⟩ : BufTy).Contents (Elt F)),
    unary main_v418 main_v419 (broadcastInDim S100000x64 ![0, 1] bcast_S1x64_S100000x64_0_1 : (⟨S1x64, .f32⟩ : BufTy).Contents (Elt F) → (⟨S100000x64, .f32⟩ : BufTy).Contents (Elt F)),
    binary main_v417 main_v419 main_v420 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S100000x64, .f32⟩) main_call8_v0) (broadcastInDim S100000x64 ![] bcast_S_S100000x64),
    TRef.binary (TRef.of (T := ⟨S100000x64, .f32⟩) main_v420) (TRef.of (T := ⟨S100000x64, .f32⟩) main_call8_v0) (TRef.of (T := ⟨S100000x64, .f32⟩) main_v421) maximumf ]

/-- Layer 12: operations 528 to 557. -/
abbrev P12 : List (HloOp τ sig (Elt F)) :=
  [ nullary main_cst_86 (constant S_ .f32 0x00000000#32),
    binary main_v421 main_cst_86 main_v422 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_87 (constant S_ .f32 0x47C35000#32),
    unary main_cst_87 main_v423 (broadcastInDim S64 ![] bcast_S_S64 : (⟨S_, .f32⟩ : BufTy).Contents (Elt F) → (⟨S64, .f32⟩ : BufTy).Contents (Elt F)),
    binary main_v422 main_v423 main_v424 (Host.divf : (⟨S64, .f32⟩ : BufTy).Contents (Elt F) → (⟨S64, .f32⟩ : BufTy).Contents (Elt F) → (⟨S64, .f32⟩ : BufTy).Contents (Elt F)),
    unary main_v424 main_v425 (broadcastInDim S1x64 ![1] bcast_S64_S1x64_1 : (⟨S64, .f32⟩ : BufTy).Contents (Elt F) → (⟨S1x64, .f32⟩ : BufTy).Contents (Elt F)),
    unary main_v425 main_v426 (broadcastInDim S100000x64 ![0, 1] bcast_S1x64_S100000x64_0_1 : (⟨S1x64, .f32⟩ : BufTy).Contents (Elt F) → (⟨S100000x64, .f32⟩ : BufTy).Contents (Elt F)),
    binary main_v421 main_v426 main_v427 (subf : (⟨S100000x64, .f32⟩ : BufTy).Contents (Elt F) → (⟨S100000x64, .f32⟩ : BufTy).Contents (Elt F) → (⟨S100000x64, .f32⟩ : BufTy).Contents (Elt F)),
    binary main_v427 main_v427 main_v428 (mulf : (⟨S100000x64, .f32⟩ : BufTy).Contents (Elt F) → (⟨S100000x64, .f32⟩ : BufTy).Contents (Elt F) → (⟨S100000x64, .f32⟩ : BufTy).Contents (Elt F)),
    nullary main_cst_88 (constant S_ .f32 0x00000000#32),
    binary main_v428 main_cst_88 main_v429 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_89 (constant S_ .f32 0x47C35000#32),
    unary main_cst_89 main_v430 (broadcastInDim S64 ![] bcast_S_S64 : (⟨S_, .f32⟩ : BufTy).Contents (Elt F) → (⟨S64, .f32⟩ : BufTy).Contents (Elt F)),
    binary main_v429 main_v430 main_v431 (Host.divf : (⟨S64, .f32⟩ : BufTy).Contents (Elt F) → (⟨S64, .f32⟩ : BufTy).Contents (Elt F) → (⟨S64, .f32⟩ : BufTy).Contents (Elt F)),
    unary main_v424 main_v432 (broadcastInDim S1x64 ![1] bcast_S64_S1x64_1 : (⟨S64, .f32⟩ : BufTy).Contents (Elt F) → (⟨S1x64, .f32⟩ : BufTy).Contents (Elt F)),
    unary main_v432 main_v433 (broadcastInDim S100000x64 ![0, 1] bcast_S1x64_S100000x64_0_1 : (⟨S1x64, .f32⟩ : BufTy).Contents (Elt F) → (⟨S100000x64, .f32⟩ : BufTy).Contents (Elt F)),
    binary main_v421 main_v433 main_v434 (subf : (⟨S100000x64, .f32⟩ : BufTy).Contents (Elt F) → (⟨S100000x64, .f32⟩ : BufTy).Contents (Elt F) → (⟨S100000x64, .f32⟩ : BufTy).Contents (Elt F)),
    nullary main_cst_90 (constant S_ .f32 0x3727C5AC#32),
    unary main_cst_90 main_v435 (broadcastInDim S64 ![] bcast_S_S64 : (⟨S_, .f32⟩ : BufTy).Contents (Elt F) → (⟨S64, .f32⟩ : BufTy).Contents (Elt F)),
    binary main_v431 main_v435 main_v436 (addf : (⟨S64, .f32⟩ : BufTy).Contents (Elt F) → (⟨S64, .f32⟩ : BufTy).Contents (Elt F) → (⟨S64, .f32⟩ : BufTy).Contents (Elt F)),
    unary main_v436 main_v437 (Host.rsqrt : (⟨S64, .f32⟩ : BufTy).Contents (Elt F) → (⟨S64, .f32⟩ : BufTy).Contents (Elt F)),
    unary main_v437 main_v438 (broadcastInDim S1x64 ![1] bcast_S64_S1x64_1 : (⟨S64, .f32⟩ : BufTy).Contents (Elt F) → (⟨S1x64, .f32⟩ : BufTy).Contents (Elt F)),
    unary main_v438 main_v439 (broadcastInDim S100000x64 ![0, 1] bcast_S1x64_S100000x64_0_1 : (⟨S1x64, .f32⟩ : BufTy).Contents (Elt F) → (⟨S100000x64, .f32⟩ : BufTy).Contents (Elt F)),
    binary main_v434 main_v439 main_v440 (mulf : (⟨S100000x64, .f32⟩ : BufTy).Contents (Elt F) → (⟨S100000x64, .f32⟩ : BufTy).Contents (Elt F) → (⟨S100000x64, .f32⟩ : BufTy).Contents (Elt F)),
    unary main_arg40 main_v441 (broadcastInDim S1x64 ![1] bcast_S64_S1x64_1 : (⟨S64, .f32⟩ : BufTy).Contents (Elt F) → (⟨S1x64, .f32⟩ : BufTy).Contents (Elt F)),
    unary main_v441 main_v442 (broadcastInDim S100000x64 ![0, 1] bcast_S1x64_S100000x64_0_1 : (⟨S1x64, .f32⟩ : BufTy).Contents (Elt F) → (⟨S100000x64, .f32⟩ : BufTy).Contents (Elt F)),
    binary main_v440 main_v442 main_v443 (mulf : (⟨S100000x64, .f32⟩ : BufTy).Contents (Elt F) → (⟨S100000x64, .f32⟩ : BufTy).Contents (Elt F) → (⟨S100000x64, .f32⟩ : BufTy).Contents (Elt F)),
    unary main_arg41 main_v444 (broadcastInDim S1x64 ![1] bcast_S64_S1x64_1 : (⟨S64, .f32⟩ : BufTy).Contents (Elt F) → (⟨S1x64, .f32⟩ : BufTy).Contents (Elt F)),
    unary main_v444 main_v445 (broadcastInDim S100000x64 ![0, 1] bcast_S1x64_S100000x64_0_1 : (⟨S1x64, .f32⟩ : BufTy).Contents (Elt F) → (⟨S100000x64, .f32⟩ : BufTy).Contents (Elt F)),
    binary main_v443 main_v445 main_v446 (addf : (⟨S100000x64, .f32⟩ : BufTy).Contents (Elt F) → (⟨S100000x64, .f32⟩ : BufTy).Contents (Elt F) → (⟨S100000x64, .f32⟩ : BufTy).Contents (Elt F)) ]

set_option maxRecDepth 8192 in
set_option maxHeartbeats 4000000 in
/-- The list is its twelve layers, one after another. -/
theorem ops_parts : (ops : List (HloOp τ sig (Elt F))) = P1 ++ P2 ++ P3 ++ P4 ++ P5 ++ P6 ++ P7 ++ P8 ++ P9 ++ P10 ++ P11 ++ P12 := rfl

/-- Running two lists one after the other is running their concatenation. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- The contents after the whole list: the twelve layers applied in order. -/
theorem after_ops (V : Valuation τ sig (Elt F)) : after (ops : List (HloOp τ sig (Elt F))) V = after P12 (after P11 (after P10 (after P9 (after P8 (after P7 (after P6 (after P5 (after P4 (after P3 (after P2 (after P1 (V)))))))))))) := by
  rw [ops_parts]; simp only [after_app]

/-- The buffers layer 1 writes. -/
abbrev P1_W : List (Ref sig .tc) := [main_v0, main_v1, main_v2, main_v3, main_c, main_v4, main_v5, main_c_0, main_v6, main_v7, main_v8, main_v9, main_v10, main_cst, main_v11, main_v12, main_v13, main_cst_1, main_v14, main_cst_2, main_v15, main_v16, main_v17, main_cst_3, main_v18, main_v19, main_v20, main_v21, main_v22, main_v23, main_v24, main_v25, main_v26, main_v27, main_v28, main_v29, main_cst_4, main_v30, main_v31, main_v32, main_cst_5, main_v33, main_v34, main_v35, main_v36, main_call0_cst, main_call0_v0, main_v37]
set_option maxRecDepth 8192 in
theorem P1_writes : (P1 : List (HloOp τ sig (Elt F))).Forall fun op => op.writes ⊆ (P1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer layer 1 does not write keeps its contents through it. -/
theorem P1_keep (V : Valuation τ sig (Elt F)) (r : Ref sig .tc) (h : r ∉ P1_W) :
    after (P1 : List (HloOp τ sig (Elt F))) V (Proc.devRef .tc r) = V (Proc.devRef .tc r) :=
  after_of_writes_sub P1 _ P1_writes h

/-- The buffers layer 2 writes. -/
abbrev P2_W : List (Ref sig .tc) := [main_v38, main_v39, main_v40, main_v41, main_c_6, main_v42, main_v43, main_c_7, main_v44, main_v45, main_v46, main_v47, main_v48, main_cst_8, main_v49, main_v50, main_v51, main_cst_9, main_v52, main_cst_10, main_v53, main_v54, main_v55, main_cst_11, main_v56, main_v57, main_v58, main_v59, main_v60, main_v61, main_v62, main_v63, main_v64, main_v65, main_v66, main_v67, main_cst_12, main_v68, main_v69, main_v70, main_cst_13, main_v71, main_v72, main_v73, main_v74, main_call1_cst, main_call1_v0, main_v75]
set_option maxRecDepth 8192 in
theorem P2_writes : (P2 : List (HloOp τ sig (Elt F))).Forall fun op => op.writes ⊆ (P2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer layer 2 does not write keeps its contents through it. -/
theorem P2_keep (V : Valuation τ sig (Elt F)) (r : Ref sig .tc) (h : r ∉ P2_W) :
    after (P2 : List (HloOp τ sig (Elt F))) V (Proc.devRef .tc r) = V (Proc.devRef .tc r) :=
  after_of_writes_sub P2 _ P2_writes h

/-- The buffers layer 3 writes. -/
abbrev P3_W : List (Ref sig .tc) := [main_v76, main_v77, main_v78, main_v79, main_c_14, main_v80, main_v81, main_c_15, main_v82, main_v83, main_v84, main_v85, main_v86, main_cst_16, main_v87, main_v88, main_v89, main_cst_17, main_v90, main_cst_18, main_v91, main_v92, main_v93, main_cst_19, main_v94, main_v95, main_v96, main_v97, main_v98, main_v99, main_v100, main_v101, main_v102, main_v103, main_v104, main_v105, main_cst_20, main_v106, main_v107, main_v108, main_cst_21, main_v109, main_v110, main_v111, main_v112, main_call2_cst, main_call2_v0, main_v113]
set_option maxRecDepth 8192 in
theorem P3_writes : (P3 : List (HloOp τ sig (Elt F))).Forall fun op => op.writes ⊆ (P3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer layer 3 does not write keeps its contents through it. -/
theorem P3_keep (V : Valuation τ sig (Elt F)) (r : Ref sig .tc) (h : r ∉ P3_W) :
    after (P3 : List (HloOp τ sig (Elt F))) V (Proc.devRef .tc r) = V (Proc.devRef .tc r) :=
  after_of_writes_sub P3 _ P3_writes h

/-- The buffers layer 4 writes. -/
abbrev P4_W : List (Ref sig .tc) := [main_v114, main_v115, main_v116, main_v117, main_v118, main_cst_22, main_v119, main_cst_23, main_v120, main_v121, main_v122, main_cst_24, main_v123, main_v124, main_v125, main_c_25, main_v126, main_v127, main_c_26, main_v128, main_v129, main_v130, main_v131, main_v132, main_c_27, main_v133, main_v134, main_c_28, main_v135, main_v136, main_v137, main_v138, main_v139, main_v140, main_v141, main_c_29, main_v142, main_v143, main_c_30, main_v144, main_v145, main_v146, main_v147, main_v148, main_v149, main_v150, main_cst_31, main_v151, main_v152, main_v153, main_v154, main_v155, main_v156, main_v157, main_v158, main_v159, main_v160, main_call3_cst, main_call3_v0, main_v161]
set_option maxRecDepth 8192 in
theorem P4_writes : (P4 : List (HloOp τ sig (Elt F))).Forall fun op => op.writes ⊆ (P4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer layer 4 does not write keeps its contents through it. -/
theorem P4_keep (V : Valuation τ sig (Elt F)) (r : Ref sig .tc) (h : r ∉ P4_W) :
    after (P4 : List (HloOp τ sig (Elt F))) V (Proc.devRef .tc r) = V (Proc.devRef .tc r) :=
  after_of_writes_sub P4 _ P4_writes h

/-- The buffers layer 5 writes. -/
abbrev P5_W : List (Ref sig .tc) := [main_cst_32, main_v162, main_cst_33, main_v163, main_v164, main_v165, main_v166, main_v167, main_v168, main_cst_34, main_v169, main_cst_35, main_v170, main_v171, main_v172, main_v173, main_v174, main_cst_36, main_v175, main_v176, main_v177, main_v178, main_v179, main_v180, main_v181, main_v182, main_v183, main_v184, main_v185, main_v186]
set_option maxRecDepth 8192 in
theorem P5_writes : (P5 : List (HloOp τ sig (Elt F))).Forall fun op => op.writes ⊆ (P5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer layer 5 does not write keeps its contents through it. -/
theorem P5_keep (V : Valuation τ sig (Elt F)) (r : Ref sig .tc) (h : r ∉ P5_W) :
    after (P5 : List (HloOp τ sig (Elt F))) V (Proc.devRef .tc r) = V (Proc.devRef .tc r) :=
  after_of_writes_sub P5 _ P5_writes h

/-- The buffers layer 6 writes. -/
abbrev P6_W : List (Ref sig .tc) := [main_v187, main_v188, main_v189, main_v190, main_v191, main_cst_37, main_v192, main_cst_38, main_v193, main_v194, main_v195, main_cst_39, main_v196, main_v197, main_v198, main_c_40, main_v199, main_v200, main_c_41, main_v201, main_v202, main_v203, main_v204, main_v205, main_c_42, main_v206, main_v207, main_c_43, main_v208, main_v209, main_v210, main_v211, main_v212, main_v213, main_v214, main_c_44, main_v215, main_v216, main_c_45, main_v217, main_v218, main_v219, main_v220, main_v221, main_v222, main_v223, main_cst_46, main_v224, main_v225, main_v226, main_v227, main_v228, main_v229, main_v230, main_v231, main_v232, main_v233, main_call4_cst, main_call4_v0, main_v234]
set_option maxRecDepth 8192 in
theorem P6_writes : (P6 : List (HloOp τ sig (Elt F))).Forall fun op => op.writes ⊆ (P6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer layer 6 does not write keeps its contents through it. -/
theorem P6_keep (V : Valuation τ sig (Elt F)) (r : Ref sig .tc) (h : r ∉ P6_W) :
    after (P6 : List (HloOp τ sig (Elt F))) V (Proc.devRef .tc r) = V (Proc.devRef .tc r) :=
  after_of_writes_sub P6 _ P6_writes h

/-- The buffers layer 7 writes. -/
abbrev P7_W : List (Ref sig .tc) := [main_cst_47, main_v235, main_cst_48, main_v236, main_v237, main_v238, main_v239, main_v240, main_v241, main_cst_49, main_v242, main_cst_50, main_v243, main_v244, main_v245, main_v246, main_v247, main_cst_51, main_v248, main_v249, main_v250, main_v251, main_v252, main_v253, main_v254, main_v255, main_v256, main_v257, main_v258, main_v259]
set_option maxRecDepth 8192 in
theorem P7_writes : (P7 : List (HloOp τ sig (Elt F))).Forall fun op => op.writes ⊆ (P7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer layer 7 does not write keeps its contents through it. -/
theorem P7_keep (V : Valuation τ sig (Elt F)) (r : Ref sig .tc) (h : r ∉ P7_W) :
    after (P7 : List (HloOp τ sig (Elt F))) V (Proc.devRef .tc r) = V (Proc.devRef .tc r) :=
  after_of_writes_sub P7 _ P7_writes h

/-- The buffers layer 8 writes. -/
abbrev P8_W : List (Ref sig .tc) := [main_v260, main_v261, main_v262, main_v263, main_c_52, main_v264, main_v265, main_c_53, main_v266, main_v267, main_v268, main_v269, main_v270, main_cst_54, main_v271, main_v272, main_v273, main_cst_55, main_v274, main_cst_56, main_v275, main_v276, main_v277, main_cst_57, main_v278, main_v279, main_v280, main_v281, main_v282, main_v283, main_v284, main_v285, main_v286, main_v287, main_v288, main_v289, main_cst_58, main_v290, main_v291, main_v292, main_cst_59, main_v293, main_v294, main_v295, main_v296, main_call5_cst, main_call5_v0, main_v297]
set_option maxRecDepth 8192 in
theorem P8_writes : (P8 : List (HloOp τ sig (Elt F))).Forall fun op => op.writes ⊆ (P8_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer layer 8 does not write keeps its contents through it. -/
theorem P8_keep (V : Valuation τ sig (Elt F)) (r : Ref sig .tc) (h : r ∉ P8_W) :
    after (P8 : List (HloOp τ sig (Elt F))) V (Proc.devRef .tc r) = V (Proc.devRef .tc r) :=
  after_of_writes_sub P8 _ P8_writes h

/-- The buffers layer 9 writes. -/
abbrev P9_W : List (Ref sig .tc) := [main_v298, main_v299, main_v300, main_v301, main_c_60, main_v302, main_v303, main_c_61, main_v304, main_v305, main_v306, main_v307, main_v308, main_cst_62, main_v309, main_v310, main_v311, main_cst_63, main_v312, main_cst_64, main_v313, main_v314, main_v315, main_cst_65, main_v316, main_v317, main_v318, main_v319, main_v320, main_v321, main_v322, main_v323, main_v324, main_v325, main_v326, main_v327, main_cst_66, main_v328, main_v329, main_v330, main_cst_67, main_v331, main_v332, main_v333, main_v334, main_call6_cst, main_call6_v0, main_v335]
set_option maxRecDepth 8192 in
theorem P9_writes : (P9 : List (HloOp τ sig (Elt F))).Forall fun op => op.writes ⊆ (P9_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer layer 9 does not write keeps its contents through it. -/
theorem P9_keep (V : Valuation τ sig (Elt F)) (r : Ref sig .tc) (h : r ∉ P9_W) :
    after (P9 : List (HloOp τ sig (Elt F))) V (Proc.devRef .tc r) = V (Proc.devRef .tc r) :=
  after_of_writes_sub P9 _ P9_writes h

/-- The buffers layer 10 writes. -/
abbrev P10_W : List (Ref sig .tc) := [main_v336, main_v337, main_v338, main_v339, main_c_68, main_v340, main_v341, main_c_69, main_v342, main_v343, main_v344, main_v345, main_v346, main_cst_70, main_v347, main_v348, main_v349, main_cst_71, main_v350, main_cst_72, main_v351, main_v352, main_v353, main_cst_73, main_v354, main_v355, main_v356, main_v357, main_v358, main_v359, main_v360, main_v361, main_v362, main_v363, main_v364, main_v365, main_cst_74, main_v366, main_v367, main_v368, main_cst_75, main_v369, main_v370, main_v371, main_v372, main_call7_cst, main_call7_v0, main_v373]
set_option maxRecDepth 8192 in
theorem P10_writes : (P10 : List (HloOp τ sig (Elt F))).Forall fun op => op.writes ⊆ (P10_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer layer 10 does not write keeps its contents through it. -/
theorem P10_keep (V : Valuation τ sig (Elt F)) (r : Ref sig .tc) (h : r ∉ P10_W) :
    after (P10 : List (HloOp τ sig (Elt F))) V (Proc.devRef .tc r) = V (Proc.devRef .tc r) :=
  after_of_writes_sub P10 _ P10_writes h

/-- The buffers layer 11 writes. -/
abbrev P11_W : List (Ref sig .tc) := [main_v374, main_v375, main_v376, main_v377, main_v378, main_cst_76, main_v379, main_cst_77, main_v380, main_v381, main_v382, main_cst_78, main_v383, main_v384, main_v385, main_c_79, main_v386, main_v387, main_c_80, main_v388, main_v389, main_v390, main_v391, main_v392, main_c_81, main_v393, main_v394, main_c_82, main_v395, main_v396, main_v397, main_v398, main_v399, main_v400, main_v401, main_c_83, main_v402, main_v403, main_c_84, main_v404, main_v405, main_v406, main_v407, main_v408, main_v409, main_v410, main_cst_85, main_v411, main_v412, main_v413, main_v414, main_v415, main_v416, main_v417, main_v418, main_v419, main_v420, main_call8_cst, main_call8_v0, main_v421]
set_option maxRecDepth 8192 in
theorem P11_writes : (P11 : List (HloOp τ sig (Elt F))).Forall fun op => op.writes ⊆ (P11_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer layer 11 does not write keeps its contents through it. -/
theorem P11_keep (V : Valuation τ sig (Elt F)) (r : Ref sig .tc) (h : r ∉ P11_W) :
    after (P11 : List (HloOp τ sig (Elt F))) V (Proc.devRef .tc r) = V (Proc.devRef .tc r) :=
  after_of_writes_sub P11 _ P11_writes h

/-- The buffers layer 12 writes. -/
abbrev P12_W : List (Ref sig .tc) := [main_cst_86, main_v422, main_cst_87, main_v423, main_v424, main_v425, main_v426, main_v427, main_v428, main_cst_88, main_v429, main_cst_89, main_v430, main_v431, main_v432, main_v433, main_v434, main_cst_90, main_v435, main_v436, main_v437, main_v438, main_v439, main_v440, main_v441, main_v442, main_v443, main_v444, main_v445, main_v446]
set_option maxRecDepth 8192 in
theorem P12_writes : (P12 : List (HloOp τ sig (Elt F))).Forall fun op => op.writes ⊆ (P12_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer layer 12 does not write keeps its contents through it. -/
theorem P12_keep (V : Valuation τ sig (Elt F)) (r : Ref sig .tc) (h : r ∉ P12_W) :
    after (P12 : List (HloOp τ sig (Elt F))) V (Proc.devRef .tc r) = V (Proc.devRef .tc r) :=
  after_of_writes_sub P12 _ P12_writes h

/-- A buffer no layer writes keeps its contents through the whole list. -/
theorem ops_keep (V : Valuation τ sig (Elt F)) (r : Ref sig .tc) (h1 : r ∉ P1_W) (h2 : r ∉ P2_W) (h3 : r ∉ P3_W) (h4 : r ∉ P4_W) (h5 : r ∉ P5_W) (h6 : r ∉ P6_W) (h7 : r ∉ P7_W) (h8 : r ∉ P8_W) (h9 : r ∉ P9_W) (h10 : r ∉ P10_W) (h11 : r ∉ P11_W) (h12 : r ∉ P12_W) :
    after (ops : List (HloOp τ sig (Elt F))) V (Proc.devRef .tc r) = V (Proc.devRef .tc r) := by
  rw [after_ops, P12_keep _ r h12, P11_keep _ r h11, P10_keep _ r h10, P9_keep _ r h9, P8_keep _ r h8, P7_keep _ r h7, P6_keep _ r h6, P5_keep _ r h5, P4_keep _ r h4, P3_keep _ r h3, P2_keep _ r h2, P1_keep _ r h1]

end Cert.RefSide

end
-- ==== Proof.RefFrame.lean ====
/- The reference program runs to the end without a fault and leaves its forty-two argument arrays as it found them:
   every execution ends with each buffer at the contents the list of operations computes from the launch contents,
   and no operation writes an argument. -/
import proofs.«173191_j73083163508880_2_alg».proof.Defs
import proofs.«173191_j73083163508880_2_alg».proof.Proof.Gen.Pre_finite_inputs
import proofs.«173191_j73083163508880_2_alg».proof.Proof.RefOps

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 40000000 in
/-- Every weakly fair execution of the reference terminates, and every final state has each TensorCore buffer at
    the contents the 558 operations, in order, compute from the launch contents. -/
theorem run_after (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc),
        r.2.mem ((d.tc : Thread nD τ).loc b) = after (ops (F := F)) (launchContents m d) (Proc.devRef .tc b) :=
  run_seq scopedRefs_eq scopedSems_eq defs main (fun _ => ops) main_eq (fun _ => ops_sub) m ρ

/-- An argument of @main is written by no layer. -/
macro "arg_kept" : tactic => `(tactic| exact ops_keep _ _ (by decide) (by decide) (by decide) (by decide) (by decide) (by decide) (by decide) (by decide) (by decide) (by decide) (by decide) (by decide))

set_option maxRecDepth 8192 in
theorem frame_ri : Cert.frame_ReferenceIdeal := fun m ρ _ =>
  (θ_run Cert.ReferenceIdeal.defs _ _).mono (fun _ h c => ⟨(h c main_arg0).trans (by arg_kept),
      (h c main_arg1).trans (by arg_kept),
      (h c main_arg2).trans (by arg_kept),
      (h c main_arg3).trans (by arg_kept),
      (h c main_arg4).trans (by arg_kept),
      (h c main_arg5).trans (by arg_kept),
      (h c main_arg6).trans (by arg_kept),
      (h c main_arg7).trans (by arg_kept),
      (h c main_arg8).trans (by arg_kept),
      (h c main_arg9).trans (by arg_kept),
      (h c main_arg10).trans (by arg_kept),
      (h c main_arg11).trans (by arg_kept),
      (h c main_arg12).trans (by arg_kept),
      (h c main_arg13).trans (by arg_kept),
      (h c main_arg14).trans (by arg_kept),
      (h c main_arg15).trans (by arg_kept),
      (h c main_arg16).trans (by arg_kept),
      (h c main_arg17).trans (by arg_kept),
      (h c main_arg18).trans (by arg_kept),
      (h c main_arg19).trans (by arg_kept),
      (h c main_arg20).trans (by arg_kept),
      (h c main_arg21).trans (by arg_kept),
      (h c main_arg22).trans (by arg_kept),
      (h c main_arg23).trans (by arg_kept),
      (h c main_arg24).trans (by arg_kept),
      (h c main_arg25).trans (by arg_kept),
      (h c main_arg26).trans (by arg_kept),
      (h c main_arg27).trans (by arg_kept),
      (h c main_arg28).trans (by arg_kept),
      (h c main_arg29).trans (by arg_kept),
      (h c main_arg30).trans (by arg_kept),
      (h c main_arg31).trans (by arg_kept),
      (h c main_arg32).trans (by arg_kept),
      (h c main_arg33).trans (by arg_kept),
      (h c main_arg34).trans (by arg_kept),
      (h c main_arg35).trans (by arg_kept),
      (h c main_arg36).trans (by arg_kept),
      (h c main_arg37).trans (by arg_kept),
      (h c main_arg38).trans (by arg_kept),
      (h c main_arg39).trans (by arg_kept),
      (h c main_arg40).trans (by arg_kept),
      (h c main_arg41).trans (by arg_kept)⟩)
    (run_after (F := Ideal) m ρ)

end Cert.RefSide

end
-- ==== Proof.AlgKernel.lean ====
import proofs.«173191_j73083163508880_2_alg».proof.Defs
import proofs.«173191_j73083163508880_2_alg».proof.Proof.KI.Run
import proofs.«173191_j73083163508880_2_alg».proof.Proof.RefFrame
set_option maxRecDepth 16384
noncomputable section
namespace Cert.Alg
open Idealize.ShloMosaic Idealize.ShloMosaic.TcCoe Idealize.SL.Sem
open Cert.KernelIdeal Cert.KernelIdeal.Gen Cert.KernelIdeal.Fr

/-- The kernel program's half of the value claim, the three results named by the last boundary's contents. -/
theorem kernel_half (m : (ℓ : Loc nD τ sig) → Buf (Elt Ideal) ℓ) (g : Dev nD → PrngReg) :
    θ_run (Cert.KernelIdeal.defs (F := Ideal)) (onTc (τ := τ) (main (F := Ideal))) ⟨m, fun _ => 0, g⟩ (fun r => ∀ c : Dev nD,
      r.2.mem ((c.tc : Thread nD τ).loc main_v266) = W29 m g c (Proc.devRef .tc main_v266)
      ∧ r.2.mem ((c.tc : Thread nD τ).loc main_v110) = W29 m g c (Proc.devRef .tc main_v110)
      ∧ r.2.mem ((c.tc : Thread nD τ).loc main_v155) = W29 m g c (Proc.devRef .tc main_v155)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39)
      ∧ r.2.mem ((c.tc : Thread nD τ).loc main_arg40) = m ((c.tc : Thread nD τ).loc main_arg40)
      ∧ r.2.mem ((c.tc : Thread nD τ).loc main_arg41) = m ((c.tc : Thread nD τ).loc main_arg41)) :=
  (θ_run defs _ _).mono (fun r h c =>
    ⟨h c _ (mem_uc main_v266 (by decide)), h c _ (mem_uc main_v110 (by decide)), h c _ (mem_uc main_v155 (by decide)),
     (h c _ (mem_uc main_arg0 (by decide))).trans (W29_main_arg0 m g c),
     (h c _ (mem_uc main_arg1 (by decide))).trans (W29_main_arg1 m g c),
     (h c _ (mem_uc main_arg2 (by decide))).trans (W29_main_arg2 m g c),
     (h c _ (mem_uc main_arg3 (by decide))).trans (W29_main_arg3 m g c),
     (h c _ (mem_uc main_arg4 (by decide))).trans (W29_main_arg4 m g c),
     (h c _ (mem_uc main_arg5 (by decide))).trans (W29_main_arg5 m g c),
     (h c _ (mem_uc main_arg6 (by decide))).trans (W29_main_arg6 m g c),
     (h c _ (mem_uc main_arg7 (by decide))).trans (W29_main_arg7 m g c),
     (h c _ (mem_uc main_arg8 (by decide))).trans (W29_main_arg8 m g c),
     (h c _ (mem_uc main_arg9 (by decide))).trans (W29_main_arg9 m g c),
     (h c _ (mem_uc main_arg10 (by decide))).trans (W29_main_arg10 m g c),
     (h c _ (mem_uc main_arg11 (by decide))).trans (W29_main_arg11 m g c),
     (h c _ (mem_uc main_arg12 (by decide))).trans (W29_main_arg12 m g c),
     (h c _ (mem_uc main_arg13 (by decide))).trans (W29_main_arg13 m g c),
     (h c _ (mem_uc main_arg14 (by decide))).trans (W29_main_arg14 m g c),
     (h c _ (mem_uc main_arg15 (by decide))).trans (W29_main_arg15 m g c),
     (h c _ (mem_uc main_arg16 (by decide))).trans (W29_main_arg16 m g c),
     (h c _ (mem_uc main_arg17 (by decide))).trans (W29_main_arg17 m g c),
     (h c _ (mem_uc main_arg18 (by decide))).trans (W29_main_arg18 m g c),
     (h c _ (mem_uc main_arg19 (by decide))).trans (W29_main_arg19 m g c),
     (h c _ (mem_uc main_arg20 (by decide))).trans (W29_main_arg20 m g c),
     (h c _ (mem_uc main_arg21 (by decide))).trans (W29_main_arg21 m g c),
     (h c _ (mem_uc main_arg22 (by decide))).trans (W29_main_arg22 m g c),
     (h c _ (mem_uc main_arg23 (by decide))).trans (W29_main_arg23 m g c),
     (h c _ (mem_uc main_arg24 (by decide))).trans (W29_main_arg24 m g c),
     (h c _ (mem_uc main_arg25 (by decide))).trans (W29_main_arg25 m g c),
     (h c _ (mem_uc main_arg26 (by decide))).trans (W29_main_arg26 m g c),
     (h c _ (mem_uc main_arg27 (by decide))).trans (W29_main_arg27 m g c),
     (h c _ (mem_uc main_arg28 (by decide))).trans (W29_main_arg28 m g c),
     (h c _ (mem_uc main_arg29 (by decide))).trans (W29_main_arg29 m g c),
     (h c _ (mem_uc main_arg30 (by decide))).trans (W29_main_arg30 m g c),
     (h c _ (mem_uc main_arg31 (by decide))).trans (W29_main_arg31 m g c),
     (h c _ (mem_uc main_arg32 (by decide))).trans (W29_main_arg32 m g c),
     (h c _ (mem_uc main_arg33 (by decide))).trans (W29_main_arg33 m g c),
     (h c _ (mem_uc main_arg34 (by decide))).trans (W29_main_arg34 m g c),
     (h c _ (mem_uc main_arg35 (by decide))).trans (W29_main_arg35 m g c),
     (h c _ (mem_uc main_arg36 (by decide))).trans (W29_main_arg36 m g c),
     (h c _ (mem_uc main_arg37 (by decide))).trans (W29_main_arg37 m g c),
     (h c _ (mem_uc main_arg38 (by decide))).trans (W29_main_arg38 m g c),
     (h c _ (mem_uc main_arg39 (by decide))).trans (W29_main_arg39 m g c),
     (h c _ (mem_uc main_arg40 (by decide))).trans (W29_main_arg40 m g c),
     (h c _ (mem_uc main_arg41 (by decide))).trans (W29_main_arg41 m g c)⟩)
    (run_all m g)

end Cert.Alg
end
-- ==== Proof.RefLayers.lean ====
/- The reference's three results as a composition of twelve layer functions.
   Each layer function is the reference's own operations for that layer, in order, as one term of the layer's inputs;
   each of the twelve cuts of the operation list computes its output buffer as that function of the buffers it reads;
   composing the cuts gives each result of @main as the network of the source: three neighbour-mean layers, two
   normalised-adjacency layers each followed by a batch normalisation, three more neighbour-mean layers, and a last
   normalised-adjacency layer with its batch normalisation. Values read more than once (a layer's output feeding two
   later layers) stay shared through the named functions. -/
import proofs.«173191_j73083163508880_2_alg».proof.Proof.RefOps

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- The neighbour-mean layer with its rectifier, the node's own features 32 wide: the sum over the incoming edges of the source rows divided by the in-degree (at least one), times `wl`, plus the bias, plus the node's own row times `wr`; each row divided by its Euclidean norm (at least the small constant); then the maximum with zero. The reference's own operations, in order. -/
def sageRelu32 (xs : (⟨S100000x64, .f32⟩ : BufTy).Contents (Elt F)) (xd : (⟨S100000x32, .f32⟩ : BufTy).Contents (Elt F)) (ei : (⟨S2x2000000, .i32⟩ : BufTy).Contents (Elt F)) (wl : (⟨S64x64, .f32⟩ : BufTy).Contents (Elt F)) (b : (⟨S64, .f32⟩ : BufTy).Contents (Elt F)) (wr : (⟨S32x64, .f32⟩ : BufTy).Contents (Elt F)) :
    (⟨S100000x64, .f32⟩ : BufTy).Contents (Elt F) :=
  let t0 : (⟨S1x2000000, .i32⟩ : BufTy).Contents (Elt F) := ((extractStridedSlice S1x2000000 ![0, 0] · slices_S2x2000000_S1x2000000_0_0) : (⟨S2x2000000, .i32⟩ : BufTy).Contents (Elt F) → (⟨S1x2000000, .i32⟩ : BufTy).Contents (Elt F)) ei
  let t1 : (⟨S2000000, .i32⟩ : BufTy).Contents (Elt F) := shapeCast _ t0 shapeCasts_S1x2000000_S2000000
  let t2 : (⟨S1x2000000, .i32⟩ : BufTy).Contents (Elt F) := ((extractStridedSlice S1x2000000 ![1, 0] · slices_S2x2000000_S1x2000000_1_0) : (⟨S2x2000000, .i32⟩ : BufTy).Contents (Elt F) → (⟨S1x2000000, .i32⟩ : BufTy).Contents (Elt F)) ei
  let t3 : (⟨S2000000, .i32⟩ : BufTy).Contents (Elt F) := shapeCast _ t2 shapeCasts_S1x2000000_S2000000
  let t4 : (⟨S_, .i32⟩ : BufTy).Contents (Elt F) := constantI S_ 32 0#32
  let t5 : (⟨S2000000, .i32⟩ : BufTy).Contents (Elt F) := (broadcastInDim S2000000 ![] bcast_S_S2000000 : (⟨S_, .i32⟩ : BufTy).Contents (Elt F) → (⟨S2000000, .i32⟩ : BufTy).Contents (Elt F)) t4
  let t6 : (⟨S2000000, .i1⟩ : BufTy).Contents (Elt F) := (cmpi .slt : (⟨S2000000, .i32⟩ : BufTy).Contents (Elt F) → (⟨S2000000, .i32⟩ : BufTy).Contents (Elt F) → (⟨S2000000, .i1⟩ : BufTy).Contents (Elt F)) t1 t5
  let t7 : (⟨S_, .i32⟩ : BufTy).Contents (Elt F) := constantI S_ 32 100000#32
  let t8 : (⟨S2000000, .i32⟩ : BufTy).Contents (Elt F) := (broadcastInDim S2000000 ![] bcast_S_S2000000 : (⟨S_, .i32⟩ : BufTy).Contents (Elt F) → (⟨S2000000, .i32⟩ : BufTy).Contents (Elt F)) t7
  let t9 : (⟨S2000000, .i32⟩ : BufTy).Contents (Elt F) := (addi : (⟨S2000000, .i32⟩ : BufTy).Contents (Elt F) → (⟨S2000000, .i32⟩ : BufTy).Contents (Elt F) → (⟨S2000000, .i32⟩ : BufTy).Contents (Elt F)) t1 t8
  let t10 : (⟨S2000000, .i32⟩ : BufTy).Contents (Elt F) := (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)) t6 t9 t1
  let t11 : (⟨S2000000x1, .i32⟩ : BufTy).Contents (Elt F) := (broadcastInDim S2000000x1 ![0] bcast_S2000000_S2000000x1_0 : (⟨S2000000, .i32⟩ : BufTy).Contents (Elt F) → (⟨S2000000x1, .i32⟩ : BufTy).Contents (Elt F)) t10
  let t12 : (⟨S2000000x64, .f32⟩ : BufTy).Contents (Elt F) := ((fun x i => Host.gather gather_S100000x64_S2000000x1_S2000000x64_1_0_n_n_0_1_164 x i) : (⟨S100000x64, .f32⟩ : BufTy).Contents (Elt F) → (⟨S2000000x1, .i32⟩ : BufTy).Contents (Elt F) → (⟨S2000000x64, .f32⟩ : BufTy).Contents (Elt F)) xs t11
  let t13 : (⟨S_, .f32⟩ : BufTy).Contents (Elt F) := constant (F := F) S_ .f32 0x00000000#32
  let t14 : (⟨S100000x64, .f32⟩ : BufTy).Contents (Elt F) := (broadcastInDim S100000x64 ![] bcast_S_S100000x64 : (⟨S_, .f32⟩ : BufTy).Contents (Elt F) → (⟨S100000x64, .f32⟩ : BufTy).Contents (Elt F)) t13
  let t15 : (⟨S2000000x1, .i32⟩ : BufTy).Contents (Elt F) := (broadcastInDim S2000000x1 ![0] bcast_S2000000_S2000000x1_0 : (⟨S2000000, .i32⟩ : BufTy).Contents (Elt F) → (⟨S2000000x1, .i32⟩ : BufTy).Contents (Elt F)) t3
  let t16 : (⟨S100000x64, .f32⟩ : BufTy).Contents (Elt F) := ((fun x i u => Host.scatterAdd scatter_S100000x64_S2000000x1_S2000000x64_1_0_0_1 x i u) : (⟨S100000x64, .f32⟩ : BufTy).Contents (Elt F) → (⟨S2000000x1, .i32⟩ : BufTy).Contents (Elt F) → (⟨S2000000x64, .f32⟩ : BufTy).Contents (Elt F) → (⟨S100000x64, .f32⟩ : BufTy).Contents (Elt F)) t14 t15 t12
  let t17 : (⟨S_, .f32⟩ : BufTy).Contents (Elt F) := constant (F := F) S_ .f32 0x3F800000#32
  let t18 : (⟨S2000000, .f32⟩ : BufTy).Contents (Elt F) := (broadcastInDim S2000000 ![] bcast_S_S2000000 : (⟨S_, .f32⟩ : BufTy).Contents (Elt F) → (⟨S2000000, .f32⟩ : BufTy).Contents (Elt F)) t17
  let t19 : (⟨S_, .f32⟩ : BufTy).Contents (Elt F) := constant (F := F) S_ .f32 0x00000000#32
  let t20 : (⟨S100000, .f32⟩ : BufTy).Contents (Elt F) := (broadcastInDim S100000 ![] bcast_S_S100000 : (⟨S_, .f32⟩ : BufTy).Contents (Elt F) → (⟨S100000, .f32⟩ : BufTy).Contents (Elt F)) t19
  let t21 : (⟨S2000000x1, .i32⟩ : BufTy).Contents (Elt F) := (broadcastInDim S2000000x1 ![0] bcast_S2000000_S2000000x1_0 : (⟨S2000000, .i32⟩ : BufTy).Contents (Elt F) → (⟨S2000000x1, .i32⟩ : BufTy).Contents (Elt F)) t3
  let t22 : (⟨S100000, .f32⟩ : BufTy).Contents (Elt F) := ((fun x i u => Host.scatterAdd scatter_S100000_S2000000x1_S2000000_n_0_0_1 x i u) : (⟨S100000, .f32⟩ : BufTy).Contents (Elt F) → (⟨S2000000x1, .i32⟩ : BufTy).Contents (Elt F) → (⟨S2000000, .f32⟩ : BufTy).Contents (Elt F) → (⟨S100000, .f32⟩ : BufTy).Contents (Elt F)) t20 t21 t18
  let t23 : (⟨S_, .f32⟩ : BufTy).Contents (Elt F) := constant (F := F) S_ .f32 0x3F800000#32
  let t24 : (⟨S100000, .f32⟩ : BufTy).Contents (Elt F) := (broadcastInDim S100000 ![] bcast_S_S100000 : (⟨S_, .f32⟩ : BufTy).Contents (Elt F) → (⟨S100000, .f32⟩ : BufTy).Contents (Elt F)) t23
  let t25 : (⟨S100000, .f32⟩ : BufTy).Contents (Elt F) := (maximumf : (⟨S100000, .f32⟩ : BufTy).Contents (Elt F) → (⟨S100000, .f32⟩ : BufTy).Contents (Elt F) → (⟨S100000, .f32⟩ : BufTy).Contents (Elt F)) t22 t24
  let t26 : (⟨S100000x1, .f32⟩ : BufTy).Contents (Elt F) := (broadcastInDim S100000x1 ![0] bcast_S100000_S100000x1_0 : (⟨S100000, .f32⟩ : BufTy).Contents (Elt F) → (⟨S100000x1, .f32⟩ : BufTy).Contents (Elt F)) t25
  let t27 : (⟨S100000x64, .f32⟩ : BufTy).Contents (Elt F) := (broadcastInDim S100000x64 ![0, 1] bcast_S100000x1_S100000x64_0_1 : (⟨S100000x1, .f32⟩ : BufTy).Contents (Elt F) → (⟨S100000x64, .f32⟩ : BufTy).Contents (Elt F)) t26
  let t28 : (⟨S100000x64, .f32⟩ : BufTy).Contents (Elt F) := (Host.divf : (⟨S100000x64, .f32⟩ : BufTy).Contents (Elt F) → (⟨S100000x64, .f32⟩ : BufTy).Contents (Elt F) → (⟨S100000x64, .f32⟩ : BufTy).Contents (Elt F)) t16 t27
  let t29 : (⟨S100000x64, .f32⟩ : BufTy).Contents (Elt F) := ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) t28 wl
  let t30 : (⟨S1x64, .f32⟩ : BufTy).Contents (Elt F) := (broadcastInDim S1x64 ![1] bcast_S64_S1x64_1 : (⟨S64, .f32⟩ : BufTy).Contents (Elt F) → (⟨S1x64, .f32⟩ : BufTy).Contents (Elt F)) b
  let t31 : (⟨S100000x64, .f32⟩ : BufTy).Contents (Elt F) := (broadcastInDim S100000x64 ![0, 1] bcast_S1x64_S100000x64_0_1 : (⟨S1x64, .f32⟩ : BufTy).Contents (Elt F) → (⟨S100000x64, .f32⟩ : BufTy).Contents (Elt F)) t30
  let t32 : (⟨S100000x64, .f32⟩ : BufTy).Contents (Elt F) := (addf : (⟨S100000x64, .f32⟩ : BufTy).Contents (Elt F) → (⟨S100000x64, .f32⟩ : BufTy).Contents (Elt F) → (⟨S100000x64, .f32⟩ : BufTy).Contents (Elt F)) t29 t31
  let t33 : (⟨S100000x64, .f32⟩ : BufTy).Contents (Elt F) := ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)) xd wr
  let t34 : (⟨S100000x64, .f32⟩ : BufTy).Contents (Elt F) := (addf : (⟨S100000x64, .f32⟩ : BufTy).Contents (Elt F) → (⟨S100000x64, .f32⟩ : BufTy).Contents (Elt F) → (⟨S100000x64, .f32⟩ : BufTy).Contents (Elt F)) t32 t33
  let t35 : (⟨S100000x64, .f32⟩ : BufTy).Contents (Elt F) := (mulf : (⟨S100000x64, .f32⟩ : BufTy).Contents (Elt F) → (⟨S100000x64, .f32⟩ : BufTy).Contents (Elt F) → (⟨S100000x64, .f32⟩ : BufTy).Contents (Elt F)) t34 t34
  let t36 : (⟨S_, .f32⟩ : BufTy).Contents (Elt F) := constant (F := F) S_ .f32 0x00000000#32
  let t37 : (⟨S100000, .f32⟩ : BufTy).Contents (Elt F) := ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)) t35 t36
  let t38 : (⟨S100000x1, .f32⟩ : BufTy).Contents (Elt F) := (broadcastInDim S100000x1 ![0] bcast_S100000_S100000x1_0 : (⟨S100000, .f32⟩ : BufTy).Contents (Elt F) → (⟨S100000x1, .f32⟩ : BufTy).Contents (Elt F)) t37
  let t39 : (⟨S100000x1, .f32⟩ : BufTy).Contents (Elt F) := (Host.sqrt : (⟨S100000x1, .f32⟩ : BufTy).Contents (Elt F) → (⟨S100000x1, .f32⟩ : BufTy).Contents (Elt F)) t38
  let t40 : (⟨S_, .f32⟩ : BufTy).Contents (Elt F) := constant (F := F) S_ .f32 0x2B8CBCCC#32
  let t41 : (⟨S100000x1, .f32⟩ : BufTy).Contents (Elt F) := (broadcastInDim S100000x1 ![] bcast_S_S100000x1 : (⟨S_, .f32⟩ : BufTy).Contents (Elt F) → (⟨S100000x1, .f32⟩ : BufTy).Contents (Elt F)) t40
  let t42 : (⟨S100000x1, .f32⟩ : BufTy).Contents (Elt F) := (maximumf : (⟨S100000x1, .f32⟩ : BufTy).Contents (Elt F) → (⟨S100000x1, .f32⟩ : BufTy).Contents (Elt F) → (⟨S100000x1, .f32⟩ : BufTy).Contents (Elt F)) t39 t41
  let t43 : (⟨S100000x64, .f32⟩ : BufTy).Contents (Elt F) := (broadcastInDim S100000x64 ![0, 1] bcast_S100000x1_S100000x64_0_1 : (⟨S100000x1, .f32⟩ : BufTy).Contents (Elt F) → (⟨S100000x64, .f32⟩ : BufTy).Contents (Elt F)) t42
  let t44 : (⟨S100000x64, .f32⟩ : BufTy).Contents (Elt F) := (Host.divf : (⟨S100000x64, .f32⟩ : BufTy).Contents (Elt F) → (⟨S100000x64, .f32⟩ : BufTy).Contents (Elt F) → (⟨S100000x64, .f32⟩ : BufTy).Contents (Elt F)) t34 t43
  let t45 : (⟨S_, .f32⟩ : BufTy).Contents (Elt F) := constant (F := F) S_ .f32 0x00000000#32
  let t46 : (⟨S100000x64, .f32⟩ : BufTy).Contents (Elt F) := (broadcastInDim S100000x64 ![] bcast_S_S100000x64 : (⟨S_, .f32⟩ : BufTy).Contents (Elt F) → (⟨S100000x64, .f32⟩ : BufTy).Contents (Elt F)) t45
  let t47 : (⟨S100000x64, .f32⟩ : BufTy).Contents (Elt F) := (maximumf : (⟨S100000x64, .f32⟩ : BufTy).Contents (Elt F) → (⟨S100000x64, .f32⟩ : BufTy).Contents (Elt F) → (⟨S100000x64, .f32⟩ : BufTy).Contents (Elt F)) t44 t46
  t47

/-- The neighbour-mean layer with its rectifier, the node's own features 64 wide (the same operations as `sageRelu32`, the second product over 64 terms). -/
def sageRelu64 (xs : (⟨S100000x64, .f32⟩ : BufTy).Contents (Elt F)) (xd : (⟨S100000x64, .f32⟩ : BufTy).Contents (Elt F)) (ei : (⟨S2x2000000, .i32⟩ : BufTy).Contents (Elt F)) (wl : (⟨S64x64, .f32⟩ : BufTy).Contents (Elt F)) (b : (⟨S64, .f32⟩ : BufTy).Contents (Elt F)) (wr : (⟨S64x64, .f32⟩ : BufTy).Contents (Elt F)) :
    (⟨S100000x64, .f32⟩ : BufTy).Contents (Elt F) :=
  let t0 : (⟨S1x2000000, .i32⟩ : BufTy).Contents (Elt F) := ((extractStridedSlice S1x2000000 ![0, 0] · slices_S2x2000000_S1x2000000_0_0) : (⟨S2x2000000, .i32⟩ : BufTy).Contents (Elt F) → (⟨S1x2000000, .i32⟩ : BufTy).Contents (Elt F)) ei
  let t1 : (⟨S2000000, .i32⟩ : BufTy).Contents (Elt F) := shapeCast _ t0 shapeCasts_S1x2000000_S2000000
  let t2 : (⟨S1x2000000, .i32⟩ : BufTy).Contents (Elt F) := ((extractStridedSlice S1x2000000 ![1, 0] · slices_S2x2000000_S1x2000000_1_0) : (⟨S2x2000000, .i32⟩ : BufTy).Contents (Elt F) → (⟨S1x2000000, .i32⟩ : BufTy).Contents (Elt F)) ei
  let t3 : (⟨S2000000, .i32⟩ : BufTy).Contents (Elt F) := shapeCast _ t2 shapeCasts_S1x2000000_S2000000
  let t4 : (⟨S_, .i32⟩ : BufTy).Contents (Elt F) := constantI S_ 32 0#32
  let t5 : (⟨S2000000, .i32⟩ : BufTy).Contents (Elt F) := (broadcastInDim S2000000 ![] bcast_S_S2000000 : (⟨S_, .i32⟩ : BufTy).Contents (Elt F) → (⟨S2000000, .i32⟩ : BufTy).Contents (Elt F)) t4
  let t6 : (⟨S2000000, .i1⟩ : BufTy).Contents (Elt F) := (cmpi .slt : (⟨S2000000, .i32⟩ : BufTy).Contents (Elt F) → (⟨S2000000, .i32⟩ : BufTy).Contents (Elt F) → (⟨S2000000, .i1⟩ : BufTy).Contents (Elt F)) t1 t5
  let t7 : (⟨S_, .i32⟩ : BufTy).Contents (Elt F) := constantI S_ 32 100000#32
  let t8 : (⟨S2000000, .i32⟩ : BufTy).Contents (Elt F) := (broadcastInDim S2000000 ![] bcast_S_S2000000 : (⟨S_, .i32⟩ : BufTy).Contents (Elt F) → (⟨S2000000, .i32⟩ : BufTy).Contents (Elt F)) t7
  let t9 : (⟨S2000000, .i32⟩ : BufTy).Contents (Elt F) := (addi : (⟨S2000000, .i32⟩ : BufTy).Contents (Elt F) → (⟨S2000000, .i32⟩ : BufTy).Contents (Elt F) → (⟨S2000000, .i32⟩ : BufTy).Contents (Elt F)) t1 t8
  let t10 : (⟨S2000000, .i32⟩ : BufTy).Contents (Elt F) := (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)) t6 t9 t1
  let t11 : (⟨S2000000x1, .i32⟩ : BufTy).Contents (Elt F) := (broadcastInDim S2000000x1 ![0] bcast_S2000000_S2000000x1_0 : (⟨S2000000, .i32⟩ : BufTy).Contents (Elt F) → (⟨S2000000x1, .i32⟩ : BufTy).Contents (Elt F)) t10
  let t12 : (⟨S2000000x64, .f32⟩ : BufTy).Contents (Elt F) := ((fun x i => Host.gather gather_S100000x64_S2000000x1_S2000000x64_1_0_n_n_0_1_164 x i) : (⟨S100000x64, .f32⟩ : BufTy).Contents (Elt F) → (⟨S2000000x1, .i32⟩ : BufTy).Contents (Elt F) → (⟨S2000000x64, .f32⟩ : BufTy).Contents (Elt F)) xs t11
  let t13 : (⟨S_, .f32⟩ : BufTy).Contents (Elt F) := constant (F := F) S_ .f32 0x00000000#32
  let t14 : (⟨S100000x64, .f32⟩ : BufTy).Contents (Elt F) := (broadcastInDim S100000x64 ![] bcast_S_S100000x64 : (⟨S_, .f32⟩ : BufTy).Contents (Elt F) → (⟨S100000x64, .f32⟩ : BufTy).Contents (Elt F)) t13
  let t15 : (⟨S2000000x1, .i32⟩ : BufTy).Contents (Elt F) := (broadcastInDim S2000000x1 ![0] bcast_S2000000_S2000000x1_0 : (⟨S2000000, .i32⟩ : BufTy).Contents (Elt F) → (⟨S2000000x1, .i32⟩ : BufTy).Contents (Elt F)) t3
  let t16 : (⟨S100000x64, .f32⟩ : BufTy).Contents (Elt F) := ((fun x i u => Host.scatterAdd scatter_S100000x64_S2000000x1_S2000000x64_1_0_0_1 x i u) : (⟨S100000x64, .f32⟩ : BufTy).Contents (Elt F) → (⟨S2000000x1, .i32⟩ : BufTy).Contents (Elt F) → (⟨S2000000x64, .f32⟩ : BufTy).Contents (Elt F) → (⟨S100000x64, .f32⟩ : BufTy).Contents (Elt F)) t14 t15 t12
  let t17 : (⟨S_, .f32⟩ : BufTy).Contents (Elt F) := constant (F := F) S_ .f32 0x3F800000#32
  let t18 : (⟨S2000000, .f32⟩ : BufTy).Contents (Elt F) := (broadcastInDim S2000000 ![] bcast_S_S2000000 : (⟨S_, .f32⟩ : BufTy).Contents (Elt F) → (⟨S2000000, .f32⟩ : BufTy).Contents (Elt F)) t17
  let t19 : (⟨S_, .f32⟩ : BufTy).Contents (Elt F) := constant (F := F) S_ .f32 0x00000000#32
  let t20 : (⟨S100000, .f32⟩ : BufTy).Contents (Elt F) := (broadcastInDim S100000 ![] bcast_S_S100000 : (⟨S_, .f32⟩ : BufTy).Contents (Elt F) → (⟨S100000, .f32⟩ : BufTy).Contents (Elt F)) t19
  let t21 : (⟨S2000000x1, .i32⟩ : BufTy).Contents (Elt F) := (broadcastInDim S2000000x1 ![0] bcast_S2000000_S2000000x1_0 : (⟨S2000000, .i32⟩ : BufTy).Contents (Elt F) → (⟨S2000000x1, .i32⟩ : BufTy).Contents (Elt F)) t3
  let t22 : (⟨S100000, .f32⟩ : BufTy).Contents (Elt F) := ((fun x i u => Host.scatterAdd scatter_S100000_S2000000x1_S2000000_n_0_0_1 x i u) : (⟨S100000, .f32⟩ : BufTy).Contents (Elt F) → (⟨S2000000x1, .i32⟩ : BufTy).Contents (Elt F) → (⟨S2000000, .f32⟩ : BufTy).Contents (Elt F) → (⟨S100000, .f32⟩ : BufTy).Contents (Elt F)) t20 t21 t18
  let t23 : (⟨S_, .f32⟩ : BufTy).Contents (Elt F) := constant (F := F) S_ .f32 0x3F800000#32
  let t24 : (⟨S100000, .f32⟩ : BufTy).Contents (Elt F) := (broadcastInDim S100000 ![] bcast_S_S100000 : (⟨S_, .f32⟩ : BufTy).Contents (Elt F) → (⟨S100000, .f32⟩ : BufTy).Contents (Elt F)) t23
  let t25 : (⟨S100000, .f32⟩ : BufTy).Contents (Elt F) := (maximumf : (⟨S100000, .f32⟩ : BufTy).Contents (Elt F) → (⟨S100000, .f32⟩ : BufTy).Contents (Elt F) → (⟨S100000, .f32⟩ : BufTy).Contents (Elt F)) t22 t24
  let t26 : (⟨S100000x1, .f32⟩ : BufTy).Contents (Elt F) := (broadcastInDim S100000x1 ![0] bcast_S100000_S100000x1_0 : (⟨S100000, .f32⟩ : BufTy).Contents (Elt F) → (⟨S100000x1, .f32⟩ : BufTy).Contents (Elt F)) t25
  let t27 : (⟨S100000x64, .f32⟩ : BufTy).Contents (Elt F) := (broadcastInDim S100000x64 ![0, 1] bcast_S100000x1_S100000x64_0_1 : (⟨S100000x1, .f32⟩ : BufTy).Contents (Elt F) → (⟨S100000x64, .f32⟩ : BufTy).Contents (Elt F)) t26
  let t28 : (⟨S100000x64, .f32⟩ : BufTy).Contents (Elt F) := (Host.divf : (⟨S100000x64, .f32⟩ : BufTy).Contents (Elt F) → (⟨S100000x64, .f32⟩ : BufTy).Contents (Elt F) → (⟨S100000x64, .f32⟩ : BufTy).Contents (Elt F)) t16 t27
  let t29 : (⟨S100000x64, .f32⟩ : BufTy).Contents (Elt F) := ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) t28 wl
  let t30 : (⟨S1x64, .f32⟩ : BufTy).Contents (Elt F) := (broadcastInDim S1x64 ![1] bcast_S64_S1x64_1 : (⟨S64, .f32⟩ : BufTy).Contents (Elt F) → (⟨S1x64, .f32⟩ : BufTy).Contents (Elt F)) b
  let t31 : (⟨S100000x64, .f32⟩ : BufTy).Contents (Elt F) := (broadcastInDim S100000x64 ![0, 1] bcast_S1x64_S100000x64_0_1 : (⟨S1x64, .f32⟩ : BufTy).Contents (Elt F) → (⟨S100000x64, .f32⟩ : BufTy).Contents (Elt F)) t30
  let t32 : (⟨S100000x64, .f32⟩ : BufTy).Contents (Elt F) := (addf : (⟨S100000x64, .f32⟩ : BufTy).Contents (Elt F) → (⟨S100000x64, .f32⟩ : BufTy).Contents (Elt F) → (⟨S100000x64, .f32⟩ : BufTy).Contents (Elt F)) t29 t31
  let t33 : (⟨S100000x64, .f32⟩ : BufTy).Contents (Elt F) := ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) xd wr
  let t34 : (⟨S100000x64, .f32⟩ : BufTy).Contents (Elt F) := (addf : (⟨S100000x64, .f32⟩ : BufTy).Contents (Elt F) → (⟨S100000x64, .f32⟩ : BufTy).Contents (Elt F) → (⟨S100000x64, .f32⟩ : BufTy).Contents (Elt F)) t32 t33
  let t35 : (⟨S100000x64, .f32⟩ : BufTy).Contents (Elt F) := (mulf : (⟨S100000x64, .f32⟩ : BufTy).Contents (Elt F) → (⟨S100000x64, .f32⟩ : BufTy).Contents (Elt F) → (⟨S100000x64, .f32⟩ : BufTy).Contents (Elt F)) t34 t34
  let t36 : (⟨S_, .f32⟩ : BufTy).Contents (Elt F) := constant (F := F) S_ .f32 0x00000000#32
  let t37 : (⟨S100000, .f32⟩ : BufTy).Contents (Elt F) := ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)) t35 t36
  let t38 : (⟨S100000x1, .f32⟩ : BufTy).Contents (Elt F) := (broadcastInDim S100000x1 ![0] bcast_S100000_S100000x1_0 : (⟨S100000, .f32⟩ : BufTy).Contents (Elt F) → (⟨S100000x1, .f32⟩ : BufTy).Contents (Elt F)) t37
  let t39 : (⟨S100000x1, .f32⟩ : BufTy).Contents (Elt F) := (Host.sqrt : (⟨S100000x1, .f32⟩ : BufTy).Contents (Elt F) → (⟨S100000x1, .f32⟩ : BufTy).Contents (Elt F)) t38
  let t40 : (⟨S_, .f32⟩ : BufTy).Contents (Elt F) := constant (F := F) S_ .f32 0x2B8CBCCC#32
  let t41 : (⟨S100000x1, .f32⟩ : BufTy).Contents (Elt F) := (broadcastInDim S100000x1 ![] bcast_S_S100000x1 : (⟨S_, .f32⟩ : BufTy).Contents (Elt F) → (⟨S100000x1, .f32⟩ : BufTy).Contents (Elt F)) t40
  let t42 : (⟨S100000x1, .f32⟩ : BufTy).Contents (Elt F) := (maximumf : (⟨S100000x1, .f32⟩ : BufTy).Contents (Elt F) → (⟨S100000x1, .f32⟩ : BufTy).Contents (Elt F) → (⟨S100000x1, .f32⟩ : BufTy).Contents (Elt F)) t39 t41
  let t43 : (⟨S100000x64, .f32⟩ : BufTy).Contents (Elt F) := (broadcastInDim S100000x64 ![0, 1] bcast_S100000x1_S100000x64_0_1 : (⟨S100000x1, .f32⟩ : BufTy).Contents (Elt F) → (⟨S100000x64, .f32⟩ : BufTy).Contents (Elt F)) t42
  let t44 : (⟨S100000x64, .f32⟩ : BufTy).Contents (Elt F) := (Host.divf : (⟨S100000x64, .f32⟩ : BufTy).Contents (Elt F) → (⟨S100000x64, .f32⟩ : BufTy).Contents (Elt F) → (⟨S100000x64, .f32⟩ : BufTy).Contents (Elt F)) t34 t43
  let t45 : (⟨S_, .f32⟩ : BufTy).Contents (Elt F) := constant (F := F) S_ .f32 0x00000000#32
  let t46 : (⟨S100000x64, .f32⟩ : BufTy).Contents (Elt F) := (broadcastInDim S100000x64 ![] bcast_S_S100000x64 : (⟨S_, .f32⟩ : BufTy).Contents (Elt F) → (⟨S100000x64, .f32⟩ : BufTy).Contents (Elt F)) t45
  let t47 : (⟨S100000x64, .f32⟩ : BufTy).Contents (Elt F) := (maximumf : (⟨S100000x64, .f32⟩ : BufTy).Contents (Elt F) → (⟨S100000x64, .f32⟩ : BufTy).Contents (Elt F) → (⟨S100000x64, .f32⟩ : BufTy).Contents (Elt F)) t44 t46
  t47

/-- The normalised-adjacency layer with its rectifier: `x` times `w`; the degree of a node is its in-degree plus one; each incoming edge's source row is scaled by the reciprocal square roots of the degrees of its two ends and added into its destination row; the node's own row divided by its degree is added, then the bias; then the maximum with zero. The reference's own operations, in order. -/
def gcnRelu (x : (⟨S100000x64, .f32⟩ : BufTy).Contents (Elt F)) (ei : (⟨S2x2000000, .i32⟩ : BufTy).Contents (Elt F)) (w : (⟨S64x64, .f32⟩ : BufTy).Contents (Elt F)) (b : (⟨S64, .f32⟩ : BufTy).Contents (Elt F)) :
    (⟨S100000x64, .f32⟩ : BufTy).Contents (Elt F) :=
  let t0 : (⟨S1x2000000, .i32⟩ : BufTy).Contents (Elt F) := ((extractStridedSlice S1x2000000 ![0, 0] · slices_S2x2000000_S1x2000000_0_0) : (⟨S2x2000000, .i32⟩ : BufTy).Contents (Elt F) → (⟨S1x2000000, .i32⟩ : BufTy).Contents (Elt F)) ei
  let t1 : (⟨S2000000, .i32⟩ : BufTy).Contents (Elt F) := shapeCast _ t0 shapeCasts_S1x2000000_S2000000
  let t2 : (⟨S1x2000000, .i32⟩ : BufTy).Contents (Elt F) := ((extractStridedSlice S1x2000000 ![1, 0] · slices_S2x2000000_S1x2000000_1_0) : (⟨S2x2000000, .i32⟩ : BufTy).Contents (Elt F) → (⟨S1x2000000, .i32⟩ : BufTy).Contents (Elt F)) ei
  let t3 : (⟨S2000000, .i32⟩ : BufTy).Contents (Elt F) := shapeCast _ t2 shapeCasts_S1x2000000_S2000000
  let t4 : (⟨S100000x64, .f32⟩ : BufTy).Contents (Elt F) := ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) x w
  let t5 : (⟨S_, .f32⟩ : BufTy).Contents (Elt F) := constant (F := F) S_ .f32 0x3F800000#32
  let t6 : (⟨S2000000, .f32⟩ : BufTy).Contents (Elt F) := (broadcastInDim S2000000 ![] bcast_S_S2000000 : (⟨S_, .f32⟩ : BufTy).Contents (Elt F) → (⟨S2000000, .f32⟩ : BufTy).Contents (Elt F)) t5
  let t7 : (⟨S_, .f32⟩ : BufTy).Contents (Elt F) := constant (F := F) S_ .f32 0x00000000#32
  let t8 : (⟨S100000, .f32⟩ : BufTy).Contents (Elt F) := (broadcastInDim S100000 ![] bcast_S_S100000 : (⟨S_, .f32⟩ : BufTy).Contents (Elt F) → (⟨S100000, .f32⟩ : BufTy).Contents (Elt F)) t7
  let t9 : (⟨S2000000x1, .i32⟩ : BufTy).Contents (Elt F) := (broadcastInDim S2000000x1 ![0] bcast_S2000000_S2000000x1_0 : (⟨S2000000, .i32⟩ : BufTy).Contents (Elt F) → (⟨S2000000x1, .i32⟩ : BufTy).Contents (Elt F)) t3
  let t10 : (⟨S100000, .f32⟩ : BufTy).Contents (Elt F) := ((fun x i u => Host.scatterAdd scatter_S100000_S2000000x1_S2000000_n_0_0_1 x i u) : (⟨S100000, .f32⟩ : BufTy).Contents (Elt F) → (⟨S2000000x1, .i32⟩ : BufTy).Contents (Elt F) → (⟨S2000000, .f32⟩ : BufTy).Contents (Elt F) → (⟨S100000, .f32⟩ : BufTy).Contents (Elt F)) t8 t9 t6
  let t11 : (⟨S_, .f32⟩ : BufTy).Contents (Elt F) := constant (F := F) S_ .f32 0x3F800000#32
  let t12 : (⟨S100000, .f32⟩ : BufTy).Contents (Elt F) := (broadcastInDim S100000 ![] bcast_S_S100000 : (⟨S_, .f32⟩ : BufTy).Contents (Elt F) → (⟨S100000, .f32⟩ : BufTy).Contents (Elt F)) t11
  let t13 : (⟨S100000, .f32⟩ : BufTy).Contents (Elt F) := (addf : (⟨S100000, .f32⟩ : BufTy).Contents (Elt F) → (⟨S100000, .f32⟩ : BufTy).Contents (Elt F) → (⟨S100000, .f32⟩ : BufTy).Contents (Elt F)) t10 t12
  let t14 : (⟨S100000, .f32⟩ : BufTy).Contents (Elt F) := (Host.rsqrt : (⟨S100000, .f32⟩ : BufTy).Contents (Elt F) → (⟨S100000, .f32⟩ : BufTy).Contents (Elt F)) t13
  let t15 : (⟨S_, .i32⟩ : BufTy).Contents (Elt F) := constantI S_ 32 0#32
  let t16 : (⟨S2000000, .i32⟩ : BufTy).Contents (Elt F) := (broadcastInDim S2000000 ![] bcast_S_S2000000 : (⟨S_, .i32⟩ : BufTy).Contents (Elt F) → (⟨S2000000, .i32⟩ : BufTy).Contents (Elt F)) t15
  let t17 : (⟨S2000000, .i1⟩ : BufTy).Contents (Elt F) := (cmpi .slt : (⟨S2000000, .i32⟩ : BufTy).Contents (Elt F) → (⟨S2000000, .i32⟩ : BufTy).Contents (Elt F) → (⟨S2000000, .i1⟩ : BufTy).Contents (Elt F)) t1 t16
  let t18 : (⟨S_, .i32⟩ : BufTy).Contents (Elt F) := constantI S_ 32 100000#32
  let t19 : (⟨S2000000, .i32⟩ : BufTy).Contents (Elt F) := (broadcastInDim S2000000 ![] bcast_S_S2000000 : (⟨S_, .i32⟩ : BufTy).Contents (Elt F) → (⟨S2000000, .i32⟩ : BufTy).Contents (Elt F)) t18
  let t20 : (⟨S2000000, .i32⟩ : BufTy).Contents (Elt F) := (addi : (⟨S2000000, .i32⟩ : BufTy).Contents (Elt F) → (⟨S2000000, .i32⟩ : BufTy).Contents (Elt F) → (⟨S2000000, .i32⟩ : BufTy).Contents (Elt F)) t1 t19
  let t21 : (⟨S2000000, .i32⟩ : BufTy).Contents (Elt F) := (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)) t17 t20 t1
  let t22 : (⟨S2000000x1, .i32⟩ : BufTy).Contents (Elt F) := (broadcastInDim S2000000x1 ![0] bcast_S2000000_S2000000x1_0 : (⟨S2000000, .i32⟩ : BufTy).Contents (Elt F) → (⟨S2000000x1, .i32⟩ : BufTy).Contents (Elt F)) t21
  let t23 : (⟨S2000000, .f32⟩ : BufTy).Contents (Elt F) := ((fun x i => Host.gather gather_S100000_S2000000x1_S2000000_n_0_n_n_0_1_1 x i) : (⟨S100000, .f32⟩ : BufTy).Contents (Elt F) → (⟨S2000000x1, .i32⟩ : BufTy).Contents (Elt F) → (⟨S2000000, .f32⟩ : BufTy).Contents (Elt F)) t14 t22
  let t24 : (⟨S_, .i32⟩ : BufTy).Contents (Elt F) := constantI S_ 32 0#32
  let t25 : (⟨S2000000, .i32⟩ : BufTy).Contents (Elt F) := (broadcastInDim S2000000 ![] bcast_S_S2000000 : (⟨S_, .i32⟩ : BufTy).Contents (Elt F) → (⟨S2000000, .i32⟩ : BufTy).Contents (Elt F)) t24
  let t26 : (⟨S2000000, .i1⟩ : BufTy).Contents (Elt F) := (cmpi .slt : (⟨S2000000, .i32⟩ : BufTy).Contents (Elt F) → (⟨S2000000, .i32⟩ : BufTy).Contents (Elt F) → (⟨S2000000, .i1⟩ : BufTy).Contents (Elt F)) t3 t25
  let t27 : (⟨S_, .i32⟩ : BufTy).Contents (Elt F) := constantI S_ 32 100000#32
  let t28 : (⟨S2000000, .i32⟩ : BufTy).Contents (Elt F) := (broadcastInDim S2000000 ![] bcast_S_S2000000 : (⟨S_, .i32⟩ : BufTy).Contents (Elt F) → (⟨S2000000, .i32⟩ : BufTy).Contents (Elt F)) t27
  let t29 : (⟨S2000000, .i32⟩ : BufTy).Contents (Elt F) := (addi : (⟨S2000000, .i32⟩ : BufTy).Contents (Elt F) → (⟨S2000000, .i32⟩ : BufTy).Contents (Elt F) → (⟨S2000000, .i32⟩ : BufTy).Contents (Elt F)) t3 t28
  let t30 : (⟨S2000000, .i32⟩ : BufTy).Contents (Elt F) := (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)) t26 t29 t3
  let t31 : (⟨S2000000x1, .i32⟩ : BufTy).Contents (Elt F) := (broadcastInDim S2000000x1 ![0] bcast_S2000000_S2000000x1_0 : (⟨S2000000, .i32⟩ : BufTy).Contents (Elt F) → (⟨S2000000x1, .i32⟩ : BufTy).Contents (Elt F)) t30
  let t32 : (⟨S2000000, .f32⟩ : BufTy).Contents (Elt F) := ((fun x i => Host.gather gather_S100000_S2000000x1_S2000000_n_0_n_n_0_1_1 x i) : (⟨S100000, .f32⟩ : BufTy).Contents (Elt F) → (⟨S2000000x1, .i32⟩ : BufTy).Contents (Elt F) → (⟨S2000000, .f32⟩ : BufTy).Contents (Elt F)) t14 t31
  let t33 : (⟨S2000000, .f32⟩ : BufTy).Contents (Elt F) := (mulf : (⟨S2000000, .f32⟩ : BufTy).Contents (Elt F) → (⟨S2000000, .f32⟩ : BufTy).Contents (Elt F) → (⟨S2000000, .f32⟩ : BufTy).Contents (Elt F)) t23 t32
  let t34 : (⟨S2000000x1, .f32⟩ : BufTy).Contents (Elt F) := (broadcastInDim S2000000x1 ![0] bcast_S2000000_S2000000x1_0 : (⟨S2000000, .f32⟩ : BufTy).Contents (Elt F) → (⟨S2000000x1, .f32⟩ : BufTy).Contents (Elt F)) t33
  let t35 : (⟨S_, .i32⟩ : BufTy).Contents (Elt F) := constantI S_ 32 0#32
  let t36 : (⟨S2000000, .i32⟩ : BufTy).Contents (Elt F) := (broadcastInDim S2000000 ![] bcast_S_S2000000 : (⟨S_, .i32⟩ : BufTy).Contents (Elt F) → (⟨S2000000, .i32⟩ : BufTy).Contents (Elt F)) t35
  let t37 : (⟨S2000000, .i1⟩ : BufTy).Contents (Elt F) := (cmpi .slt : (⟨S2000000, .i32⟩ : BufTy).Contents (Elt F) → (⟨S2000000, .i32⟩ : BufTy).Contents (Elt F) → (⟨S2000000, .i1⟩ : BufTy).Contents (Elt F)) t1 t36
  let t38 : (⟨S_, .i32⟩ : BufTy).Contents (Elt F) := constantI S_ 32 100000#32
  let t39 : (⟨S2000000, .i32⟩ : BufTy).Contents (Elt F) := (broadcastInDim S2000000 ![] bcast_S_S2000000 : (⟨S_, .i32⟩ : BufTy).Contents (Elt F) → (⟨S2000000, .i32⟩ : BufTy).Contents (Elt F)) t38
  let t40 : (⟨S2000000, .i32⟩ : BufTy).Contents (Elt F) := (addi : (⟨S2000000, .i32⟩ : BufTy).Contents (Elt F) → (⟨S2000000, .i32⟩ : BufTy).Contents (Elt F) → (⟨S2000000, .i32⟩ : BufTy).Contents (Elt F)) t1 t39
  let t41 : (⟨S2000000, .i32⟩ : BufTy).Contents (Elt F) := (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)) t37 t40 t1
  let t42 : (⟨S2000000x1, .i32⟩ : BufTy).Contents (Elt F) := (broadcastInDim S2000000x1 ![0] bcast_S2000000_S2000000x1_0 : (⟨S2000000, .i32⟩ : BufTy).Contents (Elt F) → (⟨S2000000x1, .i32⟩ : BufTy).Contents (Elt F)) t41
  let t43 : (⟨S2000000x64, .f32⟩ : BufTy).Contents (Elt F) := ((fun x i => Host.gather gather_S100000x64_S2000000x1_S2000000x64_1_0_n_n_0_1_164 x i) : (⟨S100000x64, .f32⟩ : BufTy).Contents (Elt F) → (⟨S2000000x1, .i32⟩ : BufTy).Contents (Elt F) → (⟨S2000000x64, .f32⟩ : BufTy).Contents (Elt F)) t4 t42
  let t44 : (⟨S2000000x64, .f32⟩ : BufTy).Contents (Elt F) := (broadcastInDim S2000000x64 ![0, 1] bcast_S2000000x1_S2000000x64_0_1 : (⟨S2000000x1, .f32⟩ : BufTy).Contents (Elt F) → (⟨S2000000x64, .f32⟩ : BufTy).Contents (Elt F)) t34
  let t45 : (⟨S2000000x64, .f32⟩ : BufTy).Contents (Elt F) := (mulf : (⟨S2000000x64, .f32⟩ : BufTy).Contents (Elt F) → (⟨S2000000x64, .f32⟩ : BufTy).Contents (Elt F) → (⟨S2000000x64, .f32⟩ : BufTy).Contents (Elt F)) t43 t44
  let t46 : (⟨S_, .f32⟩ : BufTy).Contents (Elt F) := constant (F := F) S_ .f32 0x00000000#32
  let t47 : (⟨S100000x64, .f32⟩ : BufTy).Contents (Elt F) := (broadcastInDim S100000x64 ![] bcast_S_S100000x64 : (⟨S_, .f32⟩ : BufTy).Contents (Elt F) → (⟨S100000x64, .f32⟩ : BufTy).Contents (Elt F)) t46
  let t48 : (⟨S2000000x1, .i32⟩ : BufTy).Contents (Elt F) := (broadcastInDim S2000000x1 ![0] bcast_S2000000_S2000000x1_0 : (⟨S2000000, .i32⟩ : BufTy).Contents (Elt F) → (⟨S2000000x1, .i32⟩ : BufTy).Contents (Elt F)) t3
  let t49 : (⟨S100000x64, .f32⟩ : BufTy).Contents (Elt F) := ((fun x i u => Host.scatterAdd scatter_S100000x64_S2000000x1_S2000000x64_1_0_0_1 x i u) : (⟨S100000x64, .f32⟩ : BufTy).Contents (Elt F) → (⟨S2000000x1, .i32⟩ : BufTy).Contents (Elt F) → (⟨S2000000x64, .f32⟩ : BufTy).Contents (Elt F) → (⟨S100000x64, .f32⟩ : BufTy).Contents (Elt F)) t47 t48 t45
  let t50 : (⟨S100000x1, .f32⟩ : BufTy).Contents (Elt F) := (broadcastInDim S100000x1 ![0] bcast_S100000_S100000x1_0 : (⟨S100000, .f32⟩ : BufTy).Contents (Elt F) → (⟨S100000x1, .f32⟩ : BufTy).Contents (Elt F)) t13
  let t51 : (⟨S100000x64, .f32⟩ : BufTy).Contents (Elt F) := (broadcastInDim S100000x64 ![0, 1] bcast_S100000x1_S100000x64_0_1 : (⟨S100000x1, .f32⟩ : BufTy).Contents (Elt F) → (⟨S100000x64, .f32⟩ : BufTy).Contents (Elt F)) t50
  let t52 : (⟨S100000x64, .f32⟩ : BufTy).Contents (Elt F) := (Host.divf : (⟨S100000x64, .f32⟩ : BufTy).Contents (Elt F) → (⟨S100000x64, .f32⟩ : BufTy).Contents (Elt F) → (⟨S100000x64, .f32⟩ : BufTy).Contents (Elt F)) t4 t51
  let t53 : (⟨S100000x64, .f32⟩ : BufTy).Contents (Elt F) := (addf : (⟨S100000x64, .f32⟩ : BufTy).Contents (Elt F) → (⟨S100000x64, .f32⟩ : BufTy).Contents (Elt F) → (⟨S100000x64, .f32⟩ : BufTy).Contents (Elt F)) t49 t52
  let t54 : (⟨S1x64, .f32⟩ : BufTy).Contents (Elt F) := (broadcastInDim S1x64 ![1] bcast_S64_S1x64_1 : (⟨S64, .f32⟩ : BufTy).Contents (Elt F) → (⟨S1x64, .f32⟩ : BufTy).Contents (Elt F)) b
  let t55 : (⟨S100000x64, .f32⟩ : BufTy).Contents (Elt F) := (broadcastInDim S100000x64 ![0, 1] bcast_S1x64_S100000x64_0_1 : (⟨S1x64, .f32⟩ : BufTy).Contents (Elt F) → (⟨S100000x64, .f32⟩ : BufTy).Contents (Elt F)) t54
  let t56 : (⟨S100000x64, .f32⟩ : BufTy).Contents (Elt F) := (addf : (⟨S100000x64, .f32⟩ : BufTy).Contents (Elt F) → (⟨S100000x64, .f32⟩ : BufTy).Contents (Elt F) → (⟨S100000x64, .f32⟩ : BufTy).Contents (Elt F)) t53 t55
  let t57 : (⟨S_, .f32⟩ : BufTy).Contents (Elt F) := constant (F := F) S_ .f32 0x00000000#32
  let t58 : (⟨S100000x64, .f32⟩ : BufTy).Contents (Elt F) := (broadcastInDim S100000x64 ![] bcast_S_S100000x64 : (⟨S_, .f32⟩ : BufTy).Contents (Elt F) → (⟨S100000x64, .f32⟩ : BufTy).Contents (Elt F)) t57
  let t59 : (⟨S100000x64, .f32⟩ : BufTy).Contents (Elt F) := (maximumf : (⟨S100000x64, .f32⟩ : BufTy).Contents (Elt F) → (⟨S100000x64, .f32⟩ : BufTy).Contents (Elt F) → (⟨S100000x64, .f32⟩ : BufTy).Contents (Elt F)) t56 t58
  t59

/-- Batch normalisation over the 100000 nodes, per channel: the mean, the mean of the squared deviations, and `(x - mean) * rsqrt (var + eps) * g + b`. The reference's own operations, in order. -/
def bnRef (x : (⟨S100000x64, .f32⟩ : BufTy).Contents (Elt F)) (g : (⟨S64, .f32⟩ : BufTy).Contents (Elt F)) (b : (⟨S64, .f32⟩ : BufTy).Contents (Elt F)) :
    (⟨S100000x64, .f32⟩ : BufTy).Contents (Elt F) :=
  let t0 : (⟨S_, .f32⟩ : BufTy).Contents (Elt F) := constant (F := F) S_ .f32 0x00000000#32
  let t1 : (⟨S64, .f32⟩ : BufTy).Contents (Elt F) := ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)) x t0
  let t2 : (⟨S_, .f32⟩ : BufTy).Contents (Elt F) := constant (F := F) S_ .f32 0x47C35000#32
  let t3 : (⟨S64, .f32⟩ : BufTy).Contents (Elt F) := (broadcastInDim S64 ![] bcast_S_S64 : (⟨S_, .f32⟩ : BufTy).Contents (Elt F) → (⟨S64, .f32⟩ : BufTy).Contents (Elt F)) t2
  let t4 : (⟨S64, .f32⟩ : BufTy).Contents (Elt F) := (Host.divf : (⟨S64, .f32⟩ : BufTy).Contents (Elt F) → (⟨S64, .f32⟩ : BufTy).Contents (Elt F) → (⟨S64, .f32⟩ : BufTy).Contents (Elt F)) t1 t3
  let t5 : (⟨S1x64, .f32⟩ : BufTy).Contents (Elt F) := (broadcastInDim S1x64 ![1] bcast_S64_S1x64_1 : (⟨S64, .f32⟩ : BufTy).Contents (Elt F) → (⟨S1x64, .f32⟩ : BufTy).Contents (Elt F)) t4
  let t6 : (⟨S100000x64, .f32⟩ : BufTy).Contents (Elt F) := (broadcastInDim S100000x64 ![0, 1] bcast_S1x64_S100000x64_0_1 : (⟨S1x64, .f32⟩ : BufTy).Contents (Elt F) → (⟨S100000x64, .f32⟩ : BufTy).Contents (Elt F)) t5
  let t7 : (⟨S100000x64, .f32⟩ : BufTy).Contents (Elt F) := (subf : (⟨S100000x64, .f32⟩ : BufTy).Contents (Elt F) → (⟨S100000x64, .f32⟩ : BufTy).Contents (Elt F) → (⟨S100000x64, .f32⟩ : BufTy).Contents (Elt F)) x t6
  let t8 : (⟨S100000x64, .f32⟩ : BufTy).Contents (Elt F) := (mulf : (⟨S100000x64, .f32⟩ : BufTy).Contents (Elt F) → (⟨S100000x64, .f32⟩ : BufTy).Contents (Elt F) → (⟨S100000x64, .f32⟩ : BufTy).Contents (Elt F)) t7 t7
  let t9 : (⟨S_, .f32⟩ : BufTy).Contents (Elt F) := constant (F := F) S_ .f32 0x00000000#32
  let t10 : (⟨S64, .f32⟩ : BufTy).Contents (Elt F) := ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)) t8 t9
  let t11 : (⟨S_, .f32⟩ : BufTy).Contents (Elt F) := constant (F := F) S_ .f32 0x47C35000#32
  let t12 : (⟨S64, .f32⟩ : BufTy).Contents (Elt F) := (broadcastInDim S64 ![] bcast_S_S64 : (⟨S_, .f32⟩ : BufTy).Contents (Elt F) → (⟨S64, .f32⟩ : BufTy).Contents (Elt F)) t11
  let t13 : (⟨S64, .f32⟩ : BufTy).Contents (Elt F) := (Host.divf : (⟨S64, .f32⟩ : BufTy).Contents (Elt F) → (⟨S64, .f32⟩ : BufTy).Contents (Elt F) → (⟨S64, .f32⟩ : BufTy).Contents (Elt F)) t10 t12
  let t14 : (⟨S1x64, .f32⟩ : BufTy).Contents (Elt F) := (broadcastInDim S1x64 ![1] bcast_S64_S1x64_1 : (⟨S64, .f32⟩ : BufTy).Contents (Elt F) → (⟨S1x64, .f32⟩ : BufTy).Contents (Elt F)) t4
  let t15 : (⟨S100000x64, .f32⟩ : BufTy).Contents (Elt F) := (broadcastInDim S100000x64 ![0, 1] bcast_S1x64_S100000x64_0_1 : (⟨S1x64, .f32⟩ : BufTy).Contents (Elt F) → (⟨S100000x64, .f32⟩ : BufTy).Contents (Elt F)) t14
  let t16 : (⟨S100000x64, .f32⟩ : BufTy).Contents (Elt F) := (subf : (⟨S100000x64, .f32⟩ : BufTy).Contents (Elt F) → (⟨S100000x64, .f32⟩ : BufTy).Contents (Elt F) → (⟨S100000x64, .f32⟩ : BufTy).Contents (Elt F)) x t15
  let t17 : (⟨S_, .f32⟩ : BufTy).Contents (Elt F) := constant (F := F) S_ .f32 0x3727C5AC#32
  let t18 : (⟨S64, .f32⟩ : BufTy).Contents (Elt F) := (broadcastInDim S64 ![] bcast_S_S64 : (⟨S_, .f32⟩ : BufTy).Contents (Elt F) → (⟨S64, .f32⟩ : BufTy).Contents (Elt F)) t17
  let t19 : (⟨S64, .f32⟩ : BufTy).Contents (Elt F) := (addf : (⟨S64, .f32⟩ : BufTy).Contents (Elt F) → (⟨S64, .f32⟩ : BufTy).Contents (Elt F) → (⟨S64, .f32⟩ : BufTy).Contents (Elt F)) t13 t18
  let t20 : (⟨S64, .f32⟩ : BufTy).Contents (Elt F) := (Host.rsqrt : (⟨S64, .f32⟩ : BufTy).Contents (Elt F) → (⟨S64, .f32⟩ : BufTy).Contents (Elt F)) t19
  let t21 : (⟨S1x64, .f32⟩ : BufTy).Contents (Elt F) := (broadcastInDim S1x64 ![1] bcast_S64_S1x64_1 : (⟨S64, .f32⟩ : BufTy).Contents (Elt F) → (⟨S1x64, .f32⟩ : BufTy).Contents (Elt F)) t20
  let t22 : (⟨S100000x64, .f32⟩ : BufTy).Contents (Elt F) := (broadcastInDim S100000x64 ![0, 1] bcast_S1x64_S100000x64_0_1 : (⟨S1x64, .f32⟩ : BufTy).Contents (Elt F) → (⟨S100000x64, .f32⟩ : BufTy).Contents (Elt F)) t21
  let t23 : (⟨S100000x64, .f32⟩ : BufTy).Contents (Elt F) := (mulf : (⟨S100000x64, .f32⟩ : BufTy).Contents (Elt F) → (⟨S100000x64, .f32⟩ : BufTy).Contents (Elt F) → (⟨S100000x64, .f32⟩ : BufTy).Contents (Elt F)) t16 t22
  let t24 : (⟨S1x64, .f32⟩ : BufTy).Contents (Elt F) := (broadcastInDim S1x64 ![1] bcast_S64_S1x64_1 : (⟨S64, .f32⟩ : BufTy).Contents (Elt F) → (⟨S1x64, .f32⟩ : BufTy).Contents (Elt F)) g
  let t25 : (⟨S100000x64, .f32⟩ : BufTy).Contents (Elt F) := (broadcastInDim S100000x64 ![0, 1] bcast_S1x64_S100000x64_0_1 : (⟨S1x64, .f32⟩ : BufTy).Contents (Elt F) → (⟨S100000x64, .f32⟩ : BufTy).Contents (Elt F)) t24
  let t26 : (⟨S100000x64, .f32⟩ : BufTy).Contents (Elt F) := (mulf : (⟨S100000x64, .f32⟩ : BufTy).Contents (Elt F) → (⟨S100000x64, .f32⟩ : BufTy).Contents (Elt F) → (⟨S100000x64, .f32⟩ : BufTy).Contents (Elt F)) t23 t25
  let t27 : (⟨S1x64, .f32⟩ : BufTy).Contents (Elt F) := (broadcastInDim S1x64 ![1] bcast_S64_S1x64_1 : (⟨S64, .f32⟩ : BufTy).Contents (Elt F) → (⟨S1x64, .f32⟩ : BufTy).Contents (Elt F)) b
  let t28 : (⟨S100000x64, .f32⟩ : BufTy).Contents (Elt F) := (broadcastInDim S100000x64 ![0, 1] bcast_S1x64_S100000x64_0_1 : (⟨S1x64, .f32⟩ : BufTy).Contents (Elt F) → (⟨S100000x64, .f32⟩ : BufTy).Contents (Elt F)) t27
  let t29 : (⟨S100000x64, .f32⟩ : BufTy).Contents (Elt F) := (addf : (⟨S100000x64, .f32⟩ : BufTy).Contents (Elt F) → (⟨S100000x64, .f32⟩ : BufTy).Contents (Elt F) → (⟨S100000x64, .f32⟩ : BufTy).Contents (Elt F)) t26 t28
  t29

set_option maxRecDepth 8192 in
set_option maxHeartbeats 4800000 in
/-- Layer 1's output buffer after its operations, from any contents `V`. -/
theorem P1_out (V : Valuation τ sig (Elt F)) :
    after (P1 : List (HloOp τ sig (Elt F))) V (no_index (Proc.devRef .tc main_v37)) =
      sageRelu32 (V (Proc.devRef .tc main_arg1)) (V (Proc.devRef .tc main_arg0)) (V (Proc.devRef .tc main_arg5)) (V (Proc.devRef .tc main_arg12)) (V (Proc.devRef .tc main_arg13)) (V (Proc.devRef .tc main_arg14)) := by
  simp only [P1]
  after_results_simp
  rfl
/-- A buffer layer 1 does not write, through it (the form for rewriting). -/
theorem P1_keep' (V : Valuation τ sig (Elt F)) {r : Ref sig .tc} (h : r ∉ P1_W) :
    after (P1 : List (HloOp τ sig (Elt F))) V (no_index (Proc.devRef .tc r)) = V (Proc.devRef .tc r) := P1_keep V r h

set_option maxRecDepth 8192 in
set_option maxHeartbeats 4800000 in
/-- Layer 2's output buffer after its operations, from any contents `V`. -/
theorem P2_out (V : Valuation τ sig (Elt F)) :
    after (P2 : List (HloOp τ sig (Elt F))) V (no_index (Proc.devRef .tc main_v75)) =
      sageRelu64 (V (Proc.devRef .tc main_arg1)) (V (Proc.devRef .tc main_v37)) (V (Proc.devRef .tc main_arg7)) (V (Proc.devRef .tc main_arg15)) (V (Proc.devRef .tc main_arg16)) (V (Proc.devRef .tc main_arg17)) := by
  simp only [P2]
  after_results_simp
  rfl
/-- A buffer layer 2 does not write, through it (the form for rewriting). -/
theorem P2_keep' (V : Valuation τ sig (Elt F)) {r : Ref sig .tc} (h : r ∉ P2_W) :
    after (P2 : List (HloOp τ sig (Elt F))) V (no_index (Proc.devRef .tc r)) = V (Proc.devRef .tc r) := P2_keep V r h

set_option maxRecDepth 8192 in
set_option maxHeartbeats 4800000 in
/-- Layer 3's output buffer after its operations, from any contents `V`. -/
theorem P3_out (V : Valuation τ sig (Elt F)) :
    after (P3 : List (HloOp τ sig (Elt F))) V (no_index (Proc.devRef .tc main_v113)) =
      sageRelu32 (V (Proc.devRef .tc main_arg1)) (V (Proc.devRef .tc main_arg2)) (V (Proc.devRef .tc main_arg11)) (V (Proc.devRef .tc main_arg18)) (V (Proc.devRef .tc main_arg19)) (V (Proc.devRef .tc main_arg20)) := by
  simp only [P3]
  after_results_simp
  rfl
/-- A buffer layer 3 does not write, through it (the form for rewriting). -/
theorem P3_keep' (V : Valuation τ sig (Elt F)) {r : Ref sig .tc} (h : r ∉ P3_W) :
    after (P3 : List (HloOp τ sig (Elt F))) V (no_index (Proc.devRef .tc r)) = V (Proc.devRef .tc r) := P3_keep V r h

set_option maxRecDepth 8192 in
set_option maxHeartbeats 6000000 in
/-- Layer 4's output buffer after its operations, from any contents `V`. -/
theorem P4_out (V : Valuation τ sig (Elt F)) :
    after (P4 : List (HloOp τ sig (Elt F))) V (no_index (Proc.devRef .tc main_v161)) =
      gcnRelu (V (Proc.devRef .tc main_v75)) (V (Proc.devRef .tc main_arg3)) (V (Proc.devRef .tc main_arg30)) (V (Proc.devRef .tc main_arg31)) := by
  simp only [P4]
  after_results_simp
  rfl
/-- A buffer layer 4 does not write, through it (the form for rewriting). -/
theorem P4_keep' (V : Valuation τ sig (Elt F)) {r : Ref sig .tc} (h : r ∉ P4_W) :
    after (P4 : List (HloOp τ sig (Elt F))) V (no_index (Proc.devRef .tc r)) = V (Proc.devRef .tc r) := P4_keep V r h

set_option maxRecDepth 8192 in
set_option maxHeartbeats 3000000 in
/-- Layer 5's output buffer after its operations, from any contents `V`. -/
theorem P5_out (V : Valuation τ sig (Elt F)) :
    after (P5 : List (HloOp τ sig (Elt F))) V (no_index (Proc.devRef .tc main_v186)) =
      bnRef (V (Proc.devRef .tc main_v161)) (V (Proc.devRef .tc main_arg36)) (V (Proc.devRef .tc main_arg37)) := by
  simp only [P5]
  after_results_simp
  rfl
/-- A buffer layer 5 does not write, through it (the form for rewriting). -/
theorem P5_keep' (V : Valuation τ sig (Elt F)) {r : Ref sig .tc} (h : r ∉ P5_W) :
    after (P5 : List (HloOp τ sig (Elt F))) V (no_index (Proc.devRef .tc r)) = V (Proc.devRef .tc r) := P5_keep V r h

set_option maxRecDepth 8192 in
set_option maxHeartbeats 6000000 in
/-- Layer 6's output buffer after its operations, from any contents `V`. -/
theorem P6_out (V : Valuation τ sig (Elt F)) :
    after (P6 : List (HloOp τ sig (Elt F))) V (no_index (Proc.devRef .tc main_v234)) =
      gcnRelu (V (Proc.devRef .tc main_v113)) (V (Proc.devRef .tc main_arg9)) (V (Proc.devRef .tc main_arg32)) (V (Proc.devRef .tc main_arg33)) := by
  simp only [P6]
  after_results_simp
  rfl
/-- A buffer layer 6 does not write, through it (the form for rewriting). -/
theorem P6_keep' (V : Valuation τ sig (Elt F)) {r : Ref sig .tc} (h : r ∉ P6_W) :
    after (P6 : List (HloOp τ sig (Elt F))) V (no_index (Proc.devRef .tc r)) = V (Proc.devRef .tc r) := P6_keep V r h

set_option maxRecDepth 8192 in
set_option maxHeartbeats 3000000 in
/-- Layer 7's output buffer after its operations, from any contents `V`. -/
theorem P7_out (V : Valuation τ sig (Elt F)) :
    after (P7 : List (HloOp τ sig (Elt F))) V (no_index (Proc.devRef .tc main_v259)) =
      bnRef (V (Proc.devRef .tc main_v234)) (V (Proc.devRef .tc main_arg38)) (V (Proc.devRef .tc main_arg39)) := by
  simp only [P7]
  after_results_simp
  rfl
/-- A buffer layer 7 does not write, through it (the form for rewriting). -/
theorem P7_keep' (V : Valuation τ sig (Elt F)) {r : Ref sig .tc} (h : r ∉ P7_W) :
    after (P7 : List (HloOp τ sig (Elt F))) V (no_index (Proc.devRef .tc r)) = V (Proc.devRef .tc r) := P7_keep V r h

set_option maxRecDepth 8192 in
set_option maxHeartbeats 4800000 in
/-- Layer 8's output buffer after its operations, from any contents `V`. -/
theorem P8_out (V : Valuation τ sig (Elt F)) :
    after (P8 : List (HloOp τ sig (Elt F))) V (no_index (Proc.devRef .tc main_v297)) =
      sageRelu64 (V (Proc.devRef .tc main_v186)) (V (Proc.devRef .tc main_arg1)) (V (Proc.devRef .tc main_arg4)) (V (Proc.devRef .tc main_arg21)) (V (Proc.devRef .tc main_arg22)) (V (Proc.devRef .tc main_arg23)) := by
  simp only [P8]
  after_results_simp
  rfl
/-- A buffer layer 8 does not write, through it (the form for rewriting). -/
theorem P8_keep' (V : Valuation τ sig (Elt F)) {r : Ref sig .tc} (h : r ∉ P8_W) :
    after (P8 : List (HloOp τ sig (Elt F))) V (no_index (Proc.devRef .tc r)) = V (Proc.devRef .tc r) := P8_keep V r h

set_option maxRecDepth 8192 in
set_option maxHeartbeats 4800000 in
/-- Layer 9's output buffer after its operations, from any contents `V`. -/
theorem P9_out (V : Valuation τ sig (Elt F)) :
    after (P9 : List (HloOp τ sig (Elt F))) V (no_index (Proc.devRef .tc main_v335)) =
      sageRelu64 (V (Proc.devRef .tc main_v186)) (V (Proc.devRef .tc main_v297)) (V (Proc.devRef .tc main_arg6)) (V (Proc.devRef .tc main_arg24)) (V (Proc.devRef .tc main_arg25)) (V (Proc.devRef .tc main_arg26)) := by
  simp only [P9]
  after_results_simp
  rfl
/-- A buffer layer 9 does not write, through it (the form for rewriting). -/
theorem P9_keep' (V : Valuation τ sig (Elt F)) {r : Ref sig .tc} (h : r ∉ P9_W) :
    after (P9 : List (HloOp τ sig (Elt F))) V (no_index (Proc.devRef .tc r)) = V (Proc.devRef .tc r) := P9_keep V r h

set_option maxRecDepth 8192 in
set_option maxHeartbeats 4800000 in
/-- Layer 10's output buffer after its operations, from any contents `V`. -/
theorem P10_out (V : Valuation τ sig (Elt F)) :
    after (P10 : List (HloOp τ sig (Elt F))) V (no_index (Proc.devRef .tc main_v373)) =
      sageRelu64 (V (Proc.devRef .tc main_v259)) (V (Proc.devRef .tc main_v335)) (V (Proc.devRef .tc main_arg10)) (V (Proc.devRef .tc main_arg27)) (V (Proc.devRef .tc main_arg28)) (V (Proc.devRef .tc main_arg29)) := by
  simp only [P10]
  after_results_simp
  rfl
/-- A buffer layer 10 does not write, through it (the form for rewriting). -/
theorem P10_keep' (V : Valuation τ sig (Elt F)) {r : Ref sig .tc} (h : r ∉ P10_W) :
    after (P10 : List (HloOp τ sig (Elt F))) V (no_index (Proc.devRef .tc r)) = V (Proc.devRef .tc r) := P10_keep V r h

set_option maxRecDepth 8192 in
set_option maxHeartbeats 6000000 in
/-- Layer 11's output buffer after its operations, from any contents `V`. -/
theorem P11_out (V : Valuation τ sig (Elt F)) :
    after (P11 : List (HloOp τ sig (Elt F))) V (no_index (Proc.devRef .tc main_v421)) =
      gcnRelu (V (Proc.devRef .tc main_v373)) (V (Proc.devRef .tc main_arg8)) (V (Proc.devRef .tc main_arg34)) (V (Proc.devRef .tc main_arg35)) := by
  simp only [P11]
  after_results_simp
  rfl
/-- A buffer layer 11 does not write, through it (the form for rewriting). -/
theorem P11_keep' (V : Valuation τ sig (Elt F)) {r : Ref sig .tc} (h : r ∉ P11_W) :
    after (P11 : List (HloOp τ sig (Elt F))) V (no_index (Proc.devRef .tc r)) = V (Proc.devRef .tc r) := P11_keep V r h

set_option maxRecDepth 8192 in
set_option maxHeartbeats 3000000 in
/-- Layer 12's output buffer after its operations, from any contents `V`. -/
theorem P12_out (V : Valuation τ sig (Elt F)) :
    after (P12 : List (HloOp τ sig (Elt F))) V (no_index (Proc.devRef .tc main_v446)) =
      bnRef (V (Proc.devRef .tc main_v421)) (V (Proc.devRef .tc main_arg40)) (V (Proc.devRef .tc main_arg41)) := by
  simp only [P12]
  after_results_simp
  rfl
/-- A buffer layer 12 does not write, through it (the form for rewriting). -/
theorem P12_keep' (V : Valuation τ sig (Elt F)) {r : Ref sig .tc} (h : r ∉ P12_W) :
    after (P12 : List (HloOp τ sig (Elt F))) V (no_index (Proc.devRef .tc r)) = V (Proc.devRef .tc r) := P12_keep V r h

/-! ## The network -/

/-- The game nodes after the first neighbour-mean layer (from the state nodes). -/
def netG1 (V : Valuation τ sig (Elt F)) : (⟨S100000x64, .f32⟩ : BufTy).Contents (Elt F) :=
  sageRelu32 (V (Proc.devRef .tc main_arg1)) (V (Proc.devRef .tc main_arg0)) (V (Proc.devRef .tc main_arg5)) (V (Proc.devRef .tc main_arg12)) (V (Proc.devRef .tc main_arg13)) (V (Proc.devRef .tc main_arg14))

/-- The game nodes after the second neighbour-mean layer. -/
def netG2 (V : Valuation τ sig (Elt F)) : (⟨S100000x64, .f32⟩ : BufTy).Contents (Elt F) :=
  sageRelu64 (V (Proc.devRef .tc main_arg1)) (netG1 V) (V (Proc.devRef .tc main_arg7)) (V (Proc.devRef .tc main_arg15)) (V (Proc.devRef .tc main_arg16)) (V (Proc.devRef .tc main_arg17))

/-- The pc nodes after their neighbour-mean layer (from the state nodes). -/
def netP1 (V : Valuation τ sig (Elt F)) : (⟨S100000x64, .f32⟩ : BufTy).Contents (Elt F) :=
  sageRelu32 (V (Proc.devRef .tc main_arg1)) (V (Proc.devRef .tc main_arg2)) (V (Proc.devRef .tc main_arg11)) (V (Proc.devRef .tc main_arg18)) (V (Proc.devRef .tc main_arg19)) (V (Proc.devRef .tc main_arg20))

/-- The game nodes after the normalised-adjacency layer and rectifier. -/
def netG3 (V : Valuation τ sig (Elt F)) : (⟨S100000x64, .f32⟩ : BufTy).Contents (Elt F) :=
  gcnRelu (netG2 V) (V (Proc.devRef .tc main_arg3)) (V (Proc.devRef .tc main_arg30)) (V (Proc.devRef .tc main_arg31))

/-- The game nodes after batch normalisation: the second result of @main. -/
def netG (V : Valuation τ sig (Elt F)) : (⟨S100000x64, .f32⟩ : BufTy).Contents (Elt F) :=
  bnRef (netG3 V) (V (Proc.devRef .tc main_arg36)) (V (Proc.devRef .tc main_arg37))

/-- The pc nodes after the normalised-adjacency layer and rectifier. -/
def netP2 (V : Valuation τ sig (Elt F)) : (⟨S100000x64, .f32⟩ : BufTy).Contents (Elt F) :=
  gcnRelu (netP1 V) (V (Proc.devRef .tc main_arg9)) (V (Proc.devRef .tc main_arg32)) (V (Proc.devRef .tc main_arg33))

/-- The pc nodes after batch normalisation: the third result of @main. -/
def netP (V : Valuation τ sig (Elt F)) : (⟨S100000x64, .f32⟩ : BufTy).Contents (Elt F) :=
  bnRef (netP2 V) (V (Proc.devRef .tc main_arg38)) (V (Proc.devRef .tc main_arg39))

/-- The state nodes after the neighbour-mean layer from the game nodes. -/
def netS1 (V : Valuation τ sig (Elt F)) : (⟨S100000x64, .f32⟩ : BufTy).Contents (Elt F) :=
  sageRelu64 (netG V) (V (Proc.devRef .tc main_arg1)) (V (Proc.devRef .tc main_arg4)) (V (Proc.devRef .tc main_arg21)) (V (Proc.devRef .tc main_arg22)) (V (Proc.devRef .tc main_arg23))

/-- The state nodes after the second neighbour-mean layer from the game nodes. -/
def netS2 (V : Valuation τ sig (Elt F)) : (⟨S100000x64, .f32⟩ : BufTy).Contents (Elt F) :=
  sageRelu64 (netG V) (netS1 V) (V (Proc.devRef .tc main_arg6)) (V (Proc.devRef .tc main_arg24)) (V (Proc.devRef .tc main_arg25)) (V (Proc.devRef .tc main_arg26))

/-- The state nodes after the neighbour-mean layer from the pc nodes. -/
def netS3 (V : Valuation τ sig (Elt F)) : (⟨S100000x64, .f32⟩ : BufTy).Contents (Elt F) :=
  sageRelu64 (netP V) (netS2 V) (V (Proc.devRef .tc main_arg10)) (V (Proc.devRef .tc main_arg27)) (V (Proc.devRef .tc main_arg28)) (V (Proc.devRef .tc main_arg29))

/-- The state nodes after the normalised-adjacency layer and rectifier. -/
def netS4 (V : Valuation τ sig (Elt F)) : (⟨S100000x64, .f32⟩ : BufTy).Contents (Elt F) :=
  gcnRelu (netS3 V) (V (Proc.devRef .tc main_arg8)) (V (Proc.devRef .tc main_arg34)) (V (Proc.devRef .tc main_arg35))

/-- The state nodes after batch normalisation: the first result of @main. -/
def netS (V : Valuation τ sig (Elt F)) : (⟨S100000x64, .f32⟩ : BufTy).Contents (Elt F) :=
  bnRef (netS4 V) (V (Proc.devRef .tc main_arg40)) (V (Proc.devRef .tc main_arg41))

set_option maxRecDepth 8192 in
set_option maxHeartbeats 4000000 in
/-- The first result buffer after all 558 operations is the network's value, from any contents `V`. -/
theorem out_s (V : Valuation τ sig (Elt F)) :
    after (ops : List (HloOp τ sig (Elt F))) V (Proc.devRef .tc main_v446) = netS V := by
  rw [after_ops]
  simp (disch := decide) only [P1_out, P2_out, P3_out, P4_out, P5_out, P6_out, P7_out, P8_out, P9_out, P10_out, P11_out, P12_out, P1_keep', P2_keep', P3_keep', P4_keep', P5_keep', P6_keep', P7_keep', P8_keep', P9_keep', P10_keep', P11_keep', P12_keep']
  rfl

set_option maxRecDepth 8192 in
set_option maxHeartbeats 4000000 in
/-- The second result buffer after all 558 operations is the network's value, from any contents `V`. -/
theorem out_g (V : Valuation τ sig (Elt F)) :
    after (ops : List (HloOp τ sig (Elt F))) V (Proc.devRef .tc main_v186) = netG V := by
  rw [after_ops]
  simp (disch := decide) only [P1_out, P2_out, P3_out, P4_out, P5_out, P6_out, P7_out, P8_out, P9_out, P10_out, P11_out, P12_out, P1_keep', P2_keep', P3_keep', P4_keep', P5_keep', P6_keep', P7_keep', P8_keep', P9_keep', P10_keep', P11_keep', P12_keep']
  rfl

set_option maxRecDepth 8192 in
set_option maxHeartbeats 4000000 in
/-- The third result buffer after all 558 operations is the network's value, from any contents `V`. -/
theorem out_p (V : Valuation τ sig (Elt F)) :
    after (ops : List (HloOp τ sig (Elt F))) V (Proc.devRef .tc main_v259) = netP V := by
  rw [after_ops]
  simp (disch := decide) only [P1_out, P2_out, P3_out, P4_out, P5_out, P6_out, P7_out, P8_out, P9_out, P10_out, P11_out, P12_out, P1_keep', P2_keep', P3_keep', P4_keep', P5_keep', P6_keep', P7_keep', P8_keep', P9_keep', P10_keep', P11_keep', P12_keep']
  rfl

end Cert.RefSide

end
-- ==== Proof.AlgRef.lean ====
import proofs.«173191_j73083163508880_2_alg».proof.Defs
import proofs.«173191_j73083163508880_2_alg».proof.Proof.RefFrame
import proofs.«173191_j73083163508880_2_alg».proof.Proof.RefLayers
set_option maxRecDepth 16384
noncomputable section
namespace Cert.Alg
open Idealize.ShloMosaic Idealize.ShloMosaic.TcCoe Idealize.SL.Sem Idealize.ShloMosaic.StableHlo
open Cert.ReferenceIdeal Cert.ReferenceIdeal.Gen Cert.RefSide

set_option maxRecDepth 8192 in
/-- The reference's half of the value claim: its three results are the nine-layer composition of its own operations,
    its arguments unchanged. -/
theorem ref_half (m : (ℓ : Loc nD τ sig) → Buf (Elt Ideal) ℓ) (g : Dev nD → PrngReg) :
    θ_run (Cert.ReferenceIdeal.defs (F := Ideal)) (onTc (τ := τ) (main (F := Ideal))) ⟨m, fun _ => 0, g⟩ (fun r => ∀ c : Dev nD,
      r.2.mem ((c.tc : Thread nD τ).loc main_v446) = netS (F := Ideal) (launchContents m c)
      ∧ r.2.mem ((c.tc : Thread nD τ).loc main_v186) = netG (F := Ideal) (launchContents m c)
      ∧ r.2.mem ((c.tc : Thread nD τ).loc main_v259) = netP (F := Ideal) (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39)
      ∧ r.2.mem ((c.tc : Thread nD τ).loc main_arg40) = m ((c.tc : Thread nD τ).loc main_arg40)
      ∧ r.2.mem ((c.tc : Thread nD τ).loc main_arg41) = m ((c.tc : Thread nD τ).loc main_arg41)) :=
  (θ_run defs _ _).mono (fun r h c =>
    ⟨(h c main_v446).trans (out_s _), (h c main_v186).trans (out_g _), (h c main_v259).trans (out_p _),
     (h c main_arg0).trans (by arg_kept),
     (h c main_arg1).trans (by arg_kept),
     (h c main_arg2).trans (by arg_kept),
     (h c main_arg3).trans (by arg_kept),
     (h c main_arg4).trans (by arg_kept),
     (h c main_arg5).trans (by arg_kept),
     (h c main_arg6).trans (by arg_kept),
     (h c main_arg7).trans (by arg_kept),
     (h c main_arg8).trans (by arg_kept),
     (h c main_arg9).trans (by arg_kept),
     (h c main_arg10).trans (by arg_kept),
     (h c main_arg11).trans (by arg_kept),
     (h c main_arg12).trans (by arg_kept),
     (h c main_arg13).trans (by arg_kept),
     (h c main_arg14).trans (by arg_kept),
     (h c main_arg15).trans (by arg_kept),
     (h c main_arg16).trans (by arg_kept),
     (h c main_arg17).trans (by arg_kept),
     (h c main_arg18).trans (by arg_kept),
     (h c main_arg19).trans (by arg_kept),
     (h c main_arg20).trans (by arg_kept),
     (h c main_arg21).trans (by arg_kept),
     (h c main_arg22).trans (by arg_kept),
     (h c main_arg23).trans (by arg_kept),
     (h c main_arg24).trans (by arg_kept),
     (h c main_arg25).trans (by arg_kept),
     (h c main_arg26).trans (by arg_kept),
     (h c main_arg27).trans (by arg_kept),
     (h c main_arg28).trans (by arg_kept),
     (h c main_arg29).trans (by arg_kept),
     (h c main_arg30).trans (by arg_kept),
     (h c main_arg31).trans (by arg_kept),
     (h c main_arg32).trans (by arg_kept),
     (h c main_arg33).trans (by arg_kept),
     (h c main_arg34).trans (by arg_kept),
     (h c main_arg35).trans (by arg_kept),
     (h c main_arg36).trans (by arg_kept),
     (h c main_arg37).trans (by arg_kept),
     (h c main_arg38).trans (by arg_kept),
     (h c main_arg39).trans (by arg_kept),
     (h c main_arg40).trans (by arg_kept),
     (h c main_arg41).trans (by arg_kept)⟩)
    (run_after (F := Ideal) m g)

end Cert.Alg
end
-- ==== Proof.AlgJoin.lean ====
import proofs.«173191_j73083163508880_2_alg».proof.Defs
import proofs.«173191_j73083163508880_2_alg».proof.Proof.AlgKernel
import proofs.«173191_j73083163508880_2_alg».proof.Proof.AlgRef
set_option maxRecDepth 16384
noncomputable section
namespace Cert.Alg
open Idealize.ShloMosaic Idealize.ShloMosaic.TcCoe Idealize.SL.Sem Idealize.ShloMosaic.StableHlo

/-- The two idealized programs, run from memories agreeing on the arguments, end with equal results, GIVEN that the two
    nine-layer compositions agree on such memories. -/
theorem algebraic_of
    (hnet : ∀ (m : (ℓ : Loc Cert.KernelIdeal.nD Cert.KernelIdeal.τ Cert.KernelIdeal.sig) → Buf (Elt Ideal) ℓ) (g : Dev Cert.KernelIdeal.nD → PrngReg)
      (m' : (ℓ : Loc Cert.ReferenceIdeal.nD Cert.ReferenceIdeal.τ Cert.ReferenceIdeal.sig) → Buf (Elt Ideal) ℓ), Cert.Pre_KernelIdeal m →
      (∀ c : Dev Cert.KernelIdeal.nD,
        m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
        ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
        ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
        ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
        ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
        ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
        ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
        ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
        ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
        ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
        ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
        ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
        ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
        ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
        ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
        ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
        ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
        ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
        ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
        ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
        ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
        ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
        ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
        ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
        ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
        ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
        ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
        ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
        ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
        ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
        ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
        ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
        ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
        ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
        ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
        ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)
        ∧ m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36)
        ∧ m' ((c.tc : Thread Cert.ReferenceIdeal.nD Cert.ReferenceIdeal.τ).loc Cert.ReferenceIdeal.main_arg37) = m ((c.tc : Thread Cert.KernelIdeal.nD Cert.KernelIdeal.τ).loc Cert.KernelIdeal.main_arg37)
        ∧ m' ((c.tc : Thread Cert.ReferenceIdeal.nD Cert.ReferenceIdeal.τ).loc Cert.ReferenceIdeal.main_arg38) = m ((c.tc : Thread Cert.KernelIdeal.nD Cert.KernelIdeal.τ).loc Cert.KernelIdeal.main_arg38)
        ∧ m' ((c.tc : Thread Cert.ReferenceIdeal.nD Cert.ReferenceIdeal.τ).loc Cert.ReferenceIdeal.main_arg39) = m ((c.tc : Thread Cert.KernelIdeal.nD Cert.KernelIdeal.τ).loc Cert.KernelIdeal.main_arg39)
        ∧ m' ((c.tc : Thread Cert.ReferenceIdeal.nD Cert.ReferenceIdeal.τ).loc Cert.ReferenceIdeal.main_arg40) = m ((c.tc : Thread Cert.KernelIdeal.nD Cert.KernelIdeal.τ).loc Cert.KernelIdeal.main_arg40)
        ∧ m' ((c.tc : Thread Cert.ReferenceIdeal.nD Cert.ReferenceIdeal.τ).loc Cert.ReferenceIdeal.main_arg41) = m ((c.tc : Thread Cert.KernelIdeal.nD Cert.KernelIdeal.τ).loc Cert.KernelIdeal.main_arg41)) →
      ∀ c : Dev Cert.KernelIdeal.nD,
        Cert.RefSide.netS (F := Ideal) (launchContents m' c) = Cert.KernelIdeal.Fr.W29 m g c (Proc.devRef .tc Cert.KernelIdeal.main_v266)
        ∧ Cert.RefSide.netG (F := Ideal) (launchContents m' c) = Cert.KernelIdeal.Fr.W29 m g c (Proc.devRef .tc Cert.KernelIdeal.main_v110)
        ∧ Cert.RefSide.netP (F := Ideal) (launchContents m' c) = Cert.KernelIdeal.Fr.W29 m g c (Proc.devRef .tc Cert.KernelIdeal.main_v155)) :
    Cert.algebraic_KernelIdeal_ReferenceIdeal := by
  intro m g m' g' hpre hagree
  refine ⟨fun c => Cert.KernelIdeal.Fr.W29 m g c (Proc.devRef .tc Cert.KernelIdeal.main_v266),
    fun c => Cert.KernelIdeal.Fr.W29 m g c (Proc.devRef .tc Cert.KernelIdeal.main_v110),
    fun c => Cert.KernelIdeal.Fr.W29 m g c (Proc.devRef .tc Cert.KernelIdeal.main_v155), kernel_half m g, ?_⟩
  refine (θ_run Cert.ReferenceIdeal.defs _ _).mono (fun r h c => ?_) (ref_half m' g')
  obtain ⟨hs, hg, hp, hargs⟩ := h c
  obtain ⟨es, eg, ep⟩ := hnet m g m' hpre hagree c
  exact ⟨hs.trans es, hg.trans eg, hp.trans ep, hargs⟩

end Cert.Alg
end
-- ==== Proof.LibFinite.lean ====
/-
  Real-valued extended reals.

  The extended reals `EReal = ℝ ∪ {⊥, ⊤}` are not a ring: distributivity fails at the
  infinities.  An algebraic identity between two extended-real expressions is therefore
  proved by first showing that every leaf is (the coercion of) a real number, and then
  computing in `ℝ`.  This file provides the predicate and its closure properties:

  * `IsReal x`   : `x` is the coercion of a real number (`isReal_iff`: equivalently
                    `x ≠ ⊤ ∧ x ≠ ⊥`); `AllReal v` : every entry of the family `v` is real
                    (`allReal_iff_exists`: `v` is the coercion of a real family).
  * `IsPosReal x`: `x` is the coercion of a positive real.
  * closure of `IsReal` under `0`, `1`, `+`, `-`, unary `-`, `*`, `max`, `min`,
    finite sums (`coe_finset_sum`: the coercion commutes with a finite sum), division by a
    nonzero real (`Ideal.div`), the reciprocal square root of a positive real
    (`Ideal.rsqrt`), and the pointwise versions for families (`AllReal`).
  * a sum of squares of reals is nonnegative; nonnegative + positive is positive.
-/
import Idealize.ShloMosaic.PureOps.Ideal

noncomputable section

namespace Cert.LibFinite

open Idealize.ShloMosaic
open scoped BigOperators

/-- An extended real is REAL when it is the coercion of a real number. -/
def IsReal (x : EReal) : Prop := ∃ r : ℝ, x = (r : EReal)

/-- An extended real is a POSITIVE REAL when it is the coercion of a positive real number. -/
def IsPosReal (x : EReal) : Prop := ∃ r : ℝ, 0 < r ∧ x = (r : EReal)

/-- Every entry of the family `v` is real. -/
def AllReal {ι : Sort*} (v : ι → EReal) : Prop := ∀ i, IsReal (v i)

/-- Every entry of the family `v` is a positive real. -/
def AllPosReal {ι : Sort*} (v : ι → EReal) : Prop := ∀ i, IsPosReal (v i)

/-! ### The predicate -/

/-- Real means: neither infinity. -/
theorem isReal_iff (x : EReal) : IsReal x ↔ x ≠ ⊤ ∧ x ≠ ⊥ := by
  constructor
  · rintro ⟨r, rfl⟩; exact ⟨EReal.coe_ne_top r, EReal.coe_ne_bot r⟩
  · rintro ⟨ht, hb⟩; exact ⟨x.toReal, (EReal.coe_toReal ht hb).symm⟩

theorem IsReal.ne_top {x : EReal} (h : IsReal x) : x ≠ ⊤ := ((isReal_iff x).mp h).1
theorem IsReal.ne_bot {x : EReal} (h : IsReal x) : x ≠ ⊥ := ((isReal_iff x).mp h).2

/-- A real extended real is the coercion of its own real part. -/
theorem IsReal.coe_toReal {x : EReal} (h : IsReal x) : ((x.toReal : ℝ) : EReal) = x :=
  EReal.coe_toReal h.ne_top h.ne_bot

theorem isReal_coe (r : ℝ) : IsReal (r : EReal) := ⟨r, rfl⟩
theorem isReal_zero : IsReal 0 := ⟨0, rfl⟩
theorem isReal_one : IsReal 1 := ⟨1, rfl⟩

theorem IsPosReal.isReal {x : EReal} (h : IsPosReal x) : IsReal x := let ⟨r, _, e⟩ := h; ⟨r, e⟩
theorem IsPosReal.pos {x : EReal} (h : IsPosReal x) : 0 < x := by
  obtain ⟨r, hr, rfl⟩ := h; exact EReal.coe_pos.mpr hr
theorem IsPosReal.ne_zero {x : EReal} (h : IsPosReal x) : x ≠ 0 := h.pos.ne'
theorem isPosReal_coe {r : ℝ} (h : 0 < r) : IsPosReal (r : EReal) := ⟨r, h, rfl⟩
/-- A real that is positive as an extended real is a positive real. -/
theorem IsReal.isPosReal {x : EReal} (h : IsReal x) (hp : 0 < x) : IsPosReal x := by
  obtain ⟨r, rfl⟩ := h; exact ⟨r, EReal.coe_pos.mp hp, rfl⟩

theorem AllPosReal.allReal {ι : Sort*} {v : ι → EReal} (h : AllPosReal v) : AllReal v := fun i => (h i).isReal

/-- A family is real exactly when it is the coercion of a family of reals. -/
theorem allReal_iff_exists {ι : Sort*} (v : ι → EReal) : AllReal v ↔ ∃ f : ι → ℝ, v = fun i => (f i : EReal) := by
  constructor
  · intro h; exact ⟨fun i => (v i).toReal, funext fun i => ((h i).coe_toReal).symm⟩
  · rintro ⟨f, rfl⟩ i; exact ⟨f i, rfl⟩

theorem allReal_coe {ι : Sort*} (f : ι → ℝ) : AllReal (fun i => (f i : EReal)) := fun i => ⟨f i, rfl⟩
theorem allReal_const {ι : Sort*} {c : EReal} (h : IsReal c) : AllReal (fun _ : ι => c) := fun _ => h
/-- Every entry of a reindexed family is an entry of the family. -/
theorem AllReal.comp {ι κ : Sort*} {v : ι → EReal} (h : AllReal v) (f : κ → ι) : AllReal (fun k => v (f k)) :=
  fun k => h (f k)

/-! ### Pointwise closure -/

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.neg {x : EReal} (hx : IsReal x) : IsReal (-x) := by
  obtain ⟨a, rfl⟩ := hx; exact ⟨-a, (EReal.coe_neg a).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The coercion commutes with `max` (it is monotone). -/
theorem coe_max (a b : ℝ) : ((max a b : ℝ) : EReal) = max (a : EReal) (b : EReal) :=
  (EReal.coe_strictMono.monotone).map_max
/-- The coercion commutes with `min`. -/
theorem coe_min (a b : ℝ) : ((min a b : ℝ) : EReal) = min (a : EReal) (b : EReal) :=
  (EReal.coe_strictMono.monotone).map_min

theorem IsReal.max {x y : EReal} (hx : IsReal x) (hy : IsReal y) : IsReal (max x y) := by
  obtain ⟨a, rfl⟩ := hx; obtain ⟨b, rfl⟩ := hy; exact ⟨Max.max a b, (coe_max a b).symm⟩
theorem IsReal.min {x y : EReal} (hx : IsReal x) (hy : IsReal y) : IsReal (min x y) := by
  obtain ⟨a, rfl⟩ := hx; obtain ⟨b, rfl⟩ := hy; exact ⟨Min.min a b, (coe_min a b).symm⟩

theorem IsPosReal.add {x y : EReal} (hx : IsPosReal x) (hy : IsPosReal y) : IsPosReal (x + y) := by
  obtain ⟨a, ha, rfl⟩ := hx; obtain ⟨b, hb, rfl⟩ := hy
  exact ⟨a + b, add_pos ha hb, (EReal.coe_add a b).symm⟩
theorem IsPosReal.mul {x y : EReal} (hx : IsPosReal x) (hy : IsPosReal y) : IsPosReal (x * y) := by
  obtain ⟨a, ha, rfl⟩ := hx; obtain ⟨b, hb, rfl⟩ := hy
  exact ⟨a * b, mul_pos ha hb, (EReal.coe_mul a b).symm⟩
/-- A nonnegative real plus a positive real is a positive real. -/
theorem IsPosReal.nonneg_add {x y : EReal} (hx : IsReal x) (hx0 : 0 ≤ x) (hy : IsPosReal y) : IsPosReal (x + y) := by
  obtain ⟨a, rfl⟩ := hx; obtain ⟨b, hb, rfl⟩ := hy
  exact ⟨a + b, add_pos_of_nonneg_of_pos (EReal.coe_nonneg.mp hx0) hb, (EReal.coe_add a b).symm⟩
/-- The maximum of a real and a positive real is a positive real. -/
theorem IsPosReal.max_right {x y : EReal} (hx : IsReal x) (hy : IsPosReal y) : IsPosReal (max x y) :=
  (hx.max hy.isReal).isPosReal (lt_of_lt_of_le hy.pos (le_max_right x y))
theorem IsPosReal.max_left {x y : EReal} (hx : IsPosReal x) (hy : IsReal y) : IsPosReal (max x y) :=
  (hx.isReal.max hy).isPosReal (lt_of_lt_of_le hx.pos (le_max_left x y))

/-- The square of a real extended real is nonnegative. -/
theorem IsReal.mul_self_nonneg {x : EReal} (hx : IsReal x) : 0 ≤ x * x := by
  obtain ⟨a, rfl⟩ := hx; rw [← EReal.coe_mul]; exact EReal.coe_nonneg.mpr (_root_.mul_self_nonneg a)

/-! ### Finite sums -/

/-- The coercion `ℝ → EReal` commutes with a finite sum. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real extended reals is real. -/
theorem IsReal.sum {ι : Type*} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- A finite sum over a real family is real. -/
theorem AllReal.sum {ι : Type*} {f : ι → EReal} (h : AllReal f) (s : Finset ι) : IsReal (∑ i ∈ s, f i) :=
  IsReal.sum s f fun i _ => h i

/-- A finite sum of products of two real families is real (a dot product). -/
theorem AllReal.sum_mul {ι : Type*} {f g : ι → EReal} (hf : AllReal f) (hg : AllReal g) (s : Finset ι) :
    IsReal (∑ i ∈ s, f i * g i) :=
  IsReal.sum s _ fun i _ => (hf i).mul (hg i)

/-- A finite sum of nonnegative extended reals is nonnegative. -/
theorem sum_nonneg {ι : Type*} (s : Finset ι) (f : ι → EReal) (h : ∀ i ∈ s, 0 ≤ f i) : 0 ≤ ∑ i ∈ s, f i :=
  Finset.sum_nonneg h

/-- A finite sum of squares of real extended reals is nonnegative. -/
theorem sum_mul_self_nonneg {ι : Type*} (s : Finset ι) {f : ι → EReal} (h : ∀ i ∈ s, IsReal (f i)) :
    0 ≤ ∑ i ∈ s, f i * f i :=
  Finset.sum_nonneg fun i hi => (h i hi).mul_self_nonneg

/-! ### Division and the reciprocal square root -/

/-- A real divided by a NONZERO real is real: `x / y = x * y⁻¹`. -/
theorem IsReal.div {x y : EReal} (hx : IsReal x) (hy : IsReal y) (hy0 : y ≠ 0) : IsReal (Ideal.div x y) := by
  obtain ⟨a, rfl⟩ := hx; obtain ⟨b, rfl⟩ := hy
  have hb : b ≠ 0 := fun h => hy0 (by rw [h]; rfl)
  rw [Ideal.div_coe hb]
  exact (isReal_coe a).mul (isReal_coe _)

/-- The quotient of two reals, the divisor nonzero, is the coercion of the real quotient. -/
theorem div_coe_coe (a : ℝ) {b : ℝ} (hb : b ≠ 0) : Ideal.div (a : EReal) (b : EReal) = ((a / b : ℝ) : EReal) := by
  rw [Ideal.div_coe hb, ← EReal.coe_mul, mul_one_div]

/-- A positive real divided by a positive real is a positive real. -/
theorem IsPosReal.div {x y : EReal} (hx : IsPosReal x) (hy : IsPosReal y) : IsPosReal (Ideal.div x y) := by
  obtain ⟨a, ha, rfl⟩ := hx; obtain ⟨b, hb, rfl⟩ := hy
  rw [div_coe_coe a hb.ne']
  exact ⟨a / b, div_pos ha hb, rfl⟩

/-- The reciprocal square root of a positive real is `(√r)⁻¹`. -/
theorem rsqrt_coe_of_pos {r : ℝ} (h : 0 < r) : Ideal.rsqrt (r : EReal) = (((Real.sqrt r)⁻¹ : ℝ) : EReal) := by
  rw [Ideal.rsqrt_coe, if_neg (not_lt.mpr h.le), if_neg h.ne']

/-- The reciprocal square root of a positive real is a positive real. -/
theorem IsPosReal.rsqrt {x : EReal} (hx : IsPosReal x) : IsPosReal (Ideal.rsqrt x) := by
  obtain ⟨r, hr, rfl⟩ := hx
  rw [rsqrt_coe_of_pos hr]
  exact ⟨_, inv_pos.mpr (Real.sqrt_pos.mpr hr), rfl⟩

/-! ### Families, pointwise -/

section Families
variable {ι : Sort*} {v w : ι → EReal}

theorem AllReal.add (hv : AllReal v) (hw : AllReal w) : AllReal (fun i => v i + w i) := fun i => (hv i).add (hw i)
theorem AllReal.sub (hv : AllReal v) (hw : AllReal w) : AllReal (fun i => v i - w i) := fun i => (hv i).sub (hw i)
theorem AllReal.mul (hv : AllReal v) (hw : AllReal w) : AllReal (fun i => v i * w i) := fun i => (hv i).mul (hw i)
theorem AllReal.neg (hv : AllReal v) : AllReal (fun i => -v i) := fun i => (hv i).neg
theorem AllReal.max (hv : AllReal v) (hw : AllReal w) : AllReal (fun i => Max.max (v i) (w i)) :=
  fun i => (hv i).max (hw i)
theorem AllReal.min (hv : AllReal v) (hw : AllReal w) : AllReal (fun i => Min.min (v i) (w i)) :=
  fun i => (hv i).min (hw i)
theorem AllReal.div (hv : AllReal v) (hw : AllReal w) (hw0 : ∀ i, w i ≠ 0) :
    AllReal (fun i => Ideal.div (v i) (w i)) := fun i => (hv i).div (hw i) (hw0 i)
theorem AllPosReal.rsqrt (hv : AllPosReal v) : AllPosReal (fun i => Ideal.rsqrt (v i)) := fun i => (hv i).rsqrt

end Families

end Cert.LibFinite

end
-- ==== Proof.NetEq.lean ====
/-
  NINE LAYERS COMPOSED.

  A network is three layer functions — a SAGE layer on a 32-wide destination, a SAGE layer on a 64-wide destination, a
  graph convolution followed by batch normalisation — wired nine times over 42 launch arrays (33 real arrays, 9 edge
  lists).  If two networks agree layer by layer on real inputs, and the second network's layers send real inputs to real
  outputs, then on real launch arrays the two nine-layer compositions agree: by induction along the wiring, each step
  rewriting one layer and carrying the reality of the second network's intermediate array.
-/
import proofs.«173191_j73083163508880_2_alg».proof.Proof.LibFinite

noncomputable section

namespace Cert.NetEq

open Idealize.ShloMosaic Cert.LibFinite

/-- node features, 64 wide -/
abbrev N64 : Shape := ⟨2, ![100000, 64]⟩
/-- node features, 32 wide -/
abbrev N32 : Shape := ⟨2, ![100000, 32]⟩
/-- an edge list -/
abbrev E2 : Shape := ⟨2, ![2, 2000000]⟩
/-- a 64-to-64 weight -/
abbrev W64 : Shape := ⟨2, ![64, 64]⟩
/-- a 32-to-64 weight -/
abbrev W32 : Shape := ⟨2, ![32, 64]⟩
/-- a per-channel vector -/
abbrev V64 : Shape := ⟨1, ![64]⟩

/-- The three layer functions of a network: `S32 x_src x_dst edges W_l b W_r` and `S64` likewise (the destination 32 or 64
    wide), `GB x edges W b γ β`. -/
structure Layers where
  S32 : FVec Ideal N64 .f32 → FVec Ideal N32 .f32 → IVec E2 32 → FVec Ideal W64 .f32 → FVec Ideal V64 .f32 → FVec Ideal W32 .f32 → FVec Ideal N64 .f32
  S64 : FVec Ideal N64 .f32 → FVec Ideal N64 .f32 → IVec E2 32 → FVec Ideal W64 .f32 → FVec Ideal V64 .f32 → FVec Ideal W64 .f32 → FVec Ideal N64 .f32
  GB : FVec Ideal N64 .f32 → IVec E2 32 → FVec Ideal W64 .f32 → FVec Ideal V64 .f32 → FVec Ideal V64 .f32 → FVec Ideal V64 .f32 → FVec Ideal N64 .f32

/-- The 42 launch arrays, in argument order. -/
structure Args where
  a0 : FVec Ideal N32 .f32
  a1 : FVec Ideal N64 .f32
  a2 : FVec Ideal N32 .f32
  a3 : IVec E2 32
  a4 : IVec E2 32
  a5 : IVec E2 32
  a6 : IVec E2 32
  a7 : IVec E2 32
  a8 : IVec E2 32
  a9 : IVec E2 32
  a10 : IVec E2 32
  a11 : IVec E2 32
  a12 : FVec Ideal W64 .f32
  a13 : FVec Ideal V64 .f32
  a14 : FVec Ideal W32 .f32
  a15 : FVec Ideal W64 .f32
  a16 : FVec Ideal V64 .f32
  a17 : FVec Ideal W64 .f32
  a18 : FVec Ideal W64 .f32
  a19 : FVec Ideal V64 .f32
  a20 : FVec Ideal W32 .f32
  a21 : FVec Ideal W64 .f32
  a22 : FVec Ideal V64 .f32
  a23 : FVec Ideal W64 .f32
  a24 : FVec Ideal W64 .f32
  a25 : FVec Ideal V64 .f32
  a26 : FVec Ideal W64 .f32
  a27 : FVec Ideal W64 .f32
  a28 : FVec Ideal V64 .f32
  a29 : FVec Ideal W64 .f32
  a30 : FVec Ideal W64 .f32
  a31 : FVec Ideal V64 .f32
  a32 : FVec Ideal W64 .f32
  a33 : FVec Ideal V64 .f32
  a34 : FVec Ideal W64 .f32
  a35 : FVec Ideal V64 .f32
  a36 : FVec Ideal V64 .f32
  a37 : FVec Ideal V64 .f32
  a38 : FVec Ideal V64 .f32
  a39 : FVec Ideal V64 .f32
  a40 : FVec Ideal V64 .f32
  a41 : FVec Ideal V64 .f32

/-- Every entry of every floating-point launch array is a real number (the 33 arrays in argument order). -/
def Args.Real (a : Args) : Prop :=
  AllReal a.a0 ∧ AllReal a.a1 ∧ AllReal a.a2 ∧ AllReal a.a12 ∧ AllReal a.a13 ∧ AllReal a.a14 ∧ AllReal a.a15 ∧ AllReal a.a16 ∧ AllReal a.a17 ∧ AllReal a.a18 ∧ AllReal a.a19 ∧ AllReal a.a20 ∧ AllReal a.a21 ∧ AllReal a.a22 ∧ AllReal a.a23 ∧ AllReal a.a24 ∧ AllReal a.a25 ∧ AllReal a.a26 ∧ AllReal a.a27 ∧ AllReal a.a28 ∧ AllReal a.a29 ∧ AllReal a.a30 ∧ AllReal a.a31 ∧ AllReal a.a32 ∧ AllReal a.a33 ∧ AllReal a.a34 ∧ AllReal a.a35 ∧ AllReal a.a36 ∧ AllReal a.a37 ∧ AllReal a.a38 ∧ AllReal a.a39 ∧ AllReal a.a40 ∧ AllReal a.a41

/-- the first layer on the game nodes -/
def g1 (L : Layers) (a : Args) : FVec Ideal N64 .f32 :=
  L.S32 a.a1 a.a0 a.a5 a.a12 a.a13 a.a14
/-- the second layer on the game nodes -/
def g2 (L : Layers) (a : Args) : FVec Ideal N64 .f32 :=
  L.S64 a.a1 (g1 L a) a.a7 a.a15 a.a16 a.a17
/-- the first layer on the pc nodes -/
def p1 (L : Layers) (a : Args) : FVec Ideal N64 .f32 :=
  L.S32 a.a1 a.a2 a.a11 a.a18 a.a19 a.a20
/-- the normalised graph convolution on the game nodes: the second result -/
def g (L : Layers) (a : Args) : FVec Ideal N64 .f32 :=
  L.GB (g2 L a) a.a3 a.a30 a.a31 a.a36 a.a37
/-- the normalised graph convolution on the pc nodes: the third result -/
def p (L : Layers) (a : Args) : FVec Ideal N64 .f32 :=
  L.GB (p1 L a) a.a9 a.a32 a.a33 a.a38 a.a39
/-- the first layer on the state nodes -/
def s1 (L : Layers) (a : Args) : FVec Ideal N64 .f32 :=
  L.S64 (g L a) a.a1 a.a4 a.a21 a.a22 a.a23
/-- the second layer on the state nodes -/
def s2 (L : Layers) (a : Args) : FVec Ideal N64 .f32 :=
  L.S64 (g L a) (s1 L a) a.a6 a.a24 a.a25 a.a26
/-- the third layer on the state nodes -/
def s3 (L : Layers) (a : Args) : FVec Ideal N64 .f32 :=
  L.S64 (p L a) (s2 L a) a.a10 a.a27 a.a28 a.a29
/-- the normalised graph convolution on the state nodes: the first result -/
def s (L : Layers) (a : Args) : FVec Ideal N64 .f32 :=
  L.GB (s3 L a) a.a8 a.a34 a.a35 a.a40 a.a41

section

variable (K R : Layers) (a : Args)
  (h32 : ∀ xs xd ei Wl b Wr, AllReal xs → AllReal xd → AllReal Wl → AllReal b → AllReal Wr →
    K.S32 xs xd ei Wl b Wr = R.S32 xs xd ei Wl b Wr)
  (h64 : ∀ xs xd ei Wl b Wr, AllReal xs → AllReal xd → AllReal Wl → AllReal b → AllReal Wr →
    K.S64 xs xd ei Wl b Wr = R.S64 xs xd ei Wl b Wr)
  (hGB : ∀ x ei W b g bb, AllReal x → AllReal W → AllReal b → AllReal g → AllReal bb →
    K.GB x ei W b g bb = R.GB x ei W b g bb)
  (r32 : ∀ xs xd ei Wl b Wr, AllReal xs → AllReal xd → AllReal Wl → AllReal b → AllReal Wr →
    AllReal (R.S32 xs xd ei Wl b Wr))
  (r64 : ∀ xs xd ei Wl b Wr, AllReal xs → AllReal xd → AllReal Wl → AllReal b → AllReal Wr →
    AllReal (R.S64 xs xd ei Wl b Wr))
  (rGB : ∀ x ei W b g bb, AllReal x → AllReal W → AllReal b → AllReal g → AllReal bb →
    AllReal (R.GB x ei W b g bb))
  (ha : a.Real)

include h32 h64 hGB r32 r64 rGB ha

/-- Along the wiring: every layer's array is the same in the two networks, and real in the second. -/
theorem layers_eq :
    (g1 K a = g1 R a ∧ AllReal (g1 R a)) ∧ (g2 K a = g2 R a ∧ AllReal (g2 R a)) ∧ (p1 K a = p1 R a ∧ AllReal (p1 R a)) ∧
    (g K a = g R a ∧ AllReal (g R a)) ∧ (p K a = p R a ∧ AllReal (p R a)) ∧ (s1 K a = s1 R a ∧ AllReal (s1 R a)) ∧
    (s2 K a = s2 R a ∧ AllReal (s2 R a)) ∧ (s3 K a = s3 R a ∧ AllReal (s3 R a)) ∧ (s K a = s R a ∧ AllReal (s R a)) := by
  obtain ⟨ra0, ra1, ra2, ra12, ra13, ra14, ra15, ra16, ra17, ra18, ra19, ra20, ra21, ra22, ra23, ra24, ra25, ra26, ra27, ra28, ra29, ra30, ra31, ra32, ra33, ra34, ra35, ra36, ra37, ra38, ra39, ra40, ra41⟩ := ha
  have e_g1 : g1 K a = g1 R a := by
    unfold g1; exact h32 _ _ _ _ _ _ ra1 ra0 ra12 ra13 ra14
  have r_g1 : AllReal (g1 R a) := r32 _ _ _ _ _ _ ra1 ra0 ra12 ra13 ra14
  have e_g2 : g2 K a = g2 R a := by
    unfold g2; rw [e_g1]; exact h64 _ _ _ _ _ _ ra1 r_g1 ra15 ra16 ra17
  have r_g2 : AllReal (g2 R a) := r64 _ _ _ _ _ _ ra1 r_g1 ra15 ra16 ra17
  have e_p1 : p1 K a = p1 R a := by
    unfold p1; exact h32 _ _ _ _ _ _ ra1 ra2 ra18 ra19 ra20
  have r_p1 : AllReal (p1 R a) := r32 _ _ _ _ _ _ ra1 ra2 ra18 ra19 ra20
  have e_g : g K a = g R a := by
    unfold g; rw [e_g2]; exact hGB _ _ _ _ _ _ r_g2 ra30 ra31 ra36 ra37
  have r_g : AllReal (g R a) := rGB _ _ _ _ _ _ r_g2 ra30 ra31 ra36 ra37
  have e_p : p K a = p R a := by
    unfold p; rw [e_p1]; exact hGB _ _ _ _ _ _ r_p1 ra32 ra33 ra38 ra39
  have r_p : AllReal (p R a) := rGB _ _ _ _ _ _ r_p1 ra32 ra33 ra38 ra39
  have e_s1 : s1 K a = s1 R a := by
    unfold s1; rw [e_g]; exact h64 _ _ _ _ _ _ r_g ra1 ra21 ra22 ra23
  have r_s1 : AllReal (s1 R a) := r64 _ _ _ _ _ _ r_g ra1 ra21 ra22 ra23
  have e_s2 : s2 K a = s2 R a := by
    unfold s2; rw [e_g, e_s1]; exact h64 _ _ _ _ _ _ r_g r_s1 ra24 ra25 ra26
  have r_s2 : AllReal (s2 R a) := r64 _ _ _ _ _ _ r_g r_s1 ra24 ra25 ra26
  have e_s3 : s3 K a = s3 R a := by
    unfold s3; rw [e_p, e_s2]; exact h64 _ _ _ _ _ _ r_p r_s2 ra27 ra28 ra29
  have r_s3 : AllReal (s3 R a) := r64 _ _ _ _ _ _ r_p r_s2 ra27 ra28 ra29
  have e_s : s K a = s R a := by
    unfold s; rw [e_s3]; exact hGB _ _ _ _ _ _ r_s3 ra34 ra35 ra40 ra41
  have r_s : AllReal (s R a) := rGB _ _ _ _ _ _ r_s3 ra34 ra35 ra40 ra41
  exact ⟨⟨e_g1, r_g1⟩, ⟨e_g2, r_g2⟩, ⟨e_p1, r_p1⟩, ⟨e_g, r_g⟩, ⟨e_p, r_p⟩, ⟨e_s1, r_s1⟩, ⟨e_s2, r_s2⟩, ⟨e_s3, r_s3⟩, ⟨e_s, r_s⟩⟩

/-- The three results agree. -/
theorem net_eq : s K a = s R a ∧ g K a = g R a ∧ p K a = p R a :=
  have h := layers_eq K R a h32 h64 hGB r32 r64 rGB ha
  ⟨h.2.2.2.2.2.2.2.2.1, h.2.2.2.1.1, h.2.2.2.2.1.1⟩

/-- The second network's three results are real. -/
theorem net_real : AllReal (s R a) ∧ AllReal (g R a) ∧ AllReal (p R a) :=
  have h := layers_eq K R a h32 h64 hGB r32 r64 rGB ha
  ⟨h.2.2.2.2.2.2.2.2.2, h.2.2.2.1.2, h.2.2.2.2.1.2⟩

end

/-- The same when the two SAGE layers agree on every input. -/
theorem net_eq' (K R : Layers) (a : Args)
    (h32 : ∀ xs xd ei Wl b Wr, K.S32 xs xd ei Wl b Wr = R.S32 xs xd ei Wl b Wr)
    (h64 : ∀ xs xd ei Wl b Wr, K.S64 xs xd ei Wl b Wr = R.S64 xs xd ei Wl b Wr)
    (hGB : ∀ x ei W b g bb, AllReal x → AllReal W → AllReal b → AllReal g → AllReal bb →
      K.GB x ei W b g bb = R.GB x ei W b g bb)
    (r32 : ∀ xs xd ei Wl b Wr, AllReal xs → AllReal xd → AllReal Wl → AllReal b → AllReal Wr →
      AllReal (R.S32 xs xd ei Wl b Wr))
    (r64 : ∀ xs xd ei Wl b Wr, AllReal xs → AllReal xd → AllReal Wl → AllReal b → AllReal Wr →
      AllReal (R.S64 xs xd ei Wl b Wr))
    (rGB : ∀ x ei W b g bb, AllReal x → AllReal W → AllReal b → AllReal g → AllReal bb →
      AllReal (R.GB x ei W b g bb))
    (ha : a.Real) : s K a = s R a ∧ g K a = g R a ∧ p K a = p R a :=
  net_eq K R a (fun xs xd ei Wl b Wr _ _ _ _ _ => h32 xs xd ei Wl b Wr)
    (fun xs xd ei Wl b Wr _ _ _ _ _ => h64 xs xd ei Wl b Wr) hGB r32 r64 rGB ha

end Cert.NetEq

end
-- ==== Proof.PreFinite.lean ====
/-
  FROM THE PRECONDITION TO REAL ENTRIES.

  The precondition says that, for each of the 33 floating-point arguments `x`, every entry satisfies `|x| < +∞` (a
  comparison of `max x (-x)` with the format's infinity, reduced by `and` over the whole array from `true`), and that the
  conjunction of these 33 bits is `true`.  An extended real with `max x (-x) < ⊤` is neither infinity, hence (the
  coercion of) a real number.
-/
import proofs.«173191_j73083163508880_2_alg».proof.Defs
import proofs.«173191_j73083163508880_2_alg».proof.Proof.Gen.Pre_finite_inputs
import proofs.«173191_j73083163508880_2_alg».proof.Proof.LibFinite
import Idealize.ShloMosaic.Lib.ReduceAll
import Idealize.ShloMosaic.Lib.ValueIdx

noncomputable section

namespace Cert.PreFinite

open Idealize.ShloMosaic Idealize.ShloMosaic.ValueIdx Cert.LibFinite Cert.Pre_finite_inputs Cert.Pre_finite_inputs.Gen

instance : Subsingleton (⟨0, ![]⟩ : Shape).Idx := ⟨fun a b => funext fun d => d.elim0⟩

/-- the format's infinity -/
theorem inf_bits : Ideal.ofBits .f32 0x7F800000#32 = ⊤ := by simp [Ideal.ofBits, Ideal.ieee]

/-- an extended real whose absolute value is below `⊤` is a real number -/
theorem isReal_of_abs_lt_top {x : EReal} (h : Ideal.cmp .olt (max x (-x)) ⊤ = 1#1) : IsReal x := by
  rw [isReal_iff]
  induction x using EReal.rec with
  | bot => simp [Ideal.cmp] at h
  | top => simp [Ideal.cmp] at h
  | coe r => exact ⟨EReal.coe_ne_top r, EReal.coe_ne_bot r⟩

/-- `all (|x| < +∞)` over a whole array: every entry is a real number -/
theorem allReal_of_all {s : Shape} {axes : List (Fin s.rank)} (x : FVec Ideal s .f32)
    (hb : (⟨0, ![]⟩ : Shape).BroadcastsInDim s ![]) (hred : s.ReducesTo axes ⟨0, ![]⟩)
    (hS : 0 < (⟨0, ![]⟩ : Shape).numel)
    (e : Host.reduce IntOp.andi (cmpf .olt (Host.absf x)
        (broadcastInDim s ![] hb (constant (F := Ideal) ⟨0, ![]⟩ .f32 0x7F800000#32)))
      (constantI ⟨0, ![]⟩ 1 1#1) hred hS ix0 = 1#1) : AllReal x := by
  intro i
  have h := Host.reduce_andi_all _ _ hred hS ix0 e i
  apply isReal_of_abs_lt_top
  rw [← inf_bits]
  exact h

set_option maxRecDepth 16384 in
/-- the printed predicate all ones: each floating-point argument has real entries -/
theorem fn_real (a0 : FVec Ideal S100000x32 .f32) (a1 : FVec Ideal S100000x64 .f32) (a2 : FVec Ideal S100000x32 .f32) (a3 : IVec S2x2000000 32) (a4 : IVec S2x2000000 32) (a5 : IVec S2x2000000 32) (a6 : IVec S2x2000000 32) (a7 : IVec S2x2000000 32) (a8 : IVec S2x2000000 32) (a9 : IVec S2x2000000 32) (a10 : IVec S2x2000000 32) (a11 : IVec S2x2000000 32) (a12 : FVec Ideal S64x64 .f32) (a13 : FVec Ideal S64 .f32) (a14 : FVec Ideal S32x64 .f32) (a15 : FVec Ideal S64x64 .f32) (a16 : FVec Ideal S64 .f32) (a17 : FVec Ideal S64x64 .f32) (a18 : FVec Ideal S64x64 .f32) (a19 : FVec Ideal S64 .f32) (a20 : FVec Ideal S32x64 .f32) (a21 : FVec Ideal S64x64 .f32) (a22 : FVec Ideal S64 .f32) (a23 : FVec Ideal S64x64 .f32) (a24 : FVec Ideal S64x64 .f32) (a25 : FVec Ideal S64 .f32) (a26 : FVec Ideal S64x64 .f32) (a27 : FVec Ideal S64x64 .f32) (a28 : FVec Ideal S64 .f32) (a29 : FVec Ideal S64x64 .f32) (a30 : FVec Ideal S64x64 .f32) (a31 : FVec Ideal S64 .f32) (a32 : FVec Ideal S64x64 .f32) (a33 : FVec Ideal S64 .f32) (a34 : FVec Ideal S64x64 .f32) (a35 : FVec Ideal S64 .f32) (a36 : FVec Ideal S64 .f32) (a37 : FVec Ideal S64 .f32) (a38 : FVec Ideal S64 .f32) (a39 : FVec Ideal S64 .f32) (a40 : FVec Ideal S64 .f32) (a41 : FVec Ideal S64 .f32)
    (h : fn (F := Ideal) a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 = fun _ => 1#1) :
    AllReal a0 ∧ AllReal a1 ∧ AllReal a2 ∧ AllReal a12 ∧ AllReal a13 ∧ AllReal a14 ∧ AllReal a15 ∧ AllReal a16 ∧ AllReal a17 ∧ AllReal a18 ∧ AllReal a19 ∧ AllReal a20 ∧ AllReal a21 ∧ AllReal a22 ∧ AllReal a23 ∧ AllReal a24 ∧ AllReal a25 ∧ AllReal a26 ∧ AllReal a27 ∧ AllReal a28 ∧ AllReal a29 ∧ AllReal a30 ∧ AllReal a31 ∧ AllReal a32 ∧ AllReal a33 ∧ AllReal a34 ∧ AllReal a35 ∧ AllReal a36 ∧ AllReal a37 ∧ AllReal a38 ∧ AllReal a39 ∧ AllReal a40 ∧ AllReal a41 := by
  have h0 := congrFun h ix0
  dsimp only [fn, fn_part1, fn_part2, fn_part3, fn_part4, fn_part5, fn_part6, fn_part7, fn_part8, fn_part9,
    Idealize.ShloMosaic.andi] at h0
  simp only [IntOp.andi_eq_one] at h0
  obtain ⟨⟨⟨⟨⟨⟨⟨⟨⟨⟨⟨⟨⟨⟨⟨⟨⟨⟨⟨⟨⟨⟨⟨⟨⟨⟨⟨⟨⟨⟨⟨⟨h0, h1⟩, h2⟩, h12⟩, h13⟩, h14⟩, h15⟩, h16⟩, h17⟩, h18⟩, h19⟩, h20⟩, h21⟩, h22⟩, h23⟩, h24⟩, h25⟩, h26⟩, h27⟩, h28⟩, h29⟩, h30⟩, h31⟩, h32⟩, h33⟩, h34⟩, h35⟩, h36⟩, h37⟩, h38⟩, h39⟩, h40⟩, h41⟩ := h0
  exact ⟨allReal_of_all a0 _ _ _ h0,
    allReal_of_all a1 _ _ _ h1,
    allReal_of_all a2 _ _ _ h2,
    allReal_of_all a12 _ _ _ h12,
    allReal_of_all a13 _ _ _ h13,
    allReal_of_all a14 _ _ _ h14,
    allReal_of_all a15 _ _ _ h15,
    allReal_of_all a16 _ _ _ h16,
    allReal_of_all a17 _ _ _ h17,
    allReal_of_all a18 _ _ _ h18,
    allReal_of_all a19 _ _ _ h19,
    allReal_of_all a20 _ _ _ h20,
    allReal_of_all a21 _ _ _ h21,
    allReal_of_all a22 _ _ _ h22,
    allReal_of_all a23 _ _ _ h23,
    allReal_of_all a24 _ _ _ h24,
    allReal_of_all a25 _ _ _ h25,
    allReal_of_all a26 _ _ _ h26,
    allReal_of_all a27 _ _ _ h27,
    allReal_of_all a28 _ _ _ h28,
    allReal_of_all a29 _ _ _ h29,
    allReal_of_all a30 _ _ _ h30,
    allReal_of_all a31 _ _ _ h31,
    allReal_of_all a32 _ _ _ h32,
    allReal_of_all a33 _ _ _ h33,
    allReal_of_all a34 _ _ _ h34,
    allReal_of_all a35 _ _ _ h35,
    allReal_of_all a36 _ _ _ h36,
    allReal_of_all a37 _ _ _ h37,
    allReal_of_all a38 _ _ _ h38,
    allReal_of_all a39 _ _ _ h39,
    allReal_of_all a40 _ _ _ h40,
    allReal_of_all a41 _ _ _ h41⟩

end Cert.PreFinite

end
-- ==== Proof.KI.GlueOps.lean ====
/- The host operations between the kernels of @main, as named functions: each array a kernel reads that a stretch of
   host operations computed is one of a few functions of the arrays the stretch reads, whatever the buffers held
   when the stretch began. -/
import proofs.«173191_j73083163508880_2_alg».proof.Proof.Gen.KernelIdeal.Launch
import Idealize.ShloMosaic.Lib.StableHlo.Run

set_option maxRecDepth 16384

noncomputable section

namespace Cert.KernelIdeal.Fr

open Cert.KernelIdeal Cert.KernelIdeal.Gen
open Idealize.ShloMosaic Idealize.ShloMosaic.TcCoe Idealize.ShloMosaic.Tactic Idealize.ShloMosaic.StableHlo
open Idealize.SL Idealize.SL.Sem

variable {F : FTy → Type} [FloatOps F]

/-! ## The functions

Three families recur: the neighbour aggregation ahead of a SAGE combine, the degree normalisation and aggregation
ahead of a GCN combine, and the batch statistics ahead of the batch-norm apply. -/

/-- Row 0 of a [2, E] edge list (the edges' source nodes) as a vector of E node numbers. -/
def edgeSrc (ei : IVec S2x2000000 32) : IVec S2000000 32 := fun i =>
  shapeCast S2000000 (extractStridedSlice S1x2000000 ![0, 0] ei slices_S2x2000000_S1x2000000_0_0)
    shapeCasts_S1x2000000_S2000000 i

/-- Row 1 of a [2, E] edge list (the edges' destination nodes) as a vector of E node numbers. -/
def edgeDst (ei : IVec S2x2000000 32) : IVec S2000000 32 := fun i =>
  shapeCast S2000000 (extractStridedSlice S1x2000000 ![1, 0] ei slices_S2x2000000_S1x2000000_1_0)
    shapeCasts_S1x2000000_S2000000 i

/-- A negative node number counts from the end: `v + 100000` where `v < 0`, else `v`. -/
def wrapNode (v : IVec S2000000 32) : IVec S2000000 32 :=
  select (cmpi CmpIPredicate.slt v (broadcastInDim S2000000 ![] bcast_S_S2000000 (constantI S_ 32 0#32)))
    (addi v (broadcastInDim S2000000 ![] bcast_S_S2000000 (constantI S_ 32 100000#32))) v

/-- The rows of `x`, rounded to bf16 and read back at f32, gathered at each edge's source and summed into the
    edge's destination row, from zero: `out[d] = Σ_{e : dst e = d} bf16(x[src e])`. -/
def edgeSum (x : FVec F S100000x64 .f32) (ei : IVec S2x2000000 32) : FVec F S100000x64 .f32 :=
  Host.scatterAdd scatter_S100000x64_S2000000x1_S2000000x64_1_0_0_1
    (broadcastInDim S100000x64 ![] bcast_S_S100000x64 (constant S_ FTy.f32 0#32))
    (broadcastInDim S2000000x1 ![0] bcast_S2000000_S2000000x1_0 (edgeDst ei))
    (extf FTy.f32
      (Host.gather gather_S100000x64_S2000000x1_S2000000x64_1_0_n_n_0_1_164
        (truncf FTy.bf16 x bitsLt_bf16_f32)
        (broadcastInDim S2000000x1 ![0] bcast_S2000000_S2000000x1_0 (wrapNode (edgeSrc ei))))
      bitsLt_bf16_f32)

/-- The in-degree of every node: one added per edge at the edge's destination, from zero. -/
def inDeg (ei : IVec S2x2000000 32) : FVec F S100000 .f32 :=
  Host.scatterAdd scatter_S100000_S2000000x1_S2000000_n_0_0_1
    (broadcastInDim S100000 ![] bcast_S_S100000 (constant S_ FTy.f32 0#32))
    (broadcastInDim S2000000x1 ![0] bcast_S2000000_S2000000x1_0 (edgeDst ei))
    (broadcastInDim S2000000 ![] bcast_S_S2000000 (constant S_ FTy.f32 1065353216#32))

/-- A vector over the nodes as a [100000, 1] column. -/
def nodeCol (v : FVec F S100000 .f32) : FVec F S100000x1 .f32 := fun i =>
  shapeCast S100000x1 v shapeCasts_S100000_S100000x1 i

/-- SAGE, first array: the source rows of `x` summed per destination node. -/
def sageAgg (x : FVec F S100000x64 .f32) (ei : IVec S2x2000000 32) : FVec F S100000x64 .f32 := edgeSum x ei

/-- SAGE, second array: the in-degree as a column. -/
def sageCnt (ei : IVec S2x2000000 32) : FVec F S100000x1 .f32 := nodeCol (inDeg ei)

/-- GCN: `dinv = rsqrt (in-degree + 1)`, the self loop counted. -/
def gcnDinv (ei : IVec S2x2000000 32) : FVec F S100000 .f32 :=
  Host.rsqrt (addf (inDeg ei) (broadcastInDim S100000 ![] bcast_S_S100000 (constant S_ FTy.f32 1065353216#32)))

/-- GCN, second array: the rows of `xw` scaled by their node's `dinv`. -/
def gcnScaled (xw : FVec F S100000x64 .f32) (ei : IVec S2x2000000 32) : FVec F S100000x64 .f32 :=
  mulf xw (broadcastInDim S100000x64 ![0, 1] bcast_S100000x1_S100000x64_0_1
    (broadcastInDim S100000x1 ![0] bcast_S100000_S100000x1_0 (gcnDinv ei)))

/-- GCN, first array: the scaled source rows summed per destination node. -/
def gcnAgg (xw : FVec F S100000x64 .f32) (ei : IVec S2x2000000 32) : FVec F S100000x64 .f32 :=
  edgeSum (gcnScaled xw ei) ei

/-- GCN, third array: `dinv` as a column. -/
def gcnDinvCol (ei : IVec S2x2000000 32) : FVec F S100000x1 .f32 := nodeCol (gcnDinv ei)

/-- Batch norm: a column sum over the 100000 rows divided by 100000. -/
def bnMean (s : FVec F S1x64 .f32) : FVec F S1x64 .f32 :=
  Host.divf s (broadcastInDim S1x64 ![] bcast_S_S1x64 (constant S_ FTy.f32 1203982336#32))

/-- Batch norm: `rsqrt (E[x²] - E[x]² + 1e-5)` from the column sums `s` and the column sums of squares `q`. -/
def bnInvStd (s q : FVec F S1x64 .f32) : FVec F S1x64 .f32 :=
  Host.rsqrt (addf (subf (bnMean q) (mulf (bnMean s) (bnMean s)))
    (broadcastInDim S1x64 ![] bcast_S_S1x64 (constant S_ FTy.f32 925353388#32)))

/-- A [1, 64] row twice, side by side: the per-channel value at the two node rows one [_, 128] row packs. -/
def bnPair (v : FVec F S1x64 .f32) : FVec F S1x128 .f32 :=
  concatenate S1x128 1 [⟨S1x64, v⟩, ⟨S1x64, v⟩] concatenates_S1x64_S1x64_S1x128_d1

/-- A 64-vector twice, end to end. -/
def bnPair1 (v : FVec F S64 .f32) : FVec F S128 .f32 :=
  concatenate S128 0 [⟨S64, v⟩, ⟨S64, v⟩] concatenates_S64_S64_S128_d0

/-- The row-major [50000, 128] view of a [100000, 64] array: two node rows per row. -/
def bnView (x : FVec F S100000x64 .f32) : FVec F S50000x128 .f32 := fun i =>
  shapeCast S50000x128 x shapeCasts_S100000x64_S50000x128 i

/-- The row-major [100000, 64] view of a [50000, 128] array. -/
def bnUnview (y : FVec F S50000x128 .f32) : FVec F S100000x64 .f32 := fun i =>
  shapeCast S100000x64 y shapeCasts_S50000x128_S100000x64 i

/-! ## What each stretch leaves in the arrays the next kernel reads, from any contents `V` -/

variable (V : Valuation τ sig (Elt F))

set_option maxHeartbeats 1000000 in
/-- `hostOps0`: the summed source rows. -/
theorem host0_v15 : (StableHlo.after hostOps0 V (Proc.devRef .tc main_v15) : FVec F S100000x64 .f32) =
    sageAgg (V (Proc.devRef .tc main_arg1)) (V (Proc.devRef .tc main_arg5)) := by
  after_results; rfl
set_option maxHeartbeats 1000000 in
/-- `hostOps0`: the in-degree column. -/
theorem host0_v20 : (StableHlo.after hostOps0 V (Proc.devRef .tc main_v20) : FVec F S100000x1 .f32) =
    sageCnt (V (Proc.devRef .tc main_arg5)) := by
  after_results; rfl
set_option maxHeartbeats 1000000 in
/-- `hostOps1`: the summed source rows. -/
theorem host1_v37 : (StableHlo.after hostOps1 V (Proc.devRef .tc main_v37) : FVec F S100000x64 .f32) =
    sageAgg (V (Proc.devRef .tc main_arg1)) (V (Proc.devRef .tc main_arg7)) := by
  after_results; rfl
set_option maxHeartbeats 1000000 in
/-- `hostOps1`: the in-degree column. -/
theorem host1_v42 : (StableHlo.after hostOps1 V (Proc.devRef .tc main_v42) : FVec F S100000x1 .f32) =
    sageCnt (V (Proc.devRef .tc main_arg7)) := by
  after_results; rfl
set_option maxHeartbeats 1000000 in
/-- `hostOps2`: the summed source rows. -/
theorem host2_v59 : (StableHlo.after hostOps2 V (Proc.devRef .tc main_v59) : FVec F S100000x64 .f32) =
    sageAgg (V (Proc.devRef .tc main_arg1)) (V (Proc.devRef .tc main_arg11)) := by
  after_results; rfl
set_option maxHeartbeats 1000000 in
/-- `hostOps2`: the in-degree column. -/
theorem host2_v64 : (StableHlo.after hostOps2 V (Proc.devRef .tc main_v64) : FVec F S100000x1 .f32) =
    sageCnt (V (Proc.devRef .tc main_arg11)) := by
  after_results; rfl
set_option maxHeartbeats 1000000 in
/-- `hostOps9`: the [100000, 64] view of the array the preceding kernel wrote. -/
theorem host9_v155 : (StableHlo.after hostOps9 V (Proc.devRef .tc main_v155) : FVec F S100000x64 .f32) =
    bnUnview (V (Proc.devRef .tc main_v154)) := by
  after_results; rfl
set_option maxHeartbeats 1000000 in
/-- `hostOps9`: the summed source rows. -/
theorem host9_v171 : (StableHlo.after hostOps9 V (Proc.devRef .tc main_v171) : FVec F S100000x64 .f32) =
    sageAgg (V (Proc.devRef .tc main_v110)) (V (Proc.devRef .tc main_arg4)) := by
  after_results; rfl
set_option maxHeartbeats 1000000 in
/-- `hostOps9`: the in-degree column. -/
theorem host9_v176 : (StableHlo.after hostOps9 V (Proc.devRef .tc main_v176) : FVec F S100000x1 .f32) =
    sageCnt (V (Proc.devRef .tc main_arg4)) := by
  after_results; rfl
set_option maxHeartbeats 1000000 in
/-- `hostOps10`: the summed source rows. -/
theorem host10_v193 : (StableHlo.after hostOps10 V (Proc.devRef .tc main_v193) : FVec F S100000x64 .f32) =
    sageAgg (V (Proc.devRef .tc main_v110)) (V (Proc.devRef .tc main_arg6)) := by
  after_results; rfl
set_option maxHeartbeats 1000000 in
/-- `hostOps10`: the in-degree column. -/
theorem host10_v198 : (StableHlo.after hostOps10 V (Proc.devRef .tc main_v198) : FVec F S100000x1 .f32) =
    sageCnt (V (Proc.devRef .tc main_arg6)) := by
  after_results; rfl
set_option maxHeartbeats 1000000 in
/-- `hostOps11`: the summed source rows. -/
theorem host11_v215 : (StableHlo.after hostOps11 V (Proc.devRef .tc main_v215) : FVec F S100000x64 .f32) =
    sageAgg (V (Proc.devRef .tc main_v155)) (V (Proc.devRef .tc main_arg10)) := by
  after_results; rfl
set_option maxHeartbeats 1000000 in
/-- `hostOps11`: the in-degree column. -/
theorem host11_v220 : (StableHlo.after hostOps11 V (Proc.devRef .tc main_v220) : FVec F S100000x1 .f32) =
    sageCnt (V (Proc.devRef .tc main_arg10)) := by
  after_results; rfl
set_option maxHeartbeats 1000000 in
/-- `hostOps4`: the scaled source rows summed per destination. -/
theorem host4_v92 : (StableHlo.after hostOps4 V (Proc.devRef .tc main_v92) : FVec F S100000x64 .f32) =
    gcnAgg (V (Proc.devRef .tc main_v66)) (V (Proc.devRef .tc main_arg3)) := by
  after_results; rfl
set_option maxHeartbeats 1000000 in
/-- `hostOps4`: the rows scaled by `dinv`. -/
theorem host4_v80 : (StableHlo.after hostOps4 V (Proc.devRef .tc main_v80) : FVec F S100000x64 .f32) =
    gcnScaled (V (Proc.devRef .tc main_v66)) (V (Proc.devRef .tc main_arg3)) := by
  after_results; rfl
set_option maxHeartbeats 1000000 in
/-- `hostOps4`: `dinv` as a column. -/
theorem host4_v93 : (StableHlo.after hostOps4 V (Proc.devRef .tc main_v93) : FVec F S100000x1 .f32) =
    gcnDinvCol (V (Proc.devRef .tc main_arg3)) := by
  after_results; rfl
set_option maxHeartbeats 1000000 in
/-- `hostOps7`: the scaled source rows summed per destination. -/
theorem host7_v137 : (StableHlo.after hostOps7 V (Proc.devRef .tc main_v137) : FVec F S100000x64 .f32) =
    gcnAgg (V (Proc.devRef .tc main_v111)) (V (Proc.devRef .tc main_arg9)) := by
  after_results; rfl
set_option maxHeartbeats 1000000 in
/-- `hostOps7`: the rows scaled by `dinv`. -/
theorem host7_v125 : (StableHlo.after hostOps7 V (Proc.devRef .tc main_v125) : FVec F S100000x64 .f32) =
    gcnScaled (V (Proc.devRef .tc main_v111)) (V (Proc.devRef .tc main_arg9)) := by
  after_results; rfl
set_option maxHeartbeats 1000000 in
/-- `hostOps7`: `dinv` as a column. -/
theorem host7_v138 : (StableHlo.after hostOps7 V (Proc.devRef .tc main_v138) : FVec F S100000x1 .f32) =
    gcnDinvCol (V (Proc.devRef .tc main_arg9)) := by
  after_results; rfl
set_option maxHeartbeats 1000000 in
/-- `hostOps13`: the scaled source rows summed per destination. -/
theorem host13_v248 : (StableHlo.after hostOps13 V (Proc.devRef .tc main_v248) : FVec F S100000x64 .f32) =
    gcnAgg (V (Proc.devRef .tc main_v222)) (V (Proc.devRef .tc main_arg8)) := by
  after_results; rfl
set_option maxHeartbeats 1000000 in
/-- `hostOps13`: the rows scaled by `dinv`. -/
theorem host13_v236 : (StableHlo.after hostOps13 V (Proc.devRef .tc main_v236) : FVec F S100000x64 .f32) =
    gcnScaled (V (Proc.devRef .tc main_v222)) (V (Proc.devRef .tc main_arg8)) := by
  after_results; rfl
set_option maxHeartbeats 1000000 in
/-- `hostOps13`: `dinv` as a column. -/
theorem host13_v249 : (StableHlo.after hostOps13 V (Proc.devRef .tc main_v249) : FVec F S100000x1 .f32) =
    gcnDinvCol (V (Proc.devRef .tc main_arg8)) := by
  after_results; rfl
set_option maxHeartbeats 1000000 in
/-- `hostOps5`: the [50000, 128] view of the activations. -/
theorem host5_v104 : (StableHlo.after hostOps5 V (Proc.devRef .tc main_v104) : FVec F S50000x128 .f32) =
    bnView (V (Proc.devRef .tc main_v94_0)) := by
  after_results; rfl
set_option maxHeartbeats 1000000 in
/-- `hostOps5`: the mean, twice side by side. -/
theorem host5_v105 : (StableHlo.after hostOps5 V (Proc.devRef .tc main_v105) : FVec F S1x128 .f32) =
    bnPair (bnMean (V (Proc.devRef .tc main_v94_1))) := by
  after_results; rfl
set_option maxHeartbeats 1000000 in
/-- `hostOps5`: the inverse standard deviation, twice side by side. -/
theorem host5_v106 : (StableHlo.after hostOps5 V (Proc.devRef .tc main_v106) : FVec F S1x128 .f32) =
    bnPair (bnInvStd (V (Proc.devRef .tc main_v94_1)) (V (Proc.devRef .tc main_v94_2))) := by
  after_results; rfl
set_option maxHeartbeats 1000000 in
/-- `hostOps5`: the scale, twice end to end. -/
theorem host5_v107 : (StableHlo.after hostOps5 V (Proc.devRef .tc main_v107) : FVec F S128 .f32) =
    bnPair1 (V (Proc.devRef .tc main_arg36)) := by
  after_results; rfl
set_option maxHeartbeats 1000000 in
/-- `hostOps5`: the shift, twice end to end. -/
theorem host5_v108 : (StableHlo.after hostOps5 V (Proc.devRef .tc main_v108) : FVec F S128 .f32) =
    bnPair1 (V (Proc.devRef .tc main_arg37)) := by
  after_results; rfl
set_option maxHeartbeats 1000000 in
/-- `hostOps8`: the [50000, 128] view of the activations. -/
theorem host8_v149 : (StableHlo.after hostOps8 V (Proc.devRef .tc main_v149) : FVec F S50000x128 .f32) =
    bnView (V (Proc.devRef .tc main_v139_0)) := by
  after_results; rfl
set_option maxHeartbeats 1000000 in
/-- `hostOps8`: the mean, twice side by side. -/
theorem host8_v150 : (StableHlo.after hostOps8 V (Proc.devRef .tc main_v150) : FVec F S1x128 .f32) =
    bnPair (bnMean (V (Proc.devRef .tc main_v139_1))) := by
  after_results; rfl
set_option maxHeartbeats 1000000 in
/-- `hostOps8`: the inverse standard deviation, twice side by side. -/
theorem host8_v151 : (StableHlo.after hostOps8 V (Proc.devRef .tc main_v151) : FVec F S1x128 .f32) =
    bnPair (bnInvStd (V (Proc.devRef .tc main_v139_1)) (V (Proc.devRef .tc main_v139_2))) := by
  after_results; rfl
set_option maxHeartbeats 1000000 in
/-- `hostOps8`: the scale, twice end to end. -/
theorem host8_v152 : (StableHlo.after hostOps8 V (Proc.devRef .tc main_v152) : FVec F S128 .f32) =
    bnPair1 (V (Proc.devRef .tc main_arg38)) := by
  after_results; rfl
set_option maxHeartbeats 1000000 in
/-- `hostOps8`: the shift, twice end to end. -/
theorem host8_v153 : (StableHlo.after hostOps8 V (Proc.devRef .tc main_v153) : FVec F S128 .f32) =
    bnPair1 (V (Proc.devRef .tc main_arg39)) := by
  after_results; rfl
set_option maxHeartbeats 1000000 in
/-- `hostOps14`: the [50000, 128] view of the activations. -/
theorem host14_v260 : (StableHlo.after hostOps14 V (Proc.devRef .tc main_v260) : FVec F S50000x128 .f32) =
    bnView (V (Proc.devRef .tc main_v250_0)) := by
  after_results; rfl
set_option maxHeartbeats 1000000 in
/-- `hostOps14`: the mean, twice side by side. -/
theorem host14_v261 : (StableHlo.after hostOps14 V (Proc.devRef .tc main_v261) : FVec F S1x128 .f32) =
    bnPair (bnMean (V (Proc.devRef .tc main_v250_1))) := by
  after_results; rfl
set_option maxHeartbeats 1000000 in
/-- `hostOps14`: the inverse standard deviation, twice side by side. -/
theorem host14_v262 : (StableHlo.after hostOps14 V (Proc.devRef .tc main_v262) : FVec F S1x128 .f32) =
    bnPair (bnInvStd (V (Proc.devRef .tc main_v250_1)) (V (Proc.devRef .tc main_v250_2))) := by
  after_results; rfl
set_option maxHeartbeats 1000000 in
/-- `hostOps14`: the scale, twice end to end. -/
theorem host14_v263 : (StableHlo.after hostOps14 V (Proc.devRef .tc main_v263) : FVec F S128 .f32) =
    bnPair1 (V (Proc.devRef .tc main_arg40)) := by
  after_results; rfl
set_option maxHeartbeats 1000000 in
/-- `hostOps14`: the shift, twice end to end. -/
theorem host14_v264 : (StableHlo.after hostOps14 V (Proc.devRef .tc main_v264) : FVec F S128 .f32) =
    bnPair1 (V (Proc.devRef .tc main_arg41)) := by
  after_results; rfl
set_option maxHeartbeats 1000000 in
/-- `hostOps6`: the [100000, 64] view of the array the preceding kernel wrote. -/
theorem host6_v110 : (StableHlo.after hostOps6 V (Proc.devRef .tc main_v110) : FVec F S100000x64 .f32) =
    bnUnview (V (Proc.devRef .tc main_v109)) := by
  after_results; rfl
set_option maxHeartbeats 1000000 in
/-- `hostOps15`: the [100000, 64] view of the array the preceding kernel wrote. -/
theorem host15_v266 : (StableHlo.after hostOps15 V (Proc.devRef .tc main_v266) : FVec F S100000x64 .f32) =
    bnUnview (V (Proc.devRef .tc main_v265)) := by
  after_results; rfl

end Cert.KernelIdeal.Fr

end
-- ==== Proof.KI.Glue.lean ====
/- What every kernel's input arrays hold when the kernel is entered, and what the three results hold at the end, in
   terms of the launch arguments, of the arrays earlier kernels wrote, and of the named host functions of these. -/
import proofs.«173191_j73083163508880_2_alg».proof.Proof.KI.Chain
import proofs.«173191_j73083163508880_2_alg».proof.Proof.KI.GlueOps
import Idealize.ShloMosaic.Lib.StableHlo.Run

set_option maxRecDepth 16384

noncomputable section

namespace Cert.KernelIdeal.Fr

open Cert.KernelIdeal Cert.KernelIdeal.Gen
open Idealize.ShloMosaic Idealize.ShloMosaic.TcCoe Idealize.ShloMosaic.Tactic Idealize.ShloMosaic.StableHlo
open Idealize.SL Idealize.SL.Sem
open Idealize.ShloMosaic.Pipeline (Dat Cfg Window BodyObligation cellOf)

variable {F : FTy → Type} [FloatOps F]
variable (m : (ℓ : Loc nD τ sig) → Buf (Elt F) ℓ) (ρ : Dev nD → PrngReg)

/-! ## One buffer between two items

`at<J>_<b>`: what buffer `b` holds after the first `J` items. A buffer no later item writes is carried back to the
item that wrote it: an argument to the launch, a kernel's output to that kernel's write-backs, a host result to its
function of what the stretch read. -/

theorem at0_arg1 (c : Dev nD) : (W0 m ρ c (Proc.devRef .tc main_arg1) : FVec F S100000x64 .f32) =
    m ((c : Thread nD τ).loc main_arg1) :=
  rfl
theorem at0_arg5 (c : Dev nD) : (W0 m ρ c (Proc.devRef .tc main_arg5) : IVec S2x2000000 32) =
    m ((c : Thread nD τ).loc main_arg5) :=
  rfl
theorem at1_v15 (c : Dev nD) : (W1 m ρ c (Proc.devRef .tc main_v15) : FVec F S100000x64 .f32) =
    sageAgg (m ((c : Thread nD τ).loc main_arg1)) (m ((c : Thread nD τ).loc main_arg5)) :=
  (host0_v15 (W0 m ρ c)).trans <| by rw [at0_arg1 m ρ c, at0_arg5 m ρ c]
theorem at1_v20 (c : Dev nD) : (W1 m ρ c (Proc.devRef .tc main_v20) : FVec F S100000x1 .f32) =
    sageCnt (m ((c : Thread nD τ).loc main_arg5)) :=
  (host0_v20 (W0 m ρ c)).trans <| by rw [at0_arg5 m ρ c]
theorem at1_arg0 (c : Dev nD) : (W1 m ρ c (Proc.devRef .tc main_arg0) : FVec F S100000x32 .f32) =
    m ((c : Thread nD τ).loc main_arg0) :=
  (W1_keep m ρ c main_arg0 (by decide)).trans <| rfl
theorem at1_arg12 (c : Dev nD) : (W1 m ρ c (Proc.devRef .tc main_arg12) : FVec F S64x64 .f32) =
    m ((c : Thread nD τ).loc main_arg12) :=
  (W1_keep m ρ c main_arg12 (by decide)).trans <| rfl
theorem at1_arg13 (c : Dev nD) : (W1 m ρ c (Proc.devRef .tc main_arg13) : FVec F S64 .f32) =
    m ((c : Thread nD τ).loc main_arg13) :=
  (W1_keep m ρ c main_arg13 (by decide)).trans <| rfl
theorem at1_arg14 (c : Dev nD) : (W1 m ρ c (Proc.devRef .tc main_arg14) : FVec F S32x64 .f32) =
    m ((c : Thread nD τ).loc main_arg14) :=
  (W1_keep m ρ c main_arg14 (by decide)).trans <| rfl
theorem at2_arg1 (c : Dev nD) : (W2 m ρ c (Proc.devRef .tc main_arg1) : FVec F S100000x64 .f32) =
    m ((c : Thread nD τ).loc main_arg1) :=
  (W2_of_ne m ρ c main_arg1 (by decide)).trans <| (W1_keep m ρ c main_arg1 (by decide)).trans <| rfl
theorem at2_arg7 (c : Dev nD) : (W2 m ρ c (Proc.devRef .tc main_arg7) : IVec S2x2000000 32) =
    m ((c : Thread nD τ).loc main_arg7) :=
  (W2_of_ne m ρ c main_arg7 (by decide)).trans <| (W1_keep m ρ c main_arg7 (by decide)).trans <| rfl
theorem at3_v37 (c : Dev nD) : (W3 m ρ c (Proc.devRef .tc main_v37) : FVec F S100000x64 .f32) =
    sageAgg (m ((c : Thread nD τ).loc main_arg1)) (m ((c : Thread nD τ).loc main_arg7)) :=
  (host1_v37 (W2 m ρ c)).trans <| by rw [at2_arg1 m ρ c, at2_arg7 m ρ c]
theorem at3_v42 (c : Dev nD) : (W3 m ρ c (Proc.devRef .tc main_v42) : FVec F S100000x1 .f32) =
    sageCnt (m ((c : Thread nD τ).loc main_arg7)) :=
  (host1_v42 (W2 m ρ c)).trans <| by rw [at2_arg7 m ρ c]
theorem at3_v21 (c : Dev nD) : (W3 m ρ c (Proc.devRef .tc main_v21) : FVec F S100000x64 .f32) =
    (dat0 (B1 m ρ) c).arrAt 6 cfg0.N :=
  (W3_keep m ρ c main_v21 (by decide)).trans <| (W2_arr m ρ c 6)
theorem at3_arg15 (c : Dev nD) : (W3 m ρ c (Proc.devRef .tc main_arg15) : FVec F S64x64 .f32) =
    m ((c : Thread nD τ).loc main_arg15) :=
  (W3_keep m ρ c main_arg15 (by decide)).trans <| (W2_of_ne m ρ c main_arg15 (by decide)).trans <| (W1_keep m ρ c main_arg15 (by decide)).trans <| rfl
theorem at3_arg16 (c : Dev nD) : (W3 m ρ c (Proc.devRef .tc main_arg16) : FVec F S64 .f32) =
    m ((c : Thread nD τ).loc main_arg16) :=
  (W3_keep m ρ c main_arg16 (by decide)).trans <| (W2_of_ne m ρ c main_arg16 (by decide)).trans <| (W1_keep m ρ c main_arg16 (by decide)).trans <| rfl
theorem at3_arg17 (c : Dev nD) : (W3 m ρ c (Proc.devRef .tc main_arg17) : FVec F S64x64 .f32) =
    m ((c : Thread nD τ).loc main_arg17) :=
  (W3_keep m ρ c main_arg17 (by decide)).trans <| (W2_of_ne m ρ c main_arg17 (by decide)).trans <| (W1_keep m ρ c main_arg17 (by decide)).trans <| rfl
theorem at4_arg1 (c : Dev nD) : (W4 m ρ c (Proc.devRef .tc main_arg1) : FVec F S100000x64 .f32) =
    m ((c : Thread nD τ).loc main_arg1) :=
  (W4_of_ne m ρ c main_arg1 (by decide)).trans <| (W3_keep m ρ c main_arg1 (by decide)).trans <| (W2_of_ne m ρ c main_arg1 (by decide)).trans <| (W1_keep m ρ c main_arg1 (by decide)).trans <| rfl
theorem at4_arg11 (c : Dev nD) : (W4 m ρ c (Proc.devRef .tc main_arg11) : IVec S2x2000000 32) =
    m ((c : Thread nD τ).loc main_arg11) :=
  (W4_of_ne m ρ c main_arg11 (by decide)).trans <| (W3_keep m ρ c main_arg11 (by decide)).trans <| (W2_of_ne m ρ c main_arg11 (by decide)).trans <| (W1_keep m ρ c main_arg11 (by decide)).trans <| rfl
theorem at5_v59 (c : Dev nD) : (W5 m ρ c (Proc.devRef .tc main_v59) : FVec F S100000x64 .f32) =
    sageAgg (m ((c : Thread nD τ).loc main_arg1)) (m ((c : Thread nD τ).loc main_arg11)) :=
  (host2_v59 (W4 m ρ c)).trans <| by rw [at4_arg1 m ρ c, at4_arg11 m ρ c]
theorem at5_v64 (c : Dev nD) : (W5 m ρ c (Proc.devRef .tc main_v64) : FVec F S100000x1 .f32) =
    sageCnt (m ((c : Thread nD τ).loc main_arg11)) :=
  (host2_v64 (W4 m ρ c)).trans <| by rw [at4_arg11 m ρ c]
theorem at5_arg2 (c : Dev nD) : (W5 m ρ c (Proc.devRef .tc main_arg2) : FVec F S100000x32 .f32) =
    m ((c : Thread nD τ).loc main_arg2) :=
  (W5_keep m ρ c main_arg2 (by decide)).trans <| (W4_of_ne m ρ c main_arg2 (by decide)).trans <| (W3_keep m ρ c main_arg2 (by decide)).trans <| (W2_of_ne m ρ c main_arg2 (by decide)).trans <| (W1_keep m ρ c main_arg2 (by decide)).trans <| rfl
theorem at5_arg18 (c : Dev nD) : (W5 m ρ c (Proc.devRef .tc main_arg18) : FVec F S64x64 .f32) =
    m ((c : Thread nD τ).loc main_arg18) :=
  (W5_keep m ρ c main_arg18 (by decide)).trans <| (W4_of_ne m ρ c main_arg18 (by decide)).trans <| (W3_keep m ρ c main_arg18 (by decide)).trans <| (W2_of_ne m ρ c main_arg18 (by decide)).trans <| (W1_keep m ρ c main_arg18 (by decide)).trans <| rfl
theorem at5_arg19 (c : Dev nD) : (W5 m ρ c (Proc.devRef .tc main_arg19) : FVec F S64 .f32) =
    m ((c : Thread nD τ).loc main_arg19) :=
  (W5_keep m ρ c main_arg19 (by decide)).trans <| (W4_of_ne m ρ c main_arg19 (by decide)).trans <| (W3_keep m ρ c main_arg19 (by decide)).trans <| (W2_of_ne m ρ c main_arg19 (by decide)).trans <| (W1_keep m ρ c main_arg19 (by decide)).trans <| rfl
theorem at5_arg20 (c : Dev nD) : (W5 m ρ c (Proc.devRef .tc main_arg20) : FVec F S32x64 .f32) =
    m ((c : Thread nD τ).loc main_arg20) :=
  (W5_keep m ρ c main_arg20 (by decide)).trans <| (W4_of_ne m ρ c main_arg20 (by decide)).trans <| (W3_keep m ρ c main_arg20 (by decide)).trans <| (W2_of_ne m ρ c main_arg20 (by decide)).trans <| (W1_keep m ρ c main_arg20 (by decide)).trans <| rfl
theorem at6_v43 (c : Dev nD) : (W6 m ρ c (Proc.devRef .tc main_v43) : FVec F S100000x64 .f32) =
    (dat1 (B3 m ρ) c).arrAt 6 cfg1.N :=
  (W6_of_ne m ρ c main_v43 (by decide)).trans <| (W5_keep m ρ c main_v43 (by decide)).trans <| (W4_arr m ρ c 6)
theorem at6_arg30 (c : Dev nD) : (W6 m ρ c (Proc.devRef .tc main_arg30) : FVec F S64x64 .f32) =
    m ((c : Thread nD τ).loc main_arg30) :=
  (W6_of_ne m ρ c main_arg30 (by decide)).trans <| (W5_keep m ρ c main_arg30 (by decide)).trans <| (W4_of_ne m ρ c main_arg30 (by decide)).trans <| (W3_keep m ρ c main_arg30 (by decide)).trans <| (W2_of_ne m ρ c main_arg30 (by decide)).trans <| (W1_keep m ρ c main_arg30 (by decide)).trans <| rfl
theorem at7_v66 (c : Dev nD) : (W7 m ρ c (Proc.devRef .tc main_v66) : FVec F S100000x64 .f32) =
    (dat3 (B6 m ρ) c).arrAt 2 cfg3.N :=
  (W7_arr m ρ c 2)
theorem at7_arg3 (c : Dev nD) : (W7 m ρ c (Proc.devRef .tc main_arg3) : IVec S2x2000000 32) =
    m ((c : Thread nD τ).loc main_arg3) :=
  (W7_of_ne m ρ c main_arg3 (by decide)).trans <| (W6_of_ne m ρ c main_arg3 (by decide)).trans <| (W5_keep m ρ c main_arg3 (by decide)).trans <| (W4_of_ne m ρ c main_arg3 (by decide)).trans <| (W3_keep m ρ c main_arg3 (by decide)).trans <| (W2_of_ne m ρ c main_arg3 (by decide)).trans <| (W1_keep m ρ c main_arg3 (by decide)).trans <| rfl
theorem at8_v92 (c : Dev nD) : (W8 m ρ c (Proc.devRef .tc main_v92) : FVec F S100000x64 .f32) =
    gcnAgg ((dat3 (B6 m ρ) c).arrAt 2 cfg3.N) (m ((c : Thread nD τ).loc main_arg3)) :=
  (host4_v92 (W7 m ρ c)).trans <| by rw [at7_v66 m ρ c, at7_arg3 m ρ c]
theorem at8_v80 (c : Dev nD) : (W8 m ρ c (Proc.devRef .tc main_v80) : FVec F S100000x64 .f32) =
    gcnScaled ((dat3 (B6 m ρ) c).arrAt 2 cfg3.N) (m ((c : Thread nD τ).loc main_arg3)) :=
  (host4_v80 (W7 m ρ c)).trans <| by rw [at7_v66 m ρ c, at7_arg3 m ρ c]
theorem at8_v93 (c : Dev nD) : (W8 m ρ c (Proc.devRef .tc main_v93) : FVec F S100000x1 .f32) =
    gcnDinvCol (m ((c : Thread nD τ).loc main_arg3)) :=
  (host4_v93 (W7 m ρ c)).trans <| by rw [at7_arg3 m ρ c]
theorem at8_arg31 (c : Dev nD) : (W8 m ρ c (Proc.devRef .tc main_arg31) : FVec F S64 .f32) =
    m ((c : Thread nD τ).loc main_arg31) :=
  (W8_keep m ρ c main_arg31 (by decide)).trans <| (W7_of_ne m ρ c main_arg31 (by decide)).trans <| (W6_of_ne m ρ c main_arg31 (by decide)).trans <| (W5_keep m ρ c main_arg31 (by decide)).trans <| (W4_of_ne m ρ c main_arg31 (by decide)).trans <| (W3_keep m ρ c main_arg31 (by decide)).trans <| (W2_of_ne m ρ c main_arg31 (by decide)).trans <| (W1_keep m ρ c main_arg31 (by decide)).trans <| rfl
theorem at9_v94_0 (c : Dev nD) : (W9 m ρ c (Proc.devRef .tc main_v94_0) : FVec F S100000x64 .f32) =
    (dat4 (B8 m ρ) c).arrAt 4 cfg4.N :=
  (W9_arr m ρ c 4)
theorem at10_v104 (c : Dev nD) : (W10 m ρ c (Proc.devRef .tc main_v104) : FVec F S50000x128 .f32) =
    bnView ((dat4 (B8 m ρ) c).arrAt 4 cfg4.N) :=
  (host5_v104 (W9 m ρ c)).trans <| by rw [at9_v94_0 m ρ c]
theorem at9_v94_1 (c : Dev nD) : (W9 m ρ c (Proc.devRef .tc main_v94_1) : FVec F S1x64 .f32) =
    (dat4 (B8 m ρ) c).arrAt 5 cfg4.N :=
  (W9_arr m ρ c 5)
theorem at10_v105 (c : Dev nD) : (W10 m ρ c (Proc.devRef .tc main_v105) : FVec F S1x128 .f32) =
    bnPair (bnMean ((dat4 (B8 m ρ) c).arrAt 5 cfg4.N)) :=
  (host5_v105 (W9 m ρ c)).trans <| by rw [at9_v94_1 m ρ c]
theorem at9_v94_2 (c : Dev nD) : (W9 m ρ c (Proc.devRef .tc main_v94_2) : FVec F S1x64 .f32) =
    (dat4 (B8 m ρ) c).arrAt 6 cfg4.N :=
  (W9_arr m ρ c 6)
theorem at10_v106 (c : Dev nD) : (W10 m ρ c (Proc.devRef .tc main_v106) : FVec F S1x128 .f32) =
    bnPair (bnInvStd ((dat4 (B8 m ρ) c).arrAt 5 cfg4.N) ((dat4 (B8 m ρ) c).arrAt 6 cfg4.N)) :=
  (host5_v106 (W9 m ρ c)).trans <| by rw [at9_v94_1 m ρ c, at9_v94_2 m ρ c]
theorem at9_arg36 (c : Dev nD) : (W9 m ρ c (Proc.devRef .tc main_arg36) : FVec F S64 .f32) =
    m ((c : Thread nD τ).loc main_arg36) :=
  (W9_of_ne m ρ c main_arg36 (by decide)).trans <| (W8_keep m ρ c main_arg36 (by decide)).trans <| (W7_of_ne m ρ c main_arg36 (by decide)).trans <| (W6_of_ne m ρ c main_arg36 (by decide)).trans <| (W5_keep m ρ c main_arg36 (by decide)).trans <| (W4_of_ne m ρ c main_arg36 (by decide)).trans <| (W3_keep m ρ c main_arg36 (by decide)).trans <| (W2_of_ne m ρ c main_arg36 (by decide)).trans <| (W1_keep m ρ c main_arg36 (by decide)).trans <| rfl
theorem at10_v107 (c : Dev nD) : (W10 m ρ c (Proc.devRef .tc main_v107) : FVec F S128 .f32) =
    bnPair1 (m ((c : Thread nD τ).loc main_arg36)) :=
  (host5_v107 (W9 m ρ c)).trans <| by rw [at9_arg36 m ρ c]
theorem at9_arg37 (c : Dev nD) : (W9 m ρ c (Proc.devRef .tc main_arg37) : FVec F S64 .f32) =
    m ((c : Thread nD τ).loc main_arg37) :=
  (W9_of_ne m ρ c main_arg37 (by decide)).trans <| (W8_keep m ρ c main_arg37 (by decide)).trans <| (W7_of_ne m ρ c main_arg37 (by decide)).trans <| (W6_of_ne m ρ c main_arg37 (by decide)).trans <| (W5_keep m ρ c main_arg37 (by decide)).trans <| (W4_of_ne m ρ c main_arg37 (by decide)).trans <| (W3_keep m ρ c main_arg37 (by decide)).trans <| (W2_of_ne m ρ c main_arg37 (by decide)).trans <| (W1_keep m ρ c main_arg37 (by decide)).trans <| rfl
theorem at10_v108 (c : Dev nD) : (W10 m ρ c (Proc.devRef .tc main_v108) : FVec F S128 .f32) =
    bnPair1 (m ((c : Thread nD τ).loc main_arg37)) :=
  (host5_v108 (W9 m ρ c)).trans <| by rw [at9_arg37 m ρ c]
theorem at12_v65 (c : Dev nD) : (W12 m ρ c (Proc.devRef .tc main_v65) : FVec F S100000x64 .f32) =
    (dat2 (B5 m ρ) c).arrAt 6 cfg2.N :=
  (W12_keep m ρ c main_v65 (by decide)).trans <| (W11_of_ne m ρ c main_v65 (by decide)).trans <| (W10_keep m ρ c main_v65 (by decide)).trans <| (W9_of_ne m ρ c main_v65 (by decide)).trans <| (W8_keep m ρ c main_v65 (by decide)).trans <| (W7_of_ne m ρ c main_v65 (by decide)).trans <| (W6_arr m ρ c 6)
theorem at12_arg32 (c : Dev nD) : (W12 m ρ c (Proc.devRef .tc main_arg32) : FVec F S64x64 .f32) =
    m ((c : Thread nD τ).loc main_arg32) :=
  (W12_keep m ρ c main_arg32 (by decide)).trans <| (W11_of_ne m ρ c main_arg32 (by decide)).trans <| (W10_keep m ρ c main_arg32 (by decide)).trans <| (W9_of_ne m ρ c main_arg32 (by decide)).trans <| (W8_keep m ρ c main_arg32 (by decide)).trans <| (W7_of_ne m ρ c main_arg32 (by decide)).trans <| (W6_of_ne m ρ c main_arg32 (by decide)).trans <| (W5_keep m ρ c main_arg32 (by decide)).trans <| (W4_of_ne m ρ c main_arg32 (by decide)).trans <| (W3_keep m ρ c main_arg32 (by decide)).trans <| (W2_of_ne m ρ c main_arg32 (by decide)).trans <| (W1_keep m ρ c main_arg32 (by decide)).trans <| rfl
theorem at13_v111 (c : Dev nD) : (W13 m ρ c (Proc.devRef .tc main_v111) : FVec F S100000x64 .f32) =
    (dat6 (B12 m ρ) c).arrAt 2 cfg6.N :=
  (W13_arr m ρ c 2)
theorem at13_arg9 (c : Dev nD) : (W13 m ρ c (Proc.devRef .tc main_arg9) : IVec S2x2000000 32) =
    m ((c : Thread nD τ).loc main_arg9) :=
  (W13_of_ne m ρ c main_arg9 (by decide)).trans <| (W12_keep m ρ c main_arg9 (by decide)).trans <| (W11_of_ne m ρ c main_arg9 (by decide)).trans <| (W10_keep m ρ c main_arg9 (by decide)).trans <| (W9_of_ne m ρ c main_arg9 (by decide)).trans <| (W8_keep m ρ c main_arg9 (by decide)).trans <| (W7_of_ne m ρ c main_arg9 (by decide)).trans <| (W6_of_ne m ρ c main_arg9 (by decide)).trans <| (W5_keep m ρ c main_arg9 (by decide)).trans <| (W4_of_ne m ρ c main_arg9 (by decide)).trans <| (W3_keep m ρ c main_arg9 (by decide)).trans <| (W2_of_ne m ρ c main_arg9 (by decide)).trans <| (W1_keep m ρ c main_arg9 (by decide)).trans <| rfl
theorem at14_v137 (c : Dev nD) : (W14 m ρ c (Proc.devRef .tc main_v137) : FVec F S100000x64 .f32) =
    gcnAgg ((dat6 (B12 m ρ) c).arrAt 2 cfg6.N) (m ((c : Thread nD τ).loc main_arg9)) :=
  (host7_v137 (W13 m ρ c)).trans <| by rw [at13_v111 m ρ c, at13_arg9 m ρ c]
theorem at14_v125 (c : Dev nD) : (W14 m ρ c (Proc.devRef .tc main_v125) : FVec F S100000x64 .f32) =
    gcnScaled ((dat6 (B12 m ρ) c).arrAt 2 cfg6.N) (m ((c : Thread nD τ).loc main_arg9)) :=
  (host7_v125 (W13 m ρ c)).trans <| by rw [at13_v111 m ρ c, at13_arg9 m ρ c]
theorem at14_v138 (c : Dev nD) : (W14 m ρ c (Proc.devRef .tc main_v138) : FVec F S100000x1 .f32) =
    gcnDinvCol (m ((c : Thread nD τ).loc main_arg9)) :=
  (host7_v138 (W13 m ρ c)).trans <| by rw [at13_arg9 m ρ c]
theorem at14_arg33 (c : Dev nD) : (W14 m ρ c (Proc.devRef .tc main_arg33) : FVec F S64 .f32) =
    m ((c : Thread nD τ).loc main_arg33) :=
  (W14_keep m ρ c main_arg33 (by decide)).trans <| (W13_of_ne m ρ c main_arg33 (by decide)).trans <| (W12_keep m ρ c main_arg33 (by decide)).trans <| (W11_of_ne m ρ c main_arg33 (by decide)).trans <| (W10_keep m ρ c main_arg33 (by decide)).trans <| (W9_of_ne m ρ c main_arg33 (by decide)).trans <| (W8_keep m ρ c main_arg33 (by decide)).trans <| (W7_of_ne m ρ c main_arg33 (by decide)).trans <| (W6_of_ne m ρ c main_arg33 (by decide)).trans <| (W5_keep m ρ c main_arg33 (by decide)).trans <| (W4_of_ne m ρ c main_arg33 (by decide)).trans <| (W3_keep m ρ c main_arg33 (by decide)).trans <| (W2_of_ne m ρ c main_arg33 (by decide)).trans <| (W1_keep m ρ c main_arg33 (by decide)).trans <| rfl
theorem at15_v139_0 (c : Dev nD) : (W15 m ρ c (Proc.devRef .tc main_v139_0) : FVec F S100000x64 .f32) =
    (dat7 (B14 m ρ) c).arrAt 4 cfg7.N :=
  (W15_arr m ρ c 4)
theorem at16_v149 (c : Dev nD) : (W16 m ρ c (Proc.devRef .tc main_v149) : FVec F S50000x128 .f32) =
    bnView ((dat7 (B14 m ρ) c).arrAt 4 cfg7.N) :=
  (host8_v149 (W15 m ρ c)).trans <| by rw [at15_v139_0 m ρ c]
theorem at15_v139_1 (c : Dev nD) : (W15 m ρ c (Proc.devRef .tc main_v139_1) : FVec F S1x64 .f32) =
    (dat7 (B14 m ρ) c).arrAt 5 cfg7.N :=
  (W15_arr m ρ c 5)
theorem at16_v150 (c : Dev nD) : (W16 m ρ c (Proc.devRef .tc main_v150) : FVec F S1x128 .f32) =
    bnPair (bnMean ((dat7 (B14 m ρ) c).arrAt 5 cfg7.N)) :=
  (host8_v150 (W15 m ρ c)).trans <| by rw [at15_v139_1 m ρ c]
theorem at15_v139_2 (c : Dev nD) : (W15 m ρ c (Proc.devRef .tc main_v139_2) : FVec F S1x64 .f32) =
    (dat7 (B14 m ρ) c).arrAt 6 cfg7.N :=
  (W15_arr m ρ c 6)
theorem at16_v151 (c : Dev nD) : (W16 m ρ c (Proc.devRef .tc main_v151) : FVec F S1x128 .f32) =
    bnPair (bnInvStd ((dat7 (B14 m ρ) c).arrAt 5 cfg7.N) ((dat7 (B14 m ρ) c).arrAt 6 cfg7.N)) :=
  (host8_v151 (W15 m ρ c)).trans <| by rw [at15_v139_1 m ρ c, at15_v139_2 m ρ c]
theorem at15_arg38 (c : Dev nD) : (W15 m ρ c (Proc.devRef .tc main_arg38) : FVec F S64 .f32) =
    m ((c : Thread nD τ).loc main_arg38) :=
  (W15_of_ne m ρ c main_arg38 (by decide)).trans <| (W14_keep m ρ c main_arg38 (by decide)).trans <| (W13_of_ne m ρ c main_arg38 (by decide)).trans <| (W12_keep m ρ c main_arg38 (by decide)).trans <| (W11_of_ne m ρ c main_arg38 (by decide)).trans <| (W10_keep m ρ c main_arg38 (by decide)).trans <| (W9_of_ne m ρ c main_arg38 (by decide)).trans <| (W8_keep m ρ c main_arg38 (by decide)).trans <| (W7_of_ne m ρ c main_arg38 (by decide)).trans <| (W6_of_ne m ρ c main_arg38 (by decide)).trans <| (W5_keep m ρ c main_arg38 (by decide)).trans <| (W4_of_ne m ρ c main_arg38 (by decide)).trans <| (W3_keep m ρ c main_arg38 (by decide)).trans <| (W2_of_ne m ρ c main_arg38 (by decide)).trans <| (W1_keep m ρ c main_arg38 (by decide)).trans <| rfl
theorem at16_v152 (c : Dev nD) : (W16 m ρ c (Proc.devRef .tc main_v152) : FVec F S128 .f32) =
    bnPair1 (m ((c : Thread nD τ).loc main_arg38)) :=
  (host8_v152 (W15 m ρ c)).trans <| by rw [at15_arg38 m ρ c]
theorem at15_arg39 (c : Dev nD) : (W15 m ρ c (Proc.devRef .tc main_arg39) : FVec F S64 .f32) =
    m ((c : Thread nD τ).loc main_arg39) :=
  (W15_of_ne m ρ c main_arg39 (by decide)).trans <| (W14_keep m ρ c main_arg39 (by decide)).trans <| (W13_of_ne m ρ c main_arg39 (by decide)).trans <| (W12_keep m ρ c main_arg39 (by decide)).trans <| (W11_of_ne m ρ c main_arg39 (by decide)).trans <| (W10_keep m ρ c main_arg39 (by decide)).trans <| (W9_of_ne m ρ c main_arg39 (by decide)).trans <| (W8_keep m ρ c main_arg39 (by decide)).trans <| (W7_of_ne m ρ c main_arg39 (by decide)).trans <| (W6_of_ne m ρ c main_arg39 (by decide)).trans <| (W5_keep m ρ c main_arg39 (by decide)).trans <| (W4_of_ne m ρ c main_arg39 (by decide)).trans <| (W3_keep m ρ c main_arg39 (by decide)).trans <| (W2_of_ne m ρ c main_arg39 (by decide)).trans <| (W1_keep m ρ c main_arg39 (by decide)).trans <| rfl
theorem at16_v153 (c : Dev nD) : (W16 m ρ c (Proc.devRef .tc main_v153) : FVec F S128 .f32) =
    bnPair1 (m ((c : Thread nD τ).loc main_arg39)) :=
  (host8_v153 (W15 m ρ c)).trans <| by rw [at15_arg39 m ρ c]
theorem at11_v109 (c : Dev nD) : (W11 m ρ c (Proc.devRef .tc main_v109) : FVec F S50000x128 .f32) =
    (dat5 (B10 m ρ) c).arrAt 5 cfg5.N :=
  (W11_arr m ρ c 5)
theorem at17_v110 (c : Dev nD) : (W17 m ρ c (Proc.devRef .tc main_v110) : FVec F S100000x64 .f32) =
    bnUnview ((dat5 (B10 m ρ) c).arrAt 5 cfg5.N) :=
  (W17_of_ne m ρ c main_v110 (by decide)).trans <| (W16_keep m ρ c main_v110 (by decide)).trans <| (W15_of_ne m ρ c main_v110 (by decide)).trans <| (W14_keep m ρ c main_v110 (by decide)).trans <| (W13_of_ne m ρ c main_v110 (by decide)).trans <| (host6_v110 (W11 m ρ c)).trans <| by rw [at11_v109 m ρ c]
theorem at17_arg4 (c : Dev nD) : (W17 m ρ c (Proc.devRef .tc main_arg4) : IVec S2x2000000 32) =
    m ((c : Thread nD τ).loc main_arg4) :=
  (W17_of_ne m ρ c main_arg4 (by decide)).trans <| (W16_keep m ρ c main_arg4 (by decide)).trans <| (W15_of_ne m ρ c main_arg4 (by decide)).trans <| (W14_keep m ρ c main_arg4 (by decide)).trans <| (W13_of_ne m ρ c main_arg4 (by decide)).trans <| (W12_keep m ρ c main_arg4 (by decide)).trans <| (W11_of_ne m ρ c main_arg4 (by decide)).trans <| (W10_keep m ρ c main_arg4 (by decide)).trans <| (W9_of_ne m ρ c main_arg4 (by decide)).trans <| (W8_keep m ρ c main_arg4 (by decide)).trans <| (W7_of_ne m ρ c main_arg4 (by decide)).trans <| (W6_of_ne m ρ c main_arg4 (by decide)).trans <| (W5_keep m ρ c main_arg4 (by decide)).trans <| (W4_of_ne m ρ c main_arg4 (by decide)).trans <| (W3_keep m ρ c main_arg4 (by decide)).trans <| (W2_of_ne m ρ c main_arg4 (by decide)).trans <| (W1_keep m ρ c main_arg4 (by decide)).trans <| rfl
theorem at18_v171 (c : Dev nD) : (W18 m ρ c (Proc.devRef .tc main_v171) : FVec F S100000x64 .f32) =
    sageAgg (bnUnview ((dat5 (B10 m ρ) c).arrAt 5 cfg5.N)) (m ((c : Thread nD τ).loc main_arg4)) :=
  (host9_v171 (W17 m ρ c)).trans <| by rw [at17_v110 m ρ c, at17_arg4 m ρ c]
theorem at18_v176 (c : Dev nD) : (W18 m ρ c (Proc.devRef .tc main_v176) : FVec F S100000x1 .f32) =
    sageCnt (m ((c : Thread nD τ).loc main_arg4)) :=
  (host9_v176 (W17 m ρ c)).trans <| by rw [at17_arg4 m ρ c]
theorem at18_arg1 (c : Dev nD) : (W18 m ρ c (Proc.devRef .tc main_arg1) : FVec F S100000x64 .f32) =
    m ((c : Thread nD τ).loc main_arg1) :=
  (W18_keep m ρ c main_arg1 (by decide)).trans <| (W17_of_ne m ρ c main_arg1 (by decide)).trans <| (W16_keep m ρ c main_arg1 (by decide)).trans <| (W15_of_ne m ρ c main_arg1 (by decide)).trans <| (W14_keep m ρ c main_arg1 (by decide)).trans <| (W13_of_ne m ρ c main_arg1 (by decide)).trans <| (W12_keep m ρ c main_arg1 (by decide)).trans <| (W11_of_ne m ρ c main_arg1 (by decide)).trans <| (W10_keep m ρ c main_arg1 (by decide)).trans <| (W9_of_ne m ρ c main_arg1 (by decide)).trans <| (W8_keep m ρ c main_arg1 (by decide)).trans <| (W7_of_ne m ρ c main_arg1 (by decide)).trans <| (W6_of_ne m ρ c main_arg1 (by decide)).trans <| (W5_keep m ρ c main_arg1 (by decide)).trans <| (W4_of_ne m ρ c main_arg1 (by decide)).trans <| (W3_keep m ρ c main_arg1 (by decide)).trans <| (W2_of_ne m ρ c main_arg1 (by decide)).trans <| (W1_keep m ρ c main_arg1 (by decide)).trans <| rfl
theorem at18_arg21 (c : Dev nD) : (W18 m ρ c (Proc.devRef .tc main_arg21) : FVec F S64x64 .f32) =
    m ((c : Thread nD τ).loc main_arg21) :=
  (W18_keep m ρ c main_arg21 (by decide)).trans <| (W17_of_ne m ρ c main_arg21 (by decide)).trans <| (W16_keep m ρ c main_arg21 (by decide)).trans <| (W15_of_ne m ρ c main_arg21 (by decide)).trans <| (W14_keep m ρ c main_arg21 (by decide)).trans <| (W13_of_ne m ρ c main_arg21 (by decide)).trans <| (W12_keep m ρ c main_arg21 (by decide)).trans <| (W11_of_ne m ρ c main_arg21 (by decide)).trans <| (W10_keep m ρ c main_arg21 (by decide)).trans <| (W9_of_ne m ρ c main_arg21 (by decide)).trans <| (W8_keep m ρ c main_arg21 (by decide)).trans <| (W7_of_ne m ρ c main_arg21 (by decide)).trans <| (W6_of_ne m ρ c main_arg21 (by decide)).trans <| (W5_keep m ρ c main_arg21 (by decide)).trans <| (W4_of_ne m ρ c main_arg21 (by decide)).trans <| (W3_keep m ρ c main_arg21 (by decide)).trans <| (W2_of_ne m ρ c main_arg21 (by decide)).trans <| (W1_keep m ρ c main_arg21 (by decide)).trans <| rfl
theorem at18_arg22 (c : Dev nD) : (W18 m ρ c (Proc.devRef .tc main_arg22) : FVec F S64 .f32) =
    m ((c : Thread nD τ).loc main_arg22) :=
  (W18_keep m ρ c main_arg22 (by decide)).trans <| (W17_of_ne m ρ c main_arg22 (by decide)).trans <| (W16_keep m ρ c main_arg22 (by decide)).trans <| (W15_of_ne m ρ c main_arg22 (by decide)).trans <| (W14_keep m ρ c main_arg22 (by decide)).trans <| (W13_of_ne m ρ c main_arg22 (by decide)).trans <| (W12_keep m ρ c main_arg22 (by decide)).trans <| (W11_of_ne m ρ c main_arg22 (by decide)).trans <| (W10_keep m ρ c main_arg22 (by decide)).trans <| (W9_of_ne m ρ c main_arg22 (by decide)).trans <| (W8_keep m ρ c main_arg22 (by decide)).trans <| (W7_of_ne m ρ c main_arg22 (by decide)).trans <| (W6_of_ne m ρ c main_arg22 (by decide)).trans <| (W5_keep m ρ c main_arg22 (by decide)).trans <| (W4_of_ne m ρ c main_arg22 (by decide)).trans <| (W3_keep m ρ c main_arg22 (by decide)).trans <| (W2_of_ne m ρ c main_arg22 (by decide)).trans <| (W1_keep m ρ c main_arg22 (by decide)).trans <| rfl
theorem at18_arg23 (c : Dev nD) : (W18 m ρ c (Proc.devRef .tc main_arg23) : FVec F S64x64 .f32) =
    m ((c : Thread nD τ).loc main_arg23) :=
  (W18_keep m ρ c main_arg23 (by decide)).trans <| (W17_of_ne m ρ c main_arg23 (by decide)).trans <| (W16_keep m ρ c main_arg23 (by decide)).trans <| (W15_of_ne m ρ c main_arg23 (by decide)).trans <| (W14_keep m ρ c main_arg23 (by decide)).trans <| (W13_of_ne m ρ c main_arg23 (by decide)).trans <| (W12_keep m ρ c main_arg23 (by decide)).trans <| (W11_of_ne m ρ c main_arg23 (by decide)).trans <| (W10_keep m ρ c main_arg23 (by decide)).trans <| (W9_of_ne m ρ c main_arg23 (by decide)).trans <| (W8_keep m ρ c main_arg23 (by decide)).trans <| (W7_of_ne m ρ c main_arg23 (by decide)).trans <| (W6_of_ne m ρ c main_arg23 (by decide)).trans <| (W5_keep m ρ c main_arg23 (by decide)).trans <| (W4_of_ne m ρ c main_arg23 (by decide)).trans <| (W3_keep m ρ c main_arg23 (by decide)).trans <| (W2_of_ne m ρ c main_arg23 (by decide)).trans <| (W1_keep m ρ c main_arg23 (by decide)).trans <| rfl
theorem at19_v110 (c : Dev nD) : (W19 m ρ c (Proc.devRef .tc main_v110) : FVec F S100000x64 .f32) =
    bnUnview ((dat5 (B10 m ρ) c).arrAt 5 cfg5.N) :=
  (W19_of_ne m ρ c main_v110 (by decide)).trans <| (W18_keep m ρ c main_v110 (by decide)).trans <| (W17_of_ne m ρ c main_v110 (by decide)).trans <| (W16_keep m ρ c main_v110 (by decide)).trans <| (W15_of_ne m ρ c main_v110 (by decide)).trans <| (W14_keep m ρ c main_v110 (by decide)).trans <| (W13_of_ne m ρ c main_v110 (by decide)).trans <| (host6_v110 (W11 m ρ c)).trans <| by rw [at11_v109 m ρ c]
theorem at19_arg6 (c : Dev nD) : (W19 m ρ c (Proc.devRef .tc main_arg6) : IVec S2x2000000 32) =
    m ((c : Thread nD τ).loc main_arg6) :=
  (W19_of_ne m ρ c main_arg6 (by decide)).trans <| (W18_keep m ρ c main_arg6 (by decide)).trans <| (W17_of_ne m ρ c main_arg6 (by decide)).trans <| (W16_keep m ρ c main_arg6 (by decide)).trans <| (W15_of_ne m ρ c main_arg6 (by decide)).trans <| (W14_keep m ρ c main_arg6 (by decide)).trans <| (W13_of_ne m ρ c main_arg6 (by decide)).trans <| (W12_keep m ρ c main_arg6 (by decide)).trans <| (W11_of_ne m ρ c main_arg6 (by decide)).trans <| (W10_keep m ρ c main_arg6 (by decide)).trans <| (W9_of_ne m ρ c main_arg6 (by decide)).trans <| (W8_keep m ρ c main_arg6 (by decide)).trans <| (W7_of_ne m ρ c main_arg6 (by decide)).trans <| (W6_of_ne m ρ c main_arg6 (by decide)).trans <| (W5_keep m ρ c main_arg6 (by decide)).trans <| (W4_of_ne m ρ c main_arg6 (by decide)).trans <| (W3_keep m ρ c main_arg6 (by decide)).trans <| (W2_of_ne m ρ c main_arg6 (by decide)).trans <| (W1_keep m ρ c main_arg6 (by decide)).trans <| rfl
theorem at20_v193 (c : Dev nD) : (W20 m ρ c (Proc.devRef .tc main_v193) : FVec F S100000x64 .f32) =
    sageAgg (bnUnview ((dat5 (B10 m ρ) c).arrAt 5 cfg5.N)) (m ((c : Thread nD τ).loc main_arg6)) :=
  (host10_v193 (W19 m ρ c)).trans <| by rw [at19_v110 m ρ c, at19_arg6 m ρ c]
theorem at20_v198 (c : Dev nD) : (W20 m ρ c (Proc.devRef .tc main_v198) : FVec F S100000x1 .f32) =
    sageCnt (m ((c : Thread nD τ).loc main_arg6)) :=
  (host10_v198 (W19 m ρ c)).trans <| by rw [at19_arg6 m ρ c]
theorem at20_v177 (c : Dev nD) : (W20 m ρ c (Proc.devRef .tc main_v177) : FVec F S100000x64 .f32) =
    (dat9 (B18 m ρ) c).arrAt 6 cfg9.N :=
  (W20_keep m ρ c main_v177 (by decide)).trans <| (W19_arr m ρ c 6)
theorem at20_arg24 (c : Dev nD) : (W20 m ρ c (Proc.devRef .tc main_arg24) : FVec F S64x64 .f32) =
    m ((c : Thread nD τ).loc main_arg24) :=
  (W20_keep m ρ c main_arg24 (by decide)).trans <| (W19_of_ne m ρ c main_arg24 (by decide)).trans <| (W18_keep m ρ c main_arg24 (by decide)).trans <| (W17_of_ne m ρ c main_arg24 (by decide)).trans <| (W16_keep m ρ c main_arg24 (by decide)).trans <| (W15_of_ne m ρ c main_arg24 (by decide)).trans <| (W14_keep m ρ c main_arg24 (by decide)).trans <| (W13_of_ne m ρ c main_arg24 (by decide)).trans <| (W12_keep m ρ c main_arg24 (by decide)).trans <| (W11_of_ne m ρ c main_arg24 (by decide)).trans <| (W10_keep m ρ c main_arg24 (by decide)).trans <| (W9_of_ne m ρ c main_arg24 (by decide)).trans <| (W8_keep m ρ c main_arg24 (by decide)).trans <| (W7_of_ne m ρ c main_arg24 (by decide)).trans <| (W6_of_ne m ρ c main_arg24 (by decide)).trans <| (W5_keep m ρ c main_arg24 (by decide)).trans <| (W4_of_ne m ρ c main_arg24 (by decide)).trans <| (W3_keep m ρ c main_arg24 (by decide)).trans <| (W2_of_ne m ρ c main_arg24 (by decide)).trans <| (W1_keep m ρ c main_arg24 (by decide)).trans <| rfl
theorem at20_arg25 (c : Dev nD) : (W20 m ρ c (Proc.devRef .tc main_arg25) : FVec F S64 .f32) =
    m ((c : Thread nD τ).loc main_arg25) :=
  (W20_keep m ρ c main_arg25 (by decide)).trans <| (W19_of_ne m ρ c main_arg25 (by decide)).trans <| (W18_keep m ρ c main_arg25 (by decide)).trans <| (W17_of_ne m ρ c main_arg25 (by decide)).trans <| (W16_keep m ρ c main_arg25 (by decide)).trans <| (W15_of_ne m ρ c main_arg25 (by decide)).trans <| (W14_keep m ρ c main_arg25 (by decide)).trans <| (W13_of_ne m ρ c main_arg25 (by decide)).trans <| (W12_keep m ρ c main_arg25 (by decide)).trans <| (W11_of_ne m ρ c main_arg25 (by decide)).trans <| (W10_keep m ρ c main_arg25 (by decide)).trans <| (W9_of_ne m ρ c main_arg25 (by decide)).trans <| (W8_keep m ρ c main_arg25 (by decide)).trans <| (W7_of_ne m ρ c main_arg25 (by decide)).trans <| (W6_of_ne m ρ c main_arg25 (by decide)).trans <| (W5_keep m ρ c main_arg25 (by decide)).trans <| (W4_of_ne m ρ c main_arg25 (by decide)).trans <| (W3_keep m ρ c main_arg25 (by decide)).trans <| (W2_of_ne m ρ c main_arg25 (by decide)).trans <| (W1_keep m ρ c main_arg25 (by decide)).trans <| rfl
theorem at20_arg26 (c : Dev nD) : (W20 m ρ c (Proc.devRef .tc main_arg26) : FVec F S64x64 .f32) =
    m ((c : Thread nD τ).loc main_arg26) :=
  (W20_keep m ρ c main_arg26 (by decide)).trans <| (W19_of_ne m ρ c main_arg26 (by decide)).trans <| (W18_keep m ρ c main_arg26 (by decide)).trans <| (W17_of_ne m ρ c main_arg26 (by decide)).trans <| (W16_keep m ρ c main_arg26 (by decide)).trans <| (W15_of_ne m ρ c main_arg26 (by decide)).trans <| (W14_keep m ρ c main_arg26 (by decide)).trans <| (W13_of_ne m ρ c main_arg26 (by decide)).trans <| (W12_keep m ρ c main_arg26 (by decide)).trans <| (W11_of_ne m ρ c main_arg26 (by decide)).trans <| (W10_keep m ρ c main_arg26 (by decide)).trans <| (W9_of_ne m ρ c main_arg26 (by decide)).trans <| (W8_keep m ρ c main_arg26 (by decide)).trans <| (W7_of_ne m ρ c main_arg26 (by decide)).trans <| (W6_of_ne m ρ c main_arg26 (by decide)).trans <| (W5_keep m ρ c main_arg26 (by decide)).trans <| (W4_of_ne m ρ c main_arg26 (by decide)).trans <| (W3_keep m ρ c main_arg26 (by decide)).trans <| (W2_of_ne m ρ c main_arg26 (by decide)).trans <| (W1_keep m ρ c main_arg26 (by decide)).trans <| rfl
theorem at17_v154 (c : Dev nD) : (W17 m ρ c (Proc.devRef .tc main_v154) : FVec F S50000x128 .f32) =
    (dat8 (B16 m ρ) c).arrAt 5 cfg8.N :=
  (W17_arr m ρ c 5)
theorem at21_v155 (c : Dev nD) : (W21 m ρ c (Proc.devRef .tc main_v155) : FVec F S100000x64 .f32) =
    bnUnview ((dat8 (B16 m ρ) c).arrAt 5 cfg8.N) :=
  (W21_of_ne m ρ c main_v155 (by decide)).trans <| (W20_keep m ρ c main_v155 (by decide)).trans <| (W19_of_ne m ρ c main_v155 (by decide)).trans <| (host9_v155 (W17 m ρ c)).trans <| by rw [at17_v154 m ρ c]
theorem at21_arg10 (c : Dev nD) : (W21 m ρ c (Proc.devRef .tc main_arg10) : IVec S2x2000000 32) =
    m ((c : Thread nD τ).loc main_arg10) :=
  (W21_of_ne m ρ c main_arg10 (by decide)).trans <| (W20_keep m ρ c main_arg10 (by decide)).trans <| (W19_of_ne m ρ c main_arg10 (by decide)).trans <| (W18_keep m ρ c main_arg10 (by decide)).trans <| (W17_of_ne m ρ c main_arg10 (by decide)).trans <| (W16_keep m ρ c main_arg10 (by decide)).trans <| (W15_of_ne m ρ c main_arg10 (by decide)).trans <| (W14_keep m ρ c main_arg10 (by decide)).trans <| (W13_of_ne m ρ c main_arg10 (by decide)).trans <| (W12_keep m ρ c main_arg10 (by decide)).trans <| (W11_of_ne m ρ c main_arg10 (by decide)).trans <| (W10_keep m ρ c main_arg10 (by decide)).trans <| (W9_of_ne m ρ c main_arg10 (by decide)).trans <| (W8_keep m ρ c main_arg10 (by decide)).trans <| (W7_of_ne m ρ c main_arg10 (by decide)).trans <| (W6_of_ne m ρ c main_arg10 (by decide)).trans <| (W5_keep m ρ c main_arg10 (by decide)).trans <| (W4_of_ne m ρ c main_arg10 (by decide)).trans <| (W3_keep m ρ c main_arg10 (by decide)).trans <| (W2_of_ne m ρ c main_arg10 (by decide)).trans <| (W1_keep m ρ c main_arg10 (by decide)).trans <| rfl
theorem at22_v215 (c : Dev nD) : (W22 m ρ c (Proc.devRef .tc main_v215) : FVec F S100000x64 .f32) =
    sageAgg (bnUnview ((dat8 (B16 m ρ) c).arrAt 5 cfg8.N)) (m ((c : Thread nD τ).loc main_arg10)) :=
  (host11_v215 (W21 m ρ c)).trans <| by rw [at21_v155 m ρ c, at21_arg10 m ρ c]
theorem at22_v220 (c : Dev nD) : (W22 m ρ c (Proc.devRef .tc main_v220) : FVec F S100000x1 .f32) =
    sageCnt (m ((c : Thread nD τ).loc main_arg10)) :=
  (host11_v220 (W21 m ρ c)).trans <| by rw [at21_arg10 m ρ c]
theorem at22_v199 (c : Dev nD) : (W22 m ρ c (Proc.devRef .tc main_v199) : FVec F S100000x64 .f32) =
    (dat10 (B20 m ρ) c).arrAt 6 cfg10.N :=
  (W22_keep m ρ c main_v199 (by decide)).trans <| (W21_arr m ρ c 6)
theorem at22_arg27 (c : Dev nD) : (W22 m ρ c (Proc.devRef .tc main_arg27) : FVec F S64x64 .f32) =
    m ((c : Thread nD τ).loc main_arg27) :=
  (W22_keep m ρ c main_arg27 (by decide)).trans <| (W21_of_ne m ρ c main_arg27 (by decide)).trans <| (W20_keep m ρ c main_arg27 (by decide)).trans <| (W19_of_ne m ρ c main_arg27 (by decide)).trans <| (W18_keep m ρ c main_arg27 (by decide)).trans <| (W17_of_ne m ρ c main_arg27 (by decide)).trans <| (W16_keep m ρ c main_arg27 (by decide)).trans <| (W15_of_ne m ρ c main_arg27 (by decide)).trans <| (W14_keep m ρ c main_arg27 (by decide)).trans <| (W13_of_ne m ρ c main_arg27 (by decide)).trans <| (W12_keep m ρ c main_arg27 (by decide)).trans <| (W11_of_ne m ρ c main_arg27 (by decide)).trans <| (W10_keep m ρ c main_arg27 (by decide)).trans <| (W9_of_ne m ρ c main_arg27 (by decide)).trans <| (W8_keep m ρ c main_arg27 (by decide)).trans <| (W7_of_ne m ρ c main_arg27 (by decide)).trans <| (W6_of_ne m ρ c main_arg27 (by decide)).trans <| (W5_keep m ρ c main_arg27 (by decide)).trans <| (W4_of_ne m ρ c main_arg27 (by decide)).trans <| (W3_keep m ρ c main_arg27 (by decide)).trans <| (W2_of_ne m ρ c main_arg27 (by decide)).trans <| (W1_keep m ρ c main_arg27 (by decide)).trans <| rfl
theorem at22_arg28 (c : Dev nD) : (W22 m ρ c (Proc.devRef .tc main_arg28) : FVec F S64 .f32) =
    m ((c : Thread nD τ).loc main_arg28) :=
  (W22_keep m ρ c main_arg28 (by decide)).trans <| (W21_of_ne m ρ c main_arg28 (by decide)).trans <| (W20_keep m ρ c main_arg28 (by decide)).trans <| (W19_of_ne m ρ c main_arg28 (by decide)).trans <| (W18_keep m ρ c main_arg28 (by decide)).trans <| (W17_of_ne m ρ c main_arg28 (by decide)).trans <| (W16_keep m ρ c main_arg28 (by decide)).trans <| (W15_of_ne m ρ c main_arg28 (by decide)).trans <| (W14_keep m ρ c main_arg28 (by decide)).trans <| (W13_of_ne m ρ c main_arg28 (by decide)).trans <| (W12_keep m ρ c main_arg28 (by decide)).trans <| (W11_of_ne m ρ c main_arg28 (by decide)).trans <| (W10_keep m ρ c main_arg28 (by decide)).trans <| (W9_of_ne m ρ c main_arg28 (by decide)).trans <| (W8_keep m ρ c main_arg28 (by decide)).trans <| (W7_of_ne m ρ c main_arg28 (by decide)).trans <| (W6_of_ne m ρ c main_arg28 (by decide)).trans <| (W5_keep m ρ c main_arg28 (by decide)).trans <| (W4_of_ne m ρ c main_arg28 (by decide)).trans <| (W3_keep m ρ c main_arg28 (by decide)).trans <| (W2_of_ne m ρ c main_arg28 (by decide)).trans <| (W1_keep m ρ c main_arg28 (by decide)).trans <| rfl
theorem at22_arg29 (c : Dev nD) : (W22 m ρ c (Proc.devRef .tc main_arg29) : FVec F S64x64 .f32) =
    m ((c : Thread nD τ).loc main_arg29) :=
  (W22_keep m ρ c main_arg29 (by decide)).trans <| (W21_of_ne m ρ c main_arg29 (by decide)).trans <| (W20_keep m ρ c main_arg29 (by decide)).trans <| (W19_of_ne m ρ c main_arg29 (by decide)).trans <| (W18_keep m ρ c main_arg29 (by decide)).trans <| (W17_of_ne m ρ c main_arg29 (by decide)).trans <| (W16_keep m ρ c main_arg29 (by decide)).trans <| (W15_of_ne m ρ c main_arg29 (by decide)).trans <| (W14_keep m ρ c main_arg29 (by decide)).trans <| (W13_of_ne m ρ c main_arg29 (by decide)).trans <| (W12_keep m ρ c main_arg29 (by decide)).trans <| (W11_of_ne m ρ c main_arg29 (by decide)).trans <| (W10_keep m ρ c main_arg29 (by decide)).trans <| (W9_of_ne m ρ c main_arg29 (by decide)).trans <| (W8_keep m ρ c main_arg29 (by decide)).trans <| (W7_of_ne m ρ c main_arg29 (by decide)).trans <| (W6_of_ne m ρ c main_arg29 (by decide)).trans <| (W5_keep m ρ c main_arg29 (by decide)).trans <| (W4_of_ne m ρ c main_arg29 (by decide)).trans <| (W3_keep m ρ c main_arg29 (by decide)).trans <| (W2_of_ne m ρ c main_arg29 (by decide)).trans <| (W1_keep m ρ c main_arg29 (by decide)).trans <| rfl
theorem at23_v221 (c : Dev nD) : (W23 m ρ c (Proc.devRef .tc main_v221) : FVec F S100000x64 .f32) =
    (dat11 (B22 m ρ) c).arrAt 6 cfg11.N :=
  (W23_arr m ρ c 6)
theorem at23_arg34 (c : Dev nD) : (W23 m ρ c (Proc.devRef .tc main_arg34) : FVec F S64x64 .f32) =
    m ((c : Thread nD τ).loc main_arg34) :=
  (W23_of_ne m ρ c main_arg34 (by decide)).trans <| (W22_keep m ρ c main_arg34 (by decide)).trans <| (W21_of_ne m ρ c main_arg34 (by decide)).trans <| (W20_keep m ρ c main_arg34 (by decide)).trans <| (W19_of_ne m ρ c main_arg34 (by decide)).trans <| (W18_keep m ρ c main_arg34 (by decide)).trans <| (W17_of_ne m ρ c main_arg34 (by decide)).trans <| (W16_keep m ρ c main_arg34 (by decide)).trans <| (W15_of_ne m ρ c main_arg34 (by decide)).trans <| (W14_keep m ρ c main_arg34 (by decide)).trans <| (W13_of_ne m ρ c main_arg34 (by decide)).trans <| (W12_keep m ρ c main_arg34 (by decide)).trans <| (W11_of_ne m ρ c main_arg34 (by decide)).trans <| (W10_keep m ρ c main_arg34 (by decide)).trans <| (W9_of_ne m ρ c main_arg34 (by decide)).trans <| (W8_keep m ρ c main_arg34 (by decide)).trans <| (W7_of_ne m ρ c main_arg34 (by decide)).trans <| (W6_of_ne m ρ c main_arg34 (by decide)).trans <| (W5_keep m ρ c main_arg34 (by decide)).trans <| (W4_of_ne m ρ c main_arg34 (by decide)).trans <| (W3_keep m ρ c main_arg34 (by decide)).trans <| (W2_of_ne m ρ c main_arg34 (by decide)).trans <| (W1_keep m ρ c main_arg34 (by decide)).trans <| rfl
theorem at24_v222 (c : Dev nD) : (W24 m ρ c (Proc.devRef .tc main_v222) : FVec F S100000x64 .f32) =
    (dat12 (B23 m ρ) c).arrAt 2 cfg12.N :=
  (W24_arr m ρ c 2)
theorem at24_arg8 (c : Dev nD) : (W24 m ρ c (Proc.devRef .tc main_arg8) : IVec S2x2000000 32) =
    m ((c : Thread nD τ).loc main_arg8) :=
  (W24_of_ne m ρ c main_arg8 (by decide)).trans <| (W23_of_ne m ρ c main_arg8 (by decide)).trans <| (W22_keep m ρ c main_arg8 (by decide)).trans <| (W21_of_ne m ρ c main_arg8 (by decide)).trans <| (W20_keep m ρ c main_arg8 (by decide)).trans <| (W19_of_ne m ρ c main_arg8 (by decide)).trans <| (W18_keep m ρ c main_arg8 (by decide)).trans <| (W17_of_ne m ρ c main_arg8 (by decide)).trans <| (W16_keep m ρ c main_arg8 (by decide)).trans <| (W15_of_ne m ρ c main_arg8 (by decide)).trans <| (W14_keep m ρ c main_arg8 (by decide)).trans <| (W13_of_ne m ρ c main_arg8 (by decide)).trans <| (W12_keep m ρ c main_arg8 (by decide)).trans <| (W11_of_ne m ρ c main_arg8 (by decide)).trans <| (W10_keep m ρ c main_arg8 (by decide)).trans <| (W9_of_ne m ρ c main_arg8 (by decide)).trans <| (W8_keep m ρ c main_arg8 (by decide)).trans <| (W7_of_ne m ρ c main_arg8 (by decide)).trans <| (W6_of_ne m ρ c main_arg8 (by decide)).trans <| (W5_keep m ρ c main_arg8 (by decide)).trans <| (W4_of_ne m ρ c main_arg8 (by decide)).trans <| (W3_keep m ρ c main_arg8 (by decide)).trans <| (W2_of_ne m ρ c main_arg8 (by decide)).trans <| (W1_keep m ρ c main_arg8 (by decide)).trans <| rfl
theorem at25_v248 (c : Dev nD) : (W25 m ρ c (Proc.devRef .tc main_v248) : FVec F S100000x64 .f32) =
    gcnAgg ((dat12 (B23 m ρ) c).arrAt 2 cfg12.N) (m ((c : Thread nD τ).loc main_arg8)) :=
  (host13_v248 (W24 m ρ c)).trans <| by rw [at24_v222 m ρ c, at24_arg8 m ρ c]
theorem at25_v236 (c : Dev nD) : (W25 m ρ c (Proc.devRef .tc main_v236) : FVec F S100000x64 .f32) =
    gcnScaled ((dat12 (B23 m ρ) c).arrAt 2 cfg12.N) (m ((c : Thread nD τ).loc main_arg8)) :=
  (host13_v236 (W24 m ρ c)).trans <| by rw [at24_v222 m ρ c, at24_arg8 m ρ c]
theorem at25_v249 (c : Dev nD) : (W25 m ρ c (Proc.devRef .tc main_v249) : FVec F S100000x1 .f32) =
    gcnDinvCol (m ((c : Thread nD τ).loc main_arg8)) :=
  (host13_v249 (W24 m ρ c)).trans <| by rw [at24_arg8 m ρ c]
theorem at25_arg35 (c : Dev nD) : (W25 m ρ c (Proc.devRef .tc main_arg35) : FVec F S64 .f32) =
    m ((c : Thread nD τ).loc main_arg35) :=
  (W25_keep m ρ c main_arg35 (by decide)).trans <| (W24_of_ne m ρ c main_arg35 (by decide)).trans <| (W23_of_ne m ρ c main_arg35 (by decide)).trans <| (W22_keep m ρ c main_arg35 (by decide)).trans <| (W21_of_ne m ρ c main_arg35 (by decide)).trans <| (W20_keep m ρ c main_arg35 (by decide)).trans <| (W19_of_ne m ρ c main_arg35 (by decide)).trans <| (W18_keep m ρ c main_arg35 (by decide)).trans <| (W17_of_ne m ρ c main_arg35 (by decide)).trans <| (W16_keep m ρ c main_arg35 (by decide)).trans <| (W15_of_ne m ρ c main_arg35 (by decide)).trans <| (W14_keep m ρ c main_arg35 (by decide)).trans <| (W13_of_ne m ρ c main_arg35 (by decide)).trans <| (W12_keep m ρ c main_arg35 (by decide)).trans <| (W11_of_ne m ρ c main_arg35 (by decide)).trans <| (W10_keep m ρ c main_arg35 (by decide)).trans <| (W9_of_ne m ρ c main_arg35 (by decide)).trans <| (W8_keep m ρ c main_arg35 (by decide)).trans <| (W7_of_ne m ρ c main_arg35 (by decide)).trans <| (W6_of_ne m ρ c main_arg35 (by decide)).trans <| (W5_keep m ρ c main_arg35 (by decide)).trans <| (W4_of_ne m ρ c main_arg35 (by decide)).trans <| (W3_keep m ρ c main_arg35 (by decide)).trans <| (W2_of_ne m ρ c main_arg35 (by decide)).trans <| (W1_keep m ρ c main_arg35 (by decide)).trans <| rfl
theorem at26_v250_0 (c : Dev nD) : (W26 m ρ c (Proc.devRef .tc main_v250_0) : FVec F S100000x64 .f32) =
    (dat13 (B25 m ρ) c).arrAt 4 cfg13.N :=
  (W26_arr m ρ c 4)
theorem at27_v260 (c : Dev nD) : (W27 m ρ c (Proc.devRef .tc main_v260) : FVec F S50000x128 .f32) =
    bnView ((dat13 (B25 m ρ) c).arrAt 4 cfg13.N) :=
  (host14_v260 (W26 m ρ c)).trans <| by rw [at26_v250_0 m ρ c]
theorem at26_v250_1 (c : Dev nD) : (W26 m ρ c (Proc.devRef .tc main_v250_1) : FVec F S1x64 .f32) =
    (dat13 (B25 m ρ) c).arrAt 5 cfg13.N :=
  (W26_arr m ρ c 5)
theorem at27_v261 (c : Dev nD) : (W27 m ρ c (Proc.devRef .tc main_v261) : FVec F S1x128 .f32) =
    bnPair (bnMean ((dat13 (B25 m ρ) c).arrAt 5 cfg13.N)) :=
  (host14_v261 (W26 m ρ c)).trans <| by rw [at26_v250_1 m ρ c]
theorem at26_v250_2 (c : Dev nD) : (W26 m ρ c (Proc.devRef .tc main_v250_2) : FVec F S1x64 .f32) =
    (dat13 (B25 m ρ) c).arrAt 6 cfg13.N :=
  (W26_arr m ρ c 6)
theorem at27_v262 (c : Dev nD) : (W27 m ρ c (Proc.devRef .tc main_v262) : FVec F S1x128 .f32) =
    bnPair (bnInvStd ((dat13 (B25 m ρ) c).arrAt 5 cfg13.N) ((dat13 (B25 m ρ) c).arrAt 6 cfg13.N)) :=
  (host14_v262 (W26 m ρ c)).trans <| by rw [at26_v250_1 m ρ c, at26_v250_2 m ρ c]
theorem at26_arg40 (c : Dev nD) : (W26 m ρ c (Proc.devRef .tc main_arg40) : FVec F S64 .f32) =
    m ((c : Thread nD τ).loc main_arg40) :=
  (W26_of_ne m ρ c main_arg40 (by decide)).trans <| (W25_keep m ρ c main_arg40 (by decide)).trans <| (W24_of_ne m ρ c main_arg40 (by decide)).trans <| (W23_of_ne m ρ c main_arg40 (by decide)).trans <| (W22_keep m ρ c main_arg40 (by decide)).trans <| (W21_of_ne m ρ c main_arg40 (by decide)).trans <| (W20_keep m ρ c main_arg40 (by decide)).trans <| (W19_of_ne m ρ c main_arg40 (by decide)).trans <| (W18_keep m ρ c main_arg40 (by decide)).trans <| (W17_of_ne m ρ c main_arg40 (by decide)).trans <| (W16_keep m ρ c main_arg40 (by decide)).trans <| (W15_of_ne m ρ c main_arg40 (by decide)).trans <| (W14_keep m ρ c main_arg40 (by decide)).trans <| (W13_of_ne m ρ c main_arg40 (by decide)).trans <| (W12_keep m ρ c main_arg40 (by decide)).trans <| (W11_of_ne m ρ c main_arg40 (by decide)).trans <| (W10_keep m ρ c main_arg40 (by decide)).trans <| (W9_of_ne m ρ c main_arg40 (by decide)).trans <| (W8_keep m ρ c main_arg40 (by decide)).trans <| (W7_of_ne m ρ c main_arg40 (by decide)).trans <| (W6_of_ne m ρ c main_arg40 (by decide)).trans <| (W5_keep m ρ c main_arg40 (by decide)).trans <| (W4_of_ne m ρ c main_arg40 (by decide)).trans <| (W3_keep m ρ c main_arg40 (by decide)).trans <| (W2_of_ne m ρ c main_arg40 (by decide)).trans <| (W1_keep m ρ c main_arg40 (by decide)).trans <| rfl
theorem at27_v263 (c : Dev nD) : (W27 m ρ c (Proc.devRef .tc main_v263) : FVec F S128 .f32) =
    bnPair1 (m ((c : Thread nD τ).loc main_arg40)) :=
  (host14_v263 (W26 m ρ c)).trans <| by rw [at26_arg40 m ρ c]
theorem at26_arg41 (c : Dev nD) : (W26 m ρ c (Proc.devRef .tc main_arg41) : FVec F S64 .f32) =
    m ((c : Thread nD τ).loc main_arg41) :=
  (W26_of_ne m ρ c main_arg41 (by decide)).trans <| (W25_keep m ρ c main_arg41 (by decide)).trans <| (W24_of_ne m ρ c main_arg41 (by decide)).trans <| (W23_of_ne m ρ c main_arg41 (by decide)).trans <| (W22_keep m ρ c main_arg41 (by decide)).trans <| (W21_of_ne m ρ c main_arg41 (by decide)).trans <| (W20_keep m ρ c main_arg41 (by decide)).trans <| (W19_of_ne m ρ c main_arg41 (by decide)).trans <| (W18_keep m ρ c main_arg41 (by decide)).trans <| (W17_of_ne m ρ c main_arg41 (by decide)).trans <| (W16_keep m ρ c main_arg41 (by decide)).trans <| (W15_of_ne m ρ c main_arg41 (by decide)).trans <| (W14_keep m ρ c main_arg41 (by decide)).trans <| (W13_of_ne m ρ c main_arg41 (by decide)).trans <| (W12_keep m ρ c main_arg41 (by decide)).trans <| (W11_of_ne m ρ c main_arg41 (by decide)).trans <| (W10_keep m ρ c main_arg41 (by decide)).trans <| (W9_of_ne m ρ c main_arg41 (by decide)).trans <| (W8_keep m ρ c main_arg41 (by decide)).trans <| (W7_of_ne m ρ c main_arg41 (by decide)).trans <| (W6_of_ne m ρ c main_arg41 (by decide)).trans <| (W5_keep m ρ c main_arg41 (by decide)).trans <| (W4_of_ne m ρ c main_arg41 (by decide)).trans <| (W3_keep m ρ c main_arg41 (by decide)).trans <| (W2_of_ne m ρ c main_arg41 (by decide)).trans <| (W1_keep m ρ c main_arg41 (by decide)).trans <| rfl
theorem at27_v264 (c : Dev nD) : (W27 m ρ c (Proc.devRef .tc main_v264) : FVec F S128 .f32) =
    bnPair1 (m ((c : Thread nD τ).loc main_arg41)) :=
  (host14_v264 (W26 m ρ c)).trans <| by rw [at26_arg41 m ρ c]
theorem at28_v265 (c : Dev nD) : (W28 m ρ c (Proc.devRef .tc main_v265) : FVec F S50000x128 .f32) =
    (dat14 (B27 m ρ) c).arrAt 5 cfg14.N :=
  (W28_arr m ρ c 5)
theorem at29_v266 (c : Dev nD) : (W29 m ρ c (Proc.devRef .tc main_v266) : FVec F S100000x64 .f32) =
    bnUnview ((dat14 (B27 m ρ) c).arrAt 5 cfg14.N) :=
  (host15_v266 (W28 m ρ c)).trans <| by rw [at28_v265 m ρ c]
theorem at29_v110 (c : Dev nD) : (W29 m ρ c (Proc.devRef .tc main_v110) : FVec F S100000x64 .f32) =
    bnUnview ((dat5 (B10 m ρ) c).arrAt 5 cfg5.N) :=
  (W29_keep m ρ c main_v110 (by decide)).trans <| (W28_of_ne m ρ c main_v110 (by decide)).trans <| (W27_keep m ρ c main_v110 (by decide)).trans <| (W26_of_ne m ρ c main_v110 (by decide)).trans <| (W25_keep m ρ c main_v110 (by decide)).trans <| (W24_of_ne m ρ c main_v110 (by decide)).trans <| (W23_of_ne m ρ c main_v110 (by decide)).trans <| (W22_keep m ρ c main_v110 (by decide)).trans <| (W21_of_ne m ρ c main_v110 (by decide)).trans <| (W20_keep m ρ c main_v110 (by decide)).trans <| (W19_of_ne m ρ c main_v110 (by decide)).trans <| (W18_keep m ρ c main_v110 (by decide)).trans <| (W17_of_ne m ρ c main_v110 (by decide)).trans <| (W16_keep m ρ c main_v110 (by decide)).trans <| (W15_of_ne m ρ c main_v110 (by decide)).trans <| (W14_keep m ρ c main_v110 (by decide)).trans <| (W13_of_ne m ρ c main_v110 (by decide)).trans <| (host6_v110 (W11 m ρ c)).trans <| by rw [at11_v109 m ρ c]
theorem at29_v155 (c : Dev nD) : (W29 m ρ c (Proc.devRef .tc main_v155) : FVec F S100000x64 .f32) =
    bnUnview ((dat8 (B16 m ρ) c).arrAt 5 cfg8.N) :=
  (W29_keep m ρ c main_v155 (by decide)).trans <| (W28_of_ne m ρ c main_v155 (by decide)).trans <| (W27_keep m ρ c main_v155 (by decide)).trans <| (W26_of_ne m ρ c main_v155 (by decide)).trans <| (W25_keep m ρ c main_v155 (by decide)).trans <| (W24_of_ne m ρ c main_v155 (by decide)).trans <| (W23_of_ne m ρ c main_v155 (by decide)).trans <| (W22_keep m ρ c main_v155 (by decide)).trans <| (W21_of_ne m ρ c main_v155 (by decide)).trans <| (W20_keep m ρ c main_v155 (by decide)).trans <| (W19_of_ne m ρ c main_v155 (by decide)).trans <| (host9_v155 (W17 m ρ c)).trans <| by rw [at17_v154 m ρ c]

/-! ## The kernels' input arrays on entry -/

/-- Region 0, window 0. -/
theorem in0_0 (c : Dev nD) : (B1 m ρ c main_v15 : FVec F S100000x64 .f32) =
    sageAgg (m ((c : Thread nD τ).loc main_arg1)) (m ((c : Thread nD τ).loc main_arg5)) :=
  at1_v15 m ρ c
/-- Region 0, window 1. -/
theorem in0_1 (c : Dev nD) : (B1 m ρ c main_v20 : FVec F S100000x1 .f32) =
    sageCnt (m ((c : Thread nD τ).loc main_arg5)) :=
  at1_v20 m ρ c
/-- Region 0, window 2. -/
theorem in0_2 (c : Dev nD) : (B1 m ρ c main_arg0 : FVec F S100000x32 .f32) =
    m ((c : Thread nD τ).loc main_arg0) :=
  at1_arg0 m ρ c
/-- Region 0, window 3. -/
theorem in0_3 (c : Dev nD) : (B1 m ρ c main_arg12 : FVec F S64x64 .f32) =
    m ((c : Thread nD τ).loc main_arg12) :=
  at1_arg12 m ρ c
/-- Region 0, window 4. -/
theorem in0_4 (c : Dev nD) : (B1 m ρ c main_arg13 : FVec F S64 .f32) =
    m ((c : Thread nD τ).loc main_arg13) :=
  at1_arg13 m ρ c
/-- Region 0, window 5. -/
theorem in0_5 (c : Dev nD) : (B1 m ρ c main_arg14 : FVec F S32x64 .f32) =
    m ((c : Thread nD τ).loc main_arg14) :=
  at1_arg14 m ρ c
/-- Region 1, window 0. -/
theorem in1_0 (c : Dev nD) : (B3 m ρ c main_v37 : FVec F S100000x64 .f32) =
    sageAgg (m ((c : Thread nD τ).loc main_arg1)) (m ((c : Thread nD τ).loc main_arg7)) :=
  at3_v37 m ρ c
/-- Region 1, window 1. -/
theorem in1_1 (c : Dev nD) : (B3 m ρ c main_v42 : FVec F S100000x1 .f32) =
    sageCnt (m ((c : Thread nD τ).loc main_arg7)) :=
  at3_v42 m ρ c
/-- Region 1, window 2. -/
theorem in1_2 (c : Dev nD) : (B3 m ρ c main_v21 : FVec F S100000x64 .f32) =
    (dat0 (B1 m ρ) c).arrAt 6 cfg0.N :=
  at3_v21 m ρ c
/-- Region 1, window 3. -/
theorem in1_3 (c : Dev nD) : (B3 m ρ c main_arg15 : FVec F S64x64 .f32) =
    m ((c : Thread nD τ).loc main_arg15) :=
  at3_arg15 m ρ c
/-- Region 1, window 4. -/
theorem in1_4 (c : Dev nD) : (B3 m ρ c main_arg16 : FVec F S64 .f32) =
    m ((c : Thread nD τ).loc main_arg16) :=
  at3_arg16 m ρ c
/-- Region 1, window 5. -/
theorem in1_5 (c : Dev nD) : (B3 m ρ c main_arg17 : FVec F S64x64 .f32) =
    m ((c : Thread nD τ).loc main_arg17) :=
  at3_arg17 m ρ c
/-- Region 2, window 0. -/
theorem in2_0 (c : Dev nD) : (B5 m ρ c main_v59 : FVec F S100000x64 .f32) =
    sageAgg (m ((c : Thread nD τ).loc main_arg1)) (m ((c : Thread nD τ).loc main_arg11)) :=
  at5_v59 m ρ c
/-- Region 2, window 1. -/
theorem in2_1 (c : Dev nD) : (B5 m ρ c main_v64 : FVec F S100000x1 .f32) =
    sageCnt (m ((c : Thread nD τ).loc main_arg11)) :=
  at5_v64 m ρ c
/-- Region 2, window 2. -/
theorem in2_2 (c : Dev nD) : (B5 m ρ c main_arg2 : FVec F S100000x32 .f32) =
    m ((c : Thread nD τ).loc main_arg2) :=
  at5_arg2 m ρ c
/-- Region 2, window 3. -/
theorem in2_3 (c : Dev nD) : (B5 m ρ c main_arg18 : FVec F S64x64 .f32) =
    m ((c : Thread nD τ).loc main_arg18) :=
  at5_arg18 m ρ c
/-- Region 2, window 4. -/
theorem in2_4 (c : Dev nD) : (B5 m ρ c main_arg19 : FVec F S64 .f32) =
    m ((c : Thread nD τ).loc main_arg19) :=
  at5_arg19 m ρ c
/-- Region 2, window 5. -/
theorem in2_5 (c : Dev nD) : (B5 m ρ c main_arg20 : FVec F S32x64 .f32) =
    m ((c : Thread nD τ).loc main_arg20) :=
  at5_arg20 m ρ c
/-- Region 3, window 0. -/
theorem in3_0 (c : Dev nD) : (B6 m ρ c main_v43 : FVec F S100000x64 .f32) =
    (dat1 (B3 m ρ) c).arrAt 6 cfg1.N :=
  at6_v43 m ρ c
/-- Region 3, window 1. -/
theorem in3_1 (c : Dev nD) : (B6 m ρ c main_arg30 : FVec F S64x64 .f32) =
    m ((c : Thread nD τ).loc main_arg30) :=
  at6_arg30 m ρ c
/-- Region 4, window 0. -/
theorem in4_0 (c : Dev nD) : (B8 m ρ c main_v92 : FVec F S100000x64 .f32) =
    gcnAgg ((dat3 (B6 m ρ) c).arrAt 2 cfg3.N) (m ((c : Thread nD τ).loc main_arg3)) :=
  at8_v92 m ρ c
/-- Region 4, window 1. -/
theorem in4_1 (c : Dev nD) : (B8 m ρ c main_v80 : FVec F S100000x64 .f32) =
    gcnScaled ((dat3 (B6 m ρ) c).arrAt 2 cfg3.N) (m ((c : Thread nD τ).loc main_arg3)) :=
  at8_v80 m ρ c
/-- Region 4, window 2. -/
theorem in4_2 (c : Dev nD) : (B8 m ρ c main_v93 : FVec F S100000x1 .f32) =
    gcnDinvCol (m ((c : Thread nD τ).loc main_arg3)) :=
  at8_v93 m ρ c
/-- Region 4, window 3. -/
theorem in4_3 (c : Dev nD) : (B8 m ρ c main_arg31 : FVec F S64 .f32) =
    m ((c : Thread nD τ).loc main_arg31) :=
  at8_arg31 m ρ c
/-- Region 5, window 0. -/
theorem in5_0 (c : Dev nD) : (B10 m ρ c main_v104 : FVec F S50000x128 .f32) =
    bnView ((dat4 (B8 m ρ) c).arrAt 4 cfg4.N) :=
  at10_v104 m ρ c
/-- Region 5, window 1. -/
theorem in5_1 (c : Dev nD) : (B10 m ρ c main_v105 : FVec F S1x128 .f32) =
    bnPair (bnMean ((dat4 (B8 m ρ) c).arrAt 5 cfg4.N)) :=
  at10_v105 m ρ c
/-- Region 5, window 2. -/
theorem in5_2 (c : Dev nD) : (B10 m ρ c main_v106 : FVec F S1x128 .f32) =
    bnPair (bnInvStd ((dat4 (B8 m ρ) c).arrAt 5 cfg4.N) ((dat4 (B8 m ρ) c).arrAt 6 cfg4.N)) :=
  at10_v106 m ρ c
/-- Region 5, window 3. -/
theorem in5_3 (c : Dev nD) : (B10 m ρ c main_v107 : FVec F S128 .f32) =
    bnPair1 (m ((c : Thread nD τ).loc main_arg36)) :=
  at10_v107 m ρ c
/-- Region 5, window 4. -/
theorem in5_4 (c : Dev nD) : (B10 m ρ c main_v108 : FVec F S128 .f32) =
    bnPair1 (m ((c : Thread nD τ).loc main_arg37)) :=
  at10_v108 m ρ c
/-- Region 6, window 0. -/
theorem in6_0 (c : Dev nD) : (B12 m ρ c main_v65 : FVec F S100000x64 .f32) =
    (dat2 (B5 m ρ) c).arrAt 6 cfg2.N :=
  at12_v65 m ρ c
/-- Region 6, window 1. -/
theorem in6_1 (c : Dev nD) : (B12 m ρ c main_arg32 : FVec F S64x64 .f32) =
    m ((c : Thread nD τ).loc main_arg32) :=
  at12_arg32 m ρ c
/-- Region 7, window 0. -/
theorem in7_0 (c : Dev nD) : (B14 m ρ c main_v137 : FVec F S100000x64 .f32) =
    gcnAgg ((dat6 (B12 m ρ) c).arrAt 2 cfg6.N) (m ((c : Thread nD τ).loc main_arg9)) :=
  at14_v137 m ρ c
/-- Region 7, window 1. -/
theorem in7_1 (c : Dev nD) : (B14 m ρ c main_v125 : FVec F S100000x64 .f32) =
    gcnScaled ((dat6 (B12 m ρ) c).arrAt 2 cfg6.N) (m ((c : Thread nD τ).loc main_arg9)) :=
  at14_v125 m ρ c
/-- Region 7, window 2. -/
theorem in7_2 (c : Dev nD) : (B14 m ρ c main_v138 : FVec F S100000x1 .f32) =
    gcnDinvCol (m ((c : Thread nD τ).loc main_arg9)) :=
  at14_v138 m ρ c
/-- Region 7, window 3. -/
theorem in7_3 (c : Dev nD) : (B14 m ρ c main_arg33 : FVec F S64 .f32) =
    m ((c : Thread nD τ).loc main_arg33) :=
  at14_arg33 m ρ c
/-- Region 8, window 0. -/
theorem in8_0 (c : Dev nD) : (B16 m ρ c main_v149 : FVec F S50000x128 .f32) =
    bnView ((dat7 (B14 m ρ) c).arrAt 4 cfg7.N) :=
  at16_v149 m ρ c
/-- Region 8, window 1. -/
theorem in8_1 (c : Dev nD) : (B16 m ρ c main_v150 : FVec F S1x128 .f32) =
    bnPair (bnMean ((dat7 (B14 m ρ) c).arrAt 5 cfg7.N)) :=
  at16_v150 m ρ c
/-- Region 8, window 2. -/
theorem in8_2 (c : Dev nD) : (B16 m ρ c main_v151 : FVec F S1x128 .f32) =
    bnPair (bnInvStd ((dat7 (B14 m ρ) c).arrAt 5 cfg7.N) ((dat7 (B14 m ρ) c).arrAt 6 cfg7.N)) :=
  at16_v151 m ρ c
/-- Region 8, window 3. -/
theorem in8_3 (c : Dev nD) : (B16 m ρ c main_v152 : FVec F S128 .f32) =
    bnPair1 (m ((c : Thread nD τ).loc main_arg38)) :=
  at16_v152 m ρ c
/-- Region 8, window 4. -/
theorem in8_4 (c : Dev nD) : (B16 m ρ c main_v153 : FVec F S128 .f32) =
    bnPair1 (m ((c : Thread nD τ).loc main_arg39)) :=
  at16_v153 m ρ c
/-- Region 9, window 0. -/
theorem in9_0 (c : Dev nD) : (B18 m ρ c main_v171 : FVec F S100000x64 .f32) =
    sageAgg (bnUnview ((dat5 (B10 m ρ) c).arrAt 5 cfg5.N)) (m ((c : Thread nD τ).loc main_arg4)) :=
  at18_v171 m ρ c
/-- Region 9, window 1. -/
theorem in9_1 (c : Dev nD) : (B18 m ρ c main_v176 : FVec F S100000x1 .f32) =
    sageCnt (m ((c : Thread nD τ).loc main_arg4)) :=
  at18_v176 m ρ c
/-- Region 9, window 2. -/
theorem in9_2 (c : Dev nD) : (B18 m ρ c main_arg1 : FVec F S100000x64 .f32) =
    m ((c : Thread nD τ).loc main_arg1) :=
  at18_arg1 m ρ c
/-- Region 9, window 3. -/
theorem in9_3 (c : Dev nD) : (B18 m ρ c main_arg21 : FVec F S64x64 .f32) =
    m ((c : Thread nD τ).loc main_arg21) :=
  at18_arg21 m ρ c
/-- Region 9, window 4. -/
theorem in9_4 (c : Dev nD) : (B18 m ρ c main_arg22 : FVec F S64 .f32) =
    m ((c : Thread nD τ).loc main_arg22) :=
  at18_arg22 m ρ c
/-- Region 9, window 5. -/
theorem in9_5 (c : Dev nD) : (B18 m ρ c main_arg23 : FVec F S64x64 .f32) =
    m ((c : Thread nD τ).loc main_arg23) :=
  at18_arg23 m ρ c
/-- Region 10, window 0. -/
theorem in10_0 (c : Dev nD) : (B20 m ρ c main_v193 : FVec F S100000x64 .f32) =
    sageAgg (bnUnview ((dat5 (B10 m ρ) c).arrAt 5 cfg5.N)) (m ((c : Thread nD τ).loc main_arg6)) :=
  at20_v193 m ρ c
/-- Region 10, window 1. -/
theorem in10_1 (c : Dev nD) : (B20 m ρ c main_v198 : FVec F S100000x1 .f32) =
    sageCnt (m ((c : Thread nD τ).loc main_arg6)) :=
  at20_v198 m ρ c
/-- Region 10, window 2. -/
theorem in10_2 (c : Dev nD) : (B20 m ρ c main_v177 : FVec F S100000x64 .f32) =
    (dat9 (B18 m ρ) c).arrAt 6 cfg9.N :=
  at20_v177 m ρ c
/-- Region 10, window 3. -/
theorem in10_3 (c : Dev nD) : (B20 m ρ c main_arg24 : FVec F S64x64 .f32) =
    m ((c : Thread nD τ).loc main_arg24) :=
  at20_arg24 m ρ c
/-- Region 10, window 4. -/
theorem in10_4 (c : Dev nD) : (B20 m ρ c main_arg25 : FVec F S64 .f32) =
    m ((c : Thread nD τ).loc main_arg25) :=
  at20_arg25 m ρ c
/-- Region 10, window 5. -/
theorem in10_5 (c : Dev nD) : (B20 m ρ c main_arg26 : FVec F S64x64 .f32) =
    m ((c : Thread nD τ).loc main_arg26) :=
  at20_arg26 m ρ c
/-- Region 11, window 0. -/
theorem in11_0 (c : Dev nD) : (B22 m ρ c main_v215 : FVec F S100000x64 .f32) =
    sageAgg (bnUnview ((dat8 (B16 m ρ) c).arrAt 5 cfg8.N)) (m ((c : Thread nD τ).loc main_arg10)) :=
  at22_v215 m ρ c
/-- Region 11, window 1. -/
theorem in11_1 (c : Dev nD) : (B22 m ρ c main_v220 : FVec F S100000x1 .f32) =
    sageCnt (m ((c : Thread nD τ).loc main_arg10)) :=
  at22_v220 m ρ c
/-- Region 11, window 2. -/
theorem in11_2 (c : Dev nD) : (B22 m ρ c main_v199 : FVec F S100000x64 .f32) =
    (dat10 (B20 m ρ) c).arrAt 6 cfg10.N :=
  at22_v199 m ρ c
/-- Region 11, window 3. -/
theorem in11_3 (c : Dev nD) : (B22 m ρ c main_arg27 : FVec F S64x64 .f32) =
    m ((c : Thread nD τ).loc main_arg27) :=
  at22_arg27 m ρ c
/-- Region 11, window 4. -/
theorem in11_4 (c : Dev nD) : (B22 m ρ c main_arg28 : FVec F S64 .f32) =
    m ((c : Thread nD τ).loc main_arg28) :=
  at22_arg28 m ρ c
/-- Region 11, window 5. -/
theorem in11_5 (c : Dev nD) : (B22 m ρ c main_arg29 : FVec F S64x64 .f32) =
    m ((c : Thread nD τ).loc main_arg29) :=
  at22_arg29 m ρ c
/-- Region 12, window 0. -/
theorem in12_0 (c : Dev nD) : (B23 m ρ c main_v221 : FVec F S100000x64 .f32) =
    (dat11 (B22 m ρ) c).arrAt 6 cfg11.N :=
  at23_v221 m ρ c
/-- Region 12, window 1. -/
theorem in12_1 (c : Dev nD) : (B23 m ρ c main_arg34 : FVec F S64x64 .f32) =
    m ((c : Thread nD τ).loc main_arg34) :=
  at23_arg34 m ρ c
/-- Region 13, window 0. -/
theorem in13_0 (c : Dev nD) : (B25 m ρ c main_v248 : FVec F S100000x64 .f32) =
    gcnAgg ((dat12 (B23 m ρ) c).arrAt 2 cfg12.N) (m ((c : Thread nD τ).loc main_arg8)) :=
  at25_v248 m ρ c
/-- Region 13, window 1. -/
theorem in13_1 (c : Dev nD) : (B25 m ρ c main_v236 : FVec F S100000x64 .f32) =
    gcnScaled ((dat12 (B23 m ρ) c).arrAt 2 cfg12.N) (m ((c : Thread nD τ).loc main_arg8)) :=
  at25_v236 m ρ c
/-- Region 13, window 2. -/
theorem in13_2 (c : Dev nD) : (B25 m ρ c main_v249 : FVec F S100000x1 .f32) =
    gcnDinvCol (m ((c : Thread nD τ).loc main_arg8)) :=
  at25_v249 m ρ c
/-- Region 13, window 3. -/
theorem in13_3 (c : Dev nD) : (B25 m ρ c main_arg35 : FVec F S64 .f32) =
    m ((c : Thread nD τ).loc main_arg35) :=
  at25_arg35 m ρ c
/-- Region 14, window 0. -/
theorem in14_0 (c : Dev nD) : (B27 m ρ c main_v260 : FVec F S50000x128 .f32) =
    bnView ((dat13 (B25 m ρ) c).arrAt 4 cfg13.N) :=
  at27_v260 m ρ c
/-- Region 14, window 1. -/
theorem in14_1 (c : Dev nD) : (B27 m ρ c main_v261 : FVec F S1x128 .f32) =
    bnPair (bnMean ((dat13 (B25 m ρ) c).arrAt 5 cfg13.N)) :=
  at27_v261 m ρ c
/-- Region 14, window 2. -/
theorem in14_2 (c : Dev nD) : (B27 m ρ c main_v262 : FVec F S1x128 .f32) =
    bnPair (bnInvStd ((dat13 (B25 m ρ) c).arrAt 5 cfg13.N) ((dat13 (B25 m ρ) c).arrAt 6 cfg13.N)) :=
  at27_v262 m ρ c
/-- Region 14, window 3. -/
theorem in14_3 (c : Dev nD) : (B27 m ρ c main_v263 : FVec F S128 .f32) =
    bnPair1 (m ((c : Thread nD τ).loc main_arg40)) :=
  at27_v263 m ρ c
/-- Region 14, window 4. -/
theorem in14_4 (c : Dev nD) : (B27 m ρ c main_v264 : FVec F S128 .f32) =
    bnPair1 (m ((c : Thread nD τ).loc main_arg41)) :=
  at27_v264 m ρ c

/-! ## The three results -/

/-- The first result: the [100000, 64] view of the last batch-norm apply's output. -/
theorem out_s (c : Dev nD) : (W29 m ρ c (Proc.devRef .tc main_v266) : FVec F S100000x64 .f32) =
    bnUnview ((dat14 (B27 m ρ) c).arrAt 5 cfg14.N) :=
  at29_v266 m ρ c
/-- The second result: the [100000, 64] view of the first batch-norm apply's output. -/
theorem out_g (c : Dev nD) : (W29 m ρ c (Proc.devRef .tc main_v110) : FVec F S100000x64 .f32) =
    bnUnview ((dat5 (B10 m ρ) c).arrAt 5 cfg5.N) :=
  at29_v110 m ρ c
/-- The third result: the [100000, 64] view of the second batch-norm apply's output. -/
theorem out_p (c : Dev nD) : (W29 m ρ c (Proc.devRef .tc main_v155) : FVec F S100000x64 .f32) =
    bnUnview ((dat8 (B16 m ρ) c).arrAt 5 cfg8.N) :=
  at29_v155 m ρ c

end Cert.KernelIdeal.Fr

end
-- ==== Proof.LibSage.lean ====
/-
  A matrix product into a zero accumulator whose dimension numbers contract the LAST axis of the left operand with the
  FIRST axis of the right one — rows against columns, `A · B` — read at coordinates at the ideal values; and the
  square root of a vector read at an index.
-/
import Idealize.ShloMosaic.Lib.ValueIdx
import Idealize.ShloMosaic.PureOps.Ideal.Laws

noncomputable section

namespace Cert.LibSage

open Idealize.ShloMosaic Idealize.ShloMosaic.ValueIdx
open scoped BigOperators

/-- Rows against columns: the matrix product into zeros that contracts the last axis of the left operand with the
    first axis of the right one is, at entry `(p, q)`, the sum over the contraction position `j` of
    `A (p, j) · B (j, q)`. The four coordinate facts of the dimension numbers are hypotheses. -/
theorem matmul_zero_rows_cols {n k c : Nat} {φ₁ φ₂ : FTy}
    (D : DotDims ⟨2, ![n, k]⟩ ⟨2, ![k, c]⟩ ⟨2, ![n, c]⟩) (hr : D.contr.rank = 1)
    (hs : D.contr.size ⟨0, by omega⟩ = k)
    (l0 : ∀ (i : (⟨2, ![n, c]⟩ : Shape).Idx) (q : D.contr.Idx), (D.lhsIdx i q 0).val = (i 0).val)
    (l1 : ∀ (i : (⟨2, ![n, c]⟩ : Shape).Idx) (q : D.contr.Idx), (D.lhsIdx i q 1).val = (q ⟨0, by omega⟩).val)
    (r0 : ∀ (i : (⟨2, ![n, c]⟩ : Shape).Idx) (q : D.contr.Idx), (D.rhsIdx i q 0).val = (q ⟨0, by omega⟩).val)
    (r1 : ∀ (i : (⟨2, ![n, c]⟩ : Shape).Idx) (q : D.contr.Idx), (D.rhsIdx i q 1).val = (i 1).val)
    (prec : Option ContractPrecision) (A : FVec Ideal ⟨2, ![n, k]⟩ φ₁) (B : FVec Ideal ⟨2, ![k, c]⟩ φ₂)
    (p : Fin n) (q : Fin c) :
    matmul D prec A B (constant ⟨2, ![n, c]⟩ .f32 0x00000000#32) (ix2 p q) = ∑ j : Fin k, A (ix2 p j) * B (ix2 j q) := by
  show FloatOps.matmul D prec A B (constant ⟨2, ![n, c]⟩ .f32 0x00000000#32) (ix2 p q) = _
  rw [Ideal.matmul_constant_zero_apply, ← Equiv.sum_comp (contrEquiv1 D k hr hs).symm]
  refine Finset.sum_congr rfl fun j _ => ?_
  have hk := contrEquiv1_symm_val D k hr hs j
  have el : D.lhsIdx (ix2 p q) ((contrEquiv1 D k hr hs).symm j) = ix2 p j := funext fun ax => Fin.ext (by
    match ax with
    | ⟨0, _⟩ => exact l0 _ _
    | ⟨1, _⟩ => exact (l1 _ _).trans hk)
  have er : D.rhsIdx (ix2 p q) ((contrEquiv1 D k hr hs).symm j) = ix2 j q := funext fun ax => Fin.ext (by
    match ax with
    | ⟨0, _⟩ => exact (r0 _ _).trans hk
    | ⟨1, _⟩ => exact r1 _ _)
  rw [el, er]

/-- The square root of a vector, read at an index, is the square root of the entry. -/
theorem sqrt_apply {s : Shape} {φ : FTy} (v : FVec Ideal s φ) (i : s.Idx) : sqrt v i = Ideal.sqrt (v i) := rfl

end Cert.LibSage

end
-- ==== Proof.LibRowLanes.lean ====
/-
  Matrices `[a, b]` handled along their rows, read at coordinates, at the ideal values.

  * a sum over the last axis, at row `i`, is the sum over `k` of the entries `(i, k)`; a maximum over it is the fold
    of `max` over those entries from the accumulator's value;
  * a matrix product into a zero accumulator whose dimension numbers contract the LAST axis of both operands —
    rows against rows, `A · Bᵀ` — is at `(p, q)` the sum over `j` of `A (p, j) · B (q, j)`. The four coordinate facts
    of the dimension numbers are hypotheses (each record proves them by unfolding).
-/
import Idealize.ShloMosaic.Lib.ValueIdx
import Idealize.ShloMosaic.PureOps.Ideal.Laws

noncomputable section

namespace Cert.LibRowLanes

open Idealize.ShloMosaic Idealize.ShloMosaic.ValueIdx
open scoped BigOperators

/-- The index `i` of `[a]` with `k` inserted on the last axis of `[a, b]` is `(i, k)`. -/
theorem lift_row {a b : ℕ} (h : (⟨2, ![a, b]⟩ : Shape).Reduces [1] ⟨1, ![a]⟩) (i : Fin a) (k : Fin b) :
    h.lift (ix1 i) k = ix2 i k :=
  funext fun ax => Fin.ext (by match ax with | ⟨0, _⟩ => rfl | ⟨1, _⟩ => rfl)

/-- A float sum over the last axis, read at row `i` on the extended reals: the sum of the entries `(i, k)`. -/
theorem sum_row_apply {a b : ℕ} (v : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (i : Fin a) :
    multiReduction .add [1] ⟨1, ![a]⟩ v acc h hφ hacc (ix1 i) = ∑ k : Fin b, v (ix2 i k) := by
  refine (Ideal.multiReduction_add_single v acc h hφ hacc (ix1 i)).trans ?_
  exact Finset.sum_congr rfl fun k _ => congrArg v (lift_row h i k)

/-- A float maximum over the last axis, read at row `i`: the fold of `max` over the entries `(i, k)` from the
    accumulator's value. -/
theorem max_row_apply {a b : ℕ} (v : FVec Ideal ⟨2, ![a, b]⟩ .f32) (acc : BitVec 32)
    (h : (⟨2, ![a, b]⟩ : Shape).Reduces [1] ⟨1, ![a]⟩) (hφ : FKind.Formats .f32) (hacc : acc = FKind.maximumf.neutral .f32 hφ)
    (i : Fin a) :
    multiReduction .maximumf [1] ⟨1, ![a]⟩ v acc h hφ hacc (ix1 i)
      = (Finset.univ : Finset (Fin b)).fold max (Ideal.ofBits .f32 acc) (fun k => v (ix2 i k)) := by
  refine (Ideal.multiReduction_maximumf_single v acc h hφ hacc (ix1 i)).trans ?_
  exact congrArg (Finset.univ.fold max (Ideal.ofBits .f32 acc)) (funext fun k => congrArg v (lift_row h i k))

/-- Rows against rows: the matrix product into zeros that contracts the last axis of both operands is, at entry
    `(p, q)`, the sum over the contraction position of `A (p, ·) · B (q, ·)`. -/
theorem matmul_zero_rows_rows {n k c : Nat} {φ₁ φ₂ : FTy}
    (D : DotDims ⟨2, ![n, k]⟩ ⟨2, ![c, k]⟩ ⟨2, ![n, c]⟩) (hr : D.contr.rank = 1)
    (hs : D.contr.size ⟨0, by omega⟩ = k)
    (l0 : ∀ (i : (⟨2, ![n, c]⟩ : Shape).Idx) (q : D.contr.Idx), (D.lhsIdx i q 0).val = (i 0).val)
    (l1 : ∀ (i : (⟨2, ![n, c]⟩ : Shape).Idx) (q : D.contr.Idx), (D.lhsIdx i q 1).val = (q ⟨0, by omega⟩).val)
    (r0 : ∀ (i : (⟨2, ![n, c]⟩ : Shape).Idx) (q : D.contr.Idx), (D.rhsIdx i q 0).val = (i 1).val)
    (r1 : ∀ (i : (⟨2, ![n, c]⟩ : Shape).Idx) (q : D.contr.Idx), (D.rhsIdx i q 1).val = (q ⟨0, by omega⟩).val)
    (prec : Option ContractPrecision) (A : FVec Ideal ⟨2, ![n, k]⟩ φ₁) (B : FVec Ideal ⟨2, ![c, k]⟩ φ₂)
    (p : Fin n) (q : Fin c) :
    matmul D prec A B (constant ⟨2, ![n, c]⟩ .f32 0x00000000#32) (ix2 p q) = ∑ j : Fin k, A (ix2 p j) * B (ix2 q j) := by
  show FloatOps.matmul D prec A B (constant ⟨2, ![n, c]⟩ .f32 0x00000000#32) (ix2 p q) = _
  rw [Ideal.matmul_constant_zero_apply, ← Equiv.sum_comp (contrEquiv1 D k hr hs).symm]
  refine Finset.sum_congr rfl fun j _ => ?_
  have hk := contrEquiv1_symm_val D k hr hs j
  have el : D.lhsIdx (ix2 p q) ((contrEquiv1 D k hr hs).symm j) = ix2 p j := funext fun ax => Fin.ext (by
    match ax with
    | ⟨0, _⟩ => exact l0 _ _
    | ⟨1, _⟩ => exact (l1 _ _).trans hk)
  have er : D.rhsIdx (ix2 p q) ((contrEquiv1 D k hr hs).symm j) = ix2 q j := funext fun ax => Fin.ext (by
    match ax with
    | ⟨0, _⟩ => exact r0 _ _
    | ⟨1, _⟩ => exact (r1 _ _).trans hk)
  rw [el, er]

end Cert.LibRowLanes

end
-- ==== Proof.KI.VSageOps.lean ====
/-
  The non-pointwise operations of the SAGE combine bodies, read at coordinates at the ideal values: the two matrix
  products into a zero accumulator (64 and 32 contraction positions) as sums over the contraction position of row
  times column, and the lane sum of a [5000, 64] block at a row as the sum over that row.
-/
import proofs.«173191_j73083163508880_2_alg».proof.Proof.Gen.KernelIdeal.Skeleton
import proofs.«173191_j73083163508880_2_alg».proof.Proof.LibSage
import proofs.«173191_j73083163508880_2_alg».proof.Proof.LibRowLanes
import Idealize.ShloMosaic.Lib.ValueIdx
import Idealize.ShloMosaic.PureOps.Ideal.Laws

noncomputable section

namespace Cert.KernelIdeal.Val.Sage

open Cert.KernelIdeal Cert.KernelIdeal.Gen Idealize.ShloMosaic Idealize.ShloMosaic.ValueIdx
open scoped BigOperators

/-- The left operand's index of `dot_S5000x64_S64x64_S5000x64_1_0_0_1_n_n`: its row is the output's row, -/
theorem lhs64_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- its column the contraction position; -/
theorem lhs64_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- the right operand's: its row is the contraction position, -/
theorem rhs64_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- its column the output's column. -/
theorem rhs64_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The left operand's index of `dot_S5000x32_S32x64_S5000x64_1_0_0_1_n_n`: its row is the output's row, -/
theorem lhs32_0 (i : S5000x64.Idx) (q : dot_S5000x32_S32x64_S5000x64_1_0_0_1_n_n.contr.Idx) :
    (dot_S5000x32_S32x64_S5000x64_1_0_0_1_n_n.lhsIdx i q 0).val = (i 0).val := by
  unfold DotDims.lhsIdx
  rw [dif_neg (show ¬(0 : Fin S5000x32.rank) ∈ dot_S5000x32_S32x64_S5000x64_1_0_0_1_n_n.lhsBatch by decide), dif_pos (show (0 : Fin S5000x32.rank) ∈ dot_S5000x32_S32x64_S5000x64_1_0_0_1_n_n.lhsNonContracting by decide)]
  rfl
/-- its column the contraction position; -/
theorem lhs32_1 (i : S5000x64.Idx) (q : dot_S5000x32_S32x64_S5000x64_1_0_0_1_n_n.contr.Idx) :
    (dot_S5000x32_S32x64_S5000x64_1_0_0_1_n_n.lhsIdx i q 1).val = (q ⟨0, by decide⟩).val :=
  dot_S5000x32_S32x64_S5000x64_1_0_0_1_n_n.lhsIdx_val_of_single rfl i q
/-- the right operand's: its row is the contraction position, -/
theorem rhs32_0 (i : S5000x64.Idx) (q : dot_S5000x32_S32x64_S5000x64_1_0_0_1_n_n.contr.Idx) :
    (dot_S5000x32_S32x64_S5000x64_1_0_0_1_n_n.rhsIdx i q 0).val = (q ⟨0, by decide⟩).val :=
  dot_S5000x32_S32x64_S5000x64_1_0_0_1_n_n.rhsIdx_val_of_single rfl i q
/-- its column the output's column. -/
theorem rhs32_1 (i : S5000x64.Idx) (q : dot_S5000x32_S32x64_S5000x64_1_0_0_1_n_n.contr.Idx) :
    (dot_S5000x32_S32x64_S5000x64_1_0_0_1_n_n.rhsIdx i q 1).val = (i 1).val := by
  unfold DotDims.rhsIdx
  rw [dif_neg (show ¬(1 : Fin S32x64.rank) ∈ dot_S5000x32_S32x64_S5000x64_1_0_0_1_n_n.rhsBatch by decide), dif_pos (show (1 : Fin S32x64.rank) ∈ dot_S5000x32_S32x64_S5000x64_1_0_0_1_n_n.rhsNonContracting by decide)]
  rfl

/-- The product of a [5000, 64] block with a [64, 64] matrix into zeros, at `(p, q)`: `∑ j, A (p, j) * B (j, q)`. -/
theorem matmul64_apply {φ₁ φ₂ : FTy} (A : FVec Ideal S5000x64 φ₁) (B : FVec Ideal S64x64 φ₂) (p : Fin 5000) (q : Fin 64) :
    matmul dot_S5000x64_S64x64_S5000x64_1_0_0_1_n_n none A B (constant S5000x64 .f32 0x00000000#32) (ix2 p q)
      = ∑ j : Fin 64, A (ix2 p j) * B (ix2 j q) :=
  Cert.LibSage.matmul_zero_rows_cols dot_S5000x64_S64x64_S5000x64_1_0_0_1_n_n rfl rfl lhs64_0 lhs64_1 rhs64_0 rhs64_1 none A B p q

/-- The product of a [5000, 32] block with a [32, 64] matrix into zeros, at `(p, q)`: `∑ j, A (p, j) * B (j, q)`. -/
theorem matmul32_apply {φ₁ φ₂ : FTy} (A : FVec Ideal S5000x32 φ₁) (B : FVec Ideal S32x64 φ₂) (p : Fin 5000) (q : Fin 64) :
    matmul dot_S5000x32_S32x64_S5000x64_1_0_0_1_n_n none A B (constant S5000x64 .f32 0x00000000#32) (ix2 p q)
      = ∑ j : Fin 32, A (ix2 p j) * B (ix2 j q) :=
  Cert.LibSage.matmul_zero_rows_cols dot_S5000x32_S32x64_S5000x64_1_0_0_1_n_n rfl rfl lhs32_0 lhs32_1 rhs32_0 rhs32_1 none A B p q

/-- The lane sum of a [5000, 64] block from the zero word, at row `p`: the sum of the row's 64 entries. -/
theorem rowsum_apply (v : FVec Ideal S5000x64 .f32) (p : Fin 5000) :
    multiReduction .add [1] S5000 v 0x00000000#32 reduces_S5000x64_S5000 (.inl rfl) rfl (ix1 p) = ∑ k : Fin 64, v (ix2 p k) :=
  Cert.LibRowLanes.sum_row_apply v _ _ _ _ p

/-- The zero offsets of a rank-2 rectangle, however spelt. -/
theorem hz2 : (![0, 0] : Fin 2 → Nat) = fun _ => 0 := funext fun a => by fin_cases a <;> rfl
/-- The zero offset of a rank-1 rectangle. -/
theorem hz1 : (![0] : Fin 1 → Nat) = fun _ => 0 := funext fun a => by fin_cases a; rfl

end Cert.KernelIdeal.Val.Sage

end
-- ==== Proof.SpecA.lean ====
import Idealize.ShloMosaic.PureOps.Ideal
import Idealize.ShloMosaic.Lib.ValueIdx

/-! # The SAGE combine as a function of whole arrays

One specification: the output array of a SAGE combine layer as ONE function of its six argument arrays, index by
index, over the extended reals. Row `r` of the output depends on row `r` of the aggregated sums `agg`, of the
neighbour counts `cnt` and of the destination features `x`, and on the whole of the two weight matrices and the bias:
the mean-aggregated row times `Wl`, plus the destination row times `Wr`, plus the bias; that row divided by its
Euclidean norm (clamped below by a small literal); then clamped below by zero. -/

noncomputable section

namespace Cert.Spec

open Idealize.ShloMosaic Idealize.ShloMosaic.ValueIdx
open scoped BigOperators

/-- One row's linear part at column `q`, from the row `a` of aggregated sums, its neighbour count `n`, the row `x` of
    destination features, the weights and the bias: `(∑ k, a k / max n 1 * Wl (k, q)) + (∑ k, x k * Wr (k, q)) + b q`,
    grouped so; the literal `1` kept as its f32 word. -/
def sageLin {C : ℕ} (a : Fin 64 → EReal) (n : EReal) (x : Fin C → EReal)
    (Wl : (⟨2, ![64, 64]⟩ : Shape).Idx → EReal) (b : (⟨1, ![64]⟩ : Shape).Idx → EReal)
    (Wr : (⟨2, ![C, 64]⟩ : Shape).Idx → EReal) (q : Fin 64) : EReal :=
  (∑ k : Fin 64, Ideal.div (a k) (max n (Ideal.ofBits .f32 0x3F800000#32)) * Wl (ix2 k q))
    + (∑ k : Fin C, x k * Wr (ix2 k q)) + b (ix1 q)

/-- One row of the layer's output at column `q`: the linear part divided by the row's Euclidean norm, the norm clamped
    below by the literal `1e-12` (kept as its f32 word), the quotient clamped below by zero. -/
def sageRow {C : ℕ} (a : Fin 64 → EReal) (n : EReal) (x : Fin C → EReal)
    (Wl : (⟨2, ![64, 64]⟩ : Shape).Idx → EReal) (b : (⟨1, ![64]⟩ : Shape).Idx → EReal)
    (Wr : (⟨2, ![C, 64]⟩ : Shape).Idx → EReal) (q : Fin 64) : EReal :=
  max (Ideal.div (sageLin a n x Wl b Wr q)
        (max (Ideal.sqrt (∑ q' : Fin 64, sageLin a n x Wl b Wr q' * sageLin a n x Wl b Wr q'))
          (Ideal.ofBits .f32 0x2B8CBCCC#32)))
    (Ideal.ofBits .f32 0x00000000#32)

/-- The SAGE combine layer on 100000 nodes with `C` destination channels and 64 hidden channels: at row `r` and
    column `q`, `sageRow` of row `r` of `agg`, the count `cnt (r, 0)`, row `r` of `x`, and the weights and bias. -/
def sageG (C : ℕ) (agg : (⟨2, ![100000, 64]⟩ : Shape).Idx → EReal) (cnt : (⟨2, ![100000, 1]⟩ : Shape).Idx → EReal)
    (x : (⟨2, ![100000, C]⟩ : Shape).Idx → EReal) (Wl : (⟨2, ![64, 64]⟩ : Shape).Idx → EReal)
    (b : (⟨1, ![64]⟩ : Shape).Idx → EReal) (Wr : (⟨2, ![C, 64]⟩ : Shape).Idx → EReal) :
    (⟨2, ![100000, 64]⟩ : Shape).Idx → EReal :=
  fun i => sageRow (fun k => agg (ix2 (i 0 : Fin 100000) k)) (cnt (ix2 (i 0 : Fin 100000) (0 : Fin 1)))
    (fun k => x (ix2 (i 0 : Fin 100000) k)) Wl b Wr (i 1 : Fin 64)

/-- The layer with 32 destination channels. -/
abbrev sageG32 (agg : (⟨2, ![100000, 64]⟩ : Shape).Idx → EReal) (cnt : (⟨2, ![100000, 1]⟩ : Shape).Idx → EReal)
    (x : (⟨2, ![100000, 32]⟩ : Shape).Idx → EReal) (Wl : (⟨2, ![64, 64]⟩ : Shape).Idx → EReal)
    (b : (⟨1, ![64]⟩ : Shape).Idx → EReal) (Wr : (⟨2, ![32, 64]⟩ : Shape).Idx → EReal) :
    (⟨2, ![100000, 64]⟩ : Shape).Idx → EReal := sageG 32 agg cnt x Wl b Wr

/-- The layer with 64 destination channels. -/
abbrev sageG64 (agg : (⟨2, ![100000, 64]⟩ : Shape).Idx → EReal) (cnt : (⟨2, ![100000, 1]⟩ : Shape).Idx → EReal)
    (x : (⟨2, ![100000, 64]⟩ : Shape).Idx → EReal) (Wl : (⟨2, ![64, 64]⟩ : Shape).Idx → EReal)
    (b : (⟨1, ![64]⟩ : Shape).Idx → EReal) (Wr : (⟨2, ![64, 64]⟩ : Shape).Idx → EReal) :
    (⟨2, ![100000, 64]⟩ : Shape).Idx → EReal := sageG 64 agg cnt x Wl b Wr

end Cert.Spec

end
-- ==== Proof.LibKeepdims.lean ====
/-
  Layout and contraction operations of a row-wise kernel body, read at an index written by coordinates, at the
  ideal values. A sum kept as a column (`keepdims`) goes through two layout steps the coordinate forms below read:
  a vector `[a]` recast as a column `[a, 1]`, and a column `[a, 1]` broadcast along the rows of `[a, b]`.
  With them: a lane sum of a matrix read at a row as the sum over that row, and a matrix product into a zero
  accumulator read at `(r, n)` as the sum over the contracted coordinate of row `r` times column `n`.
-/
import Idealize.ShloMosaic.Lib.ValueLayout
import Idealize.ShloMosaic.Lib.ValueIdx
import Idealize.ShloMosaic.PureOps.Ideal.Laws

noncomputable section

namespace Cert.LibKeepdims

open Idealize.ShloMosaic Idealize.ShloMosaic.ValueIdx

variable {α : Type}

/-- A vector `[a]` recast as the column `[a, 1]` reads, at `(i, u)`, the vector at `i`: the row-major position of
    `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The exponential of a vector, read at an index, is the exponential of the entry. -/
theorem exp_apply {s : Shape} {φ : FTy} (v : FVec Ideal s φ) (i : s.Idx) : exp v i = Ideal.exp (v i) := rfl

/-- The host's exponential of an array likewise. -/
theorem hostExp_apply {s : Shape} {φ : FTy} (v : FVec Ideal s φ) (i : s.Idx) : Host.exp v i = Ideal.exp (v i) := rfl

/-- A float scalar constant at the ideal values is the extended real its pattern denotes. -/
theorem scalar_ofBits (φ : FTy) (b : BitVec φ.bits) : Scalar.ofBits (F := Ideal) φ b = Ideal.ofBits φ b := rfl

end Cert.LibKeepdims

end
-- ==== Proof.KI.V0.lean ====
/-
  The VALUE LEG of region 0 (a SAGE combine layer with 32 destination channels) at the ideal values: the body's payload
  read at an index of its block is the layer's row function of the input rows; each input block is the matching rows of
  its array (the weights and the bias: the whole array); so every grid point writes back block `t` of the layer's
  function of the six input ARRAYS, the 20 blocks cover the output array, and the array ends holding that function.
-/
import proofs.«173191_j73083163508880_2_alg».proof.Proof.KI.R0
import proofs.«173191_j73083163508880_2_alg».proof.Proof.KI.VSageOps
import proofs.«173191_j73083163508880_2_alg».proof.Proof.SpecA
import proofs.«173191_j73083163508880_2_alg».proof.Proof.LibSage
import proofs.«173191_j73083163508880_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)
open scoped BigOperators
open Cert.KernelIdeal.Val.Sage

/-- The body's payload at row `p` and column `q` of the block is the layer's row function of row `p` of the three
    row-blocked inputs and of the whole weights and bias: every operation of the payload read at that index. -/
theorem pay0_apply (x0 : Vec Ideal S5000x64 .f32) (x1 : Vec Ideal S5000x1 .f32) (x2 : Vec Ideal S5000x32 .f32)
    (x3 : Vec Ideal S64x64 .f32) (x5 : Vec Ideal S32x64 .f32) (x4 : Vec Ideal S64 .f32) (p : Fin 5000) (q : Fin 64) :
    k0_pay1 x0 x1 x2 x3 x5 x4 (ix2 p q)
      = Cert.Spec.sageRow (fun k => x0 (ix2 p k)) (x1 (ix2 p (0 : Fin 1))) (fun k => x2 (ix2 p k)) x3 x4 x5 q := by
  unfold k0_pay1 Cert.Spec.sageRow Cert.Spec.sageLin
  simp only [shapeCast_self, maximumf_apply, divf_apply, addf_apply, mulf_apply, truncf_apply, broadcast_apply,
    Cert.LibSage.sqrt_apply, Cert.LibKeepdims.broadcastTo_a1_ab_apply, broadcastTo_1b_ab_apply, shapeCast_a_1a_apply,
    Cert.LibKeepdims.shapeCast_a_a1_apply, matmul64_apply, matmul32_apply, Cert.LibKeepdims.scalar_ofBits]
  rw [rowsum_apply]
  simp only [maximumf_apply, divf_apply, addf_apply, mulf_apply, truncf_apply, broadcast_apply,
    Cert.LibKeepdims.broadcastTo_a1_ab_apply, broadcastTo_1b_ab_apply, shapeCast_a_1a_apply, matmul64_apply, matmul32_apply]

variable (V : (c : Dev nD) → (b : Ref sig .tc) → Buf (Elt Ideal) ((c : Thread nD τ).loc b))

/-- The printed index maps, decided over the grid's 20 points: the three row-blocked inputs and the output are at
    block `(t, 0)` at point `t`; the weights and the bias are at block zero. -/
theorem idx_facts0 : ∀ t : Fin cfg0.N, t.val < 20
    ∧ win0_6.index t (0 : Fin 2) = t.val
    ∧ win0_6.index t (1 : Fin 2) = 0
    ∧ win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = 0
    ∧ win0_3.index t (1 : Fin 2) = 0
    ∧ win0_4.index t (0 : Fin 1) = 0
    ∧ win0_5.index t (0 : Fin 2) = 0
    ∧ win0_5.index t (1 : Fin 2) = 0 :=
  (by decide +kernel : ∀ t : Fin grid0.N, _)

/-- Every one of the 20 row blocks of the output is SOME point's. -/
theorem idx_onto0 : ∀ q0 : Fin 20, ∃ t : Fin cfg0.N, win0_6.index t (0 : Fin 2) = q0.val ∧ win0_6.index t (1 : Fin 2) = 0 :=
  (by decide +kernel : ∀ q0 : Fin 20, ∃ t : Fin grid0.N, win0_6.index t (0 : Fin 2) = q0.val ∧ win0_6.index t (1 : Fin 2) = 0)

/-- The array row that row `p` of point `t`'s blocks is: `5000 t + p`. -/
def row0 (t : Fin cfg0.N) (p : Fin 5000) : Fin 100000 :=
  ⟨t.val * 5000 + p.val, by have h := (idx_facts0 t).1; have := p.isLt; omega⟩

/-- Row `p` of input window 0's block at point `t` is row `5000 t + p` of its array. -/
theorem iblk0_0_apply (c : Dev nD) (t : Fin cfg0.N) (p : Fin 5000) (k : Fin 64) :
    iblk0 V c 0 t (ix2 p k) = V c (Pipeline.arrRef spec0 0) (ix2 (row0 t p) k) := by
  obtain ⟨ht, e60, e61, e00, e01, e10, e11, e20, e21, e30, e31, e40, e50, e51⟩ := idx_facts0 t
  unfold iblk0
  rw [View.read_apply]
  refine congrArg (V c (Pipeline.arrRef spec0 0)) (funext fun a => Fin.ext ?_)
  match a with
  | ⟨0, _⟩ => show win0_0.index t (0 : Fin 2) * 5000 + 1 * p.val = t.val * 5000 + p.val; omega
  | ⟨1, _⟩ => show win0_0.index t (1 : Fin 2) * 64 + 1 * k.val = k.val; omega

/-- Row `p` of input window 1's block at point `t` is row `5000 t + p` of its one-column array. -/
theorem iblk0_1_apply (c : Dev nD) (t : Fin cfg0.N) (p : Fin 5000) :
    iblk0 V c 1 t (ix2 p (0 : Fin 1)) = V c (Pipeline.arrRef spec0 1) (ix2 (row0 t p) (0 : Fin 1)) := by
  obtain ⟨ht, e60, e61, e00, e01, e10, e11, e20, e21, e30, e31, e40, e50, e51⟩ := idx_facts0 t
  unfold iblk0
  rw [View.read_apply]
  refine congrArg (V c (Pipeline.arrRef spec0 1)) (funext fun a => Fin.ext ?_)
  match a with
  | ⟨0, _⟩ => show win0_1.index t (0 : Fin 2) * 5000 + 1 * p.val = t.val * 5000 + p.val; omega
  | ⟨1, _⟩ => show win0_1.index t (1 : Fin 2) * 1 + 1 * 0 = 0; omega

/-- Row `p` of input window 2's block at point `t` is row `5000 t + p` of its array. -/
theorem iblk0_2_apply (c : Dev nD) (t : Fin cfg0.N) (p : Fin 5000) (k : Fin 32) :
    iblk0 V c 2 t (ix2 p k) = V c (Pipeline.arrRef spec0 2) (ix2 (row0 t p) k) := by
  obtain ⟨ht, e60, e61, e00, e01, e10, e11, e20, e21, e30, e31, e40, e50, e51⟩ := idx_facts0 t
  unfold iblk0
  rw [View.read_apply]
  refine congrArg (V c (Pipeline.arrRef spec0 2)) (funext fun a => Fin.ext ?_)
  match a with
  | ⟨0, _⟩ => show win0_2.index t (0 : Fin 2) * 5000 + 1 * p.val = t.val * 5000 + p.val; omega
  | ⟨1, _⟩ => show win0_2.index t (1 : Fin 2) * 32 + 1 * k.val = k.val; omega

/-- Input window 3's block at every point is its whole array: its block index is zero on every axis. -/
theorem iblk0_3_eq (c : Dev nD) (t : Fin cfg0.N) : iblk0 V c 3 t = V c (Pipeline.arrRef spec0 3) := by
  obtain ⟨ht, e60, e61, e00, e01, e10, e11, e20, e21, e30, e31, e40, e50, e51⟩ := idx_facts0 t
  unfold iblk0
  funext y
  rw [View.read_apply]
  refine congrArg (V c (Pipeline.arrRef spec0 3)) (funext fun a => Fin.ext ?_)
  match a with
  | ⟨0, _⟩ => show win0_3.index t (0 : Fin 2) * 64 + 1 * (y 0).val = (y 0).val; omega
  | ⟨1, _⟩ => show win0_3.index t (1 : Fin 2) * 64 + 1 * (y 1).val = (y 1).val; omega

/-- Input window 4's block at every point is its whole array: its block index is zero on every axis. -/
theorem iblk0_4_eq (c : Dev nD) (t : Fin cfg0.N) : iblk0 V c 4 t = V c (Pipeline.arrRef spec0 4) := by
  obtain ⟨ht, e60, e61, e00, e01, e10, e11, e20, e21, e30, e31, e40, e50, e51⟩ := idx_facts0 t
  unfold iblk0
  funext y
  rw [View.read_apply]
  refine congrArg (V c (Pipeline.arrRef spec0 4)) (funext fun a => Fin.ext ?_)
  match a with
  | ⟨0, _⟩ => show win0_4.index t (0 : Fin 1) * 64 + 1 * (y 0).val = (y 0).val; omega

/-- Input window 5's block at every point is its whole array: its block index is zero on every axis. -/
theorem iblk0_5_eq (c : Dev nD) (t : Fin cfg0.N) : iblk0 V c 5 t = V c (Pipeline.arrRef spec0 5) := by
  obtain ⟨ht, e60, e61, e00, e01, e10, e11, e20, e21, e30, e31, e40, e50, e51⟩ := idx_facts0 t
  unfold iblk0
  funext y
  rw [View.read_apply]
  refine congrArg (V c (Pipeline.arrRef spec0 5)) (funext fun a => Fin.ext ?_)
  match a with
  | ⟨0, _⟩ => show win0_5.index t (0 : Fin 2) * 32 + 1 * (y 0).val = (y 0).val; omega
  | ⟨1, _⟩ => show win0_5.index t (1 : Fin 2) * 64 + 1 * (y 1).val = (y 1).val; omega

/-- Entry `(p, q)` of the output's block at point `t` sits in the array at `(5000 t + p, q)`. -/
theorem emb0_6 (t : Fin cfg0.N) (p : Fin 5000) (q : Fin 64) :
    ((cfg0.win 6).blk t).view.emb (ix2 p q) = ix2 (row0 t p) q := by
  obtain ⟨ht, e60, e61, e00, e01, e10, e11, e20, e21, e30, e31, e40, e50, e51⟩ := idx_facts0 t
  refine funext fun a => Fin.ext ?_
  match a with
  | ⟨0, _⟩ => show win0_6.index t (0 : Fin 2) * 5000 + 1 * p.val = t.val * 5000 + p.val; omega
  | ⟨1, _⟩ => show win0_6.index t (1 : Fin 2) * 64 + 1 * q.val = q.val; omega

/-- WHAT POINT `t` WRITES BACK is block `t` of the layer's function of the six input arrays as the region finds them. -/
theorem flushed0_eq (c : Dev nD) (t : Fin cfg0.N) :
    (dat0 (F := Ideal) V c).flushed 6 t = ((cfg0.win 6).blk t).view.read (Elt Ideal) (Cert.Spec.sageG32 (V c (Pipeline.arrRef spec0 0)) (V c (Pipeline.arrRef spec0 1)) (V c (Pipeline.arrRef spec0 2)) (V c (Pipeline.arrRef spec0 3)) (V c (Pipeline.arrRef spec0 4)) (V c (Pipeline.arrRef spec0 5))) := by
  show (cfg0.win 6).cut (grid0.coords t) ((dat0 V c).after 6 t) = _
  rw [after0_6]
  unfold out0_6
  rw [View.canon_unit_zero Sage.hz2]
  simp only [View.ld_unit_zero (S := S5000x64) Sage.hz2, View.ld_unit_zero (S := S5000x1) Sage.hz2, View.ld_unit_zero (S := S5000x32) Sage.hz2,
    View.ld_unit_zero (S := S64x64) Sage.hz2, View.ld_unit_zero (S := S32x64) Sage.hz2, View.ld_unit_zero (S := S64) Sage.hz1]
  funext j
  obtain ⟨p, q, rfl⟩ : ∃ (p : Fin 5000) (q : Fin 64), j = ix2 p q := ⟨j 0, j 1, eq_ix2 j⟩
  refine (pay0_apply _ _ _ _ _ _ p q).trans ?_
  simp only [iblk0_0_apply, iblk0_1_apply, iblk0_2_apply, iblk0_3_eq, iblk0_4_eq, iblk0_5_eq]
  rw [View.read_apply, emb0_6]
  rfl

/-- An index of the output array is in point `t`'s block iff each coordinate is in the block's range on its axis. -/
theorem mem_blk0 (t : Fin cfg0.N) (i : S100000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v21).slice (win0_6.rect t)).set ↔ _
  rw [View.set_slice_whole, Rect.mem_set_unit]
  exact Iff.rfl

/-- Every index of the output array is in some point's block: row `r` in the block of point `r / 5000`. -/
theorem cover0 (i : S100000x64.Idx) : ∃ t : Fin cfg0.N, (cfg0.win 6).flush t = true ∧ i ∈ ((cfg0.win 6).blk t).view.set := by
  have hi0 : (i 0).val < 100000 := (i 0).isLt
  have hi1 : (i 1).val < 64 := (i 1).isLt
  obtain ⟨t, q0, q1⟩ := idx_onto0 ⟨(i 0).val / 5000, by omega⟩
  refine ⟨t, flush0_6 t, ?_⟩
  rw [mem_blk0]
  intro a
  match a with
  | ⟨0, _⟩ => show win0_6.index t (0 : Fin 2) * 5000 ≤ (i 0).val ∧ (i 0).val < win0_6.index t (0 : Fin 2) * 5000 + 5000; rw [q0]; show (i 0).val / 5000 * 5000 ≤ (i 0).val ∧ (i 0).val < (i 0).val / 5000 * 5000 + 5000; omega
  | ⟨1, _⟩ => show win0_6.index t (1 : Fin 2) * 64 ≤ (i 1).val ∧ (i 1).val < win0_6.index t (1 : Fin 2) * 64 + 64; omega

/-- THE OUTPUT ARRAY after the region's grid: the layer's function of the six input arrays as the region finds them. -/
theorem final0 (c : Dev nD) : (dat0 (F := Ideal) V c).arrAt 6 cfg0.N = (Cert.Spec.sageG32 (V c (Pipeline.arrRef spec0 0)) (V c (Pipeline.arrRef spec0 1)) (V c (Pipeline.arrRef spec0 2)) (V c (Pipeline.arrRef spec0 3)) (V c (Pipeline.arrRef spec0 4)) (V c (Pipeline.arrRef spec0 5))) :=
  (dat0 V c).arrAt_eq_of_cover 6 _ (fun t _ => flushed0_eq V c t) cover0

end Cert.KernelIdeal.Val

end
-- ==== Proof.KI.V1.lean ====
/-
  The VALUE LEG of region 1 (a SAGE combine layer with 64 destination channels) at the ideal values: the body's payload
  read at an index of its block is the layer's row function of the input rows; each input block is the matching rows of
  its array (the weights and the bias: the whole array); so every grid point writes back block `t` of the layer's
  function of the six input ARRAYS, the 20 blocks cover the output array, and the array ends holding that function.
-/
import proofs.«173191_j73083163508880_2_alg».proof.Proof.KI.R1
import proofs.«173191_j73083163508880_2_alg».proof.Proof.KI.VSageOps
import proofs.«173191_j73083163508880_2_alg».proof.Proof.SpecA
import proofs.«173191_j73083163508880_2_alg».proof.Proof.LibSage
import proofs.«173191_j73083163508880_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)
open scoped BigOperators
open Cert.KernelIdeal.Val.Sage

/-- The body's payload at row `p` and column `q` of the block is the layer's row function of row `p` of the three
    row-blocked inputs and of the whole weights and bias: every operation of the payload read at that index. -/
theorem pay1_apply (x0 : Vec Ideal S5000x64 .f32) (x1 : Vec Ideal S5000x1 .f32) (x2 : Vec Ideal S5000x64 .f32)
    (x3 : Vec Ideal S64x64 .f32) (x5 : Vec Ideal S64x64 .f32) (x4 : Vec Ideal S64 .f32) (p : Fin 5000) (q : Fin 64) :
    k1_pay1 x0 x1 x2 x3 x5 x4 (ix2 p q)
      = Cert.Spec.sageRow (fun k => x0 (ix2 p k)) (x1 (ix2 p (0 : Fin 1))) (fun k => x2 (ix2 p k)) x3 x4 x5 q := by
  unfold k1_pay1 Cert.Spec.sageRow Cert.Spec.sageLin
  simp only [shapeCast_self, maximumf_apply, divf_apply, addf_apply, mulf_apply, truncf_apply, broadcast_apply,
    Cert.LibSage.sqrt_apply, Cert.LibKeepdims.broadcastTo_a1_ab_apply, broadcastTo_1b_ab_apply, shapeCast_a_1a_apply,
    Cert.LibKeepdims.shapeCast_a_a1_apply, matmul64_apply, Cert.LibKeepdims.scalar_ofBits]
  rw [rowsum_apply]
  simp only [maximumf_apply, divf_apply, addf_apply, mulf_apply, truncf_apply, broadcast_apply,
    Cert.LibKeepdims.broadcastTo_a1_ab_apply, broadcastTo_1b_ab_apply, shapeCast_a_1a_apply, matmul64_apply]

variable (V : (c : Dev nD) → (b : Ref sig .tc) → Buf (Elt Ideal) ((c : Thread nD τ).loc b))

/-- The printed index maps, decided over the grid's 20 points: the three row-blocked inputs and the output are at
    block `(t, 0)` at point `t`; the weights and the bias are at block zero. -/
theorem idx_facts1 : ∀ t : Fin cfg1.N, t.val < 20
    ∧ win1_6.index t (0 : Fin 2) = t.val
    ∧ win1_6.index t (1 : Fin 2) = 0
    ∧ win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = 0
    ∧ win1_3.index t (1 : Fin 2) = 0
    ∧ win1_4.index t (0 : Fin 1) = 0
    ∧ win1_5.index t (0 : Fin 2) = 0
    ∧ win1_5.index t (1 : Fin 2) = 0 :=
  (by decide +kernel : ∀ t : Fin grid1.N, _)

/-- Every one of the 20 row blocks of the output is SOME point's. -/
theorem idx_onto1 : ∀ q0 : Fin 20, ∃ t : Fin cfg1.N, win1_6.index t (0 : Fin 2) = q0.val ∧ win1_6.index t (1 : Fin 2) = 0 :=
  (by decide +kernel : ∀ q0 : Fin 20, ∃ t : Fin grid1.N, win1_6.index t (0 : Fin 2) = q0.val ∧ win1_6.index t (1 : Fin 2) = 0)

/-- The array row that row `p` of point `t`'s blocks is: `5000 t + p`. -/
def row1 (t : Fin cfg1.N) (p : Fin 5000) : Fin 100000 :=
  ⟨t.val * 5000 + p.val, by have h := (idx_facts1 t).1; have := p.isLt; omega⟩

/-- Row `p` of input window 0's block at point `t` is row `5000 t + p` of its array. -/
theorem iblk1_0_apply (c : Dev nD) (t : Fin cfg1.N) (p : Fin 5000) (k : Fin 64) :
    iblk1 V c 0 t (ix2 p k) = V c (Pipeline.arrRef spec1 0) (ix2 (row1 t p) k) := by
  obtain ⟨ht, e60, e61, e00, e01, e10, e11, e20, e21, e30, e31, e40, e50, e51⟩ := idx_facts1 t
  unfold iblk1
  rw [View.read_apply]
  refine congrArg (V c (Pipeline.arrRef spec1 0)) (funext fun a => Fin.ext ?_)
  match a with
  | ⟨0, _⟩ => show win1_0.index t (0 : Fin 2) * 5000 + 1 * p.val = t.val * 5000 + p.val; omega
  | ⟨1, _⟩ => show win1_0.index t (1 : Fin 2) * 64 + 1 * k.val = k.val; omega

/-- Row `p` of input window 1's block at point `t` is row `5000 t + p` of its one-column array. -/
theorem iblk1_1_apply (c : Dev nD) (t : Fin cfg1.N) (p : Fin 5000) :
    iblk1 V c 1 t (ix2 p (0 : Fin 1)) = V c (Pipeline.arrRef spec1 1) (ix2 (row1 t p) (0 : Fin 1)) := by
  obtain ⟨ht, e60, e61, e00, e01, e10, e11, e20, e21, e30, e31, e40, e50, e51⟩ := idx_facts1 t
  unfold iblk1
  rw [View.read_apply]
  refine congrArg (V c (Pipeline.arrRef spec1 1)) (funext fun a => Fin.ext ?_)
  match a with
  | ⟨0, _⟩ => show win1_1.index t (0 : Fin 2) * 5000 + 1 * p.val = t.val * 5000 + p.val; omega
  | ⟨1, _⟩ => show win1_1.index t (1 : Fin 2) * 1 + 1 * 0 = 0; omega

/-- Row `p` of input window 2's block at point `t` is row `5000 t + p` of its array. -/
theorem iblk1_2_apply (c : Dev nD) (t : Fin cfg1.N) (p : Fin 5000) (k : Fin 64) :
    iblk1 V c 2 t (ix2 p k) = V c (Pipeline.arrRef spec1 2) (ix2 (row1 t p) k) := by
  obtain ⟨ht, e60, e61, e00, e01, e10, e11, e20, e21, e30, e31, e40, e50, e51⟩ := idx_facts1 t
  unfold iblk1
  rw [View.read_apply]
  refine congrArg (V c (Pipeline.arrRef spec1 2)) (funext fun a => Fin.ext ?_)
  match a with
  | ⟨0, _⟩ => show win1_2.index t (0 : Fin 2) * 5000 + 1 * p.val = t.val * 5000 + p.val; omega
  | ⟨1, _⟩ => show win1_2.index t (1 : Fin 2) * 64 + 1 * k.val = k.val; omega

/-- Input window 3's block at every point is its whole array: its block index is zero on every axis. -/
theorem iblk1_3_eq (c : Dev nD) (t : Fin cfg1.N) : iblk1 V c 3 t = V c (Pipeline.arrRef spec1 3) := by
  obtain ⟨ht, e60, e61, e00, e01, e10, e11, e20, e21, e30, e31, e40, e50, e51⟩ := idx_facts1 t
  unfold iblk1
  funext y
  rw [View.read_apply]
  refine congrArg (V c (Pipeline.arrRef spec1 3)) (funext fun a => Fin.ext ?_)
  match a with
  | ⟨0, _⟩ => show win1_3.index t (0 : Fin 2) * 64 + 1 * (y 0).val = (y 0).val; omega
  | ⟨1, _⟩ => show win1_3.index t (1 : Fin 2) * 64 + 1 * (y 1).val = (y 1).val; omega

/-- Input window 4's block at every point is its whole array: its block index is zero on every axis. -/
theorem iblk1_4_eq (c : Dev nD) (t : Fin cfg1.N) : iblk1 V c 4 t = V c (Pipeline.arrRef spec1 4) := by
  obtain ⟨ht, e60, e61, e00, e01, e10, e11, e20, e21, e30, e31, e40, e50, e51⟩ := idx_facts1 t
  unfold iblk1
  funext y
  rw [View.read_apply]
  refine congrArg (V c (Pipeline.arrRef spec1 4)) (funext fun a => Fin.ext ?_)
  match a with
  | ⟨0, _⟩ => show win1_4.index t (0 : Fin 1) * 64 + 1 * (y 0).val = (y 0).val; omega

/-- Input window 5's block at every point is its whole array: its block index is zero on every axis. -/
theorem iblk1_5_eq (c : Dev nD) (t : Fin cfg1.N) : iblk1 V c 5 t = V c (Pipeline.arrRef spec1 5) := by
  obtain ⟨ht, e60, e61, e00, e01, e10, e11, e20, e21, e30, e31, e40, e50, e51⟩ := idx_facts1 t
  unfold iblk1
  funext y
  rw [View.read_apply]
  refine congrArg (V c (Pipeline.arrRef spec1 5)) (funext fun a => Fin.ext ?_)
  match a with
  | ⟨0, _⟩ => show win1_5.index t (0 : Fin 2) * 64 + 1 * (y 0).val = (y 0).val; omega
  | ⟨1, _⟩ => show win1_5.index t (1 : Fin 2) * 64 + 1 * (y 1).val = (y 1).val; omega

/-- Entry `(p, q)` of the output's block at point `t` sits in the array at `(5000 t + p, q)`. -/
theorem emb1_6 (t : Fin cfg1.N) (p : Fin 5000) (q : Fin 64) :
    ((cfg1.win 6).blk t).view.emb (ix2 p q) = ix2 (row1 t p) q := by
  obtain ⟨ht, e60, e61, e00, e01, e10, e11, e20, e21, e30, e31, e40, e50, e51⟩ := idx_facts1 t
  refine funext fun a => Fin.ext ?_
  match a with
  | ⟨0, _⟩ => show win1_6.index t (0 : Fin 2) * 5000 + 1 * p.val = t.val * 5000 + p.val; omega
  | ⟨1, _⟩ => show win1_6.index t (1 : Fin 2) * 64 + 1 * q.val = q.val; omega

/-- WHAT POINT `t` WRITES BACK is block `t` of the layer's function of the six input arrays as the region finds them. -/
theorem flushed1_eq (c : Dev nD) (t : Fin cfg1.N) :
    (dat1 (F := Ideal) V c).flushed 6 t = ((cfg1.win 6).blk t).view.read (Elt Ideal) (Cert.Spec.sageG64 (V c (Pipeline.arrRef spec1 0)) (V c (Pipeline.arrRef spec1 1)) (V c (Pipeline.arrRef spec1 2)) (V c (Pipeline.arrRef spec1 3)) (V c (Pipeline.arrRef spec1 4)) (V c (Pipeline.arrRef spec1 5))) := by
  show (cfg1.win 6).cut (grid1.coords t) ((dat1 V c).after 6 t) = _
  rw [after1_6]
  unfold out1_6
  rw [View.canon_unit_zero Sage.hz2]
  simp only [View.ld_unit_zero (S := S5000x64) Sage.hz2, View.ld_unit_zero (S := S5000x1) Sage.hz2,
    View.ld_unit_zero (S := S64x64) Sage.hz2, View.ld_unit_zero (S := S64) Sage.hz1]
  funext j
  obtain ⟨p, q, rfl⟩ : ∃ (p : Fin 5000) (q : Fin 64), j = ix2 p q := ⟨j 0, j 1, eq_ix2 j⟩
  refine (pay1_apply _ _ _ _ _ _ p q).trans ?_
  simp only [iblk1_0_apply, iblk1_1_apply, iblk1_2_apply, iblk1_3_eq, iblk1_4_eq, iblk1_5_eq]
  rw [View.read_apply, emb1_6]
  rfl

/-- An index of the output array is in point `t`'s block iff each coordinate is in the block's range on its axis. -/
theorem mem_blk1 (t : Fin cfg1.N) (i : S100000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v43).slice (win1_6.rect t)).set ↔ _
  rw [View.set_slice_whole, Rect.mem_set_unit]
  exact Iff.rfl

/-- Every index of the output array is in some point's block: row `r` in the block of point `r / 5000`. -/
theorem cover1 (i : S100000x64.Idx) : ∃ t : Fin cfg1.N, (cfg1.win 6).flush t = true ∧ i ∈ ((cfg1.win 6).blk t).view.set := by
  have hi0 : (i 0).val < 100000 := (i 0).isLt
  have hi1 : (i 1).val < 64 := (i 1).isLt
  obtain ⟨t, q0, q1⟩ := idx_onto1 ⟨(i 0).val / 5000, by omega⟩
  refine ⟨t, flush1_6 t, ?_⟩
  rw [mem_blk1]
  intro a
  match a with
  | ⟨0, _⟩ => show win1_6.index t (0 : Fin 2) * 5000 ≤ (i 0).val ∧ (i 0).val < win1_6.index t (0 : Fin 2) * 5000 + 5000; rw [q0]; show (i 0).val / 5000 * 5000 ≤ (i 0).val ∧ (i 0).val < (i 0).val / 5000 * 5000 + 5000; omega
  | ⟨1, _⟩ => show win1_6.index t (1 : Fin 2) * 64 ≤ (i 1).val ∧ (i 1).val < win1_6.index t (1 : Fin 2) * 64 + 64; omega

/-- THE OUTPUT ARRAY after the region's grid: the layer's function of the six input arrays as the region finds them. -/
theorem final1 (c : Dev nD) : (dat1 (F := Ideal) V c).arrAt 6 cfg1.N = (Cert.Spec.sageG64 (V c (Pipeline.arrRef spec1 0)) (V c (Pipeline.arrRef spec1 1)) (V c (Pipeline.arrRef spec1 2)) (V c (Pipeline.arrRef spec1 3)) (V c (Pipeline.arrRef spec1 4)) (V c (Pipeline.arrRef spec1 5))) :=
  (dat1 V c).arrAt_eq_of_cover 6 _ (fun t _ => flushed1_eq V c t) cover1

end Cert.KernelIdeal.Val

end
-- ==== Proof.KI.V2.lean ====
/-
  The VALUE LEG of region 2 (a SAGE combine layer with 32 destination channels) at the ideal values: the body's payload
  read at an index of its block is the layer's row function of the input rows; each input block is the matching rows of
  its array (the weights and the bias: the whole array); so every grid point writes back block `t` of the layer's
  function of the six input ARRAYS, the 20 blocks cover the output array, and the array ends holding that function.
-/
import proofs.«173191_j73083163508880_2_alg».proof.Proof.KI.R2
import proofs.«173191_j73083163508880_2_alg».proof.Proof.KI.VSageOps
import proofs.«173191_j73083163508880_2_alg».proof.Proof.SpecA
import proofs.«173191_j73083163508880_2_alg».proof.Proof.LibSage
import proofs.«173191_j73083163508880_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)
open scoped BigOperators
open Cert.KernelIdeal.Val.Sage

/-- The body's payload at row `p` and column `q` of the block is the layer's row function of row `p` of the three
    row-blocked inputs and of the whole weights and bias: every operation of the payload read at that index. -/
theorem pay2_apply (x0 : Vec Ideal S5000x64 .f32) (x1 : Vec Ideal S5000x1 .f32) (x2 : Vec Ideal S5000x32 .f32)
    (x3 : Vec Ideal S64x64 .f32) (x5 : Vec Ideal S32x64 .f32) (x4 : Vec Ideal S64 .f32) (p : Fin 5000) (q : Fin 64) :
    k2_pay1 x0 x1 x2 x3 x5 x4 (ix2 p q)
      = Cert.Spec.sageRow (fun k => x0 (ix2 p k)) (x1 (ix2 p (0 : Fin 1))) (fun k => x2 (ix2 p k)) x3 x4 x5 q := by
  unfold k2_pay1 Cert.Spec.sageRow Cert.Spec.sageLin
  simp only [shapeCast_self, maximumf_apply, divf_apply, addf_apply, mulf_apply, truncf_apply, broadcast_apply,
    Cert.LibSage.sqrt_apply, Cert.LibKeepdims.broadcastTo_a1_ab_apply, broadcastTo_1b_ab_apply, shapeCast_a_1a_apply,
    Cert.LibKeepdims.shapeCast_a_a1_apply, matmul64_apply, matmul32_apply, Cert.LibKeepdims.scalar_ofBits]
  rw [rowsum_apply]
  simp only [maximumf_apply, divf_apply, addf_apply, mulf_apply, truncf_apply, broadcast_apply,
    Cert.LibKeepdims.broadcastTo_a1_ab_apply, broadcastTo_1b_ab_apply, shapeCast_a_1a_apply, matmul64_apply, matmul32_apply]

variable (V : (c : Dev nD) → (b : Ref sig .tc) → Buf (Elt Ideal) ((c : Thread nD τ).loc b))

/-- The printed index maps, decided over the grid's 20 points: the three row-blocked inputs and the output are at
    block `(t, 0)` at point `t`; the weights and the bias are at block zero. -/
theorem idx_facts2 : ∀ t : Fin cfg2.N, t.val < 20
    ∧ win2_6.index t (0 : Fin 2) = t.val
    ∧ win2_6.index t (1 : Fin 2) = 0
    ∧ win2_0.index t (0 : Fin 2) = t.val
    ∧ win2_0.index t (1 : Fin 2) = 0
    ∧ win2_1.index t (0 : Fin 2) = t.val
    ∧ win2_1.index t (1 : Fin 2) = 0
    ∧ win2_2.index t (0 : Fin 2) = t.val
    ∧ win2_2.index t (1 : Fin 2) = 0
    ∧ win2_3.index t (0 : Fin 2) = 0
    ∧ win2_3.index t (1 : Fin 2) = 0
    ∧ win2_4.index t (0 : Fin 1) = 0
    ∧ win2_5.index t (0 : Fin 2) = 0
    ∧ win2_5.index t (1 : Fin 2) = 0 :=
  (by decide +kernel : ∀ t : Fin grid2.N, _)

/-- Every one of the 20 row blocks of the output is SOME point's. -/
theorem idx_onto2 : ∀ q0 : Fin 20, ∃ t : Fin cfg2.N, win2_6.index t (0 : Fin 2) = q0.val ∧ win2_6.index t (1 : Fin 2) = 0 :=
  (by decide +kernel : ∀ q0 : Fin 20, ∃ t : Fin grid2.N, win2_6.index t (0 : Fin 2) = q0.val ∧ win2_6.index t (1 : Fin 2) = 0)

/-- The array row that row `p` of point `t`'s blocks is: `5000 t + p`. -/
def row2 (t : Fin cfg2.N) (p : Fin 5000) : Fin 100000 :=
  ⟨t.val * 5000 + p.val, by have h := (idx_facts2 t).1; have := p.isLt; omega⟩

/-- Row `p` of input window 0's block at point `t` is row `5000 t + p` of its array. -/
theorem iblk2_0_apply (c : Dev nD) (t : Fin cfg2.N) (p : Fin 5000) (k : Fin 64) :
    iblk2 V c 0 t (ix2 p k) = V c (Pipeline.arrRef spec2 0) (ix2 (row2 t p) k) := by
  obtain ⟨ht, e60, e61, e00, e01, e10, e11, e20, e21, e30, e31, e40, e50, e51⟩ := idx_facts2 t
  unfold iblk2
  rw [View.read_apply]
  refine congrArg (V c (Pipeline.arrRef spec2 0)) (funext fun a => Fin.ext ?_)
  match a with
  | ⟨0, _⟩ => show win2_0.index t (0 : Fin 2) * 5000 + 1 * p.val = t.val * 5000 + p.val; omega
  | ⟨1, _⟩ => show win2_0.index t (1 : Fin 2) * 64 + 1 * k.val = k.val; omega

/-- Row `p` of input window 1's block at point `t` is row `5000 t + p` of its one-column array. -/
theorem iblk2_1_apply (c : Dev nD) (t : Fin cfg2.N) (p : Fin 5000) :
    iblk2 V c 1 t (ix2 p (0 : Fin 1)) = V c (Pipeline.arrRef spec2 1) (ix2 (row2 t p) (0 : Fin 1)) := by
  obtain ⟨ht, e60, e61, e00, e01, e10, e11, e20, e21, e30, e31, e40, e50, e51⟩ := idx_facts2 t
  unfold iblk2
  rw [View.read_apply]
  refine congrArg (V c (Pipeline.arrRef spec2 1)) (funext fun a => Fin.ext ?_)
  match a with
  | ⟨0, _⟩ => show win2_1.index t (0 : Fin 2) * 5000 + 1 * p.val = t.val * 5000 + p.val; omega
  | ⟨1, _⟩ => show win2_1.index t (1 : Fin 2) * 1 + 1 * 0 = 0; omega

/-- Row `p` of input window 2's block at point `t` is row `5000 t + p` of its array. -/
theorem iblk2_2_apply (c : Dev nD) (t : Fin cfg2.N) (p : Fin 5000) (k : Fin 32) :
    iblk2 V c 2 t (ix2 p k) = V c (Pipeline.arrRef spec2 2) (ix2 (row2 t p) k) := by
  obtain ⟨ht, e60, e61, e00, e01, e10, e11, e20, e21, e30, e31, e40, e50, e51⟩ := idx_facts2 t
  unfold iblk2
  rw [View.read_apply]
  refine congrArg (V c (Pipeline.arrRef spec2 2)) (funext fun a => Fin.ext ?_)
  match a with
  | ⟨0, _⟩ => show win2_2.index t (0 : Fin 2) * 5000 + 1 * p.val = t.val * 5000 + p.val; omega
  | ⟨1, _⟩ => show win2_2.index t (1 : Fin 2) * 32 + 1 * k.val = k.val; omega

/-- Input window 3's block at every point is its whole array: its block index is zero on every axis. -/
theorem iblk2_3_eq (c : Dev nD) (t : Fin cfg2.N) : iblk2 V c 3 t = V c (Pipeline.arrRef spec2 3) := by
  obtain ⟨ht, e60, e61, e00, e01, e10, e11, e20, e21, e30, e31, e40, e50, e51⟩ := idx_facts2 t
  unfold iblk2
  funext y
  rw [View.read_apply]
  refine congrArg (V c (Pipeline.arrRef spec2 3)) (funext fun a => Fin.ext ?_)
  match a with
  | ⟨0, _⟩ => show win2_3.index t (0 : Fin 2) * 64 + 1 * (y 0).val = (y 0).val; omega
  | ⟨1, _⟩ => show win2_3.index t (1 : Fin 2) * 64 + 1 * (y 1).val = (y 1).val; omega

/-- Input window 4's block at every point is its whole array: its block index is zero on every axis. -/
theorem iblk2_4_eq (c : Dev nD) (t : Fin cfg2.N) : iblk2 V c 4 t = V c (Pipeline.arrRef spec2 4) := by
  obtain ⟨ht, e60, e61, e00, e01, e10, e11, e20, e21, e30, e31, e40, e50, e51⟩ := idx_facts2 t
  unfold iblk2
  funext y
  rw [View.read_apply]
  refine congrArg (V c (Pipeline.arrRef spec2 4)) (funext fun a => Fin.ext ?_)
  match a with
  | ⟨0, _⟩ => show win2_4.index t (0 : Fin 1) * 64 + 1 * (y 0).val = (y 0).val; omega

/-- Input window 5's block at every point is its whole array: its block index is zero on every axis. -/
theorem iblk2_5_eq (c : Dev nD) (t : Fin cfg2.N) : iblk2 V c 5 t = V c (Pipeline.arrRef spec2 5) := by
  obtain ⟨ht, e60, e61, e00, e01, e10, e11, e20, e21, e30, e31, e40, e50, e51⟩ := idx_facts2 t
  unfold iblk2
  funext y
  rw [View.read_apply]
  refine congrArg (V c (Pipeline.arrRef spec2 5)) (funext fun a => Fin.ext ?_)
  match a with
  | ⟨0, _⟩ => show win2_5.index t (0 : Fin 2) * 32 + 1 * (y 0).val = (y 0).val; omega
  | ⟨1, _⟩ => show win2_5.index t (1 : Fin 2) * 64 + 1 * (y 1).val = (y 1).val; omega

/-- Entry `(p, q)` of the output's block at point `t` sits in the array at `(5000 t + p, q)`. -/
theorem emb2_6 (t : Fin cfg2.N) (p : Fin 5000) (q : Fin 64) :
    ((cfg2.win 6).blk t).view.emb (ix2 p q) = ix2 (row2 t p) q := by
  obtain ⟨ht, e60, e61, e00, e01, e10, e11, e20, e21, e30, e31, e40, e50, e51⟩ := idx_facts2 t
  refine funext fun a => Fin.ext ?_
  match a with
  | ⟨0, _⟩ => show win2_6.index t (0 : Fin 2) * 5000 + 1 * p.val = t.val * 5000 + p.val; omega
  | ⟨1, _⟩ => show win2_6.index t (1 : Fin 2) * 64 + 1 * q.val = q.val; omega

/-- WHAT POINT `t` WRITES BACK is block `t` of the layer's function of the six input arrays as the region finds them. -/
theorem flushed2_eq (c : Dev nD) (t : Fin cfg2.N) :
    (dat2 (F := Ideal) V c).flushed 6 t = ((cfg2.win 6).blk t).view.read (Elt Ideal) (Cert.Spec.sageG32 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5))) := by
  show (cfg2.win 6).cut (grid2.coords t) ((dat2 V c).after 6 t) = _
  rw [after2_6]
  unfold out2_6
  rw [View.canon_unit_zero Sage.hz2]
  simp only [View.ld_unit_zero (S := S5000x64) Sage.hz2, View.ld_unit_zero (S := S5000x1) Sage.hz2, View.ld_unit_zero (S := S5000x32) Sage.hz2,
    View.ld_unit_zero (S := S64x64) Sage.hz2, View.ld_unit_zero (S := S32x64) Sage.hz2, View.ld_unit_zero (S := S64) Sage.hz1]
  funext j
  obtain ⟨p, q, rfl⟩ : ∃ (p : Fin 5000) (q : Fin 64), j = ix2 p q := ⟨j 0, j 1, eq_ix2 j⟩
  refine (pay2_apply _ _ _ _ _ _ p q).trans ?_
  simp only [iblk2_0_apply, iblk2_1_apply, iblk2_2_apply, iblk2_3_eq, iblk2_4_eq, iblk2_5_eq]
  rw [View.read_apply, emb2_6]
  rfl

/-- An index of the output array is in point `t`'s block iff each coordinate is in the block's range on its axis. -/
theorem mem_blk2 (t : Fin cfg2.N) (i : S100000x64.Idx) :
    i ∈ ((cfg2.win 6).blk t).view.set ↔ ∀ a : Fin 2, win2_6.index t a * S5000x64.size a ≤ (i a).val ∧ (i a).val < win2_6.index t a * S5000x64.size a + S5000x64.size a := by
  show i ∈ ((View.whole main_v65).slice (win2_6.rect t)).set ↔ _
  rw [View.set_slice_whole, Rect.mem_set_unit]
  exact Iff.rfl

/-- Every index of the output array is in some point's block: row `r` in the block of point `r / 5000`. -/
theorem cover2 (i : S100000x64.Idx) : ∃ t : Fin cfg2.N, (cfg2.win 6).flush t = true ∧ i ∈ ((cfg2.win 6).blk t).view.set := by
  have hi0 : (i 0).val < 100000 := (i 0).isLt
  have hi1 : (i 1).val < 64 := (i 1).isLt
  obtain ⟨t, q0, q1⟩ := idx_onto2 ⟨(i 0).val / 5000, by omega⟩
  refine ⟨t, flush2_6 t, ?_⟩
  rw [mem_blk2]
  intro a
  match a with
  | ⟨0, _⟩ => show win2_6.index t (0 : Fin 2) * 5000 ≤ (i 0).val ∧ (i 0).val < win2_6.index t (0 : Fin 2) * 5000 + 5000; rw [q0]; show (i 0).val / 5000 * 5000 ≤ (i 0).val ∧ (i 0).val < (i 0).val / 5000 * 5000 + 5000; omega
  | ⟨1, _⟩ => show win2_6.index t (1 : Fin 2) * 64 ≤ (i 1).val ∧ (i 1).val < win2_6.index t (1 : Fin 2) * 64 + 64; omega

/-- THE OUTPUT ARRAY after the region's grid: the layer's function of the six input arrays as the region finds them. -/
theorem final2 (c : Dev nD) : (dat2 (F := Ideal) V c).arrAt 6 cfg2.N = (Cert.Spec.sageG32 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5))) :=
  (dat2 V c).arrAt_eq_of_cover 6 _ (fun t _ => flushed2_eq V c t) cover2

end Cert.KernelIdeal.Val

end
-- ==== Proof.KI.V9.lean ====
/-
  The VALUE LEG of region 9 (a SAGE combine layer with 64 destination channels) at the ideal values: the body's payload
  read at an index of its block is the layer's row function of the input rows; each input block is the matching rows of
  its array (the weights and the bias: the whole array); so every grid point writes back block `t` of the layer's
  function of the six input ARRAYS, the 20 blocks cover the output array, and the array ends holding that function.
-/
import proofs.«173191_j73083163508880_2_alg».proof.Proof.KI.R9
import proofs.«173191_j73083163508880_2_alg».proof.Proof.KI.VSageOps
import proofs.«173191_j73083163508880_2_alg».proof.Proof.SpecA
import proofs.«173191_j73083163508880_2_alg».proof.Proof.LibSage
import proofs.«173191_j73083163508880_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)
open scoped BigOperators
open Cert.KernelIdeal.Val.Sage

/-- The body's payload at row `p` and column `q` of the block is the layer's row function of row `p` of the three
    row-blocked inputs and of the whole weights and bias: every operation of the payload read at that index. -/
theorem pay9_apply (x0 : Vec Ideal S5000x64 .f32) (x1 : Vec Ideal S5000x1 .f32) (x2 : Vec Ideal S5000x64 .f32)
    (x3 : Vec Ideal S64x64 .f32) (x5 : Vec Ideal S64x64 .f32) (x4 : Vec Ideal S64 .f32) (p : Fin 5000) (q : Fin 64) :
    k9_pay1 x0 x1 x2 x3 x5 x4 (ix2 p q)
      = Cert.Spec.sageRow (fun k => x0 (ix2 p k)) (x1 (ix2 p (0 : Fin 1))) (fun k => x2 (ix2 p k)) x3 x4 x5 q := by
  unfold k9_pay1 Cert.Spec.sageRow Cert.Spec.sageLin
  simp only [shapeCast_self, maximumf_apply, divf_apply, addf_apply, mulf_apply, truncf_apply, broadcast_apply,
    Cert.LibSage.sqrt_apply, Cert.LibKeepdims.broadcastTo_a1_ab_apply, broadcastTo_1b_ab_apply, shapeCast_a_1a_apply,
    Cert.LibKeepdims.shapeCast_a_a1_apply, matmul64_apply, Cert.LibKeepdims.scalar_ofBits]
  rw [rowsum_apply]
  simp only [maximumf_apply, divf_apply, addf_apply, mulf_apply, truncf_apply, broadcast_apply,
    Cert.LibKeepdims.broadcastTo_a1_ab_apply, broadcastTo_1b_ab_apply, shapeCast_a_1a_apply, matmul64_apply]

variable (V : (c : Dev nD) → (b : Ref sig .tc) → Buf (Elt Ideal) ((c : Thread nD τ).loc b))

/-- The printed index maps, decided over the grid's 20 points: the three row-blocked inputs and the output are at
    block `(t, 0)` at point `t`; the weights and the bias are at block zero. -/
theorem idx_facts9 : ∀ t : Fin cfg9.N, t.val < 20
    ∧ win9_6.index t (0 : Fin 2) = t.val
    ∧ win9_6.index t (1 : Fin 2) = 0
    ∧ win9_0.index t (0 : Fin 2) = t.val
    ∧ win9_0.index t (1 : Fin 2) = 0
    ∧ win9_1.index t (0 : Fin 2) = t.val
    ∧ win9_1.index t (1 : Fin 2) = 0
    ∧ win9_2.index t (0 : Fin 2) = t.val
    ∧ win9_2.index t (1 : Fin 2) = 0
    ∧ win9_3.index t (0 : Fin 2) = 0
    ∧ win9_3.index t (1 : Fin 2) = 0
    ∧ win9_4.index t (0 : Fin 1) = 0
    ∧ win9_5.index t (0 : Fin 2) = 0
    ∧ win9_5.index t (1 : Fin 2) = 0 :=
  (by decide +kernel : ∀ t : Fin grid9.N, _)

/-- Every one of the 20 row blocks of the output is SOME point's. -/
theorem idx_onto9 : ∀ q0 : Fin 20, ∃ t : Fin cfg9.N, win9_6.index t (0 : Fin 2) = q0.val ∧ win9_6.index t (1 : Fin 2) = 0 :=
  (by decide +kernel : ∀ q0 : Fin 20, ∃ t : Fin grid9.N, win9_6.index t (0 : Fin 2) = q0.val ∧ win9_6.index t (1 : Fin 2) = 0)

/-- The array row that row `p` of point `t`'s blocks is: `5000 t + p`. -/
def row9 (t : Fin cfg9.N) (p : Fin 5000) : Fin 100000 :=
  ⟨t.val * 5000 + p.val, by have h := (idx_facts9 t).1; have := p.isLt; omega⟩

/-- Row `p` of input window 0's block at point `t` is row `5000 t + p` of its array. -/
theorem iblk9_0_apply (c : Dev nD) (t : Fin cfg9.N) (p : Fin 5000) (k : Fin 64) :
    iblk9 V c 0 t (ix2 p k) = V c (Pipeline.arrRef spec9 0) (ix2 (row9 t p) k) := by
  obtain ⟨ht, e60, e61, e00, e01, e10, e11, e20, e21, e30, e31, e40, e50, e51⟩ := idx_facts9 t
  unfold iblk9
  rw [View.read_apply]
  refine congrArg (V c (Pipeline.arrRef spec9 0)) (funext fun a => Fin.ext ?_)
  match a with
  | ⟨0, _⟩ => show win9_0.index t (0 : Fin 2) * 5000 + 1 * p.val = t.val * 5000 + p.val; omega
  | ⟨1, _⟩ => show win9_0.index t (1 : Fin 2) * 64 + 1 * k.val = k.val; omega

/-- Row `p` of input window 1's block at point `t` is row `5000 t + p` of its one-column array. -/
theorem iblk9_1_apply (c : Dev nD) (t : Fin cfg9.N) (p : Fin 5000) :
    iblk9 V c 1 t (ix2 p (0 : Fin 1)) = V c (Pipeline.arrRef spec9 1) (ix2 (row9 t p) (0 : Fin 1)) := by
  obtain ⟨ht, e60, e61, e00, e01, e10, e11, e20, e21, e30, e31, e40, e50, e51⟩ := idx_facts9 t
  unfold iblk9
  rw [View.read_apply]
  refine congrArg (V c (Pipeline.arrRef spec9 1)) (funext fun a => Fin.ext ?_)
  match a with
  | ⟨0, _⟩ => show win9_1.index t (0 : Fin 2) * 5000 + 1 * p.val = t.val * 5000 + p.val; omega
  | ⟨1, _⟩ => show win9_1.index t (1 : Fin 2) * 1 + 1 * 0 = 0; omega

/-- Row `p` of input window 2's block at point `t` is row `5000 t + p` of its array. -/
theorem iblk9_2_apply (c : Dev nD) (t : Fin cfg9.N) (p : Fin 5000) (k : Fin 64) :
    iblk9 V c 2 t (ix2 p k) = V c (Pipeline.arrRef spec9 2) (ix2 (row9 t p) k) := by
  obtain ⟨ht, e60, e61, e00, e01, e10, e11, e20, e21, e30, e31, e40, e50, e51⟩ := idx_facts9 t
  unfold iblk9
  rw [View.read_apply]
  refine congrArg (V c (Pipeline.arrRef spec9 2)) (funext fun a => Fin.ext ?_)
  match a with
  | ⟨0, _⟩ => show win9_2.index t (0 : Fin 2) * 5000 + 1 * p.val = t.val * 5000 + p.val; omega
  | ⟨1, _⟩ => show win9_2.index t (1 : Fin 2) * 64 + 1 * k.val = k.val; omega

/-- Input window 3's block at every point is its whole array: its block index is zero on every axis. -/
theorem iblk9_3_eq (c : Dev nD) (t : Fin cfg9.N) : iblk9 V c 3 t = V c (Pipeline.arrRef spec9 3) := by
  obtain ⟨ht, e60, e61, e00, e01, e10, e11, e20, e21, e30, e31, e40, e50, e51⟩ := idx_facts9 t
  unfold iblk9
  funext y
  rw [View.read_apply]
  refine congrArg (V c (Pipeline.arrRef spec9 3)) (funext fun a => Fin.ext ?_)
  match a with
  | ⟨0, _⟩ => show win9_3.index t (0 : Fin 2) * 64 + 1 * (y 0).val = (y 0).val; omega
  | ⟨1, _⟩ => show win9_3.index t (1 : Fin 2) * 64 + 1 * (y 1).val = (y 1).val; omega

/-- Input window 4's block at every point is its whole array: its block index is zero on every axis. -/
theorem iblk9_4_eq (c : Dev nD) (t : Fin cfg9.N) : iblk9 V c 4 t = V c (Pipeline.arrRef spec9 4) := by
  obtain ⟨ht, e60, e61, e00, e01, e10, e11, e20, e21, e30, e31, e40, e50, e51⟩ := idx_facts9 t
  unfold iblk9
  funext y
  rw [View.read_apply]
  refine congrArg (V c (Pipeline.arrRef spec9 4)) (funext fun a => Fin.ext ?_)
  match a with
  | ⟨0, _⟩ => show win9_4.index t (0 : Fin 1) * 64 + 1 * (y 0).val = (y 0).val; omega

/-- Input window 5's block at every point is its whole array: its block index is zero on every axis. -/
theorem iblk9_5_eq (c : Dev nD) (t : Fin cfg9.N) : iblk9 V c 5 t = V c (Pipeline.arrRef spec9 5) := by
  obtain ⟨ht, e60, e61, e00, e01, e10, e11, e20, e21, e30, e31, e40, e50, e51⟩ := idx_facts9 t
  unfold iblk9
  funext y
  rw [View.read_apply]
  refine congrArg (V c (Pipeline.arrRef spec9 5)) (funext fun a => Fin.ext ?_)
  match a with
  | ⟨0, _⟩ => show win9_5.index t (0 : Fin 2) * 64 + 1 * (y 0).val = (y 0).val; omega
  | ⟨1, _⟩ => show win9_5.index t (1 : Fin 2) * 64 + 1 * (y 1).val = (y 1).val; omega

/-- Entry `(p, q)` of the output's block at point `t` sits in the array at `(5000 t + p, q)`. -/
theorem emb9_6 (t : Fin cfg9.N) (p : Fin 5000) (q : Fin 64) :
    ((cfg9.win 6).blk t).view.emb (ix2 p q) = ix2 (row9 t p) q := by
  obtain ⟨ht, e60, e61, e00, e01, e10, e11, e20, e21, e30, e31, e40, e50, e51⟩ := idx_facts9 t
  refine funext fun a => Fin.ext ?_
  match a with
  | ⟨0, _⟩ => show win9_6.index t (0 : Fin 2) * 5000 + 1 * p.val = t.val * 5000 + p.val; omega
  | ⟨1, _⟩ => show win9_6.index t (1 : Fin 2) * 64 + 1 * q.val = q.val; omega

/-- WHAT POINT `t` WRITES BACK is block `t` of the layer's function of the six input arrays as the region finds them. -/
theorem flushed9_eq (c : Dev nD) (t : Fin cfg9.N) :
    (dat9 (F := Ideal) V c).flushed 6 t = ((cfg9.win 6).blk t).view.read (Elt Ideal) (Cert.Spec.sageG64 (V c (Pipeline.arrRef spec9 0)) (V c (Pipeline.arrRef spec9 1)) (V c (Pipeline.arrRef spec9 2)) (V c (Pipeline.arrRef spec9 3)) (V c (Pipeline.arrRef spec9 4)) (V c (Pipeline.arrRef spec9 5))) := by
  show (cfg9.win 6).cut (grid9.coords t) ((dat9 V c).after 6 t) = _
  rw [after9_6]
  unfold out9_6
  rw [View.canon_unit_zero Sage.hz2]
  simp only [View.ld_unit_zero (S := S5000x64) Sage.hz2, View.ld_unit_zero (S := S5000x1) Sage.hz2,
    View.ld_unit_zero (S := S64x64) Sage.hz2, View.ld_unit_zero (S := S64) Sage.hz1]
  funext j
  obtain ⟨p, q, rfl⟩ : ∃ (p : Fin 5000) (q : Fin 64), j = ix2 p q := ⟨j 0, j 1, eq_ix2 j⟩
  refine (pay9_apply _ _ _ _ _ _ p q).trans ?_
  simp only [iblk9_0_apply, iblk9_1_apply, iblk9_2_apply, iblk9_3_eq, iblk9_4_eq, iblk9_5_eq]
  rw [View.read_apply, emb9_6]
  rfl

/-- An index of the output array is in point `t`'s block iff each coordinate is in the block's range on its axis. -/
theorem mem_blk9 (t : Fin cfg9.N) (i : S100000x64.Idx) :
    i ∈ ((cfg9.win 6).blk t).view.set ↔ ∀ a : Fin 2, win9_6.index t a * S5000x64.size a ≤ (i a).val ∧ (i a).val < win9_6.index t a * S5000x64.size a + S5000x64.size a := by
  show i ∈ ((View.whole main_v177).slice (win9_6.rect t)).set ↔ _
  rw [View.set_slice_whole, Rect.mem_set_unit]
  exact Iff.rfl

/-- Every index of the output array is in some point's block: row `r` in the block of point `r / 5000`. -/
theorem cover9 (i : S100000x64.Idx) : ∃ t : Fin cfg9.N, (cfg9.win 6).flush t = true ∧ i ∈ ((cfg9.win 6).blk t).view.set := by
  have hi0 : (i 0).val < 100000 := (i 0).isLt
  have hi1 : (i 1).val < 64 := (i 1).isLt
  obtain ⟨t, q0, q1⟩ := idx_onto9 ⟨(i 0).val / 5000, by omega⟩
  refine ⟨t, flush9_6 t, ?_⟩
  rw [mem_blk9]
  intro a
  match a with
  | ⟨0, _⟩ => show win9_6.index t (0 : Fin 2) * 5000 ≤ (i 0).val ∧ (i 0).val < win9_6.index t (0 : Fin 2) * 5000 + 5000; rw [q0]; show (i 0).val / 5000 * 5000 ≤ (i 0).val ∧ (i 0).val < (i 0).val / 5000 * 5000 + 5000; omega
  | ⟨1, _⟩ => show win9_6.index t (1 : Fin 2) * 64 ≤ (i 1).val ∧ (i 1).val < win9_6.index t (1 : Fin 2) * 64 + 64; omega

/-- THE OUTPUT ARRAY after the region's grid: the layer's function of the six input arrays as the region finds them. -/
theorem final9 (c : Dev nD) : (dat9 (F := Ideal) V c).arrAt 6 cfg9.N = (Cert.Spec.sageG64 (V c (Pipeline.arrRef spec9 0)) (V c (Pipeline.arrRef spec9 1)) (V c (Pipeline.arrRef spec9 2)) (V c (Pipeline.arrRef spec9 3)) (V c (Pipeline.arrRef spec9 4)) (V c (Pipeline.arrRef spec9 5))) :=
  (dat9 V c).arrAt_eq_of_cover 6 _ (fun t _ => flushed9_eq V c t) cover9

end Cert.KernelIdeal.Val

end
-- ==== Proof.KI.V10.lean ====
/-
  The VALUE LEG of region 10 (a SAGE combine layer with 64 destination channels) at the ideal values: the body's payload
  read at an index of its block is the layer's row function of the input rows; each input block is the matching rows of
  its array (the weights and the bias: the whole array); so every grid point writes back block `t` of the layer's
  function of the six input ARRAYS, the 20 blocks cover the output array, and the array ends holding that function.
-/
import proofs.«173191_j73083163508880_2_alg».proof.Proof.KI.R10
import proofs.«173191_j73083163508880_2_alg».proof.Proof.KI.VSageOps
import proofs.«173191_j73083163508880_2_alg».proof.Proof.SpecA
import proofs.«173191_j73083163508880_2_alg».proof.Proof.LibSage
import proofs.«173191_j73083163508880_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)
open scoped BigOperators
open Cert.KernelIdeal.Val.Sage

/-- The body's payload at row `p` and column `q` of the block is the layer's row function of row `p` of the three
    row-blocked inputs and of the whole weights and bias: every operation of the payload read at that index. -/
theorem pay10_apply (x0 : Vec Ideal S5000x64 .f32) (x1 : Vec Ideal S5000x1 .f32) (x2 : Vec Ideal S5000x64 .f32)
    (x3 : Vec Ideal S64x64 .f32) (x5 : Vec Ideal S64x64 .f32) (x4 : Vec Ideal S64 .f32) (p : Fin 5000) (q : Fin 64) :
    k10_pay1 x0 x1 x2 x3 x5 x4 (ix2 p q)
      = Cert.Spec.sageRow (fun k => x0 (ix2 p k)) (x1 (ix2 p (0 : Fin 1))) (fun k => x2 (ix2 p k)) x3 x4 x5 q := by
  unfold k10_pay1 Cert.Spec.sageRow Cert.Spec.sageLin
  simp only [shapeCast_self, maximumf_apply, divf_apply, addf_apply, mulf_apply, truncf_apply, broadcast_apply,
    Cert.LibSage.sqrt_apply, Cert.LibKeepdims.broadcastTo_a1_ab_apply, broadcastTo_1b_ab_apply, shapeCast_a_1a_apply,
    Cert.LibKeepdims.shapeCast_a_a1_apply, matmul64_apply, Cert.LibKeepdims.scalar_ofBits]
  rw [rowsum_apply]
  simp only [maximumf_apply, divf_apply, addf_apply, mulf_apply, truncf_apply, broadcast_apply,
    Cert.LibKeepdims.broadcastTo_a1_ab_apply, broadcastTo_1b_ab_apply, shapeCast_a_1a_apply, matmul64_apply]

variable (V : (c : Dev nD) → (b : Ref sig .tc) → Buf (Elt Ideal) ((c : Thread nD τ).loc b))

/-- The printed index maps, decided over the grid's 20 points: the three row-blocked inputs and the output are at
    block `(t, 0)` at point `t`; the weights and the bias are at block zero. -/
theorem idx_facts10 : ∀ t : Fin cfg10.N, t.val < 20
    ∧ win10_6.index t (0 : Fin 2) = t.val
    ∧ win10_6.index t (1 : Fin 2) = 0
    ∧ win10_0.index t (0 : Fin 2) = t.val
    ∧ win10_0.index t (1 : Fin 2) = 0
    ∧ win10_1.index t (0 : Fin 2) = t.val
    ∧ win10_1.index t (1 : Fin 2) = 0
    ∧ win10_2.index t (0 : Fin 2) = t.val
    ∧ win10_2.index t (1 : Fin 2) = 0
    ∧ win10_3.index t (0 : Fin 2) = 0
    ∧ win10_3.index t (1 : Fin 2) = 0
    ∧ win10_4.index t (0 : Fin 1) = 0
    ∧ win10_5.index t (0 : Fin 2) = 0
    ∧ win10_5.index t (1 : Fin 2) = 0 :=
  (by decide +kernel : ∀ t : Fin grid10.N, _)

/-- Every one of the 20 row blocks of the output is SOME point's. -/
theorem idx_onto10 : ∀ q0 : Fin 20, ∃ t : Fin cfg10.N, win10_6.index t (0 : Fin 2) = q0.val ∧ win10_6.index t (1 : Fin 2) = 0 :=
  (by decide +kernel : ∀ q0 : Fin 20, ∃ t : Fin grid10.N, win10_6.index t (0 : Fin 2) = q0.val ∧ win10_6.index t (1 : Fin 2) = 0)

/-- The array row that row `p` of point `t`'s blocks is: `5000 t + p`. -/
def row10 (t : Fin cfg10.N) (p : Fin 5000) : Fin 100000 :=
  ⟨t.val * 5000 + p.val, by have h := (idx_facts10 t).1; have := p.isLt; omega⟩

/-- Row `p` of input window 0's block at point `t` is row `5000 t + p` of its array. -/
theorem iblk10_0_apply (c : Dev nD) (t : Fin cfg10.N) (p : Fin 5000) (k : Fin 64) :
    iblk10 V c 0 t (ix2 p k) = V c (Pipeline.arrRef spec10 0) (ix2 (row10 t p) k) := by
  obtain ⟨ht, e60, e61, e00, e01, e10, e11, e20, e21, e30, e31, e40, e50, e51⟩ := idx_facts10 t
  unfold iblk10
  rw [View.read_apply]
  refine congrArg (V c (Pipeline.arrRef spec10 0)) (funext fun a => Fin.ext ?_)
  match a with
  | ⟨0, _⟩ => show win10_0.index t (0 : Fin 2) * 5000 + 1 * p.val = t.val * 5000 + p.val; omega
  | ⟨1, _⟩ => show win10_0.index t (1 : Fin 2) * 64 + 1 * k.val = k.val; omega

/-- Row `p` of input window 1's block at point `t` is row `5000 t + p` of its one-column array. -/
theorem iblk10_1_apply (c : Dev nD) (t : Fin cfg10.N) (p : Fin 5000) :
    iblk10 V c 1 t (ix2 p (0 : Fin 1)) = V c (Pipeline.arrRef spec10 1) (ix2 (row10 t p) (0 : Fin 1)) := by
  obtain ⟨ht, e60, e61, e00, e01, e10, e11, e20, e21, e30, e31, e40, e50, e51⟩ := idx_facts10 t
  unfold iblk10
  rw [View.read_apply]
  refine congrArg (V c (Pipeline.arrRef spec10 1)) (funext fun a => Fin.ext ?_)
  match a with
  | ⟨0, _⟩ => show win10_1.index t (0 : Fin 2) * 5000 + 1 * p.val = t.val * 5000 + p.val; omega
  | ⟨1, _⟩ => show win10_1.index t (1 : Fin 2) * 1 + 1 * 0 = 0; omega

/-- Row `p` of input window 2's block at point `t` is row `5000 t + p` of its array. -/
theorem iblk10_2_apply (c : Dev nD) (t : Fin cfg10.N) (p : Fin 5000) (k : Fin 64) :
    iblk10 V c 2 t (ix2 p k) = V c (Pipeline.arrRef spec10 2) (ix2 (row10 t p) k) := by
  obtain ⟨ht, e60, e61, e00, e01, e10, e11, e20, e21, e30, e31, e40, e50, e51⟩ := idx_facts10 t
  unfold iblk10
  rw [View.read_apply]
  refine congrArg (V c (Pipeline.arrRef spec10 2)) (funext fun a => Fin.ext ?_)
  match a with
  | ⟨0, _⟩ => show win10_2.index t (0 : Fin 2) * 5000 + 1 * p.val = t.val * 5000 + p.val; omega
  | ⟨1, _⟩ => show win10_2.index t (1 : Fin 2) * 64 + 1 * k.val = k.val; omega

/-- Input window 3's block at every point is its whole array: its block index is zero on every axis. -/
theorem iblk10_3_eq (c : Dev nD) (t : Fin cfg10.N) : iblk10 V c 3 t = V c (Pipeline.arrRef spec10 3) := by
  obtain ⟨ht, e60, e61, e00, e01, e10, e11, e20, e21, e30, e31, e40, e50, e51⟩ := idx_facts10 t
  unfold iblk10
  funext y
  rw [View.read_apply]
  refine congrArg (V c (Pipeline.arrRef spec10 3)) (funext fun a => Fin.ext ?_)
  match a with
  | ⟨0, _⟩ => show win10_3.index t (0 : Fin 2) * 64 + 1 * (y 0).val = (y 0).val; omega
  | ⟨1, _⟩ => show win10_3.index t (1 : Fin 2) * 64 + 1 * (y 1).val = (y 1).val; omega

/-- Input window 4's block at every point is its whole array: its block index is zero on every axis. -/
theorem iblk10_4_eq (c : Dev nD) (t : Fin cfg10.N) : iblk10 V c 4 t = V c (Pipeline.arrRef spec10 4) := by
  obtain ⟨ht, e60, e61, e00, e01, e10, e11, e20, e21, e30, e31, e40, e50, e51⟩ := idx_facts10 t
  unfold iblk10
  funext y
  rw [View.read_apply]
  refine congrArg (V c (Pipeline.arrRef spec10 4)) (funext fun a => Fin.ext ?_)
  match a with
  | ⟨0, _⟩ => show win10_4.index t (0 : Fin 1) * 64 + 1 * (y 0).val = (y 0).val; omega

/-- Input window 5's block at every point is its whole array: its block index is zero on every axis. -/
theorem iblk10_5_eq (c : Dev nD) (t : Fin cfg10.N) : iblk10 V c 5 t = V c (Pipeline.arrRef spec10 5) := by
  obtain ⟨ht, e60, e61, e00, e01, e10, e11, e20, e21, e30, e31, e40, e50, e51⟩ := idx_facts10 t
  unfold iblk10
  funext y
  rw [View.read_apply]
  refine congrArg (V c (Pipeline.arrRef spec10 5)) (funext fun a => Fin.ext ?_)
  match a with
  | ⟨0, _⟩ => show win10_5.index t (0 : Fin 2) * 64 + 1 * (y 0).val = (y 0).val; omega
  | ⟨1, _⟩ => show win10_5.index t (1 : Fin 2) * 64 + 1 * (y 1).val = (y 1).val; omega

/-- Entry `(p, q)` of the output's block at point `t` sits in the array at `(5000 t + p, q)`. -/
theorem emb10_6 (t : Fin cfg10.N) (p : Fin 5000) (q : Fin 64) :
    ((cfg10.win 6).blk t).view.emb (ix2 p q) = ix2 (row10 t p) q := by
  obtain ⟨ht, e60, e61, e00, e01, e10, e11, e20, e21, e30, e31, e40, e50, e51⟩ := idx_facts10 t
  refine funext fun a => Fin.ext ?_
  match a with
  | ⟨0, _⟩ => show win10_6.index t (0 : Fin 2) * 5000 + 1 * p.val = t.val * 5000 + p.val; omega
  | ⟨1, _⟩ => show win10_6.index t (1 : Fin 2) * 64 + 1 * q.val = q.val; omega

/-- WHAT POINT `t` WRITES BACK is block `t` of the layer's function of the six input arrays as the region finds them. -/
theorem flushed10_eq (c : Dev nD) (t : Fin cfg10.N) :
    (dat10 (F := Ideal) V c).flushed 6 t = ((cfg10.win 6).blk t).view.read (Elt Ideal) (Cert.Spec.sageG64 (V c (Pipeline.arrRef spec10 0)) (V c (Pipeline.arrRef spec10 1)) (V c (Pipeline.arrRef spec10 2)) (V c (Pipeline.arrRef spec10 3)) (V c (Pipeline.arrRef spec10 4)) (V c (Pipeline.arrRef spec10 5))) := by
  show (cfg10.win 6).cut (grid10.coords t) ((dat10 V c).after 6 t) = _
  rw [after10_6]
  unfold out10_6
  rw [View.canon_unit_zero Sage.hz2]
  simp only [View.ld_unit_zero (S := S5000x64) Sage.hz2, View.ld_unit_zero (S := S5000x1) Sage.hz2,
    View.ld_unit_zero (S := S64x64) Sage.hz2, View.ld_unit_zero (S := S64) Sage.hz1]
  funext j
  obtain ⟨p, q, rfl⟩ : ∃ (p : Fin 5000) (q : Fin 64), j = ix2 p q := ⟨j 0, j 1, eq_ix2 j⟩
  refine (pay10_apply _ _ _ _ _ _ p q).trans ?_
  simp only [iblk10_0_apply, iblk10_1_apply, iblk10_2_apply, iblk10_3_eq, iblk10_4_eq, iblk10_5_eq]
  rw [View.read_apply, emb10_6]
  rfl

/-- An index of the output array is in point `t`'s block iff each coordinate is in the block's range on its axis. -/
theorem mem_blk10 (t : Fin cfg10.N) (i : S100000x64.Idx) :
    i ∈ ((cfg10.win 6).blk t).view.set ↔ ∀ a : Fin 2, win10_6.index t a * S5000x64.size a ≤ (i a).val ∧ (i a).val < win10_6.index t a * S5000x64.size a + S5000x64.size a := by
  show i ∈ ((View.whole main_v199).slice (win10_6.rect t)).set ↔ _
  rw [View.set_slice_whole, Rect.mem_set_unit]
  exact Iff.rfl

/-- Every index of the output array is in some point's block: row `r` in the block of point `r / 5000`. -/
theorem cover10 (i : S100000x64.Idx) : ∃ t : Fin cfg10.N, (cfg10.win 6).flush t = true ∧ i ∈ ((cfg10.win 6).blk t).view.set := by
  have hi0 : (i 0).val < 100000 := (i 0).isLt
  have hi1 : (i 1).val < 64 := (i 1).isLt
  obtain ⟨t, q0, q1⟩ := idx_onto10 ⟨(i 0).val / 5000, by omega⟩
  refine ⟨t, flush10_6 t, ?_⟩
  rw [mem_blk10]
  intro a
  match a with
  | ⟨0, _⟩ => show win10_6.index t (0 : Fin 2) * 5000 ≤ (i 0).val ∧ (i 0).val < win10_6.index t (0 : Fin 2) * 5000 + 5000; rw [q0]; show (i 0).val / 5000 * 5000 ≤ (i 0).val ∧ (i 0).val < (i 0).val / 5000 * 5000 + 5000; omega
  | ⟨1, _⟩ => show win10_6.index t (1 : Fin 2) * 64 ≤ (i 1).val ∧ (i 1).val < win10_6.index t (1 : Fin 2) * 64 + 64; omega

/-- THE OUTPUT ARRAY after the region's grid: the layer's function of the six input arrays as the region finds them. -/
theorem final10 (c : Dev nD) : (dat10 (F := Ideal) V c).arrAt 6 cfg10.N = (Cert.Spec.sageG64 (V c (Pipeline.arrRef spec10 0)) (V c (Pipeline.arrRef spec10 1)) (V c (Pipeline.arrRef spec10 2)) (V c (Pipeline.arrRef spec10 3)) (V c (Pipeline.arrRef spec10 4)) (V c (Pipeline.arrRef spec10 5))) :=
  (dat10 V c).arrAt_eq_of_cover 6 _ (fun t _ => flushed10_eq V c t) cover10

end Cert.KernelIdeal.Val

end
-- ==== Proof.KI.V11.lean ====
/-
  The VALUE LEG of region 11 (a SAGE combine layer with 64 destination channels) at the ideal values: the body's payload
  read at an index of its block is the layer's row function of the input rows; each input block is the matching rows of
  its array (the weights and the bias: the whole array); so every grid point writes back block `t` of the layer's
  function of the six input ARRAYS, the 20 blocks cover the output array, and the array ends holding that function.
-/
import proofs.«173191_j73083163508880_2_alg».proof.Proof.KI.R11
import proofs.«173191_j73083163508880_2_alg».proof.Proof.KI.VSageOps
import proofs.«173191_j73083163508880_2_alg».proof.Proof.SpecA
import proofs.«173191_j73083163508880_2_alg».proof.Proof.LibSage
import proofs.«173191_j73083163508880_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)
open scoped BigOperators
open Cert.KernelIdeal.Val.Sage

/-- The body's payload at row `p` and column `q` of the block is the layer's row function of row `p` of the three
    row-blocked inputs and of the whole weights and bias: every operation of the payload read at that index. -/
theorem pay11_apply (x0 : Vec Ideal S5000x64 .f32) (x1 : Vec Ideal S5000x1 .f32) (x2 : Vec Ideal S5000x64 .f32)
    (x3 : Vec Ideal S64x64 .f32) (x5 : Vec Ideal S64x64 .f32) (x4 : Vec Ideal S64 .f32) (p : Fin 5000) (q : Fin 64) :
    k11_pay1 x0 x1 x2 x3 x5 x4 (ix2 p q)
      = Cert.Spec.sageRow (fun k => x0 (ix2 p k)) (x1 (ix2 p (0 : Fin 1))) (fun k => x2 (ix2 p k)) x3 x4 x5 q := by
  unfold k11_pay1 Cert.Spec.sageRow Cert.Spec.sageLin
  simp only [shapeCast_self, maximumf_apply, divf_apply, addf_apply, mulf_apply, truncf_apply, broadcast_apply,
    Cert.LibSage.sqrt_apply, Cert.LibKeepdims.broadcastTo_a1_ab_apply, broadcastTo_1b_ab_apply, shapeCast_a_1a_apply,
    Cert.LibKeepdims.shapeCast_a_a1_apply, matmul64_apply, Cert.LibKeepdims.scalar_ofBits]
  rw [rowsum_apply]
  simp only [maximumf_apply, divf_apply, addf_apply, mulf_apply, truncf_apply, broadcast_apply,
    Cert.LibKeepdims.broadcastTo_a1_ab_apply, broadcastTo_1b_ab_apply, shapeCast_a_1a_apply, matmul64_apply]

variable (V : (c : Dev nD) → (b : Ref sig .tc) → Buf (Elt Ideal) ((c : Thread nD τ).loc b))

/-- The printed index maps, decided over the grid's 20 points: the three row-blocked inputs and the output are at
    block `(t, 0)` at point `t`; the weights and the bias are at block zero. -/
theorem idx_facts11 : ∀ t : Fin cfg11.N, t.val < 20
    ∧ win11_6.index t (0 : Fin 2) = t.val
    ∧ win11_6.index t (1 : Fin 2) = 0
    ∧ win11_0.index t (0 : Fin 2) = t.val
    ∧ win11_0.index t (1 : Fin 2) = 0
    ∧ win11_1.index t (0 : Fin 2) = t.val
    ∧ win11_1.index t (1 : Fin 2) = 0
    ∧ win11_2.index t (0 : Fin 2) = t.val
    ∧ win11_2.index t (1 : Fin 2) = 0
    ∧ win11_3.index t (0 : Fin 2) = 0
    ∧ win11_3.index t (1 : Fin 2) = 0
    ∧ win11_4.index t (0 : Fin 1) = 0
    ∧ win11_5.index t (0 : Fin 2) = 0
    ∧ win11_5.index t (1 : Fin 2) = 0 :=
  (by decide +kernel : ∀ t : Fin grid11.N, _)

/-- Every one of the 20 row blocks of the output is SOME point's. -/
theorem idx_onto11 : ∀ q0 : Fin 20, ∃ t : Fin cfg11.N, win11_6.index t (0 : Fin 2) = q0.val ∧ win11_6.index t (1 : Fin 2) = 0 :=
  (by decide +kernel : ∀ q0 : Fin 20, ∃ t : Fin grid11.N, win11_6.index t (0 : Fin 2) = q0.val ∧ win11_6.index t (1 : Fin 2) = 0)

/-- The array row that row `p` of point `t`'s blocks is: `5000 t + p`. -/
def row11 (t : Fin cfg11.N) (p : Fin 5000) : Fin 100000 :=
  ⟨t.val * 5000 + p.val, by have h := (idx_facts11 t).1; have := p.isLt; omega⟩

/-- Row `p` of input window 0's block at point `t` is row `5000 t + p` of its array. -/
theorem iblk11_0_apply (c : Dev nD) (t : Fin cfg11.N) (p : Fin 5000) (k : Fin 64) :
    iblk11 V c 0 t (ix2 p k) = V c (Pipeline.arrRef spec11 0) (ix2 (row11 t p) k) := by
  obtain ⟨ht, e60, e61, e00, e01, e10, e11, e20, e21, e30, e31, e40, e50, e51⟩ := idx_facts11 t
  unfold iblk11
  rw [View.read_apply]
  refine congrArg (V c (Pipeline.arrRef spec11 0)) (funext fun a => Fin.ext ?_)
  match a with
  | ⟨0, _⟩ => show win11_0.index t (0 : Fin 2) * 5000 + 1 * p.val = t.val * 5000 + p.val; omega
  | ⟨1, _⟩ => show win11_0.index t (1 : Fin 2) * 64 + 1 * k.val = k.val; omega

/-- Row `p` of input window 1's block at point `t` is row `5000 t + p` of its one-column array. -/
theorem iblk11_1_apply (c : Dev nD) (t : Fin cfg11.N) (p : Fin 5000) :
    iblk11 V c 1 t (ix2 p (0 : Fin 1)) = V c (Pipeline.arrRef spec11 1) (ix2 (row11 t p) (0 : Fin 1)) := by
  obtain ⟨ht, e60, e61, e00, e01, e10, e11, e20, e21, e30, e31, e40, e50, e51⟩ := idx_facts11 t
  unfold iblk11
  rw [View.read_apply]
  refine congrArg (V c (Pipeline.arrRef spec11 1)) (funext fun a => Fin.ext ?_)
  match a with
  | ⟨0, _⟩ => show win11_1.index t (0 : Fin 2) * 5000 + 1 * p.val = t.val * 5000 + p.val; omega
  | ⟨1, _⟩ => show win11_1.index t (1 : Fin 2) * 1 + 1 * 0 = 0; omega

/-- Row `p` of input window 2's block at point `t` is row `5000 t + p` of its array. -/
theorem iblk11_2_apply (c : Dev nD) (t : Fin cfg11.N) (p : Fin 5000) (k : Fin 64) :
    iblk11 V c 2 t (ix2 p k) = V c (Pipeline.arrRef spec11 2) (ix2 (row11 t p) k) := by
  obtain ⟨ht, e60, e61, e00, e01, e10, e11, e20, e21, e30, e31, e40, e50, e51⟩ := idx_facts11 t
  unfold iblk11
  rw [View.read_apply]
  refine congrArg (V c (Pipeline.arrRef spec11 2)) (funext fun a => Fin.ext ?_)
  match a with
  | ⟨0, _⟩ => show win11_2.index t (0 : Fin 2) * 5000 + 1 * p.val = t.val * 5000 + p.val; omega
  | ⟨1, _⟩ => show win11_2.index t (1 : Fin 2) * 64 + 1 * k.val = k.val; omega

/-- Input window 3's block at every point is its whole array: its block index is zero on every axis. -/
theorem iblk11_3_eq (c : Dev nD) (t : Fin cfg11.N) : iblk11 V c 3 t = V c (Pipeline.arrRef spec11 3) := by
  obtain ⟨ht, e60, e61, e00, e01, e10, e11, e20, e21, e30, e31, e40, e50, e51⟩ := idx_facts11 t
  unfold iblk11
  funext y
  rw [View.read_apply]
  refine congrArg (V c (Pipeline.arrRef spec11 3)) (funext fun a => Fin.ext ?_)
  match a with
  | ⟨0, _⟩ => show win11_3.index t (0 : Fin 2) * 64 + 1 * (y 0).val = (y 0).val; omega
  | ⟨1, _⟩ => show win11_3.index t (1 : Fin 2) * 64 + 1 * (y 1).val = (y 1).val; omega

/-- Input window 4's block at every point is its whole array: its block index is zero on every axis. -/
theorem iblk11_4_eq (c : Dev nD) (t : Fin cfg11.N) : iblk11 V c 4 t = V c (Pipeline.arrRef spec11 4) := by
  obtain ⟨ht, e60, e61, e00, e01, e10, e11, e20, e21, e30, e31, e40, e50, e51⟩ := idx_facts11 t
  unfold iblk11
  funext y
  rw [View.read_apply]
  refine congrArg (V c (Pipeline.arrRef spec11 4)) (funext fun a => Fin.ext ?_)
  match a with
  | ⟨0, _⟩ => show win11_4.index t (0 : Fin 1) * 64 + 1 * (y 0).val = (y 0).val; omega

/-- Input window 5's block at every point is its whole array: its block index is zero on every axis. -/
theorem iblk11_5_eq (c : Dev nD) (t : Fin cfg11.N) : iblk11 V c 5 t = V c (Pipeline.arrRef spec11 5) := by
  obtain ⟨ht, e60, e61, e00, e01, e10, e11, e20, e21, e30, e31, e40, e50, e51⟩ := idx_facts11 t
  unfold iblk11
  funext y
  rw [View.read_apply]
  refine congrArg (V c (Pipeline.arrRef spec11 5)) (funext fun a => Fin.ext ?_)
  match a with
  | ⟨0, _⟩ => show win11_5.index t (0 : Fin 2) * 64 + 1 * (y 0).val = (y 0).val; omega
  | ⟨1, _⟩ => show win11_5.index t (1 : Fin 2) * 64 + 1 * (y 1).val = (y 1).val; omega

/-- Entry `(p, q)` of the output's block at point `t` sits in the array at `(5000 t + p, q)`. -/
theorem emb11_6 (t : Fin cfg11.N) (p : Fin 5000) (q : Fin 64) :
    ((cfg11.win 6).blk t).view.emb (ix2 p q) = ix2 (row11 t p) q := by
  obtain ⟨ht, e60, e61, e00, e01, e10, e11, e20, e21, e30, e31, e40, e50, e51⟩ := idx_facts11 t
  refine funext fun a => Fin.ext ?_
  match a with
  | ⟨0, _⟩ => show win11_6.index t (0 : Fin 2) * 5000 + 1 * p.val = t.val * 5000 + p.val; omega
  | ⟨1, _⟩ => show win11_6.index t (1 : Fin 2) * 64 + 1 * q.val = q.val; omega

/-- WHAT POINT `t` WRITES BACK is block `t` of the layer's function of the six input arrays as the region finds them. -/
theorem flushed11_eq (c : Dev nD) (t : Fin cfg11.N) :
    (dat11 (F := Ideal) V c).flushed 6 t = ((cfg11.win 6).blk t).view.read (Elt Ideal) (Cert.Spec.sageG64 (V c (Pipeline.arrRef spec11 0)) (V c (Pipeline.arrRef spec11 1)) (V c (Pipeline.arrRef spec11 2)) (V c (Pipeline.arrRef spec11 3)) (V c (Pipeline.arrRef spec11 4)) (V c (Pipeline.arrRef spec11 5))) := by
  show (cfg11.win 6).cut (grid11.coords t) ((dat11 V c).after 6 t) = _
  rw [after11_6]
  unfold out11_6
  rw [View.canon_unit_zero Sage.hz2]
  simp only [View.ld_unit_zero (S := S5000x64) Sage.hz2, View.ld_unit_zero (S := S5000x1) Sage.hz2,
    View.ld_unit_zero (S := S64x64) Sage.hz2, View.ld_unit_zero (S := S64) Sage.hz1]
  funext j
  obtain ⟨p, q, rfl⟩ : ∃ (p : Fin 5000) (q : Fin 64), j = ix2 p q := ⟨j 0, j 1, eq_ix2 j⟩
  refine (pay11_apply _ _ _ _ _ _ p q).trans ?_
  simp only [iblk11_0_apply, iblk11_1_apply, iblk11_2_apply, iblk11_3_eq, iblk11_4_eq, iblk11_5_eq]
  rw [View.read_apply, emb11_6]
  rfl

/-- An index of the output array is in point `t`'s block iff each coordinate is in the block's range on its axis. -/
theorem mem_blk11 (t : Fin cfg11.N) (i : S100000x64.Idx) :
    i ∈ ((cfg11.win 6).blk t).view.set ↔ ∀ a : Fin 2, win11_6.index t a * S5000x64.size a ≤ (i a).val ∧ (i a).val < win11_6.index t a * S5000x64.size a + S5000x64.size a := by
  show i ∈ ((View.whole main_v221).slice (win11_6.rect t)).set ↔ _
  rw [View.set_slice_whole, Rect.mem_set_unit]
  exact Iff.rfl

/-- Every index of the output array is in some point's block: row `r` in the block of point `r / 5000`. -/
theorem cover11 (i : S100000x64.Idx) : ∃ t : Fin cfg11.N, (cfg11.win 6).flush t = true ∧ i ∈ ((cfg11.win 6).blk t).view.set := by
  have hi0 : (i 0).val < 100000 := (i 0).isLt
  have hi1 : (i 1).val < 64 := (i 1).isLt
  obtain ⟨t, q0, q1⟩ := idx_onto11 ⟨(i 0).val / 5000, by omega⟩
  refine ⟨t, flush11_6 t, ?_⟩
  rw [mem_blk11]
  intro a
  match a with
  | ⟨0, _⟩ => show win11_6.index t (0 : Fin 2) * 5000 ≤ (i 0).val ∧ (i 0).val < win11_6.index t (0 : Fin 2) * 5000 + 5000; rw [q0]; show (i 0).val / 5000 * 5000 ≤ (i 0).val ∧ (i 0).val < (i 0).val / 5000 * 5000 + 5000; omega
  | ⟨1, _⟩ => show win11_6.index t (1 : Fin 2) * 64 ≤ (i 1).val ∧ (i 1).val < win11_6.index t (1 : Fin 2) * 64 + 64; omega

/-- THE OUTPUT ARRAY after the region's grid: the layer's function of the six input arrays as the region finds them. -/
theorem final11 (c : Dev nD) : (dat11 (F := Ideal) V c).arrAt 6 cfg11.N = (Cert.Spec.sageG64 (V c (Pipeline.arrRef spec11 0)) (V c (Pipeline.arrRef spec11 1)) (V c (Pipeline.arrRef spec11 2)) (V c (Pipeline.arrRef spec11 3)) (V c (Pipeline.arrRef spec11 4)) (V c (Pipeline.arrRef spec11 5))) :=
  (dat11 V c).arrAt_eq_of_cover 6 _ (fun t _ => flushed11_eq V c t) cover11

end Cert.KernelIdeal.Val

end
-- ==== Proof.SpecB.lean ====
import Idealize.ShloMosaic.PureOps.Ideal
import Idealize.ShloMosaic.Lib.ValueIdx
import Idealize.ShloMosaic.Lib.ValueLayout

/-! # The matrix product and the batch-norm application as functions of whole arrays

Two specifications, each ONE function of the argument arrays, index by index, over the extended reals. -/

noncomputable section

namespace Cert.Spec

open Idealize.ShloMosaic Idealize.ShloMosaic.ValueIdx
open scoped BigOperators

/-- The product of a [100000,64] matrix `x` with a [64,64] matrix `w`: at row `r` and column `q` the sum over the 64
    contraction coordinates `k` of `x (r, k) * w (k, q)`. -/
def matmulG (x : (⟨2, ![100000, 64]⟩ : Shape).Idx → EReal) (w : (⟨2, ![64, 64]⟩ : Shape).Idx → EReal) :
    (⟨2, ![100000, 64]⟩ : Shape).Idx → EReal :=
  fun i => ∑ k : Fin 64, x (ix2 (i 0 : Fin 100000) k) * w (ix2 k (i 1 : Fin 64))

/-- The batch-norm application on a [50000,128] matrix `x` with per-column rows `mean`, `invstd` ([1,128]) and vectors
    `g`, `b` ([128]): at row `r` and column `q`, `(x (r, q) - mean (0, q)) * invstd (0, q) * g q + b q`, grouped so. -/
def bnApplyG (x : (⟨2, ![50000, 128]⟩ : Shape).Idx → EReal) (mean invstd : (⟨2, ![1, 128]⟩ : Shape).Idx → EReal)
    (g b : (⟨1, ![128]⟩ : Shape).Idx → EReal) : (⟨2, ![50000, 128]⟩ : Shape).Idx → EReal :=
  fun i => (x i - mean (ix2 (0 : Fin 1) (i 1 : Fin 128))) * invstd (ix2 (0 : Fin 1) (i 1 : Fin 128)) * g (ix1 (i 1 : Fin 128))
    + b (ix1 (i 1 : Fin 128))

end Cert.Spec

end
-- ==== Proof.KI.V3.lean ====
import proofs.«173191_j73083163508880_2_alg».proof.Proof.KI.R3
import proofs.«173191_j73083163508880_2_alg».proof.Proof.SpecB
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)
open scoped BigOperators

-- the TensorCore's buffer contents when the region is entered, over the extended reals
variable (V : (c : Dev nD) → (b : Ref sig .tc) → Buf (Elt Ideal) ((c : Thread nD τ).loc b))

/-! # What the tiled matrix product of pipeline 3 leaves in its output array

The output array after the 20 grid points is, index by index, the product of the two input arrays as the region finds
them: point `t` writes rows `5000 t … 5000 t + 4999`, each the sum over the 64 contraction coordinates of the
products of the left factor's row with the right factor's column (the roundings to bf16 are the identity on the
extended reals, and the accumulator starts at zero). -/

theorem hz3 : (![0, 0] : Fin 2 → Nat) = fun _ => 0 := funext fun a => by fin_cases a <;> rfl

/-! ## The product's operand indices -/

/-- The left operand's index at output index `i` and contraction index `k`: row `i 0` … -/
theorem lhs3_0 (i : S5000x64.Idx) (k : dot_S5000x64_S64x64_S5000x64_1_0_0_1_n_n.contr.Idx) : (dot_S5000x64_S64x64_S5000x64_1_0_0_1_n_n.lhsIdx i k 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- … column `k`; -/
theorem lhs3_1 (i : S5000x64.Idx) (k : dot_S5000x64_S64x64_S5000x64_1_0_0_1_n_n.contr.Idx) : (dot_S5000x64_S64x64_S5000x64_1_0_0_1_n_n.lhsIdx i k 1).val = (k ⟨0, by decide⟩).val :=
  dot_S5000x64_S64x64_S5000x64_1_0_0_1_n_n.lhsIdx_val_of_single rfl i k
/-- the right operand's: row `k` … -/
theorem rhs3_0 (i : S5000x64.Idx) (k : dot_S5000x64_S64x64_S5000x64_1_0_0_1_n_n.contr.Idx) : (dot_S5000x64_S64x64_S5000x64_1_0_0_1_n_n.rhsIdx i k 0).val = (k ⟨0, by decide⟩).val :=
  dot_S5000x64_S64x64_S5000x64_1_0_0_1_n_n.rhsIdx_val_of_single rfl i k
/-- … column `i 1`. -/
theorem rhs3_1 (i : S5000x64.Idx) (k : dot_S5000x64_S64x64_S5000x64_1_0_0_1_n_n.contr.Idx) : (dot_S5000x64_S64x64_S5000x64_1_0_0_1_n_n.rhsIdx i k 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-! ## The body's payload at an index -/

/-- The stored block at row `p`, column `q`: the sum over `k` of the left block's `(p, k)` times the right block's
    `(k, q)`. -/
theorem pay3_apply (x0 : Vec Ideal S5000x64 .f32) (x1 : Vec Ideal S64x64 .f32) (p : Fin 5000) (q : Fin 64) :
    k3_pay1 x0 x1 (ix2 p q) = ∑ k : Fin 64, x0 (ix2 p k) * x1 (ix2 k q) := by
  unfold k3_pay1
  simp only [shapeCast_self, matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs3_0 _ _
    | ⟨1, _⟩ => exact (lhs3_1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (rhs3_0 _ _).trans hk
    | ⟨1, _⟩ => exact rhs3_1 _ _)
  rw [el, er]
  rfl

/-! ## From blocks to the array -/

/-- The printed index maps, decided over the grid: the left factor's and the output's row blocks are the point's, every
    other block index is 0, and there are 20 points. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 ∧ t.val < 20 :=
  (by decide +kernel : ∀ t : Fin grid3.N, _)

/-- What point `t` writes back is block `t` of the product of the input arrays as the region finds them. -/
theorem flushed3_eq (c : Dev nD) (t : Fin cfg3.N) :
    (dat3 (F := Ideal) V c).flushed 2 t = ((cfg3.win 2).blk t).view.read (Elt Ideal)
      (Cert.Spec.matmulG (V c (Pipeline.arrRef spec3 0)) (V c (Pipeline.arrRef spec3 1))) := by
  show (cfg3.win 2).cut (grid3.coords t) ((dat3 (F := Ideal) V c).after 2 t) = _
  rw [after3_2]
  unfold out3_2
  rw [View.canon_unit_zero hz3]
  simp only [View.ld_unit_zero (S := S5000x64) hz3, View.ld_unit_zero (S := S64x64) hz3]
  obtain ⟨e00, e01, e10, e11, e20, e21, ht⟩ := idx_facts3 t
  funext j
  obtain ⟨p, q, rfl⟩ : ∃ (p : Fin 5000) (q : Fin 64), j = ix2 p q := ⟨j 0, j 1, eq_ix2 j⟩
  show k3_pay1 (iblk3 V c 0 t) (iblk3 V c 1 t) (ix2 p q)
    = Cert.Spec.matmulG (V c main_v43) (V c main_arg30) (((cfg3.win 2).blk t).view.emb (ix2 p q))
  refine (pay3_apply (iblk3 V c 0 t) (iblk3 V c 1 t) p q).trans ?_
  unfold Cert.Spec.matmulG
  refine Finset.sum_congr rfl fun k _ => ?_
  have h0 : ((cfg3.win 0).blk t).view.emb (ix2 p k) = ix2 ((((cfg3.win 2).blk t).view.emb (ix2 p q)) 0) k := by
    funext a; apply Fin.ext
    match a with
    | ⟨0, _⟩ => show win3_0.index t (0 : Fin 2) * 5000 + 1 * p.val = win3_2.index t (0 : Fin 2) * 5000 + 1 * p.val; omega
    | ⟨1, _⟩ => show win3_0.index t (1 : Fin 2) * 64 + 1 * k.val = k.val; omega
  have h1 : ((cfg3.win 1).blk t).view.emb (ix2 k q) = ix2 k ((((cfg3.win 2).blk t).view.emb (ix2 p q)) 1) := by
    funext a; apply Fin.ext
    match a with
    | ⟨0, _⟩ => show win3_1.index t (0 : Fin 2) * 64 + 1 * k.val = k.val; omega
    | ⟨1, _⟩ => show win3_1.index t (1 : Fin 2) * 64 + 1 * q.val = win3_2.index t (1 : Fin 2) * 64 + 1 * q.val; omega
  exact congrArg₂ (fun a b : EReal => a * b) (congrArg (V c main_v43) h0) (congrArg (V c main_arg30) h1)

/-- An index of the array is in point `t`'s block iff each coordinate is in the block's range on its axis. -/
theorem mem_blk3 (t : Fin cfg3.N) (i : S100000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v66).slice (win3_2.rect t)).set ↔ _
  rw [View.set_slice_whole, Rect.mem_set_unit]
  exact Iff.rfl

/-- Every index of the output array is in some point's block: row `r` is in the block of point `r / 5000`. -/
theorem covered3 (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 20 := N_3
  refine ⟨⟨(i 0).val / 5000, by rw [hN]; omega⟩, flush3_2 _, ?_⟩
  obtain ⟨e00, e01, e10, e11, e20, e21, ht⟩ := idx_facts3 ⟨(i 0).val / 5000, by rw [hN]; omega⟩
  rw [mem_blk3]
  intro a
  match a with
  | ⟨0, _⟩ => show win3_2.index _ (0 : Fin 2) * 5000 ≤ (i 0).val ∧ (i 0).val < win3_2.index _ (0 : Fin 2) * 5000 + 5000; rw [e20]; show (i 0).val / 5000 * 5000 ≤ (i 0).val ∧ (i 0).val < (i 0).val / 5000 * 5000 + 5000; omega
  | ⟨1, _⟩ => show win3_2.index _ (1 : Fin 2) * 64 ≤ (i 1).val ∧ (i 1).val < win3_2.index _ (1 : Fin 2) * 64 + 64; rw [e21]; omega

/-- THE ARRAY after the grid: the product of the two input arrays as the region finds them. -/
theorem final3 (c : Dev nD) : (dat3 (F := Ideal) V c).arrAt 2 cfg3.N
    = Cert.Spec.matmulG (V c (Pipeline.arrRef spec3 0)) (V c (Pipeline.arrRef spec3 1)) :=
  (dat3 (F := Ideal) V c).arrAt_eq_of_cover 2 _ (fun t _ => flushed3_eq V c t) covered3

end Cert.KernelIdeal.Val

end
-- ==== Proof.KI.V6.lean ====
import proofs.«173191_j73083163508880_2_alg».proof.Proof.KI.R6
import proofs.«173191_j73083163508880_2_alg».proof.Proof.SpecB
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)
open scoped BigOperators

-- the TensorCore's buffer contents when the region is entered, over the extended reals
variable (V : (c : Dev nD) → (b : Ref sig .tc) → Buf (Elt Ideal) ((c : Thread nD τ).loc b))

/-! # What the tiled matrix product of pipeline 6 leaves in its output array

The output array after the 20 grid points is, index by index, the product of the two input arrays as the region finds
them: point `t` writes rows `5000 t … 5000 t + 4999`, each the sum over the 64 contraction coordinates of the
products of the left factor's row with the right factor's column (the roundings to bf16 are the identity on the
extended reals, and the accumulator starts at zero). -/

theorem hz6 : (![0, 0] : Fin 2 → Nat) = fun _ => 0 := funext fun a => by fin_cases a <;> rfl

/-! ## The product's operand indices -/

/-- The left operand's index at output index `i` and contraction index `k`: row `i 0` … -/
theorem lhs6_0 (i : S5000x64.Idx) (k : dot_S5000x64_S64x64_S5000x64_1_0_0_1_n_n.contr.Idx) : (dot_S5000x64_S64x64_S5000x64_1_0_0_1_n_n.lhsIdx i k 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- … column `k`; -/
theorem lhs6_1 (i : S5000x64.Idx) (k : dot_S5000x64_S64x64_S5000x64_1_0_0_1_n_n.contr.Idx) : (dot_S5000x64_S64x64_S5000x64_1_0_0_1_n_n.lhsIdx i k 1).val = (k ⟨0, by decide⟩).val :=
  dot_S5000x64_S64x64_S5000x64_1_0_0_1_n_n.lhsIdx_val_of_single rfl i k
/-- the right operand's: row `k` … -/
theorem rhs6_0 (i : S5000x64.Idx) (k : dot_S5000x64_S64x64_S5000x64_1_0_0_1_n_n.contr.Idx) : (dot_S5000x64_S64x64_S5000x64_1_0_0_1_n_n.rhsIdx i k 0).val = (k ⟨0, by decide⟩).val :=
  dot_S5000x64_S64x64_S5000x64_1_0_0_1_n_n.rhsIdx_val_of_single rfl i k
/-- … column `i 1`. -/
theorem rhs6_1 (i : S5000x64.Idx) (k : dot_S5000x64_S64x64_S5000x64_1_0_0_1_n_n.contr.Idx) : (dot_S5000x64_S64x64_S5000x64_1_0_0_1_n_n.rhsIdx i k 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-! ## The body's payload at an index -/

/-- The stored block at row `p`, column `q`: the sum over `k` of the left block's `(p, k)` times the right block's
    `(k, q)`. -/
theorem pay6_apply (x0 : Vec Ideal S5000x64 .f32) (x1 : Vec Ideal S64x64 .f32) (p : Fin 5000) (q : Fin 64) :
    k6_pay1 x0 x1 (ix2 p q) = ∑ k : Fin 64, x0 (ix2 p k) * x1 (ix2 k q) := by
  unfold k6_pay1
  simp only [shapeCast_self, matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs6_0 _ _
    | ⟨1, _⟩ => exact (lhs6_1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (rhs6_0 _ _).trans hk
    | ⟨1, _⟩ => exact rhs6_1 _ _)
  rw [el, er]
  rfl

/-! ## From blocks to the array -/

/-- The printed index maps, decided over the grid: the left factor's and the output's row blocks are the point's, every
    other block index is 0, and there are 20 points. -/
theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 ∧ t.val < 20 :=
  (by decide +kernel : ∀ t : Fin grid6.N, _)

/-- What point `t` writes back is block `t` of the product of the input arrays as the region finds them. -/
theorem flushed6_eq (c : Dev nD) (t : Fin cfg6.N) :
    (dat6 (F := Ideal) V c).flushed 2 t = ((cfg6.win 2).blk t).view.read (Elt Ideal)
      (Cert.Spec.matmulG (V c (Pipeline.arrRef spec6 0)) (V c (Pipeline.arrRef spec6 1))) := by
  show (cfg6.win 2).cut (grid6.coords t) ((dat6 (F := Ideal) V c).after 2 t) = _
  rw [after6_2]
  unfold out6_2
  rw [View.canon_unit_zero hz6]
  simp only [View.ld_unit_zero (S := S5000x64) hz6, View.ld_unit_zero (S := S64x64) hz6]
  obtain ⟨e00, e01, e10, e11, e20, e21, ht⟩ := idx_facts6 t
  funext j
  obtain ⟨p, q, rfl⟩ : ∃ (p : Fin 5000) (q : Fin 64), j = ix2 p q := ⟨j 0, j 1, eq_ix2 j⟩
  show k6_pay1 (iblk6 V c 0 t) (iblk6 V c 1 t) (ix2 p q)
    = Cert.Spec.matmulG (V c main_v65) (V c main_arg32) (((cfg6.win 2).blk t).view.emb (ix2 p q))
  refine (pay6_apply (iblk6 V c 0 t) (iblk6 V c 1 t) p q).trans ?_
  unfold Cert.Spec.matmulG
  refine Finset.sum_congr rfl fun k _ => ?_
  have h0 : ((cfg6.win 0).blk t).view.emb (ix2 p k) = ix2 ((((cfg6.win 2).blk t).view.emb (ix2 p q)) 0) k := by
    funext a; apply Fin.ext
    match a with
    | ⟨0, _⟩ => show win6_0.index t (0 : Fin 2) * 5000 + 1 * p.val = win6_2.index t (0 : Fin 2) * 5000 + 1 * p.val; omega
    | ⟨1, _⟩ => show win6_0.index t (1 : Fin 2) * 64 + 1 * k.val = k.val; omega
  have h1 : ((cfg6.win 1).blk t).view.emb (ix2 k q) = ix2 k ((((cfg6.win 2).blk t).view.emb (ix2 p q)) 1) := by
    funext a; apply Fin.ext
    match a with
    | ⟨0, _⟩ => show win6_1.index t (0 : Fin 2) * 64 + 1 * k.val = k.val; omega
    | ⟨1, _⟩ => show win6_1.index t (1 : Fin 2) * 64 + 1 * q.val = win6_2.index t (1 : Fin 2) * 64 + 1 * q.val; omega
  exact congrArg₂ (fun a b : EReal => a * b) (congrArg (V c main_v65) h0) (congrArg (V c main_arg32) h1)

/-- An index of the array is in point `t`'s block iff each coordinate is in the block's range on its axis. -/
theorem mem_blk6 (t : Fin cfg6.N) (i : S100000x64.Idx) :
    i ∈ ((cfg6.win 2).blk t).view.set ↔ ∀ a : Fin 2, win6_2.index t a * S5000x64.size a ≤ (i a).val ∧ (i a).val < win6_2.index t a * S5000x64.size a + S5000x64.size a := by
  show i ∈ ((View.whole main_v111).slice (win6_2.rect t)).set ↔ _
  rw [View.set_slice_whole, Rect.mem_set_unit]
  exact Iff.rfl

/-- Every index of the output array is in some point's block: row `r` is in the block of point `r / 5000`. -/
theorem covered6 (i : S100000x64.Idx) : ∃ t : Fin cfg6.N, (cfg6.win 2).flush t = true ∧ i ∈ ((cfg6.win 2).blk t).view.set := by
  have hi0 : (i 0).val < 100000 := (i 0).isLt
  have hi1 : (i 1).val < 64 := (i 1).isLt
  have hN : cfg6.N = 20 := N_6
  refine ⟨⟨(i 0).val / 5000, by rw [hN]; omega⟩, flush6_2 _, ?_⟩
  obtain ⟨e00, e01, e10, e11, e20, e21, ht⟩ := idx_facts6 ⟨(i 0).val / 5000, by rw [hN]; omega⟩
  rw [mem_blk6]
  intro a
  match a with
  | ⟨0, _⟩ => show win6_2.index _ (0 : Fin 2) * 5000 ≤ (i 0).val ∧ (i 0).val < win6_2.index _ (0 : Fin 2) * 5000 + 5000; rw [e20]; show (i 0).val / 5000 * 5000 ≤ (i 0).val ∧ (i 0).val < (i 0).val / 5000 * 5000 + 5000; omega
  | ⟨1, _⟩ => show win6_2.index _ (1 : Fin 2) * 64 ≤ (i 1).val ∧ (i 1).val < win6_2.index _ (1 : Fin 2) * 64 + 64; rw [e21]; omega

/-- THE ARRAY after the grid: the product of the two input arrays as the region finds them. -/
theorem final6 (c : Dev nD) : (dat6 (F := Ideal) V c).arrAt 2 cfg6.N
    = Cert.Spec.matmulG (V c (Pipeline.arrRef spec6 0)) (V c (Pipeline.arrRef spec6 1)) :=
  (dat6 (F := Ideal) V c).arrAt_eq_of_cover 2 _ (fun t _ => flushed6_eq V c t) covered6

end Cert.KernelIdeal.Val

end
-- ==== Proof.KI.V12.lean ====
import proofs.«173191_j73083163508880_2_alg».proof.Proof.KI.R12
import proofs.«173191_j73083163508880_2_alg».proof.Proof.SpecB
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)
open scoped BigOperators

-- the TensorCore's buffer contents when the region is entered, over the extended reals
variable (V : (c : Dev nD) → (b : Ref sig .tc) → Buf (Elt Ideal) ((c : Thread nD τ).loc b))

/-! # What the tiled matrix product of pipeline 12 leaves in its output array

The output array after the 20 grid points is, index by index, the product of the two input arrays as the region finds
them: point `t` writes rows `5000 t … 5000 t + 4999`, each the sum over the 64 contraction coordinates of the
products of the left factor's row with the right factor's column (the roundings to bf16 are the identity on the
extended reals, and the accumulator starts at zero). -/

theorem hz12 : (![0, 0] : Fin 2 → Nat) = fun _ => 0 := funext fun a => by fin_cases a <;> rfl

/-! ## The product's operand indices -/

/-- The left operand's index at output index `i` and contraction index `k`: row `i 0` … -/
theorem lhs12_0 (i : S5000x64.Idx) (k : dot_S5000x64_S64x64_S5000x64_1_0_0_1_n_n.contr.Idx) : (dot_S5000x64_S64x64_S5000x64_1_0_0_1_n_n.lhsIdx i k 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- … column `k`; -/
theorem lhs12_1 (i : S5000x64.Idx) (k : dot_S5000x64_S64x64_S5000x64_1_0_0_1_n_n.contr.Idx) : (dot_S5000x64_S64x64_S5000x64_1_0_0_1_n_n.lhsIdx i k 1).val = (k ⟨0, by decide⟩).val :=
  dot_S5000x64_S64x64_S5000x64_1_0_0_1_n_n.lhsIdx_val_of_single rfl i k
/-- the right operand's: row `k` … -/
theorem rhs12_0 (i : S5000x64.Idx) (k : dot_S5000x64_S64x64_S5000x64_1_0_0_1_n_n.contr.Idx) : (dot_S5000x64_S64x64_S5000x64_1_0_0_1_n_n.rhsIdx i k 0).val = (k ⟨0, by decide⟩).val :=
  dot_S5000x64_S64x64_S5000x64_1_0_0_1_n_n.rhsIdx_val_of_single rfl i k
/-- … column `i 1`. -/
theorem rhs12_1 (i : S5000x64.Idx) (k : dot_S5000x64_S64x64_S5000x64_1_0_0_1_n_n.contr.Idx) : (dot_S5000x64_S64x64_S5000x64_1_0_0_1_n_n.rhsIdx i k 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-! ## The body's payload at an index -/

/-- The stored block at row `p`, column `q`: the sum over `k` of the left block's `(p, k)` times the right block's
    `(k, q)`. -/
theorem pay12_apply (x0 : Vec Ideal S5000x64 .f32) (x1 : Vec Ideal S64x64 .f32) (p : Fin 5000) (q : Fin 64) :
    k12_pay1 x0 x1 (ix2 p q) = ∑ k : Fin 64, x0 (ix2 p k) * x1 (ix2 k q) := by
  unfold k12_pay1
  simp only [shapeCast_self, matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs12_0 _ _
    | ⟨1, _⟩ => exact (lhs12_1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (rhs12_0 _ _).trans hk
    | ⟨1, _⟩ => exact rhs12_1 _ _)
  rw [el, er]
  rfl

/-! ## From blocks to the array -/

/-- The printed index maps, decided over the grid: the left factor's and the output's row blocks are the point's, every
    other block index is 0, and there are 20 points. -/
theorem idx_facts12 : ∀ t : Fin cfg12.N, win12_0.index t (0 : Fin 2) = t.val ∧ win12_0.index t (1 : Fin 2) = 0
    ∧ win12_1.index t (0 : Fin 2) = 0 ∧ win12_1.index t (1 : Fin 2) = 0
    ∧ win12_2.index t (0 : Fin 2) = t.val ∧ win12_2.index t (1 : Fin 2) = 0 ∧ t.val < 20 :=
  (by decide +kernel : ∀ t : Fin grid12.N, _)

/-- What point `t` writes back is block `t` of the product of the input arrays as the region finds them. -/
theorem flushed12_eq (c : Dev nD) (t : Fin cfg12.N) :
    (dat12 (F := Ideal) V c).flushed 2 t = ((cfg12.win 2).blk t).view.read (Elt Ideal)
      (Cert.Spec.matmulG (V c (Pipeline.arrRef spec12 0)) (V c (Pipeline.arrRef spec12 1))) := by
  show (cfg12.win 2).cut (grid12.coords t) ((dat12 (F := Ideal) V c).after 2 t) = _
  rw [after12_2]
  unfold out12_2
  rw [View.canon_unit_zero hz12]
  simp only [View.ld_unit_zero (S := S5000x64) hz12, View.ld_unit_zero (S := S64x64) hz12]
  obtain ⟨e00, e01, e10, e11, e20, e21, ht⟩ := idx_facts12 t
  funext j
  obtain ⟨p, q, rfl⟩ : ∃ (p : Fin 5000) (q : Fin 64), j = ix2 p q := ⟨j 0, j 1, eq_ix2 j⟩
  show k12_pay1 (iblk12 V c 0 t) (iblk12 V c 1 t) (ix2 p q)
    = Cert.Spec.matmulG (V c main_v221) (V c main_arg34) (((cfg12.win 2).blk t).view.emb (ix2 p q))
  refine (pay12_apply (iblk12 V c 0 t) (iblk12 V c 1 t) p q).trans ?_
  unfold Cert.Spec.matmulG
  refine Finset.sum_congr rfl fun k _ => ?_
  have h0 : ((cfg12.win 0).blk t).view.emb (ix2 p k) = ix2 ((((cfg12.win 2).blk t).view.emb (ix2 p q)) 0) k := by
    funext a; apply Fin.ext
    match a with
    | ⟨0, _⟩ => show win12_0.index t (0 : Fin 2) * 5000 + 1 * p.val = win12_2.index t (0 : Fin 2) * 5000 + 1 * p.val; omega
    | ⟨1, _⟩ => show win12_0.index t (1 : Fin 2) * 64 + 1 * k.val = k.val; omega
  have h1 : ((cfg12.win 1).blk t).view.emb (ix2 k q) = ix2 k ((((cfg12.win 2).blk t).view.emb (ix2 p q)) 1) := by
    funext a; apply Fin.ext
    match a with
    | ⟨0, _⟩ => show win12_1.index t (0 : Fin 2) * 64 + 1 * k.val = k.val; omega
    | ⟨1, _⟩ => show win12_1.index t (1 : Fin 2) * 64 + 1 * q.val = win12_2.index t (1 : Fin 2) * 64 + 1 * q.val; omega
  exact congrArg₂ (fun a b : EReal => a * b) (congrArg (V c main_v221) h0) (congrArg (V c main_arg34) h1)

/-- An index of the array is in point `t`'s block iff each coordinate is in the block's range on its axis. -/
theorem mem_blk12 (t : Fin cfg12.N) (i : S100000x64.Idx) :
    i ∈ ((cfg12.win 2).blk t).view.set ↔ ∀ a : Fin 2, win12_2.index t a * S5000x64.size a ≤ (i a).val ∧ (i a).val < win12_2.index t a * S5000x64.size a + S5000x64.size a := by
  show i ∈ ((View.whole main_v222).slice (win12_2.rect t)).set ↔ _
  rw [View.set_slice_whole, Rect.mem_set_unit]
  exact Iff.rfl

/-- Every index of the output array is in some point's block: row `r` is in the block of point `r / 5000`. -/
theorem covered12 (i : S100000x64.Idx) : ∃ t : Fin cfg12.N, (cfg12.win 2).flush t = true ∧ i ∈ ((cfg12.win 2).blk t).view.set := by
  have hi0 : (i 0).val < 100000 := (i 0).isLt
  have hi1 : (i 1).val < 64 := (i 1).isLt
  have hN : cfg12.N = 20 := N_12
  refine ⟨⟨(i 0).val / 5000, by rw [hN]; omega⟩, flush12_2 _, ?_⟩
  obtain ⟨e00, e01, e10, e11, e20, e21, ht⟩ := idx_facts12 ⟨(i 0).val / 5000, by rw [hN]; omega⟩
  rw [mem_blk12]
  intro a
  match a with
  | ⟨0, _⟩ => show win12_2.index _ (0 : Fin 2) * 5000 ≤ (i 0).val ∧ (i 0).val < win12_2.index _ (0 : Fin 2) * 5000 + 5000; rw [e20]; show (i 0).val / 5000 * 5000 ≤ (i 0).val ∧ (i 0).val < (i 0).val / 5000 * 5000 + 5000; omega
  | ⟨1, _⟩ => show win12_2.index _ (1 : Fin 2) * 64 ≤ (i 1).val ∧ (i 1).val < win12_2.index _ (1 : Fin 2) * 64 + 64; rw [e21]; omega

/-- THE ARRAY after the grid: the product of the two input arrays as the region finds them. -/
theorem final12 (c : Dev nD) : (dat12 (F := Ideal) V c).arrAt 2 cfg12.N
    = Cert.Spec.matmulG (V c (Pipeline.arrRef spec12 0)) (V c (Pipeline.arrRef spec12 1)) :=
  (dat12 (F := Ideal) V c).arrAt_eq_of_cover 2 _ (fun t _ => flushed12_eq V c t) covered12

end Cert.KernelIdeal.Val

end
-- ==== Proof.KI.V5.lean ====
import proofs.«173191_j73083163508880_2_alg».proof.Proof.KI.R5
import proofs.«173191_j73083163508880_2_alg».proof.Proof.SpecB
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)
open scoped BigOperators

-- the TensorCore's buffer contents when the region is entered, over the extended reals
variable (V : (c : Dev nD) → (b : Ref sig .tc) → Buf (Elt Ideal) ((c : Thread nD τ).loc b))

/-! # What the batch-norm application of pipeline 5 leaves in its output array

The output array after the 10 grid points is, index by index, `(x - mean) * invstd * g + b` of the five input arrays
as the region finds them, the four parameter rows read at the column: point `t` writes rows
`5000 t … 5000 t + 4999`. -/

theorem hz5 : (![0, 0] : Fin 2 → Nat) = fun _ => 0 := funext fun a => by fin_cases a <;> rfl
theorem hz5' : (![0] : Fin 1 → Nat) = fun _ => 0 := funext fun a => by fin_cases a; rfl

/-! ## The body's payload at an index -/

/-- The stored block at row `p`, column `q`: the activation there less the mean at the column, times the inverse
    standard deviation at the column, times the scale at the column, plus the shift at the column. -/
theorem pay5_apply (x0 : Vec Ideal S5000x128 .f32) (x1 x2 : Vec Ideal S1x128 .f32) (x3 x4 : Vec Ideal S128 .f32)
    (p : Fin 5000) (q : Fin 128) :
    k5_pay1 x0 x1 x2 x3 x4 (ix2 p q)
      = (x0 (ix2 p q) - x1 (ix2 (0 : Fin 1) q)) * x2 (ix2 (0 : Fin 1) q) * x3 (ix1 q) + x4 (ix1 q) := by
  unfold k5_pay1
  simp only [shapeCast_self]
  rw [addf_apply, mulf_apply, mulf_apply, subf_apply]
  simp only [broadcastTo_1b_ab_apply, shapeCast_a_1a_apply]

/-! ## From blocks to the array -/

/-- The printed index maps, decided over the grid: the activations' and the output's row blocks are the point's, every
    other block index is 0, and there are 10 points. -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 1) = 0 ∧ win5_4.index t (0 : Fin 1) = 0
    ∧ win5_5.index t (0 : Fin 2) = t.val ∧ win5_5.index t (1 : Fin 2) = 0 ∧ t.val < 10 :=
  (by decide +kernel : ∀ t : Fin grid5.N, _)

set_option maxHeartbeats 1000000 in
/-- What point `t` writes back is block `t` of the batch-norm application to the input arrays as the region finds
    them. -/
theorem flushed5_eq (c : Dev nD) (t : Fin cfg5.N) :
    (dat5 (F := Ideal) V c).flushed 5 t = ((cfg5.win 5).blk t).view.read (Elt Ideal)
      (Cert.Spec.bnApplyG (V c (Pipeline.arrRef spec5 0)) (V c (Pipeline.arrRef spec5 1)) (V c (Pipeline.arrRef spec5 2))
        (V c (Pipeline.arrRef spec5 3)) (V c (Pipeline.arrRef spec5 4))) := by
  show (cfg5.win 5).cut (grid5.coords t) ((dat5 (F := Ideal) V c).after 5 t) = _
  rw [after5_5]
  unfold out5_5
  rw [View.canon_unit_zero hz5]
  simp only [View.ld_unit_zero (S := S5000x128) hz5, View.ld_unit_zero (S := S1x128) hz5, View.ld_unit_zero (S := S128) hz5']
  obtain ⟨e00, e01, e10, e11, e20, e21, e30, e40, e50, e51, ht⟩ := idx_facts5 t
  funext j
  obtain ⟨p, q, rfl⟩ : ∃ (p : Fin 5000) (q : Fin 128), j = ix2 p q := ⟨j 0, j 1, eq_ix2 j⟩
  show k5_pay1 (iblk5 V c 0 t) (iblk5 V c 1 t) (iblk5 V c 2 t) (iblk5 V c 3 t) (iblk5 V c 4 t) (ix2 p q)
    = Cert.Spec.bnApplyG (V c main_v104) (V c main_v105) (V c main_v106) (V c main_v107) (V c main_v108) (((cfg5.win 5).blk t).view.emb (ix2 p q))
  refine (pay5_apply (iblk5 V c 0 t) (iblk5 V c 1 t) (iblk5 V c 2 t) (iblk5 V c 3 t) (iblk5 V c 4 t) p q).trans ?_
  unfold Cert.Spec.bnApplyG
  have h0 : ((cfg5.win 0).blk t).view.emb (ix2 p q) = ((cfg5.win 5).blk t).view.emb (ix2 p q) := by
    funext a; apply Fin.ext
    match a with
    | ⟨0, _⟩ => show win5_0.index t (0 : Fin 2) * 5000 + 1 * p.val = win5_5.index t (0 : Fin 2) * 5000 + 1 * p.val; omega
    | ⟨1, _⟩ => show win5_0.index t (1 : Fin 2) * 128 + 1 * q.val = win5_5.index t (1 : Fin 2) * 128 + 1 * q.val; omega
  have h1 : ((cfg5.win 1).blk t).view.emb (ix2 (0 : Fin 1) q) = ix2 (0 : Fin 1) ((((cfg5.win 5).blk t).view.emb (ix2 p q)) 1) := by
    funext a; apply Fin.ext
    match a with
    | ⟨0, _⟩ => show win5_1.index t (0 : Fin 2) * 1 + 1 * 0 = 0; omega
    | ⟨1, _⟩ => show win5_1.index t (1 : Fin 2) * 128 + 1 * q.val = win5_5.index t (1 : Fin 2) * 128 + 1 * q.val; omega
  have h2 : ((cfg5.win 2).blk t).view.emb (ix2 (0 : Fin 1) q) = ix2 (0 : Fin 1) ((((cfg5.win 5).blk t).view.emb (ix2 p q)) 1) := by
    funext a; apply Fin.ext
    match a with
    | ⟨0, _⟩ => show win5_2.index t (0 : Fin 2) * 1 + 1 * 0 = 0; omega
    | ⟨1, _⟩ => show win5_2.index t (1 : Fin 2) * 128 + 1 * q.val = win5_5.index t (1 : Fin 2) * 128 + 1 * q.val; omega
  have h3 : ((cfg5.win 3).blk t).view.emb (ix1 q) = ix1 ((((cfg5.win 5).blk t).view.emb (ix2 p q)) 1) := by
    funext a; apply Fin.ext
    match a with
    | ⟨0, _⟩ => show win5_3.index t (0 : Fin 1) * 128 + 1 * q.val = win5_5.index t (1 : Fin 2) * 128 + 1 * q.val; omega
  have h4 : ((cfg5.win 4).blk t).view.emb (ix1 q) = ix1 ((((cfg5.win 5).blk t).view.emb (ix2 p q)) 1) := by
    funext a; apply Fin.ext
    match a with
    | ⟨0, _⟩ => show win5_4.index t (0 : Fin 1) * 128 + 1 * q.val = win5_5.index t (1 : Fin 2) * 128 + 1 * q.val; omega
  exact congrArg₂ (fun a b : EReal => a + b)
    (congrArg₂ (fun a b : EReal => a * b)
      (congrArg₂ (fun a b : EReal => a * b)
        (congrArg₂ (fun a b : EReal => a - b) (congrArg (V c main_v104) h0) (congrArg (V c main_v105) h1))
        (congrArg (V c main_v106) h2))
      (congrArg (V c main_v107) h3))
    (congrArg (V c main_v108) h4)

/-- An index of the array is in point `t`'s block iff each coordinate is in the block's range on its axis. -/
theorem mem_blk5 (t : Fin cfg5.N) (i : S50000x128.Idx) :
    i ∈ ((cfg5.win 5).blk t).view.set ↔ ∀ a : Fin 2, win5_5.index t a * S5000x128.size a ≤ (i a).val ∧ (i a).val < win5_5.index t a * S5000x128.size a + S5000x128.size a := by
  show i ∈ ((View.whole main_v109).slice (win5_5.rect t)).set ↔ _
  rw [View.set_slice_whole, Rect.mem_set_unit]
  exact Iff.rfl

/-- Every index of the output array is in some point's block: row `r` is in the block of point `r / 5000`. -/
theorem covered5 (i : S50000x128.Idx) : ∃ t : Fin cfg5.N, (cfg5.win 5).flush t = true ∧ i ∈ ((cfg5.win 5).blk t).view.set := by
  have hi0 : (i 0).val < 50000 := (i 0).isLt
  have hi1 : (i 1).val < 128 := (i 1).isLt
  have hN : cfg5.N = 10 := N_5
  refine ⟨⟨(i 0).val / 5000, by rw [hN]; omega⟩, flush5_5 _, ?_⟩
  obtain ⟨e00, e01, e10, e11, e20, e21, e30, e40, e50, e51, ht⟩ := idx_facts5 ⟨(i 0).val / 5000, by rw [hN]; omega⟩
  rw [mem_blk5]
  intro a
  match a with
  | ⟨0, _⟩ => show win5_5.index _ (0 : Fin 2) * 5000 ≤ (i 0).val ∧ (i 0).val < win5_5.index _ (0 : Fin 2) * 5000 + 5000; rw [e50]; show (i 0).val / 5000 * 5000 ≤ (i 0).val ∧ (i 0).val < (i 0).val / 5000 * 5000 + 5000; omega
  | ⟨1, _⟩ => show win5_5.index _ (1 : Fin 2) * 128 ≤ (i 1).val ∧ (i 1).val < win5_5.index _ (1 : Fin 2) * 128 + 128; rw [e51]; omega

/-- THE ARRAY after the grid: the batch-norm application to the five input arrays as the region finds them. -/
theorem final5 (c : Dev nD) : (dat5 (F := Ideal) V c).arrAt 5 cfg5.N
    = Cert.Spec.bnApplyG (V c (Pipeline.arrRef spec5 0)) (V c (Pipeline.arrRef spec5 1)) (V c (Pipeline.arrRef spec5 2))
        (V c (Pipeline.arrRef spec5 3)) (V c (Pipeline.arrRef spec5 4)) :=
  (dat5 (F := Ideal) V c).arrAt_eq_of_cover 5 _ (fun t _ => flushed5_eq V c t) covered5

end Cert.KernelIdeal.Val

end
-- ==== Proof.KI.V8.lean ====
import proofs.«173191_j73083163508880_2_alg».proof.Proof.KI.R8
import proofs.«173191_j73083163508880_2_alg».proof.Proof.SpecB
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)
open scoped BigOperators

-- the TensorCore's buffer contents when the region is entered, over the extended reals
variable (V : (c : Dev nD) → (b : Ref sig .tc) → Buf (Elt Ideal) ((c : Thread nD τ).loc b))

/-! # What the batch-norm application of pipeline 8 leaves in its output array

The output array after the 10 grid points is, index by index, `(x - mean) * invstd * g + b` of the five input arrays
as the region finds them, the four parameter rows read at the column: point `t` writes rows
`5000 t … 5000 t + 4999`. -/

theorem hz8 : (![0, 0] : Fin 2 → Nat) = fun _ => 0 := funext fun a => by fin_cases a <;> rfl
theorem hz8' : (![0] : Fin 1 → Nat) = fun _ => 0 := funext fun a => by fin_cases a; rfl

/-! ## The body's payload at an index -/

/-- The stored block at row `p`, column `q`: the activation there less the mean at the column, times the inverse
    standard deviation at the column, times the scale at the column, plus the shift at the column. -/
theorem pay8_apply (x0 : Vec Ideal S5000x128 .f32) (x1 x2 : Vec Ideal S1x128 .f32) (x3 x4 : Vec Ideal S128 .f32)
    (p : Fin 5000) (q : Fin 128) :
    k8_pay1 x0 x1 x2 x3 x4 (ix2 p q)
      = (x0 (ix2 p q) - x1 (ix2 (0 : Fin 1) q)) * x2 (ix2 (0 : Fin 1) q) * x3 (ix1 q) + x4 (ix1 q) := by
  unfold k8_pay1
  simp only [shapeCast_self]
  rw [addf_apply, mulf_apply, mulf_apply, subf_apply]
  simp only [broadcastTo_1b_ab_apply, shapeCast_a_1a_apply]

/-! ## From blocks to the array -/

/-- The printed index maps, decided over the grid: the activations' and the output's row blocks are the point's, every
    other block index is 0, and there are 10 points. -/
theorem idx_facts8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 1) = 0 ∧ win8_4.index t (0 : Fin 1) = 0
    ∧ win8_5.index t (0 : Fin 2) = t.val ∧ win8_5.index t (1 : Fin 2) = 0 ∧ t.val < 10 :=
  (by decide +kernel : ∀ t : Fin grid8.N, _)

set_option maxHeartbeats 1000000 in
/-- What point `t` writes back is block `t` of the batch-norm application to the input arrays as the region finds
    them. -/
theorem flushed8_eq (c : Dev nD) (t : Fin cfg8.N) :
    (dat8 (F := Ideal) V c).flushed 5 t = ((cfg8.win 5).blk t).view.read (Elt Ideal)
      (Cert.Spec.bnApplyG (V c (Pipeline.arrRef spec8 0)) (V c (Pipeline.arrRef spec8 1)) (V c (Pipeline.arrRef spec8 2))
        (V c (Pipeline.arrRef spec8 3)) (V c (Pipeline.arrRef spec8 4))) := by
  show (cfg8.win 5).cut (grid8.coords t) ((dat8 (F := Ideal) V c).after 5 t) = _
  rw [after8_5]
  unfold out8_5
  rw [View.canon_unit_zero hz8]
  simp only [View.ld_unit_zero (S := S5000x128) hz8, View.ld_unit_zero (S := S1x128) hz8, View.ld_unit_zero (S := S128) hz8']
  obtain ⟨e00, e01, e10, e11, e20, e21, e30, e40, e50, e51, ht⟩ := idx_facts8 t
  funext j
  obtain ⟨p, q, rfl⟩ : ∃ (p : Fin 5000) (q : Fin 128), j = ix2 p q := ⟨j 0, j 1, eq_ix2 j⟩
  show k8_pay1 (iblk8 V c 0 t) (iblk8 V c 1 t) (iblk8 V c 2 t) (iblk8 V c 3 t) (iblk8 V c 4 t) (ix2 p q)
    = Cert.Spec.bnApplyG (V c main_v149) (V c main_v150) (V c main_v151) (V c main_v152) (V c main_v153) (((cfg8.win 5).blk t).view.emb (ix2 p q))
  refine (pay8_apply (iblk8 V c 0 t) (iblk8 V c 1 t) (iblk8 V c 2 t) (iblk8 V c 3 t) (iblk8 V c 4 t) p q).trans ?_
  unfold Cert.Spec.bnApplyG
  have h0 : ((cfg8.win 0).blk t).view.emb (ix2 p q) = ((cfg8.win 5).blk t).view.emb (ix2 p q) := by
    funext a; apply Fin.ext
    match a with
    | ⟨0, _⟩ => show win8_0.index t (0 : Fin 2) * 5000 + 1 * p.val = win8_5.index t (0 : Fin 2) * 5000 + 1 * p.val; omega
    | ⟨1, _⟩ => show win8_0.index t (1 : Fin 2) * 128 + 1 * q.val = win8_5.index t (1 : Fin 2) * 128 + 1 * q.val; omega
  have h1 : ((cfg8.win 1).blk t).view.emb (ix2 (0 : Fin 1) q) = ix2 (0 : Fin 1) ((((cfg8.win 5).blk t).view.emb (ix2 p q)) 1) := by
    funext a; apply Fin.ext
    match a with
    | ⟨0, _⟩ => show win8_1.index t (0 : Fin 2) * 1 + 1 * 0 = 0; omega
    | ⟨1, _⟩ => show win8_1.index t (1 : Fin 2) * 128 + 1 * q.val = win8_5.index t (1 : Fin 2) * 128 + 1 * q.val; omega
  have h2 : ((cfg8.win 2).blk t).view.emb (ix2 (0 : Fin 1) q) = ix2 (0 : Fin 1) ((((cfg8.win 5).blk t).view.emb (ix2 p q)) 1) := by
    funext a; apply Fin.ext
    match a with
    | ⟨0, _⟩ => show win8_2.index t (0 : Fin 2) * 1 + 1 * 0 = 0; omega
    | ⟨1, _⟩ => show win8_2.index t (1 : Fin 2) * 128 + 1 * q.val = win8_5.index t (1 : Fin 2) * 128 + 1 * q.val; omega
  have h3 : ((cfg8.win 3).blk t).view.emb (ix1 q) = ix1 ((((cfg8.win 5).blk t).view.emb (ix2 p q)) 1) := by
    funext a; apply Fin.ext
    match a with
    | ⟨0, _⟩ => show win8_3.index t (0 : Fin 1) * 128 + 1 * q.val = win8_5.index t (1 : Fin 2) * 128 + 1 * q.val; omega
  have h4 : ((cfg8.win 4).blk t).view.emb (ix1 q) = ix1 ((((cfg8.win 5).blk t).view.emb (ix2 p q)) 1) := by
    funext a; apply Fin.ext
    match a with
    | ⟨0, _⟩ => show win8_4.index t (0 : Fin 1) * 128 + 1 * q.val = win8_5.index t (1 : Fin 2) * 128 + 1 * q.val; omega
  exact congrArg₂ (fun a b : EReal => a + b)
    (congrArg₂ (fun a b : EReal => a * b)
      (congrArg₂ (fun a b : EReal => a * b)
        (congrArg₂ (fun a b : EReal => a - b) (congrArg (V c main_v149) h0) (congrArg (V c main_v150) h1))
        (congrArg (V c main_v151) h2))
      (congrArg (V c main_v152) h3))
    (congrArg (V c main_v153) h4)

/-- An index of the array is in point `t`'s block iff each coordinate is in the block's range on its axis. -/
theorem mem_blk8 (t : Fin cfg8.N) (i : S50000x128.Idx) :
    i ∈ ((cfg8.win 5).blk t).view.set ↔ ∀ a : Fin 2, win8_5.index t a * S5000x128.size a ≤ (i a).val ∧ (i a).val < win8_5.index t a * S5000x128.size a + S5000x128.size a := by
  show i ∈ ((View.whole main_v154).slice (win8_5.rect t)).set ↔ _
  rw [View.set_slice_whole, Rect.mem_set_unit]
  exact Iff.rfl

/-- Every index of the output array is in some point's block: row `r` is in the block of point `r / 5000`. -/
theorem covered8 (i : S50000x128.Idx) : ∃ t : Fin cfg8.N, (cfg8.win 5).flush t = true ∧ i ∈ ((cfg8.win 5).blk t).view.set := by
  have hi0 : (i 0).val < 50000 := (i 0).isLt
  have hi1 : (i 1).val < 128 := (i 1).isLt
  have hN : cfg8.N = 10 := N_8
  refine ⟨⟨(i 0).val / 5000, by rw [hN]; omega⟩, flush8_5 _, ?_⟩
  obtain ⟨e00, e01, e10, e11, e20, e21, e30, e40, e50, e51, ht⟩ := idx_facts8 ⟨(i 0).val / 5000, by rw [hN]; omega⟩
  rw [mem_blk8]
  intro a
  match a with
  | ⟨0, _⟩ => show win8_5.index _ (0 : Fin 2) * 5000 ≤ (i 0).val ∧ (i 0).val < win8_5.index _ (0 : Fin 2) * 5000 + 5000; rw [e50]; show (i 0).val / 5000 * 5000 ≤ (i 0).val ∧ (i 0).val < (i 0).val / 5000 * 5000 + 5000; omega
  | ⟨1, _⟩ => show win8_5.index _ (1 : Fin 2) * 128 ≤ (i 1).val ∧ (i 1).val < win8_5.index _ (1 : Fin 2) * 128 + 128; rw [e51]; omega

/-- THE ARRAY after the grid: the batch-norm application to the five input arrays as the region finds them. -/
theorem final8 (c : Dev nD) : (dat8 (F := Ideal) V c).arrAt 5 cfg8.N
    = Cert.Spec.bnApplyG (V c (Pipeline.arrRef spec8 0)) (V c (Pipeline.arrRef spec8 1)) (V c (Pipeline.arrRef spec8 2))
        (V c (Pipeline.arrRef spec8 3)) (V c (Pipeline.arrRef spec8 4)) :=
  (dat8 (F := Ideal) V c).arrAt_eq_of_cover 5 _ (fun t _ => flushed8_eq V c t) covered8

end Cert.KernelIdeal.Val

end
-- ==== Proof.KI.V14.lean ====
import proofs.«173191_j73083163508880_2_alg».proof.Proof.KI.R14
import proofs.«173191_j73083163508880_2_alg».proof.Proof.SpecB
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)
open scoped BigOperators

-- the TensorCore's buffer contents when the region is entered, over the extended reals
variable (V : (c : Dev nD) → (b : Ref sig .tc) → Buf (Elt Ideal) ((c : Thread nD τ).loc b))

/-! # What the batch-norm application of pipeline 14 leaves in its output array

The output array after the 10 grid points is, index by index, `(x - mean) * invstd * g + b` of the five input arrays
as the region finds them, the four parameter rows read at the column: point `t` writes rows
`5000 t … 5000 t + 4999`. -/

theorem hz14 : (![0, 0] : Fin 2 → Nat) = fun _ => 0 := funext fun a => by fin_cases a <;> rfl
theorem hz14' : (![0] : Fin 1 → Nat) = fun _ => 0 := funext fun a => by fin_cases a; rfl

/-! ## The body's payload at an index -/

/-- The stored block at row `p`, column `q`: the activation there less the mean at the column, times the inverse
    standard deviation at the column, times the scale at the column, plus the shift at the column. -/
theorem pay14_apply (x0 : Vec Ideal S5000x128 .f32) (x1 x2 : Vec Ideal S1x128 .f32) (x3 x4 : Vec Ideal S128 .f32)
    (p : Fin 5000) (q : Fin 128) :
    k14_pay1 x0 x1 x2 x3 x4 (ix2 p q)
      = (x0 (ix2 p q) - x1 (ix2 (0 : Fin 1) q)) * x2 (ix2 (0 : Fin 1) q) * x3 (ix1 q) + x4 (ix1 q) := by
  unfold k14_pay1
  simp only [shapeCast_self]
  rw [addf_apply, mulf_apply, mulf_apply, subf_apply]
  simp only [broadcastTo_1b_ab_apply, shapeCast_a_1a_apply]

/-! ## From blocks to the array -/

/-- The printed index maps, decided over the grid: the activations' and the output's row blocks are the point's, every
    other block index is 0, and there are 10 points. -/
theorem idx_facts14 : ∀ t : Fin cfg14.N, win14_0.index t (0 : Fin 2) = t.val ∧ win14_0.index t (1 : Fin 2) = 0
    ∧ win14_1.index t (0 : Fin 2) = 0 ∧ win14_1.index t (1 : Fin 2) = 0
    ∧ win14_2.index t (0 : Fin 2) = 0 ∧ win14_2.index t (1 : Fin 2) = 0
    ∧ win14_3.index t (0 : Fin 1) = 0 ∧ win14_4.index t (0 : Fin 1) = 0
    ∧ win14_5.index t (0 : Fin 2) = t.val ∧ win14_5.index t (1 : Fin 2) = 0 ∧ t.val < 10 :=
  (by decide +kernel : ∀ t : Fin grid14.N, _)

set_option maxHeartbeats 1000000 in
/-- What point `t` writes back is block `t` of the batch-norm application to the input arrays as the region finds
    them. -/
theorem flushed14_eq (c : Dev nD) (t : Fin cfg14.N) :
    (dat14 (F := Ideal) V c).flushed 5 t = ((cfg14.win 5).blk t).view.read (Elt Ideal)
      (Cert.Spec.bnApplyG (V c (Pipeline.arrRef spec14 0)) (V c (Pipeline.arrRef spec14 1)) (V c (Pipeline.arrRef spec14 2))
        (V c (Pipeline.arrRef spec14 3)) (V c (Pipeline.arrRef spec14 4))) := by
  show (cfg14.win 5).cut (grid14.coords t) ((dat14 (F := Ideal) V c).after 5 t) = _
  rw [after14_5]
  unfold out14_5
  rw [View.canon_unit_zero hz14]
  simp only [View.ld_unit_zero (S := S5000x128) hz14, View.ld_unit_zero (S := S1x128) hz14, View.ld_unit_zero (S := S128) hz14']
  obtain ⟨e00, e01, e10, e11, e20, e21, e30, e40, e50, e51, ht⟩ := idx_facts14 t
  funext j
  obtain ⟨p, q, rfl⟩ : ∃ (p : Fin 5000) (q : Fin 128), j = ix2 p q := ⟨j 0, j 1, eq_ix2 j⟩
  show k14_pay1 (iblk14 V c 0 t) (iblk14 V c 1 t) (iblk14 V c 2 t) (iblk14 V c 3 t) (iblk14 V c 4 t) (ix2 p q)
    = Cert.Spec.bnApplyG (V c main_v260) (V c main_v261) (V c main_v262) (V c main_v263) (V c main_v264) (((cfg14.win 5).blk t).view.emb (ix2 p q))
  refine (pay14_apply (iblk14 V c 0 t) (iblk14 V c 1 t) (iblk14 V c 2 t) (iblk14 V c 3 t) (iblk14 V c 4 t) p q).trans ?_
  unfold Cert.Spec.bnApplyG
  have h0 : ((cfg14.win 0).blk t).view.emb (ix2 p q) = ((cfg14.win 5).blk t).view.emb (ix2 p q) := by
    funext a; apply Fin.ext
    match a with
    | ⟨0, _⟩ => show win14_0.index t (0 : Fin 2) * 5000 + 1 * p.val = win14_5.index t (0 : Fin 2) * 5000 + 1 * p.val; omega
    | ⟨1, _⟩ => show win14_0.index t (1 : Fin 2) * 128 + 1 * q.val = win14_5.index t (1 : Fin 2) * 128 + 1 * q.val; omega
  have h1 : ((cfg14.win 1).blk t).view.emb (ix2 (0 : Fin 1) q) = ix2 (0 : Fin 1) ((((cfg14.win 5).blk t).view.emb (ix2 p q)) 1) := by
    funext a; apply Fin.ext
    match a with
    | ⟨0, _⟩ => show win14_1.index t (0 : Fin 2) * 1 + 1 * 0 = 0; omega
    | ⟨1, _⟩ => show win14_1.index t (1 : Fin 2) * 128 + 1 * q.val = win14_5.index t (1 : Fin 2) * 128 + 1 * q.val; omega
  have h2 : ((cfg14.win 2).blk t).view.emb (ix2 (0 : Fin 1) q) = ix2 (0 : Fin 1) ((((cfg14.win 5).blk t).view.emb (ix2 p q)) 1) := by
    funext a; apply Fin.ext
    match a with
    | ⟨0, _⟩ => show win14_2.index t (0 : Fin 2) * 1 + 1 * 0 = 0; omega
    | ⟨1, _⟩ => show win14_2.index t (1 : Fin 2) * 128 + 1 * q.val = win14_5.index t (1 : Fin 2) * 128 + 1 * q.val; omega
  have h3 : ((cfg14.win 3).blk t).view.emb (ix1 q) = ix1 ((((cfg14.win 5).blk t).view.emb (ix2 p q)) 1) := by
    funext a; apply Fin.ext
    match a with
    | ⟨0, _⟩ => show win14_3.index t (0 : Fin 1) * 128 + 1 * q.val = win14_5.index t (1 : Fin 2) * 128 + 1 * q.val; omega
  have h4 : ((cfg14.win 4).blk t).view.emb (ix1 q) = ix1 ((((cfg14.win 5).blk t).view.emb (ix2 p q)) 1) := by
    funext a; apply Fin.ext
    match a with
    | ⟨0, _⟩ => show win14_4.index t (0 : Fin 1) * 128 + 1 * q.val = win14_5.index t (1 : Fin 2) * 128 + 1 * q.val; omega
  exact congrArg₂ (fun a b : EReal => a + b)
    (congrArg₂ (fun a b : EReal => a * b)
      (congrArg₂ (fun a b : EReal => a * b)
        (congrArg₂ (fun a b : EReal => a - b) (congrArg (V c main_v260) h0) (congrArg (V c main_v261) h1))
        (congrArg (V c main_v262) h2))
      (congrArg (V c main_v263) h3))
    (congrArg (V c main_v264) h4)

/-- An index of the array is in point `t`'s block iff each coordinate is in the block's range on its axis. -/
theorem mem_blk14 (t : Fin cfg14.N) (i : S50000x128.Idx) :
    i ∈ ((cfg14.win 5).blk t).view.set ↔ ∀ a : Fin 2, win14_5.index t a * S5000x128.size a ≤ (i a).val ∧ (i a).val < win14_5.index t a * S5000x128.size a + S5000x128.size a := by
  show i ∈ ((View.whole main_v265).slice (win14_5.rect t)).set ↔ _
  rw [View.set_slice_whole, Rect.mem_set_unit]
  exact Iff.rfl

/-- Every index of the output array is in some point's block: row `r` is in the block of point `r / 5000`. -/
theorem covered14 (i : S50000x128.Idx) : ∃ t : Fin cfg14.N, (cfg14.win 5).flush t = true ∧ i ∈ ((cfg14.win 5).blk t).view.set := by
  have hi0 : (i 0).val < 50000 := (i 0).isLt
  have hi1 : (i 1).val < 128 := (i 1).isLt
  have hN : cfg14.N = 10 := N_14
  refine ⟨⟨(i 0).val / 5000, by rw [hN]; omega⟩, flush14_5 _, ?_⟩
  obtain ⟨e00, e01, e10, e11, e20, e21, e30, e40, e50, e51, ht⟩ := idx_facts14 ⟨(i 0).val / 5000, by rw [hN]; omega⟩
  rw [mem_blk14]
  intro a
  match a with
  | ⟨0, _⟩ => show win14_5.index _ (0 : Fin 2) * 5000 ≤ (i 0).val ∧ (i 0).val < win14_5.index _ (0 : Fin 2) * 5000 + 5000; rw [e50]; show (i 0).val / 5000 * 5000 ≤ (i 0).val ∧ (i 0).val < (i 0).val / 5000 * 5000 + 5000; omega
  | ⟨1, _⟩ => show win14_5.index _ (1 : Fin 2) * 128 ≤ (i 1).val ∧ (i 1).val < win14_5.index _ (1 : Fin 2) * 128 + 128; rw [e51]; omega

/-- THE ARRAY after the grid: the batch-norm application to the five input arrays as the region finds them. -/
theorem final14 (c : Dev nD) : (dat14 (F := Ideal) V c).arrAt 5 cfg14.N
    = Cert.Spec.bnApplyG (V c (Pipeline.arrRef spec14 0)) (V c (Pipeline.arrRef spec14 1)) (V c (Pipeline.arrRef spec14 2))
        (V c (Pipeline.arrRef spec14 3)) (V c (Pipeline.arrRef spec14 4)) :=
  (dat14 (F := Ideal) V c).arrAt_eq_of_cover 5 _ (fun t _ => flushed14_eq V c t) covered14

end Cert.KernelIdeal.Val

end
-- ==== Proof.SpecC.lean ====
import Idealize.ShloMosaic.PureOps.Ideal
import Idealize.ShloMosaic.Lib.ValueIdx
import Idealize.ShloMosaic.Lib.ValueLayout

/-! # The graph-convolution combine of a [100000,64] array, entry by entry

`statsRelu` is the rectified combine of one graph-convolution layer: at row `r`, column `q`, the neighbour sum and the
node's own scaled features, each times the row's inverse square-root degree, added, plus the column's bias, and the maximum
of that with the zero word — grouped as `(neigh·dinv + xws·dinv) + b`. -/

noncomputable section

namespace Cert.Spec

open Idealize.ShloMosaic Idealize.ShloMosaic.ValueIdx

/-- `max ((neigh (r, q) * dinv (r, 0) + xws (r, q) * dinv (r, 0)) + b q) 0`, the zero the word `0x00000000`. -/
def statsRelu (neigh xws : (⟨2, ![100000, 64]⟩ : Shape).Idx → EReal) (dinv : (⟨2, ![100000, 1]⟩ : Shape).Idx → EReal)
    (b : (⟨1, ![64]⟩ : Shape).Idx → EReal) : (⟨2, ![100000, 64]⟩ : Shape).Idx → EReal :=
  fun i => max (neigh i * dinv (ix2 (i 0 : Fin 100000) (0 : Fin 1)) + xws i * dinv (ix2 (i 0 : Fin 100000) (0 : Fin 1)) + b (ix1 (i 1 : Fin 64)))
    (Ideal.ofBits .f32 0x00000000#32)

/-- The same at explicit coordinates. -/
theorem statsRelu_apply (neigh xws : (⟨2, ![100000, 64]⟩ : Shape).Idx → EReal) (dinv : (⟨2, ![100000, 1]⟩ : Shape).Idx → EReal)
    (b : (⟨1, ![64]⟩ : Shape).Idx → EReal) (r : Fin 100000) (q : Fin 64) :
    statsRelu neigh xws dinv b (ix2 r q)
      = max (neigh (ix2 r q) * dinv (ix2 r (0 : Fin 1)) + xws (ix2 r q) * dinv (ix2 r (0 : Fin 1)) + b (ix1 q)) (Ideal.ofBits .f32 0x00000000#32) := rfl

/-- A sum over 100000 rows, taken 20 blocks of 5000 rows at a time, block by block, is the sum over the rows. -/
theorem sum_blocks {M : Type*} [AddCommMonoid M] (g : Fin 100000 → M) :
    ∑ t : Fin 20, ∑ k : Fin 5000, g ⟨5000 * t.val + k.val, by have := t.isLt; have := k.isLt; omega⟩ = ∑ r : Fin 100000, g r := by
  have e : ∑ r : Fin 100000, g r = ∑ x : Fin 20 × Fin 5000, g (finProdFinEquiv x) :=
    (Equiv.sum_comp (finProdFinEquiv (m := 20) (n := 5000)) g).symm
  rw [e, Fintype.sum_prod_type]
  refine Finset.sum_congr rfl fun t _ => Finset.sum_congr rfl fun k _ => congrArg g (Fin.ext ?_)
  show 5000 * t.val + k.val = (finProdFinEquiv (t, k)).val
  rw [finProdFinEquiv_apply_val]
  dsimp only
  omega

end Cert.Spec

end
-- ==== Proof.SpecBN.lean ====
import Idealize.ShloMosaic.PureOps.Ideal
import Idealize.ShloMosaic.Lib.ValueIdx
import Idealize.ShloMosaic.Lib.ValueLayout

/-! # Column statistics and batch normalisation of a [100000,64] array, entry by entry

`colSum` and `colSumSq` are the per-column sums of the entries and of their squares, as [1,64] rows. `bnRefG` is
batch normalisation over the 100000 rows with the batch's own statistics: each entry less its column's mean, times
the reciprocal square root of the column's variance plus a small constant, times a per-column scale, plus a per-column
shift — the variance as the mean of the squared deviations from the mean, each sum started from the zero word and each
mean a division by the word of 100000. -/

noncomputable section

namespace Cert.Spec

open Idealize.ShloMosaic Idealize.ShloMosaic.ValueIdx
open scoped BigOperators

/-- The sum of each column's 100000 entries, as a [1,64] row. -/
def colSum (r : (⟨2, ![100000, 64]⟩ : Shape).Idx → EReal) : (⟨2, ![1, 64]⟩ : Shape).Idx → EReal :=
  fun i => ∑ row : Fin 100000, r (ix2 row (i 1 : Fin 64))

/-- The sum of the squares of each column's 100000 entries, as a [1,64] row. -/
def colSumSq (r : (⟨2, ![100000, 64]⟩ : Shape).Idx → EReal) : (⟨2, ![1, 64]⟩ : Shape).Idx → EReal :=
  fun i => ∑ row : Fin 100000, r (ix2 row (i 1 : Fin 64)) * r (ix2 row (i 1 : Fin 64))

/-- Column `q`'s mean: the sum of its entries, started from the zero word, divided by the word of 100000. -/
def bnRefMean (r : (⟨2, ![100000, 64]⟩ : Shape).Idx → EReal) (q : Fin 64) : EReal :=
  Ideal.div (Ideal.ofBits .f32 0x00000000#32 + ∑ row : Fin 100000, r (ix2 row q)) (Ideal.ofBits .f32 0x47C35000#32)

/-- Column `q`'s variance: the sum of the squared deviations from the mean, started from the zero word, divided by the
    word of 100000. -/
def bnRefVar (r : (⟨2, ![100000, 64]⟩ : Shape).Idx → EReal) (q : Fin 64) : EReal :=
  Ideal.div (Ideal.ofBits .f32 0x00000000#32
      + ∑ row : Fin 100000, (r (ix2 row q) - bnRefMean r q) * (r (ix2 row q) - bnRefMean r q))
    (Ideal.ofBits .f32 0x47C35000#32)

/-- Batch normalisation at row `p`, column `q`:
    `(r (p, q) - mean q) * rsqrt (var q + eps) * g q + bb q`, grouped so, `eps` the word `0x3727C5AC`. -/
def bnRefG (r : (⟨2, ![100000, 64]⟩ : Shape).Idx → EReal) (g bb : (⟨1, ![64]⟩ : Shape).Idx → EReal) :
    (⟨2, ![100000, 64]⟩ : Shape).Idx → EReal :=
  fun i => (r i - bnRefMean r (i 1 : Fin 64)) * Ideal.rsqrt (bnRefVar r (i 1 : Fin 64) + Ideal.ofBits .f32 0x3727C5AC#32)
    * g (ix1 (i 1 : Fin 64)) + bb (ix1 (i 1 : Fin 64))

end Cert.Spec

end
-- ==== Proof.KI.V4.lean ====
import proofs.«173191_j73083163508880_2_alg».proof.Proof.KI.R4
import proofs.«173191_j73083163508880_2_alg».proof.Proof.SpecC
import proofs.«173191_j73083163508880_2_alg».proof.Proof.SpecBN
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen Cert.KernelIdeal.Fr
open Idealize.ShloMosaic.ValueIdx

/-! # Region 4: what its three output arrays hold after the grid, as functions of its input arrays

The first output is the rectified combine of the four input arrays, block by block; the two accumulators hold, after
point `n`, the column sums (of the entries, of their squares) over the rows of blocks `0 … n`, so the two statistics
outputs, stored from them at the last point, hold the column sums over all 100000 rows. -/

section Pieces
variable {F : FTy → Type} [FloatOps F]

theorem hz2_4 : (![0, 0] : Fin 2 → Nat) = fun _ => 0 := funext fun a => by fin_cases a <;> rfl
theorem hz1_4 : (![0] : Fin 1 → Nat) = fun _ => 0 := funext fun a => by fin_cases a; rfl

/-! ## What each control case leaves, as the body's arithmetic of the loaded blocks -/

theorem out4_A_4_eq (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond4_0 i) (hc1 : ¬cond4_1 i)
    (x0 : Vec F S5000x64 .f32) (x1 : Vec F S5000x64 .f32) (x2 : Vec F S5000x1 .f32) (x3 : Vec F S64 .f32) :
    out4_A_4 c i arg1 harg1 arg2 harg2 arg3 harg3 arg4 harg4 arg5 harg5 arg6 harg6 arg7 harg7 arg8 harg8 arg9 harg9 hc0 hc1 x0 x1 x2 x3 = k4_pay4 x2 x0 x1 x3 := by
  unfold out4_A_4
  rw [View.read_writes_eq_canon _ _ _ (cover4_A_4 c i arg1 harg1 arg2 harg2 arg3 harg3 arg4 harg4 arg5 harg5 arg6 harg6 arg7 harg7 arg8 harg8 arg9 harg9 hc0 hc1 x0 x1 x2 x3)]
  unfold kernelRun4_A
  dsimp only
  try sl_unfold_words
  first
    | rw [View.canon_unit_zero hz2_4]
    | rw [View.canon_cons_unit_zero (S := S1x64) hz2_4]
  simp only [View.readAt_eq_ld, View.readCov_unit_zero (S := S1x64) _ hz2_4, harg1.read_unread, harg2.read_unread, harg3.read_unread, harg4.read_unread, harg8.read_unread, harg9.read_unread, View.ld_unit_zero (S := S5000x64) hz2_4, View.ld_unit_zero (S := S5000x1) hz2_4, View.ld_unit_zero (S := S64) hz1_4, View.ld_unit_zero (S := S1x64) hz2_4]

theorem sout4_A_0_eq (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond4_0 i) (hc1 : ¬cond4_1 i)
    (x0 : Vec F S5000x64 .f32) (x1 : Vec F S5000x64 .f32) (x2 : Vec F S5000x1 .f32) (x3 : Vec F S64 .f32) :
    sout4_A_0 c i arg1 harg1 arg2 harg2 arg3 harg3 arg4 harg4 arg5 harg5 arg6 harg6 arg7 harg7 arg8 harg8 arg9 harg9 hc0 hc1 x0 x1 x2 x3 = k4_pay5 x2 x0 x1 x3 (k4_pay2 (F := F)) := by
  unfold sout4_A_0
  rw [View.read_writes_eq_canon _ _ _ (scover4_A_0 c i arg1 harg1 arg2 harg2 arg3 harg3 arg4 harg4 arg5 harg5 arg6 harg6 arg7 harg7 arg8 harg8 arg9 harg9 hc0 hc1 x0 x1 x2 x3)]
  unfold kernelRun4_A
  dsimp only
  try sl_unfold_words
  first
    | rw [View.canon_unit_zero hz2_4]
    | rw [View.canon_cons_unit_zero (S := S1x64) hz2_4]
  simp only [View.readAt_eq_ld, View.readCov_unit_zero (S := S1x64) _ hz2_4, harg1.read_unread, harg2.read_unread, harg3.read_unread, harg4.read_unread, harg8.read_unread, harg9.read_unread, View.ld_unit_zero (S := S5000x64) hz2_4, View.ld_unit_zero (S := S5000x1) hz2_4, View.ld_unit_zero (S := S64) hz1_4, View.ld_unit_zero (S := S1x64) hz2_4]

theorem sout4_A_1_eq (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond4_0 i) (hc1 : ¬cond4_1 i)
    (x0 : Vec F S5000x64 .f32) (x1 : Vec F S5000x64 .f32) (x2 : Vec F S5000x1 .f32) (x3 : Vec F S64 .f32) :
    sout4_A_1 c i arg1 harg1 arg2 harg2 arg3 harg3 arg4 harg4 arg5 harg5 arg6 harg6 arg7 harg7 arg8 harg8 arg9 harg9 hc0 hc1 x0 x1 x2 x3 = k4_pay1 (k4_pay6 x2 x0 x1 x3 (k4_pay3 (F := F))) := by
  unfold sout4_A_1
  rw [View.read_writes_eq_canon _ _ _ (scover4_A_1 c i arg1 harg1 arg2 harg2 arg3 harg3 arg4 harg4 arg5 harg5 arg6 harg6 arg7 harg7 arg8 harg8 arg9 harg9 hc0 hc1 x0 x1 x2 x3)]
  unfold kernelRun4_A
  dsimp only
  try sl_unfold_words
  first
    | rw [View.canon_unit_zero hz2_4]
    | rw [View.canon_cons_unit_zero (S := S1x64) hz2_4]
  simp only [View.readAt_eq_ld, View.readCov_unit_zero (S := S1x64) _ hz2_4, harg1.read_unread, harg2.read_unread, harg3.read_unread, harg4.read_unread, harg8.read_unread, harg9.read_unread, View.ld_unit_zero (S := S5000x64) hz2_4, View.ld_unit_zero (S := S5000x1) hz2_4, View.ld_unit_zero (S := S64) hz1_4, View.ld_unit_zero (S := S1x64) hz2_4]

theorem out4_B_4_eq (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : ¬cond4_1 i)
    (x0 : Vec F S5000x64 .f32) (x1 : Vec F S5000x64 .f32) (x2 : Vec F S5000x1 .f32) (x3 : Vec F S64 .f32) (xs0 : Vec F S1x64 .f32) (xs1 : Vec F S1x64 .f32) :
    out4_B_4 c i arg1 harg1 arg2 harg2 arg3 harg3 arg4 harg4 arg5 harg5 arg6 harg6 arg7 harg7 arg8 harg8 arg9 harg9 hc0 hc1 x0 x1 x2 x3 xs0 xs1 = k4_pay4 x2 x0 x1 x3 := by
  unfold out4_B_4
  rw [View.read_writes_eq_canon _ _ _ (cover4_B_4 c i arg1 harg1 arg2 harg2 arg3 harg3 arg4 harg4 arg5 harg5 arg6 harg6 arg7 harg7 arg8 harg8 arg9 harg9 hc0 hc1 x0 x1 x2 x3 xs0 xs1)]
  unfold kernelRun4_B
  dsimp only
  try sl_unfold_words
  first
    | rw [View.canon_unit_zero hz2_4]
    | rw [View.canon_cons_unit_zero (S := S1x64) hz2_4]
  simp only [View.readAt_eq_ld, View.readCov_unit_zero (S := S1x64) _ hz2_4, harg1.read_unread, harg2.read_unread, harg3.read_unread, harg4.read_unread, harg8.read_unread, harg9.read_unread, View.ld_unit_zero (S := S5000x64) hz2_4, View.ld_unit_zero (S := S5000x1) hz2_4, View.ld_unit_zero (S := S64) hz1_4, View.ld_unit_zero (S := S1x64) hz2_4]

theorem sout4_B_0_eq (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : ¬cond4_1 i)
    (x0 : Vec F S5000x64 .f32) (x1 : Vec F S5000x64 .f32) (x2 : Vec F S5000x1 .f32) (x3 : Vec F S64 .f32) (xs0 : Vec F S1x64 .f32) (xs1 : Vec F S1x64 .f32) :
    sout4_B_0 c i arg1 harg1 arg2 harg2 arg3 harg3 arg4 harg4 arg5 harg5 arg6 harg6 arg7 harg7 arg8 harg8 arg9 harg9 hc0 hc1 x0 x1 x2 x3 xs0 xs1 = k4_pay5 x2 x0 x1 x3 xs0 := by
  unfold sout4_B_0
  rw [View.read_writes_eq_canon _ _ _ (scover4_B_0 c i arg1 harg1 arg2 harg2 arg3 harg3 arg4 harg4 arg5 harg5 arg6 harg6 arg7 harg7 arg8 harg8 arg9 harg9 hc0 hc1 x0 x1 x2 x3 xs0 xs1)]
  unfold kernelRun4_B
  dsimp only
  try sl_unfold_words
  first
    | rw [View.canon_unit_zero hz2_4]
    | rw [View.canon_cons_unit_zero (S := S1x64) hz2_4]
  simp only [View.readAt_eq_ld, View.readCov_unit_zero (S := S1x64) _ hz2_4, harg1.read_unread, harg2.read_unread, harg3.read_unread, harg4.read_unread, harg8.read_unread, harg9.read_unread, View.ld_unit_zero (S := S5000x64) hz2_4, View.ld_unit_zero (S := S5000x1) hz2_4, View.ld_unit_zero (S := S64) hz1_4, View.ld_unit_zero (S := S1x64) hz2_4]

theorem sout4_B_1_eq (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : ¬cond4_1 i)
    (x0 : Vec F S5000x64 .f32) (x1 : Vec F S5000x64 .f32) (x2 : Vec F S5000x1 .f32) (x3 : Vec F S64 .f32) (xs0 : Vec F S1x64 .f32) (xs1 : Vec F S1x64 .f32) :
    sout4_B_1 c i arg1 harg1 arg2 harg2 arg3 harg3 arg4 harg4 arg5 harg5 arg6 harg6 arg7 harg7 arg8 harg8 arg9 harg9 hc0 hc1 x0 x1 x2 x3 xs0 xs1 = k4_pay1 (k4_pay6 x2 x0 x1 x3 xs1) := by
  unfold sout4_B_1
  rw [View.read_writes_eq_canon _ _ _ (scover4_B_1 c i arg1 harg1 arg2 harg2 arg3 harg3 arg4 harg4 arg5 harg5 arg6 harg6 arg7 harg7 arg8 harg8 arg9 harg9 hc0 hc1 x0 x1 x2 x3 xs0 xs1)]
  unfold kernelRun4_B
  dsimp only
  try sl_unfold_words
  first
    | rw [View.canon_unit_zero hz2_4]
    | rw [View.canon_cons_unit_zero (S := S1x64) hz2_4]
  simp only [View.readAt_eq_ld, View.readCov_unit_zero (S := S1x64) _ hz2_4, harg1.read_unread, harg2.read_unread, harg3.read_unread, harg4.read_unread, harg8.read_unread, harg9.read_unread, View.ld_unit_zero (S := S5000x64) hz2_4, View.ld_unit_zero (S := S5000x1) hz2_4, View.ld_unit_zero (S := S64) hz1_4, View.ld_unit_zero (S := S1x64) hz2_4]

theorem out4_C_4_eq (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : cond4_1 i)
    (x0 : Vec F S5000x64 .f32) (x1 : Vec F S5000x64 .f32) (x2 : Vec F S5000x1 .f32) (x3 : Vec F S64 .f32) (xs0 : Vec F S1x64 .f32) (xs1 : Vec F S1x64 .f32) :
    out4_C_4 c i arg1 harg1 arg2 harg2 arg3 harg3 arg4 harg4 arg5 harg5 arg6 harg6 arg7 harg7 arg8 harg8 arg9 harg9 hc0 hc1 x0 x1 x2 x3 xs0 xs1 = k4_pay4 x2 x0 x1 x3 := by
  unfold out4_C_4
  rw [View.read_writes_eq_canon _ _ _ (cover4_C_4 c i arg1 harg1 arg2 harg2 arg3 harg3 arg4 harg4 arg5 harg5 arg6 harg6 arg7 harg7 arg8 harg8 arg9 harg9 hc0 hc1 x0 x1 x2 x3 xs0 xs1)]
  unfold kernelRun4_C
  dsimp only
  try sl_unfold_words
  first
    | rw [View.canon_unit_zero hz2_4]
    | rw [View.canon_cons_unit_zero (S := S1x64) hz2_4]
  simp only [View.readAt_eq_ld, View.readCov_unit_zero (S := S1x64) _ hz2_4, harg1.read_unread, harg2.read_unread, harg3.read_unread, harg4.read_unread, harg8.read_unread, harg9.read_unread, View.ld_unit_zero (S := S5000x64) hz2_4, View.ld_unit_zero (S := S5000x1) hz2_4, View.ld_unit_zero (S := S64) hz1_4, View.ld_unit_zero (S := S1x64) hz2_4]

theorem sout4_C_0_eq (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : cond4_1 i)
    (x0 : Vec F S5000x64 .f32) (x1 : Vec F S5000x64 .f32) (x2 : Vec F S5000x1 .f32) (x3 : Vec F S64 .f32) (xs0 : Vec F S1x64 .f32) (xs1 : Vec F S1x64 .f32) :
    sout4_C_0 c i arg1 harg1 arg2 harg2 arg3 harg3 arg4 harg4 arg5 harg5 arg6 harg6 arg7 harg7 arg8 harg8 arg9 harg9 hc0 hc1 x0 x1 x2 x3 xs0 xs1 = k4_pay5 x2 x0 x1 x3 xs0 := by
  unfold sout4_C_0
  rw [View.read_writes_eq_canon _ _ _ (scover4_C_0 c i arg1 harg1 arg2 harg2 arg3 harg3 arg4 harg4 arg5 harg5 arg6 harg6 arg7 harg7 arg8 harg8 arg9 harg9 hc0 hc1 x0 x1 x2 x3 xs0 xs1)]
  unfold kernelRun4_C
  dsimp only
  try sl_unfold_words
  first
    | rw [View.canon_unit_zero hz2_4]
    | rw [View.canon_cons_unit_zero (S := S1x64) hz2_4]
  simp only [View.readAt_eq_ld, View.readCov_unit_zero (S := S1x64) _ hz2_4, harg1.read_unread, harg2.read_unread, harg3.read_unread, harg4.read_unread, harg8.read_unread, harg9.read_unread, View.ld_unit_zero (S := S5000x64) hz2_4, View.ld_unit_zero (S := S5000x1) hz2_4, View.ld_unit_zero (S := S64) hz1_4, View.ld_unit_zero (S := S1x64) hz2_4]

theorem sout4_C_1_eq (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : cond4_1 i)
    (x0 : Vec F S5000x64 .f32) (x1 : Vec F S5000x64 .f32) (x2 : Vec F S5000x1 .f32) (x3 : Vec F S64 .f32) (xs0 : Vec F S1x64 .f32) (xs1 : Vec F S1x64 .f32) :
    sout4_C_1 c i arg1 harg1 arg2 harg2 arg3 harg3 arg4 harg4 arg5 harg5 arg6 harg6 arg7 harg7 arg8 harg8 arg9 harg9 hc0 hc1 x0 x1 x2 x3 xs0 xs1 = k4_pay1 (k4_pay6 x2 x0 x1 x3 xs1) := by
  unfold sout4_C_1
  rw [View.read_writes_eq_canon _ _ _ (scover4_C_1 c i arg1 harg1 arg2 harg2 arg3 harg3 arg4 harg4 arg5 harg5 arg6 harg6 arg7 harg7 arg8 harg8 arg9 harg9 hc0 hc1 x0 x1 x2 x3 xs0 xs1)]
  unfold kernelRun4_C
  dsimp only
  try sl_unfold_words
  first
    | rw [View.canon_unit_zero hz2_4]
    | rw [View.canon_cons_unit_zero (S := S1x64) hz2_4]
  simp only [View.readAt_eq_ld, View.readCov_unit_zero (S := S1x64) _ hz2_4, harg1.read_unread, harg2.read_unread, harg3.read_unread, harg4.read_unread, harg8.read_unread, harg9.read_unread, View.ld_unit_zero (S := S5000x64) hz2_4, View.ld_unit_zero (S := S5000x1) hz2_4, View.ld_unit_zero (S := S64) hz1_4, View.ld_unit_zero (S := S1x64) hz2_4]

theorem out4_C_5_eq (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : cond4_1 i)
    (x0 : Vec F S5000x64 .f32) (x1 : Vec F S5000x64 .f32) (x2 : Vec F S5000x1 .f32) (x3 : Vec F S64 .f32) (xs0 : Vec F S1x64 .f32) (xs1 : Vec F S1x64 .f32) :
    out4_C_5 c i arg1 harg1 arg2 harg2 arg3 harg3 arg4 harg4 arg5 harg5 arg6 harg6 arg7 harg7 arg8 harg8 arg9 harg9 hc0 hc1 x0 x1 x2 x3 xs0 xs1 = k4_pay5 x2 x0 x1 x3 xs0 := by
  unfold out4_C_5
  rw [View.read_writes_eq_canon _ _ _ (cover4_C_5 c i arg1 harg1 arg2 harg2 arg3 harg3 arg4 harg4 arg5 harg5 arg6 harg6 arg7 harg7 arg8 harg8 arg9 harg9 hc0 hc1 x0 x1 x2 x3 xs0 xs1)]
  unfold kernelRun4_C
  dsimp only
  try sl_unfold_words
  first
    | rw [View.canon_unit_zero hz2_4]
    | rw [View.canon_cons_unit_zero (S := S1x64) hz2_4]
  simp only [View.readAt_eq_ld, View.readCov_unit_zero (S := S1x64) _ hz2_4, harg1.read_unread, harg2.read_unread, harg3.read_unread, harg4.read_unread, harg8.read_unread, harg9.read_unread, View.ld_unit_zero (S := S5000x64) hz2_4, View.ld_unit_zero (S := S5000x1) hz2_4, View.ld_unit_zero (S := S64) hz1_4, View.ld_unit_zero (S := S1x64) hz2_4]

theorem out4_C_6_eq (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : cond4_1 i)
    (x0 : Vec F S5000x64 .f32) (x1 : Vec F S5000x64 .f32) (x2 : Vec F S5000x1 .f32) (x3 : Vec F S64 .f32) (xs0 : Vec F S1x64 .f32) (xs1 : Vec F S1x64 .f32) :
    out4_C_6 c i arg1 harg1 arg2 harg2 arg3 harg3 arg4 harg4 arg5 harg5 arg6 harg6 arg7 harg7 arg8 harg8 arg9 harg9 hc0 hc1 x0 x1 x2 x3 xs0 xs1 = k4_pay1 (k4_pay6 x2 x0 x1 x3 xs1) := by
  unfold out4_C_6
  rw [View.read_writes_eq_canon _ _ _ (cover4_C_6 c i arg1 harg1 arg2 harg2 arg3 harg3 arg4 harg4 arg5 harg5 arg6 harg6 arg7 harg7 arg8 harg8 arg9 harg9 hc0 hc1 x0 x1 x2 x3 xs0 xs1)]
  unfold kernelRun4_C
  dsimp only
  try sl_unfold_words
  first
    | rw [View.canon_unit_zero hz2_4]
    | rw [View.canon_cons_unit_zero (S := S1x64) hz2_4]
  simp only [View.readAt_eq_ld, View.readCov_unit_zero (S := S1x64) _ hz2_4, harg1.read_unread, harg2.read_unread, harg3.read_unread, harg4.read_unread, harg8.read_unread, harg9.read_unread, View.ld_unit_zero (S := S5000x64) hz2_4, View.ld_unit_zero (S := S5000x1) hz2_4, View.ld_unit_zero (S := S64) hz1_4, View.ld_unit_zero (S := S1x64) hz2_4]

end Pieces

/-! ## Layout forms read at an index -/

/-- A column `[a, 1]` broadcast to `[a, b]` reads, at `(p, c)`, the column at row `p`. -/
theorem broadcastTo_a1_ab_apply_4 {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index over result index `q` of a reduction of `[5000, 64]` along the rows, with row `k` put back. -/
theorem lift_rows_4 (h : S5000x64.Reduces [0] S64) (q : Fin 64) (k : Fin 5000) : h.lift (ix1 q) k = ix2 k q := by
  funext a
  apply Fin.ext
  match a with
  | ⟨0, _⟩ => rfl
  | ⟨1, _⟩ => rfl

/-! ## The body's arithmetic at an index, over the extended reals -/

/-- The block the body stores into the first output: at row `p`, lane `q`,
    `max (neigh·dinv + xws·dinv + b) 0` of the loaded blocks, in the body's grouping. -/
theorem pay4_apply_4 (x0 x1 : FVec Ideal S5000x64 .f32) (x2 : FVec Ideal S5000x1 .f32) (x3 : FVec Ideal S64 .f32) (p : Fin 5000) (q : Fin 64) :
    k4_pay4 (F := Ideal) x2 x0 x1 x3 (ix2 p q)
      = max (x0 (ix2 p q) * x2 (ix2 p (0 : Fin 1)) + x1 (ix2 p q) * x2 (ix2 p (0 : Fin 1)) + x3 (ix1 q)) (Ideal.ofBits .f32 0x00000000#32) := by
  unfold k4_pay4
  simp only [shapeCast_self]
  show max (x0 (ix2 p q) * broadcastTo S5000x64 x2 _ (ix2 p q) + x1 (ix2 p q) * broadcastTo S5000x64 x2 _ (ix2 p q)
      + broadcastTo S5000x64 (shapeCast S1x64 x3 _) _ (ix2 p q)) _ = _
  rw [broadcastTo_a1_ab_apply_4, broadcastTo_1b_ab_apply, shapeCast_a_1a_apply]
  rfl

/-- The first accumulator after the body: what it held plus the column sums of the stored block. -/
theorem pay5_apply_4 (x0 x1 : FVec Ideal S5000x64 .f32) (x2 : FVec Ideal S5000x1 .f32) (x3 : FVec Ideal S64 .f32) (xs : FVec Ideal S1x64 .f32) (u : Fin 1) (q : Fin 64) :
    k4_pay5 (F := Ideal) x2 x0 x1 x3 xs (ix2 u q)
      = xs (ix2 u q) + ∑ k : Fin 5000, k4_pay4 (F := Ideal) x2 x0 x1 x3 (ix2 k q) := by
  unfold k4_pay5
  simp only [shapeCast_self]
  show xs (ix2 u q) + shapeCast S1x64 (multiReduction .add [0] S64 (k4_pay4 (F := Ideal) x2 x0 x1 x3) 0x00000000#32 _ _ _) _ (ix2 u q) = _
  rw [shapeCast_a_1a_apply]
  refine congrArg (xs (ix2 u q) + ·) ?_
  refine (Ideal.multiReduction_add_single _ _ _ _ _ (ix1 q)).trans ?_
  refine Finset.sum_congr rfl fun k _ => ?_
  exact congrArg (k4_pay4 (F := Ideal) x2 x0 x1 x3) (lift_rows_4 _ q k)

/-- The second accumulator after the body: what it held plus the column sums of the stored block's squares. -/
theorem pay6_apply_4 (x0 x1 : FVec Ideal S5000x64 .f32) (x2 : FVec Ideal S5000x1 .f32) (x3 : FVec Ideal S64 .f32) (xs : FVec Ideal S1x64 .f32) (u : Fin 1) (q : Fin 64) :
    k4_pay1 (F := Ideal) (k4_pay6 (F := Ideal) x2 x0 x1 x3 xs) (ix2 u q)
      = xs (ix2 u q) + ∑ k : Fin 5000, k4_pay4 (F := Ideal) x2 x0 x1 x3 (ix2 k q) * k4_pay4 (F := Ideal) x2 x0 x1 x3 (ix2 k q) := by
  unfold k4_pay1 k4_pay6
  simp only [shapeCast_self]
  show xs (ix2 u q) + shapeCast S1x64 (multiReduction .add [0] S64 (mulf (k4_pay4 (F := Ideal) x2 x0 x1 x3) (k4_pay4 (F := Ideal) x2 x0 x1 x3)) 0x00000000#32 _ _ _) _ (ix2 u q) = _
  rw [shapeCast_a_1a_apply]
  refine congrArg (xs (ix2 u q) + ·) ?_
  refine (Ideal.multiReduction_add_single _ _ _ _ _ (ix1 q)).trans ?_
  refine Finset.sum_congr rfl fun k _ => ?_
  exact congrArg (fun i => k4_pay4 (F := Ideal) x2 x0 x1 x3 i * k4_pay4 (F := Ideal) x2 x0 x1 x3 i) (lift_rows_4 _ q k)

/-- The zero blocks the first point stores into the accumulators are zero. -/
theorem pay2_apply_4 (j : S1x64.Idx) : k4_pay2 (F := Ideal) j = 0 := by
  unfold k4_pay2
  simp only [shapeCast_self]
  exact Ideal.ofBits_zero_f32
theorem pay3_apply_4 (j : S1x64.Idx) : k4_pay3 (F := Ideal) j = 0 := by
  unfold k4_pay3
  simp only [shapeCast_self]
  exact Ideal.ofBits_zero_f32

/-! ## The region's arrays and its stored block as functions of them -/

variable (V : (c : Dev nD) → (b : Ref sig .tc) → Buf (Elt Ideal) ((c : Thread nD τ).loc b))

/-- The region's four input arrays as the region finds them: the neighbour sums, the scaled features, the inverse
    square-root degrees, the bias. -/
abbrev neigh4 (c : Dev nD) : (⟨2, ![100000, 64]⟩ : Shape).Idx → EReal := V c (Pipeline.arrRef spec4 0)
abbrev xws4 (c : Dev nD) : (⟨2, ![100000, 64]⟩ : Shape).Idx → EReal := V c (Pipeline.arrRef spec4 1)
abbrev dinv4 (c : Dev nD) : (⟨2, ![100000, 1]⟩ : Shape).Idx → EReal := V c (Pipeline.arrRef spec4 2)
abbrev bias4 (c : Dev nD) : (⟨1, ![64]⟩ : Shape).Idx → EReal := V c (Pipeline.arrRef spec4 3)
/-- The rectified combine of the four arrays. -/
abbrev R4 (c : Dev nD) : (⟨2, ![100000, 64]⟩ : Shape).Idx → EReal :=
  Cert.Spec.statsRelu (neigh4 V c) (xws4 V c) (dinv4 V c) (bias4 V c)

/-- The printed index maps over the grid: the row-blocked windows sit at block `t`, the others at block 0. -/
theorem idx4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 1) = 0
    ∧ win4_4.index t (0 : Fin 2) = t.val ∧ win4_4.index t (1 : Fin 2) = 0 :=
  (by decide +kernel : ∀ t : Fin grid4.N, _)

/-- Row `p` of block `t` is row `5000 t + p` of the array. -/
def row4 (t : Fin cfg4.N) (p : Fin 5000) : Fin 100000 :=
  ⟨5000 * t.val + p.val, by have := t.isLt; have hN : cfg4.N = 20 := N_4; have := p.isLt; omega⟩

/-- The last grid point. -/
def t4_last : Fin cfg4.N := ⟨19, by rw [show cfg4.N = 20 from N_4]; decide⟩

/-- Each input window's block at point `t` read at its coordinates is the array at the block's rows. -/
theorem iblk4_0_apply (c : Dev nD) (t : Fin cfg4.N) (p : Fin 5000) (q : Fin 64) :
    (iblk4 V c 0 t : FVec Ideal S5000x64 .f32) (ix2 p q) = neigh4 V c (ix2 (row4 t p) q) := by
  obtain ⟨e0, e1, -⟩ := idx4 t
  unfold iblk4
  rw [View.read_apply]
  show V c (Pipeline.arrRef spec4 0) _ = V c (Pipeline.arrRef spec4 0) _
  refine congrArg (V c (Pipeline.arrRef spec4 0)) (funext fun a => Fin.ext ?_)
  match a with
  | ⟨0, _⟩ => show win4_0.index t 0 * 5000 + 1 * p.val = 5000 * t.val + p.val; rw [e0]; omega
  | ⟨1, _⟩ => show win4_0.index t 1 * 64 + 1 * q.val = q.val; rw [e1]; omega

theorem iblk4_1_apply (c : Dev nD) (t : Fin cfg4.N) (p : Fin 5000) (q : Fin 64) :
    (iblk4 V c 1 t : FVec Ideal S5000x64 .f32) (ix2 p q) = xws4 V c (ix2 (row4 t p) q) := by
  obtain ⟨-, -, e0, e1, -⟩ := idx4 t
  unfold iblk4
  rw [View.read_apply]
  show V c (Pipeline.arrRef spec4 1) _ = V c (Pipeline.arrRef spec4 1) _
  refine congrArg (V c (Pipeline.arrRef spec4 1)) (funext fun a => Fin.ext ?_)
  match a with
  | ⟨0, _⟩ => show win4_1.index t 0 * 5000 + 1 * p.val = 5000 * t.val + p.val; rw [e0]; omega
  | ⟨1, _⟩ => show win4_1.index t 1 * 64 + 1 * q.val = q.val; rw [e1]; omega

theorem iblk4_2_apply (c : Dev nD) (t : Fin cfg4.N) (p : Fin 5000) :
    (iblk4 V c 2 t : FVec Ideal S5000x1 .f32) (ix2 p (0 : Fin 1)) = dinv4 V c (ix2 (row4 t p) (0 : Fin 1)) := by
  obtain ⟨-, -, -, -, e0, e1, -⟩ := idx4 t
  unfold iblk4
  rw [View.read_apply]
  show V c (Pipeline.arrRef spec4 2) _ = V c (Pipeline.arrRef spec4 2) _
  refine congrArg (V c (Pipeline.arrRef spec4 2)) (funext fun a => Fin.ext ?_)
  match a with
  | ⟨0, _⟩ => show win4_2.index t 0 * 5000 + 1 * p.val = 5000 * t.val + p.val; rw [e0]; omega
  | ⟨1, _⟩ => show win4_2.index t 1 * 1 + 1 * 0 = 0; rw [e1]

theorem iblk4_3_apply (c : Dev nD) (t : Fin cfg4.N) (q : Fin 64) :
    (iblk4 V c 3 t : FVec Ideal S64 .f32) (ix1 q) = bias4 V c (ix1 q) := by
  obtain ⟨-, -, -, -, -, -, e0, -⟩ := idx4 t
  unfold iblk4
  rw [View.read_apply]
  show V c (Pipeline.arrRef spec4 3) _ = V c (Pipeline.arrRef spec4 3) _
  refine congrArg (V c (Pipeline.arrRef spec4 3)) (funext fun a => Fin.ext ?_)
  match a with
  | ⟨0, _⟩ => show win4_3.index t 0 * 64 + 1 * q.val = q.val; rw [e0]; omega

/-- The block the body stores at point `t` is the rectified combine at the block's rows. -/
theorem blk4_eq (c : Dev nD) (t : Fin cfg4.N) (p : Fin 5000) (q : Fin 64) :
    k4_pay4 (F := Ideal) (iblk4 V c 2 t) (iblk4 V c 0 t) (iblk4 V c 1 t) (iblk4 V c 3 t) (ix2 p q) = R4 V c (ix2 (row4 t p) q) := by
  refine (pay4_apply_4 (iblk4 V c 0 t) (iblk4 V c 1 t) (iblk4 V c 2 t) (iblk4 V c 3 t) p q).trans ?_
  rw [iblk4_0_apply V c t p q, iblk4_1_apply V c t p q, iblk4_2_apply V c t p, iblk4_3_apply V c t q]
  rfl

/-! ## The first output: one block per point -/

set_option maxHeartbeats 2000000 in
/-- At every point the first output's staging buffer is left at the stored block. -/
theorem outs4_fst (c : Dev nD) (t : Fin cfg4.N) :
    (outsAt4 V c t.val t.isLt).1 = k4_pay4 (F := Ideal) (iblk4 V c 2 t) (iblk4 V c 0 t) (iblk4 V c 1 t) (iblk4 V c 3 t) := by
  have hN : t.val < 20 := lt_of_lt_of_eq t.isLt (show cfg4.N = 20 from N_4)
  by_cases h0 : t.val % 20 = 0
  · have h1 : ¬t.val % 20 = 19 := by omega
    rw [outsAt4_A V c t h0 h1]
    dsimp only
    exact out4_A_4_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t)
  · by_cases h1 : t.val % 20 = 19
    · rw [outsAt4_C V c t h0 h1]
      dsimp only
      exact out4_C_4_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2
    · rw [outsAt4_B V c t h0 h1]
      dsimp only
      exact out4_B_4_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2

/-- What point `t` writes back is block `t` of the rectified combine of the arrays. -/
theorem flushed4_4_eq (c : Dev nD) (t : Fin cfg4.N) :
    (dat4 V c).flushed 4 t = ((cfg4.win 4).blk t).view.read (Elt Ideal) (R4 V c) := by
  show (cfg4.win 4).cut (grid4.coords t) ((dat4 V c).after 4 t) = _
  rw [after4_4, outs4_fst]
  obtain ⟨-, -, -, -, -, -, -, e0, e1⟩ := idx4 t
  funext j
  obtain ⟨p, q, rfl⟩ : ∃ (p : Fin 5000) (q : Fin 64), j = ix2 p q := ⟨j 0, j 1, eq_ix2 (n0 := 5000) (n1 := 64) j⟩
  rw [View.read_apply]
  show k4_pay4 (F := Ideal) (iblk4 V c 2 t) (iblk4 V c 0 t) (iblk4 V c 1 t) (iblk4 V c 3 t) (ix2 p q) = R4 V c (((cfg4.win 4).blk t).view.emb (ix2 p q))
  rw [blk4_eq V c t p q]
  refine congrArg (R4 V c) (funext fun a => Fin.ext ?_)
  match a with
  | ⟨0, _⟩ => show 5000 * t.val + p.val = win4_4.index t 0 * 5000 + 1 * p.val; rw [e0]; omega
  | ⟨1, _⟩ => show q.val = win4_4.index t 1 * 64 + 1 * q.val; rw [e1]; omega

/-- An index of the array is in point `t`'s block iff each coordinate is in the block's range on its axis. -/
theorem mem_blk4_4 (t : Fin cfg4.N) (i : (⟨2, ![100000, 64]⟩ : Shape).Idx) :
    i ∈ ((cfg4.win 4).blk t).view.set ↔ ∀ a : Fin 2, win4_4.index t a * S5000x64.size a ≤ (i a).val ∧ (i a).val < win4_4.index t a * S5000x64.size a + S5000x64.size a := by
  show i ∈ ((View.whole (Pipeline.arrRef spec4 4)).slice (win4_4.rect t)).set ↔ _
  rw [View.set_slice_whole, Rect.mem_set_unit]
  exact Iff.rfl

/-- So the first output's array ends holding the rectified combine: row `r` is covered by point `r / 5000`. -/
theorem final4_4 (c : Dev nD) :
    (dat4 (F := Ideal) V c).arrAt 4 cfg4.N = Cert.Spec.statsRelu (V c (Pipeline.arrRef spec4 0)) (V c (Pipeline.arrRef spec4 1)) (V c (Pipeline.arrRef spec4 2)) (V c (Pipeline.arrRef spec4 3)) :=
  (dat4 V c).arrAt_eq_of_cover 4 (R4 V c) (fun t _ => flushed4_4_eq V c t) fun i => by
    have hi0 : (i 0).val < 100000 := (i 0).isLt
    have hi1 : (i 1).val < 64 := (i 1).isLt
    have hN : cfg4.N = 20 := N_4
    obtain ⟨-, -, -, -, -, -, -, e0, e1⟩ := idx4 (⟨(i 0).val / 5000, by omega⟩ : Fin cfg4.N)
    refine ⟨⟨(i 0).val / 5000, by omega⟩, flush4_4 _, ?_⟩
    rw [mem_blk4_4]
    intro a
    match a with
    | ⟨0, _⟩ => show win4_4.index _ 0 * 5000 ≤ (i 0).val ∧ (i 0).val < win4_4.index _ 0 * 5000 + 5000
                rw [e0]; show (i 0).val / 5000 * 5000 ≤ (i 0).val ∧ (i 0).val < (i 0).val / 5000 * 5000 + 5000; omega
    | ⟨1, _⟩ => show win4_4.index _ 1 * 64 ≤ (i 1).val ∧ (i 1).val < win4_4.index _ 1 * 64 + 64
                rw [e1]; omega

/-! ## The two accumulators, by induction on the grid point -/

/-- Point `t'`'s contribution to lane `q` of the first accumulator: the column sum of the point's block. -/
def S4 (c : Dev nD) (t' : ℕ) (q : Fin 64) : EReal :=
  if h : t' < cfg4.N then ∑ k : Fin 5000, R4 V c (ix2 (row4 ⟨t', h⟩ k) q) else 0
/-- and of the second: the column sum of the squares. -/
def Q4 (c : Dev nD) (t' : ℕ) (q : Fin 64) : EReal :=
  if h : t' < cfg4.N then ∑ k : Fin 5000, R4 V c (ix2 (row4 ⟨t', h⟩ k) q) * R4 V c (ix2 (row4 ⟨t', h⟩ k) q) else 0

set_option maxHeartbeats 2000000 in
/-- At the first point accumulator 0 is zeroed and then holds the point's block sums. -/
theorem acc4_0_base (c : Dev nD) (t : Fin cfg4.N) (h0 : t.val % 20 = 0) (u : Fin 1) (q : Fin 64) :
    (outsAt4 V c t.val t.isLt).2.2.2.1 (ix2 u q) = S4 V c t.val q := by
  have hN : t.val < 20 := lt_of_lt_of_eq t.isLt (show cfg4.N = 20 from N_4)
  have h1 : ¬t.val % 20 = 19 := by omega
  have hS : S4 V c t.val q = ∑ k : Fin 5000, k4_pay4 (F := Ideal) (iblk4 V c 2 t) (iblk4 V c 0 t) (iblk4 V c 1 t) (iblk4 V c 3 t) (ix2 k q) := by
    unfold S4; rw [dif_pos t.isLt]
    exact Finset.sum_congr rfl fun k _ => by rw [blk4_eq V c t k q]
  rw [hS, outsAt4_A V c t h0 h1]
  dsimp only
  refine (congrFun (sout4_A_0_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t)) (ix2 u q)).trans ?_
  refine (pay5_apply_4 (iblk4 V c 0 t) (iblk4 V c 1 t) (iblk4 V c 2 t) (iblk4 V c 3 t) (k4_pay2 (F := Ideal)) u q).trans ?_
  rw [pay2_apply_4, zero_add]

set_option maxHeartbeats 2000000 in
/-- At a later point accumulator 0 holds what the point before left plus the point's block sums. -/
theorem acc4_0_step (c : Dev nD) (t : Fin cfg4.N) (h0 : ¬t.val % 20 = 0) (u : Fin 1) (q : Fin 64) :
    (outsAt4 V c t.val t.isLt).2.2.2.1 (ix2 u q)
      = (outsAt4 V c (t.val - 1) (Nat.lt_of_le_of_lt (Nat.sub_le _ _) t.isLt)).2.2.2.1 (ix2 u q) + S4 V c t.val q := by
  have hS : S4 V c t.val q = ∑ k : Fin 5000, k4_pay4 (F := Ideal) (iblk4 V c 2 t) (iblk4 V c 0 t) (iblk4 V c 1 t) (iblk4 V c 3 t) (ix2 k q) := by
    unfold S4; rw [dif_pos t.isLt]
    exact Finset.sum_congr rfl fun k _ => by rw [blk4_eq V c t k q]
  rw [hS]
  by_cases h1 : t.val % 20 = 19
  · rw [outsAt4_C V c t h0 h1]
    dsimp only
    refine (congrFun (sout4_C_0_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2) (ix2 u q)).trans ?_
    exact pay5_apply_4 (iblk4 V c 0 t) (iblk4 V c 1 t) (iblk4 V c 2 t) (iblk4 V c 3 t) ((outsAt4 V c (t.val - 1) (Nat.lt_of_le_of_lt (Nat.sub_le _ _) t.isLt)).2.2.2.1) u q
  · rw [outsAt4_B V c t h0 h1]
    dsimp only
    refine (congrFun (sout4_B_0_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2) (ix2 u q)).trans ?_
    exact pay5_apply_4 (iblk4 V c 0 t) (iblk4 V c 1 t) (iblk4 V c 2 t) (iblk4 V c 3 t) ((outsAt4 V c (t.val - 1) (Nat.lt_of_le_of_lt (Nat.sub_le _ _) t.isLt)).2.2.2.1) u q

/-- Accumulator 0 after point `n`, lane `q`: the sum over the points so far of the point's block sums. -/
theorem acc4_0 (c : Dev nD) : ∀ (n : ℕ) (hn : n < cfg4.N) (u : Fin 1) (q : Fin 64),
    (outsAt4 V c n hn).2.2.2.1 (ix2 u q) = ∑ t' ∈ Finset.range (n + 1), S4 V c t' q
  | 0, hn, u, q => by
    rw [Finset.sum_range_one]
    exact acc4_0_base V c ⟨0, hn⟩ rfl u q
  | n + 1, hn, u, q => by
    have hN : cfg4.N = 20 := N_4
    rw [Finset.sum_range_succ _ (n + 1), ← acc4_0 c n (Nat.lt_of_succ_lt hn) u q]
    exact acc4_0_step V c ⟨n + 1, hn⟩ (by dsimp only; omega) u q

set_option maxHeartbeats 2000000 in
/-- At the first point accumulator 1 is zeroed and then holds the point's block sums. -/
theorem acc4_1_base (c : Dev nD) (t : Fin cfg4.N) (h0 : t.val % 20 = 0) (u : Fin 1) (q : Fin 64) :
    (outsAt4 V c t.val t.isLt).2.2.2.2 (ix2 u q) = Q4 V c t.val q := by
  have hN : t.val < 20 := lt_of_lt_of_eq t.isLt (show cfg4.N = 20 from N_4)
  have h1 : ¬t.val % 20 = 19 := by omega
  have hS : Q4 V c t.val q = ∑ k : Fin 5000, k4_pay4 (F := Ideal) (iblk4 V c 2 t) (iblk4 V c 0 t) (iblk4 V c 1 t) (iblk4 V c 3 t) (ix2 k q) * k4_pay4 (F := Ideal) (iblk4 V c 2 t) (iblk4 V c 0 t) (iblk4 V c 1 t) (iblk4 V c 3 t) (ix2 k q) := by
    unfold Q4; rw [dif_pos t.isLt]
    exact Finset.sum_congr rfl fun k _ => by rw [blk4_eq V c t k q]
  rw [hS, outsAt4_A V c t h0 h1]
  dsimp only
  refine (congrFun (sout4_A_1_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t)) (ix2 u q)).trans ?_
  refine (pay6_apply_4 (iblk4 V c 0 t) (iblk4 V c 1 t) (iblk4 V c 2 t) (iblk4 V c 3 t) (k4_pay3 (F := Ideal)) u q).trans ?_
  rw [pay3_apply_4, zero_add]

set_option maxHeartbeats 2000000 in
/-- At a later point accumulator 1 holds what the point before left plus the point's block sums. -/
theorem acc4_1_step (c : Dev nD) (t : Fin cfg4.N) (h0 : ¬t.val % 20 = 0) (u : Fin 1) (q : Fin 64) :
    (outsAt4 V c t.val t.isLt).2.2.2.2 (ix2 u q)
      = (outsAt4 V c (t.val - 1) (Nat.lt_of_le_of_lt (Nat.sub_le _ _) t.isLt)).2.2.2.2 (ix2 u q) + Q4 V c t.val q := by
  have hS : Q4 V c t.val q = ∑ k : Fin 5000, k4_pay4 (F := Ideal) (iblk4 V c 2 t) (iblk4 V c 0 t) (iblk4 V c 1 t) (iblk4 V c 3 t) (ix2 k q) * k4_pay4 (F := Ideal) (iblk4 V c 2 t) (iblk4 V c 0 t) (iblk4 V c 1 t) (iblk4 V c 3 t) (ix2 k q) := by
    unfold Q4; rw [dif_pos t.isLt]
    exact Finset.sum_congr rfl fun k _ => by rw [blk4_eq V c t k q]
  rw [hS]
  by_cases h1 : t.val % 20 = 19
  · rw [outsAt4_C V c t h0 h1]
    dsimp only
    refine (congrFun (sout4_C_1_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2) (ix2 u q)).trans ?_
    exact pay6_apply_4 (iblk4 V c 0 t) (iblk4 V c 1 t) (iblk4 V c 2 t) (iblk4 V c 3 t) ((outsAt4 V c (t.val - 1) (Nat.lt_of_le_of_lt (Nat.sub_le _ _) t.isLt)).2.2.2.2) u q
  · rw [outsAt4_B V c t h0 h1]
    dsimp only
    refine (congrFun (sout4_B_1_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2) (ix2 u q)).trans ?_
    exact pay6_apply_4 (iblk4 V c 0 t) (iblk4 V c 1 t) (iblk4 V c 2 t) (iblk4 V c 3 t) ((outsAt4 V c (t.val - 1) (Nat.lt_of_le_of_lt (Nat.sub_le _ _) t.isLt)).2.2.2.2) u q

/-- Accumulator 1 after point `n`, lane `q`: the sum over the points so far of the point's block sums. -/
theorem acc4_1 (c : Dev nD) : ∀ (n : ℕ) (hn : n < cfg4.N) (u : Fin 1) (q : Fin 64),
    (outsAt4 V c n hn).2.2.2.2 (ix2 u q) = ∑ t' ∈ Finset.range (n + 1), Q4 V c t' q
  | 0, hn, u, q => by
    rw [Finset.sum_range_one]
    exact acc4_1_base V c ⟨0, hn⟩ rfl u q
  | n + 1, hn, u, q => by
    have hN : cfg4.N = 20 := N_4
    rw [Finset.sum_range_succ _ (n + 1), ← acc4_1 c n (Nat.lt_of_succ_lt hn) u q]
    exact acc4_1_step V c ⟨n + 1, hn⟩ (by dsimp only; omega) u q

/-- The 20 points' block sums are the sum over all 100000 rows. -/
theorem regroupS4 (c : Dev nD) (q : Fin 64) : ∑ t' ∈ Finset.range (19 + 1), S4 V c t' q = Cert.Spec.colSum (R4 V c) (ix2 (0 : Fin 1) q) := by
  have hN : cfg4.N = 20 := N_4
  rw [← Fin.sum_univ_eq_sum_range (fun t' => S4 V c t' q) 20]
  refine Eq.trans (Finset.sum_congr rfl fun t _ => ?_) (Cert.Spec.sum_blocks (fun r => R4 V c (ix2 r q)))
  unfold S4; rw [dif_pos (by rw [hN]; exact t.isLt)]; rfl
theorem regroupQ4 (c : Dev nD) (q : Fin 64) : ∑ t' ∈ Finset.range (19 + 1), Q4 V c t' q = Cert.Spec.colSumSq (R4 V c) (ix2 (0 : Fin 1) q) := by
  have hN : cfg4.N = 20 := N_4
  rw [← Fin.sum_univ_eq_sum_range (fun t' => Q4 V c t' q) 20]
  refine Eq.trans (Finset.sum_congr rfl fun t _ => ?_) (Cert.Spec.sum_blocks (fun r => R4 V c (ix2 r q) * R4 V c (ix2 r q)))
  unfold Q4; rw [dif_pos (by rw [hN]; exact t.isLt)]; rfl

/-! ## The two statistics outputs: written once, after the last point -/

/-- At the last point output 5 is stored from accumulator 0: the same contents. -/
theorem outs4_5_last (c : Dev nD) (t : Fin cfg4.N) (h0 : ¬t.val % 20 = 0) (h1 : t.val % 20 = 19) :
    (outsAt4 V c t.val t.isLt).2.1 = (outsAt4 V c t.val t.isLt).2.2.2.1 := by
  rw [outsAt4_C V c t h0 h1]
  dsimp only
  exact (out4_C_5_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2).trans (sout4_C_0_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2).symm

/-- So after the last point output 5's staging buffer holds the column sums over all 100000 rows. -/
theorem after4_5_last (c : Dev nD) (t : Fin cfg4.N) (h19 : t.val = 19) :
    (outsAt4 V c t.val t.isLt).2.1 = Cert.Spec.colSum (R4 V c) := by
  rw [outs4_5_last V c t (by omega) (by omega)]
  funext j
  obtain ⟨u, q, rfl⟩ : ∃ (u : Fin 1) (q : Fin 64), j = ix2 u q := ⟨j 0, j 1, eq_ix2 (n0 := 1) (n1 := 64) j⟩
  rw [acc4_0 V c t.val t.isLt u q, h19]
  exact regroupS4 V c q

/-- The one write-back of output 5, at the last point, writes that: the block is the whole `[1, 64]` array. -/
theorem flushed4_5_eq (c : Dev nD) (t : Fin cfg4.N) (hf : (cfg4.win 5).flush t = true) :
    (dat4 V c).flushed 5 t = ((cfg4.win 5).blk t).view.read (Elt Ideal) (Cert.Spec.colSum (R4 V c)) := by
  have hN : cfg4.N = 20 := N_4
  have h19 : t.val = 19 := by have := (flush4_5 t).mp hf; have := t.isLt; omega
  show (cfg4.win 5).cut (grid4.coords t) ((dat4 V c).after 5 t) = _
  rw [after4_5, after4_5_last V c t h19]
  obtain rfl : t = t4_last := Fin.ext h19
  have hz' : (fun a => win4_5.index t4_last a * (Pipeline.arrRef spec4 5).ty.shape.size a) = fun _ => 0 := funext fun a => by fin_cases a <;> decide +kernel
  exact (Memref.read_access_unit_zero (Elt Ideal) (Pipeline.arrRef spec4 5) hz' (fun a => by rw [congrFun hz' a]; simp) (Cert.Spec.colSum (R4 V c))).symm

/-- So output 5's array ends holding the column sums of the rectified combine. -/
theorem final4_5 (c : Dev nD) :
    (dat4 (F := Ideal) V c).arrAt 5 cfg4.N = Cert.Spec.colSum (Cert.Spec.statsRelu (V c (Pipeline.arrRef spec4 0)) (V c (Pipeline.arrRef spec4 1)) (V c (Pipeline.arrRef spec4 2)) (V c (Pipeline.arrRef spec4 3))) :=
  (dat4 V c).arrAt_eq_of_cover 5 (Cert.Spec.colSum (R4 V c)) (flushed4_5_eq V c) fun i =>
    ⟨t4_last, (flush4_5 t4_last).mpr rfl, by
      show i ∈ ((View.whole (Pipeline.arrRef spec4 5)).slice (win4_5.rect t4_last)).set
      rw [View.set_slice_whole, Rect.mem_set_unit]
      intro a
      have h0 : (i 0 : Nat) < 1 := (i 0).isLt
      have h1 : (i 1 : Nat) < 64 := (i 1).isLt
      match a with
      | ⟨0, _⟩ => show win4_5.index t4_last 0 * win4_5.size 0 ≤ (i 0 : Nat) ∧ (i 0 : Nat) < win4_5.index t4_last 0 * win4_5.size 0 + win4_5.xsize (grid4.coords t4_last) 0
                  rw [show win4_5.index t4_last 0 * win4_5.size 0 = 0 from by decide +kernel, show win4_5.xsize (grid4.coords t4_last) 0 = 1 from by decide +kernel]; omega
      | ⟨1, _⟩ => show win4_5.index t4_last 1 * win4_5.size 1 ≤ (i 1 : Nat) ∧ (i 1 : Nat) < win4_5.index t4_last 1 * win4_5.size 1 + win4_5.xsize (grid4.coords t4_last) 1
                  rw [show win4_5.index t4_last 1 * win4_5.size 1 = 0 from by decide +kernel, show win4_5.xsize (grid4.coords t4_last) 1 = 64 from by decide +kernel]; omega⟩

/-- At the last point output 6 is stored from accumulator 1: the same contents. -/
theorem outs4_6_last (c : Dev nD) (t : Fin cfg4.N) (h0 : ¬t.val % 20 = 0) (h1 : t.val % 20 = 19) :
    (outsAt4 V c t.val t.isLt).2.2.1 = (outsAt4 V c t.val t.isLt).2.2.2.2 := by
  rw [outsAt4_C V c t h0 h1]
  dsimp only
  exact (out4_C_6_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2).trans (sout4_C_1_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2).symm

/-- So after the last point output 6's staging buffer holds the column sums of squares over all 100000 rows. -/
theorem after4_6_last (c : Dev nD) (t : Fin cfg4.N) (h19 : t.val = 19) :
    (outsAt4 V c t.val t.isLt).2.2.1 = Cert.Spec.colSumSq (R4 V c) := by
  rw [outs4_6_last V c t (by omega) (by omega)]
  funext j
  obtain ⟨u, q, rfl⟩ : ∃ (u : Fin 1) (q : Fin 64), j = ix2 u q := ⟨j 0, j 1, eq_ix2 (n0 := 1) (n1 := 64) j⟩
  rw [acc4_1 V c t.val t.isLt u q, h19]
  exact regroupQ4 V c q

/-- The one write-back of output 6, at the last point, writes that: the block is the whole `[1, 64]` array. -/
theorem flushed4_6_eq (c : Dev nD) (t : Fin cfg4.N) (hf : (cfg4.win 6).flush t = true) :
    (dat4 V c).flushed 6 t = ((cfg4.win 6).blk t).view.read (Elt Ideal) (Cert.Spec.colSumSq (R4 V c)) := by
  have hN : cfg4.N = 20 := N_4
  have h19 : t.val = 19 := by have := (flush4_6 t).mp hf; have := t.isLt; omega
  show (cfg4.win 6).cut (grid4.coords t) ((dat4 V c).after 6 t) = _
  rw [after4_6, after4_6_last V c t h19]
  obtain rfl : t = t4_last := Fin.ext h19
  have hz' : (fun a => win4_6.index t4_last a * (Pipeline.arrRef spec4 6).ty.shape.size a) = fun _ => 0 := funext fun a => by fin_cases a <;> decide +kernel
  exact (Memref.read_access_unit_zero (Elt Ideal) (Pipeline.arrRef spec4 6) hz' (fun a => by rw [congrFun hz' a]; simp) (Cert.Spec.colSumSq (R4 V c))).symm

/-- So output 6's array ends holding the column sums of squares of the rectified combine. -/
theorem final4_6 (c : Dev nD) :
    (dat4 (F := Ideal) V c).arrAt 6 cfg4.N = Cert.Spec.colSumSq (Cert.Spec.statsRelu (V c (Pipeline.arrRef spec4 0)) (V c (Pipeline.arrRef spec4 1)) (V c (Pipeline.arrRef spec4 2)) (V c (Pipeline.arrRef spec4 3))) :=
  (dat4 V c).arrAt_eq_of_cover 6 (Cert.Spec.colSumSq (R4 V c)) (flushed4_6_eq V c) fun i =>
    ⟨t4_last, (flush4_6 t4_last).mpr rfl, by
      show i ∈ ((View.whole (Pipeline.arrRef spec4 6)).slice (win4_6.rect t4_last)).set
      rw [View.set_slice_whole, Rect.mem_set_unit]
      intro a
      have h0 : (i 0 : Nat) < 1 := (i 0).isLt
      have h1 : (i 1 : Nat) < 64 := (i 1).isLt
      match a with
      | ⟨0, _⟩ => show win4_6.index t4_last 0 * win4_6.size 0 ≤ (i 0 : Nat) ∧ (i 0 : Nat) < win4_6.index t4_last 0 * win4_6.size 0 + win4_6.xsize (grid4.coords t4_last) 0
                  rw [show win4_6.index t4_last 0 * win4_6.size 0 = 0 from by decide +kernel, show win4_6.xsize (grid4.coords t4_last) 0 = 1 from by decide +kernel]; omega
      | ⟨1, _⟩ => show win4_6.index t4_last 1 * win4_6.size 1 ≤ (i 1 : Nat) ∧ (i 1 : Nat) < win4_6.index t4_last 1 * win4_6.size 1 + win4_6.xsize (grid4.coords t4_last) 1
                  rw [show win4_6.index t4_last 1 * win4_6.size 1 = 0 from by decide +kernel, show win4_6.xsize (grid4.coords t4_last) 1 = 64 from by decide +kernel]; omega⟩

end Cert.KernelIdeal.Val

end
-- ==== Proof.KI.V7.lean ====
import proofs.«173191_j73083163508880_2_alg».proof.Proof.KI.R7
import proofs.«173191_j73083163508880_2_alg».proof.Proof.SpecC
import proofs.«173191_j73083163508880_2_alg».proof.Proof.SpecBN
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen Cert.KernelIdeal.Fr
open Idealize.ShloMosaic.ValueIdx

/-! # Region 7: what its three output arrays hold after the grid, as functions of its input arrays

The first output is the rectified combine of the four input arrays, block by block; the two accumulators hold, after
point `n`, the column sums (of the entries, of their squares) over the rows of blocks `0 … n`, so the two statistics
outputs, stored from them at the last point, hold the column sums over all 100000 rows. -/

section Pieces
variable {F : FTy → Type} [FloatOps F]

theorem hz2_7 : (![0, 0] : Fin 2 → Nat) = fun _ => 0 := funext fun a => by fin_cases a <;> rfl
theorem hz1_7 : (![0] : Fin 1 → Nat) = fun _ => 0 := funext fun a => by fin_cases a; rfl

/-! ## What each control case leaves, as the body's arithmetic of the loaded blocks -/

theorem out7_A_4_eq (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond7_0 i) (hc1 : ¬cond7_1 i)
    (x0 : Vec F S5000x64 .f32) (x1 : Vec F S5000x64 .f32) (x2 : Vec F S5000x1 .f32) (x3 : Vec F S64 .f32) :
    out7_A_4 c i arg1 harg1 arg2 harg2 arg3 harg3 arg4 harg4 arg5 harg5 arg6 harg6 arg7 harg7 arg8 harg8 arg9 harg9 hc0 hc1 x0 x1 x2 x3 = k7_pay4 x2 x0 x1 x3 := by
  unfold out7_A_4
  rw [View.read_writes_eq_canon _ _ _ (cover7_A_4 c i arg1 harg1 arg2 harg2 arg3 harg3 arg4 harg4 arg5 harg5 arg6 harg6 arg7 harg7 arg8 harg8 arg9 harg9 hc0 hc1 x0 x1 x2 x3)]
  unfold kernelRun7_A
  dsimp only
  try sl_unfold_words
  first
    | rw [View.canon_unit_zero hz2_7]
    | rw [View.canon_cons_unit_zero (S := S1x64) hz2_7]
  simp only [View.readAt_eq_ld, View.readCov_unit_zero (S := S1x64) _ hz2_7, harg1.read_unread, harg2.read_unread, harg3.read_unread, harg4.read_unread, harg8.read_unread, harg9.read_unread, View.ld_unit_zero (S := S5000x64) hz2_7, View.ld_unit_zero (S := S5000x1) hz2_7, View.ld_unit_zero (S := S64) hz1_7, View.ld_unit_zero (S := S1x64) hz2_7]

theorem sout7_A_0_eq (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond7_0 i) (hc1 : ¬cond7_1 i)
    (x0 : Vec F S5000x64 .f32) (x1 : Vec F S5000x64 .f32) (x2 : Vec F S5000x1 .f32) (x3 : Vec F S64 .f32) :
    sout7_A_0 c i arg1 harg1 arg2 harg2 arg3 harg3 arg4 harg4 arg5 harg5 arg6 harg6 arg7 harg7 arg8 harg8 arg9 harg9 hc0 hc1 x0 x1 x2 x3 = k7_pay5 x2 x0 x1 x3 (k7_pay2 (F := F)) := by
  unfold sout7_A_0
  rw [View.read_writes_eq_canon _ _ _ (scover7_A_0 c i arg1 harg1 arg2 harg2 arg3 harg3 arg4 harg4 arg5 harg5 arg6 harg6 arg7 harg7 arg8 harg8 arg9 harg9 hc0 hc1 x0 x1 x2 x3)]
  unfold kernelRun7_A
  dsimp only
  try sl_unfold_words
  first
    | rw [View.canon_unit_zero hz2_7]
    | rw [View.canon_cons_unit_zero (S := S1x64) hz2_7]
  simp only [View.readAt_eq_ld, View.readCov_unit_zero (S := S1x64) _ hz2_7, harg1.read_unread, harg2.read_unread, harg3.read_unread, harg4.read_unread, harg8.read_unread, harg9.read_unread, View.ld_unit_zero (S := S5000x64) hz2_7, View.ld_unit_zero (S := S5000x1) hz2_7, View.ld_unit_zero (S := S64) hz1_7, View.ld_unit_zero (S := S1x64) hz2_7]

theorem sout7_A_1_eq (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond7_0 i) (hc1 : ¬cond7_1 i)
    (x0 : Vec F S5000x64 .f32) (x1 : Vec F S5000x64 .f32) (x2 : Vec F S5000x1 .f32) (x3 : Vec F S64 .f32) :
    sout7_A_1 c i arg1 harg1 arg2 harg2 arg3 harg3 arg4 harg4 arg5 harg5 arg6 harg6 arg7 harg7 arg8 harg8 arg9 harg9 hc0 hc1 x0 x1 x2 x3 = k7_pay1 (k7_pay6 x2 x0 x1 x3 (k7_pay3 (F := F))) := by
  unfold sout7_A_1
  rw [View.read_writes_eq_canon _ _ _ (scover7_A_1 c i arg1 harg1 arg2 harg2 arg3 harg3 arg4 harg4 arg5 harg5 arg6 harg6 arg7 harg7 arg8 harg8 arg9 harg9 hc0 hc1 x0 x1 x2 x3)]
  unfold kernelRun7_A
  dsimp only
  try sl_unfold_words
  first
    | rw [View.canon_unit_zero hz2_7]
    | rw [View.canon_cons_unit_zero (S := S1x64) hz2_7]
  simp only [View.readAt_eq_ld, View.readCov_unit_zero (S := S1x64) _ hz2_7, harg1.read_unread, harg2.read_unread, harg3.read_unread, harg4.read_unread, harg8.read_unread, harg9.read_unread, View.ld_unit_zero (S := S5000x64) hz2_7, View.ld_unit_zero (S := S5000x1) hz2_7, View.ld_unit_zero (S := S64) hz1_7, View.ld_unit_zero (S := S1x64) hz2_7]

theorem out7_B_4_eq (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond7_0 i) (hc1 : ¬cond7_1 i)
    (x0 : Vec F S5000x64 .f32) (x1 : Vec F S5000x64 .f32) (x2 : Vec F S5000x1 .f32) (x3 : Vec F S64 .f32) (xs0 : Vec F S1x64 .f32) (xs1 : Vec F S1x64 .f32) :
    out7_B_4 c i arg1 harg1 arg2 harg2 arg3 harg3 arg4 harg4 arg5 harg5 arg6 harg6 arg7 harg7 arg8 harg8 arg9 harg9 hc0 hc1 x0 x1 x2 x3 xs0 xs1 = k7_pay4 x2 x0 x1 x3 := by
  unfold out7_B_4
  rw [View.read_writes_eq_canon _ _ _ (cover7_B_4 c i arg1 harg1 arg2 harg2 arg3 harg3 arg4 harg4 arg5 harg5 arg6 harg6 arg7 harg7 arg8 harg8 arg9 harg9 hc0 hc1 x0 x1 x2 x3 xs0 xs1)]
  unfold kernelRun7_B
  dsimp only
  try sl_unfold_words
  first
    | rw [View.canon_unit_zero hz2_7]
    | rw [View.canon_cons_unit_zero (S := S1x64) hz2_7]
  simp only [View.readAt_eq_ld, View.readCov_unit_zero (S := S1x64) _ hz2_7, harg1.read_unread, harg2.read_unread, harg3.read_unread, harg4.read_unread, harg8.read_unread, harg9.read_unread, View.ld_unit_zero (S := S5000x64) hz2_7, View.ld_unit_zero (S := S5000x1) hz2_7, View.ld_unit_zero (S := S64) hz1_7, View.ld_unit_zero (S := S1x64) hz2_7]

theorem sout7_B_0_eq (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond7_0 i) (hc1 : ¬cond7_1 i)
    (x0 : Vec F S5000x64 .f32) (x1 : Vec F S5000x64 .f32) (x2 : Vec F S5000x1 .f32) (x3 : Vec F S64 .f32) (xs0 : Vec F S1x64 .f32) (xs1 : Vec F S1x64 .f32) :
    sout7_B_0 c i arg1 harg1 arg2 harg2 arg3 harg3 arg4 harg4 arg5 harg5 arg6 harg6 arg7 harg7 arg8 harg8 arg9 harg9 hc0 hc1 x0 x1 x2 x3 xs0 xs1 = k7_pay5 x2 x0 x1 x3 xs0 := by
  unfold sout7_B_0
  rw [View.read_writes_eq_canon _ _ _ (scover7_B_0 c i arg1 harg1 arg2 harg2 arg3 harg3 arg4 harg4 arg5 harg5 arg6 harg6 arg7 harg7 arg8 harg8 arg9 harg9 hc0 hc1 x0 x1 x2 x3 xs0 xs1)]
  unfold kernelRun7_B
  dsimp only
  try sl_unfold_words
  first
    | rw [View.canon_unit_zero hz2_7]
    | rw [View.canon_cons_unit_zero (S := S1x64) hz2_7]
  simp only [View.readAt_eq_ld, View.readCov_unit_zero (S := S1x64) _ hz2_7, harg1.read_unread, harg2.read_unread, harg3.read_unread, harg4.read_unread, harg8.read_unread, harg9.read_unread, View.ld_unit_zero (S := S5000x64) hz2_7, View.ld_unit_zero (S := S5000x1) hz2_7, View.ld_unit_zero (S := S64) hz1_7, View.ld_unit_zero (S := S1x64) hz2_7]

theorem sout7_B_1_eq (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond7_0 i) (hc1 : ¬cond7_1 i)
    (x0 : Vec F S5000x64 .f32) (x1 : Vec F S5000x64 .f32) (x2 : Vec F S5000x1 .f32) (x3 : Vec F S64 .f32) (xs0 : Vec F S1x64 .f32) (xs1 : Vec F S1x64 .f32) :
    sout7_B_1 c i arg1 harg1 arg2 harg2 arg3 harg3 arg4 harg4 arg5 harg5 arg6 harg6 arg7 harg7 arg8 harg8 arg9 harg9 hc0 hc1 x0 x1 x2 x3 xs0 xs1 = k7_pay1 (k7_pay6 x2 x0 x1 x3 xs1) := by
  unfold sout7_B_1
  rw [View.read_writes_eq_canon _ _ _ (scover7_B_1 c i arg1 harg1 arg2 harg2 arg3 harg3 arg4 harg4 arg5 harg5 arg6 harg6 arg7 harg7 arg8 harg8 arg9 harg9 hc0 hc1 x0 x1 x2 x3 xs0 xs1)]
  unfold kernelRun7_B
  dsimp only
  try sl_unfold_words
  first
    | rw [View.canon_unit_zero hz2_7]
    | rw [View.canon_cons_unit_zero (S := S1x64) hz2_7]
  simp only [View.readAt_eq_ld, View.readCov_unit_zero (S := S1x64) _ hz2_7, harg1.read_unread, harg2.read_unread, harg3.read_unread, harg4.read_unread, harg8.read_unread, harg9.read_unread, View.ld_unit_zero (S := S5000x64) hz2_7, View.ld_unit_zero (S := S5000x1) hz2_7, View.ld_unit_zero (S := S64) hz1_7, View.ld_unit_zero (S := S1x64) hz2_7]

theorem out7_C_4_eq (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond7_0 i) (hc1 : cond7_1 i)
    (x0 : Vec F S5000x64 .f32) (x1 : Vec F S5000x64 .f32) (x2 : Vec F S5000x1 .f32) (x3 : Vec F S64 .f32) (xs0 : Vec F S1x64 .f32) (xs1 : Vec F S1x64 .f32) :
    out7_C_4 c i arg1 harg1 arg2 harg2 arg3 harg3 arg4 harg4 arg5 harg5 arg6 harg6 arg7 harg7 arg8 harg8 arg9 harg9 hc0 hc1 x0 x1 x2 x3 xs0 xs1 = k7_pay4 x2 x0 x1 x3 := by
  unfold out7_C_4
  rw [View.read_writes_eq_canon _ _ _ (cover7_C_4 c i arg1 harg1 arg2 harg2 arg3 harg3 arg4 harg4 arg5 harg5 arg6 harg6 arg7 harg7 arg8 harg8 arg9 harg9 hc0 hc1 x0 x1 x2 x3 xs0 xs1)]
  unfold kernelRun7_C
  dsimp only
  try sl_unfold_words
  first
    | rw [View.canon_unit_zero hz2_7]
    | rw [View.canon_cons_unit_zero (S := S1x64) hz2_7]
  simp only [View.readAt_eq_ld, View.readCov_unit_zero (S := S1x64) _ hz2_7, harg1.read_unread, harg2.read_unread, harg3.read_unread, harg4.read_unread, harg8.read_unread, harg9.read_unread, View.ld_unit_zero (S := S5000x64) hz2_7, View.ld_unit_zero (S := S5000x1) hz2_7, View.ld_unit_zero (S := S64) hz1_7, View.ld_unit_zero (S := S1x64) hz2_7]

theorem sout7_C_0_eq (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond7_0 i) (hc1 : cond7_1 i)
    (x0 : Vec F S5000x64 .f32) (x1 : Vec F S5000x64 .f32) (x2 : Vec F S5000x1 .f32) (x3 : Vec F S64 .f32) (xs0 : Vec F S1x64 .f32) (xs1 : Vec F S1x64 .f32) :
    sout7_C_0 c i arg1 harg1 arg2 harg2 arg3 harg3 arg4 harg4 arg5 harg5 arg6 harg6 arg7 harg7 arg8 harg8 arg9 harg9 hc0 hc1 x0 x1 x2 x3 xs0 xs1 = k7_pay5 x2 x0 x1 x3 xs0 := by
  unfold sout7_C_0
  rw [View.read_writes_eq_canon _ _ _ (scover7_C_0 c i arg1 harg1 arg2 harg2 arg3 harg3 arg4 harg4 arg5 harg5 arg6 harg6 arg7 harg7 arg8 harg8 arg9 harg9 hc0 hc1 x0 x1 x2 x3 xs0 xs1)]
  unfold kernelRun7_C
  dsimp only
  try sl_unfold_words
  first
    | rw [View.canon_unit_zero hz2_7]
    | rw [View.canon_cons_unit_zero (S := S1x64) hz2_7]
  simp only [View.readAt_eq_ld, View.readCov_unit_zero (S := S1x64) _ hz2_7, harg1.read_unread, harg2.read_unread, harg3.read_unread, harg4.read_unread, harg8.read_unread, harg9.read_unread, View.ld_unit_zero (S := S5000x64) hz2_7, View.ld_unit_zero (S := S5000x1) hz2_7, View.ld_unit_zero (S := S64) hz1_7, View.ld_unit_zero (S := S1x64) hz2_7]

theorem sout7_C_1_eq (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond7_0 i) (hc1 : cond7_1 i)
    (x0 : Vec F S5000x64 .f32) (x1 : Vec F S5000x64 .f32) (x2 : Vec F S5000x1 .f32) (x3 : Vec F S64 .f32) (xs0 : Vec F S1x64 .f32) (xs1 : Vec F S1x64 .f32) :
    sout7_C_1 c i arg1 harg1 arg2 harg2 arg3 harg3 arg4 harg4 arg5 harg5 arg6 harg6 arg7 harg7 arg8 harg8 arg9 harg9 hc0 hc1 x0 x1 x2 x3 xs0 xs1 = k7_pay1 (k7_pay6 x2 x0 x1 x3 xs1) := by
  unfold sout7_C_1
  rw [View.read_writes_eq_canon _ _ _ (scover7_C_1 c i arg1 harg1 arg2 harg2 arg3 harg3 arg4 harg4 arg5 harg5 arg6 harg6 arg7 harg7 arg8 harg8 arg9 harg9 hc0 hc1 x0 x1 x2 x3 xs0 xs1)]
  unfold kernelRun7_C
  dsimp only
  try sl_unfold_words
  first
    | rw [View.canon_unit_zero hz2_7]
    | rw [View.canon_cons_unit_zero (S := S1x64) hz2_7]
  simp only [View.readAt_eq_ld, View.readCov_unit_zero (S := S1x64) _ hz2_7, harg1.read_unread, harg2.read_unread, harg3.read_unread, harg4.read_unread, harg8.read_unread, harg9.read_unread, View.ld_unit_zero (S := S5000x64) hz2_7, View.ld_unit_zero (S := S5000x1) hz2_7, View.ld_unit_zero (S := S64) hz1_7, View.ld_unit_zero (S := S1x64) hz2_7]

theorem out7_C_5_eq (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond7_0 i) (hc1 : cond7_1 i)
    (x0 : Vec F S5000x64 .f32) (x1 : Vec F S5000x64 .f32) (x2 : Vec F S5000x1 .f32) (x3 : Vec F S64 .f32) (xs0 : Vec F S1x64 .f32) (xs1 : Vec F S1x64 .f32) :
    out7_C_5 c i arg1 harg1 arg2 harg2 arg3 harg3 arg4 harg4 arg5 harg5 arg6 harg6 arg7 harg7 arg8 harg8 arg9 harg9 hc0 hc1 x0 x1 x2 x3 xs0 xs1 = k7_pay5 x2 x0 x1 x3 xs0 := by
  unfold out7_C_5
  rw [View.read_writes_eq_canon _ _ _ (cover7_C_5 c i arg1 harg1 arg2 harg2 arg3 harg3 arg4 harg4 arg5 harg5 arg6 harg6 arg7 harg7 arg8 harg8 arg9 harg9 hc0 hc1 x0 x1 x2 x3 xs0 xs1)]
  unfold kernelRun7_C
  dsimp only
  try sl_unfold_words
  first
    | rw [View.canon_unit_zero hz2_7]
    | rw [View.canon_cons_unit_zero (S := S1x64) hz2_7]
  simp only [View.readAt_eq_ld, View.readCov_unit_zero (S := S1x64) _ hz2_7, harg1.read_unread, harg2.read_unread, harg3.read_unread, harg4.read_unread, harg8.read_unread, harg9.read_unread, View.ld_unit_zero (S := S5000x64) hz2_7, View.ld_unit_zero (S := S5000x1) hz2_7, View.ld_unit_zero (S := S64) hz1_7, View.ld_unit_zero (S := S1x64) hz2_7]

theorem out7_C_6_eq (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond7_0 i) (hc1 : cond7_1 i)
    (x0 : Vec F S5000x64 .f32) (x1 : Vec F S5000x64 .f32) (x2 : Vec F S5000x1 .f32) (x3 : Vec F S64 .f32) (xs0 : Vec F S1x64 .f32) (xs1 : Vec F S1x64 .f32) :
    out7_C_6 c i arg1 harg1 arg2 harg2 arg3 harg3 arg4 harg4 arg5 harg5 arg6 harg6 arg7 harg7 arg8 harg8 arg9 harg9 hc0 hc1 x0 x1 x2 x3 xs0 xs1 = k7_pay1 (k7_pay6 x2 x0 x1 x3 xs1) := by
  unfold out7_C_6
  rw [View.read_writes_eq_canon _ _ _ (cover7_C_6 c i arg1 harg1 arg2 harg2 arg3 harg3 arg4 harg4 arg5 harg5 arg6 harg6 arg7 harg7 arg8 harg8 arg9 harg9 hc0 hc1 x0 x1 x2 x3 xs0 xs1)]
  unfold kernelRun7_C
  dsimp only
  try sl_unfold_words
  first
    | rw [View.canon_unit_zero hz2_7]
    | rw [View.canon_cons_unit_zero (S := S1x64) hz2_7]
  simp only [View.readAt_eq_ld, View.readCov_unit_zero (S := S1x64) _ hz2_7, harg1.read_unread, harg2.read_unread, harg3.read_unread, harg4.read_unread, harg8.read_unread, harg9.read_unread, View.ld_unit_zero (S := S5000x64) hz2_7, View.ld_unit_zero (S := S5000x1) hz2_7, View.ld_unit_zero (S := S64) hz1_7, View.ld_unit_zero (S := S1x64) hz2_7]

end Pieces

/-! ## Layout forms read at an index -/

/-- A column `[a, 1]` broadcast to `[a, b]` reads, at `(p, c)`, the column at row `p`. -/
theorem broadcastTo_a1_ab_apply_7 {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index over result index `q` of a reduction of `[5000, 64]` along the rows, with row `k` put back. -/
theorem lift_rows_7 (h : S5000x64.Reduces [0] S64) (q : Fin 64) (k : Fin 5000) : h.lift (ix1 q) k = ix2 k q := by
  funext a
  apply Fin.ext
  match a with
  | ⟨0, _⟩ => rfl
  | ⟨1, _⟩ => rfl

/-! ## The body's arithmetic at an index, over the extended reals -/

/-- The block the body stores into the first output: at row `p`, lane `q`,
    `max (neigh·dinv + xws·dinv + b) 0` of the loaded blocks, in the body's grouping. -/
theorem pay4_apply_7 (x0 x1 : FVec Ideal S5000x64 .f32) (x2 : FVec Ideal S5000x1 .f32) (x3 : FVec Ideal S64 .f32) (p : Fin 5000) (q : Fin 64) :
    k7_pay4 (F := Ideal) x2 x0 x1 x3 (ix2 p q)
      = max (x0 (ix2 p q) * x2 (ix2 p (0 : Fin 1)) + x1 (ix2 p q) * x2 (ix2 p (0 : Fin 1)) + x3 (ix1 q)) (Ideal.ofBits .f32 0x00000000#32) := by
  unfold k7_pay4
  simp only [shapeCast_self]
  show max (x0 (ix2 p q) * broadcastTo S5000x64 x2 _ (ix2 p q) + x1 (ix2 p q) * broadcastTo S5000x64 x2 _ (ix2 p q)
      + broadcastTo S5000x64 (shapeCast S1x64 x3 _) _ (ix2 p q)) _ = _
  rw [broadcastTo_a1_ab_apply_7, broadcastTo_1b_ab_apply, shapeCast_a_1a_apply]
  rfl

/-- The first accumulator after the body: what it held plus the column sums of the stored block. -/
theorem pay5_apply_7 (x0 x1 : FVec Ideal S5000x64 .f32) (x2 : FVec Ideal S5000x1 .f32) (x3 : FVec Ideal S64 .f32) (xs : FVec Ideal S1x64 .f32) (u : Fin 1) (q : Fin 64) :
    k7_pay5 (F := Ideal) x2 x0 x1 x3 xs (ix2 u q)
      = xs (ix2 u q) + ∑ k : Fin 5000, k7_pay4 (F := Ideal) x2 x0 x1 x3 (ix2 k q) := by
  unfold k7_pay5
  simp only [shapeCast_self]
  show xs (ix2 u q) + shapeCast S1x64 (multiReduction .add [0] S64 (k7_pay4 (F := Ideal) x2 x0 x1 x3) 0x00000000#32 _ _ _) _ (ix2 u q) = _
  rw [shapeCast_a_1a_apply]
  refine congrArg (xs (ix2 u q) + ·) ?_
  refine (Ideal.multiReduction_add_single _ _ _ _ _ (ix1 q)).trans ?_
  refine Finset.sum_congr rfl fun k _ => ?_
  exact congrArg (k7_pay4 (F := Ideal) x2 x0 x1 x3) (lift_rows_7 _ q k)

/-- The second accumulator after the body: what it held plus the column sums of the stored block's squares. -/
theorem pay6_apply_7 (x0 x1 : FVec Ideal S5000x64 .f32) (x2 : FVec Ideal S5000x1 .f32) (x3 : FVec Ideal S64 .f32) (xs : FVec Ideal S1x64 .f32) (u : Fin 1) (q : Fin 64) :
    k7_pay1 (F := Ideal) (k7_pay6 (F := Ideal) x2 x0 x1 x3 xs) (ix2 u q)
      = xs (ix2 u q) + ∑ k : Fin 5000, k7_pay4 (F := Ideal) x2 x0 x1 x3 (ix2 k q) * k7_pay4 (F := Ideal) x2 x0 x1 x3 (ix2 k q) := by
  unfold k7_pay1 k7_pay6
  simp only [shapeCast_self]
  show xs (ix2 u q) + shapeCast S1x64 (multiReduction .add [0] S64 (mulf (k7_pay4 (F := Ideal) x2 x0 x1 x3) (k7_pay4 (F := Ideal) x2 x0 x1 x3)) 0x00000000#32 _ _ _) _ (ix2 u q) = _
  rw [shapeCast_a_1a_apply]
  refine congrArg (xs (ix2 u q) + ·) ?_
  refine (Ideal.multiReduction_add_single _ _ _ _ _ (ix1 q)).trans ?_
  refine Finset.sum_congr rfl fun k _ => ?_
  exact congrArg (fun i => k7_pay4 (F := Ideal) x2 x0 x1 x3 i * k7_pay4 (F := Ideal) x2 x0 x1 x3 i) (lift_rows_7 _ q k)

/-- The zero blocks the first point stores into the accumulators are zero. -/
theorem pay2_apply_7 (j : S1x64.Idx) : k7_pay2 (F := Ideal) j = 0 := by
  unfold k7_pay2
  simp only [shapeCast_self]
  exact Ideal.ofBits_zero_f32
theorem pay3_apply_7 (j : S1x64.Idx) : k7_pay3 (F := Ideal) j = 0 := by
  unfold k7_pay3
  simp only [shapeCast_self]
  exact Ideal.ofBits_zero_f32

/-! ## The region's arrays and its stored block as functions of them -/

variable (V : (c : Dev nD) → (b : Ref sig .tc) → Buf (Elt Ideal) ((c : Thread nD τ).loc b))

/-- The region's four input arrays as the region finds them: the neighbour sums, the scaled features, the inverse
    square-root degrees, the bias. -/
abbrev neigh7 (c : Dev nD) : (⟨2, ![100000, 64]⟩ : Shape).Idx → EReal := V c (Pipeline.arrRef spec7 0)
abbrev xws7 (c : Dev nD) : (⟨2, ![100000, 64]⟩ : Shape).Idx → EReal := V c (Pipeline.arrRef spec7 1)
abbrev dinv7 (c : Dev nD) : (⟨2, ![100000, 1]⟩ : Shape).Idx → EReal := V c (Pipeline.arrRef spec7 2)
abbrev bias7 (c : Dev nD) : (⟨1, ![64]⟩ : Shape).Idx → EReal := V c (Pipeline.arrRef spec7 3)
/-- The rectified combine of the four arrays. -/
abbrev R7 (c : Dev nD) : (⟨2, ![100000, 64]⟩ : Shape).Idx → EReal :=
  Cert.Spec.statsRelu (neigh7 V c) (xws7 V c) (dinv7 V c) (bias7 V c)

/-- The printed index maps over the grid: the row-blocked windows sit at block `t`, the others at block 0. -/
theorem idx7 : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 1) = 0
    ∧ win7_4.index t (0 : Fin 2) = t.val ∧ win7_4.index t (1 : Fin 2) = 0 :=
  (by decide +kernel : ∀ t : Fin grid7.N, _)

/-- Row `p` of block `t` is row `5000 t + p` of the array. -/
def row7 (t : Fin cfg7.N) (p : Fin 5000) : Fin 100000 :=
  ⟨5000 * t.val + p.val, by have := t.isLt; have hN : cfg7.N = 20 := N_7; have := p.isLt; omega⟩

/-- The last grid point. -/
def t7_last : Fin cfg7.N := ⟨19, by rw [show cfg7.N = 20 from N_7]; decide⟩

/-- Each input window's block at point `t` read at its coordinates is the array at the block's rows. -/
theorem iblk7_0_apply (c : Dev nD) (t : Fin cfg7.N) (p : Fin 5000) (q : Fin 64) :
    (iblk7 V c 0 t : FVec Ideal S5000x64 .f32) (ix2 p q) = neigh7 V c (ix2 (row7 t p) q) := by
  obtain ⟨e0, e1, -⟩ := idx7 t
  unfold iblk7
  rw [View.read_apply]
  show V c (Pipeline.arrRef spec7 0) _ = V c (Pipeline.arrRef spec7 0) _
  refine congrArg (V c (Pipeline.arrRef spec7 0)) (funext fun a => Fin.ext ?_)
  match a with
  | ⟨0, _⟩ => show win7_0.index t 0 * 5000 + 1 * p.val = 5000 * t.val + p.val; rw [e0]; omega
  | ⟨1, _⟩ => show win7_0.index t 1 * 64 + 1 * q.val = q.val; rw [e1]; omega

theorem iblk7_1_apply (c : Dev nD) (t : Fin cfg7.N) (p : Fin 5000) (q : Fin 64) :
    (iblk7 V c 1 t : FVec Ideal S5000x64 .f32) (ix2 p q) = xws7 V c (ix2 (row7 t p) q) := by
  obtain ⟨-, -, e0, e1, -⟩ := idx7 t
  unfold iblk7
  rw [View.read_apply]
  show V c (Pipeline.arrRef spec7 1) _ = V c (Pipeline.arrRef spec7 1) _
  refine congrArg (V c (Pipeline.arrRef spec7 1)) (funext fun a => Fin.ext ?_)
  match a with
  | ⟨0, _⟩ => show win7_1.index t 0 * 5000 + 1 * p.val = 5000 * t.val + p.val; rw [e0]; omega
  | ⟨1, _⟩ => show win7_1.index t 1 * 64 + 1 * q.val = q.val; rw [e1]; omega

theorem iblk7_2_apply (c : Dev nD) (t : Fin cfg7.N) (p : Fin 5000) :
    (iblk7 V c 2 t : FVec Ideal S5000x1 .f32) (ix2 p (0 : Fin 1)) = dinv7 V c (ix2 (row7 t p) (0 : Fin 1)) := by
  obtain ⟨-, -, -, -, e0, e1, -⟩ := idx7 t
  unfold iblk7
  rw [View.read_apply]
  show V c (Pipeline.arrRef spec7 2) _ = V c (Pipeline.arrRef spec7 2) _
  refine congrArg (V c (Pipeline.arrRef spec7 2)) (funext fun a => Fin.ext ?_)
  match a with
  | ⟨0, _⟩ => show win7_2.index t 0 * 5000 + 1 * p.val = 5000 * t.val + p.val; rw [e0]; omega
  | ⟨1, _⟩ => show win7_2.index t 1 * 1 + 1 * 0 = 0; rw [e1]

theorem iblk7_3_apply (c : Dev nD) (t : Fin cfg7.N) (q : Fin 64) :
    (iblk7 V c 3 t : FVec Ideal S64 .f32) (ix1 q) = bias7 V c (ix1 q) := by
  obtain ⟨-, -, -, -, -, -, e0, -⟩ := idx7 t
  unfold iblk7
  rw [View.read_apply]
  show V c (Pipeline.arrRef spec7 3) _ = V c (Pipeline.arrRef spec7 3) _
  refine congrArg (V c (Pipeline.arrRef spec7 3)) (funext fun a => Fin.ext ?_)
  match a with
  | ⟨0, _⟩ => show win7_3.index t 0 * 64 + 1 * q.val = q.val; rw [e0]; omega

/-- The block the body stores at point `t` is the rectified combine at the block's rows. -/
theorem blk7_eq (c : Dev nD) (t : Fin cfg7.N) (p : Fin 5000) (q : Fin 64) :
    k7_pay4 (F := Ideal) (iblk7 V c 2 t) (iblk7 V c 0 t) (iblk7 V c 1 t) (iblk7 V c 3 t) (ix2 p q) = R7 V c (ix2 (row7 t p) q) := by
  refine (pay4_apply_7 (iblk7 V c 0 t) (iblk7 V c 1 t) (iblk7 V c 2 t) (iblk7 V c 3 t) p q).trans ?_
  rw [iblk7_0_apply V c t p q, iblk7_1_apply V c t p q, iblk7_2_apply V c t p, iblk7_3_apply V c t q]
  rfl

/-! ## The first output: one block per point -/

set_option maxHeartbeats 2000000 in
/-- At every point the first output's staging buffer is left at the stored block. -/
theorem outs7_fst (c : Dev nD) (t : Fin cfg7.N) :
    (outsAt7 V c t.val t.isLt).1 = k7_pay4 (F := Ideal) (iblk7 V c 2 t) (iblk7 V c 0 t) (iblk7 V c 1 t) (iblk7 V c 3 t) := by
  have hN : t.val < 20 := lt_of_lt_of_eq t.isLt (show cfg7.N = 20 from N_7)
  by_cases h0 : t.val % 20 = 0
  · have h1 : ¬t.val % 20 = 19 := by omega
    rw [outsAt7_A V c t h0 h1]
    dsimp only
    exact out7_A_4_eq (F := Ideal) c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) ((hcond7_0 t).mpr h0) (fun h => h1 ((hcond7_1 t).mp h)) (iblk7 V c 0 t) (iblk7 V c 1 t) (iblk7 V c 2 t) (iblk7 V c 3 t)
  · by_cases h1 : t.val % 20 = 19
    · rw [outsAt7_C V c t h0 h1]
      dsimp only
      exact out7_C_4_eq (F := Ideal) c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => h0 ((hcond7_0 t).mp h)) ((hcond7_1 t).mpr h1) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2
    · rw [outsAt7_B V c t h0 h1]
      dsimp only
      exact out7_B_4_eq (F := Ideal) c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => h0 ((hcond7_0 t).mp h)) (fun h => h1 ((hcond7_1 t).mp h)) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2

/-- What point `t` writes back is block `t` of the rectified combine of the arrays. -/
theorem flushed7_4_eq (c : Dev nD) (t : Fin cfg7.N) :
    (dat7 V c).flushed 4 t = ((cfg7.win 4).blk t).view.read (Elt Ideal) (R7 V c) := by
  show (cfg7.win 4).cut (grid7.coords t) ((dat7 V c).after 4 t) = _
  rw [after7_4, outs7_fst]
  obtain ⟨-, -, -, -, -, -, -, e0, e1⟩ := idx7 t
  funext j
  obtain ⟨p, q, rfl⟩ : ∃ (p : Fin 5000) (q : Fin 64), j = ix2 p q := ⟨j 0, j 1, eq_ix2 (n0 := 5000) (n1 := 64) j⟩
  rw [View.read_apply]
  show k7_pay4 (F := Ideal) (iblk7 V c 2 t) (iblk7 V c 0 t) (iblk7 V c 1 t) (iblk7 V c 3 t) (ix2 p q) = R7 V c (((cfg7.win 4).blk t).view.emb (ix2 p q))
  rw [blk7_eq V c t p q]
  refine congrArg (R7 V c) (funext fun a => Fin.ext ?_)
  match a with
  | ⟨0, _⟩ => show 5000 * t.val + p.val = win7_4.index t 0 * 5000 + 1 * p.val; rw [e0]; omega
  | ⟨1, _⟩ => show q.val = win7_4.index t 1 * 64 + 1 * q.val; rw [e1]; omega

/-- An index of the array is in point `t`'s block iff each coordinate is in the block's range on its axis. -/
theorem mem_blk7_4 (t : Fin cfg7.N) (i : (⟨2, ![100000, 64]⟩ : Shape).Idx) :
    i ∈ ((cfg7.win 4).blk t).view.set ↔ ∀ a : Fin 2, win7_4.index t a * S5000x64.size a ≤ (i a).val ∧ (i a).val < win7_4.index t a * S5000x64.size a + S5000x64.size a := by
  show i ∈ ((View.whole (Pipeline.arrRef spec7 4)).slice (win7_4.rect t)).set ↔ _
  rw [View.set_slice_whole, Rect.mem_set_unit]
  exact Iff.rfl

/-- So the first output's array ends holding the rectified combine: row `r` is covered by point `r / 5000`. -/
theorem final7_4 (c : Dev nD) :
    (dat7 (F := Ideal) V c).arrAt 4 cfg7.N = Cert.Spec.statsRelu (V c (Pipeline.arrRef spec7 0)) (V c (Pipeline.arrRef spec7 1)) (V c (Pipeline.arrRef spec7 2)) (V c (Pipeline.arrRef spec7 3)) :=
  (dat7 V c).arrAt_eq_of_cover 4 (R7 V c) (fun t _ => flushed7_4_eq V c t) fun i => by
    have hi0 : (i 0).val < 100000 := (i 0).isLt
    have hi1 : (i 1).val < 64 := (i 1).isLt
    have hN : cfg7.N = 20 := N_7
    obtain ⟨-, -, -, -, -, -, -, e0, e1⟩ := idx7 (⟨(i 0).val / 5000, by omega⟩ : Fin cfg7.N)
    refine ⟨⟨(i 0).val / 5000, by omega⟩, flush7_4 _, ?_⟩
    rw [mem_blk7_4]
    intro a
    match a with
    | ⟨0, _⟩ => show win7_4.index _ 0 * 5000 ≤ (i 0).val ∧ (i 0).val < win7_4.index _ 0 * 5000 + 5000
                rw [e0]; show (i 0).val / 5000 * 5000 ≤ (i 0).val ∧ (i 0).val < (i 0).val / 5000 * 5000 + 5000; omega
    | ⟨1, _⟩ => show win7_4.index _ 1 * 64 ≤ (i 1).val ∧ (i 1).val < win7_4.index _ 1 * 64 + 64
                rw [e1]; omega

/-! ## The two accumulators, by induction on the grid point -/

/-- Point `t'`'s contribution to lane `q` of the first accumulator: the column sum of the point's block. -/
def S7 (c : Dev nD) (t' : ℕ) (q : Fin 64) : EReal :=
  if h : t' < cfg7.N then ∑ k : Fin 5000, R7 V c (ix2 (row7 ⟨t', h⟩ k) q) else 0
/-- and of the second: the column sum of the squares. -/
def Q7 (c : Dev nD) (t' : ℕ) (q : Fin 64) : EReal :=
  if h : t' < cfg7.N then ∑ k : Fin 5000, R7 V c (ix2 (row7 ⟨t', h⟩ k) q) * R7 V c (ix2 (row7 ⟨t', h⟩ k) q) else 0

set_option maxHeartbeats 2000000 in
/-- At the first point accumulator 0 is zeroed and then holds the point's block sums. -/
theorem acc7_0_base (c : Dev nD) (t : Fin cfg7.N) (h0 : t.val % 20 = 0) (u : Fin 1) (q : Fin 64) :
    (outsAt7 V c t.val t.isLt).2.2.2.1 (ix2 u q) = S7 V c t.val q := by
  have hN : t.val < 20 := lt_of_lt_of_eq t.isLt (show cfg7.N = 20 from N_7)
  have h1 : ¬t.val % 20 = 19 := by omega
  have hS : S7 V c t.val q = ∑ k : Fin 5000, k7_pay4 (F := Ideal) (iblk7 V c 2 t) (iblk7 V c 0 t) (iblk7 V c 1 t) (iblk7 V c 3 t) (ix2 k q) := by
    unfold S7; rw [dif_pos t.isLt]
    exact Finset.sum_congr rfl fun k _ => by rw [blk7_eq V c t k q]
  rw [hS, outsAt7_A V c t h0 h1]
  dsimp only
  refine (congrFun (sout7_A_0_eq (F := Ideal) c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) ((hcond7_0 t).mpr h0) (fun h => h1 ((hcond7_1 t).mp h)) (iblk7 V c 0 t) (iblk7 V c 1 t) (iblk7 V c 2 t) (iblk7 V c 3 t)) (ix2 u q)).trans ?_
  refine (pay5_apply_7 (iblk7 V c 0 t) (iblk7 V c 1 t) (iblk7 V c 2 t) (iblk7 V c 3 t) (k7_pay2 (F := Ideal)) u q).trans ?_
  rw [pay2_apply_7, zero_add]

set_option maxHeartbeats 2000000 in
/-- At a later point accumulator 0 holds what the point before left plus the point's block sums. -/
theorem acc7_0_step (c : Dev nD) (t : Fin cfg7.N) (h0 : ¬t.val % 20 = 0) (u : Fin 1) (q : Fin 64) :
    (outsAt7 V c t.val t.isLt).2.2.2.1 (ix2 u q)
      = (outsAt7 V c (t.val - 1) (Nat.lt_of_le_of_lt (Nat.sub_le _ _) t.isLt)).2.2.2.1 (ix2 u q) + S7 V c t.val q := by
  have hS : S7 V c t.val q = ∑ k : Fin 5000, k7_pay4 (F := Ideal) (iblk7 V c 2 t) (iblk7 V c 0 t) (iblk7 V c 1 t) (iblk7 V c 3 t) (ix2 k q) := by
    unfold S7; rw [dif_pos t.isLt]
    exact Finset.sum_congr rfl fun k _ => by rw [blk7_eq V c t k q]
  rw [hS]
  by_cases h1 : t.val % 20 = 19
  · rw [outsAt7_C V c t h0 h1]
    dsimp only
    refine (congrFun (sout7_C_0_eq (F := Ideal) c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => h0 ((hcond7_0 t).mp h)) ((hcond7_1 t).mpr h1) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2) (ix2 u q)).trans ?_
    exact pay5_apply_7 (iblk7 V c 0 t) (iblk7 V c 1 t) (iblk7 V c 2 t) (iblk7 V c 3 t) ((outsAt7 V c (t.val - 1) (Nat.lt_of_le_of_lt (Nat.sub_le _ _) t.isLt)).2.2.2.1) u q
  · rw [outsAt7_B V c t h0 h1]
    dsimp only
    refine (congrFun (sout7_B_0_eq (F := Ideal) c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => h0 ((hcond7_0 t).mp h)) (fun h => h1 ((hcond7_1 t).mp h)) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2) (ix2 u q)).trans ?_
    exact pay5_apply_7 (iblk7 V c 0 t) (iblk7 V c 1 t) (iblk7 V c 2 t) (iblk7 V c 3 t) ((outsAt7 V c (t.val - 1) (Nat.lt_of_le_of_lt (Nat.sub_le _ _) t.isLt)).2.2.2.1) u q

/-- Accumulator 0 after point `n`, lane `q`: the sum over the points so far of the point's block sums. -/
theorem acc7_0 (c : Dev nD) : ∀ (n : ℕ) (hn : n < cfg7.N) (u : Fin 1) (q : Fin 64),
    (outsAt7 V c n hn).2.2.2.1 (ix2 u q) = ∑ t' ∈ Finset.range (n + 1), S7 V c t' q
  | 0, hn, u, q => by
    rw [Finset.sum_range_one]
    exact acc7_0_base V c ⟨0, hn⟩ rfl u q
  | n + 1, hn, u, q => by
    have hN : cfg7.N = 20 := N_7
    rw [Finset.sum_range_succ _ (n + 1), ← acc7_0 c n (Nat.lt_of_succ_lt hn) u q]
    exact acc7_0_step V c ⟨n + 1, hn⟩ (by dsimp only; omega) u q

set_option maxHeartbeats 2000000 in
/-- At the first point accumulator 1 is zeroed and then holds the point's block sums. -/
theorem acc7_1_base (c : Dev nD) (t : Fin cfg7.N) (h0 : t.val % 20 = 0) (u : Fin 1) (q : Fin 64) :
    (outsAt7 V c t.val t.isLt).2.2.2.2 (ix2 u q) = Q7 V c t.val q := by
  have hN : t.val < 20 := lt_of_lt_of_eq t.isLt (show cfg7.N = 20 from N_7)
  have h1 : ¬t.val % 20 = 19 := by omega
  have hS : Q7 V c t.val q = ∑ k : Fin 5000, k7_pay4 (F := Ideal) (iblk7 V c 2 t) (iblk7 V c 0 t) (iblk7 V c 1 t) (iblk7 V c 3 t) (ix2 k q) * k7_pay4 (F := Ideal) (iblk7 V c 2 t) (iblk7 V c 0 t) (iblk7 V c 1 t) (iblk7 V c 3 t) (ix2 k q) := by
    unfold Q7; rw [dif_pos t.isLt]
    exact Finset.sum_congr rfl fun k _ => by rw [blk7_eq V c t k q]
  rw [hS, outsAt7_A V c t h0 h1]
  dsimp only
  refine (congrFun (sout7_A_1_eq (F := Ideal) c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) ((hcond7_0 t).mpr h0) (fun h => h1 ((hcond7_1 t).mp h)) (iblk7 V c 0 t) (iblk7 V c 1 t) (iblk7 V c 2 t) (iblk7 V c 3 t)) (ix2 u q)).trans ?_
  refine (pay6_apply_7 (iblk7 V c 0 t) (iblk7 V c 1 t) (iblk7 V c 2 t) (iblk7 V c 3 t) (k7_pay3 (F := Ideal)) u q).trans ?_
  rw [pay3_apply_7, zero_add]

set_option maxHeartbeats 2000000 in
/-- At a later point accumulator 1 holds what the point before left plus the point's block sums. -/
theorem acc7_1_step (c : Dev nD) (t : Fin cfg7.N) (h0 : ¬t.val % 20 = 0) (u : Fin 1) (q : Fin 64) :
    (outsAt7 V c t.val t.isLt).2.2.2.2 (ix2 u q)
      = (outsAt7 V c (t.val - 1) (Nat.lt_of_le_of_lt (Nat.sub_le _ _) t.isLt)).2.2.2.2 (ix2 u q) + Q7 V c t.val q := by
  have hS : Q7 V c t.val q = ∑ k : Fin 5000, k7_pay4 (F := Ideal) (iblk7 V c 2 t) (iblk7 V c 0 t) (iblk7 V c 1 t) (iblk7 V c 3 t) (ix2 k q) * k7_pay4 (F := Ideal) (iblk7 V c 2 t) (iblk7 V c 0 t) (iblk7 V c 1 t) (iblk7 V c 3 t) (ix2 k q) := by
    unfold Q7; rw [dif_pos t.isLt]
    exact Finset.sum_congr rfl fun k _ => by rw [blk7_eq V c t k q]
  rw [hS]
  by_cases h1 : t.val % 20 = 19
  · rw [outsAt7_C V c t h0 h1]
    dsimp only
    refine (congrFun (sout7_C_1_eq (F := Ideal) c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => h0 ((hcond7_0 t).mp h)) ((hcond7_1 t).mpr h1) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2) (ix2 u q)).trans ?_
    exact pay6_apply_7 (iblk7 V c 0 t) (iblk7 V c 1 t) (iblk7 V c 2 t) (iblk7 V c 3 t) ((outsAt7 V c (t.val - 1) (Nat.lt_of_le_of_lt (Nat.sub_le _ _) t.isLt)).2.2.2.2) u q
  · rw [outsAt7_B V c t h0 h1]
    dsimp only
    refine (congrFun (sout7_B_1_eq (F := Ideal) c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => h0 ((hcond7_0 t).mp h)) (fun h => h1 ((hcond7_1 t).mp h)) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2) (ix2 u q)).trans ?_
    exact pay6_apply_7 (iblk7 V c 0 t) (iblk7 V c 1 t) (iblk7 V c 2 t) (iblk7 V c 3 t) ((outsAt7 V c (t.val - 1) (Nat.lt_of_le_of_lt (Nat.sub_le _ _) t.isLt)).2.2.2.2) u q

/-- Accumulator 1 after point `n`, lane `q`: the sum over the points so far of the point's block sums. -/
theorem acc7_1 (c : Dev nD) : ∀ (n : ℕ) (hn : n < cfg7.N) (u : Fin 1) (q : Fin 64),
    (outsAt7 V c n hn).2.2.2.2 (ix2 u q) = ∑ t' ∈ Finset.range (n + 1), Q7 V c t' q
  | 0, hn, u, q => by
    rw [Finset.sum_range_one]
    exact acc7_1_base V c ⟨0, hn⟩ rfl u q
  | n + 1, hn, u, q => by
    have hN : cfg7.N = 20 := N_7
    rw [Finset.sum_range_succ _ (n + 1), ← acc7_1 c n (Nat.lt_of_succ_lt hn) u q]
    exact acc7_1_step V c ⟨n + 1, hn⟩ (by dsimp only; omega) u q

/-- The 20 points' block sums are the sum over all 100000 rows. -/
theorem regroupS7 (c : Dev nD) (q : Fin 64) : ∑ t' ∈ Finset.range (19 + 1), S7 V c t' q = Cert.Spec.colSum (R7 V c) (ix2 (0 : Fin 1) q) := by
  have hN : cfg7.N = 20 := N_7
  rw [← Fin.sum_univ_eq_sum_range (fun t' => S7 V c t' q) 20]
  refine Eq.trans (Finset.sum_congr rfl fun t _ => ?_) (Cert.Spec.sum_blocks (fun r => R7 V c (ix2 r q)))
  unfold S7; rw [dif_pos (by rw [hN]; exact t.isLt)]; rfl
theorem regroupQ7 (c : Dev nD) (q : Fin 64) : ∑ t' ∈ Finset.range (19 + 1), Q7 V c t' q = Cert.Spec.colSumSq (R7 V c) (ix2 (0 : Fin 1) q) := by
  have hN : cfg7.N = 20 := N_7
  rw [← Fin.sum_univ_eq_sum_range (fun t' => Q7 V c t' q) 20]
  refine Eq.trans (Finset.sum_congr rfl fun t _ => ?_) (Cert.Spec.sum_blocks (fun r => R7 V c (ix2 r q) * R7 V c (ix2 r q)))
  unfold Q7; rw [dif_pos (by rw [hN]; exact t.isLt)]; rfl

/-! ## The two statistics outputs: written once, after the last point -/

/-- At the last point output 5 is stored from accumulator 0: the same contents. -/
theorem outs7_5_last (c : Dev nD) (t : Fin cfg7.N) (h0 : ¬t.val % 20 = 0) (h1 : t.val % 20 = 19) :
    (outsAt7 V c t.val t.isLt).2.1 = (outsAt7 V c t.val t.isLt).2.2.2.1 := by
  rw [outsAt7_C V c t h0 h1]
  dsimp only
  exact (out7_C_5_eq (F := Ideal) c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => h0 ((hcond7_0 t).mp h)) ((hcond7_1 t).mpr h1) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2).trans (sout7_C_0_eq (F := Ideal) c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => h0 ((hcond7_0 t).mp h)) ((hcond7_1 t).mpr h1) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2).symm

/-- So after the last point output 5's staging buffer holds the column sums over all 100000 rows. -/
theorem after7_5_last (c : Dev nD) (t : Fin cfg7.N) (h19 : t.val = 19) :
    (outsAt7 V c t.val t.isLt).2.1 = Cert.Spec.colSum (R7 V c) := by
  rw [outs7_5_last V c t (by omega) (by omega)]
  funext j
  obtain ⟨u, q, rfl⟩ : ∃ (u : Fin 1) (q : Fin 64), j = ix2 u q := ⟨j 0, j 1, eq_ix2 (n0 := 1) (n1 := 64) j⟩
  rw [acc7_0 V c t.val t.isLt u q, h19]
  exact regroupS7 V c q

/-- The one write-back of output 5, at the last point, writes that: the block is the whole `[1, 64]` array. -/
theorem flushed7_5_eq (c : Dev nD) (t : Fin cfg7.N) (hf : (cfg7.win 5).flush t = true) :
    (dat7 V c).flushed 5 t = ((cfg7.win 5).blk t).view.read (Elt Ideal) (Cert.Spec.colSum (R7 V c)) := by
  have hN : cfg7.N = 20 := N_7
  have h19 : t.val = 19 := by have := (flush7_5 t).mp hf; have := t.isLt; omega
  show (cfg7.win 5).cut (grid7.coords t) ((dat7 V c).after 5 t) = _
  rw [after7_5, after7_5_last V c t h19]
  obtain rfl : t = t7_last := Fin.ext h19
  have hz' : (fun a => win7_5.index t7_last a * (Pipeline.arrRef spec7 5).ty.shape.size a) = fun _ => 0 := funext fun a => by fin_cases a <;> decide +kernel
  exact (Memref.read_access_unit_zero (Elt Ideal) (Pipeline.arrRef spec7 5) hz' (fun a => by rw [congrFun hz' a]; simp) (Cert.Spec.colSum (R7 V c))).symm

/-- So output 5's array ends holding the column sums of the rectified combine. -/
theorem final7_5 (c : Dev nD) :
    (dat7 (F := Ideal) V c).arrAt 5 cfg7.N = Cert.Spec.colSum (Cert.Spec.statsRelu (V c (Pipeline.arrRef spec7 0)) (V c (Pipeline.arrRef spec7 1)) (V c (Pipeline.arrRef spec7 2)) (V c (Pipeline.arrRef spec7 3))) :=
  (dat7 V c).arrAt_eq_of_cover 5 (Cert.Spec.colSum (R7 V c)) (flushed7_5_eq V c) fun i =>
    ⟨t7_last, (flush7_5 t7_last).mpr rfl, by
      show i ∈ ((View.whole (Pipeline.arrRef spec7 5)).slice (win7_5.rect t7_last)).set
      rw [View.set_slice_whole, Rect.mem_set_unit]
      intro a
      have h0 : (i 0 : Nat) < 1 := (i 0).isLt
      have h1 : (i 1 : Nat) < 64 := (i 1).isLt
      match a with
      | ⟨0, _⟩ => show win7_5.index t7_last 0 * win7_5.size 0 ≤ (i 0 : Nat) ∧ (i 0 : Nat) < win7_5.index t7_last 0 * win7_5.size 0 + win7_5.xsize (grid7.coords t7_last) 0
                  rw [show win7_5.index t7_last 0 * win7_5.size 0 = 0 from by decide +kernel, show win7_5.xsize (grid7.coords t7_last) 0 = 1 from by decide +kernel]; omega
      | ⟨1, _⟩ => show win7_5.index t7_last 1 * win7_5.size 1 ≤ (i 1 : Nat) ∧ (i 1 : Nat) < win7_5.index t7_last 1 * win7_5.size 1 + win7_5.xsize (grid7.coords t7_last) 1
                  rw [show win7_5.index t7_last 1 * win7_5.size 1 = 0 from by decide +kernel, show win7_5.xsize (grid7.coords t7_last) 1 = 64 from by decide +kernel]; omega⟩

/-- At the last point output 6 is stored from accumulator 1: the same contents. -/
theorem outs7_6_last (c : Dev nD) (t : Fin cfg7.N) (h0 : ¬t.val % 20 = 0) (h1 : t.val % 20 = 19) :
    (outsAt7 V c t.val t.isLt).2.2.1 = (outsAt7 V c t.val t.isLt).2.2.2.2 := by
  rw [outsAt7_C V c t h0 h1]
  dsimp only
  exact (out7_C_6_eq (F := Ideal) c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => h0 ((hcond7_0 t).mp h)) ((hcond7_1 t).mpr h1) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2).trans (sout7_C_1_eq (F := Ideal) c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => h0 ((hcond7_0 t).mp h)) ((hcond7_1 t).mpr h1) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2).symm

/-- So after the last point output 6's staging buffer holds the column sums of squares over all 100000 rows. -/
theorem after7_6_last (c : Dev nD) (t : Fin cfg7.N) (h19 : t.val = 19) :
    (outsAt7 V c t.val t.isLt).2.2.1 = Cert.Spec.colSumSq (R7 V c) := by
  rw [outs7_6_last V c t (by omega) (by omega)]
  funext j
  obtain ⟨u, q, rfl⟩ : ∃ (u : Fin 1) (q : Fin 64), j = ix2 u q := ⟨j 0, j 1, eq_ix2 (n0 := 1) (n1 := 64) j⟩
  rw [acc7_1 V c t.val t.isLt u q, h19]
  exact regroupQ7 V c q

/-- The one write-back of output 6, at the last point, writes that: the block is the whole `[1, 64]` array. -/
theorem flushed7_6_eq (c : Dev nD) (t : Fin cfg7.N) (hf : (cfg7.win 6).flush t = true) :
    (dat7 V c).flushed 6 t = ((cfg7.win 6).blk t).view.read (Elt Ideal) (Cert.Spec.colSumSq (R7 V c)) := by
  have hN : cfg7.N = 20 := N_7
  have h19 : t.val = 19 := by have := (flush7_6 t).mp hf; have := t.isLt; omega
  show (cfg7.win 6).cut (grid7.coords t) ((dat7 V c).after 6 t) = _
  rw [after7_6, after7_6_last V c t h19]
  obtain rfl : t = t7_last := Fin.ext h19
  have hz' : (fun a => win7_6.index t7_last a * (Pipeline.arrRef spec7 6).ty.shape.size a) = fun _ => 0 := funext fun a => by fin_cases a <;> decide +kernel
  exact (Memref.read_access_unit_zero (Elt Ideal) (Pipeline.arrRef spec7 6) hz' (fun a => by rw [congrFun hz' a]; simp) (Cert.Spec.colSumSq (R7 V c))).symm

/-- So output 6's array ends holding the column sums of squares of the rectified combine. -/
theorem final7_6 (c : Dev nD) :
    (dat7 (F := Ideal) V c).arrAt 6 cfg7.N = Cert.Spec.colSumSq (Cert.Spec.statsRelu (V c (Pipeline.arrRef spec7 0)) (V c (Pipeline.arrRef spec7 1)) (V c (Pipeline.arrRef spec7 2)) (V c (Pipeline.arrRef spec7 3))) :=
  (dat7 V c).arrAt_eq_of_cover 6 (Cert.Spec.colSumSq (R7 V c)) (flushed7_6_eq V c) fun i =>
    ⟨t7_last, (flush7_6 t7_last).mpr rfl, by
      show i ∈ ((View.whole (Pipeline.arrRef spec7 6)).slice (win7_6.rect t7_last)).set
      rw [View.set_slice_whole, Rect.mem_set_unit]
      intro a
      have h0 : (i 0 : Nat) < 1 := (i 0).isLt
      have h1 : (i 1 : Nat) < 64 := (i 1).isLt
      match a with
      | ⟨0, _⟩ => show win7_6.index t7_last 0 * win7_6.size 0 ≤ (i 0 : Nat) ∧ (i 0 : Nat) < win7_6.index t7_last 0 * win7_6.size 0 + win7_6.xsize (grid7.coords t7_last) 0
                  rw [show win7_6.index t7_last 0 * win7_6.size 0 = 0 from by decide +kernel, show win7_6.xsize (grid7.coords t7_last) 0 = 1 from by decide +kernel]; omega
      | ⟨1, _⟩ => show win7_6.index t7_last 1 * win7_6.size 1 ≤ (i 1 : Nat) ∧ (i 1 : Nat) < win7_6.index t7_last 1 * win7_6.size 1 + win7_6.xsize (grid7.coords t7_last) 1
                  rw [show win7_6.index t7_last 1 * win7_6.size 1 = 0 from by decide +kernel, show win7_6.xsize (grid7.coords t7_last) 1 = 64 from by decide +kernel]; omega⟩

end Cert.KernelIdeal.Val

end
-- ==== Proof.KI.V13.lean ====
import proofs.«173191_j73083163508880_2_alg».proof.Proof.KI.R13
import proofs.«173191_j73083163508880_2_alg».proof.Proof.SpecC
import proofs.«173191_j73083163508880_2_alg».proof.Proof.SpecBN
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen Cert.KernelIdeal.Fr
open Idealize.ShloMosaic.ValueIdx

/-! # Region 13: what its three output arrays hold after the grid, as functions of its input arrays

The first output is the rectified combine of the four input arrays, block by block; the two accumulators hold, after
point `n`, the column sums (of the entries, of their squares) over the rows of blocks `0 … n`, so the two statistics
outputs, stored from them at the last point, hold the column sums over all 100000 rows. -/

section Pieces
variable {F : FTy → Type} [FloatOps F]

theorem hz2_13 : (![0, 0] : Fin 2 → Nat) = fun _ => 0 := funext fun a => by fin_cases a <;> rfl
theorem hz1_13 : (![0] : Fin 1 → Nat) = fun _ => 0 := funext fun a => by fin_cases a; rfl

/-! ## What each control case leaves, as the body's arithmetic of the loaded blocks -/

theorem out13_A_4_eq (c : Dev nD) (i : grid13.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond13_0 i) (hc1 : ¬cond13_1 i)
    (x0 : Vec F S5000x64 .f32) (x1 : Vec F S5000x64 .f32) (x2 : Vec F S5000x1 .f32) (x3 : Vec F S64 .f32) :
    out13_A_4 c i arg1 harg1 arg2 harg2 arg3 harg3 arg4 harg4 arg5 harg5 arg6 harg6 arg7 harg7 arg8 harg8 arg9 harg9 hc0 hc1 x0 x1 x2 x3 = k13_pay4 x2 x0 x1 x3 := by
  unfold out13_A_4
  rw [View.read_writes_eq_canon _ _ _ (cover13_A_4 c i arg1 harg1 arg2 harg2 arg3 harg3 arg4 harg4 arg5 harg5 arg6 harg6 arg7 harg7 arg8 harg8 arg9 harg9 hc0 hc1 x0 x1 x2 x3)]
  unfold kernelRun13_A
  dsimp only
  try sl_unfold_words
  first
    | rw [View.canon_unit_zero hz2_13]
    | rw [View.canon_cons_unit_zero (S := S1x64) hz2_13]
  simp only [View.readAt_eq_ld, View.readCov_unit_zero (S := S1x64) _ hz2_13, harg1.read_unread, harg2.read_unread, harg3.read_unread, harg4.read_unread, harg8.read_unread, harg9.read_unread, View.ld_unit_zero (S := S5000x64) hz2_13, View.ld_unit_zero (S := S5000x1) hz2_13, View.ld_unit_zero (S := S64) hz1_13, View.ld_unit_zero (S := S1x64) hz2_13]

theorem sout13_A_0_eq (c : Dev nD) (i : grid13.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond13_0 i) (hc1 : ¬cond13_1 i)
    (x0 : Vec F S5000x64 .f32) (x1 : Vec F S5000x64 .f32) (x2 : Vec F S5000x1 .f32) (x3 : Vec F S64 .f32) :
    sout13_A_0 c i arg1 harg1 arg2 harg2 arg3 harg3 arg4 harg4 arg5 harg5 arg6 harg6 arg7 harg7 arg8 harg8 arg9 harg9 hc0 hc1 x0 x1 x2 x3 = k13_pay5 x2 x0 x1 x3 (k13_pay2 (F := F)) := by
  unfold sout13_A_0
  rw [View.read_writes_eq_canon _ _ _ (scover13_A_0 c i arg1 harg1 arg2 harg2 arg3 harg3 arg4 harg4 arg5 harg5 arg6 harg6 arg7 harg7 arg8 harg8 arg9 harg9 hc0 hc1 x0 x1 x2 x3)]
  unfold kernelRun13_A
  dsimp only
  try sl_unfold_words
  first
    | rw [View.canon_unit_zero hz2_13]
    | rw [View.canon_cons_unit_zero (S := S1x64) hz2_13]
  simp only [View.readAt_eq_ld, View.readCov_unit_zero (S := S1x64) _ hz2_13, harg1.read_unread, harg2.read_unread, harg3.read_unread, harg4.read_unread, harg8.read_unread, harg9.read_unread, View.ld_unit_zero (S := S5000x64) hz2_13, View.ld_unit_zero (S := S5000x1) hz2_13, View.ld_unit_zero (S := S64) hz1_13, View.ld_unit_zero (S := S1x64) hz2_13]

theorem sout13_A_1_eq (c : Dev nD) (i : grid13.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond13_0 i) (hc1 : ¬cond13_1 i)
    (x0 : Vec F S5000x64 .f32) (x1 : Vec F S5000x64 .f32) (x2 : Vec F S5000x1 .f32) (x3 : Vec F S64 .f32) :
    sout13_A_1 c i arg1 harg1 arg2 harg2 arg3 harg3 arg4 harg4 arg5 harg5 arg6 harg6 arg7 harg7 arg8 harg8 arg9 harg9 hc0 hc1 x0 x1 x2 x3 = k13_pay1 (k13_pay6 x2 x0 x1 x3 (k13_pay3 (F := F))) := by
  unfold sout13_A_1
  rw [View.read_writes_eq_canon _ _ _ (scover13_A_1 c i arg1 harg1 arg2 harg2 arg3 harg3 arg4 harg4 arg5 harg5 arg6 harg6 arg7 harg7 arg8 harg8 arg9 harg9 hc0 hc1 x0 x1 x2 x3)]
  unfold kernelRun13_A
  dsimp only
  try sl_unfold_words
  first
    | rw [View.canon_unit_zero hz2_13]
    | rw [View.canon_cons_unit_zero (S := S1x64) hz2_13]
  simp only [View.readAt_eq_ld, View.readCov_unit_zero (S := S1x64) _ hz2_13, harg1.read_unread, harg2.read_unread, harg3.read_unread, harg4.read_unread, harg8.read_unread, harg9.read_unread, View.ld_unit_zero (S := S5000x64) hz2_13, View.ld_unit_zero (S := S5000x1) hz2_13, View.ld_unit_zero (S := S64) hz1_13, View.ld_unit_zero (S := S1x64) hz2_13]

theorem out13_B_4_eq (c : Dev nD) (i : grid13.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond13_0 i) (hc1 : ¬cond13_1 i)
    (x0 : Vec F S5000x64 .f32) (x1 : Vec F S5000x64 .f32) (x2 : Vec F S5000x1 .f32) (x3 : Vec F S64 .f32) (xs0 : Vec F S1x64 .f32) (xs1 : Vec F S1x64 .f32) :
    out13_B_4 c i arg1 harg1 arg2 harg2 arg3 harg3 arg4 harg4 arg5 harg5 arg6 harg6 arg7 harg7 arg8 harg8 arg9 harg9 hc0 hc1 x0 x1 x2 x3 xs0 xs1 = k13_pay4 x2 x0 x1 x3 := by
  unfold out13_B_4
  rw [View.read_writes_eq_canon _ _ _ (cover13_B_4 c i arg1 harg1 arg2 harg2 arg3 harg3 arg4 harg4 arg5 harg5 arg6 harg6 arg7 harg7 arg8 harg8 arg9 harg9 hc0 hc1 x0 x1 x2 x3 xs0 xs1)]
  unfold kernelRun13_B
  dsimp only
  try sl_unfold_words
  first
    | rw [View.canon_unit_zero hz2_13]
    | rw [View.canon_cons_unit_zero (S := S1x64) hz2_13]
  simp only [View.readAt_eq_ld, View.readCov_unit_zero (S := S1x64) _ hz2_13, harg1.read_unread, harg2.read_unread, harg3.read_unread, harg4.read_unread, harg8.read_unread, harg9.read_unread, View.ld_unit_zero (S := S5000x64) hz2_13, View.ld_unit_zero (S := S5000x1) hz2_13, View.ld_unit_zero (S := S64) hz1_13, View.ld_unit_zero (S := S1x64) hz2_13]

theorem sout13_B_0_eq (c : Dev nD) (i : grid13.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond13_0 i) (hc1 : ¬cond13_1 i)
    (x0 : Vec F S5000x64 .f32) (x1 : Vec F S5000x64 .f32) (x2 : Vec F S5000x1 .f32) (x3 : Vec F S64 .f32) (xs0 : Vec F S1x64 .f32) (xs1 : Vec F S1x64 .f32) :
    sout13_B_0 c i arg1 harg1 arg2 harg2 arg3 harg3 arg4 harg4 arg5 harg5 arg6 harg6 arg7 harg7 arg8 harg8 arg9 harg9 hc0 hc1 x0 x1 x2 x3 xs0 xs1 = k13_pay5 x2 x0 x1 x3 xs0 := by
  unfold sout13_B_0
  rw [View.read_writes_eq_canon _ _ _ (scover13_B_0 c i arg1 harg1 arg2 harg2 arg3 harg3 arg4 harg4 arg5 harg5 arg6 harg6 arg7 harg7 arg8 harg8 arg9 harg9 hc0 hc1 x0 x1 x2 x3 xs0 xs1)]
  unfold kernelRun13_B
  dsimp only
  try sl_unfold_words
  first
    | rw [View.canon_unit_zero hz2_13]
    | rw [View.canon_cons_unit_zero (S := S1x64) hz2_13]
  simp only [View.readAt_eq_ld, View.readCov_unit_zero (S := S1x64) _ hz2_13, harg1.read_unread, harg2.read_unread, harg3.read_unread, harg4.read_unread, harg8.read_unread, harg9.read_unread, View.ld_unit_zero (S := S5000x64) hz2_13, View.ld_unit_zero (S := S5000x1) hz2_13, View.ld_unit_zero (S := S64) hz1_13, View.ld_unit_zero (S := S1x64) hz2_13]

theorem sout13_B_1_eq (c : Dev nD) (i : grid13.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond13_0 i) (hc1 : ¬cond13_1 i)
    (x0 : Vec F S5000x64 .f32) (x1 : Vec F S5000x64 .f32) (x2 : Vec F S5000x1 .f32) (x3 : Vec F S64 .f32) (xs0 : Vec F S1x64 .f32) (xs1 : Vec F S1x64 .f32) :
    sout13_B_1 c i arg1 harg1 arg2 harg2 arg3 harg3 arg4 harg4 arg5 harg5 arg6 harg6 arg7 harg7 arg8 harg8 arg9 harg9 hc0 hc1 x0 x1 x2 x3 xs0 xs1 = k13_pay1 (k13_pay6 x2 x0 x1 x3 xs1) := by
  unfold sout13_B_1
  rw [View.read_writes_eq_canon _ _ _ (scover13_B_1 c i arg1 harg1 arg2 harg2 arg3 harg3 arg4 harg4 arg5 harg5 arg6 harg6 arg7 harg7 arg8 harg8 arg9 harg9 hc0 hc1 x0 x1 x2 x3 xs0 xs1)]
  unfold kernelRun13_B
  dsimp only
  try sl_unfold_words
  first
    | rw [View.canon_unit_zero hz2_13]
    | rw [View.canon_cons_unit_zero (S := S1x64) hz2_13]
  simp only [View.readAt_eq_ld, View.readCov_unit_zero (S := S1x64) _ hz2_13, harg1.read_unread, harg2.read_unread, harg3.read_unread, harg4.read_unread, harg8.read_unread, harg9.read_unread, View.ld_unit_zero (S := S5000x64) hz2_13, View.ld_unit_zero (S := S5000x1) hz2_13, View.ld_unit_zero (S := S64) hz1_13, View.ld_unit_zero (S := S1x64) hz2_13]

theorem out13_C_4_eq (c : Dev nD) (i : grid13.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond13_0 i) (hc1 : cond13_1 i)
    (x0 : Vec F S5000x64 .f32) (x1 : Vec F S5000x64 .f32) (x2 : Vec F S5000x1 .f32) (x3 : Vec F S64 .f32) (xs0 : Vec F S1x64 .f32) (xs1 : Vec F S1x64 .f32) :
    out13_C_4 c i arg1 harg1 arg2 harg2 arg3 harg3 arg4 harg4 arg5 harg5 arg6 harg6 arg7 harg7 arg8 harg8 arg9 harg9 hc0 hc1 x0 x1 x2 x3 xs0 xs1 = k13_pay4 x2 x0 x1 x3 := by
  unfold out13_C_4
  rw [View.read_writes_eq_canon _ _ _ (cover13_C_4 c i arg1 harg1 arg2 harg2 arg3 harg3 arg4 harg4 arg5 harg5 arg6 harg6 arg7 harg7 arg8 harg8 arg9 harg9 hc0 hc1 x0 x1 x2 x3 xs0 xs1)]
  unfold kernelRun13_C
  dsimp only
  try sl_unfold_words
  first
    | rw [View.canon_unit_zero hz2_13]
    | rw [View.canon_cons_unit_zero (S := S1x64) hz2_13]
  simp only [View.readAt_eq_ld, View.readCov_unit_zero (S := S1x64) _ hz2_13, harg1.read_unread, harg2.read_unread, harg3.read_unread, harg4.read_unread, harg8.read_unread, harg9.read_unread, View.ld_unit_zero (S := S5000x64) hz2_13, View.ld_unit_zero (S := S5000x1) hz2_13, View.ld_unit_zero (S := S64) hz1_13, View.ld_unit_zero (S := S1x64) hz2_13]

theorem sout13_C_0_eq (c : Dev nD) (i : grid13.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond13_0 i) (hc1 : cond13_1 i)
    (x0 : Vec F S5000x64 .f32) (x1 : Vec F S5000x64 .f32) (x2 : Vec F S5000x1 .f32) (x3 : Vec F S64 .f32) (xs0 : Vec F S1x64 .f32) (xs1 : Vec F S1x64 .f32) :
    sout13_C_0 c i arg1 harg1 arg2 harg2 arg3 harg3 arg4 harg4 arg5 harg5 arg6 harg6 arg7 harg7 arg8 harg8 arg9 harg9 hc0 hc1 x0 x1 x2 x3 xs0 xs1 = k13_pay5 x2 x0 x1 x3 xs0 := by
  unfold sout13_C_0
  rw [View.read_writes_eq_canon _ _ _ (scover13_C_0 c i arg1 harg1 arg2 harg2 arg3 harg3 arg4 harg4 arg5 harg5 arg6 harg6 arg7 harg7 arg8 harg8 arg9 harg9 hc0 hc1 x0 x1 x2 x3 xs0 xs1)]
  unfold kernelRun13_C
  dsimp only
  try sl_unfold_words
  first
    | rw [View.canon_unit_zero hz2_13]
    | rw [View.canon_cons_unit_zero (S := S1x64) hz2_13]
  simp only [View.readAt_eq_ld, View.readCov_unit_zero (S := S1x64) _ hz2_13, harg1.read_unread, harg2.read_unread, harg3.read_unread, harg4.read_unread, harg8.read_unread, harg9.read_unread, View.ld_unit_zero (S := S5000x64) hz2_13, View.ld_unit_zero (S := S5000x1) hz2_13, View.ld_unit_zero (S := S64) hz1_13, View.ld_unit_zero (S := S1x64) hz2_13]

theorem sout13_C_1_eq (c : Dev nD) (i : grid13.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond13_0 i) (hc1 : cond13_1 i)
    (x0 : Vec F S5000x64 .f32) (x1 : Vec F S5000x64 .f32) (x2 : Vec F S5000x1 .f32) (x3 : Vec F S64 .f32) (xs0 : Vec F S1x64 .f32) (xs1 : Vec F S1x64 .f32) :
    sout13_C_1 c i arg1 harg1 arg2 harg2 arg3 harg3 arg4 harg4 arg5 harg5 arg6 harg6 arg7 harg7 arg8 harg8 arg9 harg9 hc0 hc1 x0 x1 x2 x3 xs0 xs1 = k13_pay1 (k13_pay6 x2 x0 x1 x3 xs1) := by
  unfold sout13_C_1
  rw [View.read_writes_eq_canon _ _ _ (scover13_C_1 c i arg1 harg1 arg2 harg2 arg3 harg3 arg4 harg4 arg5 harg5 arg6 harg6 arg7 harg7 arg8 harg8 arg9 harg9 hc0 hc1 x0 x1 x2 x3 xs0 xs1)]
  unfold kernelRun13_C
  dsimp only
  try sl_unfold_words
  first
    | rw [View.canon_unit_zero hz2_13]
    | rw [View.canon_cons_unit_zero (S := S1x64) hz2_13]
  simp only [View.readAt_eq_ld, View.readCov_unit_zero (S := S1x64) _ hz2_13, harg1.read_unread, harg2.read_unread, harg3.read_unread, harg4.read_unread, harg8.read_unread, harg9.read_unread, View.ld_unit_zero (S := S5000x64) hz2_13, View.ld_unit_zero (S := S5000x1) hz2_13, View.ld_unit_zero (S := S64) hz1_13, View.ld_unit_zero (S := S1x64) hz2_13]

theorem out13_C_5_eq (c : Dev nD) (i : grid13.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond13_0 i) (hc1 : cond13_1 i)
    (x0 : Vec F S5000x64 .f32) (x1 : Vec F S5000x64 .f32) (x2 : Vec F S5000x1 .f32) (x3 : Vec F S64 .f32) (xs0 : Vec F S1x64 .f32) (xs1 : Vec F S1x64 .f32) :
    out13_C_5 c i arg1 harg1 arg2 harg2 arg3 harg3 arg4 harg4 arg5 harg5 arg6 harg6 arg7 harg7 arg8 harg8 arg9 harg9 hc0 hc1 x0 x1 x2 x3 xs0 xs1 = k13_pay5 x2 x0 x1 x3 xs0 := by
  unfold out13_C_5
  rw [View.read_writes_eq_canon _ _ _ (cover13_C_5 c i arg1 harg1 arg2 harg2 arg3 harg3 arg4 harg4 arg5 harg5 arg6 harg6 arg7 harg7 arg8 harg8 arg9 harg9 hc0 hc1 x0 x1 x2 x3 xs0 xs1)]
  unfold kernelRun13_C
  dsimp only
  try sl_unfold_words
  first
    | rw [View.canon_unit_zero hz2_13]
    | rw [View.canon_cons_unit_zero (S := S1x64) hz2_13]
  simp only [View.readAt_eq_ld, View.readCov_unit_zero (S := S1x64) _ hz2_13, harg1.read_unread, harg2.read_unread, harg3.read_unread, harg4.read_unread, harg8.read_unread, harg9.read_unread, View.ld_unit_zero (S := S5000x64) hz2_13, View.ld_unit_zero (S := S5000x1) hz2_13, View.ld_unit_zero (S := S64) hz1_13, View.ld_unit_zero (S := S1x64) hz2_13]

theorem out13_C_6_eq (c : Dev nD) (i : grid13.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond13_0 i) (hc1 : cond13_1 i)
    (x0 : Vec F S5000x64 .f32) (x1 : Vec F S5000x64 .f32) (x2 : Vec F S5000x1 .f32) (x3 : Vec F S64 .f32) (xs0 : Vec F S1x64 .f32) (xs1 : Vec F S1x64 .f32) :
    out13_C_6 c i arg1 harg1 arg2 harg2 arg3 harg3 arg4 harg4 arg5 harg5 arg6 harg6 arg7 harg7 arg8 harg8 arg9 harg9 hc0 hc1 x0 x1 x2 x3 xs0 xs1 = k13_pay1 (k13_pay6 x2 x0 x1 x3 xs1) := by
  unfold out13_C_6
  rw [View.read_writes_eq_canon _ _ _ (cover13_C_6 c i arg1 harg1 arg2 harg2 arg3 harg3 arg4 harg4 arg5 harg5 arg6 harg6 arg7 harg7 arg8 harg8 arg9 harg9 hc0 hc1 x0 x1 x2 x3 xs0 xs1)]
  unfold kernelRun13_C
  dsimp only
  try sl_unfold_words
  first
    | rw [View.canon_unit_zero hz2_13]
    | rw [View.canon_cons_unit_zero (S := S1x64) hz2_13]
  simp only [View.readAt_eq_ld, View.readCov_unit_zero (S := S1x64) _ hz2_13, harg1.read_unread, harg2.read_unread, harg3.read_unread, harg4.read_unread, harg8.read_unread, harg9.read_unread, View.ld_unit_zero (S := S5000x64) hz2_13, View.ld_unit_zero (S := S5000x1) hz2_13, View.ld_unit_zero (S := S64) hz1_13, View.ld_unit_zero (S := S1x64) hz2_13]

end Pieces

/-! ## Layout forms read at an index -/

/-- A column `[a, 1]` broadcast to `[a, b]` reads, at `(p, c)`, the column at row `p`. -/
theorem broadcastTo_a1_ab_apply_13 {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index over result index `q` of a reduction of `[5000, 64]` along the rows, with row `k` put back. -/
theorem lift_rows_13 (h : S5000x64.Reduces [0] S64) (q : Fin 64) (k : Fin 5000) : h.lift (ix1 q) k = ix2 k q := by
  funext a
  apply Fin.ext
  match a with
  | ⟨0, _⟩ => rfl
  | ⟨1, _⟩ => rfl

/-! ## The body's arithmetic at an index, over the extended reals -/

/-- The block the body stores into the first output: at row `p`, lane `q`,
    `max (neigh·dinv + xws·dinv + b) 0` of the loaded blocks, in the body's grouping. -/
theorem pay4_apply_13 (x0 x1 : FVec Ideal S5000x64 .f32) (x2 : FVec Ideal S5000x1 .f32) (x3 : FVec Ideal S64 .f32) (p : Fin 5000) (q : Fin 64) :
    k13_pay4 (F := Ideal) x2 x0 x1 x3 (ix2 p q)
      = max (x0 (ix2 p q) * x2 (ix2 p (0 : Fin 1)) + x1 (ix2 p q) * x2 (ix2 p (0 : Fin 1)) + x3 (ix1 q)) (Ideal.ofBits .f32 0x00000000#32) := by
  unfold k13_pay4
  simp only [shapeCast_self]
  show max (x0 (ix2 p q) * broadcastTo S5000x64 x2 _ (ix2 p q) + x1 (ix2 p q) * broadcastTo S5000x64 x2 _ (ix2 p q)
      + broadcastTo S5000x64 (shapeCast S1x64 x3 _) _ (ix2 p q)) _ = _
  rw [broadcastTo_a1_ab_apply_13, broadcastTo_1b_ab_apply, shapeCast_a_1a_apply]
  rfl

/-- The first accumulator after the body: what it held plus the column sums of the stored block. -/
theorem pay5_apply_13 (x0 x1 : FVec Ideal S5000x64 .f32) (x2 : FVec Ideal S5000x1 .f32) (x3 : FVec Ideal S64 .f32) (xs : FVec Ideal S1x64 .f32) (u : Fin 1) (q : Fin 64) :
    k13_pay5 (F := Ideal) x2 x0 x1 x3 xs (ix2 u q)
      = xs (ix2 u q) + ∑ k : Fin 5000, k13_pay4 (F := Ideal) x2 x0 x1 x3 (ix2 k q) := by
  unfold k13_pay5
  simp only [shapeCast_self]
  show xs (ix2 u q) + shapeCast S1x64 (multiReduction .add [0] S64 (k13_pay4 (F := Ideal) x2 x0 x1 x3) 0x00000000#32 _ _ _) _ (ix2 u q) = _
  rw [shapeCast_a_1a_apply]
  refine congrArg (xs (ix2 u q) + ·) ?_
  refine (Ideal.multiReduction_add_single _ _ _ _ _ (ix1 q)).trans ?_
  refine Finset.sum_congr rfl fun k _ => ?_
  exact congrArg (k13_pay4 (F := Ideal) x2 x0 x1 x3) (lift_rows_13 _ q k)

/-- The second accumulator after the body: what it held plus the column sums of the stored block's squares. -/
theorem pay6_apply_13 (x0 x1 : FVec Ideal S5000x64 .f32) (x2 : FVec Ideal S5000x1 .f32) (x3 : FVec Ideal S64 .f32) (xs : FVec Ideal S1x64 .f32) (u : Fin 1) (q : Fin 64) :
    k13_pay1 (F := Ideal) (k13_pay6 (F := Ideal) x2 x0 x1 x3 xs) (ix2 u q)
      = xs (ix2 u q) + ∑ k : Fin 5000, k13_pay4 (F := Ideal) x2 x0 x1 x3 (ix2 k q) * k13_pay4 (F := Ideal) x2 x0 x1 x3 (ix2 k q) := by
  unfold k13_pay1 k13_pay6
  simp only [shapeCast_self]
  show xs (ix2 u q) + shapeCast S1x64 (multiReduction .add [0] S64 (mulf (k13_pay4 (F := Ideal) x2 x0 x1 x3) (k13_pay4 (F := Ideal) x2 x0 x1 x3)) 0x00000000#32 _ _ _) _ (ix2 u q) = _
  rw [shapeCast_a_1a_apply]
  refine congrArg (xs (ix2 u q) + ·) ?_
  refine (Ideal.multiReduction_add_single _ _ _ _ _ (ix1 q)).trans ?_
  refine Finset.sum_congr rfl fun k _ => ?_
  exact congrArg (fun i => k13_pay4 (F := Ideal) x2 x0 x1 x3 i * k13_pay4 (F := Ideal) x2 x0 x1 x3 i) (lift_rows_13 _ q k)

/-- The zero blocks the first point stores into the accumulators are zero. -/
theorem pay2_apply_13 (j : S1x64.Idx) : k13_pay2 (F := Ideal) j = 0 := by
  unfold k13_pay2
  simp only [shapeCast_self]
  exact Ideal.ofBits_zero_f32
theorem pay3_apply_13 (j : S1x64.Idx) : k13_pay3 (F := Ideal) j = 0 := by
  unfold k13_pay3
  simp only [shapeCast_self]
  exact Ideal.ofBits_zero_f32

/-! ## The region's arrays and its stored block as functions of them -/

variable (V : (c : Dev nD) → (b : Ref sig .tc) → Buf (Elt Ideal) ((c : Thread nD τ).loc b))

/-- The region's four input arrays as the region finds them: the neighbour sums, the scaled features, the inverse
    square-root degrees, the bias. -/
abbrev neigh13 (c : Dev nD) : (⟨2, ![100000, 64]⟩ : Shape).Idx → EReal := V c (Pipeline.arrRef spec13 0)
abbrev xws13 (c : Dev nD) : (⟨2, ![100000, 64]⟩ : Shape).Idx → EReal := V c (Pipeline.arrRef spec13 1)
abbrev dinv13 (c : Dev nD) : (⟨2, ![100000, 1]⟩ : Shape).Idx → EReal := V c (Pipeline.arrRef spec13 2)
abbrev bias13 (c : Dev nD) : (⟨1, ![64]⟩ : Shape).Idx → EReal := V c (Pipeline.arrRef spec13 3)
/-- The rectified combine of the four arrays. -/
abbrev R13 (c : Dev nD) : (⟨2, ![100000, 64]⟩ : Shape).Idx → EReal :=
  Cert.Spec.statsRelu (neigh13 V c) (xws13 V c) (dinv13 V c) (bias13 V c)

/-- The printed index maps over the grid: the row-blocked windows sit at block `t`, the others at block 0. -/
theorem idx13 : ∀ t : Fin cfg13.N,
    win13_0.index t (0 : Fin 2) = t.val ∧ win13_0.index t (1 : Fin 2) = 0
    ∧ win13_1.index t (0 : Fin 2) = t.val ∧ win13_1.index t (1 : Fin 2) = 0
    ∧ win13_2.index t (0 : Fin 2) = t.val ∧ win13_2.index t (1 : Fin 2) = 0
    ∧ win13_3.index t (0 : Fin 1) = 0
    ∧ win13_4.index t (0 : Fin 2) = t.val ∧ win13_4.index t (1 : Fin 2) = 0 :=
  (by decide +kernel : ∀ t : Fin grid13.N, _)

/-- Row `p` of block `t` is row `5000 t + p` of the array. -/
def row13 (t : Fin cfg13.N) (p : Fin 5000) : Fin 100000 :=
  ⟨5000 * t.val + p.val, by have := t.isLt; have hN : cfg13.N = 20 := N_13; have := p.isLt; omega⟩

/-- The last grid point. -/
def t13_last : Fin cfg13.N := ⟨19, by rw [show cfg13.N = 20 from N_13]; decide⟩

/-- Each input window's block at point `t` read at its coordinates is the array at the block's rows. -/
theorem iblk13_0_apply (c : Dev nD) (t : Fin cfg13.N) (p : Fin 5000) (q : Fin 64) :
    (iblk13 V c 0 t : FVec Ideal S5000x64 .f32) (ix2 p q) = neigh13 V c (ix2 (row13 t p) q) := by
  obtain ⟨e0, e1, -⟩ := idx13 t
  unfold iblk13
  rw [View.read_apply]
  show V c (Pipeline.arrRef spec13 0) _ = V c (Pipeline.arrRef spec13 0) _
  refine congrArg (V c (Pipeline.arrRef spec13 0)) (funext fun a => Fin.ext ?_)
  match a with
  | ⟨0, _⟩ => show win13_0.index t 0 * 5000 + 1 * p.val = 5000 * t.val + p.val; rw [e0]; omega
  | ⟨1, _⟩ => show win13_0.index t 1 * 64 + 1 * q.val = q.val; rw [e1]; omega

theorem iblk13_1_apply (c : Dev nD) (t : Fin cfg13.N) (p : Fin 5000) (q : Fin 64) :
    (iblk13 V c 1 t : FVec Ideal S5000x64 .f32) (ix2 p q) = xws13 V c (ix2 (row13 t p) q) := by
  obtain ⟨-, -, e0, e1, -⟩ := idx13 t
  unfold iblk13
  rw [View.read_apply]
  show V c (Pipeline.arrRef spec13 1) _ = V c (Pipeline.arrRef spec13 1) _
  refine congrArg (V c (Pipeline.arrRef spec13 1)) (funext fun a => Fin.ext ?_)
  match a with
  | ⟨0, _⟩ => show win13_1.index t 0 * 5000 + 1 * p.val = 5000 * t.val + p.val; rw [e0]; omega
  | ⟨1, _⟩ => show win13_1.index t 1 * 64 + 1 * q.val = q.val; rw [e1]; omega

theorem iblk13_2_apply (c : Dev nD) (t : Fin cfg13.N) (p : Fin 5000) :
    (iblk13 V c 2 t : FVec Ideal S5000x1 .f32) (ix2 p (0 : Fin 1)) = dinv13 V c (ix2 (row13 t p) (0 : Fin 1)) := by
  obtain ⟨-, -, -, -, e0, e1, -⟩ := idx13 t
  unfold iblk13
  rw [View.read_apply]
  show V c (Pipeline.arrRef spec13 2) _ = V c (Pipeline.arrRef spec13 2) _
  refine congrArg (V c (Pipeline.arrRef spec13 2)) (funext fun a => Fin.ext ?_)
  match a with
  | ⟨0, _⟩ => show win13_2.index t 0 * 5000 + 1 * p.val = 5000 * t.val + p.val; rw [e0]; omega
  | ⟨1, _⟩ => show win13_2.index t 1 * 1 + 1 * 0 = 0; rw [e1]

theorem iblk13_3_apply (c : Dev nD) (t : Fin cfg13.N) (q : Fin 64) :
    (iblk13 V c 3 t : FVec Ideal S64 .f32) (ix1 q) = bias13 V c (ix1 q) := by
  obtain ⟨-, -, -, -, -, -, e0, -⟩ := idx13 t
  unfold iblk13
  rw [View.read_apply]
  show V c (Pipeline.arrRef spec13 3) _ = V c (Pipeline.arrRef spec13 3) _
  refine congrArg (V c (Pipeline.arrRef spec13 3)) (funext fun a => Fin.ext ?_)
  match a with
  | ⟨0, _⟩ => show win13_3.index t 0 * 64 + 1 * q.val = q.val; rw [e0]; omega

/-- The block the body stores at point `t` is the rectified combine at the block's rows. -/
theorem blk13_eq (c : Dev nD) (t : Fin cfg13.N) (p : Fin 5000) (q : Fin 64) :
    k13_pay4 (F := Ideal) (iblk13 V c 2 t) (iblk13 V c 0 t) (iblk13 V c 1 t) (iblk13 V c 3 t) (ix2 p q) = R13 V c (ix2 (row13 t p) q) := by
  refine (pay4_apply_13 (iblk13 V c 0 t) (iblk13 V c 1 t) (iblk13 V c 2 t) (iblk13 V c 3 t) p q).trans ?_
  rw [iblk13_0_apply V c t p q, iblk13_1_apply V c t p q, iblk13_2_apply V c t p, iblk13_3_apply V c t q]
  rfl

/-! ## The first output: one block per point -/

set_option maxHeartbeats 2000000 in
/-- At every point the first output's staging buffer is left at the stored block. -/
theorem outs13_fst (c : Dev nD) (t : Fin cfg13.N) :
    (outsAt13 V c t.val t.isLt).1 = k13_pay4 (F := Ideal) (iblk13 V c 2 t) (iblk13 V c 0 t) (iblk13 V c 1 t) (iblk13 V c 3 t) := by
  have hN : t.val < 20 := lt_of_lt_of_eq t.isLt (show cfg13.N = 20 from N_13)
  by_cases h0 : t.val % 20 = 0
  · have h1 : ¬t.val % 20 = 19 := by omega
    rw [outsAt13_A V c t h0 h1]
    dsimp only
    exact out13_A_4_eq (F := Ideal) c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) scM13_0 (Memref.isWhole_whole _) scM13_1 (Memref.isWhole_whole _) ((hcond13_0 t).mpr h0) (fun h => h1 ((hcond13_1 t).mp h)) (iblk13 V c 0 t) (iblk13 V c 1 t) (iblk13 V c 2 t) (iblk13 V c 3 t)
  · by_cases h1 : t.val % 20 = 19
    · rw [outsAt13_C V c t h0 h1]
      dsimp only
      exact out13_C_4_eq (F := Ideal) c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) scM13_0 (Memref.isWhole_whole _) scM13_1 (Memref.isWhole_whole _) (fun h => h0 ((hcond13_0 t).mp h)) ((hcond13_1 t).mpr h1) (iblk13 V c 0 t) (iblk13 V c 1 t) (iblk13 V c 2 t) (iblk13 V c 3 t) (outsAt13 V c (t.val - 1) (Nat.lt_of_le_of_lt (Nat.sub_le _ _) t.isLt)).2.2.2.1 (outsAt13 V c (t.val - 1) (Nat.lt_of_le_of_lt (Nat.sub_le _ _) t.isLt)).2.2.2.2
    · rw [outsAt13_B V c t h0 h1]
      dsimp only
      exact out13_B_4_eq (F := Ideal) c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) scM13_0 (Memref.isWhole_whole _) scM13_1 (Memref.isWhole_whole _) (fun h => h0 ((hcond13_0 t).mp h)) (fun h => h1 ((hcond13_1 t).mp h)) (iblk13 V c 0 t) (iblk13 V c 1 t) (iblk13 V c 2 t) (iblk13 V c 3 t) (outsAt13 V c (t.val - 1) (Nat.lt_of_le_of_lt (Nat.sub_le _ _) t.isLt)).2.2.2.1 (outsAt13 V c (t.val - 1) (Nat.lt_of_le_of_lt (Nat.sub_le _ _) t.isLt)).2.2.2.2

/-- What point `t` writes back is block `t` of the rectified combine of the arrays. -/
theorem flushed13_4_eq (c : Dev nD) (t : Fin cfg13.N) :
    (dat13 V c).flushed 4 t = ((cfg13.win 4).blk t).view.read (Elt Ideal) (R13 V c) := by
  show (cfg13.win 4).cut (grid13.coords t) ((dat13 V c).after 4 t) = _
  rw [after13_4, outs13_fst]
  obtain ⟨-, -, -, -, -, -, -, e0, e1⟩ := idx13 t
  funext j
  obtain ⟨p, q, rfl⟩ : ∃ (p : Fin 5000) (q : Fin 64), j = ix2 p q := ⟨j 0, j 1, eq_ix2 (n0 := 5000) (n1 := 64) j⟩
  rw [View.read_apply]
  show k13_pay4 (F := Ideal) (iblk13 V c 2 t) (iblk13 V c 0 t) (iblk13 V c 1 t) (iblk13 V c 3 t) (ix2 p q) = R13 V c (((cfg13.win 4).blk t).view.emb (ix2 p q))
  rw [blk13_eq V c t p q]
  refine congrArg (R13 V c) (funext fun a => Fin.ext ?_)
  match a with
  | ⟨0, _⟩ => show 5000 * t.val + p.val = win13_4.index t 0 * 5000 + 1 * p.val; rw [e0]; omega
  | ⟨1, _⟩ => show q.val = win13_4.index t 1 * 64 + 1 * q.val; rw [e1]; omega

/-- An index of the array is in point `t`'s block iff each coordinate is in the block's range on its axis. -/
theorem mem_blk13_4 (t : Fin cfg13.N) (i : (⟨2, ![100000, 64]⟩ : Shape).Idx) :
    i ∈ ((cfg13.win 4).blk t).view.set ↔ ∀ a : Fin 2, win13_4.index t a * S5000x64.size a ≤ (i a).val ∧ (i a).val < win13_4.index t a * S5000x64.size a + S5000x64.size a := by
  show i ∈ ((View.whole (Pipeline.arrRef spec13 4)).slice (win13_4.rect t)).set ↔ _
  rw [View.set_slice_whole, Rect.mem_set_unit]
  exact Iff.rfl

/-- So the first output's array ends holding the rectified combine: row `r` is covered by point `r / 5000`. -/
theorem final13_4 (c : Dev nD) :
    (dat13 (F := Ideal) V c).arrAt 4 cfg13.N = Cert.Spec.statsRelu (V c (Pipeline.arrRef spec13 0)) (V c (Pipeline.arrRef spec13 1)) (V c (Pipeline.arrRef spec13 2)) (V c (Pipeline.arrRef spec13 3)) :=
  (dat13 V c).arrAt_eq_of_cover 4 (R13 V c) (fun t _ => flushed13_4_eq V c t) fun i => by
    have hi0 : (i 0).val < 100000 := (i 0).isLt
    have hi1 : (i 1).val < 64 := (i 1).isLt
    have hN : cfg13.N = 20 := N_13
    obtain ⟨-, -, -, -, -, -, -, e0, e1⟩ := idx13 (⟨(i 0).val / 5000, by omega⟩ : Fin cfg13.N)
    refine ⟨⟨(i 0).val / 5000, by omega⟩, flush13_4 _, ?_⟩
    rw [mem_blk13_4]
    intro a
    match a with
    | ⟨0, _⟩ => show win13_4.index _ 0 * 5000 ≤ (i 0).val ∧ (i 0).val < win13_4.index _ 0 * 5000 + 5000
                rw [e0]; show (i 0).val / 5000 * 5000 ≤ (i 0).val ∧ (i 0).val < (i 0).val / 5000 * 5000 + 5000; omega
    | ⟨1, _⟩ => show win13_4.index _ 1 * 64 ≤ (i 1).val ∧ (i 1).val < win13_4.index _ 1 * 64 + 64
                rw [e1]; omega

/-! ## The two accumulators, by induction on the grid point -/

/-- Point `t'`'s contribution to lane `q` of the first accumulator: the column sum of the point's block. -/
def S13 (c : Dev nD) (t' : ℕ) (q : Fin 64) : EReal :=
  if h : t' < cfg13.N then ∑ k : Fin 5000, R13 V c (ix2 (row13 ⟨t', h⟩ k) q) else 0
/-- and of the second: the column sum of the squares. -/
def Q13 (c : Dev nD) (t' : ℕ) (q : Fin 64) : EReal :=
  if h : t' < cfg13.N then ∑ k : Fin 5000, R13 V c (ix2 (row13 ⟨t', h⟩ k) q) * R13 V c (ix2 (row13 ⟨t', h⟩ k) q) else 0

set_option maxHeartbeats 2000000 in
/-- At the first point accumulator 0 is zeroed and then holds the point's block sums. -/
theorem acc13_0_base (c : Dev nD) (t : Fin cfg13.N) (h0 : t.val % 20 = 0) (u : Fin 1) (q : Fin 64) :
    (outsAt13 V c t.val t.isLt).2.2.2.1 (ix2 u q) = S13 V c t.val q := by
  have hN : t.val < 20 := lt_of_lt_of_eq t.isLt (show cfg13.N = 20 from N_13)
  have h1 : ¬t.val % 20 = 19 := by omega
  have hS : S13 V c t.val q = ∑ k : Fin 5000, k13_pay4 (F := Ideal) (iblk13 V c 2 t) (iblk13 V c 0 t) (iblk13 V c 1 t) (iblk13 V c 3 t) (ix2 k q) := by
    unfold S13; rw [dif_pos t.isLt]
    exact Finset.sum_congr rfl fun k _ => by rw [blk13_eq V c t k q]
  rw [hS, outsAt13_A V c t h0 h1]
  dsimp only
  refine (congrFun (sout13_A_0_eq (F := Ideal) c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) scM13_0 (Memref.isWhole_whole _) scM13_1 (Memref.isWhole_whole _) ((hcond13_0 t).mpr h0) (fun h => h1 ((hcond13_1 t).mp h)) (iblk13 V c 0 t) (iblk13 V c 1 t) (iblk13 V c 2 t) (iblk13 V c 3 t)) (ix2 u q)).trans ?_
  refine (pay5_apply_13 (iblk13 V c 0 t) (iblk13 V c 1 t) (iblk13 V c 2 t) (iblk13 V c 3 t) (k13_pay2 (F := Ideal)) u q).trans ?_
  rw [pay2_apply_13, zero_add]

set_option maxHeartbeats 2000000 in
/-- At a later point accumulator 0 holds what the point before left plus the point's block sums. -/
theorem acc13_0_step (c : Dev nD) (t : Fin cfg13.N) (h0 : ¬t.val % 20 = 0) (u : Fin 1) (q : Fin 64) :
    (outsAt13 V c t.val t.isLt).2.2.2.1 (ix2 u q)
      = (outsAt13 V c (t.val - 1) (Nat.lt_of_le_of_lt (Nat.sub_le _ _) t.isLt)).2.2.2.1 (ix2 u q) + S13 V c t.val q := by
  have hS : S13 V c t.val q = ∑ k : Fin 5000, k13_pay4 (F := Ideal) (iblk13 V c 2 t) (iblk13 V c 0 t) (iblk13 V c 1 t) (iblk13 V c 3 t) (ix2 k q) := by
    unfold S13; rw [dif_pos t.isLt]
    exact Finset.sum_congr rfl fun k _ => by rw [blk13_eq V c t k q]
  rw [hS]
  by_cases h1 : t.val % 20 = 19
  · rw [outsAt13_C V c t h0 h1]
    dsimp only
    refine (congrFun (sout13_C_0_eq (F := Ideal) c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) scM13_0 (Memref.isWhole_whole _) scM13_1 (Memref.isWhole_whole _) (fun h => h0 ((hcond13_0 t).mp h)) ((hcond13_1 t).mpr h1) (iblk13 V c 0 t) (iblk13 V c 1 t) (iblk13 V c 2 t) (iblk13 V c 3 t) (outsAt13 V c (t.val - 1) (Nat.lt_of_le_of_lt (Nat.sub_le _ _) t.isLt)).2.2.2.1 (outsAt13 V c (t.val - 1) (Nat.lt_of_le_of_lt (Nat.sub_le _ _) t.isLt)).2.2.2.2) (ix2 u q)).trans ?_
    exact pay5_apply_13 (iblk13 V c 0 t) (iblk13 V c 1 t) (iblk13 V c 2 t) (iblk13 V c 3 t) ((outsAt13 V c (t.val - 1) (Nat.lt_of_le_of_lt (Nat.sub_le _ _) t.isLt)).2.2.2.1) u q
  · rw [outsAt13_B V c t h0 h1]
    dsimp only
    refine (congrFun (sout13_B_0_eq (F := Ideal) c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) scM13_0 (Memref.isWhole_whole _) scM13_1 (Memref.isWhole_whole _) (fun h => h0 ((hcond13_0 t).mp h)) (fun h => h1 ((hcond13_1 t).mp h)) (iblk13 V c 0 t) (iblk13 V c 1 t) (iblk13 V c 2 t) (iblk13 V c 3 t) (outsAt13 V c (t.val - 1) (Nat.lt_of_le_of_lt (Nat.sub_le _ _) t.isLt)).2.2.2.1 (outsAt13 V c (t.val - 1) (Nat.lt_of_le_of_lt (Nat.sub_le _ _) t.isLt)).2.2.2.2) (ix2 u q)).trans ?_
    exact pay5_apply_13 (iblk13 V c 0 t) (iblk13 V c 1 t) (iblk13 V c 2 t) (iblk13 V c 3 t) ((outsAt13 V c (t.val - 1) (Nat.lt_of_le_of_lt (Nat.sub_le _ _) t.isLt)).2.2.2.1) u q

/-- Accumulator 0 after point `n`, lane `q`: the sum over the points so far of the point's block sums. -/
theorem acc13_0 (c : Dev nD) : ∀ (n : ℕ) (hn : n < cfg13.N) (u : Fin 1) (q : Fin 64),
    (outsAt13 V c n hn).2.2.2.1 (ix2 u q) = ∑ t' ∈ Finset.range (n + 1), S13 V c t' q
  | 0, hn, u, q => by
    rw [Finset.sum_range_one]
    exact acc13_0_base V c ⟨0, hn⟩ rfl u q
  | n + 1, hn, u, q => by
    have hN : cfg13.N = 20 := N_13
    rw [Finset.sum_range_succ _ (n + 1), ← acc13_0 c n (Nat.lt_of_succ_lt hn) u q]
    exact acc13_0_step V c ⟨n + 1, hn⟩ (by dsimp only; omega) u q

set_option maxHeartbeats 2000000 in
/-- At the first point accumulator 1 is zeroed and then holds the point's block sums. -/
theorem acc13_1_base (c : Dev nD) (t : Fin cfg13.N) (h0 : t.val % 20 = 0) (u : Fin 1) (q : Fin 64) :
    (outsAt13 V c t.val t.isLt).2.2.2.2 (ix2 u q) = Q13 V c t.val q := by
  have hN : t.val < 20 := lt_of_lt_of_eq t.isLt (show cfg13.N = 20 from N_13)
  have h1 : ¬t.val % 20 = 19 := by omega
  have hS : Q13 V c t.val q = ∑ k : Fin 5000, k13_pay4 (F := Ideal) (iblk13 V c 2 t) (iblk13 V c 0 t) (iblk13 V c 1 t) (iblk13 V c 3 t) (ix2 k q) * k13_pay4 (F := Ideal) (iblk13 V c 2 t) (iblk13 V c 0 t) (iblk13 V c 1 t) (iblk13 V c 3 t) (ix2 k q) := by
    unfold Q13; rw [dif_pos t.isLt]
    exact Finset.sum_congr rfl fun k _ => by rw [blk13_eq V c t k q]
  rw [hS, outsAt13_A V c t h0 h1]
  dsimp only
  refine (congrFun (sout13_A_1_eq (F := Ideal) c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) scM13_0 (Memref.isWhole_whole _) scM13_1 (Memref.isWhole_whole _) ((hcond13_0 t).mpr h0) (fun h => h1 ((hcond13_1 t).mp h)) (iblk13 V c 0 t) (iblk13 V c 1 t) (iblk13 V c 2 t) (iblk13 V c 3 t)) (ix2 u q)).trans ?_
  refine (pay6_apply_13 (iblk13 V c 0 t) (iblk13 V c 1 t) (iblk13 V c 2 t) (iblk13 V c 3 t) (k13_pay3 (F := Ideal)) u q).trans ?_
  rw [pay3_apply_13, zero_add]

set_option maxHeartbeats 2000000 in
/-- At a later point accumulator 1 holds what the point before left plus the point's block sums. -/
theorem acc13_1_step (c : Dev nD) (t : Fin cfg13.N) (h0 : ¬t.val % 20 = 0) (u : Fin 1) (q : Fin 64) :
    (outsAt13 V c t.val t.isLt).2.2.2.2 (ix2 u q)
      = (outsAt13 V c (t.val - 1) (Nat.lt_of_le_of_lt (Nat.sub_le _ _) t.isLt)).2.2.2.2 (ix2 u q) + Q13 V c t.val q := by
  have hS : Q13 V c t.val q = ∑ k : Fin 5000, k13_pay4 (F := Ideal) (iblk13 V c 2 t) (iblk13 V c 0 t) (iblk13 V c 1 t) (iblk13 V c 3 t) (ix2 k q) * k13_pay4 (F := Ideal) (iblk13 V c 2 t) (iblk13 V c 0 t) (iblk13 V c 1 t) (iblk13 V c 3 t) (ix2 k q) := by
    unfold Q13; rw [dif_pos t.isLt]
    exact Finset.sum_congr rfl fun k _ => by rw [blk13_eq V c t k q]
  rw [hS]
  by_cases h1 : t.val % 20 = 19
  · rw [outsAt13_C V c t h0 h1]
    dsimp only
    refine (congrFun (sout13_C_1_eq (F := Ideal) c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) scM13_0 (Memref.isWhole_whole _) scM13_1 (Memref.isWhole_whole _) (fun h => h0 ((hcond13_0 t).mp h)) ((hcond13_1 t).mpr h1) (iblk13 V c 0 t) (iblk13 V c 1 t) (iblk13 V c 2 t) (iblk13 V c 3 t) (outsAt13 V c (t.val - 1) (Nat.lt_of_le_of_lt (Nat.sub_le _ _) t.isLt)).2.2.2.1 (outsAt13 V c (t.val - 1) (Nat.lt_of_le_of_lt (Nat.sub_le _ _) t.isLt)).2.2.2.2) (ix2 u q)).trans ?_
    exact pay6_apply_13 (iblk13 V c 0 t) (iblk13 V c 1 t) (iblk13 V c 2 t) (iblk13 V c 3 t) ((outsAt13 V c (t.val - 1) (Nat.lt_of_le_of_lt (Nat.sub_le _ _) t.isLt)).2.2.2.2) u q
  · rw [outsAt13_B V c t h0 h1]
    dsimp only
    refine (congrFun (sout13_B_1_eq (F := Ideal) c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) scM13_0 (Memref.isWhole_whole _) scM13_1 (Memref.isWhole_whole _) (fun h => h0 ((hcond13_0 t).mp h)) (fun h => h1 ((hcond13_1 t).mp h)) (iblk13 V c 0 t) (iblk13 V c 1 t) (iblk13 V c 2 t) (iblk13 V c 3 t) (outsAt13 V c (t.val - 1) (Nat.lt_of_le_of_lt (Nat.sub_le _ _) t.isLt)).2.2.2.1 (outsAt13 V c (t.val - 1) (Nat.lt_of_le_of_lt (Nat.sub_le _ _) t.isLt)).2.2.2.2) (ix2 u q)).trans ?_
    exact pay6_apply_13 (iblk13 V c 0 t) (iblk13 V c 1 t) (iblk13 V c 2 t) (iblk13 V c 3 t) ((outsAt13 V c (t.val - 1) (Nat.lt_of_le_of_lt (Nat.sub_le _ _) t.isLt)).2.2.2.2) u q

/-- Accumulator 1 after point `n`, lane `q`: the sum over the points so far of the point's block sums. -/
theorem acc13_1 (c : Dev nD) : ∀ (n : ℕ) (hn : n < cfg13.N) (u : Fin 1) (q : Fin 64),
    (outsAt13 V c n hn).2.2.2.2 (ix2 u q) = ∑ t' ∈ Finset.range (n + 1), Q13 V c t' q
  | 0, hn, u, q => by
    rw [Finset.sum_range_one]
    exact acc13_1_base V c ⟨0, hn⟩ rfl u q
  | n + 1, hn, u, q => by
    have hN : cfg13.N = 20 := N_13
    rw [Finset.sum_range_succ _ (n + 1), ← acc13_1 c n (Nat.lt_of_succ_lt hn) u q]
    exact acc13_1_step V c ⟨n + 1, hn⟩ (by dsimp only; omega) u q

/-- The 20 points' block sums are the sum over all 100000 rows. -/
theorem regroupS13 (c : Dev nD) (q : Fin 64) : ∑ t' ∈ Finset.range (19 + 1), S13 V c t' q = Cert.Spec.colSum (R13 V c) (ix2 (0 : Fin 1) q) := by
  have hN : cfg13.N = 20 := N_13
  rw [← Fin.sum_univ_eq_sum_range (fun t' => S13 V c t' q) 20]
  refine Eq.trans (Finset.sum_congr rfl fun t _ => ?_) (Cert.Spec.sum_blocks (fun r => R13 V c (ix2 r q)))
  unfold S13; rw [dif_pos (by rw [hN]; exact t.isLt)]; rfl
theorem regroupQ13 (c : Dev nD) (q : Fin 64) : ∑ t' ∈ Finset.range (19 + 1), Q13 V c t' q = Cert.Spec.colSumSq (R13 V c) (ix2 (0 : Fin 1) q) := by
  have hN : cfg13.N = 20 := N_13
  rw [← Fin.sum_univ_eq_sum_range (fun t' => Q13 V c t' q) 20]
  refine Eq.trans (Finset.sum_congr rfl fun t _ => ?_) (Cert.Spec.sum_blocks (fun r => R13 V c (ix2 r q) * R13 V c (ix2 r q)))
  unfold Q13; rw [dif_pos (by rw [hN]; exact t.isLt)]; rfl

/-! ## The two statistics outputs: written once, after the last point -/

/-- At the last point output 5 is stored from accumulator 0: the same contents. -/
theorem outs13_5_last (c : Dev nD) (t : Fin cfg13.N) (h0 : ¬t.val % 20 = 0) (h1 : t.val % 20 = 19) :
    (outsAt13 V c t.val t.isLt).2.1 = (outsAt13 V c t.val t.isLt).2.2.2.1 := by
  rw [outsAt13_C V c t h0 h1]
  dsimp only
  exact (out13_C_5_eq (F := Ideal) c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) scM13_0 (Memref.isWhole_whole _) scM13_1 (Memref.isWhole_whole _) (fun h => h0 ((hcond13_0 t).mp h)) ((hcond13_1 t).mpr h1) (iblk13 V c 0 t) (iblk13 V c 1 t) (iblk13 V c 2 t) (iblk13 V c 3 t) (outsAt13 V c (t.val - 1) (Nat.lt_of_le_of_lt (Nat.sub_le _ _) t.isLt)).2.2.2.1 (outsAt13 V c (t.val - 1) (Nat.lt_of_le_of_lt (Nat.sub_le _ _) t.isLt)).2.2.2.2).trans (sout13_C_0_eq (F := Ideal) c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) scM13_0 (Memref.isWhole_whole _) scM13_1 (Memref.isWhole_whole _) (fun h => h0 ((hcond13_0 t).mp h)) ((hcond13_1 t).mpr h1) (iblk13 V c 0 t) (iblk13 V c 1 t) (iblk13 V c 2 t) (iblk13 V c 3 t) (outsAt13 V c (t.val - 1) (Nat.lt_of_le_of_lt (Nat.sub_le _ _) t.isLt)).2.2.2.1 (outsAt13 V c (t.val - 1) (Nat.lt_of_le_of_lt (Nat.sub_le _ _) t.isLt)).2.2.2.2).symm

/-- So after the last point output 5's staging buffer holds the column sums over all 100000 rows. -/
theorem after13_5_last (c : Dev nD) (t : Fin cfg13.N) (h19 : t.val = 19) :
    (outsAt13 V c t.val t.isLt).2.1 = Cert.Spec.colSum (R13 V c) := by
  rw [outs13_5_last V c t (by omega) (by omega)]
  funext j
  obtain ⟨u, q, rfl⟩ : ∃ (u : Fin 1) (q : Fin 64), j = ix2 u q := ⟨j 0, j 1, eq_ix2 (n0 := 1) (n1 := 64) j⟩
  rw [acc13_0 V c t.val t.isLt u q, h19]
  exact regroupS13 V c q

/-- The one write-back of output 5, at the last point, writes that: the block is the whole `[1, 64]` array. -/
theorem flushed13_5_eq (c : Dev nD) (t : Fin cfg13.N) (hf : (cfg13.win 5).flush t = true) :
    (dat13 V c).flushed 5 t = ((cfg13.win 5).blk t).view.read (Elt Ideal) (Cert.Spec.colSum (R13 V c)) := by
  have hN : cfg13.N = 20 := N_13
  have h19 : t.val = 19 := by have := (flush13_5 t).mp hf; have := t.isLt; omega
  show (cfg13.win 5).cut (grid13.coords t) ((dat13 V c).after 5 t) = _
  rw [after13_5, after13_5_last V c t h19]
  obtain rfl : t = t13_last := Fin.ext h19
  have hz' : (fun a => win13_5.index t13_last a * (Pipeline.arrRef spec13 5).ty.shape.size a) = fun _ => 0 := funext fun a => by fin_cases a <;> decide +kernel
  exact (Memref.read_access_unit_zero (Elt Ideal) (Pipeline.arrRef spec13 5) hz' (fun a => by rw [congrFun hz' a]; simp) (Cert.Spec.colSum (R13 V c))).symm

/-- So output 5's array ends holding the column sums of the rectified combine. -/
theorem final13_5 (c : Dev nD) :
    (dat13 (F := Ideal) V c).arrAt 5 cfg13.N = Cert.Spec.colSum (Cert.Spec.statsRelu (V c (Pipeline.arrRef spec13 0)) (V c (Pipeline.arrRef spec13 1)) (V c (Pipeline.arrRef spec13 2)) (V c (Pipeline.arrRef spec13 3))) :=
  (dat13 V c).arrAt_eq_of_cover 5 (Cert.Spec.colSum (R13 V c)) (flushed13_5_eq V c) fun i =>
    ⟨t13_last, (flush13_5 t13_last).mpr rfl, by
      show i ∈ ((View.whole (Pipeline.arrRef spec13 5)).slice (win13_5.rect t13_last)).set
      rw [View.set_slice_whole, Rect.mem_set_unit]
      intro a
      have h0 : (i 0 : Nat) < 1 := (i 0).isLt
      have h1 : (i 1 : Nat) < 64 := (i 1).isLt
      match a with
      | ⟨0, _⟩ => show win13_5.index t13_last 0 * win13_5.size 0 ≤ (i 0 : Nat) ∧ (i 0 : Nat) < win13_5.index t13_last 0 * win13_5.size 0 + win13_5.xsize (grid13.coords t13_last) 0
                  rw [show win13_5.index t13_last 0 * win13_5.size 0 = 0 from by decide +kernel, show win13_5.xsize (grid13.coords t13_last) 0 = 1 from by decide +kernel]; omega
      | ⟨1, _⟩ => show win13_5.index t13_last 1 * win13_5.size 1 ≤ (i 1 : Nat) ∧ (i 1 : Nat) < win13_5.index t13_last 1 * win13_5.size 1 + win13_5.xsize (grid13.coords t13_last) 1
                  rw [show win13_5.index t13_last 1 * win13_5.size 1 = 0 from by decide +kernel, show win13_5.xsize (grid13.coords t13_last) 1 = 64 from by decide +kernel]; omega⟩

/-- At the last point output 6 is stored from accumulator 1: the same contents. -/
theorem outs13_6_last (c : Dev nD) (t : Fin cfg13.N) (h0 : ¬t.val % 20 = 0) (h1 : t.val % 20 = 19) :
    (outsAt13 V c t.val t.isLt).2.2.1 = (outsAt13 V c t.val t.isLt).2.2.2.2 := by
  rw [outsAt13_C V c t h0 h1]
  dsimp only
  exact (out13_C_6_eq (F := Ideal) c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) scM13_0 (Memref.isWhole_whole _) scM13_1 (Memref.isWhole_whole _) (fun h => h0 ((hcond13_0 t).mp h)) ((hcond13_1 t).mpr h1) (iblk13 V c 0 t) (iblk13 V c 1 t) (iblk13 V c 2 t) (iblk13 V c 3 t) (outsAt13 V c (t.val - 1) (Nat.lt_of_le_of_lt (Nat.sub_le _ _) t.isLt)).2.2.2.1 (outsAt13 V c (t.val - 1) (Nat.lt_of_le_of_lt (Nat.sub_le _ _) t.isLt)).2.2.2.2).trans (sout13_C_1_eq (F := Ideal) c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) scM13_0 (Memref.isWhole_whole _) scM13_1 (Memref.isWhole_whole _) (fun h => h0 ((hcond13_0 t).mp h)) ((hcond13_1 t).mpr h1) (iblk13 V c 0 t) (iblk13 V c 1 t) (iblk13 V c 2 t) (iblk13 V c 3 t) (outsAt13 V c (t.val - 1) (Nat.lt_of_le_of_lt (Nat.sub_le _ _) t.isLt)).2.2.2.1 (outsAt13 V c (t.val - 1) (Nat.lt_of_le_of_lt (Nat.sub_le _ _) t.isLt)).2.2.2.2).symm

/-- So after the last point output 6's staging buffer holds the column sums of squares over all 100000 rows. -/
theorem after13_6_last (c : Dev nD) (t : Fin cfg13.N) (h19 : t.val = 19) :
    (outsAt13 V c t.val t.isLt).2.2.1 = Cert.Spec.colSumSq (R13 V c) := by
  rw [outs13_6_last V c t (by omega) (by omega)]
  funext j
  obtain ⟨u, q, rfl⟩ : ∃ (u : Fin 1) (q : Fin 64), j = ix2 u q := ⟨j 0, j 1, eq_ix2 (n0 := 1) (n1 := 64) j⟩
  rw [acc13_1 V c t.val t.isLt u q, h19]
  exact regroupQ13 V c q

/-- The one write-back of output 6, at the last point, writes that: the block is the whole `[1, 64]` array. -/
theorem flushed13_6_eq (c : Dev nD) (t : Fin cfg13.N) (hf : (cfg13.win 6).flush t = true) :
    (dat13 V c).flushed 6 t = ((cfg13.win 6).blk t).view.read (Elt Ideal) (Cert.Spec.colSumSq (R13 V c)) := by
  have hN : cfg13.N = 20 := N_13
  have h19 : t.val = 19 := by have := (flush13_6 t).mp hf; have := t.isLt; omega
  show (cfg13.win 6).cut (grid13.coords t) ((dat13 V c).after 6 t) = _
  rw [after13_6, after13_6_last V c t h19]
  obtain rfl : t = t13_last := Fin.ext h19
  have hz' : (fun a => win13_6.index t13_last a * (Pipeline.arrRef spec13 6).ty.shape.size a) = fun _ => 0 := funext fun a => by fin_cases a <;> decide +kernel
  exact (Memref.read_access_unit_zero (Elt Ideal) (Pipeline.arrRef spec13 6) hz' (fun a => by rw [congrFun hz' a]; simp) (Cert.Spec.colSumSq (R13 V c))).symm

/-- So output 6's array ends holding the column sums of squares of the rectified combine. -/
theorem final13_6 (c : Dev nD) :
    (dat13 (F := Ideal) V c).arrAt 6 cfg13.N = Cert.Spec.colSumSq (Cert.Spec.statsRelu (V c (Pipeline.arrRef spec13 0)) (V c (Pipeline.arrRef spec13 1)) (V c (Pipeline.arrRef spec13 2)) (V c (Pipeline.arrRef spec13 3))) :=
  (dat13 V c).arrAt_eq_of_cover 6 (Cert.Spec.colSumSq (R13 V c)) (flushed13_6_eq V c) fun i =>
    ⟨t13_last, (flush13_6 t13_last).mpr rfl, by
      show i ∈ ((View.whole (Pipeline.arrRef spec13 6)).slice (win13_6.rect t13_last)).set
      rw [View.set_slice_whole, Rect.mem_set_unit]
      intro a
      have h0 : (i 0 : Nat) < 1 := (i 0).isLt
      have h1 : (i 1 : Nat) < 64 := (i 1).isLt
      match a with
      | ⟨0, _⟩ => show win13_6.index t13_last 0 * win13_6.size 0 ≤ (i 0 : Nat) ∧ (i 0 : Nat) < win13_6.index t13_last 0 * win13_6.size 0 + win13_6.xsize (grid13.coords t13_last) 0
                  rw [show win13_6.index t13_last 0 * win13_6.size 0 = 0 from by decide +kernel, show win13_6.xsize (grid13.coords t13_last) 0 = 1 from by decide +kernel]; omega
      | ⟨1, _⟩ => show win13_6.index t13_last 1 * win13_6.size 1 ≤ (i 1 : Nat) ∧ (i 1 : Nat) < win13_6.index t13_last 1 * win13_6.size 1 + win13_6.xsize (grid13.coords t13_last) 1
                  rw [show win13_6.index t13_last 1 * win13_6.size 1 = 0 from by decide +kernel, show win13_6.xsize (grid13.coords t13_last) 1 = 64 from by decide +kernel]; omega⟩

end Cert.KernelIdeal.Val

end
-- ==== Proof.LibVariance.lean ====
/-
  The two forms of a variance.

  A batch normalisation's variance is written either as the mean of the squared deviations
  from the mean, `(∑ (x i - μ)²) / n` with `μ = (∑ x i) / n`, or as the mean of the squares
  minus the squared mean, `(∑ x i²) / n - μ * μ`.  Over the reals the two agree whenever `n` is
  the number of summands: `∑ (x i - μ)² = ∑ x i² - 2 μ ∑ x i + n μ² = ∑ x i² - n μ²`.  Over the
  extended reals they do NOT agree in general (with an infinite entry the first is `⊤`, the
  second `⊤ - ⊤ = ⊥`), so the law below assumes every summand is (the coercion of) a real
  number, moves to `ℝ` through the coercion and computes there.

  * `real_variance_forms`  : the identity in `ℝ`, over a finite set with `n` elements.
  * `variance_forms`       : the same between extended-real expressions with real summands,
                              with the quotients spelt `Ideal.div` (the exact quotient of the
                              ideal instance), over a finite set `s` with `(s.card : ℝ) = n`.
  * `variance_forms_univ`  : the same over a whole finite index type.
  * `isReal_mean`, `isReal_variance`, `variance_nonneg` : the mean and the variance of a real
    family are real, and the variance (in the deviation form) is nonnegative for `0 < n`;
    `isPosReal_variance_add` : adding a positive real (the `eps` under the reciprocal square
    root) gives a positive real, in either form.
-/
import proofs.«173191_j73083163508880_2_alg».proof.Proof.LibFinite

noncomputable section

namespace Cert.LibVariance

open Idealize.ShloMosaic Cert.LibFinite
open scoped BigOperators

/-! ### In the reals -/

/-- Sum of squared deviations from any centre `μ`: `∑ (f i - μ)² = ∑ f i² - 2 μ ∑ f i + |s| μ²`. -/
theorem real_sum_sq_dev {ι : Type*} (s : Finset ι) (f : ι → ℝ) (μ : ℝ) :
    ∑ i ∈ s, (f i - μ) * (f i - μ) = ∑ i ∈ s, f i * f i - 2 * μ * ∑ i ∈ s, f i + (s.card : ℝ) * (μ * μ) := by
  have h : ∀ i, (f i - μ) * (f i - μ) = f i * f i - 2 * μ * f i + μ * μ := fun i => by ring
  simp only [h, Finset.sum_add_distrib, Finset.sum_sub_distrib, ← Finset.mul_sum, Finset.sum_const, nsmul_eq_mul]
  ring

/-- The two forms of a variance agree in `ℝ` when `n` is the number of summands. -/
theorem real_variance_forms {ι : Type*} (s : Finset ι) (f : ι → ℝ) {n : ℝ} (hn : n ≠ 0) (hcard : (s.card : ℝ) = n) :
    (∑ i ∈ s, (f i - (∑ i ∈ s, f i) / n) * (f i - (∑ i ∈ s, f i) / n)) / n
      = (∑ i ∈ s, f i * f i) / n - (∑ i ∈ s, f i) / n * ((∑ i ∈ s, f i) / n) := by
  rw [real_sum_sq_dev, hcard]
  field_simp
  ring

/-! ### In the extended reals, real summands -/

/-- The mean of a real family (any nonzero real divisor) is real. -/
theorem isReal_mean {ι : Type*} (s : Finset ι) {x : ι → EReal} (hx : ∀ i ∈ s, IsReal (x i)) {n : ℝ} (hn : n ≠ 0) :
    IsReal (Ideal.div (∑ i ∈ s, x i) (n : EReal)) :=
  (IsReal.sum s x hx).div (isReal_coe n) (fun h => hn (EReal.coe_eq_zero.mp h))

/-- The two forms of a variance agree between extended-real expressions whose summands are real,
    when the real divisor `n` is the number of summands. -/
theorem variance_forms {ι : Type*} (s : Finset ι) {x : ι → EReal} (hx : ∀ i ∈ s, IsReal (x i)) {n : ℝ} (hn : n ≠ 0)
    (hcard : (s.card : ℝ) = n) :
    Ideal.div (∑ i ∈ s, (x i - Ideal.div (∑ i ∈ s, x i) (n : EReal)) * (x i - Ideal.div (∑ i ∈ s, x i) (n : EReal))) (n : EReal)
      = Ideal.div (∑ i ∈ s, x i * x i) (n : EReal)
        - Ideal.div (∑ i ∈ s, x i) (n : EReal) * Ideal.div (∑ i ∈ s, x i) (n : EReal) := by
  classical
  -- real witnesses on `s`; outside `s` the value is irrelevant
  have hx' : ∀ i ∈ s, x i = ((x i).toReal : EReal) := fun i hi => ((hx i hi).coe_toReal).symm
  set f : ι → ℝ := fun i => (x i).toReal with hf
  have e1 : ∑ i ∈ s, x i = ((∑ i ∈ s, f i : ℝ) : EReal) := by
    rw [coe_finset_sum]; exact Finset.sum_congr rfl fun i hi => hx' i hi
  have e2 : ∑ i ∈ s, x i * x i = ((∑ i ∈ s, f i * f i : ℝ) : EReal) := by
    rw [coe_finset_sum]
    exact Finset.sum_congr rfl fun i hi => by rw [EReal.coe_mul, ← hx' i hi]
  have e3 : ∑ i ∈ s, (x i - Ideal.div (∑ i ∈ s, x i) (n : EReal)) * (x i - Ideal.div (∑ i ∈ s, x i) (n : EReal))
      = ((∑ i ∈ s, (f i - (∑ i ∈ s, f i) / n) * (f i - (∑ i ∈ s, f i) / n) : ℝ) : EReal) := by
    rw [coe_finset_sum, e1, div_coe_coe _ hn]
    exact Finset.sum_congr rfl fun i hi => by rw [EReal.coe_mul, EReal.coe_sub, ← hx' i hi]
  rw [e3, e2, e1, div_coe_coe _ hn, div_coe_coe _ hn, div_coe_coe _ hn, ← EReal.coe_mul, ← EReal.coe_sub,
    real_variance_forms s f hn hcard]

/-- The two forms of a variance over a whole finite index type with `n` elements. -/
theorem variance_forms_univ {ι : Type*} [Fintype ι] {x : ι → EReal} (hx : AllReal x) {n : ℝ} (hn : n ≠ 0)
    (hcard : (Fintype.card ι : ℝ) = n) :
    Ideal.div (∑ i, (x i - Ideal.div (∑ i, x i) (n : EReal)) * (x i - Ideal.div (∑ i, x i) (n : EReal))) (n : EReal)
      = Ideal.div (∑ i, x i * x i) (n : EReal) - Ideal.div (∑ i, x i) (n : EReal) * Ideal.div (∑ i, x i) (n : EReal) :=
  variance_forms Finset.univ (fun i _ => hx i) hn (by rw [Finset.card_univ]; exact hcard)

/-- The variance of a real family, in the deviation form, is real. -/
theorem isReal_variance {ι : Type*} (s : Finset ι) {x : ι → EReal} (hx : ∀ i ∈ s, IsReal (x i)) {n : ℝ} (hn : n ≠ 0) :
    IsReal (Ideal.div (∑ i ∈ s, (x i - Ideal.div (∑ i ∈ s, x i) (n : EReal)) * (x i - Ideal.div (∑ i ∈ s, x i) (n : EReal)))
      (n : EReal)) :=
  (IsReal.sum s _ fun i hi => ((hx i hi).sub (isReal_mean s hx hn)).mul ((hx i hi).sub (isReal_mean s hx hn))).div
    (isReal_coe n) (fun h => hn (EReal.coe_eq_zero.mp h))

/-- The variance of a real family, in the deviation form, is nonnegative for a positive divisor. -/
theorem variance_nonneg {ι : Type*} (s : Finset ι) {x : ι → EReal} (hx : ∀ i ∈ s, IsReal (x i)) {n : ℝ} (hn : 0 < n) :
    0 ≤ Ideal.div (∑ i ∈ s, (x i - Ideal.div (∑ i ∈ s, x i) (n : EReal)) * (x i - Ideal.div (∑ i ∈ s, x i) (n : EReal)))
      (n : EReal) := by
  have hm := isReal_mean s hx hn.ne'
  have hs : IsReal (∑ i ∈ s, (x i - Ideal.div (∑ i ∈ s, x i) (n : EReal)) * (x i - Ideal.div (∑ i ∈ s, x i) (n : EReal))) :=
    IsReal.sum s _ fun i hi => ((hx i hi).sub hm).mul ((hx i hi).sub hm)
  have h0 : 0 ≤ ∑ i ∈ s, (x i - Ideal.div (∑ i ∈ s, x i) (n : EReal)) * (x i - Ideal.div (∑ i ∈ s, x i) (n : EReal)) :=
    sum_mul_self_nonneg s fun i hi => (hx i hi).sub hm
  obtain ⟨a, ha⟩ := hs
  rw [ha] at h0 ⊢
  rw [div_coe_coe a hn.ne']
  exact EReal.coe_nonneg.mpr (div_nonneg (EReal.coe_nonneg.mp h0) hn.le)

/-- The variance plus a positive real is a positive real (the argument of the reciprocal square root),
    in the deviation form. -/
theorem isPosReal_variance_add {ι : Type*} (s : Finset ι) {x : ι → EReal} (hx : ∀ i ∈ s, IsReal (x i)) {n : ℝ} (hn : 0 < n)
    {eps : EReal} (heps : IsPosReal eps) :
    IsPosReal (Ideal.div (∑ i ∈ s, (x i - Ideal.div (∑ i ∈ s, x i) (n : EReal)) * (x i - Ideal.div (∑ i ∈ s, x i) (n : EReal)))
      (n : EReal) + eps) :=
  IsPosReal.nonneg_add (isReal_variance s hx hn.ne') (variance_nonneg s hx hn) heps

/-- The same in the mean-of-squares form, when `n` is the number of summands. -/
theorem isPosReal_variance_add' {ι : Type*} (s : Finset ι) {x : ι → EReal} (hx : ∀ i ∈ s, IsReal (x i)) {n : ℝ} (hn : 0 < n)
    (hcard : (s.card : ℝ) = n) {eps : EReal} (heps : IsPosReal eps) :
    IsPosReal (Ideal.div (∑ i ∈ s, x i * x i) (n : EReal)
      - Ideal.div (∑ i ∈ s, x i) (n : EReal) * Ideal.div (∑ i ∈ s, x i) (n : EReal) + eps) := by
  rw [← variance_forms s hx hn.ne' hcard]
  exact isPosReal_variance_add s hx hn heps

end Cert.LibVariance

end
-- ==== Proof.LibLayers.lean ====
/-
  The three layer laws of a graph network, between extended-real expressions.

  * Neighbour-mean layer: the two sides add the same three terms — the aggregated neighbours times one weight
    matrix, the node's own features times another, and a bias — in two orders, `(a + c) + b` against
    `(a + b) + c`. Addition of extended reals is commutative and associative, so no finiteness is needed;
    the normalisation by the row's norm and the rectifier that follow are the same function of that sum.
  * Normalised-adjacency layer: with the degree `g` of a node (its in-degree plus one for the self loop, a
    positive real) and `r = rsqrt g`, one side scales each incoming edge's term by `r(source) * r(node)` and
    divides the node's own term by `g`; the other scales by `r(source)` per edge, by `r(node)` once after the sum,
    and multiplies the own term by `r(node)` twice. Multiplication of extended reals is associative, a
    nonnegative real factor distributes over any sum of extended reals, and `r * r = 1 / g` for a positive real `g`.
  * Batch normalisation: the variance as the mean of the squares minus the squared mean against the mean of the
    squared deviations; equal when every entry is real (the law itself is `Cert.LibVariance.variance_forms_univ`).
-/
import Idealize.ShloMosaic.PureOps.Ideal
import proofs.«173191_j73083163508880_2_alg».proof.Proof.LibFinite
import proofs.«173191_j73083163508880_2_alg».proof.Proof.LibVariance

noncomputable section

namespace Cert.LibLayers

open Idealize.ShloMosaic Cert.LibFinite
open scoped BigOperators

/-! ### The neighbour-mean layer -/

/-- Three summands in two orders. -/
theorem add_swap_right (a b c : EReal) : a + c + b = a + b + c := add_right_comm a c b

/-- The same for the layer's pre-activation as a function of node and channel. -/
theorem sage_sum_fun {ι κ : Type*} (A X : ι → κ → EReal) (B : κ → EReal) :
    (fun p q => A p q + X p q + B q) = fun p q => A p q + B q + X p q := by
  funext p q; exact add_right_comm _ _ _

/-! ### A sum against a nonnegative real factor -/

/-- A nonnegative extended real other than `⊤` distributes over a finite sum of arbitrary extended reals. -/
theorem sum_mul_right {ε : Type*} (s : Finset ε) (f : ε → EReal) {d : EReal} (hd0 : 0 ≤ d) (hd : d ≠ ⊤) :
    ∑ e ∈ s, f e * d = (∑ e ∈ s, f e) * d := by
  classical
  induction s using Finset.induction_on with
  | empty => simp
  | insert a s ha ih =>
    rw [Finset.sum_insert ha, Finset.sum_insert ha, ih, EReal.right_distrib_of_nonneg_of_ne_top hd0 hd]

/-- The same, the factor on the left. -/
theorem sum_mul_left {ε : Type*} (s : Finset ε) (f : ε → EReal) {d : EReal} (hd0 : 0 ≤ d) (hd : d ≠ ⊤) :
    ∑ e ∈ s, d * f e = d * ∑ e ∈ s, f e := by
  rw [mul_comm d, ← sum_mul_right s f hd0 hd]
  exact Finset.sum_congr rfl fun e _ => mul_comm _ _

/-! ### The normalised-adjacency layer -/

/-- The factor of the destination node, a positive real, moves out of the sum over the incoming edges. -/
theorem gcn_neigh {ε : Type*} (s : Finset ε) (xw di : ε → EReal) {d : EReal} (hd : IsPosReal d) :
    ∑ e ∈ s, xw e * (di e * d) = (∑ e ∈ s, xw e * di e) * d := by
  rw [← sum_mul_right s _ hd.pos.le hd.isReal.ne_top]
  exact Finset.sum_congr rfl fun e _ => (mul_assoc _ _ _).symm

/-- The reciprocal square root of a positive real, squared, is its reciprocal. -/
theorem rsqrt_mul_rsqrt {r : ℝ} (h : 0 < r) :
    Ideal.rsqrt (r : EReal) * Ideal.rsqrt (r : EReal) = ((1 / r : ℝ) : EReal) := by
  rw [rsqrt_coe_of_pos h, ← EReal.coe_mul]
  congr 1
  rw [← mul_inv, Real.mul_self_sqrt h.le, one_div]

/-- The node's own term: dividing by the degree is multiplying twice by its reciprocal square root
    (any extended real `x`). -/
theorem gcn_self (x : EReal) {g : EReal} (hg : IsPosReal g) :
    Ideal.div x g = x * Ideal.rsqrt g * Ideal.rsqrt g := by
  obtain ⟨r, hr, rfl⟩ := hg
  rw [Ideal.div_coe hr.ne', mul_assoc, rsqrt_mul_rsqrt hr]

/-- The layer's pre-activation at one node and channel, in its two arrangements. -/
theorem gcn_law {ε : Type*} (s : Finset ε) (xw di : ε → EReal) (x b : EReal) {g : EReal} (hg : IsPosReal g) :
    ∑ e ∈ s, xw e * (di e * Ideal.rsqrt g) + Ideal.div x g + b
      = (∑ e ∈ s, xw e * di e) * Ideal.rsqrt g + x * Ideal.rsqrt g * Ideal.rsqrt g + b := by
  rw [gcn_neigh s xw di hg.rsqrt, gcn_self x hg]

/-- The degree of a node — one for each incoming edge, added to zero, plus one for the self loop — is a
    positive real. -/
theorem isPosReal_degree {ε : Type*} (s : Finset ε) : IsPosReal ((0 + ∑ _e ∈ s, (1 : EReal)) + 1) := by
  have h : IsReal (∑ _e ∈ s, (1 : EReal)) := IsReal.sum s _ fun _ _ => isReal_one
  have h0 : 0 ≤ ∑ _e ∈ s, (1 : EReal) := Finset.sum_nonneg fun _ _ => zero_le_one
  rw [zero_add]
  exact IsPosReal.nonneg_add h h0 ⟨1, one_pos, rfl⟩

/-- The in-degree alone, added to zero, is a real. -/
theorem isReal_count {ε : Type*} (s : Finset ε) : IsReal (0 + ∑ _e ∈ s, (1 : EReal)) := by
  rw [zero_add]; exact IsReal.sum s _ fun _ _ => isReal_one

/-! ### Batch normalisation -/

/-- With the mean `μ = (∑ x) / n` over `n` real entries, the normalised entry reads the same whether the
    variance under the reciprocal square root is the mean of the squared deviations or the mean of the squares
    minus `μ * μ`. -/
theorem bn_law {ι : Type*} [Fintype ι] {x : ι → EReal} (hx : AllReal x) {n : ℝ} (hn : n ≠ 0)
    (hcard : (Fintype.card ι : ℝ) = n) (eps g b : EReal) (i : ι) :
    (x i - Ideal.div (∑ j, x j) (n : EReal))
        * Ideal.rsqrt (Ideal.div (∑ j, (x j - Ideal.div (∑ j, x j) (n : EReal)) * (x j - Ideal.div (∑ j, x j) (n : EReal))) (n : EReal) + eps)
        * g + b
      = (x i - Ideal.div (∑ j, x j) (n : EReal))
        * Ideal.rsqrt (Ideal.div (∑ j, x j * x j) (n : EReal)
            - Ideal.div (∑ j, x j) (n : EReal) * Ideal.div (∑ j, x j) (n : EReal) + eps)
        * g + b := by
  rw [Cert.LibVariance.variance_forms_univ hx hn hcard]

/-- The number of nodes, as a real. -/
theorem card_nodes : (Fintype.card (Fin 100000) : ℝ) = 100000 := by
  rw [Fintype.card_fin]; norm_num

end Cert.LibLayers

end
-- ==== Proof.LibFiniteLits.lean ====
/-
  The binary32 literals of a graph-network / normalisation pipeline, read as extended reals:
  each denotes a real number, and the two small ones a POSITIVE real.

  * `0x00000000` is `0`, `0x3F800000` is `1`, `0x40000000` is `2`, `0x47C35000` is `100000`;
  * `0x2B8CBCCC` is `9223372 · 2⁻⁶³` (the binary32 nearest `10⁻¹²`), positive;
  * `0x3727C5AC` is `10995116 · 2⁻⁴⁰` (the binary32 nearest `10⁻⁵`), positive;
  * `0x7FC00000` (a NaN pattern) is `⊥`: NOT real.
-/
import proofs.«173191_j73083163508880_2_alg».proof.Proof.LibFinite

noncomputable section

namespace Cert.LibFinite

open Idealize.ShloMosaic

theorem ofBits_f32_zero : Ideal.ofBits .f32 0x00000000#32 = 0 := by simp [Ideal.ofBits, Ideal.ieee]
theorem ofBits_f32_one : Ideal.ofBits .f32 0x3F800000#32 = 1 := by
  simp [Ideal.ofBits, Ideal.ieee, -EReal.coe_mul]; norm_num
theorem ofBits_f32_two : Ideal.ofBits .f32 0x40000000#32 = ((2 : ℝ) : EReal) := by
  simp [Ideal.ofBits, Ideal.ieee, -EReal.coe_mul]; norm_num
theorem ofBits_f32_1e5 : Ideal.ofBits .f32 0x47C35000#32 = ((100000 : ℝ) : EReal) := by
  simp [Ideal.ofBits, Ideal.ieee, -EReal.coe_mul]; norm_num
theorem ofBits_f32_1em12 : Ideal.ofBits .f32 0x2B8CBCCC#32 = ((9223372 * (2 : ℝ) ^ (-63 : ℤ) : ℝ) : EReal) := by
  simp [Ideal.ofBits, Ideal.ieee, -EReal.coe_mul]
theorem ofBits_f32_1em5 : Ideal.ofBits .f32 0x3727C5AC#32 = ((10995116 * (2 : ℝ) ^ (-40 : ℤ) : ℝ) : EReal) := by
  simp [Ideal.ofBits, Ideal.ieee, -EReal.coe_mul]
theorem ofBits_f32_nan : Ideal.ofBits .f32 0x7FC00000#32 = ⊥ := by simp [Ideal.ofBits, Ideal.ieee]

theorem isReal_ofBits_zero : IsReal (Ideal.ofBits .f32 0x00000000#32) := ofBits_f32_zero ▸ isReal_zero
theorem isReal_ofBits_one : IsReal (Ideal.ofBits .f32 0x3F800000#32) := ofBits_f32_one ▸ isReal_one
theorem isPosReal_ofBits_one : IsPosReal (Ideal.ofBits .f32 0x3F800000#32) := ⟨1, one_pos, ofBits_f32_one⟩
theorem isPosReal_ofBits_two : IsPosReal (Ideal.ofBits .f32 0x40000000#32) := ⟨2, two_pos, ofBits_f32_two⟩
theorem isPosReal_ofBits_1e5 : IsPosReal (Ideal.ofBits .f32 0x47C35000#32) := ⟨100000, by norm_num, ofBits_f32_1e5⟩
theorem isPosReal_ofBits_1em12 : IsPosReal (Ideal.ofBits .f32 0x2B8CBCCC#32) := ⟨_, by positivity, ofBits_f32_1em12⟩
theorem isPosReal_ofBits_1em5 : IsPosReal (Ideal.ofBits .f32 0x3727C5AC#32) := ⟨_, by positivity, ofBits_f32_1em5⟩
theorem isReal_ofBits_two : IsReal (Ideal.ofBits .f32 0x40000000#32) := isPosReal_ofBits_two.isReal
theorem isReal_ofBits_1e5 : IsReal (Ideal.ofBits .f32 0x47C35000#32) := isPosReal_ofBits_1e5.isReal
theorem isReal_ofBits_1em12 : IsReal (Ideal.ofBits .f32 0x2B8CBCCC#32) := isPosReal_ofBits_1em12.isReal
theorem isReal_ofBits_1em5 : IsReal (Ideal.ofBits .f32 0x3727C5AC#32) := isPosReal_ofBits_1em5.isReal
theorem ofBits_1e5_ne_zero : Ideal.ofBits .f32 0x47C35000#32 ≠ 0 := isPosReal_ofBits_1e5.ne_zero

end Cert.LibFinite

end
-- ==== Proof.KI.BnLaw.lean ====
import proofs.«173191_j73083163508880_2_alg».proof.Proof.KI.GlueOps
import proofs.«173191_j73083163508880_2_alg».proof.Proof.SpecB
import proofs.«173191_j73083163508880_2_alg».proof.Proof.SpecBN
import proofs.«173191_j73083163508880_2_alg».proof.Proof.LibLayers
import proofs.«173191_j73083163508880_2_alg».proof.Proof.LibFiniteLits
import Idealize.ShloMosaic.Lib.Pipeline.Value
import Idealize.ShloMosaic.Lib.ValueIdx
import Idealize.ShloMosaic.Lib.ValueLayout

/-! # The batch-norm layer of the kernel program is the reference's batch normalisation

The kernel program normalises a [100000,64] array `r` through its row-major [50000,128] view: from the column sums
`s` and the column sums of squares `ss` it forms the mean `s / 100000` and the reciprocal standard deviation
`rsqrt (ss / 100000 - mean * mean + eps)`, lays each [1,64] row twice side by side (and each 64-vector twice end to
end) to match the view's 128 columns, applies `(x - mean) * invstd * g + b` there, and views the result back as
[100000,64]. Entry by entry this is `(r (p, q) - mean q) * invstd q * g q + b q`: row `p`, column `q` of the array is
row `p / 2`, column `(p % 2) * 64 + q` of the view, and column `c` of a doubled row is column `c % 64` of the row.
With `s`, `ss` the column sums of `r` and of its squares, and every entry of `r` real, the variance as the mean of
the squares less the squared mean is the mean of the squared deviations, which is the reference's form. -/

set_option maxRecDepth 16384

noncomputable section

namespace Cert.KernelIdeal.Val

open Cert.KernelIdeal Cert.KernelIdeal.Gen Cert.KernelIdeal.Fr Cert.LibFinite
open Idealize.ShloMosaic Idealize.ShloMosaic.ValueIdx
open scoped BigOperators

/-- The kernel program's batch-norm layer from the array `r`, its column sums `s` and column sums of squares `ss`, the
    scale `g` and the shift `bb`. -/
def kBN (r : FVec Ideal S100000x64 .f32) (s ss : FVec Ideal S1x64 .f32) (g bb : FVec Ideal S64 .f32) :
    FVec Ideal S100000x64 .f32 :=
  bnUnview (F := Ideal) (Cert.Spec.bnApplyG (bnView (F := Ideal) r) (bnPair (F := Ideal) (bnMean (F := Ideal) s))
    (bnPair (F := Ideal) (bnInvStd (F := Ideal) s ss)) (bnPair1 (F := Ideal) g) (bnPair1 (F := Ideal) bb))

/-! ## The views at an index -/

/-- Row `p`, column `q` of the [100000,64] view of `y` is row `p / 2`, column `(p % 2) * 64 + q` of `y`. -/
theorem bnUnview_apply (y : FVec Ideal S50000x128 .f32) (p : Fin 100000) (q : Fin 64)
    (h0 : p.val / 2 < 50000) (h1 : p.val % 2 * 64 + q.val < 128) :
    bnUnview (F := Ideal) y (ix2 p q) = y (ix2 (⟨p.val / 2, h0⟩ : Fin 50000) (⟨p.val % 2 * 64 + q.val, h1⟩ : Fin 128)) := by
  unfold bnUnview
  exact shapeCast_apply y _ _ _ (by
    rw [Shape.rowMajor_val_two, Shape.rowMajor_val_two]
    show p.val / 2 * 128 + (p.val % 2 * 64 + q.val) = p.val * 64 + q.val
    omega)

/-- … and that entry of the [50000,128] view of `x` is row `p`, column `q` of `x`. -/
theorem bnView_apply (x : FVec Ideal S100000x64 .f32) (p : Fin 100000) (q : Fin 64)
    (h0 : p.val / 2 < 50000) (h1 : p.val % 2 * 64 + q.val < 128) :
    bnView (F := Ideal) x (ix2 (⟨p.val / 2, h0⟩ : Fin 50000) (⟨p.val % 2 * 64 + q.val, h1⟩ : Fin 128)) = x (ix2 p q) := by
  unfold bnView
  exact shapeCast_apply x _ _ _ (by
    rw [Shape.rowMajor_val_two, Shape.rowMajor_val_two]
    show p.val * 64 + q.val = p.val / 2 * 128 + (p.val % 2 * 64 + q.val)
    omega)

/-! ## The doubled rows at an index -/

/-- Column `(p % 2) * 64 + q` of a [1,64] row laid twice side by side is column `q` of the row. -/
theorem bnPair_apply (v : FVec Ideal S1x64 .f32) (p : Fin 100000) (q : Fin 64) (h1 : p.val % 2 * 64 + q.val < 128) :
    bnPair (F := Ideal) v (ix2 (0 : Fin 1) (⟨p.val % 2 * 64 + q.val, h1⟩ : Fin 128)) = v (ix2 (0 : Fin 1) q) := by
  unfold bnPair
  rcases Nat.mod_two_eq_zero_or_one p.val with hp | hp
  · refine concatenate_pair_apply_left (t := S1x128) (1 : Fin 2) v v _ _ rfl (ix2 (0 : Fin 1) q) fun b => ?_
    match b with
    | ⟨0, _⟩ => rfl
    | ⟨1, _⟩ => show q.val = p.val % 2 * 64 + q.val; omega
  · refine concatenate_pair_apply_right (t := S1x128) (1 : Fin 2) v v _ _ rfl rfl (ix2 (0 : Fin 1) q) (fun b hb => ?_) ?_
    · match b with
      | ⟨0, _⟩ => rfl
      | ⟨1, _⟩ => exact absurd rfl hb
    · show q.val + 64 = p.val % 2 * 64 + q.val; omega

/-- Coordinate `(p % 2) * 64 + q` of a 64-vector laid twice end to end is coordinate `q` of the vector. -/
theorem bnPair1_apply (v : FVec Ideal S64 .f32) (p : Fin 100000) (q : Fin 64) (h1 : p.val % 2 * 64 + q.val < 128) :
    bnPair1 (F := Ideal) v (ix1 (⟨p.val % 2 * 64 + q.val, h1⟩ : Fin 128)) = v (ix1 q) := by
  unfold bnPair1
  rcases Nat.mod_two_eq_zero_or_one p.val with hp | hp
  · refine concatenate_pair_apply_left (t := S128) (0 : Fin 1) v v _ _ rfl (ix1 q) fun b => ?_
    match b with
    | ⟨0, _⟩ => show q.val = p.val % 2 * 64 + q.val; omega
  · refine concatenate_pair_apply_right (t := S128) (0 : Fin 1) v v _ _ rfl rfl (ix1 q) (fun b hb => ?_) ?_
    · match b with
      | ⟨0, _⟩ => exact absurd rfl hb
    · show q.val + 64 = p.val % 2 * 64 + q.val; omega

/-! ## The statistics at an index -/

/-- The mean row: the sums' row divided by the word of 100000. -/
theorem bnMean_apply (s : FVec Ideal S1x64 .f32) (i : S1x64.Idx) :
    bnMean (F := Ideal) s i = Ideal.div (s i) (Ideal.ofBits .f32 0x47C35000#32) := rfl

/-- The reciprocal standard deviation's row: the reciprocal square root of the mean of the squares less the squared
    mean plus the small constant. -/
theorem bnInvStd_apply (s ss : FVec Ideal S1x64 .f32) (i : S1x64.Idx) :
    bnInvStd (F := Ideal) s ss i
      = Ideal.rsqrt (Ideal.div (ss i) (Ideal.ofBits .f32 0x47C35000#32)
          - Ideal.div (s i) (Ideal.ofBits .f32 0x47C35000#32) * Ideal.div (s i) (Ideal.ofBits .f32 0x47C35000#32)
          + Ideal.ofBits .f32 0x3727C5AC#32) := rfl

/-! ## The layer at an index -/

/-- The kernel program's batch-norm layer at row `p`, column `q`. -/
theorem kBN_apply (r : FVec Ideal S100000x64 .f32) (s ss : FVec Ideal S1x64 .f32) (g bb : FVec Ideal S64 .f32)
    (p : Fin 100000) (q : Fin 64) :
    kBN r s ss g bb (ix2 p q)
      = (r (ix2 p q) - bnMean (F := Ideal) s (ix2 (0 : Fin 1) q)) * bnInvStd (F := Ideal) s ss (ix2 (0 : Fin 1) q) * g (ix1 q)
        + bb (ix1 q) := by
  have h0 : p.val / 2 < 50000 := by have := p.isLt; omega
  have h1 : p.val % 2 * 64 + q.val < 128 := by have := q.isLt; omega
  unfold kBN
  rw [bnUnview_apply _ p q h0 h1]
  unfold Cert.Spec.bnApplyG
  show (bnView (F := Ideal) r (ix2 (⟨p.val / 2, h0⟩ : Fin 50000) (⟨p.val % 2 * 64 + q.val, h1⟩ : Fin 128))
        - bnPair (F := Ideal) (bnMean (F := Ideal) s) (ix2 (0 : Fin 1) (⟨p.val % 2 * 64 + q.val, h1⟩ : Fin 128)))
      * bnPair (F := Ideal) (bnInvStd (F := Ideal) s ss) (ix2 (0 : Fin 1) (⟨p.val % 2 * 64 + q.val, h1⟩ : Fin 128))
      * bnPair1 (F := Ideal) g (ix1 (⟨p.val % 2 * 64 + q.val, h1⟩ : Fin 128))
      + bnPair1 (F := Ideal) bb (ix1 (⟨p.val % 2 * 64 + q.val, h1⟩ : Fin 128)) = _
  rw [bnView_apply r p q h0 h1, bnPair_apply _ p q h1, bnPair_apply _ p q h1, bnPair1_apply g p q h1, bnPair1_apply bb p q h1]

/-! ## The law -/

/-- With the column sums of `r` and of its squares, and every entry of `r` real, the kernel program's layer is the
    reference's batch normalisation. -/
theorem kbn_eq (r : FVec Ideal S100000x64 .f32) (g bb : FVec Ideal S64 .f32) (hr : AllReal r) :
    kBN r (Cert.Spec.colSum r) (Cert.Spec.colSumSq r) g bb = Cert.Spec.bnRefG r g bb := by
  funext i
  obtain ⟨p, q, rfl⟩ : ∃ (p : Fin 100000) (q : Fin 64), i = ix2 p q := ⟨i 0, i 1, eq_ix2 i⟩
  rw [kBN_apply, bnMean_apply, bnInvStd_apply]
  unfold Cert.Spec.bnRefG Cert.Spec.bnRefVar Cert.Spec.bnRefMean Cert.Spec.colSum Cert.Spec.colSumSq
  show (r (ix2 p q) - Ideal.div (∑ row : Fin 100000, r (ix2 row q)) (Ideal.ofBits .f32 0x47C35000#32))
        * Ideal.rsqrt (Ideal.div (∑ row : Fin 100000, r (ix2 row q) * r (ix2 row q)) (Ideal.ofBits .f32 0x47C35000#32)
            - Ideal.div (∑ row : Fin 100000, r (ix2 row q)) (Ideal.ofBits .f32 0x47C35000#32)
              * Ideal.div (∑ row : Fin 100000, r (ix2 row q)) (Ideal.ofBits .f32 0x47C35000#32)
            + Ideal.ofBits .f32 0x3727C5AC#32)
        * g (ix1 q) + bb (ix1 q)
      = (r (ix2 p q) - Ideal.div (Ideal.ofBits .f32 0x00000000#32 + ∑ row : Fin 100000, r (ix2 row q)) (Ideal.ofBits .f32 0x47C35000#32))
        * Ideal.rsqrt (Ideal.div (Ideal.ofBits .f32 0x00000000#32
              + ∑ row : Fin 100000,
                (r (ix2 row q) - Ideal.div (Ideal.ofBits .f32 0x00000000#32 + ∑ row : Fin 100000, r (ix2 row q)) (Ideal.ofBits .f32 0x47C35000#32))
                * (r (ix2 row q) - Ideal.div (Ideal.ofBits .f32 0x00000000#32 + ∑ row : Fin 100000, r (ix2 row q)) (Ideal.ofBits .f32 0x47C35000#32)))
            (Ideal.ofBits .f32 0x47C35000#32) + Ideal.ofBits .f32 0x3727C5AC#32)
        * g (ix1 q) + bb (ix1 q)
  simp only [ofBits_f32_zero, zero_add, ofBits_f32_1e5]
  exact (Cert.LibLayers.bn_law (x := fun row : Fin 100000 => r (ix2 row q)) (fun row => hr _) (n := 100000) (by norm_num)
    Cert.LibLayers.card_nodes (Ideal.ofBits .f32 0x3727C5AC#32) (g (ix1 q)) (bb (ix1 q)) p).symm

/-- Every entry of the reference's batch normalisation of real `r`, `g`, `bb` is real. -/
theorem allReal_bnRefG (r : FVec Ideal S100000x64 .f32) (g bb : FVec Ideal S64 .f32) (hr : AllReal r) (hg : AllReal g)
    (hb : AllReal bb) : AllReal (Cert.Spec.bnRefG r g bb) := by
  intro i
  obtain ⟨p, q, rfl⟩ : ∃ (p : Fin 100000) (q : Fin 64), i = ix2 p q := ⟨i 0, i 1, eq_ix2 i⟩
  unfold Cert.Spec.bnRefG Cert.Spec.bnRefVar Cert.Spec.bnRefMean
  show IsReal ((r (ix2 p q) - Ideal.div (Ideal.ofBits .f32 0x00000000#32 + ∑ row : Fin 100000, r (ix2 row q)) (Ideal.ofBits .f32 0x47C35000#32))
        * Ideal.rsqrt (Ideal.div (Ideal.ofBits .f32 0x00000000#32
              + ∑ row : Fin 100000,
                (r (ix2 row q) - Ideal.div (Ideal.ofBits .f32 0x00000000#32 + ∑ row : Fin 100000, r (ix2 row q)) (Ideal.ofBits .f32 0x47C35000#32))
                * (r (ix2 row q) - Ideal.div (Ideal.ofBits .f32 0x00000000#32 + ∑ row : Fin 100000, r (ix2 row q)) (Ideal.ofBits .f32 0x47C35000#32)))
            (Ideal.ofBits .f32 0x47C35000#32) + Ideal.ofBits .f32 0x3727C5AC#32)
        * g (ix1 q) + bb (ix1 q))
  simp only [ofBits_f32_zero, zero_add, ofBits_f32_1e5]
  have hx : ∀ row ∈ (Finset.univ : Finset (Fin 100000)), IsReal (r (ix2 row q)) := fun row _ => hr _
  have hm := Cert.LibVariance.isReal_mean Finset.univ hx (n := 100000) (by norm_num)
  have hv := Cert.LibVariance.isPosReal_variance_add Finset.univ hx (n := 100000) (by norm_num) isPosReal_ofBits_1em5
  exact ((((hr _).sub hm).mul hv.rsqrt.isReal).mul (hg _)).add (hb _)

/-- … and so is every entry of the kernel program's layer. -/
theorem allReal_kBN (r : FVec Ideal S100000x64 .f32) (g bb : FVec Ideal S64 .f32) (hr : AllReal r) (hg : AllReal g)
    (hb : AllReal bb) : AllReal (kBN r (Cert.Spec.colSum r) (Cert.Spec.colSumSq r) g bb) := by
  rw [kbn_eq r g bb hr]; exact allReal_bnRefG r g bb hr hg hb

end Cert.KernelIdeal.Val

end
-- ==== Proof.KI.Net.lean ====
/- The idealized kernel program's three results as ONE composition of nine layer functions of the launch arrays: each
   region's output array (read off the grid's write-backs, index by index) applied to its input arrays, each of which is
   a launch argument, an earlier region's output, or a named function of host operations applied to such arrays. -/
import proofs.«173191_j73083163508880_2_alg».proof.Proof.KI.Glue
import proofs.«173191_j73083163508880_2_alg».proof.Proof.KI.V0
import proofs.«173191_j73083163508880_2_alg».proof.Proof.KI.V1
import proofs.«173191_j73083163508880_2_alg».proof.Proof.KI.V2
import proofs.«173191_j73083163508880_2_alg».proof.Proof.KI.V9
import proofs.«173191_j73083163508880_2_alg».proof.Proof.KI.V10
import proofs.«173191_j73083163508880_2_alg».proof.Proof.KI.V11
import proofs.«173191_j73083163508880_2_alg».proof.Proof.KI.V3
import proofs.«173191_j73083163508880_2_alg».proof.Proof.KI.V6
import proofs.«173191_j73083163508880_2_alg».proof.Proof.KI.V12
import proofs.«173191_j73083163508880_2_alg».proof.Proof.KI.V5
import proofs.«173191_j73083163508880_2_alg».proof.Proof.KI.V8
import proofs.«173191_j73083163508880_2_alg».proof.Proof.KI.V14
import proofs.«173191_j73083163508880_2_alg».proof.Proof.KI.V4
import proofs.«173191_j73083163508880_2_alg».proof.Proof.KI.V7
import proofs.«173191_j73083163508880_2_alg».proof.Proof.KI.V13
import proofs.«173191_j73083163508880_2_alg».proof.Proof.KI.BnLaw

set_option maxRecDepth 16384

noncomputable section

namespace Cert.KernelIdeal.Val

open Cert.KernelIdeal Cert.KernelIdeal.Gen Cert.KernelIdeal.Fr Cert.Spec
open Idealize.ShloMosaic Idealize.ShloMosaic.TcCoe Idealize.SL Idealize.SL.Sem
open Idealize.ShloMosaic.Pipeline (Dat)

/-- A SAGE layer of the kernel program on a 32-wide destination: the combine kernel's row-wise function of the gathered-and-summed
    neighbour rows, the in-degree column, the destination rows and the three parameters. -/
def kSage32 (xs : FVec Ideal S100000x64 .f32) (xd : FVec Ideal S100000x32 .f32) (ei : IVec S2x2000000 32)
    (Wl : FVec Ideal S64x64 .f32) (b : FVec Ideal S64 .f32) (Wr : FVec Ideal S32x64 .f32) : FVec Ideal S100000x64 .f32 :=
  sageG32 (sageAgg (F := Ideal) xs ei) (sageCnt (F := Ideal) ei) xd Wl b Wr
/-- The same on a 64-wide destination. -/
def kSage64 (xs : FVec Ideal S100000x64 .f32) (xd : FVec Ideal S100000x64 .f32) (ei : IVec S2x2000000 32)
    (Wl : FVec Ideal S64x64 .f32) (b : FVec Ideal S64 .f32) (Wr : FVec Ideal S64x64 .f32) : FVec Ideal S100000x64 .f32 :=
  sageG64 (sageAgg (F := Ideal) xs ei) (sageCnt (F := Ideal) ei) xd Wl b Wr
/-- The graph convolution's clipped pre-normalisation rows: x·W, scaled by the inverse root degree on both sides of the edge sum. -/
def kGcnRelu (x : FVec Ideal S100000x64 .f32) (ei : IVec S2x2000000 32) (W : FVec Ideal S64x64 .f32) (b : FVec Ideal S64 .f32) :
    FVec Ideal S100000x64 .f32 :=
  statsRelu (gcnAgg (F := Ideal) (matmulG x W) ei) (gcnScaled (F := Ideal) (matmulG x W) ei) (gcnDinvCol (F := Ideal) ei) b
/-- A graph convolution followed by batch normalisation from the column sums and sums of squares. -/
def kGcnBn (x : FVec Ideal S100000x64 .f32) (ei : IVec S2x2000000 32) (W : FVec Ideal S64x64 .f32) (b g bb : FVec Ideal S64 .f32) :
    FVec Ideal S100000x64 .f32 :=
  kBN (kGcnRelu x ei W b) (colSum (kGcnRelu x ei W b)) (colSumSq (kGcnRelu x ei W b)) g bb

variable (m : (ℓ : Loc nD τ sig) → Buf (Elt Ideal) ℓ) (ρ : Dev nD → PrngReg) (c : Dev nD)

/-- The two intermediate node features and the three results as functions of the launch arrays. -/
def kG1 : FVec Ideal S100000x64 .f32 := kSage32 (m ((c : Thread nD τ).loc main_arg1)) (m ((c : Thread nD τ).loc main_arg0)) (m ((c : Thread nD τ).loc main_arg5)) (m ((c : Thread nD τ).loc main_arg12)) (m ((c : Thread nD τ).loc main_arg13)) (m ((c : Thread nD τ).loc main_arg14))
def kG2 : FVec Ideal S100000x64 .f32 := kSage64 (m ((c : Thread nD τ).loc main_arg1)) (kG1 m c) (m ((c : Thread nD τ).loc main_arg7)) (m ((c : Thread nD τ).loc main_arg15)) (m ((c : Thread nD τ).loc main_arg16)) (m ((c : Thread nD τ).loc main_arg17))
def kP1 : FVec Ideal S100000x64 .f32 := kSage32 (m ((c : Thread nD τ).loc main_arg1)) (m ((c : Thread nD τ).loc main_arg2)) (m ((c : Thread nD τ).loc main_arg11)) (m ((c : Thread nD τ).loc main_arg18)) (m ((c : Thread nD τ).loc main_arg19)) (m ((c : Thread nD τ).loc main_arg20))
def kG : FVec Ideal S100000x64 .f32 := kGcnBn (kG2 m c) (m ((c : Thread nD τ).loc main_arg3)) (m ((c : Thread nD τ).loc main_arg30)) (m ((c : Thread nD τ).loc main_arg31)) (m ((c : Thread nD τ).loc main_arg36)) (m ((c : Thread nD τ).loc main_arg37))
def kP : FVec Ideal S100000x64 .f32 := kGcnBn (kP1 m c) (m ((c : Thread nD τ).loc main_arg9)) (m ((c : Thread nD τ).loc main_arg32)) (m ((c : Thread nD τ).loc main_arg33)) (m ((c : Thread nD τ).loc main_arg38)) (m ((c : Thread nD τ).loc main_arg39))
def kS1 : FVec Ideal S100000x64 .f32 := kSage64 (kG m c) (m ((c : Thread nD τ).loc main_arg1)) (m ((c : Thread nD τ).loc main_arg4)) (m ((c : Thread nD τ).loc main_arg21)) (m ((c : Thread nD τ).loc main_arg22)) (m ((c : Thread nD τ).loc main_arg23))
def kS2 : FVec Ideal S100000x64 .f32 := kSage64 (kG m c) (kS1 m c) (m ((c : Thread nD τ).loc main_arg6)) (m ((c : Thread nD τ).loc main_arg24)) (m ((c : Thread nD τ).loc main_arg25)) (m ((c : Thread nD τ).loc main_arg26))
def kS3 : FVec Ideal S100000x64 .f32 := kSage64 (kP m c) (kS2 m c) (m ((c : Thread nD τ).loc main_arg10)) (m ((c : Thread nD τ).loc main_arg27)) (m ((c : Thread nD τ).loc main_arg28)) (m ((c : Thread nD τ).loc main_arg29))
def kS : FVec Ideal S100000x64 .f32 := kGcnBn (kS3 m c) (m ((c : Thread nD τ).loc main_arg8)) (m ((c : Thread nD τ).loc main_arg34)) (m ((c : Thread nD τ).loc main_arg35)) (m ((c : Thread nD τ).loc main_arg40)) (m ((c : Thread nD τ).loc main_arg41))

theorem o0 : ((dat0 (B1 m ρ) c).arrAt 6 cfg0.N : FVec Ideal S100000x64 .f32) = kG1 m c := by
  have h : ((dat0 (B1 m ρ) c).arrAt 6 cfg0.N : FVec Ideal S100000x64 .f32) = sageG32 (B1 m ρ c main_v15) (B1 m ρ c main_v20) (B1 m ρ c main_arg0) (B1 m ρ c main_arg12) (B1 m ρ c main_arg13) (B1 m ρ c main_arg14) := final0 (B1 m ρ) c
  rw [in0_0 m ρ c, in0_1 m ρ c, in0_2 m ρ c, in0_3 m ρ c, in0_4 m ρ c, in0_5 m ρ c] at h; rw [h]; unfold kG1 kSage32; rfl
theorem o1 : ((dat1 (B3 m ρ) c).arrAt 6 cfg1.N : FVec Ideal S100000x64 .f32) = kG2 m c := by
  have h : ((dat1 (B3 m ρ) c).arrAt 6 cfg1.N : FVec Ideal S100000x64 .f32) = sageG64 (B3 m ρ c main_v37) (B3 m ρ c main_v42) (B3 m ρ c main_v21) (B3 m ρ c main_arg15) (B3 m ρ c main_arg16) (B3 m ρ c main_arg17) := final1 (B3 m ρ) c
  rw [in1_0 m ρ c, in1_1 m ρ c, in1_2 m ρ c, in1_3 m ρ c, in1_4 m ρ c, in1_5 m ρ c, o0 m ρ c] at h; rw [h]; unfold kG2 kSage64; rfl
theorem o2 : ((dat2 (B5 m ρ) c).arrAt 6 cfg2.N : FVec Ideal S100000x64 .f32) = kP1 m c := by
  have h : ((dat2 (B5 m ρ) c).arrAt 6 cfg2.N : FVec Ideal S100000x64 .f32) = sageG32 (B5 m ρ c main_v59) (B5 m ρ c main_v64) (B5 m ρ c main_arg2) (B5 m ρ c main_arg18) (B5 m ρ c main_arg19) (B5 m ρ c main_arg20) := final2 (B5 m ρ) c
  rw [in2_0 m ρ c, in2_1 m ρ c, in2_2 m ρ c, in2_3 m ρ c, in2_4 m ρ c, in2_5 m ρ c] at h; rw [h]; unfold kP1 kSage32; rfl
theorem o3 : ((dat3 (B6 m ρ) c).arrAt 2 cfg3.N : FVec Ideal S100000x64 .f32) = matmulG (kG2 m c) (m ((c : Thread nD τ).loc main_arg30)) := by
  have h : ((dat3 (B6 m ρ) c).arrAt 2 cfg3.N : FVec Ideal S100000x64 .f32) = matmulG (B6 m ρ c main_v43) (B6 m ρ c main_arg30) := final3 (B6 m ρ) c
  rw [in3_0 m ρ c, in3_1 m ρ c, o1 m ρ c] at h; rw [h]
theorem o4r : ((dat4 (B8 m ρ) c).arrAt 4 cfg4.N : FVec Ideal S100000x64 .f32) = kGcnRelu (kG2 m c) (m ((c : Thread nD τ).loc main_arg3)) (m ((c : Thread nD τ).loc main_arg30)) (m ((c : Thread nD τ).loc main_arg31)) := by
  have h : ((dat4 (B8 m ρ) c).arrAt 4 cfg4.N : FVec Ideal S100000x64 .f32) = statsRelu (B8 m ρ c main_v92) (B8 m ρ c main_v80) (B8 m ρ c main_v93) (B8 m ρ c main_arg31) := final4_4 (B8 m ρ) c
  rw [in4_0 m ρ c, in4_1 m ρ c, in4_2 m ρ c, in4_3 m ρ c, o3 m ρ c] at h; rw [h]; unfold kGcnRelu; rfl
theorem o4s : ((dat4 (B8 m ρ) c).arrAt 5 cfg4.N : FVec Ideal S1x64 .f32) = colSum (kGcnRelu (kG2 m c) (m ((c : Thread nD τ).loc main_arg3)) (m ((c : Thread nD τ).loc main_arg30)) (m ((c : Thread nD τ).loc main_arg31))) := by
  have h : ((dat4 (B8 m ρ) c).arrAt 5 cfg4.N : FVec Ideal S1x64 .f32) = colSum (statsRelu (B8 m ρ c main_v92) (B8 m ρ c main_v80) (B8 m ρ c main_v93) (B8 m ρ c main_arg31)) := final4_5 (B8 m ρ) c
  rw [in4_0 m ρ c, in4_1 m ρ c, in4_2 m ρ c, in4_3 m ρ c, o3 m ρ c] at h; rw [h]; unfold kGcnRelu; rfl
theorem o4q : ((dat4 (B8 m ρ) c).arrAt 6 cfg4.N : FVec Ideal S1x64 .f32) = colSumSq (kGcnRelu (kG2 m c) (m ((c : Thread nD τ).loc main_arg3)) (m ((c : Thread nD τ).loc main_arg30)) (m ((c : Thread nD τ).loc main_arg31))) := by
  have h : ((dat4 (B8 m ρ) c).arrAt 6 cfg4.N : FVec Ideal S1x64 .f32) = colSumSq (statsRelu (B8 m ρ c main_v92) (B8 m ρ c main_v80) (B8 m ρ c main_v93) (B8 m ρ c main_arg31)) := final4_6 (B8 m ρ) c
  rw [in4_0 m ρ c, in4_1 m ρ c, in4_2 m ρ c, in4_3 m ρ c, o3 m ρ c] at h; rw [h]; unfold kGcnRelu; rfl
theorem o5 : bnUnview ((dat5 (B10 m ρ) c).arrAt 5 cfg5.N : FVec Ideal S50000x128 .f32) = kG m c := by
  have h : ((dat5 (B10 m ρ) c).arrAt 5 cfg5.N : FVec Ideal S50000x128 .f32) = bnApplyG (B10 m ρ c main_v104) (B10 m ρ c main_v105) (B10 m ρ c main_v106) (B10 m ρ c main_v107) (B10 m ρ c main_v108) := final5 (B10 m ρ) c
  rw [in5_0 m ρ c, in5_1 m ρ c, in5_2 m ρ c, in5_3 m ρ c, in5_4 m ρ c, o4r m ρ c, o4s m ρ c, o4q m ρ c] at h; rw [h]; unfold kG kGcnBn kBN; rfl
theorem o6 : ((dat6 (B12 m ρ) c).arrAt 2 cfg6.N : FVec Ideal S100000x64 .f32) = matmulG (kP1 m c) (m ((c : Thread nD τ).loc main_arg32)) := by
  have h : ((dat6 (B12 m ρ) c).arrAt 2 cfg6.N : FVec Ideal S100000x64 .f32) = matmulG (B12 m ρ c main_v65) (B12 m ρ c main_arg32) := final6 (B12 m ρ) c
  rw [in6_0 m ρ c, in6_1 m ρ c, o2 m ρ c] at h; rw [h]
theorem o7r : ((dat7 (B14 m ρ) c).arrAt 4 cfg7.N : FVec Ideal S100000x64 .f32) = kGcnRelu (kP1 m c) (m ((c : Thread nD τ).loc main_arg9)) (m ((c : Thread nD τ).loc main_arg32)) (m ((c : Thread nD τ).loc main_arg33)) := by
  have h : ((dat7 (B14 m ρ) c).arrAt 4 cfg7.N : FVec Ideal S100000x64 .f32) = statsRelu (B14 m ρ c main_v137) (B14 m ρ c main_v125) (B14 m ρ c main_v138) (B14 m ρ c main_arg33) := final7_4 (B14 m ρ) c
  rw [in7_0 m ρ c, in7_1 m ρ c, in7_2 m ρ c, in7_3 m ρ c, o6 m ρ c] at h; rw [h]; unfold kGcnRelu; rfl
theorem o7s : ((dat7 (B14 m ρ) c).arrAt 5 cfg7.N : FVec Ideal S1x64 .f32) = colSum (kGcnRelu (kP1 m c) (m ((c : Thread nD τ).loc main_arg9)) (m ((c : Thread nD τ).loc main_arg32)) (m ((c : Thread nD τ).loc main_arg33))) := by
  have h : ((dat7 (B14 m ρ) c).arrAt 5 cfg7.N : FVec Ideal S1x64 .f32) = colSum (statsRelu (B14 m ρ c main_v137) (B14 m ρ c main_v125) (B14 m ρ c main_v138) (B14 m ρ c main_arg33)) := final7_5 (B14 m ρ) c
  rw [in7_0 m ρ c, in7_1 m ρ c, in7_2 m ρ c, in7_3 m ρ c, o6 m ρ c] at h; rw [h]; unfold kGcnRelu; rfl
theorem o7q : ((dat7 (B14 m ρ) c).arrAt 6 cfg7.N : FVec Ideal S1x64 .f32) = colSumSq (kGcnRelu (kP1 m c) (m ((c : Thread nD τ).loc main_arg9)) (m ((c : Thread nD τ).loc main_arg32)) (m ((c : Thread nD τ).loc main_arg33))) := by
  have h : ((dat7 (B14 m ρ) c).arrAt 6 cfg7.N : FVec Ideal S1x64 .f32) = colSumSq (statsRelu (B14 m ρ c main_v137) (B14 m ρ c main_v125) (B14 m ρ c main_v138) (B14 m ρ c main_arg33)) := final7_6 (B14 m ρ) c
  rw [in7_0 m ρ c, in7_1 m ρ c, in7_2 m ρ c, in7_3 m ρ c, o6 m ρ c] at h; rw [h]; unfold kGcnRelu; rfl
theorem o8 : bnUnview ((dat8 (B16 m ρ) c).arrAt 5 cfg8.N : FVec Ideal S50000x128 .f32) = kP m c := by
  have h : ((dat8 (B16 m ρ) c).arrAt 5 cfg8.N : FVec Ideal S50000x128 .f32) = bnApplyG (B16 m ρ c main_v149) (B16 m ρ c main_v150) (B16 m ρ c main_v151) (B16 m ρ c main_v152) (B16 m ρ c main_v153) := final8 (B16 m ρ) c
  rw [in8_0 m ρ c, in8_1 m ρ c, in8_2 m ρ c, in8_3 m ρ c, in8_4 m ρ c, o7r m ρ c, o7s m ρ c, o7q m ρ c] at h; rw [h]; unfold kP kGcnBn kBN; rfl
theorem o9 : ((dat9 (B18 m ρ) c).arrAt 6 cfg9.N : FVec Ideal S100000x64 .f32) = kS1 m c := by
  have h : ((dat9 (B18 m ρ) c).arrAt 6 cfg9.N : FVec Ideal S100000x64 .f32) = sageG64 (B18 m ρ c main_v171) (B18 m ρ c main_v176) (B18 m ρ c main_arg1) (B18 m ρ c main_arg21) (B18 m ρ c main_arg22) (B18 m ρ c main_arg23) := final9 (B18 m ρ) c
  rw [in9_0 m ρ c, in9_1 m ρ c, in9_2 m ρ c, in9_3 m ρ c, in9_4 m ρ c, in9_5 m ρ c, o5 m ρ c] at h; rw [h]; unfold kS1 kSage64; rfl
theorem o10 : ((dat10 (B20 m ρ) c).arrAt 6 cfg10.N : FVec Ideal S100000x64 .f32) = kS2 m c := by
  have h : ((dat10 (B20 m ρ) c).arrAt 6 cfg10.N : FVec Ideal S100000x64 .f32) = sageG64 (B20 m ρ c main_v193) (B20 m ρ c main_v198) (B20 m ρ c main_v177) (B20 m ρ c main_arg24) (B20 m ρ c main_arg25) (B20 m ρ c main_arg26) := final10 (B20 m ρ) c
  rw [in10_0 m ρ c, in10_1 m ρ c, in10_2 m ρ c, in10_3 m ρ c, in10_4 m ρ c, in10_5 m ρ c, o5 m ρ c, o9 m ρ c] at h; rw [h]; unfold kS2 kSage64; rfl
theorem o11 : ((dat11 (B22 m ρ) c).arrAt 6 cfg11.N : FVec Ideal S100000x64 .f32) = kS3 m c := by
  have h : ((dat11 (B22 m ρ) c).arrAt 6 cfg11.N : FVec Ideal S100000x64 .f32) = sageG64 (B22 m ρ c main_v215) (B22 m ρ c main_v220) (B22 m ρ c main_v199) (B22 m ρ c main_arg27) (B22 m ρ c main_arg28) (B22 m ρ c main_arg29) := final11 (B22 m ρ) c
  rw [in11_0 m ρ c, in11_1 m ρ c, in11_2 m ρ c, in11_3 m ρ c, in11_4 m ρ c, in11_5 m ρ c, o8 m ρ c, o10 m ρ c] at h; rw [h]; unfold kS3 kSage64; rfl
theorem o12 : ((dat12 (B23 m ρ) c).arrAt 2 cfg12.N : FVec Ideal S100000x64 .f32) = matmulG (kS3 m c) (m ((c : Thread nD τ).loc main_arg34)) := by
  have h : ((dat12 (B23 m ρ) c).arrAt 2 cfg12.N : FVec Ideal S100000x64 .f32) = matmulG (B23 m ρ c main_v221) (B23 m ρ c main_arg34) := final12 (B23 m ρ) c
  rw [in12_0 m ρ c, in12_1 m ρ c, o11 m ρ c] at h; rw [h]
theorem o13r : ((dat13 (B25 m ρ) c).arrAt 4 cfg13.N : FVec Ideal S100000x64 .f32) = kGcnRelu (kS3 m c) (m ((c : Thread nD τ).loc main_arg8)) (m ((c : Thread nD τ).loc main_arg34)) (m ((c : Thread nD τ).loc main_arg35)) := by
  have h : ((dat13 (B25 m ρ) c).arrAt 4 cfg13.N : FVec Ideal S100000x64 .f32) = statsRelu (B25 m ρ c main_v248) (B25 m ρ c main_v236) (B25 m ρ c main_v249) (B25 m ρ c main_arg35) := final13_4 (B25 m ρ) c
  rw [in13_0 m ρ c, in13_1 m ρ c, in13_2 m ρ c, in13_3 m ρ c, o12 m ρ c] at h; rw [h]; unfold kGcnRelu; rfl
theorem o13s : ((dat13 (B25 m ρ) c).arrAt 5 cfg13.N : FVec Ideal S1x64 .f32) = colSum (kGcnRelu (kS3 m c) (m ((c : Thread nD τ).loc main_arg8)) (m ((c : Thread nD τ).loc main_arg34)) (m ((c : Thread nD τ).loc main_arg35))) := by
  have h : ((dat13 (B25 m ρ) c).arrAt 5 cfg13.N : FVec Ideal S1x64 .f32) = colSum (statsRelu (B25 m ρ c main_v248) (B25 m ρ c main_v236) (B25 m ρ c main_v249) (B25 m ρ c main_arg35)) := final13_5 (B25 m ρ) c
  rw [in13_0 m ρ c, in13_1 m ρ c, in13_2 m ρ c, in13_3 m ρ c, o12 m ρ c] at h; rw [h]; unfold kGcnRelu; rfl
theorem o13q : ((dat13 (B25 m ρ) c).arrAt 6 cfg13.N : FVec Ideal S1x64 .f32) = colSumSq (kGcnRelu (kS3 m c) (m ((c : Thread nD τ).loc main_arg8)) (m ((c : Thread nD τ).loc main_arg34)) (m ((c : Thread nD τ).loc main_arg35))) := by
  have h : ((dat13 (B25 m ρ) c).arrAt 6 cfg13.N : FVec Ideal S1x64 .f32) = colSumSq (statsRelu (B25 m ρ c main_v248) (B25 m ρ c main_v236) (B25 m ρ c main_v249) (B25 m ρ c main_arg35)) := final13_6 (B25 m ρ) c
  rw [in13_0 m ρ c, in13_1 m ρ c, in13_2 m ρ c, in13_3 m ρ c, o12 m ρ c] at h; rw [h]; unfold kGcnRelu; rfl
theorem o14 : bnUnview ((dat14 (B27 m ρ) c).arrAt 5 cfg14.N : FVec Ideal S50000x128 .f32) = kS m c := by
  have h : ((dat14 (B27 m ρ) c).arrAt 5 cfg14.N : FVec Ideal S50000x128 .f32) = bnApplyG (B27 m ρ c main_v260) (B27 m ρ c main_v261) (B27 m ρ c main_v262) (B27 m ρ c main_v263) (B27 m ρ c main_v264) := final14 (B27 m ρ) c
  rw [in14_0 m ρ c, in14_1 m ρ c, in14_2 m ρ c, in14_3 m ρ c, in14_4 m ρ c, o13r m ρ c, o13s m ρ c, o13q m ρ c] at h; rw [h]; unfold kS kGcnBn kBN; rfl

/-- The three results of the idealized kernel program, read off the last boundary's contents. -/
theorem res_s : (W29 m ρ c (Proc.devRef .tc main_v266) : FVec Ideal S100000x64 .f32) = kS m c := (out_s m ρ c).trans (o14 m ρ c)
theorem res_g : (W29 m ρ c (Proc.devRef .tc main_v110) : FVec Ideal S100000x64 .f32) = kG m c := (out_g m ρ c).trans (o5 m ρ c)
theorem res_p : (W29 m ρ c (Proc.devRef .tc main_v155) : FVec Ideal S100000x64 .f32) = kP m c := (out_p m ρ c).trans (o8 m ρ c)

end Cert.KernelIdeal.Val

end
-- ==== Proof.KI.SageEq.lean ====
import proofs.«173191_j73083163508880_2_alg».proof.Proof.RefLayers
import proofs.«173191_j73083163508880_2_alg».proof.Proof.KI.GlueOps
import proofs.«173191_j73083163508880_2_alg».proof.Proof.SpecA
import proofs.«173191_j73083163508880_2_alg».proof.Proof.LibLayers
import proofs.«173191_j73083163508880_2_alg».proof.Proof.LibKeepdims
import Idealize.ShloMosaic.Lib.Pipeline.Value
import Idealize.ShloMosaic.Lib.IdealHost
import Idealize.ShloMosaic.Lib.ValueIdx
import Idealize.ShloMosaic.PureOps.Ideal.Laws

/-! # The neighbour-mean layer: the reference's operations are the row formula over the kernel program's prelude

The reference computes the layer with dense array operations: the rows gathered at the edges' sources and summed into
the destinations, the in-degree, the mean by a division broadcast along the row, two matrix products and a bias row
added, each row divided by its Euclidean norm clamped below, the result clamped below by zero. Read at row `r`, column
`q`, the broadcasts pick the row's or the column's entry, the products are sums over the contracted coordinate, and the
row reduction is the sum over the row: the entry is the row formula. The two programs add the same three terms of the
linear part in two orders. The kernel program's aggregated sums and in-degrees are the reference's own (the format
changes around the gather are the identity on extended reals). -/

set_option maxRecDepth 16384

noncomputable section

namespace Cert.RefSide

open Cert.ReferenceIdeal Cert.ReferenceIdeal.Gen Idealize.ShloMosaic Idealize.ShloMosaic.TcCoe Idealize.SL.Sem Idealize.ShloMosaic.StableHlo
open Idealize.ShloMosaic.ValueIdx
open scoped BigOperators

section Split
variable {F : FTy → Type} [FloatOps F]

/-! ## The layer in four parts -/

/-- The aggregated sums: the rows of `xs` gathered at the edges' sources (a negative node number counted from the
    end) and summed into the edges' destination rows, from zero. -/
def sageAggRef (xs : (⟨S100000x64, .f32⟩ : BufTy).Contents (Elt F)) (ei : (⟨S2x2000000, .i32⟩ : BufTy).Contents (Elt F)) : (⟨S100000x64, .f32⟩ : BufTy).Contents (Elt F) :=
  let t0 : (⟨S1x2000000, .i32⟩ : BufTy).Contents (Elt F) := ((extractStridedSlice S1x2000000 ![0, 0] · slices_S2x2000000_S1x2000000_0_0) : (⟨S2x2000000, .i32⟩ : BufTy).Contents (Elt F) → (⟨S1x2000000, .i32⟩ : BufTy).Contents (Elt F)) ei
  let t1 : (⟨S2000000, .i32⟩ : BufTy).Contents (Elt F) := shapeCast _ t0 shapeCasts_S1x2000000_S2000000
  let t2 : (⟨S1x2000000, .i32⟩ : BufTy).Contents (Elt F) := ((extractStridedSlice S1x2000000 ![1, 0] · slices_S2x2000000_S1x2000000_1_0) : (⟨S2x2000000, .i32⟩ : BufTy).Contents (Elt F) → (⟨S1x2000000, .i32⟩ : BufTy).Contents (Elt F)) ei
  let t3 : (⟨S2000000, .i32⟩ : BufTy).Contents (Elt F) := shapeCast _ t2 shapeCasts_S1x2000000_S2000000
  let t4 : (⟨S_, .i32⟩ : BufTy).Contents (Elt F) := constantI S_ 32 0#32
  let t5 : (⟨S2000000, .i32⟩ : BufTy).Contents (Elt F) := (broadcastInDim S2000000 ![] bcast_S_S2000000 : (⟨S_, .i32⟩ : BufTy).Contents (Elt F) → (⟨S2000000, .i32⟩ : BufTy).Contents (Elt F)) t4
  let t6 : (⟨S2000000, .i1⟩ : BufTy).Contents (Elt F) := (cmpi .slt : (⟨S2000000, .i32⟩ : BufTy).Contents (Elt F) → (⟨S2000000, .i32⟩ : BufTy).Contents (Elt F) → (⟨S2000000, .i1⟩ : BufTy).Contents (Elt F)) t1 t5
  let t7 : (⟨S_, .i32⟩ : BufTy).Contents (Elt F) := constantI S_ 32 100000#32
  let t8 : (⟨S2000000, .i32⟩ : BufTy).Contents (Elt F) := (broadcastInDim S2000000 ![] bcast_S_S2000000 : (⟨S_, .i32⟩ : BufTy).Contents (Elt F) → (⟨S2000000, .i32⟩ : BufTy).Contents (Elt F)) t7
  let t9 : (⟨S2000000, .i32⟩ : BufTy).Contents (Elt F) := (addi : (⟨S2000000, .i32⟩ : BufTy).Contents (Elt F) → (⟨S2000000, .i32⟩ : BufTy).Contents (Elt F) → (⟨S2000000, .i32⟩ : BufTy).Contents (Elt F)) t1 t8
  let t10 : (⟨S2000000, .i32⟩ : BufTy).Contents (Elt F) := (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)) t6 t9 t1
  let t11 : (⟨S2000000x1, .i32⟩ : BufTy).Contents (Elt F) := (broadcastInDim S2000000x1 ![0] bcast_S2000000_S2000000x1_0 : (⟨S2000000, .i32⟩ : BufTy).Contents (Elt F) → (⟨S2000000x1, .i32⟩ : BufTy).Contents (Elt F)) t10
  let t12 : (⟨S2000000x64, .f32⟩ : BufTy).Contents (Elt F) := ((fun x i => Host.gather gather_S100000x64_S2000000x1_S2000000x64_1_0_n_n_0_1_164 x i) : (⟨S100000x64, .f32⟩ : BufTy).Contents (Elt F) → (⟨S2000000x1, .i32⟩ : BufTy).Contents (Elt F) → (⟨S2000000x64, .f32⟩ : BufTy).Contents (Elt F)) xs t11
  let t13 : (⟨S_, .f32⟩ : BufTy).Contents (Elt F) := constant (F := F) S_ .f32 0x00000000#32
  let t14 : (⟨S100000x64, .f32⟩ : BufTy).Contents (Elt F) := (broadcastInDim S100000x64 ![] bcast_S_S100000x64 : (⟨S_, .f32⟩ : BufTy).Contents (Elt F) → (⟨S100000x64, .f32⟩ : BufTy).Contents (Elt F)) t13
  let t15 : (⟨S2000000x1, .i32⟩ : BufTy).Contents (Elt F) := (broadcastInDim S2000000x1 ![0] bcast_S2000000_S2000000x1_0 : (⟨S2000000, .i32⟩ : BufTy).Contents (Elt F) → (⟨S2000000x1, .i32⟩ : BufTy).Contents (Elt F)) t3
  let t16 : (⟨S100000x64, .f32⟩ : BufTy).Contents (Elt F) := ((fun x i u => Host.scatterAdd scatter_S100000x64_S2000000x1_S2000000x64_1_0_0_1 x i u) : (⟨S100000x64, .f32⟩ : BufTy).Contents (Elt F) → (⟨S2000000x1, .i32⟩ : BufTy).Contents (Elt F) → (⟨S2000000x64, .f32⟩ : BufTy).Contents (Elt F) → (⟨S100000x64, .f32⟩ : BufTy).Contents (Elt F)) t14 t15 t12
  t16

/-- The in-degrees: one added per edge at its destination, from zero. -/
def sageCntRef (ei : (⟨S2x2000000, .i32⟩ : BufTy).Contents (Elt F)) : (⟨S100000, .f32⟩ : BufTy).Contents (Elt F) :=
  let t2 : (⟨S1x2000000, .i32⟩ : BufTy).Contents (Elt F) := ((extractStridedSlice S1x2000000 ![1, 0] · slices_S2x2000000_S1x2000000_1_0) : (⟨S2x2000000, .i32⟩ : BufTy).Contents (Elt F) → (⟨S1x2000000, .i32⟩ : BufTy).Contents (Elt F)) ei
  let t3 : (⟨S2000000, .i32⟩ : BufTy).Contents (Elt F) := shapeCast _ t2 shapeCasts_S1x2000000_S2000000
  let t17 : (⟨S_, .f32⟩ : BufTy).Contents (Elt F) := constant (F := F) S_ .f32 0x3F800000#32
  let t18 : (⟨S2000000, .f32⟩ : BufTy).Contents (Elt F) := (broadcastInDim S2000000 ![] bcast_S_S2000000 : (⟨S_, .f32⟩ : BufTy).Contents (Elt F) → (⟨S2000000, .f32⟩ : BufTy).Contents (Elt F)) t17
  let t19 : (⟨S_, .f32⟩ : BufTy).Contents (Elt F) := constant (F := F) S_ .f32 0x00000000#32
  let t20 : (⟨S100000, .f32⟩ : BufTy).Contents (Elt F) := (broadcastInDim S100000 ![] bcast_S_S100000 : (⟨S_, .f32⟩ : BufTy).Contents (Elt F) → (⟨S100000, .f32⟩ : BufTy).Contents (Elt F)) t19
  let t21 : (⟨S2000000x1, .i32⟩ : BufTy).Contents (Elt F) := (broadcastInDim S2000000x1 ![0] bcast_S2000000_S2000000x1_0 : (⟨S2000000, .i32⟩ : BufTy).Contents (Elt F) → (⟨S2000000x1, .i32⟩ : BufTy).Contents (Elt F)) t3
  let t22 : (⟨S100000, .f32⟩ : BufTy).Contents (Elt F) := ((fun x i u => Host.scatterAdd scatter_S100000_S2000000x1_S2000000_n_0_0_1 x i u) : (⟨S100000, .f32⟩ : BufTy).Contents (Elt F) → (⟨S2000000x1, .i32⟩ : BufTy).Contents (Elt F) → (⟨S2000000, .f32⟩ : BufTy).Contents (Elt F) → (⟨S100000, .f32⟩ : BufTy).Contents (Elt F)) t20 t21 t18
  t22

/-- The mean-aggregated rows: each aggregated row divided by its node's in-degree, at least one. -/
def sageMeanRef (A : (⟨S100000x64, .f32⟩ : BufTy).Contents (Elt F)) (N : (⟨S100000, .f32⟩ : BufTy).Contents (Elt F)) : (⟨S100000x64, .f32⟩ : BufTy).Contents (Elt F) :=
  let t23 : (⟨S_, .f32⟩ : BufTy).Contents (Elt F) := constant (F := F) S_ .f32 0x3F800000#32
  let t24 : (⟨S100000, .f32⟩ : BufTy).Contents (Elt F) := (broadcastInDim S100000 ![] bcast_S_S100000 : (⟨S_, .f32⟩ : BufTy).Contents (Elt F) → (⟨S100000, .f32⟩ : BufTy).Contents (Elt F)) t23
  let t25 : (⟨S100000, .f32⟩ : BufTy).Contents (Elt F) := (maximumf : (⟨S100000, .f32⟩ : BufTy).Contents (Elt F) → (⟨S100000, .f32⟩ : BufTy).Contents (Elt F) → (⟨S100000, .f32⟩ : BufTy).Contents (Elt F)) N t24
  let t26 : (⟨S100000x1, .f32⟩ : BufTy).Contents (Elt F) := (broadcastInDim S100000x1 ![0] bcast_S100000_S100000x1_0 : (⟨S100000, .f32⟩ : BufTy).Contents (Elt F) → (⟨S100000x1, .f32⟩ : BufTy).Contents (Elt F)) t25
  let t27 : (⟨S100000x64, .f32⟩ : BufTy).Contents (Elt F) := (broadcastInDim S100000x64 ![0, 1] bcast_S100000x1_S100000x64_0_1 : (⟨S100000x1, .f32⟩ : BufTy).Contents (Elt F) → (⟨S100000x64, .f32⟩ : BufTy).Contents (Elt F)) t26
  let t28 : (⟨S100000x64, .f32⟩ : BufTy).Contents (Elt F) := (Host.divf : (⟨S100000x64, .f32⟩ : BufTy).Contents (Elt F) → (⟨S100000x64, .f32⟩ : BufTy).Contents (Elt F) → (⟨S100000x64, .f32⟩ : BufTy).Contents (Elt F)) A t27
  t28

/-- The linear part, 32 destination channels: the mean-aggregated rows times `wl`, plus the bias row, plus the
    destination rows times `wr`. -/
def sageLinRef32 (M : (⟨S100000x64, .f32⟩ : BufTy).Contents (Elt F)) (xd : (⟨S100000x32, .f32⟩ : BufTy).Contents (Elt F)) (wl : (⟨S64x64, .f32⟩ : BufTy).Contents (Elt F))
    (b : (⟨S64, .f32⟩ : BufTy).Contents (Elt F)) (wr : (⟨S32x64, .f32⟩ : BufTy).Contents (Elt F)) : (⟨S100000x64, .f32⟩ : BufTy).Contents (Elt F) :=
  let t29 : (⟨S100000x64, .f32⟩ : BufTy).Contents (Elt F) := ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) M wl
  let t30 : (⟨S1x64, .f32⟩ : BufTy).Contents (Elt F) := (broadcastInDim S1x64 ![1] bcast_S64_S1x64_1 : (⟨S64, .f32⟩ : BufTy).Contents (Elt F) → (⟨S1x64, .f32⟩ : BufTy).Contents (Elt F)) b
  let t31 : (⟨S100000x64, .f32⟩ : BufTy).Contents (Elt F) := (broadcastInDim S100000x64 ![0, 1] bcast_S1x64_S100000x64_0_1 : (⟨S1x64, .f32⟩ : BufTy).Contents (Elt F) → (⟨S100000x64, .f32⟩ : BufTy).Contents (Elt F)) t30
  let t32 : (⟨S100000x64, .f32⟩ : BufTy).Contents (Elt F) := (addf : (⟨S100000x64, .f32⟩ : BufTy).Contents (Elt F) → (⟨S100000x64, .f32⟩ : BufTy).Contents (Elt F) → (⟨S100000x64, .f32⟩ : BufTy).Contents (Elt F)) t29 t31
  let t33 : (⟨S100000x64, .f32⟩ : BufTy).Contents (Elt F) := ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)) xd wr
  let t34 : (⟨S100000x64, .f32⟩ : BufTy).Contents (Elt F) := (addf : (⟨S100000x64, .f32⟩ : BufTy).Contents (Elt F) → (⟨S100000x64, .f32⟩ : BufTy).Contents (Elt F) → (⟨S100000x64, .f32⟩ : BufTy).Contents (Elt F)) t32 t33
  t34

/-- The linear part, 64 destination channels. -/
def sageLinRef64 (M : (⟨S100000x64, .f32⟩ : BufTy).Contents (Elt F)) (xd : (⟨S100000x64, .f32⟩ : BufTy).Contents (Elt F)) (wl : (⟨S64x64, .f32⟩ : BufTy).Contents (Elt F))
    (b : (⟨S64, .f32⟩ : BufTy).Contents (Elt F)) (wr : (⟨S64x64, .f32⟩ : BufTy).Contents (Elt F)) : (⟨S100000x64, .f32⟩ : BufTy).Contents (Elt F) :=
  let t29 : (⟨S100000x64, .f32⟩ : BufTy).Contents (Elt F) := ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) M wl
  let t30 : (⟨S1x64, .f32⟩ : BufTy).Contents (Elt F) := (broadcastInDim S1x64 ![1] bcast_S64_S1x64_1 : (⟨S64, .f32⟩ : BufTy).Contents (Elt F) → (⟨S1x64, .f32⟩ : BufTy).Contents (Elt F)) b
  let t31 : (⟨S100000x64, .f32⟩ : BufTy).Contents (Elt F) := (broadcastInDim S100000x64 ![0, 1] bcast_S1x64_S100000x64_0_1 : (⟨S1x64, .f32⟩ : BufTy).Contents (Elt F) → (⟨S100000x64, .f32⟩ : BufTy).Contents (Elt F)) t30
  let t32 : (⟨S100000x64, .f32⟩ : BufTy).Contents (Elt F) := (addf : (⟨S100000x64, .f32⟩ : BufTy).Contents (Elt F) → (⟨S100000x64, .f32⟩ : BufTy).Contents (Elt F) → (⟨S100000x64, .f32⟩ : BufTy).Contents (Elt F)) t29 t31
  let t33 : (⟨S100000x64, .f32⟩ : BufTy).Contents (Elt F) := ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) xd wr
  let t34 : (⟨S100000x64, .f32⟩ : BufTy).Contents (Elt F) := (addf : (⟨S100000x64, .f32⟩ : BufTy).Contents (Elt F) → (⟨S100000x64, .f32⟩ : BufTy).Contents (Elt F) → (⟨S100000x64, .f32⟩ : BufTy).Contents (Elt F)) t32 t33
  t34

/-- The normalisation: each row divided by its Euclidean norm clamped below by a small constant, then the maximum with
    zero. -/
def sageNormRef (out : (⟨S100000x64, .f32⟩ : BufTy).Contents (Elt F)) : (⟨S100000x64, .f32⟩ : BufTy).Contents (Elt F) :=
  let t35 : (⟨S100000x64, .f32⟩ : BufTy).Contents (Elt F) := (mulf : (⟨S100000x64, .f32⟩ : BufTy).Contents (Elt F) → (⟨S100000x64, .f32⟩ : BufTy).Contents (Elt F) → (⟨S100000x64, .f32⟩ : BufTy).Contents (Elt F)) out out
  let t36 : (⟨S_, .f32⟩ : BufTy).Contents (Elt F) := constant (F := F) S_ .f32 0x00000000#32
  let t37 : (⟨S100000, .f32⟩ : BufTy).Contents (Elt F) := ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)) t35 t36
  let t38 : (⟨S100000x1, .f32⟩ : BufTy).Contents (Elt F) := (broadcastInDim S100000x1 ![0] bcast_S100000_S100000x1_0 : (⟨S100000, .f32⟩ : BufTy).Contents (Elt F) → (⟨S100000x1, .f32⟩ : BufTy).Contents (Elt F)) t37
  let t39 : (⟨S100000x1, .f32⟩ : BufTy).Contents (Elt F) := (Host.sqrt : (⟨S100000x1, .f32⟩ : BufTy).Contents (Elt F) → (⟨S100000x1, .f32⟩ : BufTy).Contents (Elt F)) t38
  let t40 : (⟨S_, .f32⟩ : BufTy).Contents (Elt F) := constant (F := F) S_ .f32 0x2B8CBCCC#32
  let t41 : (⟨S100000x1, .f32⟩ : BufTy).Contents (Elt F) := (broadcastInDim S100000x1 ![] bcast_S_S100000x1 : (⟨S_, .f32⟩ : BufTy).Contents (Elt F) → (⟨S100000x1, .f32⟩ : BufTy).Contents (Elt F)) t40
  let t42 : (⟨S100000x1, .f32⟩ : BufTy).Contents (Elt F) := (maximumf : (⟨S100000x1, .f32⟩ : BufTy).Contents (Elt F) → (⟨S100000x1, .f32⟩ : BufTy).Contents (Elt F) → (⟨S100000x1, .f32⟩ : BufTy).Contents (Elt F)) t39 t41
  let t43 : (⟨S100000x64, .f32⟩ : BufTy).Contents (Elt F) := (broadcastInDim S100000x64 ![0, 1] bcast_S100000x1_S100000x64_0_1 : (⟨S100000x1, .f32⟩ : BufTy).Contents (Elt F) → (⟨S100000x64, .f32⟩ : BufTy).Contents (Elt F)) t42
  let t44 : (⟨S100000x64, .f32⟩ : BufTy).Contents (Elt F) := (Host.divf : (⟨S100000x64, .f32⟩ : BufTy).Contents (Elt F) → (⟨S100000x64, .f32⟩ : BufTy).Contents (Elt F) → (⟨S100000x64, .f32⟩ : BufTy).Contents (Elt F)) out t43
  let t45 : (⟨S_, .f32⟩ : BufTy).Contents (Elt F) := constant (F := F) S_ .f32 0x00000000#32
  let t46 : (⟨S100000x64, .f32⟩ : BufTy).Contents (Elt F) := (broadcastInDim S100000x64 ![] bcast_S_S100000x64 : (⟨S_, .f32⟩ : BufTy).Contents (Elt F) → (⟨S100000x64, .f32⟩ : BufTy).Contents (Elt F)) t45
  let t47 : (⟨S100000x64, .f32⟩ : BufTy).Contents (Elt F) := (maximumf : (⟨S100000x64, .f32⟩ : BufTy).Contents (Elt F) → (⟨S100000x64, .f32⟩ : BufTy).Contents (Elt F) → (⟨S100000x64, .f32⟩ : BufTy).Contents (Elt F)) t44 t46
  t47

/-- The layer is the normalisation of the linear part over the aggregated sums and the in-degrees. -/
theorem sageRelu32_split (xs : (⟨S100000x64, .f32⟩ : BufTy).Contents (Elt F)) (xd : (⟨S100000x32, .f32⟩ : BufTy).Contents (Elt F)) (ei : (⟨S2x2000000, .i32⟩ : BufTy).Contents (Elt F))
    (wl : (⟨S64x64, .f32⟩ : BufTy).Contents (Elt F)) (b : (⟨S64, .f32⟩ : BufTy).Contents (Elt F)) (wr : (⟨S32x64, .f32⟩ : BufTy).Contents (Elt F)) :
    sageRelu32 (F := F) xs xd ei wl b wr = sageNormRef (sageLinRef32 (sageMeanRef (sageAggRef xs ei) (sageCntRef ei)) xd wl b wr) := rfl
theorem sageRelu64_split (xs : (⟨S100000x64, .f32⟩ : BufTy).Contents (Elt F)) (xd : (⟨S100000x64, .f32⟩ : BufTy).Contents (Elt F)) (ei : (⟨S2x2000000, .i32⟩ : BufTy).Contents (Elt F))
    (wl : (⟨S64x64, .f32⟩ : BufTy).Contents (Elt F)) (b : (⟨S64, .f32⟩ : BufTy).Contents (Elt F)) (wr : (⟨S64x64, .f32⟩ : BufTy).Contents (Elt F)) :
    sageRelu64 (F := F) xs xd ei wl b wr = sageNormRef (sageLinRef64 (sageMeanRef (sageAggRef xs ei) (sageCntRef ei)) xd wl b wr) := rfl

end Split

/-! ## The broadcasts at an entry -/

/-- A column `[100000, 1]` spread along the rows of `[100000, 64]` reads, at `(r, q)`, the column at row `r`. -/
theorem sageCol1_apply {α : Type} (w : S100000x1.Idx → α) (r : Fin 100000) (q : Fin 64) :
    broadcastInDim S100000x64 ![0, 1] bcast_S100000x1_S100000x64_0_1 w (ix2 r q) = w (ix2 r (0 : Fin 1)) :=
  broadcastInDim_apply _ bcast_S100000x1_S100000x64_0_1 w (ix2 r q) (ix2 r (0 : Fin 1)) (fun a => match a with
    | ⟨0, _⟩ => by show r.val = if (100000 : Nat) = 1 then 0 else r.val; rw [if_neg (by decide)]
    | ⟨1, _⟩ => by show 0 = if (1 : Nat) = 1 then 0 else q.val; rw [if_pos rfl])

/-- A vector over the nodes as a column reads, at `(r, u)`, the vector at `r`. -/
theorem sageCol_apply {α : Type} (v : S100000.Idx → α) (r : Fin 100000) (u : Fin 1) :
    broadcastInDim S100000x1 ![0] bcast_S100000_S100000x1_0 v (ix2 r u) = v (ix1 r) :=
  broadcastInDim_apply _ bcast_S100000_S100000x1_0 v (ix2 r u) (ix1 r) (fun a => match a with
    | ⟨0, _⟩ => by show r.val = if (100000 : Nat) = 1 then 0 else r.val; rw [if_neg (by decide)])

/-- A vector over the nodes spread along the rows reads, at `(r, q)`, the vector at `r`. -/
theorem sageBcCol_apply {α : Type} (v : S100000.Idx → α) (r : Fin 100000) (q : Fin 64) :
    broadcastInDim S100000x64 ![0, 1] bcast_S100000x1_S100000x64_0_1 (broadcastInDim S100000x1 ![0] bcast_S100000_S100000x1_0 v) (ix2 r q)
      = v (ix1 r) := by
  rw [sageCol1_apply, sageCol_apply]

/-- A per-column vector spread over the rows reads, at `(r, q)`, the vector at `q`. -/
theorem sageBcRow_apply {α : Type} (y : S64.Idx → α) (r : Fin 100000) (q : Fin 64) :
    broadcastInDim S100000x64 ![0, 1] bcast_S1x64_S100000x64_0_1 (broadcastInDim S1x64 ![1] bcast_S64_S1x64_1 y) (ix2 r q) = y (ix1 q) := by
  rw [broadcastInDim_apply _ bcast_S1x64_S100000x64_0_1 _ (ix2 r q) (ix2 (0 : Fin 1) q) (fun a => match a with
    | ⟨0, _⟩ => by show 0 = if (1 : Nat) = 1 then 0 else r.val; rw [if_pos rfl]
    | ⟨1, _⟩ => by show q.val = if (64 : Nat) = 1 then 0 else q.val; rw [if_neg (by decide)])]
  exact broadcastInDim_apply _ bcast_S64_S1x64_1 y _ (ix1 q) (fun a => match a with
    | ⟨0, _⟩ => by show q.val = if (64 : Nat) = 1 then 0 else q.val; rw [if_neg (by decide)])

/-- The host's square root at an index. -/
theorem sageHostSqrt_apply {s : Shape} (v : FVec Ideal s .f32) (i : s.Idx) : Host.sqrt (F := Ideal) v i = Ideal.sqrt (v i) := rfl

/-! ## The two matrix products at an entry -/

/-- The left operand's index of the 64-term product at output index `i` and contraction index `k`: row `i 0` … -/
theorem sageDot64_l0 (i : S100000x64.Idx) (k : dot_S100000x64_S64x64_S100000x64_1_0_0_1_n_n.contr.Idx) : (dot_S100000x64_S64x64_S100000x64_1_0_0_1_n_n.lhsIdx i k 0).val = (i 0).val := by
  unfold DotDims.lhsIdx
  rw [dif_neg (show ¬(0 : Fin S100000x64.rank) ∈ dot_S100000x64_S64x64_S100000x64_1_0_0_1_n_n.lhsBatch by decide), dif_pos (show (0 : Fin S100000x64.rank) ∈ dot_S100000x64_S64x64_S100000x64_1_0_0_1_n_n.lhsNonContracting by decide)]
  rfl
/-- … column `k`; -/
theorem sageDot64_l1 (i : S100000x64.Idx) (k : dot_S100000x64_S64x64_S100000x64_1_0_0_1_n_n.contr.Idx) : (dot_S100000x64_S64x64_S100000x64_1_0_0_1_n_n.lhsIdx i k 1).val = (k ⟨0, by decide⟩).val :=
  dot_S100000x64_S64x64_S100000x64_1_0_0_1_n_n.lhsIdx_val_of_single rfl i k
/-- the right operand's: row `k` … -/
theorem sageDot64_r0 (i : S100000x64.Idx) (k : dot_S100000x64_S64x64_S100000x64_1_0_0_1_n_n.contr.Idx) : (dot_S100000x64_S64x64_S100000x64_1_0_0_1_n_n.rhsIdx i k 0).val = (k ⟨0, by decide⟩).val :=
  dot_S100000x64_S64x64_S100000x64_1_0_0_1_n_n.rhsIdx_val_of_single rfl i k
/-- … column `i 1`. -/
theorem sageDot64_r1 (i : S100000x64.Idx) (k : dot_S100000x64_S64x64_S100000x64_1_0_0_1_n_n.contr.Idx) : (dot_S100000x64_S64x64_S100000x64_1_0_0_1_n_n.rhsIdx i k 1).val = (i 1).val := by
  unfold DotDims.rhsIdx
  rw [dif_neg (show ¬(1 : Fin S64x64.rank) ∈ dot_S100000x64_S64x64_S100000x64_1_0_0_1_n_n.rhsBatch by decide), dif_pos (show (1 : Fin S64x64.rank) ∈ dot_S100000x64_S64x64_S100000x64_1_0_0_1_n_n.rhsNonContracting by decide)]
  rfl
/-- The 64-term product at row `r`, column `q`: the sum over `k` of the left matrix at `(r, k)` times the right at `(k, q)`. -/
theorem sageDot64_apply (L : FVec Ideal S100000x64 .f32) (R : FVec Ideal S64x64 .f32) (r : Fin 100000) (q : Fin 64) :
    Host.dotGeneral (F := Ideal) dot_S100000x64_S64x64_S100000x64_1_0_0_1_n_n none L R (ix2 r q) = ∑ k : Fin 64, L (ix2 r k) * R (ix2 k q) := by
  simp only [Host.dotGeneral]
  rw [Ideal.dotGeneral_apply, ← Equiv.sum_comp (contrEquiv1 dot_S100000x64_S64x64_S100000x64_1_0_0_1_n_n 64 rfl rfl).symm]
  refine Finset.sum_congr rfl fun k _ => ?_
  have hk := contrEquiv1_symm_val dot_S100000x64_S64x64_S100000x64_1_0_0_1_n_n 64 rfl rfl k
  have el : dot_S100000x64_S64x64_S100000x64_1_0_0_1_n_n.lhsIdx (ix2 r q) ((contrEquiv1 dot_S100000x64_S64x64_S100000x64_1_0_0_1_n_n 64 rfl rfl).symm k) = ix2 r k := funext fun a => Fin.ext (by
    match a with
    | ⟨0, _⟩ => exact sageDot64_l0 _ _
    | ⟨1, _⟩ => exact (sageDot64_l1 _ _).trans hk)
  have er : dot_S100000x64_S64x64_S100000x64_1_0_0_1_n_n.rhsIdx (ix2 r q) ((contrEquiv1 dot_S100000x64_S64x64_S100000x64_1_0_0_1_n_n 64 rfl rfl).symm k) = ix2 k q := funext fun a => Fin.ext (by
    match a with
    | ⟨0, _⟩ => exact (sageDot64_r0 _ _).trans hk
    | ⟨1, _⟩ => exact sageDot64_r1 _ _)
  rw [el, er]

/-- The left operand's index of the 32-term product at output index `i` and contraction index `k`: row `i 0` … -/
theorem sageDot32_l0 (i : S100000x64.Idx) (k : dot_S100000x32_S32x64_S100000x64_1_0_0_1_n_n.contr.Idx) : (dot_S100000x32_S32x64_S100000x64_1_0_0_1_n_n.lhsIdx i k 0).val = (i 0).val := by
  unfold DotDims.lhsIdx
  rw [dif_neg (show ¬(0 : Fin S100000x32.rank) ∈ dot_S100000x32_S32x64_S100000x64_1_0_0_1_n_n.lhsBatch by decide), dif_pos (show (0 : Fin S100000x32.rank) ∈ dot_S100000x32_S32x64_S100000x64_1_0_0_1_n_n.lhsNonContracting by decide)]
  rfl
/-- … column `k`; -/
theorem sageDot32_l1 (i : S100000x64.Idx) (k : dot_S100000x32_S32x64_S100000x64_1_0_0_1_n_n.contr.Idx) : (dot_S100000x32_S32x64_S100000x64_1_0_0_1_n_n.lhsIdx i k 1).val = (k ⟨0, by decide⟩).val :=
  dot_S100000x32_S32x64_S100000x64_1_0_0_1_n_n.lhsIdx_val_of_single rfl i k
/-- the right operand's: row `k` … -/
theorem sageDot32_r0 (i : S100000x64.Idx) (k : dot_S100000x32_S32x64_S100000x64_1_0_0_1_n_n.contr.Idx) : (dot_S100000x32_S32x64_S100000x64_1_0_0_1_n_n.rhsIdx i k 0).val = (k ⟨0, by decide⟩).val :=
  dot_S100000x32_S32x64_S100000x64_1_0_0_1_n_n.rhsIdx_val_of_single rfl i k
/-- … column `i 1`. -/
theorem sageDot32_r1 (i : S100000x64.Idx) (k : dot_S100000x32_S32x64_S100000x64_1_0_0_1_n_n.contr.Idx) : (dot_S100000x32_S32x64_S100000x64_1_0_0_1_n_n.rhsIdx i k 1).val = (i 1).val := by
  unfold DotDims.rhsIdx
  rw [dif_neg (show ¬(1 : Fin S32x64.rank) ∈ dot_S100000x32_S32x64_S100000x64_1_0_0_1_n_n.rhsBatch by decide), dif_pos (show (1 : Fin S32x64.rank) ∈ dot_S100000x32_S32x64_S100000x64_1_0_0_1_n_n.rhsNonContracting by decide)]
  rfl
/-- The 32-term product at row `r`, column `q`: the sum over `k` of the left matrix at `(r, k)` times the right at `(k, q)`. -/
theorem sageDot32_apply (L : FVec Ideal S100000x32 .f32) (R : FVec Ideal S32x64 .f32) (r : Fin 100000) (q : Fin 64) :
    Host.dotGeneral (F := Ideal) dot_S100000x32_S32x64_S100000x64_1_0_0_1_n_n none L R (ix2 r q) = ∑ k : Fin 32, L (ix2 r k) * R (ix2 k q) := by
  simp only [Host.dotGeneral]
  rw [Ideal.dotGeneral_apply, ← Equiv.sum_comp (contrEquiv1 dot_S100000x32_S32x64_S100000x64_1_0_0_1_n_n 32 rfl rfl).symm]
  refine Finset.sum_congr rfl fun k _ => ?_
  have hk := contrEquiv1_symm_val dot_S100000x32_S32x64_S100000x64_1_0_0_1_n_n 32 rfl rfl k
  have el : dot_S100000x32_S32x64_S100000x64_1_0_0_1_n_n.lhsIdx (ix2 r q) ((contrEquiv1 dot_S100000x32_S32x64_S100000x64_1_0_0_1_n_n 32 rfl rfl).symm k) = ix2 r k := funext fun a => Fin.ext (by
    match a with
    | ⟨0, _⟩ => exact sageDot32_l0 _ _
    | ⟨1, _⟩ => exact (sageDot32_l1 _ _).trans hk)
  have er : dot_S100000x32_S32x64_S100000x64_1_0_0_1_n_n.rhsIdx (ix2 r q) ((contrEquiv1 dot_S100000x32_S32x64_S100000x64_1_0_0_1_n_n 32 rfl rfl).symm k) = ix2 k q := funext fun a => Fin.ext (by
    match a with
    | ⟨0, _⟩ => exact (sageDot32_r0 _ _).trans hk
    | ⟨1, _⟩ => exact sageDot32_r1 _ _)
  rw [el, er]

/-! ## The row reduction at an entry -/

/-- The sum along a row, from the initial value. -/
theorem sageRowReduce_apply (x : FVec Ideal S100000x64 .f32) (z : S_.Idx → EReal) (r : Fin 100000) :
    Host.reduceAdd (F := Ideal) (φ := .f32) x z reducesTo_S100000x64_S100000_d1 h_S_ (ix1 r)
      = z (Shape.Idx.first h_S_) + ∑ q' : Fin 64, x (ix2 r q') := by
  simp only [Host.reduceAdd, Ideal.hostReduceAdd_def]
  rw [Ideal.hostReduceAdd_single reducesTo_S100000x64_S100000_d1 (by decide)]
  refine congrArg (_ + ·) (Finset.sum_congr rfl fun k _ => ?_)
  exact congrArg x (funext fun a => Fin.ext (by match a with | ⟨0, _⟩ => rfl | ⟨1, _⟩ => rfl))

/-! ## The linear part and the normalisation at an entry -/

/-- The mean-aggregated rows at `(r, k)`: the aggregated entry divided by the larger of the node's in-degree and one. -/
theorem sageMeanRef_apply (A : FVec Ideal S100000x64 .f32) (N : FVec Ideal S100000 .f32) (r : Fin 100000) (k : Fin 64) :
    sageMeanRef (F := Ideal) A N (ix2 r k) = Ideal.div (A (ix2 r k)) (max (N (ix1 r)) (Ideal.ofBits .f32 0x3F800000#32)) := by
  unfold sageMeanRef
  dsimp only
  rw [hostDivf_apply, sageBcCol_apply, maximumf_apply, broadcastInDim_scalar_apply]
  rfl

/-- The reference's linear part at row `r`, column `q`, 32 destination channels: the two programs add the same
    three terms, the bias second or last. -/
theorem sageLinRef32_apply (M : FVec Ideal S100000x64 .f32) (xd : FVec Ideal S100000x32 .f32)
    (wl : FVec Ideal S64x64 .f32) (b : FVec Ideal S64 .f32) (wr : FVec Ideal S32x64 .f32) (r : Fin 100000) (q : Fin 64) :
    sageLinRef32 (F := Ideal) M xd wl b wr (ix2 r q)
      = (∑ k : Fin 64, M (ix2 r k) * wl (ix2 k q)) + (∑ k : Fin 32, xd (ix2 r k) * wr (ix2 k q)) + b (ix1 q) := by
  unfold sageLinRef32
  dsimp only
  rw [addf_apply, addf_apply, sageDot64_apply, sageDot32_apply, sageBcRow_apply]
  exact (Cert.LibLayers.add_swap_right _ _ _).symm

/-- The reference's linear part at row `r`, column `q`, 64 destination channels: the two programs add the same
    three terms, the bias second or last. -/
theorem sageLinRef64_apply (M : FVec Ideal S100000x64 .f32) (xd : FVec Ideal S100000x64 .f32)
    (wl : FVec Ideal S64x64 .f32) (b : FVec Ideal S64 .f32) (wr : FVec Ideal S64x64 .f32) (r : Fin 100000) (q : Fin 64) :
    sageLinRef64 (F := Ideal) M xd wl b wr (ix2 r q)
      = (∑ k : Fin 64, M (ix2 r k) * wl (ix2 k q)) + (∑ k : Fin 64, xd (ix2 r k) * wr (ix2 k q)) + b (ix1 q) := by
  unfold sageLinRef64
  dsimp only
  rw [addf_apply, addf_apply, sageDot64_apply, sageDot64_apply, sageBcRow_apply]
  exact (Cert.LibLayers.add_swap_right _ _ _).symm

/-- The normalisation at row `r`, column `q`: the entry divided by the row's norm clamped below, clamped below by zero. -/
theorem sageNormRef_apply (out : FVec Ideal S100000x64 .f32) (r : Fin 100000) (q : Fin 64) :
    sageNormRef (F := Ideal) out (ix2 r q)
      = max (Ideal.div (out (ix2 r q))
          (max (Ideal.sqrt (Ideal.ofBits .f32 0x00000000#32 + ∑ q' : Fin 64, out (ix2 r q') * out (ix2 r q')))
            (Ideal.ofBits .f32 0x2B8CBCCC#32)))
        (Ideal.ofBits .f32 0x00000000#32) := by
  unfold sageNormRef
  dsimp only
  rw [maximumf_apply, hostDivf_apply, sageCol1_apply, maximumf_apply, sageHostSqrt_apply, sageCol_apply, sageRowReduce_apply,
    broadcastInDim_scalar_apply, broadcastInDim_scalar_apply]
  rfl

end Cert.RefSide

namespace Cert.KernelIdeal.Val

open Cert.KernelIdeal Cert.KernelIdeal.Gen Cert.KernelIdeal.Fr
open Idealize.ShloMosaic Idealize.ShloMosaic.ValueIdx
open scoped BigOperators

/-! ## The kernel program's prelude is the reference's -/

/-- The kernel program's aggregated sums are the reference's: the same gather and scatter-add, the roundings around the
    gather the identity on extended reals. -/
theorem sageAgg_eq_ref (xs : FVec Ideal S100000x64 .f32) (ei : IVec S2x2000000 32) :
    sageAgg (F := Ideal) xs ei = Cert.RefSide.sageAggRef (F := Ideal) xs ei := rfl

/-- The kernel program's in-degrees are the reference's. -/
theorem inDeg_eq_ref (ei : IVec S2x2000000 32) : inDeg (F := Ideal) ei = Cert.RefSide.sageCntRef (F := Ideal) ei := rfl

/-- The counts' column at row `r` is the in-degree of node `r`. -/
theorem sageCnt_apply (ei : IVec S2x2000000 32) (r : Fin 100000) :
    sageCnt (F := Ideal) ei (ix2 r (0 : Fin 1)) = inDeg (F := Ideal) ei (ix1 r) := by
  unfold sageCnt nodeCol
  exact Cert.LibKeepdims.shapeCast_a_a1_apply _ _ r 0

/-- Adding onto the zero word adds onto zero. -/
theorem zero_word_add (S : EReal) : Ideal.ofBits .f32 0x00000000#32 + S = S := by rw [Ideal.ofBits_zero_f32, zero_add]

/-! ## The layer equality -/

/-- The row formula over the kernel program's aggregated sums and counts is the reference's layer, 32 destination
    channels. -/
theorem sage32_eq (xs : FVec Ideal S100000x64 .f32) (xd : FVec Ideal S100000x32 .f32) (ei : IVec S2x2000000 32)
    (wl : FVec Ideal S64x64 .f32) (b : FVec Ideal S64 .f32) (wr : FVec Ideal S32x64 .f32) :
    Cert.Spec.sageG32 (sageAgg (F := Ideal) xs ei) (sageCnt (F := Ideal) ei) xd wl b wr
      = Cert.RefSide.sageRelu32 (F := Ideal) xs xd ei wl b wr := by
  funext i
  obtain ⟨r, q, rfl⟩ : ∃ (r : Fin 100000) (q : Fin 64), i = ix2 r q := ⟨i 0, i 1, eq_ix2 i⟩
  rw [Cert.RefSide.sageRelu32_split, Cert.RefSide.sageNormRef_apply]
  simp only [Cert.RefSide.sageLinRef32_apply, Cert.RefSide.sageMeanRef_apply]
  rw [zero_word_add]
  show Cert.Spec.sageRow (fun k => sageAgg (F := Ideal) xs ei (ix2 r k)) (sageCnt (F := Ideal) ei (ix2 r (0 : Fin 1)))
    (fun k => xd (ix2 r k)) wl b wr q = _
  rw [sageCnt_apply, sageAgg_eq_ref, inDeg_eq_ref]
  rfl

/-- The same with 64 destination channels. -/
theorem sage64_eq (xs : FVec Ideal S100000x64 .f32) (xd : FVec Ideal S100000x64 .f32) (ei : IVec S2x2000000 32)
    (wl : FVec Ideal S64x64 .f32) (b : FVec Ideal S64 .f32) (wr : FVec Ideal S64x64 .f32) :
    Cert.Spec.sageG64 (sageAgg (F := Ideal) xs ei) (sageCnt (F := Ideal) ei) xd wl b wr
      = Cert.RefSide.sageRelu64 (F := Ideal) xs xd ei wl b wr := by
  funext i
  obtain ⟨r, q, rfl⟩ : ∃ (r : Fin 100000) (q : Fin 64), i = ix2 r q := ⟨i 0, i 1, eq_ix2 i⟩
  rw [Cert.RefSide.sageRelu64_split, Cert.RefSide.sageNormRef_apply]
  simp only [Cert.RefSide.sageLinRef64_apply, Cert.RefSide.sageMeanRef_apply]
  rw [zero_word_add]
  show Cert.Spec.sageRow (fun k => sageAgg (F := Ideal) xs ei (ix2 r k)) (sageCnt (F := Ideal) ei (ix2 r (0 : Fin 1)))
    (fun k => xd (ix2 r k)) wl b wr q = _
  rw [sageCnt_apply, sageAgg_eq_ref, inDeg_eq_ref]
  rfl

end Cert.KernelIdeal.Val

end
-- ==== Proof.LibScatterRows.lean ====
/-
  SCATTER-ADD OF ROWS, read at one element.

  The operand is an `n × c` array, the updates an `E × c` array, and the scatter indices an `E × 1` array of
  integers: update row `e` carries ONE row number `k e` (read signed) and is added, column by column, into operand
  row `k e`; an update row whose number is outside `[0, n)` is dropped. The dimension numbers enter only through
  four coordinate facts: the window starts at `(k e, 0)` and the window coordinate of update index `(e, f)` is `(0, f)`.

  (A) `resultIdx?_rows`: update `(e, f)` lands on operand element `(p, q)` exactly when `k e = p` and `f = q`.
  (B) `hostScatterAdd_rows_apply`: so the exact scatter-add read at `(p, q)` is `x (p, q) + ∑_{e : k e = p} upd (e, q)`.
  (C) `sum_filter_padded`: a keyed sum `∑_{e : key e = t} val e` is unchanged when the family is extended by further
      rows whose VALUE is zero, whatever keys those rows carry.
-/
import Idealize.ShloMosaic.PureOps.Ideal
import Idealize.ShloMosaic.Lib.ValueIdx

noncomputable section

open scoped BigOperators

namespace Cert.LibScatterRows

open Idealize.ShloMosaic Idealize.ShloMosaic.ValueIdx

variable {n c E E' w : ℕ}

/-- (A) where an update lands, from four coordinate facts of the record -/
theorem resultIdx?_rows (d : ScatterDims ⟨2, ![n, c]⟩ ⟨2, ![E, 1]⟩ ⟨2, ![E, c]⟩)
    (hs0 : ∀ (j : (⟨2, ![E, c]⟩ : Shape).Idx) (idx : IVec ⟨2, ![E, 1]⟩ w),
      d.start j idx 0 = (idx (ix2 (⟨(j 0).val, idx2_lt0 j⟩ : Fin E) (0 : Fin 1))).toInt)
    (hs1 : ∀ (j : (⟨2, ![E, c]⟩ : Shape).Idx) (idx : IVec ⟨2, ![E, 1]⟩ w), d.start j idx 1 = 0)
    (hw0 : ∀ j : (⟨2, ![E, c]⟩ : Shape).Idx, d.window j 0 = 0)
    (hw1 : ∀ j : (⟨2, ![E, c]⟩ : Shape).Idx, d.window j 1 = (j 1).val)
    (idx : IVec ⟨2, ![E, 1]⟩ w) (e : Fin E) (f : Fin c) (p : Fin n) (q : Fin c) :
    d.resultIdx? (ix2 e f) idx = some (ix2 p q) ↔ (idx (ix2 e (0 : Fin 1))).toInt = (p.val : ℤ) ∧ f = q := by
  -- the four facts at the update index `(e, f)`
  have hst0 : d.start (ix2 e f) idx 0 = (idx (ix2 e (0 : Fin 1))).toInt := hs0 (ix2 e f) idx
  have hst1 : d.start (ix2 e f) idx 1 = 0 := hs1 (ix2 e f) idx
  have hwi0 : d.window (ix2 e f) 0 = 0 := hw0 (ix2 e f)
  have hwi1 : d.window (ix2 e f) 1 = f.val := hw1 (ix2 e f)
  have hp : p.val < n := p.isLt
  have hf : f.val < c := f.isLt
  have hn : (⟨2, ![n, c]⟩ : Shape).size 0 = n := rfl
  have hc : (⟨2, ![n, c]⟩ : Shape).size 1 = c := rfl
  unfold ScatterDims.resultIdx?
  by_cases h : ∀ a, 0 ≤ d.start (ix2 e f) idx a + d.window (ix2 e f) a ∧
      d.start (ix2 e f) idx a + d.window (ix2 e f) a < (⟨2, ![n, c]⟩ : Shape).size a
  · rw [dif_pos h]
    have h0 := h 0
    rw [hst0, hwi0, hn] at h0
    constructor
    · intro heq
      have heq' := Option.some.inj heq
      have e0 : (d.start (ix2 e f) idx 0 + d.window (ix2 e f) 0).toNat = p.val :=
        congrArg (fun g : (⟨2, ![n, c]⟩ : Shape).Idx => (g 0).val) heq'
      have e1 : (d.start (ix2 e f) idx 1 + d.window (ix2 e f) 1).toNat = q.val :=
        congrArg (fun g : (⟨2, ![n, c]⟩ : Shape).Idx => (g 1).val) heq'
      rw [hst0, hwi0] at e0
      rw [hst1, hwi1] at e1
      refine ⟨by omega, Fin.ext (by omega)⟩
    · rintro ⟨hk, rfl⟩
      congr 1
      funext a
      revert a
      rw [Fin.forall_fin_two]
      refine ⟨Fin.ext ?_, Fin.ext ?_⟩
      · show (d.start (ix2 e f) idx 0 + d.window (ix2 e f) 0).toNat = p.val
        rw [hst0, hwi0]; omega
      · show (d.start (ix2 e f) idx 1 + d.window (ix2 e f) 1).toNat = f.val
        rw [hst1, hwi1]; omega
  · rw [dif_neg h]
    constructor
    · intro heq; exact absurd heq (by simp)
    · rintro ⟨hk, -⟩
      exfalso
      apply h
      rw [Fin.forall_fin_two]
      refine ⟨?_, ?_⟩
      · rw [hst0, hwi0, hn]; omega
      · rw [hst1, hwi1, hc]; omega

/-- (B) the scatter-add of rows read at `(p, q)`: the operand there plus the sum, over the update rows whose index is
    `p`, of their entry in column `q` -/
theorem hostScatterAdd_rows_apply (d : ScatterDims ⟨2, ![n, c]⟩ ⟨2, ![E, 1]⟩ ⟨2, ![E, c]⟩)
    (hs0 : ∀ (j : (⟨2, ![E, c]⟩ : Shape).Idx) (idx : IVec ⟨2, ![E, 1]⟩ w),
      d.start j idx 0 = (idx (ix2 (⟨(j 0).val, idx2_lt0 j⟩ : Fin E) (0 : Fin 1))).toInt)
    (hs1 : ∀ (j : (⟨2, ![E, c]⟩ : Shape).Idx) (idx : IVec ⟨2, ![E, 1]⟩ w), d.start j idx 1 = 0)
    (hw0 : ∀ j : (⟨2, ![E, c]⟩ : Shape).Idx, d.window j 0 = 0)
    (hw1 : ∀ j : (⟨2, ![E, c]⟩ : Shape).Idx, d.window j 1 = (j 1).val)
    (x : (⟨2, ![n, c]⟩ : Shape).Idx → EReal) (idx : IVec ⟨2, ![E, 1]⟩ w)
    (upd : (⟨2, ![E, c]⟩ : Shape).Idx → EReal) (p : Fin n) (q : Fin c) :
    Ideal.hostScatterAdd d x idx upd (ix2 p q)
      = x (ix2 p q) + ∑ e ∈ Finset.univ.filter (fun e : Fin E => (idx (ix2 e (0 : Fin 1))).toInt = (p.val : ℤ)),
          upd (ix2 e q) := by
  unfold Ideal.hostScatterAdd
  congr 1
  -- both sides as sums of `if`s; the left one split into the double sum over the coordinates `(e, f)`
  rw [Finset.sum_filter, sum_idx2, Finset.sum_filter]
  refine Finset.sum_congr rfl fun e _ => ?_
  simp only [resultIdx?_rows d hs0 hs1 hw0 hw1]
  by_cases hk : (idx (ix2 e (0 : Fin 1))).toInt = (p.val : ℤ)
  · -- row `e` is sent to row `p`: of its entries only the one in column `q` lands on `(p, q)`
    simp only [hk, true_and, if_true]
    rw [Finset.sum_ite_eq' Finset.univ q (fun f => upd (ix2 e f))]
    simp
  · -- row `e` is sent elsewhere (or dropped): none of its entries lands on `(p, q)`
    simp only [hk, false_and, if_false]
    exact Finset.sum_const_zero

/-- (C) rows appended with value zero do not change such a sum, whatever keys they carry -/
theorem sum_filter_padded (hE : E ≤ E') (key : Fin E → ℤ) (key' : Fin E' → ℤ) (val : Fin E → EReal)
    (val' : Fin E' → EReal)
    (hk : ∀ e : Fin E, key' (Fin.castLE hE e) = key e) (hv : ∀ e : Fin E, val' (Fin.castLE hE e) = val e)
    (hz : ∀ e' : Fin E', E ≤ e'.val → val' e' = 0) (t : ℤ) :
    ∑ e' ∈ Finset.univ.filter (fun e' : Fin E' => key' e' = t), val' e'
      = ∑ e ∈ Finset.univ.filter (fun e : Fin E => key e = t), val e := by
  rw [Finset.sum_filter, Finset.sum_filter]
  -- the short sum is the long one restricted to the image of `Fin E` in `Fin E'` …
  have himg : ∑ e : Fin E, (if key e = t then val e else 0)
      = ∑ e' ∈ Finset.univ.map (Fin.castLEEmb hE), (if key' e' = t then val' e' else 0) := by
    rw [Finset.sum_map]
    refine Finset.sum_congr rfl fun e _ => ?_
    show _ = if key' (Fin.castLE hE e) = t then val' (Fin.castLE hE e) else 0
    rw [hk, hv]
  rw [himg]
  symm
  -- … and outside that image every term is zero
  refine Finset.sum_subset (Finset.subset_univ _) fun e' _ hn => ?_
  have hge : E ≤ e'.val := by
    by_contra hlt
    exact hn (Finset.mem_map.2 ⟨⟨e'.val, Nat.lt_of_not_le hlt⟩, Finset.mem_univ _, Fin.ext rfl⟩)
  rw [hz e' hge]
  exact ite_self 0

end Cert.LibScatterRows

end
-- ==== Proof.LibGcnIdx.lean ====
/-
  ROW SCATTERS AND ROW GATHERS of a graph convolution, read at one element.

  The arrays are an `n × c` array of node rows, an `E × 1` array of integer words (one node number per edge) and
  `E × c` (or `E`) arrays of per-edge values.  The dimension numbers enter only through the fields of the record:

  (S2) a scatter-add of ROWS (window axis 1, inserted axis 0, one index per update row): element `(p, q)` of the result
       is the operand's plus the sum over the edges whose word reads `p` of the update's entry `(e, q)`.
  (S1) a scatter-add of SCALARS into a vector (no window axis): element `p` is the operand's plus the sum over the
       edges whose word reads `p` of the update's entry `e`; with all updates `1` and the operand `0` this is the
       NUMBER of such edges.
  (G2) a gather of ROWS: element `(e, q)` is the operand's at row `clampRow n (word e)`, column `q`.
  (G1) a gather of SCALARS from a vector: element `e` is the operand's at `clampRow n (word e)`.
  `clampRow n k` is the word read signed, a negative one sent to 0, clamped to `n - 1`.
-/
import Idealize.ShloMosaic.PureOps.Ideal
import Idealize.ShloMosaic.Lib.ValueIdx
import proofs.«173191_j73083163508880_2_alg».proof.Proof.LibScatterRows

noncomputable section

open scoped BigOperators

namespace Cert.GcnLaw

open Idealize.ShloMosaic Idealize.ShloMosaic.ValueIdx

variable {n c E w : ℕ}

/-! ## (S2) the scatter-add of rows -/

section Scatter2
variable (d : ScatterDims ⟨2, ![n, c]⟩ ⟨2, ![E, 1]⟩ ⟨2, ![E, c]⟩)

theorem scatter2_start0 (hU : d.updateWindowDims = [1]) (hI : d.insertedWindowDims = [0])
    (hS : d.scatterDimsToOperandDims = [0]) (hV : d.indexVectorDim = 1)
    (j : (⟨2, ![E, c]⟩ : Shape).Idx) (idx : IVec ⟨2, ![E, 1]⟩ w) :
    d.start j idx 0 = (idx (ix2 (⟨(j 0).val, idx2_lt0 j⟩ : Fin E) (0 : Fin 1))).toInt := by
  obtain ⟨uw, iw, sd, iv, wf⟩ := d
  dsimp only at hU hI hS hV
  subst hU hI hS hV
  unfold ScatterDims.start
  split
  · congr 2
    funext b
    refine Fin.ext ?_
    match b with
    | ⟨0, _⟩ => rfl
    | ⟨1, _⟩ => rfl
  · rename_i ha
    exact absurd (List.mem_singleton.mpr rfl) ha

theorem scatter2_start1 (hS : d.scatterDimsToOperandDims = [0])
    (j : (⟨2, ![E, c]⟩ : Shape).Idx) (idx : IVec ⟨2, ![E, 1]⟩ w) : d.start j idx 1 = 0 := by
  unfold ScatterDims.start
  split
  · rename_i ha
    rw [hS] at ha
    exact absurd (congrArg Fin.val (List.mem_singleton.mp ha)) Nat.one_ne_zero
  · rfl

theorem scatter2_window0 (hI : d.insertedWindowDims = [0]) (j : (⟨2, ![E, c]⟩ : Shape).Idx) : d.window j 0 = 0 := by
  unfold ScatterDims.window
  split
  · rename_i ha
    exfalso
    rw [ScatterDims.sKept, hI] at ha
    simp [Shape.kept, List.mem_filter] at ha
  · rfl

theorem scatter2_window1 (hU : d.updateWindowDims = [1]) (hI : d.insertedWindowDims = [0])
    (hS : d.scatterDimsToOperandDims = [0]) (hV : d.indexVectorDim = 1)
    (j : (⟨2, ![E, c]⟩ : Shape).Idx) : d.window j 1 = (j 1).val := by
  obtain ⟨uw, iw, sd, iv, wf⟩ := d
  dsimp only at hU hI hS hV
  subst hU hI hS hV
  unfold ScatterDims.window
  split
  · rfl
  · rename_i ha
    exact absurd (by simp [ScatterDims.sKept, Shape.kept, List.mem_filter]) ha

/-- (S2) the scatter-add of rows read at `(p, q)`: the operand there plus the sum, over the edges whose word reads `p`,
    of the update's entry `(e, q)`; an edge whose word is outside `[0, n)` contributes to no row. -/
theorem scatterAdd_rows_apply {φ : FTy} (hU : d.updateWindowDims = [1]) (hI : d.insertedWindowDims = [0])
    (hS : d.scatterDimsToOperandDims = [0]) (hV : d.indexVectorDim = 1)
    (x : FVec Ideal ⟨2, ![n, c]⟩ φ) (idx : IVec ⟨2, ![E, 1]⟩ w) (upd : FVec Ideal ⟨2, ![E, c]⟩ φ) (p : Fin n) (q : Fin c) :
    Host.scatterAdd d x idx upd (ix2 p q)
      = x (ix2 p q) + ∑ e ∈ Finset.univ.filter (fun e : Fin E => (idx (ix2 e (0 : Fin 1))).toInt = (p.val : ℤ)),
          upd (ix2 e q) :=
  Cert.LibScatterRows.hostScatterAdd_rows_apply d (fun j idx => scatter2_start0 d hU hI hS hV j idx)
    (fun j idx => scatter2_start1 d hS j idx) (fun j => scatter2_window0 d hI j)
    (fun j => scatter2_window1 d hU hI hS hV j) x idx upd p q

end Scatter2

/-! ## (S1) the scatter-add of scalars into a vector -/

/-- a sum over the rank-1 index set is the sum over its one coordinate -/
theorem sum_idx1 {M : Type*} [AddCommMonoid M] (f : (⟨1, ![E]⟩ : Shape).Idx → M) :
    ∑ j, f j = ∑ e : Fin E, f (ix1 e) := by
  refine Fintype.sum_equiv ⟨fun j => j 0, fun e => ix1 e, fun j => (eq_ix1 j).symm, fun _ => rfl⟩ _ _ fun j => ?_
  exact congrArg f (eq_ix1 j)

section Scatter1
variable (d : ScatterDims ⟨1, ![n]⟩ ⟨2, ![E, 1]⟩ ⟨1, ![E]⟩)

theorem scatter1_start0 (hU : d.updateWindowDims = []) (hI : d.insertedWindowDims = [0])
    (hS : d.scatterDimsToOperandDims = [0]) (hV : d.indexVectorDim = 1)
    (j : (⟨1, ![E]⟩ : Shape).Idx) (idx : IVec ⟨2, ![E, 1]⟩ w) :
    d.start j idx 0 = (idx (ix2 (j 0) (0 : Fin 1))).toInt := by
  obtain ⟨uw, iw, sd, iv, wf⟩ := d
  dsimp only at hU hI hS hV
  subst hU hI hS hV
  unfold ScatterDims.start
  split
  · congr 2
    funext b
    refine Fin.ext ?_
    match b with
    | ⟨0, _⟩ => rfl
    | ⟨1, _⟩ => rfl
  · rename_i ha
    exact absurd (List.mem_singleton.mpr rfl) ha

theorem scatter1_window0 (hI : d.insertedWindowDims = [0]) (j : (⟨1, ![E]⟩ : Shape).Idx) : d.window j 0 = 0 := by
  unfold ScatterDims.window
  split
  · rename_i ha
    exfalso
    rw [ScatterDims.sKept, hI] at ha
    simp [Shape.kept, List.mem_filter] at ha
  · rfl

/-- where an update lands: update `e` lands on element `p` exactly when its word reads `p` -/
theorem scatter1_resultIdx? (hU : d.updateWindowDims = []) (hI : d.insertedWindowDims = [0])
    (hS : d.scatterDimsToOperandDims = [0]) (hV : d.indexVectorDim = 1)
    (idx : IVec ⟨2, ![E, 1]⟩ w) (e : Fin E) (p : Fin n) :
    d.resultIdx? (ix1 e) idx = some (ix1 p) ↔ (idx (ix2 e (0 : Fin 1))).toInt = (p.val : ℤ) := by
  have hst : d.start (ix1 e) idx 0 = (idx (ix2 e (0 : Fin 1))).toInt := scatter1_start0 d hU hI hS hV (ix1 e) idx
  have hwi : d.window (ix1 e) 0 = 0 := scatter1_window0 d hI (ix1 e)
  have hp : p.val < n := p.isLt
  have hn : (⟨1, ![n]⟩ : Shape).size 0 = n := rfl
  unfold ScatterDims.resultIdx?
  by_cases h : ∀ a, 0 ≤ d.start (ix1 e) idx a + d.window (ix1 e) a ∧
      d.start (ix1 e) idx a + d.window (ix1 e) a < (⟨1, ![n]⟩ : Shape).size a
  · rw [dif_pos h]
    have h0 := h 0
    rw [hst, hwi, hn] at h0
    constructor
    · intro heq
      have e0 : (d.start (ix1 e) idx 0 + d.window (ix1 e) 0).toNat = p.val :=
        congrArg (fun g : (⟨1, ![n]⟩ : Shape).Idx => (g 0).val) (Option.some.inj heq)
      rw [hst, hwi] at e0
      omega
    · intro hk
      congr 1
      funext a
      obtain rfl : a = 0 := Subsingleton.elim _ _
      refine Fin.ext ?_
      show (d.start (ix1 e) idx 0 + d.window (ix1 e) 0).toNat = p.val
      rw [hst, hwi]; omega
  · rw [dif_neg h]
    constructor
    · intro heq; exact absurd heq (by simp)
    · intro hk
      exfalso
      apply h
      intro a
      obtain rfl : a = 0 := Subsingleton.elim _ _
      rw [hst, hwi, hn]; omega

/-- (S1) the scatter-add of scalars read at `p`: the operand there plus the sum, over the edges whose word reads `p`,
    of the update's entry `e`. -/
theorem scatterAdd_vec_apply {φ : FTy} (hU : d.updateWindowDims = []) (hI : d.insertedWindowDims = [0])
    (hS : d.scatterDimsToOperandDims = [0]) (hV : d.indexVectorDim = 1)
    (x : FVec Ideal ⟨1, ![n]⟩ φ) (idx : IVec ⟨2, ![E, 1]⟩ w) (upd : FVec Ideal ⟨1, ![E]⟩ φ) (p : Fin n) :
    Host.scatterAdd d x idx upd (ix1 p)
      = x (ix1 p) + ∑ e ∈ Finset.univ.filter (fun e : Fin E => (idx (ix2 e (0 : Fin 1))).toInt = (p.val : ℤ)),
          upd (ix1 e) := by
  show Ideal.hostScatterAdd d x idx upd (ix1 p) = _
  unfold Ideal.hostScatterAdd
  congr 1
  rw [Finset.sum_filter, sum_idx1, Finset.sum_filter]
  refine Finset.sum_congr rfl fun e _ => ?_
  simp only [scatter1_resultIdx? d hU hI hS hV]

/-- `k` copies of `1` add up to the real number `k` -/
theorem nsmul_one_ereal (k : ℕ) : k • (1 : EReal) = (((k : ℕ) : ℝ) : EReal) := by
  induction k with
  | zero => simp
  | succ k ih => rw [succ_nsmul, ih, Nat.cast_succ, EReal.coe_add, EReal.coe_one]

/-- (S1) with every update `1` and the operand `0`: the NUMBER of edges whose word reads `p`. -/
theorem scatterAdd_ones_apply {φ : FTy} (hU : d.updateWindowDims = []) (hI : d.insertedWindowDims = [0])
    (hS : d.scatterDimsToOperandDims = [0]) (hV : d.indexVectorDim = 1)
    (x : FVec Ideal ⟨1, ![n]⟩ φ) (idx : IVec ⟨2, ![E, 1]⟩ w) (upd : FVec Ideal ⟨1, ![E]⟩ φ)
    (hx : ∀ i, x i = 0) (hu : ∀ j, upd j = 1) (p : Fin n) :
    Host.scatterAdd d x idx upd (ix1 p)
      = (((Finset.univ.filter (fun e : Fin E => (idx (ix2 e (0 : Fin 1))).toInt = (p.val : ℤ))).card : ℝ) : EReal) := by
  rw [scatterAdd_vec_apply d hU hI hS hV, hx, zero_add, Finset.sum_congr rfl fun e _ => hu (ix1 e),
    Finset.sum_const]
  exact nsmul_one_ereal _

end Scatter1

end Cert.GcnLaw

end
-- ==== Proof.LibGcnGather.lean ====
/-
  ROW GATHERS of a graph convolution, read at one element, and the index words they read.

  (G2) a gather of ROWS of an `n × c` array at an `E × 1` array of words: element `(e, q)` is the operand's at row
       `clampRow n (word e)`, column `q`.
  (G1) a gather of SCALARS from a vector of length `n`: element `e` is the operand's at `clampRow n (word e)`.
  `clampRow n k` is the word read signed, a negative one sent to `0`, clamped to `n - 1`.
  (N)  the words a gather reads are first NORMALISED: a negative word has `n` added (`normWord`).  A word that reads
       a row number `p < n` is left alone by the normalisation and by the clamp: `clampRow n (normWord N k) = p`.
-/
import Idealize.ShloMosaic.PureOps.Ideal
import Idealize.ShloMosaic.Lib.ValueIdx

noncomputable section

open scoped BigOperators

namespace Cert.GcnLaw

open Idealize.ShloMosaic Idealize.ShloMosaic.ValueIdx

variable {n c E w : ℕ} {α : Type}

/-- the row a gather reads for the word `k`: read signed, a negative word sent to `0`, clamped to `n - 1` -/
def clampRow (n : ℕ) (k : BitVec w) : ℕ := min k.toInt.toNat (n - 1)

theorem clampRow_lt (hn : 0 < n) (k : BitVec w) : clampRow n k < n := by
  unfold clampRow; omega

/-- a word that reads a row number below `n` is its own clamped row -/
theorem clampRow_of_toInt {k : BitVec w} {p : ℕ} (hp : p < n) (hk : k.toInt = (p : ℤ)) : clampRow n k = p := by
  unfold clampRow; rw [hk]; omega

/-! ## (G2) the gather of rows -/

section Gather2
variable (d : GatherDims ⟨2, ![n, c]⟩ ⟨2, ![E, 1]⟩ ⟨2, ![E, c]⟩)

/-- (G2) the gather of rows read at `(e, q)` -/
theorem gather_rows_apply (hn : 0 < n) (hO : d.offsetDims = [1]) (hC : d.collapsedSliceDims = [0])
    (hB : d.operandBatchingDims = []) (hB' : d.startIndicesBatchingDims = []) (hM : d.startIndexMap = [0])
    (hV : d.indexVectorDim = 1) (hZ : d.sliceSizes = ![1, c])
    (x : (⟨2, ![n, c]⟩ : Shape).Idx → α) (idx : IVec ⟨2, ![E, 1]⟩ w) (e : Fin E) (q : Fin c) :
    Host.gather d x idx (ix2 e q) = x (ix2 ⟨clampRow n (idx (ix2 e (0 : Fin 1))), clampRow_lt hn _⟩ q) := by
  obtain ⟨od, cd, ob, sb, sm, iv, sz, wf⟩ := d
  dsimp only at hO hC hB hB' hM hV hZ
  subst hO hC hB hB' hM hV hZ
  unfold Host.gather
  congr 1
  funext a
  refine Fin.ext ?_
  match a with
  | ⟨0, _⟩ =>
    show GatherDims.start _ (ix2 e q) idx 0 + GatherDims.batchCoord _ (ix2 e q) 0 + GatherDims.offCoord _ (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    split
    · have key : ∀ i₁ i₂ : (⟨2, ![E, 1]⟩ : Shape).Idx, i₁ = i₂ →
          min (idx i₁).toInt.toNat (n - 1) = clampRow n (idx i₂) := by rintro _ _ rfl; rfl
      refine key _ _ ?_
      funext b
      refine Fin.ext ?_
      match b with
      | ⟨0, _⟩ => rfl
      | ⟨1, _⟩ => rfl
    · rename_i ha
      exact absurd (List.mem_singleton.mpr rfl) ha
  | ⟨1, _⟩ =>
    show GatherDims.start _ (ix2 e q) idx 1 + GatherDims.batchCoord _ (ix2 e q) 1 + GatherDims.offCoord _ (ix2 e q) 1 = q.val
    rw [GatherDims.batchCoord_eq_zero _ _ _ List.not_mem_nil]
    have hs : GatherDims.start (⟨[1], [0], [], [], [0], 1, ![1, c], wf⟩ : GatherDims ⟨2, ![n, c]⟩ ⟨2, ![E, 1]⟩ ⟨2, ![E, c]⟩)
        (ix2 e q) idx 1 = 0 := by
      unfold GatherDims.start
      split
      · rename_i ha
        exact absurd (congrArg Fin.val (List.mem_singleton.mp ha)) Nat.one_ne_zero
      · rfl
    rw [hs]
    unfold GatherDims.offCoord
    split
    · simp only [Nat.zero_add]
      rfl
    · rename_i ha
      exact absurd (by simp [GatherDims.sKept, Shape.kept, List.mem_filter]) ha

end Gather2

/-! ## (G1) the gather of scalars from a vector -/

section Gather1
variable (d : GatherDims ⟨1, ![n]⟩ ⟨2, ![E, 1]⟩ ⟨1, ![E]⟩)

/-- (G1) the gather of scalars read at `e` -/
theorem gather_vec_apply (hn : 0 < n) (hO : d.offsetDims = []) (hC : d.collapsedSliceDims = [0])
    (hB : d.operandBatchingDims = []) (hB' : d.startIndicesBatchingDims = []) (hM : d.startIndexMap = [0])
    (hV : d.indexVectorDim = 1) (hZ : d.sliceSizes = ![1])
    (x : (⟨1, ![n]⟩ : Shape).Idx → α) (idx : IVec ⟨2, ![E, 1]⟩ w) (e : Fin E) :
    Host.gather d x idx (ix1 e) = x (ix1 ⟨clampRow n (idx (ix2 e (0 : Fin 1))), clampRow_lt hn _⟩) := by
  obtain ⟨od, cd, ob, sb, sm, iv, sz, wf⟩ := d
  dsimp only at hO hC hB hB' hM hV hZ
  subst hO hC hB hB' hM hV hZ
  unfold Host.gather
  congr 1
  funext a
  obtain rfl : a = 0 := Subsingleton.elim _ _
  refine Fin.ext ?_
  show GatherDims.start _ (ix1 e) idx 0 + GatherDims.batchCoord _ (ix1 e) 0 + GatherDims.offCoord _ (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  split
  · have key : ∀ i₁ i₂ : (⟨2, ![E, 1]⟩ : Shape).Idx, i₁ = i₂ →
        min (idx i₁).toInt.toNat (n - 1) = clampRow n (idx i₂) := by rintro _ _ rfl; rfl
    refine key _ _ ?_
    funext b
    refine Fin.ext ?_
    match b with
    | ⟨0, _⟩ => rfl
    | ⟨1, _⟩ => rfl
  · rename_i ha
    exact absurd (List.mem_singleton.mpr rfl) ha

end Gather1

/-! ## (N) the words a gather reads -/

/-- the normalisation of a word before a gather: a negative word has `N` added -/
def normWord (N k : BitVec 32) : BitVec 32 := Scalar.select (IntOp.cmpi .slt k 0#32) (IntOp.addi k N) k

/-- a nonnegative word is left alone -/
theorem normWord_of_nonneg {N k : BitVec 32} (h : 0 ≤ k.toInt) : normWord N k = k := by
  unfold normWord Scalar.select IntOp.cmpi
  have hs : k.slt 0#32 = false := by
    rw [BitVec.slt_eq_decide]
    simp only [BitVec.toInt_zero, decide_eq_false_iff_not, not_lt]
    exact h
  simp only [hs]
  rw [if_neg (by decide)]

/-- a word that reads a row number `p < n` is left alone by the normalisation and by the clamp -/
theorem clampRow_normWord_of_toInt {N k : BitVec 32} {p : ℕ} (hp : p < n) (hk : k.toInt = (p : ℤ)) :
    clampRow n (normWord N k) = p := by
  rw [normWord_of_nonneg (by rw [hk]; exact Int.natCast_nonneg p)]
  exact clampRow_of_toInt hp hk

/-- the normalisation as the program writes it on a vector of words: compare with a vector of zeros, add a vector of
    `N`s, select -/
theorem select_norm_apply {s : Shape} (v z m : IVec s 32) (N : BitVec 32) (hz : ∀ i, z i = 0#32) (hm : ∀ i, m i = N)
    (i : s.Idx) : select (cmpi .slt v z) (addi v m) v i = normWord N (v i) := by
  show Scalar.select (IntOp.cmpi .slt (v i) (z i)) (IntOp.addi (v i) (m i)) (v i) = _
  rw [hz, hm]; rfl

/-- a vector of `E` words as an `E × 1` array, read at `(e, 0)` -/
theorem broadcast_col_apply (hE : E ≠ 1) (h : (⟨1, ![E]⟩ : Shape).BroadcastsInDim ⟨2, ![E, 1]⟩ ![0])
    (v : (⟨1, ![E]⟩ : Shape).Idx → α) (e : Fin E) (z : Fin 1) :
    broadcastInDim ⟨2, ![E, 1]⟩ ![0] h v (ix2 e z) = v (ix1 e) := by
  unfold broadcastInDim
  congr 1
  funext a
  obtain rfl : a = 0 := Subsingleton.elim _ _
  rw [dif_neg (show ¬ (⟨1, ![E]⟩ : Shape).size 0 = 1 from hE)]
  rfl

end Cert.GcnLaw

end
-- ==== Proof.LibGcnOps.lean ====
/-
  THE GRAPH-CONVOLUTION LAYER at the level of the array operations, read at one entry `(p, q)`.

  Node rows are an `n × c` array `XW`; the edges are two `E × 1` arrays of words, the destinations `dstI` (read as they
  are by the scatters: a word outside `[0, n)` lands nowhere) and the sources `srcI` (read by the gathers: clamped).
  `lands dstI p` is the set of edges whose destination word reads `p`; `grow hn srcI e` the row a gather reads for edge `e`.

  * `deg_apply`        : the degree `scatter-add(0, dstI, 1) + 1` at `p` is `(0 + ∑_{e ∈ lands p} 1) + 1`, a positive real.
  * `ref_gcn_apply`    : the edge-by-edge arrangement — scatter-add of the gathered rows times the coefficient
                          `dinv[src] * dinv[dst]`, plus `XW / deg`, plus the bias — at `(p, q)` is
                          `∑_{e ∈ lands p} XW(grow e, q) * (dinv(grow e) * dinv p) + XW(p, q) / deg p + b`:
                          on an edge that lands on `p` the gathered `dinv[dst e]` (normalised, clamped) is `dinv p`.
  * `ker_neigh_apply`  : the other arrangement's neighbour sum — scatter-add of the gathered rows of `XW * dinv` (through a
                          narrowing and a widening of the format, the identity on extended reals) — at `(p, q)` is
                          `∑_{e ∈ lands p} XW(grow e, q) * dinv(grow e)`.
  * `gcn_layer_eq`     : the two arrangements agree at `(p, q)` when `dinv = rsqrt deg` and `deg` is that degree.
-/
import Idealize.ShloMosaic.PureOps.Ideal
import Idealize.ShloMosaic.Lib.ValueIdx
import proofs.«173191_j73083163508880_2_alg».proof.Proof.LibFinite
import proofs.«173191_j73083163508880_2_alg».proof.Proof.LibLayers
import proofs.«173191_j73083163508880_2_alg».proof.Proof.LibGcnIdx
import proofs.«173191_j73083163508880_2_alg».proof.Proof.LibGcnGather

noncomputable section

open scoped BigOperators

namespace Cert.GcnLaw

open Idealize.ShloMosaic Idealize.ShloMosaic.ValueIdx Cert.LibFinite

variable {n c E w : ℕ} {φ ψ : FTy}

/-! ## The dimension numbers -/

/-- a scatter of rows: window axis 1, inserted axis 0, one index word per update row -/
def IsRowScatter (d : ScatterDims ⟨2, ![n, c]⟩ ⟨2, ![E, 1]⟩ ⟨2, ![E, c]⟩) : Prop :=
  d.updateWindowDims = [1] ∧ d.insertedWindowDims = [0] ∧ d.scatterDimsToOperandDims = [0] ∧ d.indexVectorDim = 1

/-- a scatter of scalars into a vector -/
def IsVecScatter (d : ScatterDims ⟨1, ![n]⟩ ⟨2, ![E, 1]⟩ ⟨1, ![E]⟩) : Prop :=
  d.updateWindowDims = [] ∧ d.insertedWindowDims = [0] ∧ d.scatterDimsToOperandDims = [0] ∧ d.indexVectorDim = 1

/-- a gather of rows -/
def IsRowGather (d : GatherDims ⟨2, ![n, c]⟩ ⟨2, ![E, 1]⟩ ⟨2, ![E, c]⟩) : Prop :=
  d.offsetDims = [1] ∧ d.collapsedSliceDims = [0] ∧ d.operandBatchingDims = [] ∧ d.startIndicesBatchingDims = [] ∧
    d.startIndexMap = [0] ∧ d.indexVectorDim = 1 ∧ d.sliceSizes = ![1, c]

/-- a gather of scalars from a vector -/
def IsVecGather (d : GatherDims ⟨1, ![n]⟩ ⟨2, ![E, 1]⟩ ⟨1, ![E]⟩) : Prop :=
  d.offsetDims = [] ∧ d.collapsedSliceDims = [0] ∧ d.operandBatchingDims = [] ∧ d.startIndicesBatchingDims = [] ∧
    d.startIndexMap = [0] ∧ d.indexVectorDim = 1 ∧ d.sliceSizes = ![1]

/-! ## Edges -/

/-- the edges whose destination word reads `p` -/
def lands (dstI : IVec ⟨2, ![E, 1]⟩ w) (p : Fin n) : Finset (Fin E) :=
  Finset.univ.filter (fun e : Fin E => (dstI (ix2 e (0 : Fin 1))).toInt = (p.val : ℤ))

theorem mem_lands {dstI : IVec ⟨2, ![E, 1]⟩ w} {p : Fin n} {e : Fin E} :
    e ∈ lands dstI p ↔ (dstI (ix2 e (0 : Fin 1))).toInt = (p.val : ℤ) := by
  unfold lands; simp

/-- the row a gather reads for edge `e` -/
def grow (hn : 0 < n) (idx : IVec ⟨2, ![E, 1]⟩ w) (e : Fin E) : Fin n :=
  ⟨clampRow n (idx (ix2 e (0 : Fin 1))), clampRow_lt hn _⟩

/-- the edge fact: the normalised, clamped row of a destination word that reads `p` is `p` -/
theorem grow_of_lands (hn : 0 < n) {dstI dstN : IVec ⟨2, ![E, 1]⟩ 32} {N : BitVec 32}
    (hN : ∀ e, dstN (ix2 e (0 : Fin 1)) = normWord N (dstI (ix2 e (0 : Fin 1)))) {p : Fin n} {e : Fin E}
    (he : e ∈ lands dstI p) : grow hn dstN e = p := by
  refine Fin.ext ?_
  show clampRow n (dstN (ix2 e (0 : Fin 1))) = p.val
  rw [hN]
  exact clampRow_normWord_of_toInt p.isLt (mem_lands.mp he)

/-! ## The degree -/

/-- the degree at `p`: one for each edge landing on `p`, added to zero, plus one -/
theorem deg_apply (d : ScatterDims ⟨1, ![n]⟩ ⟨2, ![E, 1]⟩ ⟨1, ![E]⟩) (hd : IsVecScatter d)
    (z oneN : FVec Ideal ⟨1, ![n]⟩ φ) (one : FVec Ideal ⟨1, ![E]⟩ φ) (hz : ∀ i, z i = 0) (ho : ∀ j, one j = 1)
    (hoN : ∀ i, oneN i = 1) (dstI : IVec ⟨2, ![E, 1]⟩ w) (p : Fin n) :
    addf (Host.scatterAdd d z dstI one) oneN (ix1 p) = (0 + ∑ _e ∈ lands dstI p, (1 : EReal)) + 1 := by
  show Host.scatterAdd d z dstI one (ix1 p) + oneN (ix1 p) = _
  rw [scatterAdd_vec_apply d hd.1 hd.2.1 hd.2.2.1 hd.2.2.2, hz, hoN]
  congr 2
  exact Finset.sum_congr rfl fun e _ => ho (ix1 e)

theorem deg_isPosReal (d : ScatterDims ⟨1, ![n]⟩ ⟨2, ![E, 1]⟩ ⟨1, ![E]⟩) (hd : IsVecScatter d)
    (z oneN : FVec Ideal ⟨1, ![n]⟩ φ) (one : FVec Ideal ⟨1, ![E]⟩ φ) (hz : ∀ i, z i = 0) (ho : ∀ j, one j = 1)
    (hoN : ∀ i, oneN i = 1) (dstI : IVec ⟨2, ![E, 1]⟩ w) (p : Fin n) :
    IsPosReal (addf (Host.scatterAdd d z dstI one) oneN (ix1 p)) := by
  rw [deg_apply d hd z oneN one hz ho hoN dstI p]
  exact Cert.LibLayers.isPosReal_degree _

/-! ## The edge-by-edge arrangement -/

theorem ref_gcn_apply (hn : 0 < n)
    (dS : ScatterDims ⟨2, ![n, c]⟩ ⟨2, ![E, 1]⟩ ⟨2, ![E, c]⟩) (hS : IsRowScatter dS)
    (dG : GatherDims ⟨2, ![n, c]⟩ ⟨2, ![E, 1]⟩ ⟨2, ![E, c]⟩) (hG : IsRowGather dG)
    (dV : GatherDims ⟨1, ![n]⟩ ⟨2, ![E, 1]⟩ ⟨1, ![E]⟩) (hV : IsVecGather dV)
    (XW z2 degB bB : FVec Ideal ⟨2, ![n, c]⟩ φ) (coefB : FVec Ideal ⟨2, ![E, c]⟩ φ) (dinv deg : FVec Ideal ⟨1, ![n]⟩ φ)
    (dstI srcI srcI' dstN : IVec ⟨2, ![E, 1]⟩ 32) (N : BitVec 32)
    (hz2 : ∀ i, z2 i = 0)
    (hsrc : ∀ e, srcI' (ix2 e (0 : Fin 1)) = srcI (ix2 e (0 : Fin 1)))
    (hN : ∀ e, dstN (ix2 e (0 : Fin 1)) = normWord N (dstI (ix2 e (0 : Fin 1))))
    (hcoef : ∀ e q, coefB (ix2 e q) = mulf (Host.gather dV dinv srcI') (Host.gather dV dinv dstN) (ix1 e))
    (hdegB : ∀ p q, degB (ix2 p q) = deg (ix1 p)) (p : Fin n) (q : Fin c) :
    addf (addf (Host.scatterAdd dS z2 dstI (mulf (Host.gather dG XW srcI) coefB)) (Host.divf XW degB)) bB (ix2 p q)
      = ∑ e ∈ lands dstI p, XW (ix2 (grow hn srcI e) q) * (dinv (ix1 (grow hn srcI e)) * dinv (ix1 p))
        + Ideal.div (XW (ix2 p q)) (deg (ix1 p)) + bB (ix2 p q) := by
  show (Host.scatterAdd dS z2 dstI (mulf (Host.gather dG XW srcI) coefB) (ix2 p q)
      + Ideal.div (XW (ix2 p q)) (degB (ix2 p q))) + bB (ix2 p q) = _
  rw [scatterAdd_rows_apply dS hS.1 hS.2.1 hS.2.2.1 hS.2.2.2, hz2, zero_add, hdegB]
  congr 2
  refine Finset.sum_congr rfl fun e he => ?_
  show Host.gather dG XW srcI (ix2 e q) * coefB (ix2 e q) = _
  rw [gather_rows_apply dG hn hG.1 hG.2.1 hG.2.2.1 hG.2.2.2.1 hG.2.2.2.2.1 hG.2.2.2.2.2.1 hG.2.2.2.2.2.2, hcoef]
  show _ * (Host.gather dV dinv srcI' (ix1 e) * Host.gather dV dinv dstN (ix1 e)) = _
  rw [gather_vec_apply dV hn hV.1 hV.2.1 hV.2.2.1 hV.2.2.2.1 hV.2.2.2.2.1 hV.2.2.2.2.2.1 hV.2.2.2.2.2.2,
    gather_vec_apply dV hn hV.1 hV.2.1 hV.2.2.1 hV.2.2.2.1 hV.2.2.2.2.1 hV.2.2.2.2.2.1 hV.2.2.2.2.2.2]
  have h1 : (⟨clampRow n (srcI' (ix2 e (0 : Fin 1))), clampRow_lt hn _⟩ : Fin n) = grow hn srcI e :=
    Fin.ext (by show clampRow n (srcI' (ix2 e (0 : Fin 1))) = clampRow n (srcI (ix2 e (0 : Fin 1))); rw [hsrc])
  have h2 : (⟨clampRow n (dstN (ix2 e (0 : Fin 1))), clampRow_lt hn _⟩ : Fin n) = p := grow_of_lands hn hN he
  rw [h1, h2]
  rfl

/-! ## The other arrangement's neighbour sum -/

theorem ker_neigh_apply (hn : 0 < n)
    (dS : ScatterDims ⟨2, ![n, c]⟩ ⟨2, ![E, 1]⟩ ⟨2, ![E, c]⟩) (hS : IsRowScatter dS)
    (dG : GatherDims ⟨2, ![n, c]⟩ ⟨2, ![E, 1]⟩ ⟨2, ![E, c]⟩) (hG : IsRowGather dG)
    (XW z2 dinvB : FVec Ideal ⟨2, ![n, c]⟩ φ) (dinv : FVec Ideal ⟨1, ![n]⟩ φ)
    (dstI srcI : IVec ⟨2, ![E, 1]⟩ w) (hz2 : ∀ i, z2 i = 0) (hdinvB : ∀ p q, dinvB (ix2 p q) = dinv (ix1 p))
    (hb : ψ.bits < φ.bits) (p : Fin n) (q : Fin c) :
    Host.scatterAdd dS z2 dstI (extf φ (Host.gather dG (truncf ψ (mulf XW dinvB) hb) srcI) hb) (ix2 p q)
      = ∑ e ∈ lands dstI p, XW (ix2 (grow hn srcI e) q) * dinv (ix1 (grow hn srcI e)) := by
  rw [scatterAdd_rows_apply dS hS.1 hS.2.1 hS.2.2.1 hS.2.2.2, hz2, zero_add]
  refine Finset.sum_congr rfl fun e _ => ?_
  show Host.gather dG (truncf ψ (mulf XW dinvB) hb) srcI (ix2 e q) = _
  rw [gather_rows_apply dG hn hG.1 hG.2.1 hG.2.2.1 hG.2.2.2.1 hG.2.2.2.2.1 hG.2.2.2.2.2.1 hG.2.2.2.2.2.2]
  show XW (ix2 (grow hn srcI e) q) * dinvB (ix2 (grow hn srcI e) q) = _
  rw [hdinvB]

/-! ## The two arrangements agree -/

/-- THE LAYER at `(p, q)`: the edge-by-edge arrangement equals the neighbour sum scaled once by the node's `dinv`, plus the
    node's own scaled entry scaled again, plus the bias — `dinv p = rsqrt (deg p)`, `deg p` a positive real. -/
theorem gcn_layer_eq (hn : 0 < n)
    (dS : ScatterDims ⟨2, ![n, c]⟩ ⟨2, ![E, 1]⟩ ⟨2, ![E, c]⟩) (hS : IsRowScatter dS)
    (dS' : ScatterDims ⟨2, ![n, c]⟩ ⟨2, ![E, 1]⟩ ⟨2, ![E, c]⟩) (hS' : IsRowScatter dS')
    (dG : GatherDims ⟨2, ![n, c]⟩ ⟨2, ![E, 1]⟩ ⟨2, ![E, c]⟩) (hG : IsRowGather dG)
    (dG' : GatherDims ⟨2, ![n, c]⟩ ⟨2, ![E, 1]⟩ ⟨2, ![E, c]⟩) (hG' : IsRowGather dG')
    (dV : GatherDims ⟨1, ![n]⟩ ⟨2, ![E, 1]⟩ ⟨1, ![E]⟩) (hV : IsVecGather dV)
    (XW z2 z2' degB bB dinvB : FVec Ideal ⟨2, ![n, c]⟩ φ) (coefB : FVec Ideal ⟨2, ![E, c]⟩ φ)
    (dinv deg : FVec Ideal ⟨1, ![n]⟩ φ)
    (dstI srcI srcI' dstN : IVec ⟨2, ![E, 1]⟩ 32) (N : BitVec 32)
    (hz2 : ∀ i, z2 i = 0) (hz2' : ∀ i, z2' i = 0)
    (hsrc : ∀ e, srcI' (ix2 e (0 : Fin 1)) = srcI (ix2 e (0 : Fin 1)))
    (hN : ∀ e, dstN (ix2 e (0 : Fin 1)) = normWord N (dstI (ix2 e (0 : Fin 1))))
    (hcoef : ∀ e q, coefB (ix2 e q) = mulf (Host.gather dV dinv srcI') (Host.gather dV dinv dstN) (ix1 e))
    (hdegB : ∀ p q, degB (ix2 p q) = deg (ix1 p)) (hdinvB : ∀ p q, dinvB (ix2 p q) = dinv (ix1 p))
    (hb : ψ.bits < φ.bits) (p : Fin n) (q : Fin c)
    (hdinv : dinv (ix1 p) = Ideal.rsqrt (deg (ix1 p))) (hpos : IsPosReal (deg (ix1 p))) :
    addf (addf (Host.scatterAdd dS z2 dstI (mulf (Host.gather dG XW srcI) coefB)) (Host.divf XW degB)) bB (ix2 p q)
      = Host.scatterAdd dS' z2' dstI (extf φ (Host.gather dG' (truncf ψ (mulf XW dinvB) hb) srcI) hb) (ix2 p q)
            * dinv (ix1 p)
          + mulf XW dinvB (ix2 p q) * dinv (ix1 p) + bB (ix2 p q) := by
  rw [ref_gcn_apply hn dS hS dG hG dV hV XW z2 degB bB coefB dinv deg dstI srcI srcI' dstN N hz2 hsrc hN hcoef hdegB p q,
    ker_neigh_apply hn dS' hS' dG' hG' XW z2' dinvB dinv dstI srcI hz2' hdinvB hb p q]
  show _ = _ + XW (ix2 p q) * dinvB (ix2 p q) * dinv (ix1 p) + _
  rw [hdinvB, hdinv]
  exact Cert.LibLayers.gcn_law (lands dstI p) (fun e => XW (ix2 (grow hn srcI e) q))
    (fun e => dinv (ix1 (grow hn srcI e))) (XW (ix2 p q)) (bB (ix2 p q)) hpos

end Cert.GcnLaw

end
-- ==== Proof.LibGcnLayout.lean ====
/-
  LAYOUT OPERATIONS of a graph convolution read at one index: a vector as a column, a column spread over the columns
  of a matrix, a vector spread over the rows of a matrix, a scalar spread over an array, a vector recast as a column.
-/
import Idealize.ShloMosaic.PureOps.Ideal
import Idealize.ShloMosaic.Lib.ValueIdx
import Idealize.ShloMosaic.Lib.ValueLayout

noncomputable section

namespace Cert.GcnLaw

open Idealize.ShloMosaic Idealize.ShloMosaic.ValueIdx

variable {n c E : ℕ} {α : Type}

/-- a scalar spread over an array -/
theorem bcast_scalar_apply {t : Shape} (h : (⟨0, ![]⟩ : Shape).BroadcastsInDim t ![]) (x : (⟨0, ![]⟩ : Shape).Idx → α)
    (i : t.Idx) : broadcastInDim t ![] h x i = x ix0 := by
  unfold broadcastInDim
  exact congrArg x (funext fun a => a.elim0)

/-- an `E × 1` column spread over the `c` columns of an `E × c` matrix, read at `(e, q)` -/
theorem bcast_cols_apply (hE : E ≠ 1) (h : (⟨2, ![E, 1]⟩ : Shape).BroadcastsInDim ⟨2, ![E, c]⟩ ![0, 1])
    (u : (⟨2, ![E, 1]⟩ : Shape).Idx → α) (e : Fin E) (q : Fin c) :
    broadcastInDim ⟨2, ![E, c]⟩ ![0, 1] h u (ix2 e q) = u (ix2 e (0 : Fin 1)) := by
  unfold broadcastInDim
  congr 1
  funext a
  match a with
  | ⟨0, _⟩ =>
    split
    · rename_i h1; exact absurd h1 hE
    · rfl
  | ⟨1, _⟩ =>
    split
    · rfl
    · rename_i h1; exact absurd rfl h1

/-- a vector of length `c` as a `1 × c` row, read at `(z, q)` -/
theorem bcast_row_apply (hc : c ≠ 1) (h : (⟨1, ![c]⟩ : Shape).BroadcastsInDim ⟨2, ![1, c]⟩ ![1])
    (b : (⟨1, ![c]⟩ : Shape).Idx → α) (z : Fin 1) (q : Fin c) :
    broadcastInDim ⟨2, ![1, c]⟩ ![1] h b (ix2 z q) = b (ix1 q) := by
  unfold broadcastInDim
  congr 1
  funext a
  obtain rfl : a = 0 := Subsingleton.elim _ _
  rw [dif_neg (show ¬ (⟨1, ![c]⟩ : Shape).size 0 = 1 from hc)]
  rfl

/-- a `1 × c` row spread over the `n` rows of an `n × c` matrix, read at `(p, q)` -/
theorem bcast_rows_apply (hc : c ≠ 1) (h : (⟨2, ![1, c]⟩ : Shape).BroadcastsInDim ⟨2, ![n, c]⟩ ![0, 1])
    (u : (⟨2, ![1, c]⟩ : Shape).Idx → α) (p : Fin n) (q : Fin c) :
    broadcastInDim ⟨2, ![n, c]⟩ ![0, 1] h u (ix2 p q) = u (ix2 (0 : Fin 1) q) := by
  unfold broadcastInDim
  congr 1
  funext a
  match a with
  | ⟨0, _⟩ =>
    split
    · rfl
    · rename_i h1; exact absurd rfl h1
  | ⟨1, _⟩ =>
    split
    · rename_i h1; exact absurd h1 hc
    · rfl

/-- a vector of length `n` recast as an `n × 1` column, read at `(p, z)` -/
theorem shapeCast_col_apply (v : (⟨1, ![n]⟩ : Shape).Idx → α) (h : (⟨1, ![n]⟩ : Shape).ShapeCasts ⟨2, ![n, 1]⟩)
    (p : Fin n) (z : Fin 1) : shapeCast ⟨2, ![n, 1]⟩ v h (ix2 p z) = v (ix1 p) :=
  shapeCast_apply v h _ _ (by
    have hz : z.val = 0 := by omega
    rw [Shape.rowMajor_val_two, Shape.rowMajor_val_one]
    show p.val = p.val * 1 + z.val
    rw [hz, Nat.mul_one, Nat.add_zero])

/-- row `k` of a `2 × E` array, cut out as a `1 × E` array and recast as a vector, read at `e` -/
theorem edge_row_apply (o : ℕ) (k : Fin 2) (hk : k.val = o) (ei : (⟨2, ![2, E]⟩ : Shape).Idx → α)
    (hsl : (⟨2, ![2, E]⟩ : Shape).Slices ![o, 0] ⟨2, ![1, E]⟩) (hsc : (⟨2, ![1, E]⟩ : Shape).ShapeCasts ⟨1, ![E]⟩)
    (e : Fin E) :
    shapeCast ⟨1, ![E]⟩ (extractStridedSlice ⟨2, ![1, E]⟩ ![o, 0] ei hsl) hsc (ix1 e) = ei (ix2 k e) := by
  rw [shapeCast_1a_a_apply, slice2_axis0_apply o ei hsl (0 : Fin 1) e k (by rw [hk]; rfl)]

end Cert.GcnLaw

end
-- ==== Proof.SpecGcn.lean ====
/-
  THE NORMALISED-ADJACENCY LAYER as a function of whole arrays, entry by entry, in its two arrangements.

  `XW` is the [100000, 64] array of node rows, `ei` the [2, 2000000] edge list of 32-bit words (row 0 the sources,
  row 1 the destinations), `b` the bias.  An edge `e` LANDS on node `p` when its destination word reads `p`; the row read
  for its source is the source word, `100000` added when negative, read signed and clamped into `[0, 99999]`.
  `gcnDeg ei p` is one per edge landing on `p`, added to zero, plus one; `gcnDinv1 ei p` its reciprocal square root.

  * `gcnPreRef` : `∑_{e → p} XW(src e, q) * (dinv(src e) * dinv p) + XW(p, q) / deg p + b q`
  * `gcnPreKer` : `(∑_{e → p} XW(src e, q) * dinv(src e)) * dinv p + XW(p, q) * dinv p * dinv p + b q`
  * `gcnPre_eq` : they are equal (the degree is a positive real; nothing is asked of `XW` and `b`).
-/
import Idealize.ShloMosaic.PureOps.Ideal
import Idealize.ShloMosaic.Lib.ValueIdx
import proofs.«173191_j73083163508880_2_alg».proof.Proof.LibFinite
import proofs.«173191_j73083163508880_2_alg».proof.Proof.LibLayers
import proofs.«173191_j73083163508880_2_alg».proof.Proof.LibGcnOps

noncomputable section

open scoped BigOperators

namespace Cert.Spec

open Idealize.ShloMosaic Idealize.ShloMosaic.ValueIdx Cert.LibFinite Cert.GcnLaw

theorem nodes_pos : 0 < 100000 := by decide

/-- the destination words as a [2000000, 1] column -/
def dstCol (ei : (⟨2, ![2, 2000000]⟩ : Shape).Idx → BitVec 32) : IVec ⟨2, ![2000000, 1]⟩ 32 :=
  fun i => ei (ix2 (1 : Fin 2) (i 0 : Fin 2000000))

/-- the destination words, `100000` added to a negative one, as a column -/
def dstColN (ei : (⟨2, ![2, 2000000]⟩ : Shape).Idx → BitVec 32) : IVec ⟨2, ![2000000, 1]⟩ 32 :=
  fun i => normWord 100000#32 (ei (ix2 (1 : Fin 2) (i 0 : Fin 2000000)))

/-- the source words, `100000` added to a negative one, as a column -/
def srcColN (ei : (⟨2, ![2, 2000000]⟩ : Shape).Idx → BitVec 32) : IVec ⟨2, ![2000000, 1]⟩ 32 :=
  fun i => normWord 100000#32 (ei (ix2 (0 : Fin 2) (i 0 : Fin 2000000)))

/-- the node row read for the source of edge `e` -/
def srcRow (ei : (⟨2, ![2, 2000000]⟩ : Shape).Idx → BitVec 32) (e : Fin 2000000) : Fin 100000 :=
  grow nodes_pos (srcColN ei) e

/-- the degree of node `p`: one per edge landing on it, added to zero, plus one -/
def gcnDeg (ei : (⟨2, ![2, 2000000]⟩ : Shape).Idx → BitVec 32) (p : Fin 100000) : EReal :=
  (0 + ∑ _e ∈ lands (dstCol ei) p, (1 : EReal)) + 1

/-- its reciprocal square root -/
def gcnDinv1 (ei : (⟨2, ![2, 2000000]⟩ : Shape).Idx → BitVec 32) (p : Fin 100000) : EReal :=
  Ideal.rsqrt (gcnDeg ei p)

theorem gcnDeg_isPosReal (ei : (⟨2, ![2, 2000000]⟩ : Shape).Idx → BitVec 32) (p : Fin 100000) :
    IsPosReal (gcnDeg ei p) := Cert.LibLayers.isPosReal_degree _

theorem gcnDinv1_isPosReal (ei : (⟨2, ![2, 2000000]⟩ : Shape).Idx → BitVec 32) (p : Fin 100000) :
    IsPosReal (gcnDinv1 ei p) := (gcnDeg_isPosReal ei p).rsqrt

/-- the layer before its rectifier, each edge scaled by both ends -/
def gcnPreRef (XW : (⟨2, ![100000, 64]⟩ : Shape).Idx → EReal) (ei : (⟨2, ![2, 2000000]⟩ : Shape).Idx → BitVec 32)
    (b : (⟨1, ![64]⟩ : Shape).Idx → EReal) (p : Fin 100000) (q : Fin 64) : EReal :=
  ∑ e ∈ lands (dstCol ei) p, XW (ix2 (srcRow ei e) q) * (gcnDinv1 ei (srcRow ei e) * gcnDinv1 ei p)
    + Ideal.div (XW (ix2 p q)) (gcnDeg ei p) + b (ix1 q)

/-- the layer before its rectifier, each edge scaled by its source, the sum by the node -/
def gcnPreKer (XW : (⟨2, ![100000, 64]⟩ : Shape).Idx → EReal) (ei : (⟨2, ![2, 2000000]⟩ : Shape).Idx → BitVec 32)
    (b : (⟨1, ![64]⟩ : Shape).Idx → EReal) (p : Fin 100000) (q : Fin 64) : EReal :=
  (∑ e ∈ lands (dstCol ei) p, XW (ix2 (srcRow ei e) q) * gcnDinv1 ei (srcRow ei e)) * gcnDinv1 ei p
    + XW (ix2 p q) * gcnDinv1 ei p * gcnDinv1 ei p + b (ix1 q)

/-- the two arrangements agree -/
theorem gcnPre_eq (XW : (⟨2, ![100000, 64]⟩ : Shape).Idx → EReal) (ei : (⟨2, ![2, 2000000]⟩ : Shape).Idx → BitVec 32)
    (b : (⟨1, ![64]⟩ : Shape).Idx → EReal) (p : Fin 100000) (q : Fin 64) :
    gcnPreRef XW ei b p q = gcnPreKer XW ei b p q :=
  Cert.LibLayers.gcn_law (lands (dstCol ei) p) (fun e => XW (ix2 (srcRow ei e) q))
    (fun e => gcnDinv1 ei (srcRow ei e)) (XW (ix2 p q)) (b (ix1 q)) (gcnDeg_isPosReal ei p)

/-- real node rows and a real bias give a real entry -/
theorem gcnPreKer_isReal {XW : (⟨2, ![100000, 64]⟩ : Shape).Idx → EReal}
    (ei : (⟨2, ![2, 2000000]⟩ : Shape).Idx → BitVec 32) {b : (⟨1, ![64]⟩ : Shape).Idx → EReal}
    (hXW : AllReal XW) (hb : AllReal b) (p : Fin 100000) (q : Fin 64) : IsReal (gcnPreKer XW ei b p q) :=
  (((IsReal.sum _ _ fun e _ => (hXW _).mul (gcnDinv1_isPosReal ei _).isReal).mul (gcnDinv1_isPosReal ei p).isReal).add
    (((hXW _).mul (gcnDinv1_isPosReal ei p).isReal).mul (gcnDinv1_isPosReal ei p).isReal)).add (hb _)

end Cert.Spec

end
-- ==== Proof.KI.GcnKer.lean ====
/-
  THE KERNEL PROGRAM'S NORMALISED-ADJACENCY PRELUDE read at one entry.

  Ahead of the combine kernel the host computes `gcnDinv ei` (the reciprocal square root of the degree), `gcnScaled XW ei`
  (the node rows scaled by it), `gcnAgg XW ei` (the scaled source rows summed per destination) and `gcnDinvCol ei` (the
  first as a column).  Read at an entry they are `Cert.Spec.gcnDinv1`, `XW * gcnDinv1`, the sum over the edges landing on
  the node, and `gcnDinv1` again; combined as the kernel's body combines them they are `Cert.Spec.gcnPreKer`.
-/
import proofs.«173191_j73083163508880_2_alg».proof.Proof.KI.GlueOps
import proofs.«173191_j73083163508880_2_alg».proof.Proof.LibFiniteLits
import proofs.«173191_j73083163508880_2_alg».proof.Proof.LibGcnOps
import proofs.«173191_j73083163508880_2_alg».proof.Proof.LibGcnLayout
import proofs.«173191_j73083163508880_2_alg».proof.Proof.SpecGcn

noncomputable section

open scoped BigOperators

namespace Cert.KernelIdeal.Fr

open Cert.KernelIdeal Cert.KernelIdeal.Gen Idealize.ShloMosaic Idealize.ShloMosaic.ValueIdx
open Cert.GcnLaw Cert.Spec Cert.LibFinite

/-! ## The edge columns -/

theorem edgeSrc_apply (ei : IVec S2x2000000 32) (e : Fin 2000000) : edgeSrc ei (ix1 e) = ei (ix2 (0 : Fin 2) e) :=
  edge_row_apply 0 (0 : Fin 2) rfl ei _ _ e

theorem edgeDst_apply (ei : IVec S2x2000000 32) (e : Fin 2000000) : edgeDst ei (ix1 e) = ei (ix2 (1 : Fin 2) e) :=
  edge_row_apply 1 (1 : Fin 2) rfl ei _ _ e

theorem wrapNode_apply (v : IVec S2000000 32) (i : S2000000.Idx) : wrapNode v i = normWord 100000#32 (v i) :=
  select_norm_apply v _ _ 100000#32 (fun _ => rfl) (fun _ => rfl) i

theorem col_edgeDst (ei : IVec S2x2000000 32) :
    broadcastInDim S2000000x1 ![0] bcast_S2000000_S2000000x1_0 (edgeDst ei) = dstCol ei := by
  funext i
  obtain ⟨e, z, rfl⟩ : ∃ e z, i = ix2 e z := ⟨i 0, i 1, eq_ix2 i⟩
  rw [broadcast_col_apply (by decide), edgeDst_apply]; rfl

theorem col_wrap_edgeSrc (ei : IVec S2x2000000 32) :
    broadcastInDim S2000000x1 ![0] bcast_S2000000_S2000000x1_0 (wrapNode (edgeSrc ei)) = srcColN ei := by
  funext i
  obtain ⟨e, z, rfl⟩ : ∃ e z, i = ix2 e z := ⟨i 0, i 1, eq_ix2 i⟩
  rw [broadcast_col_apply (by decide), wrapNode_apply, edgeSrc_apply]; rfl

/-! ## The constant arrays -/

/-- a vector of zeros over the nodes -/
def kZeroN : FVec Ideal S100000 .f32 :=
  broadcastInDim S100000 ![] bcast_S_S100000 (constant (F := Ideal) S_ FTy.f32 0#32)
/-- a vector of ones over the nodes -/
def kOneN : FVec Ideal S100000 .f32 :=
  broadcastInDim S100000 ![] bcast_S_S100000 (constant (F := Ideal) S_ FTy.f32 1065353216#32)
/-- a vector of ones over the edges -/
def kOneE : FVec Ideal S2000000 .f32 :=
  broadcastInDim S2000000 ![] bcast_S_S2000000 (constant (F := Ideal) S_ FTy.f32 1065353216#32)
/-- a matrix of zeros over the nodes -/
def kZeroNC : FVec Ideal S100000x64 .f32 :=
  broadcastInDim S100000x64 ![] bcast_S_S100000x64 (constant (F := Ideal) S_ FTy.f32 0#32)

theorem kZeroN_apply (i : S100000.Idx) : kZeroN i = 0 := by
  unfold kZeroN; rw [bcast_scalar_apply, constant_apply]; exact ofBits_f32_zero
theorem kOneN_apply (i : S100000.Idx) : kOneN i = 1 := by
  unfold kOneN; rw [bcast_scalar_apply, constant_apply]; exact ofBits_f32_one
theorem kOneE_apply (i : S2000000.Idx) : kOneE i = 1 := by
  unfold kOneE; rw [bcast_scalar_apply, constant_apply]; exact ofBits_f32_one
theorem kZeroNC_apply (i : S100000x64.Idx) : kZeroNC i = 0 := by
  unfold kZeroNC; rw [bcast_scalar_apply, constant_apply]; exact ofBits_f32_zero

/-- the host's reciprocal square root at an index -/
theorem hostRsqrt_apply {s : Shape} {φ : FTy} (x : FVec Ideal s φ) (i : s.Idx) : Host.rsqrt x i = Ideal.rsqrt (x i) := rfl

/-! ## The degree and its reciprocal square root -/

/-- the in-degree in terms of the constant arrays -/
theorem inDeg_eq (ei : IVec S2x2000000 32) :
    inDeg (F := Ideal) ei = Host.scatterAdd scatter_S100000_S2000000x1_S2000000_n_0_0_1 kZeroN
      (broadcastInDim S2000000x1 ![0] bcast_S2000000_S2000000x1_0 (edgeDst ei)) kOneE := rfl

/-- the reciprocal square root of the degree in terms of the constant arrays -/
theorem gcnDinv_eq (ei : IVec S2x2000000 32) :
    gcnDinv (F := Ideal) ei = Host.rsqrt (addf (inDeg (F := Ideal) ei) kOneN) := rfl

/-- the sum of the gathered rows in terms of the constant arrays -/
theorem edgeSum_eq (x : FVec Ideal S100000x64 .f32) (ei : IVec S2x2000000 32) :
    edgeSum x ei = Host.scatterAdd scatter_S100000x64_S2000000x1_S2000000x64_1_0_0_1 kZeroNC
      (broadcastInDim S2000000x1 ![0] bcast_S2000000_S2000000x1_0 (edgeDst ei))
      (extf FTy.f32
        (Host.gather gather_S100000x64_S2000000x1_S2000000x64_1_0_n_n_0_1_164
          (truncf FTy.bf16 x bitsLt_bf16_f32)
          (broadcastInDim S2000000x1 ![0] bcast_S2000000_S2000000x1_0 (wrapNode (edgeSrc ei))))
        bitsLt_bf16_f32) := rfl

theorem kDeg_apply (ei : IVec S2x2000000 32) (p : Fin 100000) :
    addf (inDeg (F := Ideal) ei) kOneN (ix1 p) = gcnDeg ei p := by
  rw [inDeg_eq]
  unfold gcnDeg
  rw [← col_edgeDst]
  exact deg_apply (n := 100000) (E := 2000000) (φ := .f32) (w := 32) scatter_S100000_S2000000x1_S2000000_n_0_0_1
    ⟨rfl, rfl, rfl, rfl⟩ kZeroN kOneN kOneE kZeroN_apply kOneE_apply kOneN_apply _ p

theorem gcnDinv_apply (ei : IVec S2x2000000 32) (p : Fin 100000) : gcnDinv (F := Ideal) ei (ix1 p) = gcnDinv1 ei p := by
  rw [gcnDinv_eq, hostRsqrt_apply, kDeg_apply]
  unfold gcnDinv1
  rfl

theorem gcnDinvCol_apply (ei : IVec S2x2000000 32) (p : Fin 100000) (z : Fin 1) :
    gcnDinvCol (F := Ideal) ei (ix2 p z) = gcnDinv1 ei p := by
  unfold gcnDinvCol nodeCol
  rw [shapeCast_col_apply, gcnDinv_apply]

theorem dinvB_apply (ei : IVec S2x2000000 32) (p : Fin 100000) (q : Fin 64) :
    broadcastInDim S100000x64 ![0, 1] bcast_S100000x1_S100000x64_0_1
      (broadcastInDim S100000x1 ![0] bcast_S100000_S100000x1_0 (gcnDinv (F := Ideal) ei)) (ix2 p q)
      = gcnDinv (F := Ideal) ei (ix1 p) := by
  rw [bcast_cols_apply (by decide), broadcast_col_apply (by decide)]

/-! ## The scaled rows and their sum over the incoming edges -/

theorem gcnScaled_apply (XW : FVec Ideal S100000x64 .f32) (ei : IVec S2x2000000 32) (p : Fin 100000) (q : Fin 64) :
    gcnScaled XW ei (ix2 p q) = XW (ix2 p q) * gcnDinv1 ei p := by
  unfold gcnScaled
  rw [mulf_apply, dinvB_apply, gcnDinv_apply]

theorem gcnAgg_apply (XW : FVec Ideal S100000x64 .f32) (ei : IVec S2x2000000 32) (p : Fin 100000) (q : Fin 64) :
    gcnAgg XW ei (ix2 p q)
      = ∑ e ∈ lands (dstCol ei) p, XW (ix2 (srcRow ei e) q) * gcnDinv1 ei (srcRow ei e) := by
  unfold gcnAgg
  rw [edgeSum_eq]
  unfold gcnScaled
  refine (ker_neigh_apply (n := 100000) (c := 64) (E := 2000000) (w := 32) (φ := .f32) (ψ := .bf16) nodes_pos
    scatter_S100000x64_S2000000x1_S2000000x64_1_0_0_1 ⟨rfl, rfl, rfl, rfl⟩
    gather_S100000x64_S2000000x1_S2000000x64_1_0_n_n_0_1_164 ⟨rfl, rfl, rfl, rfl, rfl, rfl, rfl⟩
    XW kZeroNC _ (gcnDinv (F := Ideal) ei) _ _ kZeroNC_apply (dinvB_apply ei) bitsLt_bf16_f32 p q).trans ?_
  rw [col_edgeDst, col_wrap_edgeSrc]
  unfold srcRow
  refine Finset.sum_congr rfl fun e _ => ?_
  rw [gcnDinv_apply]

/-! ## Combined as the kernel's body combines them -/

theorem kerGcn_apply (XW : FVec Ideal S100000x64 .f32) (ei : IVec S2x2000000 32) (b : FVec Ideal S64 .f32)
    (p : Fin 100000) (q : Fin 64) (z : Fin 1) :
    gcnAgg XW ei (ix2 p q) * gcnDinvCol (F := Ideal) ei (ix2 p z) + gcnScaled XW ei (ix2 p q) * gcnDinvCol (F := Ideal) ei (ix2 p z)
        + b (ix1 q)
      = gcnPreKer XW ei b p q := by
  unfold gcnPreKer
  rw [gcnAgg_apply, gcnScaled_apply, gcnDinvCol_apply]

end Cert.KernelIdeal.Fr

end
-- ==== Proof.RefGcn.lean ====
/-
  THE REFERENCE'S NORMALISED-ADJACENCY LAYER read at one entry.

  `refGcnPre XW ei b` is the reference's own chain of operations from the product `XW` of the node features with the
  weights to the layer's value before its rectifier: the degree (a scatter-add of ones at the destinations, plus one),
  its reciprocal square root, the per-edge coefficient (two gathers of it, at the sources and at the destinations,
  multiplied), the gathered source rows times the coefficient scatter-added at the destinations, plus `XW` divided by the
  degree, plus the bias.  Read at `(p, q)` it is `Cert.Spec.gcnPreRef XW ei b p q`; the matrix product is `Cert.Spec.matmulG`.
-/
import proofs.«173191_j73083163508880_2_alg».proof.Proof.Gen.ReferenceIdeal
import Idealize.ShloMosaic.PureOps.Ideal.Laws
import proofs.«173191_j73083163508880_2_alg».proof.Proof.LibFiniteLits
import proofs.«173191_j73083163508880_2_alg».proof.Proof.LibGcnOps
import proofs.«173191_j73083163508880_2_alg».proof.Proof.LibGcnLayout
import proofs.«173191_j73083163508880_2_alg».proof.Proof.SpecB
import proofs.«173191_j73083163508880_2_alg».proof.Proof.SpecGcn

noncomputable section

open scoped BigOperators

namespace Cert.RefSide

open Cert.ReferenceIdeal Cert.ReferenceIdeal.Gen Idealize.ShloMosaic Idealize.ShloMosaic.ValueIdx
open Cert.GcnLaw Cert.Spec Cert.LibFinite

/-! ## The reference's intermediate arrays -/

/-- the source words of the edge list -/
def rSrc (ei : IVec S2x2000000 32) : IVec S2000000 32 :=
  shapeCast _ ((extractStridedSlice S1x2000000 ![0, 0] · slices_S2x2000000_S1x2000000_0_0) ei) shapeCasts_S1x2000000_S2000000

/-- the destination words of the edge list -/
def rDst (ei : IVec S2x2000000 32) : IVec S2000000 32 :=
  shapeCast _ ((extractStridedSlice S1x2000000 ![1, 0] · slices_S2x2000000_S1x2000000_1_0) ei) shapeCasts_S1x2000000_S2000000

/-- a negative word has 100000 added -/
def rWrap (v : IVec S2000000 32) : IVec S2000000 32 :=
  select (cmpi .slt v (broadcastInDim S2000000 ![] bcast_S_S2000000 (constantI S_ 32 0#32)))
    (addi v (broadcastInDim S2000000 ![] bcast_S_S2000000 (constantI S_ 32 100000#32))) v

/-- a vector over the edges as a column -/
def rCol {α : Type} (v : S2000000.Idx → α) : S2000000x1.Idx → α :=
  broadcastInDim S2000000x1 ![0] bcast_S2000000_S2000000x1_0 v

/-- a vector of zeros over the nodes -/
def rZeroN : FVec Ideal S100000 .f32 :=
  broadcastInDim S100000 ![] bcast_S_S100000 (constant (F := Ideal) S_ .f32 0x00000000#32)
/-- a vector of ones over the nodes -/
def rOneN : FVec Ideal S100000 .f32 :=
  broadcastInDim S100000 ![] bcast_S_S100000 (constant (F := Ideal) S_ .f32 0x3F800000#32)
/-- a vector of ones over the edges -/
def rOneE : FVec Ideal S2000000 .f32 :=
  broadcastInDim S2000000 ![] bcast_S_S2000000 (constant (F := Ideal) S_ .f32 0x3F800000#32)
/-- a matrix of zeros over the nodes -/
def rZeroNC : FVec Ideal S100000x64 .f32 :=
  broadcastInDim S100000x64 ![] bcast_S_S100000x64 (constant (F := Ideal) S_ .f32 0x00000000#32)

theorem rZeroN_apply (i : S100000.Idx) : rZeroN i = 0 := by
  unfold rZeroN; rw [bcast_scalar_apply, constant_apply, ofBits_f32_zero]
theorem rOneN_apply (i : S100000.Idx) : rOneN i = 1 := by
  unfold rOneN; rw [bcast_scalar_apply, constant_apply, ofBits_f32_one]
theorem rOneE_apply (i : S2000000.Idx) : rOneE i = 1 := by
  unfold rOneE; rw [bcast_scalar_apply, constant_apply, ofBits_f32_one]
theorem rZeroNC_apply (i : S100000x64.Idx) : rZeroNC i = 0 := by
  unfold rZeroNC; rw [bcast_scalar_apply, constant_apply, ofBits_f32_zero]

/-- the degree: ones scatter-added at the destinations, from zero, plus one -/
def rDeg (ei : IVec S2x2000000 32) : FVec Ideal S100000 .f32 :=
  addf (Host.scatterAdd scatter_S100000_S2000000x1_S2000000_n_0_0_1 rZeroN (rCol (rDst ei)) rOneE) rOneN

/-- the degree spread over the 64 columns -/
def rDegB (ei : IVec S2x2000000 32) : FVec Ideal S100000x64 .f32 :=
  broadcastInDim S100000x64 ![0, 1] bcast_S100000x1_S100000x64_0_1
    (broadcastInDim S100000x1 ![0] bcast_S100000_S100000x1_0 (rDeg ei))

/-- the bias spread over the rows -/
def rBiasB (b : FVec Ideal S64 .f32) : FVec Ideal S100000x64 .f32 :=
  broadcastInDim S100000x64 ![0, 1] bcast_S1x64_S100000x64_0_1 (broadcastInDim S1x64 ![1] bcast_S64_S1x64_1 b)

/-- its reciprocal square root -/
def rDinv (ei : IVec S2x2000000 32) : FVec Ideal S100000 .f32 := Host.rsqrt (rDeg ei)

/-- the per-edge coefficient, spread over the 64 columns -/
def rCoef (ei : IVec S2x2000000 32) : FVec Ideal S2000000x64 .f32 :=
  broadcastInDim S2000000x64 ![0, 1] bcast_S2000000x1_S2000000x64_0_1
    (rCol (mulf (Host.gather gather_S100000_S2000000x1_S2000000_n_0_n_n_0_1_1 (rDinv ei) (rCol (rWrap (rSrc ei))))
      (Host.gather gather_S100000_S2000000x1_S2000000_n_0_n_n_0_1_1 (rDinv ei) (rCol (rWrap (rDst ei))))))

/-- the layer before its rectifier, from the product `XW` -/
def refGcnPre (XW : FVec Ideal S100000x64 .f32) (ei : IVec S2x2000000 32) (b : FVec Ideal S64 .f32) :
    FVec Ideal S100000x64 .f32 :=
  addf (addf
      (Host.scatterAdd scatter_S100000x64_S2000000x1_S2000000x64_1_0_0_1 rZeroNC (rCol (rDst ei))
        (mulf (Host.gather gather_S100000x64_S2000000x1_S2000000x64_1_0_n_n_0_1_164 XW (rCol (rWrap (rSrc ei)))) (rCoef ei)))
      (Host.divf XW (rDegB ei)))
    (rBiasB b)

/-! ## The edge columns -/

theorem rSrc_apply (ei : IVec S2x2000000 32) (e : Fin 2000000) : rSrc ei (ix1 e) = ei (ix2 (0 : Fin 2) e) :=
  edge_row_apply 0 (0 : Fin 2) rfl ei _ _ e

theorem rDst_apply (ei : IVec S2x2000000 32) (e : Fin 2000000) : rDst ei (ix1 e) = ei (ix2 (1 : Fin 2) e) :=
  edge_row_apply 1 (1 : Fin 2) rfl ei _ _ e

theorem rCol_apply {α : Type} (v : S2000000.Idx → α) (e : Fin 2000000) (z : Fin 1) : rCol v (ix2 e z) = v (ix1 e) :=
  broadcast_col_apply (by decide) _ v e z

theorem rWrap_apply (v : IVec S2000000 32) (i : S2000000.Idx) : rWrap v i = normWord 100000#32 (v i) :=
  select_norm_apply v _ _ 100000#32 (fun _ => rfl) (fun _ => rfl) i

theorem rCol_rDst (ei : IVec S2x2000000 32) : rCol (rDst ei) = dstCol ei := by
  funext i
  obtain ⟨e, z, rfl⟩ : ∃ e z, i = ix2 e z := ⟨i 0, i 1, eq_ix2 i⟩
  rw [rCol_apply, rDst_apply]; rfl

theorem rCol_rWrap_rSrc (ei : IVec S2x2000000 32) : rCol (rWrap (rSrc ei)) = srcColN ei := by
  funext i
  obtain ⟨e, z, rfl⟩ : ∃ e z, i = ix2 e z := ⟨i 0, i 1, eq_ix2 i⟩
  rw [rCol_apply, rWrap_apply, rSrc_apply]; rfl

/-! ## The degree -/

theorem rDeg_apply (ei : IVec S2x2000000 32) (p : Fin 100000) : rDeg ei (ix1 p) = gcnDeg ei p := by
  unfold rDeg gcnDeg
  rw [← rCol_rDst]
  exact deg_apply (n := 100000) (E := 2000000) (φ := .f32) (w := 32) scatter_S100000_S2000000x1_S2000000_n_0_0_1 ⟨rfl, rfl, rfl, rfl⟩
    rZeroN rOneN rOneE rZeroN_apply rOneE_apply rOneN_apply (rCol (rDst ei)) p

/-- the host's reciprocal square root at an index -/
theorem hostRsqrt_apply {s : Shape} {φ : FTy} (x : FVec Ideal s φ) (i : s.Idx) : Host.rsqrt x i = Ideal.rsqrt (x i) := rfl

theorem rDinv_apply (ei : IVec S2x2000000 32) (p : Fin 100000) : rDinv ei (ix1 p) = gcnDinv1 ei p := by
  unfold rDinv gcnDinv1
  rw [hostRsqrt_apply, rDeg_apply]

/-! ## The layer at an entry -/

theorem rColWrapDst_apply (ei : IVec S2x2000000 32) (e : Fin 2000000) :
    rCol (rWrap (rDst ei)) (ix2 e (0 : Fin 1)) = normWord 100000#32 (rCol (rDst ei) (ix2 e (0 : Fin 1))) := by
  rw [rCol_apply, rWrap_apply, rCol_apply]

theorem rCoef_apply (ei : IVec S2x2000000 32) (e : Fin 2000000) (q : Fin 64) :
    rCoef ei (ix2 e q)
      = mulf (Host.gather gather_S100000_S2000000x1_S2000000_n_0_n_n_0_1_1 (rDinv ei) (rCol (rWrap (rSrc ei))))
          (Host.gather gather_S100000_S2000000x1_S2000000_n_0_n_n_0_1_1 (rDinv ei) (rCol (rWrap (rDst ei)))) (ix1 e) := by
  unfold rCoef
  rw [bcast_cols_apply (by decide), rCol_apply]

theorem rDegB_apply (ei : IVec S2x2000000 32) (p : Fin 100000) (q : Fin 64) :
    rDegB ei (ix2 p q) = rDeg ei (ix1 p) := by
  unfold rDegB
  rw [bcast_cols_apply (by decide), broadcast_col_apply (by decide)]

theorem rBiasB_apply (b : FVec Ideal S64 .f32) (p : Fin 100000) (q : Fin 64) : rBiasB b (ix2 p q) = b (ix1 q) := by
  unfold rBiasB
  rw [bcast_rows_apply (by decide), bcast_row_apply (by decide)]

theorem refGcnPre_apply (XW : FVec Ideal S100000x64 .f32) (ei : IVec S2x2000000 32) (b : FVec Ideal S64 .f32)
    (p : Fin 100000) (q : Fin 64) : refGcnPre XW ei b (ix2 p q) = gcnPreRef XW ei b p q := by
  have h : refGcnPre XW ei b (ix2 p q)
      = ∑ e ∈ lands (rCol (rDst ei)) p, XW (ix2 (grow nodes_pos (rCol (rWrap (rSrc ei))) e) q)
            * (rDinv ei (ix1 (grow nodes_pos (rCol (rWrap (rSrc ei))) e)) * rDinv ei (ix1 p))
          + Ideal.div (XW (ix2 p q)) (rDeg ei (ix1 p)) + rBiasB b (ix2 p q) :=
    ref_gcn_apply (n := 100000) (c := 64) (E := 2000000) (φ := .f32) nodes_pos scatter_S100000x64_S2000000x1_S2000000x64_1_0_0_1 ⟨rfl, rfl, rfl, rfl⟩
    gather_S100000x64_S2000000x1_S2000000x64_1_0_n_n_0_1_164 ⟨rfl, rfl, rfl, rfl, rfl, rfl, rfl⟩
    gather_S100000_S2000000x1_S2000000_n_0_n_n_0_1_1 ⟨rfl, rfl, rfl, rfl, rfl, rfl, rfl⟩
    XW rZeroNC (rDegB ei) (rBiasB b) (rCoef ei) (rDinv ei) (rDeg ei) (rCol (rDst ei)) (rCol (rWrap (rSrc ei)))
    (rCol (rWrap (rSrc ei))) (rCol (rWrap (rDst ei))) 100000#32 rZeroNC_apply (fun _ => rfl)
    (rColWrapDst_apply ei) (rCoef_apply ei) (rDegB_apply ei) p q
  rw [h]
  unfold gcnPreRef srcRow
  rw [rCol_rDst, rCol_rWrap_rSrc, rDeg_apply, rDinv_apply, rBiasB_apply]
  refine congrArg (· + b (ix1 q)) (congrArg (· + Ideal.div (XW (ix2 p q)) (gcnDeg ei p)) (Finset.sum_congr rfl fun e _ => ?_))
  rw [rDinv_apply]

/-! ## The matrix product -/

theorem dot_lhs0 (i : S100000x64.Idx) (q : dot_S100000x64_S64x64_S100000x64_1_0_0_1_n_n.contr.Idx) :
    (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide),
    dif_pos (show (0 : Fin S100000x64.rank) ∈ dot_S100000x64_S64x64_S100000x64_1_0_0_1_n_n.lhsNonContracting by decide)]
  rfl

theorem dot_rhs1 (i : S100000x64.Idx) (q : dot_S100000x64_S64x64_S100000x64_1_0_0_1_n_n.contr.Idx) :
    (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide),
    dif_pos (show (1 : Fin S64x64.rank) ∈ dot_S100000x64_S64x64_S100000x64_1_0_0_1_n_n.rhsNonContracting by decide)]
  rfl

theorem dot_eq_matmulG (x : FVec Ideal S100000x64 .f32) (w : FVec Ideal S64x64 .f32) :
    Host.dotGeneral dot_S100000x64_S64x64_S100000x64_1_0_0_1_n_n none x w = matmulG x w := by
  funext i
  simp only [Host.dotGeneral]
  rw [Ideal.dotGeneral_apply,
    ← Equiv.sum_comp (ValueIdx.contrEquiv1 dot_S100000x64_S64x64_S100000x64_1_0_0_1_n_n 64 rfl rfl).symm]
  unfold matmulG
  refine Finset.sum_congr rfl fun k _ => ?_
  have hk := ValueIdx.contrEquiv1_symm_val dot_S100000x64_S64x64_S100000x64_1_0_0_1_n_n 64 rfl rfl k
  have el : dot_S100000x64_S64x64_S100000x64_1_0_0_1_n_n.lhsIdx i
      ((ValueIdx.contrEquiv1 dot_S100000x64_S64x64_S100000x64_1_0_0_1_n_n 64 rfl rfl).symm k)
      = ix2 (i 0 : Fin 100000) k := funext fun a => Fin.ext (by
    match a with
    | ⟨0, _⟩ => exact dot_lhs0 _ _
    | ⟨1, _⟩ => exact (dot_S100000x64_S64x64_S100000x64_1_0_0_1_n_n.lhsIdx_val_of_single rfl i _).trans hk)
  have er : dot_S100000x64_S64x64_S100000x64_1_0_0_1_n_n.rhsIdx i
      ((ValueIdx.contrEquiv1 dot_S100000x64_S64x64_S100000x64_1_0_0_1_n_n 64 rfl rfl).symm k)
      = ix2 k (i 1 : Fin 64) := funext fun a => Fin.ext (by
    match a with
    | ⟨0, _⟩ => exact (dot_S100000x64_S64x64_S100000x64_1_0_0_1_n_n.rhsIdx_val_of_single rfl i _).trans hk
    | ⟨1, _⟩ => exact dot_rhs1 _ _)
  rw [el, er]
  all_goals rfl

end Cert.RefSide

end
-- ==== Proof.RefGcnRelu.lean ====
/-
  THE REFERENCE'S RECTIFIED NORMALISED-ADJACENCY LAYER read at one entry: the layer function `gcnRelu` (the
  reference's own operations, the matrix product and the rectifier included) at `(p, q)` is the maximum of
  `Cert.Spec.gcnPreRef (Cert.Spec.matmulG x w) ei b p q` with the zero word.
-/
import proofs.«173191_j73083163508880_2_alg».proof.Proof.RefLayers
import proofs.«173191_j73083163508880_2_alg».proof.Proof.RefGcn

noncomputable section

namespace Cert.RefSide

open Cert.ReferenceIdeal Cert.ReferenceIdeal.Gen Idealize.ShloMosaic Idealize.ShloMosaic.ValueIdx
open Cert.GcnLaw Cert.Spec Cert.LibFinite

set_option maxRecDepth 16384 in
/-- the layer function is the rectifier of `refGcnPre` at the matrix product -/
theorem gcnRelu_eq_pre (x : FVec Ideal S100000x64 .f32) (ei : IVec S2x2000000 32) (w : FVec Ideal S64x64 .f32)
    (b : FVec Ideal S64 .f32) :
    gcnRelu (F := Ideal) x ei w b
      = maximumf (refGcnPre (Host.dotGeneral dot_S100000x64_S64x64_S100000x64_1_0_0_1_n_n none x w) ei b)
          (broadcastInDim S100000x64 ![] bcast_S_S100000x64 (constant (F := Ideal) S_ .f32 0x00000000#32)) := rfl

theorem gcnRelu_apply (x : FVec Ideal S100000x64 .f32) (ei : IVec S2x2000000 32) (w : FVec Ideal S64x64 .f32)
    (b : FVec Ideal S64 .f32) (p : Fin 100000) (q : Fin 64) :
    gcnRelu (F := Ideal) x ei w b (ix2 p q)
      = max (gcnPreRef (matmulG x w) ei b p q) (Ideal.ofBits .f32 0x00000000#32) := by
  rw [gcnRelu_eq_pre, dot_eq_matmulG, maximumf_apply, refGcnPre_apply, bcast_scalar_apply, constant_apply]

end Cert.RefSide

end
-- ==== Proof.KI.GcnInst.lean ====
/-
  THE NORMALISED-ADJACENCY LAYER: the kernel program's arrangement (the rectified combine of its prelude arrays) is the
  reference's layer function, entry by entry, and its entries are real when the features, weights and bias are.
-/
import proofs.«173191_j73083163508880_2_alg».proof.Proof.KI.GcnKer
import proofs.«173191_j73083163508880_2_alg».proof.Proof.SpecB
import proofs.«173191_j73083163508880_2_alg».proof.Proof.SpecC
import proofs.«173191_j73083163508880_2_alg».proof.Proof.RefGcnRelu

noncomputable section

open scoped BigOperators

namespace Cert.KernelIdeal.Fr

open Cert.KernelIdeal Cert.KernelIdeal.Gen Idealize.ShloMosaic Idealize.ShloMosaic.ValueIdx
open Cert.GcnLaw Cert.Spec Cert.LibFinite

/-! ## The layer: the kernel program's arrangement is the reference's -/

/-- THE NORMALISED-ADJACENCY LAYER: the rectified combine of the kernel program's prelude arrays is the reference's layer
    function, entry by entry, whatever the arrays hold. -/
theorem gcn_relu_eq (x : (⟨2, ![100000, 64]⟩ : Shape).Idx → EReal) (ei : (⟨2, ![2, 2000000]⟩ : Shape).Idx → BitVec 32)
    (w : (⟨2, ![64, 64]⟩ : Shape).Idx → EReal) (b : (⟨1, ![64]⟩ : Shape).Idx → EReal) :
    statsRelu (gcnAgg (F := Ideal) (matmulG x w) ei) (gcnScaled (F := Ideal) (matmulG x w) ei) (gcnDinvCol (F := Ideal) ei) b
      = Cert.RefSide.gcnRelu (F := Ideal) x ei w b := by
  funext i
  obtain ⟨p, q, rfl⟩ : ∃ p q, i = ix2 p q := ⟨i 0, i 1, eq_ix2 i⟩
  rw [statsRelu_apply, kerGcn_apply, Cert.RefSide.gcnRelu_apply, gcnPre_eq]

/-- real node features, weights and bias: every entry of the layer is a real number -/
theorem gcn_relu_allReal {x : (⟨2, ![100000, 64]⟩ : Shape).Idx → EReal} (ei : (⟨2, ![2, 2000000]⟩ : Shape).Idx → BitVec 32)
    {w : (⟨2, ![64, 64]⟩ : Shape).Idx → EReal} {b : (⟨1, ![64]⟩ : Shape).Idx → EReal}
    (hx : AllReal x) (hw : AllReal w) (hb : AllReal b) :
    AllReal (statsRelu (gcnAgg (F := Ideal) (matmulG x w) ei) (gcnScaled (F := Ideal) (matmulG x w) ei)
      (gcnDinvCol (F := Ideal) ei) b) := by
  intro i
  obtain ⟨p, q, rfl⟩ : ∃ p q, i = ix2 p q := ⟨i 0, i 1, eq_ix2 i⟩
  rw [statsRelu_apply, kerGcn_apply]
  have hXW : AllReal (matmulG x w) := fun j => IsReal.sum _ _ fun k _ => (hx _).mul (hw _)
  exact (gcnPreKer_isReal ei hXW hb p q).max isReal_ofBits_zero

end Cert.KernelIdeal.Fr

end
-- ==== Proof.RefBn.lean ====
/- The reference's batch normalisation, read entry by entry: its operations, in order, compute at row `p`, column `q`
   `(x (p, q) - mean q) * rsqrt (var q + eps) * g q + b q`, where `mean q` is the column's sum, started from the zero
   word, divided by the word of 100000, and `var q` the same mean of the squared deviations from `mean q`.
   A per-column row is spread over the rows by two broadcasts; a column sum is the reduction over the first axis. -/
import proofs.«173191_j73083163508880_2_alg».proof.Proof.RefLayers
import proofs.«173191_j73083163508880_2_alg».proof.Proof.SpecBN
import Idealize.ShloMosaic.Lib.Pipeline.Value
import Idealize.ShloMosaic.Lib.IdealHost

noncomputable section

namespace Cert.RefSide

open Cert.ReferenceIdeal Cert.ReferenceIdeal.Gen Idealize.ShloMosaic Idealize.ShloMosaic.TcCoe Idealize.SL.Sem Idealize.ShloMosaic.StableHlo
open Idealize.ShloMosaic.ValueIdx
open scoped BigOperators

/-- A per-column row spread over the 100000 rows: a [64] array as [1,64], then as [100000,64]. -/
abbrev bcRow {α : Type} (y : S64.Idx → α) : S100000x64.Idx → α :=
  broadcastInDim S100000x64 ![0, 1] bcast_S1x64_S100000x64_0_1 (broadcastInDim S1x64 ![1] bcast_S64_S1x64_1 y)

/-- The spread row at `(p, q)` is the row at `q`. -/
theorem bcRow_apply {α : Type} (y : S64.Idx → α) (i : S100000x64.Idx) : bcRow y i = y (ix1 (i 1 : Fin 64)) := by
  unfold bcRow
  rw [broadcastInDim_apply _ bcast_S1x64_S100000x64_0_1 _ i (ix2 (0 : Fin 1) (i 1 : Fin 64)) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])]
  exact broadcastInDim_apply _ bcast_S64_S1x64_1 y _ (ix1 (i 1 : Fin 64)) (fun a => match a with
    | ⟨0, _⟩ => by show (i 1).val = if (64 : Nat) = 1 then 0 else (i 1).val; rw [if_neg (by decide)])

/-- A column sum: the reduction over the rows, from the initial value. -/
theorem colReduce_apply (x : S100000x64.Idx → EReal) (z : S_.Idx → EReal) (q : S64.Idx) :
    Host.reduceAdd (F := Ideal) (φ := .f32) x z reducesTo_S100000x64_S64_d0 h_S_ q
      = z (Shape.Idx.first h_S_) + ∑ k : Fin 100000, x (ix2 k (q 0 : Fin 64)) := by
  simp only [Host.reduceAdd, Ideal.hostReduceAdd_def]
  rw [Ideal.hostReduceAdd_single reducesTo_S100000x64_S64_d0 (by decide)]
  refine congrArg (_ + ·) (Finset.sum_congr rfl fun k _ => ?_)
  exact congrArg x (funext fun a => Fin.ext (by match a with | ⟨0, _⟩ => rfl | ⟨1, _⟩ => rfl))

/-- The column means, as the reference computes them. -/
def bnMeanV (x : S100000x64.Idx → EReal) : S64.Idx → EReal :=
  Host.divf (F := Ideal) (φ := .f32) (Host.reduceAdd (F := Ideal) (φ := .f32) x (constant (F := Ideal) S_ .f32 0x00000000#32) reducesTo_S100000x64_S64_d0 h_S_)
    (broadcastInDim S64 ![] bcast_S_S64 (constant (F := Ideal) S_ .f32 0x47C35000#32))

/-- The column variances, as the reference computes them. -/
def bnVarV (x : S100000x64.Idx → EReal) : S64.Idx → EReal :=
  Host.divf (F := Ideal) (φ := .f32)
    (Host.reduceAdd (F := Ideal) (φ := .f32)
      (mulf (F := Ideal) (φ := .f32) (subf (F := Ideal) (φ := .f32) x (bcRow (bnMeanV x))) (subf (F := Ideal) (φ := .f32) x (bcRow (bnMeanV x))))
      (constant (F := Ideal) S_ .f32 0x00000000#32) reducesTo_S100000x64_S64_d0 h_S_)
    (broadcastInDim S64 ![] bcast_S_S64 (constant (F := Ideal) S_ .f32 0x47C35000#32))

theorem bnMeanV_apply (x : S100000x64.Idx → EReal) (q : S64.Idx) :
    bnMeanV x q = Cert.Spec.bnRefMean x (q 0 : Fin 64) := by
  unfold bnMeanV Cert.Spec.bnRefMean
  rw [hostDivf_apply, colReduce_apply, broadcastInDim_scalar_apply]
  rfl

theorem bnVarV_apply (x : S100000x64.Idx → EReal) (q : S64.Idx) :
    bnVarV x q = Cert.Spec.bnRefVar x (q 0 : Fin 64) := by
  unfold bnVarV Cert.Spec.bnRefVar
  rw [hostDivf_apply, colReduce_apply, broadcastInDim_scalar_apply]
  refine congrArg₂ Ideal.div (congrArg (_ + ·) (Finset.sum_congr rfl fun k _ => ?_)) rfl
  rw [mulf_apply, subf_apply, bcRow_apply, bnMeanV_apply]

/-- The reference's batch normalisation is the entrywise formula. -/
theorem bnRef_eq (x : S100000x64.Idx → EReal) (g b : S64.Idx → EReal) :
    bnRef (F := Ideal) x g b = Cert.Spec.bnRefG x g b := by
  have h : bnRef (F := Ideal) x g b
      = addf (F := Ideal) (φ := .f32) (mulf (F := Ideal) (φ := .f32) (mulf (F := Ideal) (φ := .f32) (subf (F := Ideal) (φ := .f32) x (bcRow (bnMeanV x)))
          (bcRow (Host.rsqrt (F := Ideal) (φ := .f32) (addf (F := Ideal) (φ := .f32) (bnVarV x) (broadcastInDim S64 ![] bcast_S_S64 (constant (F := Ideal) S_ .f32 0x3727C5AC#32))))))
          (bcRow g)) (bcRow b) := rfl
  rw [h]
  funext i
  rw [addf_apply, mulf_apply, mulf_apply, subf_apply, bcRow_apply, bcRow_apply, bcRow_apply, bcRow_apply, bnMeanV_apply]
  unfold Cert.Spec.bnRefG
  have hr : (Host.rsqrt (F := Ideal) (φ := .f32) (addf (F := Ideal) (φ := .f32) (bnVarV x) (broadcastInDim S64 ![] bcast_S_S64 (constant (F := Ideal) S_ .f32 0x3727C5AC#32)))) (ix1 (i 1 : Fin 64))
      = Ideal.rsqrt (Cert.Spec.bnRefVar x (i 1 : Fin 64) + Ideal.ofBits .f32 0x3727C5AC#32) := by
    show Ideal.rsqrt ((addf (F := Ideal) (φ := .f32) (bnVarV x) (broadcastInDim S64 ![] bcast_S_S64 (constant (F := Ideal) S_ .f32 0x3727C5AC#32))) (ix1 (i 1 : Fin 64))) = _
    rw [addf_apply, bnVarV_apply, broadcastInDim_scalar_apply]
    rfl
  rw [hr]

end Cert.RefSide

end
-- ==== Proof.LibFiniteOps.lean ====
/-
  Real-valuedness through the array operations of a tensor program, read at the extended reals.

  For each operation: if every entry of each float operand is real (`Cert.LibFinite.AllReal`), so is
  every entry of the result.  The operations are those of the Idealize library
  (`Idealize.ShloMosaic`), at the ideal instance `Ideal` (floats are extended reals, exact):

  * elementwise: `constant`, `addf`, `subf`, `mulf`, `maximumf`, `minimumf`, `negf`, `divf` /
    `Host.divf` (divisor nonzero), `rsqrt` / `Host.rsqrt` (argument positive), `sitofp`, `select`,
    `extf` / `truncf` (the identity);
  * re-indexings — every entry of the result is an entry of the operand: `broadcast`, `broadcastTo`,
    `broadcastInDim`, `shapeCast`, `extractStridedSlice`, `Host.slice`, `Host.dynamicSlice`,
    `Host.reverse`, `transpose`, `concatenate`, `Host.gather` (whatever the indices);
  * contractions — a finite sum of products: `matmul`, `Host.dotGeneral`, `Host.dotGeneralAt`;
  * reductions — a finite sum: `Host.reduceAdd`, `multiReduction .add`; a sum of squares is `≥ 0`;
  * `Host.scatterAdd` — the operand plus a finite sum of updates (whatever the indices).
-/
import Idealize.ShloMosaic.PureOps.Ideal.Laws
import proofs.«173191_j73083163508880_2_alg».proof.Proof.LibFinite

noncomputable section

namespace Cert.LibFinite

open Idealize.ShloMosaic
open scoped BigOperators

/-! ### Elementwise -/

section Elementwise
variable {s : Shape} {φ : FTy}

theorem allReal_constant (s : Shape) {φ : FTy} {b : BitVec φ.bits} (h : IsReal (Ideal.ofBits φ b)) :
    AllReal (constant (F := Ideal) s φ b) := fun _ => h
theorem allPosReal_constant (s : Shape) {φ : FTy} {b : BitVec φ.bits} (h : IsPosReal (Ideal.ofBits φ b)) :
    AllPosReal (constant (F := Ideal) s φ b) := fun _ => h

theorem allReal_addf {x y : FVec Ideal s φ} (hx : AllReal x) (hy : AllReal y) : AllReal (addf x y) :=
  fun i => (hx i).add (hy i)
theorem allReal_subf {x y : FVec Ideal s φ} (hx : AllReal x) (hy : AllReal y) : AllReal (subf x y) :=
  fun i => (hx i).sub (hy i)
theorem allReal_mulf {x y : FVec Ideal s φ} (hx : AllReal x) (hy : AllReal y) : AllReal (mulf x y) :=
  fun i => (hx i).mul (hy i)
theorem allReal_maximumf {x y : FVec Ideal s φ} (hx : AllReal x) (hy : AllReal y) : AllReal (maximumf x y) :=
  fun i => (hx i).max (hy i)
theorem allReal_minimumf {x y : FVec Ideal s φ} (hx : AllReal x) (hy : AllReal y) : AllReal (minimumf x y) :=
  fun i => (hx i).min (hy i)
theorem allReal_negf {x : FVec Ideal s φ} (hx : AllReal x) : AllReal (negf x) := fun i => (hx i).neg

theorem allPosReal_addf {x y : FVec Ideal s φ} (hx : AllPosReal x) (hy : AllPosReal y) : AllPosReal (addf x y) :=
  fun i => (hx i).add (hy i)
theorem allPosReal_mulf {x y : FVec Ideal s φ} (hx : AllPosReal x) (hy : AllPosReal y) : AllPosReal (mulf x y) :=
  fun i => (hx i).mul (hy i)
/-- Nonnegative reals plus positive reals: positive reals (a variance plus an epsilon). -/
theorem allPosReal_addf_of_nonneg {x y : FVec Ideal s φ} (hx : AllReal x) (hx0 : ∀ i, 0 ≤ x i) (hy : AllPosReal y) :
    AllPosReal (addf x y) := fun i => IsPosReal.nonneg_add (hx i) (hx0 i) (hy i)
/-- The maximum of reals and positive reals: positive reals (a degree clamped below by an epsilon). -/
theorem allPosReal_maximumf_right {x y : FVec Ideal s φ} (hx : AllReal x) (hy : AllPosReal y) :
    AllPosReal (maximumf x y) := fun i => IsPosReal.max_right (hx i) (hy i)
theorem allPosReal_maximumf_left {x y : FVec Ideal s φ} (hx : AllPosReal x) (hy : AllReal y) :
    AllPosReal (maximumf x y) := fun i => IsPosReal.max_left (hx i) (hy i)
/-- The square of a real array is nonnegative. -/
theorem mulf_self_nonneg {x : FVec Ideal s φ} (hx : AllReal x) (i : s.Idx) : 0 ≤ mulf x x i := (hx i).mul_self_nonneg

/-- Division by a nonzero real array (a kernel's `arith.divf`). -/
theorem allReal_divf {x y : FVec Ideal s φ} (hx : AllReal x) (hy : AllReal y) (hy0 : ∀ i, y i ≠ 0) :
    AllReal (divf x y) := fun i => (hx i).div (hy i) (hy0 i)
/-- Division by a nonzero real array (the host's `divide`). -/
theorem allReal_hostDivf {x y : FVec Ideal s φ} (hx : AllReal x) (hy : AllReal y) (hy0 : ∀ i, y i ≠ 0) :
    AllReal (Host.divf x y) := fun i => (hx i).div (hy i) (hy0 i)
theorem allReal_hostDivf_of_pos {x y : FVec Ideal s φ} (hx : AllReal x) (hy : AllPosReal y) :
    AllReal (Host.divf x y) := fun i => (hx i).div (hy i).isReal (hy i).ne_zero
theorem allPosReal_hostDivf {x y : FVec Ideal s φ} (hx : AllPosReal x) (hy : AllPosReal y) :
    AllPosReal (Host.divf x y) := fun i => (hx i).div (hy i)

/-- A nonnegative real divided by a positive real is nonnegative. -/
theorem div_nonneg_of_pos {x y : EReal} (hx : IsReal x) (hx0 : 0 ≤ x) (hy : IsPosReal y) : 0 ≤ Ideal.div x y := by
  obtain ⟨a, rfl⟩ := hx; obtain ⟨b, hb, rfl⟩ := hy
  rw [div_coe_coe a hb.ne']
  exact EReal.coe_nonneg.mpr (div_nonneg (EReal.coe_nonneg.mp hx0) hb.le)
theorem hostDivf_nonneg {x y : FVec Ideal s φ} (hx : AllReal x) (hx0 : ∀ i, 0 ≤ x i) (hy : AllPosReal y) (i : s.Idx) :
    0 ≤ Host.divf x y i := div_nonneg_of_pos (hx i) (hx0 i) (hy i)

/-- The reciprocal square root of positive reals (a kernel's `math.rsqrt`): positive reals. -/
theorem allPosReal_rsqrt {x : FVec Ideal s φ} (hx : AllPosReal x) : AllPosReal (rsqrt x) := fun i => (hx i).rsqrt
/-- The reciprocal square root of positive reals (the host's `rsqrt`): positive reals. -/
theorem allPosReal_hostRsqrt {x : FVec Ideal s φ} (hx : AllPosReal x) : AllPosReal (Host.rsqrt x) :=
  fun i => (hx i).rsqrt
theorem allReal_hostRsqrt {x : FVec Ideal s φ} (hx : AllPosReal x) : AllReal (Host.rsqrt x) :=
  (allPosReal_hostRsqrt hx).allReal

/-- An integer converted to a float is real. -/
theorem allReal_sitofp {w : Nat} (φ : FTy) (x : IVec s w) : AllReal (sitofp (F := Ideal) φ x) :=
  fun i => ⟨((x i).toInt : ℝ), rfl⟩
theorem sitofp_apply {w : Nat} (φ : FTy) (x : IVec s w) (i : s.Idx) :
    sitofp (F := Ideal) φ x i = (((x i).toInt : ℝ) : EReal) := rfl

/-- A change of format is the identity at the extended reals. -/
theorem allReal_extf {x : FVec Ideal s φ} (ψ : FTy) (h : φ.bits < ψ.bits) (hx : AllReal x) : AllReal (extf ψ x h) :=
  fun i => hx i
theorem allReal_truncf {x : FVec Ideal s φ} (ψ : FTy) (h : ψ.bits < φ.bits) (hx : AllReal x) : AllReal (truncf ψ x h) :=
  fun i => hx i

/-- A selection between two real arrays is real, whatever the condition. -/
theorem allReal_select {c : IVec s 1} {a b : s.Idx → EReal} (ha : AllReal a) (hb : AllReal b) : AllReal (select c a b) := by
  intro i
  show IsReal (if c i = 1 then a i else b i)
  split
  · exact ha i
  · exact hb i
/-- A selection is real where the chosen branch is. -/
theorem allReal_select_of {c : IVec s 1} {a b : s.Idx → EReal} (ha : ∀ i, c i = 1 → IsReal (a i))
    (hb : ∀ i, c i ≠ 1 → IsReal (b i)) : AllReal (select c a b) := by
  intro i
  show IsReal (if c i = 1 then a i else b i)
  split
  · next h => exact ha i h
  · next h => exact hb i h
/-- Where the condition holds everywhere, the selection is its first branch. -/
theorem select_eq_left {α : Type} {c : IVec s 1} {a b : s.Idx → α} (hc : ∀ i, c i = 1) : select c a b = a := by
  funext i
  show (if c i = 1 then a i else b i) = a i
  rw [if_pos (hc i)]
theorem allPosReal_select {c : IVec s 1} {a b : s.Idx → EReal} (ha : AllPosReal a) (hb : AllPosReal b) :
    AllPosReal (select c a b) := by
  intro i
  show IsPosReal (if c i = 1 then a i else b i)
  split
  · exact ha i
  · exact hb i

end Elementwise

/-! ### Re-indexings: every entry of the result is an entry of the operand -/

section Reindex
variable {s t : Shape}

theorem allReal_broadcast (t : Shape) {x : EReal} (hx : IsReal x) : AllReal (broadcast t x) := fun _ => hx
theorem allReal_broadcastTo (t : Shape) {x : s.Idx → EReal} (h : s.Broadcasts t) (hx : AllReal x) :
    AllReal (broadcastTo t x h) := fun _ => hx _
theorem allReal_broadcastInDim (t : Shape) (dims : Fin s.rank → Fin t.rank) (h : s.BroadcastsInDim t dims)
    {x : s.Idx → EReal} (hx : AllReal x) : AllReal (broadcastInDim t dims h x) := fun _ => hx _
theorem allPosReal_broadcastInDim (t : Shape) (dims : Fin s.rank → Fin t.rank) (h : s.BroadcastsInDim t dims)
    {x : s.Idx → EReal} (hx : AllPosReal x) : AllPosReal (broadcastInDim t dims h x) := fun _ => hx _
theorem allReal_shapeCast (t : Shape) {x : s.Idx → EReal} (h : s.ShapeCasts t) (hx : AllReal x) :
    AllReal (shapeCast t x h) := fun _ => hx _
theorem allPosReal_shapeCast (t : Shape) {x : s.Idx → EReal} (h : s.ShapeCasts t) (hx : AllPosReal x) :
    AllPosReal (shapeCast t x h) := fun _ => hx _
theorem allReal_extractStridedSlice (t : Shape) (off : Fin s.rank → Nat) {x : s.Idx → EReal} (h : s.Slices off t)
    (hx : AllReal x) : AllReal (extractStridedSlice t off x h) := fun _ => hx _
theorem allReal_hostSlice (t : Shape) (start strides : Fin s.rank → Nat) {x : s.Idx → EReal}
    (h : s.SlicesBy start strides t) (hx : AllReal x) : AllReal (Host.slice t start strides x h) := fun _ => hx _
theorem allReal_hostDynamicSlice (t : Shape) {x : s.Idx → EReal} (start : Fin s.rank → Int)
    (h : s.Slices (fun _ => 0) t) (hx : AllReal x) : AllReal (Host.dynamicSlice t x start h) := fun _ => hx _
theorem allReal_hostReverse (axes : List (Fin s.rank)) {x : s.Idx → EReal} (hx : AllReal x) :
    AllReal (Host.reverse axes x) := fun _ => hx _
theorem allReal_transpose (t : Shape) (perm : List (Fin s.rank)) {x : s.Idx → EReal} (h : s.Transposes perm t)
    (hx : AllReal x) : AllReal (transpose t perm x h) := fun _ => hx _

/-- A gather reads the operand at (clamped) indices: every entry of the result is an entry of the operand. -/
theorem allReal_hostGather {si : Shape} {w : Nat} (d : GatherDims s si t) {x : s.Idx → EReal} (idx : IVec si w)
    (hx : AllReal x) : AllReal (Host.gather d x idx) := fun _ => hx _
theorem allPosReal_hostGather {si : Shape} {w : Nat} (d : GatherDims s si t) {x : s.Idx → EReal} (idx : IVec si w)
    (hx : AllPosReal x) : AllPosReal (Host.gather d x idx) := fun _ => hx _

/-- A concatenation of real arrays is real. -/
theorem allReal_concatenate (t : Shape) (a : Fin t.rank) (xs : List ((s : Shape) × (s.Idx → EReal)))
    (h : Shape.Concatenates (xs.map (·.1)) t a) (hxs : ∀ p ∈ xs, AllReal p.2) : AllReal (concatenate t a xs h) :=
  fun _ => hxs _ (List.getElem_mem _) _

end Reindex

/-! ### Contractions: a finite sum of products -/

section Contract
variable {sl sr so : Shape} {φ₁ φ₂ : FTy}

theorem allReal_matmul (d : DotDims sl sr so) (prec : Option ContractPrecision) {lhs : FVec Ideal sl φ₁}
    {rhs : FVec Ideal sr φ₂} {acc : FVec Ideal so .f32} (hl : AllReal lhs) (hr : AllReal rhs) (ha : AllReal acc) :
    AllReal (matmul d prec lhs rhs acc) :=
  fun j => (ha j).add (IsReal.sum _ _ fun k _ => (hl _).mul (hr _))

theorem allReal_hostDotGeneral (d : DotDims sl sr so) (prec : Option ContractPrecision) {lhs : FVec Ideal sl φ₁}
    {rhs : FVec Ideal sr φ₂} (hl : AllReal lhs) (hr : AllReal rhs) : AllReal (Host.dotGeneral d prec lhs rhs) :=
  fun j => isReal_zero.add (IsReal.sum _ _ fun k _ => (hl _).mul (hr _))

theorem allReal_hostDotGeneralAt (sched : HostSchedule) (d : DotDims sl sr so) (prec : Option ContractPrecision)
    {lhs : FVec Ideal sl φ₁} {rhs : FVec Ideal sr φ₂} (hl : AllReal lhs) (hr : AllReal rhs) :
    AllReal (Host.dotGeneralAt sched d prec lhs rhs) :=
  fun j => isReal_zero.add (IsReal.sum _ _ fun k _ => (hl _).mul (hr _))

end Contract

/-! ### Reductions: a finite sum -/

section Reduce
variable {s t u : Shape} {φ : FTy} {axes : List (Fin s.rank)}

/-- The host's float sum: the initial value plus a finite sum of entries. -/
theorem allReal_hostReduceAdd {x : FVec Ideal s φ} {init : u.Idx → Ideal φ} (h : s.ReducesTo axes t) (hu : 0 < u.numel)
    (hx : AllReal x) (hi : AllReal init) : AllReal (Host.reduceAdd x init h hu) :=
  fun _ => (hi _).add (IsReal.sum _ _ fun i _ => hx i)

/-- The host's float sum of nonnegative entries from a nonnegative initial value is nonnegative. -/
theorem hostReduceAdd_nonneg {x : FVec Ideal s φ} {init : u.Idx → Ideal φ} (h : s.ReducesTo axes t) (hu : 0 < u.numel)
    (hx0 : ∀ i, 0 ≤ x i) (hi0 : ∀ i, 0 ≤ init i) (j : t.Idx) : 0 ≤ Host.reduceAdd x init h hu j :=
  add_nonneg (hi0 _) (Finset.sum_nonneg fun i _ => hx0 i)

/-- A kernel's `vector.multi_reduction <add>`: a finite sum of entries. -/
theorem allReal_multiReduction_add {src : FVec Ideal s φ} {acc : BitVec φ.bits} (h : s.Reduces axes t)
    (hφ : FKind.Formats φ) (hacc : acc = FKind.add.neutral φ hφ) (hx : AllReal src) :
    AllReal (multiReduction .add axes t src acc h hφ hacc) := by
  intro j
  show IsReal (∑ i ∈ Finset.univ.filter (fun i => h.drop i = j), src i)
  exact IsReal.sum _ _ fun i _ => hx i

end Reduce

/-! ### Scatter-add: the operand plus a finite sum of updates -/

section Scatter
variable {s si u : Shape} {φ : FTy} {w : Nat}

/-- The host's accumulating scatter: each operand entry plus the sum of the updates landing on it
    (those landing outside the operand are dropped); real if the operand and the updates are, whatever
    the indices. -/
theorem allReal_hostScatterAdd (d : ScatterDims s si u) {x : FVec Ideal s φ} (idx : IVec si w) {upd : FVec Ideal u φ}
    (hx : AllReal x) (hu : AllReal upd) : AllReal (Host.scatterAdd d x idx upd) :=
  fun i => (hx i).add (IsReal.sum _ _ fun j _ => hu j)

theorem allReal_hostScatterAddAt (sched : HostSchedule) (d : ScatterDims s si u) {x : FVec Ideal s φ} (idx : IVec si w)
    {upd : FVec Ideal u φ} (hx : AllReal x) (hu : AllReal upd) : AllReal (Host.scatterAddAt sched d x idx upd) :=
  fun i => (hx i).add (IsReal.sum _ _ fun j _ => hu j)

/-- The accumulating scatter read at an entry. -/
theorem hostScatterAdd_apply (d : ScatterDims s si u) (x : FVec Ideal s φ) (idx : IVec si w) (upd : FVec Ideal u φ)
    (i : s.Idx) :
    Host.scatterAdd d x idx upd i = x i + ∑ j ∈ Finset.univ.filter (fun j => d.resultIdx? j idx = some i), upd j := rfl

/-- Nonnegative operand and updates: nonnegative result (a degree). -/
theorem hostScatterAdd_nonneg (d : ScatterDims s si u) {x : FVec Ideal s φ} (idx : IVec si w) {upd : FVec Ideal u φ}
    (hx0 : ∀ i, 0 ≤ x i) (hu0 : ∀ j, 0 ≤ upd j) (i : s.Idx) : 0 ≤ Host.scatterAdd d x idx upd i :=
  add_nonneg (hx0 i) (Finset.sum_nonneg fun j _ => hu0 j)

end Scatter

end Cert.LibFinite

end
-- ==== Proof.RefFinite.lean ====
/- Real-valuedness through the reference's layers, read at the extended reals: when every entry of a layer's float
   inputs is (the coercion of) a real number, so is every entry of its output. The denominators are positive reals:
   an in-degree (a sum of ones from zero) clamped below by one; a row norm (the square root of a sum of squares of
   reals, a nonnegative real) clamped below by a positive constant; a degree (an in-degree plus one); a variance (a
   mean of squares of reals, nonnegative) plus a positive constant. Edge indices are arbitrary: a gather reads
   entries of its operand, and a scatter-add adds finitely many updates to its operand. -/
import proofs.«173191_j73083163508880_2_alg».proof.Proof.RefLayers
import proofs.«173191_j73083163508880_2_alg».proof.Proof.LibFinite
import proofs.«173191_j73083163508880_2_alg».proof.Proof.LibFiniteLits
import proofs.«173191_j73083163508880_2_alg».proof.Proof.LibFiniteOps

noncomputable section

namespace Cert.RefSide

open Cert.ReferenceIdeal Cert.ReferenceIdeal.Gen Idealize.ShloMosaic Idealize.ShloMosaic.TcCoe Idealize.SL.Sem Idealize.ShloMosaic.StableHlo
open Cert.LibFinite

/-- A broadcast of an array of nonnegative extended reals is one: every entry of the result is an entry of the operand. -/
theorem nonneg_broadcastInDim {s : Shape} (t : Shape) (dims : Fin s.rank → Fin t.rank) (h : s.BroadcastsInDim t dims)
    {x : s.Idx → EReal} (hx : ∀ i, 0 ≤ x i) : ∀ j, 0 ≤ broadcastInDim t dims h x j := fun _ => hx _

/-- The square root of a nonnegative real is a real. -/
theorem isReal_sqrt {x : EReal} (hx : IsReal x) (h0 : 0 ≤ x) : IsReal (Ideal.sqrt x) := by
  obtain ⟨r, rfl⟩ := hx
  rw [Ideal.sqrt_coe, if_neg (not_lt.mpr (EReal.coe_nonneg.mp h0))]
  exact isReal_coe _

/-- The host's square root of an array of nonnegative reals is an array of reals. -/
theorem allReal_hostSqrt {s : Shape} {φ : FTy} {x : FVec Ideal s φ} (hx : AllReal x) (h0 : ∀ i, 0 ≤ x i) :
    AllReal (Host.sqrt x) := fun i => isReal_sqrt (hx i) (h0 i)

set_option maxRecDepth 8192 in
set_option maxHeartbeats 2000000 in
theorem allReal_sageRelu32 {xs : (⟨S100000x64, .f32⟩ : BufTy).Contents (Elt Ideal)} {xd : (⟨S100000x32, .f32⟩ : BufTy).Contents (Elt Ideal)} {ei : (⟨S2x2000000, .i32⟩ : BufTy).Contents (Elt Ideal)} {wl : (⟨S64x64, .f32⟩ : BufTy).Contents (Elt Ideal)} {b : (⟨S64, .f32⟩ : BufTy).Contents (Elt Ideal)} {wr : (⟨S32x64, .f32⟩ : BufTy).Contents (Elt Ideal)}
    (hxs : AllReal xs) (hxd : AllReal xd) (hwl : AllReal wl) (hb : AllReal b) (hwr : AllReal wr) :
    AllReal (sageRelu32 (F := Ideal) xs xd ei wl b wr) := by
  unfold sageRelu32
  extract_lets -merge t0 t1 t2 t3 t4 t5 t6 t7 t8 t9 t10 t11 t12 t13 t14 t15 t16 t17 t18 t19 t20 t21 t22 t23 t24 t25 t26 t27 t28 t29 t30 t31 t32 t33 t34 t35 t36 t37 t38 t39 t40 t41 t42 t43 t44 t45 t46 t47
  have hR12 : AllReal t12 := allReal_hostGather _ _ hxs
  have hR13 : AllReal t13 := allReal_constant _ isReal_ofBits_zero
  have hN13 : ∀ i, 0 ≤ t13 i := fun _ => ofBits_f32_zero.ge
  have hR14 : AllReal t14 := allReal_broadcastInDim _ _ _ hR13
  have hN14 : ∀ i, 0 ≤ t14 i := nonneg_broadcastInDim _ _ _ hN13
  have hR16 : AllReal t16 := allReal_hostScatterAdd _ _ hR14 hR12
  have hP17 : AllPosReal t17 := allPosReal_constant _ isPosReal_ofBits_one
  have hP18 : AllPosReal t18 := allPosReal_broadcastInDim _ _ _ hP17
  have hR19 : AllReal t19 := allReal_constant _ isReal_ofBits_zero
  have hN19 : ∀ i, 0 ≤ t19 i := fun _ => ofBits_f32_zero.ge
  have hR20 : AllReal t20 := allReal_broadcastInDim _ _ _ hR19
  have hN20 : ∀ i, 0 ≤ t20 i := nonneg_broadcastInDim _ _ _ hN19
  have hR22 : AllReal t22 := allReal_hostScatterAdd _ _ hR20 hP18.allReal
  have hN22 : ∀ i, 0 ≤ t22 i := hostScatterAdd_nonneg _ _ hN20 (fun i => (hP18 i).pos.le)
  have hP23 : AllPosReal t23 := allPosReal_constant _ isPosReal_ofBits_one
  have hP24 : AllPosReal t24 := allPosReal_broadcastInDim _ _ _ hP23
  have hP25 : AllPosReal t25 := allPosReal_maximumf_right hR22 hP24
  have hP26 : AllPosReal t26 := allPosReal_broadcastInDim _ _ _ hP25
  have hP27 : AllPosReal t27 := allPosReal_broadcastInDim _ _ _ hP26
  have hR28 : AllReal t28 := allReal_hostDivf_of_pos hR16 hP27
  have hR29 : AllReal t29 := allReal_hostDotGeneral _ _ hR28 hwl
  have hR30 : AllReal t30 := allReal_broadcastInDim _ _ _ hb
  have hR31 : AllReal t31 := allReal_broadcastInDim _ _ _ hR30
  have hR32 : AllReal t32 := allReal_addf hR29 hR31
  have hR33 : AllReal t33 := allReal_hostDotGeneral _ _ hxd hwr
  have hR34 : AllReal t34 := allReal_addf hR32 hR33
  have hR35 : AllReal t35 := allReal_mulf hR34 hR34
  have hN35 : ∀ i, 0 ≤ t35 i := mulf_self_nonneg hR34
  have hR36 : AllReal t36 := allReal_constant _ isReal_ofBits_zero
  have hN36 : ∀ i, 0 ≤ t36 i := fun _ => ofBits_f32_zero.ge
  have hR37 : AllReal t37 := allReal_hostReduceAdd _ _ hR35 hR36
  have hN37 : ∀ i, 0 ≤ t37 i := hostReduceAdd_nonneg _ _ hN35 hN36
  have hR38 : AllReal t38 := allReal_broadcastInDim _ _ _ hR37
  have hN38 : ∀ i, 0 ≤ t38 i := nonneg_broadcastInDim _ _ _ hN37
  have hR39 : AllReal t39 := allReal_hostSqrt hR38 hN38
  have hP40 : AllPosReal t40 := allPosReal_constant _ isPosReal_ofBits_1em12
  have hP41 : AllPosReal t41 := allPosReal_broadcastInDim _ _ _ hP40
  have hP42 : AllPosReal t42 := allPosReal_maximumf_right hR39 hP41
  have hP43 : AllPosReal t43 := allPosReal_broadcastInDim _ _ _ hP42
  have hR44 : AllReal t44 := allReal_hostDivf_of_pos hR34 hP43
  have hR45 : AllReal t45 := allReal_constant _ isReal_ofBits_zero
  have hN45 : ∀ i, 0 ≤ t45 i := fun _ => ofBits_f32_zero.ge
  have hR46 : AllReal t46 := allReal_broadcastInDim _ _ _ hR45
  have hN46 : ∀ i, 0 ≤ t46 i := nonneg_broadcastInDim _ _ _ hN45
  have hR47 : AllReal t47 := allReal_maximumf hR44 hR46
  exact hR47

set_option maxRecDepth 8192 in
set_option maxHeartbeats 2000000 in
theorem allReal_sageRelu64 {xs : (⟨S100000x64, .f32⟩ : BufTy).Contents (Elt Ideal)} {xd : (⟨S100000x64, .f32⟩ : BufTy).Contents (Elt Ideal)} {ei : (⟨S2x2000000, .i32⟩ : BufTy).Contents (Elt Ideal)} {wl : (⟨S64x64, .f32⟩ : BufTy).Contents (Elt Ideal)} {b : (⟨S64, .f32⟩ : BufTy).Contents (Elt Ideal)} {wr : (⟨S64x64, .f32⟩ : BufTy).Contents (Elt Ideal)}
    (hxs : AllReal xs) (hxd : AllReal xd) (hwl : AllReal wl) (hb : AllReal b) (hwr : AllReal wr) :
    AllReal (sageRelu64 (F := Ideal) xs xd ei wl b wr) := by
  unfold sageRelu64
  extract_lets -merge t0 t1 t2 t3 t4 t5 t6 t7 t8 t9 t10 t11 t12 t13 t14 t15 t16 t17 t18 t19 t20 t21 t22 t23 t24 t25 t26 t27 t28 t29 t30 t31 t32 t33 t34 t35 t36 t37 t38 t39 t40 t41 t42 t43 t44 t45 t46 t47
  have hR12 : AllReal t12 := allReal_hostGather _ _ hxs
  have hR13 : AllReal t13 := allReal_constant _ isReal_ofBits_zero
  have hN13 : ∀ i, 0 ≤ t13 i := fun _ => ofBits_f32_zero.ge
  have hR14 : AllReal t14 := allReal_broadcastInDim _ _ _ hR13
  have hN14 : ∀ i, 0 ≤ t14 i := nonneg_broadcastInDim _ _ _ hN13
  have hR16 : AllReal t16 := allReal_hostScatterAdd _ _ hR14 hR12
  have hP17 : AllPosReal t17 := allPosReal_constant _ isPosReal_ofBits_one
  have hP18 : AllPosReal t18 := allPosReal_broadcastInDim _ _ _ hP17
  have hR19 : AllReal t19 := allReal_constant _ isReal_ofBits_zero
  have hN19 : ∀ i, 0 ≤ t19 i := fun _ => ofBits_f32_zero.ge
  have hR20 : AllReal t20 := allReal_broadcastInDim _ _ _ hR19
  have hN20 : ∀ i, 0 ≤ t20 i := nonneg_broadcastInDim _ _ _ hN19
  have hR22 : AllReal t22 := allReal_hostScatterAdd _ _ hR20 hP18.allReal
  have hN22 : ∀ i, 0 ≤ t22 i := hostScatterAdd_nonneg _ _ hN20 (fun i => (hP18 i).pos.le)
  have hP23 : AllPosReal t23 := allPosReal_constant _ isPosReal_ofBits_one
  have hP24 : AllPosReal t24 := allPosReal_broadcastInDim _ _ _ hP23
  have hP25 : AllPosReal t25 := allPosReal_maximumf_right hR22 hP24
  have hP26 : AllPosReal t26 := allPosReal_broadcastInDim _ _ _ hP25
  have hP27 : AllPosReal t27 := allPosReal_broadcastInDim _ _ _ hP26
  have hR28 : AllReal t28 := allReal_hostDivf_of_pos hR16 hP27
  have hR29 : AllReal t29 := allReal_hostDotGeneral _ _ hR28 hwl
  have hR30 : AllReal t30 := allReal_broadcastInDim _ _ _ hb
  have hR31 : AllReal t31 := allReal_broadcastInDim _ _ _ hR30
  have hR32 : AllReal t32 := allReal_addf hR29 hR31
  have hR33 : AllReal t33 := allReal_hostDotGeneral _ _ hxd hwr
  have hR34 : AllReal t34 := allReal_addf hR32 hR33
  have hR35 : AllReal t35 := allReal_mulf hR34 hR34
  have hN35 : ∀ i, 0 ≤ t35 i := mulf_self_nonneg hR34
  have hR36 : AllReal t36 := allReal_constant _ isReal_ofBits_zero
  have hN36 : ∀ i, 0 ≤ t36 i := fun _ => ofBits_f32_zero.ge
  have hR37 : AllReal t37 := allReal_hostReduceAdd _ _ hR35 hR36
  have hN37 : ∀ i, 0 ≤ t37 i := hostReduceAdd_nonneg _ _ hN35 hN36
  have hR38 : AllReal t38 := allReal_broadcastInDim _ _ _ hR37
  have hN38 : ∀ i, 0 ≤ t38 i := nonneg_broadcastInDim _ _ _ hN37
  have hR39 : AllReal t39 := allReal_hostSqrt hR38 hN38
  have hP40 : AllPosReal t40 := allPosReal_constant _ isPosReal_ofBits_1em12
  have hP41 : AllPosReal t41 := allPosReal_broadcastInDim _ _ _ hP40
  have hP42 : AllPosReal t42 := allPosReal_maximumf_right hR39 hP41
  have hP43 : AllPosReal t43 := allPosReal_broadcastInDim _ _ _ hP42
  have hR44 : AllReal t44 := allReal_hostDivf_of_pos hR34 hP43
  have hR45 : AllReal t45 := allReal_constant _ isReal_ofBits_zero
  have hN45 : ∀ i, 0 ≤ t45 i := fun _ => ofBits_f32_zero.ge
  have hR46 : AllReal t46 := allReal_broadcastInDim _ _ _ hR45
  have hN46 : ∀ i, 0 ≤ t46 i := nonneg_broadcastInDim _ _ _ hN45
  have hR47 : AllReal t47 := allReal_maximumf hR44 hR46
  exact hR47

set_option maxRecDepth 8192 in
set_option maxHeartbeats 2000000 in
theorem allReal_gcnRelu {x : (⟨S100000x64, .f32⟩ : BufTy).Contents (Elt Ideal)} {ei : (⟨S2x2000000, .i32⟩ : BufTy).Contents (Elt Ideal)} {w : (⟨S64x64, .f32⟩ : BufTy).Contents (Elt Ideal)} {b : (⟨S64, .f32⟩ : BufTy).Contents (Elt Ideal)}
    (hx : AllReal x) (hw : AllReal w) (hb : AllReal b) :
    AllReal (gcnRelu (F := Ideal) x ei w b) := by
  unfold gcnRelu
  extract_lets -merge t0 t1 t2 t3 t4 t5 t6 t7 t8 t9 t10 t11 t12 t13 t14 t15 t16 t17 t18 t19 t20 t21 t22 t23 t24 t25 t26 t27 t28 t29 t30 t31 t32 t33 t34 t35 t36 t37 t38 t39 t40 t41 t42 t43 t44 t45 t46 t47 t48 t49 t50 t51 t52 t53 t54 t55 t56 t57 t58 t59
  have hR4 : AllReal t4 := allReal_hostDotGeneral _ _ hx hw
  have hP5 : AllPosReal t5 := allPosReal_constant _ isPosReal_ofBits_one
  have hP6 : AllPosReal t6 := allPosReal_broadcastInDim _ _ _ hP5
  have hR7 : AllReal t7 := allReal_constant _ isReal_ofBits_zero
  have hN7 : ∀ i, 0 ≤ t7 i := fun _ => ofBits_f32_zero.ge
  have hR8 : AllReal t8 := allReal_broadcastInDim _ _ _ hR7
  have hN8 : ∀ i, 0 ≤ t8 i := nonneg_broadcastInDim _ _ _ hN7
  have hR10 : AllReal t10 := allReal_hostScatterAdd _ _ hR8 hP6.allReal
  have hN10 : ∀ i, 0 ≤ t10 i := hostScatterAdd_nonneg _ _ hN8 (fun i => (hP6 i).pos.le)
  have hP11 : AllPosReal t11 := allPosReal_constant _ isPosReal_ofBits_one
  have hP12 : AllPosReal t12 := allPosReal_broadcastInDim _ _ _ hP11
  have hP13 : AllPosReal t13 := allPosReal_addf_of_nonneg hR10 hN10 hP12
  have hP14 : AllPosReal t14 := allPosReal_hostRsqrt hP13
  have hP23 : AllPosReal t23 := allPosReal_hostGather _ _ hP14
  have hP32 : AllPosReal t32 := allPosReal_hostGather _ _ hP14
  have hR33 : AllReal t33 := allReal_mulf hP23.allReal hP32.allReal
  have hR34 : AllReal t34 := allReal_broadcastInDim _ _ _ hR33
  have hR43 : AllReal t43 := allReal_hostGather _ _ hR4
  have hR44 : AllReal t44 := allReal_broadcastInDim _ _ _ hR34
  have hR45 : AllReal t45 := allReal_mulf hR43 hR44
  have hR46 : AllReal t46 := allReal_constant _ isReal_ofBits_zero
  have hN46 : ∀ i, 0 ≤ t46 i := fun _ => ofBits_f32_zero.ge
  have hR47 : AllReal t47 := allReal_broadcastInDim _ _ _ hR46
  have hN47 : ∀ i, 0 ≤ t47 i := nonneg_broadcastInDim _ _ _ hN46
  have hR49 : AllReal t49 := allReal_hostScatterAdd _ _ hR47 hR45
  have hP50 : AllPosReal t50 := allPosReal_broadcastInDim _ _ _ hP13
  have hP51 : AllPosReal t51 := allPosReal_broadcastInDim _ _ _ hP50
  have hR52 : AllReal t52 := allReal_hostDivf_of_pos hR4 hP51
  have hR53 : AllReal t53 := allReal_addf hR49 hR52
  have hR54 : AllReal t54 := allReal_broadcastInDim _ _ _ hb
  have hR55 : AllReal t55 := allReal_broadcastInDim _ _ _ hR54
  have hR56 : AllReal t56 := allReal_addf hR53 hR55
  have hR57 : AllReal t57 := allReal_constant _ isReal_ofBits_zero
  have hN57 : ∀ i, 0 ≤ t57 i := fun _ => ofBits_f32_zero.ge
  have hR58 : AllReal t58 := allReal_broadcastInDim _ _ _ hR57
  have hN58 : ∀ i, 0 ≤ t58 i := nonneg_broadcastInDim _ _ _ hN57
  have hR59 : AllReal t59 := allReal_maximumf hR56 hR58
  exact hR59

set_option maxRecDepth 8192 in
set_option maxHeartbeats 2000000 in
theorem allReal_bnRef {x : (⟨S100000x64, .f32⟩ : BufTy).Contents (Elt Ideal)} {g : (⟨S64, .f32⟩ : BufTy).Contents (Elt Ideal)} {b : (⟨S64, .f32⟩ : BufTy).Contents (Elt Ideal)}
    (hx : AllReal x) (hg : AllReal g) (hb : AllReal b) :
    AllReal (bnRef (F := Ideal) x g b) := by
  unfold bnRef
  extract_lets -merge t0 t1 t2 t3 t4 t5 t6 t7 t8 t9 t10 t11 t12 t13 t14 t15 t16 t17 t18 t19 t20 t21 t22 t23 t24 t25 t26 t27 t28 t29
  have hR0 : AllReal t0 := allReal_constant _ isReal_ofBits_zero
  have hN0 : ∀ i, 0 ≤ t0 i := fun _ => ofBits_f32_zero.ge
  have hR1 : AllReal t1 := allReal_hostReduceAdd _ _ hx hR0
  have hP2 : AllPosReal t2 := allPosReal_constant _ isPosReal_ofBits_1e5
  have hP3 : AllPosReal t3 := allPosReal_broadcastInDim _ _ _ hP2
  have hR4 : AllReal t4 := allReal_hostDivf_of_pos hR1 hP3
  have hR5 : AllReal t5 := allReal_broadcastInDim _ _ _ hR4
  have hR6 : AllReal t6 := allReal_broadcastInDim _ _ _ hR5
  have hR7 : AllReal t7 := allReal_subf hx hR6
  have hR8 : AllReal t8 := allReal_mulf hR7 hR7
  have hN8 : ∀ i, 0 ≤ t8 i := mulf_self_nonneg hR7
  have hR9 : AllReal t9 := allReal_constant _ isReal_ofBits_zero
  have hN9 : ∀ i, 0 ≤ t9 i := fun _ => ofBits_f32_zero.ge
  have hR10 : AllReal t10 := allReal_hostReduceAdd _ _ hR8 hR9
  have hN10 : ∀ i, 0 ≤ t10 i := hostReduceAdd_nonneg _ _ hN8 hN9
  have hP11 : AllPosReal t11 := allPosReal_constant _ isPosReal_ofBits_1e5
  have hP12 : AllPosReal t12 := allPosReal_broadcastInDim _ _ _ hP11
  have hR13 : AllReal t13 := allReal_hostDivf_of_pos hR10 hP12
  have hN13 : ∀ i, 0 ≤ t13 i := fun i => hostDivf_nonneg hR10 hN10 hP12 i
  have hR14 : AllReal t14 := allReal_broadcastInDim _ _ _ hR4
  have hR15 : AllReal t15 := allReal_broadcastInDim _ _ _ hR14
  have hR16 : AllReal t16 := allReal_subf hx hR15
  have hP17 : AllPosReal t17 := allPosReal_constant _ isPosReal_ofBits_1em5
  have hP18 : AllPosReal t18 := allPosReal_broadcastInDim _ _ _ hP17
  have hP19 : AllPosReal t19 := allPosReal_addf_of_nonneg hR13 hN13 hP18
  have hP20 : AllPosReal t20 := allPosReal_hostRsqrt hP19
  have hP21 : AllPosReal t21 := allPosReal_broadcastInDim _ _ _ hP20
  have hP22 : AllPosReal t22 := allPosReal_broadcastInDim _ _ _ hP21
  have hR23 : AllReal t23 := allReal_mulf hR16 hP22.allReal
  have hR24 : AllReal t24 := allReal_broadcastInDim _ _ _ hg
  have hR25 : AllReal t25 := allReal_broadcastInDim _ _ _ hR24
  have hR26 : AllReal t26 := allReal_mulf hR23 hR25
  have hR27 : AllReal t27 := allReal_broadcastInDim _ _ _ hb
  have hR28 : AllReal t28 := allReal_broadcastInDim _ _ _ hR27
  have hR29 : AllReal t29 := allReal_addf hR26 hR28
  exact hR29

/-- A normalised-adjacency layer followed by its batch normalisation keeps real inputs real. -/
theorem allReal_bnRef_gcnRelu {x : (⟨S100000x64, .f32⟩ : BufTy).Contents (Elt Ideal)} {ei : (⟨S2x2000000, .i32⟩ : BufTy).Contents (Elt Ideal)}
    {w : (⟨S64x64, .f32⟩ : BufTy).Contents (Elt Ideal)} {b g bb : (⟨S64, .f32⟩ : BufTy).Contents (Elt Ideal)}
    (hx : AllReal x) (hw : AllReal w) (hb : AllReal b) (hg : AllReal g) (hbb : AllReal bb) :
    AllReal (bnRef (F := Ideal) (gcnRelu (F := Ideal) x ei w b) g bb) :=
  allReal_bnRef (allReal_gcnRelu hx hw hb) hg hbb

end Cert.RefSide

end
-- ==== Proof.AlgNet.lean ====
/-
  THE TWO NINE-LAYER COMPOSITIONS AGREE.

  The kernel program's three results are nine layer functions composed over its launch arrays; so are the reference's.
  Layer by layer the two families agree (the normalised-adjacency layer with its batch normalisation on real arrays), the
  reference's layers keep real arrays real, and the precondition makes the launch arrays real: the compositions agree.
-/
import proofs.«173191_j73083163508880_2_alg».proof.Defs
import proofs.«173191_j73083163508880_2_alg».proof.Proof.NetEq
import proofs.«173191_j73083163508880_2_alg».proof.Proof.PreFinite
import proofs.«173191_j73083163508880_2_alg».proof.Proof.KI.Net
import proofs.«173191_j73083163508880_2_alg».proof.Proof.KI.SageEq
import proofs.«173191_j73083163508880_2_alg».proof.Proof.KI.GcnInst
import proofs.«173191_j73083163508880_2_alg».proof.Proof.RefBn
import proofs.«173191_j73083163508880_2_alg».proof.Proof.RefFinite

set_option maxRecDepth 16384

noncomputable section

namespace Cert.Alg

open Idealize.ShloMosaic Idealize.ShloMosaic.TcCoe Idealize.SL.Sem Idealize.ShloMosaic.StableHlo
open Cert.LibFinite Cert.NetEq

/-- The kernel program's three layer functions. -/
def K : Layers :=
  ⟨Cert.KernelIdeal.Val.kSage32, Cert.KernelIdeal.Val.kSage64, Cert.KernelIdeal.Val.kGcnBn⟩

/-- The reference's three layer functions: its two neighbour-mean layers, and its normalised-adjacency layer followed by
    its batch normalisation. -/
def R : Layers :=
  ⟨Cert.RefSide.sageRelu32 (F := Ideal), Cert.RefSide.sageRelu64 (F := Ideal),
   fun x ei W b g bb => Cert.RefSide.bnRef (F := Ideal) (Cert.RefSide.gcnRelu (F := Ideal) x ei W b) g bb⟩

/-! ## The layers agree, and the reference's layers keep real arrays real -/

/-- The neighbour-mean layer, destination 32 wide: the kernel program's is the reference's. -/
theorem h32 : ∀ xs xd ei Wl b Wr, K.S32 xs xd ei Wl b Wr = R.S32 xs xd ei Wl b Wr :=
  fun xs xd ei Wl b Wr => Cert.KernelIdeal.Val.sage32_eq xs xd ei Wl b Wr

/-- The same, destination 64 wide. -/
theorem h64 : ∀ xs xd ei Wl b Wr, K.S64 xs xd ei Wl b Wr = R.S64 xs xd ei Wl b Wr :=
  fun xs xd ei Wl b Wr => Cert.KernelIdeal.Val.sage64_eq xs xd ei Wl b Wr

/-- The normalised-adjacency layer before normalisation: the kernel program's clipped rows are the reference's. -/
theorem gcnRelu_eq (x : FVec Ideal N64 .f32) (ei : IVec E2 32) (W : FVec Ideal W64 .f32) (b : FVec Ideal V64 .f32)
    (hx : AllReal x) (hW : AllReal W) (hb : AllReal b) :
    Cert.KernelIdeal.Val.kGcnRelu x ei W b = Cert.RefSide.gcnRelu (F := Ideal) x ei W b :=
  Cert.KernelIdeal.Fr.gcn_relu_eq x ei W b

/-- These rows are real on real inputs. -/
theorem gcnRelu_real (x : FVec Ideal N64 .f32) (ei : IVec E2 32) (W : FVec Ideal W64 .f32) (b : FVec Ideal V64 .f32)
    (hx : AllReal x) (hW : AllReal W) (hb : AllReal b) : AllReal (Cert.KernelIdeal.Val.kGcnRelu x ei W b) :=
  Cert.KernelIdeal.Fr.gcn_relu_allReal ei hx hW hb

/-- The normalised-adjacency layer with its batch normalisation, on real inputs: the kernel program normalises with the
    column sums and sums of squares of the clipped rows, which on real rows is the reference's two-pass normalisation. -/
theorem hGB : ∀ x ei W b g bb, AllReal x → AllReal W → AllReal b → AllReal g → AllReal bb →
    K.GB x ei W b g bb = R.GB x ei W b g bb := by
  intro x ei W b g bb hx hW hb _ _
  have e := gcnRelu_eq x ei W b hx hW hb
  have hr := gcnRelu_real x ei W b hx hW hb
  show Cert.KernelIdeal.Val.kBN (Cert.KernelIdeal.Val.kGcnRelu x ei W b) (Cert.Spec.colSum (Cert.KernelIdeal.Val.kGcnRelu x ei W b))
      (Cert.Spec.colSumSq (Cert.KernelIdeal.Val.kGcnRelu x ei W b)) g bb
    = Cert.RefSide.bnRef (F := Ideal) (Cert.RefSide.gcnRelu (F := Ideal) x ei W b) g bb
  rw [Cert.KernelIdeal.Val.kbn_eq _ g bb hr, e, Cert.RefSide.bnRef_eq]

/-- The reference's neighbour-mean layer, destination 32 wide, keeps real arrays real. -/
theorem r32 : ∀ xs xd ei Wl b Wr, AllReal xs → AllReal xd → AllReal Wl → AllReal b → AllReal Wr →
    AllReal (R.S32 xs xd ei Wl b Wr) :=
  fun xs xd ei Wl b Wr hxs hxd hWl hb hWr => Cert.RefSide.allReal_sageRelu32 hxs hxd hWl hb hWr

/-- The same, destination 64 wide. -/
theorem r64 : ∀ xs xd ei Wl b Wr, AllReal xs → AllReal xd → AllReal Wl → AllReal b → AllReal Wr →
    AllReal (R.S64 xs xd ei Wl b Wr) :=
  fun xs xd ei Wl b Wr hxs hxd hWl hb hWr => Cert.RefSide.allReal_sageRelu64 hxs hxd hWl hb hWr

/-- The reference's normalised-adjacency layer with its batch normalisation keeps real arrays real. -/
theorem rGB : ∀ x ei W b g bb, AllReal x → AllReal W → AllReal b → AllReal g → AllReal bb →
    AllReal (R.GB x ei W b g bb) :=
  fun x ei W b g bb hx hW hb hg hbb => Cert.RefSide.allReal_bnRef_gcnRelu hx hW hb hg hbb

/-! ## The launch arrays -/

/-- The kernel program's 42 launch arrays on core `c`. -/
def kArgs (m : (ℓ : Loc Cert.KernelIdeal.nD Cert.KernelIdeal.τ Cert.KernelIdeal.sig) → Buf (Elt Ideal) ℓ)
    (c : Dev Cert.KernelIdeal.nD) : Args :=
  ⟨(m ((c.tc : Thread Cert.KernelIdeal.nD Cert.KernelIdeal.τ).loc Cert.KernelIdeal.main_arg0)),
   (m ((c.tc : Thread Cert.KernelIdeal.nD Cert.KernelIdeal.τ).loc Cert.KernelIdeal.main_arg1)),
   (m ((c.tc : Thread Cert.KernelIdeal.nD Cert.KernelIdeal.τ).loc Cert.KernelIdeal.main_arg2)),
   (m ((c.tc : Thread Cert.KernelIdeal.nD Cert.KernelIdeal.τ).loc Cert.KernelIdeal.main_arg3)),
   (m ((c.tc : Thread Cert.KernelIdeal.nD Cert.KernelIdeal.τ).loc Cert.KernelIdeal.main_arg4)),
   (m ((c.tc : Thread Cert.KernelIdeal.nD Cert.KernelIdeal.τ).loc Cert.KernelIdeal.main_arg5)),
   (m ((c.tc : Thread Cert.KernelIdeal.nD Cert.KernelIdeal.τ).loc Cert.KernelIdeal.main_arg6)),
   (m ((c.tc : Thread Cert.KernelIdeal.nD Cert.KernelIdeal.τ).loc Cert.KernelIdeal.main_arg7)),
   (m ((c.tc : Thread Cert.KernelIdeal.nD Cert.KernelIdeal.τ).loc Cert.KernelIdeal.main_arg8)),
   (m ((c.tc : Thread Cert.KernelIdeal.nD Cert.KernelIdeal.τ).loc Cert.KernelIdeal.main_arg9)),
   (m ((c.tc : Thread Cert.KernelIdeal.nD Cert.KernelIdeal.τ).loc Cert.KernelIdeal.main_arg10)),
   (m ((c.tc : Thread Cert.KernelIdeal.nD Cert.KernelIdeal.τ).loc Cert.KernelIdeal.main_arg11)),
   (m ((c.tc : Thread Cert.KernelIdeal.nD Cert.KernelIdeal.τ).loc Cert.KernelIdeal.main_arg12)),
   (m ((c.tc : Thread Cert.KernelIdeal.nD Cert.KernelIdeal.τ).loc Cert.KernelIdeal.main_arg13)),
   (m ((c.tc : Thread Cert.KernelIdeal.nD Cert.KernelIdeal.τ).loc Cert.KernelIdeal.main_arg14)),
   (m ((c.tc : Thread Cert.KernelIdeal.nD Cert.KernelIdeal.τ).loc Cert.KernelIdeal.main_arg15)),
   (m ((c.tc : Thread Cert.KernelIdeal.nD Cert.KernelIdeal.τ).loc Cert.KernelIdeal.main_arg16)),
   (m ((c.tc : Thread Cert.KernelIdeal.nD Cert.KernelIdeal.τ).loc Cert.KernelIdeal.main_arg17)),
   (m ((c.tc : Thread Cert.KernelIdeal.nD Cert.KernelIdeal.τ).loc Cert.KernelIdeal.main_arg18)),
   (m ((c.tc : Thread Cert.KernelIdeal.nD Cert.KernelIdeal.τ).loc Cert.KernelIdeal.main_arg19)),
   (m ((c.tc : Thread Cert.KernelIdeal.nD Cert.KernelIdeal.τ).loc Cert.KernelIdeal.main_arg20)),
   (m ((c.tc : Thread Cert.KernelIdeal.nD Cert.KernelIdeal.τ).loc Cert.KernelIdeal.main_arg21)),
   (m ((c.tc : Thread Cert.KernelIdeal.nD Cert.KernelIdeal.τ).loc Cert.KernelIdeal.main_arg22)),
   (m ((c.tc : Thread Cert.KernelIdeal.nD Cert.KernelIdeal.τ).loc Cert.KernelIdeal.main_arg23)),
   (m ((c.tc : Thread Cert.KernelIdeal.nD Cert.KernelIdeal.τ).loc Cert.KernelIdeal.main_arg24)),
   (m ((c.tc : Thread Cert.KernelIdeal.nD Cert.KernelIdeal.τ).loc Cert.KernelIdeal.main_arg25)),
   (m ((c.tc : Thread Cert.KernelIdeal.nD Cert.KernelIdeal.τ).loc Cert.KernelIdeal.main_arg26)),
   (m ((c.tc : Thread Cert.KernelIdeal.nD Cert.KernelIdeal.τ).loc Cert.KernelIdeal.main_arg27)),
   (m ((c.tc : Thread Cert.KernelIdeal.nD Cert.KernelIdeal.τ).loc Cert.KernelIdeal.main_arg28)),
   (m ((c.tc : Thread Cert.KernelIdeal.nD Cert.KernelIdeal.τ).loc Cert.KernelIdeal.main_arg29)),
   (m ((c.tc : Thread Cert.KernelIdeal.nD Cert.KernelIdeal.τ).loc Cert.KernelIdeal.main_arg30)),
   (m ((c.tc : Thread Cert.KernelIdeal.nD Cert.KernelIdeal.τ).loc Cert.KernelIdeal.main_arg31)),
   (m ((c.tc : Thread Cert.KernelIdeal.nD Cert.KernelIdeal.τ).loc Cert.KernelIdeal.main_arg32)),
   (m ((c.tc : Thread Cert.KernelIdeal.nD Cert.KernelIdeal.τ).loc Cert.KernelIdeal.main_arg33)),
   (m ((c.tc : Thread Cert.KernelIdeal.nD Cert.KernelIdeal.τ).loc Cert.KernelIdeal.main_arg34)),
   (m ((c.tc : Thread Cert.KernelIdeal.nD Cert.KernelIdeal.τ).loc Cert.KernelIdeal.main_arg35)),
   (m ((c.tc : Thread Cert.KernelIdeal.nD Cert.KernelIdeal.τ).loc Cert.KernelIdeal.main_arg36)),
   (m ((c.tc : Thread Cert.KernelIdeal.nD Cert.KernelIdeal.τ).loc Cert.KernelIdeal.main_arg37)),
   (m ((c.tc : Thread Cert.KernelIdeal.nD Cert.KernelIdeal.τ).loc Cert.KernelIdeal.main_arg38)),
   (m ((c.tc : Thread Cert.KernelIdeal.nD Cert.KernelIdeal.τ).loc Cert.KernelIdeal.main_arg39)),
   (m ((c.tc : Thread Cert.KernelIdeal.nD Cert.KernelIdeal.τ).loc Cert.KernelIdeal.main_arg40)),
   (m ((c.tc : Thread Cert.KernelIdeal.nD Cert.KernelIdeal.τ).loc Cert.KernelIdeal.main_arg41))⟩

/-- The reference's 42 argument arrays in the contents `V`. -/
def vArgs (V : Valuation Cert.ReferenceIdeal.τ Cert.ReferenceIdeal.sig (Elt Ideal)) : Args :=
  ⟨(V (Proc.devRef .tc Cert.ReferenceIdeal.main_arg0)),
   (V (Proc.devRef .tc Cert.ReferenceIdeal.main_arg1)),
   (V (Proc.devRef .tc Cert.ReferenceIdeal.main_arg2)),
   (V (Proc.devRef .tc Cert.ReferenceIdeal.main_arg3)),
   (V (Proc.devRef .tc Cert.ReferenceIdeal.main_arg4)),
   (V (Proc.devRef .tc Cert.ReferenceIdeal.main_arg5)),
   (V (Proc.devRef .tc Cert.ReferenceIdeal.main_arg6)),
   (V (Proc.devRef .tc Cert.ReferenceIdeal.main_arg7)),
   (V (Proc.devRef .tc Cert.ReferenceIdeal.main_arg8)),
   (V (Proc.devRef .tc Cert.ReferenceIdeal.main_arg9)),
   (V (Proc.devRef .tc Cert.ReferenceIdeal.main_arg10)),
   (V (Proc.devRef .tc Cert.ReferenceIdeal.main_arg11)),
   (V (Proc.devRef .tc Cert.ReferenceIdeal.main_arg12)),
   (V (Proc.devRef .tc Cert.ReferenceIdeal.main_arg13)),
   (V (Proc.devRef .tc Cert.ReferenceIdeal.main_arg14)),
   (V (Proc.devRef .tc Cert.ReferenceIdeal.main_arg15)),
   (V (Proc.devRef .tc Cert.ReferenceIdeal.main_arg16)),
   (V (Proc.devRef .tc Cert.ReferenceIdeal.main_arg17)),
   (V (Proc.devRef .tc Cert.ReferenceIdeal.main_arg18)),
   (V (Proc.devRef .tc Cert.ReferenceIdeal.main_arg19)),
   (V (Proc.devRef .tc Cert.ReferenceIdeal.main_arg20)),
   (V (Proc.devRef .tc Cert.ReferenceIdeal.main_arg21)),
   (V (Proc.devRef .tc Cert.ReferenceIdeal.main_arg22)),
   (V (Proc.devRef .tc Cert.ReferenceIdeal.main_arg23)),
   (V (Proc.devRef .tc Cert.ReferenceIdeal.main_arg24)),
   (V (Proc.devRef .tc Cert.ReferenceIdeal.main_arg25)),
   (V (Proc.devRef .tc Cert.ReferenceIdeal.main_arg26)),
   (V (Proc.devRef .tc Cert.ReferenceIdeal.main_arg27)),
   (V (Proc.devRef .tc Cert.ReferenceIdeal.main_arg28)),
   (V (Proc.devRef .tc Cert.ReferenceIdeal.main_arg29)),
   (V (Proc.devRef .tc Cert.ReferenceIdeal.main_arg30)),
   (V (Proc.devRef .tc Cert.ReferenceIdeal.main_arg31)),
   (V (Proc.devRef .tc Cert.ReferenceIdeal.main_arg32)),
   (V (Proc.devRef .tc Cert.ReferenceIdeal.main_arg33)),
   (V (Proc.devRef .tc Cert.ReferenceIdeal.main_arg34)),
   (V (Proc.devRef .tc Cert.ReferenceIdeal.main_arg35)),
   (V (Proc.devRef .tc Cert.ReferenceIdeal.main_arg36)),
   (V (Proc.devRef .tc Cert.ReferenceIdeal.main_arg37)),
   (V (Proc.devRef .tc Cert.ReferenceIdeal.main_arg38)),
   (V (Proc.devRef .tc Cert.ReferenceIdeal.main_arg39)),
   (V (Proc.devRef .tc Cert.ReferenceIdeal.main_arg40)),
   (V (Proc.devRef .tc Cert.ReferenceIdeal.main_arg41))⟩

/-- The precondition: the kernel program's floating-point launch arrays are real. -/
theorem kArgs_real (m : (ℓ : Loc Cert.KernelIdeal.nD Cert.KernelIdeal.τ Cert.KernelIdeal.sig) → Buf (Elt Ideal) ℓ)
    (hpre : Cert.Pre_KernelIdeal m) (c : Dev Cert.KernelIdeal.nD) : (kArgs m c).Real :=
  Cert.PreFinite.fn_real _ _ _ _ _ _ _ _ _ _ _ _ _ _ _ _ _ _ _ _ _ _ _ _ _ _ _ _ _ _ _ _ _ _ _ _ _ _ _ _ _ _ (hpre c)

/-! ## Each program's results as the nine layers of its launch arrays -/

section Kernel
variable (m : (ℓ : Loc Cert.KernelIdeal.nD Cert.KernelIdeal.τ Cert.KernelIdeal.sig) → Buf (Elt Ideal) ℓ)
  (c : Dev Cert.KernelIdeal.nD)

/-- layer `g1` of the kernel program -/
theorem kG1_eq : Cert.KernelIdeal.Val.kG1 m c = Cert.NetEq.g1 K (kArgs m c) := by
  rw [Cert.NetEq.g1, Cert.KernelIdeal.Val.kG1]
  simp only [K, kArgs]
/-- layer `g2` of the kernel program -/
theorem kG2_eq : Cert.KernelIdeal.Val.kG2 m c = Cert.NetEq.g2 K (kArgs m c) := by
  rw [Cert.NetEq.g2, ← kG1_eq m c, Cert.KernelIdeal.Val.kG2]
  simp only [K, kArgs]
/-- layer `p1` of the kernel program -/
theorem kP1_eq : Cert.KernelIdeal.Val.kP1 m c = Cert.NetEq.p1 K (kArgs m c) := by
  rw [Cert.NetEq.p1, Cert.KernelIdeal.Val.kP1]
  simp only [K, kArgs]
/-- layer `g` of the kernel program -/
theorem kG_eq : Cert.KernelIdeal.Val.kG m c = Cert.NetEq.g K (kArgs m c) := by
  rw [Cert.NetEq.g, ← kG2_eq m c, Cert.KernelIdeal.Val.kG]
  simp only [K, kArgs]
/-- layer `p` of the kernel program -/
theorem kP_eq : Cert.KernelIdeal.Val.kP m c = Cert.NetEq.p K (kArgs m c) := by
  rw [Cert.NetEq.p, ← kP1_eq m c, Cert.KernelIdeal.Val.kP]
  simp only [K, kArgs]
/-- layer `s1` of the kernel program -/
theorem kS1_eq : Cert.KernelIdeal.Val.kS1 m c = Cert.NetEq.s1 K (kArgs m c) := by
  rw [Cert.NetEq.s1, ← kG_eq m c, Cert.KernelIdeal.Val.kS1]
  simp only [K, kArgs]
/-- layer `s2` of the kernel program -/
theorem kS2_eq : Cert.KernelIdeal.Val.kS2 m c = Cert.NetEq.s2 K (kArgs m c) := by
  rw [Cert.NetEq.s2, ← kG_eq m c, ← kS1_eq m c, Cert.KernelIdeal.Val.kS2]
  simp only [K, kArgs]
/-- layer `s3` of the kernel program -/
theorem kS3_eq : Cert.KernelIdeal.Val.kS3 m c = Cert.NetEq.s3 K (kArgs m c) := by
  rw [Cert.NetEq.s3, ← kP_eq m c, ← kS2_eq m c, Cert.KernelIdeal.Val.kS3]
  simp only [K, kArgs]
/-- layer `s` of the kernel program -/
theorem kS_eq : Cert.KernelIdeal.Val.kS m c = Cert.NetEq.s K (kArgs m c) := by
  rw [Cert.NetEq.s, ← kS3_eq m c, Cert.KernelIdeal.Val.kS]
  simp only [K, kArgs]
end Kernel

section Reference
variable (V : Valuation Cert.ReferenceIdeal.τ Cert.ReferenceIdeal.sig (Elt Ideal))

/-- layer `g1` of the reference -/
theorem r_g1_eq : Cert.RefSide.netG1 (F := Ideal) V = Cert.NetEq.g1 R (vArgs V) := by
  rw [Cert.NetEq.g1, Cert.RefSide.netG1]
  simp only [R, vArgs]
/-- layer `g2` of the reference -/
theorem r_g2_eq : Cert.RefSide.netG2 (F := Ideal) V = Cert.NetEq.g2 R (vArgs V) := by
  rw [Cert.NetEq.g2, ← r_g1_eq V, Cert.RefSide.netG2]
  simp only [R, vArgs]
/-- layer `p1` of the reference -/
theorem r_p1_eq : Cert.RefSide.netP1 (F := Ideal) V = Cert.NetEq.p1 R (vArgs V) := by
  rw [Cert.NetEq.p1, Cert.RefSide.netP1]
  simp only [R, vArgs]
/-- layer `g` of the reference -/
theorem r_g_eq : Cert.RefSide.netG (F := Ideal) V = Cert.NetEq.g R (vArgs V) := by
  rw [Cert.NetEq.g, ← r_g2_eq V, Cert.RefSide.netG, Cert.RefSide.netG3]
  simp only [R, vArgs]
/-- layer `p` of the reference -/
theorem r_p_eq : Cert.RefSide.netP (F := Ideal) V = Cert.NetEq.p R (vArgs V) := by
  rw [Cert.NetEq.p, ← r_p1_eq V, Cert.RefSide.netP, Cert.RefSide.netP2]
  simp only [R, vArgs]
/-- layer `s1` of the reference -/
theorem r_s1_eq : Cert.RefSide.netS1 (F := Ideal) V = Cert.NetEq.s1 R (vArgs V) := by
  rw [Cert.NetEq.s1, ← r_g_eq V, Cert.RefSide.netS1]
  simp only [R, vArgs]
/-- layer `s2` of the reference -/
theorem r_s2_eq : Cert.RefSide.netS2 (F := Ideal) V = Cert.NetEq.s2 R (vArgs V) := by
  rw [Cert.NetEq.s2, ← r_g_eq V, ← r_s1_eq V, Cert.RefSide.netS2]
  simp only [R, vArgs]
/-- layer `s3` of the reference -/
theorem r_s3_eq : Cert.RefSide.netS3 (F := Ideal) V = Cert.NetEq.s3 R (vArgs V) := by
  rw [Cert.NetEq.s3, ← r_p_eq V, ← r_s2_eq V, Cert.RefSide.netS3]
  simp only [R, vArgs]
/-- layer `s` of the reference -/
theorem r_s_eq : Cert.RefSide.netS (F := Ideal) V = Cert.NetEq.s R (vArgs V) := by
  rw [Cert.NetEq.s, ← r_s3_eq V, Cert.RefSide.netS, Cert.RefSide.netS4]
  simp only [R, vArgs]
end Reference

/-! ## The two nine-layer compositions agree -/

/-- From memories agreeing on the 42 arguments, the kernel program's arguments satisfying the precondition: the
    reference's three results, as nine layers of its launch arrays, are what the kernel program leaves in its three
    result buffers. -/
theorem hnet : ∀ (m : (ℓ : Loc Cert.KernelIdeal.nD Cert.KernelIdeal.τ Cert.KernelIdeal.sig) → Buf (Elt Ideal) ℓ) (g : Dev Cert.KernelIdeal.nD → PrngReg)
      (m' : (ℓ : Loc Cert.ReferenceIdeal.nD Cert.ReferenceIdeal.τ Cert.ReferenceIdeal.sig) → Buf (Elt Ideal) ℓ), Cert.Pre_KernelIdeal m →
      (∀ c : Dev Cert.KernelIdeal.nD,
        m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
        ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
        ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
        ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
        ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
        ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
        ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
        ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
        ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
        ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
        ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
        ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
        ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
        ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
        ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
        ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
        ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
        ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
        ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
        ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
        ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
        ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
        ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
        ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
        ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
        ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
        ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
        ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
        ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
        ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
        ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
        ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
        ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
        ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
        ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
        ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)
        ∧ m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36)
        ∧ m' ((c.tc : Thread Cert.ReferenceIdeal.nD Cert.ReferenceIdeal.τ).loc Cert.ReferenceIdeal.main_arg37) = m ((c.tc : Thread Cert.KernelIdeal.nD Cert.KernelIdeal.τ).loc Cert.KernelIdeal.main_arg37)
        ∧ m' ((c.tc : Thread Cert.ReferenceIdeal.nD Cert.ReferenceIdeal.τ).loc Cert.ReferenceIdeal.main_arg38) = m ((c.tc : Thread Cert.KernelIdeal.nD Cert.KernelIdeal.τ).loc Cert.KernelIdeal.main_arg38)
        ∧ m' ((c.tc : Thread Cert.ReferenceIdeal.nD Cert.ReferenceIdeal.τ).loc Cert.ReferenceIdeal.main_arg39) = m ((c.tc : Thread Cert.KernelIdeal.nD Cert.KernelIdeal.τ).loc Cert.KernelIdeal.main_arg39)
        ∧ m' ((c.tc : Thread Cert.ReferenceIdeal.nD Cert.ReferenceIdeal.τ).loc Cert.ReferenceIdeal.main_arg40) = m ((c.tc : Thread Cert.KernelIdeal.nD Cert.KernelIdeal.τ).loc Cert.KernelIdeal.main_arg40)
        ∧ m' ((c.tc : Thread Cert.ReferenceIdeal.nD Cert.ReferenceIdeal.τ).loc Cert.ReferenceIdeal.main_arg41) = m ((c.tc : Thread Cert.KernelIdeal.nD Cert.KernelIdeal.τ).loc Cert.KernelIdeal.main_arg41)) →
      ∀ c : Dev Cert.KernelIdeal.nD,
        Cert.RefSide.netS (F := Ideal) (launchContents m' c) = Cert.KernelIdeal.Fr.W29 m g c (Proc.devRef .tc Cert.KernelIdeal.main_v266)
        ∧ Cert.RefSide.netG (F := Ideal) (launchContents m' c) = Cert.KernelIdeal.Fr.W29 m g c (Proc.devRef .tc Cert.KernelIdeal.main_v110)
        ∧ Cert.RefSide.netP (F := Ideal) (launchContents m' c) = Cert.KernelIdeal.Fr.W29 m g c (Proc.devRef .tc Cert.KernelIdeal.main_v155) := by
  intro m g m' hpre hagree c
  have hargs : vArgs (launchContents m' c) = kArgs m c := by
    obtain ⟨e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41⟩ := hagree c
    show Args.mk (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24)) (m' ((c.tc : Thread Cert.ReferenceIdeal.nD Cert.ReferenceIdeal.τ).loc Cert.ReferenceIdeal.main_arg25)) (m' ((c.tc : Thread Cert.ReferenceIdeal.nD Cert.ReferenceIdeal.τ).loc Cert.ReferenceIdeal.main_arg26)) (m' ((c.tc : Thread Cert.ReferenceIdeal.nD Cert.ReferenceIdeal.τ).loc Cert.ReferenceIdeal.main_arg27)) (m' ((c.tc : Thread Cert.ReferenceIdeal.nD Cert.ReferenceIdeal.τ).loc Cert.ReferenceIdeal.main_arg28)) (m' ((c.tc : Thread Cert.ReferenceIdeal.nD Cert.ReferenceIdeal.τ).loc Cert.ReferenceIdeal.main_arg29)) (m' ((c.tc : Thread Cert.ReferenceIdeal.nD Cert.ReferenceIdeal.τ).loc Cert.ReferenceIdeal.main_arg30)) (m' ((c.tc : Thread Cert.ReferenceIdeal.nD Cert.ReferenceIdeal.τ).loc Cert.ReferenceIdeal.main_arg31)) (m' ((c.tc : Thread Cert.ReferenceIdeal.nD Cert.ReferenceIdeal.τ).loc Cert.ReferenceIdeal.main_arg32)) (m' ((c.tc : Thread Cert.ReferenceIdeal.nD Cert.ReferenceIdeal.τ).loc Cert.ReferenceIdeal.main_arg33)) (m' ((c.tc : Thread Cert.ReferenceIdeal.nD Cert.ReferenceIdeal.τ).loc Cert.ReferenceIdeal.main_arg34)) (m' ((c.tc : Thread Cert.ReferenceIdeal.nD Cert.ReferenceIdeal.τ).loc Cert.ReferenceIdeal.main_arg35)) (m' ((c.tc : Thread Cert.ReferenceIdeal.nD Cert.ReferenceIdeal.τ).loc Cert.ReferenceIdeal.main_arg36)) (m' ((c.tc : Thread Cert.ReferenceIdeal.nD Cert.ReferenceIdeal.τ).loc Cert.ReferenceIdeal.main_arg37)) (m' ((c.tc : Thread Cert.ReferenceIdeal.nD Cert.ReferenceIdeal.τ).loc Cert.ReferenceIdeal.main_arg38)) (m' ((c.tc : Thread Cert.ReferenceIdeal.nD Cert.ReferenceIdeal.τ).loc Cert.ReferenceIdeal.main_arg39)) (m' ((c.tc : Thread Cert.ReferenceIdeal.nD Cert.ReferenceIdeal.τ).loc Cert.ReferenceIdeal.main_arg40)) (m' ((c.tc : Thread Cert.ReferenceIdeal.nD Cert.ReferenceIdeal.τ).loc Cert.ReferenceIdeal.main_arg41)) = Args.mk (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35)) (m ((c.tc : Thread Cert.KernelIdeal.nD Cert.KernelIdeal.τ).loc Cert.KernelIdeal.main_arg36)) (m ((c.tc : Thread Cert.KernelIdeal.nD Cert.KernelIdeal.τ).loc Cert.KernelIdeal.main_arg37)) (m ((c.tc : Thread Cert.KernelIdeal.nD Cert.KernelIdeal.τ).loc Cert.KernelIdeal.main_arg38)) (m ((c.tc : Thread Cert.KernelIdeal.nD Cert.KernelIdeal.τ).loc Cert.KernelIdeal.main_arg39)) (m ((c.tc : Thread Cert.KernelIdeal.nD Cert.KernelIdeal.τ).loc Cert.KernelIdeal.main_arg40)) (m ((c.tc : Thread Cert.KernelIdeal.nD Cert.KernelIdeal.τ).loc Cert.KernelIdeal.main_arg41))
    rw [e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41]
  obtain ⟨es, eg, ep⟩ := net_eq' K R (kArgs m c) h32 h64 hGB r32 r64 rGB (kArgs_real m hpre c)
  refine ⟨?_, ?_, ?_⟩
  · rw [r_s_eq, hargs, ← es, ← kS_eq]; exact (Cert.KernelIdeal.Val.res_s m g c).symm
  · rw [r_g_eq, hargs, ← eg, ← kG_eq]; exact (Cert.KernelIdeal.Val.res_g m g c).symm
  · rw [r_p_eq, hargs, ← ep, ← kP_eq]; exact (Cert.KernelIdeal.Val.res_p m g c).symm

end Cert.Alg

end
-- ==== Proof.lean ====
/- The proof of `Cert.Claim`: the two kernel programs' frames from the run of @main's 29 items (a segment per stretch of
   host operations and per kernel region; every argument array ends as launched), the reference's frame from its run as
   a sequence of host operations, the idealization's ledger (empty), and the equality of the two idealized programs'
   results as extended reals under finite inputs: both are one nine-layer composition, and layer by layer the kernel
   program's row-wise functions are the reference's operations. -/
import proofs.«173191_j73083163508880_2_alg».proof.Defs
import proofs.«173191_j73083163508880_2_alg».proof.Proof.Gen.Kernel
import proofs.«173191_j73083163508880_2_alg».proof.Proof.Gen.KernelIdeal
import proofs.«173191_j73083163508880_2_alg».proof.Proof.Gen.ReferenceIdeal
import proofs.«173191_j73083163508880_2_alg».proof.Proof.Gen.Pre_finite_inputs
import proofs.«173191_j73083163508880_2_alg».proof.Proof.K.Run
import proofs.«173191_j73083163508880_2_alg».proof.Proof.KI.Run
import proofs.«173191_j73083163508880_2_alg».proof.Proof.RefFrame
import proofs.«173191_j73083163508880_2_alg».proof.Proof.AlgJoin
import proofs.«173191_j73083163508880_2_alg».proof.Proof.AlgNet
import Idealize.ShloMosaic.Adequacy
import Idealize.ShloMosaic.Init

noncomputable section

namespace Cert.Proof

open Idealize.ShloMosaic Idealize.SL.Sem

theorem frame_k : Cert.frame_Kernel := fun m ρ _ => Cert.Kernel.Fr.frame m ρ
theorem frame_ki : Cert.frame_KernelIdeal := fun m ρ _ => Cert.KernelIdeal.Fr.frame m ρ
theorem preserves : Cert.preserves_Kernel_KernelIdeal := trivial
theorem algebraic : Cert.algebraic_KernelIdeal_ReferenceIdeal := Cert.Alg.algebraic_of Cert.Alg.hnet

theorem claim : Cert.Claim := ⟨Cert.Kernel.Gen.facts, Cert.KernelIdeal.Gen.facts, Cert.ReferenceIdeal.Gen.facts, Cert.Pre_finite_inputs.Gen.facts,
  frame_k, frame_ki, Cert.RefSide.frame_ri, preserves, algebraic⟩

end Cert.Proof

end
